-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))

def preserves_Kernel_KernelIdeal : Prop :=
  IdealRules.truncf_extf.Statement Cert.KernelIdeal.S1024x1 .f32 .bf16
  ∧ IdealRules.truncf_extf.Statement Cert.KernelIdeal.S1024x1024 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S16384x19 : Shape := ⟨2, ![16384, 19]⟩
abbrev S100000x64 : Shape := ⟨2, ![100000, 64]⟩
abbrev S4x8 : Shape := ⟨2, ![4, 8]⟩
abbrev S8x8 : Shape := ⟨2, ![8, 8]⟩
abbrev S32x16 : Shape := ⟨2, ![32, 16]⟩
abbrev S19x32 : Shape := ⟨2, ![19, 32]⟩
abbrev S32 : Shape := ⟨1, ![32]⟩
abbrev S2048x32 : Shape := ⟨2, ![2048, 32]⟩
abbrev S226x1024 : Shape := ⟨2, ![226, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S16384x19 : S_.BroadcastsInDim S16384x19 (![] : Fin 0 → Fin S16384x19.rank)
  reducesTo_S16384x19_S_d0_1 : S16384x19.ReducesTo [0, 1] S_
  h_S_ : 0 < S_.numel
  bcast_S_S16384 : S_.BroadcastsInDim S16384 (![] : Fin 0 → Fin S16384.rank)
  reducesTo_S16384_S_d0 : S16384.ReducesTo [0] S_
  bcast_S_S100000x64 : S_.BroadcastsInDim S100000x64 (![] : Fin 0 → Fin S100000x64.rank)
  reducesTo_S100000x64_S_d0_1 : S100000x64.ReducesTo [0, 1] S_
  bcast_S_S4x8 : S_.BroadcastsInDim S4x8 (![] : Fin 0 → Fin S4x8.rank)
  reducesTo_S4x8_S_d0_1 : S4x8.ReducesTo [0, 1] S_
  bcast_S_S8x8 : S_.BroadcastsInDim S8x8 (![] : Fin 0 → Fin S8x8.rank)
  reducesTo_S8x8_S_d0_1 : S8x8.ReducesTo [0, 1] S_
  bcast_S_S32x16 : S_.BroadcastsInDim S32x16 (![] : Fin 0 → Fin S32x16.rank)
  reducesTo_S32x16_S_d0_1 : S32x16.ReducesTo [0, 1] S_
  bcast_S_S19x32 : S_.BroadcastsInDim S19x32 (![] : Fin 0 → Fin S19x32.rank)
  reducesTo_S19x32_S_d0_1 : S19x32.ReducesTo [0, 1] S_
  bcast_S_S32 : S_.BroadcastsInDim S32 (![] : Fin 0 → Fin S32.rank)
  reducesTo_S32_S_d0 : S32.ReducesTo [0] S_
  bcast_S_S2048x32 : S_.BroadcastsInDim S2048x32 (![] : Fin 0 → Fin S2048x32.rank)
  reducesTo_S2048x32_S_d0_1 : S2048x32.ReducesTo [0, 1] S_
  bcast_S_S226x1024 : S_.BroadcastsInDim S226x1024 (![] : Fin 0 → Fin S226x1024.rank)
  reducesTo_S226x1024_S_d0_1 : S226x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_arg3 : IVec S16384 32) (main_arg4 : IVec S16384 32) (main_v169 : IVec S_ 1) (main_c_67 : IVec S_ 32) : IVec S_ 1 :=
  let main_v170 : IVec S16384 32 := broadcastInDim S16384 ![] bcast_S_S16384 main_c_67
  let main_v171 : IVec S16384 1 := cmpi .sge main_arg3 main_v170
  let main_c_68 : IVec S_ 32 := constantI S_ 32 31#32
  let main_v172 : IVec S16384 32 := broadcastInDim S16384 ![] bcast_S_S16384 main_c_68
  let main_v173 : IVec S16384 1 := cmpi .sle main_arg3 main_v172
  let main_v174 : IVec S16384 1 := andi main_v171 main_v173
  let main_c_69 : IVec S_ 1 := constantI S_ 1 1#1
  let main_v175 : IVec S_ 1 := (fun x v => Host.reduce IntOp.andi x v reducesTo_S16384_S_d0 h_S_) main_v174 main_c_69
  let main_v176 : IVec S_ 1 := andi main_v169 main_v175
  let main_c_70 : IVec S_ 32 := constantI S_ 32 0#32
  let main_v177 : IVec S16384 32 := broadcastInDim S16384 ![] bcast_S_S16384 main_c_70
  let main_v178 : IVec S16384 1 := cmpi .sge main_arg4 main_v177
  let main_c_71 : IVec S_ 32 := constantI S_ 32 99999#32
  let main_v179 : IVec S16384 32 := broadcastInDim S16384 ![] bcast_S_S16384 main_c_71
  let main_v180 : IVec S16384 1 := cmpi .sle main_arg4 main_v179
  let main_v181 : IVec S16384 1 := andi main_v178 main_v180
  let main_c_72 : IVec S_ 1 := constantI S_ 1 1#1
  let main_v182 : IVec S_ 1 := (fun x v => Host.reduce IntOp.andi x v reducesTo_S16384_S_d0 h_S_) main_v181 main_c_72
  let main_v183 : IVec S_ 1 := andi main_v176 main_v182
  main_v183

def fn_part9 {F : FTy → Type} [FloatOps F] (main_arg1 : IVec S16384 32) (main_arg2 : IVec S16384 32) (main_arg3 : IVec S16384 32) (main_arg4 : IVec S16384 32) (main_v148 : IVec S_ 1) (main_v153 : IVec S16384 1) : IVec S_ 1 :=
  let main_c_60 : IVec S_ 1 := constantI S_ 1 1#1
  let main_v154 : IVec S_ 1 := (fun x v => Host.reduce IntOp.andi x v reducesTo_S16384_S_d0 h_S_) main_v153 main_c_60
  let main_v155 : IVec S_ 1 := andi main_v148 main_v154
  let main_c_61 : IVec S_ 32 := constantI S_ 32 0#32
  let main_v156 : IVec S16384 32 := broadcastInDim S16384 ![] bcast_S_S16384 main_c_61
  let main_v157 : IVec S16384 1 := cmpi .sge main_arg1 main_v156
  let main_c_62 : IVec S_ 32 := constantI S_ 32 3#32
  let main_v158 : IVec S16384 32 := broadcastInDim S16384 ![] bcast_S_S16384 main_c_62
  let main_v159 : IVec S16384 1 := cmpi .sle main_arg1 main_v158
  let main_v160 : IVec S16384 1 := andi main_v157 main_v159
  let main_c_63 : IVec S_ 1 := constantI S_ 1 1#1
  let main_v161 : IVec S_ 1 := (fun x v => Host.reduce IntOp.andi x v reducesTo_S16384_S_d0 h_S_) main_v160 main_c_63
  let main_v162 : IVec S_ 1 := andi main_v155 main_v161
  let main_c_64 : IVec S_ 32 := constantI S_ 32 0#32
  let main_v163 : IVec S16384 32 := broadcastInDim S16384 ![] bcast_S_S16384 main_c_64
  let main_v164 : IVec S16384 1 := cmpi .sge main_arg2 main_v163
  let main_c_65 : IVec S_ 32 := constantI S_ 32 7#32
  let main_v165 : IVec S16384 32 := broadcastInDim S16384 ![] bcast_S_S16384 main_c_65
  let main_v166 : IVec S16384 1 := cmpi .sle main_arg2 main_v165
  let main_v167 : IVec S16384 1 := andi main_v164 main_v166
  let main_c_66 : IVec S_ 1 := constantI S_ 1 1#1
  let main_v168 : IVec S_ 1 := (fun x v => Host.reduce IntOp.andi x v reducesTo_S16384_S_d0 h_S_) main_v167 main_c_66
  let main_v169 : IVec S_ 1 := andi main_v162 main_v168
  let main_c_67 : IVec S_ 32 := constantI S_ 32 0#32
  fn_part10 (F := F) main_arg3 main_arg4 main_v169 main_c_67

def fn_part8 {F : FTy → Type} [FloatOps F] (main_arg0 : IVec S16384 32) (main_arg1 : IVec S16384 32) (main_arg2 : IVec S16384 32) (main_arg3 : IVec S16384 32) (main_arg4 : IVec S16384 32) (main_arg33 : FVec F S512x1 .f32) (main_arg34 : FVec F S1 .f32) (main_v133 : IVec S_ 1) (main_v136 : IVec S512 1) : IVec S_ 1 :=
  let main_c_53 : IVec S_ 1 := constantI S_ 1 1#1
  let main_v137 : IVec S_ 1 := (fun x v => Host.reduce IntOp.andi x v reducesTo_S512_S_d0 h_S_) main_v136 main_c_53
  let main_v138 : IVec S_ 1 := andi main_v133 main_v137
  let main_v139 : FVec F S512x1 .f32 := Host.absf main_arg33
  let main_cst_54 : FVec F S_ .f32 := constant S_ .f32 0x7F800000#32
  let main_v140 : FVec F S512x1 .f32 := broadcastInDim S512x1 ![] bcast_S_S512x1 main_cst_54
  let main_v141 : IVec S512x1 1 := cmpf .olt main_v139 main_v140
  let main_c_55 : IVec S_ 1 := constantI S_ 1 1#1
  let main_v142 : IVec S_ 1 := (fun x v => Host.reduce IntOp.andi x v reducesTo_S512x1_S_d0_1 h_S_) main_v141 main_c_55
  let main_v143 : IVec S_ 1 := andi main_v138 main_v142
  let main_v144 : FVec F S1 .f32 := Host.absf main_arg34
  let main_cst_56 : FVec F S_ .f32 := constant S_ .f32 0x7F800000#32
  let main_v145 : FVec F S1 .f32 := broadcastInDim S1 ![] bcast_S_S1 main_cst_56
  let main_v146 : IVec S1 1 := cmpf .olt main_v144 main_v145
  let main_c_57 : IVec S_ 1 := constantI S_ 1 1#1
  let main_v147 : IVec S_ 1 := (fun x v => Host.reduce IntOp.andi x v reducesTo_S1_S_d0 h_S_) main_v146 main_c_57
  let main_v148 : IVec S_ 1 := andi main_v143 main_v147
  let main_c_58 : IVec S_ 32 := constantI S_ 32 0#32
  let main_v149 : IVec S16384 32 := broadcastInDim S16384 ![] bcast_S_S16384 main_c_58
  let main_v150 : IVec S16384 1 := cmpi .sge main_arg0 main_v149
  let main_c_59 : IVec S_ 32 := constantI S_ 32 99999#32
  let main_v151 : IVec S16384 32 := broadcastInDim S16384 ![] bcast_S_S16384 main_c_59
  let main_v152 : IVec S16384 1 := cmpi .sle main_arg0 main_v151
  let main_v153 : IVec S16384 1 := andi main_v150 main_v152
  fn_part9 (F := F) main_arg1 main_arg2 main_arg3 main_arg4 main_v148 main_v153

def fn_part7 {F : FTy → Type} [FloatOps F] (main_arg0 : IVec S16384 32) (main_arg1 : IVec S16384 32) (main_arg2 : IVec S16384 32) (main_arg3 : IVec S16384 32) (main_arg4 : IVec S16384 32) (main_arg30 : FVec F S512 .f32) (main_arg31 : FVec F S1024x512 .f32) (main_arg32 : FVec F S512 .f32) (main_arg33 : FVec F S512x1 .f32) (main_arg34 : FVec F S1 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_v124 : FVec F S512 .f32 := Host.absf main_arg30
  let main_cst_48 : FVec F S_ .f32 := constant S_ .f32 0x7F800000#32
  let main_v125 : FVec F S512 .f32 := broadcastInDim S512 ![] bcast_S_S512 main_cst_48
  let main_v126 : IVec S512 1 := cmpf .olt main_v124 main_v125
  let main_c_49 : IVec S_ 1 := constantI S_ 1 1#1
  let main_v127 : IVec S_ 1 := (fun x v => Host.reduce IntOp.andi x v reducesTo_S512_S_d0 h_S_) main_v126 main_c_49
  let main_v128 : IVec S_ 1 := andi main_v123 main_v127
  let main_v129 : FVec F S1024x512 .f32 := Host.absf main_arg31
  let main_cst_50 : FVec F S_ .f32 := constant S_ .f32 0x7F800000#32
  let main_v130 : FVec F S1024x512 .f32 := broadcastInDim S1024x512 ![] bcast_S_S1024x512 main_cst_50
  let main_v131 : IVec S1024x512 1 := cmpf .olt main_v129 main_v130
  let main_c_51 : IVec S_ 1 := constantI S_ 1 1#1
  let main_v132 : IVec S_ 1 := (fun x v => Host.reduce IntOp.andi x v reducesTo_S1024x512_S_d0_1 h_S_) main_v131 main_c_51
  let main_v133 : IVec S_ 1 := andi main_v128 main_v132
  let main_v134 : FVec F S512 .f32 := Host.absf main_arg32
  let main_cst_52 : FVec F S_ .f32 := constant S_ .f32 0x7F800000#32
  let main_v135 : FVec F S512 .f32 := broadcastInDim S512 ![] bcast_S_S512 main_cst_52
  let main_v136 : IVec S512 1 := cmpf .olt main_v134 main_v135
  fn_part8 (F := F) main_arg0 main_arg1 main_arg2 main_arg3 main_arg4 main_arg33 main_arg34 main_v133 main_v136

def fn_part6 {F : FTy → Type} [FloatOps F] (main_arg0 : IVec S16384 32) (main_arg1 : IVec S16384 32) (main_arg2 : IVec S16384 32) (main_arg3 : IVec S16384 32) (main_arg4 : IVec S16384 32) (main_arg26 : FVec F S1024 .f32) (main_arg27 : FVec F S1024x512 .f32) (main_arg28 : FVec F S512 .f32) (main_arg29 : FVec F S512 .f32) (main_arg30 : FVec F S512 .f32) (main_arg31 : FVec F S1024x512 .f32) (main_arg32 : FVec F S512 .f32) (main_arg33 : FVec F S512x1 .f32) (main_arg34 : FVec F S1 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024 .f32 := Host.absf main_arg26
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  let main_v109 : FVec F S1024x512 .f32 := Host.absf main_arg27
  let main_cst_42 : FVec F S_ .f32 := constant S_ .f32 0x7F800000#32
  let main_v110 : FVec F S1024x512 .f32 := broadcastInDim S1024x512 ![] bcast_S_S1024x512 main_cst_42
  let main_v111 : IVec S1024x512 1 := cmpf .olt main_v109 main_v110
  let main_c_43 : IVec S_ 1 := constantI S_ 1 1#1
  let main_v112 : IVec S_ 1 := (fun x v => Host.reduce IntOp.andi x v reducesTo_S1024x512_S_d0_1 h_S_) main_v111 main_c_43
  let main_v113 : IVec S_ 1 := andi main_v108 main_v112
  let main_v114 : FVec F S512 .f32 := Host.absf main_arg28
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  let main_v119 : FVec F S512 .f32 := Host.absf main_arg29
  fn_part7 (F := F) main_arg0 main_arg1 main_arg2 main_arg3 main_arg4 main_arg30 main_arg31 main_arg32 main_arg33 main_arg34 main_v118 main_v119

def fn_part5 {F : FTy → Type} [FloatOps F] (main_arg0 : IVec S16384 32) (main_arg1 : IVec S16384 32) (main_arg2 : IVec S16384 32) (main_arg3 : IVec S16384 32) (main_arg4 : IVec S16384 32) (main_arg23 : FVec F S1024x1024 .f32) (main_arg24 : FVec F S1024 .f32) (main_arg25 : FVec F S1024 .f32) (main_arg26 : FVec F S1024 .f32) (main_arg27 : FVec F S1024x512 .f32) (main_arg28 : FVec F S512 .f32) (main_arg29 : FVec F S512 .f32) (main_arg30 : FVec F S512 .f32) (main_arg31 : FVec F S1024x512 .f32) (main_arg32 : FVec F S512 .f32) (main_arg33 : FVec F S512x1 .f32) (main_arg34 : FVec F S1 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024x1024 .f32 := Host.absf main_arg23
  let main_cst_34 : FVec F S_ .f32 := constant S_ .f32 0x7F800000#32
  let main_v90 : FVec F S1024x1024 .f32 := broadcastInDim S1024x1024 ![] bcast_S_S1024x1024 main_cst_34
  let main_v91 : IVec S1024x1024 1 := cmpf .olt main_v89 main_v90
  let main_c_35 : IVec S_ 1 := constantI S_ 1 1#1
  let main_v92 : IVec S_ 1 := (fun x v => Host.reduce IntOp.andi x v reducesTo_S1024x1024_S_d0_1 h_S_) main_v91 main_c_35
  let main_v93 : IVec S_ 1 := andi main_v88 main_v92
  let main_v94 : FVec F S1024 .f32 := Host.absf main_arg24
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024 .f32 := Host.absf main_arg25
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg0 main_arg1 main_arg2 main_arg3 main_arg4 main_arg26 main_arg27 main_arg28 main_arg29 main_arg30 main_arg31 main_arg32 main_arg33 main_arg34 main_v98 main_v101 main_c_39

def fn_part4 {F : FTy → Type} [FloatOps F] (main_arg0 : IVec S16384 32) (main_arg1 : IVec S16384 32) (main_arg2 : IVec S16384 32) (main_arg3 : IVec S16384 32) (main_arg4 : IVec S16384 32) (main_arg19 : FVec F S1024 .f32) (main_arg20 : FVec F S1024 .f32) (main_arg21 : FVec F S226x1024 .f32) (main_arg22 : FVec F S1024 .f32) (main_arg23 : FVec F S1024x1024 .f32) (main_arg24 : FVec F S1024 .f32) (main_arg25 : FVec F S1024 .f32) (main_arg26 : FVec F S1024 .f32) (main_arg27 : FVec F S1024x512 .f32) (main_arg28 : FVec F S512 .f32) (main_arg29 : FVec F S512 .f32) (main_arg30 : FVec F S512 .f32) (main_arg31 : FVec F S1024x512 .f32) (main_arg32 : FVec F S512 .f32) (main_arg33 : FVec F S512x1 .f32) (main_arg34 : FVec F S1 .f32) (main_v63 : IVec S_ 1) (main_v67 : IVec S_ 1) : IVec S_ 1 :=
  let main_v68 : IVec S_ 1 := andi main_v63 main_v67
  let main_v69 : FVec F S1024 .f32 := Host.absf main_arg19
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg20
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S226x1024 .f32 := Host.absf main_arg21
  let main_cst_30 : FVec F S_ .f32 := constant S_ .f32 0x7F800000#32
  let main_v80 : FVec F S226x1024 .f32 := broadcastInDim S226x1024 ![] bcast_S_S226x1024 main_cst_30
  let main_v81 : IVec S226x1024 1 := cmpf .olt main_v79 main_v80
  let main_c_31 : IVec S_ 1 := constantI S_ 1 1#1
  let main_v82 : IVec S_ 1 := (fun x v => Host.reduce IntOp.andi x v reducesTo_S226x1024_S_d0_1 h_S_) main_v81 main_c_31
  let main_v83 : IVec S_ 1 := andi main_v78 main_v82
  let main_v84 : FVec F S1024 .f32 := Host.absf main_arg22
  let main_cst_32 : FVec F S_ .f32 := constant S_ .f32 0x7F800000#32
  fn_part5 (F := F) main_arg0 main_arg1 main_arg2 main_arg3 main_arg4 main_arg23 main_arg24 main_arg25 main_arg26 main_arg27 main_arg28 main_arg29 main_arg30 main_arg31 main_arg32 main_arg33 main_arg34 main_v83 main_v84 main_cst_32

def fn_part3 {F : FTy → Type} [FloatOps F] (main_arg0 : IVec S16384 32) (main_arg1 : IVec S16384 32) (main_arg2 : IVec S16384 32) (main_arg3 : IVec S16384 32) (main_arg4 : IVec S16384 32) (main_arg16 : FVec F S32 .f32) (main_arg17 : FVec F S226x1024 .f32) (main_arg18 : FVec F S1024 .f32) (main_arg19 : FVec F S1024 .f32) (main_arg20 : FVec F S1024 .f32) (main_arg21 : FVec F S226x1024 .f32) (main_arg22 : FVec F S1024 .f32) (main_arg23 : FVec F S1024x1024 .f32) (main_arg24 : FVec F S1024 .f32) (main_arg25 : FVec F S1024 .f32) (main_arg26 : FVec F S1024 .f32) (main_arg27 : FVec F S1024x512 .f32) (main_arg28 : FVec F S512 .f32) (main_arg29 : FVec F S512 .f32) (main_arg30 : FVec F S512 .f32) (main_arg31 : FVec F S1024x512 .f32) (main_arg32 : FVec F S512 .f32) (main_arg33 : FVec F S512x1 .f32) (main_arg34 : FVec F S1 .f32) (main_v48 : IVec S_ 1) (main_v49 : FVec F S2048x32 .f32) (main_v50 : FVec F S2048x32 .f32) : IVec S_ 1 :=
  let main_v51 : IVec S2048x32 1 := cmpf .olt main_v49 main_v50
  let main_c_19 : IVec S_ 1 := constantI S_ 1 1#1
  let main_v52 : IVec S_ 1 := (fun x v => Host.reduce IntOp.andi x v reducesTo_S2048x32_S_d0_1 h_S_) main_v51 main_c_19
  let main_v53 : IVec S_ 1 := andi main_v48 main_v52
  let main_v54 : FVec F S32 .f32 := Host.absf main_arg16
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S226x1024 .f32 := Host.absf main_arg17
  let main_cst_22 : FVec F S_ .f32 := constant S_ .f32 0x7F800000#32
  let main_v60 : FVec F S226x1024 .f32 := broadcastInDim S226x1024 ![] bcast_S_S226x1024 main_cst_22
  let main_v61 : IVec S226x1024 1 := cmpf .olt main_v59 main_v60
  let main_c_23 : IVec S_ 1 := constantI S_ 1 1#1
  let main_v62 : IVec S_ 1 := (fun x v => Host.reduce IntOp.andi x v reducesTo_S226x1024_S_d0_1 h_S_) main_v61 main_c_23
  let main_v63 : IVec S_ 1 := andi main_v58 main_v62
  let main_v64 : FVec F S1024 .f32 := Host.absf main_arg18
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg0 main_arg1 main_arg2 main_arg3 main_arg4 main_arg19 main_arg20 main_arg21 main_arg22 main_arg23 main_arg24 main_arg25 main_arg26 main_arg27 main_arg28 main_arg29 main_arg30 main_arg31 main_arg32 main_arg33 main_arg34 main_v63 main_v67

def fn_part2 {F : FTy → Type} [FloatOps F] (main_arg0 : IVec S16384 32) (main_arg1 : IVec S16384 32) (main_arg2 : IVec S16384 32) (main_arg3 : IVec S16384 32) (main_arg4 : IVec S16384 32) (main_arg12 : FVec F S100000x64 .f32) (main_arg13 : FVec F S19x32 .f32) (main_arg14 : FVec F S32 .f32) (main_arg15 : FVec F S2048x32 .f32) (main_arg16 : FVec F S32 .f32) (main_arg17 : FVec F S226x1024 .f32) (main_arg18 : FVec F S1024 .f32) (main_arg19 : FVec F S1024 .f32) (main_arg20 : FVec F S1024 .f32) (main_arg21 : FVec F S226x1024 .f32) (main_arg22 : FVec F S1024 .f32) (main_arg23 : FVec F S1024x1024 .f32) (main_arg24 : FVec F S1024 .f32) (main_arg25 : FVec F S1024 .f32) (main_arg26 : FVec F S1024 .f32) (main_arg27 : FVec F S1024x512 .f32) (main_arg28 : FVec F S512 .f32) (main_arg29 : FVec F S512 .f32) (main_arg30 : FVec F S512 .f32) (main_arg31 : FVec F S1024x512 .f32) (main_arg32 : FVec F S512 .f32) (main_arg33 : FVec F S512x1 .f32) (main_arg34 : FVec F S1 .f32) (main_v33 : IVec S_ 1) : IVec S_ 1 :=
  let main_v34 : FVec F S100000x64 .f32 := Host.absf main_arg12
  let main_cst_12 : FVec F S_ .f32 := constant S_ .f32 0x7F800000#32
  let main_v35 : FVec F S100000x64 .f32 := broadcastInDim S100000x64 ![] bcast_S_S100000x64 main_cst_12
  let main_v36 : IVec S100000x64 1 := cmpf .olt main_v34 main_v35
  let main_c_13 : IVec S_ 1 := constantI S_ 1 1#1
  let main_v37 : IVec S_ 1 := (fun x v => Host.reduce IntOp.andi x v reducesTo_S100000x64_S_d0_1 h_S_) main_v36 main_c_13
  let main_v38 : IVec S_ 1 := andi main_v33 main_v37
  let main_v39 : FVec F S19x32 .f32 := Host.absf main_arg13
  let main_cst_14 : FVec F S_ .f32 := constant S_ .f32 0x7F800000#32
  let main_v40 : FVec F S19x32 .f32 := broadcastInDim S19x32 ![] bcast_S_S19x32 main_cst_14
  let main_v41 : IVec S19x32 1 := cmpf .olt main_v39 main_v40
  let main_c_15 : IVec S_ 1 := constantI S_ 1 1#1
  let main_v42 : IVec S_ 1 := (fun x v => Host.reduce IntOp.andi x v reducesTo_S19x32_S_d0_1 h_S_) main_v41 main_c_15
  let main_v43 : IVec S_ 1 := andi main_v38 main_v42
  let main_v44 : FVec F S32 .f32 := Host.absf main_arg14
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S2048x32 .f32 := Host.absf main_arg15
  let main_cst_18 : FVec F S_ .f32 := constant S_ .f32 0x7F800000#32
  let main_v50 : FVec F S2048x32 .f32 := broadcastInDim S2048x32 ![] bcast_S_S2048x32 main_cst_18
  fn_part3 (F := F) main_arg0 main_arg1 main_arg2 main_arg3 main_arg4 main_arg16 main_arg17 main_arg18 main_arg19 main_arg20 main_arg21 main_arg22 main_arg23 main_arg24 main_arg25 main_arg26 main_arg27 main_arg28 main_arg29 main_arg30 main_arg31 main_arg32 main_arg33 main_arg34 main_v48 main_v49 main_v50

def fn_part1 {F : FTy → Type} [FloatOps F] (main_arg0 : IVec S16384 32) (main_arg1 : IVec S16384 32) (main_arg2 : IVec S16384 32) (main_arg3 : IVec S16384 32) (main_arg4 : IVec S16384 32) (main_arg9 : FVec F S4x8 .f32) (main_arg10 : FVec F S8x8 .f32) (main_arg11 : FVec F S32x16 .f32) (main_arg12 : FVec F S100000x64 .f32) (main_arg13 : FVec F S19x32 .f32) (main_arg14 : FVec F S32 .f32) (main_arg15 : FVec F S2048x32 .f32) (main_arg16 : FVec F S32 .f32) (main_arg17 : FVec F S226x1024 .f32) (main_arg18 : FVec F S1024 .f32) (main_arg19 : FVec F S1024 .f32) (main_arg20 : FVec F S1024 .f32) (main_arg21 : FVec F S226x1024 .f32) (main_arg22 : FVec F S1024 .f32) (main_arg23 : FVec F S1024x1024 .f32) (main_arg24 : FVec F S1024 .f32) (main_arg25 : FVec F S1024 .f32) (main_arg26 : FVec F S1024 .f32) (main_arg27 : FVec F S1024x512 .f32) (main_arg28 : FVec F S512 .f32) (main_arg29 : FVec F S512 .f32) (main_arg30 : FVec F S512 .f32) (main_arg31 : FVec F S1024x512 .f32) (main_arg32 : FVec F S512 .f32) (main_arg33 : FVec F S512x1 .f32) (main_arg34 : FVec F S1 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S4x8 .f32 := Host.absf main_arg9
  let main_cst_6 : FVec F S_ .f32 := constant S_ .f32 0x7F800000#32
  let main_v20 : FVec F S4x8 .f32 := broadcastInDim S4x8 ![] bcast_S_S4x8 main_cst_6
  let main_v21 : IVec S4x8 1 := cmpf .olt main_v19 main_v20
  let main_c_7 : IVec S_ 1 := constantI S_ 1 1#1
  let main_v22 : IVec S_ 1 := (fun x v => Host.reduce IntOp.andi x v reducesTo_S4x8_S_d0_1 h_S_) main_v21 main_c_7
  let main_v23 : IVec S_ 1 := andi main_v18 main_v22
  let main_v24 : FVec F S8x8 .f32 := Host.absf main_arg10
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S32x16 .f32 := Host.absf main_arg11
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg0 main_arg1 main_arg2 main_arg3 main_arg4 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v33

def fn {F : FTy → Type} [FloatOps F] (main_arg0 : IVec S16384 32) (main_arg1 : IVec S16384 32) (main_arg2 : IVec S16384 32) (main_arg3 : IVec S16384 32) (main_arg4 : IVec S16384 32) (main_arg5 : FVec F S16384x19 .f32) (main_arg6 : FVec F S16384 .f32) (main_arg7 : FVec F S16384 .f32) (main_arg8 : FVec F S100000x64 .f32) (main_arg9 : FVec F S4x8 .f32) (main_arg10 : FVec F S8x8 .f32) (main_arg11 : FVec F S32x16 .f32) (main_arg12 : FVec F S100000x64 .f32) (main_arg13 : FVec F S19x32 .f32) (main_arg14 : FVec F S32 .f32) (main_arg15 : FVec F S2048x32 .f32) (main_arg16 : FVec F S32 .f32) (main_arg17 : FVec F S226x1024 .f32) (main_arg18 : FVec F S1024 .f32) (main_arg19 : FVec F S1024 .f32) (main_arg20 : FVec F S1024 .f32) (main_arg21 : FVec F S226x1024 .f32) (main_arg22 : FVec F S1024 .f32) (main_arg23 : FVec F S1024x1024 .f32) (main_arg24 : FVec F S1024 .f32) (main_arg25 : FVec F S1024 .f32) (main_arg26 : FVec F S1024 .f32) (main_arg27 : FVec F S1024x512 .f32) (main_arg28 : FVec F S512 .f32) (main_arg29 : FVec F S512 .f32) (main_arg30 : FVec F S512 .f32) (main_arg31 : FVec F S1024x512 .f32) (main_arg32 : FVec F S512 .f32) (main_arg33 : FVec F S512x1 .f32) (main_arg34 : FVec F S1 .f32) : IVec S_ 1 :=
  let main_v0 : FVec F S16384x19 .f32 := Host.absf main_arg5
  let main_cst : FVec F S_ .f32 := constant S_ .f32 0x7F800000#32
  let main_v1 : FVec F S16384x19 .f32 := broadcastInDim S16384x19 ![] bcast_S_S16384x19 main_cst
  let main_v2 : IVec S16384x19 1 := cmpf .olt main_v0 main_v1
  let main_c : IVec S_ 1 := constantI S_ 1 1#1
  let main_v3 : IVec S_ 1 := (fun x v => Host.reduce IntOp.andi x v reducesTo_S16384x19_S_d0_1 h_S_) main_v2 main_c
  let main_v4 : FVec F S16384 .f32 := Host.absf main_arg6
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg7
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S100000x64 .f32 := Host.absf main_arg8
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg0 main_arg1 main_arg2 main_arg3 main_arg4 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_v13 main_v16
-- ==== Kernel.lean ====
abbrev S16384 : Shape := ⟨1, ![16384]⟩
abbrev S16384x19 : Shape := ⟨2, ![16384, 19]⟩
abbrev S100000x64 : Shape := ⟨2, ![100000, 64]⟩
abbrev S4x8 : Shape := ⟨2, ![4, 8]⟩
abbrev S8x8 : Shape := ⟨2, ![8, 8]⟩
abbrev S32x16 : Shape := ⟨2, ![32, 16]⟩
abbrev S19x32 : Shape := ⟨2, ![19, 32]⟩
abbrev S32 : Shape := ⟨1, ![32]⟩
abbrev S2048x32 : Shape := ⟨2, ![2048, 32]⟩
abbrev S226x1024 : Shape := ⟨2, ![226, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S49152 : Shape := ⟨1, ![49152]⟩
abbrev S100000x128 : Shape := ⟨2, ![100000, 128]⟩
abbrev S1024x1 : Shape := ⟨2, ![1024, 1]⟩
abbrev S1024x8 : Shape := ⟨2, ![1024, 8]⟩
abbrev S1024x16 : Shape := ⟨2, ![1024, 16]⟩
abbrev S1024x96 : Shape := ⟨2, ![1024, 96]⟩
abbrev S1024x128 : Shape := ⟨2, ![1024, 128]⟩
abbrev S16384x128 : Shape := ⟨2, ![16384, 128]⟩
abbrev S512x128 : Shape := ⟨2, ![512, 128]⟩
abbrev S64x1024 : Shape := ⟨2, ![64, 1024]⟩
abbrev S32x1 : Shape := ⟨2, ![32, 1]⟩
abbrev S1x1024 : Shape := ⟨2, ![1, 1024]⟩
abbrev S32x1024 : Shape := ⟨2, ![32, 1024]⟩
abbrev S128x1024 : Shape := ⟨2, ![128, 1024]⟩
abbrev S1x32 : Shape := ⟨2, ![1, 32]⟩
abbrev S1024x32 : Shape := ⟨2, ![1024, 32]⟩
abbrev S19x128 : Shape := ⟨2, ![19, 128]⟩
abbrev S1x128 : Shape := ⟨2, ![1, 128]⟩
abbrev S29x1024 : Shape := ⟨2, ![29, 1024]⟩
abbrev S256x1024 : Shape := ⟨2, ![256, 1024]⟩
abbrev S16384x1 : Shape := ⟨2, ![16384, 1]⟩
abbrev S16384x256 : Shape := ⟨2, ![16384, 256]⟩
abbrev S1024x19 : Shape := ⟨2, ![1024, 19]⟩
abbrev S1024x256 : Shape := ⟨2, ![1024, 256]⟩
abbrev S1024x64 : Shape := ⟨2, ![1024, 64]⟩
abbrev S1024x29 : Shape := ⟨2, ![1024, 29]⟩
abbrev S16384x1024 : Shape := ⟨2, ![16384, 1024]⟩
abbrev S1x512 : Shape := ⟨2, ![1, 512]⟩
abbrev S16384x512 : Shape := ⟨2, ![16384, 512]⟩
abbrev S1x1 : Shape := ⟨2, ![1, 1]⟩
abbrev S2048x512 : Shape := ⟨2, ![2048, 512]⟩
abbrev S2048x1 : Shape := ⟨2, ![2048, 1]⟩
abbrev S2048 : Shape := ⟨1, ![2048]⟩

abbrev nBuf : Table → Nat
  | .hbm => 282
  | .local .tc .vmem => 72
  | .local .scVector .vmem => 2
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384x19, .f32⟩
  | 6 => ⟨S16384, .f32⟩
  | 7 => ⟨S16384, .f32⟩
  | 8 => ⟨S100000x64, .f32⟩
  | 9 => ⟨S4x8, .f32⟩
  | 10 => ⟨S8x8, .f32⟩
  | 11 => ⟨S32x16, .f32⟩
  | 12 => ⟨S100000x64, .f32⟩
  | 13 => ⟨S19x32, .f32⟩
  | 14 => ⟨S32, .f32⟩
  | 15 => ⟨S2048x32, .f32⟩
  | 16 => ⟨S32, .f32⟩
  | 17 => ⟨S226x1024, .f32⟩
  | 18 => ⟨S1024, .f32⟩
  | 19 => ⟨S1024, .f32⟩
  | 20 => ⟨S1024, .f32⟩
  | 21 => ⟨S226x1024, .f32⟩
  | 22 => ⟨S1024, .f32⟩
  | 23 => ⟨S1024x1024, .f32⟩
  | 24 => ⟨S1024, .f32⟩
  | 25 => ⟨S1024, .f32⟩
  | 26 => ⟨S1024, .f32⟩
  | 27 => ⟨S1024x512, .f32⟩
  | 28 => ⟨S512, .f32⟩
  | 29 => ⟨S512, .f32⟩
  | 30 => ⟨S512, .f32⟩
  | 31 => ⟨S1024x512, .f32⟩
  | 32 => ⟨S512, .f32⟩
  | 33 => ⟨S512x1, .f32⟩
  | 34 => ⟨S1, .f32⟩
  | 35 => ⟨S_, .i32⟩
  | 36 => ⟨S16384, .i32⟩
  | 37 => ⟨S16384, .i32⟩
  | 38 => ⟨S_, .i32⟩
  | 39 => ⟨S16384, .i32⟩
  | 40 => ⟨S16384, .i32⟩
  | 41 => ⟨S16384, .i32⟩
  | 42 => ⟨S16384, .i32⟩
  | 43 => ⟨S49152, .i32⟩
  | 44 => ⟨S100000x128, .f32⟩
  | 45 => ⟨S1024, .i32⟩
  | 46 => ⟨S_, .i32⟩
  | 47 => ⟨S_, .i32⟩
  | 48 => ⟨S1024, .i32⟩
  | 49 => ⟨S1024, .i32⟩
  | 50 => ⟨S1024, .i32⟩
  | 51 => ⟨S_, .i32⟩
  | 52 => ⟨S1024, .i32⟩
  | 53 => ⟨S1024, .i1⟩
  | 54 => ⟨S1024, .i32⟩
  | 55 => ⟨S1024, .i32⟩
  | 56 => ⟨S_, .i32⟩
  | 57 => ⟨S1024, .i32⟩
  | 58 => ⟨S1024, .i1⟩
  | 59 => ⟨S1024, .i1⟩
  | 60 => ⟨S_, .i32⟩
  | 61 => ⟨S1024, .i32⟩
  | 62 => ⟨S1024, .i32⟩
  | 63 => ⟨S1024, .i32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S1024x1, .i32⟩
  | 72 => ⟨S1024x8, .f32⟩
  | 73 => ⟨S_, .i32⟩
  | 74 => ⟨S_, .i32⟩
  | 75 => ⟨S1024, .i32⟩
  | 76 => ⟨S1024, .i32⟩
  | 77 => ⟨S1024, .i32⟩
  | 78 => ⟨S_, .i32⟩
  | 79 => ⟨S1024, .i32⟩
  | 80 => ⟨S1024, .i1⟩
  | 81 => ⟨S1024, .i32⟩
  | 82 => ⟨S1024, .i32⟩
  | 83 => ⟨S_, .i32⟩
  | 84 => ⟨S1024, .i32⟩
  | 85 => ⟨S1024, .i1⟩
  | 86 => ⟨S1024, .i1⟩
  | 87 => ⟨S_, .i32⟩
  | 88 => ⟨S1024, .i32⟩
  | 89 => ⟨S1024, .i32⟩
  | 90 => ⟨S1024, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S1024, .i32⟩
  | 98 => ⟨S1024, .i32⟩
  | 99 => ⟨S_, .i32⟩
  | 100 => ⟨S1024, .i32⟩
  | 101 => ⟨S1024, .i1⟩
  | 102 => ⟨S_, .i32⟩
  | 103 => ⟨S1024, .i32⟩
  | 104 => ⟨S1024, .i1⟩
  | 105 => ⟨S_, .i32⟩
  | 106 => ⟨S_, .i1⟩
  | 107 => ⟨S1024, .i1⟩
  | 108 => ⟨S1024, .i1⟩
  | 109 => ⟨S1024, .i1⟩
  | 110 => ⟨S1024, .i32⟩
  | 111 => ⟨S1024, .i32⟩
  | 112 => ⟨S1024, .i32⟩
  | 113 => ⟨S_, .i32⟩
  | 114 => ⟨S1024, .i32⟩
  | 115 => ⟨S1024, .i1⟩
  | 116 => ⟨S_, .i32⟩
  | 117 => ⟨S1024, .i32⟩
  | 118 => ⟨S1024, .i32⟩
  | 119 => ⟨S1024, .i32⟩
  | 120 => ⟨S1024x1, .i32⟩
  | 121 => ⟨S1024x8, .f32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S16384, .i32⟩

abbrev hbmTy0_1 (i : Nat) : BufTy := match i % 128 with
  | 0 => ⟨S1024, .i32⟩
  | 1 => ⟨S1024, .i32⟩
  | 2 => ⟨S_, .i32⟩
  | 3 => ⟨S1024, .i32⟩
  | 4 => ⟨S1024, .i1⟩
  | 5 => ⟨S_, .i32⟩
  | 6 => ⟨S1024, .i32⟩
  | 7 => ⟨S1024, .i1⟩
  | 8 => ⟨S_, .i32⟩
  | 9 => ⟨S_, .i1⟩
  | 10 => ⟨S1024, .i1⟩
  | 11 => ⟨S1024, .i1⟩
  | 12 => ⟨S1024, .i1⟩
  | 13 => ⟨S1024, .i32⟩
  | 14 => ⟨S1024, .i32⟩
  | 15 => ⟨S1024, .i32⟩
  | 16 => ⟨S_, .i32⟩
  | 17 => ⟨S1024, .i32⟩
  | 18 => ⟨S1024, .i1⟩
  | 19 => ⟨S_, .i32⟩
  | 20 => ⟨S1024, .i32⟩
  | 21 => ⟨S1024, .i32⟩
  | 22 => ⟨S1024, .i32⟩
  | 23 => ⟨S1024x1, .i32⟩
  | 24 => ⟨S1024x16, .f32⟩
  | 25 => ⟨S_, .f32⟩
  | 26 => ⟨S1024x96, .f32⟩
  | 27 => ⟨S1024x128, .f32⟩
  | 28 => ⟨S16384x128, .f32⟩
  | 29 => ⟨S16384x128, .f32⟩
  | 30 => ⟨S16384x128, .f32⟩
  | 31 => ⟨S64x1024, .f32⟩
  | 32 => ⟨S64x1024, .bf16⟩
  | 33 => ⟨S1024, .i32⟩
  | 34 => ⟨S32, .i32⟩
  | 35 => ⟨S32x1, .i32⟩
  | 36 => ⟨S1x1024, .i32⟩
  | 37 => ⟨S_, .i32⟩
  | 38 => ⟨S_, .i32⟩
  | 39 => ⟨S1x1024, .i32⟩
  | 40 => ⟨S1x1024, .i32⟩
  | 41 => ⟨S1x1024, .i32⟩
  | 42 => ⟨S_, .i32⟩
  | 43 => ⟨S1x1024, .i32⟩
  | 44 => ⟨S1x1024, .i1⟩
  | 45 => ⟨S1x1024, .i32⟩
  | 46 => ⟨S1x1024, .i32⟩
  | 47 => ⟨S_, .i32⟩
  | 48 => ⟨S1x1024, .i32⟩
  | 49 => ⟨S1x1024, .i1⟩
  | 50 => ⟨S1x1024, .i1⟩
  | 51 => ⟨S_, .i32⟩
  | 52 => ⟨S1x1024, .i32⟩
  | 53 => ⟨S1x1024, .i32⟩
  | 54 => ⟨S1x1024, .i32⟩
  | 55 => ⟨S32x1024, .i32⟩
  | 56 => ⟨S32x1024, .i32⟩
  | 57 => ⟨S32x1024, .i1⟩
  | 58 => ⟨S32x1024, .bf16⟩
  | 59 => ⟨S_, .i32⟩
  | 60 => ⟨S_, .bf16⟩
  | 61 => ⟨S128x1024, .bf16⟩
  | 62 => ⟨S1024x1, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S1024x1, .i32⟩
  | 70 => ⟨S1024x1, .i32⟩
  | 71 => ⟨S_, .i32⟩
  | 72 => ⟨S1024x1, .i32⟩
  | 73 => ⟨S1024x1, .i1⟩
  | 74 => ⟨S_, .i32⟩
  | 75 => ⟨S1024x1, .i32⟩
  | 76 => ⟨S1024x1, .i1⟩
  | 77 => ⟨S_, .i32⟩
  | 78 => ⟨S_, .i1⟩
  | 79 => ⟨S1024x1, .i1⟩
  | 80 => ⟨S1024x1, .i1⟩
  | 81 => ⟨S1024x1, .i1⟩
  | 82 => ⟨S1024x1, .i32⟩
  | 83 => ⟨S1024x1, .i32⟩
  | 84 => ⟨S1024x1, .i32⟩
  | 85 => ⟨S32, .i32⟩
  | 86 => ⟨S1x32, .i32⟩
  | 87 => ⟨S1024x32, .i32⟩
  | 88 => ⟨S1024x32, .i32⟩
  | 89 => ⟨S1024x32, .i1⟩
  | 90 => ⟨S1024x32, .bf16⟩
  | 91 => ⟨S_, .i32⟩
  | 92 => ⟨S_, .bf16⟩
  | 93 => ⟨S1024x128, .bf16⟩
  | 94 => ⟨S_, .i32⟩
  | 95 => ⟨S_, .f32⟩
  | 96 => ⟨S19x128, .f32⟩
  | 97 => ⟨S1x32, .f32⟩
  | 98 => ⟨S_, .i32⟩
  | 99 => ⟨S_, .f32⟩
  | 100 => ⟨S1x128, .f32⟩
  | 101 => ⟨S1x32, .f32⟩
  | 102 => ⟨S_, .i32⟩
  | 103 => ⟨S_, .f32⟩
  | 104 => ⟨S1x128, .f32⟩
  | 105 => ⟨S64x1024, .f32⟩
  | 106 => ⟨S64x1024, .f32⟩
  | 107 => ⟨S32x1024, .f32⟩
  | 108 => ⟨S32x1024, .f32⟩
  | 109 => ⟨S32x1024, .f32⟩
  | 110 => ⟨S1x1024, .f32⟩
  | 111 => ⟨S1x1024, .f32⟩
  | 112 => ⟨S1x1024, .f32⟩
  | 113 => ⟨S_, .f32⟩
  | 114 => ⟨S29x1024, .f32⟩
  | 115 => ⟨S256x1024, .f32⟩
  | 116 => ⟨S256x1024, .bf16⟩
  | 117 => ⟨S64x1024, .f32⟩
  | 118 => ⟨S64x1024, .f32⟩
  | 119 => ⟨S32x1024, .f32⟩
  | 120 => ⟨S32x1024, .f32⟩
  | 121 => ⟨S32x1024, .f32⟩
  | 122 => ⟨S1x1024, .f32⟩
  | 123 => ⟨S1x1024, .f32⟩
  | 124 => ⟨S1x1024, .f32⟩
  | 125 => ⟨S_, .f32⟩
  | 126 => ⟨S29x1024, .f32⟩
  | 127 => ⟨S256x1024, .f32⟩
  | _ => ⟨S16384, .i32⟩

abbrev hbmTy0_2 (i : Nat) : BufTy := match i % 128 with
  | 0 => ⟨S256x1024, .bf16⟩
  | 1 => ⟨S16384x1, .f32⟩
  | 2 => ⟨S16384x1, .f32⟩
  | 3 => ⟨S16384x256, .bf16⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S16384x1024, .bf16⟩
  | 10 => ⟨S16384x1024, .bf16⟩
  | 11 => ⟨S1x1024, .f32⟩
  | 12 => ⟨S1x1024, .f32⟩
  | 13 => ⟨S1x512, .f32⟩
  | 14 => ⟨S1x1024, .f32⟩
  | 15 => ⟨S1x1024, .f32⟩
  | 16 => ⟨S1x512, .f32⟩
  | 17 => ⟨S16384x512, .bf16⟩
  | 18 => ⟨S16384x1, .f32⟩
  | 19 => ⟨S1x512, .f32⟩
  | 20 => ⟨S1x512, .f32⟩
  | 21 => ⟨S1x512, .f32⟩
  | 22 => ⟨S1x512, .f32⟩
  | 23 => ⟨S1x1, .f32⟩
  | 24 => ⟨S16384x1, .f32⟩
  | 25 => ⟨S16384, .f32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (nBuf tb) → BufTy
  | .hbm, ⟨i, _⟩ => hbmTy i
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S1024x128, .f32⟩
  | .local .tc .vmem, ⟨5, _⟩ => ⟨S1024x128, .f32⟩
  | .local .tc .vmem, ⟨6, _⟩ => ⟨S1024x19, .f32⟩
  | .local .tc .vmem, ⟨7, _⟩ => ⟨S1024x19, .f32⟩
  | .local .tc .vmem, ⟨8, _⟩ => ⟨S1024x1, .f32⟩
  | .local .tc .vmem, ⟨9, _⟩ => ⟨S1024x1, .f32⟩
  | .local .tc .vmem, ⟨10, _⟩ => ⟨S1024x1, .f32⟩
  | .local .tc .vmem, ⟨11, _⟩ => ⟨S1024x1, .f32⟩
  | .local .tc .vmem, ⟨12, _⟩ => ⟨S64x1024, .bf16⟩
  | .local .tc .vmem, ⟨13, _⟩ => ⟨S128x1024, .bf16⟩
  | .local .tc .vmem, ⟨14, _⟩ => ⟨S1024x128, .bf16⟩
  | .local .tc .vmem, ⟨15, _⟩ => ⟨S19x128, .f32⟩
  | .local .tc .vmem, ⟨16, _⟩ => ⟨S1x128, .f32⟩
  | .local .tc .vmem, ⟨17, _⟩ => ⟨S1x128, .f32⟩
  | .local .tc .vmem, ⟨18, _⟩ => ⟨S256x1024, .bf16⟩
  | .local .tc .vmem, ⟨19, _⟩ => ⟨S1024x256, .bf16⟩
  | .local .tc .vmem, ⟨20, _⟩ => ⟨S1024x256, .bf16⟩
  | .local .tc .vmem, ⟨21, _⟩ => ⟨S1x1024, .f32⟩
  | .local .tc .vmem, ⟨22, _⟩ => ⟨S1x1024, .f32⟩
  | .local .tc .vmem, ⟨23, _⟩ => ⟨S1024x256, .bf16⟩
  | .local .tc .vmem, ⟨24, _⟩ => ⟨S1024x256, .bf16⟩
  | .local .tc .vmem, ⟨25, _⟩ => ⟨S1x1024, .f32⟩
  | .local .tc .vmem, ⟨26, _⟩ => ⟨S1x1024, .f32⟩
  | .local .tc .vmem, ⟨27, _⟩ => ⟨S1x1024, .f32⟩
  | .local .tc .vmem, ⟨28, _⟩ => ⟨S1x1024, .f32⟩
  | .local .tc .vmem, ⟨29, _⟩ => ⟨S256x1024, .bf16⟩
  | .local .tc .vmem, ⟨30, _⟩ => ⟨S256x1024, .bf16⟩
  | .local .tc .vmem, ⟨31, _⟩ => ⟨S1x1024, .f32⟩
  | .local .tc .vmem, ⟨32, _⟩ => ⟨S1024x1024, .f32⟩
  | .local .tc .vmem, ⟨33, _⟩ => ⟨S1024x1024, .bf16⟩
  | .local .tc .vmem, ⟨34, _⟩ => ⟨S1024x1024, .bf16⟩
  | .local .tc .vmem, ⟨35, _⟩ => ⟨S1024x1024, .bf16⟩
  | .local .tc .vmem, ⟨36, _⟩ => ⟨S1024x1024, .bf16⟩
  | .local .tc .vmem, ⟨37, _⟩ => ⟨S1x1024, .f32⟩
  | .local .tc .vmem, ⟨38, _⟩ => ⟨S1x1024, .f32⟩
  | .local .tc .vmem, ⟨39, _⟩ => ⟨S1024x1024, .bf16⟩
  | .local .tc .vmem, ⟨40, _⟩ => ⟨S1024x1024, .bf16⟩
  | .local .tc .vmem, ⟨41, _⟩ => ⟨S1024x1024, .bf16⟩
  | .local .tc .vmem, ⟨42, _⟩ => ⟨S1024x1024, .bf16⟩
  | .local .tc .vmem, ⟨43, _⟩ => ⟨S1024x1024, .bf16⟩
  | .local .tc .vmem, ⟨44, _⟩ => ⟨S1x1024, .f32⟩
  | .local .tc .vmem, ⟨45, _⟩ => ⟨S1x1024, .f32⟩
  | .local .tc .vmem, ⟨46, _⟩ => ⟨S1x1024, .f32⟩
  | .local .tc .vmem, ⟨47, _⟩ => ⟨S1x1024, .f32⟩
  | .local .tc .vmem, ⟨48, _⟩ => ⟨S1024x512, .f32⟩
  | .local .tc .vmem, ⟨49, _⟩ => ⟨S1024x512, .f32⟩
  | .local .tc .vmem, ⟨50, _⟩ => ⟨S1x512, .f32⟩
  | .local .tc .vmem, ⟨51, _⟩ => ⟨S1x512, .f32⟩
  | .local .tc .vmem, ⟨52, _⟩ => ⟨S1024x512, .bf16⟩
  | .local .tc .vmem, ⟨53, _⟩ => ⟨S1024x512, .bf16⟩
  | .local .tc .vmem, ⟨54, _⟩ => ⟨S1024x1, .f32⟩
  | .local .tc .vmem, ⟨55, _⟩ => ⟨S1024x1, .f32⟩
  | .local .tc .vmem, ⟨56, _⟩ => ⟨S1x512, .f32⟩
  | .local .tc .vmem, ⟨57, _⟩ => ⟨S1x512, .f32⟩
  | .local .tc .vmem, ⟨58, _⟩ => ⟨S1024x512, .bf16⟩
  | .local .tc .vmem, ⟨59, _⟩ => ⟨S1024x512, .bf16⟩
  | .local .tc .vmem, ⟨60, _⟩ => ⟨S2048x512, .bf16⟩
  | .local .tc .vmem, ⟨61, _⟩ => ⟨S2048x512, .bf16⟩
  | .local .tc .vmem, ⟨62, _⟩ => ⟨S2048x1, .f32⟩
  | .local .tc .vmem, ⟨63, _⟩ => ⟨S2048x1, .f32⟩
  | .local .tc .vmem, ⟨64, _⟩ => ⟨S1x512, .f32⟩
  | .local .tc .vmem, ⟨65, _⟩ => ⟨S1x512, .f32⟩
  | .local .tc .vmem, ⟨66, _⟩ => ⟨S1x512, .f32⟩
  | .local .tc .vmem, ⟨67, _⟩ => ⟨S1x512, .f32⟩
  | .local .tc .vmem, ⟨68, _⟩ => ⟨S1x512, .f32⟩
  | .local .tc .vmem, ⟨69, _⟩ => ⟨S1x1, .f32⟩
  | .local .tc .vmem, ⟨70, _⟩ => ⟨S2048x1, .f32⟩
  | .local .tc .vmem, ⟨71, _⟩ => ⟨S2048x1, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 76 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTables nBuf rfl bufTy 4 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_c : Ref sig .tc := ⟨.hbm, 35, rfl⟩
abbrev main_v0 : Ref sig .tc := ⟨.hbm, 36, rfl⟩
abbrev main_v1 : Ref sig .tc := ⟨.hbm, 37, rfl⟩
abbrev main_c_0 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_c_1 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_c : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_0 : Ref sig .tc := ⟨.hbm, 60, rfl⟩
abbrev main_call0_v12 : Ref sig .tc := ⟨.hbm, 61, rfl⟩
abbrev main_call0_v13 : Ref sig .tc := ⟨.hbm, 62, rfl⟩
abbrev main_v9 : Ref sig .tc := ⟨.hbm, 63, rfl⟩
abbrev main_c_2 : Ref sig .tc := ⟨.hbm, 64, rfl⟩
abbrev main_v10 : Ref sig .tc := ⟨.hbm, 65, rfl⟩
abbrev main_v11 : Ref sig .tc := ⟨.hbm, 66, rfl⟩
abbrev main_c_3 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_c_4 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_c : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_0 : Ref sig .tc := ⟨.hbm, 87, rfl⟩
abbrev main_call1_v12 : Ref sig .tc := ⟨.hbm, 88, rfl⟩
abbrev main_call1_v13 : Ref sig .tc := ⟨.hbm, 89, rfl⟩
abbrev main_v17 : Ref sig .tc := ⟨.hbm, 90, rfl⟩
abbrev main_c_5 : Ref sig .tc := ⟨.hbm, 91, rfl⟩
abbrev main_call2_v0 : Ref sig .tc := ⟨.hbm, 92, rfl⟩
abbrev main_call2_c : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_c_1 : Ref sig .tc := ⟨.hbm, 99, rfl⟩
abbrev main_call2_v5 : Ref sig .tc := ⟨.hbm, 100, rfl⟩
abbrev main_call2_v6 : Ref sig .tc := ⟨.hbm, 101, rfl⟩
abbrev main_call2_c_2 : Ref sig .tc := ⟨.hbm, 102, rfl⟩
abbrev main_call2_v7 : Ref sig .tc := ⟨.hbm, 103, rfl⟩
abbrev main_call2_v8 : Ref sig .tc := ⟨.hbm, 104, rfl⟩
abbrev main_call2_c_3 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_v18 : Ref sig .tc := ⟨.hbm, 112, rfl⟩
abbrev main_c_6 : Ref sig .tc := ⟨.hbm, 113, rfl⟩
abbrev main_v19 : Ref sig .tc := ⟨.hbm, 114, rfl⟩
abbrev main_v20 : Ref sig .tc := ⟨.hbm, 115, rfl⟩
abbrev main_c_7 : Ref sig .tc := ⟨.hbm, 116, rfl⟩
abbrev main_v21 : Ref sig .tc := ⟨.hbm, 117, rfl⟩
abbrev main_v22 : Ref sig .tc := ⟨.hbm, 118, rfl⟩
abbrev main_v23 : Ref sig .tc := ⟨.hbm, 119, rfl⟩
abbrev main_v24 : Ref sig .tc := ⟨.hbm, 120, rfl⟩
abbrev main_v25 : Ref sig .tc := ⟨.hbm, 121, rfl⟩
abbrev main_c_8 : Ref sig .tc := ⟨.hbm, 122, rfl⟩
abbrev main_call3_v0 : Ref sig .tc := ⟨.hbm, 123, rfl⟩
abbrev main_call3_c : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_c_1 : Ref sig .tc := ⟨.hbm, 130, rfl⟩
abbrev main_call3_v5 : Ref sig .tc := ⟨.hbm, 131, rfl⟩
abbrev main_call3_v6 : Ref sig .tc := ⟨.hbm, 132, rfl⟩
abbrev main_call3_c_2 : Ref sig .tc := ⟨.hbm, 133, rfl⟩
abbrev main_call3_v7 : Ref sig .tc := ⟨.hbm, 134, rfl⟩
abbrev main_call3_v8 : Ref sig .tc := ⟨.hbm, 135, rfl⟩
abbrev main_call3_c_3 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_v12 : Ref sig .tc := ⟨.hbm, 140, rfl⟩
abbrev main_call3_v13 : Ref sig .tc := ⟨.hbm, 141, rfl⟩
abbrev main_call3_v14 : Ref sig .tc := ⟨.hbm, 142, rfl⟩
abbrev main_v26 : Ref sig .tc := ⟨.hbm, 143, rfl⟩
abbrev main_c_9 : Ref sig .tc := ⟨.hbm, 144, rfl⟩
abbrev main_v27 : Ref sig .tc := ⟨.hbm, 145, rfl⟩
abbrev main_v28 : Ref sig .tc := ⟨.hbm, 146, rfl⟩
abbrev main_c_10 : Ref sig .tc := ⟨.hbm, 147, rfl⟩
abbrev main_v29 : Ref sig .tc := ⟨.hbm, 148, rfl⟩
abbrev main_v30 : Ref sig .tc := ⟨.hbm, 149, rfl⟩
abbrev main_v31 : Ref sig .tc := ⟨.hbm, 150, rfl⟩
abbrev main_v32 : Ref sig .tc := ⟨.hbm, 151, rfl⟩
abbrev main_v33 : Ref sig .tc := ⟨.hbm, 152, rfl⟩
abbrev main_cst : Ref sig .tc := ⟨.hbm, 153, rfl⟩
abbrev main_v34 : Ref sig .tc := ⟨.hbm, 154, rfl⟩
abbrev main_v35 : Ref sig .tc := ⟨.hbm, 155, rfl⟩
abbrev main_v36_0 : Ref sig .tc := ⟨.hbm, 156, rfl⟩
abbrev main_v36_1 : Ref sig .tc := ⟨.hbm, 157, rfl⟩
abbrev main_v36_2 : Ref sig .tc := ⟨.hbm, 158, rfl⟩
abbrev main_v37 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_c_11 : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_v6 : Ref sig .tc := ⟨.hbm, 172, rfl⟩
abbrev main_call4_v7 : Ref sig .tc := ⟨.hbm, 173, rfl⟩
abbrev main_call4_v8 : Ref sig .tc := ⟨.hbm, 174, rfl⟩
abbrev main_call4_c : Ref sig .tc := ⟨.hbm, 175, rfl⟩
abbrev main_call4_v9 : Ref sig .tc := ⟨.hbm, 176, rfl⟩
abbrev main_call4_v10 : Ref sig .tc := ⟨.hbm, 177, rfl⟩
abbrev main_call4_v11 : Ref sig .tc := ⟨.hbm, 178, rfl⟩
abbrev main_call4_c_0 : Ref sig .tc := ⟨.hbm, 179, rfl⟩
abbrev main_call4_v12 : Ref sig .tc := ⟨.hbm, 180, rfl⟩
abbrev main_call4_v13 : Ref sig .tc := ⟨.hbm, 181, rfl⟩
abbrev main_v43 : Ref sig .tc := ⟨.hbm, 182, rfl⟩
abbrev main_v44 : Ref sig .tc := ⟨.hbm, 183, rfl⟩
abbrev main_v45 : Ref sig .tc := ⟨.hbm, 184, rfl⟩
abbrev main_v46 : Ref sig .tc := ⟨.hbm, 185, rfl⟩
abbrev main_v47 : Ref sig .tc := ⟨.hbm, 186, rfl⟩
abbrev main_c_12 : Ref sig .tc := ⟨.hbm, 187, rfl⟩
abbrev main_call5_v0 : Ref sig .tc := ⟨.hbm, 188, rfl⟩
abbrev main_v48 : Ref sig .tc := ⟨.hbm, 189, rfl⟩
abbrev main_v49 : Ref sig .tc := ⟨.hbm, 190, rfl⟩
abbrev main_c_13 : Ref sig .tc := ⟨.hbm, 191, rfl⟩
abbrev main_call6_v0 : Ref sig .tc := ⟨.hbm, 192, rfl⟩
abbrev main_call6_c : Ref sig .tc := ⟨.hbm, 193, rfl⟩
abbrev main_call6_v1 : Ref sig .tc := ⟨.hbm, 194, rfl⟩
abbrev main_call6_c_0 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_call6_c_1 : Ref sig .tc := ⟨.hbm, 199, rfl⟩
abbrev main_call6_v5 : Ref sig .tc := ⟨.hbm, 200, rfl⟩
abbrev main_call6_v6 : Ref sig .tc := ⟨.hbm, 201, rfl⟩
abbrev main_call6_c_2 : Ref sig .tc := ⟨.hbm, 202, rfl⟩
abbrev main_call6_v7 : Ref sig .tc := ⟨.hbm, 203, rfl⟩
abbrev main_call6_v8 : Ref sig .tc := ⟨.hbm, 204, rfl⟩
abbrev main_call6_c_3 : Ref sig .tc := ⟨.hbm, 205, rfl⟩
abbrev main_call6_v9 : Ref sig .tc := ⟨.hbm, 206, rfl⟩
abbrev main_call6_v10 : Ref sig .tc := ⟨.hbm, 207, rfl⟩
abbrev main_call6_v11 : Ref sig .tc := ⟨.hbm, 208, rfl⟩
abbrev main_call6_v12 : Ref sig .tc := ⟨.hbm, 209, rfl⟩
abbrev main_call6_v13 : Ref sig .tc := ⟨.hbm, 210, rfl⟩
abbrev main_call6_v14 : Ref sig .tc := ⟨.hbm, 211, rfl⟩
abbrev main_v50 : Ref sig .tc := ⟨.hbm, 212, rfl⟩
abbrev main_v51 : Ref sig .tc := ⟨.hbm, 213, rfl⟩
abbrev main_v52 : Ref sig .tc := ⟨.hbm, 214, rfl⟩
abbrev main_v53 : Ref sig .tc := ⟨.hbm, 215, rfl⟩
abbrev main_v54 : Ref sig .tc := ⟨.hbm, 216, rfl⟩
abbrev main_v55 : Ref sig .tc := ⟨.hbm, 217, rfl⟩
abbrev main_v56 : Ref sig .tc := ⟨.hbm, 218, rfl⟩
abbrev main_c_14 : Ref sig .tc := ⟨.hbm, 219, rfl⟩
abbrev main_call7_v0 : Ref sig .tc := ⟨.hbm, 220, rfl⟩
abbrev main_v57 : Ref sig .tc := ⟨.hbm, 221, rfl⟩
abbrev main_c_15 : Ref sig .tc := ⟨.hbm, 222, rfl⟩
abbrev main_call8_v0 : Ref sig .tc := ⟨.hbm, 223, rfl⟩
abbrev main_v58 : Ref sig .tc := ⟨.hbm, 224, rfl⟩
abbrev main_v59 : Ref sig .tc := ⟨.hbm, 225, rfl⟩
abbrev main_c_16 : Ref sig .tc := ⟨.hbm, 226, rfl⟩
abbrev main_call9_v0 : Ref sig .tc := ⟨.hbm, 227, rfl⟩
abbrev main_v60 : Ref sig .tc := ⟨.hbm, 228, rfl⟩
abbrev main_v61 : Ref sig .tc := ⟨.hbm, 229, rfl⟩
abbrev main_c_17 : Ref sig .tc := ⟨.hbm, 230, rfl⟩
abbrev main_call10_v0 : Ref sig .tc := ⟨.hbm, 231, rfl⟩
abbrev main_v62 : Ref sig .tc := ⟨.hbm, 232, rfl⟩
abbrev main_v63 : Ref sig .tc := ⟨.hbm, 233, rfl⟩
abbrev main_v64 : Ref sig .tc := ⟨.hbm, 234, rfl⟩
abbrev main_v65 : Ref sig .tc := ⟨.hbm, 235, rfl⟩
abbrev main_v66 : Ref sig .tc := ⟨.hbm, 236, rfl⟩
abbrev main_v67 : Ref sig .tc := ⟨.hbm, 237, rfl⟩
abbrev main_v68 : Ref sig .tc := ⟨.hbm, 238, rfl⟩
abbrev main_v69 : Ref sig .tc := ⟨.hbm, 239, rfl⟩
abbrev main_v70 : Ref sig .tc := ⟨.hbm, 240, rfl⟩
abbrev main_cst_18 : Ref sig .tc := ⟨.hbm, 241, rfl⟩
abbrev main_v71 : Ref sig .tc := ⟨.hbm, 242, rfl⟩
abbrev main_v72 : Ref sig .tc := ⟨.hbm, 243, rfl⟩
abbrev main_v73 : Ref sig .tc := ⟨.hbm, 244, rfl⟩
abbrev main_v74 : Ref sig .tc := ⟨.hbm, 245, rfl⟩
abbrev main_v75 : Ref sig .tc := ⟨.hbm, 246, rfl⟩
abbrev main_v76 : Ref sig .tc := ⟨.hbm, 247, rfl⟩
abbrev main_v77 : Ref sig .tc := ⟨.hbm, 248, rfl⟩
abbrev main_v78 : Ref sig .tc := ⟨.hbm, 249, rfl⟩
abbrev main_v79 : Ref sig .tc := ⟨.hbm, 250, rfl⟩
abbrev main_v80 : Ref sig .tc := ⟨.hbm, 251, rfl⟩
abbrev main_v81 : Ref sig .tc := ⟨.hbm, 252, rfl⟩
abbrev main_cst_19 : Ref sig .tc := ⟨.hbm, 253, rfl⟩
abbrev main_v82 : Ref sig .tc := ⟨.hbm, 254, rfl⟩
abbrev main_v83 : Ref sig .tc := ⟨.hbm, 255, rfl⟩
abbrev main_v84 : Ref sig .tc := ⟨.hbm, 256, rfl⟩
abbrev main_v85 : Ref sig .tc := ⟨.hbm, 257, rfl⟩
abbrev main_v86 : Ref sig .tc := ⟨.hbm, 258, rfl⟩
abbrev main_v87_0 : Ref sig .tc := ⟨.hbm, 259, rfl⟩
abbrev main_v87_1 : Ref sig .tc := ⟨.hbm, 260, rfl⟩
abbrev main_v87_2 : Ref sig .tc := ⟨.hbm, 261, rfl⟩
abbrev main_v88 : Ref sig .tc := ⟨.hbm, 262, rfl⟩
abbrev main_v89 : Ref sig .tc := ⟨.hbm, 263, rfl⟩
abbrev main_v90 : Ref sig .tc := ⟨.hbm, 264, rfl⟩
abbrev main_v91_0 : Ref sig .tc := ⟨.hbm, 265, rfl⟩
abbrev main_v91_1 : Ref sig .tc := ⟨.hbm, 266, rfl⟩
abbrev main_v91_2 : Ref sig .tc := ⟨.hbm, 267, rfl⟩
abbrev main_v91_3 : Ref sig .tc := ⟨.hbm, 268, rfl⟩
abbrev main_v92 : Ref sig .tc := ⟨.hbm, 269, rfl⟩
abbrev main_v93 : Ref sig .tc := ⟨.hbm, 270, rfl⟩
abbrev main_v94 : Ref sig .tc := ⟨.hbm, 271, rfl⟩
abbrev main_v95 : Ref sig .tc := ⟨.hbm, 272, rfl⟩
abbrev main_v96_0 : Ref sig .tc := ⟨.hbm, 273, rfl⟩
abbrev main_v96_1 : Ref sig .tc := ⟨.hbm, 274, rfl⟩
abbrev main_v96_2 : Ref sig .tc := ⟨.hbm, 275, rfl⟩
abbrev main_v96_3 : Ref sig .tc := ⟨.hbm, 276, rfl⟩
abbrev main_v97 : Ref sig .tc := ⟨.hbm, 277, rfl⟩
abbrev main_v98 : Ref sig .tc := ⟨.hbm, 278, rfl⟩
abbrev main_v99 : Ref sig .tc := ⟨.hbm, 279, rfl⟩
abbrev main_v100 : Ref sig .tc := ⟨.hbm, 280, rfl⟩
abbrev main_v101 : Ref sig .tc := ⟨.hbm, 281, rfl⟩
abbrev main_v6_scv : Ref sig .scVector := ⟨.hbm, 43, rfl⟩
abbrev main_v7_scv : Ref sig .scVector := ⟨.hbm, 44, rfl⟩
abbrev main_v35_scv : Ref sig .scVector := ⟨.hbm, 155, rfl⟩
abbrev main_v36_0_scv : Ref sig .scVector := ⟨.hbm, 156, rfl⟩
abbrev main_v36_1_scv : Ref sig .scVector := ⟨.hbm, 157, rfl⟩
abbrev main_v36_2_scv : Ref sig .scVector := ⟨.hbm, 158, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc1_stg13_1 : Ref sig .tc := ⟨.vmem, 20, rfl⟩
abbrev cc1_stg14_0 : Ref sig .tc := ⟨.vmem, 21, rfl⟩
abbrev cc1_stg15_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg9_1 : Ref sig .tc := ⟨.vmem, 34, rfl⟩
abbrev cc2_stg10_0 : Ref sig .tc := ⟨.vmem, 35, rfl⟩
abbrev cc2_stg10_1 : Ref sig .tc := ⟨.vmem, 36, rfl⟩
abbrev cc2_stg11_0 : Ref sig .tc := ⟨.vmem, 37, rfl⟩
abbrev cc2_stg12_0 : Ref sig .tc := ⟨.vmem, 38, rfl⟩
abbrev cc2_scratch0 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc3_stg10_0 : Ref sig .tc := ⟨.vmem, 52, rfl⟩
abbrev cc3_stg10_1 : Ref sig .tc := ⟨.vmem, 53, rfl⟩
abbrev cc3_stg11_0 : Ref sig .tc := ⟨.vmem, 54, rfl⟩
abbrev cc3_stg11_1 : Ref sig .tc := ⟨.vmem, 55, rfl⟩
abbrev cc3_stg12_0 : Ref sig .tc := ⟨.vmem, 56, rfl⟩
abbrev cc3_stg13_0 : Ref sig .tc := ⟨.vmem, 57, rfl⟩
abbrev cc3_scratch0 : Ref sig .tc := ⟨.vmem, 58, rfl⟩
abbrev cc3_scratch1 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg3_0 : Ref sig .tc := ⟨.vmem, 65, rfl⟩
abbrev cc4_stg4_0 : Ref sig .tc := ⟨.vmem, 66, rfl⟩
abbrev cc4_stg5_0 : Ref sig .tc := ⟨.vmem, 67, rfl⟩
abbrev cc4_stg6_0 : Ref sig .tc := ⟨.vmem, 68, rfl⟩
abbrev cc4_stg7_0 : Ref sig .tc := ⟨.vmem, 69, rfl⟩
abbrev cc4_stg8_0 : Ref sig .tc := ⟨.vmem, 70, rfl⟩
abbrev cc4_stg8_1 : Ref sig .tc := ⟨.vmem, 71, rfl⟩
abbrev cc0_scratch0 : Ref sig .scVector := ⟨.vmem, 0, rfl⟩
abbrev cc0_scratch1 : Ref sig .scVector := ⟨.vmem, 1, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem13_1 : DmaSem sig := 27
abbrev cc1_sem14_0 : DmaSem sig := 28
abbrev cc1_sem15_0 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41
abbrev cc2_sem10_0 : DmaSem sig := 42
abbrev cc2_sem10_1 : DmaSem sig := 43
abbrev cc2_sem11_0 : DmaSem sig := 44
abbrev cc2_sem12_0 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc3_sem8_0 : DmaSem sig := 56
abbrev cc3_sem9_0 : DmaSem sig := 57
abbrev cc3_sem10_0 : DmaSem sig := 58
abbrev cc3_sem10_1 : DmaSem sig := 59
abbrev cc3_sem11_0 : DmaSem sig := 60
abbrev cc3_sem11_1 : DmaSem sig := 61
abbrev cc3_sem12_0 : DmaSem sig := 62
abbrev cc3_sem13_0 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem3_0 : DmaSem sig := 69
abbrev cc4_sem4_0 : DmaSem sig := 70
abbrev cc4_sem5_0 : DmaSem sig := 71
abbrev cc4_sem6_0 : DmaSem sig := 72
abbrev cc4_sem7_0 : DmaSem sig := 73
abbrev cc4_sem8_0 : DmaSem sig := 74
abbrev cc4_sem8_1 : DmaSem sig := 75
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_11_r1 : BitVec 32 := 0#32
  ![v2.toNat, 0]
def k0_off3 (i : grid0.Coords) (c16384_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi c16384_i32 v2
  ![v5.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x19 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S64x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S19x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1024x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1024x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1024x1024 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S1x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1024 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1024x512 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1024x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 1 → Memref sig .tc .vmem S1x512 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x512 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2048x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S16384 : S_.BroadcastsInDim S16384 (![] : Fin 0 → Fin S16384.rank)
  concatenates_S16384_S16384_S16384_S49152_d0 : Shape.Concatenates [S16384, S16384, S16384] S49152 0
  concatenates_S100000x64_S100000x64_S100000x128_d1 : Shape.Concatenates [S100000x64, S100000x64] S100000x128 1
  bcast_S_S1024 : S_.BroadcastsInDim S1024 (![] : Fin 0 → Fin S1024.rank)
  bcast_S1024_S1024x1_0 : S1024.BroadcastsInDim S1024x1 (![0] : Fin 1 → Fin S1024x1.rank)
  bcast_S_S1024x96 : S_.BroadcastsInDim S1024x96 (![] : Fin 0 → Fin S1024x96.rank)
  concatenates_S1024x8_S1024x8_S1024x16_S1024x96_S1024x128_d1 : Shape.Concatenates [S1024x8, S1024x8, S1024x16, S1024x96] S1024x128 1
  inb_S100000x128_S100000x128_0_0 : ∀ a, (![0, 0] : Fin 2 → Nat) a + S100000x128.size a ≤ S100000x128.size a
  gathers_S100000x128_S512x128 : S100000x128.Gathers 0 S512x128
  inb_S1024x128_S1024x128_0_0 : ∀ a, (![0, 0] : Fin 2 → Nat) a + S1024x128.size a ≤ S1024x128.size a
  gathers_S1024x128_S512x128 : S1024x128.Gathers 0 S512x128
  shapeCasts_S2048x32_S64x1024 : S2048x32.ShapeCasts S64x1024
  bitsLt_bf16_f32 : FTy.bits .bf16 < FTy.bits .f32
  bcast_S32_S32x1_0 : S32.BroadcastsInDim S32x1 (![0] : Fin 1 → Fin S32x1.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S32x1_S32x1024_0_1 : S32x1.BroadcastsInDim S32x1024 (![0, 1] : Fin 2 → Fin S32x1024.rank)
  bcast_S1x1024_S32x1024_0_1 : S1x1024.BroadcastsInDim S32x1024 (![0, 1] : Fin 2 → Fin S32x1024.rank)
  pads_S32x1024_S128x1024_32640_000 : S32x1024.Pads (![32, 0] : Fin 2 → Nat) ![64, 0] ![0, 0] S128x1024
  h_S_ : 0 < S_.numel
  bcast_S_S1024x1 : S_.BroadcastsInDim S1024x1 (![] : Fin 0 → Fin S1024x1.rank)
  bcast_S32_S1x32_1 : S32.BroadcastsInDim S1x32 (![1] : Fin 1 → Fin S1x32.rank)
  bcast_S1024x1_S1024x32_0_1 : S1024x1.BroadcastsInDim S1024x32 (![0, 1] : Fin 2 → Fin S1024x32.rank)
  bcast_S1x32_S1024x32_0_1 : S1x32.BroadcastsInDim S1024x32 (![0, 1] : Fin 2 → Fin S1024x32.rank)
  pads_S1024x32_S1024x128_000_64320 : S1024x32.Pads (![0, 64] : Fin 2 → Nat) ![0, 32] ![0, 0] S1024x128
  pads_S19x32_S19x128_000_32640 : S19x32.Pads (![0, 32] : Fin 2 → Nat) ![0, 64] ![0, 0] S19x128
  pads_S1x32_S1x128_000_32640 : S1x32.Pads (![0, 32] : Fin 2 → Nat) ![0, 64] ![0, 0] S1x128
  pads_S1x32_S1x128_000_64320 : S1x32.Pads (![0, 64] : Fin 2 → Nat) ![0, 32] ![0, 0] S1x128
  slices_S226x1024_S64x1024_0_0 : S226x1024.Slices ![0, 0] S64x1024
  slices_S226x1024_S64x1024_96_0 : S226x1024.Slices ![96, 0] S64x1024
  slices_S226x1024_S32x1024_64_0 : S226x1024.Slices ![64, 0] S32x1024
  slices_S226x1024_S32x1024_160_0 : S226x1024.Slices ![160, 0] S32x1024
  slices_S226x1024_S32x1024_194_0 : S226x1024.Slices ![194, 0] S32x1024
  slices_S226x1024_S1x1024_192_0 : S226x1024.Slices ![192, 0] S1x1024
  slices_S226x1024_S1x1024_193_0 : S226x1024.Slices ![193, 0] S1x1024
  bcast_S_S29x1024 : S_.BroadcastsInDim S29x1024 (![] : Fin 0 → Fin S29x1024.rank)
  concatenates_S64x1024_S64x1024_S32x1024_S32x1024_S32x1024_S1x1024_S1x1024_S1x1024_S29x1024_S256x1024_d0 : Shape.Concatenates [S64x1024, S64x1024, S32x1024, S32x1024, S32x1024, S1x1024, S1x1024, S1x1024, S29x1024] S256x1024 0
  bcast_S16384_S16384x1_0 : S16384.BroadcastsInDim S16384x1 (![0] : Fin 1 → Fin S16384x1.rank)
  inb_S1024x19_S1024x19_0_0 : ∀ a, (![0, 0] : Fin 2 → Nat) a + S1024x19.size a ≤ S1024x19.size a
  h_S1024x19 : 0 < S1024x19.numel
  inb_S19x128_S19x128_0_0 : ∀ a, (![0, 0] : Fin 2 → Nat) a + S19x128.size a ≤ S19x128.size a
  h_S19x128 : 0 < S19x128.numel
  shapeCasts_S19x128_S19x128 : S19x128.ShapeCasts S19x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x64_0_0 : ∀ a, (![0, 0] : Fin 2 → Nat) a + S1024x64.size a ≤ S1024x128.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  concatenates_S1024x96_S1024x1_S1024x1_S1024x1_S1024x29_S1024x128_d1 : Shape.Concatenates [S1024x96, S1024x1, S1024x1, S1024x1, S1024x29] S1024x128 1
  inb_S1024x128_S1024x64_0_64 : ∀ a, (![0, 64] : Fin 2 → Nat) a + S1024x64.size a ≤ S1024x128.size a
  concatenates_S1024x64_S1024x64_S1024x128_S1024x256_d1 : Shape.Concatenates [S1024x64, S1024x64, S1024x128] S1024x256 1
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [0] S1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S1024x256_S1024x256 : S1024x256.ShapeCasts S1024x256
  broadcasts_S1x1024_S1024x1024 : S1x1024.Broadcasts S1024x1024
  shapeCasts_S512x1_S1x512 : S512x1.ShapeCasts S1x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  reduces_S1024x512_S512 : S1024x512.Reduces [0] S512
  shapeCasts_S1_S1x1 : S1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S16384x1_S16384 : S16384x1.ShapeCasts S16384
  gather_S4x8_S1024x1_S1024x8_1_0_n_n_0_1_18_wf : GatherDims.WF S4x8 S1024x1 S1024x8 [1] [0] [] [0] [] 1 ![1, 8]
  gather_S8x8_S1024x1_S1024x8_1_0_n_n_0_1_18_wf : GatherDims.WF S8x8 S1024x1 S1024x8 [1] [0] [] [0] [] 1 ![1, 8]
  gather_S32x16_S1024x1_S1024x16_1_0_n_n_0_1_116_wf : GatherDims.WF S32x16 S1024x1 S1024x16 [1] [0] [] [0] [] 1 ![1, 16]
  dot_S1024x19_S19x128_S1024x128_1_0_0_1_n_n_wf : DotDims.WF S1024x19 S19x128 S1024x128 [1] [0] [0] [1] [] []
  dot_S1024x64_S64x1024_S1024x1024_1_0_0_1_n_n_wf : DotDims.WF S1024x64 S64x1024 S1024x1024 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  dot_S1024x256_S256x1024_S1024x1024_1_0_0_1_n_n_wf : DotDims.WF S1024x256 S256x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  hcc0_scratch2 : 0 + S_.numel ≤ 76
  hcc0_scoped0 : 1 + S_.numel ≤ 76
  hcc0_scoped1 : 2 + S_.numel ≤ 76
  hcc0_scoped2 : 3 + S_.numel ≤ 76
  hcc0_scoped3 : 4 + S_.numel ≤ 76
  hcc0_scoped4 : 5 + S_.numel ≤ 76
  hcc0_scoped5 : 6 + S_.numel ≤ 76
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S49152.size a
  k0_off2_inb : ∀ i : grid0.Coords, ∀ a, (k0_off2 i) a + S512x128.size a ≤ S16384x128.size a
  k0_off3_inb : ∀ i : grid0.Coords, ∀ (r : Fin 2), ∀ a, (k0_off3 i (BitVec.ofNat 32 (16384 + 16384 * r.val))) a + S512.size a ≤ S49152.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .f32 = 32 ∨ (Rect.block (s := S16384x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .f32 = 32 ∨ (Rect.block (s := S16384x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x19.size a ≤ S16384x19.size a
  hwx1_3 : ∀ i : grid1.Coords, EltTy.bits .f32 = 32 ∨ (Rect.block (s := S16384x19) S1024x19.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S16384x1.size a
  hwx1_4 : ∀ i : grid1.Coords, EltTy.bits .f32 = 32 ∨ (Rect.block (s := S16384x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S16384x1.size a
  hwx1_5 : ∀ i : grid1.Coords, EltTy.bits .f32 = 32 ∨ (Rect.block (s := S16384x1) S1024x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1024.size a ≤ S64x1024.size a
  hwx1_6 : ∀ i : grid1.Coords, EltTy.bits .bf16 = 32 ∨ (Rect.block (s := S64x1024) S64x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1024.size a ≤ S128x1024.size a
  hwx1_7 : ∀ i : grid1.Coords, EltTy.bits .bf16 = 32 ∨ (Rect.block (s := S128x1024) S128x1024.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024x128.size a ≤ S1024x128.size a
  hwx1_8 : ∀ i : grid1.Coords, EltTy.bits .bf16 = 32 ∨ (Rect.block (s := S1024x128) S1024x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S19x128.size a ≤ S19x128.size a
  hwx1_9 : ∀ i : grid1.Coords, EltTy.bits .f32 = 32 ∨ (Rect.block (s := S19x128) S19x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S256x1024.size a ≤ S256x1024.size a
  hwx1_12 : ∀ i : grid1.Coords, EltTy.bits .bf16 = 32 ∨ (Rect.block (s := S256x1024) S256x1024.size (cc1_transform_12 i) (hinb1_12 i)).WholeWords (EltTy.packing .bf16)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1024x256.size a ≤ S16384x256.size a
  hwx1_13 : ∀ i : grid1.Coords, EltTy.bits .bf16 = 32 ∨ (Rect.block (s := S16384x256) S1024x256.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x1024.size a ≤ S1x1024.size a
  hwx1_14 : ∀ i : grid1.Coords, EltTy.bits .f32 = 32 ∨ (Rect.block (s := S1x1024) S1x1024.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x1024.size a ≤ S1x1024.size a
  hwx1_15 : ∀ i : grid1.Coords, EltTy.bits .f32 = 32 ∨ (Rect.block (s := S1x1024) S1x1024.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S16384x256.size a
  hwx2_0 : ∀ i : grid2.Coords, EltTy.bits .bf16 = 32 ∨ (Rect.block (s := S16384x256) S1024x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1024.size a ≤ S256x1024.size a
  hwx2_5 : ∀ i : grid2.Coords, EltTy.bits .bf16 = 32 ∨ (Rect.block (s := S256x1024) S256x1024.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x1024.size a ≤ S256x1024.size a
  hwx2_6 : ∀ i : grid2.Coords, EltTy.bits .bf16 = 32 ∨ (Rect.block (s := S256x1024) S256x1024.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1024.size a ≤ S1x1024.size a
  hwx2_7 : ∀ i : grid2.Coords, EltTy.bits .f32 = 32 ∨ (Rect.block (s := S1x1024) S1x1024.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1024x1024.size a ≤ S1024x1024.size a
  hwx2_8 : ∀ i : grid2.Coords, EltTy.bits .f32 = 32 ∨ (Rect.block (s := S1024x1024) S1024x1024.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1024x1024.size a ≤ S16384x1024.size a
  hwx2_9 : ∀ i : grid2.Coords, EltTy.bits .bf16 = 32 ∨ (Rect.block (s := S16384x1024) S1024x1024.size (cc2_transform_9 i) (hinb2_9 i)).WholeWords (EltTy.packing .bf16)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1024x1024.size a ≤ S16384x1024.size a
  hwx2_10 : ∀ i : grid2.Coords, EltTy.bits .bf16 = 32 ∨ (Rect.block (s := S16384x1024) S1024x1024.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x1024.size a ≤ S1x1024.size a
  hwx2_11 : ∀ i : grid2.Coords, EltTy.bits .f32 = 32 ∨ (Rect.block (s := S1x1024) S1x1024.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x1024.size a ≤ S1x1024.size a
  hwx2_12 : ∀ i : grid2.Coords, EltTy.bits .f32 = 32 ∨ (Rect.block (s := S1x1024) S1x1024.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S16384x1024.size a
  hwx3_0 : ∀ i : grid3.Coords, EltTy.bits .bf16 = 32 ∨ (Rect.block (s := S16384x1024) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S16384x1024.size a
  hwx3_1 : ∀ i : grid3.Coords, EltTy.bits .bf16 = 32 ∨ (Rect.block (s := S16384x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x512.size a ≤ S1024x512.size a
  hwx3_6 : ∀ i : grid3.Coords, EltTy.bits .f32 = 32 ∨ (Rect.block (s := S1024x512) S1024x512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1024x512.size a ≤ S1024x512.size a
  hwx3_7 : ∀ i : grid3.Coords, EltTy.bits .f32 = 32 ∨ (Rect.block (s := S1024x512) S1024x512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x512.size a ≤ S1x512.size a
  hwx3_8 : ∀ i : grid3.Coords, EltTy.bits .f32 = 32 ∨ (Rect.block (s := S1x512) S1x512.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x512.size a ≤ S1x512.size a
  hwx3_9 : ∀ i : grid3.Coords, EltTy.bits .f32 = 32 ∨ (Rect.block (s := S1x512) S1x512.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1024x512.size a ≤ S16384x512.size a
  hwx3_10 : ∀ i : grid3.Coords, EltTy.bits .bf16 = 32 ∨ (Rect.block (s := S16384x512) S1024x512.size (cc3_transform_10 i) (hinb3_10 i)).WholeWords (EltTy.packing .bf16)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S1024x1.size a ≤ S16384x1.size a
  hwx3_11 : ∀ i : grid3.Coords, EltTy.bits .f32 = 32 ∨ (Rect.block (s := S16384x1) S1024x1.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x512.size a ≤ S1x512.size a
  hwx3_12 : ∀ i : grid3.Coords, EltTy.bits .f32 = 32 ∨ (Rect.block (s := S1x512) S1x512.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x512.size a ≤ S1x512.size a
  hwx3_13 : ∀ i : grid3.Coords, EltTy.bits .f32 = 32 ∨ (Rect.block (s := S1x512) S1x512.size (cc3_transform_13 i) (hinb3_13 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x512.size a ≤ S16384x512.size a
  hwx4_0 : ∀ i : grid4.Coords, EltTy.bits .bf16 = 32 ∨ (Rect.block (s := S16384x512) S2048x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x1.size a ≤ S16384x1.size a
  hwx4_1 : ∀ i : grid4.Coords, EltTy.bits .f32 = 32 ∨ (Rect.block (s := S16384x1) S2048x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x512.size a ≤ S1x512.size a
  hwx4_5 : ∀ i : grid4.Coords, EltTy.bits .f32 = 32 ∨ (Rect.block (s := S1x512) S1x512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x512.size a ≤ S1x512.size a
  hwx4_6 : ∀ i : grid4.Coords, EltTy.bits .f32 = 32 ∨ (Rect.block (s := S1x512) S1x512.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2048x1.size a ≤ S16384x1.size a
  hwx4_8 : ∀ i : grid4.Coords, EltTy.bits .f32 = 32 ∨ (Rect.block (s := S16384x1) S2048x1.size (cc4_transform_8 i) (hinb4_8 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4
abbrev cc0_scoped5 : DmaSems sig S_ := SemArray.consecutive 6 S_ hcc0_scoped5
def gather_S4x8_S1024x1_S1024x8_1_0_n_n_0_1_18 : GatherDims S4x8 S1024x1 S1024x8 where
  offsetDims := [1]
  collapsedSliceDims := [0]
  operandBatchingDims := []
  startIndicesBatchingDims := []
  startIndexMap := [0]
  indexVectorDim := 1
  sliceSizes := ![1, 8]
  wf := gather_S4x8_S1024x1_S1024x8_1_0_n_n_0_1_18_wf
def gather_S8x8_S1024x1_S1024x8_1_0_n_n_0_1_18 : GatherDims S8x8 S1024x1 S1024x8 where
  offsetDims := [1]
  collapsedSliceDims := [0]
  operandBatchingDims := []
  startIndicesBatchingDims := []
  startIndexMap := [0]
  indexVectorDim := 1
  sliceSizes := ![1, 8]
  wf := gather_S8x8_S1024x1_S1024x8_1_0_n_n_0_1_18_wf
def gather_S32x16_S1024x1_S1024x16_1_0_n_n_0_1_116 : GatherDims S32x16 S1024x1 S1024x16 where
  offsetDims := [1]
  collapsedSliceDims := [0]
  operandBatchingDims := []
  startIndicesBatchingDims := []
  startIndexMap := [0]
  indexVectorDim := 1
  sliceSizes := ![1, 16]
  wf := gather_S32x16_S1024x1_S1024x16_1_0_n_n_0_1_116_wf
def dot_S1024x19_S19x128_S1024x128_1_0_0_1_n_n : DotDims S1024x19 S19x128 S1024x128 where
  lhsContracting := [1]
  rhsContracting := [0]
  lhsNonContracting := [0]
  rhsNonContracting := [1]
  lhsBatch := []
  rhsBatch := []
  wf := dot_S1024x19_S19x128_S1024x128_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win1_0 : Pipeline.Window sig grid1 :=
  Pipeline.Window.ofSpec (Memref.whole main_v36_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36_1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36_2) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024x19.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v85) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v86) S1024x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38) S64x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S128x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57) S1024x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v58) S19x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v60) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v62) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v73) S256x1024.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v87_0) S1024x256.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v87_1) S1x1024.size cc1_transform_14 reads1_14 true true 1 stage1_14 sem1_14
    hrank1 hreads1_14 hinb1_14 nbuf1_14 (Memref.isWhole_whole _) hwx1_14 hstage1_14

abbrev win1_15 : Pipeline.Window sig grid1 :=
  Pipeline.Window.ofSpec (Memref.whole main_v87_2) S1x1024.size cc1_transform_15 reads1_15 true true 1 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v87_0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87_1) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87_2) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S256x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v84) S256x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v90) S1x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg23) S1024x1024.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v91_0) S1024x1024.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v91_1) S1024x1024.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v91_2) S1x1024.size cc2_transform_11 reads2_11 true true 1 stage2_11 sem2_11
    hrank2 hreads2_11 hinb2_11 nbuf2_11 (Memref.isWhole_whole _) hwx2_11 hstage2_11

abbrev win2_12 : Pipeline.Window sig grid2 :=
  Pipeline.Window.ofSpec (Memref.whole main_v91_3) S1x1024.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v91_0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91_1) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v91_2) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91_3) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg27) S1024x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg31) S1024x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v95) S1x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v92) S1x512.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v96_0) S1024x512.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v96_1) S1024x1.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v96_2) S1x512.size cc3_transform_12 reads3_12 true true 1 stage3_12 sem3_12
    hrank3 hreads3_12 hinb3_12 nbuf3_12 (Memref.isWhole_whole _) hwx3_12 hstage3_12

abbrev win3_13 : Pipeline.Window sig grid3 :=
  Pipeline.Window.ofSpec (Memref.whole main_v96_3) S1x512.size cc3_transform_13 reads3_13 true true 1 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

abbrev win4_0 : Pipeline.Window sig grid4 :=
  Pipeline.Window.ofSpec (Memref.whole main_v96_0) S2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96_1) S2048x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v96_2) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96_3) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S1x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v92) S1x512.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v99) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v100) S2048x1.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S16384 : Shape := ⟨1, ![16384]⟩
abbrev S16384x19 : Shape := ⟨2, ![16384, 19]⟩
abbrev S100000x64 : Shape := ⟨2, ![100000, 64]⟩
abbrev S4x8 : Shape := ⟨2, ![4, 8]⟩
abbrev S8x8 : Shape := ⟨2, ![8, 8]⟩
abbrev S32x16 : Shape := ⟨2, ![32, 16]⟩
abbrev S19x32 : Shape := ⟨2, ![19, 32]⟩
abbrev S32 : Shape := ⟨1, ![32]⟩
abbrev S2048x32 : Shape := ⟨2, ![2048, 32]⟩
abbrev S226x1024 : Shape := ⟨2, ![226, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S16384x8 : Shape := ⟨2, ![16384, 8]⟩
abbrev S16384x16 : Shape := ⟨2, ![16384, 16]⟩
abbrev S16384x32 : Shape := ⟨2, ![16384, 32]⟩
abbrev S1x32 : Shape := ⟨2, ![1, 32]⟩
abbrev S16384x64x1 : Shape := ⟨3, ![16384, 64, 1]⟩
abbrev S16384x1x32 : Shape := ⟨3, ![16384, 1, 32]⟩
abbrev S16384x64x32 : Shape := ⟨3, ![16384, 64, 32]⟩
abbrev S16384x2048 : Shape := ⟨2, ![16384, 2048]⟩
abbrev S16384x226 : Shape := ⟨2, ![16384, 226]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩
abbrev S1x1 : Shape := ⟨2, ![1, 1]⟩

abbrev nBuf : Space → Nat
  | .hbm => 266
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384x19, .f32⟩
  | 6 => ⟨S16384, .f32⟩
  | 7 => ⟨S16384, .f32⟩
  | 8 => ⟨S100000x64, .f32⟩
  | 9 => ⟨S4x8, .f32⟩
  | 10 => ⟨S8x8, .f32⟩
  | 11 => ⟨S32x16, .f32⟩
  | 12 => ⟨S100000x64, .f32⟩
  | 13 => ⟨S19x32, .f32⟩
  | 14 => ⟨S32, .f32⟩
  | 15 => ⟨S2048x32, .f32⟩
  | 16 => ⟨S32, .f32⟩
  | 17 => ⟨S226x1024, .f32⟩
  | 18 => ⟨S1024, .f32⟩
  | 19 => ⟨S1024, .f32⟩
  | 20 => ⟨S1024, .f32⟩
  | 21 => ⟨S226x1024, .f32⟩
  | 22 => ⟨S1024, .f32⟩
  | 23 => ⟨S1024x1024, .f32⟩
  | 24 => ⟨S1024, .f32⟩
  | 25 => ⟨S1024, .f32⟩
  | 26 => ⟨S1024, .f32⟩
  | 27 => ⟨S1024x512, .f32⟩
  | 28 => ⟨S512, .f32⟩
  | 29 => ⟨S512, .f32⟩
  | 30 => ⟨S512, .f32⟩
  | 31 => ⟨S1024x512, .f32⟩
  | 32 => ⟨S512, .f32⟩
  | 33 => ⟨S512x1, .f32⟩
  | 34 => ⟨S1, .f32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S16384x64, .f32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S16384x8, .f32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S16384x8, .f32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S16384x16, .f32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S16384x64, .f32⟩
  | 80 => ⟨S16384x32, .f32⟩
  | 81 => ⟨S1x32, .f32⟩
  | 82 => ⟨S16384x32, .f32⟩
  | 83 => ⟨S16384x32, .f32⟩
  | 84 => ⟨S16384x64x1, .f32⟩
  | 85 => ⟨S16384x1x32, .f32⟩
  | 86 => ⟨S16384x64x32, .f32⟩
  | 87 => ⟨S16384x64x32, .f32⟩
  | 88 => ⟨S16384x64x32, .f32⟩
  | 89 => ⟨S16384x2048, .f32⟩
  | 90 => ⟨S16384x32, .f32⟩
  | 91 => ⟨S1x32, .f32⟩
  | 92 => ⟨S16384x32, .f32⟩
  | 93 => ⟨S16384x32, .f32⟩
  | 94 => ⟨S16384x1, .f32⟩
  | 95 => ⟨S16384x1, .f32⟩
  | 96 => ⟨S16384x226, .f32⟩
  | 97 => ⟨S16384x1024, .f32⟩
  | 98 => ⟨S1x1024, .f32⟩
  | 99 => ⟨S16384x1024, .f32⟩
  | 100 => ⟨S16384x1024, .f32⟩
  | 101 => ⟨S_, .f32⟩
  | 102 => ⟨S1024, .f32⟩
  | 103 => ⟨S_, .f32⟩
  | 104 => ⟨S1024, .f32⟩
  | 105 => ⟨S1024, .f32⟩
  | 106 => ⟨S_, .i32⟩
  | 107 => ⟨S_, .f32⟩
  | 108 => ⟨S1024, .f32⟩
  | 109 => ⟨S1x1024, .f32⟩
  | 110 => ⟨S_, .f32⟩
  | 111 => ⟨S1x1024, .f32⟩
  | 112 => ⟨S1x1024, .f32⟩
  | 113 => ⟨S16384x1024, .f32⟩
  | 114 => ⟨S16384x1024, .f32⟩
  | 115 => ⟨S16384x1024, .f32⟩
  | 116 => ⟨S_, .f32⟩
  | 117 => ⟨S_, .f32⟩
  | 118 => ⟨S_, .f32⟩
  | 119 => ⟨S_, .f32⟩
  | 120 => ⟨S1024, .f32⟩
  | 121 => ⟨S1024, .f32⟩
  | 122 => ⟨S1024, .f32⟩
  | 123 => ⟨S_, .f32⟩
  | 124 => ⟨S_, .i1⟩
  | 125 => ⟨S_, .f32⟩
  | 126 => ⟨S_, .f32⟩
  | 127 => ⟨S1024, .f32⟩
  | _ => ⟨S16384, .i32⟩

abbrev hbmTy0_1 (i : Nat) : BufTy := match i % 128 with
  | 0 => ⟨S1024, .f32⟩
  | 1 => ⟨S1x1024, .f32⟩
  | 2 => ⟨S16384x1024, .f32⟩
  | 3 => ⟨S16384x1024, .f32⟩
  | 4 => ⟨S_, .f32⟩
  | 5 => ⟨S1024, .f32⟩
  | 6 => ⟨S1024, .f32⟩
  | 7 => ⟨S1024, .f32⟩
  | 8 => ⟨S1x1024, .f32⟩
  | 9 => ⟨S16384x1024, .f32⟩
  | 10 => ⟨S16384x1024, .f32⟩
  | 11 => ⟨S1x1024, .f32⟩
  | 12 => ⟨S16384x1024, .f32⟩
  | 13 => ⟨S16384x1024, .f32⟩
  | 14 => ⟨S1x1024, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S16384x1024, .f32⟩
  | 25 => ⟨S16384x1024, .f32⟩
  | 26 => ⟨S1x1024, .f32⟩
  | 27 => ⟨S16384x1024, .f32⟩
  | 28 => ⟨S16384x1024, .f32⟩
  | 29 => ⟨S_, .f32⟩
  | 30 => ⟨S1024, .f32⟩
  | 31 => ⟨S_, .f32⟩
  | 32 => ⟨S1024, .f32⟩
  | 33 => ⟨S1024, .f32⟩
  | 34 => ⟨S_, .i32⟩
  | 35 => ⟨S_, .f32⟩
  | 36 => ⟨S1024, .f32⟩
  | 37 => ⟨S1x1024, .f32⟩
  | 38 => ⟨S_, .f32⟩
  | 39 => ⟨S1x1024, .f32⟩
  | 40 => ⟨S1x1024, .f32⟩
  | 41 => ⟨S16384x1024, .f32⟩
  | 42 => ⟨S16384x1024, .f32⟩
  | 43 => ⟨S16384x1024, .f32⟩
  | 44 => ⟨S_, .f32⟩
  | 45 => ⟨S_, .f32⟩
  | 46 => ⟨S_, .f32⟩
  | 47 => ⟨S_, .f32⟩
  | 48 => ⟨S1024, .f32⟩
  | 49 => ⟨S1024, .f32⟩
  | 50 => ⟨S1024, .f32⟩
  | 51 => ⟨S_, .f32⟩
  | 52 => ⟨S_, .i1⟩
  | 53 => ⟨S_, .f32⟩
  | 54 => ⟨S_, .f32⟩
  | 55 => ⟨S1024, .f32⟩
  | 56 => ⟨S1024, .f32⟩
  | 57 => ⟨S1x1024, .f32⟩
  | 58 => ⟨S16384x1024, .f32⟩
  | 59 => ⟨S16384x1024, .f32⟩
  | 60 => ⟨S_, .f32⟩
  | 61 => ⟨S1024, .f32⟩
  | 62 => ⟨S1024, .f32⟩
  | 63 => ⟨S1024, .f32⟩
  | 64 => ⟨S1x1024, .f32⟩
  | 65 => ⟨S16384x1024, .f32⟩
  | 66 => ⟨S16384x1024, .f32⟩
  | 67 => ⟨S1x1024, .f32⟩
  | 68 => ⟨S16384x1024, .f32⟩
  | 69 => ⟨S16384x1024, .f32⟩
  | 70 => ⟨S1x1024, .f32⟩
  | 71 => ⟨S16384x1024, .f32⟩
  | 72 => ⟨S16384x1024, .f32⟩
  | 73 => ⟨S_, .f32⟩
  | 74 => ⟨S16384x1024, .f32⟩
  | 75 => ⟨S16384x1024, .f32⟩
  | 76 => ⟨S16384x1024, .f32⟩
  | 77 => ⟨S16384x512, .f32⟩
  | 78 => ⟨S1x512, .f32⟩
  | 79 => ⟨S16384x512, .f32⟩
  | 80 => ⟨S16384x512, .f32⟩
  | 81 => ⟨S_, .f32⟩
  | 82 => ⟨S512, .f32⟩
  | 83 => ⟨S_, .f32⟩
  | 84 => ⟨S512, .f32⟩
  | 85 => ⟨S512, .f32⟩
  | 86 => ⟨S_, .i32⟩
  | 87 => ⟨S_, .f32⟩
  | 88 => ⟨S512, .f32⟩
  | 89 => ⟨S1x512, .f32⟩
  | 90 => ⟨S_, .f32⟩
  | 91 => ⟨S1x512, .f32⟩
  | 92 => ⟨S1x512, .f32⟩
  | 93 => ⟨S16384x512, .f32⟩
  | 94 => ⟨S16384x512, .f32⟩
  | 95 => ⟨S16384x512, .f32⟩
  | 96 => ⟨S_, .f32⟩
  | 97 => ⟨S_, .f32⟩
  | 98 => ⟨S_, .f32⟩
  | 99 => ⟨S_, .f32⟩
  | 100 => ⟨S512, .f32⟩
  | 101 => ⟨S512, .f32⟩
  | 102 => ⟨S512, .f32⟩
  | 103 => ⟨S_, .f32⟩
  | 104 => ⟨S_, .i1⟩
  | 105 => ⟨S_, .f32⟩
  | 106 => ⟨S_, .f32⟩
  | 107 => ⟨S512, .f32⟩
  | 108 => ⟨S512, .f32⟩
  | 109 => ⟨S1x512, .f32⟩
  | 110 => ⟨S16384x512, .f32⟩
  | 111 => ⟨S16384x512, .f32⟩
  | 112 => ⟨S_, .f32⟩
  | 113 => ⟨S512, .f32⟩
  | 114 => ⟨S512, .f32⟩
  | 115 => ⟨S512, .f32⟩
  | 116 => ⟨S1x512, .f32⟩
  | 117 => ⟨S16384x512, .f32⟩
  | 118 => ⟨S16384x512, .f32⟩
  | 119 => ⟨S1x512, .f32⟩
  | 120 => ⟨S16384x512, .f32⟩
  | 121 => ⟨S16384x512, .f32⟩
  | 122 => ⟨S1x512, .f32⟩
  | 123 => ⟨S16384x512, .f32⟩
  | 124 => ⟨S16384x512, .f32⟩
  | 125 => ⟨S_, .f32⟩
  | 126 => ⟨S16384x512, .f32⟩
  | 127 => ⟨S16384x512, .f32⟩
  | _ => ⟨S16384, .i32⟩

abbrev hbmTy0_2 (i : Nat) : BufTy := match i % 128 with
  | 0 => ⟨S16384x512, .f32⟩
  | 1 => ⟨S1x512, .f32⟩
  | 2 => ⟨S16384x512, .f32⟩
  | 3 => ⟨S16384x512, .f32⟩
  | 4 => ⟨S16384x512, .f32⟩
  | 5 => ⟨S16384x1, .f32⟩
  | 6 => ⟨S1x1, .f32⟩
  | 7 => ⟨S16384x1, .f32⟩
  | 8 => ⟨S16384x1, .f32⟩
  | 9 => ⟨S16384, .f32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_c : Ref sig .tc := ⟨.hbm, 35, rfl⟩
abbrev main_v0 : Ref sig .tc := ⟨.hbm, 36, rfl⟩
abbrev main_v1 : Ref sig .tc := ⟨.hbm, 37, rfl⟩
abbrev main_c_0 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_c_1 : Ref sig .tc := ⟨.hbm, 44, rfl⟩
abbrev main_v7 : Ref sig .tc := ⟨.hbm, 45, rfl⟩
abbrev main_v8 : Ref sig .tc := ⟨.hbm, 46, rfl⟩
abbrev main_c_2 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_3 : Ref sig .tc := ⟨.hbm, 53, rfl⟩
abbrev main_v14 : Ref sig .tc := ⟨.hbm, 54, rfl⟩
abbrev main_v15 : Ref sig .tc := ⟨.hbm, 55, rfl⟩
abbrev main_c_4 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_c_5 : Ref sig .tc := ⟨.hbm, 62, rfl⟩
abbrev main_v21 : Ref sig .tc := ⟨.hbm, 63, rfl⟩
abbrev main_v22 : Ref sig .tc := ⟨.hbm, 64, rfl⟩
abbrev main_c_6 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_c_7 : Ref sig .tc := ⟨.hbm, 71, rfl⟩
abbrev main_v28 : Ref sig .tc := ⟨.hbm, 72, rfl⟩
abbrev main_v29 : Ref sig .tc := ⟨.hbm, 73, rfl⟩
abbrev main_c_8 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst : Ref sig .tc := ⟨.hbm, 101, rfl⟩
abbrev main_v56 : Ref sig .tc := ⟨.hbm, 102, rfl⟩
abbrev main_cst_9 : Ref sig .tc := ⟨.hbm, 103, rfl⟩
abbrev main_v57 : Ref sig .tc := ⟨.hbm, 104, rfl⟩
abbrev main_v58 : Ref sig .tc := ⟨.hbm, 105, rfl⟩
abbrev main_c_10 : Ref sig .tc := ⟨.hbm, 106, rfl⟩
abbrev main_call0_cst : Ref sig .tc := ⟨.hbm, 107, rfl⟩
abbrev main_call0_v0 : Ref sig .tc := ⟨.hbm, 108, rfl⟩
abbrev main_call0_v1 : Ref sig .tc := ⟨.hbm, 109, rfl⟩
abbrev main_call0_cst_0 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_v5 : Ref sig .tc := ⟨.hbm, 114, rfl⟩
abbrev main_call0_v6 : Ref sig .tc := ⟨.hbm, 115, rfl⟩
abbrev main_call0_v7 : Ref sig .tc := ⟨.hbm, 116, rfl⟩
abbrev main_call0_cst_1 : Ref sig .tc := ⟨.hbm, 117, rfl⟩
abbrev main_call0_v8 : Ref sig .tc := ⟨.hbm, 118, rfl⟩
abbrev main_call0_cst_2 : Ref sig .tc := ⟨.hbm, 119, rfl⟩
abbrev main_call0_v9 : Ref sig .tc := ⟨.hbm, 120, rfl⟩
abbrev main_call0_v10 : Ref sig .tc := ⟨.hbm, 121, rfl⟩
abbrev main_call0_v11 : Ref sig .tc := ⟨.hbm, 122, rfl⟩
abbrev main_call0_cst_3 : Ref sig .tc := ⟨.hbm, 123, rfl⟩
abbrev main_call0_v12 : Ref sig .tc := ⟨.hbm, 124, rfl⟩
abbrev main_call0_cst_4 : Ref sig .tc := ⟨.hbm, 125, rfl⟩
abbrev main_call0_call0_v0 : Ref sig .tc := ⟨.hbm, 126, rfl⟩
abbrev main_call0_call0_v1 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_cst_11 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_call1_cst : Ref sig .tc := ⟨.hbm, 145, rfl⟩
abbrev main_call1_v0 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_cst_12 : Ref sig .tc := ⟨.hbm, 157, rfl⟩
abbrev main_v85 : Ref sig .tc := ⟨.hbm, 158, rfl⟩
abbrev main_cst_13 : Ref sig .tc := ⟨.hbm, 159, rfl⟩
abbrev main_v86 : Ref sig .tc := ⟨.hbm, 160, rfl⟩
abbrev main_v87 : Ref sig .tc := ⟨.hbm, 161, rfl⟩
abbrev main_c_14 : Ref sig .tc := ⟨.hbm, 162, rfl⟩
abbrev main_call2_cst : Ref sig .tc := ⟨.hbm, 163, rfl⟩
abbrev main_call2_v0 : Ref sig .tc := ⟨.hbm, 164, rfl⟩
abbrev main_call2_v1 : Ref sig .tc := ⟨.hbm, 165, rfl⟩
abbrev main_call2_cst_0 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_v6 : Ref sig .tc := ⟨.hbm, 171, rfl⟩
abbrev main_call2_v7 : Ref sig .tc := ⟨.hbm, 172, rfl⟩
abbrev main_call2_cst_1 : Ref sig .tc := ⟨.hbm, 173, rfl⟩
abbrev main_call2_v8 : Ref sig .tc := ⟨.hbm, 174, rfl⟩
abbrev main_call2_cst_2 : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_cst_3 : Ref sig .tc := ⟨.hbm, 179, rfl⟩
abbrev main_call2_v12 : Ref sig .tc := ⟨.hbm, 180, rfl⟩
abbrev main_call2_cst_4 : Ref sig .tc := ⟨.hbm, 181, rfl⟩
abbrev main_call2_call0_v0 : Ref sig .tc := ⟨.hbm, 182, rfl⟩
abbrev main_call2_call0_v1 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_cst_15 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_call3_cst : Ref sig .tc := ⟨.hbm, 201, rfl⟩
abbrev main_call3_v0 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_cst_16 : Ref sig .tc := ⟨.hbm, 209, rfl⟩
abbrev main_v110 : Ref sig .tc := ⟨.hbm, 210, rfl⟩
abbrev main_cst_17 : Ref sig .tc := ⟨.hbm, 211, rfl⟩
abbrev main_v111 : Ref sig .tc := ⟨.hbm, 212, rfl⟩
abbrev main_v112 : Ref sig .tc := ⟨.hbm, 213, rfl⟩
abbrev main_c_18 : Ref sig .tc := ⟨.hbm, 214, rfl⟩
abbrev main_call4_cst : Ref sig .tc := ⟨.hbm, 215, rfl⟩
abbrev main_call4_v0 : Ref sig .tc := ⟨.hbm, 216, rfl⟩
abbrev main_call4_v1 : Ref sig .tc := ⟨.hbm, 217, rfl⟩
abbrev main_call4_cst_0 : Ref sig .tc := ⟨.hbm, 218, rfl⟩
abbrev main_call4_v2 : Ref sig .tc := ⟨.hbm, 219, rfl⟩
abbrev main_call4_v3 : Ref sig .tc := ⟨.hbm, 220, rfl⟩
abbrev main_call4_v4 : Ref sig .tc := ⟨.hbm, 221, rfl⟩
abbrev main_call4_v5 : Ref sig .tc := ⟨.hbm, 222, rfl⟩
abbrev main_call4_v6 : Ref sig .tc := ⟨.hbm, 223, rfl⟩
abbrev main_call4_v7 : Ref sig .tc := ⟨.hbm, 224, rfl⟩
abbrev main_call4_cst_1 : Ref sig .tc := ⟨.hbm, 225, rfl⟩
abbrev main_call4_v8 : Ref sig .tc := ⟨.hbm, 226, rfl⟩
abbrev main_call4_cst_2 : Ref sig .tc := ⟨.hbm, 227, rfl⟩
abbrev main_call4_v9 : Ref sig .tc := ⟨.hbm, 228, rfl⟩
abbrev main_call4_v10 : Ref sig .tc := ⟨.hbm, 229, rfl⟩
abbrev main_call4_v11 : Ref sig .tc := ⟨.hbm, 230, rfl⟩
abbrev main_call4_cst_3 : Ref sig .tc := ⟨.hbm, 231, rfl⟩
abbrev main_call4_v12 : Ref sig .tc := ⟨.hbm, 232, rfl⟩
abbrev main_call4_cst_4 : Ref sig .tc := ⟨.hbm, 233, rfl⟩
abbrev main_call4_call0_v0 : Ref sig .tc := ⟨.hbm, 234, rfl⟩
abbrev main_call4_call0_v1 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_cst_19 : Ref sig .tc := ⟨.hbm, 240, rfl⟩
abbrev main_v117 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_call5_cst : Ref sig .tc := ⟨.hbm, 253, rfl⟩
abbrev main_call5_v0 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_v137 : Ref sig .tc := ⟨.hbm, 263, rfl⟩
abbrev main_v138 : Ref sig .tc := ⟨.hbm, 264, rfl⟩
abbrev main_v139 : Ref sig .tc := ⟨.hbm, 265, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S16384x64_S16384x64x1_0_1 : S16384x64.BroadcastsInDim S16384x64x1 (![0, 1] : Fin 2 → Fin S16384x64x1.rank)
  bcast_S16384x32_S16384x1x32_0_2 : S16384x32.BroadcastsInDim S16384x1x32 (![0, 2] : Fin 2 → Fin S16384x1x32.rank)
  bcast_S16384x64x1_S16384x64x32_0_1_2 : S16384x64x1.BroadcastsInDim S16384x64x32 (![0, 1, 2] : Fin 3 → Fin S16384x64x32.rank)
  bcast_S16384x1x32_S16384x64x32_0_1_2 : S16384x1x32.BroadcastsInDim S16384x64x32 (![0, 1, 2] : Fin 3 → Fin S16384x64x32.rank)
  shapeCasts_S16384x64x32_S16384x2048 : S16384x64x32.ShapeCasts S16384x2048
  concatenates_S16384x64_S16384x8_S16384x8_S16384x16_S16384x64_S16384x32_S16384x1_S16384x1_S16384x32_S16384x226_d1 : Shape.Concatenates [S16384x64, S16384x8, S16384x8, S16384x16, S16384x64, S16384x32, S16384x1, S16384x1, S16384x32] S16384x226 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S1024_d0 : S16384x1024.ReducesTo [0] S1024
  h_S_ : 0 < S_.numel
  bcast_S_S1024 : S_.BroadcastsInDim S1024 (![] : Fin 0 → Fin S1024.rank)
  bcast_S_S1x1024 : S_.BroadcastsInDim S1x1024 (![] : Fin 0 → Fin S1x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S512_d0 : S16384x512.ReducesTo [0] S512
  bcast_S_S512 : S_.BroadcastsInDim S512 (![] : Fin 0 → Fin S512.rank)
  bcast_S_S1x512 : S_.BroadcastsInDim S1x512 (![] : Fin 0 → Fin S1x512.rank)
  bcast_S_S16384x512 : S_.BroadcastsInDim S16384x512 (![] : Fin 0 → Fin S16384x512.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S100000x64_S16384x1_S16384x64_1_0_n_n_0_1_164_wf : GatherDims.WF S100000x64 S16384x1 S16384x64 [1] [0] [] [0] [] 1 ![1, 64]
  gather_S4x8_S16384x1_S16384x8_1_0_n_n_0_1_18_wf : GatherDims.WF S4x8 S16384x1 S16384x8 [1] [0] [] [0] [] 1 ![1, 8]
  gather_S8x8_S16384x1_S16384x8_1_0_n_n_0_1_18_wf : GatherDims.WF S8x8 S16384x1 S16384x8 [1] [0] [] [0] [] 1 ![1, 8]
  gather_S32x16_S16384x1_S16384x16_1_0_n_n_0_1_116_wf : GatherDims.WF S32x16 S16384x1 S16384x16 [1] [0] [] [0] [] 1 ![1, 16]
  dot_S16384x19_S19x32_S16384x32_1_0_0_1_n_n_wf : DotDims.WF S16384x19 S19x32 S16384x32 [1] [0] [0] [1] [] []
  dot_S16384x2048_S2048x32_S16384x32_1_0_0_1_n_n_wf : DotDims.WF S16384x2048 S2048x32 S16384x32 [1] [0] [0] [1] [] []
  dot_S16384x226_S226x1024_S16384x1024_1_0_0_1_n_n_wf : DotDims.WF S16384x226 S226x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x512_S16384x512_1_0_0_1_n_n_wf : DotDims.WF S16384x1024 S1024x512 S16384x512 [1] [0] [0] [1] [] []
  dot_S16384x512_S512x1_S16384x1_1_0_0_1_n_n_wf : DotDims.WF S16384x512 S512x1 S16384x1 [1] [0] [0] [1] [] []

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S4x8_S16384x1_S16384x8_1_0_n_n_0_1_18 : GatherDims S4x8 S16384x1 S16384x8 where
  offsetDims := [1]
  collapsedSliceDims := [0]
  operandBatchingDims := []
  startIndicesBatchingDims := []
  startIndexMap := [0]
  indexVectorDim := 1
  sliceSizes := ![1, 8]
  wf := gather_S4x8_S16384x1_S16384x8_1_0_n_n_0_1_18_wf
def gather_S8x8_S16384x1_S16384x8_1_0_n_n_0_1_18 : GatherDims S8x8 S16384x1 S16384x8 where
  offsetDims := [1]
  collapsedSliceDims := [0]
  operandBatchingDims := []
  startIndicesBatchingDims := []
  startIndexMap := [0]
  indexVectorDim := 1
  sliceSizes := ![1, 8]
  wf := gather_S8x8_S16384x1_S16384x8_1_0_n_n_0_1_18_wf
def gather_S32x16_S16384x1_S16384x16_1_0_n_n_0_1_116 : GatherDims S32x16 S16384x1 S16384x16 where
  offsetDims := [1]
  collapsedSliceDims := [0]
  operandBatchingDims := []
  startIndicesBatchingDims := []
  startIndexMap := [0]
  indexVectorDim := 1
  sliceSizes := ![1, 16]
  wf := gather_S32x16_S16384x1_S16384x16_1_0_n_n_0_1_116_wf
def dot_S16384x19_S19x32_S16384x32_1_0_0_1_n_n : DotDims S16384x19 S19x32 S16384x32 where
  lhsContracting := [1]
  rhsContracting := [0]
  lhsNonContracting := [0]
  rhsNonContracting := [1]
  lhsBatch := []
  rhsBatch := []
  wf := dot_S16384x19_S19x32_S16384x32_1_0_0_1_n_n_wf
def dot_S16384x2048_S2048x32_S16384x32_1_0_0_1_n_n : DotDims S16384x2048 S2048x32 S16384x32 where
  lhsContracting := [1]
  rhsContracting := [0]
  lhsNonContracting := [0]
  rhsNonContracting := [1]
  lhsBatch := []
  rhsBatch := []
  wf := dot_S16384x2048_S2048x32_S16384x32_1_0_0_1_n_n_wf
def dot_S16384x226_S226x1024_S16384x1024_1_0_0_1_n_n : DotDims S16384x226 S226x1024 S16384x1024 where
  lhsContracting := [1]
  rhsContracting := [0]
  lhsNonContracting := [0]
  rhsNonContracting := [1]
  lhsBatch := []
  rhsBatch := []
  wf := dot_S16384x226_S226x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.Preserves.lean ====
/-
  The kernel's idealization rewrites three windows in which a value is narrowed from f32 to bf16 and at once
  widened back: the rating column (1024 x 1), the second layer's pre-activation (1024 x 1024) and the third
  layer's pre-activation (1024 x 512). On the extended reals a change of float format is the identity, so each
  window is its operand; on words it is the rounding through bf16, element by element. Both halves hold by
  unfolding the two instances' definitions of the format changes.
-/
import proofs.«214388_g48842368090541_cont_8to1c4_19_37_alg».proof.Defs

noncomputable section

namespace Cert.Proof.Parts

open Idealize.ShloMosaic

/-- Narrowing to bf16 and widening back: the identity on extended reals, the bf16 rounding on words,
    at each of the three shapes where the idealized kernel drops the pair. -/
theorem preserves : Cert.preserves_Kernel_KernelIdeal :=
  ⟨IdealRules.truncf_extf.statement Cert.KernelIdeal.S1024x1 .f32 .bf16,
   IdealRules.truncf_extf.statement Cert.KernelIdeal.S1024x1024 .f32 .bf16,
   IdealRules.truncf_extf.statement Cert.KernelIdeal.S1024x512 .f32 .bf16⟩

end Cert.Proof.Parts

end
-- ==== Proof.RefRun.lean ====
/-
  The reference program's run. Its entry function is a straight line of tensor operations once the calls it makes
  (two variance functions over 16384 x 1024 arrays and one over 16384 x 512, each ending in a scalar-guarded select,
  and three rectifiers) are replaced by their bodies over the buffers each call names: 231 operations, each writing
  one buffer of its own from buffers written earlier or from the 35 argument arrays. The list is cut in seven
  windows. The entry function equals the sequence of the list (the callee bodies unfold at their call sites and the
  binds reassociate), so every weakly fair execution terminates with each buffer at the fold of the operations over
  the launch contents; an argument array is written by no operation, hence ends as it began.
-/
import proofs.«214388_g48842368090541_cont_8to1c4_19_37_alg».proof.Defs
import proofs.«214388_g48842368090541_cont_8to1c4_19_37_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order, in seven windows -/

/-- Operations of window 0 (30): results `main_c` … `main_v22`. -/
abbrev w0 : List (HloOp τ sig (Elt F)) :=
  [ StableHlo.nullary main_c (constantI S_ 32 0#32),
    StableHlo.unary main_c main_v0 (broadcastInDim S16384 ![] bcast_S_S16384 : (⟨S_, .i32⟩ : BufTy).Contents (Elt F) → (⟨S16384, .i32⟩ : BufTy).Contents (Elt F)),
    StableHlo.binary main_arg0 main_v0 main_v1 (cmpi .slt : (⟨S16384, .i32⟩ : BufTy).Contents (Elt F) → (⟨S16384, .i32⟩ : BufTy).Contents (Elt F) → (⟨S16384, .i1⟩ : BufTy).Contents (Elt F)),
    StableHlo.nullary main_c_0 (constantI S_ 32 100000#32),
    StableHlo.unary main_c_0 main_v2 (broadcastInDim S16384 ![] bcast_S_S16384 : (⟨S_, .i32⟩ : BufTy).Contents (Elt F) → (⟨S16384, .i32⟩ : BufTy).Contents (Elt F)),
    StableHlo.binary main_arg0 main_v2 main_v3 (addi : (⟨S16384, .i32⟩ : BufTy).Contents (Elt F) → (⟨S16384, .i32⟩ : BufTy).Contents (Elt F) → (⟨S16384, .i32⟩ : BufTy).Contents (Elt F)),
    StableHlo.ternary main_v1 main_v3 main_arg0 main_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v4 main_v5 (broadcastInDim S16384x1 ![0] bcast_S16384_S16384x1_0 : (⟨S16384, .i32⟩ : BufTy).Contents (Elt F) → (⟨S16384x1, .i32⟩ : BufTy).Contents (Elt F)),
    StableHlo.binary main_arg8 main_v5 main_v6 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    StableHlo.nullary main_c_1 (constantI S_ 32 0#32),
    StableHlo.unary main_c_1 main_v7 (broadcastInDim S16384 ![] bcast_S_S16384 : (⟨S_, .i32⟩ : BufTy).Contents (Elt F) → (⟨S16384, .i32⟩ : BufTy).Contents (Elt F)),
    StableHlo.binary main_arg1 main_v7 main_v8 (cmpi .slt : (⟨S16384, .i32⟩ : BufTy).Contents (Elt F) → (⟨S16384, .i32⟩ : BufTy).Contents (Elt F) → (⟨S16384, .i1⟩ : BufTy).Contents (Elt F)),
    StableHlo.nullary main_c_2 (constantI S_ 32 4#32),
    StableHlo.unary main_c_2 main_v9 (broadcastInDim S16384 ![] bcast_S_S16384 : (⟨S_, .i32⟩ : BufTy).Contents (Elt F) → (⟨S16384, .i32⟩ : BufTy).Contents (Elt F)),
    StableHlo.binary main_arg1 main_v9 main_v10 (addi : (⟨S16384, .i32⟩ : BufTy).Contents (Elt F) → (⟨S16384, .i32⟩ : BufTy).Contents (Elt F) → (⟨S16384, .i32⟩ : BufTy).Contents (Elt F)),
    StableHlo.ternary main_v8 main_v10 main_arg1 main_v11 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v11 main_v12 (broadcastInDim S16384x1 ![0] bcast_S16384_S16384x1_0 : (⟨S16384, .i32⟩ : BufTy).Contents (Elt F) → (⟨S16384x1, .i32⟩ : BufTy).Contents (Elt F)),
    StableHlo.binary main_arg9 main_v12 main_v13 ((fun x i => Host.gather gather_S4x8_S16384x1_S16384x8_1_0_n_n_0_1_18 x i) : (⟨S4x8, .f32⟩ : BufTy).Contents (Elt F) → (⟨S16384x1, .i32⟩ : BufTy).Contents (Elt F) → (⟨S16384x8, .f32⟩ : BufTy).Contents (Elt F)),
    StableHlo.nullary main_c_3 (constantI S_ 32 0#32),
    StableHlo.unary main_c_3 main_v14 (broadcastInDim S16384 ![] bcast_S_S16384 : (⟨S_, .i32⟩ : BufTy).Contents (Elt F) → (⟨S16384, .i32⟩ : BufTy).Contents (Elt F)),
    StableHlo.binary main_arg2 main_v14 main_v15 (cmpi .slt : (⟨S16384, .i32⟩ : BufTy).Contents (Elt F) → (⟨S16384, .i32⟩ : BufTy).Contents (Elt F) → (⟨S16384, .i1⟩ : BufTy).Contents (Elt F)),
    StableHlo.nullary main_c_4 (constantI S_ 32 8#32),
    StableHlo.unary main_c_4 main_v16 (broadcastInDim S16384 ![] bcast_S_S16384 : (⟨S_, .i32⟩ : BufTy).Contents (Elt F) → (⟨S16384, .i32⟩ : BufTy).Contents (Elt F)),
    StableHlo.binary main_arg2 main_v16 main_v17 (addi : (⟨S16384, .i32⟩ : BufTy).Contents (Elt F) → (⟨S16384, .i32⟩ : BufTy).Contents (Elt F) → (⟨S16384, .i32⟩ : BufTy).Contents (Elt F)),
    StableHlo.ternary main_v15 main_v17 main_arg2 main_v18 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v18 main_v19 (broadcastInDim S16384x1 ![0] bcast_S16384_S16384x1_0 : (⟨S16384, .i32⟩ : BufTy).Contents (Elt F) → (⟨S16384x1, .i32⟩ : BufTy).Contents (Elt F)),
    StableHlo.binary main_arg10 main_v19 main_v20 ((fun x i => Host.gather gather_S8x8_S16384x1_S16384x8_1_0_n_n_0_1_18 x i) : (⟨S8x8, .f32⟩ : BufTy).Contents (Elt F) → (⟨S16384x1, .i32⟩ : BufTy).Contents (Elt F) → (⟨S16384x8, .f32⟩ : BufTy).Contents (Elt F)),
    StableHlo.nullary main_c_5 (constantI S_ 32 0#32),
    StableHlo.unary main_c_5 main_v21 (broadcastInDim S16384 ![] bcast_S_S16384 : (⟨S_, .i32⟩ : BufTy).Contents (Elt F) → (⟨S16384, .i32⟩ : BufTy).Contents (Elt F)),
    StableHlo.binary main_arg3 main_v21 main_v22 (cmpi .slt : (⟨S16384, .i32⟩ : BufTy).Contents (Elt F) → (⟨S16384, .i32⟩ : BufTy).Contents (Elt F) → (⟨S16384, .i1⟩ : BufTy).Contents (Elt F)) ]

/-- Operations of window 1 (30): results `main_c_6` … `main_v49`. -/
abbrev w1 : List (HloOp τ sig (Elt F)) :=
  [ StableHlo.nullary main_c_6 (constantI S_ 32 32#32),
    StableHlo.unary main_c_6 main_v23 (broadcastInDim S16384 ![] bcast_S_S16384 : (⟨S_, .i32⟩ : BufTy).Contents (Elt F) → (⟨S16384, .i32⟩ : BufTy).Contents (Elt F)),
    StableHlo.binary main_arg3 main_v23 main_v24 (addi : (⟨S16384, .i32⟩ : BufTy).Contents (Elt F) → (⟨S16384, .i32⟩ : BufTy).Contents (Elt F) → (⟨S16384, .i32⟩ : BufTy).Contents (Elt F)),
    StableHlo.ternary main_v22 main_v24 main_arg3 main_v25 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v25 main_v26 (broadcastInDim S16384x1 ![0] bcast_S16384_S16384x1_0 : (⟨S16384, .i32⟩ : BufTy).Contents (Elt F) → (⟨S16384x1, .i32⟩ : BufTy).Contents (Elt F)),
    StableHlo.binary main_arg11 main_v26 main_v27 ((fun x i => Host.gather gather_S32x16_S16384x1_S16384x16_1_0_n_n_0_1_116 x i) : (⟨S32x16, .f32⟩ : BufTy).Contents (Elt F) → (⟨S16384x1, .i32⟩ : BufTy).Contents (Elt F) → (⟨S16384x16, .f32⟩ : BufTy).Contents (Elt F)),
    StableHlo.nullary main_c_7 (constantI S_ 32 0#32),
    StableHlo.unary main_c_7 main_v28 (broadcastInDim S16384 ![] bcast_S_S16384 : (⟨S_, .i32⟩ : BufTy).Contents (Elt F) → (⟨S16384, .i32⟩ : BufTy).Contents (Elt F)),
    StableHlo.binary main_arg4 main_v28 main_v29 (cmpi .slt : (⟨S16384, .i32⟩ : BufTy).Contents (Elt F) → (⟨S16384, .i32⟩ : BufTy).Contents (Elt F) → (⟨S16384, .i1⟩ : BufTy).Contents (Elt F)),
    StableHlo.nullary main_c_8 (constantI S_ 32 100000#32),
    StableHlo.unary main_c_8 main_v30 (broadcastInDim S16384 ![] bcast_S_S16384 : (⟨S_, .i32⟩ : BufTy).Contents (Elt F) → (⟨S16384, .i32⟩ : BufTy).Contents (Elt F)),
    StableHlo.binary main_arg4 main_v30 main_v31 (addi : (⟨S16384, .i32⟩ : BufTy).Contents (Elt F) → (⟨S16384, .i32⟩ : BufTy).Contents (Elt F) → (⟨S16384, .i32⟩ : BufTy).Contents (Elt F)),
    StableHlo.ternary main_v29 main_v31 main_arg4 main_v32 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v32 main_v33 (broadcastInDim S16384x1 ![0] bcast_S16384_S16384x1_0 : (⟨S16384, .i32⟩ : BufTy).Contents (Elt F) → (⟨S16384x1, .i32⟩ : BufTy).Contents (Elt F)),
    StableHlo.binary main_arg12 main_v33 main_v34 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    StableHlo.binary main_arg5 main_arg13 main_v35 ((fun l r => Host.dotGeneral dot_S16384x19_S19x32_S16384x32_1_0_0_1_n_n none l r) : (⟨S16384x19, .f32⟩ : BufTy).Contents (Elt F) → (⟨S19x32, .f32⟩ : BufTy).Contents (Elt F) → (⟨S16384x32, .f32⟩ : BufTy).Contents (Elt F)),
    StableHlo.unary main_arg14 main_v36 (broadcastInDim S1x32 ![1] bcast_S32_S1x32_1 : (⟨S32, .f32⟩ : BufTy).Contents (Elt F) → (⟨S1x32, .f32⟩ : BufTy).Contents (Elt F)),
    StableHlo.unary main_v36 main_v37 (broadcastInDim S16384x32 ![0, 1] bcast_S1x32_S16384x32_0_1 : (⟨S1x32, .f32⟩ : BufTy).Contents (Elt F) → (⟨S16384x32, .f32⟩ : BufTy).Contents (Elt F)),
    StableHlo.binary main_v35 main_v37 main_v38 (addf : (⟨S16384x32, .f32⟩ : BufTy).Contents (Elt F) → (⟨S16384x32, .f32⟩ : BufTy).Contents (Elt F) → (⟨S16384x32, .f32⟩ : BufTy).Contents (Elt F)),
    StableHlo.unary main_v6 main_v39 (broadcastInDim S16384x64x1 ![0, 1] bcast_S16384x64_S16384x64x1_0_1 : (⟨S16384x64, .f32⟩ : BufTy).Contents (Elt F) → (⟨S16384x64x1, .f32⟩ : BufTy).Contents (Elt F)),
    StableHlo.unary main_v38 main_v40 (broadcastInDim S16384x1x32 ![0, 2] bcast_S16384x32_S16384x1x32_0_2 : (⟨S16384x32, .f32⟩ : BufTy).Contents (Elt F) → (⟨S16384x1x32, .f32⟩ : BufTy).Contents (Elt F)),
    StableHlo.unary main_v39 main_v41 (broadcastInDim S16384x64x32 ![0, 1, 2] bcast_S16384x64x1_S16384x64x32_0_1_2 : (⟨S16384x64x1, .f32⟩ : BufTy).Contents (Elt F) → (⟨S16384x64x32, .f32⟩ : BufTy).Contents (Elt F)),
    StableHlo.unary main_v40 main_v42 (broadcastInDim S16384x64x32 ![0, 1, 2] bcast_S16384x1x32_S16384x64x32_0_1_2 : (⟨S16384x1x32, .f32⟩ : BufTy).Contents (Elt F) → (⟨S16384x64x32, .f32⟩ : BufTy).Contents (Elt F)),
    StableHlo.binary main_v41 main_v42 main_v43 (mulf : (⟨S16384x64x32, .f32⟩ : BufTy).Contents (Elt F) → (⟨S16384x64x32, .f32⟩ : BufTy).Contents (Elt F) → (⟨S16384x64x32, .f32⟩ : BufTy).Contents (Elt F)),
    StableHlo.reshape main_v43 main_v44 rfl shapeCasts_S16384x64x32_S16384x2048,
    StableHlo.binary main_v44 main_arg15 main_v45 ((fun l r => Host.dotGeneral dot_S16384x2048_S2048x32_S16384x32_1_0_0_1_n_n none l r) : (⟨S16384x2048, .f32⟩ : BufTy).Contents (Elt F) → (⟨S2048x32, .f32⟩ : BufTy).Contents (Elt F) → (⟨S16384x32, .f32⟩ : BufTy).Contents (Elt F)),
    StableHlo.unary main_arg16 main_v46 (broadcastInDim S1x32 ![1] bcast_S32_S1x32_1 : (⟨S32, .f32⟩ : BufTy).Contents (Elt F) → (⟨S1x32, .f32⟩ : BufTy).Contents (Elt F)),
    StableHlo.unary main_v46 main_v47 (broadcastInDim S16384x32 ![0, 1] bcast_S1x32_S16384x32_0_1 : (⟨S1x32, .f32⟩ : BufTy).Contents (Elt F) → (⟨S16384x32, .f32⟩ : BufTy).Contents (Elt F)),
    StableHlo.binary main_v45 main_v47 main_v48 (addf : (⟨S16384x32, .f32⟩ : BufTy).Contents (Elt F) → (⟨S16384x32, .f32⟩ : BufTy).Contents (Elt F) → (⟨S16384x32, .f32⟩ : BufTy).Contents (Elt F)),
    StableHlo.unary main_arg6 main_v49 (broadcastInDim S16384x1 ![0] bcast_S16384_S16384x1_0 : (⟨S16384, .f32⟩ : BufTy).Contents (Elt F) → (⟨S16384x1, .f32⟩ : BufTy).Contents (Elt F)) ]

/-- Operations of window 2 (35): results `main_v50` … `main_v60`. -/
abbrev w2 : List (HloOp τ sig (Elt F)) :=
  [ StableHlo.unary main_arg7 main_v50 (broadcastInDim S16384x1 ![0] bcast_S16384_S16384x1_0 : (⟨S16384, .f32⟩ : BufTy).Contents (Elt F) → (⟨S16384x1, .f32⟩ : BufTy).Contents (Elt F)),
    StableHlo.nary ![main_v6, main_v13, main_v20, main_v27, main_v34, main_v38, main_v49, main_v50, main_v48] main_v51 (fun u => concatenate S16384x226 1 [⟨S16384x64, u 0⟩, ⟨S16384x8, u 1⟩, ⟨S16384x8, u 2⟩, ⟨S16384x16, u 3⟩, ⟨S16384x64, u 4⟩, ⟨S16384x32, u 5⟩, ⟨S16384x1, u 6⟩, ⟨S16384x1, u 7⟩, ⟨S16384x32, u 8⟩] concatenates_S16384x64_S16384x8_S16384x8_S16384x16_S16384x64_S16384x32_S16384x1_S16384x1_S16384x32_S16384x226_d1),
    StableHlo.binary main_v51 main_arg17 main_v52 ((fun l r => Host.dotGeneral dot_S16384x226_S226x1024_S16384x1024_1_0_0_1_n_n none l r) : (⟨S16384x226, .f32⟩ : BufTy).Contents (Elt F) → (⟨S226x1024, .f32⟩ : BufTy).Contents (Elt F) → (⟨S16384x1024, .f32⟩ : BufTy).Contents (Elt F)),
    StableHlo.unary main_arg18 main_v53 (broadcastInDim S1x1024 ![1] bcast_S1024_S1x1024_1 : (⟨S1024, .f32⟩ : BufTy).Contents (Elt F) → (⟨S1x1024, .f32⟩ : BufTy).Contents (Elt F)),
    StableHlo.unary main_v53 main_v54 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v52 main_v54 main_v55 (addf : (⟨S16384x1024, .f32⟩ : BufTy).Contents (Elt F) → (⟨S16384x1024, .f32⟩ : BufTy).Contents (Elt F) → (⟨S16384x1024, .f32⟩ : BufTy).Contents (Elt F)),
    StableHlo.nullary main_cst (constant S_ .f32 0x00000000#32),
    StableHlo.binary main_v55 main_cst main_v56 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_9 (constant S_ .f32 0x46800000#32),
    StableHlo.unary main_cst_9 main_v57 (broadcastInDim S1024 ![] bcast_S_S1024 : (⟨S_, .f32⟩ : BufTy).Contents (Elt F) → (⟨S1024, .f32⟩ : BufTy).Contents (Elt F)),
    StableHlo.binary main_v56 main_v57 main_v58 (Host.divf : (⟨S1024, .f32⟩ : BufTy).Contents (Elt F) → (⟨S1024, .f32⟩ : BufTy).Contents (Elt F) → (⟨S1024, .f32⟩ : BufTy).Contents (Elt F)),
    StableHlo.nullary main_c_10 (constantI S_ 32 0#32),
    StableHlo.TRef.nullary main_call0.cst (constant S_ .f32 0x00000000#32),
    StableHlo.TRef.binary (.of main_v55 : StableHlo.TRef sig ⟨S16384x1024, .f32⟩) main_call0.cst main_call0.v0 (fun x v => Host.reduceAdd x v reducesTo_S16384x1024_S1024_d0 h_S_),
    StableHlo.TRef.unary main_call0.v0 main_call0.v1 (broadcastInDim S1x1024 ![1] bcast_S1024_S1x1024_1),
    StableHlo.TRef.nullary main_call0.cst_0 (constant S_ .f32 0x46800000#32),
    StableHlo.TRef.unary main_call0.cst_0 main_call0.v2 (broadcastInDim S1x1024 ![] bcast_S_S1x1024),
    StableHlo.TRef.binary main_call0.v1 main_call0.v2 main_call0.v3 Host.divf,
    StableHlo.TRef.unary main_call0.v3 main_call0.v4 (broadcastInDim S16384x1024 ![0, 1] bcast_S1x1024_S16384x1024_0_1),
    StableHlo.TRef.binary (.of main_v55 : StableHlo.TRef sig ⟨S16384x1024, .f32⟩) main_call0.v4 main_call0.v5 subf,
    StableHlo.TRef.binary main_call0.v5 main_call0.v5 main_call0.v6 mulf,
    StableHlo.TRef.unary (.of main_c_10 : StableHlo.TRef sig ⟨S_, .i32⟩) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x1024_S1024_d0 h_S_),
    StableHlo.TRef.unary main_call0.v8 main_call0.v10 (broadcastInDim S1024 ![] bcast_S_S1024),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1024 ![] bcast_S_S1024),
    StableHlo.TRef.ternary main_call0.v12 main_call0.v11 main_call0.call0.v1 main_call0.call0.v2 (fun p a b => select (broadcastInDim S1024 ![] bcast_S_S1024 p) a b),
    StableHlo.unary main_v58 main_v60 (broadcastInDim S1x1024 ![1] bcast_S1024_S1x1024_1 : (⟨S1024, .f32⟩ : BufTy).Contents (Elt F) → (⟨S1x1024, .f32⟩ : BufTy).Contents (Elt F)) ]

/-- Operations of window 3 (35): results `main_v61` … `main_call2_v0`. -/
abbrev w3 : List (HloOp τ sig (Elt F)) :=
  [ StableHlo.unary main_v60 main_v61 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v55 main_v61 main_v62 (subf : (⟨S16384x1024, .f32⟩ : BufTy).Contents (Elt F) → (⟨S16384x1024, .f32⟩ : BufTy).Contents (Elt F) → (⟨S16384x1024, .f32⟩ : BufTy).Contents (Elt F)),
    StableHlo.nullary main_cst_11 (constant S_ .f32 0x3727C5AC#32),
    StableHlo.unary main_cst_11 main_v63 (broadcastInDim S1024 ![] bcast_S_S1024 : (⟨S_, .f32⟩ : BufTy).Contents (Elt F) → (⟨S1024, .f32⟩ : BufTy).Contents (Elt F)),
    StableHlo.binary main_v59 main_v63 main_v64 (addf : (⟨S1024, .f32⟩ : BufTy).Contents (Elt F) → (⟨S1024, .f32⟩ : BufTy).Contents (Elt F) → (⟨S1024, .f32⟩ : BufTy).Contents (Elt F)),
    StableHlo.unary main_v64 main_v65 (Host.sqrt : (⟨S1024, .f32⟩ : BufTy).Contents (Elt F) → (⟨S1024, .f32⟩ : BufTy).Contents (Elt F)),
    StableHlo.unary main_v65 main_v66 (broadcastInDim S1x1024 ![1] bcast_S1024_S1x1024_1 : (⟨S1024, .f32⟩ : BufTy).Contents (Elt F) → (⟨S1x1024, .f32⟩ : BufTy).Contents (Elt F)),
    StableHlo.unary main_v66 main_v67 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v62 main_v67 main_v68 (Host.divf : (⟨S16384x1024, .f32⟩ : BufTy).Contents (Elt F) → (⟨S16384x1024, .f32⟩ : BufTy).Contents (Elt F) → (⟨S16384x1024, .f32⟩ : BufTy).Contents (Elt F)),
    StableHlo.unary main_arg19 main_v69 (broadcastInDim S1x1024 ![1] bcast_S1024_S1x1024_1 : (⟨S1024, .f32⟩ : BufTy).Contents (Elt F) → (⟨S1x1024, .f32⟩ : BufTy).Contents (Elt F)),
    StableHlo.unary main_v69 main_v70 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v68 main_v70 main_v71 (mulf : (⟨S16384x1024, .f32⟩ : BufTy).Contents (Elt F) → (⟨S16384x1024, .f32⟩ : BufTy).Contents (Elt F) → (⟨S16384x1024, .f32⟩ : BufTy).Contents (Elt F)),
    StableHlo.unary main_arg20 main_v72 (broadcastInDim S1x1024 ![1] bcast_S1024_S1x1024_1 : (⟨S1024, .f32⟩ : BufTy).Contents (Elt F) → (⟨S1x1024, .f32⟩ : BufTy).Contents (Elt F)),
    StableHlo.unary main_v72 main_v73 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v71 main_v73 main_v74 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call1.cst (constant S_ .f32 0x00000000#32),
    StableHlo.TRef.unary main_call1.cst main_call1.v0 (broadcastInDim S16384x1024 ![] bcast_S_S16384x1024),
    StableHlo.TRef.binary (.of main_v74 : StableHlo.TRef sig ⟨S16384x1024, .f32⟩) main_call1.v0 main_call1.v1 maximumf,
    StableHlo.binary main_v51 main_arg21 main_v76 ((fun l r => Host.dotGeneral dot_S16384x226_S226x1024_S16384x1024_1_0_0_1_n_n none l r) : (⟨S16384x226, .f32⟩ : BufTy).Contents (Elt F) → (⟨S226x1024, .f32⟩ : BufTy).Contents (Elt F) → (⟨S16384x1024, .f32⟩ : BufTy).Contents (Elt F)),
    StableHlo.unary main_arg22 main_v77 (broadcastInDim S1x1024 ![1] bcast_S1024_S1x1024_1 : (⟨S1024, .f32⟩ : BufTy).Contents (Elt F) → (⟨S1x1024, .f32⟩ : BufTy).Contents (Elt F)),
    StableHlo.unary main_v77 main_v78 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v76 main_v78 main_v79 (addf : (⟨S16384x1024, .f32⟩ : BufTy).Contents (Elt F) → (⟨S16384x1024, .f32⟩ : BufTy).Contents (Elt F) → (⟨S16384x1024, .f32⟩ : BufTy).Contents (Elt F)),
    StableHlo.binary main_v75 main_v79 main_v80 (addf : (⟨S16384x1024, .f32⟩ : BufTy).Contents (Elt F) → (⟨S16384x1024, .f32⟩ : BufTy).Contents (Elt F) → (⟨S16384x1024, .f32⟩ : BufTy).Contents (Elt F)),
    StableHlo.binary main_v80 main_arg23 main_v81 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    StableHlo.unary main_arg24 main_v82 (broadcastInDim S1x1024 ![1] bcast_S1024_S1x1024_1 : (⟨S1024, .f32⟩ : BufTy).Contents (Elt F) → (⟨S1x1024, .f32⟩ : BufTy).Contents (Elt F)),
    StableHlo.unary main_v82 main_v83 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v81 main_v83 main_v84 (addf : (⟨S16384x1024, .f32⟩ : BufTy).Contents (Elt F) → (⟨S16384x1024, .f32⟩ : BufTy).Contents (Elt F) → (⟨S16384x1024, .f32⟩ : BufTy).Contents (Elt F)),
    StableHlo.nullary main_cst_12 (constant S_ .f32 0x00000000#32),
    StableHlo.binary main_v84 main_cst_12 main_v85 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_13 (constant S_ .f32 0x46800000#32),
    StableHlo.unary main_cst_13 main_v86 (broadcastInDim S1024 ![] bcast_S_S1024 : (⟨S_, .f32⟩ : BufTy).Contents (Elt F) → (⟨S1024, .f32⟩ : BufTy).Contents (Elt F)),
    StableHlo.binary main_v85 main_v86 main_v87 (Host.divf : (⟨S1024, .f32⟩ : BufTy).Contents (Elt F) → (⟨S1024, .f32⟩ : BufTy).Contents (Elt F) → (⟨S1024, .f32⟩ : BufTy).Contents (Elt F)),
    StableHlo.nullary main_c_14 (constantI S_ 32 0#32),
    StableHlo.TRef.nullary main_call2.cst (constant S_ .f32 0x00000000#32),
    StableHlo.TRef.binary (.of main_v84 : StableHlo.TRef sig ⟨S16384x1024, .f32⟩) main_call2.cst main_call2.v0 (fun x v => Host.reduceAdd x v reducesTo_S16384x1024_S1024_d0 h_S_) ]

/-- Operations of window 4 (34): results `main_call2_v1` … `main_v101`. -/
abbrev w4 : List (HloOp τ sig (Elt F)) :=
  [ StableHlo.TRef.unary main_call2.v0 main_call2.v1 (broadcastInDim S1x1024 ![1] bcast_S1024_S1x1024_1),
    StableHlo.TRef.nullary main_call2.cst_0 (constant S_ .f32 0x46800000#32),
    StableHlo.TRef.unary main_call2.cst_0 main_call2.v2 (broadcastInDim S1x1024 ![] bcast_S_S1x1024),
    StableHlo.TRef.binary main_call2.v1 main_call2.v2 main_call2.v3 Host.divf,
    StableHlo.TRef.unary main_call2.v3 main_call2.v4 (broadcastInDim S16384x1024 ![0, 1] bcast_S1x1024_S16384x1024_0_1),
    StableHlo.TRef.binary (.of main_v84 : StableHlo.TRef sig ⟨S16384x1024, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x46800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S16384x1024_S1024_d0 h_S_),
    StableHlo.TRef.unary main_call2.v8 main_call2.v10 (broadcastInDim S1024 ![] bcast_S_S1024),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1024 ![] bcast_S_S1024),
    StableHlo.TRef.ternary main_call2.v12 main_call2.v11 main_call2.call0.v1 main_call2.call0.v2 (fun p a b => select (broadcastInDim S1024 ![] bcast_S_S1024 p) a b),
    StableHlo.unary main_v87 main_v89 (broadcastInDim S1x1024 ![1] bcast_S1024_S1x1024_1 : (⟨S1024, .f32⟩ : BufTy).Contents (Elt F) → (⟨S1x1024, .f32⟩ : BufTy).Contents (Elt F)),
    StableHlo.unary main_v89 main_v90 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v84 main_v90 main_v91 (subf : (⟨S16384x1024, .f32⟩ : BufTy).Contents (Elt F) → (⟨S16384x1024, .f32⟩ : BufTy).Contents (Elt F) → (⟨S16384x1024, .f32⟩ : BufTy).Contents (Elt F)),
    StableHlo.nullary main_cst_15 (constant S_ .f32 0x3727C5AC#32),
    StableHlo.unary main_cst_15 main_v92 (broadcastInDim S1024 ![] bcast_S_S1024 : (⟨S_, .f32⟩ : BufTy).Contents (Elt F) → (⟨S1024, .f32⟩ : BufTy).Contents (Elt F)),
    StableHlo.binary main_v88 main_v92 main_v93 (addf : (⟨S1024, .f32⟩ : BufTy).Contents (Elt F) → (⟨S1024, .f32⟩ : BufTy).Contents (Elt F) → (⟨S1024, .f32⟩ : BufTy).Contents (Elt F)),
    StableHlo.unary main_v93 main_v94 (Host.sqrt : (⟨S1024, .f32⟩ : BufTy).Contents (Elt F) → (⟨S1024, .f32⟩ : BufTy).Contents (Elt F)),
    StableHlo.unary main_v94 main_v95 (broadcastInDim S1x1024 ![1] bcast_S1024_S1x1024_1 : (⟨S1024, .f32⟩ : BufTy).Contents (Elt F) → (⟨S1x1024, .f32⟩ : BufTy).Contents (Elt F)),
    StableHlo.unary main_v95 main_v96 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v91 main_v96 main_v97 (Host.divf : (⟨S16384x1024, .f32⟩ : BufTy).Contents (Elt F) → (⟨S16384x1024, .f32⟩ : BufTy).Contents (Elt F) → (⟨S16384x1024, .f32⟩ : BufTy).Contents (Elt F)),
    StableHlo.unary main_arg25 main_v98 (broadcastInDim S1x1024 ![1] bcast_S1024_S1x1024_1 : (⟨S1024, .f32⟩ : BufTy).Contents (Elt F) → (⟨S1x1024, .f32⟩ : BufTy).Contents (Elt F)),
    StableHlo.unary main_v98 main_v99 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v97 main_v99 main_v100 (mulf : (⟨S16384x1024, .f32⟩ : BufTy).Contents (Elt F) → (⟨S16384x1024, .f32⟩ : BufTy).Contents (Elt F) → (⟨S16384x1024, .f32⟩ : BufTy).Contents (Elt F)),
    StableHlo.unary main_arg26 main_v101 (broadcastInDim S1x1024 ![1] bcast_S1024_S1x1024_1 : (⟨S1024, .f32⟩ : BufTy).Contents (Elt F) → (⟨S1x1024, .f32⟩ : BufTy).Contents (Elt F)) ]

/-- Operations of window 5 (34): results `main_v102` … `main_call4_v12`. -/
abbrev w5 : List (HloOp τ sig (Elt F)) :=
  [ StableHlo.unary main_v101 main_v102 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v100 main_v102 main_v103 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call3.cst (constant S_ .f32 0x00000000#32),
    StableHlo.TRef.unary main_call3.cst main_call3.v0 (broadcastInDim S16384x1024 ![] bcast_S_S16384x1024),
    StableHlo.TRef.binary (.of main_v103 : StableHlo.TRef sig ⟨S16384x1024, .f32⟩) main_call3.v0 main_call3.v1 maximumf,
    StableHlo.binary main_v104 main_v80 main_v105 (addf : (⟨S16384x1024, .f32⟩ : BufTy).Contents (Elt F) → (⟨S16384x1024, .f32⟩ : BufTy).Contents (Elt F) → (⟨S16384x1024, .f32⟩ : BufTy).Contents (Elt F)),
    StableHlo.binary main_v105 main_arg27 main_v106 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg28 main_v107 (broadcastInDim S1x512 ![1] bcast_S512_S1x512_1 : (⟨S512, .f32⟩ : BufTy).Contents (Elt F) → (⟨S1x512, .f32⟩ : BufTy).Contents (Elt F)),
    StableHlo.unary main_v107 main_v108 (broadcastInDim S16384x512 ![0, 1] bcast_S1x512_S16384x512_0_1 : (⟨S1x512, .f32⟩ : BufTy).Contents (Elt F) → (⟨S16384x512, .f32⟩ : BufTy).Contents (Elt F)),
    StableHlo.binary main_v106 main_v108 main_v109 (addf : (⟨S16384x512, .f32⟩ : BufTy).Contents (Elt F) → (⟨S16384x512, .f32⟩ : BufTy).Contents (Elt F) → (⟨S16384x512, .f32⟩ : BufTy).Contents (Elt F)),
    StableHlo.nullary main_cst_16 (constant S_ .f32 0x00000000#32),
    StableHlo.binary main_v109 main_cst_16 main_v110 ((fun x v => Host.reduceAdd x v reducesTo_S16384x512_S512_d0 h_S_) : (⟨S16384x512, .f32⟩ : BufTy).Contents (Elt F) → (⟨S_, .f32⟩ : BufTy).Contents (Elt F) → (⟨S512, .f32⟩ : BufTy).Contents (Elt F)),
    StableHlo.nullary main_cst_17 (constant S_ .f32 0x46800000#32),
    StableHlo.unary main_cst_17 main_v111 (broadcastInDim S512 ![] bcast_S_S512 : (⟨S_, .f32⟩ : BufTy).Contents (Elt F) → (⟨S512, .f32⟩ : BufTy).Contents (Elt F)),
    StableHlo.binary main_v110 main_v111 main_v112 (Host.divf : (⟨S512, .f32⟩ : BufTy).Contents (Elt F) → (⟨S512, .f32⟩ : BufTy).Contents (Elt F) → (⟨S512, .f32⟩ : BufTy).Contents (Elt F)),
    StableHlo.nullary main_c_18 (constantI S_ 32 0#32),
    StableHlo.TRef.nullary main_call4.cst (constant S_ .f32 0x00000000#32),
    StableHlo.TRef.binary (.of main_v109 : StableHlo.TRef sig ⟨S16384x512, .f32⟩) main_call4.cst main_call4.v0 (fun x v => Host.reduceAdd x v reducesTo_S16384x512_S512_d0 h_S_),
    StableHlo.TRef.unary main_call4.v0 main_call4.v1 (broadcastInDim S1x512 ![1] bcast_S512_S1x512_1),
    StableHlo.TRef.nullary main_call4.cst_0 (constant S_ .f32 0x46800000#32),
    StableHlo.TRef.unary main_call4.cst_0 main_call4.v2 (broadcastInDim S1x512 ![] bcast_S_S1x512),
    StableHlo.TRef.binary main_call4.v1 main_call4.v2 main_call4.v3 Host.divf,
    StableHlo.TRef.unary main_call4.v3 main_call4.v4 (broadcastInDim S16384x512 ![0, 1] bcast_S1x512_S16384x512_0_1),
    StableHlo.TRef.binary (.of main_v109 : StableHlo.TRef sig ⟨S16384x512, .f32⟩) main_call4.v4 main_call4.v5 subf,
    StableHlo.TRef.binary main_call4.v5 main_call4.v5 main_call4.v6 mulf,
    StableHlo.TRef.unary (.of main_c_18 : StableHlo.TRef sig ⟨S_, .i32⟩) main_call4.v7 (sitofp .f32),
    StableHlo.TRef.nullary main_call4.cst_1 (constant S_ .f32 0x46800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S16384x512_S512_d0 h_S_),
    StableHlo.TRef.unary main_call4.v8 main_call4.v10 (broadcastInDim S512 ![] bcast_S_S512),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt) ]

/-- Operations of window 6 (33): results `main_call4_cst_4` … `main_v139`. -/
abbrev w6 : List (HloOp τ sig (Elt F)) :=
  [ StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S512 ![] bcast_S_S512),
    StableHlo.TRef.ternary main_call4.v12 main_call4.v11 main_call4.call0.v1 main_call4.call0.v2 (fun p a b => select (broadcastInDim S512 ![] bcast_S_S512 p) a b),
    StableHlo.unary main_v112 main_v114 (broadcastInDim S1x512 ![1] bcast_S512_S1x512_1 : (⟨S512, .f32⟩ : BufTy).Contents (Elt F) → (⟨S1x512, .f32⟩ : BufTy).Contents (Elt F)),
    StableHlo.unary main_v114 main_v115 (broadcastInDim S16384x512 ![0, 1] bcast_S1x512_S16384x512_0_1 : (⟨S1x512, .f32⟩ : BufTy).Contents (Elt F) → (⟨S16384x512, .f32⟩ : BufTy).Contents (Elt F)),
    StableHlo.binary main_v109 main_v115 main_v116 (subf : (⟨S16384x512, .f32⟩ : BufTy).Contents (Elt F) → (⟨S16384x512, .f32⟩ : BufTy).Contents (Elt F) → (⟨S16384x512, .f32⟩ : BufTy).Contents (Elt F)),
    StableHlo.nullary main_cst_19 (constant S_ .f32 0x3727C5AC#32),
    StableHlo.unary main_cst_19 main_v117 (broadcastInDim S512 ![] bcast_S_S512 : (⟨S_, .f32⟩ : BufTy).Contents (Elt F) → (⟨S512, .f32⟩ : BufTy).Contents (Elt F)),
    StableHlo.binary main_v113 main_v117 main_v118 (addf : (⟨S512, .f32⟩ : BufTy).Contents (Elt F) → (⟨S512, .f32⟩ : BufTy).Contents (Elt F) → (⟨S512, .f32⟩ : BufTy).Contents (Elt F)),
    StableHlo.unary main_v118 main_v119 (Host.sqrt : (⟨S512, .f32⟩ : BufTy).Contents (Elt F) → (⟨S512, .f32⟩ : BufTy).Contents (Elt F)),
    StableHlo.unary main_v119 main_v120 (broadcastInDim S1x512 ![1] bcast_S512_S1x512_1 : (⟨S512, .f32⟩ : BufTy).Contents (Elt F) → (⟨S1x512, .f32⟩ : BufTy).Contents (Elt F)),
    StableHlo.unary main_v120 main_v121 (broadcastInDim S16384x512 ![0, 1] bcast_S1x512_S16384x512_0_1 : (⟨S1x512, .f32⟩ : BufTy).Contents (Elt F) → (⟨S16384x512, .f32⟩ : BufTy).Contents (Elt F)),
    StableHlo.binary main_v116 main_v121 main_v122 (Host.divf : (⟨S16384x512, .f32⟩ : BufTy).Contents (Elt F) → (⟨S16384x512, .f32⟩ : BufTy).Contents (Elt F) → (⟨S16384x512, .f32⟩ : BufTy).Contents (Elt F)),
    StableHlo.unary main_arg29 main_v123 (broadcastInDim S1x512 ![1] bcast_S512_S1x512_1 : (⟨S512, .f32⟩ : BufTy).Contents (Elt F) → (⟨S1x512, .f32⟩ : BufTy).Contents (Elt F)),
    StableHlo.unary main_v123 main_v124 (broadcastInDim S16384x512 ![0, 1] bcast_S1x512_S16384x512_0_1 : (⟨S1x512, .f32⟩ : BufTy).Contents (Elt F) → (⟨S16384x512, .f32⟩ : BufTy).Contents (Elt F)),
    StableHlo.binary main_v122 main_v124 main_v125 (mulf : (⟨S16384x512, .f32⟩ : BufTy).Contents (Elt F) → (⟨S16384x512, .f32⟩ : BufTy).Contents (Elt F) → (⟨S16384x512, .f32⟩ : BufTy).Contents (Elt F)),
    StableHlo.unary main_arg30 main_v126 (broadcastInDim S1x512 ![1] bcast_S512_S1x512_1 : (⟨S512, .f32⟩ : BufTy).Contents (Elt F) → (⟨S1x512, .f32⟩ : BufTy).Contents (Elt F)),
    StableHlo.unary main_v126 main_v127 (broadcastInDim S16384x512 ![0, 1] bcast_S1x512_S16384x512_0_1 : (⟨S1x512, .f32⟩ : BufTy).Contents (Elt F) → (⟨S16384x512, .f32⟩ : BufTy).Contents (Elt F)),
    StableHlo.binary main_v125 main_v127 main_v128 (addf : (⟨S16384x512, .f32⟩ : BufTy).Contents (Elt F) → (⟨S16384x512, .f32⟩ : BufTy).Contents (Elt F) → (⟨S16384x512, .f32⟩ : BufTy).Contents (Elt F)),
    StableHlo.TRef.nullary main_call5.cst (constant S_ .f32 0x00000000#32),
    StableHlo.TRef.unary main_call5.cst main_call5.v0 (broadcastInDim S16384x512 ![] bcast_S_S16384x512),
    StableHlo.TRef.binary (.of main_v128 : StableHlo.TRef sig ⟨S16384x512, .f32⟩) main_call5.v0 main_call5.v1 maximumf,
    StableHlo.binary main_v105 main_arg31 main_v130 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg32 main_v131 (broadcastInDim S1x512 ![1] bcast_S512_S1x512_1 : (⟨S512, .f32⟩ : BufTy).Contents (Elt F) → (⟨S1x512, .f32⟩ : BufTy).Contents (Elt F)),
    StableHlo.unary main_v131 main_v132 (broadcastInDim S16384x512 ![0, 1] bcast_S1x512_S16384x512_0_1 : (⟨S1x512, .f32⟩ : BufTy).Contents (Elt F) → (⟨S16384x512, .f32⟩ : BufTy).Contents (Elt F)),
    StableHlo.binary main_v130 main_v132 main_v133 (addf : (⟨S16384x512, .f32⟩ : BufTy).Contents (Elt F) → (⟨S16384x512, .f32⟩ : BufTy).Contents (Elt F) → (⟨S16384x512, .f32⟩ : BufTy).Contents (Elt F)),
    StableHlo.binary main_v129 main_v133 main_v134 (addf : (⟨S16384x512, .f32⟩ : BufTy).Contents (Elt F) → (⟨S16384x512, .f32⟩ : BufTy).Contents (Elt F) → (⟨S16384x512, .f32⟩ : BufTy).Contents (Elt F)),
    StableHlo.binary main_v134 main_arg33 main_v135 ((fun l r => Host.dotGeneral dot_S16384x512_S512x1_S16384x1_1_0_0_1_n_n none l r) : (⟨S16384x512, .f32⟩ : BufTy).Contents (Elt F) → (⟨S512x1, .f32⟩ : BufTy).Contents (Elt F) → (⟨S16384x1, .f32⟩ : BufTy).Contents (Elt F)),
    StableHlo.unary main_arg34 main_v136 (broadcastInDim S1x1 ![1] bcast_S1_S1x1_1 : (⟨S1, .f32⟩ : BufTy).Contents (Elt F) → (⟨S1x1, .f32⟩ : BufTy).Contents (Elt F)),
    StableHlo.unary main_v136 main_v137 (broadcastInDim S16384x1 ![0, 1] bcast_S1x1_S16384x1_0_1 : (⟨S1x1, .f32⟩ : BufTy).Contents (Elt F) → (⟨S16384x1, .f32⟩ : BufTy).Contents (Elt F)),
    StableHlo.binary main_v135 main_v137 main_v138 (addf : (⟨S16384x1, .f32⟩ : BufTy).Contents (Elt F) → (⟨S16384x1, .f32⟩ : BufTy).Contents (Elt F) → (⟨S16384x1, .f32⟩ : BufTy).Contents (Elt F)),
    StableHlo.reshape main_v138 main_v139 rfl shapeCasts_S16384x1_S16384 ]

/-- The operations of the three printed windows of the entry function. -/
abbrev ops0 : List (HloOp τ sig (Elt F)) := w0 ++ (w1)
abbrev ops1 : List (HloOp τ sig (Elt F)) := w2 ++ (w3 ++ (w4))
abbrev ops2 : List (HloOp τ sig (Elt F)) := w5 ++ (w6)
/-- All 231 operations, in order. -/
abbrev ops : List (HloOp τ sig (Elt F)) := ops0 ++ (ops1 ++ ops2)

/-! ## The entry function is the sequence of the operations -/

set_option maxRecDepth 8192 in
set_option maxHeartbeats 4000000 in
/-- The first printed window holds no call: it is the sequence of its operations as printed. -/
theorem main_part0_eq (c : Dev nD) : main_part0 (F := F) c = seq ops0 := rfl

set_option maxRecDepth 8192 in
set_option maxHeartbeats 4000000 in
/-- The second printed window: the two variance calls and the rectifier call unfold to their bodies over the buffers
    the calls name, and the binds reassociate into one chain. -/
theorem main_part1_eq (c : Dev nD) : main_part1 (F := F) c = seq ops1 := by
  simp only [main_part1, fn_var.body, fn_where.body, fn_relu.body, bind_assoc, pure_bind]
  rfl

set_option maxRecDepth 8192 in
set_option maxHeartbeats 4000000 in
/-- The third printed window: a rectifier call, the variance call at width 512 and the last rectifier call. -/
theorem main_part2_eq (c : Dev nD) : main_part2 (F := F) c = seq ops2 := by
  simp only [main_part2, fn_relu.body, fn_var_0.body, fn_where_1.body, fn_relu_2.body, bind_assoc, pure_bind]
  rfl

/-- The entry function runs its three windows in order: the sequence of all the operations. -/
theorem main_eq (c : Dev nD) : main (F := F) c = seq ops :=
  calc main (F := F) c
      = main_part0 (F := F) c >>= fun _ => main_part1 (F := F) c >>= fun _ => main_part2 (F := F) c := rfl
    _ = seq ops0 >>= fun _ => seq ops1 >>= fun _ => seq ops2 := by
        rw [main_part0_eq c, main_part1_eq c, main_part2_eq c]
    _ = seq ops := by
        rw [show (ops : List (HloOp τ sig (Elt F))) = ops0 ++ (ops1 ++ ops2) from rfl, seq_append ops0 (ops1 ++ ops2), seq_append ops1 ops2]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

set_option maxRecDepth 8192 in
theorem w0_sub : (w0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..⟩
set_option maxRecDepth 8192 in
theorem w0_fresh : (w0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl⟩
set_option maxRecDepth 8192 in
theorem w1_sub : (w1 : List (HloOp τ sig (Elt F))).Forall fun op => op.bufs ⊆ tcRefs τ sig :=
  ⟨nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., unary_bufs_sub ..,
    binary_bufs_sub .., unary_bufs_sub .., unary_bufs_sub .., unary_bufs_sub .., unary_bufs_sub .., binary_bufs_sub ..,
    reshape_bufs_sub .., binary_bufs_sub .., unary_bufs_sub .., unary_bufs_sub .., binary_bufs_sub .., unary_bufs_sub ..⟩
set_option maxRecDepth 8192 in
theorem w1_fresh : (w1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl⟩
set_option maxRecDepth 8192 in
theorem w2_sub : (w2 : List (HloOp τ sig (Elt F))).Forall fun op => op.bufs ⊆ tcRefs τ sig :=
  ⟨unary_bufs_sub .., nary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub ..⟩
set_option maxRecDepth 8192 in
theorem w2_fresh : (w2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩
set_option maxRecDepth 8192 in
theorem w3_sub : (w3 : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub ..⟩
set_option maxRecDepth 8192 in
theorem w3_fresh : (w3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩
set_option maxRecDepth 8192 in
theorem w4_sub : (w4 : List (HloOp τ sig (Elt F))).Forall fun op => op.bufs ⊆ tcRefs τ sig :=
  ⟨unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub ..⟩
set_option maxRecDepth 8192 in
theorem w4_fresh : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩
set_option maxRecDepth 8192 in
theorem w5_sub : (w5 : List (HloOp τ sig (Elt F))).Forall fun op => op.bufs ⊆ tcRefs τ sig :=
  ⟨unary_bufs_sub .., binary_bufs_sub .., nullary_bufs_sub .., unary_bufs_sub .., binary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub ..⟩
set_option maxRecDepth 8192 in
theorem w5_fresh : (w5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩
set_option maxRecDepth 8192 in
theorem w6_sub : (w6 : List (HloOp τ sig (Elt F))).Forall fun op => op.bufs ⊆ tcRefs τ sig :=
  ⟨nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., binary_bufs_sub .., binary_bufs_sub .., unary_bufs_sub ..,
    unary_bufs_sub .., binary_bufs_sub .., reshape_bufs_sub ..⟩
set_option maxRecDepth 8192 in
theorem w6_fresh : (w6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

/-- Membership in the whole list is membership in one of the seven windows. -/
theorem mem_ops {op : HloOp τ sig (Elt F)} (h : op ∈ (ops : List (HloOp τ sig (Elt F)))) :
    op ∈ (w0 : List (HloOp τ sig (Elt F))) ∨ op ∈ (w1 : List (HloOp τ sig (Elt F))) ∨ op ∈ (w2 : List (HloOp τ sig (Elt F))) ∨ op ∈ (w3 : List (HloOp τ sig (Elt F))) ∨ op ∈ (w4 : List (HloOp τ sig (Elt F))) ∨ op ∈ (w5 : List (HloOp τ sig (Elt F))) ∨ op ∈ (w6 : List (HloOp τ sig (Elt F))) := by
  simpa only [ops, ops0, ops1, ops2, List.mem_append, or_assoc] using h

theorem ops_sub : (ops : List (HloOp τ sig (Elt F))).Forall fun op => op.bufs ⊆ tcRefs τ sig :=
  List.forall_iff_forall_mem.mpr fun op h => by
    rcases mem_ops h with h | h | h | h | h | h | h
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h]

theorem ops_fresh : ∀ op ∈ (ops : List (HloOp τ sig (Elt F))), op.fresh = ∅ := fun op h => by
  rcases mem_ops h with h | h | h | h | h | h | h
  exacts [List.forall_iff_forall_mem.mp w0_fresh op h, List.forall_iff_forall_mem.mp w1_fresh op h, List.forall_iff_forall_mem.mp w2_fresh op h, List.forall_iff_forall_mem.mp w3_fresh op h, List.forall_iff_forall_mem.mp w4_fresh op h, List.forall_iff_forall_mem.mp w5_fresh op h, List.forall_iff_forall_mem.mp w6_fresh op h]

/-! ## The run -/

/-- On every device, for any float values, from any memory with zero counters: every weakly fair execution of the
    entry function terminates, and every final state has each TensorCore buffer at the fold of the operations over
    its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What the operations leave alone -/

/-- The fold over a concatenation is the fold over the second list from the fold over the first. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- The fold over all the operations, window by window. -/
theorem after_ops (V : Valuation τ sig (Elt F)) :
    after ops V = after w6 (after w5 (after w4 (after w3 (after w2 (after w1 (after w0 (V))))))) := by
  simp only [ops, ops0, ops1, ops2, after_append']

/-- An operation whose one written buffer is in a list of references writes inside the list. -/
theorem writes_sub_of_mem {op : HloOp τ sig (Elt F)} {W : List (Ref sig .tc)} (y : Ref sig .tc)
    (hw : op.writes = {Proc.devRef .tc y}) (hy : y ∈ W) :
    op.writes ⊆ (W.map (Proc.devRef (τ := τ) .tc)).toFinset := by
  rw [hw]; exact Finset.singleton_subset_iff.mpr (List.mem_toFinset.mpr (List.mem_map_of_mem hy))

/-- The buffers window 0 writes. -/
abbrev w0_W : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_c_5, main_v21, main_v22]
set_option maxRecDepth 8192 in
theorem w0_writes : (w0 : List (HloOp τ sig (Elt F))).Forall fun op => op.writes ⊆ (w0_W.map (Proc.devRef (τ := τ) .tc)).toFinset :=
  ⟨writes_sub_of_mem main_c rfl (by decide), writes_sub_of_mem main_v0 rfl (by decide), writes_sub_of_mem main_v1 rfl (by decide),
    writes_sub_of_mem main_c_0 rfl (by decide), writes_sub_of_mem main_v2 rfl (by decide), writes_sub_of_mem main_v3 rfl (by decide),
    writes_sub_of_mem main_v4 rfl (by decide), writes_sub_of_mem main_v5 rfl (by decide), writes_sub_of_mem main_v6 rfl (by decide),
    writes_sub_of_mem main_c_1 rfl (by decide), writes_sub_of_mem main_v7 rfl (by decide), writes_sub_of_mem main_v8 rfl (by decide),
    writes_sub_of_mem main_c_2 rfl (by decide), writes_sub_of_mem main_v9 rfl (by decide), writes_sub_of_mem main_v10 rfl (by decide),
    writes_sub_of_mem main_v11 rfl (by decide), writes_sub_of_mem main_v12 rfl (by decide), writes_sub_of_mem main_v13 rfl (by decide),
    writes_sub_of_mem main_c_3 rfl (by decide), writes_sub_of_mem main_v14 rfl (by decide), writes_sub_of_mem main_v15 rfl (by decide),
    writes_sub_of_mem main_c_4 rfl (by decide), writes_sub_of_mem main_v16 rfl (by decide), writes_sub_of_mem main_v17 rfl (by decide),
    writes_sub_of_mem main_v18 rfl (by decide), writes_sub_of_mem main_v19 rfl (by decide), writes_sub_of_mem main_v20 rfl (by decide),
    writes_sub_of_mem main_c_5 rfl (by decide), writes_sub_of_mem main_v21 rfl (by decide), writes_sub_of_mem main_v22 rfl (by decide)⟩
/-- The buffers window 1 writes. -/
abbrev w1_W : List (Ref sig .tc) := [main_c_6, main_v23, main_v24, main_v25, main_v26, main_v27, main_c_7, main_v28, main_v29, main_c_8, main_v30, main_v31, main_v32, main_v33, main_v34, main_v35, main_v36, main_v37, main_v38, main_v39, main_v40, main_v41, main_v42, main_v43, main_v44, main_v45, main_v46, main_v47, main_v48, main_v49]
set_option maxRecDepth 8192 in
theorem w1_writes : (w1 : List (HloOp τ sig (Elt F))).Forall fun op => op.writes ⊆ (w1_W.map (Proc.devRef (τ := τ) .tc)).toFinset :=
  ⟨writes_sub_of_mem main_c_6 rfl (by decide), writes_sub_of_mem main_v23 rfl (by decide), writes_sub_of_mem main_v24 rfl (by decide),
    writes_sub_of_mem main_v25 rfl (by decide), writes_sub_of_mem main_v26 rfl (by decide), writes_sub_of_mem main_v27 rfl (by decide),
    writes_sub_of_mem main_c_7 rfl (by decide), writes_sub_of_mem main_v28 rfl (by decide), writes_sub_of_mem main_v29 rfl (by decide),
    writes_sub_of_mem main_c_8 rfl (by decide), writes_sub_of_mem main_v30 rfl (by decide), writes_sub_of_mem main_v31 rfl (by decide),
    writes_sub_of_mem main_v32 rfl (by decide), writes_sub_of_mem main_v33 rfl (by decide), writes_sub_of_mem main_v34 rfl (by decide),
    writes_sub_of_mem main_v35 rfl (by decide), writes_sub_of_mem main_v36 rfl (by decide), writes_sub_of_mem main_v37 rfl (by decide),
    writes_sub_of_mem main_v38 rfl (by decide), writes_sub_of_mem main_v39 rfl (by decide), writes_sub_of_mem main_v40 rfl (by decide),
    writes_sub_of_mem main_v41 rfl (by decide), writes_sub_of_mem main_v42 rfl (by decide), writes_sub_of_mem main_v43 rfl (by decide),
    writes_sub_of_mem main_v44 rfl (by decide), writes_sub_of_mem main_v45 rfl (by decide), writes_sub_of_mem main_v46 rfl (by decide),
    writes_sub_of_mem main_v47 rfl (by decide), writes_sub_of_mem main_v48 rfl (by decide), writes_sub_of_mem main_v49 rfl (by decide)⟩
/-- The buffers window 2 writes. -/
abbrev w2_W : List (Ref sig .tc) := [main_v50, main_v51, main_v52, main_v53, main_v54, main_v55, main_cst, main_v56, main_cst_9, main_v57, main_v58, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v59, main_v60]
set_option maxRecDepth 8192 in
theorem w2_writes : (w2 : List (HloOp τ sig (Elt F))).Forall fun op => op.writes ⊆ (w2_W.map (Proc.devRef (τ := τ) .tc)).toFinset :=
  ⟨writes_sub_of_mem main_v50 rfl (by decide), writes_sub_of_mem main_v51 rfl (by decide), writes_sub_of_mem main_v52 rfl (by decide),
    writes_sub_of_mem main_v53 rfl (by decide), writes_sub_of_mem main_v54 rfl (by decide), writes_sub_of_mem main_v55 rfl (by decide),
    writes_sub_of_mem main_cst rfl (by decide), writes_sub_of_mem main_v56 rfl (by decide), writes_sub_of_mem main_cst_9 rfl (by decide),
    writes_sub_of_mem main_v57 rfl (by decide), writes_sub_of_mem main_v58 rfl (by decide), writes_sub_of_mem main_c_10 rfl (by decide),
    writes_sub_of_mem main_call0_cst rfl (by decide), writes_sub_of_mem main_call0_v0 rfl (by decide), writes_sub_of_mem main_call0_v1 rfl (by decide),
    writes_sub_of_mem main_call0_cst_0 rfl (by decide), writes_sub_of_mem main_call0_v2 rfl (by decide), writes_sub_of_mem main_call0_v3 rfl (by decide),
    writes_sub_of_mem main_call0_v4 rfl (by decide), writes_sub_of_mem main_call0_v5 rfl (by decide), writes_sub_of_mem main_call0_v6 rfl (by decide),
    writes_sub_of_mem main_call0_v7 rfl (by decide), writes_sub_of_mem main_call0_cst_1 rfl (by decide), writes_sub_of_mem main_call0_v8 rfl (by decide),
    writes_sub_of_mem main_call0_cst_2 rfl (by decide), writes_sub_of_mem main_call0_v9 rfl (by decide), writes_sub_of_mem main_call0_v10 rfl (by decide),
    writes_sub_of_mem main_call0_v11 rfl (by decide), writes_sub_of_mem main_call0_cst_3 rfl (by decide), writes_sub_of_mem main_call0_v12 rfl (by decide),
    writes_sub_of_mem main_call0_cst_4 rfl (by decide), writes_sub_of_mem main_call0_call0_v0 rfl (by decide), writes_sub_of_mem main_call0_call0_v1 rfl (by decide),
    writes_sub_of_mem main_v59 rfl (by decide), writes_sub_of_mem main_v60 rfl (by decide)⟩
/-- The buffers window 3 writes. -/
abbrev w3_W : List (Ref sig .tc) := [main_v61, main_v62, main_cst_11, main_v63, main_v64, main_v65, main_v66, main_v67, main_v68, main_v69, main_v70, main_v71, main_v72, main_v73, main_v74, main_call1_cst, main_call1_v0, main_v75, main_v76, main_v77, main_v78, main_v79, main_v80, main_v81, main_v82, main_v83, main_v84, main_cst_12, main_v85, main_cst_13, main_v86, main_v87, main_c_14, main_call2_cst, main_call2_v0]
set_option maxRecDepth 8192 in
theorem w3_writes : (w3 : List (HloOp τ sig (Elt F))).Forall fun op => op.writes ⊆ (w3_W.map (Proc.devRef (τ := τ) .tc)).toFinset :=
  ⟨writes_sub_of_mem main_v61 rfl (by decide), writes_sub_of_mem main_v62 rfl (by decide), writes_sub_of_mem main_cst_11 rfl (by decide),
    writes_sub_of_mem main_v63 rfl (by decide), writes_sub_of_mem main_v64 rfl (by decide), writes_sub_of_mem main_v65 rfl (by decide),
    writes_sub_of_mem main_v66 rfl (by decide), writes_sub_of_mem main_v67 rfl (by decide), writes_sub_of_mem main_v68 rfl (by decide),
    writes_sub_of_mem main_v69 rfl (by decide), writes_sub_of_mem main_v70 rfl (by decide), writes_sub_of_mem main_v71 rfl (by decide),
    writes_sub_of_mem main_v72 rfl (by decide), writes_sub_of_mem main_v73 rfl (by decide), writes_sub_of_mem main_v74 rfl (by decide),
    writes_sub_of_mem main_call1_cst rfl (by decide), writes_sub_of_mem main_call1_v0 rfl (by decide), writes_sub_of_mem main_v75 rfl (by decide),
    writes_sub_of_mem main_v76 rfl (by decide), writes_sub_of_mem main_v77 rfl (by decide), writes_sub_of_mem main_v78 rfl (by decide),
    writes_sub_of_mem main_v79 rfl (by decide), writes_sub_of_mem main_v80 rfl (by decide), writes_sub_of_mem main_v81 rfl (by decide),
    writes_sub_of_mem main_v82 rfl (by decide), writes_sub_of_mem main_v83 rfl (by decide), writes_sub_of_mem main_v84 rfl (by decide),
    writes_sub_of_mem main_cst_12 rfl (by decide), writes_sub_of_mem main_v85 rfl (by decide), writes_sub_of_mem main_cst_13 rfl (by decide),
    writes_sub_of_mem main_v86 rfl (by decide), writes_sub_of_mem main_v87 rfl (by decide), writes_sub_of_mem main_c_14 rfl (by decide),
    writes_sub_of_mem main_call2_cst rfl (by decide), writes_sub_of_mem main_call2_v0 rfl (by decide)⟩
/-- The buffers window 4 writes. -/
abbrev w4_W : List (Ref sig .tc) := [main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v88, main_v89, main_v90, main_v91, main_cst_15, main_v92, main_v93, main_v94, main_v95, main_v96, main_v97, main_v98, main_v99, main_v100, main_v101]
set_option maxRecDepth 8192 in
theorem w4_writes : (w4 : List (HloOp τ sig (Elt F))).Forall fun op => op.writes ⊆ (w4_W.map (Proc.devRef (τ := τ) .tc)).toFinset :=
  ⟨writes_sub_of_mem main_call2_v1 rfl (by decide), writes_sub_of_mem main_call2_cst_0 rfl (by decide), writes_sub_of_mem main_call2_v2 rfl (by decide),
    writes_sub_of_mem main_call2_v3 rfl (by decide), writes_sub_of_mem main_call2_v4 rfl (by decide), writes_sub_of_mem main_call2_v5 rfl (by decide),
    writes_sub_of_mem main_call2_v6 rfl (by decide), writes_sub_of_mem main_call2_v7 rfl (by decide), writes_sub_of_mem main_call2_cst_1 rfl (by decide),
    writes_sub_of_mem main_call2_v8 rfl (by decide), writes_sub_of_mem main_call2_cst_2 rfl (by decide), writes_sub_of_mem main_call2_v9 rfl (by decide),
    writes_sub_of_mem main_call2_v10 rfl (by decide), writes_sub_of_mem main_call2_v11 rfl (by decide), writes_sub_of_mem main_call2_cst_3 rfl (by decide),
    writes_sub_of_mem main_call2_v12 rfl (by decide), writes_sub_of_mem main_call2_cst_4 rfl (by decide), writes_sub_of_mem main_call2_call0_v0 rfl (by decide),
    writes_sub_of_mem main_call2_call0_v1 rfl (by decide), writes_sub_of_mem main_v88 rfl (by decide), writes_sub_of_mem main_v89 rfl (by decide),
    writes_sub_of_mem main_v90 rfl (by decide), writes_sub_of_mem main_v91 rfl (by decide), writes_sub_of_mem main_cst_15 rfl (by decide),
    writes_sub_of_mem main_v92 rfl (by decide), writes_sub_of_mem main_v93 rfl (by decide), writes_sub_of_mem main_v94 rfl (by decide),
    writes_sub_of_mem main_v95 rfl (by decide), writes_sub_of_mem main_v96 rfl (by decide), writes_sub_of_mem main_v97 rfl (by decide),
    writes_sub_of_mem main_v98 rfl (by decide), writes_sub_of_mem main_v99 rfl (by decide), writes_sub_of_mem main_v100 rfl (by decide),
    writes_sub_of_mem main_v101 rfl (by decide)⟩
/-- The buffers window 5 writes. -/
abbrev w5_W : List (Ref sig .tc) := [main_v102, main_v103, main_call3_cst, main_call3_v0, main_v104, main_v105, main_v106, main_v107, main_v108, main_v109, main_cst_16, main_v110, main_cst_17, main_v111, main_v112, main_c_18, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12]
set_option maxRecDepth 8192 in
theorem w5_writes : (w5 : List (HloOp τ sig (Elt F))).Forall fun op => op.writes ⊆ (w5_W.map (Proc.devRef (τ := τ) .tc)).toFinset :=
  ⟨writes_sub_of_mem main_v102 rfl (by decide), writes_sub_of_mem main_v103 rfl (by decide), writes_sub_of_mem main_call3_cst rfl (by decide),
    writes_sub_of_mem main_call3_v0 rfl (by decide), writes_sub_of_mem main_v104 rfl (by decide), writes_sub_of_mem main_v105 rfl (by decide),
    writes_sub_of_mem main_v106 rfl (by decide), writes_sub_of_mem main_v107 rfl (by decide), writes_sub_of_mem main_v108 rfl (by decide),
    writes_sub_of_mem main_v109 rfl (by decide), writes_sub_of_mem main_cst_16 rfl (by decide), writes_sub_of_mem main_v110 rfl (by decide),
    writes_sub_of_mem main_cst_17 rfl (by decide), writes_sub_of_mem main_v111 rfl (by decide), writes_sub_of_mem main_v112 rfl (by decide),
    writes_sub_of_mem main_c_18 rfl (by decide), writes_sub_of_mem main_call4_cst rfl (by decide), writes_sub_of_mem main_call4_v0 rfl (by decide),
    writes_sub_of_mem main_call4_v1 rfl (by decide), writes_sub_of_mem main_call4_cst_0 rfl (by decide), writes_sub_of_mem main_call4_v2 rfl (by decide),
    writes_sub_of_mem main_call4_v3 rfl (by decide), writes_sub_of_mem main_call4_v4 rfl (by decide), writes_sub_of_mem main_call4_v5 rfl (by decide),
    writes_sub_of_mem main_call4_v6 rfl (by decide), writes_sub_of_mem main_call4_v7 rfl (by decide), writes_sub_of_mem main_call4_cst_1 rfl (by decide),
    writes_sub_of_mem main_call4_v8 rfl (by decide), writes_sub_of_mem main_call4_cst_2 rfl (by decide), writes_sub_of_mem main_call4_v9 rfl (by decide),
    writes_sub_of_mem main_call4_v10 rfl (by decide), writes_sub_of_mem main_call4_v11 rfl (by decide), writes_sub_of_mem main_call4_cst_3 rfl (by decide),
    writes_sub_of_mem main_call4_v12 rfl (by decide)⟩
/-- The buffers window 6 writes. -/
abbrev w6_W : List (Ref sig .tc) := [main_call4_cst_4, main_call4_call0_v0, main_call4_call0_v1, main_v113, main_v114, main_v115, main_v116, main_cst_19, main_v117, main_v118, main_v119, main_v120, main_v121, main_v122, main_v123, main_v124, main_v125, main_v126, main_v127, main_v128, main_call5_cst, main_call5_v0, main_v129, main_v130, main_v131, main_v132, main_v133, main_v134, main_v135, main_v136, main_v137, main_v138, main_v139]
set_option maxRecDepth 8192 in
theorem w6_writes : (w6 : List (HloOp τ sig (Elt F))).Forall fun op => op.writes ⊆ (w6_W.map (Proc.devRef (τ := τ) .tc)).toFinset :=
  ⟨writes_sub_of_mem main_call4_cst_4 rfl (by decide), writes_sub_of_mem main_call4_call0_v0 rfl (by decide), writes_sub_of_mem main_call4_call0_v1 rfl (by decide),
    writes_sub_of_mem main_v113 rfl (by decide), writes_sub_of_mem main_v114 rfl (by decide), writes_sub_of_mem main_v115 rfl (by decide),
    writes_sub_of_mem main_v116 rfl (by decide), writes_sub_of_mem main_cst_19 rfl (by decide), writes_sub_of_mem main_v117 rfl (by decide),
    writes_sub_of_mem main_v118 rfl (by decide), writes_sub_of_mem main_v119 rfl (by decide), writes_sub_of_mem main_v120 rfl (by decide),
    writes_sub_of_mem main_v121 rfl (by decide), writes_sub_of_mem main_v122 rfl (by decide), writes_sub_of_mem main_v123 rfl (by decide),
    writes_sub_of_mem main_v124 rfl (by decide), writes_sub_of_mem main_v125 rfl (by decide), writes_sub_of_mem main_v126 rfl (by decide),
    writes_sub_of_mem main_v127 rfl (by decide), writes_sub_of_mem main_v128 rfl (by decide), writes_sub_of_mem main_call5_cst rfl (by decide),
    writes_sub_of_mem main_call5_v0 rfl (by decide), writes_sub_of_mem main_v129 rfl (by decide), writes_sub_of_mem main_v130 rfl (by decide),
    writes_sub_of_mem main_v131 rfl (by decide), writes_sub_of_mem main_v132 rfl (by decide), writes_sub_of_mem main_v133 rfl (by decide),
    writes_sub_of_mem main_v134 rfl (by decide), writes_sub_of_mem main_v135 rfl (by decide), writes_sub_of_mem main_v136 rfl (by decide),
    writes_sub_of_mem main_v137 rfl (by decide), writes_sub_of_mem main_v138 rfl (by decide), writes_sub_of_mem main_v139 rfl (by decide)⟩

/-- A buffer no window writes ends as it began. -/
theorem after_ops_keep (V : Valuation τ sig (Elt F)) (r : Ref sig .tc)
    (h0 : r ∉ w0_W) (h1 : r ∉ w1_W) (h2 : r ∉ w2_W) (h3 : r ∉ w3_W) (h4 : r ∉ w4_W) (h5 : r ∉ w5_W) (h6 : r ∉ w6_W) :
    after ops V (Proc.devRef .tc r) = V (Proc.devRef .tc r) := by
  rw [after_ops, after_of_writes_sub w6 _ w6_writes h6,
    after_of_writes_sub w5 _ w5_writes h5,
    after_of_writes_sub w4 _ w4_writes h4,
    after_of_writes_sub w3 _ w3_writes h3,
    after_of_writes_sub w2 _ w2_writes h2,
    after_of_writes_sub w1 _ w1_writes h1,
    after_of_writes_sub w0 _ w0_writes h0]

/-- On every device, for any float values, from any memory with zero counters: every weakly fair execution of the
    entry function terminates, without fault, with the result buffer at the operations' fold over the launch contents
    and the 35 argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v139) = after ops (launchContents m c) (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun _ h c => ⟨h c main_v139,
      (h c main_arg0).trans (after_ops_keep _ main_arg0 (by decide) (by decide) (by decide) (by decide) (by decide) (by decide) (by decide)),
      (h c main_arg1).trans (after_ops_keep _ main_arg1 (by decide) (by decide) (by decide) (by decide) (by decide) (by decide) (by decide)),
      (h c main_arg2).trans (after_ops_keep _ main_arg2 (by decide) (by decide) (by decide) (by decide) (by decide) (by decide) (by decide)),
      (h c main_arg3).trans (after_ops_keep _ main_arg3 (by decide) (by decide) (by decide) (by decide) (by decide) (by decide) (by decide)),
      (h c main_arg4).trans (after_ops_keep _ main_arg4 (by decide) (by decide) (by decide) (by decide) (by decide) (by decide) (by decide)),
      (h c main_arg5).trans (after_ops_keep _ main_arg5 (by decide) (by decide) (by decide) (by decide) (by decide) (by decide) (by decide)),
      (h c main_arg6).trans (after_ops_keep _ main_arg6 (by decide) (by decide) (by decide) (by decide) (by decide) (by decide) (by decide)),
      (h c main_arg7).trans (after_ops_keep _ main_arg7 (by decide) (by decide) (by decide) (by decide) (by decide) (by decide) (by decide)),
      (h c main_arg8).trans (after_ops_keep _ main_arg8 (by decide) (by decide) (by decide) (by decide) (by decide) (by decide) (by decide)),
      (h c main_arg9).trans (after_ops_keep _ main_arg9 (by decide) (by decide) (by decide) (by decide) (by decide) (by decide) (by decide)),
      (h c main_arg10).trans (after_ops_keep _ main_arg10 (by decide) (by decide) (by decide) (by decide) (by decide) (by decide) (by decide)),
      (h c main_arg11).trans (after_ops_keep _ main_arg11 (by decide) (by decide) (by decide) (by decide) (by decide) (by decide) (by decide)),
      (h c main_arg12).trans (after_ops_keep _ main_arg12 (by decide) (by decide) (by decide) (by decide) (by decide) (by decide) (by decide)),
      (h c main_arg13).trans (after_ops_keep _ main_arg13 (by decide) (by decide) (by decide) (by decide) (by decide) (by decide) (by decide)),
      (h c main_arg14).trans (after_ops_keep _ main_arg14 (by decide) (by decide) (by decide) (by decide) (by decide) (by decide) (by decide)),
      (h c main_arg15).trans (after_ops_keep _ main_arg15 (by decide) (by decide) (by decide) (by decide) (by decide) (by decide) (by decide)),
      (h c main_arg16).trans (after_ops_keep _ main_arg16 (by decide) (by decide) (by decide) (by decide) (by decide) (by decide) (by decide)),
      (h c main_arg17).trans (after_ops_keep _ main_arg17 (by decide) (by decide) (by decide) (by decide) (by decide) (by decide) (by decide)),
      (h c main_arg18).trans (after_ops_keep _ main_arg18 (by decide) (by decide) (by decide) (by decide) (by decide) (by decide) (by decide)),
      (h c main_arg19).trans (after_ops_keep _ main_arg19 (by decide) (by decide) (by decide) (by decide) (by decide) (by decide) (by decide)),
      (h c main_arg20).trans (after_ops_keep _ main_arg20 (by decide) (by decide) (by decide) (by decide) (by decide) (by decide) (by decide)),
      (h c main_arg21).trans (after_ops_keep _ main_arg21 (by decide) (by decide) (by decide) (by decide) (by decide) (by decide) (by decide)),
      (h c main_arg22).trans (after_ops_keep _ main_arg22 (by decide) (by decide) (by decide) (by decide) (by decide) (by decide) (by decide)),
      (h c main_arg23).trans (after_ops_keep _ main_arg23 (by decide) (by decide) (by decide) (by decide) (by decide) (by decide) (by decide)),
      (h c main_arg24).trans (after_ops_keep _ main_arg24 (by decide) (by decide) (by decide) (by decide) (by decide) (by decide) (by decide)),
      (h c main_arg25).trans (after_ops_keep _ main_arg25 (by decide) (by decide) (by decide) (by decide) (by decide) (by decide) (by decide)),
      (h c main_arg26).trans (after_ops_keep _ main_arg26 (by decide) (by decide) (by decide) (by decide) (by decide) (by decide) (by decide)),
      (h c main_arg27).trans (after_ops_keep _ main_arg27 (by decide) (by decide) (by decide) (by decide) (by decide) (by decide) (by decide)),
      (h c main_arg28).trans (after_ops_keep _ main_arg28 (by decide) (by decide) (by decide) (by decide) (by decide) (by decide) (by decide)),
      (h c main_arg29).trans (after_ops_keep _ main_arg29 (by decide) (by decide) (by decide) (by decide) (by decide) (by decide) (by decide)),
      (h c main_arg30).trans (after_ops_keep _ main_arg30 (by decide) (by decide) (by decide) (by decide) (by decide) (by decide) (by decide)),
      (h c main_arg31).trans (after_ops_keep _ main_arg31 (by decide) (by decide) (by decide) (by decide) (by decide) (by decide) (by decide)),
      (h c main_arg32).trans (after_ops_keep _ main_arg32 (by decide) (by decide) (by decide) (by decide) (by decide) (by decide) (by decide)),
      (h c main_arg33).trans (after_ops_keep _ main_arg33 (by decide) (by decide) (by decide) (by decide) (by decide) (by decide) (by decide)),
      (h c main_arg34).trans (after_ops_keep _ main_arg34 (by decide) (by decide) (by decide) (by decide) (by decide) (by decide) (by decide))⟩)
    (run_after m ρ)

/-- The reference's frame: it runs and its argument arrays end unchanged (no precondition is needed). -/
theorem frame_ri [Cert.Pre_input_domain.Facts] : Cert.frame_ReferenceIdeal :=
  fun m ρ _ => (θ_run Cert.ReferenceIdeal.defs _ _).mono (fun _ h c => (h c).2) (run m ρ)

end Cert.ReferenceIdeal.RefRun

end
-- ==== Proof.GatherTaskIdeal.lean ====
import proofs.«214388_g48842368090541_cont_8to1c4_19_37_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«214388_g48842368090541_cont_8to1c4_19_37_alg».proof.Proof.Gen.KernelIdeal
import proofs.«214388_g48842368090541_cont_8to1c4_19_37_alg».proof.Proof.Gen.KernelIdeal.Skeleton

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch of its gather kernel sees it -/

abbrev ΛP : Labels := Pipeline.Sig Λ₀ (Fin 4) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable {UU : Type} [URA UU] [CountersIn UU]

local notation "𝕄" => MT nD τ sig (HIx 1) (Elt F) ℕ UU ℕ

/-! ## The arrays the gather kernel touches -/

abbrev idxLoc (d : Dev nD) : Loc nD τ sig := (SparseCore.T d).loc main_v6
abbrev bigLoc (d : Dev nD) : Loc nD τ sig := (SparseCore.T d).loc main_v7
abbrev comboLoc (d : Dev nD) : Loc nD τ sig := (SparseCore.T d).loc main_v35
abbrev uoLoc (d : Dev nD) : Loc nD τ sig := (SparseCore.T d).loc main_v36_0
abbrev moLoc (d : Dev nD) : Loc nD τ sig := (SparseCore.T d).loc main_v36_1
abbrev coLoc (d : Dev nD) : Loc nD τ sig := (SparseCore.T d).loc main_v36_2

local notation "idxV" => (Memref.whole Cert.KernelIdeal.main_v6_scv : Memref Cert.KernelIdeal.sig Kind.scVector Space.hbm Cert.KernelIdeal.S49152 EltTy.i32)
local notation "bigV" => (Memref.whole Cert.KernelIdeal.main_v7_scv : Memref Cert.KernelIdeal.sig Kind.scVector Space.hbm Cert.KernelIdeal.S100000x128 EltTy.f32)
local notation "comboV" => (Memref.whole Cert.KernelIdeal.main_v35_scv : Memref Cert.KernelIdeal.sig Kind.scVector Space.hbm Cert.KernelIdeal.S1024x128 EltTy.f32)
local notation "uoV" => (Memref.whole Cert.KernelIdeal.main_v36_0_scv : Memref Cert.KernelIdeal.sig Kind.scVector Space.hbm Cert.KernelIdeal.S16384x128 EltTy.f32)
local notation "moV" => (Memref.whole Cert.KernelIdeal.main_v36_1_scv : Memref Cert.KernelIdeal.sig Kind.scVector Space.hbm Cert.KernelIdeal.S16384x128 EltTy.f32)
local notation "coV" => (Memref.whole Cert.KernelIdeal.main_v36_2_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

section Tile

variable (d : Dev nD) (L : grid0.Coords)

abbrev cV (L : grid0.Coords) : Fin τ.nSC := (L 0).castLE hcore0
abbrev jV (L : grid0.Coords) : Fin τ.nSub := (L 1).castLE hsub0

/-- The block of 512 rows of an output that task `L` writes, as the task addresses it. -/
abbrev orowK (L : grid0.Coords) : Rect S16384x128 := Rect.unit (s := S16384x128) (k0_off2 L) S512x128.size (k0_off2_inb L)
abbrev uoRowK (L : grid0.Coords) : Memref sig .scVector .hbm S512x128 .f32 := (uoV).slice (orowK L) (fun _ => rfl)
abbrev moRowK (L : grid0.Coords) : Memref sig .scVector .hbm S512x128 .f32 := (moV).slice (orowK L) (fun _ => rfl)
abbrev coRowK (L : grid0.Coords) : Memref sig .scVector .hbm S512x128 .f32 := (coV).slice (orowK L) (fun _ => rfl)

end Tile

section Tile2
variable (d : Dev nD) (L : grid0.Coords)

/-- The seven DMA semaphores of a task: the kernel's own scratch semaphore and the six scoped ones of its copies. -/
abbrev taskSems : Finset (SemLoc sig) :=
  {SemLoc.dma cc0_scratch2.sem, SemLoc.dma cc0_scoped0.sem, SemLoc.dma cc0_scoped1.sem, SemLoc.dma cc0_scoped2.sem,
   SemLoc.dma cc0_scoped3.sem, SemLoc.dma cc0_scoped4.sem, SemLoc.dma cc0_scoped5.sem}

abbrev atThr (thr : Thread nD τ) : SemLoc sig ↪ GSem nD τ sig := ⟨fun g => (thr, g), fun _ _ h => (Prod.mk.inj h).2⟩

omit [CountersIn UU] in
theorem taskSems_sub (thr : Thread nD τ) (hk : thr.2.kind = .scVector) : (taskSems.map (atThr thr)) ⊆ ownCells (sig := sig) thr := by
  intro x hx
  obtain ⟨g, hg, rfl⟩ := Finset.mem_map.mp hx
  refine mem_ownCells.mpr ⟨rfl, ?_⟩
  show g.isScoped thr.2.kind = true
  rw [hk]
  exact (by decide : ∀ g ∈ taskSems, g.isScoped .scVector = true) g hg

omit [CountersIn UU] in
theorem ownSems0_V :
    (ownSems0 (V d (cV L) (jV L)) : sProp 𝕄)
      = iprop((semVal (V d (cV L) (jV L), SemLoc.dma cc0_scratch2.sem) 0 ∗ semVal (V d (cV L) (jV L), SemLoc.dma cc0_scoped0.sem) 0
          ∗ semVal (V d (cV L) (jV L), SemLoc.dma cc0_scoped1.sem) 0 ∗ semVal (V d (cV L) (jV L), SemLoc.dma cc0_scoped2.sem) 0
          ∗ semVal (V d (cV L) (jV L), SemLoc.dma cc0_scoped3.sem) 0 ∗ semVal (V d (cV L) (jV L), SemLoc.dma cc0_scoped4.sem) 0
          ∗ semVal (V d (cV L) (jV L), SemLoc.dma cc0_scoped5.sem) 0)
          ∗ bigSep (ownCells (V d (cV L) (jV L)) \ taskSems.map (atThr (V d (cV L) (jV L)))) fun g => semVal g 0) := by
  unfold SparseCore.Cfg.ownSems0
  rw [SparseCore.bigSep_sdiff_split' (taskSems_sub (V d (cV L) (jV L)) rfl), bigSep_map]
  unfold taskSems
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [CountersIn UU] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile2

section InRange
variable [FloatOps F] (d : Dev nD) (L : grid0.Coords)

/-- The three stretches of 512 entries of the index list that task `L` fetches, as the task addresses them. -/
abbrev idxRowK1 (L : grid0.Coords) : Memref sig .scVector .hbm S512 .i32 :=
  (idxV).slice (Rect.unit (s := S49152) (k0_off1 L) S512.size (k0_off1_inb L)) (fun _ => rfl)
abbrev idxRowK2 (L : grid0.Coords) : Memref sig .scVector .hbm S512 .i32 :=
  (idxV).slice (Rect.unit (s := S49152) (k0_off3 L 16384#32) S512.size (k0_off3_inb L 0)) (fun _ => rfl)
abbrev idxRowK3 (L : grid0.Coords) : Memref sig .scVector .hbm S512 .i32 :=
  (idxV).slice (Rect.unit (s := S49152) (k0_off3 L 32768#32) S512.size (k0_off3_inb L 1)) (fun _ => rfl)

omit [FloatOps F] [CountersIn UU] in
theorem L_bounds : (L 0).val < 2 ∧ (L 1).val < 16 := ⟨(L 0).isLt, (L 1).isLt⟩

omit [CountersIn UU] in
/-- Entry `x` of the first stretch is entry `1024·L₁ + 512·L₀ + x` of the list: in its first third. -/
theorem emb1 (x : S512.Idx) : (((idxRowK1 L).view.emb x) 0).val = 1024 * (L 1).val + 512 * (L 0).val + (x 0).val := by
  show (k0_off1 L) 0 + 1 * (x 0).val = _
  rw [k0_off1_eq]; simp
omit [CountersIn UU] in
theorem emb2 (x : S512.Idx) : (((idxRowK2 L).view.emb x) 0).val = 16384 + 1024 * (L 1).val + 512 * (L 0).val + (x 0).val := by
  show (k0_off3 L 16384#32) 0 + 1 * (x 0).val = _
  rw [show (16384#32 : BitVec 32) = BitVec.ofNat 32 (16384 + 16384 * (0 : Fin 2).val) from rfl, k0_off3_eq]; simp; omega
omit [CountersIn UU] in
theorem emb3 (x : S512.Idx) : (((idxRowK3 L).view.emb x) 0).val = 32768 + 1024 * (L 1).val + 512 * (L 0).val + (x 0).val := by
  show (k0_off3 L 32768#32) 0 + 1 * (x 0).val = _
  rw [show (32768#32 : BitVec 32) = BitVec.ofNat 32 (16384 + 16384 * (1 : Fin 2).val) from rfl, k0_off3_eq]; simp; omega

omit [CountersIn UU] in
/-- What a fetch of a stretch leaves in the index scratch reads, entry by entry, as the list at the stretch. -/
theorem read_fetched (off : Fin 1 → Nat) (hoff : ∀ a, off a + S512.size a ≤ S49152.size a) (fi : Buf (Elt F) (idxLoc d))
    (fs : Buf (Elt F) ((V d (cV L) (jV L)).loc cc0_scratch0)) (pay : S512.Idx → Elt F .i32)
    (hpay : pay = ((idxV).slice (Rect.unit (s := S49152) off S512.size hoff) (fun _ => rfl)).view.read (Elt F) fi) (x : S512.Idx) :
    (sV).view.read (Elt F) (View.write (Elt F) (sV).view fs pay Finset.univ) x
      = fi (((idxV).slice (Rect.unit (s := S49152) off S512.size hoff) (fun _ => rfl)).view.emb x) := by
  subst hpay
  rw [View.write_whole_univ]
  simp only [Memref.view_whole, View.read_whole]
  exact (View.read_apply _ _).trans (cast_eq _ _)

end InRange

/-- What the kernel's index list must satisfy for its three gathers to name rows: the first two thirds index
    the table of 100000 rows, the last third the table of 1024 rows. -/
def IdxOK (d : Dev nD) (fi : Buf (Elt F) (idxLoc d)) : Prop :=
  (∀ j : S49152.Idx, (j 0).val < 32768 → (fi j).toNat < 100000) ∧ (∀ j : S49152.Idx, 32768 ≤ (j 0).val → (fi j).toNat < 1024)

section InRange2
variable [FloatOps F] (d : Dev nD) (L : grid0.Coords)

omit [CountersIn UU] in
/-- The first stretch lies in the first third of the list: its entries name rows of the table of 100000 rows. -/
theorem inb1 (fi : Buf (Elt F) (idxLoc d)) (hpre : IdxOK d fi) (fs : Buf (Elt F) ((V d (cV L) (jV L)).loc cc0_scratch0)) (pay : S512.Idx → Elt F .i32)
    (hpay : pay = (idxRowK1 L).view.read (Elt F) fi) :
    ∀ x, ((sV).view.read (Elt F) (View.write (Elt F) (sV).view fs pay Finset.univ) x).toNat < S100000x128.size gathers_S100000x128_S512x128.axis := by
  intro x
  rw [read_fetched d L _ _ fi fs pay hpay x]
  refine hpre.1 _ ?_
  rw [emb1]
  have h := L_bounds L; have hx : (x 0).val < 512 := (x 0).isLt
  omega
omit [CountersIn UU] in
/-- So does the second. -/
theorem inb2 (fi : Buf (Elt F) (idxLoc d)) (hpre : IdxOK d fi) (fs : Buf (Elt F) ((V d (cV L) (jV L)).loc cc0_scratch0)) (pay : S512.Idx → Elt F .i32)
    (hpay : pay = (idxRowK2 L).view.read (Elt F) fi) :
    ∀ x, ((sV).view.read (Elt F) (View.write (Elt F) (sV).view fs pay Finset.univ) x).toNat < S100000x128.size gathers_S100000x128_S512x128.axis := by
  intro x
  rw [read_fetched d L _ _ fi fs pay hpay x]
  refine hpre.1 _ ?_
  rw [emb2]
  have h := L_bounds L; have hx : (x 0).val < 512 := (x 0).isLt
  omega
omit [CountersIn UU] in
/-- The third stretch lies in the last third: its entries name rows of the table of 1024 rows. -/
theorem inb3 (fi : Buf (Elt F) (idxLoc d)) (hpre : IdxOK d fi) (fs : Buf (Elt F) ((V d (cV L) (jV L)).loc cc0_scratch0)) (pay : S512.Idx → Elt F .i32)
    (hpay : pay = (idxRowK3 L).view.read (Elt F) fi) :
    ∀ x, ((sV).view.read (Elt F) (View.write (Elt F) (sV).view fs pay Finset.univ) x).toNat < S1024x128.size gathers_S1024x128_S512x128.axis := by
  intro x
  rw [read_fetched d L _ _ fi fs pay hpay x]
  refine hpre.2 _ ?_
  rw [emb3]
  omega

end InRange2

section Respell
variable (d : Dev nD) (L : grid0.Coords)
omit [CountersIn UU] in
theorem pts_sV_set (f : Buf (Elt F) ((V d (cV L) (jV L)).loc cc0_scratch0)) :
    ((sV).view.loc (V d (cV L) (jV L)) ↦{fullShare} f : sProp 𝕄) = (sV).view.loc (V d (cV L) (jV L)) ↦[(sV).view.set]{fullShare} f := by
  rw [View.set_whole]
omit [CountersIn UU] in
theorem pts_rV_set (f : Buf (Elt F) ((V d (cV L) (jV L)).loc cc0_scratch1)) :
    ((rV).view.loc (V d (cV L) (jV L)) ↦{fullShare} f : sProp 𝕄) = (rV).view.loc (V d (cV L) (jV L)) ↦[(rV).view.set]{fullShare} f := by
  rw [View.set_whole]
end Respell

section Tile3
variable [FloatOps F] (d : Dev nD) (L : grid0.Coords)

abbrev tileOperands (qi qb qc : PosShare TreeShare) (fi : Buf (Elt F) (idxLoc d)) (fb : Buf (Elt F) (bigLoc d)) (fc : Buf (Elt F) (comboLoc d)) : sProp 𝕄 :=
  iprop((idxLoc d ↦{qi} fi) ∗ (bigLoc d ↦{qb} fb) ∗ (comboLoc d ↦{qc} fc)
    ∗ (∃ f, uoLoc d ↦[(uoRowK L).view.set]{fullShare} f) ∗ (∃ f, moLoc d ↦[(moRowK L).view.set]{fullShare} f)
    ∗ (∃ f, coLoc d ↦[(coRowK L).view.set]{fullShare} f))

set_option maxHeartbeats 4000000 in
theorem tile_body [Infinite ℕ] [(countersEmb : UEmb Counters 𝕄).LandsIn (upEmb : UEmb _ 𝕄)] (hF : (K (F := F)).Facts)
    (qi qb qc : PosShare TreeShare) (fi : Buf (Elt F) (idxLoc d)) (fb : Buf (Elt F) (bigLoc d)) (fc : Buf (Elt F) (comboLoc d))
    (hpre : IdxOK d fi)
    (O : CellTallies nD τ sig (HIx 1)) (W : Waits sig (HIx 1)) (hO : ∀ g, O g none = 0) :
    iprop(levAts (K (F := F)).L (K (F := F)).lev ∗ emp
        ∗ tileOperands (UU := UU) d L qi qb qc fi fb fc
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L idxV (Memref.isWhole_whole _) bigV (Memref.isWhole_whole _) comboV (Memref.isWhole_whole _)
            uoV (Memref.isWhole_whole _) moV (Memref.isWhole_whole _) coV (Memref.isWhole_whole _)
            sV (Memref.isWhole_whole _) rV (Memref.isWhole_whole _) cc0_scratch2 cc0_scoped0 cc0_scoped1 cc0_scoped2 cc0_scoped3 cc0_scoped4 cc0_scoped5)
          fun _ => iprop(tileOperands (UU := UU) d L qi qb qc fi fb fc
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold tileOperands
  iintro ⟨#Hlv, -, ⟨Hi, Hb, Hc, ⟨%fu, Hu⟩, ⟨%fm, Hm⟩, ⟨%fco, Hco⟩⟩, ⟨⟨%fs, Hs⟩, ⟨%fr, Hr⟩, Hbufs⟩, ⟨⟨Hsem, HsA, HsB, HsC, HsD, HsE, HsF⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (idxLoc d ↦{qi} fi : sProp 𝕄) = (idxV).view.loc (V d (cV L) (jV L)) ↦{qi} fi from rfl)) $$ Hi
  ihave Hb' := (Entails.of_eq (show (bigLoc d ↦{qb} fb : sProp 𝕄) = (bigV).view.loc (V d (cV L) (jV L)) ↦{qb} fb from rfl)) $$ Hb
  ihave Hc' := (Entails.of_eq (show (comboLoc d ↦{qc} fc : sProp 𝕄) = (comboV).view.loc (V d (cV L) (jV L)) ↦{qc} fc from rfl)) $$ Hc
  ihave Hu' := (Entails.of_eq (show (uoLoc d ↦[(uoRowK L).view.set]{fullShare} fu : sProp 𝕄) = (uoRowK L).view.loc (V d (cV L) (jV L)) ↦[(uoRowK L).view.set]{fullShare} fu from rfl)) $$ Hu
  ihave Hm' := (Entails.of_eq (show (moLoc d ↦[(moRowK L).view.set]{fullShare} fm : sProp 𝕄) = (moRowK L).view.loc (V d (cV L) (jV L)) ↦[(moRowK L).view.set]{fullShare} fm from rfl)) $$ Hm
  ihave Hco' := (Entails.of_eq (show (coLoc d ↦[(coRowK L).view.set]{fullShare} fco : sProp 𝕄) = (coRowK L).view.loc (V d (cV L) (jV L)) ↦[(coRowK L).view.set]{fullShare} fco from rfl)) $$ Hco
  ihave Hs' := (Entails.of_eq (show ((V d (cV L) (jV L)).loc cc0_scratch0 ↦{fullShare} fs : sProp 𝕄) = (sV).view.loc (V d (cV L) (jV L)) ↦{fullShare} fs from rfl)) $$ Hs
  ihave Hr' := (Entails.of_eq (show ((V d (cV L) (jV L)).loc cc0_scratch1 ↦{fullShare} fr : sProp 𝕄) = (rV).view.loc (V d (cV L) (jV L)) ↦{fullShare} fr from rfl)) $$ Hr
  have hN1 : ∀ h : S100000x128.Gathers 0 S512x128, ∑ j, ((rV).slice (S512x128.rowRect h.axis' j) (S512x128.stride_rowRect h.axis' j)).view.dmaCredit
      = (rV).view.dmaCredit := by decide
  have hN3 : ∀ h : S1024x128.Gathers 0 S512x128, ∑ j, ((rV).slice (S512x128.rowRect h.axis' j) (S512x128.stride_rowRect h.axis' j)).view.dmaCredit
      = (rV).view.dmaCredit := by decide
  sl_exec
  -- the first gather: rows of the wide table named by the first stretch of the list, then out to the first result
  ihave Hts := (pointsTo_split_subset (q := qb) (f := fb) (S := Finset.univ) (Finset.subset_univ ((bigV).slice (Rect.unit (s := S100000x128) ![0, 0] S100000x128.size inb_S100000x128_S100000x128_0_0) (fun _ => rfl)).view.set)).1 $$ Hb'
  icases Hts with ⟨Hts, Htr⟩
  ihave Hr'' := (Entails.of_eq (pts_rV_set (F := F) (UU := UU) d L _)) $$ Hr'
  ihave Hs'' := (Entails.of_eq (pts_sV_set (F := F) (UU := UU) d L _)) $$ Hs'
  iapply (SparseCore.wp_indirectGatherLocal countersEmb 𝒱₀ (V d (cV L) (jV L)) none (hg := gathers_S100000x128_S512x128) (default : HIx 1)
      (rV).view.dmaCredit (hN1 _) (by decide) (inb1 d L fi hpre _ _ rfl)) $$ [Hts Hr'' Hs'' Hsem]
  · isplitl [Hts]; · iexact Hts
    isplitl [Hr'']; · iexact Hr''
    isplitl [Hs'']; · iexact Hs''
    iexact Hsem
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, Hsem, HO⟩
  ihave Hb' := (pointsTo_split_subset (q := qb) (f := fb) (S := Finset.univ) (Finset.subset_univ ((bigV).slice (Rect.unit (s := S100000x128) ![0, 0] S100000x128.size inb_S100000x128_S100000x128_0_0) (fun _ => rfl)).view.set)).2 $$ [Hts Htr]; · isplitl [Hts] <;> iassumption
  ihave Hr' := (Entails.of_eq (pts_rV_set (F := F) (UU := UU) d L _).symm) $$ Hr'
  ihave Hs' := (Entails.of_eq (pts_sV_set (F := F) (UU := UU) d L _).symm) $$ Hs'
  sl_exec
  -- the second gather: rows of the wide table named by the second stretch, then out to the second result
  ihave Hts := (pointsTo_split_subset (q := qb) (f := fb) (S := Finset.univ) (Finset.subset_univ ((bigV).slice (Rect.unit (s := S100000x128) ![0, 0] S100000x128.size inb_S100000x128_S100000x128_0_0) (fun _ => rfl)).view.set)).1 $$ Hb'
  icases Hts with ⟨Hts, Htr⟩
  ihave Hr'' := (Entails.of_eq (pts_rV_set (F := F) (UU := UU) d L _)) $$ Hr'
  ihave Hs'' := (Entails.of_eq (pts_sV_set (F := F) (UU := UU) d L _)) $$ Hs'
  iapply (SparseCore.wp_indirectGatherLocal countersEmb 𝒱₀ (V d (cV L) (jV L)) none (hg := gathers_S100000x128_S512x128) (default : HIx 1)
      (rV).view.dmaCredit (hN1 _) (by decide) (inb2 d L fi hpre _ _ rfl)) $$ [Hts Hr'' Hs'' Hsem]
  · isplitl [Hts]; · iexact Hts
    isplitl [Hr'']; · iexact Hr''
    isplitl [Hs'']; · iexact Hs''
    iexact Hsem
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, Hsem, HO⟩
  ihave Hb' := (pointsTo_split_subset (q := qb) (f := fb) (S := Finset.univ) (Finset.subset_univ ((bigV).slice (Rect.unit (s := S100000x128) ![0, 0] S100000x128.size inb_S100000x128_S100000x128_0_0) (fun _ => rfl)).view.set)).2 $$ [Hts Htr]; · isplitl [Hts] <;> iassumption
  ihave Hr' := (Entails.of_eq (pts_rV_set (F := F) (UU := UU) d L _).symm) $$ Hr'
  ihave Hs' := (Entails.of_eq (pts_sV_set (F := F) (UU := UU) d L _).symm) $$ Hs'
  sl_exec
  -- the third gather: rows of the small table named by the third stretch, then out to the third result
  ihave Hts := (pointsTo_split_subset (q := qc) (f := fc) (S := Finset.univ) (Finset.subset_univ ((comboV).slice (Rect.unit (s := S1024x128) ![0, 0] S1024x128.size inb_S1024x128_S1024x128_0_0) (fun _ => rfl)).view.set)).1 $$ Hc'
  icases Hts with ⟨Hts, Htr⟩
  ihave Hr'' := (Entails.of_eq (pts_rV_set (F := F) (UU := UU) d L _)) $$ Hr'
  ihave Hs'' := (Entails.of_eq (pts_sV_set (F := F) (UU := UU) d L _)) $$ Hs'
  iapply (SparseCore.wp_indirectGatherLocal countersEmb 𝒱₀ (V d (cV L) (jV L)) none (hg := gathers_S1024x128_S512x128) (default : HIx 1)
      (rV).view.dmaCredit (hN3 _) (by decide) (inb3 d L fi hpre _ _ rfl)) $$ [Hts Hr'' Hs'' Hsem]
  · isplitl [Hts]; · iexact Hts
    isplitl [Hr'']; · iexact Hr''
    isplitl [Hs'']; · iexact Hs''
    iexact Hsem
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, Hsem, HO⟩
  ihave Hc' := (pointsTo_split_subset (q := qc) (f := fc) (S := Finset.univ) (Finset.subset_univ ((comboV).slice (Rect.unit (s := S1024x128) ![0, 0] S1024x128.size inb_S1024x128_S1024x128_0_0) (fun _ => rfl)).view.set)).2 $$ [Hts Htr]; · isplitl [Hts] <;> iassumption
  ihave Hr' := (Entails.of_eq (pts_rV_set (F := F) (UU := UU) d L _).symm) $$ Hr'
  ihave Hs' := (Entails.of_eq (pts_sV_set (F := F) (UU := UU) d L _).symm) $$ Hs'
  sl_exec
  sl_step
  isplitl [Hi' Hb' Hc' Hu' Hm' Hco']
  · isplitl [Hi']; · iexact Hi'
    isplitl [Hb']; · iexact Hb'
    isplitl [Hc']; · iexact Hc'
    isplitl [Hu']; · iexists _; iexact Hu'
    isplitl [Hm']; · iexists _; iexact Hm'
    iexists _; iexact Hco'
  isplitl [Hs' Hr' Hbufs]
  · isplitl [Hs']; · iexists _; iexact Hs'
    isplitl [Hr']; · iexists _; iexact Hr'
    iexact Hbufs
  isplitl [Hsem HsA HsB HsC HsD HsE HsF Hsems]
  · isplitl [Hsem HsA HsB HsC HsD HsE HsF]
    · isplitl [Hsem]; · iexact Hsem
      isplitl [HsA]; · iexact HsA
      isplitl [HsB]; · iexact HsB
      isplitl [HsC]; · iexact HsC
      isplitl [HsD]; · iexact HsD
      isplitl [HsE]; · iexact HsE
      iexact HsF
    iexact Hsems
  iexists _; isplitr
  swap; · iexact HO
  ipureintro; intro p hp
  repeat (rcases Finset.mem_insert.mp hp with hp | hp; · exact .inr (hp ▸ rfl))
  exact .inl hp

end Tile3

end Cert.Proof.KernelIdealSc
end
-- ==== Proof.GatherLaunchIdeal.lean ====
import proofs.«214388_g48842368090541_cont_8to1c4_19_37_alg».proof.Proof.GatherTaskIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 1) (Elt F) ℕ UU ℕ

/-! ## What the call's handshakes carry

Each task is handed a read share of the index list and of the two tables, and the block of 512 rows of each
result that it writes; it hands the same back, the blocks at what it wrote. A SparseCore's start carries its
sixteen tasks' operands at once. -/

def coordsV (c : Fin (grid0.bound 0)) (s : Fin (grid0.bound 1)) : grid0.Coords :=
  fun | 0 => c | 1 => s | ⟨_ + 2, h⟩ => absurd h (Nat.not_lt.2 (Nat.le_add_left _ _))

/-- The coordinates of task `i` of SparseCore `c` of the call's grid. -/
abbrev Lof (c : Fin ((K (F := F)).nCore 0)) (i : Fin ((K (F := F)).nSub 0)) : grid0.Coords :=
  coordsV ⟨((K (F := F)).core 0 c).val, c.isLt⟩ ⟨((K (F := F)).sub 0 i).val, i.isLt⟩

/-- The read share of task `(c, i)`: the full share cut in two, the half cut in sixteen. -/
abbrev shr (c : Fin ((K (F := F)).nCore 0)) (i : Fin ((K (F := F)).nSub 0)) : PosShare TreeShare :=
  pieceOf (pieceOf fullShare 2 (by decide) (Fin.cast (nCore_zero (F := F)) c)) 16 (by decide) (Fin.cast (nSub_zero (F := F)) i)

section Pay
variable [FloatOps F]
variable (fi : (d : Dev nD) → Buf (Elt F) (idxLoc d)) (fb : (d : Dev nD) → Buf (Elt F) (bigLoc d)) (fc : (d : Dev nD) → Buf (Elt F) (comboLoc d))

abbrev goOf (d : Dev nD) (c : Fin ((K (F := F)).nCore 0)) (i : Fin ((K (F := F)).nSub 0)) : sProp 𝕄 :=
  tileOperands (UU := UU) d (Lof c i) (shr c i) (shr c i) (shr c i) (fi d) (fb d) (fc d)

def P : (K (F := F)).Pay (nD := nD) (Val := Elt F) (Name := ℕ) (U := UU) where
  st := fun q d c => match q with | 0 => bigSep Finset.univ fun i => goOf (UU := UU) fi fb fc d c i
  dn := fun q d c => match q with | 0 => bigSep Finset.univ fun i => goOf (UU := UU) fi fb fc d c i
  go := fun q d c i => match q with | 0 => goOf (UU := UU) fi fb fc d c i
  td := fun q d c i => match q with | 0 => goOf (UU := UU) fi fb fc d c i
  x := fun _ _ => iprop(emp)

set_option synthInstance.maxHeartbeats 2000000 in
set_option maxHeartbeats 2000000 in
instance P_storable : (P (UU := UU) fi fb fc).IsStorable where
  st q d c := match q with
    | 0 => (inferInstance : BI.Storable (upEmb : UEmb _ 𝕄) (bigSep Finset.univ fun i => goOf (UU := UU) fi fb fc d c i))
  dn q d c := match q with
    | 0 => (inferInstance : BI.Storable (upEmb : UEmb _ 𝕄) (bigSep Finset.univ fun i => goOf (UU := UU) fi fb fc d c i))
  go q d c i := match q with
    | 0 => (inferInstance : BI.Storable (upEmb : UEmb _ 𝕄) (goOf (UU := UU) fi fb fc d c i))
  td q d c i := match q with
    | 0 => (inferInstance : BI.Storable (upEmb : UEmb _ 𝕄) (goOf (UU := UU) fi fb fc d c i))

/-- A SparseCore's operands are its tasks' operands, and its results theirs. -/
theorem vecSplit : (K (F := F)).VecSplit' (P (UU := UU) fi fb fc) 0 := by
  intro d c
  show (bigSep Finset.univ fun i => goOf (UU := UU) fi fb fc d c i) ⊢ |={Set.univ}=> iprop(
      (bigSep Finset.univ fun i => goOf (UU := UU) fi fb fc d c i)
      ∗ ((bigSep Finset.univ fun i => goOf (UU := UU) fi fb fc d c i) -∗ (bigSep Finset.univ fun i => goOf (UU := UU) fi fb fc d c i)))
  iintro H; imodintro
  isplitl [H]; · iexact H
  iintro H; iexact H

end Pay

/-! ## The task's obligation -/

local notation "idxV" => (Memref.whole Cert.KernelIdeal.main_v6_scv : Memref Cert.KernelIdeal.sig Kind.scVector Space.hbm Cert.KernelIdeal.S49152 EltTy.i32)
local notation "bigV" => (Memref.whole Cert.KernelIdeal.main_v7_scv : Memref Cert.KernelIdeal.sig Kind.scVector Space.hbm Cert.KernelIdeal.S100000x128 EltTy.f32)
local notation "comboV" => (Memref.whole Cert.KernelIdeal.main_v35_scv : Memref Cert.KernelIdeal.sig Kind.scVector Space.hbm Cert.KernelIdeal.S1024x128 EltTy.f32)
local notation "uoV" => (Memref.whole Cert.KernelIdeal.main_v36_0_scv : Memref Cert.KernelIdeal.sig Kind.scVector Space.hbm Cert.KernelIdeal.S16384x128 EltTy.f32)
local notation "moV" => (Memref.whole Cert.KernelIdeal.main_v36_1_scv : Memref Cert.KernelIdeal.sig Kind.scVector Space.hbm Cert.KernelIdeal.S16384x128 EltTy.f32)
local notation "coV" => (Memref.whole Cert.KernelIdeal.main_v36_2_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

section Obl
variable [FloatOps F]
variable (fi : (d : Dev nD) → Buf (Elt F) (idxLoc d)) (fb : (d : Dev nD) → Buf (Elt F) (bigLoc d)) (fc : (d : Dev nD) → Buf (Elt F) (comboLoc d))

theorem defs₀_vector (c : Fin τ.nSC) (s : Fin τ.nSub) :
    defs₀ (F := F) (.scVector c s) 0 ()
      = SparseCore.onTile hcore0 hsub0 (fun c s => cc0_body (coordsV c s)
          idxV (Memref.isWhole_whole _) bigV (Memref.isWhole_whole _) comboV (Memref.isWhole_whole _)
          uoV (Memref.isWhole_whole _) moV (Memref.isWhole_whole _) coV (Memref.isWhole_whole _)
          sV (Memref.isWhole_whole _) rV (Memref.isWhole_whole _) cc0_scratch2 cc0_scoped0 cc0_scoped1 cc0_scoped2 cc0_scoped3 cc0_scoped4 cc0_scoped5) ⟨⟩ c s := rfl

omit [FloatOps F] [CountersIn UU] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [(countersEmb : UEmb Counters 𝕄).LandsIn (upEmb : UEmb _ 𝕄)] (hF : (K (F := F)).Facts) (hpre : ∀ d, IdxOK d (fi d)) :
    (K (F := F)).TileObl (D (F := F)) 𝒱 (P (UU := UU) fi fb fc) v₀ 0 := by
  intro d c i O W hO _ _
  simp only [show (P (UU := UU) fi fb fc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (shr c i) (shr c i) (shr c i) (fi d) (fb d) (fc d) (hpre d) O W hO).trans (wp_mono frame _ _ fun _ => obl_post)

end Obl

end Cert.Proof.KernelIdealSc

end
-- ==== Proof.GatherSplitIdeal.lean ====
import proofs.«214388_g48842368090541_cont_8to1c4_19_37_alg».proof.Proof.GatherLaunchIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 1) (Elt F) ℕ UU ℕ

local notation "uoV" => (Memref.whole Cert.KernelIdeal.main_v36_0_scv : Memref Cert.KernelIdeal.sig Kind.scVector Space.hbm Cert.KernelIdeal.S16384x128 EltTy.f32)
local notation "moV" => (Memref.whole Cert.KernelIdeal.main_v36_1_scv : Memref Cert.KernelIdeal.sig Kind.scVector Space.hbm Cert.KernelIdeal.S16384x128 EltTy.f32)
local notation "coV" => (Memref.whole Cert.KernelIdeal.main_v36_2_scv : Memref Cert.KernelIdeal.sig Kind.scVector Space.hbm Cert.KernelIdeal.S16384x128 EltTy.f32)

/-! ## The thirty-two blocks of a result

Task `(c, i)` writes rows `1024·i + 512·c … + 511` of each result: block `2·i + c` of the cut of the 16384 rows
into 32 blocks of 512. The blocks are pairwise disjoint and cover the array, so a result held whole is its
blocks held one by one, and back. -/

theorem odiv : 32 ∣ S16384x128.size 0 := ⟨512, rfl⟩

/-- The number of the block that the task at coordinates `L` writes. -/
def widx (L : grid0.Coords) : Fin 32 := ⟨2 * (L 1).val + (L 0).val, by have h := L_bounds L; omega⟩

omit [CountersIn UU] in
theorem orowK_eq (L : grid0.Coords) : orowK L = Rect.part (s := S16384x128) (a₀ := 0) odiv (widx L) := by
  unfold orowK Rect.part Rect.block
  congr 1 <;> funext a
  · rw [k0_off2_eq]
    match a with
    | 0 => simp [Shape.partIx, Shape.partSize, widx]; omega
    | 1 => simp [Shape.partIx, Shape.partSize]
  · match a with
    | 0 => simp [Shape.partSize]
    | 1 => simp [Shape.partSize]

/-- The set of elements of a result that the task at `L` writes. -/
abbrev rowSet (L : grid0.Coords) : Finset S16384x128.Idx := (uoRowK L).view.set

omit [CountersIn UU] in
theorem rowSet_eq (L : grid0.Coords) : rowSet L = (Rect.part (s := S16384x128) (a₀ := 0) odiv (widx L)).set := by
  show ((View.whole (main_v36_0_scv : Ref sig .scVector)).slice (orowK L)).set = _
  rw [View.set_slice, orowK_eq]; exact Finset.map_refl
omit [CountersIn UU] in
theorem rowSet_mo (L : grid0.Coords) : (moRowK L).view.set = rowSet L := by
  show ((View.whole (main_v36_1_scv : Ref sig .scVector)).slice (orowK L)).set = ((View.whole (main_v36_0_scv : Ref sig .scVector)).slice (orowK L)).set
  rw [View.set_slice, View.set_slice]; rfl
omit [CountersIn UU] in
theorem rowSet_co (L : grid0.Coords) : (coRowK L).view.set = rowSet L := by
  show ((View.whole (main_v36_2_scv : Ref sig .scVector)).slice (orowK L)).set = ((View.whole (main_v36_0_scv : Ref sig .scVector)).slice (orowK L)).set
  rw [View.set_slice, View.set_slice]; rfl

section Blocks

/-- A task of the call, by its SparseCore and its number. -/
abbrev TaskIx : Type := Fin ((K (F := F)).nCore 0) × Fin ((K (F := F)).nSub 0)
abbrev Lci (ci : TaskIx (F := F)) : grid0.Coords := Lof ci.1 ci.2

omit [CountersIn UU] in
theorem widx_Lci (ci : TaskIx (F := F)) : (widx (Lci ci)).val = 2 * ci.2.val + ci.1.val := rfl

omit [CountersIn UU] in
theorem rows_disjoint : ∀ ci ∈ (Finset.univ : Finset (TaskIx (F := F))), ∀ ci' ∈ (Finset.univ : Finset (TaskIx (F := F))), ci ≠ ci' →
    Disjoint (rowSet (Lci ci)) (rowSet (Lci ci')) := by
  intro ci _ ci' _ h
  rw [rowSet_eq, rowSet_eq]
  refine Rect.part_disjoint odiv fun e => h ?_
  have e' : 2 * ci.2.val + ci.1.val = 2 * ci'.2.val + ci'.1.val := by
    have := congrArg Fin.val e; rwa [widx_Lci, widx_Lci] at this
  have hc : ci.1.val < 2 := ci.1.isLt
  have hc' : ci'.1.val < 2 := ci'.1.isLt
  exact Prod.ext (Fin.ext (by omega)) (Fin.ext (by omega))

omit [CountersIn UU] in
theorem rows_cover : (Finset.univ : Finset (TaskIx (F := F))).biUnion (fun ci => rowSet (Lci ci)) = Finset.univ := by
  ext y
  simp only [Finset.mem_biUnion, Finset.mem_univ, true_and, iff_true]
  obtain ⟨w, hw⟩ := Rect.exists_mem_part odiv y
  have hw32 : w.val < 32 := w.isLt
  refine ⟨(⟨w.val % 2, Nat.mod_lt _ (by decide)⟩, ⟨w.val / 2, by show w.val / 2 < 16; omega⟩), ?_⟩
  rw [rowSet_eq]
  have e : widx (Lci (F := F) (⟨w.val % 2, Nat.mod_lt _ (by decide)⟩, ⟨w.val / 2, by show w.val / 2 < 16; omega⟩)) = w :=
    Fin.ext (by rw [widx_Lci]; show 2 * (w.val / 2) + w.val % 2 = w.val; omega)
  rw [e]; exact hw

end Blocks

section Whole
variable [FloatOps F]

omit [CountersIn UU] in
theorem uo_blocks (d : Dev nD) (f : Buf (Elt F) (uoLoc d)) :
    (uoLoc d ↦{fullShare} f : sProp 𝕄) = bigSep Finset.univ fun ci : TaskIx (F := F) => uoLoc d ↦[rowSet (Lci ci)]{fullShare} f := by
  rw [← pointsTo_biUnion Finset.univ (ℓ := uoLoc d) (fun ci : TaskIx (F := F) => rowSet (Lci ci)) rows_disjoint, rows_cover]; try rfl

omit [CountersIn UU] in
theorem uo_split (d : Dev nD) :
    (iprop(∃ f, uoLoc d ↦{fullShare} f) : sProp 𝕄) ⊢ bigSep Finset.univ fun ci : TaskIx (F := F) => iprop(∃ f, uoLoc d ↦[rowSet (Lci ci)]{fullShare} f) :=
  exists_elim fun f => (Entails.of_eq (uo_blocks d f)).trans (bigSep_mono fun ci _ => exists_intro (Φ := fun f => (uoLoc d ↦[rowSet (Lci ci)]{fullShare} f : sProp 𝕄)) f)

omit [CountersIn UU] in
set_option maxRecDepth 4096 in
theorem uo_join (d : Dev nD) :
    (bigSep Finset.univ fun ci : TaskIx (F := F) => iprop(∃ f, uoLoc d ↦[rowSet (Lci ci)]{fullShare} f)) ⊢ (iprop(∃ f, uoLoc d ↦{fullShare} f) : sProp 𝕄) := by
  refine (bigSep_exists_pi Finset.univ (fun (ci : TaskIx (F := F)) (f : Buf (Elt F) (uoLoc d)) => (uoLoc d ↦[rowSet (Lci ci)]{fullShare} f : sProp 𝕄))).trans ?_
  iintro ⟨%fs, H⟩
  ihave H' := (pointsTo_biUnion_join (ℓ := uoLoc d) (q := fullShare) (Val := Elt F) Finset.univ (fun ci : TaskIx (F := F) => rowSet (Lci ci)) fs
    (fs (⟨0, show 0 < 2 by decide⟩, ⟨0, show 0 < 16 by decide⟩)) rows_disjoint) $$ H
  icases H' with ⟨%g, -, Hg⟩
  rw [rows_cover]
  iexists g; iexact Hg

omit [CountersIn UU] in
theorem mo_blocks (d : Dev nD) (f : Buf (Elt F) (moLoc d)) :
    (moLoc d ↦{fullShare} f : sProp 𝕄) = bigSep Finset.univ fun ci : TaskIx (F := F) => moLoc d ↦[rowSet (Lci ci)]{fullShare} f := by
  rw [← pointsTo_biUnion Finset.univ (ℓ := moLoc d) (fun ci : TaskIx (F := F) => rowSet (Lci ci)) rows_disjoint, rows_cover]; try rfl

omit [CountersIn UU] in
theorem mo_split (d : Dev nD) :
    (iprop(∃ f, moLoc d ↦{fullShare} f) : sProp 𝕄) ⊢ bigSep Finset.univ fun ci : TaskIx (F := F) => iprop(∃ f, moLoc d ↦[rowSet (Lci ci)]{fullShare} f) :=
  exists_elim fun f => (Entails.of_eq (mo_blocks d f)).trans (bigSep_mono fun ci _ => exists_intro (Φ := fun f => (moLoc d ↦[rowSet (Lci ci)]{fullShare} f : sProp 𝕄)) f)

omit [CountersIn UU] in
set_option maxRecDepth 4096 in
theorem mo_join (d : Dev nD) :
    (bigSep Finset.univ fun ci : TaskIx (F := F) => iprop(∃ f, moLoc d ↦[rowSet (Lci ci)]{fullShare} f)) ⊢ (iprop(∃ f, moLoc d ↦{fullShare} f) : sProp 𝕄) := by
  refine (bigSep_exists_pi Finset.univ (fun (ci : TaskIx (F := F)) (f : Buf (Elt F) (moLoc d)) => (moLoc d ↦[rowSet (Lci ci)]{fullShare} f : sProp 𝕄))).trans ?_
  iintro ⟨%fs, H⟩
  ihave H' := (pointsTo_biUnion_join (ℓ := moLoc d) (q := fullShare) (Val := Elt F) Finset.univ (fun ci : TaskIx (F := F) => rowSet (Lci ci)) fs
    (fs (⟨0, show 0 < 2 by decide⟩, ⟨0, show 0 < 16 by decide⟩)) rows_disjoint) $$ H
  icases H' with ⟨%g, -, Hg⟩
  rw [rows_cover]
  iexists g; iexact Hg

omit [CountersIn UU] in
theorem co_blocks (d : Dev nD) (f : Buf (Elt F) (coLoc d)) :
    (coLoc d ↦{fullShare} f : sProp 𝕄) = bigSep Finset.univ fun ci : TaskIx (F := F) => coLoc d ↦[rowSet (Lci ci)]{fullShare} f := by
  rw [← pointsTo_biUnion Finset.univ (ℓ := coLoc d) (fun ci : TaskIx (F := F) => rowSet (Lci ci)) rows_disjoint, rows_cover]; try rfl

omit [CountersIn UU] in
theorem co_split (d : Dev nD) :
    (iprop(∃ f, coLoc d ↦{fullShare} f) : sProp 𝕄) ⊢ bigSep Finset.univ fun ci : TaskIx (F := F) => iprop(∃ f, coLoc d ↦[rowSet (Lci ci)]{fullShare} f) :=
  exists_elim fun f => (Entails.of_eq (co_blocks d f)).trans (bigSep_mono fun ci _ => exists_intro (Φ := fun f => (coLoc d ↦[rowSet (Lci ci)]{fullShare} f : sProp 𝕄)) f)

omit [CountersIn UU] in
set_option maxRecDepth 4096 in
theorem co_join (d : Dev nD) :
    (bigSep Finset.univ fun ci : TaskIx (F := F) => iprop(∃ f, coLoc d ↦[rowSet (Lci ci)]{fullShare} f)) ⊢ (iprop(∃ f, coLoc d ↦{fullShare} f) : sProp 𝕄) := by
  refine (bigSep_exists_pi Finset.univ (fun (ci : TaskIx (F := F)) (f : Buf (Elt F) (coLoc d)) => (coLoc d ↦[rowSet (Lci ci)]{fullShare} f : sProp 𝕄))).trans ?_
  iintro ⟨%fs, H⟩
  ihave H' := (pointsTo_biUnion_join (ℓ := coLoc d) (q := fullShare) (Val := Elt F) Finset.univ (fun ci : TaskIx (F := F) => rowSet (Lci ci)) fs
    (fs (⟨0, show 0 < 2 by decide⟩, ⟨0, show 0 < 16 by decide⟩)) rows_disjoint) $$ H
  icases H' with ⟨%g, -, Hg⟩
  rw [rows_cover]
  iexists g; iexact Hg

omit [CountersIn UU] in
/-- A buffer held whole at the full share is held at the tasks' read shares at once. -/
theorem shares_eq (ℓ : Loc nD τ sig) (f : Buf (Elt F) ℓ) :
    (ℓ ↦{fullShare} f : sProp 𝕄) = bigSep Finset.univ fun ci : TaskIx (F := F) => ℓ ↦{shr ci.1 ci.2} f := by
  rw [bigSep_univ_prod]
  have h1 : ∀ c : Fin ((K (F := F)).nCore 0), (ℓ ↦{pieceOf fullShare 2 (by decide) (Fin.cast (nCore_zero (F := F)) c)} f : sProp 𝕄)
      = bigSep Finset.univ fun i : Fin ((K (F := F)).nSub 0) => ℓ ↦{shr c i} f := fun c =>
    pointsTo_piecesOf Finset.univ f (show 0 < 16 by decide) _
  exact (pointsTo_piecesOf Finset.univ f (show 0 < 2 by decide) fullShare).trans (bigSep_congr fun c _ => h1 c)

end Whole

section Tasks
variable [FloatOps F]
variable (fi : (d : Dev nD) → Buf (Elt F) (idxLoc d)) (fb : (d : Dev nD) → Buf (Elt F) (bigLoc d)) (fc : (d : Dev nD) → Buf (Elt F) (comboLoc d))

/-- What the call takes from the TensorCore on one device: the index list and the two tables whole, read-only, and the
    three results whole at whatever they hold. -/
abbrev wholeOperands (d : Dev nD) : sProp 𝕄 :=
  iprop((idxLoc d ↦{fullShare} fi d) ∗ (bigLoc d ↦{fullShare} fb d) ∗ (comboLoc d ↦{fullShare} fc d)
    ∗ (∃ f, uoLoc d ↦{fullShare} f) ∗ (∃ f, moLoc d ↦{fullShare} f) ∗ (∃ f, coLoc d ↦{fullShare} f))

omit [CountersIn UU] in
theorem tasks_eq (d : Dev nD) :
    (bigSep Finset.univ fun ci : TaskIx (F := F) => goOf (UU := UU) fi fb fc d ci.1 ci.2)
      = iprop((bigSep Finset.univ fun ci : TaskIx (F := F) => idxLoc d ↦{shr ci.1 ci.2} fi d)
        ∗ (bigSep Finset.univ fun ci : TaskIx (F := F) => bigLoc d ↦{shr ci.1 ci.2} fb d)
        ∗ (bigSep Finset.univ fun ci : TaskIx (F := F) => comboLoc d ↦{shr ci.1 ci.2} fc d)
        ∗ (bigSep Finset.univ fun ci : TaskIx (F := F) => iprop(∃ f, uoLoc d ↦[rowSet (Lci ci)]{fullShare} f))
        ∗ (bigSep Finset.univ fun ci : TaskIx (F := F) => iprop(∃ f, moLoc d ↦[rowSet (Lci ci)]{fullShare} f))
        ∗ (bigSep Finset.univ fun ci : TaskIx (F := F) => iprop(∃ f, coLoc d ↦[rowSet (Lci ci)]{fullShare} f))) := by
  rw [← bigSep_sep', ← bigSep_sep', ← bigSep_sep', ← bigSep_sep', ← bigSep_sep']
  refine bigSep_congr fun ci _ => ?_
  unfold goOf tileOperands
  rw [rowSet_mo, rowSet_co]

omit [CountersIn UU] in
theorem st_eq (d : Dev nD) :
    (bigSep Finset.univ fun c : Fin ((K (F := F)).nCore 0) => (P (UU := UU) fi fb fc).st 0 d c)
      = bigSep Finset.univ fun ci : TaskIx (F := F) => goOf (UU := UU) fi fb fc d ci.1 ci.2 :=
  (bigSep_univ_prod (fun ci : TaskIx (F := F) => goOf (UU := UU) fi fb fc d ci.1 ci.2)).symm
omit [CountersIn UU] in
theorem dn_eq (d : Dev nD) :
    (bigSep Finset.univ fun c : Fin ((K (F := F)).nCore 0) => (P (UU := UU) fi fb fc).dn 0 d c)
      = bigSep Finset.univ fun ci : TaskIx (F := F) => goOf (UU := UU) fi fb fc d ci.1 ci.2 :=
  (bigSep_univ_prod (fun ci : TaskIx (F := F) => goOf (UU := UU) fi fb fc d ci.1 ci.2)).symm

omit [CountersIn UU] in
/-- The whole operands are the tasks' operands, -/
theorem toTasks (d : Dev nD) :
    wholeOperands (UU := UU) fi fb fc d ⊢ bigSep Finset.univ fun c : Fin ((K (F := F)).nCore 0) => (P (UU := UU) fi fb fc).st 0 d c := by
  rw [st_eq, tasks_eq, ← shares_eq, ← shares_eq, ← shares_eq]
  unfold wholeOperands
  iintro ⟨Hi, Hb, Hc, Hu, Hm, Hco⟩
  isplitl [Hi]; · iexact Hi
  isplitl [Hb]; · iexact Hb
  isplitl [Hc]; · iexact Hc
  isplitl [Hu]; · iapply (uo_split d); iexact Hu
  isplitl [Hm]; · iapply (mo_split d); iexact Hm
  iapply (co_split d); iexact Hco

omit [CountersIn UU] in
/-- and back. -/
theorem fromTasks (d : Dev nD) :
    (bigSep Finset.univ fun c : Fin ((K (F := F)).nCore 0) => (P (UU := UU) fi fb fc).dn 0 d c) ⊢ wholeOperands (UU := UU) fi fb fc d := by
  rw [dn_eq, tasks_eq, ← shares_eq, ← shares_eq, ← shares_eq]
  unfold wholeOperands
  iintro ⟨Hi, Hb, Hc, Hu, Hm, Hco⟩
  isplitl [Hi]; · iexact Hi
  isplitl [Hb]; · iexact Hb
  isplitl [Hc]; · iexact Hc
  isplitl [Hu]; · iapply (uo_join d); iexact Hu
  isplitl [Hm]; · iapply (mo_join d); iexact Hm
  iapply (co_join d); iexact Hco

end Tasks

end Cert.Proof.KernelIdealSc

end
-- ==== Proof.MainShapeIdeal.lean ====
/-
  The shape of the kernel program's entry function on the TensorCore: six straight lines of tensor operations (the
  calls they make replaced by the callees' bodies over the buffers each call names) separated by the one SparseCore
  call and the four TensorCore kernel launches, in the printed order. Each line is a literal list, so what it needs to
  be run as a sequence — that every operation touches TensorCore buffers only and determines its results — is read
  off the list. Last, the first line's index list: what it is as a term of the five index arrays, and that the
  precondition's integer ranges put its entries inside the two tables the SparseCore call gathers from.
-/
import proofs.«214388_g48842368090541_cont_8to1c4_19_37_alg».proof.Defs
import proofs.«214388_g48842368090541_cont_8to1c4_19_37_alg».proof.Proof.Gen.KernelIdeal
import Idealize.ShloMosaic.Lib.StableHlo.Run
import Idealize.ShloMosaic.Lib.Pipeline.Value
import Idealize.ShloMosaic.Lib.ReduceAll

noncomputable section

namespace Cert.KernelIdeal.MainShape

open Cert.KernelIdeal Cert.KernelIdeal.Gen Idealize.ShloMosaic Idealize.ShloMosaic.TcCoe Idealize.SL.Sem Idealize.ShloMosaic.StableHlo

variable {F : FTy → Type} [FloatOps F]

/-! ## The operations of the six lines -/

abbrev lA_0 : List (HloOp τ sig (Elt F)) :=
  [ StableHlo.nullary main_c (constantI S_ 32 256#32),
    StableHlo.unary main_c main_v0 (broadcastInDim S16384 ![] bcast_S_S16384 : (⟨S_, .i32⟩ : BufTy).Contents (Elt F) → (⟨S16384, .i32⟩ : BufTy).Contents (Elt F)),
    StableHlo.binary main_arg1 main_v0 main_v1 (muli : (⟨S16384, .i32⟩ : BufTy).Contents (Elt F) → (⟨S16384, .i32⟩ : BufTy).Contents (Elt F) → (⟨S16384, .i32⟩ : BufTy).Contents (Elt F)),
    StableHlo.nullary main_c_0 (constantI S_ 32 32#32),
    StableHlo.unary main_c_0 main_v2 (broadcastInDim S16384 ![] bcast_S_S16384 : (⟨S_, .i32⟩ : BufTy).Contents (Elt F) → (⟨S16384, .i32⟩ : BufTy).Contents (Elt F)),
    StableHlo.binary main_arg2 main_v2 main_v3 (muli : (⟨S16384, .i32⟩ : BufTy).Contents (Elt F) → (⟨S16384, .i32⟩ : BufTy).Contents (Elt F) → (⟨S16384, .i32⟩ : BufTy).Contents (Elt F)),
    StableHlo.binary main_v1 main_v3 main_v4 (addi : (⟨S16384, .i32⟩ : BufTy).Contents (Elt F) → (⟨S16384, .i32⟩ : BufTy).Contents (Elt F) → (⟨S16384, .i32⟩ : BufTy).Contents (Elt F)),
    StableHlo.binary main_v4 main_arg3 main_v5 (addi : (⟨S16384, .i32⟩ : BufTy).Contents (Elt F) → (⟨S16384, .i32⟩ : BufTy).Contents (Elt F) → (⟨S16384, .i32⟩ : BufTy).Contents (Elt F)),
    StableHlo.nary ![main_arg0, main_arg4, main_v5] main_v6 (fun u => concatenate S49152 0 [⟨S16384, u 0⟩, ⟨S16384, u 1⟩, ⟨S16384, u 2⟩] concatenates_S16384_S16384_S16384_S49152_d0),
    StableHlo.binary main_arg8 main_arg12 main_v7 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.nullary main_v8 (iotaInDim S1024 32 0),
    StableHlo.nullary main_c_1 (constantI S_ 32 256#32),
    StableHlo.TRef.unary (.of main_c_1 : StableHlo.TRef sig ⟨S_, .i32⟩) main_call0.v0 id,
    StableHlo.TRef.unary main_call0.v0 main_call0.v1 (broadcastInDim S1024 ![] bcast_S_S1024),
    StableHlo.TRef.binary (.of main_v8 : StableHlo.TRef sig ⟨S1024, .i32⟩) main_call0.v1 main_call0.v2 Host.divsi,
    StableHlo.TRef.unary (.of main_v8 : StableHlo.TRef sig ⟨S1024, .i32⟩) main_call0.v3 signi,
    StableHlo.TRef.unary main_call0.v0 main_call0.v4 signi,
    StableHlo.TRef.unary main_call0.v4 main_call0.v5 (broadcastInDim S1024 ![] bcast_S_S1024),
    StableHlo.TRef.binary main_call0.v3 main_call0.v5 main_call0.v6 (cmpi .ne),
    StableHlo.TRef.unary main_call0.v0 main_call0.v7 (broadcastInDim S1024 ![] bcast_S_S1024),
    StableHlo.TRef.binary (.of main_v8 : StableHlo.TRef sig ⟨S1024, .i32⟩) main_call0.v7 main_call0.v8 Host.remsi,
    StableHlo.TRef.nullary main_call0.c (constantI S_ 32 0#32),
    StableHlo.TRef.unary main_call0.c main_call0.v9 (broadcastInDim S1024 ![] bcast_S_S1024),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S1024 ![] bcast_S_S1024),
    StableHlo.TRef.binary main_call0.v2 main_call0.v12 main_call0.v13 subi,
    StableHlo.TRef.ternary main_call0.v11 main_call0.v13 main_call0.v2 main_call0.call0.v0 select,
    StableHlo.nullary main_c_2 (constantI S_ 32 0#32),
    StableHlo.unary main_c_2 main_v10 (broadcastInDim S1024 ![] bcast_S_S1024 : (⟨S_, .i32⟩ : BufTy).Contents (Elt F) → (⟨S1024, .i32⟩ : BufTy).Contents (Elt F)),
    StableHlo.binary main_v9 main_v10 main_v11 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 4#32),
    StableHlo.unary main_c_3 main_v12 (broadcastInDim S1024 ![] bcast_S_S1024 : (⟨S_, .i32⟩ : BufTy).Contents (Elt F) → (⟨S1024, .i32⟩ : BufTy).Contents (Elt F)),
    StableHlo.binary main_v9 main_v12 main_v13 (addi : (⟨S1024, .i32⟩ : BufTy).Contents (Elt F) → (⟨S1024, .i32⟩ : BufTy).Contents (Elt F) → (⟨S1024, .i32⟩ : BufTy).Contents (Elt F)),
    StableHlo.ternary main_v11 main_v13 main_v9 main_v14 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v14 main_v15 (broadcastInDim S1024x1 ![0] bcast_S1024_S1024x1_0 : (⟨S1024, .i32⟩ : BufTy).Contents (Elt F) → (⟨S1024x1, .i32⟩ : BufTy).Contents (Elt F)),
    StableHlo.binary main_arg9 main_v15 main_v16 ((fun x i => Host.gather gather_S4x8_S1024x1_S1024x8_1_0_n_n_0_1_18 x i) : (⟨S4x8, .f32⟩ : BufTy).Contents (Elt F) → (⟨S1024x1, .i32⟩ : BufTy).Contents (Elt F) → (⟨S1024x8, .f32⟩ : BufTy).Contents (Elt F)),
    StableHlo.nullary main_c_4 (constantI S_ 32 32#32),
    StableHlo.TRef.unary (.of main_c_4 : StableHlo.TRef sig ⟨S_, .i32⟩) main_call1.v0 id,
    StableHlo.TRef.unary main_call1.v0 main_call1.v1 (broadcastInDim S1024 ![] bcast_S_S1024) ]

abbrev lA_1 : List (HloOp τ sig (Elt F)) :=
  [ StableHlo.TRef.binary (.of main_v8 : StableHlo.TRef sig ⟨S1024, .i32⟩) main_call1.v1 main_call1.v2 Host.divsi,
    StableHlo.TRef.unary (.of main_v8 : StableHlo.TRef sig ⟨S1024, .i32⟩) main_call1.v3 signi,
    StableHlo.TRef.unary main_call1.v0 main_call1.v4 signi,
    StableHlo.TRef.unary main_call1.v4 main_call1.v5 (broadcastInDim S1024 ![] bcast_S_S1024),
    StableHlo.TRef.binary main_call1.v3 main_call1.v5 main_call1.v6 (cmpi .ne),
    StableHlo.TRef.unary main_call1.v0 main_call1.v7 (broadcastInDim S1024 ![] bcast_S_S1024),
    StableHlo.TRef.binary (.of main_v8 : StableHlo.TRef sig ⟨S1024, .i32⟩) main_call1.v7 main_call1.v8 Host.remsi,
    StableHlo.TRef.nullary main_call1.c (constantI S_ 32 0#32),
    StableHlo.TRef.unary main_call1.c main_call1.v9 (broadcastInDim S1024 ![] bcast_S_S1024),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S1024 ![] bcast_S_S1024),
    StableHlo.TRef.binary main_call1.v2 main_call1.v12 main_call1.v13 subi,
    StableHlo.TRef.ternary main_call1.v11 main_call1.v13 main_call1.v2 main_call1.call0.v0 select,
    StableHlo.nullary main_c_5 (constantI S_ 32 8#32),
    StableHlo.TRef.unary (.of main_c_5 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S1024 ![] bcast_S_S1024),
    StableHlo.TRef.binary (.of main_v17 : StableHlo.TRef sig ⟨S1024, .i32⟩) main_call2.v3 main_call2.v4 Host.remsi,
    StableHlo.TRef.nullary main_call2.c_1 (constantI S_ 32 0#32),
    StableHlo.TRef.unary main_call2.c_1 main_call2.v5 (broadcastInDim S1024 ![] bcast_S_S1024),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S1024 ![] bcast_S_S1024),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S1024 ![] bcast_S_S1024),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S1024 ![] bcast_S_S1024),
    StableHlo.TRef.binary main_call2.v4 main_call2.v13 main_call2.v14 addi,
    StableHlo.TRef.ternary main_call2.v12 main_call2.v14 main_call2.v4 main_call2.v15 select,
    StableHlo.nullary main_c_6 (constantI S_ 32 0#32),
    StableHlo.unary main_c_6 main_v19 (broadcastInDim S1024 ![] bcast_S_S1024 : (⟨S_, .i32⟩ : BufTy).Contents (Elt F) → (⟨S1024, .i32⟩ : BufTy).Contents (Elt F)),
    StableHlo.binary main_v18 main_v19 main_v20 (cmpi .slt : (⟨S1024, .i32⟩ : BufTy).Contents (Elt F) → (⟨S1024, .i32⟩ : BufTy).Contents (Elt F) → (⟨S1024, .i1⟩ : BufTy).Contents (Elt F)),
    StableHlo.nullary main_c_7 (constantI S_ 32 8#32) ]

abbrev lA_2 : List (HloOp τ sig (Elt F)) :=
  [ StableHlo.unary main_c_7 main_v21 (broadcastInDim S1024 ![] bcast_S_S1024 : (⟨S_, .i32⟩ : BufTy).Contents (Elt F) → (⟨S1024, .i32⟩ : BufTy).Contents (Elt F)),
    StableHlo.binary main_v18 main_v21 main_v22 (addi : (⟨S1024, .i32⟩ : BufTy).Contents (Elt F) → (⟨S1024, .i32⟩ : BufTy).Contents (Elt F) → (⟨S1024, .i32⟩ : BufTy).Contents (Elt F)),
    StableHlo.ternary main_v20 main_v22 main_v18 main_v23 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v23 main_v24 (broadcastInDim S1024x1 ![0] bcast_S1024_S1024x1_0 : (⟨S1024, .i32⟩ : BufTy).Contents (Elt F) → (⟨S1024x1, .i32⟩ : BufTy).Contents (Elt F)),
    StableHlo.binary main_arg10 main_v24 main_v25 ((fun x i => Host.gather gather_S8x8_S1024x1_S1024x8_1_0_n_n_0_1_18 x i) : (⟨S8x8, .f32⟩ : BufTy).Contents (Elt F) → (⟨S1024x1, .i32⟩ : BufTy).Contents (Elt F) → (⟨S1024x8, .f32⟩ : BufTy).Contents (Elt F)),
    StableHlo.nullary main_c_8 (constantI S_ 32 32#32),
    StableHlo.TRef.unary (.of main_c_8 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S1024 ![] bcast_S_S1024),
    StableHlo.TRef.binary (.of main_v8 : StableHlo.TRef sig ⟨S1024, .i32⟩) main_call3.v3 main_call3.v4 Host.remsi,
    StableHlo.TRef.nullary main_call3.c_1 (constantI S_ 32 0#32),
    StableHlo.TRef.unary main_call3.c_1 main_call3.v5 (broadcastInDim S1024 ![] bcast_S_S1024),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S1024 ![] bcast_S_S1024),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S1024 ![] bcast_S_S1024),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S1024 ![] bcast_S_S1024),
    StableHlo.TRef.binary main_call3.v4 main_call3.v13 main_call3.v14 addi,
    StableHlo.TRef.ternary main_call3.v12 main_call3.v14 main_call3.v4 main_call3.v15 select,
    StableHlo.nullary main_c_9 (constantI S_ 32 0#32),
    StableHlo.unary main_c_9 main_v27 (broadcastInDim S1024 ![] bcast_S_S1024 : (⟨S_, .i32⟩ : BufTy).Contents (Elt F) → (⟨S1024, .i32⟩ : BufTy).Contents (Elt F)),
    StableHlo.binary main_v26 main_v27 main_v28 (cmpi .slt : (⟨S1024, .i32⟩ : BufTy).Contents (Elt F) → (⟨S1024, .i32⟩ : BufTy).Contents (Elt F) → (⟨S1024, .i1⟩ : BufTy).Contents (Elt F)),
    StableHlo.nullary main_c_10 (constantI S_ 32 32#32),
    StableHlo.unary main_c_10 main_v29 (broadcastInDim S1024 ![] bcast_S_S1024 : (⟨S_, .i32⟩ : BufTy).Contents (Elt F) → (⟨S1024, .i32⟩ : BufTy).Contents (Elt F)),
    StableHlo.binary main_v26 main_v29 main_v30 (addi : (⟨S1024, .i32⟩ : BufTy).Contents (Elt F) → (⟨S1024, .i32⟩ : BufTy).Contents (Elt F) → (⟨S1024, .i32⟩ : BufTy).Contents (Elt F)),
    StableHlo.ternary main_v28 main_v30 main_v26 main_v31 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v31 main_v32 (broadcastInDim S1024x1 ![0] bcast_S1024_S1024x1_0 : (⟨S1024, .i32⟩ : BufTy).Contents (Elt F) → (⟨S1024x1, .i32⟩ : BufTy).Contents (Elt F)),
    StableHlo.binary main_arg11 main_v32 main_v33 ((fun x i => Host.gather gather_S32x16_S1024x1_S1024x16_1_0_n_n_0_1_116 x i) : (⟨S32x16, .f32⟩ : BufTy).Contents (Elt F) → (⟨S1024x1, .i32⟩ : BufTy).Contents (Elt F) → (⟨S1024x16, .f32⟩ : BufTy).Contents (Elt F)),
    StableHlo.nullary main_cst (constant S_ .f32 0x00000000#32),
    StableHlo.unary main_cst main_v34 (broadcastInDim S1024x96 ![] bcast_S_S1024x96 : (⟨S_, .f32⟩ : BufTy).Contents (Elt F) → (⟨S1024x96, .f32⟩ : BufTy).Contents (Elt F)),
    StableHlo.nary ![main_v16, main_v25, main_v33, main_v34] main_v35 (fun u => concatenate S1024x128 1 [⟨S1024x8, u 0⟩, ⟨S1024x8, u 1⟩, ⟨S1024x16, u 2⟩, ⟨S1024x96, u 3⟩] concatenates_S1024x8_S1024x8_S1024x16_S1024x96_S1024x128_d1) ]

abbrev lB0 : List (HloOp τ sig (Elt F)) :=
  [ StableHlo.reshape main_arg15 main_v37 rfl shapeCasts_S2048x32_S64x1024,
    StableHlo.unary main_v37 main_v38 ((truncf .bf16 · bitsLt_bf16_f32) : (⟨S64x1024, .f32⟩ : BufTy).Contents (Elt F) → (⟨S64x1024, .bf16⟩ : BufTy).Contents (Elt F)),
    StableHlo.nullary main_v39 (iotaInDim S1024 32 0),
    StableHlo.nullary main_v40 (iotaInDim S32 32 0),
    StableHlo.unary main_v40 main_v41 (broadcastInDim S32x1 ![0] bcast_S32_S32x1_0 : (⟨S32, .i32⟩ : BufTy).Contents (Elt F) → (⟨S32x1, .i32⟩ : BufTy).Contents (Elt F)),
    StableHlo.unary main_v39 main_v42 (broadcastInDim S1x1024 ![1] bcast_S1024_S1x1024_1 : (⟨S1024, .i32⟩ : BufTy).Contents (Elt F) → (⟨S1x1024, .i32⟩ : BufTy).Contents (Elt F)),
    StableHlo.nullary main_c_11 (constantI S_ 32 32#32),
    StableHlo.TRef.unary (.of main_c_11 : StableHlo.TRef sig ⟨S_, .i32⟩) main_call4.v0 id,
    StableHlo.TRef.unary main_call4.v0 main_call4.v1 (broadcastInDim S1x1024 ![] bcast_S_S1x1024),
    StableHlo.TRef.binary (.of main_v42 : StableHlo.TRef sig ⟨S1x1024, .i32⟩) main_call4.v1 main_call4.v2 Host.divsi,
    StableHlo.TRef.unary (.of main_v42 : StableHlo.TRef sig ⟨S1x1024, .i32⟩) main_call4.v3 signi,
    StableHlo.TRef.unary main_call4.v0 main_call4.v4 signi,
    StableHlo.TRef.unary main_call4.v4 main_call4.v5 (broadcastInDim S1x1024 ![] bcast_S_S1x1024),
    StableHlo.TRef.binary main_call4.v3 main_call4.v5 main_call4.v6 (cmpi .ne),
    StableHlo.TRef.unary main_call4.v0 main_call4.v7 (broadcastInDim S1x1024 ![] bcast_S_S1x1024),
    StableHlo.TRef.binary (.of main_v42 : StableHlo.TRef sig ⟨S1x1024, .i32⟩) main_call4.v7 main_call4.v8 Host.remsi,
    StableHlo.TRef.nullary main_call4.c (constantI S_ 32 0#32),
    StableHlo.TRef.unary main_call4.c main_call4.v9 (broadcastInDim S1x1024 ![] bcast_S_S1x1024),
    StableHlo.TRef.binary main_call4.v8 main_call4.v9 main_call4.v10 (cmpi .ne),
    StableHlo.TRef.binary main_call4.v6 main_call4.v10 main_call4.v11 andi,
    StableHlo.TRef.nullary main_call4.c_0 (constantI S_ 32 1#32),
    StableHlo.TRef.unary main_call4.c_0 main_call4.v12 (broadcastInDim S1x1024 ![] bcast_S_S1x1024),
    StableHlo.TRef.binary main_call4.v2 main_call4.v12 main_call4.v13 subi,
    StableHlo.TRef.ternary main_call4.v11 main_call4.v13 main_call4.v2 main_call4.call0.v0 select,
    StableHlo.unary main_v41 main_v44 (broadcastInDim S32x1024 ![0, 1] bcast_S32x1_S32x1024_0_1 : (⟨S32x1, .i32⟩ : BufTy).Contents (Elt F) → (⟨S32x1024, .i32⟩ : BufTy).Contents (Elt F)),
    StableHlo.unary main_v43 main_v45 (broadcastInDim S32x1024 ![0, 1] bcast_S1x1024_S32x1024_0_1 : (⟨S1x1024, .i32⟩ : BufTy).Contents (Elt F) → (⟨S32x1024, .i32⟩ : BufTy).Contents (Elt F)) ]

abbrev lB1_0 : List (HloOp τ sig (Elt F)) :=
  [ StableHlo.binary main_v44 main_v45 main_v46 (cmpi .eq : (⟨S32x1024, .i32⟩ : BufTy).Contents (Elt F) → (⟨S32x1024, .i32⟩ : BufTy).Contents (Elt F) → (⟨S32x1024, .i1⟩ : BufTy).Contents (Elt F)),
    StableHlo.unary main_v46 main_v47 (uitofp .bf16 : (⟨S32x1024, .i1⟩ : BufTy).Contents (Elt F) → (⟨S32x1024, .bf16⟩ : BufTy).Contents (Elt F)),
    StableHlo.nullary main_c_12 (constantI S_ 32 0#32),
    StableHlo.TRef.unary (.of main_c_12 : StableHlo.TRef sig ⟨S_, .i32⟩) main_call5.v0 (sitofp .bf16),
    StableHlo.TRef.binary (.of main_v47 : StableHlo.TRef sig ⟨S32x1024, .bf16⟩) main_call5.v0 main_call5.v1 (fun x v => pad S128x1024 ![32, 0] ![64, 0] ![0, 0] x v pads_S32x1024_S128x1024_32640_000 h_S_),
    StableHlo.unary main_v39 main_v49 (broadcastInDim S1024x1 ![0] bcast_S1024_S1024x1_0 : (⟨S1024, .i32⟩ : BufTy).Contents (Elt F) → (⟨S1024x1, .i32⟩ : BufTy).Contents (Elt F)),
    StableHlo.nullary main_c_13 (constantI S_ 32 32#32),
    StableHlo.TRef.unary (.of main_c_13 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S1024x1 ![] bcast_S_S1024x1),
    StableHlo.TRef.binary (.of main_v49 : StableHlo.TRef sig ⟨S1024x1, .i32⟩) main_call6.v3 main_call6.v4 Host.remsi,
    StableHlo.TRef.nullary main_call6.c_1 (constantI S_ 32 0#32),
    StableHlo.TRef.unary main_call6.c_1 main_call6.v5 (broadcastInDim S1024x1 ![] bcast_S_S1024x1),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S1024x1 ![] bcast_S_S1024x1),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S1024x1 ![] bcast_S_S1024x1),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S1024x1 ![] bcast_S_S1024x1),
    StableHlo.TRef.binary main_call6.v4 main_call6.v13 main_call6.v14 addi,
    StableHlo.TRef.ternary main_call6.v12 main_call6.v14 main_call6.v4 main_call6.v15 select,
    StableHlo.nullary main_v51 (iotaInDim S32 32 0),
    StableHlo.unary main_v51 main_v52 (broadcastInDim S1x32 ![1] bcast_S32_S1x32_1 : (⟨S32, .i32⟩ : BufTy).Contents (Elt F) → (⟨S1x32, .i32⟩ : BufTy).Contents (Elt F)),
    StableHlo.unary main_v50 main_v53 (broadcastInDim S1024x32 ![0, 1] bcast_S1024x1_S1024x32_0_1 : (⟨S1024x1, .i32⟩ : BufTy).Contents (Elt F) → (⟨S1024x32, .i32⟩ : BufTy).Contents (Elt F)),
    StableHlo.unary main_v52 main_v54 (broadcastInDim S1024x32 ![0, 1] bcast_S1x32_S1024x32_0_1 : (⟨S1x32, .i32⟩ : BufTy).Contents (Elt F) → (⟨S1024x32, .i32⟩ : BufTy).Contents (Elt F)),
    StableHlo.binary main_v53 main_v54 main_v55 (cmpi .eq : (⟨S1024x32, .i32⟩ : BufTy).Contents (Elt F) → (⟨S1024x32, .i32⟩ : BufTy).Contents (Elt F) → (⟨S1024x32, .i1⟩ : BufTy).Contents (Elt F)),
    StableHlo.unary main_v55 main_v56 (uitofp .bf16 : (⟨S1024x32, .i1⟩ : BufTy).Contents (Elt F) → (⟨S1024x32, .bf16⟩ : BufTy).Contents (Elt F)),
    StableHlo.nullary main_c_14 (constantI S_ 32 0#32),
    StableHlo.TRef.unary (.of main_c_14 : StableHlo.TRef sig ⟨S_, .i32⟩) main_call7.v0 (sitofp .bf16),
    StableHlo.TRef.binary (.of main_v56 : StableHlo.TRef sig ⟨S1024x32, .bf16⟩) main_call7.v0 main_call7.v1 (fun x v => pad S1024x128 ![0, 64] ![0, 32] ![0, 0] x v pads_S1024x32_S1024x128_000_64320 h_S_) ]

abbrev lB1_1 : List (HloOp τ sig (Elt F)) :=
  [ StableHlo.nullary main_c_15 (constantI S_ 32 0#32),
    StableHlo.TRef.unary (.of main_c_15 : StableHlo.TRef sig ⟨S_, .i32⟩) main_call8.v0 (sitofp .f32),
    StableHlo.TRef.binary (.of main_arg13 : StableHlo.TRef sig ⟨S19x32, .f32⟩) main_call8.v0 main_call8.v1 (fun x v => pad S19x128 ![0, 32] ![0, 64] ![0, 0] x v pads_S19x32_S19x128_000_32640 h_S_),
    StableHlo.unary main_arg14 main_v59 (broadcastInDim S1x32 ![1] bcast_S32_S1x32_1 : (⟨S32, .f32⟩ : BufTy).Contents (Elt F) → (⟨S1x32, .f32⟩ : BufTy).Contents (Elt F)),
    StableHlo.nullary main_c_16 (constantI S_ 32 0#32),
    StableHlo.TRef.unary (.of main_c_16 : StableHlo.TRef sig ⟨S_, .i32⟩) main_call9.v0 (sitofp .f32),
    StableHlo.TRef.binary (.of main_v59 : StableHlo.TRef sig ⟨S1x32, .f32⟩) main_call9.v0 main_call9.v1 (fun x v => pad S1x128 ![0, 32] ![0, 64] ![0, 0] x v pads_S1x32_S1x128_000_32640 h_S_),
    StableHlo.unary main_arg16 main_v61 (broadcastInDim S1x32 ![1] bcast_S32_S1x32_1 : (⟨S32, .f32⟩ : BufTy).Contents (Elt F) → (⟨S1x32, .f32⟩ : BufTy).Contents (Elt F)),
    StableHlo.nullary main_c_17 (constantI S_ 32 0#32),
    StableHlo.TRef.unary (.of main_c_17 : StableHlo.TRef sig ⟨S_, .i32⟩) main_call10.v0 (sitofp .f32),
    StableHlo.TRef.binary (.of main_v61 : StableHlo.TRef sig ⟨S1x32, .f32⟩) main_call10.v0 main_call10.v1 (fun x v => pad S1x128 ![0, 64] ![0, 32] ![0, 0] x v pads_S1x32_S1x128_000_64320 h_S_),
    StableHlo.unary main_arg17 main_v63 ((extractStridedSlice S64x1024 ![0, 0] · slices_S226x1024_S64x1024_0_0) : (⟨S226x1024, .f32⟩ : BufTy).Contents (Elt F) → (⟨S64x1024, .f32⟩ : BufTy).Contents (Elt F)),
    StableHlo.unary main_arg17 main_v64 ((extractStridedSlice S64x1024 ![96, 0] · slices_S226x1024_S64x1024_96_0) : (⟨S226x1024, .f32⟩ : BufTy).Contents (Elt F) → (⟨S64x1024, .f32⟩ : BufTy).Contents (Elt F)),
    StableHlo.unary main_arg17 main_v65 ((extractStridedSlice S32x1024 ![64, 0] · slices_S226x1024_S32x1024_64_0) : (⟨S226x1024, .f32⟩ : BufTy).Contents (Elt F) → (⟨S32x1024, .f32⟩ : BufTy).Contents (Elt F)),
    StableHlo.unary main_arg17 main_v66 ((extractStridedSlice S32x1024 ![160, 0] · slices_S226x1024_S32x1024_160_0) : (⟨S226x1024, .f32⟩ : BufTy).Contents (Elt F) → (⟨S32x1024, .f32⟩ : BufTy).Contents (Elt F)),
    StableHlo.unary main_arg17 main_v67 ((extractStridedSlice S32x1024 ![194, 0] · slices_S226x1024_S32x1024_194_0) : (⟨S226x1024, .f32⟩ : BufTy).Contents (Elt F) → (⟨S32x1024, .f32⟩ : BufTy).Contents (Elt F)),
    StableHlo.unary main_arg17 main_v68 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg17 main_v69 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg17 main_v70 ((extractStridedSlice S1x1024 ![193, 0] · slices_S226x1024_S1x1024_193_0) : (⟨S226x1024, .f32⟩ : BufTy).Contents (Elt F) → (⟨S1x1024, .f32⟩ : BufTy).Contents (Elt F)),
    StableHlo.nullary main_cst_18 (constant S_ .f32 0x00000000#32),
    StableHlo.unary main_cst_18 main_v71 (broadcastInDim S29x1024 ![] bcast_S_S29x1024 : (⟨S_, .f32⟩ : BufTy).Contents (Elt F) → (⟨S29x1024, .f32⟩ : BufTy).Contents (Elt F)),
    StableHlo.nary ![main_v63, main_v64, main_v65, main_v66, main_v67, main_v68, main_v69, main_v70, main_v71] main_v72 (fun u => concatenate S256x1024 0 [⟨S64x1024, u 0⟩, ⟨S64x1024, u 1⟩, ⟨S32x1024, u 2⟩, ⟨S32x1024, u 3⟩, ⟨S32x1024, u 4⟩, ⟨S1x1024, u 5⟩, ⟨S1x1024, u 6⟩, ⟨S1x1024, u 7⟩, ⟨S29x1024, u 8⟩] concatenates_S64x1024_S64x1024_S32x1024_S32x1024_S32x1024_S1x1024_S1x1024_S1x1024_S29x1024_S256x1024_d0),
    StableHlo.unary main_v72 main_v73 ((truncf .bf16 · bitsLt_bf16_f32) : (⟨S256x1024, .f32⟩ : BufTy).Contents (Elt F) → (⟨S256x1024, .bf16⟩ : BufTy).Contents (Elt F)),
    StableHlo.unary main_arg21 main_v74 ((extractStridedSlice S64x1024 ![0, 0] · slices_S226x1024_S64x1024_0_0) : (⟨S226x1024, .f32⟩ : BufTy).Contents (Elt F) → (⟨S64x1024, .f32⟩ : BufTy).Contents (Elt F)),
    StableHlo.unary main_arg21 main_v75 ((extractStridedSlice S64x1024 ![96, 0] · slices_S226x1024_S64x1024_96_0) : (⟨S226x1024, .f32⟩ : BufTy).Contents (Elt F) → (⟨S64x1024, .f32⟩ : BufTy).Contents (Elt F)),
    StableHlo.unary main_arg21 main_v76 ((extractStridedSlice S32x1024 ![64, 0] · slices_S226x1024_S32x1024_64_0) : (⟨S226x1024, .f32⟩ : BufTy).Contents (Elt F) → (⟨S32x1024, .f32⟩ : BufTy).Contents (Elt F)),
    StableHlo.unary main_arg21 main_v77 ((extractStridedSlice S32x1024 ![160, 0] · slices_S226x1024_S32x1024_160_0) : (⟨S226x1024, .f32⟩ : BufTy).Contents (Elt F) → (⟨S32x1024, .f32⟩ : BufTy).Contents (Elt F)),
    StableHlo.unary main_arg21 main_v78 ((extractStridedSlice S32x1024 ![194, 0] · slices_S226x1024_S32x1024_194_0) : (⟨S226x1024, .f32⟩ : BufTy).Contents (Elt F) → (⟨S32x1024, .f32⟩ : BufTy).Contents (Elt F)),
    StableHlo.unary main_arg21 main_v79 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg21 main_v80 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg21 main_v81 ((extractStridedSlice S1x1024 ![193, 0] · slices_S226x1024_S1x1024_193_0) : (⟨S226x1024, .f32⟩ : BufTy).Contents (Elt F) → (⟨S1x1024, .f32⟩ : BufTy).Contents (Elt F)),
    StableHlo.nullary main_cst_19 (constant S_ .f32 0x00000000#32),
    StableHlo.unary main_cst_19 main_v82 (broadcastInDim S29x1024 ![] bcast_S_S29x1024 : (⟨S_, .f32⟩ : BufTy).Contents (Elt F) → (⟨S29x1024, .f32⟩ : BufTy).Contents (Elt F)),
    StableHlo.nary ![main_v74, main_v75, main_v76, main_v77, main_v78, main_v79, main_v80, main_v81, main_v82] main_v83 (fun u => concatenate S256x1024 0 [⟨S64x1024, u 0⟩, ⟨S64x1024, u 1⟩, ⟨S32x1024, u 2⟩, ⟨S32x1024, u 3⟩, ⟨S32x1024, u 4⟩, ⟨S1x1024, u 5⟩, ⟨S1x1024, u 6⟩, ⟨S1x1024, u 7⟩, ⟨S29x1024, u 8⟩] concatenates_S64x1024_S64x1024_S32x1024_S32x1024_S32x1024_S1x1024_S1x1024_S1x1024_S29x1024_S256x1024_d0),
    StableHlo.unary main_v83 main_v84 ((truncf .bf16 · bitsLt_bf16_f32) : (⟨S256x1024, .f32⟩ : BufTy).Contents (Elt F) → (⟨S256x1024, .bf16⟩ : BufTy).Contents (Elt F)),
    StableHlo.unary main_arg6 main_v85 (broadcastInDim S16384x1 ![0] bcast_S16384_S16384x1_0 : (⟨S16384, .f32⟩ : BufTy).Contents (Elt F) → (⟨S16384x1, .f32⟩ : BufTy).Contents (Elt F)),
    StableHlo.unary main_arg7 main_v86 (broadcastInDim S16384x1 ![0] bcast_S16384_S16384x1_0 : (⟨S16384, .f32⟩ : BufTy).Contents (Elt F) → (⟨S16384x1, .f32⟩ : BufTy).Contents (Elt F)) ]

abbrev lC : List (HloOp τ sig (Elt F)) :=
  [ StableHlo.reshape main_arg19 main_v88 rfl shapeCasts_S1024_S1x1024,
    StableHlo.reshape main_arg20 main_v89 rfl shapeCasts_S1024_S1x1024,
    StableHlo.reshape main_arg22 main_v90 rfl shapeCasts_S1024_S1x1024 ]

abbrev lD : List (HloOp τ sig (Elt F)) :=
  [ StableHlo.reshape main_arg33 main_v92 rfl shapeCasts_S512x1_S1x512,
    StableHlo.reshape main_arg25 main_v93 rfl shapeCasts_S1024_S1x1024,
    StableHlo.reshape main_arg26 main_v94 rfl shapeCasts_S1024_S1x1024,
    StableHlo.reshape main_arg32 main_v95 rfl shapeCasts_S512_S1x512 ]

abbrev lE0 : List (HloOp τ sig (Elt F)) :=
  [ StableHlo.reshape main_arg29 main_v97 rfl shapeCasts_S512_S1x512 ]

abbrev lE1 : List (HloOp τ sig (Elt F)) :=
  [ StableHlo.reshape main_arg30 main_v98 rfl shapeCasts_S512_S1x512,
    StableHlo.reshape main_arg34 main_v99 rfl shapeCasts_S1_S1x1 ]

abbrev lF : List (HloOp τ sig (Elt F)) :=
  [ StableHlo.reshape main_v100 main_v101 rfl shapeCasts_S16384x1_S16384 ]

/-- The operations before the SparseCore call. -/
abbrev opsA : List (HloOp τ sig (Elt F)) := lA_0 ++ (lA_1 ++ (lA_2))
/-- The operations between the SparseCore call and the first kernel launch, as the two printed windows cut them. -/
abbrev opsB0 : List (HloOp τ sig (Elt F)) := lB0
abbrev opsB1 : List (HloOp τ sig (Elt F)) := lB1_0 ++ (lB1_1)
/-- The operations between the SparseCore call and the first kernel launch. -/
abbrev opsB : List (HloOp τ sig (Elt F)) := opsB0 ++ opsB1
/-- The operations between the first and second, and the second and third kernel launches. -/
abbrev opsC : List (HloOp τ sig (Elt F)) := lC
abbrev opsD : List (HloOp τ sig (Elt F)) := lD
/-- The operations between the third and fourth kernel launches, as the two printed windows cut them, and after the fourth. -/
abbrev opsE0 : List (HloOp τ sig (Elt F)) := lE0
abbrev opsE1 : List (HloOp τ sig (Elt F)) := lE1
abbrev opsE : List (HloOp τ sig (Elt F)) := opsE0 ++ opsE1
abbrev opsF : List (HloOp τ sig (Elt F)) := lF

/-! ## The entry function, window by window -/

/-- A line that is two lists end to end, followed by a continuation. -/
theorem seq_append_bind {α : Type} (l₁ l₂ : List (HloOp τ sig (Elt F)))
    (k : PUnit → Prog (TpuEff nD τ sig (Elt F) (SparseCore.Sig (Pipeline.Sig Λ₀ (Fin 4) fun p => (pcfgs (F := F) p).Adm) 1) .tc) α) :
    seq (l₁ ++ l₂) >>= k = seq l₁ >>= fun _ => seq l₂ >>= k := by
  rw [seq_append, bind_assoc]

set_option maxRecDepth 8192 in
set_option maxHeartbeats 4000000 in
/-- The printed window `main_part0`: its calls unfold to the callees' bodies and the binds reassociate. -/
theorem main_part0_eq (d : Dev nD) : main_part0 (F := F) d =
    (seq opsA >>= fun _ =>
      sc.run d 0 >>= fun _ =>
      seq opsB0 : Prog (TpuEff nD τ sig (Elt F) (SparseCore.Sig (Pipeline.Sig Λ₀ (Fin 4) fun p => (pcfgs (F := F) p).Adm) 1) .tc) PUnit) := by
  simp only [main_part0, fn_floor_divide.body, fn_where.body, fn_remainder.body, fn_where_0.body, fn_floor_divide_1.body, fn_where_2.body, bind_assoc, pure_bind]
  rfl

set_option maxRecDepth 8192 in
set_option maxHeartbeats 4000000 in
/-- The printed window `main_part1`: its calls unfold to the callees' bodies and the binds reassociate. -/
theorem main_part1_eq (d : Dev nD) : main_part1 (F := F) d =
    (seq opsB1 >>= fun _ =>
      Prog.lift (.customCall (SparseCore.inner (Pipeline.entry 0)) ()) >>= fun _ =>
      seq opsC >>= fun _ =>
      Prog.lift (.customCall (SparseCore.inner (Pipeline.entry 1)) ()) >>= fun _ =>
      seq opsD >>= fun _ =>
      Prog.lift (.customCall (SparseCore.inner (Pipeline.entry 2)) ()) >>= fun _ =>
      seq opsE0 : Prog (TpuEff nD τ sig (Elt F) (SparseCore.Sig (Pipeline.Sig Λ₀ (Fin 4) fun p => (pcfgs (F := F) p).Adm) 1) .tc) PUnit) := by
  simp only [main_part1, fn_pad.body, fn_remainder_3.body, fn_where_0.body, fn_pad_4.body, fn_pad_5.body, fn_pad_6.body, fn_pad_7.body, bind_assoc, pure_bind]
  rfl

set_option maxRecDepth 8192 in
set_option maxHeartbeats 4000000 in
/-- The printed window `main_part2`: its calls unfold to the callees' bodies and the binds reassociate. -/
theorem main_part2_eq (d : Dev nD) : main_part2 (F := F) d =
    (seq opsE1 >>= fun _ =>
      Prog.lift (.customCall (SparseCore.inner (Pipeline.entry 3)) ()) >>= fun _ =>
      seq opsF : Prog (TpuEff nD τ sig (Elt F) (SparseCore.Sig (Pipeline.Sig Λ₀ (Fin 4) fun p => (pcfgs (F := F) p).Adm) 1) .tc) PUnit) := by
  simp only [main_part2, bind_assoc, pure_bind]
  rfl

/-- The entry function on the TensorCore: the six lines, the SparseCore call after the first and a kernel launch after
    each of the next four. -/
theorem main_shape (d : Dev nD) : main (F := F) d =
    (seq opsA >>= fun _ =>
      sc.run d 0 >>= fun _ =>
      seq opsB >>= fun _ =>
      Prog.lift (.customCall (SparseCore.inner (Pipeline.entry 0)) ()) >>= fun _ =>
      seq opsC >>= fun _ =>
      Prog.lift (.customCall (SparseCore.inner (Pipeline.entry 1)) ()) >>= fun _ =>
      seq opsD >>= fun _ =>
      Prog.lift (.customCall (SparseCore.inner (Pipeline.entry 2)) ()) >>= fun _ =>
      seq opsE >>= fun _ =>
      Prog.lift (.customCall (SparseCore.inner (Pipeline.entry 3)) ()) >>= fun _ =>
      seq opsF : Prog (TpuEff nD τ sig (Elt F) (SparseCore.Sig (Pipeline.Sig Λ₀ (Fin 4) fun p => (pcfgs (F := F) p).Adm) 1) .tc) PUnit) := by
  have h : main (F := F) d = main_part0 (F := F) d >>= fun _ => main_part1 (F := F) d >>= fun _ => main_part2 (F := F) d := rfl
  rw [h, main_part0_eq d, main_part1_eq d, main_part2_eq d, seq_append_bind opsB0 opsB1, seq_append_bind opsE0 opsE1]
  simp only [bind_assoc]

/-! ## The side conditions of running each line as a sequence -/

/-- A property of every operation of two lists holds of every operation of their concatenation. -/
theorem forall_mem_append' {p : HloOp τ sig (Elt F) → Prop} {l₁ l₂ : List (HloOp τ sig (Elt F))}
    (h₁ : ∀ op ∈ l₁, p op) (h₂ : ∀ op ∈ l₂, p op) : ∀ op ∈ l₁ ++ l₂, p op :=
  fun op h => (List.mem_append.mp h).elim (h₁ op) (h₂ op)

set_option maxRecDepth 8192 in
theorem lA_0_sub : ∀ op ∈ (lA_0 : List (HloOp τ sig (Elt F))), op.bufs ⊆ tcRefs τ sig :=
  List.forall_iff_forall_mem.mp (show (lA_0 : List (HloOp τ sig (Elt F))).Forall fun op => op.bufs ⊆ tcRefs τ sig from
  ⟨nullary_bufs_sub .., unary_bufs_sub .., binary_bufs_sub .., nullary_bufs_sub .., unary_bufs_sub .., binary_bufs_sub ..,
    binary_bufs_sub .., binary_bufs_sub .., nary_bufs_sub .., binary_bufs_sub .., nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub ..⟩)
set_option maxRecDepth 8192 in
theorem lA_0_fresh : ∀ op ∈ (lA_0 : List (HloOp τ sig (Elt F))), op.fresh = ∅ :=
  List.forall_iff_forall_mem.mp (show (lA_0 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩)
set_option maxRecDepth 8192 in
theorem lA_1_sub : ∀ op ∈ (lA_1 : List (HloOp τ sig (Elt F))), op.bufs ⊆ tcRefs τ sig :=
  List.forall_iff_forall_mem.mp (show (lA_1 : List (HloOp τ sig (Elt F))).Forall fun op => op.bufs ⊆ tcRefs τ sig from
  ⟨binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., nullary_bufs_sub ..⟩)
set_option maxRecDepth 8192 in
theorem lA_1_fresh : ∀ op ∈ (lA_1 : List (HloOp τ sig (Elt F))), op.fresh = ∅ :=
  List.forall_iff_forall_mem.mp (show (lA_1 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩)
set_option maxRecDepth 8192 in
theorem lA_2_sub : ∀ op ∈ (lA_2 : List (HloOp τ sig (Elt F))), op.bufs ⊆ tcRefs τ sig :=
  List.forall_iff_forall_mem.mp (show (lA_2 : List (HloOp τ sig (Elt F))).Forall fun op => op.bufs ⊆ tcRefs τ sig from
  ⟨unary_bufs_sub .., binary_bufs_sub .., ternary_bufs_sub .., unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., nary_bufs_sub ..⟩)
set_option maxRecDepth 8192 in
theorem lA_2_fresh : ∀ op ∈ (lA_2 : List (HloOp τ sig (Elt F))), op.fresh = ∅ :=
  List.forall_iff_forall_mem.mp (show (lA_2 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩)
set_option maxRecDepth 8192 in
theorem lB0_sub : ∀ op ∈ (lB0 : List (HloOp τ sig (Elt F))), op.bufs ⊆ tcRefs τ sig :=
  List.forall_iff_forall_mem.mp (show (lB0 : List (HloOp τ sig (Elt F))).Forall fun op => op.bufs ⊆ tcRefs τ sig from
  ⟨reshape_bufs_sub .., unary_bufs_sub .., nullary_bufs_sub .., nullary_bufs_sub .., unary_bufs_sub .., unary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    unary_bufs_sub .., unary_bufs_sub ..⟩)
set_option maxRecDepth 8192 in
theorem lB0_fresh : ∀ op ∈ (lB0 : List (HloOp τ sig (Elt F))), op.fresh = ∅ :=
  List.forall_iff_forall_mem.mp (show (lB0 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl⟩)
set_option maxRecDepth 8192 in
theorem lB1_0_sub : ∀ op ∈ (lB1_0 : List (HloOp τ sig (Elt F))), op.bufs ⊆ tcRefs τ sig :=
  List.forall_iff_forall_mem.mp (show (lB1_0 : List (HloOp τ sig (Elt F))).Forall fun op => op.bufs ⊆ tcRefs τ sig from
  ⟨binary_bufs_sub .., unary_bufs_sub .., nullary_bufs_sub .., unary_bufs_sub .., binary_bufs_sub .., unary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    unary_bufs_sub .., unary_bufs_sub .., binary_bufs_sub .., unary_bufs_sub .., nullary_bufs_sub .., unary_bufs_sub ..,
    binary_bufs_sub ..⟩)
set_option maxRecDepth 8192 in
theorem lB1_0_fresh : ∀ op ∈ (lB1_0 : List (HloOp τ sig (Elt F))), op.fresh = ∅ :=
  List.forall_iff_forall_mem.mp (show (lB1_0 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩)
set_option maxRecDepth 8192 in
theorem lB1_1_sub : ∀ op ∈ (lB1_1 : List (HloOp τ sig (Elt F))), op.bufs ⊆ tcRefs τ sig :=
  List.forall_iff_forall_mem.mp (show (lB1_1 : List (HloOp τ sig (Elt F))).Forall fun op => op.bufs ⊆ tcRefs τ sig from
  ⟨nullary_bufs_sub .., unary_bufs_sub .., binary_bufs_sub .., unary_bufs_sub .., nullary_bufs_sub .., unary_bufs_sub ..,
    binary_bufs_sub .., unary_bufs_sub .., nullary_bufs_sub .., unary_bufs_sub .., binary_bufs_sub .., unary_bufs_sub ..,
    unary_bufs_sub .., unary_bufs_sub .., unary_bufs_sub .., unary_bufs_sub .., unary_bufs_sub .., unary_bufs_sub ..,
    unary_bufs_sub .., nullary_bufs_sub .., unary_bufs_sub .., nary_bufs_sub .., unary_bufs_sub .., unary_bufs_sub ..,
    unary_bufs_sub .., unary_bufs_sub .., unary_bufs_sub .., unary_bufs_sub .., unary_bufs_sub .., unary_bufs_sub ..,
    unary_bufs_sub .., nullary_bufs_sub .., unary_bufs_sub .., nary_bufs_sub .., unary_bufs_sub .., unary_bufs_sub ..,
    unary_bufs_sub ..⟩)
set_option maxRecDepth 8192 in
theorem lB1_1_fresh : ∀ op ∈ (lB1_1 : List (HloOp τ sig (Elt F))), op.fresh = ∅ :=
  List.forall_iff_forall_mem.mp (show (lB1_1 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩)
set_option maxRecDepth 8192 in
theorem lC_sub : ∀ op ∈ (lC : List (HloOp τ sig (Elt F))), op.bufs ⊆ tcRefs τ sig :=
  List.forall_iff_forall_mem.mp (show (lC : List (HloOp τ sig (Elt F))).Forall fun op => op.bufs ⊆ tcRefs τ sig from
  ⟨reshape_bufs_sub .., reshape_bufs_sub .., reshape_bufs_sub ..⟩)
set_option maxRecDepth 8192 in
theorem lC_fresh : ∀ op ∈ (lC : List (HloOp τ sig (Elt F))), op.fresh = ∅ :=
  List.forall_iff_forall_mem.mp (show (lC : List (HloOp τ sig (Elt F))).Forall fun op => op.fresh = ∅ from
  ⟨rfl, rfl, rfl⟩)
set_option maxRecDepth 8192 in
theorem lD_sub : ∀ op ∈ (lD : List (HloOp τ sig (Elt F))), op.bufs ⊆ tcRefs τ sig :=
  List.forall_iff_forall_mem.mp (show (lD : List (HloOp τ sig (Elt F))).Forall fun op => op.bufs ⊆ tcRefs τ sig from
  ⟨reshape_bufs_sub .., reshape_bufs_sub .., reshape_bufs_sub .., reshape_bufs_sub ..⟩)
set_option maxRecDepth 8192 in
theorem lD_fresh : ∀ op ∈ (lD : List (HloOp τ sig (Elt F))), op.fresh = ∅ :=
  List.forall_iff_forall_mem.mp (show (lD : List (HloOp τ sig (Elt F))).Forall fun op => op.fresh = ∅ from
  ⟨rfl, rfl, rfl, rfl⟩)
set_option maxRecDepth 8192 in
theorem lE0_sub : ∀ op ∈ (lE0 : List (HloOp τ sig (Elt F))), op.bufs ⊆ tcRefs τ sig :=
  List.forall_iff_forall_mem.mp (show (lE0 : List (HloOp τ sig (Elt F))).Forall fun op => op.bufs ⊆ tcRefs τ sig from
  reshape_bufs_sub ..)
set_option maxRecDepth 8192 in
theorem lE0_fresh : ∀ op ∈ (lE0 : List (HloOp τ sig (Elt F))), op.fresh = ∅ :=
  List.forall_iff_forall_mem.mp (show (lE0 : List (HloOp τ sig (Elt F))).Forall fun op => op.fresh = ∅ from
  rfl)
set_option maxRecDepth 8192 in
theorem lE1_sub : ∀ op ∈ (lE1 : List (HloOp τ sig (Elt F))), op.bufs ⊆ tcRefs τ sig :=
  List.forall_iff_forall_mem.mp (show (lE1 : List (HloOp τ sig (Elt F))).Forall fun op => op.bufs ⊆ tcRefs τ sig from
  ⟨reshape_bufs_sub .., reshape_bufs_sub ..⟩)
set_option maxRecDepth 8192 in
theorem lE1_fresh : ∀ op ∈ (lE1 : List (HloOp τ sig (Elt F))), op.fresh = ∅ :=
  List.forall_iff_forall_mem.mp (show (lE1 : List (HloOp τ sig (Elt F))).Forall fun op => op.fresh = ∅ from
  ⟨rfl, rfl⟩)
set_option maxRecDepth 8192 in
theorem lF_sub : ∀ op ∈ (lF : List (HloOp τ sig (Elt F))), op.bufs ⊆ tcRefs τ sig :=
  List.forall_iff_forall_mem.mp (show (lF : List (HloOp τ sig (Elt F))).Forall fun op => op.bufs ⊆ tcRefs τ sig from
  reshape_bufs_sub ..)
set_option maxRecDepth 8192 in
theorem lF_fresh : ∀ op ∈ (lF : List (HloOp τ sig (Elt F))), op.fresh = ∅ :=
  List.forall_iff_forall_mem.mp (show (lF : List (HloOp τ sig (Elt F))).Forall fun op => op.fresh = ∅ from
  rfl)
theorem opsA_sub : ∀ op ∈ (opsA : List (HloOp τ sig (Elt F))), op.bufs ⊆ tcRefs τ sig := forall_mem_append' lA_0_sub (forall_mem_append' lA_1_sub (lA_2_sub))
theorem opsA_fresh : ∀ op ∈ (opsA : List (HloOp τ sig (Elt F))), op.fresh = ∅ := forall_mem_append' lA_0_fresh (forall_mem_append' lA_1_fresh (lA_2_fresh))
theorem opsB0_sub : ∀ op ∈ (opsB0 : List (HloOp τ sig (Elt F))), op.bufs ⊆ tcRefs τ sig := lB0_sub
theorem opsB0_fresh : ∀ op ∈ (opsB0 : List (HloOp τ sig (Elt F))), op.fresh = ∅ := lB0_fresh
theorem opsB1_sub : ∀ op ∈ (opsB1 : List (HloOp τ sig (Elt F))), op.bufs ⊆ tcRefs τ sig := forall_mem_append' lB1_0_sub (lB1_1_sub)
theorem opsB1_fresh : ∀ op ∈ (opsB1 : List (HloOp τ sig (Elt F))), op.fresh = ∅ := forall_mem_append' lB1_0_fresh (lB1_1_fresh)
theorem opsB_sub : ∀ op ∈ (opsB : List (HloOp τ sig (Elt F))), op.bufs ⊆ tcRefs τ sig := forall_mem_append' lB0_sub (forall_mem_append' lB1_0_sub (lB1_1_sub))
theorem opsB_fresh : ∀ op ∈ (opsB : List (HloOp τ sig (Elt F))), op.fresh = ∅ := forall_mem_append' lB0_fresh (forall_mem_append' lB1_0_fresh (lB1_1_fresh))
theorem opsC_sub : ∀ op ∈ (opsC : List (HloOp τ sig (Elt F))), op.bufs ⊆ tcRefs τ sig := lC_sub
theorem opsC_fresh : ∀ op ∈ (opsC : List (HloOp τ sig (Elt F))), op.fresh = ∅ := lC_fresh
theorem opsD_sub : ∀ op ∈ (opsD : List (HloOp τ sig (Elt F))), op.bufs ⊆ tcRefs τ sig := lD_sub
theorem opsD_fresh : ∀ op ∈ (opsD : List (HloOp τ sig (Elt F))), op.fresh = ∅ := lD_fresh
theorem opsE0_sub : ∀ op ∈ (opsE0 : List (HloOp τ sig (Elt F))), op.bufs ⊆ tcRefs τ sig := lE0_sub
theorem opsE0_fresh : ∀ op ∈ (opsE0 : List (HloOp τ sig (Elt F))), op.fresh = ∅ := lE0_fresh
theorem opsE1_sub : ∀ op ∈ (opsE1 : List (HloOp τ sig (Elt F))), op.bufs ⊆ tcRefs τ sig := lE1_sub
theorem opsE1_fresh : ∀ op ∈ (opsE1 : List (HloOp τ sig (Elt F))), op.fresh = ∅ := lE1_fresh
theorem opsE_sub : ∀ op ∈ (opsE : List (HloOp τ sig (Elt F))), op.bufs ⊆ tcRefs τ sig := forall_mem_append' lE0_sub (lE1_sub)
theorem opsE_fresh : ∀ op ∈ (opsE : List (HloOp τ sig (Elt F))), op.fresh = ∅ := forall_mem_append' lE0_fresh (lE1_fresh)
theorem opsF_sub : ∀ op ∈ (opsF : List (HloOp τ sig (Elt F))), op.bufs ⊆ tcRefs τ sig := lF_sub
theorem opsF_fresh : ∀ op ∈ (opsF : List (HloOp τ sig (Elt F))), op.fresh = ∅ := lF_fresh
/-! ## The index list

The first line writes the 49152 row indices the SparseCore call gathers by: the 16384 user ids, the 16384 movie ids,
then gender * 256 + age * 32 + occupation. With the ids below 100000 and gender, age, occupation below 4, 8 and 32
the first 32768 are below 100000 and the rest below 4 * 256 = 1024 (the sum is at most 3 * 256 + 7 * 32 + 31). -/

/-- The one index of a one-axis shape of extent `n` at position `p`. -/
def ix1 {n : Nat} (p : Nat) (hp : p < n) : (⟨1, ![n]⟩ : Shape).Idx := fun a =>
  match a with
  | ⟨0, _⟩ => ⟨p, hp⟩

/-- gender * 256 + age * 32 + occupation, elementwise. -/
def packed (a1 a2 a3 : IVec S16384 32) : IVec S16384 32 :=
  addi (addi (muli a1 (broadcastInDim S16384 ![] bcast_S_S16384 (constantI S_ 32 256#32)))
             (muli a2 (broadcastInDim S16384 ![] bcast_S_S16384 (constantI S_ 32 32#32)))) a3

/-- The three pieces of the index list. -/
abbrev idxPieces (a0 a4 a1 a2 a3 : IVec S16384 32) : List ((s : Shape) × (s.Idx → BitVec 32)) :=
  [⟨S16384, a0⟩, ⟨S16384, a4⟩, ⟨S16384, packed a1 a2 a3⟩]

/-- The index list, as a term of the five index arrays. -/
def idxTerm (a0 a4 a1 a2 a3 : IVec S16384 32) : IVec S49152 32 :=
  concatenate S49152 0 (idxPieces a0 a4 a1 a2 a3) concatenates_S16384_S16384_S16384_S49152_d0

set_option maxRecDepth 8192 in
/-- The first 16384 entries are the user ids. -/
theorem idxTerm_piece0 (a0 a4 a1 a2 a3 : IVec S16384 32) (j : S49152.Idx) (h : (j 0).val < 16384) :
    idxTerm a0 a4 a1 a2 a3 j = a0 (ix1 (j 0).val h) :=
  concatenate_apply_piece (t := S49152) (0 : Fin 1) (idxPieces a0 a4 a1 a2 a3) concatenates_S16384_S16384_S16384_S49152_d0 j
    0 (show 0 < 3 by omega) S16384 a0 rfl rfl 0 rfl (ix1 (j 0).val h)
    (fun b hb => absurd (Subsingleton.elim _ _) hb) (by show 0 + (j 0).val = (j 0).val; omega)

set_option maxRecDepth 8192 in
/-- The next 16384 are the movie ids. -/
theorem idxTerm_piece1 (a0 a4 a1 a2 a3 : IVec S16384 32) (j : S49152.Idx) (hlo : 16384 ≤ (j 0).val) (h : (j 0).val - 16384 < 16384) :
    idxTerm a0 a4 a1 a2 a3 j = a4 (ix1 ((j 0).val - 16384) h) :=
  concatenate_apply_piece (t := S49152) (0 : Fin 1) (idxPieces a0 a4 a1 a2 a3) concatenates_S16384_S16384_S16384_S49152_d0 j
    1 (show 1 < 3 by omega) S16384 a4 rfl rfl 16384 rfl (ix1 ((j 0).val - 16384) h)
    (fun b hb => absurd (Subsingleton.elim _ _) hb) (by show 16384 + ((j 0).val - 16384) = (j 0).val; omega)

set_option maxRecDepth 8192 in
/-- The last 16384 are the packed small indices. -/
theorem idxTerm_piece2 (a0 a4 a1 a2 a3 : IVec S16384 32) (j : S49152.Idx) (hlo : 32768 ≤ (j 0).val) (h : (j 0).val - 32768 < 16384) :
    idxTerm a0 a4 a1 a2 a3 j = packed a1 a2 a3 (ix1 ((j 0).val - 32768) h) :=
  concatenate_apply_piece (t := S49152) (0 : Fin 1) (idxPieces a0 a4 a1 a2 a3) concatenates_S16384_S16384_S16384_S49152_d0 j
    2 (show 2 < 3 by omega) S16384 (packed a1 a2 a3) rfl rfl 32768 rfl (ix1 ((j 0).val - 32768) h)
    (fun b hb => absurd (Subsingleton.elim _ _) hb) (by show 32768 + ((j 0).val - 32768) = (j 0).val; omega)

/-- The packed index is below 1024 when its three fields are in range (no product or sum wraps). -/
theorem packed_lt (a1 a2 a3 : IVec S16384 32) (i : S16384.Idx)
    (e1 : (a1 i).toNat < 4) (e2 : (a2 i).toNat < 8) (e3 : (a3 i).toNat < 32) : (packed a1 a2 a3 i).toNat < 1024 := by
  simp only [packed, addi, muli, broadcastInDim, constantI, IntOp.addi, IntOp.muli, BitVec.toNat_add, BitVec.toNat_mul,
    BitVec.toNat_ofNat]
  omega

/-- The bounds of the index list from the bounds of the five arrays. -/
theorem idxTerm_bounds (a0 a4 a1 a2 a3 : IVec S16384 32)
    (h0 : ∀ i, (a0 i).toNat < 100000) (h4 : ∀ i, (a4 i).toNat < 100000)
    (h1 : ∀ i, (a1 i).toNat < 4) (h2 : ∀ i, (a2 i).toNat < 8) (h3 : ∀ i, (a3 i).toNat < 32) :
    (∀ j : S49152.Idx, (j 0).val < 32768 → (idxTerm a0 a4 a1 a2 a3 j).toNat < 100000)
    ∧ (∀ j : S49152.Idx, 32768 ≤ (j 0).val → (idxTerm a0 a4 a1 a2 a3 j).toNat < 1024) := by
  refine ⟨fun j hlt => ?_, fun j hge => ?_⟩
  · by_cases hc : (j 0).val < 16384
    · rw [idxTerm_piece0 a0 a4 a1 a2 a3 j hc]; exact h0 _
    · rw [idxTerm_piece1 a0 a4 a1 a2 a3 j (by omega) (by omega)]; exact h4 _
  · have hjj : (j 0).val < 49152 := (j 0).isLt
    rw [idxTerm_piece2 a0 a4 a1 a2 a3 j hge (by omega)]
    exact packed_lt a1 a2 a3 _ (h1 _) (h2 _) (h3 _)

/-! ## The integer ranges, read out of the precondition

The precondition is a conjunction, one `and` at a time, of all-reductions: the last five say that user id, gender,
age, occupation and movie id lie in [0, 99999], [0, 3], [0, 7], [0, 31], [0, 99999] as signed words. A conjunction
that is 1 has every conjunct 1; an all-reduction that is 1 met 1 at every element; a word between 0 and n signed
(n below 2^31) is at most n unsigned. -/

section Pre

open Cert.Pre_input_domain

variable [Cert.Pre_input_domain.Facts]

theorem ofBool_eq_one (p : Bool) : (BitVec.ofBool p = 1#1) ↔ p = true := by cases p <;> decide
theorem andi_ofBool (p q : Bool) : IntOp.andi (BitVec.ofBool p) (BitVec.ofBool q) = BitVec.ofBool (p && q) := by
  cases p <;> cases q <;> decide

theorem range_le_3 (w : BitVec 32)
    (e : IntOp.andi (IntOp.cmpi .sge w 0#32) (IntOp.cmpi .sle w 3#32) = 1#1) : w.toNat ≤ 3 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem range_le_7 (w : BitVec 32)
    (e : IntOp.andi (IntOp.cmpi .sge w 0#32) (IntOp.cmpi .sle w 7#32) = 1#1) : w.toNat ≤ 7 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem range_le_31 (w : BitVec 32)
    (e : IntOp.andi (IntOp.cmpi .sge w 0#32) (IntOp.cmpi .sle w 31#32) = 1#1) : w.toNat ≤ 31 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem range_le_99999 (w : BitVec 32)
    (e : IntOp.andi (IntOp.cmpi .sge w 0#32) (IntOp.cmpi .sle w 99999#32) = 1#1) : w.toNat ≤ 99999 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The scalar shape has one index. -/
instance : Subsingleton Cert.Pre_input_domain.S_.Idx := ⟨fun _ _ => funext fun a => a.elim0⟩

/-- The last two windows of the predicate: the five conjuncts they add. -/
theorem part9_ranges (a1 a2 a3 a4 : IVec Cert.Pre_input_domain.S16384 32) (v148 : IVec Cert.Pre_input_domain.S_ 1)
    (v153 : IVec Cert.Pre_input_domain.S16384 1) (j : Cert.Pre_input_domain.S_.Idx)
    (h : fn_part9 (F := F) a1 a2 a3 a4 v148 v153 j = 1#1) :
    v148 j = 1#1 ∧ (∀ i, v153 i = 1#1) ∧ (∀ i, (a1 i).toNat ≤ 3) ∧ (∀ i, (a2 i).toNat ≤ 7)
      ∧ (∀ i, (a3 i).toNat ≤ 31) ∧ (∀ i, (a4 i).toNat ≤ 99999) := by
  unfold fn_part9 fn_part10 at h
  simp only [andi, IntOp.andi_eq_one] at h
  obtain ⟨⟨⟨⟨⟨h148, h154⟩, h161⟩, h168⟩, h175⟩, h182⟩ := h
  refine ⟨h148, fun i => Host.reduce_andi_all _ _ _ _ j h154 i, fun i => ?_, fun i => ?_, fun i => ?_, fun i => ?_⟩
  · have e := Host.reduce_andi_all _ _ _ _ j h161 i
    simp only [andi, cmpi, broadcastInDim, constantI] at e
    exact range_le_3 _ e
  · have e := Host.reduce_andi_all _ _ _ _ j h168 i
    simp only [andi, cmpi, broadcastInDim, constantI] at e
    exact range_le_7 _ e
  · have e := Host.reduce_andi_all _ _ _ _ j h175 i
    simp only [andi, cmpi, broadcastInDim, constantI] at e
    exact range_le_31 _ e
  · have e := Host.reduce_andi_all _ _ _ _ j h182 i
    simp only [andi, cmpi, broadcastInDim, constantI] at e
    exact range_le_99999 _ e

end Pre

/-! ## The index list is what the first line leaves in its buffer -/

/-- The fold over a concatenation is the fold over the second list from the fold over the first. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- An operation whose one written buffer is in a list of references writes inside the list. -/
theorem writes_sub_of_mem {op : HloOp τ sig (Elt F)} {W : List (Ref sig .tc)} (y : Ref sig .tc)
    (hw : op.writes = {Proc.devRef .tc y}) (hy : y ∈ W) :
    op.writes ⊆ (W.map (Proc.devRef (τ := τ) .tc)).toFinset := by
  rw [hw]; exact Finset.singleton_subset_iff.mpr (List.mem_toFinset.mpr (List.mem_map_of_mem hy))

/-- The buffers the operations of `lA_1` write. -/
abbrev lA_1_W : List (Ref sig .tc) := [main_call1_v2, main_call1_v3, main_call1_v4, main_call1_v5, main_call1_v6, main_call1_v7, main_call1_v8, main_call1_c, main_call1_v9, main_call1_v10, main_call1_v11, main_call1_c_0, main_call1_v12, main_call1_v13, main_v17, main_c_5, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v18, main_c_6, main_v19, main_v20, main_c_7]
set_option maxRecDepth 8192 in
theorem lA_1_writes : (lA_1 : List (HloOp τ sig (Elt F))).Forall fun op => op.writes ⊆ (lA_1_W.map (Proc.devRef (τ := τ) .tc)).toFinset :=
  ⟨writes_sub_of_mem main_call1_v2 rfl (by decide), writes_sub_of_mem main_call1_v3 rfl (by decide), writes_sub_of_mem main_call1_v4 rfl (by decide),
    writes_sub_of_mem main_call1_v5 rfl (by decide), writes_sub_of_mem main_call1_v6 rfl (by decide), writes_sub_of_mem main_call1_v7 rfl (by decide),
    writes_sub_of_mem main_call1_v8 rfl (by decide), writes_sub_of_mem main_call1_c rfl (by decide), writes_sub_of_mem main_call1_v9 rfl (by decide),
    writes_sub_of_mem main_call1_v10 rfl (by decide), writes_sub_of_mem main_call1_v11 rfl (by decide), writes_sub_of_mem main_call1_c_0 rfl (by decide),
    writes_sub_of_mem main_call1_v12 rfl (by decide), writes_sub_of_mem main_call1_v13 rfl (by decide), writes_sub_of_mem main_v17 rfl (by decide),
    writes_sub_of_mem main_c_5 rfl (by decide), writes_sub_of_mem main_call2_v0 rfl (by decide), writes_sub_of_mem main_call2_c rfl (by decide),
    writes_sub_of_mem main_call2_v1 rfl (by decide), writes_sub_of_mem main_call2_c_0 rfl (by decide), writes_sub_of_mem main_call2_v2 rfl (by decide),
    writes_sub_of_mem main_call2_v3 rfl (by decide), writes_sub_of_mem main_call2_v4 rfl (by decide), writes_sub_of_mem main_call2_c_1 rfl (by decide),
    writes_sub_of_mem main_call2_v5 rfl (by decide), writes_sub_of_mem main_call2_v6 rfl (by decide), writes_sub_of_mem main_call2_c_2 rfl (by decide),
    writes_sub_of_mem main_call2_v7 rfl (by decide), writes_sub_of_mem main_call2_v8 rfl (by decide), writes_sub_of_mem main_call2_c_3 rfl (by decide),
    writes_sub_of_mem main_call2_v9 rfl (by decide), writes_sub_of_mem main_call2_v10 rfl (by decide), writes_sub_of_mem main_call2_v11 rfl (by decide),
    writes_sub_of_mem main_call2_v12 rfl (by decide), writes_sub_of_mem main_call2_v13 rfl (by decide), writes_sub_of_mem main_call2_v14 rfl (by decide),
    writes_sub_of_mem main_v18 rfl (by decide), writes_sub_of_mem main_c_6 rfl (by decide), writes_sub_of_mem main_v19 rfl (by decide),
    writes_sub_of_mem main_v20 rfl (by decide), writes_sub_of_mem main_c_7 rfl (by decide)⟩
/-- The buffers the operations of `lA_2` write. -/
abbrev lA_2_W : List (Ref sig .tc) := [main_v21, main_v22, main_v23, main_v24, main_v25, main_c_8, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v26, main_c_9, main_v27, main_v28, main_c_10, main_v29, main_v30, main_v31, main_v32, main_v33, main_cst, main_v34, main_v35]
set_option maxRecDepth 8192 in
theorem lA_2_writes : (lA_2 : List (HloOp τ sig (Elt F))).Forall fun op => op.writes ⊆ (lA_2_W.map (Proc.devRef (τ := τ) .tc)).toFinset :=
  ⟨writes_sub_of_mem main_v21 rfl (by decide), writes_sub_of_mem main_v22 rfl (by decide), writes_sub_of_mem main_v23 rfl (by decide),
    writes_sub_of_mem main_v24 rfl (by decide), writes_sub_of_mem main_v25 rfl (by decide), writes_sub_of_mem main_c_8 rfl (by decide),
    writes_sub_of_mem main_call3_v0 rfl (by decide), writes_sub_of_mem main_call3_c rfl (by decide), writes_sub_of_mem main_call3_v1 rfl (by decide),
    writes_sub_of_mem main_call3_c_0 rfl (by decide), writes_sub_of_mem main_call3_v2 rfl (by decide), writes_sub_of_mem main_call3_v3 rfl (by decide),
    writes_sub_of_mem main_call3_v4 rfl (by decide), writes_sub_of_mem main_call3_c_1 rfl (by decide), writes_sub_of_mem main_call3_v5 rfl (by decide),
    writes_sub_of_mem main_call3_v6 rfl (by decide), writes_sub_of_mem main_call3_c_2 rfl (by decide), writes_sub_of_mem main_call3_v7 rfl (by decide),
    writes_sub_of_mem main_call3_v8 rfl (by decide), writes_sub_of_mem main_call3_c_3 rfl (by decide), writes_sub_of_mem main_call3_v9 rfl (by decide),
    writes_sub_of_mem main_call3_v10 rfl (by decide), writes_sub_of_mem main_call3_v11 rfl (by decide), writes_sub_of_mem main_call3_v12 rfl (by decide),
    writes_sub_of_mem main_call3_v13 rfl (by decide), writes_sub_of_mem main_call3_v14 rfl (by decide), writes_sub_of_mem main_v26 rfl (by decide),
    writes_sub_of_mem main_c_9 rfl (by decide), writes_sub_of_mem main_v27 rfl (by decide), writes_sub_of_mem main_v28 rfl (by decide),
    writes_sub_of_mem main_c_10 rfl (by decide), writes_sub_of_mem main_v29 rfl (by decide), writes_sub_of_mem main_v30 rfl (by decide),
    writes_sub_of_mem main_v31 rfl (by decide), writes_sub_of_mem main_v32 rfl (by decide), writes_sub_of_mem main_v33 rfl (by decide),
    writes_sub_of_mem main_cst rfl (by decide), writes_sub_of_mem main_v34 rfl (by decide), writes_sub_of_mem main_v35 rfl (by decide)⟩

set_option maxRecDepth 8192 in
set_option maxHeartbeats 2000000 in
/-- The first window of the first line leaves the index list in its buffer: the nine operations that build it read off,
    the later ones write elsewhere. -/
theorem after_lA_0_v6 (V : Valuation τ sig (Elt F)) :
    after lA_0 V (Proc.devRef .tc main_v6) = idxTerm (V (Proc.devRef .tc main_arg0) : IVec S16384 32) (V (Proc.devRef .tc main_arg4) : IVec S16384 32) (V (Proc.devRef .tc main_arg1) : IVec S16384 32) (V (Proc.devRef .tc main_arg2) : IVec S16384 32) (V (Proc.devRef .tc main_arg3) : IVec S16384 32) := by
  simp only [lA_0]
  after_results_simp
  try dsimp only [Matrix.cons_val]
  try after_results_simp
  rfl

/-- The whole first line leaves the index list in its buffer. -/
theorem after_opsA_v6 (V : Valuation τ sig (Elt F)) :
    after opsA V (Proc.devRef .tc main_v6) = idxTerm (V (Proc.devRef .tc main_arg0) : IVec S16384 32) (V (Proc.devRef .tc main_arg4) : IVec S16384 32) (V (Proc.devRef .tc main_arg1) : IVec S16384 32) (V (Proc.devRef .tc main_arg2) : IVec S16384 32) (V (Proc.devRef .tc main_arg3) : IVec S16384 32) := by
  rw [show (opsA : List (HloOp τ sig (Elt F))) = lA_0 ++ (lA_1 ++ (lA_2)) from rfl, after_append', after_append',
    after_of_writes_sub lA_2 _ lA_2_writes (by decide),
    after_of_writes_sub lA_1 _ lA_1_writes (by decide)]
  exact after_lA_0_v6 V

/-- After the first line, from launch contents whose five index arrays are in range, the index list's first 32768
    entries are below 100000 and the rest below 1024. -/
theorem idx_ok (m : (ℓ : Loc nD τ sig) → Buf (Elt F) ℓ) (d : Dev nD)
    (h0 : ∀ i : S16384.Idx, BitVec.toNat ((m ((d.tc : Thread nD τ).loc main_arg0) : IVec S16384 32) i) < 100000)
    (h4 : ∀ i : S16384.Idx, BitVec.toNat ((m ((d.tc : Thread nD τ).loc main_arg4) : IVec S16384 32) i) < 100000)
    (h1 : ∀ i : S16384.Idx, BitVec.toNat ((m ((d.tc : Thread nD τ).loc main_arg1) : IVec S16384 32) i) < 4)
    (h2 : ∀ i : S16384.Idx, BitVec.toNat ((m ((d.tc : Thread nD τ).loc main_arg2) : IVec S16384 32) i) < 8)
    (h3 : ∀ i : S16384.Idx, BitVec.toNat ((m ((d.tc : Thread nD τ).loc main_arg3) : IVec S16384 32) i) < 32) :
    let V := after opsA (launchContents m d)
    (∀ j : S49152.Idx, (j 0).val < 32768 → BitVec.toNat ((V (Proc.devRef .tc main_v6) : IVec S49152 32) j) < 100000)
    ∧ (∀ j : S49152.Idx, 32768 ≤ (j 0).val → BitVec.toNat ((V (Proc.devRef .tc main_v6) : IVec S49152 32) j) < 1024) := by
  intro V
  have e : (V (Proc.devRef .tc main_v6) : IVec S49152 32)
      = idxTerm (m ((d.tc : Thread nD τ).loc main_arg0) : IVec S16384 32) (m ((d.tc : Thread nD τ).loc main_arg4) : IVec S16384 32) (m ((d.tc : Thread nD τ).loc main_arg1) : IVec S16384 32) (m ((d.tc : Thread nD τ).loc main_arg2) : IVec S16384 32) (m ((d.tc : Thread nD τ).loc main_arg3) : IVec S16384 32) := after_opsA_v6 (launchContents m d)
  rw [e]
  exact idxTerm_bounds _ _ _ _ _ h0 h4 h1 h2 h3

/-- The precondition gives the five ranges. -/
theorem bounds_of_pre [Cert.Pre_input_domain.Facts] (m : (ℓ : Loc nD τ sig) → Buf (Elt Ideal) ℓ) (h : Cert.Pre_KernelIdeal m) (d : Dev nD) :
    (∀ i : S16384.Idx, BitVec.toNat ((m ((d.tc : Thread nD τ).loc main_arg0) : IVec S16384 32) i) < 100000)
    ∧ (∀ i : S16384.Idx, BitVec.toNat ((m ((d.tc : Thread nD τ).loc main_arg4) : IVec S16384 32) i) < 100000)
    ∧ (∀ i : S16384.Idx, BitVec.toNat ((m ((d.tc : Thread nD τ).loc main_arg1) : IVec S16384 32) i) < 4)
    ∧ (∀ i : S16384.Idx, BitVec.toNat ((m ((d.tc : Thread nD τ).loc main_arg2) : IVec S16384 32) i) < 8)
    ∧ (∀ i : S16384.Idx, BitVec.toNat ((m ((d.tc : Thread nD τ).loc main_arg3) : IVec S16384 32) i) < 32) := by
  have e := congrFun (h d) (fun a => a.elim0)
  unfold Cert.Pre_input_domain.fn Cert.Pre_input_domain.fn_part1 Cert.Pre_input_domain.fn_part2 Cert.Pre_input_domain.fn_part3
    Cert.Pre_input_domain.fn_part4 Cert.Pre_input_domain.fn_part5 Cert.Pre_input_domain.fn_part6 Cert.Pre_input_domain.fn_part7
    Cert.Pre_input_domain.fn_part8 at e
  obtain ⟨-, h153, h1, h2, h3, h4⟩ := part9_ranges _ _ _ _ _ _ _ e
  refine ⟨fun i => ?_, fun i => Nat.lt_succ_of_le (h4 i), fun i => Nat.lt_succ_of_le (h1 i), fun i => Nat.lt_succ_of_le (h2 i),
    fun i => Nat.lt_succ_of_le (h3 i)⟩
  have e0 := h153 i
  simp only [andi, cmpi, broadcastInDim, constantI] at e0
  exact Nat.lt_succ_of_le (range_le_99999 _ e0)

/-- After the first line, under the precondition, the index list is in range. -/
theorem idx_ok_of_pre [Cert.Pre_input_domain.Facts] (m : (ℓ : Loc nD τ sig) → Buf (Elt Ideal) ℓ) (h : Cert.Pre_KernelIdeal m) (d : Dev nD) :
    let V := after (opsA (F := Ideal)) (launchContents m d)
    (∀ j : S49152.Idx, (j 0).val < 32768 → BitVec.toNat ((V (Proc.devRef .tc main_v6) : IVec S49152 32) j) < 100000)
    ∧ (∀ j : S49152.Idx, 32768 ≤ (j 0).val → BitVec.toNat ((V (Proc.devRef .tc main_v6) : IVec S49152 32) j) < 1024) :=
  have b := bounds_of_pre m h d
  idx_ok m d b.1 b.2.1 b.2.2.1 b.2.2.2.1 b.2.2.2.2

end Cert.KernelIdeal.MainShape

end
-- ==== Proof.ScCallIdeal.lean ====
import proofs.«214388_g48842368090541_cont_8to1c4_19_37_alg».proof.Proof.GatherSplitIdeal
import proofs.«214388_g48842368090541_cont_8to1c4_19_37_alg».proof.Proof.MainShapeIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The certificate's ghost state: the handshakes' rounds, the pipelines' rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) :=
  (Emb.inl : Emb (UR sig nD τ) (UR sig nD τ × Counters)).trans embR

instance EP_landsIn : (EP (F := F)).LandsIn (upEmb : UEmb _ 𝕄) := by unfold EP embR; infer_instance
instance EC_landsIn : (countersEmb : UEmb Counters 𝕄).LandsIn (upEmb : UEmb _ 𝕄) := by unfold countersEmb; infer_instance

/-! ## The buffers the SparseCore call takes and gives back -/

abbrev scRefs : Finset (DevRef τ sig) :=
  {Proc.devRef .tc main_v6, Proc.devRef .tc main_v7, Proc.devRef .tc main_v35, Proc.devRef .tc main_v36_0, Proc.devRef .tc main_v36_1, Proc.devRef .tc main_v36_2}

theorem scRefs_sub : scRefs ⊆ Pipeline.ucRefs τ sig := by decide

theorem held_sc (d : Dev nD) (V : Valuation τ sig (Elt F)) :
    (StableHlo.held (T d) scRefs V : sProp 𝕄)
      = iprop((idxLoc d ↦{fullShare} V (Proc.devRef .tc main_v6)) ∗ (bigLoc d ↦{fullShare} V (Proc.devRef .tc main_v7))
        ∗ (comboLoc d ↦{fullShare} V (Proc.devRef .tc main_v35)) ∗ (uoLoc d ↦{fullShare} V (Proc.devRef .tc main_v36_0))
        ∗ (moLoc d ↦{fullShare} V (Proc.devRef .tc main_v36_1)) ∗ (coLoc d ↦{fullShare} V (Proc.devRef .tc main_v36_2))) := by
  unfold StableHlo.held scRefs
  rw [SparseCore.bigSep_insert' (by decide), SparseCore.bigSep_insert' (by decide), SparseCore.bigSep_insert' (by decide),
    SparseCore.bigSep_insert' (by decide), SparseCore.bigSep_insert' (by decide), bigSep_singleton]

/-- The contents after the call: the three results at what the tasks wrote, everything else as before. -/
def scAfter (V : Valuation τ sig (Elt F)) (d : Dev nD) (fu : Buf (Elt F) (uoLoc d)) (fm : Buf (Elt F) (moLoc d)) (fco : Buf (Elt F) (coLoc d)) :
    Valuation τ sig (Elt F) :=
  Function.update (Function.update (Function.update V (Proc.devRef .tc main_v36_0) fu) (Proc.devRef .tc main_v36_1) fm) (Proc.devRef .tc main_v36_2) fco

theorem scAfter_of_ne (V : Valuation τ sig (Elt F)) (d : Dev nD) (fu fm fco) (b : DevRef τ sig)
    (h0 : b ≠ Proc.devRef .tc main_v36_0) (h1 : b ≠ Proc.devRef .tc main_v36_1) (h2 : b ≠ Proc.devRef .tc main_v36_2) :
    scAfter V d fu fm fco b = V b := by
  unfold scAfter
  rw [Function.update_of_ne h2, Function.update_of_ne h1, Function.update_of_ne h0]
theorem scAfter_uo (V : Valuation τ sig (Elt F)) (d : Dev nD) (fu fm fco) : scAfter V d fu fm fco (Proc.devRef .tc main_v36_0) = fu := by
  unfold scAfter
  rw [Function.update_of_ne (by decide), Function.update_of_ne (by decide), Function.update_self]
theorem scAfter_mo (V : Valuation τ sig (Elt F)) (d : Dev nD) (fu fm fco) : scAfter V d fu fm fco (Proc.devRef .tc main_v36_1) = fm := by
  unfold scAfter
  rw [Function.update_of_ne (by decide), Function.update_self]
theorem scAfter_co (V : Valuation τ sig (Elt F)) (d : Dev nD) (fu fm fco) : scAfter V d fu fm fco (Proc.devRef .tc main_v36_2) = fco := by
  unfold scAfter
  rw [Function.update_self]

section Main
variable [FloatOps F] [∀ e, Nonempty (Elt F e)]
variable (m : (ℓ : Loc nD τ sig) → Buf (Elt F) ℓ) (ρ : Dev nD → PrngReg)

open Cert.KernelIdeal.MainShape

/-- The buffers' contents when the SparseCore call is made: the launch contents run through the first stretch of host lines. -/
abbrev VA (d : Dev nD) : Valuation τ sig (Elt F) := StableHlo.after (opsA (F := F)) (StableHlo.launchContents m d)
abbrev fiOf (d : Dev nD) : Buf (Elt F) (idxLoc d) := VA m d (Proc.devRef .tc main_v6)
abbrev fbOf (d : Dev nD) : Buf (Elt F) (bigLoc d) := VA m d (Proc.devRef .tc main_v7)
abbrev fcOf (d : Dev nD) : Buf (Elt F) (comboLoc d) := VA m d (Proc.devRef .tc main_v35)
abbrev PP : (K (F := F)).Pay (nD := nD) (Val := Elt F) (Name := ℕ) (U := UU) := P (UU := UU) (fiOf m) (fbOf m) (fcOf m)

/-- The SparseCore call on the TensorCore of `d`: it takes the index list, the two tables and the three results out of the
    unscoped buffers, and brings them back, the results at what the tasks wrote. -/
theorem sc_step (κ : GSem nD τ sig → ℕ) (d : Dev nD) {Φ : PUnit → sProp 𝕄} :
    iprop((K (F := F)).ctx EH (PP m) κ ∗ (K (F := F)).tcSt EH d 0 ∗ StableHlo.held (T d) (Pipeline.ucRefs τ sig) (VA m d)
        ∗ (∀ fu fm fco, ((K (F := F)).tcSt EH d 1 ∗ StableHlo.held (T d) (Pipeline.ucRefs τ sig) (scAfter (VA m d) d fu fm fco)) -∗ Φ ⟨⟩))
      ⊢ wp frame (wpE ((K (F := F)).defs (D (F := F))) 𝒱 (T d) none) Set.univ ((K (F := F)).run d 0) Φ := by
  iintro ⟨#Hctx, Hst, Hh, Hk⟩
  ihave Hs := (Entails.of_eq (StableHlo.held_sub_split (T d) scRefs_sub (VA m d))) $$ Hh
  icases Hs with ⟨H6, Hrest⟩
  ihave H6' := (Entails.of_eq (held_sc d (VA m d))) $$ H6
  icases H6' with ⟨Hi, Hb, Hc, Hu, Hm, Hco⟩
  iapply ((K (F := F)).wp_run (D (F := F)) 𝒱 (EH := EH) (P := PP m) κ d 0) $$ [Hst Hi Hb Hc Hu Hm Hco Hrest Hk]
  isplitr; · iexact Hctx
  isplitl [Hst]; · iexact Hst
  isplitl [Hi Hb Hc Hu Hm Hco]
  · iapply (toTasks (UU := UU) (fiOf m) (fbOf m) (fcOf m) d)
    isplitl [Hi]; · iexact Hi
    isplitl [Hb]; · iexact Hb
    isplitl [Hc]; · iexact Hc
    isplitl [Hu]; · iexists _; iexact Hu
    isplitl [Hm]; · iexists _; iexact Hm
    iexists _; iexact Hco
  iintro ⟨Hst, Hdn⟩
  ihave Hw := (fromTasks (UU := UU) (fiOf m) (fbOf m) (fcOf m) d) $$ Hdn
  icases Hw with ⟨Hi, Hb, Hc, ⟨%fu, Hu⟩, ⟨%fm, Hm⟩, ⟨%fco, Hco⟩⟩
  ispecialize Hk $$ %fu %fm %fco
  iapply Hk
  isplitl [Hst]; · iexact Hst
  iapply (Entails.of_eq (StableHlo.held_sub_split (T d) scRefs_sub (scAfter (VA m d) d fu fm fco)).symm)
  isplitl [Hi Hb Hc Hu Hm Hco]
  · iapply (Entails.of_eq (held_sc d (scAfter (VA m d) d fu fm fco)).symm)
    rw [scAfter_uo, scAfter_mo, scAfter_co, scAfter_of_ne _ _ _ _ _ (Proc.devRef .tc main_v6) (by decide) (by decide) (by decide),
      scAfter_of_ne _ _ _ _ _ (Proc.devRef .tc main_v7) (by decide) (by decide) (by decide),
      scAfter_of_ne _ _ _ _ _ (Proc.devRef .tc main_v35) (by decide) (by decide) (by decide)]
    isplitl [Hi]; · iexact Hi
    isplitl [Hb]; · iexact Hb
    isplitl [Hc]; · iexact Hc
    isplitl [Hu]; · iexact Hu
    isplitl [Hm]; · iexact Hm
    iexact Hco
  · iapply (Entails.of_eq (StableHlo.held_congr (T d) (fun b hb => (scAfter_of_ne (VA m d) d fu fm fco b
      (fun e => (Finset.mem_sdiff.mp hb).2 (e ▸ (by decide : Proc.devRef .tc main_v36_0 ∈ (scRefs : Finset (DevRef τ sig)))))
      (fun e => (Finset.mem_sdiff.mp hb).2 (e ▸ (by decide : Proc.devRef .tc main_v36_1 ∈ (scRefs : Finset (DevRef τ sig)))))
      (fun e => (Finset.mem_sdiff.mp hb).2 (e ▸ (by decide : Proc.devRef .tc main_v36_2 ∈ (scRefs : Finset (DevRef τ sig)))))).symm)))
    iexact Hrest

end Main

end Cert.Proof.KernelIdealSc
end
-- ==== Proof.RegionDataIdeal.lean ====
import proofs.«214388_g48842368090541_cont_8to1c4_19_37_alg».proof.Proof.Gen.KernelIdeal.Launch

noncomputable section

namespace Cert.KernelIdeal

open Idealize.ShloMosaic Idealize.ShloMosaic.TcCoe
open Idealize.SL Idealize.SL.RA Idealize.SL.BI
open scoped Idealize.SL.BI
open Idealize.SL.BI.BIBase Idealize.SL.Sem

variable {F : FTy → Type}
variable {Ix : Type} [DecidableEq Ix] {Name : Type} [DecidableEq Name] {U : Type} [URA U] {Lvl : Type}

/-- The admissible contents of each pipeline's prefetched tables: none of the four pipelines prefetches a table, so
    the one admissible contents is the empty one, and the pipeline at it is the printed configuration again. -/
abbrev adm0 : (p : Fin 4) → (pcfgs (F := F) p).Adm := fun p => (cfgs p).toPCfg_adm

/-- Pipeline `p` at its admissible contents: the configuration the region rule is stated over. -/
abbrev pcfg (p : Fin 4) : Pipeline.Cfg sig Λ₀ := Pipeline.pin (pcfgs (F := F)) adm0 p

/-- It is the printed configuration. -/
theorem pcfg_eq (p : Fin 4) : pcfg (F := F) p = cfgs p := rfl

/-- Relational proof data that say nothing of any value: the windows' arrays at entry contents `A`; of what the body
    leaves in a staging buffer, nothing (the relation that always holds); the invariant between points the scoped
    buffers no window stages, at some contents, and the generator register at some state; nothing owed; every input
    array held at the full share; and the (own cell, index) pairs the core's waits have recorded bounded, at every
    point, by the one set `B`. -/
def rdOf (p : Fin 4) (c : Dev nD)
    (A : (w : Fin (pcfg (F := F) p).W) → Buf (Elt F) (((pcfg (F := F) p).win w).arr.view.loc (c.tc : Thread nD τ)))
    (B : Set (SemLoc sig × Ix)) :
    Pipeline.RDat τ (Elt F) Ix Name U Lvl (pcfg (F := F) p) c where
  A := A
  after := fun _ _ _ _ => True
  Φ := fun _ => iprop(Pipeline.scopedRest (pcfg (F := F) p).spec c ∗ ∃ r, prngReg c r)
  q := fun _ => fullShare
  owed := fun _ => 0
  recorded := fun _ => B

/-- The bound for a thread whose recorded pairs are `W` when the region is entered, over indices `Option _`: the
    pairs of `W` and every pair at the index `none` (the index the pipeline's own waits are recorded at). -/
abbrev recOf {J : Type} (W : Waits sig (Option J)) : Set (SemLoc sig × Option J) := {p | p ∈ W ∨ p.2 = none}

@[simp] theorem rdOf_A (p : Fin 4) (c : Dev nD) (A) (B) : (rdOf (Ix := Ix) (Name := Name) (U := U) (Lvl := Lvl) (F := F) p c A B).A = A := rfl
@[simp] theorem rdOf_owed (p : Fin 4) (c : Dev nD) (A) (B) (t) : (rdOf (Ix := Ix) (Name := Name) (U := U) (Lvl := Lvl) (F := F) p c A B).owed t = 0 := rfl
@[simp] theorem rdOf_recorded (p : Fin 4) (c : Dev nD) (A) (B) (t) : (rdOf (Ix := Ix) (Name := Name) (U := U) (Lvl := Lvl) (F := F) p c A B).recorded t = B := rfl
theorem rdOf_share (p : Fin 4) (c : Dev nD) (A) (B) (w) : (rdOf (Ix := Ix) (Name := Name) (U := U) (Lvl := Lvl) (F := F) p c A B).share w = fullShare := by
  unfold Pipeline.RDat.share; split <;> rfl
theorem rdOf_Φ (p : Fin 4) (c : Dev nD) (A) (B) (t) : (rdOf (Ix := Ix) (Name := Name) (U := U) (Lvl := Lvl) (F := F) p c A B).Φ t
    = iprop(Pipeline.scopedRest (pcfg (F := F) p).spec c ∗ ∃ r, prngReg c r) := rfl
/-- The bound at any point: the recorded set and the loop's own wait pairs at the index `ι`. -/
theorem rdOf_bound (p : Fin 4) (c : Dev nD) (A) (B) (ι : Ix) (t) : (rdOf (Ix := Ix) (Name := Name) (U := U) (Lvl := Lvl) (F := F) p c A B).bound ι t
    = B ∪ (pcfg (F := F) p).waitPairs ι := rfl

end Cert.KernelIdeal

end
-- ==== Proof.LaunchElemIdeal.lean ====
/-
  The launch element of the certificate's ghost state. The user component of the machine's algebra is a pair: the rounds
  of the SparseCore call's handshakes on the left; on the right, the rounds of the four TensorCore pipelines' staging
  cells beside the transfers' counters. At launch the whole element splits along these products: the handshakes' half is
  kept as it is; the pipelines' half funds, per device and per pipeline, the staging cells' ghost state and the loops'
  duty tokens; the counters' unit is dropped. The payload's per-thread family is `emp` throughout.
-/
import proofs.«214388_g48842368090541_cont_8to1c4_19_37_alg».proof.Proof.ScCallIdeal
import proofs.«214388_g48842368090541_cont_8to1c4_19_37_alg».proof.Proof.RegionDataIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The pipelines' staging cells -/

/-- The staging cells of the four pipelines at their admissible contents are pairwise distinct: the pipelines there are
    the printed configurations, whose cells are. -/
theorem hinj : Function.Injective (Pipeline.cellOf (nD := nD) (τ := τ) (Pipeline.pin (pcfgs (F := F)) adm0)) := cellOf_inj

/-- The four pipelines' staging cells' launch ghost state on device `d`: per pipeline, its cells' round states, positions
    and round-0 witnesses, and its loop's duty tokens. -/
def G (d : Dev nD) : sProp 𝕄 :=
  bigSep (Finset.univ : Finset (Fin 4)) fun p =>
    iprop(Pipeline.cellsGhost (Pipeline.pin (pcfgs (F := F)) adm0) EP p d ∗ Pipeline.toksInit (Pipeline.pin (pcfgs (F := F)) adm0) EP p d)

/-- The launch element: the handshakes' rounds at their cells and tokens, the pipelines' rounds at theirs, and the unit of
    the counters. -/
def u₀ : UU :=
  (initOf (K (F := F)).hsCells (K (F := F)).hsToks,
    (initOf (Pipeline.cells (Pipeline.pin (pcfgs (F := F)) adm0) hinj) (Pipeline.launchToks (Pipeline.pin (pcfgs (F := F)) adm0) hinj), (1 : Counters)))

/-- A family of `emp`s is `emp`. -/
theorem bigSep_emp' {I : Type} (s : Finset I) : (bigSep s fun _ => iprop(emp)) = (iprop(emp) : sProp 𝕄) := bigSep_emp_const s

section Main
variable [FloatOps F] [∀ e, Nonempty (Elt F e)]
variable (m : (ℓ : Loc nD τ sig) → Buf (Elt F) ℓ)

/-- From the launch element (the payload's credit and the free counters are not needed): the handshakes' element as the
    SparseCore launch wants it, every device's share of the pipelines' ghost state, and the payload's per-thread family,
    which is `emp`. The element splits along its two products; the pipelines' half funds the cells' ghost state and the
    duty tokens, each a family over devices and pipelines, which are then regrouped per device. -/
theorem hu₀ : iprop(ownU (u₀ (F := F)) ∗ (PP m).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PP m).x q thr) := by
  unfold u₀
  iintro ⟨Hu, -, -⟩
  ihave H := (ownU_pair (initOf (K (F := F)).hsCells (K (F := F)).hsToks)
    (initOf (Pipeline.cells (Pipeline.pin (pcfgs (F := F)) adm0) hinj) (Pipeline.launchToks (Pipeline.pin (pcfgs (F := F)) adm0) hinj), (1 : Counters))) $$ Hu
  icases H with ⟨HH, HR⟩
  ihave H2 := (own_pair_emb embR
    (initOf (Pipeline.cells (Pipeline.pin (pcfgs (F := F)) adm0) hinj) (Pipeline.launchToks (Pipeline.pin (pcfgs (F := F)) adm0) hinj)) (1 : Counters)) $$ HR
  icases H2 with ⟨HP, -⟩
  imod (Pipeline.fund_ghost (Pipeline.pin (pcfgs (F := F)) adm0) EP hinj) $$ HP with ⟨Hg, Ht⟩
  imodintro
  isplitl [HH]; · iexact HH
  isplitl [Hg Ht]
  · unfold G
    simp only [bigSep_sep']
    isplitl [Hg]; · iexact Hg
    iexact Ht
  rw [show (bigSep Finset.univ fun thr : Thread nD τ => bigSep Finset.univ fun q : Fin 1 => (PP (F := F) m).x q thr)
      = bigSep Finset.univ fun _ => iprop(emp) from bigSep_congr fun _ _ => bigSep_univ_of_subsingleton (0 : Fin 1), bigSep_emp' (F := F)]
  iempintro

end Main

end Cert.Proof.KernelIdealSc
end
-- ==== Proof.MainKeepIdeal.lean ====
/-
  What the kernel program's host lines leave alone, and the end of its frame. The 35 argument arrays are written by
  no operation of the six lines, by the SparseCore call's three results or by any output window of the four kernel
  launches; they are unscoped TensorCore buffers. So a valuation of the unscoped buffers that agrees with the launch
  contents on the arguments, held whole beside the state interpretation, pins the physical memory of every argument
  array at its launch contents: the frame's post.
-/
import proofs.«214388_g48842368090541_cont_8to1c4_19_37_alg».proof.Proof.MainShapeIdeal
import Idealize.ShloMosaic.Lib.Pipeline.Frame
import Idealize.ShloMosaic.Lib.Pipeline.Launch

noncomputable section

namespace Cert.KernelIdeal.MainShape

open Cert.KernelIdeal Cert.KernelIdeal.Gen Idealize.ShloMosaic Idealize.ShloMosaic.TcCoe Idealize.SL.Sem Idealize.ShloMosaic.StableHlo

variable {F : FTy → Type} [FloatOps F]

/-! ## The argument arrays -/

/-- The 35 argument arrays, as TensorCore references. -/
abbrev argList : List (Ref sig .tc) :=
  [main_arg0, main_arg1, main_arg2, main_arg3, main_arg4, main_arg5, main_arg6, main_arg7, main_arg8,
    main_arg9, main_arg10, main_arg11, main_arg12, main_arg13, main_arg14, main_arg15, main_arg16, main_arg17,
    main_arg18, main_arg19, main_arg20, main_arg21, main_arg22, main_arg23, main_arg24, main_arg25, main_arg26,
    main_arg27, main_arg28, main_arg29, main_arg30, main_arg31, main_arg32, main_arg33, main_arg34]

/-- The 35 argument arrays, as device buffers. -/
def argRefs : Finset (DevRef τ sig) := (argList.map (Proc.devRef (τ := τ) .tc)).toFinset

theorem mem_argRefs {b : DevRef τ sig} : b ∈ argRefs ↔ ∃ r ∈ argList, Proc.devRef (τ := τ) .tc r = b := by
  unfold argRefs
  rw [List.mem_toFinset, List.mem_map]

theorem devRef_mem_argRefs {r : Ref sig .tc} (h : r ∈ argList) : Proc.devRef (τ := τ) .tc r ∈ argRefs :=
  mem_argRefs.mpr ⟨r, h, rfl⟩

/-- A reference that is no argument is no argument as a device buffer either (references embed injectively). -/
theorem devRef_not_mem_argRefs {r : Ref sig .tc} (h : r ∉ argList) : Proc.devRef (τ := τ) .tc r ∉ argRefs := fun hb => by
  obtain ⟨r', hr', e⟩ := mem_argRefs.mp hb
  exact h (Proc.devRef_injective _ e ▸ hr')

/-- The arguments are unscoped TensorCore buffers. -/
theorem argRefs_sub : argRefs ⊆ Pipeline.ucRefs τ sig := fun b hb => by
  obtain ⟨r, hr, rfl⟩ := mem_argRefs.mp hb
  have hs : ∀ r ∈ argList, (Proc.devRef (τ := τ) .tc r : DevRef τ sig).isScoped = false := by decide
  exact Finset.mem_filter.mpr ⟨devRef_mem_tcRefs r, by rw [hs r hr]; exact Bool.false_ne_true⟩

/-! ## What each line leaves alone

Every operation writes one buffer; a buffer outside a line's written list keeps its contents through the line. -/

/-- The buffers the operations of `lA_0` write. -/
abbrev lA_0_W : List (Ref sig .tc) := [main_c, main_v0, main_v1, main_c_0, main_v2, main_v3, main_v4, main_v5, main_v6, main_v7, main_v8, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v9, main_c_2, main_v10, main_v11, main_c_3, main_v12, main_v13, main_v14, main_v15, main_v16, main_c_4, main_call1_v0, main_call1_v1]
set_option maxRecDepth 8192 in
theorem lA_0_writes : (lA_0 : List (HloOp τ sig (Elt F))).Forall fun op => op.writes ⊆ (lA_0_W.map (Proc.devRef (τ := τ) .tc)).toFinset :=
  ⟨writes_sub_of_mem main_c rfl (by decide), writes_sub_of_mem main_v0 rfl (by decide), writes_sub_of_mem main_v1 rfl (by decide),
    writes_sub_of_mem main_c_0 rfl (by decide), writes_sub_of_mem main_v2 rfl (by decide), writes_sub_of_mem main_v3 rfl (by decide),
    writes_sub_of_mem main_v4 rfl (by decide), writes_sub_of_mem main_v5 rfl (by decide), writes_sub_of_mem main_v6 rfl (by decide),
    writes_sub_of_mem main_v7 rfl (by decide), writes_sub_of_mem main_v8 rfl (by decide), writes_sub_of_mem main_c_1 rfl (by decide),
    writes_sub_of_mem main_call0_v0 rfl (by decide), writes_sub_of_mem main_call0_v1 rfl (by decide), writes_sub_of_mem main_call0_v2 rfl (by decide),
    writes_sub_of_mem main_call0_v3 rfl (by decide), writes_sub_of_mem main_call0_v4 rfl (by decide), writes_sub_of_mem main_call0_v5 rfl (by decide),
    writes_sub_of_mem main_call0_v6 rfl (by decide), writes_sub_of_mem main_call0_v7 rfl (by decide), writes_sub_of_mem main_call0_v8 rfl (by decide),
    writes_sub_of_mem main_call0_c rfl (by decide), writes_sub_of_mem main_call0_v9 rfl (by decide), writes_sub_of_mem main_call0_v10 rfl (by decide),
    writes_sub_of_mem main_call0_v11 rfl (by decide), writes_sub_of_mem main_call0_c_0 rfl (by decide), writes_sub_of_mem main_call0_v12 rfl (by decide),
    writes_sub_of_mem main_call0_v13 rfl (by decide), writes_sub_of_mem main_v9 rfl (by decide), writes_sub_of_mem main_c_2 rfl (by decide),
    writes_sub_of_mem main_v10 rfl (by decide), writes_sub_of_mem main_v11 rfl (by decide), writes_sub_of_mem main_c_3 rfl (by decide),
    writes_sub_of_mem main_v12 rfl (by decide), writes_sub_of_mem main_v13 rfl (by decide), writes_sub_of_mem main_v14 rfl (by decide),
    writes_sub_of_mem main_v15 rfl (by decide), writes_sub_of_mem main_v16 rfl (by decide), writes_sub_of_mem main_c_4 rfl (by decide),
    writes_sub_of_mem main_call1_v0 rfl (by decide), writes_sub_of_mem main_call1_v1 rfl (by decide)⟩
/-- The buffers the operations of `lB0` write. -/
abbrev lB0_W : List (Ref sig .tc) := [main_v37, main_v38, main_v39, main_v40, main_v41, main_v42, main_c_11, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v43, main_v44, main_v45]
set_option maxRecDepth 8192 in
theorem lB0_writes : (lB0 : List (HloOp τ sig (Elt F))).Forall fun op => op.writes ⊆ (lB0_W.map (Proc.devRef (τ := τ) .tc)).toFinset :=
  ⟨writes_sub_of_mem main_v37 rfl (by decide), writes_sub_of_mem main_v38 rfl (by decide), writes_sub_of_mem main_v39 rfl (by decide),
    writes_sub_of_mem main_v40 rfl (by decide), writes_sub_of_mem main_v41 rfl (by decide), writes_sub_of_mem main_v42 rfl (by decide),
    writes_sub_of_mem main_c_11 rfl (by decide), writes_sub_of_mem main_call4_v0 rfl (by decide), writes_sub_of_mem main_call4_v1 rfl (by decide),
    writes_sub_of_mem main_call4_v2 rfl (by decide), writes_sub_of_mem main_call4_v3 rfl (by decide), writes_sub_of_mem main_call4_v4 rfl (by decide),
    writes_sub_of_mem main_call4_v5 rfl (by decide), writes_sub_of_mem main_call4_v6 rfl (by decide), writes_sub_of_mem main_call4_v7 rfl (by decide),
    writes_sub_of_mem main_call4_v8 rfl (by decide), writes_sub_of_mem main_call4_c rfl (by decide), writes_sub_of_mem main_call4_v9 rfl (by decide),
    writes_sub_of_mem main_call4_v10 rfl (by decide), writes_sub_of_mem main_call4_v11 rfl (by decide), writes_sub_of_mem main_call4_c_0 rfl (by decide),
    writes_sub_of_mem main_call4_v12 rfl (by decide), writes_sub_of_mem main_call4_v13 rfl (by decide), writes_sub_of_mem main_v43 rfl (by decide),
    writes_sub_of_mem main_v44 rfl (by decide), writes_sub_of_mem main_v45 rfl (by decide)⟩
/-- The buffers the operations of `lB1_0` write. -/
abbrev lB1_0_W : List (Ref sig .tc) := [main_v46, main_v47, main_c_12, main_call5_v0, main_v48, main_v49, main_c_13, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v50, main_v51, main_v52, main_v53, main_v54, main_v55, main_v56, main_c_14, main_call7_v0, main_v57]
set_option maxRecDepth 8192 in
theorem lB1_0_writes : (lB1_0 : List (HloOp τ sig (Elt F))).Forall fun op => op.writes ⊆ (lB1_0_W.map (Proc.devRef (τ := τ) .tc)).toFinset :=
  ⟨writes_sub_of_mem main_v46 rfl (by decide), writes_sub_of_mem main_v47 rfl (by decide), writes_sub_of_mem main_c_12 rfl (by decide),
    writes_sub_of_mem main_call5_v0 rfl (by decide), writes_sub_of_mem main_v48 rfl (by decide), writes_sub_of_mem main_v49 rfl (by decide),
    writes_sub_of_mem main_c_13 rfl (by decide), writes_sub_of_mem main_call6_v0 rfl (by decide), writes_sub_of_mem main_call6_c rfl (by decide),
    writes_sub_of_mem main_call6_v1 rfl (by decide), writes_sub_of_mem main_call6_c_0 rfl (by decide), writes_sub_of_mem main_call6_v2 rfl (by decide),
    writes_sub_of_mem main_call6_v3 rfl (by decide), writes_sub_of_mem main_call6_v4 rfl (by decide), writes_sub_of_mem main_call6_c_1 rfl (by decide),
    writes_sub_of_mem main_call6_v5 rfl (by decide), writes_sub_of_mem main_call6_v6 rfl (by decide), writes_sub_of_mem main_call6_c_2 rfl (by decide),
    writes_sub_of_mem main_call6_v7 rfl (by decide), writes_sub_of_mem main_call6_v8 rfl (by decide), writes_sub_of_mem main_call6_c_3 rfl (by decide),
    writes_sub_of_mem main_call6_v9 rfl (by decide), writes_sub_of_mem main_call6_v10 rfl (by decide), writes_sub_of_mem main_call6_v11 rfl (by decide),
    writes_sub_of_mem main_call6_v12 rfl (by decide), writes_sub_of_mem main_call6_v13 rfl (by decide), writes_sub_of_mem main_call6_v14 rfl (by decide),
    writes_sub_of_mem main_v50 rfl (by decide), writes_sub_of_mem main_v51 rfl (by decide), writes_sub_of_mem main_v52 rfl (by decide),
    writes_sub_of_mem main_v53 rfl (by decide), writes_sub_of_mem main_v54 rfl (by decide), writes_sub_of_mem main_v55 rfl (by decide),
    writes_sub_of_mem main_v56 rfl (by decide), writes_sub_of_mem main_c_14 rfl (by decide), writes_sub_of_mem main_call7_v0 rfl (by decide),
    writes_sub_of_mem main_v57 rfl (by decide)⟩
/-- The buffers the operations of `lB1_1` write. -/
abbrev lB1_1_W : List (Ref sig .tc) := [main_c_15, main_call8_v0, main_v58, main_v59, main_c_16, main_call9_v0, main_v60, main_v61, main_c_17, main_call10_v0, main_v62, main_v63, main_v64, main_v65, main_v66, main_v67, main_v68, main_v69, main_v70, main_cst_18, main_v71, main_v72, main_v73, main_v74, main_v75, main_v76, main_v77, main_v78, main_v79, main_v80, main_v81, main_cst_19, main_v82, main_v83, main_v84, main_v85, main_v86]
set_option maxRecDepth 8192 in
theorem lB1_1_writes : (lB1_1 : List (HloOp τ sig (Elt F))).Forall fun op => op.writes ⊆ (lB1_1_W.map (Proc.devRef (τ := τ) .tc)).toFinset :=
  ⟨writes_sub_of_mem main_c_15 rfl (by decide), writes_sub_of_mem main_call8_v0 rfl (by decide), writes_sub_of_mem main_v58 rfl (by decide),
    writes_sub_of_mem main_v59 rfl (by decide), writes_sub_of_mem main_c_16 rfl (by decide), writes_sub_of_mem main_call9_v0 rfl (by decide),
    writes_sub_of_mem main_v60 rfl (by decide), writes_sub_of_mem main_v61 rfl (by decide), writes_sub_of_mem main_c_17 rfl (by decide),
    writes_sub_of_mem main_call10_v0 rfl (by decide), writes_sub_of_mem main_v62 rfl (by decide), writes_sub_of_mem main_v63 rfl (by decide),
    writes_sub_of_mem main_v64 rfl (by decide), writes_sub_of_mem main_v65 rfl (by decide), writes_sub_of_mem main_v66 rfl (by decide),
    writes_sub_of_mem main_v67 rfl (by decide), writes_sub_of_mem main_v68 rfl (by decide), writes_sub_of_mem main_v69 rfl (by decide),
    writes_sub_of_mem main_v70 rfl (by decide), writes_sub_of_mem main_cst_18 rfl (by decide), writes_sub_of_mem main_v71 rfl (by decide),
    writes_sub_of_mem main_v72 rfl (by decide), writes_sub_of_mem main_v73 rfl (by decide), writes_sub_of_mem main_v74 rfl (by decide),
    writes_sub_of_mem main_v75 rfl (by decide), writes_sub_of_mem main_v76 rfl (by decide), writes_sub_of_mem main_v77 rfl (by decide),
    writes_sub_of_mem main_v78 rfl (by decide), writes_sub_of_mem main_v79 rfl (by decide), writes_sub_of_mem main_v80 rfl (by decide),
    writes_sub_of_mem main_v81 rfl (by decide), writes_sub_of_mem main_cst_19 rfl (by decide), writes_sub_of_mem main_v82 rfl (by decide),
    writes_sub_of_mem main_v83 rfl (by decide), writes_sub_of_mem main_v84 rfl (by decide), writes_sub_of_mem main_v85 rfl (by decide),
    writes_sub_of_mem main_v86 rfl (by decide)⟩
/-- The buffers the operations of `lC` write. -/
abbrev lC_W : List (Ref sig .tc) := [main_v88, main_v89, main_v90]
set_option maxRecDepth 8192 in
theorem lC_writes : (lC : List (HloOp τ sig (Elt F))).Forall fun op => op.writes ⊆ (lC_W.map (Proc.devRef (τ := τ) .tc)).toFinset :=
  ⟨writes_sub_of_mem main_v88 rfl (by decide), writes_sub_of_mem main_v89 rfl (by decide), writes_sub_of_mem main_v90 rfl (by decide)⟩
/-- The buffers the operations of `lD` write. -/
abbrev lD_W : List (Ref sig .tc) := [main_v92, main_v93, main_v94, main_v95]
set_option maxRecDepth 8192 in
theorem lD_writes : (lD : List (HloOp τ sig (Elt F))).Forall fun op => op.writes ⊆ (lD_W.map (Proc.devRef (τ := τ) .tc)).toFinset :=
  ⟨writes_sub_of_mem main_v92 rfl (by decide), writes_sub_of_mem main_v93 rfl (by decide), writes_sub_of_mem main_v94 rfl (by decide),
    writes_sub_of_mem main_v95 rfl (by decide)⟩
/-- The buffers the operations of `lE0` write. -/
abbrev lE0_W : List (Ref sig .tc) := [main_v97]
set_option maxRecDepth 8192 in
theorem lE0_writes : (lE0 : List (HloOp τ sig (Elt F))).Forall fun op => op.writes ⊆ (lE0_W.map (Proc.devRef (τ := τ) .tc)).toFinset :=
  writes_sub_of_mem main_v97 rfl (by decide)
/-- The buffers the operations of `lE1` write. -/
abbrev lE1_W : List (Ref sig .tc) := [main_v98, main_v99]
set_option maxRecDepth 8192 in
theorem lE1_writes : (lE1 : List (HloOp τ sig (Elt F))).Forall fun op => op.writes ⊆ (lE1_W.map (Proc.devRef (τ := τ) .tc)).toFinset :=
  ⟨writes_sub_of_mem main_v98 rfl (by decide), writes_sub_of_mem main_v99 rfl (by decide)⟩
/-- The buffers the operations of `lF` write. -/
abbrev lF_W : List (Ref sig .tc) := [main_v101]
set_option maxRecDepth 8192 in
theorem lF_writes : (lF : List (HloOp τ sig (Elt F))).Forall fun op => op.writes ⊆ (lF_W.map (Proc.devRef (τ := τ) .tc)).toFinset :=
  writes_sub_of_mem main_v101 rfl (by decide)
/-- The buffers line `opsA` writes. -/
abbrev opsA_W : List (Ref sig .tc) := lA_0_W ++ (lA_1_W ++ (lA_2_W))
theorem after_opsA_keep (V : Valuation τ sig (Elt F)) (r : Ref sig .tc) (h : r ∉ opsA_W) :
    after opsA V (Proc.devRef .tc r) = V (Proc.devRef .tc r) := by
  have h0 : r ∉ lA_0_W := fun hm => h (List.mem_append_left _ hm)
  have t0 : r ∉ lA_1_W ++ (lA_2_W) := fun hm => h (List.mem_append_right _ hm)
  have h1 : r ∉ lA_1_W := fun hm => t0 (List.mem_append_left _ hm)
  have t1 : r ∉ lA_2_W := fun hm => t0 (List.mem_append_right _ hm)
  have h2 := t1
  rw [show (opsA : List (HloOp τ sig (Elt F))) = lA_0 ++ (lA_1 ++ (lA_2)) from rfl, after_append', after_append', after_of_writes_sub lA_2 _ lA_2_writes h2,
    after_of_writes_sub lA_1 _ lA_1_writes h1,
    after_of_writes_sub lA_0 _ lA_0_writes h0]
/-- The buffers line `opsB` writes. -/
abbrev opsB_W : List (Ref sig .tc) := lB0_W ++ (lB1_0_W ++ (lB1_1_W))
theorem after_opsB_keep (V : Valuation τ sig (Elt F)) (r : Ref sig .tc) (h : r ∉ opsB_W) :
    after opsB V (Proc.devRef .tc r) = V (Proc.devRef .tc r) := by
  have h0 : r ∉ lB0_W := fun hm => h (List.mem_append_left _ hm)
  have t0 : r ∉ lB1_0_W ++ (lB1_1_W) := fun hm => h (List.mem_append_right _ hm)
  have h1 : r ∉ lB1_0_W := fun hm => t0 (List.mem_append_left _ hm)
  have t1 : r ∉ lB1_1_W := fun hm => t0 (List.mem_append_right _ hm)
  have h2 := t1
  rw [show (opsB : List (HloOp τ sig (Elt F))) = lB0 ++ (lB1_0 ++ (lB1_1)) from rfl, after_append', after_append', after_of_writes_sub lB1_1 _ lB1_1_writes h2,
    after_of_writes_sub lB1_0 _ lB1_0_writes h1,
    after_of_writes_sub lB0 _ lB0_writes h0]
/-- The buffers line `opsC` writes. -/
abbrev opsC_W : List (Ref sig .tc) := lC_W
theorem after_opsC_keep (V : Valuation τ sig (Elt F)) (r : Ref sig .tc) (h : r ∉ opsC_W) :
    after opsC V (Proc.devRef .tc r) = V (Proc.devRef .tc r) := by
  have h0 := h
  rw [after_of_writes_sub lC _ lC_writes h0]
/-- The buffers line `opsD` writes. -/
abbrev opsD_W : List (Ref sig .tc) := lD_W
theorem after_opsD_keep (V : Valuation τ sig (Elt F)) (r : Ref sig .tc) (h : r ∉ opsD_W) :
    after opsD V (Proc.devRef .tc r) = V (Proc.devRef .tc r) := by
  have h0 := h
  rw [after_of_writes_sub lD _ lD_writes h0]
/-- The buffers line `opsE` writes. -/
abbrev opsE_W : List (Ref sig .tc) := lE0_W ++ (lE1_W)
theorem after_opsE_keep (V : Valuation τ sig (Elt F)) (r : Ref sig .tc) (h : r ∉ opsE_W) :
    after opsE V (Proc.devRef .tc r) = V (Proc.devRef .tc r) := by
  have h0 : r ∉ lE0_W := fun hm => h (List.mem_append_left _ hm)
  have t0 : r ∉ lE1_W := fun hm => h (List.mem_append_right _ hm)
  have h1 := t0
  rw [show (opsE : List (HloOp τ sig (Elt F))) = lE0 ++ (lE1) from rfl, after_append', after_of_writes_sub lE1 _ lE1_writes h1,
    after_of_writes_sub lE0 _ lE0_writes h0]
/-- The buffers line `opsF` writes. -/
abbrev opsF_W : List (Ref sig .tc) := lF_W
theorem after_opsF_keep (V : Valuation τ sig (Elt F)) (r : Ref sig .tc) (h : r ∉ opsF_W) :
    after opsF V (Proc.devRef .tc r) = V (Proc.devRef .tc r) := by
  have h0 := h
  rw [after_of_writes_sub lF _ lF_writes h0]

/-! ## No line writes an argument -/

set_option maxRecDepth 8192 in
theorem args_not_in_opsA : ∀ r ∈ argList, r ∉ opsA_W := by decide
/-- Line `opsA` leaves every argument array as it found it. -/
theorem opsA_keep (V : Valuation τ sig (Elt F)) : ∀ b ∈ argRefs, after opsA V b = V b := fun b hb => by
  obtain ⟨r, hr, rfl⟩ := mem_argRefs.mp hb
  exact after_opsA_keep V r (args_not_in_opsA r hr)

set_option maxRecDepth 8192 in
theorem args_not_in_opsB : ∀ r ∈ argList, r ∉ opsB_W := by decide
/-- Line `opsB` leaves every argument array as it found it. -/
theorem opsB_keep (V : Valuation τ sig (Elt F)) : ∀ b ∈ argRefs, after opsB V b = V b := fun b hb => by
  obtain ⟨r, hr, rfl⟩ := mem_argRefs.mp hb
  exact after_opsB_keep V r (args_not_in_opsB r hr)

set_option maxRecDepth 8192 in
theorem args_not_in_opsC : ∀ r ∈ argList, r ∉ opsC_W := by decide
/-- Line `opsC` leaves every argument array as it found it. -/
theorem opsC_keep (V : Valuation τ sig (Elt F)) : ∀ b ∈ argRefs, after opsC V b = V b := fun b hb => by
  obtain ⟨r, hr, rfl⟩ := mem_argRefs.mp hb
  exact after_opsC_keep V r (args_not_in_opsC r hr)

set_option maxRecDepth 8192 in
theorem args_not_in_opsD : ∀ r ∈ argList, r ∉ opsD_W := by decide
/-- Line `opsD` leaves every argument array as it found it. -/
theorem opsD_keep (V : Valuation τ sig (Elt F)) : ∀ b ∈ argRefs, after opsD V b = V b := fun b hb => by
  obtain ⟨r, hr, rfl⟩ := mem_argRefs.mp hb
  exact after_opsD_keep V r (args_not_in_opsD r hr)

set_option maxRecDepth 8192 in
theorem args_not_in_opsE : ∀ r ∈ argList, r ∉ opsE_W := by decide
/-- Line `opsE` leaves every argument array as it found it. -/
theorem opsE_keep (V : Valuation τ sig (Elt F)) : ∀ b ∈ argRefs, after opsE V b = V b := fun b hb => by
  obtain ⟨r, hr, rfl⟩ := mem_argRefs.mp hb
  exact after_opsE_keep V r (args_not_in_opsE r hr)

set_option maxRecDepth 8192 in
theorem args_not_in_opsF : ∀ r ∈ argList, r ∉ opsF_W := by decide
/-- Line `opsF` leaves every argument array as it found it. -/
theorem opsF_keep (V : Valuation τ sig (Elt F)) : ∀ b ∈ argRefs, after opsF V b = V b := fun b hb => by
  obtain ⟨r, hr, rfl⟩ := mem_argRefs.mp hb
  exact after_opsF_keep V r (args_not_in_opsF r hr)

/-! ## Nor does the SparseCore call or a kernel launch -/

/-- The SparseCore call's three result buffers are no arguments. -/
theorem scOut_not_arg : ∀ b ∈ ({Proc.devRef .tc main_v36_0, Proc.devRef .tc main_v36_1, Proc.devRef .tc main_v36_2} : Finset (DevRef τ sig)),
    b ∉ argRefs := by
  intro b hb
  simp only [Finset.mem_insert, Finset.mem_singleton] at hb
  rcases hb with rfl | rfl | rfl <;> exact devRef_not_mem_argRefs (by decide)

set_option maxRecDepth 8192 in
/-- No output window of a kernel launch is over an argument array. -/
theorem out_not_arg : ∀ (p : Fin 4) (w : Fin (cfgs p).W), ((cfgs p).win w).isOut = true →
    Proc.devRef (τ := τ) .tc (Pipeline.arrRef (cfgs p).spec w) ∉ argRefs := by
  intro p w h
  refine devRef_not_mem_argRefs ?_
  revert w
  fin_cases p <;> decide

/-! ## The end of the frame -/

/-- On device `d` the memory holds every argument array at its launch contents: the frame's post at `d`. -/
def ArgsKept (m : (ℓ : Loc nD τ sig) → Buf (Elt F) ℓ) (d : Dev nD) (mem : MemSt nD τ sig (Elt F)) : Prop :=
  mem.mem ((d.tc : Thread nD τ).loc main_arg0) = m ((d.tc : Thread nD τ).loc main_arg0)
  ∧ mem.mem ((d.tc : Thread nD τ).loc main_arg1) = m ((d.tc : Thread nD τ).loc main_arg1)
  ∧ mem.mem ((d.tc : Thread nD τ).loc main_arg2) = m ((d.tc : Thread nD τ).loc main_arg2)
  ∧ mem.mem ((d.tc : Thread nD τ).loc main_arg3) = m ((d.tc : Thread nD τ).loc main_arg3)
  ∧ mem.mem ((d.tc : Thread nD τ).loc main_arg4) = m ((d.tc : Thread nD τ).loc main_arg4)
  ∧ mem.mem ((d.tc : Thread nD τ).loc main_arg5) = m ((d.tc : Thread nD τ).loc main_arg5)
  ∧ mem.mem ((d.tc : Thread nD τ).loc main_arg6) = m ((d.tc : Thread nD τ).loc main_arg6)
  ∧ mem.mem ((d.tc : Thread nD τ).loc main_arg7) = m ((d.tc : Thread nD τ).loc main_arg7)
  ∧ mem.mem ((d.tc : Thread nD τ).loc main_arg8) = m ((d.tc : Thread nD τ).loc main_arg8)
  ∧ mem.mem ((d.tc : Thread nD τ).loc main_arg9) = m ((d.tc : Thread nD τ).loc main_arg9)
  ∧ mem.mem ((d.tc : Thread nD τ).loc main_arg10) = m ((d.tc : Thread nD τ).loc main_arg10)
  ∧ mem.mem ((d.tc : Thread nD τ).loc main_arg11) = m ((d.tc : Thread nD τ).loc main_arg11)
  ∧ mem.mem ((d.tc : Thread nD τ).loc main_arg12) = m ((d.tc : Thread nD τ).loc main_arg12)
  ∧ mem.mem ((d.tc : Thread nD τ).loc main_arg13) = m ((d.tc : Thread nD τ).loc main_arg13)
  ∧ mem.mem ((d.tc : Thread nD τ).loc main_arg14) = m ((d.tc : Thread nD τ).loc main_arg14)
  ∧ mem.mem ((d.tc : Thread nD τ).loc main_arg15) = m ((d.tc : Thread nD τ).loc main_arg15)
  ∧ mem.mem ((d.tc : Thread nD τ).loc main_arg16) = m ((d.tc : Thread nD τ).loc main_arg16)
  ∧ mem.mem ((d.tc : Thread nD τ).loc main_arg17) = m ((d.tc : Thread nD τ).loc main_arg17)
  ∧ mem.mem ((d.tc : Thread nD τ).loc main_arg18) = m ((d.tc : Thread nD τ).loc main_arg18)
  ∧ mem.mem ((d.tc : Thread nD τ).loc main_arg19) = m ((d.tc : Thread nD τ).loc main_arg19)
  ∧ mem.mem ((d.tc : Thread nD τ).loc main_arg20) = m ((d.tc : Thread nD τ).loc main_arg20)
  ∧ mem.mem ((d.tc : Thread nD τ).loc main_arg21) = m ((d.tc : Thread nD τ).loc main_arg21)
  ∧ mem.mem ((d.tc : Thread nD τ).loc main_arg22) = m ((d.tc : Thread nD τ).loc main_arg22)
  ∧ mem.mem ((d.tc : Thread nD τ).loc main_arg23) = m ((d.tc : Thread nD τ).loc main_arg23)
  ∧ mem.mem ((d.tc : Thread nD τ).loc main_arg24) = m ((d.tc : Thread nD τ).loc main_arg24)
  ∧ mem.mem ((d.tc : Thread nD τ).loc main_arg25) = m ((d.tc : Thread nD τ).loc main_arg25)
  ∧ mem.mem ((d.tc : Thread nD τ).loc main_arg26) = m ((d.tc : Thread nD τ).loc main_arg26)
  ∧ mem.mem ((d.tc : Thread nD τ).loc main_arg27) = m ((d.tc : Thread nD τ).loc main_arg27)
  ∧ mem.mem ((d.tc : Thread nD τ).loc main_arg28) = m ((d.tc : Thread nD τ).loc main_arg28)
  ∧ mem.mem ((d.tc : Thread nD τ).loc main_arg29) = m ((d.tc : Thread nD τ).loc main_arg29)
  ∧ mem.mem ((d.tc : Thread nD τ).loc main_arg30) = m ((d.tc : Thread nD τ).loc main_arg30)
  ∧ mem.mem ((d.tc : Thread nD τ).loc main_arg31) = m ((d.tc : Thread nD τ).loc main_arg31)
  ∧ mem.mem ((d.tc : Thread nD τ).loc main_arg32) = m ((d.tc : Thread nD τ).loc main_arg32)
  ∧ mem.mem ((d.tc : Thread nD τ).loc main_arg33) = m ((d.tc : Thread nD τ).loc main_arg33)
  ∧ mem.mem ((d.tc : Thread nD τ).loc main_arg34) = m ((d.tc : Thread nD τ).loc main_arg34)

/-- The frame claim is the run with that post on every device. -/
example [Cert.Pre_input_domain.Facts] : Cert.frame_KernelIdeal =
    ∀ (m : (ℓ : Loc nD τ sig) → Buf (Elt Ideal) ℓ) (g : Dev nD → PrngReg), Cert.Pre_KernelIdeal m →
      θ_run (defs (F := Ideal)) (threads (F := Ideal)) ⟨m, fun _ => 0, g⟩ (fun r => ∀ c : Dev nD, ArgsKept m c r.2) := rfl

section Read

open Idealize.SL Idealize.SL.RA Idealize.SL.BI
open scoped Idealize.SL.BI
open Idealize.SL.BI.BIBase Idealize.SL.BI.Laws Idealize.SL.ProofMode

variable {Ix : Type} [DecidableEq Ix] {Name : Type} [DecidableEq Name] {U : Type} [URA U] {Lvl : Type} [Preorder Lvl]

local notation "𝕄" => MT nD τ sig Ix (Elt F) Name U Lvl

/-- The unscoped buffers held whole at a valuation that agrees with the launch contents on the arguments, beside the
    state interpretation: the memory holds every argument array at its launch contents. -/
theorem args_read (m : (ℓ : Loc nD τ sig) → Buf (Elt F) ℓ) (d : Dev nD) (V : Valuation τ sig (Elt F))
    (hV : ∀ b ∈ argRefs, V b = launchContents m d b) (s' : Phys nD τ sig (Elt F)) :
    iprop(held (d.tc : Thread nD τ) (Pipeline.ucRefs τ sig) V ∗ SI s') ⊢ (⌜ArgsKept m d s'.mem⌝ : sProp 𝕄) := by
  unfold held
  iintro ⟨H, HSI⟩
  ihave %h := (SI_pointsTo_bufs_agree (qs := fun _ => fullShare) (Pipeline.ucRefs τ sig)) $$ [HSI H]
  · isplitl [HSI]; · iexact HSI
    iexact H
  ipureintro
  have key : ∀ r ∈ argList, s'.mem.mem ((d.tc : Thread nD τ).loc r) = m ((d.tc : Thread nD τ).loc r) := fun r hr =>
    (h _ (argRefs_sub (devRef_mem_argRefs hr))).trans (hV _ (devRef_mem_argRefs hr))
  exact ⟨key main_arg0 (by decide), key main_arg1 (by decide), key main_arg2 (by decide), key main_arg3 (by decide),
    key main_arg4 (by decide), key main_arg5 (by decide), key main_arg6 (by decide), key main_arg7 (by decide),
    key main_arg8 (by decide), key main_arg9 (by decide), key main_arg10 (by decide), key main_arg11 (by decide),
    key main_arg12 (by decide), key main_arg13 (by decide), key main_arg14 (by decide), key main_arg15 (by decide),
    key main_arg16 (by decide), key main_arg17 (by decide), key main_arg18 (by decide), key main_arg19 (by decide),
    key main_arg20 (by decide), key main_arg21 (by decide), key main_arg22 (by decide), key main_arg23 (by decide),
    key main_arg24 (by decide), key main_arg25 (by decide), key main_arg26 (by decide), key main_arg27 (by decide),
    key main_arg28 (by decide), key main_arg29 (by decide), key main_arg30 (by decide), key main_arg31 (by decide),
    key main_arg32 (by decide), key main_arg33 (by decide), key main_arg34 (by decide)⟩

end Read

end Cert.KernelIdeal.MainShape

end
-- ==== Proof.MainFrameIdeal.lean ====
import proofs.«214388_g48842368090541_cont_8to1c4_19_37_alg».proof.Proof.LaunchElemIdeal
import proofs.«214388_g48842368090541_cont_8to1c4_19_37_alg».proof.Proof.MainKeepIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.MainShape

variable {F : FTy → Type}

local notation "𝕄" => MT nD τ sig (HIx 1) (Elt F) ℕ UU ℕ

section Generic
variable {nD' : Nat} {τ' : Topo} {sig' : RefSig} {Val' : EltTy → Type} {Ix' : Type} [DecidableEq Ix'] {Name' : Type} [DecidableEq Name'] {U' : Type} [URA U'] {Lvl' : Type}
/-- The launch's unscoped buffers on a device are the set of its TensorCore's unscoped references held at the launch contents. -/
theorem unscopedBufs_launch (m : (ℓ : Loc nD' τ' sig') → Buf Val' ℓ) (c : Dev nD') :
    (unscopedBufs (Ix := Ix') (Name := Name') (U := U') (Lvl := Lvl') c (fun b => m ((SparseCore.T c).loc b)) : sProp (MT nD' τ' sig' Ix' Val' Name' U' Lvl'))
      = StableHlo.held (SparseCore.T c) (Pipeline.ucRefs τ' sig') (StableHlo.launchContents m c) :=
  Pipeline.unscopedBufs_held (Ix := Ix') (Name := Name') (U := U') (Lvl := Lvl') c (fun b => m (c, b))
end Generic

section Shape
variable [FloatOps F] [∀ e, Nonempty (Elt F e)]

/-- What a pallas_call region is to @main on the TensorCore: from the region boundary, the unscoped buffers at `V`, the
    generator register, the thread owing nothing with recorded waits `W`, and the pipeline's launch ghost state, the call
    runs; the continuation gets the same back, the buffers at contents that differ from `V` only at the pipeline's result
    arrays, the recorded waits grown only by pairs at the index `none`. -/
def RegStep (outDevRefs : Fin 4 → Finset (DevRef τ sig)) (adm : (p : Fin 4) → (pcfgs (F := F) p).Adm) (p : Fin 4) : Prop :=
  ∀ (d : Dev nD) (Vv : Valuation τ sig (Elt F)) (W : Waits sig (HIx 1)) {α : Type}
    (k : PUnit → Prog (TpuEff nD τ sig (Elt F) (SparseCore.Sig (Pipeline.Sig Λ₀ (Fin 4) fun p => (pcfgs (F := F) p).Adm) 1) .tc) α) (Q : α → sProp 𝕄),
    iprop((∀ V' W', ⌜∀ b, b ∉ outDevRefs p → V' b = Vv b⌝ -∗ ⌜∀ q ∈ W', q ∈ W ∨ q.2 = none⌝ -∗
            (boundary (T d) ∗ StableHlo.held (T d) (Pipeline.ucRefs τ sig) V' ∗ (∃ r, prngReg d r) ∗ owes (T d) 0 W') -∗
            wp frame (wpE ((K (F := F)).defs (D (F := F))) 𝒱 (T d) none) Set.univ (k ⟨⟩) Q)
        ∗ boundary (T d) ∗ StableHlo.held (T d) (Pipeline.ucRefs τ sig) Vv ∗ (∃ r, prngReg d r) ∗ owes (T d) 0 W
        ∗ levAts (K (F := F)).L (K (F := F)).lev
        ∗ Pipeline.cellsGhost (Pipeline.pin (pcfgs (F := F)) adm0) EP p d ∗ Pipeline.toksInit (Pipeline.pin (pcfgs (F := F)) adm0) EP p d)
      ⊢ wp frame (wpE ((K (F := F)).defs (D (F := F))) 𝒱 (T d) none) Set.univ
          (Prog.lift (.customCall (SparseCore.inner (Pipeline.entry p)) ()) >>= k) Q

end Shape

section Main
variable [FloatOps F] [∀ e, Nonempty (Elt F e)]
variable (m : (ℓ : Loc nD τ sig) → Buf (Elt F) ℓ) (ρ : Dev nD → PrngReg)

/-! ## The TensorCore's handshake state after the call, opened -/

/-- What the TensorCore's state after the one call holds beside its `owes`. -/
abbrev tcStRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) :
    ((K (F := F)).tcSt EH d 1 : sProp 𝕄) = iprop((∃ W, ⌜(K (F := F)).WBelow (T d) W 8⌝ ∗ owes (T d) 0 W) ∗ tcStRest (F := F) d) := by
  unfold SparseCore.Cfg.tcSt
  rw [(K (F := F)).Otc_end d (n := 1) (le_refl 1)]

omit [FloatOps F] [∀ e, Nonempty (Elt F e)] in
theorem WBelow_step {thr : Thread nD τ} {W W' : Waits sig (HIx 1)} {b : ℕ} (h : (K (F := F)).WBelow thr W b)
    (h' : ∀ q ∈ W', q ∈ W ∨ q.2 = none) : (K (F := F)).WBelow thr W' b := by
  intro q hq
  rcases h' q hq with hw | hn
  · exact h q hw
  · rw [hn]; exact Nat.zero_le _

/-! ## The pipelines' launch ghost state, one pallas_call at a time -/

omit [FloatOps F] [∀ e, Nonempty (Elt F e)] in
theorem G_eq (d : Dev nD) : (G (F := F) d : sProp 𝕄)
    = iprop((Pipeline.cellsGhost (Pipeline.pin (pcfgs (F := F)) adm0) EP 0 d ∗ Pipeline.toksInit (Pipeline.pin (pcfgs (F := F)) adm0) EP 0 d)
      ∗ (Pipeline.cellsGhost (Pipeline.pin (pcfgs (F := F)) adm0) EP 1 d ∗ Pipeline.toksInit (Pipeline.pin (pcfgs (F := F)) adm0) EP 1 d)
      ∗ (Pipeline.cellsGhost (Pipeline.pin (pcfgs (F := F)) adm0) EP 2 d ∗ Pipeline.toksInit (Pipeline.pin (pcfgs (F := F)) adm0) EP 2 d)
      ∗ (Pipeline.cellsGhost (Pipeline.pin (pcfgs (F := F)) adm0) EP 3 d ∗ Pipeline.toksInit (Pipeline.pin (pcfgs (F := F)) adm0) EP 3 d)) := by
  unfold G
  rw [show (Finset.univ : Finset (Fin 4)) = {0, 1, 2, 3} by decide, SparseCore.bigSep_insert' (by decide), SparseCore.bigSep_insert' (by decide),
    SparseCore.bigSep_insert' (by decide), bigSep_singleton]

/-! ## @main on the TensorCore -/

variable (outDevRefs : Fin 4 → Finset (DevRef τ sig))

/-- What the proof keeps of the buffers at the end: the unscoped buffers at contents that are the launch contents
    on every argument array. -/
def FIN (d : Dev nD) : sProp 𝕄 :=
  iprop(∃ Vv : Valuation τ sig (Elt F), ⌜∀ b ∈ argRefs, Vv b = StableHlo.launchContents m d b⌝ ∗ StableHlo.held (T d) (Pipeline.ucRefs τ sig) Vv)

set_option maxHeartbeats 1600000 in
theorem hmain (hreg : ∀ p, RegStep (F := F) outDevRefs adm0 p)
    (hout : ∀ p, ∀ b ∈ argRefs, b ∉ outDevRefs p)
    (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN (F := F) m d) := by
  rw [main_shape]
  unfold SparseCore.Cfg.tcRes
  iintro ⟨#Hctx, Hst, ⟨Hbd, Hbufs, -, Hprng⟩, HG⟩
  ihave Hh := (Entails.of_eq (unscopedBufs_launch (Ix' := HIx 1) (Name' := ℕ) (U' := UU) (Lvl' := ℕ) m d)) $$ Hbufs
  ihave Hlev := ((K (F := F)).ctx_levAts (EH := EH) (P := PP m) κ) $$ Hctx
  ihave HG' := (Entails.of_eq (G_eq (F := F) d)) $$ HG
  icases HG' with ⟨⟨Hcg0, Htk0⟩, ⟨Hcg1, Htk1⟩, ⟨Hcg2, Htk2⟩, ⟨Hcg3, Htk3⟩⟩
  -- the first stretch of host lines
  iapply (StableHlo.wp_seq 𝒱 none Set.univ d (Pipeline.ucRefs τ sig) _ opsA (fun op h => Pipeline.sub_ucRefs op (opsA_sub op h)) opsA_fresh _) $$ [Hbd Hh]
  · isplitl [Hbd] <;> iassumption
  iintro ⟨Hbd, Hh⟩
  have hk0 : ∀ b ∈ argRefs, VA m d b = StableHlo.launchContents m d b := fun b hb => opsA_keep _ b hb
  -- the SparseCore call
  rw [wp_bind]
  iapply (sc_step m κ d)
  isplitr; · iexact Hctx
  isplitl [Hst]; · iexact Hst
  isplitl [Hh]; · iexact Hh
  iintro %fu %fm %fco ⟨Hst, Hh⟩
  have hk1 : ∀ b ∈ argRefs, scAfter (VA m d) d fu fm fco b = StableHlo.launchContents m d b := fun b hb =>
    (scAfter_of_ne _ _ _ _ _ b (fun e => scOut_not_arg b (by rw [e]; decide) hb) (fun e => scOut_not_arg b (by rw [e]; decide) hb) (fun e => scOut_not_arg b (by rw [e]; decide) hb)).trans (hk0 b hb)
  ihave Hst' := (Entails.of_eq (tcSt_one (F := F) d)) $$ Hst
  icases Hst' with ⟨⟨%W0, %hW0, HO⟩, Hrest⟩
  -- host lines, then the first pallas_call
  iapply (StableHlo.wp_seq 𝒱 none Set.univ d (Pipeline.ucRefs τ sig) _ opsB (fun op h => Pipeline.sub_ucRefs op (opsB_sub op h)) opsB_fresh _) $$ [Hbd Hh]
  · isplitl [Hbd] <;> iassumption
  iintro ⟨Hbd, Hh⟩
  have hk2 := fun b hb => (opsB_keep _ b hb).trans (hk1 b hb)
  ihave Hprng := (show (prngReg d (ρ d) : sProp 𝕄) ⊢ iprop(∃ r, prngReg d r) from exists_intro (Φ := fun r => (prngReg d r : sProp 𝕄)) (ρ d)) $$ Hprng
  ihave Hlev := ((K (F := F)).ctx_levAts (EH := EH) (P := PP m) κ) $$ Hctx
  iapply (hreg 0 d _ W0 _ _)
  isplitr [Hbd Hh Hprng HO Hlev Hcg0 Htk0]
  swap
  · isplitl [Hbd]; · iexact Hbd
    isplitl [Hh]; · iexact Hh
    isplitl [Hprng]; · iexact Hprng
    isplitl [HO]; · iexact HO
    isplitl [Hlev]; · iexact Hlev
    isplitl [Hcg0]; · iexact Hcg0
    iexact Htk0
  iintro %V1 %W1 %hV0 %hW1 ⟨Hbd, Hh, Hprng, HO⟩
  have hk3 : ∀ b ∈ argRefs, V1 b = StableHlo.launchContents m d b := fun b hb => (hV0 b (hout 0 b hb)).trans (hk2 b hb)
  iapply (StableHlo.wp_seq 𝒱 none Set.univ d (Pipeline.ucRefs τ sig) _ opsC (fun op h => Pipeline.sub_ucRefs op (opsC_sub op h)) opsC_fresh _) $$ [Hbd Hh]
  · isplitl [Hbd] <;> iassumption
  iintro ⟨Hbd, Hh⟩
  have hk4 := fun b hb => (opsC_keep _ b hb).trans (hk3 b hb)
  ihave Hlev := ((K (F := F)).ctx_levAts (EH := EH) (P := PP m) κ) $$ Hctx
  iapply (hreg 1 d _ W1 _ _)
  isplitr [Hbd Hh Hprng HO Hlev Hcg1 Htk1]
  swap
  · isplitl [Hbd]; · iexact Hbd
    isplitl [Hh]; · iexact Hh
    isplitl [Hprng]; · iexact Hprng
    isplitl [HO]; · iexact HO
    isplitl [Hlev]; · iexact Hlev
    isplitl [Hcg1]; · iexact Hcg1
    iexact Htk1
  iintro %V2 %W2 %hV1 %hW2 ⟨Hbd, Hh, Hprng, HO⟩
  have hk5 : ∀ b ∈ argRefs, V2 b = StableHlo.launchContents m d b := fun b hb => (hV1 b (hout 1 b hb)).trans (hk4 b hb)
  iapply (StableHlo.wp_seq 𝒱 none Set.univ d (Pipeline.ucRefs τ sig) _ opsD (fun op h => Pipeline.sub_ucRefs op (opsD_sub op h)) opsD_fresh _) $$ [Hbd Hh]
  · isplitl [Hbd] <;> iassumption
  iintro ⟨Hbd, Hh⟩
  have hk6 := fun b hb => (opsD_keep _ b hb).trans (hk5 b hb)
  ihave Hlev := ((K (F := F)).ctx_levAts (EH := EH) (P := PP m) κ) $$ Hctx
  iapply (hreg 2 d _ W2 _ _)
  isplitr [Hbd Hh Hprng HO Hlev Hcg2 Htk2]
  swap
  · isplitl [Hbd]; · iexact Hbd
    isplitl [Hh]; · iexact Hh
    isplitl [Hprng]; · iexact Hprng
    isplitl [HO]; · iexact HO
    isplitl [Hlev]; · iexact Hlev
    isplitl [Hcg2]; · iexact Hcg2
    iexact Htk2
  iintro %V3 %W3 %hV2 %hW3 ⟨Hbd, Hh, Hprng, HO⟩
  have hk7 : ∀ b ∈ argRefs, V3 b = StableHlo.launchContents m d b := fun b hb => (hV2 b (hout 2 b hb)).trans (hk6 b hb)
  iapply (StableHlo.wp_seq 𝒱 none Set.univ d (Pipeline.ucRefs τ sig) _ opsE (fun op h => Pipeline.sub_ucRefs op (opsE_sub op h)) opsE_fresh _) $$ [Hbd Hh]
  · isplitl [Hbd] <;> iassumption
  iintro ⟨Hbd, Hh⟩
  have hk8 := fun b hb => (opsE_keep _ b hb).trans (hk7 b hb)
  ihave Hlev := ((K (F := F)).ctx_levAts (EH := EH) (P := PP m) κ) $$ Hctx
  iapply (hreg 3 d _ W3 _ _)
  isplitr [Hbd Hh Hprng HO Hlev Hcg3 Htk3]
  swap
  · isplitl [Hbd]; · iexact Hbd
    isplitl [Hh]; · iexact Hh
    isplitl [Hprng]; · iexact Hprng
    isplitl [HO]; · iexact HO
    isplitl [Hlev]; · iexact Hlev
    isplitl [Hcg3]; · iexact Hcg3
    iexact Htk3
  iintro %V4 %W4 %hV3 %hW4 ⟨Hbd, Hh, Hprng, HO⟩
  have hk9 : ∀ b ∈ argRefs, V4 b = StableHlo.launchContents m d b := fun b hb => (hV3 b (hout 3 b hb)).trans (hk8 b hb)
  -- the last host line and the return
  rw [← bind_pure (StableHlo.seq (opsF (F := F)))]
  iapply (StableHlo.wp_seq 𝒱 none Set.univ d (Pipeline.ucRefs τ sig) _ opsF (fun op h => Pipeline.sub_ucRefs op (opsF_sub op h)) opsF_fresh _) $$ [Hbd Hh]
  · isplitl [Hbd] <;> iassumption
  iintro ⟨Hbd, Hh⟩
  have hk10 := fun b hb => (opsF_keep _ b hb).trans (hk9 b hb)
  rw [wp_pure]
  imodintro
  isplitl [HO Hrest]
  · iapply (Entails.of_eq (tcSt_one (F := F) d).symm)
    isplitl [HO]
    · iexists W4; isplitr
      · ipureintro; exact WBelow_step (WBelow_step (WBelow_step (WBelow_step hW0 hW1) hW2) hW3) hW4
      · iexact HO
    · iexact Hrest
  · unfold FIN
    iexists _; isplitr
    · ipureintro; exact hk10
    · iexact Hh

end Main

section Assembly
variable [FloatOps F] [∀ e, Nonempty (Elt F e)]
variable (m : (ℓ : Loc nD τ sig) → Buf (Elt F) ℓ) (ρ : Dev nD → PrngReg)

/-- At the end the argument arrays are read off the final memory: each still holds its launch contents. -/
theorem hfin (d : Dev nD) (s' : Phys nD τ sig (Elt F)) : iprop(FIN (F := F) m d ∗ SI s') ⊢ (⌜ArgsKept m d s'.mem⌝ : sProp 𝕄) := by
  unfold FIN
  iintro ⟨⟨%Vv, %hV, Hh⟩, HSI⟩
  iapply (args_read (Ix := HIx 1) (Name := ℕ) (U := UU) (Lvl := ℕ) m d Vv hV s')
  isplitl [Hh] <;> iassumption

/-- Every weakly fair execution of the program — @main on the TensorCore, the gather kernel's tasks on the vector subcores,
    the sequencers between them — terminates without a fault, the argument arrays unchanged. -/
theorem run_main (outDevRefs : Fin 4 → Finset (DevRef τ sig)) (hreg : ∀ p, RegStep (F := F) outDevRefs adm0 p)
    (hout : ∀ p, ∀ b ∈ argRefs, b ∉ outDevRefs p) (hpre : ∀ d, IdxOK d (fiOf m d)) :
    θ_run (Cert.KernelIdeal.defs (F := F)) (Cert.KernelIdeal.threads (F := F)) ⟨m, fun _ => 0, ρ⟩ (fun r => ∀ c : Dev nD, ArgsKept m c r.2) :=
  SparseCore.Cfg.θ_run_sc (K := K (F := F)) (D := D (F := F)) (𝒱 := 𝒱) (EH := EH) (P := PP m) facts v₀
    (fun q hq => match q with | 0 => nomatch hq)
    (fun q _ => match q with | 0 => tileObl (UU := UU) (fiOf m) (fbOf m) (fcOf m) facts hpre)
    (fun q _ => match q with | 0 => SparseCore.Cfg.VecSplit.of_plain (vecSplit (UU := UU) (fiOf m) (fbOf m) (fcOf m)))
    m ρ main (G (F := F)) (FIN (F := F) m) (u₀ (F := F)) (hu₀ m) (hmain m ρ outDevRefs hreg hout)
    (fun d s' => ArgsKept m d s'.mem) (hfin m) (fun r => ∀ c : Dev nD, ArgsKept m c r.2) (fun _ h => h)

end Assembly

end Cert.Proof.KernelIdealSc

end
-- ==== Proof.FramesGlueIdeal.lean ====
/-
  The precondition puts the index list the first host line writes inside the two tables the SparseCore call gathers
  from: the glue between the decoded integer ranges and the call's own hypothesis on the index buffer.
-/
import proofs.«214388_g48842368090541_cont_8to1c4_19_37_alg».proof.Proof.MainFrameIdeal

noncomputable section

namespace Cert.Proof.KernelIdealSc

open Cert.KernelIdeal Cert.KernelIdeal.Gen
open Idealize.ShloMosaic
open Idealize.SL.Sem
open Cert.KernelIdeal.MainShape

/-- Under the precondition the index buffer after the first host line is in range on every device. -/
theorem idxOK_of_pre [Cert.Pre_input_domain.Facts] (m : (ℓ : Loc nD τ sig) → Buf (Elt Ideal) ℓ) (h : Cert.Pre_KernelIdeal m) (d : Dev nD) :
    IdxOK (F := Ideal) d (fiOf m d) :=
  idx_ok_of_pre m h d

end Cert.Proof.KernelIdealSc

end
-- ==== Proof.RegionStepIdeal.lean ====
import proofs.«214388_g48842368090541_cont_8to1c4_19_37_alg».proof.Proof.RegionDataIdeal
import Idealize.ShloMosaic.Lib.SparseCore.Launch
import Idealize.ShloMosaic.Lib.Pipeline.Regions
import Idealize.ShloMosaic.Lib.Pipeline.Kit
import Idealize.ShloMosaic.Lib.Pipeline.Frame

noncomputable section

namespace Cert.KernelIdeal

open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section GenericStep

open Idealize.ShloMosaic.Pipeline in
/-- A kernel region entered from @main inside a SparseCore launch, over ABSTRACT pipelines: on the TensorCore thread of
    device `d`, under the launch's extended body table, @main's call of pipeline `p`'s region followed by any
    continuation runs from the region record's entry state, the level facts and the pipeline's launch ghost state,
    provided the continuation runs from the record's exit state — the region rule under the table of the program's own
    labels, lifted to the extended table (a call of a label becomes a call of its image; every other effect is the same). -/
theorem region_lift
    {nD : Nat} {τ : Topo} {sig : RefSig} {Val : EltTy → Type} {Λ₀ : Labels} {P : Type} [Fintype P] {Q : Nat}
    {Name : Type} [DecidableEq Name] [Infinite Name] {U : Type} [URA U] [∀ e, Nonempty (Val e)]
    (pcs : P → Pipeline.PCfg sig Λ₀ Val) (a : (p : P) → (pcs p).Adm)
    (rdats : (p : P) → (c : Dev nD) → Pipeline.RDat τ Val (SparseCore.Cfg.HIx Q) Name U ℕ (Pipeline.pin pcs a p) c)
    (phinj : Function.Injective (Pipeline.cellOf (nD := nD) (τ := τ) (Pipeline.pin pcs a)))
    (EP : Emb (Rounds.URounds (GSem nD τ sig) Unit) (MT nD τ sig (SparseCore.Cfg.HIx Q) Val Name U ℕ))
    [EP.LandsIn (upEmb : UEmb _ (MT nD τ sig (SparseCore.Cfg.HIx Q) Val Name U ℕ))]
    (defs₀ : Defs nD τ sig Val Λ₀) (𝒱₀ : Variants)
    (K : SparseCore.Cfg τ sig (Pipeline.Sig Λ₀ P fun p => (pcs p).Adm) Q)
    {p : P} (R : Pipeline.RDat.RegionSeg pcs a rdats (none : SparseCore.Cfg.HIx Q) defs₀ 𝒱₀ K.L (K.lev (nD := nD)) p) (d : Dev nD)
    {α : Type} (k : PUnit → Prog (TpuEff nD τ sig Val (SparseCore.Sig (Pipeline.Sig Λ₀ P fun p => (pcs p).Adm) Q) .tc) α)
    (Qp : α → sProp (MT nD τ sig (SparseCore.Cfg.HIx Q) Val Name U ℕ)) :
    iprop((iprop(boundary (d.tc : Thread nD τ) ∗ R.post d) -∗
            wp frame (wpE (K.defs (Pipeline.defs pcs defs₀)) 𝒱₀.lift (d.tc : Thread nD τ) none) Set.univ (k ⟨⟩) Qp)
        ∗ boundary (d.tc : Thread nD τ) ∗ R.pre d ∗ levAts K.L (K.lev (nD := nD))
        ∗ Pipeline.cellsGhost (Pipeline.pin pcs a) EP p d ∗ Pipeline.toksInit (Pipeline.pin pcs a) EP p d)
      ⊢ wp frame (wpE (K.defs (Pipeline.defs pcs defs₀)) 𝒱₀.lift (d.tc : Thread nD τ) none) Set.univ
          (Prog.lift (.customCall (SparseCore.inner (Pipeline.entry p)) ()) >>= k) Qp := by
  have hwp := R.wp pcs a rdats (none : SparseCore.Cfg.HIx Q) phinj EP defs₀ 𝒱₀ K.L (K.lev (nD := nD)) d none (fun u h => nomatch h)
    (fun u => .ret u)
    (fun x => wp frame (wpE (K.defs (Pipeline.defs pcs defs₀)) 𝒱₀.lift (d.tc : Thread nD τ) none) Set.univ (k x) Qp)
  have hlift := K.wp_liftProg (Pipeline.defs pcs defs₀) 𝒱₀.lift (d.tc : Thread nD τ) Set.univ none
    (Prog.op (.customCall (Pipeline.entry p) ()) fun u => .ret u)
    (fun x => wp frame (wpE (K.defs (Pipeline.defs pcs defs₀)) 𝒱₀.lift (d.tc : Thread nD τ) none) Set.univ (k x) Qp)
  rw [wp_bind]
  refine BIBase.Entails.trans ?_ hlift
  refine BIBase.Entails.trans ?_ hwp
  iintro ⟨Hk, Hb, Hpre, Hlev, Hg, Ht⟩
  isplitl [Hk]
  · iintro H; iapply (le_wp_ret _ _); iapply Hk; iexact H
  isplitl [Hb]; · iexact Hb
  isplitl [Hpre]; · iexact Hpre
  isplitl [Hlev]; · iexact Hlev
  isplitl [Hg] <;> iassumption

end GenericStep

/-- A dependent function patched along an injective family of points: given a value at each point `f w` and a
    function everywhere, there is a function that takes the given values on the family and agrees with the old one off it. -/
theorem exists_patch {ι : Type} {β : Type} (f : ι → β) (hinj : Function.Injective f) (T : β → Type)
    (Fs : (w : ι) → T (f w)) (V : (b : β) → T b) :
    ∃ V' : (b : β) → T b, (∀ w, V' (f w) = Fs w) ∧ ∀ b, (∀ w, f w ≠ b) → V' b = V b := by
  classical
  refine ⟨fun b => if h : ∃ w, f w = b then h.choose_spec ▸ Fs h.choose else V b, fun w => ?_, fun b hb => ?_⟩
  · have h : ∃ w', f w' = f w := ⟨w, rfl⟩
    simp only [dif_pos h]
    have hw : h.choose = w := hinj h.choose_spec
    have key : ∀ (w' : ι) (e : f w' = f w), w' = w → (e ▸ Fs w' : T (f w)) = Fs w := by
      intro w' e hw'; subst hw'; rfl
    exact key _ h.choose_spec hw
  · exact dif_neg fun ⟨w, e⟩ => hb w e

/-- The launch facts of the four pipelines, by pipeline. -/
theorem launchAll : ∀ p : Fin 4, Pipeline.LaunchFacts (nD := nD) (τ := τ) cfgs p
  | ⟨0, _⟩ => launch1
  | ⟨1, _⟩ => launch2
  | ⟨2, _⟩ => launch3
  | ⟨3, _⟩ => launch4

/-- The device buffers pipeline `p` writes: the arrays of its output windows. -/
def outDevRefs (p : Fin 4) : Finset (DevRef τ sig) :=
  (Finset.univ.filter fun w : Fin (cfgs p).W => ((cfgs p).win w).isOut = true).image
    fun w => Proc.devRef (τ := τ) .tc (Pipeline.arrRef (cfgs p).spec w)

section Generic

variable {Ix : Type} [DecidableEq Ix] {Name : Type} [DecidableEq Name] {U : Type} [URA U] {Lvl : Type}

/-- The value-free proof data of pipeline `p` on core `c`, its arrays' entry contents read off a valuation `V`. -/
abbrev rdAt (V : Valuation τ sig (Elt F)) (B : Set (SemLoc sig × Ix)) (p : Fin 4) (c : Dev nD) :
    Pipeline.RDat τ (Elt F) Ix Name U Lvl (pcfg (F := F) p) c :=
  rdOf p c (fun w => V (Proc.devRef (τ := τ) .tc (Pipeline.arrRef (pcfg (F := F) p).spec w))) B

/-- EXIT, the buffers' part: pipeline `p`'s arrays after its write-backs, each at some contents it may then hold, and
    the unscoped buffers that are no array of it at a valuation `V`, are all the unscoped buffers held at a valuation
    that agrees with `V` off the OUTPUT windows' arrays — an input's array is never written, an output's holds what
    nothing names. -/
theorem arraysAt_join [∀ e, Nonempty (Elt F e)] (p : Fin 4) (c : Dev nD) (V : Valuation τ sig (Elt F)) (B : Set (SemLoc sig × Ix)) (n : Nat) :
    iprop((rdAt (Name := Name) (U := U) (Lvl := Lvl) V B p c).arraysAt n
        ∗ Pipeline.unscopedRest (pcfg (F := F) p).spec c (fun b => V (Proc.devRef (τ := τ) .tc b)))
      ⊢ (iprop(∃ V' : Valuation τ sig (Elt F), ⌜∀ b, b ∉ outDevRefs p → V' b = V b⌝
          ∗ StableHlo.held (c.tc : Thread nD τ) (Pipeline.ucRefs τ sig) V') : sProp (MT nD τ sig Ix (Elt F) Name U Lvl)) := by
  classical
  have hw := (launchAll p).toP (Val := Elt F)
  have h1 : (rdAt (Name := Name) (U := U) (Lvl := Lvl) V B p c).arraysAt n
      ⊢ iprop(∃ Fs : (w : Fin (pcfg (F := F) p).W) → Buf (Elt F) (((pcfg (F := F) p).win w).arr.view.loc (c.tc : Thread nD τ)),
          ⌜∀ w, (rdAt (Name := Name) (U := U) (Lvl := Lvl) V B p c).ArrAt w n (Fs w)⌝
            ∗ (rdAt (Name := Name) (U := U) (Lvl := Lvl) V B p c).arrays Fs) := by
    unfold Pipeline.RDat.arraysAt Pipeline.RDat.arrays
    refine (BI.bigSep_exists_pi Finset.univ _).trans ?_
    iintro ⟨%Fs, H⟩
    iexists Fs
    ihave H' := (BI.bigSep_pure_sep Finset.univ _ _) $$ H
    icases H' with ⟨%hF, H⟩
    isplitr; · ipureintro; exact fun w => hF w (Finset.mem_univ _)
    iexact H
  iintro ⟨Ha, Hr⟩
  ihave Ha' := h1 $$ Ha
  icases Ha' with ⟨%Fs, %hFs, Harr⟩
  have hinj : Function.Injective fun w => Proc.devRef (τ := τ) .tc (Pipeline.arrRef (pcfg (F := F) p).spec w) :=
    fun w w' e => hw.win.arr_inj (Proc.devRef_injective _ e)
  obtain ⟨V', hV'a, hV'r⟩ := exists_patch (fun w => Proc.devRef (τ := τ) .tc (Pipeline.arrRef (pcfg (F := F) p).spec w)) hinj
    (fun b => b.ty.Contents (Elt F)) Fs V
  iexists V'
  isplitr
  · ipureintro
    intro b hb
    by_cases h : ∃ w, Proc.devRef (τ := τ) .tc (Pipeline.arrRef (pcfg (F := F) p).spec w) = b
    · obtain ⟨w, rfl⟩ := h
      have hin : ((pcfg (F := F) p).win w).isOut = false := by
        cases ho : ((pcfg (F := F) p).win w).isOut
        · rfl
        · exact absurd (Finset.mem_image.mpr ⟨w, Finset.mem_filter.mpr ⟨Finset.mem_univ _, ho⟩, rfl⟩) hb
      have hF := hFs w
      rw [(rdAt (Name := Name) (U := U) (Lvl := Lvl) V B p c).ArrAt_in w hin n] at hF
      exact (hV'a w).trans hF
    · exact hV'r b fun w e => h ⟨w, e⟩
  · have e1 := Pipeline.RDat.arrays_eq (pcfgs (F := F)) adm0 (rdAt (Name := Name) (U := U) (Lvl := Lvl) V B) p c hw.arr_whole
      (fun w => rdOf_share p c _ B w) Fs
    have e2 : (bigSep Finset.univ fun w : Fin (pcfg (F := F) p).W =>
          (((c.tc : Thread nD τ).loc (Pipeline.arrRef (pcfg (F := F) p).spec w)) ↦{fullShare} V' (Proc.devRef (τ := τ) .tc (Pipeline.arrRef (pcfg (F := F) p).spec w))
            : sProp (MT nD τ sig Ix (Elt F) Name U Lvl)))
        = bigSep Finset.univ fun w : Fin (pcfg (F := F) p).W =>
          (((c.tc : Thread nD τ).loc (Pipeline.arrRef (pcfg (F := F) p).spec w)) ↦{fullShare} Fs w : sProp (MT nD τ sig Ix (Elt F) Name U Lvl)) :=
      BI.bigSep_congr fun w _ => by rw [hV'a w]
    have e3 : (Pipeline.unscopedRest (pcfg (F := F) p).spec c (fun b => V' (Proc.devRef (τ := τ) .tc b)) : sProp (MT nD τ sig Ix (Elt F) Name U Lvl))
        = Pipeline.unscopedRest (pcfg (F := F) p).spec c (fun b => V (Proc.devRef (τ := τ) .tc b)) := by
      unfold Pipeline.unscopedRest
      exact BI.bigSep_congr fun b hb => by
        dsimp only
        rw [hV'r _ fun w e => (Finset.mem_sdiff.mp hb).2 (Finset.mem_image.mpr ⟨w, Finset.mem_univ _, Proc.devRef_injective _ e⟩)]
    rw [← Pipeline.unscopedBufs_held c V', Pipeline.unscopedBufs_split (Pipeline.pin (pcfgs (F := F)) adm0) p hw.win.arr_unscoped hw.win.arr_inj c, e2, ← e1, e3]
    isplitl [Harr] <;> iassumption

end Generic

section Step

variable [FloatOps F] {UU : Type} [URA UU]

local notation "𝕄" => MT nD τ sig (SparseCore.Cfg.HIx 1) (Elt F) ℕ UU ℕ

/-- What the TensorCore thread holds of its unscoped buffers, generator register and waits when region `p` is entered
    at valuation `V` with recorded pairs `W`, -/
def regionPre (V : Valuation τ sig (Elt F)) (W : Waits sig (SparseCore.Cfg.HIx 1)) (c : Dev nD) : sProp 𝕄 :=
  iprop(StableHlo.held (c.tc : Thread nD τ) (Pipeline.ucRefs τ sig) V ∗ (∃ r, prngReg c r)
    ∗ owes (c.tc : Thread nD τ) (0 : CellTallies nD τ sig (SparseCore.Cfg.HIx 1)) W)

/-- and when it is left: the buffers at a valuation that agrees with `V` off the pipeline's output arrays, the register
    at some state, nothing owed, the recorded pairs those of `W` and pairs at the index `none`. -/
def regionPost (p : Fin 4) (V : Valuation τ sig (Elt F)) (W : Waits sig (SparseCore.Cfg.HIx 1)) (c : Dev nD) : sProp 𝕄 :=
  iprop(∃ V' : Valuation τ sig (Elt F), ⌜∀ b, b ∉ outDevRefs p → V' b = V b⌝
    ∗ StableHlo.held (c.tc : Thread nD τ) (Pipeline.ucRefs τ sig) V' ∗ (∃ r, prngReg c r)
    ∗ ∃ W' : Waits sig (SparseCore.Cfg.HIx 1), ⌜∀ q ∈ W', q ∈ W ∨ q.2 = none⌝
      ∗ owes (c.tc : Thread nD τ) (0 : CellTallies nD τ sig (SparseCore.Cfg.HIx 1)) W')

/-- Region `p` as the region rule's record, over the value-free data: no semaphore of the kernel's own, nothing owed
    (so no wait evidence is needed), the generator register through the invariant, the other unscoped buffers past
    the region. -/
def regionSeg [∀ e, Nonempty (Elt F e)] (p : Fin 4)
    (hbody : ∀ (c : Dev nD) A B, (rdOf (Ix := SparseCore.Cfg.HIx 1) (Name := ℕ) (U := UU) (Lvl := ℕ) (F := F) p c A B).BodyObligation
      (defs₀ (F := F)) Variants.none (none : SparseCore.Cfg.HIx 1) Set.univ)
    (V : Valuation τ sig (Elt F)) (W : Waits sig (SparseCore.Cfg.HIx 1)) :
    Pipeline.RDat.RegionSeg (pcfgs (F := F)) adm0 (rdAt (Name := ℕ) (U := UU) (Lvl := ℕ) V (recOf W)) (none : SparseCore.Cfg.HIx 1)
      (defs₀ (F := F)) Variants.none (sc (F := F)).L ((sc (F := F)).lev (nD := nD)) p where
  win := ((launchAll p).toP (Val := Elt F)).win.to₀
  block_pos := ((launchAll p).toP (Val := Elt F)).block_pos
  stage_whole := ((launchAll p).toP (Val := Elt F)).stage_whole
  K := PEmpty
  osem := fun k => k.elim
  ho := Pipeline.OwnSemFacts.none _
  hbody := fun c => hbody c _ _
  hwaits := fun c => Pipeline.RDat.hwaits_of_owed_zero (pcfgs (F := F)) adm0 _ _ _ _ p (fun _ _ => rfl) c
  pre := regionPre V W
  post := regionPost p V W
  X := fun c => iprop(∃ r, prngReg c r)
  Y := fun c => iprop(∃ r, prngReg c r)
  Z := fun c => Pipeline.unscopedRest (pcfg (F := F) p).spec c (fun b => V (Proc.devRef (τ := τ) .tc b))
  hentry := fun c => by
    have h := Pipeline.RDat.arrays_of_unscopedBufs (pcfgs (F := F)) adm0 (rdAt (Name := ℕ) (U := UU) (Lvl := ℕ) V (recOf W)) (p := p)
      ((launchAll p).toP (Val := Elt F)).win ((launchAll p).toP (Val := Elt F)).arr_whole c (fun w => rdOf_share p c _ _ w)
      (fun b => V (Proc.devRef (τ := τ) .tc b)) (fun w => rfl)
    unfold regionPre
    rw [← Pipeline.unscopedBufs_held c V]
    iintro ⟨⟨Hub, Hp, HW⟩, -, -⟩
    imodintro
    ihave H := h $$ Hub
    icases H with ⟨Harr, Hrest⟩
    isplitl [Harr]; · iexact Harr
    isplitr
    · unfold Pipeline.prefHeld
      rw [show (Finset.univ : Finset (Fin ((pcfgs (F := F) p).pre.K))) = ∅ from rfl, BI.bigSep_empty]
      iempintro
    isplitl [HW]
    · iexists W; isplitr; · ipureintro; exact fun q hq => Or.inl (Or.inl (Finset.mem_coe.mp hq))
      iexact HW
    isplitl [Hp]; · iexact Hp
    iexact Hrest
  hin := fun c => by
    show _ ⊢ iprop(Pipeline.scopedRest (pcfg (F := F) p).spec c ∗ ∃ r, prngReg c r)
    iintro ⟨HX, -, HR⟩
    isplitl [HR]; · iexact HR
    iexact HX
  hout := fun c => by
    show iprop(Pipeline.scopedRest (pcfg (F := F) p).spec c ∗ ∃ r, prngReg c r) ⊢ _
    rw [Pipeline.ownSems0_none]
    iintro ⟨HR, HP⟩
    isplitl [HP]; · iexact HP
    isplitr; · iempintro
    iexact HR
  hexit := fun c => by
    unfold regionPost
    iintro ⟨Ha, ⟨%W', %hW', Ho⟩, HY, HZ⟩
    imodintro
    ihave H := (arraysAt_join (Name := ℕ) (U := UU) (Lvl := ℕ) p c V (recOf W) _) $$ [Ha HZ]
    · isplitl [Ha] <;> iassumption
    icases H with ⟨%V', %hV', Hh⟩
    iexists V'
    isplitr; · ipureintro; exact hV'
    isplitl [Hh]; · iexact Hh
    isplitl [HY]; · iexact HY
    iexists W'
    isplitr
    · ipureintro
      intro q hq
      rcases hW' (Finset.mem_coe.mpr hq) with h | ⟨w, s, rfl⟩
      · exact h
      · exact Or.inr rfl
    iexact Ho

set_option maxHeartbeats 1000000 in
/-- THE REGION STEP inside the SparseCore launch's obligation for @main. On the TensorCore thread of device `d`, under
    the launch's extended body table, @main's call of pipeline `p`'s region followed by any continuation `k` runs,
    from the thread's boundary holdings, every unscoped buffer held at a valuation `V`, the generator register at some
    state, the thread owing nothing with recorded pairs `W`, the level facts and the pipeline's launch ghost state,
    provided the continuation runs from the same holdings at ANY valuation that agrees with `V` off the pipeline's
    output arrays and any recorded pairs among `W`'s and pairs at the index `none`. The body obligation is asked of the
    value-free data at any entry contents and any bound. -/
theorem region_step [∀ e, Nonempty (Elt F e)]
    (EP : Emb (Rounds.URounds (GSem nD τ sig) Unit) 𝕄) [EP.LandsIn (upEmb : UEmb _ 𝕄)] (p : Fin 4)
    (hbody : ∀ (c : Dev nD) A B, (rdOf (Ix := SparseCore.Cfg.HIx 1) (Name := ℕ) (U := UU) (Lvl := ℕ) (F := F) p c A B).BodyObligation
      (defs₀ (F := F)) Variants.none (none : SparseCore.Cfg.HIx 1) Set.univ)
    (d : Dev nD) (V : Valuation τ sig (Elt F)) (W : Waits sig (SparseCore.Cfg.HIx 1)) {α : Type}
    (k : PUnit → Prog (TpuEff nD τ sig (Elt F) (SparseCore.Sig (Pipeline.Sig Λ₀ (Fin 4) fun p => (pcfgs (F := F) p).Adm) 1) .tc) α)
    (Q : α → sProp 𝕄) :
    iprop((∀ (V' : Valuation τ sig (Elt F)) (W' : Waits sig (SparseCore.Cfg.HIx 1)),
            ⌜∀ b, b ∉ outDevRefs p → V' b = V b⌝ -∗ ⌜∀ q ∈ W', q ∈ W ∨ q.2 = none⌝ -∗
            iprop(boundary (SparseCore.T d : Thread nD τ) ∗ StableHlo.held (SparseCore.T d : Thread nD τ) (Pipeline.ucRefs τ sig) V' ∗ (∃ r, prngReg d r)
              ∗ owes (SparseCore.T d : Thread nD τ) (0 : CellTallies nD τ sig (SparseCore.Cfg.HIx 1)) W') -∗
            wp frame (wpE ((sc (F := F)).defs (Pipeline.defs (pcfgs (F := F)) (defs₀ (F := F)))) Variants.none.lift (SparseCore.T d : Thread nD τ) none) Set.univ (k ⟨⟩) Q)
        ∗ boundary (SparseCore.T d : Thread nD τ) ∗ StableHlo.held (SparseCore.T d : Thread nD τ) (Pipeline.ucRefs τ sig) V ∗ (∃ r, prngReg d r)
        ∗ owes (SparseCore.T d : Thread nD τ) (0 : CellTallies nD τ sig (SparseCore.Cfg.HIx 1)) W
        ∗ levAts (sc (F := F)).L ((sc (F := F)).lev (nD := nD))
        ∗ Pipeline.cellsGhost (Pipeline.pin (pcfgs (F := F)) adm0) EP p d ∗ Pipeline.toksInit (Pipeline.pin (pcfgs (F := F)) adm0) EP p d)
      ⊢ wp frame (wpE ((sc (F := F)).defs (Pipeline.defs (pcfgs (F := F)) (defs₀ (F := F)))) Variants.none.lift (SparseCore.T d : Thread nD τ) none) Set.univ
          (Prog.lift (.customCall (SparseCore.inner (Pipeline.entry p)) ()) >>= k) Q := by
  have key := region_lift (pcfgs (F := F)) adm0 (rdAt (Name := ℕ) (U := UU) (Lvl := ℕ) V (recOf W))
    (((launchAll p).toP (Val := Elt F)).cellOf_inj adm0) EP (defs₀ (F := F)) Variants.none (sc (F := F))
    (regionSeg p hbody V W) d k Q
  refine BIBase.Entails.trans ?_ key
  iintro ⟨Hk, Hb, Hh, Hp, Ho, Hlev, Hg, Ht⟩
  isplitl [Hk]
  · iintro ⟨Hb, Hpost⟩
    ihave Hpost' := (show (regionSeg p hbody V W).post d ⊢ regionPost p V W d from .rfl) $$ Hpost
    unfold regionPost
    icases Hpost' with ⟨%V', %hV', Hh, Hp, ⟨%W', %hW', Ho⟩⟩
    ispecialize Hk $$ %V' %W' %hV' %hW'
    iapply Hk
    isplitl [Hb]; · iexact Hb
    isplitl [Hh]; · iexact Hh
    isplitl [Hp]; · iexact Hp
    iexact Ho
  isplitl [Hb]; · iexact Hb
  isplitl [Hh Hp Ho]
  · iapply (show regionPre V W d ⊢ (regionSeg p hbody V W).pre d from .rfl)
    unfold regionPre
    isplitl [Hh]; · iexact Hh
    isplitl [Hp]; · iexact Hp
    iexact Ho
  isplitl [Hlev]; · iexact Hlev
  isplitl [Hg] <;> iassumption

end Step

end Cert.KernelIdeal

end
-- ==== Proof.BodyRunK1Ideal.lean ====
/-
  The whole-body run of the TensorCore kernel body `cc1__k1` from arbitrary staging contents: every memref operand —
  input, output and scratch alike — is handed over whole at contents nothing names and handed back whole at contents
  nothing names. One theorem per case of the body's single conditional on the grid coordinate (taken at the first
  point of the grid, where the accumulators are reset; not taken elsewhere). The body is a straight line of whole-buffer
  loads and covering stores, so the run is symbolic execution of its skeleton; the values stored are never looked at.
-/
import proofs.«214388_g48842368090541_cont_8to1c4_19_37_alg».proof.Proof.Gen.KernelIdeal.Skeleton
import proofs.«214388_g48842368090541_cont_8to1c4_19_37_alg».proof.Proof.Gen.KernelIdeal.Launch
import proofs.«214388_g48842368090541_cont_8to1c4_19_37_alg».proof.Proof.Gen.KernelIdeal.Points
import Idealize.ShloMosaic.Lib.Tactic

-- membership in a rectangle of production extents: the elaborator's structural look recurses once per coordinate of
-- the long axes
set_option maxRecDepth 16384

noncomputable section

namespace Cert.KernelIdeal.BodyRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The condition of the body's one `scf.if`, from the grid coordinate: the printed scalar chain
    (`cmpi eq` against zero, widened, `cmpi ne` against zero) at the coordinate's word. -/
abbrev cond1_0 (i : grid1.Coords) : Prop :=
  Scalar.cmpi .ne (Scalar.extui (Scalar.cmpi .eq (BitVec.ofNat 32 (i 0).val) 0#32) : BitVec 32) 0#32 = 1#1

/-- It holds at the grid's first point and nowhere else — decided over the grid. -/
theorem hcond1_0 : ∀ t : Fin cfg1.N, cond1_0 (grid1.coords t) ↔ t.val = 0 :=
  (by decide +kernel : ∀ t : Fin grid1.N, cond1_0 (grid1.coords t) ↔ t.val = 0)

-- (the run's proof term is large: checking it walks past the default budget)
set_option maxHeartbeats 1000000 in
/-- The body's triple when the conditional is TAKEN (the grid's first point): every operand whole at arbitrary contents before and after. -/
theorem kernelRun1_A (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x19 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S64x1024 .bf16) (harg7 : arg7.IsWhole) (arg8 : Memref sig .tc .vmem S128x1024 .bf16) (harg8 : arg8.IsWhole) (arg9 : Memref sig .tc .vmem S1024x128 .bf16) (harg9 : arg9.IsWhole) (arg10 : Memref sig .tc .vmem S19x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S1024x256 .bf16) (harg14 : arg14.IsWhole) (arg15 : Memref sig .tc .vmem S1x1024 .f32) (harg15 : arg15.IsWhole) (arg16 : Memref sig .tc .vmem S1x1024 .f32) (harg16 : arg16.IsWhole) (hc : cond1_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kp ⟨⟩))
        ⊢ wp frame (wpE (defs₀ (F := F)) Variants.none c none) E (cc1__k1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc1__k1_eq_skeleton]; unfold cc1__k1_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

-- (the run's proof term is large: checking it walks past the default budget)
set_option maxHeartbeats 1000000 in
/-- The body's triple when the conditional is NOT taken: every operand whole at arbitrary contents before and after. -/
theorem kernelRun1_B (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x19 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S64x1024 .bf16) (harg7 : arg7.IsWhole) (arg8 : Memref sig .tc .vmem S128x1024 .bf16) (harg8 : arg8.IsWhole) (arg9 : Memref sig .tc .vmem S1024x128 .bf16) (harg9 : arg9.IsWhole) (arg10 : Memref sig .tc .vmem S19x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S1024x256 .bf16) (harg14 : arg14.IsWhole) (arg15 : Memref sig .tc .vmem S1x1024 .f32) (harg15 : arg15.IsWhole) (arg16 : Memref sig .tc .vmem S1x1024 .f32) (harg16 : arg16.IsWhole) (hc : ¬cond1_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kp ⟨⟩))
        ⊢ wp frame (wpE (defs₀ (F := F)) Variants.none c none) E (cc1__k1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc1__k1_eq_skeleton]; unfold cc1__k1_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

-- (the run's proof term is large: checking it walks past the default budget)
set_option maxHeartbeats 1000000 in
/-- The body's triple with the conditional left UNDECIDED: its else-region is empty and it returns nothing, so the run takes it both ways and joins — every operand whole at arbitrary contents before and after, at any point of the grid. -/
theorem kernelRun1 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x19 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S64x1024 .bf16) (harg7 : arg7.IsWhole) (arg8 : Memref sig .tc .vmem S128x1024 .bf16) (harg8 : arg8.IsWhole) (arg9 : Memref sig .tc .vmem S1024x128 .bf16) (harg9 : arg9.IsWhole) (arg10 : Memref sig .tc .vmem S19x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S1024x256 .bf16) (harg14 : arg14.IsWhole) (arg15 : Memref sig .tc .vmem S1x1024 .f32) (harg15 : arg15.IsWhole) (arg16 : Memref sig .tc .vmem S1x1024 .f32) (harg16 : arg16.IsWhole) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kp ⟨⟩))
        ⊢ wp frame (wpE (defs₀ (F := F)) Variants.none c none) E (cc1__k1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc1__k1_eq_skeleton]; unfold cc1__k1_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.KernelIdeal.BodyRun

end
-- ==== Proof.BodyRunK2Ideal.lean ====
/-
  The whole-body run of the TensorCore kernel body `cc2__k2` from arbitrary staging contents: every memref operand —
  input, output and scratch alike — is handed over whole at contents nothing names and handed back whole at contents
  nothing names. One theorem per case of the body's single conditional on the grid coordinate (taken at the first
  point of the grid, where the accumulators are reset; not taken elsewhere). The body is a straight line of whole-buffer
  loads and covering stores, so the run is symbolic execution of its skeleton; the values stored are never looked at.
-/
import proofs.«214388_g48842368090541_cont_8to1c4_19_37_alg».proof.Proof.Gen.KernelIdeal.Skeleton
import proofs.«214388_g48842368090541_cont_8to1c4_19_37_alg».proof.Proof.Gen.KernelIdeal.Launch
import proofs.«214388_g48842368090541_cont_8to1c4_19_37_alg».proof.Proof.Gen.KernelIdeal.Points
import Idealize.ShloMosaic.Lib.Tactic

-- membership in a rectangle of production extents: the elaborator's structural look recurses once per coordinate of
-- the long axes
set_option maxRecDepth 16384

noncomputable section

namespace Cert.KernelIdeal.BodyRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The condition of the body's one `scf.if`, from the grid coordinate: the printed scalar chain
    (`cmpi eq` against zero, widened, `cmpi ne` against zero) at the coordinate's word. -/
abbrev cond2_0 (i : grid2.Coords) : Prop :=
  Scalar.cmpi .ne (Scalar.extui (Scalar.cmpi .eq (BitVec.ofNat 32 (i 0).val) 0#32) : BitVec 32) 0#32 = 1#1

/-- It holds at the grid's first point and nowhere else — decided over the grid. -/
theorem hcond2_0 : ∀ t : Fin cfg2.N, cond2_0 (grid2.coords t) ↔ t.val = 0 :=
  (by decide +kernel : ∀ t : Fin grid2.N, cond2_0 (grid2.coords t) ↔ t.val = 0)

-- (the run's proof term is large: checking it walks past the default budget)
set_option maxHeartbeats 1000000 in
/-- The body's triple when the conditional is TAKEN (the grid's first point): every operand whole at arbitrary contents before and after. -/
theorem kernelRun2_A (c : Dev nD) (i : grid2.Coords) (arg1 : Memref sig .tc .vmem S1024x256 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .bf16) (harg14 : arg14.IsWhole) (hc : cond2_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ Kp ⟨⟩))
        ⊢ wp frame (wpE (defs₀ (F := F)) Variants.none c none) E (cc2__k2 i arg1 harg1 arg2 harg2 arg3 harg3 arg4 harg4 arg5 harg5 arg6 harg6 arg7 harg7 arg8 harg8 arg9 harg9 arg10 harg10 arg11 harg11 arg12 harg12 arg13 harg13 arg14 harg14) Kp := by
    intro E Kp
    simp only [cc2__k2_eq_skeleton]; unfold cc2__k2_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

-- (the run's proof term is large: checking it walks past the default budget)
set_option maxHeartbeats 1000000 in
/-- The body's triple when the conditional is NOT taken: every operand whole at arbitrary contents before and after. -/
theorem kernelRun2_B (c : Dev nD) (i : grid2.Coords) (arg1 : Memref sig .tc .vmem S1024x256 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .bf16) (harg14 : arg14.IsWhole) (hc : ¬cond2_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ Kp ⟨⟩))
        ⊢ wp frame (wpE (defs₀ (F := F)) Variants.none c none) E (cc2__k2 i arg1 harg1 arg2 harg2 arg3 harg3 arg4 harg4 arg5 harg5 arg6 harg6 arg7 harg7 arg8 harg8 arg9 harg9 arg10 harg10 arg11 harg11 arg12 harg12 arg13 harg13 arg14 harg14) Kp := by
    intro E Kp
    simp only [cc2__k2_eq_skeleton]; unfold cc2__k2_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

-- (the run's proof term is large: checking it walks past the default budget)
set_option maxHeartbeats 1000000 in
/-- The body's triple with the conditional left UNDECIDED: its else-region is empty and it returns nothing, so the run takes it both ways and joins — every operand whole at arbitrary contents before and after, at any point of the grid. -/
theorem kernelRun2 (c : Dev nD) (i : grid2.Coords) (arg1 : Memref sig .tc .vmem S1024x256 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .bf16) (harg14 : arg14.IsWhole) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ Kp ⟨⟩))
        ⊢ wp frame (wpE (defs₀ (F := F)) Variants.none c none) E (cc2__k2 i arg1 harg1 arg2 harg2 arg3 harg3 arg4 harg4 arg5 harg5 arg6 harg6 arg7 harg7 arg8 harg8 arg9 harg9 arg10 harg10 arg11 harg11 arg12 harg12 arg13 harg13 arg14 harg14) Kp := by
    intro E Kp
    simp only [cc2__k2_eq_skeleton]; unfold cc2__k2_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.KernelIdeal.BodyRun

end
-- ==== Proof.BodyRunK3Ideal.lean ====
import proofs.«214388_g48842368090541_cont_8to1c4_19_37_alg».proof.Proof.Gen.KernelIdeal.Launch
import proofs.«214388_g48842368090541_cont_8to1c4_19_37_alg».proof.Proof.Gen.KernelIdeal.Skeleton
import proofs.«214388_g48842368090541_cont_8to1c4_19_37_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.BodyRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The condition of the third body's one conditional, from the grid coordinate: the printed scalar chain
    (`i 0` compared with zero, the bit widened to a word, the word compared with zero) substituted. -/
abbrev cond3_0 (i : grid3.Coords) : Prop :=
  Scalar.cmpi .ne (Scalar.extui (Scalar.cmpi .eq (BitVec.ofNat 32 (i 0).val) 0#32)) 0#32 = 1#1

/-- The conditional is taken exactly where the grid coordinate is zero — decided over the grid's coordinates. -/
theorem cond3_0_iff : ∀ i : grid3.Coords, cond3_0 i ↔ (i 0).val = 0 := by decide +kernel

/-- Over the grid's points in order: taken at the first point only — decided over the grid. -/
theorem hcond3_0 : ∀ t : Fin cfg3.N, cond3_0 (grid3.coords t) ↔ t.val = 0 :=
  (by decide +kernel : ∀ t : Fin grid3.N, cond3_0 (grid3.coords t) ↔ t.val = 0)

set_option maxHeartbeats 1000000 in
/-- The third TensorCore body from arbitrary staging contents, at a point where its conditional is TAKEN (the
    first grid point): each of its sixteen whole memrefs (ten inputs, four outputs, two scratch buffers) is owned at the
    full share at some contents nothing names; the body — the guarded region's casts of the two weight matrices into the
    scratch buffers and zeroing of the two accumulators, then the loads, the stores of the product's tile and of the row
    sums, and the two accumulations — runs to the continuation and hands every memref back owned at the full share, again
    at contents nothing names. -/
theorem kernelRun3_A (c : Dev nD) (i : grid3.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x1 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1024x512 .bf16) (harg16 : arg16.IsWhole) (hc : cond3_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kp ⟨⟩))
        ⊢ wp frame (wpE (defs₀ (F := F)) Variants.none c none) E (cc3__k3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc3__k3_eq_skeleton]; unfold cc3__k3_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

set_option maxHeartbeats 1000000 in
/-- The same run at a point where the conditional is NOT taken (every later grid point): the guarded region is
    skipped; everything else as in the taken case. -/
theorem kernelRun3_B (c : Dev nD) (i : grid3.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x1 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1024x512 .bf16) (harg16 : arg16.IsWhole) (hc : ¬cond3_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kp ⟨⟩))
        ⊢ wp frame (wpE (defs₀ (F := F)) Variants.none c none) E (cc3__k3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc3__k3_eq_skeleton]; unfold cc3__k3_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.KernelIdeal.BodyRun

end
-- ==== Proof.BodyRunK4Ideal.lean ====
import proofs.«214388_g48842368090541_cont_8to1c4_19_37_alg».proof.Proof.Gen.KernelIdeal.Launch
import proofs.«214388_g48842368090541_cont_8to1c4_19_37_alg».proof.Proof.Gen.KernelIdeal.Skeleton
import proofs.«214388_g48842368090541_cont_8to1c4_19_37_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.BodyRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- The fourth TensorCore body from arbitrary staging contents: each of its nine whole memrefs is owned at the
    full share at some contents nothing names; the body (seven loads of the statistics, scale, shift and weights, the
    load of the tile and of the partial sums, one covering store of the result) runs to the continuation and hands
    every memref back owned at the full share, again at contents nothing names. -/
theorem kernelRun4_A (c : Dev nD) (i : grid4.Coords) (arg1 : Memref sig .tc .vmem S2048x512 .bf16) (harg1 : arg1.IsWhole) (arg2 : Memref sig .tc .vmem S2048x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S2048x1 .f32) (harg9 : arg9.IsWhole) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ Kp ⟨⟩))
        ⊢ wp frame (wpE (defs₀ (F := F)) Variants.none c none) E (cc4__k4 i arg1 harg1 arg2 harg2 arg3 harg3 arg4 harg4 arg5 harg5 arg6 harg6 arg7 harg7 arg8 harg8 arg9 harg9) Kp := by
    intro E Kp
    simp only [cc4__k4_eq_skeleton]; unfold cc4__k4_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.KernelIdeal.BodyRun

end
-- ==== Proof.BodyOblIdeal.lean ====
/-
  The body obligations of the four TensorCore pipelines in the relational form whose every relation is `True`: at every
  grid point, from the pipeline's invariant (the scoped buffers no window stages, each whole at some contents, and the
  generator register), what the core owes, and every window's current staging buffer at whatever it is handed, the kernel
  body runs to the same invariant, the same owes term and every current staging buffer at some contents. Each follows from
  the body's whole-body run from arbitrary contents: the windows are conjoined one by one, a call's own scratch buffers are
  split out of the scoped rest for the run and put back after it.
-/
import proofs.«214388_g48842368090541_cont_8to1c4_19_37_alg».proof.Proof.BodyRunK1Ideal
import proofs.«214388_g48842368090541_cont_8to1c4_19_37_alg».proof.Proof.BodyRunK2Ideal
import proofs.«214388_g48842368090541_cont_8to1c4_19_37_alg».proof.Proof.BodyRunK3Ideal
import proofs.«214388_g48842368090541_cont_8to1c4_19_37_alg».proof.Proof.BodyRunK4Ideal
import proofs.«214388_g48842368090541_cont_8to1c4_19_37_alg».proof.Proof.RegionDataIdeal
import Idealize.ShloMosaic.Lib.Pipeline.Kit

set_option maxRecDepth 16384

noncomputable section

namespace Cert.KernelIdeal.BodyRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1200000 in
/-- The body obligation of pipeline 0 at a generic point, in the relational form whose every relation is `True`: from the
    invariant (the scoped buffers no window stages, each whole at some contents, and the generator register), what the core
    owes within its bound, and every window's current staging buffer at the contents `Y w` it is handed, the kernel body at
    the point runs to the same invariant, the same owes term, and every current staging buffer at some contents. The
    windows are conjoined one by one, the body is the printed kernel on the current staging memrefs, and the whole-body run from
    arbitrary contents applies; the invariant's rest and the owes term pass through untouched. -/
theorem bodyObl_1 (c : Dev nD) (ι : Ix) (O : CellTallies nD τ sig Ix) (B : Set (SemLoc sig × Ix)) (t : Fin cfg1.N)
    (Y : (w : Fin cfg1.W) → (cfg1.win w).block.Idx → Elt F (cfg1.win w).elt) :
    (iprop(iprop(Pipeline.scopedRest (Ix := Ix) (Name := Name) (U := U) (Lvl := Lvl) (Val := Elt F) cfg1.spec c ∗ ∃ r, prngReg c r) ∗ Pipeline.owesWithin c O B
        ∗ bigSep Finset.univ fun w : Fin cfg1.W => owns (c : Thread nD τ) ((cfg1.win w).stage (cfg1.slots t w)) fullShare (Y w))
      ⊢ wp frame (wpE (defs₀ (F := F)) Variants.none c none) Set.univ (defs₀ .tc cfg1.body (cfg1.bodyArgs t (cfg1.slots t))) fun _ =>
          iprop(iprop(Pipeline.scopedRest (Ix := Ix) (Name := Name) (U := U) (Lvl := Lvl) (Val := Elt F) cfg1.spec c ∗ ∃ r, prngReg c r) ∗ Pipeline.owesWithin c O B
            ∗ bigSep Finset.univ fun w : Fin cfg1.W => iprop(∃ X, ⌜True⌝ ∗ owns (c : Thread nD τ) ((cfg1.win w).stage (cfg1.slots t w)) fullShare X)) : Prop) := by
    rw [bigSep_W1, bigSep_W1]
    rw [show (defs₀ (F := F) .tc cfg1.body (cfg1.bodyArgs t (cfg1.slots t))) = bodyAt1 (F := F) t from rfl]
    iintro ⟨HΦ, Ho, H0, H1, H2, H3, H4, H5, H6, H7, H8, H9, H10, H11, H12, H13, H14, H15⟩
    iapply ((kernelRun1 c (grid1.coords t) _ _ _ _ _ _ _ _ _ _ _ _ _ _ _ _ _ _ _ _ _ _ _ _ _ _ _ _ _ _ _ _) Set.univ _)
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩⟩
    isplitl [HΦ]; · iexact HΦ
    isplitl [Ho]; · iexact Ho
    isplitl [H0]
    · iexists X0; isplitr
      · ipureintro; trivial
      · iexact H0
    isplitl [H1]
    · iexists X1; isplitr
      · ipureintro; trivial
      · iexact H1
    isplitl [H2]
    · iexists X2; isplitr
      · ipureintro; trivial
      · iexact H2
    isplitl [H3]
    · iexists X3; isplitr
      · ipureintro; trivial
      · iexact H3
    isplitl [H4]
    · iexists X4; isplitr
      · ipureintro; trivial
      · iexact H4
    isplitl [H5]
    · iexists X5; isplitr
      · ipureintro; trivial
      · iexact H5
    isplitl [H6]
    · iexists X6; isplitr
      · ipureintro; trivial
      · iexact H6
    isplitl [H7]
    · iexists X7; isplitr
      · ipureintro; trivial
      · iexact H7
    isplitl [H8]
    · iexists X8; isplitr
      · ipureintro; trivial
      · iexact H8
    isplitl [H9]
    · iexists X9; isplitr
      · ipureintro; trivial
      · iexact H9
    isplitl [H10]
    · iexists X10; isplitr
      · ipureintro; trivial
      · iexact H10
    isplitl [H11]
    · iexists X11; isplitr
      · ipureintro; trivial
      · iexact H11
    isplitl [H12]
    · iexists X12; isplitr
      · ipureintro; trivial
      · iexact H12
    isplitl [H13]
    · iexists X13; isplitr
      · ipureintro; trivial
      · iexact H13
    isplitl [H14]
    · iexists X14; isplitr
      · ipureintro; trivial
      · iexact H14
    iexists X15; isplitr
    · ipureintro; trivial
    · iexact H15

set_option maxHeartbeats 1200000 in
/-- The body obligation of pipeline 1 at a generic point, in the relational form whose every relation is `True`: from the
    invariant (the scoped buffers no window stages, each whole at some contents, and the generator register), what the core
    owes within its bound, and every window's current staging buffer at the contents `Y w` it is handed, the kernel body at
    the point runs to the same invariant, the same owes term, and every current staging buffer at some contents. The
    windows are conjoined one by one, the body is the printed kernel on the current staging memrefs and the call's own scratch
    (split out of the scoped rest, whole at some contents, and put back after the run), and the whole-body run from
    arbitrary contents applies; the invariant's rest and the owes term pass through untouched. -/
theorem bodyObl_2 (c : Dev nD) (ι : Ix) (O : CellTallies nD τ sig Ix) (B : Set (SemLoc sig × Ix)) (t : Fin cfg2.N)
    (Y : (w : Fin cfg2.W) → (cfg2.win w).block.Idx → Elt F (cfg2.win w).elt) :
    (iprop(iprop(Pipeline.scopedRest (Ix := Ix) (Name := Name) (U := U) (Lvl := Lvl) (Val := Elt F) cfg2.spec c ∗ ∃ r, prngReg c r) ∗ Pipeline.owesWithin c O B
        ∗ bigSep Finset.univ fun w : Fin cfg2.W => owns (c : Thread nD τ) ((cfg2.win w).stage (cfg2.slots t w)) fullShare (Y w))
      ⊢ wp frame (wpE (defs₀ (F := F)) Variants.none c none) Set.univ (defs₀ .tc cfg2.body (cfg2.bodyArgs t (cfg2.slots t))) fun _ =>
          iprop(iprop(Pipeline.scopedRest (Ix := Ix) (Name := Name) (U := U) (Lvl := Lvl) (Val := Elt F) cfg2.spec c ∗ ∃ r, prngReg c r) ∗ Pipeline.owesWithin c O B
            ∗ bigSep Finset.univ fun w : Fin cfg2.W => iprop(∃ X, ⌜True⌝ ∗ owns (c : Thread nD τ) ((cfg2.win w).stage (cfg2.slots t w)) fullShare X)) : Prop) := by
    rw [bigSep_W2, bigSep_W2]
    rw [show (defs₀ (F := F) .tc cfg2.body (cfg2.bodyArgs t (cfg2.slots t))) = bodyAt2 (F := F) t from rfl]
    rw [scopedRest2_split]
    iintro ⟨⟨⟨⟨%z0, S0⟩, Hrest⟩, Hp⟩, Ho, H0, H1, H2, H3, H4, H5, H6, H7, H8, H9, H10, H11, H12⟩
    iapply ((kernelRun2 c (grid2.coords t) _ _ _ _ _ _ _ _ _ _ _ _ _ _ _ _ _ _ _ _ _ _ _ _ _ _ _ _) Set.univ _)
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [S0]; · iexists _; rw [owns_whole]; iexact S0
    iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%Z0, S0⟩⟩
    isplitl [Hrest Hp S0]
    · isplitr [Hp]; swap; · iexact Hp
      isplitr [Hrest]; swap; · iexact Hrest
      iexists Z0; rw [← owns_whole]; iexact S0
    isplitl [Ho]; · iexact Ho
    isplitl [H0]
    · iexists X0; isplitr
      · ipureintro; trivial
      · iexact H0
    isplitl [H1]
    · iexists X1; isplitr
      · ipureintro; trivial
      · iexact H1
    isplitl [H2]
    · iexists X2; isplitr
      · ipureintro; trivial
      · iexact H2
    isplitl [H3]
    · iexists X3; isplitr
      · ipureintro; trivial
      · iexact H3
    isplitl [H4]
    · iexists X4; isplitr
      · ipureintro; trivial
      · iexact H4
    isplitl [H5]
    · iexists X5; isplitr
      · ipureintro; trivial
      · iexact H5
    isplitl [H6]
    · iexists X6; isplitr
      · ipureintro; trivial
      · iexact H6
    isplitl [H7]
    · iexists X7; isplitr
      · ipureintro; trivial
      · iexact H7
    isplitl [H8]
    · iexists X8; isplitr
      · ipureintro; trivial
      · iexact H8
    isplitl [H9]
    · iexists X9; isplitr
      · ipureintro; trivial
      · iexact H9
    isplitl [H10]
    · iexists X10; isplitr
      · ipureintro; trivial
      · iexact H10
    isplitl [H11]
    · iexists X11; isplitr
      · ipureintro; trivial
      · iexact H11
    iexists X12; isplitr
    · ipureintro; trivial
    · iexact H12

set_option maxHeartbeats 1200000 in
/-- The body obligation of pipeline 2 at a generic point, in the relational form whose every relation is `True`: from the
    invariant (the scoped buffers no window stages, each whole at some contents, and the generator register), what the core
    owes within its bound, and every window's current staging buffer at the contents `Y w` it is handed, the kernel body at
    the point runs to the same invariant, the same owes term, and every current staging buffer at some contents. The
    windows are conjoined one by one, the body is the printed kernel on the current staging memrefs and the call's own scratch
    (split out of the scoped rest, whole at some contents, and put back after the run), and the whole-body run from
    arbitrary contents applies; the invariant's rest and the owes term pass through untouched. -/
theorem bodyObl_3 (c : Dev nD) (ι : Ix) (O : CellTallies nD τ sig Ix) (B : Set (SemLoc sig × Ix)) (t : Fin cfg3.N)
    (Y : (w : Fin cfg3.W) → (cfg3.win w).block.Idx → Elt F (cfg3.win w).elt) :
    (iprop(iprop(Pipeline.scopedRest (Ix := Ix) (Name := Name) (U := U) (Lvl := Lvl) (Val := Elt F) cfg3.spec c ∗ ∃ r, prngReg c r) ∗ Pipeline.owesWithin c O B
        ∗ bigSep Finset.univ fun w : Fin cfg3.W => owns (c : Thread nD τ) ((cfg3.win w).stage (cfg3.slots t w)) fullShare (Y w))
      ⊢ wp frame (wpE (defs₀ (F := F)) Variants.none c none) Set.univ (defs₀ .tc cfg3.body (cfg3.bodyArgs t (cfg3.slots t))) fun _ =>
          iprop(iprop(Pipeline.scopedRest (Ix := Ix) (Name := Name) (U := U) (Lvl := Lvl) (Val := Elt F) cfg3.spec c ∗ ∃ r, prngReg c r) ∗ Pipeline.owesWithin c O B
            ∗ bigSep Finset.univ fun w : Fin cfg3.W => iprop(∃ X, ⌜True⌝ ∗ owns (c : Thread nD τ) ((cfg3.win w).stage (cfg3.slots t w)) fullShare X)) : Prop) := by
    rw [bigSep_W3, bigSep_W3]
    rw [show (defs₀ (F := F) .tc cfg3.body (cfg3.bodyArgs t (cfg3.slots t))) = bodyAt3 (F := F) t from rfl]
    rw [scopedRest3_split]
    iintro ⟨⟨⟨⟨⟨%z0, S0⟩, ⟨%z1, S1⟩⟩, Hrest⟩, Hp⟩, Ho, H0, H1, H2, H3, H4, H5, H6, H7, H8, H9, H10, H11, H12, H13⟩
    by_cases hc : cond3_0 (grid3.coords t)
    · -- the conditional taken
      iapply ((kernelRun3_A c (grid3.coords t) _ _ _ _ _ _ _ _ _ _ _ _ _ _ _ _ _ _ _ _ _ _ _ _ _ _ _ _ _ _ _ _ hc) Set.univ _)
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [S0]; · iexists _; rw [owns_whole]; iexact S0
      isplitl [S1]; · iexists _; rw [owns_whole]; iexact S1
      iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%Z0, S0⟩, ⟨%Z1, S1⟩⟩
      isplitl [Hrest Hp S0 S1]
      · isplitr [Hp]; swap; · iexact Hp
        isplitr [Hrest]; swap; · iexact Hrest
        isplitl [S0]; · iexists Z0; rw [← owns_whole]; iexact S0
        iexists Z1; rw [← owns_whole]; iexact S1
      isplitl [Ho]; · iexact Ho
      isplitl [H0]
      · iexists X0; isplitr
        · ipureintro; trivial
        · iexact H0
      isplitl [H1]
      · iexists X1; isplitr
        · ipureintro; trivial
        · iexact H1
      isplitl [H2]
      · iexists X2; isplitr
        · ipureintro; trivial
        · iexact H2
      isplitl [H3]
      · iexists X3; isplitr
        · ipureintro; trivial
        · iexact H3
      isplitl [H4]
      · iexists X4; isplitr
        · ipureintro; trivial
        · iexact H4
      isplitl [H5]
      · iexists X5; isplitr
        · ipureintro; trivial
        · iexact H5
      isplitl [H6]
      · iexists X6; isplitr
        · ipureintro; trivial
        · iexact H6
      isplitl [H7]
      · iexists X7; isplitr
        · ipureintro; trivial
        · iexact H7
      isplitl [H8]
      · iexists X8; isplitr
        · ipureintro; trivial
        · iexact H8
      isplitl [H9]
      · iexists X9; isplitr
        · ipureintro; trivial
        · iexact H9
      isplitl [H10]
      · iexists X10; isplitr
        · ipureintro; trivial
        · iexact H10
      isplitl [H11]
      · iexists X11; isplitr
        · ipureintro; trivial
        · iexact H11
      isplitl [H12]
      · iexists X12; isplitr
        · ipureintro; trivial
        · iexact H12
      iexists X13; isplitr
      · ipureintro; trivial
      · iexact H13
    · -- the conditional not taken
      iapply ((kernelRun3_B c (grid3.coords t) _ _ _ _ _ _ _ _ _ _ _ _ _ _ _ _ _ _ _ _ _ _ _ _ _ _ _ _ _ _ _ _ hc) Set.univ _)
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [S0]; · iexists _; rw [owns_whole]; iexact S0
      isplitl [S1]; · iexists _; rw [owns_whole]; iexact S1
      iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%Z0, S0⟩, ⟨%Z1, S1⟩⟩
      isplitl [Hrest Hp S0 S1]
      · isplitr [Hp]; swap; · iexact Hp
        isplitr [Hrest]; swap; · iexact Hrest
        isplitl [S0]; · iexists Z0; rw [← owns_whole]; iexact S0
        iexists Z1; rw [← owns_whole]; iexact S1
      isplitl [Ho]; · iexact Ho
      isplitl [H0]
      · iexists X0; isplitr
        · ipureintro; trivial
        · iexact H0
      isplitl [H1]
      · iexists X1; isplitr
        · ipureintro; trivial
        · iexact H1
      isplitl [H2]
      · iexists X2; isplitr
        · ipureintro; trivial
        · iexact H2
      isplitl [H3]
      · iexists X3; isplitr
        · ipureintro; trivial
        · iexact H3
      isplitl [H4]
      · iexists X4; isplitr
        · ipureintro; trivial
        · iexact H4
      isplitl [H5]
      · iexists X5; isplitr
        · ipureintro; trivial
        · iexact H5
      isplitl [H6]
      · iexists X6; isplitr
        · ipureintro; trivial
        · iexact H6
      isplitl [H7]
      · iexists X7; isplitr
        · ipureintro; trivial
        · iexact H7
      isplitl [H8]
      · iexists X8; isplitr
        · ipureintro; trivial
        · iexact H8
      isplitl [H9]
      · iexists X9; isplitr
        · ipureintro; trivial
        · iexact H9
      isplitl [H10]
      · iexists X10; isplitr
        · ipureintro; trivial
        · iexact H10
      isplitl [H11]
      · iexists X11; isplitr
        · ipureintro; trivial
        · iexact H11
      isplitl [H12]
      · iexists X12; isplitr
        · ipureintro; trivial
        · iexact H12
      iexists X13; isplitr
      · ipureintro; trivial
      · iexact H13

set_option maxHeartbeats 1200000 in
/-- The body obligation of pipeline 3 at a generic point, in the relational form whose every relation is `True`: from the
    invariant (the scoped buffers no window stages, each whole at some contents, and the generator register), what the core
    owes within its bound, and every window's current staging buffer at the contents `Y w` it is handed, the kernel body at
    the point runs to the same invariant, the same owes term, and every current staging buffer at some contents. The
    windows are conjoined one by one, the body is the printed kernel on the current staging memrefs, and the whole-body run from
    arbitrary contents applies; the invariant's rest and the owes term pass through untouched. -/
theorem bodyObl_4 (c : Dev nD) (ι : Ix) (O : CellTallies nD τ sig Ix) (B : Set (SemLoc sig × Ix)) (t : Fin cfg4.N)
    (Y : (w : Fin cfg4.W) → (cfg4.win w).block.Idx → Elt F (cfg4.win w).elt) :
    (iprop(iprop(Pipeline.scopedRest (Ix := Ix) (Name := Name) (U := U) (Lvl := Lvl) (Val := Elt F) cfg4.spec c ∗ ∃ r, prngReg c r) ∗ Pipeline.owesWithin c O B
        ∗ bigSep Finset.univ fun w : Fin cfg4.W => owns (c : Thread nD τ) ((cfg4.win w).stage (cfg4.slots t w)) fullShare (Y w))
      ⊢ wp frame (wpE (defs₀ (F := F)) Variants.none c none) Set.univ (defs₀ .tc cfg4.body (cfg4.bodyArgs t (cfg4.slots t))) fun _ =>
          iprop(iprop(Pipeline.scopedRest (Ix := Ix) (Name := Name) (U := U) (Lvl := Lvl) (Val := Elt F) cfg4.spec c ∗ ∃ r, prngReg c r) ∗ Pipeline.owesWithin c O B
            ∗ bigSep Finset.univ fun w : Fin cfg4.W => iprop(∃ X, ⌜True⌝ ∗ owns (c : Thread nD τ) ((cfg4.win w).stage (cfg4.slots t w)) fullShare X)) : Prop) := by
    rw [bigSep_W4, bigSep_W4]
    rw [show (defs₀ (F := F) .tc cfg4.body (cfg4.bodyArgs t (cfg4.slots t))) = bodyAt4 (F := F) t from rfl]
    iintro ⟨HΦ, Ho, H0, H1, H2, H3, H4, H5, H6, H7, H8⟩
    iapply ((kernelRun4_A c (grid4.coords t) _ _ _ _ _ _ _ _ _ _ _ _ _ _ _ _ _ _) Set.univ _)
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩⟩
    isplitl [HΦ]; · iexact HΦ
    isplitl [Ho]; · iexact Ho
    isplitl [H0]
    · iexists X0; isplitr
      · ipureintro; trivial
      · iexact H0
    isplitl [H1]
    · iexists X1; isplitr
      · ipureintro; trivial
      · iexact H1
    isplitl [H2]
    · iexists X2; isplitr
      · ipureintro; trivial
      · iexact H2
    isplitl [H3]
    · iexists X3; isplitr
      · ipureintro; trivial
      · iexact H3
    isplitl [H4]
    · iexists X4; isplitr
      · ipureintro; trivial
      · iexact H4
    isplitl [H5]
    · iexists X5; isplitr
      · ipureintro; trivial
      · iexact H5
    isplitl [H6]
    · iexists X6; isplitr
      · ipureintro; trivial
      · iexact H6
    isplitl [H7]
    · iexists X7; isplitr
      · ipureintro; trivial
      · iexact H7
    iexists X8; isplitr
    · ipureintro; trivial
    · iexact H8

/-! ## The library's obligation at the relational data of the region -/

/-- The library's body obligation of pipeline 0 at the relational data that say nothing of any value: the obligation
    above at what those data owe (nothing) within their bound (the recorded set and the loop's own wait pairs). -/
theorem bodyObligation_1 (c : Dev nD) (ι : Ix)
    (A : (w : Fin (pcfg (F := F) 0).W) → Buf (Elt F) (((pcfg (F := F) 0).win w).arr.view.loc (c.tc : Thread nD τ)))
    (B : Set (SemLoc sig × Ix)) :
    (rdOf (Ix := Ix) (Name := Name) (U := U) (Lvl := Lvl) (F := F) 0 c A B).BodyObligation (defs₀ (F := F)) Variants.none ι Set.univ :=
  fun t Y _ => bodyObl_1 c ι 0 (B ∪ (pcfg (F := F) 0).waitPairs ι) t Y

/-- The library's body obligation of pipeline 1 at the relational data that say nothing of any value: the obligation
    above at what those data owe (nothing) within their bound (the recorded set and the loop's own wait pairs). -/
theorem bodyObligation_2 (c : Dev nD) (ι : Ix)
    (A : (w : Fin (pcfg (F := F) 1).W) → Buf (Elt F) (((pcfg (F := F) 1).win w).arr.view.loc (c.tc : Thread nD τ)))
    (B : Set (SemLoc sig × Ix)) :
    (rdOf (Ix := Ix) (Name := Name) (U := U) (Lvl := Lvl) (F := F) 1 c A B).BodyObligation (defs₀ (F := F)) Variants.none ι Set.univ :=
  fun t Y _ => bodyObl_2 c ι 0 (B ∪ (pcfg (F := F) 1).waitPairs ι) t Y

/-- The library's body obligation of pipeline 2 at the relational data that say nothing of any value: the obligation
    above at what those data owe (nothing) within their bound (the recorded set and the loop's own wait pairs). -/
theorem bodyObligation_3 (c : Dev nD) (ι : Ix)
    (A : (w : Fin (pcfg (F := F) 2).W) → Buf (Elt F) (((pcfg (F := F) 2).win w).arr.view.loc (c.tc : Thread nD τ)))
    (B : Set (SemLoc sig × Ix)) :
    (rdOf (Ix := Ix) (Name := Name) (U := U) (Lvl := Lvl) (F := F) 2 c A B).BodyObligation (defs₀ (F := F)) Variants.none ι Set.univ :=
  fun t Y _ => bodyObl_3 c ι 0 (B ∪ (pcfg (F := F) 2).waitPairs ι) t Y

/-- The library's body obligation of pipeline 3 at the relational data that say nothing of any value: the obligation
    above at what those data owe (nothing) within their bound (the recorded set and the loop's own wait pairs). -/
theorem bodyObligation_4 (c : Dev nD) (ι : Ix)
    (A : (w : Fin (pcfg (F := F) 3).W) → Buf (Elt F) (((pcfg (F := F) 3).win w).arr.view.loc (c.tc : Thread nD τ)))
    (B : Set (SemLoc sig × Ix)) :
    (rdOf (Ix := Ix) (Name := Name) (U := U) (Lvl := Lvl) (F := F) 3 c A B).BodyObligation (defs₀ (F := F)) Variants.none ι Set.univ :=
  fun t Y _ => bodyObl_4 c ι 0 (B ∪ (pcfg (F := F) 3).waitPairs ι) t Y

end Cert.KernelIdeal.BodyRun

end
-- ==== Proof.FramesIdeal.lean ====
import proofs.«214388_g48842368090541_cont_8to1c4_19_37_alg».proof.Proof.MainFrameIdeal
import proofs.«214388_g48842368090541_cont_8to1c4_19_37_alg».proof.Proof.FramesGlueIdeal
import proofs.«214388_g48842368090541_cont_8to1c4_19_37_alg».proof.Proof.RegionStepIdeal
import proofs.«214388_g48842368090541_cont_8to1c4_19_37_alg».proof.Proof.BodyOblIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Cert.KernelIdeal.MainShape

variable {F : FTy → Type} [FloatOps F] [∀ e, Nonempty (Elt F e)]

/-- The four pallas_calls' bodies run from any staging contents: the relational proof data's obligation, pipeline by pipeline. -/
theorem hbodyAll : ∀ (p : Fin 4) (c : Dev nD) A B,
    (rdOf (Ix := HIx 1) (Name := ℕ) (U := UU) (Lvl := ℕ) (F := F) p c A B).BodyObligation (defs₀ (F := F)) Variants.none (none : HIx 1) Set.univ
  | ⟨0, _⟩ => fun c A B => Cert.KernelIdeal.BodyRun.bodyObligation_1 c none A B
  | ⟨1, _⟩ => fun c A B => Cert.KernelIdeal.BodyRun.bodyObligation_2 c none A B
  | ⟨2, _⟩ => fun c A B => Cert.KernelIdeal.BodyRun.bodyObligation_3 c none A B
  | ⟨3, _⟩ => fun c A B => Cert.KernelIdeal.BodyRun.bodyObligation_4 c none A B

/-- Each pallas_call, as @main's proof uses it. -/
theorem regStep (p : Fin 4) : RegStep (F := F) Cert.KernelIdeal.outDevRefs adm0 p :=
  fun d Vv W _ k Q => Cert.KernelIdeal.region_step (UU := UU) EP p (hbodyAll p) d Vv W k Q

omit [FloatOps F] [∀ e, Nonempty (Elt F e)] in
/-- No argument array is a result array of a pallas_call. -/
theorem arg_not_out (p : Fin 4) : ∀ b ∈ (argRefs : Finset (DevRef τ sig)), b ∉ Cert.KernelIdeal.outDevRefs p := fun b hb hmem => by
  obtain ⟨w, hw, rfl⟩ := Finset.mem_image.mp hmem
  exact out_not_arg p w (Finset.mem_filter.mp hw).2 hb

end Cert.Proof.KernelIdealSc

namespace Cert.Proof.Parts

open Idealize.ShloMosaic Idealize.SL.Sem

/-- The idealized kernel's frame: under the precondition every weakly fair execution of all its threads terminates without
    a fault and leaves the argument arrays unchanged. -/
theorem frame_ki [Cert.Pre_input_domain.Facts] [Cert.KernelIdeal.Facts] : Cert.frame_KernelIdeal := fun m ρ hpre =>
  Cert.Proof.KernelIdealSc.run_main (F := Ideal) m ρ Cert.KernelIdeal.outDevRefs Cert.Proof.KernelIdealSc.regStep
    Cert.Proof.KernelIdealSc.arg_not_out (Cert.Proof.KernelIdealSc.idxOK_of_pre m hpre)

end Cert.Proof.Parts

end
-- ==== Proof.GatherTaskBits.lean ====
import proofs.«214388_g48842368090541_cont_8to1c4_19_37_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«214388_g48842368090541_cont_8to1c4_19_37_alg».proof.Proof.Gen.Kernel
import proofs.«214388_g48842368090541_cont_8to1c4_19_37_alg».proof.Proof.Gen.Kernel.Skeleton

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch of its gather kernel sees it -/

abbrev ΛP : Labels := Pipeline.Sig Λ₀ (Fin 4) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable {UU : Type} [URA UU] [CountersIn UU]

local notation "𝕄" => MT nD τ sig (HIx 1) (Elt F) ℕ UU ℕ

/-! ## The arrays the gather kernel touches -/

abbrev idxLoc (d : Dev nD) : Loc nD τ sig := (SparseCore.T d).loc main_v6
abbrev bigLoc (d : Dev nD) : Loc nD τ sig := (SparseCore.T d).loc main_v7
abbrev comboLoc (d : Dev nD) : Loc nD τ sig := (SparseCore.T d).loc main_v35
abbrev uoLoc (d : Dev nD) : Loc nD τ sig := (SparseCore.T d).loc main_v36_0
abbrev moLoc (d : Dev nD) : Loc nD τ sig := (SparseCore.T d).loc main_v36_1
abbrev coLoc (d : Dev nD) : Loc nD τ sig := (SparseCore.T d).loc main_v36_2

local notation "idxV" => (Memref.whole Cert.Kernel.main_v6_scv : Memref Cert.Kernel.sig Kind.scVector Space.hbm Cert.Kernel.S49152 EltTy.i32)
local notation "bigV" => (Memref.whole Cert.Kernel.main_v7_scv : Memref Cert.Kernel.sig Kind.scVector Space.hbm Cert.Kernel.S100000x128 EltTy.f32)
local notation "comboV" => (Memref.whole Cert.Kernel.main_v35_scv : Memref Cert.Kernel.sig Kind.scVector Space.hbm Cert.Kernel.S1024x128 EltTy.f32)
local notation "uoV" => (Memref.whole Cert.Kernel.main_v36_0_scv : Memref Cert.Kernel.sig Kind.scVector Space.hbm Cert.Kernel.S16384x128 EltTy.f32)
local notation "moV" => (Memref.whole Cert.Kernel.main_v36_1_scv : Memref Cert.Kernel.sig Kind.scVector Space.hbm Cert.Kernel.S16384x128 EltTy.f32)
local notation "coV" => (Memref.whole Cert.Kernel.main_v36_2_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

section Tile

variable (d : Dev nD) (L : grid0.Coords)

abbrev cV (L : grid0.Coords) : Fin τ.nSC := (L 0).castLE hcore0
abbrev jV (L : grid0.Coords) : Fin τ.nSub := (L 1).castLE hsub0

/-- The block of 512 rows of an output that task `L` writes, as the task addresses it. -/
abbrev orowK (L : grid0.Coords) : Rect S16384x128 := Rect.unit (s := S16384x128) (k0_off2 L) S512x128.size (k0_off2_inb L)
abbrev uoRowK (L : grid0.Coords) : Memref sig .scVector .hbm S512x128 .f32 := (uoV).slice (orowK L) (fun _ => rfl)
abbrev moRowK (L : grid0.Coords) : Memref sig .scVector .hbm S512x128 .f32 := (moV).slice (orowK L) (fun _ => rfl)
abbrev coRowK (L : grid0.Coords) : Memref sig .scVector .hbm S512x128 .f32 := (coV).slice (orowK L) (fun _ => rfl)

end Tile

section Tile2
variable (d : Dev nD) (L : grid0.Coords)

/-- The seven DMA semaphores of a task: the kernel's own scratch semaphore and the six scoped ones of its copies. -/
abbrev taskSems : Finset (SemLoc sig) :=
  {SemLoc.dma cc0_scratch2.sem, SemLoc.dma cc0_scoped0.sem, SemLoc.dma cc0_scoped1.sem, SemLoc.dma cc0_scoped2.sem,
   SemLoc.dma cc0_scoped3.sem, SemLoc.dma cc0_scoped4.sem, SemLoc.dma cc0_scoped5.sem}

abbrev atThr (thr : Thread nD τ) : SemLoc sig ↪ GSem nD τ sig := ⟨fun g => (thr, g), fun _ _ h => (Prod.mk.inj h).2⟩

omit [CountersIn UU] in
theorem taskSems_sub (thr : Thread nD τ) (hk : thr.2.kind = .scVector) : (taskSems.map (atThr thr)) ⊆ ownCells (sig := sig) thr := by
  intro x hx
  obtain ⟨g, hg, rfl⟩ := Finset.mem_map.mp hx
  refine mem_ownCells.mpr ⟨rfl, ?_⟩
  show g.isScoped thr.2.kind = true
  rw [hk]
  exact (by decide : ∀ g ∈ taskSems, g.isScoped .scVector = true) g hg

omit [CountersIn UU] in
theorem ownSems0_V :
    (ownSems0 (V d (cV L) (jV L)) : sProp 𝕄)
      = iprop((semVal (V d (cV L) (jV L), SemLoc.dma cc0_scratch2.sem) 0 ∗ semVal (V d (cV L) (jV L), SemLoc.dma cc0_scoped0.sem) 0
          ∗ semVal (V d (cV L) (jV L), SemLoc.dma cc0_scoped1.sem) 0 ∗ semVal (V d (cV L) (jV L), SemLoc.dma cc0_scoped2.sem) 0
          ∗ semVal (V d (cV L) (jV L), SemLoc.dma cc0_scoped3.sem) 0 ∗ semVal (V d (cV L) (jV L), SemLoc.dma cc0_scoped4.sem) 0
          ∗ semVal (V d (cV L) (jV L), SemLoc.dma cc0_scoped5.sem) 0)
          ∗ bigSep (ownCells (V d (cV L) (jV L)) \ taskSems.map (atThr (V d (cV L) (jV L)))) fun g => semVal g 0) := by
  unfold SparseCore.Cfg.ownSems0
  rw [SparseCore.bigSep_sdiff_split' (taskSems_sub (V d (cV L) (jV L)) rfl), bigSep_map]
  unfold taskSems
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [CountersIn UU] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile2

section InRange
variable [FloatOps F] (d : Dev nD) (L : grid0.Coords)

/-- The three stretches of 512 entries of the index list that task `L` fetches, as the task addresses them. -/
abbrev idxRowK1 (L : grid0.Coords) : Memref sig .scVector .hbm S512 .i32 :=
  (idxV).slice (Rect.unit (s := S49152) (k0_off1 L) S512.size (k0_off1_inb L)) (fun _ => rfl)
abbrev idxRowK2 (L : grid0.Coords) : Memref sig .scVector .hbm S512 .i32 :=
  (idxV).slice (Rect.unit (s := S49152) (k0_off3 L 16384#32) S512.size (k0_off3_inb L 0)) (fun _ => rfl)
abbrev idxRowK3 (L : grid0.Coords) : Memref sig .scVector .hbm S512 .i32 :=
  (idxV).slice (Rect.unit (s := S49152) (k0_off3 L 32768#32) S512.size (k0_off3_inb L 1)) (fun _ => rfl)

omit [FloatOps F] [CountersIn UU] in
theorem L_bounds : (L 0).val < 2 ∧ (L 1).val < 16 := ⟨(L 0).isLt, (L 1).isLt⟩

omit [CountersIn UU] in
/-- Entry `x` of the first stretch is entry `1024·L₁ + 512·L₀ + x` of the list: in its first third. -/
theorem emb1 (x : S512.Idx) : (((idxRowK1 L).view.emb x) 0).val = 1024 * (L 1).val + 512 * (L 0).val + (x 0).val := by
  show (k0_off1 L) 0 + 1 * (x 0).val = _
  rw [k0_off1_eq]; simp
omit [CountersIn UU] in
theorem emb2 (x : S512.Idx) : (((idxRowK2 L).view.emb x) 0).val = 16384 + 1024 * (L 1).val + 512 * (L 0).val + (x 0).val := by
  show (k0_off3 L 16384#32) 0 + 1 * (x 0).val = _
  rw [show (16384#32 : BitVec 32) = BitVec.ofNat 32 (16384 + 16384 * (0 : Fin 2).val) from rfl, k0_off3_eq]; simp; omega
omit [CountersIn UU] in
theorem emb3 (x : S512.Idx) : (((idxRowK3 L).view.emb x) 0).val = 32768 + 1024 * (L 1).val + 512 * (L 0).val + (x 0).val := by
  show (k0_off3 L 32768#32) 0 + 1 * (x 0).val = _
  rw [show (32768#32 : BitVec 32) = BitVec.ofNat 32 (16384 + 16384 * (1 : Fin 2).val) from rfl, k0_off3_eq]; simp; omega

omit [CountersIn UU] in
/-- What a fetch of a stretch leaves in the index scratch reads, entry by entry, as the list at the stretch. -/
theorem read_fetched (off : Fin 1 → Nat) (hoff : ∀ a, off a + S512.size a ≤ S49152.size a) (fi : Buf (Elt F) (idxLoc d))
    (fs : Buf (Elt F) ((V d (cV L) (jV L)).loc cc0_scratch0)) (pay : S512.Idx → Elt F .i32)
    (hpay : pay = ((idxV).slice (Rect.unit (s := S49152) off S512.size hoff) (fun _ => rfl)).view.read (Elt F) fi) (x : S512.Idx) :
    (sV).view.read (Elt F) (View.write (Elt F) (sV).view fs pay Finset.univ) x
      = fi (((idxV).slice (Rect.unit (s := S49152) off S512.size hoff) (fun _ => rfl)).view.emb x) := by
  subst hpay
  rw [View.write_whole_univ]
  simp only [Memref.view_whole, View.read_whole]
  exact (View.read_apply _ _).trans (cast_eq _ _)

end InRange

/-- What the kernel's index list must satisfy for its three gathers to name rows: the first two thirds index
    the table of 100000 rows, the last third the table of 1024 rows. -/
def IdxOK (d : Dev nD) (fi : Buf (Elt F) (idxLoc d)) : Prop :=
  (∀ j : S49152.Idx, (j 0).val < 32768 → (fi j).toNat < 100000) ∧ (∀ j : S49152.Idx, 32768 ≤ (j 0).val → (fi j).toNat < 1024)

section InRange2
variable [FloatOps F] (d : Dev nD) (L : grid0.Coords)

omit [CountersIn UU] in
/-- The first stretch lies in the first third of the list: its entries name rows of the table of 100000 rows. -/
theorem inb1 (fi : Buf (Elt F) (idxLoc d)) (hpre : IdxOK d fi) (fs : Buf (Elt F) ((V d (cV L) (jV L)).loc cc0_scratch0)) (pay : S512.Idx → Elt F .i32)
    (hpay : pay = (idxRowK1 L).view.read (Elt F) fi) :
    ∀ x, ((sV).view.read (Elt F) (View.write (Elt F) (sV).view fs pay Finset.univ) x).toNat < S100000x128.size gathers_S100000x128_S512x128.axis := by
  intro x
  rw [read_fetched d L _ _ fi fs pay hpay x]
  refine hpre.1 _ ?_
  rw [emb1]
  have h := L_bounds L; have hx : (x 0).val < 512 := (x 0).isLt
  omega
omit [CountersIn UU] in
/-- So does the second. -/
theorem inb2 (fi : Buf (Elt F) (idxLoc d)) (hpre : IdxOK d fi) (fs : Buf (Elt F) ((V d (cV L) (jV L)).loc cc0_scratch0)) (pay : S512.Idx → Elt F .i32)
    (hpay : pay = (idxRowK2 L).view.read (Elt F) fi) :
    ∀ x, ((sV).view.read (Elt F) (View.write (Elt F) (sV).view fs pay Finset.univ) x).toNat < S100000x128.size gathers_S100000x128_S512x128.axis := by
  intro x
  rw [read_fetched d L _ _ fi fs pay hpay x]
  refine hpre.1 _ ?_
  rw [emb2]
  have h := L_bounds L; have hx : (x 0).val < 512 := (x 0).isLt
  omega
omit [CountersIn UU] in
/-- The third stretch lies in the last third: its entries name rows of the table of 1024 rows. -/
theorem inb3 (fi : Buf (Elt F) (idxLoc d)) (hpre : IdxOK d fi) (fs : Buf (Elt F) ((V d (cV L) (jV L)).loc cc0_scratch0)) (pay : S512.Idx → Elt F .i32)
    (hpay : pay = (idxRowK3 L).view.read (Elt F) fi) :
    ∀ x, ((sV).view.read (Elt F) (View.write (Elt F) (sV).view fs pay Finset.univ) x).toNat < S1024x128.size gathers_S1024x128_S512x128.axis := by
  intro x
  rw [read_fetched d L _ _ fi fs pay hpay x]
  refine hpre.2 _ ?_
  rw [emb3]
  omega

end InRange2

section Respell
variable (d : Dev nD) (L : grid0.Coords)
omit [CountersIn UU] in
theorem pts_sV_set (f : Buf (Elt F) ((V d (cV L) (jV L)).loc cc0_scratch0)) :
    ((sV).view.loc (V d (cV L) (jV L)) ↦{fullShare} f : sProp 𝕄) = (sV).view.loc (V d (cV L) (jV L)) ↦[(sV).view.set]{fullShare} f := by
  rw [View.set_whole]
omit [CountersIn UU] in
theorem pts_rV_set (f : Buf (Elt F) ((V d (cV L) (jV L)).loc cc0_scratch1)) :
    ((rV).view.loc (V d (cV L) (jV L)) ↦{fullShare} f : sProp 𝕄) = (rV).view.loc (V d (cV L) (jV L)) ↦[(rV).view.set]{fullShare} f := by
  rw [View.set_whole]
end Respell

section Tile3
variable [FloatOps F] (d : Dev nD) (L : grid0.Coords)

abbrev tileOperands (qi qb qc : PosShare TreeShare) (fi : Buf (Elt F) (idxLoc d)) (fb : Buf (Elt F) (bigLoc d)) (fc : Buf (Elt F) (comboLoc d)) : sProp 𝕄 :=
  iprop((idxLoc d ↦{qi} fi) ∗ (bigLoc d ↦{qb} fb) ∗ (comboLoc d ↦{qc} fc)
    ∗ (∃ f, uoLoc d ↦[(uoRowK L).view.set]{fullShare} f) ∗ (∃ f, moLoc d ↦[(moRowK L).view.set]{fullShare} f)
    ∗ (∃ f, coLoc d ↦[(coRowK L).view.set]{fullShare} f))

set_option maxHeartbeats 4000000 in
theorem tile_body [Infinite ℕ] [(countersEmb : UEmb Counters 𝕄).LandsIn (upEmb : UEmb _ 𝕄)] (hF : (K (F := F)).Facts)
    (qi qb qc : PosShare TreeShare) (fi : Buf (Elt F) (idxLoc d)) (fb : Buf (Elt F) (bigLoc d)) (fc : Buf (Elt F) (comboLoc d))
    (hpre : IdxOK d fi)
    (O : CellTallies nD τ sig (HIx 1)) (W : Waits sig (HIx 1)) (hO : ∀ g, O g none = 0) :
    iprop(levAts (K (F := F)).L (K (F := F)).lev ∗ emp
        ∗ tileOperands (UU := UU) d L qi qb qc fi fb fc
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L idxV (Memref.isWhole_whole _) bigV (Memref.isWhole_whole _) comboV (Memref.isWhole_whole _)
            uoV (Memref.isWhole_whole _) moV (Memref.isWhole_whole _) coV (Memref.isWhole_whole _)
            sV (Memref.isWhole_whole _) rV (Memref.isWhole_whole _) cc0_scratch2 cc0_scoped0 cc0_scoped1 cc0_scoped2 cc0_scoped3 cc0_scoped4 cc0_scoped5)
          fun _ => iprop(tileOperands (UU := UU) d L qi qb qc fi fb fc
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold tileOperands
  iintro ⟨#Hlv, -, ⟨Hi, Hb, Hc, ⟨%fu, Hu⟩, ⟨%fm, Hm⟩, ⟨%fco, Hco⟩⟩, ⟨⟨%fs, Hs⟩, ⟨%fr, Hr⟩, Hbufs⟩, ⟨⟨Hsem, HsA, HsB, HsC, HsD, HsE, HsF⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (idxLoc d ↦{qi} fi : sProp 𝕄) = (idxV).view.loc (V d (cV L) (jV L)) ↦{qi} fi from rfl)) $$ Hi
  ihave Hb' := (Entails.of_eq (show (bigLoc d ↦{qb} fb : sProp 𝕄) = (bigV).view.loc (V d (cV L) (jV L)) ↦{qb} fb from rfl)) $$ Hb
  ihave Hc' := (Entails.of_eq (show (comboLoc d ↦{qc} fc : sProp 𝕄) = (comboV).view.loc (V d (cV L) (jV L)) ↦{qc} fc from rfl)) $$ Hc
  ihave Hu' := (Entails.of_eq (show (uoLoc d ↦[(uoRowK L).view.set]{fullShare} fu : sProp 𝕄) = (uoRowK L).view.loc (V d (cV L) (jV L)) ↦[(uoRowK L).view.set]{fullShare} fu from rfl)) $$ Hu
  ihave Hm' := (Entails.of_eq (show (moLoc d ↦[(moRowK L).view.set]{fullShare} fm : sProp 𝕄) = (moRowK L).view.loc (V d (cV L) (jV L)) ↦[(moRowK L).view.set]{fullShare} fm from rfl)) $$ Hm
  ihave Hco' := (Entails.of_eq (show (coLoc d ↦[(coRowK L).view.set]{fullShare} fco : sProp 𝕄) = (coRowK L).view.loc (V d (cV L) (jV L)) ↦[(coRowK L).view.set]{fullShare} fco from rfl)) $$ Hco
  ihave Hs' := (Entails.of_eq (show ((V d (cV L) (jV L)).loc cc0_scratch0 ↦{fullShare} fs : sProp 𝕄) = (sV).view.loc (V d (cV L) (jV L)) ↦{fullShare} fs from rfl)) $$ Hs
  ihave Hr' := (Entails.of_eq (show ((V d (cV L) (jV L)).loc cc0_scratch1 ↦{fullShare} fr : sProp 𝕄) = (rV).view.loc (V d (cV L) (jV L)) ↦{fullShare} fr from rfl)) $$ Hr
  have hN1 : ∀ h : S100000x128.Gathers 0 S512x128, ∑ j, ((rV).slice (S512x128.rowRect h.axis' j) (S512x128.stride_rowRect h.axis' j)).view.dmaCredit
      = (rV).view.dmaCredit := by decide
  have hN3 : ∀ h : S1024x128.Gathers 0 S512x128, ∑ j, ((rV).slice (S512x128.rowRect h.axis' j) (S512x128.stride_rowRect h.axis' j)).view.dmaCredit
      = (rV).view.dmaCredit := by decide
  sl_exec
  -- the first gather: rows of the wide table named by the first stretch of the list, then out to the first result
  ihave Hts := (pointsTo_split_subset (q := qb) (f := fb) (S := Finset.univ) (Finset.subset_univ ((bigV).slice (Rect.unit (s := S100000x128) ![0, 0] S100000x128.size inb_S100000x128_S100000x128_0_0) (fun _ => rfl)).view.set)).1 $$ Hb'
  icases Hts with ⟨Hts, Htr⟩
  ihave Hr'' := (Entails.of_eq (pts_rV_set (F := F) (UU := UU) d L _)) $$ Hr'
  ihave Hs'' := (Entails.of_eq (pts_sV_set (F := F) (UU := UU) d L _)) $$ Hs'
  iapply (SparseCore.wp_indirectGatherLocal countersEmb 𝒱₀ (V d (cV L) (jV L)) none (hg := gathers_S100000x128_S512x128) (default : HIx 1)
      (rV).view.dmaCredit (hN1 _) (by decide) (inb1 d L fi hpre _ _ rfl)) $$ [Hts Hr'' Hs'' Hsem]
  · isplitl [Hts]; · iexact Hts
    isplitl [Hr'']; · iexact Hr''
    isplitl [Hs'']; · iexact Hs''
    iexact Hsem
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, Hsem, HO⟩
  ihave Hb' := (pointsTo_split_subset (q := qb) (f := fb) (S := Finset.univ) (Finset.subset_univ ((bigV).slice (Rect.unit (s := S100000x128) ![0, 0] S100000x128.size inb_S100000x128_S100000x128_0_0) (fun _ => rfl)).view.set)).2 $$ [Hts Htr]; · isplitl [Hts] <;> iassumption
  ihave Hr' := (Entails.of_eq (pts_rV_set (F := F) (UU := UU) d L _).symm) $$ Hr'
  ihave Hs' := (Entails.of_eq (pts_sV_set (F := F) (UU := UU) d L _).symm) $$ Hs'
  sl_exec
  -- the second gather: rows of the wide table named by the second stretch, then out to the second result
  ihave Hts := (pointsTo_split_subset (q := qb) (f := fb) (S := Finset.univ) (Finset.subset_univ ((bigV).slice (Rect.unit (s := S100000x128) ![0, 0] S100000x128.size inb_S100000x128_S100000x128_0_0) (fun _ => rfl)).view.set)).1 $$ Hb'
  icases Hts with ⟨Hts, Htr⟩
  ihave Hr'' := (Entails.of_eq (pts_rV_set (F := F) (UU := UU) d L _)) $$ Hr'
  ihave Hs'' := (Entails.of_eq (pts_sV_set (F := F) (UU := UU) d L _)) $$ Hs'
  iapply (SparseCore.wp_indirectGatherLocal countersEmb 𝒱₀ (V d (cV L) (jV L)) none (hg := gathers_S100000x128_S512x128) (default : HIx 1)
      (rV).view.dmaCredit (hN1 _) (by decide) (inb2 d L fi hpre _ _ rfl)) $$ [Hts Hr'' Hs'' Hsem]
  · isplitl [Hts]; · iexact Hts
    isplitl [Hr'']; · iexact Hr''
    isplitl [Hs'']; · iexact Hs''
    iexact Hsem
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, Hsem, HO⟩
  ihave Hb' := (pointsTo_split_subset (q := qb) (f := fb) (S := Finset.univ) (Finset.subset_univ ((bigV).slice (Rect.unit (s := S100000x128) ![0, 0] S100000x128.size inb_S100000x128_S100000x128_0_0) (fun _ => rfl)).view.set)).2 $$ [Hts Htr]; · isplitl [Hts] <;> iassumption
  ihave Hr' := (Entails.of_eq (pts_rV_set (F := F) (UU := UU) d L _).symm) $$ Hr'
  ihave Hs' := (Entails.of_eq (pts_sV_set (F := F) (UU := UU) d L _).symm) $$ Hs'
  sl_exec
  -- the third gather: rows of the small table named by the third stretch, then out to the third result
  ihave Hts := (pointsTo_split_subset (q := qc) (f := fc) (S := Finset.univ) (Finset.subset_univ ((comboV).slice (Rect.unit (s := S1024x128) ![0, 0] S1024x128.size inb_S1024x128_S1024x128_0_0) (fun _ => rfl)).view.set)).1 $$ Hc'
  icases Hts with ⟨Hts, Htr⟩
  ihave Hr'' := (Entails.of_eq (pts_rV_set (F := F) (UU := UU) d L _)) $$ Hr'
  ihave Hs'' := (Entails.of_eq (pts_sV_set (F := F) (UU := UU) d L _)) $$ Hs'
  iapply (SparseCore.wp_indirectGatherLocal countersEmb 𝒱₀ (V d (cV L) (jV L)) none (hg := gathers_S1024x128_S512x128) (default : HIx 1)
      (rV).view.dmaCredit (hN3 _) (by decide) (inb3 d L fi hpre _ _ rfl)) $$ [Hts Hr'' Hs'' Hsem]
  · isplitl [Hts]; · iexact Hts
    isplitl [Hr'']; · iexact Hr''
    isplitl [Hs'']; · iexact Hs''
    iexact Hsem
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, Hsem, HO⟩
  ihave Hc' := (pointsTo_split_subset (q := qc) (f := fc) (S := Finset.univ) (Finset.subset_univ ((comboV).slice (Rect.unit (s := S1024x128) ![0, 0] S1024x128.size inb_S1024x128_S1024x128_0_0) (fun _ => rfl)).view.set)).2 $$ [Hts Htr]; · isplitl [Hts] <;> iassumption
  ihave Hr' := (Entails.of_eq (pts_rV_set (F := F) (UU := UU) d L _).symm) $$ Hr'
  ihave Hs' := (Entails.of_eq (pts_sV_set (F := F) (UU := UU) d L _).symm) $$ Hs'
  sl_exec
  sl_step
  isplitl [Hi' Hb' Hc' Hu' Hm' Hco']
  · isplitl [Hi']; · iexact Hi'
    isplitl [Hb']; · iexact Hb'
    isplitl [Hc']; · iexact Hc'
    isplitl [Hu']; · iexists _; iexact Hu'
    isplitl [Hm']; · iexists _; iexact Hm'
    iexists _; iexact Hco'
  isplitl [Hs' Hr' Hbufs]
  · isplitl [Hs']; · iexists _; iexact Hs'
    isplitl [Hr']; · iexists _; iexact Hr'
    iexact Hbufs
  isplitl [Hsem HsA HsB HsC HsD HsE HsF Hsems]
  · isplitl [Hsem HsA HsB HsC HsD HsE HsF]
    · isplitl [Hsem]; · iexact Hsem
      isplitl [HsA]; · iexact HsA
      isplitl [HsB]; · iexact HsB
      isplitl [HsC]; · iexact HsC
      isplitl [HsD]; · iexact HsD
      isplitl [HsE]; · iexact HsE
      iexact HsF
    iexact Hsems
  iexists _; isplitr
  swap; · iexact HO
  ipureintro; intro p hp
  repeat (rcases Finset.mem_insert.mp hp with hp | hp; · exact .inr (hp ▸ rfl))
  exact .inl hp

end Tile3

end Cert.Proof.KernelSc
end
-- ==== Proof.GatherLaunchBits.lean ====
import proofs.«214388_g48842368090541_cont_8to1c4_19_37_alg».proof.Proof.GatherTaskBits

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 1) (Elt F) ℕ UU ℕ

/-! ## What the call's handshakes carry

Each task is handed a read share of the index list and of the two tables, and the block of 512 rows of each
result that it writes; it hands the same back, the blocks at what it wrote. A SparseCore's start carries its
sixteen tasks' operands at once. -/

def coordsV (c : Fin (grid0.bound 0)) (s : Fin (grid0.bound 1)) : grid0.Coords :=
  fun | 0 => c | 1 => s | ⟨_ + 2, h⟩ => absurd h (Nat.not_lt.2 (Nat.le_add_left _ _))

/-- The coordinates of task `i` of SparseCore `c` of the call's grid. -/
abbrev Lof (c : Fin ((K (F := F)).nCore 0)) (i : Fin ((K (F := F)).nSub 0)) : grid0.Coords :=
  coordsV ⟨((K (F := F)).core 0 c).val, c.isLt⟩ ⟨((K (F := F)).sub 0 i).val, i.isLt⟩

/-- The read share of task `(c, i)`: the full share cut in two, the half cut in sixteen. -/
abbrev shr (c : Fin ((K (F := F)).nCore 0)) (i : Fin ((K (F := F)).nSub 0)) : PosShare TreeShare :=
  pieceOf (pieceOf fullShare 2 (by decide) (Fin.cast (nCore_zero (F := F)) c)) 16 (by decide) (Fin.cast (nSub_zero (F := F)) i)

section Pay
variable [FloatOps F]
variable (fi : (d : Dev nD) → Buf (Elt F) (idxLoc d)) (fb : (d : Dev nD) → Buf (Elt F) (bigLoc d)) (fc : (d : Dev nD) → Buf (Elt F) (comboLoc d))

abbrev goOf (d : Dev nD) (c : Fin ((K (F := F)).nCore 0)) (i : Fin ((K (F := F)).nSub 0)) : sProp 𝕄 :=
  tileOperands (UU := UU) d (Lof c i) (shr c i) (shr c i) (shr c i) (fi d) (fb d) (fc d)

def P : (K (F := F)).Pay (nD := nD) (Val := Elt F) (Name := ℕ) (U := UU) where
  st := fun q d c => match q with | 0 => bigSep Finset.univ fun i => goOf (UU := UU) fi fb fc d c i
  dn := fun q d c => match q with | 0 => bigSep Finset.univ fun i => goOf (UU := UU) fi fb fc d c i
  go := fun q d c i => match q with | 0 => goOf (UU := UU) fi fb fc d c i
  td := fun q d c i => match q with | 0 => goOf (UU := UU) fi fb fc d c i
  x := fun _ _ => iprop(emp)

set_option synthInstance.maxHeartbeats 2000000 in
set_option maxHeartbeats 2000000 in
instance P_storable : (P (UU := UU) fi fb fc).IsStorable where
  st q d c := match q with
    | 0 => (inferInstance : BI.Storable (upEmb : UEmb _ 𝕄) (bigSep Finset.univ fun i => goOf (UU := UU) fi fb fc d c i))
  dn q d c := match q with
    | 0 => (inferInstance : BI.Storable (upEmb : UEmb _ 𝕄) (bigSep Finset.univ fun i => goOf (UU := UU) fi fb fc d c i))
  go q d c i := match q with
    | 0 => (inferInstance : BI.Storable (upEmb : UEmb _ 𝕄) (goOf (UU := UU) fi fb fc d c i))
  td q d c i := match q with
    | 0 => (inferInstance : BI.Storable (upEmb : UEmb _ 𝕄) (goOf (UU := UU) fi fb fc d c i))

/-- A SparseCore's operands are its tasks' operands, and its results theirs. -/
theorem vecSplit : (K (F := F)).VecSplit' (P (UU := UU) fi fb fc) 0 := by
  intro d c
  show (bigSep Finset.univ fun i => goOf (UU := UU) fi fb fc d c i) ⊢ |={Set.univ}=> iprop(
      (bigSep Finset.univ fun i => goOf (UU := UU) fi fb fc d c i)
      ∗ ((bigSep Finset.univ fun i => goOf (UU := UU) fi fb fc d c i) -∗ (bigSep Finset.univ fun i => goOf (UU := UU) fi fb fc d c i)))
  iintro H; imodintro
  isplitl [H]; · iexact H
  iintro H; iexact H

end Pay

/-! ## The task's obligation -/

local notation "idxV" => (Memref.whole Cert.Kernel.main_v6_scv : Memref Cert.Kernel.sig Kind.scVector Space.hbm Cert.Kernel.S49152 EltTy.i32)
local notation "bigV" => (Memref.whole Cert.Kernel.main_v7_scv : Memref Cert.Kernel.sig Kind.scVector Space.hbm Cert.Kernel.S100000x128 EltTy.f32)
local notation "comboV" => (Memref.whole Cert.Kernel.main_v35_scv : Memref Cert.Kernel.sig Kind.scVector Space.hbm Cert.Kernel.S1024x128 EltTy.f32)
local notation "uoV" => (Memref.whole Cert.Kernel.main_v36_0_scv : Memref Cert.Kernel.sig Kind.scVector Space.hbm Cert.Kernel.S16384x128 EltTy.f32)
local notation "moV" => (Memref.whole Cert.Kernel.main_v36_1_scv : Memref Cert.Kernel.sig Kind.scVector Space.hbm Cert.Kernel.S16384x128 EltTy.f32)
local notation "coV" => (Memref.whole Cert.Kernel.main_v36_2_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

section Obl
variable [FloatOps F]
variable (fi : (d : Dev nD) → Buf (Elt F) (idxLoc d)) (fb : (d : Dev nD) → Buf (Elt F) (bigLoc d)) (fc : (d : Dev nD) → Buf (Elt F) (comboLoc d))

theorem defs₀_vector (c : Fin τ.nSC) (s : Fin τ.nSub) :
    defs₀ (F := F) (.scVector c s) 0 ()
      = SparseCore.onTile hcore0 hsub0 (fun c s => cc0_body (coordsV c s)
          idxV (Memref.isWhole_whole _) bigV (Memref.isWhole_whole _) comboV (Memref.isWhole_whole _)
          uoV (Memref.isWhole_whole _) moV (Memref.isWhole_whole _) coV (Memref.isWhole_whole _)
          sV (Memref.isWhole_whole _) rV (Memref.isWhole_whole _) cc0_scratch2 cc0_scoped0 cc0_scoped1 cc0_scoped2 cc0_scoped3 cc0_scoped4 cc0_scoped5) ⟨⟩ c s := rfl

omit [FloatOps F] [CountersIn UU] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [(countersEmb : UEmb Counters 𝕄).LandsIn (upEmb : UEmb _ 𝕄)] (hF : (K (F := F)).Facts) (hpre : ∀ d, IdxOK d (fi d)) :
    (K (F := F)).TileObl (D (F := F)) 𝒱 (P (UU := UU) fi fb fc) v₀ 0 := by
  intro d c i O W hO _ _
  simp only [show (P (UU := UU) fi fb fc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (shr c i) (shr c i) (shr c i) (fi d) (fb d) (fc d) (hpre d) O W hO).trans (wp_mono frame _ _ fun _ => obl_post)

end Obl

end Cert.Proof.KernelSc

end
-- ==== Proof.GatherSplitBits.lean ====
import proofs.«214388_g48842368090541_cont_8to1c4_19_37_alg».proof.Proof.GatherLaunchBits

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 1) (Elt F) ℕ UU ℕ

local notation "uoV" => (Memref.whole Cert.Kernel.main_v36_0_scv : Memref Cert.Kernel.sig Kind.scVector Space.hbm Cert.Kernel.S16384x128 EltTy.f32)
local notation "moV" => (Memref.whole Cert.Kernel.main_v36_1_scv : Memref Cert.Kernel.sig Kind.scVector Space.hbm Cert.Kernel.S16384x128 EltTy.f32)
local notation "coV" => (Memref.whole Cert.Kernel.main_v36_2_scv : Memref Cert.Kernel.sig Kind.scVector Space.hbm Cert.Kernel.S16384x128 EltTy.f32)

/-! ## The thirty-two blocks of a result

Task `(c, i)` writes rows `1024·i + 512·c … + 511` of each result: block `2·i + c` of the cut of the 16384 rows
into 32 blocks of 512. The blocks are pairwise disjoint and cover the array, so a result held whole is its
blocks held one by one, and back. -/

theorem odiv : 32 ∣ S16384x128.size 0 := ⟨512, rfl⟩

/-- The number of the block that the task at coordinates `L` writes. -/
def widx (L : grid0.Coords) : Fin 32 := ⟨2 * (L 1).val + (L 0).val, by have h := L_bounds L; omega⟩

omit [CountersIn UU] in
theorem orowK_eq (L : grid0.Coords) : orowK L = Rect.part (s := S16384x128) (a₀ := 0) odiv (widx L) := by
  unfold orowK Rect.part Rect.block
  congr 1 <;> funext a
  · rw [k0_off2_eq]
    match a with
    | 0 => simp [Shape.partIx, Shape.partSize, widx]; omega
    | 1 => simp [Shape.partIx, Shape.partSize]
  · match a with
    | 0 => simp [Shape.partSize]
    | 1 => simp [Shape.partSize]

/-- The set of elements of a result that the task at `L` writes. -/
abbrev rowSet (L : grid0.Coords) : Finset S16384x128.Idx := (uoRowK L).view.set

omit [CountersIn UU] in
theorem rowSet_eq (L : grid0.Coords) : rowSet L = (Rect.part (s := S16384x128) (a₀ := 0) odiv (widx L)).set := by
  show ((View.whole (main_v36_0_scv : Ref sig .scVector)).slice (orowK L)).set = _
  rw [View.set_slice, orowK_eq]; exact Finset.map_refl
omit [CountersIn UU] in
theorem rowSet_mo (L : grid0.Coords) : (moRowK L).view.set = rowSet L := by
  show ((View.whole (main_v36_1_scv : Ref sig .scVector)).slice (orowK L)).set = ((View.whole (main_v36_0_scv : Ref sig .scVector)).slice (orowK L)).set
  rw [View.set_slice, View.set_slice]; rfl
omit [CountersIn UU] in
theorem rowSet_co (L : grid0.Coords) : (coRowK L).view.set = rowSet L := by
  show ((View.whole (main_v36_2_scv : Ref sig .scVector)).slice (orowK L)).set = ((View.whole (main_v36_0_scv : Ref sig .scVector)).slice (orowK L)).set
  rw [View.set_slice, View.set_slice]; rfl

section Blocks

/-- A task of the call, by its SparseCore and its number. -/
abbrev TaskIx : Type := Fin ((K (F := F)).nCore 0) × Fin ((K (F := F)).nSub 0)
abbrev Lci (ci : TaskIx (F := F)) : grid0.Coords := Lof ci.1 ci.2

omit [CountersIn UU] in
theorem widx_Lci (ci : TaskIx (F := F)) : (widx (Lci ci)).val = 2 * ci.2.val + ci.1.val := rfl

omit [CountersIn UU] in
theorem rows_disjoint : ∀ ci ∈ (Finset.univ : Finset (TaskIx (F := F))), ∀ ci' ∈ (Finset.univ : Finset (TaskIx (F := F))), ci ≠ ci' →
    Disjoint (rowSet (Lci ci)) (rowSet (Lci ci')) := by
  intro ci _ ci' _ h
  rw [rowSet_eq, rowSet_eq]
  refine Rect.part_disjoint odiv fun e => h ?_
  have e' : 2 * ci.2.val + ci.1.val = 2 * ci'.2.val + ci'.1.val := by
    have := congrArg Fin.val e; rwa [widx_Lci, widx_Lci] at this
  have hc : ci.1.val < 2 := ci.1.isLt
  have hc' : ci'.1.val < 2 := ci'.1.isLt
  exact Prod.ext (Fin.ext (by omega)) (Fin.ext (by omega))

omit [CountersIn UU] in
theorem rows_cover : (Finset.univ : Finset (TaskIx (F := F))).biUnion (fun ci => rowSet (Lci ci)) = Finset.univ := by
  ext y
  simp only [Finset.mem_biUnion, Finset.mem_univ, true_and, iff_true]
  obtain ⟨w, hw⟩ := Rect.exists_mem_part odiv y
  have hw32 : w.val < 32 := w.isLt
  refine ⟨(⟨w.val % 2, Nat.mod_lt _ (by decide)⟩, ⟨w.val / 2, by show w.val / 2 < 16; omega⟩), ?_⟩
  rw [rowSet_eq]
  have e : widx (Lci (F := F) (⟨w.val % 2, Nat.mod_lt _ (by decide)⟩, ⟨w.val / 2, by show w.val / 2 < 16; omega⟩)) = w :=
    Fin.ext (by rw [widx_Lci]; show 2 * (w.val / 2) + w.val % 2 = w.val; omega)
  rw [e]; exact hw

end Blocks

section Whole
variable [FloatOps F]

omit [CountersIn UU] in
theorem uo_blocks (d : Dev nD) (f : Buf (Elt F) (uoLoc d)) :
    (uoLoc d ↦{fullShare} f : sProp 𝕄) = bigSep Finset.univ fun ci : TaskIx (F := F) => uoLoc d ↦[rowSet (Lci ci)]{fullShare} f := by
  rw [← pointsTo_biUnion Finset.univ (ℓ := uoLoc d) (fun ci : TaskIx (F := F) => rowSet (Lci ci)) rows_disjoint, rows_cover]; try rfl

omit [CountersIn UU] in
theorem uo_split (d : Dev nD) :
    (iprop(∃ f, uoLoc d ↦{fullShare} f) : sProp 𝕄) ⊢ bigSep Finset.univ fun ci : TaskIx (F := F) => iprop(∃ f, uoLoc d ↦[rowSet (Lci ci)]{fullShare} f) :=
  exists_elim fun f => (Entails.of_eq (uo_blocks d f)).trans (bigSep_mono fun ci _ => exists_intro (Φ := fun f => (uoLoc d ↦[rowSet (Lci ci)]{fullShare} f : sProp 𝕄)) f)

omit [CountersIn UU] in
set_option maxRecDepth 4096 in
theorem uo_join (d : Dev nD) :
    (bigSep Finset.univ fun ci : TaskIx (F := F) => iprop(∃ f, uoLoc d ↦[rowSet (Lci ci)]{fullShare} f)) ⊢ (iprop(∃ f, uoLoc d ↦{fullShare} f) : sProp 𝕄) := by
  refine (bigSep_exists_pi Finset.univ (fun (ci : TaskIx (F := F)) (f : Buf (Elt F) (uoLoc d)) => (uoLoc d ↦[rowSet (Lci ci)]{fullShare} f : sProp 𝕄))).trans ?_
  iintro ⟨%fs, H⟩
  ihave H' := (pointsTo_biUnion_join (ℓ := uoLoc d) (q := fullShare) (Val := Elt F) Finset.univ (fun ci : TaskIx (F := F) => rowSet (Lci ci)) fs
    (fs (⟨0, show 0 < 2 by decide⟩, ⟨0, show 0 < 16 by decide⟩)) rows_disjoint) $$ H
  icases H' with ⟨%g, -, Hg⟩
  rw [rows_cover]
  iexists g; iexact Hg

omit [CountersIn UU] in
theorem mo_blocks (d : Dev nD) (f : Buf (Elt F) (moLoc d)) :
    (moLoc d ↦{fullShare} f : sProp 𝕄) = bigSep Finset.univ fun ci : TaskIx (F := F) => moLoc d ↦[rowSet (Lci ci)]{fullShare} f := by
  rw [← pointsTo_biUnion Finset.univ (ℓ := moLoc d) (fun ci : TaskIx (F := F) => rowSet (Lci ci)) rows_disjoint, rows_cover]; try rfl

omit [CountersIn UU] in
theorem mo_split (d : Dev nD) :
    (iprop(∃ f, moLoc d ↦{fullShare} f) : sProp 𝕄) ⊢ bigSep Finset.univ fun ci : TaskIx (F := F) => iprop(∃ f, moLoc d ↦[rowSet (Lci ci)]{fullShare} f) :=
  exists_elim fun f => (Entails.of_eq (mo_blocks d f)).trans (bigSep_mono fun ci _ => exists_intro (Φ := fun f => (moLoc d ↦[rowSet (Lci ci)]{fullShare} f : sProp 𝕄)) f)

omit [CountersIn UU] in
set_option maxRecDepth 4096 in
theorem mo_join (d : Dev nD) :
    (bigSep Finset.univ fun ci : TaskIx (F := F) => iprop(∃ f, moLoc d ↦[rowSet (Lci ci)]{fullShare} f)) ⊢ (iprop(∃ f, moLoc d ↦{fullShare} f) : sProp 𝕄) := by
  refine (bigSep_exists_pi Finset.univ (fun (ci : TaskIx (F := F)) (f : Buf (Elt F) (moLoc d)) => (moLoc d ↦[rowSet (Lci ci)]{fullShare} f : sProp 𝕄))).trans ?_
  iintro ⟨%fs, H⟩
  ihave H' := (pointsTo_biUnion_join (ℓ := moLoc d) (q := fullShare) (Val := Elt F) Finset.univ (fun ci : TaskIx (F := F) => rowSet (Lci ci)) fs
    (fs (⟨0, show 0 < 2 by decide⟩, ⟨0, show 0 < 16 by decide⟩)) rows_disjoint) $$ H
  icases H' with ⟨%g, -, Hg⟩
  rw [rows_cover]
  iexists g; iexact Hg

omit [CountersIn UU] in
theorem co_blocks (d : Dev nD) (f : Buf (Elt F) (coLoc d)) :
    (coLoc d ↦{fullShare} f : sProp 𝕄) = bigSep Finset.univ fun ci : TaskIx (F := F) => coLoc d ↦[rowSet (Lci ci)]{fullShare} f := by
  rw [← pointsTo_biUnion Finset.univ (ℓ := coLoc d) (fun ci : TaskIx (F := F) => rowSet (Lci ci)) rows_disjoint, rows_cover]; try rfl

omit [CountersIn UU] in
theorem co_split (d : Dev nD) :
    (iprop(∃ f, coLoc d ↦{fullShare} f) : sProp 𝕄) ⊢ bigSep Finset.univ fun ci : TaskIx (F := F) => iprop(∃ f, coLoc d ↦[rowSet (Lci ci)]{fullShare} f) :=
  exists_elim fun f => (Entails.of_eq (co_blocks d f)).trans (bigSep_mono fun ci _ => exists_intro (Φ := fun f => (coLoc d ↦[rowSet (Lci ci)]{fullShare} f : sProp 𝕄)) f)

omit [CountersIn UU] in
set_option maxRecDepth 4096 in
theorem co_join (d : Dev nD) :
    (bigSep Finset.univ fun ci : TaskIx (F := F) => iprop(∃ f, coLoc d ↦[rowSet (Lci ci)]{fullShare} f)) ⊢ (iprop(∃ f, coLoc d ↦{fullShare} f) : sProp 𝕄) := by
  refine (bigSep_exists_pi Finset.univ (fun (ci : TaskIx (F := F)) (f : Buf (Elt F) (coLoc d)) => (coLoc d ↦[rowSet (Lci ci)]{fullShare} f : sProp 𝕄))).trans ?_
  iintro ⟨%fs, H⟩
  ihave H' := (pointsTo_biUnion_join (ℓ := coLoc d) (q := fullShare) (Val := Elt F) Finset.univ (fun ci : TaskIx (F := F) => rowSet (Lci ci)) fs
    (fs (⟨0, show 0 < 2 by decide⟩, ⟨0, show 0 < 16 by decide⟩)) rows_disjoint) $$ H
  icases H' with ⟨%g, -, Hg⟩
  rw [rows_cover]
  iexists g; iexact Hg

omit [CountersIn UU] in
/-- A buffer held whole at the full share is held at the tasks' read shares at once. -/
theorem shares_eq (ℓ : Loc nD τ sig) (f : Buf (Elt F) ℓ) :
    (ℓ ↦{fullShare} f : sProp 𝕄) = bigSep Finset.univ fun ci : TaskIx (F := F) => ℓ ↦{shr ci.1 ci.2} f := by
  rw [bigSep_univ_prod]
  have h1 : ∀ c : Fin ((K (F := F)).nCore 0), (ℓ ↦{pieceOf fullShare 2 (by decide) (Fin.cast (nCore_zero (F := F)) c)} f : sProp 𝕄)
      = bigSep Finset.univ fun i : Fin ((K (F := F)).nSub 0) => ℓ ↦{shr c i} f := fun c =>
    pointsTo_piecesOf Finset.univ f (show 0 < 16 by decide) _
  exact (pointsTo_piecesOf Finset.univ f (show 0 < 2 by decide) fullShare).trans (bigSep_congr fun c _ => h1 c)

end Whole

section Tasks
variable [FloatOps F]
variable (fi : (d : Dev nD) → Buf (Elt F) (idxLoc d)) (fb : (d : Dev nD) → Buf (Elt F) (bigLoc d)) (fc : (d : Dev nD) → Buf (Elt F) (comboLoc d))

/-- What the call takes from the TensorCore on one device: the index list and the two tables whole, read-only, and the
    three results whole at whatever they hold. -/
abbrev wholeOperands (d : Dev nD) : sProp 𝕄 :=
  iprop((idxLoc d ↦{fullShare} fi d) ∗ (bigLoc d ↦{fullShare} fb d) ∗ (comboLoc d ↦{fullShare} fc d)
    ∗ (∃ f, uoLoc d ↦{fullShare} f) ∗ (∃ f, moLoc d ↦{fullShare} f) ∗ (∃ f, coLoc d ↦{fullShare} f))

omit [CountersIn UU] in
theorem tasks_eq (d : Dev nD) :
    (bigSep Finset.univ fun ci : TaskIx (F := F) => goOf (UU := UU) fi fb fc d ci.1 ci.2)
      = iprop((bigSep Finset.univ fun ci : TaskIx (F := F) => idxLoc d ↦{shr ci.1 ci.2} fi d)
        ∗ (bigSep Finset.univ fun ci : TaskIx (F := F) => bigLoc d ↦{shr ci.1 ci.2} fb d)
        ∗ (bigSep Finset.univ fun ci : TaskIx (F := F) => comboLoc d ↦{shr ci.1 ci.2} fc d)
        ∗ (bigSep Finset.univ fun ci : TaskIx (F := F) => iprop(∃ f, uoLoc d ↦[rowSet (Lci ci)]{fullShare} f))
        ∗ (bigSep Finset.univ fun ci : TaskIx (F := F) => iprop(∃ f, moLoc d ↦[rowSet (Lci ci)]{fullShare} f))
        ∗ (bigSep Finset.univ fun ci : TaskIx (F := F) => iprop(∃ f, coLoc d ↦[rowSet (Lci ci)]{fullShare} f))) := by
  rw [← bigSep_sep', ← bigSep_sep', ← bigSep_sep', ← bigSep_sep', ← bigSep_sep']
  refine bigSep_congr fun ci _ => ?_
  unfold goOf tileOperands
  rw [rowSet_mo, rowSet_co]

omit [CountersIn UU] in
theorem st_eq (d : Dev nD) :
    (bigSep Finset.univ fun c : Fin ((K (F := F)).nCore 0) => (P (UU := UU) fi fb fc).st 0 d c)
      = bigSep Finset.univ fun ci : TaskIx (F := F) => goOf (UU := UU) fi fb fc d ci.1 ci.2 :=
  (bigSep_univ_prod (fun ci : TaskIx (F := F) => goOf (UU := UU) fi fb fc d ci.1 ci.2)).symm
omit [CountersIn UU] in
theorem dn_eq (d : Dev nD) :
    (bigSep Finset.univ fun c : Fin ((K (F := F)).nCore 0) => (P (UU := UU) fi fb fc).dn 0 d c)
      = bigSep Finset.univ fun ci : TaskIx (F := F) => goOf (UU := UU) fi fb fc d ci.1 ci.2 :=
  (bigSep_univ_prod (fun ci : TaskIx (F := F) => goOf (UU := UU) fi fb fc d ci.1 ci.2)).symm

omit [CountersIn UU] in
/-- The whole operands are the tasks' operands, -/
theorem toTasks (d : Dev nD) :
    wholeOperands (UU := UU) fi fb fc d ⊢ bigSep Finset.univ fun c : Fin ((K (F := F)).nCore 0) => (P (UU := UU) fi fb fc).st 0 d c := by
  rw [st_eq, tasks_eq, ← shares_eq, ← shares_eq, ← shares_eq]
  unfold wholeOperands
  iintro ⟨Hi, Hb, Hc, Hu, Hm, Hco⟩
  isplitl [Hi]; · iexact Hi
  isplitl [Hb]; · iexact Hb
  isplitl [Hc]; · iexact Hc
  isplitl [Hu]; · iapply (uo_split d); iexact Hu
  isplitl [Hm]; · iapply (mo_split d); iexact Hm
  iapply (co_split d); iexact Hco

omit [CountersIn UU] in
/-- and back. -/
theorem fromTasks (d : Dev nD) :
    (bigSep Finset.univ fun c : Fin ((K (F := F)).nCore 0) => (P (UU := UU) fi fb fc).dn 0 d c) ⊢ wholeOperands (UU := UU) fi fb fc d := by
  rw [dn_eq, tasks_eq, ← shares_eq, ← shares_eq, ← shares_eq]
  unfold wholeOperands
  iintro ⟨Hi, Hb, Hc, Hu, Hm, Hco⟩
  isplitl [Hi]; · iexact Hi
  isplitl [Hb]; · iexact Hb
  isplitl [Hc]; · iexact Hc
  isplitl [Hu]; · iapply (uo_join d); iexact Hu
  isplitl [Hm]; · iapply (mo_join d); iexact Hm
  iapply (co_join d); iexact Hco

end Tasks

end Cert.Proof.KernelSc

end
-- ==== Proof.MainShapeBits.lean ====
/-
  The shape of the kernel program's entry function on the TensorCore: six straight lines of tensor operations (the
  calls they make replaced by the callees' bodies over the buffers each call names) separated by the one SparseCore
  call and the four TensorCore kernel launches, in the printed order. Each line is a literal list, so what it needs to
  be run as a sequence — that every operation touches TensorCore buffers only and determines its results — is read
  off the list. Last, the first line's index list: what it is as a term of the five index arrays, and that the
  precondition's integer ranges put its entries inside the two tables the SparseCore call gathers from.
-/
import proofs.«214388_g48842368090541_cont_8to1c4_19_37_alg».proof.Defs
import proofs.«214388_g48842368090541_cont_8to1c4_19_37_alg».proof.Proof.Gen.Kernel
import Idealize.ShloMosaic.Lib.StableHlo.Run
import Idealize.ShloMosaic.Lib.Pipeline.Value
import Idealize.ShloMosaic.Lib.ReduceAll

noncomputable section

namespace Cert.Kernel.MainShape

open Cert.Kernel Cert.Kernel.Gen Idealize.ShloMosaic Idealize.ShloMosaic.TcCoe Idealize.SL.Sem Idealize.ShloMosaic.StableHlo

variable {F : FTy → Type} [FloatOps F]

/-! ## The operations of the six lines -/

abbrev lA_0 : List (HloOp τ sig (Elt F)) :=
  [ StableHlo.nullary main_c (constantI S_ 32 256#32),
    StableHlo.unary main_c main_v0 (broadcastInDim S16384 ![] bcast_S_S16384 : (⟨S_, .i32⟩ : BufTy).Contents (Elt F) → (⟨S16384, .i32⟩ : BufTy).Contents (Elt F)),
    StableHlo.binary main_arg1 main_v0 main_v1 (muli : (⟨S16384, .i32⟩ : BufTy).Contents (Elt F) → (⟨S16384, .i32⟩ : BufTy).Contents (Elt F) → (⟨S16384, .i32⟩ : BufTy).Contents (Elt F)),
    StableHlo.nullary main_c_0 (constantI S_ 32 32#32),
    StableHlo.unary main_c_0 main_v2 (broadcastInDim S16384 ![] bcast_S_S16384 : (⟨S_, .i32⟩ : BufTy).Contents (Elt F) → (⟨S16384, .i32⟩ : BufTy).Contents (Elt F)),
    StableHlo.binary main_arg2 main_v2 main_v3 (muli : (⟨S16384, .i32⟩ : BufTy).Contents (Elt F) → (⟨S16384, .i32⟩ : BufTy).Contents (Elt F) → (⟨S16384, .i32⟩ : BufTy).Contents (Elt F)),
    StableHlo.binary main_v1 main_v3 main_v4 (addi : (⟨S16384, .i32⟩ : BufTy).Contents (Elt F) → (⟨S16384, .i32⟩ : BufTy).Contents (Elt F) → (⟨S16384, .i32⟩ : BufTy).Contents (Elt F)),
    StableHlo.binary main_v4 main_arg3 main_v5 (addi : (⟨S16384, .i32⟩ : BufTy).Contents (Elt F) → (⟨S16384, .i32⟩ : BufTy).Contents (Elt F) → (⟨S16384, .i32⟩ : BufTy).Contents (Elt F)),
    StableHlo.nary ![main_arg0, main_arg4, main_v5] main_v6 (fun u => concatenate S49152 0 [⟨S16384, u 0⟩, ⟨S16384, u 1⟩, ⟨S16384, u 2⟩] concatenates_S16384_S16384_S16384_S49152_d0),
    StableHlo.binary main_arg8 main_arg12 main_v7 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.nullary main_v8 (iotaInDim S1024 32 0),
    StableHlo.nullary main_c_1 (constantI S_ 32 256#32),
    StableHlo.TRef.unary (.of main_c_1 : StableHlo.TRef sig ⟨S_, .i32⟩) main_call0.v0 id,
    StableHlo.TRef.unary main_call0.v0 main_call0.v1 (broadcastInDim S1024 ![] bcast_S_S1024),
    StableHlo.TRef.binary (.of main_v8 : StableHlo.TRef sig ⟨S1024, .i32⟩) main_call0.v1 main_call0.v2 Host.divsi,
    StableHlo.TRef.unary (.of main_v8 : StableHlo.TRef sig ⟨S1024, .i32⟩) main_call0.v3 signi,
    StableHlo.TRef.unary main_call0.v0 main_call0.v4 signi,
    StableHlo.TRef.unary main_call0.v4 main_call0.v5 (broadcastInDim S1024 ![] bcast_S_S1024),
    StableHlo.TRef.binary main_call0.v3 main_call0.v5 main_call0.v6 (cmpi .ne),
    StableHlo.TRef.unary main_call0.v0 main_call0.v7 (broadcastInDim S1024 ![] bcast_S_S1024),
    StableHlo.TRef.binary (.of main_v8 : StableHlo.TRef sig ⟨S1024, .i32⟩) main_call0.v7 main_call0.v8 Host.remsi,
    StableHlo.TRef.nullary main_call0.c (constantI S_ 32 0#32),
    StableHlo.TRef.unary main_call0.c main_call0.v9 (broadcastInDim S1024 ![] bcast_S_S1024),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S1024 ![] bcast_S_S1024),
    StableHlo.TRef.binary main_call0.v2 main_call0.v12 main_call0.v13 subi,
    StableHlo.TRef.ternary main_call0.v11 main_call0.v13 main_call0.v2 main_call0.call0.v0 select,
    StableHlo.nullary main_c_2 (constantI S_ 32 0#32),
    StableHlo.unary main_c_2 main_v10 (broadcastInDim S1024 ![] bcast_S_S1024 : (⟨S_, .i32⟩ : BufTy).Contents (Elt F) → (⟨S1024, .i32⟩ : BufTy).Contents (Elt F)),
    StableHlo.binary main_v9 main_v10 main_v11 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 4#32),
    StableHlo.unary main_c_3 main_v12 (broadcastInDim S1024 ![] bcast_S_S1024 : (⟨S_, .i32⟩ : BufTy).Contents (Elt F) → (⟨S1024, .i32⟩ : BufTy).Contents (Elt F)),
    StableHlo.binary main_v9 main_v12 main_v13 (addi : (⟨S1024, .i32⟩ : BufTy).Contents (Elt F) → (⟨S1024, .i32⟩ : BufTy).Contents (Elt F) → (⟨S1024, .i32⟩ : BufTy).Contents (Elt F)),
    StableHlo.ternary main_v11 main_v13 main_v9 main_v14 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v14 main_v15 (broadcastInDim S1024x1 ![0] bcast_S1024_S1024x1_0 : (⟨S1024, .i32⟩ : BufTy).Contents (Elt F) → (⟨S1024x1, .i32⟩ : BufTy).Contents (Elt F)),
    StableHlo.binary main_arg9 main_v15 main_v16 ((fun x i => Host.gather gather_S4x8_S1024x1_S1024x8_1_0_n_n_0_1_18 x i) : (⟨S4x8, .f32⟩ : BufTy).Contents (Elt F) → (⟨S1024x1, .i32⟩ : BufTy).Contents (Elt F) → (⟨S1024x8, .f32⟩ : BufTy).Contents (Elt F)),
    StableHlo.nullary main_c_4 (constantI S_ 32 32#32),
    StableHlo.TRef.unary (.of main_c_4 : StableHlo.TRef sig ⟨S_, .i32⟩) main_call1.v0 id,
    StableHlo.TRef.unary main_call1.v0 main_call1.v1 (broadcastInDim S1024 ![] bcast_S_S1024) ]

abbrev lA_1 : List (HloOp τ sig (Elt F)) :=
  [ StableHlo.TRef.binary (.of main_v8 : StableHlo.TRef sig ⟨S1024, .i32⟩) main_call1.v1 main_call1.v2 Host.divsi,
    StableHlo.TRef.unary (.of main_v8 : StableHlo.TRef sig ⟨S1024, .i32⟩) main_call1.v3 signi,
    StableHlo.TRef.unary main_call1.v0 main_call1.v4 signi,
    StableHlo.TRef.unary main_call1.v4 main_call1.v5 (broadcastInDim S1024 ![] bcast_S_S1024),
    StableHlo.TRef.binary main_call1.v3 main_call1.v5 main_call1.v6 (cmpi .ne),
    StableHlo.TRef.unary main_call1.v0 main_call1.v7 (broadcastInDim S1024 ![] bcast_S_S1024),
    StableHlo.TRef.binary (.of main_v8 : StableHlo.TRef sig ⟨S1024, .i32⟩) main_call1.v7 main_call1.v8 Host.remsi,
    StableHlo.TRef.nullary main_call1.c (constantI S_ 32 0#32),
    StableHlo.TRef.unary main_call1.c main_call1.v9 (broadcastInDim S1024 ![] bcast_S_S1024),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S1024 ![] bcast_S_S1024),
    StableHlo.TRef.binary main_call1.v2 main_call1.v12 main_call1.v13 subi,
    StableHlo.TRef.ternary main_call1.v11 main_call1.v13 main_call1.v2 main_call1.call0.v0 select,
    StableHlo.nullary main_c_5 (constantI S_ 32 8#32),
    StableHlo.TRef.unary (.of main_c_5 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S1024 ![] bcast_S_S1024),
    StableHlo.TRef.binary (.of main_v17 : StableHlo.TRef sig ⟨S1024, .i32⟩) main_call2.v3 main_call2.v4 Host.remsi,
    StableHlo.TRef.nullary main_call2.c_1 (constantI S_ 32 0#32),
    StableHlo.TRef.unary main_call2.c_1 main_call2.v5 (broadcastInDim S1024 ![] bcast_S_S1024),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S1024 ![] bcast_S_S1024),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S1024 ![] bcast_S_S1024),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S1024 ![] bcast_S_S1024),
    StableHlo.TRef.binary main_call2.v4 main_call2.v13 main_call2.v14 addi,
    StableHlo.TRef.ternary main_call2.v12 main_call2.v14 main_call2.v4 main_call2.v15 select,
    StableHlo.nullary main_c_6 (constantI S_ 32 0#32),
    StableHlo.unary main_c_6 main_v19 (broadcastInDim S1024 ![] bcast_S_S1024 : (⟨S_, .i32⟩ : BufTy).Contents (Elt F) → (⟨S1024, .i32⟩ : BufTy).Contents (Elt F)),
    StableHlo.binary main_v18 main_v19 main_v20 (cmpi .slt : (⟨S1024, .i32⟩ : BufTy).Contents (Elt F) → (⟨S1024, .i32⟩ : BufTy).Contents (Elt F) → (⟨S1024, .i1⟩ : BufTy).Contents (Elt F)),
    StableHlo.nullary main_c_7 (constantI S_ 32 8#32) ]

abbrev lA_2 : List (HloOp τ sig (Elt F)) :=
  [ StableHlo.unary main_c_7 main_v21 (broadcastInDim S1024 ![] bcast_S_S1024 : (⟨S_, .i32⟩ : BufTy).Contents (Elt F) → (⟨S1024, .i32⟩ : BufTy).Contents (Elt F)),
    StableHlo.binary main_v18 main_v21 main_v22 (addi : (⟨S1024, .i32⟩ : BufTy).Contents (Elt F) → (⟨S1024, .i32⟩ : BufTy).Contents (Elt F) → (⟨S1024, .i32⟩ : BufTy).Contents (Elt F)),
    StableHlo.ternary main_v20 main_v22 main_v18 main_v23 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v23 main_v24 (broadcastInDim S1024x1 ![0] bcast_S1024_S1024x1_0 : (⟨S1024, .i32⟩ : BufTy).Contents (Elt F) → (⟨S1024x1, .i32⟩ : BufTy).Contents (Elt F)),
    StableHlo.binary main_arg10 main_v24 main_v25 ((fun x i => Host.gather gather_S8x8_S1024x1_S1024x8_1_0_n_n_0_1_18 x i) : (⟨S8x8, .f32⟩ : BufTy).Contents (Elt F) → (⟨S1024x1, .i32⟩ : BufTy).Contents (Elt F) → (⟨S1024x8, .f32⟩ : BufTy).Contents (Elt F)),
    StableHlo.nullary main_c_8 (constantI S_ 32 32#32),
    StableHlo.TRef.unary (.of main_c_8 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S1024 ![] bcast_S_S1024),
    StableHlo.TRef.binary (.of main_v8 : StableHlo.TRef sig ⟨S1024, .i32⟩) main_call3.v3 main_call3.v4 Host.remsi,
    StableHlo.TRef.nullary main_call3.c_1 (constantI S_ 32 0#32),
    StableHlo.TRef.unary main_call3.c_1 main_call3.v5 (broadcastInDim S1024 ![] bcast_S_S1024),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S1024 ![] bcast_S_S1024),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S1024 ![] bcast_S_S1024),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S1024 ![] bcast_S_S1024),
    StableHlo.TRef.binary main_call3.v4 main_call3.v13 main_call3.v14 addi,
    StableHlo.TRef.ternary main_call3.v12 main_call3.v14 main_call3.v4 main_call3.v15 select,
    StableHlo.nullary main_c_9 (constantI S_ 32 0#32),
    StableHlo.unary main_c_9 main_v27 (broadcastInDim S1024 ![] bcast_S_S1024 : (⟨S_, .i32⟩ : BufTy).Contents (Elt F) → (⟨S1024, .i32⟩ : BufTy).Contents (Elt F)),
    StableHlo.binary main_v26 main_v27 main_v28 (cmpi .slt : (⟨S1024, .i32⟩ : BufTy).Contents (Elt F) → (⟨S1024, .i32⟩ : BufTy).Contents (Elt F) → (⟨S1024, .i1⟩ : BufTy).Contents (Elt F)),
    StableHlo.nullary main_c_10 (constantI S_ 32 32#32),
    StableHlo.unary main_c_10 main_v29 (broadcastInDim S1024 ![] bcast_S_S1024 : (⟨S_, .i32⟩ : BufTy).Contents (Elt F) → (⟨S1024, .i32⟩ : BufTy).Contents (Elt F)),
    StableHlo.binary main_v26 main_v29 main_v30 (addi : (⟨S1024, .i32⟩ : BufTy).Contents (Elt F) → (⟨S1024, .i32⟩ : BufTy).Contents (Elt F) → (⟨S1024, .i32⟩ : BufTy).Contents (Elt F)),
    StableHlo.ternary main_v28 main_v30 main_v26 main_v31 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v31 main_v32 (broadcastInDim S1024x1 ![0] bcast_S1024_S1024x1_0 : (⟨S1024, .i32⟩ : BufTy).Contents (Elt F) → (⟨S1024x1, .i32⟩ : BufTy).Contents (Elt F)),
    StableHlo.binary main_arg11 main_v32 main_v33 ((fun x i => Host.gather gather_S32x16_S1024x1_S1024x16_1_0_n_n_0_1_116 x i) : (⟨S32x16, .f32⟩ : BufTy).Contents (Elt F) → (⟨S1024x1, .i32⟩ : BufTy).Contents (Elt F) → (⟨S1024x16, .f32⟩ : BufTy).Contents (Elt F)),
    StableHlo.nullary main_cst (constant S_ .f32 0x00000000#32),
    StableHlo.unary main_cst main_v34 (broadcastInDim S1024x96 ![] bcast_S_S1024x96 : (⟨S_, .f32⟩ : BufTy).Contents (Elt F) → (⟨S1024x96, .f32⟩ : BufTy).Contents (Elt F)),
    StableHlo.nary ![main_v16, main_v25, main_v33, main_v34] main_v35 (fun u => concatenate S1024x128 1 [⟨S1024x8, u 0⟩, ⟨S1024x8, u 1⟩, ⟨S1024x16, u 2⟩, ⟨S1024x96, u 3⟩] concatenates_S1024x8_S1024x8_S1024x16_S1024x96_S1024x128_d1) ]

abbrev lB0 : List (HloOp τ sig (Elt F)) :=
  [ StableHlo.reshape main_arg15 main_v37 rfl shapeCasts_S2048x32_S64x1024,
    StableHlo.unary main_v37 main_v38 ((truncf .bf16 · bitsLt_bf16_f32) : (⟨S64x1024, .f32⟩ : BufTy).Contents (Elt F) → (⟨S64x1024, .bf16⟩ : BufTy).Contents (Elt F)),
    StableHlo.nullary main_v39 (iotaInDim S1024 32 0),
    StableHlo.nullary main_v40 (iotaInDim S32 32 0),
    StableHlo.unary main_v40 main_v41 (broadcastInDim S32x1 ![0] bcast_S32_S32x1_0 : (⟨S32, .i32⟩ : BufTy).Contents (Elt F) → (⟨S32x1, .i32⟩ : BufTy).Contents (Elt F)),
    StableHlo.unary main_v39 main_v42 (broadcastInDim S1x1024 ![1] bcast_S1024_S1x1024_1 : (⟨S1024, .i32⟩ : BufTy).Contents (Elt F) → (⟨S1x1024, .i32⟩ : BufTy).Contents (Elt F)),
    StableHlo.nullary main_c_11 (constantI S_ 32 32#32),
    StableHlo.TRef.unary (.of main_c_11 : StableHlo.TRef sig ⟨S_, .i32⟩) main_call4.v0 id,
    StableHlo.TRef.unary main_call4.v0 main_call4.v1 (broadcastInDim S1x1024 ![] bcast_S_S1x1024),
    StableHlo.TRef.binary (.of main_v42 : StableHlo.TRef sig ⟨S1x1024, .i32⟩) main_call4.v1 main_call4.v2 Host.divsi,
    StableHlo.TRef.unary (.of main_v42 : StableHlo.TRef sig ⟨S1x1024, .i32⟩) main_call4.v3 signi,
    StableHlo.TRef.unary main_call4.v0 main_call4.v4 signi,
    StableHlo.TRef.unary main_call4.v4 main_call4.v5 (broadcastInDim S1x1024 ![] bcast_S_S1x1024),
    StableHlo.TRef.binary main_call4.v3 main_call4.v5 main_call4.v6 (cmpi .ne),
    StableHlo.TRef.unary main_call4.v0 main_call4.v7 (broadcastInDim S1x1024 ![] bcast_S_S1x1024),
    StableHlo.TRef.binary (.of main_v42 : StableHlo.TRef sig ⟨S1x1024, .i32⟩) main_call4.v7 main_call4.v8 Host.remsi,
    StableHlo.TRef.nullary main_call4.c (constantI S_ 32 0#32),
    StableHlo.TRef.unary main_call4.c main_call4.v9 (broadcastInDim S1x1024 ![] bcast_S_S1x1024),
    StableHlo.TRef.binary main_call4.v8 main_call4.v9 main_call4.v10 (cmpi .ne),
    StableHlo.TRef.binary main_call4.v6 main_call4.v10 main_call4.v11 andi,
    StableHlo.TRef.nullary main_call4.c_0 (constantI S_ 32 1#32),
    StableHlo.TRef.unary main_call4.c_0 main_call4.v12 (broadcastInDim S1x1024 ![] bcast_S_S1x1024),
    StableHlo.TRef.binary main_call4.v2 main_call4.v12 main_call4.v13 subi,
    StableHlo.TRef.ternary main_call4.v11 main_call4.v13 main_call4.v2 main_call4.call0.v0 select,
    StableHlo.unary main_v41 main_v44 (broadcastInDim S32x1024 ![0, 1] bcast_S32x1_S32x1024_0_1 : (⟨S32x1, .i32⟩ : BufTy).Contents (Elt F) → (⟨S32x1024, .i32⟩ : BufTy).Contents (Elt F)),
    StableHlo.unary main_v43 main_v45 (broadcastInDim S32x1024 ![0, 1] bcast_S1x1024_S32x1024_0_1 : (⟨S1x1024, .i32⟩ : BufTy).Contents (Elt F) → (⟨S32x1024, .i32⟩ : BufTy).Contents (Elt F)) ]

abbrev lB1_0 : List (HloOp τ sig (Elt F)) :=
  [ StableHlo.binary main_v44 main_v45 main_v46 (cmpi .eq : (⟨S32x1024, .i32⟩ : BufTy).Contents (Elt F) → (⟨S32x1024, .i32⟩ : BufTy).Contents (Elt F) → (⟨S32x1024, .i1⟩ : BufTy).Contents (Elt F)),
    StableHlo.unary main_v46 main_v47 (uitofp .bf16 : (⟨S32x1024, .i1⟩ : BufTy).Contents (Elt F) → (⟨S32x1024, .bf16⟩ : BufTy).Contents (Elt F)),
    StableHlo.nullary main_c_12 (constantI S_ 32 0#32),
    StableHlo.TRef.unary (.of main_c_12 : StableHlo.TRef sig ⟨S_, .i32⟩) main_call5.v0 (sitofp .bf16),
    StableHlo.TRef.binary (.of main_v47 : StableHlo.TRef sig ⟨S32x1024, .bf16⟩) main_call5.v0 main_call5.v1 (fun x v => pad S128x1024 ![32, 0] ![64, 0] ![0, 0] x v pads_S32x1024_S128x1024_32640_000 h_S_),
    StableHlo.unary main_v39 main_v49 (broadcastInDim S1024x1 ![0] bcast_S1024_S1024x1_0 : (⟨S1024, .i32⟩ : BufTy).Contents (Elt F) → (⟨S1024x1, .i32⟩ : BufTy).Contents (Elt F)),
    StableHlo.nullary main_c_13 (constantI S_ 32 32#32),
    StableHlo.TRef.unary (.of main_c_13 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S1024x1 ![] bcast_S_S1024x1),
    StableHlo.TRef.binary (.of main_v49 : StableHlo.TRef sig ⟨S1024x1, .i32⟩) main_call6.v3 main_call6.v4 Host.remsi,
    StableHlo.TRef.nullary main_call6.c_1 (constantI S_ 32 0#32),
    StableHlo.TRef.unary main_call6.c_1 main_call6.v5 (broadcastInDim S1024x1 ![] bcast_S_S1024x1),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S1024x1 ![] bcast_S_S1024x1),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S1024x1 ![] bcast_S_S1024x1),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S1024x1 ![] bcast_S_S1024x1),
    StableHlo.TRef.binary main_call6.v4 main_call6.v13 main_call6.v14 addi,
    StableHlo.TRef.ternary main_call6.v12 main_call6.v14 main_call6.v4 main_call6.v15 select,
    StableHlo.nullary main_v51 (iotaInDim S32 32 0),
    StableHlo.unary main_v51 main_v52 (broadcastInDim S1x32 ![1] bcast_S32_S1x32_1 : (⟨S32, .i32⟩ : BufTy).Contents (Elt F) → (⟨S1x32, .i32⟩ : BufTy).Contents (Elt F)),
    StableHlo.unary main_v50 main_v53 (broadcastInDim S1024x32 ![0, 1] bcast_S1024x1_S1024x32_0_1 : (⟨S1024x1, .i32⟩ : BufTy).Contents (Elt F) → (⟨S1024x32, .i32⟩ : BufTy).Contents (Elt F)),
    StableHlo.unary main_v52 main_v54 (broadcastInDim S1024x32 ![0, 1] bcast_S1x32_S1024x32_0_1 : (⟨S1x32, .i32⟩ : BufTy).Contents (Elt F) → (⟨S1024x32, .i32⟩ : BufTy).Contents (Elt F)),
    StableHlo.binary main_v53 main_v54 main_v55 (cmpi .eq : (⟨S1024x32, .i32⟩ : BufTy).Contents (Elt F) → (⟨S1024x32, .i32⟩ : BufTy).Contents (Elt F) → (⟨S1024x32, .i1⟩ : BufTy).Contents (Elt F)),
    StableHlo.unary main_v55 main_v56 (uitofp .bf16 : (⟨S1024x32, .i1⟩ : BufTy).Contents (Elt F) → (⟨S1024x32, .bf16⟩ : BufTy).Contents (Elt F)),
    StableHlo.nullary main_c_14 (constantI S_ 32 0#32),
    StableHlo.TRef.unary (.of main_c_14 : StableHlo.TRef sig ⟨S_, .i32⟩) main_call7.v0 (sitofp .bf16),
    StableHlo.TRef.binary (.of main_v56 : StableHlo.TRef sig ⟨S1024x32, .bf16⟩) main_call7.v0 main_call7.v1 (fun x v => pad S1024x128 ![0, 64] ![0, 32] ![0, 0] x v pads_S1024x32_S1024x128_000_64320 h_S_) ]

abbrev lB1_1 : List (HloOp τ sig (Elt F)) :=
  [ StableHlo.nullary main_c_15 (constantI S_ 32 0#32),
    StableHlo.TRef.unary (.of main_c_15 : StableHlo.TRef sig ⟨S_, .i32⟩) main_call8.v0 (sitofp .f32),
    StableHlo.TRef.binary (.of main_arg13 : StableHlo.TRef sig ⟨S19x32, .f32⟩) main_call8.v0 main_call8.v1 (fun x v => pad S19x128 ![0, 32] ![0, 64] ![0, 0] x v pads_S19x32_S19x128_000_32640 h_S_),
    StableHlo.unary main_arg14 main_v59 (broadcastInDim S1x32 ![1] bcast_S32_S1x32_1 : (⟨S32, .f32⟩ : BufTy).Contents (Elt F) → (⟨S1x32, .f32⟩ : BufTy).Contents (Elt F)),
    StableHlo.nullary main_c_16 (constantI S_ 32 0#32),
    StableHlo.TRef.unary (.of main_c_16 : StableHlo.TRef sig ⟨S_, .i32⟩) main_call9.v0 (sitofp .f32),
    StableHlo.TRef.binary (.of main_v59 : StableHlo.TRef sig ⟨S1x32, .f32⟩) main_call9.v0 main_call9.v1 (fun x v => pad S1x128 ![0, 32] ![0, 64] ![0, 0] x v pads_S1x32_S1x128_000_32640 h_S_),
    StableHlo.unary main_arg16 main_v61 (broadcastInDim S1x32 ![1] bcast_S32_S1x32_1 : (⟨S32, .f32⟩ : BufTy).Contents (Elt F) → (⟨S1x32, .f32⟩ : BufTy).Contents (Elt F)),
    StableHlo.nullary main_c_17 (constantI S_ 32 0#32),
    StableHlo.TRef.unary (.of main_c_17 : StableHlo.TRef sig ⟨S_, .i32⟩) main_call10.v0 (sitofp .f32),
    StableHlo.TRef.binary (.of main_v61 : StableHlo.TRef sig ⟨S1x32, .f32⟩) main_call10.v0 main_call10.v1 (fun x v => pad S1x128 ![0, 64] ![0, 32] ![0, 0] x v pads_S1x32_S1x128_000_64320 h_S_),
    StableHlo.unary main_arg17 main_v63 ((extractStridedSlice S64x1024 ![0, 0] · slices_S226x1024_S64x1024_0_0) : (⟨S226x1024, .f32⟩ : BufTy).Contents (Elt F) → (⟨S64x1024, .f32⟩ : BufTy).Contents (Elt F)),
    StableHlo.unary main_arg17 main_v64 ((extractStridedSlice S64x1024 ![96, 0] · slices_S226x1024_S64x1024_96_0) : (⟨S226x1024, .f32⟩ : BufTy).Contents (Elt F) → (⟨S64x1024, .f32⟩ : BufTy).Contents (Elt F)),
    StableHlo.unary main_arg17 main_v65 ((extractStridedSlice S32x1024 ![64, 0] · slices_S226x1024_S32x1024_64_0) : (⟨S226x1024, .f32⟩ : BufTy).Contents (Elt F) → (⟨S32x1024, .f32⟩ : BufTy).Contents (Elt F)),
    StableHlo.unary main_arg17 main_v66 ((extractStridedSlice S32x1024 ![160, 0] · slices_S226x1024_S32x1024_160_0) : (⟨S226x1024, .f32⟩ : BufTy).Contents (Elt F) → (⟨S32x1024, .f32⟩ : BufTy).Contents (Elt F)),
    StableHlo.unary main_arg17 main_v67 ((extractStridedSlice S32x1024 ![194, 0] · slices_S226x1024_S32x1024_194_0) : (⟨S226x1024, .f32⟩ : BufTy).Contents (Elt F) → (⟨S32x1024, .f32⟩ : BufTy).Contents (Elt F)),
    StableHlo.unary main_arg17 main_v68 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg17 main_v69 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg17 main_v70 ((extractStridedSlice S1x1024 ![193, 0] · slices_S226x1024_S1x1024_193_0) : (⟨S226x1024, .f32⟩ : BufTy).Contents (Elt F) → (⟨S1x1024, .f32⟩ : BufTy).Contents (Elt F)),
    StableHlo.nullary main_cst_18 (constant S_ .f32 0x00000000#32),
    StableHlo.unary main_cst_18 main_v71 (broadcastInDim S29x1024 ![] bcast_S_S29x1024 : (⟨S_, .f32⟩ : BufTy).Contents (Elt F) → (⟨S29x1024, .f32⟩ : BufTy).Contents (Elt F)),
    StableHlo.nary ![main_v63, main_v64, main_v65, main_v66, main_v67, main_v68, main_v69, main_v70, main_v71] main_v72 (fun u => concatenate S256x1024 0 [⟨S64x1024, u 0⟩, ⟨S64x1024, u 1⟩, ⟨S32x1024, u 2⟩, ⟨S32x1024, u 3⟩, ⟨S32x1024, u 4⟩, ⟨S1x1024, u 5⟩, ⟨S1x1024, u 6⟩, ⟨S1x1024, u 7⟩, ⟨S29x1024, u 8⟩] concatenates_S64x1024_S64x1024_S32x1024_S32x1024_S32x1024_S1x1024_S1x1024_S1x1024_S29x1024_S256x1024_d0),
    StableHlo.unary main_v72 main_v73 ((truncf .bf16 · bitsLt_bf16_f32) : (⟨S256x1024, .f32⟩ : BufTy).Contents (Elt F) → (⟨S256x1024, .bf16⟩ : BufTy).Contents (Elt F)),
    StableHlo.unary main_arg21 main_v74 ((extractStridedSlice S64x1024 ![0, 0] · slices_S226x1024_S64x1024_0_0) : (⟨S226x1024, .f32⟩ : BufTy).Contents (Elt F) → (⟨S64x1024, .f32⟩ : BufTy).Contents (Elt F)),
    StableHlo.unary main_arg21 main_v75 ((extractStridedSlice S64x1024 ![96, 0] · slices_S226x1024_S64x1024_96_0) : (⟨S226x1024, .f32⟩ : BufTy).Contents (Elt F) → (⟨S64x1024, .f32⟩ : BufTy).Contents (Elt F)),
    StableHlo.unary main_arg21 main_v76 ((extractStridedSlice S32x1024 ![64, 0] · slices_S226x1024_S32x1024_64_0) : (⟨S226x1024, .f32⟩ : BufTy).Contents (Elt F) → (⟨S32x1024, .f32⟩ : BufTy).Contents (Elt F)),
    StableHlo.unary main_arg21 main_v77 ((extractStridedSlice S32x1024 ![160, 0] · slices_S226x1024_S32x1024_160_0) : (⟨S226x1024, .f32⟩ : BufTy).Contents (Elt F) → (⟨S32x1024, .f32⟩ : BufTy).Contents (Elt F)),
    StableHlo.unary main_arg21 main_v78 ((extractStridedSlice S32x1024 ![194, 0] · slices_S226x1024_S32x1024_194_0) : (⟨S226x1024, .f32⟩ : BufTy).Contents (Elt F) → (⟨S32x1024, .f32⟩ : BufTy).Contents (Elt F)),
    StableHlo.unary main_arg21 main_v79 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg21 main_v80 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg21 main_v81 ((extractStridedSlice S1x1024 ![193, 0] · slices_S226x1024_S1x1024_193_0) : (⟨S226x1024, .f32⟩ : BufTy).Contents (Elt F) → (⟨S1x1024, .f32⟩ : BufTy).Contents (Elt F)),
    StableHlo.nullary main_cst_19 (constant S_ .f32 0x00000000#32),
    StableHlo.unary main_cst_19 main_v82 (broadcastInDim S29x1024 ![] bcast_S_S29x1024 : (⟨S_, .f32⟩ : BufTy).Contents (Elt F) → (⟨S29x1024, .f32⟩ : BufTy).Contents (Elt F)),
    StableHlo.nary ![main_v74, main_v75, main_v76, main_v77, main_v78, main_v79, main_v80, main_v81, main_v82] main_v83 (fun u => concatenate S256x1024 0 [⟨S64x1024, u 0⟩, ⟨S64x1024, u 1⟩, ⟨S32x1024, u 2⟩, ⟨S32x1024, u 3⟩, ⟨S32x1024, u 4⟩, ⟨S1x1024, u 5⟩, ⟨S1x1024, u 6⟩, ⟨S1x1024, u 7⟩, ⟨S29x1024, u 8⟩] concatenates_S64x1024_S64x1024_S32x1024_S32x1024_S32x1024_S1x1024_S1x1024_S1x1024_S29x1024_S256x1024_d0),
    StableHlo.unary main_v83 main_v84 ((truncf .bf16 · bitsLt_bf16_f32) : (⟨S256x1024, .f32⟩ : BufTy).Contents (Elt F) → (⟨S256x1024, .bf16⟩ : BufTy).Contents (Elt F)),
    StableHlo.unary main_arg6 main_v85 (broadcastInDim S16384x1 ![0] bcast_S16384_S16384x1_0 : (⟨S16384, .f32⟩ : BufTy).Contents (Elt F) → (⟨S16384x1, .f32⟩ : BufTy).Contents (Elt F)),
    StableHlo.unary main_arg7 main_v86 (broadcastInDim S16384x1 ![0] bcast_S16384_S16384x1_0 : (⟨S16384, .f32⟩ : BufTy).Contents (Elt F) → (⟨S16384x1, .f32⟩ : BufTy).Contents (Elt F)) ]

abbrev lC : List (HloOp τ sig (Elt F)) :=
  [ StableHlo.reshape main_arg19 main_v88 rfl shapeCasts_S1024_S1x1024,
    StableHlo.reshape main_arg20 main_v89 rfl shapeCasts_S1024_S1x1024,
    StableHlo.reshape main_arg22 main_v90 rfl shapeCasts_S1024_S1x1024 ]

abbrev lD : List (HloOp τ sig (Elt F)) :=
  [ StableHlo.reshape main_arg33 main_v92 rfl shapeCasts_S512x1_S1x512,
    StableHlo.reshape main_arg25 main_v93 rfl shapeCasts_S1024_S1x1024,
    StableHlo.reshape main_arg26 main_v94 rfl shapeCasts_S1024_S1x1024,
    StableHlo.reshape main_arg32 main_v95 rfl shapeCasts_S512_S1x512 ]

abbrev lE0 : List (HloOp τ sig (Elt F)) :=
  [ StableHlo.reshape main_arg29 main_v97 rfl shapeCasts_S512_S1x512 ]

abbrev lE1 : List (HloOp τ sig (Elt F)) :=
  [ StableHlo.reshape main_arg30 main_v98 rfl shapeCasts_S512_S1x512,
    StableHlo.reshape main_arg34 main_v99 rfl shapeCasts_S1_S1x1 ]

abbrev lF : List (HloOp τ sig (Elt F)) :=
  [ StableHlo.reshape main_v100 main_v101 rfl shapeCasts_S16384x1_S16384 ]

/-- The operations before the SparseCore call. -/
abbrev opsA : List (HloOp τ sig (Elt F)) := lA_0 ++ (lA_1 ++ (lA_2))
/-- The operations between the SparseCore call and the first kernel launch, as the two printed windows cut them. -/
abbrev opsB0 : List (HloOp τ sig (Elt F)) := lB0
abbrev opsB1 : List (HloOp τ sig (Elt F)) := lB1_0 ++ (lB1_1)
/-- The operations between the SparseCore call and the first kernel launch. -/
abbrev opsB : List (HloOp τ sig (Elt F)) := opsB0 ++ opsB1
/-- The operations between the first and second, and the second and third kernel launches. -/
abbrev opsC : List (HloOp τ sig (Elt F)) := lC
abbrev opsD : List (HloOp τ sig (Elt F)) := lD
/-- The operations between the third and fourth kernel launches, as the two printed windows cut them, and after the fourth. -/
abbrev opsE0 : List (HloOp τ sig (Elt F)) := lE0
abbrev opsE1 : List (HloOp τ sig (Elt F)) := lE1
abbrev opsE : List (HloOp τ sig (Elt F)) := opsE0 ++ opsE1
abbrev opsF : List (HloOp τ sig (Elt F)) := lF

/-! ## The entry function, window by window -/

/-- A line that is two lists end to end, followed by a continuation. -/
theorem seq_append_bind {α : Type} (l₁ l₂ : List (HloOp τ sig (Elt F)))
    (k : PUnit → Prog (TpuEff nD τ sig (Elt F) (SparseCore.Sig (Pipeline.Sig Λ₀ (Fin 4) fun p => (pcfgs (F := F) p).Adm) 1) .tc) α) :
    seq (l₁ ++ l₂) >>= k = seq l₁ >>= fun _ => seq l₂ >>= k := by
  rw [seq_append, bind_assoc]

set_option maxRecDepth 8192 in
set_option maxHeartbeats 4000000 in
/-- The printed window `main_part0`: its calls unfold to the callees' bodies and the binds reassociate. -/
theorem main_part0_eq (d : Dev nD) : main_part0 (F := F) d =
    (seq opsA >>= fun _ =>
      sc.run d 0 >>= fun _ =>
      seq opsB0 : Prog (TpuEff nD τ sig (Elt F) (SparseCore.Sig (Pipeline.Sig Λ₀ (Fin 4) fun p => (pcfgs (F := F) p).Adm) 1) .tc) PUnit) := by
  simp only [main_part0, fn_floor_divide.body, fn_where.body, fn_remainder.body, fn_where_0.body, fn_floor_divide_1.body, fn_where_2.body, bind_assoc, pure_bind]
  rfl

set_option maxRecDepth 8192 in
set_option maxHeartbeats 4000000 in
/-- The printed window `main_part1`: its calls unfold to the callees' bodies and the binds reassociate. -/
theorem main_part1_eq (d : Dev nD) : main_part1 (F := F) d =
    (seq opsB1 >>= fun _ =>
      Prog.lift (.customCall (SparseCore.inner (Pipeline.entry 0)) ()) >>= fun _ =>
      seq opsC >>= fun _ =>
      Prog.lift (.customCall (SparseCore.inner (Pipeline.entry 1)) ()) >>= fun _ =>
      seq opsD >>= fun _ =>
      Prog.lift (.customCall (SparseCore.inner (Pipeline.entry 2)) ()) >>= fun _ =>
      seq opsE0 : Prog (TpuEff nD τ sig (Elt F) (SparseCore.Sig (Pipeline.Sig Λ₀ (Fin 4) fun p => (pcfgs (F := F) p).Adm) 1) .tc) PUnit) := by
  simp only [main_part1, fn_pad.body, fn_remainder_3.body, fn_where_0.body, fn_pad_4.body, fn_pad_5.body, fn_pad_6.body, fn_pad_7.body, bind_assoc, pure_bind]
  rfl

set_option maxRecDepth 8192 in
set_option maxHeartbeats 4000000 in
/-- The printed window `main_part2`: its calls unfold to the callees' bodies and the binds reassociate. -/
theorem main_part2_eq (d : Dev nD) : main_part2 (F := F) d =
    (seq opsE1 >>= fun _ =>
      Prog.lift (.customCall (SparseCore.inner (Pipeline.entry 3)) ()) >>= fun _ =>
      seq opsF : Prog (TpuEff nD τ sig (Elt F) (SparseCore.Sig (Pipeline.Sig Λ₀ (Fin 4) fun p => (pcfgs (F := F) p).Adm) 1) .tc) PUnit) := by
  simp only [main_part2, bind_assoc, pure_bind]
  rfl

/-- The entry function on the TensorCore: the six lines, the SparseCore call after the first and a kernel launch after
    each of the next four. -/
theorem main_shape (d : Dev nD) : main (F := F) d =
    (seq opsA >>= fun _ =>
      sc.run d 0 >>= fun _ =>
      seq opsB >>= fun _ =>
      Prog.lift (.customCall (SparseCore.inner (Pipeline.entry 0)) ()) >>= fun _ =>
      seq opsC >>= fun _ =>
      Prog.lift (.customCall (SparseCore.inner (Pipeline.entry 1)) ()) >>= fun _ =>
      seq opsD >>= fun _ =>
      Prog.lift (.customCall (SparseCore.inner (Pipeline.entry 2)) ()) >>= fun _ =>
      seq opsE >>= fun _ =>
      Prog.lift (.customCall (SparseCore.inner (Pipeline.entry 3)) ()) >>= fun _ =>
      seq opsF : Prog (TpuEff nD τ sig (Elt F) (SparseCore.Sig (Pipeline.Sig Λ₀ (Fin 4) fun p => (pcfgs (F := F) p).Adm) 1) .tc) PUnit) := by
  have h : main (F := F) d = main_part0 (F := F) d >>= fun _ => main_part1 (F := F) d >>= fun _ => main_part2 (F := F) d := rfl
  rw [h, main_part0_eq d, main_part1_eq d, main_part2_eq d, seq_append_bind opsB0 opsB1, seq_append_bind opsE0 opsE1]
  simp only [bind_assoc]

/-! ## The side conditions of running each line as a sequence -/

/-- A property of every operation of two lists holds of every operation of their concatenation. -/
theorem forall_mem_append' {p : HloOp τ sig (Elt F) → Prop} {l₁ l₂ : List (HloOp τ sig (Elt F))}
    (h₁ : ∀ op ∈ l₁, p op) (h₂ : ∀ op ∈ l₂, p op) : ∀ op ∈ l₁ ++ l₂, p op :=
  fun op h => (List.mem_append.mp h).elim (h₁ op) (h₂ op)

set_option maxRecDepth 8192 in
theorem lA_0_sub : ∀ op ∈ (lA_0 : List (HloOp τ sig (Elt F))), op.bufs ⊆ tcRefs τ sig :=
  List.forall_iff_forall_mem.mp (show (lA_0 : List (HloOp τ sig (Elt F))).Forall fun op => op.bufs ⊆ tcRefs τ sig from
  ⟨nullary_bufs_sub .., unary_bufs_sub .., binary_bufs_sub .., nullary_bufs_sub .., unary_bufs_sub .., binary_bufs_sub ..,
    binary_bufs_sub .., binary_bufs_sub .., nary_bufs_sub .., binary_bufs_sub .., nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub ..⟩)
set_option maxRecDepth 8192 in
theorem lA_0_fresh : ∀ op ∈ (lA_0 : List (HloOp τ sig (Elt F))), op.fresh = ∅ :=
  List.forall_iff_forall_mem.mp (show (lA_0 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩)
set_option maxRecDepth 8192 in
theorem lA_1_sub : ∀ op ∈ (lA_1 : List (HloOp τ sig (Elt F))), op.bufs ⊆ tcRefs τ sig :=
  List.forall_iff_forall_mem.mp (show (lA_1 : List (HloOp τ sig (Elt F))).Forall fun op => op.bufs ⊆ tcRefs τ sig from
  ⟨binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., nullary_bufs_sub ..⟩)
set_option maxRecDepth 8192 in
theorem lA_1_fresh : ∀ op ∈ (lA_1 : List (HloOp τ sig (Elt F))), op.fresh = ∅ :=
  List.forall_iff_forall_mem.mp (show (lA_1 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩)
set_option maxRecDepth 8192 in
theorem lA_2_sub : ∀ op ∈ (lA_2 : List (HloOp τ sig (Elt F))), op.bufs ⊆ tcRefs τ sig :=
  List.forall_iff_forall_mem.mp (show (lA_2 : List (HloOp τ sig (Elt F))).Forall fun op => op.bufs ⊆ tcRefs τ sig from
  ⟨unary_bufs_sub .., binary_bufs_sub .., ternary_bufs_sub .., unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., nary_bufs_sub ..⟩)
set_option maxRecDepth 8192 in
theorem lA_2_fresh : ∀ op ∈ (lA_2 : List (HloOp τ sig (Elt F))), op.fresh = ∅ :=
  List.forall_iff_forall_mem.mp (show (lA_2 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩)
set_option maxRecDepth 8192 in
theorem lB0_sub : ∀ op ∈ (lB0 : List (HloOp τ sig (Elt F))), op.bufs ⊆ tcRefs τ sig :=
  List.forall_iff_forall_mem.mp (show (lB0 : List (HloOp τ sig (Elt F))).Forall fun op => op.bufs ⊆ tcRefs τ sig from
  ⟨reshape_bufs_sub .., unary_bufs_sub .., nullary_bufs_sub .., nullary_bufs_sub .., unary_bufs_sub .., unary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    unary_bufs_sub .., unary_bufs_sub ..⟩)
set_option maxRecDepth 8192 in
theorem lB0_fresh : ∀ op ∈ (lB0 : List (HloOp τ sig (Elt F))), op.fresh = ∅ :=
  List.forall_iff_forall_mem.mp (show (lB0 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl⟩)
set_option maxRecDepth 8192 in
theorem lB1_0_sub : ∀ op ∈ (lB1_0 : List (HloOp τ sig (Elt F))), op.bufs ⊆ tcRefs τ sig :=
  List.forall_iff_forall_mem.mp (show (lB1_0 : List (HloOp τ sig (Elt F))).Forall fun op => op.bufs ⊆ tcRefs τ sig from
  ⟨binary_bufs_sub .., unary_bufs_sub .., nullary_bufs_sub .., unary_bufs_sub .., binary_bufs_sub .., unary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    unary_bufs_sub .., unary_bufs_sub .., binary_bufs_sub .., unary_bufs_sub .., nullary_bufs_sub .., unary_bufs_sub ..,
    binary_bufs_sub ..⟩)
set_option maxRecDepth 8192 in
theorem lB1_0_fresh : ∀ op ∈ (lB1_0 : List (HloOp τ sig (Elt F))), op.fresh = ∅ :=
  List.forall_iff_forall_mem.mp (show (lB1_0 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩)
set_option maxRecDepth 8192 in
theorem lB1_1_sub : ∀ op ∈ (lB1_1 : List (HloOp τ sig (Elt F))), op.bufs ⊆ tcRefs τ sig :=
  List.forall_iff_forall_mem.mp (show (lB1_1 : List (HloOp τ sig (Elt F))).Forall fun op => op.bufs ⊆ tcRefs τ sig from
  ⟨nullary_bufs_sub .., unary_bufs_sub .., binary_bufs_sub .., unary_bufs_sub .., nullary_bufs_sub .., unary_bufs_sub ..,
    binary_bufs_sub .., unary_bufs_sub .., nullary_bufs_sub .., unary_bufs_sub .., binary_bufs_sub .., unary_bufs_sub ..,
    unary_bufs_sub .., unary_bufs_sub .., unary_bufs_sub .., unary_bufs_sub .., unary_bufs_sub .., unary_bufs_sub ..,
    unary_bufs_sub .., nullary_bufs_sub .., unary_bufs_sub .., nary_bufs_sub .., unary_bufs_sub .., unary_bufs_sub ..,
    unary_bufs_sub .., unary_bufs_sub .., unary_bufs_sub .., unary_bufs_sub .., unary_bufs_sub .., unary_bufs_sub ..,
    unary_bufs_sub .., nullary_bufs_sub .., unary_bufs_sub .., nary_bufs_sub .., unary_bufs_sub .., unary_bufs_sub ..,
    unary_bufs_sub ..⟩)
set_option maxRecDepth 8192 in
theorem lB1_1_fresh : ∀ op ∈ (lB1_1 : List (HloOp τ sig (Elt F))), op.fresh = ∅ :=
  List.forall_iff_forall_mem.mp (show (lB1_1 : List (HloOp τ sig (Elt F))).Forall fun op => op.fresh = ∅ from
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩)
set_option maxRecDepth 8192 in
theorem lC_sub : ∀ op ∈ (lC : List (HloOp τ sig (Elt F))), op.bufs ⊆ tcRefs τ sig :=
  List.forall_iff_forall_mem.mp (show (lC : List (HloOp τ sig (Elt F))).Forall fun op => op.bufs ⊆ tcRefs τ sig from
  ⟨reshape_bufs_sub .., reshape_bufs_sub .., reshape_bufs_sub ..⟩)
set_option maxRecDepth 8192 in
theorem lC_fresh : ∀ op ∈ (lC : List (HloOp τ sig (Elt F))), op.fresh = ∅ :=
  List.forall_iff_forall_mem.mp (show (lC : List (HloOp τ sig (Elt F))).Forall fun op => op.fresh = ∅ from
  ⟨rfl, rfl, rfl⟩)
set_option maxRecDepth 8192 in
theorem lD_sub : ∀ op ∈ (lD : List (HloOp τ sig (Elt F))), op.bufs ⊆ tcRefs τ sig :=
  List.forall_iff_forall_mem.mp (show (lD : List (HloOp τ sig (Elt F))).Forall fun op => op.bufs ⊆ tcRefs τ sig from
  ⟨reshape_bufs_sub .., reshape_bufs_sub .., reshape_bufs_sub .., reshape_bufs_sub ..⟩)
set_option maxRecDepth 8192 in
theorem lD_fresh : ∀ op ∈ (lD : List (HloOp τ sig (Elt F))), op.fresh = ∅ :=
  List.forall_iff_forall_mem.mp (show (lD : List (HloOp τ sig (Elt F))).Forall fun op => op.fresh = ∅ from
  ⟨rfl, rfl, rfl, rfl⟩)
set_option maxRecDepth 8192 in
theorem lE0_sub : ∀ op ∈ (lE0 : List (HloOp τ sig (Elt F))), op.bufs ⊆ tcRefs τ sig :=
  List.forall_iff_forall_mem.mp (show (lE0 : List (HloOp τ sig (Elt F))).Forall fun op => op.bufs ⊆ tcRefs τ sig from
  reshape_bufs_sub ..)
set_option maxRecDepth 8192 in
theorem lE0_fresh : ∀ op ∈ (lE0 : List (HloOp τ sig (Elt F))), op.fresh = ∅ :=
  List.forall_iff_forall_mem.mp (show (lE0 : List (HloOp τ sig (Elt F))).Forall fun op => op.fresh = ∅ from
  rfl)
set_option maxRecDepth 8192 in
theorem lE1_sub : ∀ op ∈ (lE1 : List (HloOp τ sig (Elt F))), op.bufs ⊆ tcRefs τ sig :=
  List.forall_iff_forall_mem.mp (show (lE1 : List (HloOp τ sig (Elt F))).Forall fun op => op.bufs ⊆ tcRefs τ sig from
  ⟨reshape_bufs_sub .., reshape_bufs_sub ..⟩)
set_option maxRecDepth 8192 in
theorem lE1_fresh : ∀ op ∈ (lE1 : List (HloOp τ sig (Elt F))), op.fresh = ∅ :=
  List.forall_iff_forall_mem.mp (show (lE1 : List (HloOp τ sig (Elt F))).Forall fun op => op.fresh = ∅ from
  ⟨rfl, rfl⟩)
set_option maxRecDepth 8192 in
theorem lF_sub : ∀ op ∈ (lF : List (HloOp τ sig (Elt F))), op.bufs ⊆ tcRefs τ sig :=
  List.forall_iff_forall_mem.mp (show (lF : List (HloOp τ sig (Elt F))).Forall fun op => op.bufs ⊆ tcRefs τ sig from
  reshape_bufs_sub ..)
set_option maxRecDepth 8192 in
theorem lF_fresh : ∀ op ∈ (lF : List (HloOp τ sig (Elt F))), op.fresh = ∅ :=
  List.forall_iff_forall_mem.mp (show (lF : List (HloOp τ sig (Elt F))).Forall fun op => op.fresh = ∅ from
  rfl)
theorem opsA_sub : ∀ op ∈ (opsA : List (HloOp τ sig (Elt F))), op.bufs ⊆ tcRefs τ sig := forall_mem_append' lA_0_sub (forall_mem_append' lA_1_sub (lA_2_sub))
theorem opsA_fresh : ∀ op ∈ (opsA : List (HloOp τ sig (Elt F))), op.fresh = ∅ := forall_mem_append' lA_0_fresh (forall_mem_append' lA_1_fresh (lA_2_fresh))
theorem opsB0_sub : ∀ op ∈ (opsB0 : List (HloOp τ sig (Elt F))), op.bufs ⊆ tcRefs τ sig := lB0_sub
theorem opsB0_fresh : ∀ op ∈ (opsB0 : List (HloOp τ sig (Elt F))), op.fresh = ∅ := lB0_fresh
theorem opsB1_sub : ∀ op ∈ (opsB1 : List (HloOp τ sig (Elt F))), op.bufs ⊆ tcRefs τ sig := forall_mem_append' lB1_0_sub (lB1_1_sub)
theorem opsB1_fresh : ∀ op ∈ (opsB1 : List (HloOp τ sig (Elt F))), op.fresh = ∅ := forall_mem_append' lB1_0_fresh (lB1_1_fresh)
theorem opsB_sub : ∀ op ∈ (opsB : List (HloOp τ sig (Elt F))), op.bufs ⊆ tcRefs τ sig := forall_mem_append' lB0_sub (forall_mem_append' lB1_0_sub (lB1_1_sub))
theorem opsB_fresh : ∀ op ∈ (opsB : List (HloOp τ sig (Elt F))), op.fresh = ∅ := forall_mem_append' lB0_fresh (forall_mem_append' lB1_0_fresh (lB1_1_fresh))
theorem opsC_sub : ∀ op ∈ (opsC : List (HloOp τ sig (Elt F))), op.bufs ⊆ tcRefs τ sig := lC_sub
theorem opsC_fresh : ∀ op ∈ (opsC : List (HloOp τ sig (Elt F))), op.fresh = ∅ := lC_fresh
theorem opsD_sub : ∀ op ∈ (opsD : List (HloOp τ sig (Elt F))), op.bufs ⊆ tcRefs τ sig := lD_sub
theorem opsD_fresh : ∀ op ∈ (opsD : List (HloOp τ sig (Elt F))), op.fresh = ∅ := lD_fresh
theorem opsE0_sub : ∀ op ∈ (opsE0 : List (HloOp τ sig (Elt F))), op.bufs ⊆ tcRefs τ sig := lE0_sub
theorem opsE0_fresh : ∀ op ∈ (opsE0 : List (HloOp τ sig (Elt F))), op.fresh = ∅ := lE0_fresh
theorem opsE1_sub : ∀ op ∈ (opsE1 : List (HloOp τ sig (Elt F))), op.bufs ⊆ tcRefs τ sig := lE1_sub
theorem opsE1_fresh : ∀ op ∈ (opsE1 : List (HloOp τ sig (Elt F))), op.fresh = ∅ := lE1_fresh
theorem opsE_sub : ∀ op ∈ (opsE : List (HloOp τ sig (Elt F))), op.bufs ⊆ tcRefs τ sig := forall_mem_append' lE0_sub (lE1_sub)
theorem opsE_fresh : ∀ op ∈ (opsE : List (HloOp τ sig (Elt F))), op.fresh = ∅ := forall_mem_append' lE0_fresh (lE1_fresh)
theorem opsF_sub : ∀ op ∈ (opsF : List (HloOp τ sig (Elt F))), op.bufs ⊆ tcRefs τ sig := lF_sub
theorem opsF_fresh : ∀ op ∈ (opsF : List (HloOp τ sig (Elt F))), op.fresh = ∅ := lF_fresh
/-! ## The index list

The first line writes the 49152 row indices the SparseCore call gathers by: the 16384 user ids, the 16384 movie ids,
then gender * 256 + age * 32 + occupation. With the ids below 100000 and gender, age, occupation below 4, 8 and 32
the first 32768 are below 100000 and the rest below 4 * 256 = 1024 (the sum is at most 3 * 256 + 7 * 32 + 31). -/

/-- The one index of a one-axis shape of extent `n` at position `p`. -/
def ix1 {n : Nat} (p : Nat) (hp : p < n) : (⟨1, ![n]⟩ : Shape).Idx := fun a =>
  match a with
  | ⟨0, _⟩ => ⟨p, hp⟩

/-- gender * 256 + age * 32 + occupation, elementwise. -/
def packed (a1 a2 a3 : IVec S16384 32) : IVec S16384 32 :=
  addi (addi (muli a1 (broadcastInDim S16384 ![] bcast_S_S16384 (constantI S_ 32 256#32)))
             (muli a2 (broadcastInDim S16384 ![] bcast_S_S16384 (constantI S_ 32 32#32)))) a3

/-- The three pieces of the index list. -/
abbrev idxPieces (a0 a4 a1 a2 a3 : IVec S16384 32) : List ((s : Shape) × (s.Idx → BitVec 32)) :=
  [⟨S16384, a0⟩, ⟨S16384, a4⟩, ⟨S16384, packed a1 a2 a3⟩]

/-- The index list, as a term of the five index arrays. -/
def idxTerm (a0 a4 a1 a2 a3 : IVec S16384 32) : IVec S49152 32 :=
  concatenate S49152 0 (idxPieces a0 a4 a1 a2 a3) concatenates_S16384_S16384_S16384_S49152_d0

set_option maxRecDepth 8192 in
/-- The first 16384 entries are the user ids. -/
theorem idxTerm_piece0 (a0 a4 a1 a2 a3 : IVec S16384 32) (j : S49152.Idx) (h : (j 0).val < 16384) :
    idxTerm a0 a4 a1 a2 a3 j = a0 (ix1 (j 0).val h) :=
  concatenate_apply_piece (t := S49152) (0 : Fin 1) (idxPieces a0 a4 a1 a2 a3) concatenates_S16384_S16384_S16384_S49152_d0 j
    0 (show 0 < 3 by omega) S16384 a0 rfl rfl 0 rfl (ix1 (j 0).val h)
    (fun b hb => absurd (Subsingleton.elim _ _) hb) (by show 0 + (j 0).val = (j 0).val; omega)

set_option maxRecDepth 8192 in
/-- The next 16384 are the movie ids. -/
theorem idxTerm_piece1 (a0 a4 a1 a2 a3 : IVec S16384 32) (j : S49152.Idx) (hlo : 16384 ≤ (j 0).val) (h : (j 0).val - 16384 < 16384) :
    idxTerm a0 a4 a1 a2 a3 j = a4 (ix1 ((j 0).val - 16384) h) :=
  concatenate_apply_piece (t := S49152) (0 : Fin 1) (idxPieces a0 a4 a1 a2 a3) concatenates_S16384_S16384_S16384_S49152_d0 j
    1 (show 1 < 3 by omega) S16384 a4 rfl rfl 16384 rfl (ix1 ((j 0).val - 16384) h)
    (fun b hb => absurd (Subsingleton.elim _ _) hb) (by show 16384 + ((j 0).val - 16384) = (j 0).val; omega)

set_option maxRecDepth 8192 in
/-- The last 16384 are the packed small indices. -/
theorem idxTerm_piece2 (a0 a4 a1 a2 a3 : IVec S16384 32) (j : S49152.Idx) (hlo : 32768 ≤ (j 0).val) (h : (j 0).val - 32768 < 16384) :
    idxTerm a0 a4 a1 a2 a3 j = packed a1 a2 a3 (ix1 ((j 0).val - 32768) h) :=
  concatenate_apply_piece (t := S49152) (0 : Fin 1) (idxPieces a0 a4 a1 a2 a3) concatenates_S16384_S16384_S16384_S49152_d0 j
    2 (show 2 < 3 by omega) S16384 (packed a1 a2 a3) rfl rfl 32768 rfl (ix1 ((j 0).val - 32768) h)
    (fun b hb => absurd (Subsingleton.elim _ _) hb) (by show 32768 + ((j 0).val - 32768) = (j 0).val; omega)

/-- The packed index is below 1024 when its three fields are in range (no product or sum wraps). -/
theorem packed_lt (a1 a2 a3 : IVec S16384 32) (i : S16384.Idx)
    (e1 : (a1 i).toNat < 4) (e2 : (a2 i).toNat < 8) (e3 : (a3 i).toNat < 32) : (packed a1 a2 a3 i).toNat < 1024 := by
  simp only [packed, addi, muli, broadcastInDim, constantI, IntOp.addi, IntOp.muli, BitVec.toNat_add, BitVec.toNat_mul,
    BitVec.toNat_ofNat]
  omega

/-- The bounds of the index list from the bounds of the five arrays. -/
theorem idxTerm_bounds (a0 a4 a1 a2 a3 : IVec S16384 32)
    (h0 : ∀ i, (a0 i).toNat < 100000) (h4 : ∀ i, (a4 i).toNat < 100000)
    (h1 : ∀ i, (a1 i).toNat < 4) (h2 : ∀ i, (a2 i).toNat < 8) (h3 : ∀ i, (a3 i).toNat < 32) :
    (∀ j : S49152.Idx, (j 0).val < 32768 → (idxTerm a0 a4 a1 a2 a3 j).toNat < 100000)
    ∧ (∀ j : S49152.Idx, 32768 ≤ (j 0).val → (idxTerm a0 a4 a1 a2 a3 j).toNat < 1024) := by
  refine ⟨fun j hlt => ?_, fun j hge => ?_⟩
  · by_cases hc : (j 0).val < 16384
    · rw [idxTerm_piece0 a0 a4 a1 a2 a3 j hc]; exact h0 _
    · rw [idxTerm_piece1 a0 a4 a1 a2 a3 j (by omega) (by omega)]; exact h4 _
  · have hjj : (j 0).val < 49152 := (j 0).isLt
    rw [idxTerm_piece2 a0 a4 a1 a2 a3 j hge (by omega)]
    exact packed_lt a1 a2 a3 _ (h1 _) (h2 _) (h3 _)

/-! ## The integer ranges, read out of the precondition

The precondition is a conjunction, one `and` at a time, of all-reductions: the last five say that user id, gender,
age, occupation and movie id lie in [0, 99999], [0, 3], [0, 7], [0, 31], [0, 99999] as signed words. A conjunction
that is 1 has every conjunct 1; an all-reduction that is 1 met 1 at every element; a word between 0 and n signed
(n below 2^31) is at most n unsigned. -/

section Pre

open Cert.Pre_input_domain

variable [Cert.Pre_input_domain.Facts]

theorem ofBool_eq_one (p : Bool) : (BitVec.ofBool p = 1#1) ↔ p = true := by cases p <;> decide
theorem andi_ofBool (p q : Bool) : IntOp.andi (BitVec.ofBool p) (BitVec.ofBool q) = BitVec.ofBool (p && q) := by
  cases p <;> cases q <;> decide

theorem range_le_3 (w : BitVec 32)
    (e : IntOp.andi (IntOp.cmpi .sge w 0#32) (IntOp.cmpi .sle w 3#32) = 1#1) : w.toNat ≤ 3 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem range_le_7 (w : BitVec 32)
    (e : IntOp.andi (IntOp.cmpi .sge w 0#32) (IntOp.cmpi .sle w 7#32) = 1#1) : w.toNat ≤ 7 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem range_le_31 (w : BitVec 32)
    (e : IntOp.andi (IntOp.cmpi .sge w 0#32) (IntOp.cmpi .sle w 31#32) = 1#1) : w.toNat ≤ 31 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem range_le_99999 (w : BitVec 32)
    (e : IntOp.andi (IntOp.cmpi .sge w 0#32) (IntOp.cmpi .sle w 99999#32) = 1#1) : w.toNat ≤ 99999 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The scalar shape has one index. -/
instance : Subsingleton Cert.Pre_input_domain.S_.Idx := ⟨fun _ _ => funext fun a => a.elim0⟩

/-- The last two windows of the predicate: the five conjuncts they add. -/
theorem part9_ranges (a1 a2 a3 a4 : IVec Cert.Pre_input_domain.S16384 32) (v148 : IVec Cert.Pre_input_domain.S_ 1)
    (v153 : IVec Cert.Pre_input_domain.S16384 1) (j : Cert.Pre_input_domain.S_.Idx)
    (h : fn_part9 (F := F) a1 a2 a3 a4 v148 v153 j = 1#1) :
    v148 j = 1#1 ∧ (∀ i, v153 i = 1#1) ∧ (∀ i, (a1 i).toNat ≤ 3) ∧ (∀ i, (a2 i).toNat ≤ 7)
      ∧ (∀ i, (a3 i).toNat ≤ 31) ∧ (∀ i, (a4 i).toNat ≤ 99999) := by
  unfold fn_part9 fn_part10 at h
  simp only [andi, IntOp.andi_eq_one] at h
  obtain ⟨⟨⟨⟨⟨h148, h154⟩, h161⟩, h168⟩, h175⟩, h182⟩ := h
  refine ⟨h148, fun i => Host.reduce_andi_all _ _ _ _ j h154 i, fun i => ?_, fun i => ?_, fun i => ?_, fun i => ?_⟩
  · have e := Host.reduce_andi_all _ _ _ _ j h161 i
    simp only [andi, cmpi, broadcastInDim, constantI] at e
    exact range_le_3 _ e
  · have e := Host.reduce_andi_all _ _ _ _ j h168 i
    simp only [andi, cmpi, broadcastInDim, constantI] at e
    exact range_le_7 _ e
  · have e := Host.reduce_andi_all _ _ _ _ j h175 i
    simp only [andi, cmpi, broadcastInDim, constantI] at e
    exact range_le_31 _ e
  · have e := Host.reduce_andi_all _ _ _ _ j h182 i
    simp only [andi, cmpi, broadcastInDim, constantI] at e
    exact range_le_99999 _ e

end Pre

/-! ## The index list is what the first line leaves in its buffer -/

/-- The fold over a concatenation is the fold over the second list from the fold over the first. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- An operation whose one written buffer is in a list of references writes inside the list. -/
theorem writes_sub_of_mem {op : HloOp τ sig (Elt F)} {W : List (Ref sig .tc)} (y : Ref sig .tc)
    (hw : op.writes = {Proc.devRef .tc y}) (hy : y ∈ W) :
    op.writes ⊆ (W.map (Proc.devRef (τ := τ) .tc)).toFinset := by
  rw [hw]; exact Finset.singleton_subset_iff.mpr (List.mem_toFinset.mpr (List.mem_map_of_mem hy))

/-- The buffers the operations of `lA_1` write. -/
abbrev lA_1_W : List (Ref sig .tc) := [main_call1_v2, main_call1_v3, main_call1_v4, main_call1_v5, main_call1_v6, main_call1_v7, main_call1_v8, main_call1_c, main_call1_v9, main_call1_v10, main_call1_v11, main_call1_c_0, main_call1_v12, main_call1_v13, main_v17, main_c_5, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v18, main_c_6, main_v19, main_v20, main_c_7]
set_option maxRecDepth 8192 in
theorem lA_1_writes : (lA_1 : List (HloOp τ sig (Elt F))).Forall fun op => op.writes ⊆ (lA_1_W.map (Proc.devRef (τ := τ) .tc)).toFinset :=
  ⟨writes_sub_of_mem main_call1_v2 rfl (by decide), writes_sub_of_mem main_call1_v3 rfl (by decide), writes_sub_of_mem main_call1_v4 rfl (by decide),
    writes_sub_of_mem main_call1_v5 rfl (by decide), writes_sub_of_mem main_call1_v6 rfl (by decide), writes_sub_of_mem main_call1_v7 rfl (by decide),
    writes_sub_of_mem main_call1_v8 rfl (by decide), writes_sub_of_mem main_call1_c rfl (by decide), writes_sub_of_mem main_call1_v9 rfl (by decide),
    writes_sub_of_mem main_call1_v10 rfl (by decide), writes_sub_of_mem main_call1_v11 rfl (by decide), writes_sub_of_mem main_call1_c_0 rfl (by decide),
    writes_sub_of_mem main_call1_v12 rfl (by decide), writes_sub_of_mem main_call1_v13 rfl (by decide), writes_sub_of_mem main_v17 rfl (by decide),
    writes_sub_of_mem main_c_5 rfl (by decide), writes_sub_of_mem main_call2_v0 rfl (by decide), writes_sub_of_mem main_call2_c rfl (by decide),
    writes_sub_of_mem main_call2_v1 rfl (by decide), writes_sub_of_mem main_call2_c_0 rfl (by decide), writes_sub_of_mem main_call2_v2 rfl (by decide),
    writes_sub_of_mem main_call2_v3 rfl (by decide), writes_sub_of_mem main_call2_v4 rfl (by decide), writes_sub_of_mem main_call2_c_1 rfl (by decide),
    writes_sub_of_mem main_call2_v5 rfl (by decide), writes_sub_of_mem main_call2_v6 rfl (by decide), writes_sub_of_mem main_call2_c_2 rfl (by decide),
    writes_sub_of_mem main_call2_v7 rfl (by decide), writes_sub_of_mem main_call2_v8 rfl (by decide), writes_sub_of_mem main_call2_c_3 rfl (by decide),
    writes_sub_of_mem main_call2_v9 rfl (by decide), writes_sub_of_mem main_call2_v10 rfl (by decide), writes_sub_of_mem main_call2_v11 rfl (by decide),
    writes_sub_of_mem main_call2_v12 rfl (by decide), writes_sub_of_mem main_call2_v13 rfl (by decide), writes_sub_of_mem main_call2_v14 rfl (by decide),
    writes_sub_of_mem main_v18 rfl (by decide), writes_sub_of_mem main_c_6 rfl (by decide), writes_sub_of_mem main_v19 rfl (by decide),
    writes_sub_of_mem main_v20 rfl (by decide), writes_sub_of_mem main_c_7 rfl (by decide)⟩
/-- The buffers the operations of `lA_2` write. -/
abbrev lA_2_W : List (Ref sig .tc) := [main_v21, main_v22, main_v23, main_v24, main_v25, main_c_8, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v26, main_c_9, main_v27, main_v28, main_c_10, main_v29, main_v30, main_v31, main_v32, main_v33, main_cst, main_v34, main_v35]
set_option maxRecDepth 8192 in
theorem lA_2_writes : (lA_2 : List (HloOp τ sig (Elt F))).Forall fun op => op.writes ⊆ (lA_2_W.map (Proc.devRef (τ := τ) .tc)).toFinset :=
  ⟨writes_sub_of_mem main_v21 rfl (by decide), writes_sub_of_mem main_v22 rfl (by decide), writes_sub_of_mem main_v23 rfl (by decide),
    writes_sub_of_mem main_v24 rfl (by decide), writes_sub_of_mem main_v25 rfl (by decide), writes_sub_of_mem main_c_8 rfl (by decide),
    writes_sub_of_mem main_call3_v0 rfl (by decide), writes_sub_of_mem main_call3_c rfl (by decide), writes_sub_of_mem main_call3_v1 rfl (by decide),
    writes_sub_of_mem main_call3_c_0 rfl (by decide), writes_sub_of_mem main_call3_v2 rfl (by decide), writes_sub_of_mem main_call3_v3 rfl (by decide),
    writes_sub_of_mem main_call3_v4 rfl (by decide), writes_sub_of_mem main_call3_c_1 rfl (by decide), writes_sub_of_mem main_call3_v5 rfl (by decide),
    writes_sub_of_mem main_call3_v6 rfl (by decide), writes_sub_of_mem main_call3_c_2 rfl (by decide), writes_sub_of_mem main_call3_v7 rfl (by decide),
    writes_sub_of_mem main_call3_v8 rfl (by decide), writes_sub_of_mem main_call3_c_3 rfl (by decide), writes_sub_of_mem main_call3_v9 rfl (by decide),
    writes_sub_of_mem main_call3_v10 rfl (by decide), writes_sub_of_mem main_call3_v11 rfl (by decide), writes_sub_of_mem main_call3_v12 rfl (by decide),
    writes_sub_of_mem main_call3_v13 rfl (by decide), writes_sub_of_mem main_call3_v14 rfl (by decide), writes_sub_of_mem main_v26 rfl (by decide),
    writes_sub_of_mem main_c_9 rfl (by decide), writes_sub_of_mem main_v27 rfl (by decide), writes_sub_of_mem main_v28 rfl (by decide),
    writes_sub_of_mem main_c_10 rfl (by decide), writes_sub_of_mem main_v29 rfl (by decide), writes_sub_of_mem main_v30 rfl (by decide),
    writes_sub_of_mem main_v31 rfl (by decide), writes_sub_of_mem main_v32 rfl (by decide), writes_sub_of_mem main_v33 rfl (by decide),
    writes_sub_of_mem main_cst rfl (by decide), writes_sub_of_mem main_v34 rfl (by decide), writes_sub_of_mem main_v35 rfl (by decide)⟩

set_option maxRecDepth 8192 in
set_option maxHeartbeats 2000000 in
/-- The first window of the first line leaves the index list in its buffer: the nine operations that build it read off,
    the later ones write elsewhere. -/
theorem after_lA_0_v6 (V : Valuation τ sig (Elt F)) :
    after lA_0 V (Proc.devRef .tc main_v6) = idxTerm (V (Proc.devRef .tc main_arg0) : IVec S16384 32) (V (Proc.devRef .tc main_arg4) : IVec S16384 32) (V (Proc.devRef .tc main_arg1) : IVec S16384 32) (V (Proc.devRef .tc main_arg2) : IVec S16384 32) (V (Proc.devRef .tc main_arg3) : IVec S16384 32) := by
  simp only [lA_0]
  after_results_simp
  try dsimp only [Matrix.cons_val]
  try after_results_simp
  rfl

/-- The whole first line leaves the index list in its buffer. -/
theorem after_opsA_v6 (V : Valuation τ sig (Elt F)) :
    after opsA V (Proc.devRef .tc main_v6) = idxTerm (V (Proc.devRef .tc main_arg0) : IVec S16384 32) (V (Proc.devRef .tc main_arg4) : IVec S16384 32) (V (Proc.devRef .tc main_arg1) : IVec S16384 32) (V (Proc.devRef .tc main_arg2) : IVec S16384 32) (V (Proc.devRef .tc main_arg3) : IVec S16384 32) := by
  rw [show (opsA : List (HloOp τ sig (Elt F))) = lA_0 ++ (lA_1 ++ (lA_2)) from rfl, after_append', after_append',
    after_of_writes_sub lA_2 _ lA_2_writes (by decide),
    after_of_writes_sub lA_1 _ lA_1_writes (by decide)]
  exact after_lA_0_v6 V

/-- After the first line, from launch contents whose five index arrays are in range, the index list's first 32768
    entries are below 100000 and the rest below 1024. -/
theorem idx_ok (m : (ℓ : Loc nD τ sig) → Buf (Elt F) ℓ) (d : Dev nD)
    (h0 : ∀ i : S16384.Idx, BitVec.toNat ((m ((d.tc : Thread nD τ).loc main_arg0) : IVec S16384 32) i) < 100000)
    (h4 : ∀ i : S16384.Idx, BitVec.toNat ((m ((d.tc : Thread nD τ).loc main_arg4) : IVec S16384 32) i) < 100000)
    (h1 : ∀ i : S16384.Idx, BitVec.toNat ((m ((d.tc : Thread nD τ).loc main_arg1) : IVec S16384 32) i) < 4)
    (h2 : ∀ i : S16384.Idx, BitVec.toNat ((m ((d.tc : Thread nD τ).loc main_arg2) : IVec S16384 32) i) < 8)
    (h3 : ∀ i : S16384.Idx, BitVec.toNat ((m ((d.tc : Thread nD τ).loc main_arg3) : IVec S16384 32) i) < 32) :
    let V := after opsA (launchContents m d)
    (∀ j : S49152.Idx, (j 0).val < 32768 → BitVec.toNat ((V (Proc.devRef .tc main_v6) : IVec S49152 32) j) < 100000)
    ∧ (∀ j : S49152.Idx, 32768 ≤ (j 0).val → BitVec.toNat ((V (Proc.devRef .tc main_v6) : IVec S49152 32) j) < 1024) := by
  intro V
  have e : (V (Proc.devRef .tc main_v6) : IVec S49152 32)
      = idxTerm (m ((d.tc : Thread nD τ).loc main_arg0) : IVec S16384 32) (m ((d.tc : Thread nD τ).loc main_arg4) : IVec S16384 32) (m ((d.tc : Thread nD τ).loc main_arg1) : IVec S16384 32) (m ((d.tc : Thread nD τ).loc main_arg2) : IVec S16384 32) (m ((d.tc : Thread nD τ).loc main_arg3) : IVec S16384 32) := after_opsA_v6 (launchContents m d)
  rw [e]
  exact idxTerm_bounds _ _ _ _ _ h0 h4 h1 h2 h3

/-- The precondition gives the five ranges. -/
theorem bounds_of_pre [Cert.Pre_input_domain.Facts] (m : (ℓ : Loc nD τ sig) → Buf (Elt Bits) ℓ) (h : Cert.Pre_Kernel m) (d : Dev nD) :
    (∀ i : S16384.Idx, BitVec.toNat ((m ((d.tc : Thread nD τ).loc main_arg0) : IVec S16384 32) i) < 100000)
    ∧ (∀ i : S16384.Idx, BitVec.toNat ((m ((d.tc : Thread nD τ).loc main_arg4) : IVec S16384 32) i) < 100000)
    ∧ (∀ i : S16384.Idx, BitVec.toNat ((m ((d.tc : Thread nD τ).loc main_arg1) : IVec S16384 32) i) < 4)
    ∧ (∀ i : S16384.Idx, BitVec.toNat ((m ((d.tc : Thread nD τ).loc main_arg2) : IVec S16384 32) i) < 8)
    ∧ (∀ i : S16384.Idx, BitVec.toNat ((m ((d.tc : Thread nD τ).loc main_arg3) : IVec S16384 32) i) < 32) := by
  have e := congrFun (h d) (fun a => a.elim0)
  unfold Cert.Pre_input_domain.fn Cert.Pre_input_domain.fn_part1 Cert.Pre_input_domain.fn_part2 Cert.Pre_input_domain.fn_part3
    Cert.Pre_input_domain.fn_part4 Cert.Pre_input_domain.fn_part5 Cert.Pre_input_domain.fn_part6 Cert.Pre_input_domain.fn_part7
    Cert.Pre_input_domain.fn_part8 at e
  obtain ⟨-, h153, h1, h2, h3, h4⟩ := part9_ranges _ _ _ _ _ _ _ e
  refine ⟨fun i => ?_, fun i => Nat.lt_succ_of_le (h4 i), fun i => Nat.lt_succ_of_le (h1 i), fun i => Nat.lt_succ_of_le (h2 i),
    fun i => Nat.lt_succ_of_le (h3 i)⟩
  have e0 := h153 i
  simp only [andi, cmpi, broadcastInDim, constantI] at e0
  exact Nat.lt_succ_of_le (range_le_99999 _ e0)

/-- After the first line, under the precondition, the index list is in range. -/
theorem idx_ok_of_pre [Cert.Pre_input_domain.Facts] (m : (ℓ : Loc nD τ sig) → Buf (Elt Bits) ℓ) (h : Cert.Pre_Kernel m) (d : Dev nD) :
    let V := after (opsA (F := Bits)) (launchContents m d)
    (∀ j : S49152.Idx, (j 0).val < 32768 → BitVec.toNat ((V (Proc.devRef .tc main_v6) : IVec S49152 32) j) < 100000)
    ∧ (∀ j : S49152.Idx, 32768 ≤ (j 0).val → BitVec.toNat ((V (Proc.devRef .tc main_v6) : IVec S49152 32) j) < 1024) :=
  have b := bounds_of_pre m h d
  idx_ok m d b.1 b.2.1 b.2.2.1 b.2.2.2.1 b.2.2.2.2

end Cert.Kernel.MainShape

end
-- ==== Proof.ScCallBits.lean ====
import proofs.«214388_g48842368090541_cont_8to1c4_19_37_alg».proof.Proof.GatherSplitBits
import proofs.«214388_g48842368090541_cont_8to1c4_19_37_alg».proof.Proof.MainShapeBits

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The certificate's ghost state: the handshakes' rounds, the pipelines' rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) :=
  (Emb.inl : Emb (UR sig nD τ) (UR sig nD τ × Counters)).trans embR

instance EP_landsIn : (EP (F := F)).LandsIn (upEmb : UEmb _ 𝕄) := by unfold EP embR; infer_instance
instance EC_landsIn : (countersEmb : UEmb Counters 𝕄).LandsIn (upEmb : UEmb _ 𝕄) := by unfold countersEmb; infer_instance

/-! ## The buffers the SparseCore call takes and gives back -/

abbrev scRefs : Finset (DevRef τ sig) :=
  {Proc.devRef .tc main_v6, Proc.devRef .tc main_v7, Proc.devRef .tc main_v35, Proc.devRef .tc main_v36_0, Proc.devRef .tc main_v36_1, Proc.devRef .tc main_v36_2}

theorem scRefs_sub : scRefs ⊆ Pipeline.ucRefs τ sig := by decide

theorem held_sc (d : Dev nD) (V : Valuation τ sig (Elt F)) :
    (StableHlo.held (T d) scRefs V : sProp 𝕄)
      = iprop((idxLoc d ↦{fullShare} V (Proc.devRef .tc main_v6)) ∗ (bigLoc d ↦{fullShare} V (Proc.devRef .tc main_v7))
        ∗ (comboLoc d ↦{fullShare} V (Proc.devRef .tc main_v35)) ∗ (uoLoc d ↦{fullShare} V (Proc.devRef .tc main_v36_0))
        ∗ (moLoc d ↦{fullShare} V (Proc.devRef .tc main_v36_1)) ∗ (coLoc d ↦{fullShare} V (Proc.devRef .tc main_v36_2))) := by
  unfold StableHlo.held scRefs
  rw [SparseCore.bigSep_insert' (by decide), SparseCore.bigSep_insert' (by decide), SparseCore.bigSep_insert' (by decide),
    SparseCore.bigSep_insert' (by decide), SparseCore.bigSep_insert' (by decide), bigSep_singleton]

/-- The contents after the call: the three results at what the tasks wrote, everything else as before. -/
def scAfter (V : Valuation τ sig (Elt F)) (d : Dev nD) (fu : Buf (Elt F) (uoLoc d)) (fm : Buf (Elt F) (moLoc d)) (fco : Buf (Elt F) (coLoc d)) :
    Valuation τ sig (Elt F) :=
  Function.update (Function.update (Function.update V (Proc.devRef .tc main_v36_0) fu) (Proc.devRef .tc main_v36_1) fm) (Proc.devRef .tc main_v36_2) fco

theorem scAfter_of_ne (V : Valuation τ sig (Elt F)) (d : Dev nD) (fu fm fco) (b : DevRef τ sig)
    (h0 : b ≠ Proc.devRef .tc main_v36_0) (h1 : b ≠ Proc.devRef .tc main_v36_1) (h2 : b ≠ Proc.devRef .tc main_v36_2) :
    scAfter V d fu fm fco b = V b := by
  unfold scAfter
  rw [Function.update_of_ne h2, Function.update_of_ne h1, Function.update_of_ne h0]
theorem scAfter_uo (V : Valuation τ sig (Elt F)) (d : Dev nD) (fu fm fco) : scAfter V d fu fm fco (Proc.devRef .tc main_v36_0) = fu := by
  unfold scAfter
  rw [Function.update_of_ne (by decide), Function.update_of_ne (by decide), Function.update_self]
theorem scAfter_mo (V : Valuation τ sig (Elt F)) (d : Dev nD) (fu fm fco) : scAfter V d fu fm fco (Proc.devRef .tc main_v36_1) = fm := by
  unfold scAfter
  rw [Function.update_of_ne (by decide), Function.update_self]
theorem scAfter_co (V : Valuation τ sig (Elt F)) (d : Dev nD) (fu fm fco) : scAfter V d fu fm fco (Proc.devRef .tc main_v36_2) = fco := by
  unfold scAfter
  rw [Function.update_self]

section Main
variable [FloatOps F] [∀ e, Nonempty (Elt F e)]
variable (m : (ℓ : Loc nD τ sig) → Buf (Elt F) ℓ) (ρ : Dev nD → PrngReg)

open Cert.Kernel.MainShape

/-- The buffers' contents when the SparseCore call is made: the launch contents run through the first stretch of host lines. -/
abbrev VA (d : Dev nD) : Valuation τ sig (Elt F) := StableHlo.after (opsA (F := F)) (StableHlo.launchContents m d)
abbrev fiOf (d : Dev nD) : Buf (Elt F) (idxLoc d) := VA m d (Proc.devRef .tc main_v6)
abbrev fbOf (d : Dev nD) : Buf (Elt F) (bigLoc d) := VA m d (Proc.devRef .tc main_v7)
abbrev fcOf (d : Dev nD) : Buf (Elt F) (comboLoc d) := VA m d (Proc.devRef .tc main_v35)
abbrev PP : (K (F := F)).Pay (nD := nD) (Val := Elt F) (Name := ℕ) (U := UU) := P (UU := UU) (fiOf m) (fbOf m) (fcOf m)

/-- The SparseCore call on the TensorCore of `d`: it takes the index list, the two tables and the three results out of the
    unscoped buffers, and brings them back, the results at what the tasks wrote. -/
theorem sc_step (κ : GSem nD τ sig → ℕ) (d : Dev nD) {Φ : PUnit → sProp 𝕄} :
    iprop((K (F := F)).ctx EH (PP m) κ ∗ (K (F := F)).tcSt EH d 0 ∗ StableHlo.held (T d) (Pipeline.ucRefs τ sig) (VA m d)
        ∗ (∀ fu fm fco, ((K (F := F)).tcSt EH d 1 ∗ StableHlo.held (T d) (Pipeline.ucRefs τ sig) (scAfter (VA m d) d fu fm fco)) -∗ Φ ⟨⟩))
      ⊢ wp frame (wpE ((K (F := F)).defs (D (F := F))) 𝒱 (T d) none) Set.univ ((K (F := F)).run d 0) Φ := by
  iintro ⟨#Hctx, Hst, Hh, Hk⟩
  ihave Hs := (Entails.of_eq (StableHlo.held_sub_split (T d) scRefs_sub (VA m d))) $$ Hh
  icases Hs with ⟨H6, Hrest⟩
  ihave H6' := (Entails.of_eq (held_sc d (VA m d))) $$ H6
  icases H6' with ⟨Hi, Hb, Hc, Hu, Hm, Hco⟩
  iapply ((K (F := F)).wp_run (D (F := F)) 𝒱 (EH := EH) (P := PP m) κ d 0) $$ [Hst Hi Hb Hc Hu Hm Hco Hrest Hk]
  isplitr; · iexact Hctx
  isplitl [Hst]; · iexact Hst
  isplitl [Hi Hb Hc Hu Hm Hco]
  · iapply (toTasks (UU := UU) (fiOf m) (fbOf m) (fcOf m) d)
    isplitl [Hi]; · iexact Hi
    isplitl [Hb]; · iexact Hb
    isplitl [Hc]; · iexact Hc
    isplitl [Hu]; · iexists _; iexact Hu
    isplitl [Hm]; · iexists _; iexact Hm
    iexists _; iexact Hco
  iintro ⟨Hst, Hdn⟩
  ihave Hw := (fromTasks (UU := UU) (fiOf m) (fbOf m) (fcOf m) d) $$ Hdn
  icases Hw with ⟨Hi, Hb, Hc, ⟨%fu, Hu⟩, ⟨%fm, Hm⟩, ⟨%fco, Hco⟩⟩
  ispecialize Hk $$ %fu %fm %fco
  iapply Hk
  isplitl [Hst]; · iexact Hst
  iapply (Entails.of_eq (StableHlo.held_sub_split (T d) scRefs_sub (scAfter (VA m d) d fu fm fco)).symm)
  isplitl [Hi Hb Hc Hu Hm Hco]
  · iapply (Entails.of_eq (held_sc d (scAfter (VA m d) d fu fm fco)).symm)
    rw [scAfter_uo, scAfter_mo, scAfter_co, scAfter_of_ne _ _ _ _ _ (Proc.devRef .tc main_v6) (by decide) (by decide) (by decide),
      scAfter_of_ne _ _ _ _ _ (Proc.devRef .tc main_v7) (by decide) (by decide) (by decide),
      scAfter_of_ne _ _ _ _ _ (Proc.devRef .tc main_v35) (by decide) (by decide) (by decide)]
    isplitl [Hi]; · iexact Hi
    isplitl [Hb]; · iexact Hb
    isplitl [Hc]; · iexact Hc
    isplitl [Hu]; · iexact Hu
    isplitl [Hm]; · iexact Hm
    iexact Hco
  · iapply (Entails.of_eq (StableHlo.held_congr (T d) (fun b hb => (scAfter_of_ne (VA m d) d fu fm fco b
      (fun e => (Finset.mem_sdiff.mp hb).2 (e ▸ (by decide : Proc.devRef .tc main_v36_0 ∈ (scRefs : Finset (DevRef τ sig)))))
      (fun e => (Finset.mem_sdiff.mp hb).2 (e ▸ (by decide : Proc.devRef .tc main_v36_1 ∈ (scRefs : Finset (DevRef τ sig)))))
      (fun e => (Finset.mem_sdiff.mp hb).2 (e ▸ (by decide : Proc.devRef .tc main_v36_2 ∈ (scRefs : Finset (DevRef τ sig)))))).symm)))
    iexact Hrest

end Main

end Cert.Proof.KernelSc
end
-- ==== Proof.RegionDataBits.lean ====
import proofs.«214388_g48842368090541_cont_8to1c4_19_37_alg».proof.Proof.Gen.Kernel.Launch

noncomputable section

namespace Cert.Kernel

open Idealize.ShloMosaic Idealize.ShloMosaic.TcCoe
open Idealize.SL Idealize.SL.RA Idealize.SL.BI
open scoped Idealize.SL.BI
open Idealize.SL.BI.BIBase Idealize.SL.Sem

variable {F : FTy → Type}
variable {Ix : Type} [DecidableEq Ix] {Name : Type} [DecidableEq Name] {U : Type} [URA U] {Lvl : Type}

/-- The admissible contents of each pipeline's prefetched tables: none of the four pipelines prefetches a table, so
    the one admissible contents is the empty one, and the pipeline at it is the printed configuration again. -/
abbrev adm0 : (p : Fin 4) → (pcfgs (F := F) p).Adm := fun p => (cfgs p).toPCfg_adm

/-- Pipeline `p` at its admissible contents: the configuration the region rule is stated over. -/
abbrev pcfg (p : Fin 4) : Pipeline.Cfg sig Λ₀ := Pipeline.pin (pcfgs (F := F)) adm0 p

/-- It is the printed configuration. -/
theorem pcfg_eq (p : Fin 4) : pcfg (F := F) p = cfgs p := rfl

/-- Relational proof data that say nothing of any value: the windows' arrays at entry contents `A`; of what the body
    leaves in a staging buffer, nothing (the relation that always holds); the invariant between points the scoped
    buffers no window stages, at some contents, and the generator register at some state; nothing owed; every input
    array held at the full share; and the (own cell, index) pairs the core's waits have recorded bounded, at every
    point, by the one set `B`. -/
def rdOf (p : Fin 4) (c : Dev nD)
    (A : (w : Fin (pcfg (F := F) p).W) → Buf (Elt F) (((pcfg (F := F) p).win w).arr.view.loc (c.tc : Thread nD τ)))
    (B : Set (SemLoc sig × Ix)) :
    Pipeline.RDat τ (Elt F) Ix Name U Lvl (pcfg (F := F) p) c where
  A := A
  after := fun _ _ _ _ => True
  Φ := fun _ => iprop(Pipeline.scopedRest (pcfg (F := F) p).spec c ∗ ∃ r, prngReg c r)
  q := fun _ => fullShare
  owed := fun _ => 0
  recorded := fun _ => B

/-- The bound for a thread whose recorded pairs are `W` when the region is entered, over indices `Option _`: the
    pairs of `W` and every pair at the index `none` (the index the pipeline's own waits are recorded at). -/
abbrev recOf {J : Type} (W : Waits sig (Option J)) : Set (SemLoc sig × Option J) := {p | p ∈ W ∨ p.2 = none}

@[simp] theorem rdOf_A (p : Fin 4) (c : Dev nD) (A) (B) : (rdOf (Ix := Ix) (Name := Name) (U := U) (Lvl := Lvl) (F := F) p c A B).A = A := rfl
@[simp] theorem rdOf_owed (p : Fin 4) (c : Dev nD) (A) (B) (t) : (rdOf (Ix := Ix) (Name := Name) (U := U) (Lvl := Lvl) (F := F) p c A B).owed t = 0 := rfl
@[simp] theorem rdOf_recorded (p : Fin 4) (c : Dev nD) (A) (B) (t) : (rdOf (Ix := Ix) (Name := Name) (U := U) (Lvl := Lvl) (F := F) p c A B).recorded t = B := rfl
theorem rdOf_share (p : Fin 4) (c : Dev nD) (A) (B) (w) : (rdOf (Ix := Ix) (Name := Name) (U := U) (Lvl := Lvl) (F := F) p c A B).share w = fullShare := by
  unfold Pipeline.RDat.share; split <;> rfl
theorem rdOf_Φ (p : Fin 4) (c : Dev nD) (A) (B) (t) : (rdOf (Ix := Ix) (Name := Name) (U := U) (Lvl := Lvl) (F := F) p c A B).Φ t
    = iprop(Pipeline.scopedRest (pcfg (F := F) p).spec c ∗ ∃ r, prngReg c r) := rfl
/-- The bound at any point: the recorded set and the loop's own wait pairs at the index `ι`. -/
theorem rdOf_bound (p : Fin 4) (c : Dev nD) (A) (B) (ι : Ix) (t) : (rdOf (Ix := Ix) (Name := Name) (U := U) (Lvl := Lvl) (F := F) p c A B).bound ι t
    = B ∪ (pcfg (F := F) p).waitPairs ι := rfl

end Cert.Kernel

end
-- ==== Proof.LaunchElemBits.lean ====
/-
  The launch element of the certificate's ghost state. The user component of the machine's algebra is a pair: the rounds
  of the SparseCore call's handshakes on the left; on the right, the rounds of the four TensorCore pipelines' staging
  cells beside the transfers' counters. At launch the whole element splits along these products: the handshakes' half is
  kept as it is; the pipelines' half funds, per device and per pipeline, the staging cells' ghost state and the loops'
  duty tokens; the counters' unit is dropped. The payload's per-thread family is `emp` throughout.
-/
import proofs.«214388_g48842368090541_cont_8to1c4_19_37_alg».proof.Proof.ScCallBits
import proofs.«214388_g48842368090541_cont_8to1c4_19_37_alg».proof.Proof.RegionDataBits

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The pipelines' staging cells -/

/-- The staging cells of the four pipelines at their admissible contents are pairwise distinct: the pipelines there are
    the printed configurations, whose cells are. -/
theorem hinj : Function.Injective (Pipeline.cellOf (nD := nD) (τ := τ) (Pipeline.pin (pcfgs (F := F)) adm0)) := cellOf_inj

/-- The four pipelines' staging cells' launch ghost state on device `d`: per pipeline, its cells' round states, positions
    and round-0 witnesses, and its loop's duty tokens. -/
def G (d : Dev nD) : sProp 𝕄 :=
  bigSep (Finset.univ : Finset (Fin 4)) fun p =>
    iprop(Pipeline.cellsGhost (Pipeline.pin (pcfgs (F := F)) adm0) EP p d ∗ Pipeline.toksInit (Pipeline.pin (pcfgs (F := F)) adm0) EP p d)

/-- The launch element: the handshakes' rounds at their cells and tokens, the pipelines' rounds at theirs, and the unit of
    the counters. -/
def u₀ : UU :=
  (initOf (K (F := F)).hsCells (K (F := F)).hsToks,
    (initOf (Pipeline.cells (Pipeline.pin (pcfgs (F := F)) adm0) hinj) (Pipeline.launchToks (Pipeline.pin (pcfgs (F := F)) adm0) hinj), (1 : Counters)))

/-- A family of `emp`s is `emp`. -/
theorem bigSep_emp' {I : Type} (s : Finset I) : (bigSep s fun _ => iprop(emp)) = (iprop(emp) : sProp 𝕄) := bigSep_emp_const s

section Main
variable [FloatOps F] [∀ e, Nonempty (Elt F e)]
variable (m : (ℓ : Loc nD τ sig) → Buf (Elt F) ℓ)

/-- From the launch element (the payload's credit and the free counters are not needed): the handshakes' element as the
    SparseCore launch wants it, every device's share of the pipelines' ghost state, and the payload's per-thread family,
    which is `emp`. The element splits along its two products; the pipelines' half funds the cells' ghost state and the
    duty tokens, each a family over devices and pipelines, which are then regrouped per device. -/
theorem hu₀ : iprop(ownU (u₀ (F := F)) ∗ (PP m).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PP m).x q thr) := by
  unfold u₀
  iintro ⟨Hu, -, -⟩
  ihave H := (ownU_pair (initOf (K (F := F)).hsCells (K (F := F)).hsToks)
    (initOf (Pipeline.cells (Pipeline.pin (pcfgs (F := F)) adm0) hinj) (Pipeline.launchToks (Pipeline.pin (pcfgs (F := F)) adm0) hinj), (1 : Counters))) $$ Hu
  icases H with ⟨HH, HR⟩
  ihave H2 := (own_pair_emb embR
    (initOf (Pipeline.cells (Pipeline.pin (pcfgs (F := F)) adm0) hinj) (Pipeline.launchToks (Pipeline.pin (pcfgs (F := F)) adm0) hinj)) (1 : Counters)) $$ HR
  icases H2 with ⟨HP, -⟩
  imod (Pipeline.fund_ghost (Pipeline.pin (pcfgs (F := F)) adm0) EP hinj) $$ HP with ⟨Hg, Ht⟩
  imodintro
  isplitl [HH]; · iexact HH
  isplitl [Hg Ht]
  · unfold G
    simp only [bigSep_sep']
    isplitl [Hg]; · iexact Hg
    iexact Ht
  rw [show (bigSep Finset.univ fun thr : Thread nD τ => bigSep Finset.univ fun q : Fin 1 => (PP (F := F) m).x q thr)
      = bigSep Finset.univ fun _ => iprop(emp) from bigSep_congr fun _ _ => bigSep_univ_of_subsingleton (0 : Fin 1), bigSep_emp' (F := F)]
  iempintro

end Main

end Cert.Proof.KernelSc
end
-- ==== Proof.MainKeepBits.lean ====
/-
  What the kernel program's host lines leave alone, and the end of its frame. The 35 argument arrays are written by
  no operation of the six lines, by the SparseCore call's three results or by any output window of the four kernel
  launches; they are unscoped TensorCore buffers. So a valuation of the unscoped buffers that agrees with the launch
  contents on the arguments, held whole beside the state interpretation, pins the physical memory of every argument
  array at its launch contents: the frame's post.
-/
import proofs.«214388_g48842368090541_cont_8to1c4_19_37_alg».proof.Proof.MainShapeBits
import Idealize.ShloMosaic.Lib.Pipeline.Frame
import Idealize.ShloMosaic.Lib.Pipeline.Launch

noncomputable section

namespace Cert.Kernel.MainShape

open Cert.Kernel Cert.Kernel.Gen Idealize.ShloMosaic Idealize.ShloMosaic.TcCoe Idealize.SL.Sem Idealize.ShloMosaic.StableHlo

variable {F : FTy → Type} [FloatOps F]

/-! ## The argument arrays -/

/-- The 35 argument arrays, as TensorCore references. -/
abbrev argList : List (Ref sig .tc) :=
  [main_arg0, main_arg1, main_arg2, main_arg3, main_arg4, main_arg5, main_arg6, main_arg7, main_arg8,
    main_arg9, main_arg10, main_arg11, main_arg12, main_arg13, main_arg14, main_arg15, main_arg16, main_arg17,
    main_arg18, main_arg19, main_arg20, main_arg21, main_arg22, main_arg23, main_arg24, main_arg25, main_arg26,
    main_arg27, main_arg28, main_arg29, main_arg30, main_arg31, main_arg32, main_arg33, main_arg34]

/-- The 35 argument arrays, as device buffers. -/
def argRefs : Finset (DevRef τ sig) := (argList.map (Proc.devRef (τ := τ) .tc)).toFinset

theorem mem_argRefs {b : DevRef τ sig} : b ∈ argRefs ↔ ∃ r ∈ argList, Proc.devRef (τ := τ) .tc r = b := by
  unfold argRefs
  rw [List.mem_toFinset, List.mem_map]

theorem devRef_mem_argRefs {r : Ref sig .tc} (h : r ∈ argList) : Proc.devRef (τ := τ) .tc r ∈ argRefs :=
  mem_argRefs.mpr ⟨r, h, rfl⟩

/-- A reference that is no argument is no argument as a device buffer either (references embed injectively). -/
theorem devRef_not_mem_argRefs {r : Ref sig .tc} (h : r ∉ argList) : Proc.devRef (τ := τ) .tc r ∉ argRefs := fun hb => by
  obtain ⟨r', hr', e⟩ := mem_argRefs.mp hb
  exact h (Proc.devRef_injective _ e ▸ hr')

/-- The arguments are unscoped TensorCore buffers. -/
theorem argRefs_sub : argRefs ⊆ Pipeline.ucRefs τ sig := fun b hb => by
  obtain ⟨r, hr, rfl⟩ := mem_argRefs.mp hb
  have hs : ∀ r ∈ argList, (Proc.devRef (τ := τ) .tc r : DevRef τ sig).isScoped = false := by decide
  exact Finset.mem_filter.mpr ⟨devRef_mem_tcRefs r, by rw [hs r hr]; exact Bool.false_ne_true⟩

/-! ## What each line leaves alone

Every operation writes one buffer; a buffer outside a line's written list keeps its contents through the line. -/

/-- The buffers the operations of `lA_0` write. -/
abbrev lA_0_W : List (Ref sig .tc) := [main_c, main_v0, main_v1, main_c_0, main_v2, main_v3, main_v4, main_v5, main_v6, main_v7, main_v8, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v9, main_c_2, main_v10, main_v11, main_c_3, main_v12, main_v13, main_v14, main_v15, main_v16, main_c_4, main_call1_v0, main_call1_v1]
set_option maxRecDepth 8192 in
theorem lA_0_writes : (lA_0 : List (HloOp τ sig (Elt F))).Forall fun op => op.writes ⊆ (lA_0_W.map (Proc.devRef (τ := τ) .tc)).toFinset :=
  ⟨writes_sub_of_mem main_c rfl (by decide), writes_sub_of_mem main_v0 rfl (by decide), writes_sub_of_mem main_v1 rfl (by decide),
    writes_sub_of_mem main_c_0 rfl (by decide), writes_sub_of_mem main_v2 rfl (by decide), writes_sub_of_mem main_v3 rfl (by decide),
    writes_sub_of_mem main_v4 rfl (by decide), writes_sub_of_mem main_v5 rfl (by decide), writes_sub_of_mem main_v6 rfl (by decide),
    writes_sub_of_mem main_v7 rfl (by decide), writes_sub_of_mem main_v8 rfl (by decide), writes_sub_of_mem main_c_1 rfl (by decide),
    writes_sub_of_mem main_call0_v0 rfl (by decide), writes_sub_of_mem main_call0_v1 rfl (by decide), writes_sub_of_mem main_call0_v2 rfl (by decide),
    writes_sub_of_mem main_call0_v3 rfl (by decide), writes_sub_of_mem main_call0_v4 rfl (by decide), writes_sub_of_mem main_call0_v5 rfl (by decide),
    writes_sub_of_mem main_call0_v6 rfl (by decide), writes_sub_of_mem main_call0_v7 rfl (by decide), writes_sub_of_mem main_call0_v8 rfl (by decide),
    writes_sub_of_mem main_call0_c rfl (by decide), writes_sub_of_mem main_call0_v9 rfl (by decide), writes_sub_of_mem main_call0_v10 rfl (by decide),
    writes_sub_of_mem main_call0_v11 rfl (by decide), writes_sub_of_mem main_call0_c_0 rfl (by decide), writes_sub_of_mem main_call0_v12 rfl (by decide),
    writes_sub_of_mem main_call0_v13 rfl (by decide), writes_sub_of_mem main_v9 rfl (by decide), writes_sub_of_mem main_c_2 rfl (by decide),
    writes_sub_of_mem main_v10 rfl (by decide), writes_sub_of_mem main_v11 rfl (by decide), writes_sub_of_mem main_c_3 rfl (by decide),
    writes_sub_of_mem main_v12 rfl (by decide), writes_sub_of_mem main_v13 rfl (by decide), writes_sub_of_mem main_v14 rfl (by decide),
    writes_sub_of_mem main_v15 rfl (by decide), writes_sub_of_mem main_v16 rfl (by decide), writes_sub_of_mem main_c_4 rfl (by decide),
    writes_sub_of_mem main_call1_v0 rfl (by decide), writes_sub_of_mem main_call1_v1 rfl (by decide)⟩
/-- The buffers the operations of `lB0` write. -/
abbrev lB0_W : List (Ref sig .tc) := [main_v37, main_v38, main_v39, main_v40, main_v41, main_v42, main_c_11, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v43, main_v44, main_v45]
set_option maxRecDepth 8192 in
theorem lB0_writes : (lB0 : List (HloOp τ sig (Elt F))).Forall fun op => op.writes ⊆ (lB0_W.map (Proc.devRef (τ := τ) .tc)).toFinset :=
  ⟨writes_sub_of_mem main_v37 rfl (by decide), writes_sub_of_mem main_v38 rfl (by decide), writes_sub_of_mem main_v39 rfl (by decide),
    writes_sub_of_mem main_v40 rfl (by decide), writes_sub_of_mem main_v41 rfl (by decide), writes_sub_of_mem main_v42 rfl (by decide),
    writes_sub_of_mem main_c_11 rfl (by decide), writes_sub_of_mem main_call4_v0 rfl (by decide), writes_sub_of_mem main_call4_v1 rfl (by decide),
    writes_sub_of_mem main_call4_v2 rfl (by decide), writes_sub_of_mem main_call4_v3 rfl (by decide), writes_sub_of_mem main_call4_v4 rfl (by decide),
    writes_sub_of_mem main_call4_v5 rfl (by decide), writes_sub_of_mem main_call4_v6 rfl (by decide), writes_sub_of_mem main_call4_v7 rfl (by decide),
    writes_sub_of_mem main_call4_v8 rfl (by decide), writes_sub_of_mem main_call4_c rfl (by decide), writes_sub_of_mem main_call4_v9 rfl (by decide),
    writes_sub_of_mem main_call4_v10 rfl (by decide), writes_sub_of_mem main_call4_v11 rfl (by decide), writes_sub_of_mem main_call4_c_0 rfl (by decide),
    writes_sub_of_mem main_call4_v12 rfl (by decide), writes_sub_of_mem main_call4_v13 rfl (by decide), writes_sub_of_mem main_v43 rfl (by decide),
    writes_sub_of_mem main_v44 rfl (by decide), writes_sub_of_mem main_v45 rfl (by decide)⟩
/-- The buffers the operations of `lB1_0` write. -/
abbrev lB1_0_W : List (Ref sig .tc) := [main_v46, main_v47, main_c_12, main_call5_v0, main_v48, main_v49, main_c_13, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v50, main_v51, main_v52, main_v53, main_v54, main_v55, main_v56, main_c_14, main_call7_v0, main_v57]
set_option maxRecDepth 8192 in
theorem lB1_0_writes : (lB1_0 : List (HloOp τ sig (Elt F))).Forall fun op => op.writes ⊆ (lB1_0_W.map (Proc.devRef (τ := τ) .tc)).toFinset :=
  ⟨writes_sub_of_mem main_v46 rfl (by decide), writes_sub_of_mem main_v47 rfl (by decide), writes_sub_of_mem main_c_12 rfl (by decide),
    writes_sub_of_mem main_call5_v0 rfl (by decide), writes_sub_of_mem main_v48 rfl (by decide), writes_sub_of_mem main_v49 rfl (by decide),
    writes_sub_of_mem main_c_13 rfl (by decide), writes_sub_of_mem main_call6_v0 rfl (by decide), writes_sub_of_mem main_call6_c rfl (by decide),
    writes_sub_of_mem main_call6_v1 rfl (by decide), writes_sub_of_mem main_call6_c_0 rfl (by decide), writes_sub_of_mem main_call6_v2 rfl (by decide),
    writes_sub_of_mem main_call6_v3 rfl (by decide), writes_sub_of_mem main_call6_v4 rfl (by decide), writes_sub_of_mem main_call6_c_1 rfl (by decide),
    writes_sub_of_mem main_call6_v5 rfl (by decide), writes_sub_of_mem main_call6_v6 rfl (by decide), writes_sub_of_mem main_call6_c_2 rfl (by decide),
    writes_sub_of_mem main_call6_v7 rfl (by decide), writes_sub_of_mem main_call6_v8 rfl (by decide), writes_sub_of_mem main_call6_c_3 rfl (by decide),
    writes_sub_of_mem main_call6_v9 rfl (by decide), writes_sub_of_mem main_call6_v10 rfl (by decide), writes_sub_of_mem main_call6_v11 rfl (by decide),
    writes_sub_of_mem main_call6_v12 rfl (by decide), writes_sub_of_mem main_call6_v13 rfl (by decide), writes_sub_of_mem main_call6_v14 rfl (by decide),
    writes_sub_of_mem main_v50 rfl (by decide), writes_sub_of_mem main_v51 rfl (by decide), writes_sub_of_mem main_v52 rfl (by decide),
    writes_sub_of_mem main_v53 rfl (by decide), writes_sub_of_mem main_v54 rfl (by decide), writes_sub_of_mem main_v55 rfl (by decide),
    writes_sub_of_mem main_v56 rfl (by decide), writes_sub_of_mem main_c_14 rfl (by decide), writes_sub_of_mem main_call7_v0 rfl (by decide),
    writes_sub_of_mem main_v57 rfl (by decide)⟩
/-- The buffers the operations of `lB1_1` write. -/
abbrev lB1_1_W : List (Ref sig .tc) := [main_c_15, main_call8_v0, main_v58, main_v59, main_c_16, main_call9_v0, main_v60, main_v61, main_c_17, main_call10_v0, main_v62, main_v63, main_v64, main_v65, main_v66, main_v67, main_v68, main_v69, main_v70, main_cst_18, main_v71, main_v72, main_v73, main_v74, main_v75, main_v76, main_v77, main_v78, main_v79, main_v80, main_v81, main_cst_19, main_v82, main_v83, main_v84, main_v85, main_v86]
set_option maxRecDepth 8192 in
theorem lB1_1_writes : (lB1_1 : List (HloOp τ sig (Elt F))).Forall fun op => op.writes ⊆ (lB1_1_W.map (Proc.devRef (τ := τ) .tc)).toFinset :=
  ⟨writes_sub_of_mem main_c_15 rfl (by decide), writes_sub_of_mem main_call8_v0 rfl (by decide), writes_sub_of_mem main_v58 rfl (by decide),
    writes_sub_of_mem main_v59 rfl (by decide), writes_sub_of_mem main_c_16 rfl (by decide), writes_sub_of_mem main_call9_v0 rfl (by decide),
    writes_sub_of_mem main_v60 rfl (by decide), writes_sub_of_mem main_v61 rfl (by decide), writes_sub_of_mem main_c_17 rfl (by decide),
    writes_sub_of_mem main_call10_v0 rfl (by decide), writes_sub_of_mem main_v62 rfl (by decide), writes_sub_of_mem main_v63 rfl (by decide),
    writes_sub_of_mem main_v64 rfl (by decide), writes_sub_of_mem main_v65 rfl (by decide), writes_sub_of_mem main_v66 rfl (by decide),
    writes_sub_of_mem main_v67 rfl (by decide), writes_sub_of_mem main_v68 rfl (by decide), writes_sub_of_mem main_v69 rfl (by decide),
    writes_sub_of_mem main_v70 rfl (by decide), writes_sub_of_mem main_cst_18 rfl (by decide), writes_sub_of_mem main_v71 rfl (by decide),
    writes_sub_of_mem main_v72 rfl (by decide), writes_sub_of_mem main_v73 rfl (by decide), writes_sub_of_mem main_v74 rfl (by decide),
    writes_sub_of_mem main_v75 rfl (by decide), writes_sub_of_mem main_v76 rfl (by decide), writes_sub_of_mem main_v77 rfl (by decide),
    writes_sub_of_mem main_v78 rfl (by decide), writes_sub_of_mem main_v79 rfl (by decide), writes_sub_of_mem main_v80 rfl (by decide),
    writes_sub_of_mem main_v81 rfl (by decide), writes_sub_of_mem main_cst_19 rfl (by decide), writes_sub_of_mem main_v82 rfl (by decide),
    writes_sub_of_mem main_v83 rfl (by decide), writes_sub_of_mem main_v84 rfl (by decide), writes_sub_of_mem main_v85 rfl (by decide),
    writes_sub_of_mem main_v86 rfl (by decide)⟩
/-- The buffers the operations of `lC` write. -/
abbrev lC_W : List (Ref sig .tc) := [main_v88, main_v89, main_v90]
set_option maxRecDepth 8192 in
theorem lC_writes : (lC : List (HloOp τ sig (Elt F))).Forall fun op => op.writes ⊆ (lC_W.map (Proc.devRef (τ := τ) .tc)).toFinset :=
  ⟨writes_sub_of_mem main_v88 rfl (by decide), writes_sub_of_mem main_v89 rfl (by decide), writes_sub_of_mem main_v90 rfl (by decide)⟩
/-- The buffers the operations of `lD` write. -/
abbrev lD_W : List (Ref sig .tc) := [main_v92, main_v93, main_v94, main_v95]
set_option maxRecDepth 8192 in
theorem lD_writes : (lD : List (HloOp τ sig (Elt F))).Forall fun op => op.writes ⊆ (lD_W.map (Proc.devRef (τ := τ) .tc)).toFinset :=
  ⟨writes_sub_of_mem main_v92 rfl (by decide), writes_sub_of_mem main_v93 rfl (by decide), writes_sub_of_mem main_v94 rfl (by decide),
    writes_sub_of_mem main_v95 rfl (by decide)⟩
/-- The buffers the operations of `lE0` write. -/
abbrev lE0_W : List (Ref sig .tc) := [main_v97]
set_option maxRecDepth 8192 in
theorem lE0_writes : (lE0 : List (HloOp τ sig (Elt F))).Forall fun op => op.writes ⊆ (lE0_W.map (Proc.devRef (τ := τ) .tc)).toFinset :=
  writes_sub_of_mem main_v97 rfl (by decide)
/-- The buffers the operations of `lE1` write. -/
abbrev lE1_W : List (Ref sig .tc) := [main_v98, main_v99]
set_option maxRecDepth 8192 in
theorem lE1_writes : (lE1 : List (HloOp τ sig (Elt F))).Forall fun op => op.writes ⊆ (lE1_W.map (Proc.devRef (τ := τ) .tc)).toFinset :=
  ⟨writes_sub_of_mem main_v98 rfl (by decide), writes_sub_of_mem main_v99 rfl (by decide)⟩
/-- The buffers the operations of `lF` write. -/
abbrev lF_W : List (Ref sig .tc) := [main_v101]
set_option maxRecDepth 8192 in
theorem lF_writes : (lF : List (HloOp τ sig (Elt F))).Forall fun op => op.writes ⊆ (lF_W.map (Proc.devRef (τ := τ) .tc)).toFinset :=
  writes_sub_of_mem main_v101 rfl (by decide)
/-- The buffers line `opsA` writes. -/
abbrev opsA_W : List (Ref sig .tc) := lA_0_W ++ (lA_1_W ++ (lA_2_W))
theorem after_opsA_keep (V : Valuation τ sig (Elt F)) (r : Ref sig .tc) (h : r ∉ opsA_W) :
    after opsA V (Proc.devRef .tc r) = V (Proc.devRef .tc r) := by
  have h0 : r ∉ lA_0_W := fun hm => h (List.mem_append_left _ hm)
  have t0 : r ∉ lA_1_W ++ (lA_2_W) := fun hm => h (List.mem_append_right _ hm)
  have h1 : r ∉ lA_1_W := fun hm => t0 (List.mem_append_left _ hm)
  have t1 : r ∉ lA_2_W := fun hm => t0 (List.mem_append_right _ hm)
  have h2 := t1
  rw [show (opsA : List (HloOp τ sig (Elt F))) = lA_0 ++ (lA_1 ++ (lA_2)) from rfl, after_append', after_append', after_of_writes_sub lA_2 _ lA_2_writes h2,
    after_of_writes_sub lA_1 _ lA_1_writes h1,
    after_of_writes_sub lA_0 _ lA_0_writes h0]
/-- The buffers line `opsB` writes. -/
abbrev opsB_W : List (Ref sig .tc) := lB0_W ++ (lB1_0_W ++ (lB1_1_W))
theorem after_opsB_keep (V : Valuation τ sig (Elt F)) (r : Ref sig .tc) (h : r ∉ opsB_W) :
    after opsB V (Proc.devRef .tc r) = V (Proc.devRef .tc r) := by
  have h0 : r ∉ lB0_W := fun hm => h (List.mem_append_left _ hm)
  have t0 : r ∉ lB1_0_W ++ (lB1_1_W) := fun hm => h (List.mem_append_right _ hm)
  have h1 : r ∉ lB1_0_W := fun hm => t0 (List.mem_append_left _ hm)
  have t1 : r ∉ lB1_1_W := fun hm => t0 (List.mem_append_right _ hm)
  have h2 := t1
  rw [show (opsB : List (HloOp τ sig (Elt F))) = lB0 ++ (lB1_0 ++ (lB1_1)) from rfl, after_append', after_append', after_of_writes_sub lB1_1 _ lB1_1_writes h2,
    after_of_writes_sub lB1_0 _ lB1_0_writes h1,
    after_of_writes_sub lB0 _ lB0_writes h0]
/-- The buffers line `opsC` writes. -/
abbrev opsC_W : List (Ref sig .tc) := lC_W
theorem after_opsC_keep (V : Valuation τ sig (Elt F)) (r : Ref sig .tc) (h : r ∉ opsC_W) :
    after opsC V (Proc.devRef .tc r) = V (Proc.devRef .tc r) := by
  have h0 := h
  rw [after_of_writes_sub lC _ lC_writes h0]
/-- The buffers line `opsD` writes. -/
abbrev opsD_W : List (Ref sig .tc) := lD_W
theorem after_opsD_keep (V : Valuation τ sig (Elt F)) (r : Ref sig .tc) (h : r ∉ opsD_W) :
    after opsD V (Proc.devRef .tc r) = V (Proc.devRef .tc r) := by
  have h0 := h
  rw [after_of_writes_sub lD _ lD_writes h0]
/-- The buffers line `opsE` writes. -/
abbrev opsE_W : List (Ref sig .tc) := lE0_W ++ (lE1_W)
theorem after_opsE_keep (V : Valuation τ sig (Elt F)) (r : Ref sig .tc) (h : r ∉ opsE_W) :
    after opsE V (Proc.devRef .tc r) = V (Proc.devRef .tc r) := by
  have h0 : r ∉ lE0_W := fun hm => h (List.mem_append_left _ hm)
  have t0 : r ∉ lE1_W := fun hm => h (List.mem_append_right _ hm)
  have h1 := t0
  rw [show (opsE : List (HloOp τ sig (Elt F))) = lE0 ++ (lE1) from rfl, after_append', after_of_writes_sub lE1 _ lE1_writes h1,
    after_of_writes_sub lE0 _ lE0_writes h0]
/-- The buffers line `opsF` writes. -/
abbrev opsF_W : List (Ref sig .tc) := lF_W
theorem after_opsF_keep (V : Valuation τ sig (Elt F)) (r : Ref sig .tc) (h : r ∉ opsF_W) :
    after opsF V (Proc.devRef .tc r) = V (Proc.devRef .tc r) := by
  have h0 := h
  rw [after_of_writes_sub lF _ lF_writes h0]

/-! ## No line writes an argument -/

set_option maxRecDepth 8192 in
theorem args_not_in_opsA : ∀ r ∈ argList, r ∉ opsA_W := by decide
/-- Line `opsA` leaves every argument array as it found it. -/
theorem opsA_keep (V : Valuation τ sig (Elt F)) : ∀ b ∈ argRefs, after opsA V b = V b := fun b hb => by
  obtain ⟨r, hr, rfl⟩ := mem_argRefs.mp hb
  exact after_opsA_keep V r (args_not_in_opsA r hr)

set_option maxRecDepth 8192 in
theorem args_not_in_opsB : ∀ r ∈ argList, r ∉ opsB_W := by decide
/-- Line `opsB` leaves every argument array as it found it. -/
theorem opsB_keep (V : Valuation τ sig (Elt F)) : ∀ b ∈ argRefs, after opsB V b = V b := fun b hb => by
  obtain ⟨r, hr, rfl⟩ := mem_argRefs.mp hb
  exact after_opsB_keep V r (args_not_in_opsB r hr)

set_option maxRecDepth 8192 in
theorem args_not_in_opsC : ∀ r ∈ argList, r ∉ opsC_W := by decide
/-- Line `opsC` leaves every argument array as it found it. -/
theorem opsC_keep (V : Valuation τ sig (Elt F)) : ∀ b ∈ argRefs, after opsC V b = V b := fun b hb => by
  obtain ⟨r, hr, rfl⟩ := mem_argRefs.mp hb
  exact after_opsC_keep V r (args_not_in_opsC r hr)

set_option maxRecDepth 8192 in
theorem args_not_in_opsD : ∀ r ∈ argList, r ∉ opsD_W := by decide
/-- Line `opsD` leaves every argument array as it found it. -/
theorem opsD_keep (V : Valuation τ sig (Elt F)) : ∀ b ∈ argRefs, after opsD V b = V b := fun b hb => by
  obtain ⟨r, hr, rfl⟩ := mem_argRefs.mp hb
  exact after_opsD_keep V r (args_not_in_opsD r hr)

set_option maxRecDepth 8192 in
theorem args_not_in_opsE : ∀ r ∈ argList, r ∉ opsE_W := by decide
/-- Line `opsE` leaves every argument array as it found it. -/
theorem opsE_keep (V : Valuation τ sig (Elt F)) : ∀ b ∈ argRefs, after opsE V b = V b := fun b hb => by
  obtain ⟨r, hr, rfl⟩ := mem_argRefs.mp hb
  exact after_opsE_keep V r (args_not_in_opsE r hr)

set_option maxRecDepth 8192 in
theorem args_not_in_opsF : ∀ r ∈ argList, r ∉ opsF_W := by decide
/-- Line `opsF` leaves every argument array as it found it. -/
theorem opsF_keep (V : Valuation τ sig (Elt F)) : ∀ b ∈ argRefs, after opsF V b = V b := fun b hb => by
  obtain ⟨r, hr, rfl⟩ := mem_argRefs.mp hb
  exact after_opsF_keep V r (args_not_in_opsF r hr)

/-! ## Nor does the SparseCore call or a kernel launch -/

/-- The SparseCore call's three result buffers are no arguments. -/
theorem scOut_not_arg : ∀ b ∈ ({Proc.devRef .tc main_v36_0, Proc.devRef .tc main_v36_1, Proc.devRef .tc main_v36_2} : Finset (DevRef τ sig)),
    b ∉ argRefs := by
  intro b hb
  simp only [Finset.mem_insert, Finset.mem_singleton] at hb
  rcases hb with rfl | rfl | rfl <;> exact devRef_not_mem_argRefs (by decide)

set_option maxRecDepth 8192 in
/-- No output window of a kernel launch is over an argument array. -/
theorem out_not_arg : ∀ (p : Fin 4) (w : Fin (cfgs p).W), ((cfgs p).win w).isOut = true →
    Proc.devRef (τ := τ) .tc (Pipeline.arrRef (cfgs p).spec w) ∉ argRefs := by
  intro p w h
  refine devRef_not_mem_argRefs ?_
  revert w
  fin_cases p <;> decide

/-! ## The end of the frame -/

/-- On device `d` the memory holds every argument array at its launch contents: the frame's post at `d`. -/
def ArgsKept (m : (ℓ : Loc nD τ sig) → Buf (Elt F) ℓ) (d : Dev nD) (mem : MemSt nD τ sig (Elt F)) : Prop :=
  mem.mem ((d.tc : Thread nD τ).loc main_arg0) = m ((d.tc : Thread nD τ).loc main_arg0)
  ∧ mem.mem ((d.tc : Thread nD τ).loc main_arg1) = m ((d.tc : Thread nD τ).loc main_arg1)
  ∧ mem.mem ((d.tc : Thread nD τ).loc main_arg2) = m ((d.tc : Thread nD τ).loc main_arg2)
  ∧ mem.mem ((d.tc : Thread nD τ).loc main_arg3) = m ((d.tc : Thread nD τ).loc main_arg3)
  ∧ mem.mem ((d.tc : Thread nD τ).loc main_arg4) = m ((d.tc : Thread nD τ).loc main_arg4)
  ∧ mem.mem ((d.tc : Thread nD τ).loc main_arg5) = m ((d.tc : Thread nD τ).loc main_arg5)
  ∧ mem.mem ((d.tc : Thread nD τ).loc main_arg6) = m ((d.tc : Thread nD τ).loc main_arg6)
  ∧ mem.mem ((d.tc : Thread nD τ).loc main_arg7) = m ((d.tc : Thread nD τ).loc main_arg7)
  ∧ mem.mem ((d.tc : Thread nD τ).loc main_arg8) = m ((d.tc : Thread nD τ).loc main_arg8)
  ∧ mem.mem ((d.tc : Thread nD τ).loc main_arg9) = m ((d.tc : Thread nD τ).loc main_arg9)
  ∧ mem.mem ((d.tc : Thread nD τ).loc main_arg10) = m ((d.tc : Thread nD τ).loc main_arg10)
  ∧ mem.mem ((d.tc : Thread nD τ).loc main_arg11) = m ((d.tc : Thread nD τ).loc main_arg11)
  ∧ mem.mem ((d.tc : Thread nD τ).loc main_arg12) = m ((d.tc : Thread nD τ).loc main_arg12)
  ∧ mem.mem ((d.tc : Thread nD τ).loc main_arg13) = m ((d.tc : Thread nD τ).loc main_arg13)
  ∧ mem.mem ((d.tc : Thread nD τ).loc main_arg14) = m ((d.tc : Thread nD τ).loc main_arg14)
  ∧ mem.mem ((d.tc : Thread nD τ).loc main_arg15) = m ((d.tc : Thread nD τ).loc main_arg15)
  ∧ mem.mem ((d.tc : Thread nD τ).loc main_arg16) = m ((d.tc : Thread nD τ).loc main_arg16)
  ∧ mem.mem ((d.tc : Thread nD τ).loc main_arg17) = m ((d.tc : Thread nD τ).loc main_arg17)
  ∧ mem.mem ((d.tc : Thread nD τ).loc main_arg18) = m ((d.tc : Thread nD τ).loc main_arg18)
  ∧ mem.mem ((d.tc : Thread nD τ).loc main_arg19) = m ((d.tc : Thread nD τ).loc main_arg19)
  ∧ mem.mem ((d.tc : Thread nD τ).loc main_arg20) = m ((d.tc : Thread nD τ).loc main_arg20)
  ∧ mem.mem ((d.tc : Thread nD τ).loc main_arg21) = m ((d.tc : Thread nD τ).loc main_arg21)
  ∧ mem.mem ((d.tc : Thread nD τ).loc main_arg22) = m ((d.tc : Thread nD τ).loc main_arg22)
  ∧ mem.mem ((d.tc : Thread nD τ).loc main_arg23) = m ((d.tc : Thread nD τ).loc main_arg23)
  ∧ mem.mem ((d.tc : Thread nD τ).loc main_arg24) = m ((d.tc : Thread nD τ).loc main_arg24)
  ∧ mem.mem ((d.tc : Thread nD τ).loc main_arg25) = m ((d.tc : Thread nD τ).loc main_arg25)
  ∧ mem.mem ((d.tc : Thread nD τ).loc main_arg26) = m ((d.tc : Thread nD τ).loc main_arg26)
  ∧ mem.mem ((d.tc : Thread nD τ).loc main_arg27) = m ((d.tc : Thread nD τ).loc main_arg27)
  ∧ mem.mem ((d.tc : Thread nD τ).loc main_arg28) = m ((d.tc : Thread nD τ).loc main_arg28)
  ∧ mem.mem ((d.tc : Thread nD τ).loc main_arg29) = m ((d.tc : Thread nD τ).loc main_arg29)
  ∧ mem.mem ((d.tc : Thread nD τ).loc main_arg30) = m ((d.tc : Thread nD τ).loc main_arg30)
  ∧ mem.mem ((d.tc : Thread nD τ).loc main_arg31) = m ((d.tc : Thread nD τ).loc main_arg31)
  ∧ mem.mem ((d.tc : Thread nD τ).loc main_arg32) = m ((d.tc : Thread nD τ).loc main_arg32)
  ∧ mem.mem ((d.tc : Thread nD τ).loc main_arg33) = m ((d.tc : Thread nD τ).loc main_arg33)
  ∧ mem.mem ((d.tc : Thread nD τ).loc main_arg34) = m ((d.tc : Thread nD τ).loc main_arg34)

/-- The frame claim is the run with that post on every device. -/
example [Cert.Pre_input_domain.Facts] : Cert.frame_Kernel =
    ∀ (m : (ℓ : Loc nD τ sig) → Buf (Elt Bits) ℓ) (g : Dev nD → PrngReg), Cert.Pre_Kernel m →
      θ_run (defs (F := Bits)) (threads (F := Bits)) ⟨m, fun _ => 0, g⟩ (fun r => ∀ c : Dev nD, ArgsKept m c r.2) := rfl

section Read

open Idealize.SL Idealize.SL.RA Idealize.SL.BI
open scoped Idealize.SL.BI
open Idealize.SL.BI.BIBase Idealize.SL.BI.Laws Idealize.SL.ProofMode

variable {Ix : Type} [DecidableEq Ix] {Name : Type} [DecidableEq Name] {U : Type} [URA U] {Lvl : Type} [Preorder Lvl]

local notation "𝕄" => MT nD τ sig Ix (Elt F) Name U Lvl

/-- The unscoped buffers held whole at a valuation that agrees with the launch contents on the arguments, beside the
    state interpretation: the memory holds every argument array at its launch contents. -/
theorem args_read (m : (ℓ : Loc nD τ sig) → Buf (Elt F) ℓ) (d : Dev nD) (V : Valuation τ sig (Elt F))
    (hV : ∀ b ∈ argRefs, V b = launchContents m d b) (s' : Phys nD τ sig (Elt F)) :
    iprop(held (d.tc : Thread nD τ) (Pipeline.ucRefs τ sig) V ∗ SI s') ⊢ (⌜ArgsKept m d s'.mem⌝ : sProp 𝕄) := by
  unfold held
  iintro ⟨H, HSI⟩
  ihave %h := (SI_pointsTo_bufs_agree (qs := fun _ => fullShare) (Pipeline.ucRefs τ sig)) $$ [HSI H]
  · isplitl [HSI]; · iexact HSI
    iexact H
  ipureintro
  have key : ∀ r ∈ argList, s'.mem.mem ((d.tc : Thread nD τ).loc r) = m ((d.tc : Thread nD τ).loc r) := fun r hr =>
    (h _ (argRefs_sub (devRef_mem_argRefs hr))).trans (hV _ (devRef_mem_argRefs hr))
  exact ⟨key main_arg0 (by decide), key main_arg1 (by decide), key main_arg2 (by decide), key main_arg3 (by decide),
    key main_arg4 (by decide), key main_arg5 (by decide), key main_arg6 (by decide), key main_arg7 (by decide),
    key main_arg8 (by decide), key main_arg9 (by decide), key main_arg10 (by decide), key main_arg11 (by decide),
    key main_arg12 (by decide), key main_arg13 (by decide), key main_arg14 (by decide), key main_arg15 (by decide),
    key main_arg16 (by decide), key main_arg17 (by decide), key main_arg18 (by decide), key main_arg19 (by decide),
    key main_arg20 (by decide), key main_arg21 (by decide), key main_arg22 (by decide), key main_arg23 (by decide),
    key main_arg24 (by decide), key main_arg25 (by decide), key main_arg26 (by decide), key main_arg27 (by decide),
    key main_arg28 (by decide), key main_arg29 (by decide), key main_arg30 (by decide), key main_arg31 (by decide),
    key main_arg32 (by decide), key main_arg33 (by decide), key main_arg34 (by decide)⟩

end Read

end Cert.Kernel.MainShape

end
-- ==== Proof.MainFrameBits.lean ====
import proofs.«214388_g48842368090541_cont_8to1c4_19_37_alg».proof.Proof.LaunchElemBits
import proofs.«214388_g48842368090541_cont_8to1c4_19_37_alg».proof.Proof.MainKeepBits

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Kernel.MainShape

variable {F : FTy → Type}

local notation "𝕄" => MT nD τ sig (HIx 1) (Elt F) ℕ UU ℕ

section Generic
variable {nD' : Nat} {τ' : Topo} {sig' : RefSig} {Val' : EltTy → Type} {Ix' : Type} [DecidableEq Ix'] {Name' : Type} [DecidableEq Name'] {U' : Type} [URA U'] {Lvl' : Type}
/-- The launch's unscoped buffers on a device are the set of its TensorCore's unscoped references held at the launch contents. -/
theorem unscopedBufs_launch (m : (ℓ : Loc nD' τ' sig') → Buf Val' ℓ) (c : Dev nD') :
    (unscopedBufs (Ix := Ix') (Name := Name') (U := U') (Lvl := Lvl') c (fun b => m ((SparseCore.T c).loc b)) : sProp (MT nD' τ' sig' Ix' Val' Name' U' Lvl'))
      = StableHlo.held (SparseCore.T c) (Pipeline.ucRefs τ' sig') (StableHlo.launchContents m c) :=
  Pipeline.unscopedBufs_held (Ix := Ix') (Name := Name') (U := U') (Lvl := Lvl') c (fun b => m (c, b))
end Generic

section Shape
variable [FloatOps F] [∀ e, Nonempty (Elt F e)]

/-- What a pallas_call region is to @main on the TensorCore: from the region boundary, the unscoped buffers at `V`, the
    generator register, the thread owing nothing with recorded waits `W`, and the pipeline's launch ghost state, the call
    runs; the continuation gets the same back, the buffers at contents that differ from `V` only at the pipeline's result
    arrays, the recorded waits grown only by pairs at the index `none`. -/
def RegStep (outDevRefs : Fin 4 → Finset (DevRef τ sig)) (adm : (p : Fin 4) → (pcfgs (F := F) p).Adm) (p : Fin 4) : Prop :=
  ∀ (d : Dev nD) (Vv : Valuation τ sig (Elt F)) (W : Waits sig (HIx 1)) {α : Type}
    (k : PUnit → Prog (TpuEff nD τ sig (Elt F) (SparseCore.Sig (Pipeline.Sig Λ₀ (Fin 4) fun p => (pcfgs (F := F) p).Adm) 1) .tc) α) (Q : α → sProp 𝕄),
    iprop((∀ V' W', ⌜∀ b, b ∉ outDevRefs p → V' b = Vv b⌝ -∗ ⌜∀ q ∈ W', q ∈ W ∨ q.2 = none⌝ -∗
            (boundary (T d) ∗ StableHlo.held (T d) (Pipeline.ucRefs τ sig) V' ∗ (∃ r, prngReg d r) ∗ owes (T d) 0 W') -∗
            wp frame (wpE ((K (F := F)).defs (D (F := F))) 𝒱 (T d) none) Set.univ (k ⟨⟩) Q)
        ∗ boundary (T d) ∗ StableHlo.held (T d) (Pipeline.ucRefs τ sig) Vv ∗ (∃ r, prngReg d r) ∗ owes (T d) 0 W
        ∗ levAts (K (F := F)).L (K (F := F)).lev
        ∗ Pipeline.cellsGhost (Pipeline.pin (pcfgs (F := F)) adm0) EP p d ∗ Pipeline.toksInit (Pipeline.pin (pcfgs (F := F)) adm0) EP p d)
      ⊢ wp frame (wpE ((K (F := F)).defs (D (F := F))) 𝒱 (T d) none) Set.univ
          (Prog.lift (.customCall (SparseCore.inner (Pipeline.entry p)) ()) >>= k) Q

end Shape

section Main
variable [FloatOps F] [∀ e, Nonempty (Elt F e)]
variable (m : (ℓ : Loc nD τ sig) → Buf (Elt F) ℓ) (ρ : Dev nD → PrngReg)

/-! ## The TensorCore's handshake state after the call, opened -/

/-- What the TensorCore's state after the one call holds beside its `owes`. -/
abbrev tcStRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) :
    ((K (F := F)).tcSt EH d 1 : sProp 𝕄) = iprop((∃ W, ⌜(K (F := F)).WBelow (T d) W 8⌝ ∗ owes (T d) 0 W) ∗ tcStRest (F := F) d) := by
  unfold SparseCore.Cfg.tcSt
  rw [(K (F := F)).Otc_end d (n := 1) (le_refl 1)]

omit [FloatOps F] [∀ e, Nonempty (Elt F e)] in
theorem WBelow_step {thr : Thread nD τ} {W W' : Waits sig (HIx 1)} {b : ℕ} (h : (K (F := F)).WBelow thr W b)
    (h' : ∀ q ∈ W', q ∈ W ∨ q.2 = none) : (K (F := F)).WBelow thr W' b := by
  intro q hq
  rcases h' q hq with hw | hn
  · exact h q hw
  · rw [hn]; exact Nat.zero_le _

/-! ## The pipelines' launch ghost state, one pallas_call at a time -/

omit [FloatOps F] [∀ e, Nonempty (Elt F e)] in
theorem G_eq (d : Dev nD) : (G (F := F) d : sProp 𝕄)
    = iprop((Pipeline.cellsGhost (Pipeline.pin (pcfgs (F := F)) adm0) EP 0 d ∗ Pipeline.toksInit (Pipeline.pin (pcfgs (F := F)) adm0) EP 0 d)
      ∗ (Pipeline.cellsGhost (Pipeline.pin (pcfgs (F := F)) adm0) EP 1 d ∗ Pipeline.toksInit (Pipeline.pin (pcfgs (F := F)) adm0) EP 1 d)
      ∗ (Pipeline.cellsGhost (Pipeline.pin (pcfgs (F := F)) adm0) EP 2 d ∗ Pipeline.toksInit (Pipeline.pin (pcfgs (F := F)) adm0) EP 2 d)
      ∗ (Pipeline.cellsGhost (Pipeline.pin (pcfgs (F := F)) adm0) EP 3 d ∗ Pipeline.toksInit (Pipeline.pin (pcfgs (F := F)) adm0) EP 3 d)) := by
  unfold G
  rw [show (Finset.univ : Finset (Fin 4)) = {0, 1, 2, 3} by decide, SparseCore.bigSep_insert' (by decide), SparseCore.bigSep_insert' (by decide),
    SparseCore.bigSep_insert' (by decide), bigSep_singleton]

/-! ## @main on the TensorCore -/

variable (outDevRefs : Fin 4 → Finset (DevRef τ sig))

/-- What the proof keeps of the buffers at the end: the unscoped buffers at contents that are the launch contents
    on every argument array. -/
def FIN (d : Dev nD) : sProp 𝕄 :=
  iprop(∃ Vv : Valuation τ sig (Elt F), ⌜∀ b ∈ argRefs, Vv b = StableHlo.launchContents m d b⌝ ∗ StableHlo.held (T d) (Pipeline.ucRefs τ sig) Vv)

set_option maxHeartbeats 1600000 in
theorem hmain (hreg : ∀ p, RegStep (F := F) outDevRefs adm0 p)
    (hout : ∀ p, ∀ b ∈ argRefs, b ∉ outDevRefs p)
    (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN (F := F) m d) := by
  rw [main_shape]
  unfold SparseCore.Cfg.tcRes
  iintro ⟨#Hctx, Hst, ⟨Hbd, Hbufs, -, Hprng⟩, HG⟩
  ihave Hh := (Entails.of_eq (unscopedBufs_launch (Ix' := HIx 1) (Name' := ℕ) (U' := UU) (Lvl' := ℕ) m d)) $$ Hbufs
  ihave Hlev := ((K (F := F)).ctx_levAts (EH := EH) (P := PP m) κ) $$ Hctx
  ihave HG' := (Entails.of_eq (G_eq (F := F) d)) $$ HG
  icases HG' with ⟨⟨Hcg0, Htk0⟩, ⟨Hcg1, Htk1⟩, ⟨Hcg2, Htk2⟩, ⟨Hcg3, Htk3⟩⟩
  -- the first stretch of host lines
  iapply (StableHlo.wp_seq 𝒱 none Set.univ d (Pipeline.ucRefs τ sig) _ opsA (fun op h => Pipeline.sub_ucRefs op (opsA_sub op h)) opsA_fresh _) $$ [Hbd Hh]
  · isplitl [Hbd] <;> iassumption
  iintro ⟨Hbd, Hh⟩
  have hk0 : ∀ b ∈ argRefs, VA m d b = StableHlo.launchContents m d b := fun b hb => opsA_keep _ b hb
  -- the SparseCore call
  rw [wp_bind]
  iapply (sc_step m κ d)
  isplitr; · iexact Hctx
  isplitl [Hst]; · iexact Hst
  isplitl [Hh]; · iexact Hh
  iintro %fu %fm %fco ⟨Hst, Hh⟩
  have hk1 : ∀ b ∈ argRefs, scAfter (VA m d) d fu fm fco b = StableHlo.launchContents m d b := fun b hb =>
    (scAfter_of_ne _ _ _ _ _ b (fun e => scOut_not_arg b (by rw [e]; decide) hb) (fun e => scOut_not_arg b (by rw [e]; decide) hb) (fun e => scOut_not_arg b (by rw [e]; decide) hb)).trans (hk0 b hb)
  ihave Hst' := (Entails.of_eq (tcSt_one (F := F) d)) $$ Hst
  icases Hst' with ⟨⟨%W0, %hW0, HO⟩, Hrest⟩
  -- host lines, then the first pallas_call
  iapply (StableHlo.wp_seq 𝒱 none Set.univ d (Pipeline.ucRefs τ sig) _ opsB (fun op h => Pipeline.sub_ucRefs op (opsB_sub op h)) opsB_fresh _) $$ [Hbd Hh]
  · isplitl [Hbd] <;> iassumption
  iintro ⟨Hbd, Hh⟩
  have hk2 := fun b hb => (opsB_keep _ b hb).trans (hk1 b hb)
  ihave Hprng := (show (prngReg d (ρ d) : sProp 𝕄) ⊢ iprop(∃ r, prngReg d r) from exists_intro (Φ := fun r => (prngReg d r : sProp 𝕄)) (ρ d)) $$ Hprng
  ihave Hlev := ((K (F := F)).ctx_levAts (EH := EH) (P := PP m) κ) $$ Hctx
  iapply (hreg 0 d _ W0 _ _)
  isplitr [Hbd Hh Hprng HO Hlev Hcg0 Htk0]
  swap
  · isplitl [Hbd]; · iexact Hbd
    isplitl [Hh]; · iexact Hh
    isplitl [Hprng]; · iexact Hprng
    isplitl [HO]; · iexact HO
    isplitl [Hlev]; · iexact Hlev
    isplitl [Hcg0]; · iexact Hcg0
    iexact Htk0
  iintro %V1 %W1 %hV0 %hW1 ⟨Hbd, Hh, Hprng, HO⟩
  have hk3 : ∀ b ∈ argRefs, V1 b = StableHlo.launchContents m d b := fun b hb => (hV0 b (hout 0 b hb)).trans (hk2 b hb)
  iapply (StableHlo.wp_seq 𝒱 none Set.univ d (Pipeline.ucRefs τ sig) _ opsC (fun op h => Pipeline.sub_ucRefs op (opsC_sub op h)) opsC_fresh _) $$ [Hbd Hh]
  · isplitl [Hbd] <;> iassumption
  iintro ⟨Hbd, Hh⟩
  have hk4 := fun b hb => (opsC_keep _ b hb).trans (hk3 b hb)
  ihave Hlev := ((K (F := F)).ctx_levAts (EH := EH) (P := PP m) κ) $$ Hctx
  iapply (hreg 1 d _ W1 _ _)
  isplitr [Hbd Hh Hprng HO Hlev Hcg1 Htk1]
  swap
  · isplitl [Hbd]; · iexact Hbd
    isplitl [Hh]; · iexact Hh
    isplitl [Hprng]; · iexact Hprng
    isplitl [HO]; · iexact HO
    isplitl [Hlev]; · iexact Hlev
    isplitl [Hcg1]; · iexact Hcg1
    iexact Htk1
  iintro %V2 %W2 %hV1 %hW2 ⟨Hbd, Hh, Hprng, HO⟩
  have hk5 : ∀ b ∈ argRefs, V2 b = StableHlo.launchContents m d b := fun b hb => (hV1 b (hout 1 b hb)).trans (hk4 b hb)
  iapply (StableHlo.wp_seq 𝒱 none Set.univ d (Pipeline.ucRefs τ sig) _ opsD (fun op h => Pipeline.sub_ucRefs op (opsD_sub op h)) opsD_fresh _) $$ [Hbd Hh]
  · isplitl [Hbd] <;> iassumption
  iintro ⟨Hbd, Hh⟩
  have hk6 := fun b hb => (opsD_keep _ b hb).trans (hk5 b hb)
  ihave Hlev := ((K (F := F)).ctx_levAts (EH := EH) (P := PP m) κ) $$ Hctx
  iapply (hreg 2 d _ W2 _ _)
  isplitr [Hbd Hh Hprng HO Hlev Hcg2 Htk2]
  swap
  · isplitl [Hbd]; · iexact Hbd
    isplitl [Hh]; · iexact Hh
    isplitl [Hprng]; · iexact Hprng
    isplitl [HO]; · iexact HO
    isplitl [Hlev]; · iexact Hlev
    isplitl [Hcg2]; · iexact Hcg2
    iexact Htk2
  iintro %V3 %W3 %hV2 %hW3 ⟨Hbd, Hh, Hprng, HO⟩
  have hk7 : ∀ b ∈ argRefs, V3 b = StableHlo.launchContents m d b := fun b hb => (hV2 b (hout 2 b hb)).trans (hk6 b hb)
  iapply (StableHlo.wp_seq 𝒱 none Set.univ d (Pipeline.ucRefs τ sig) _ opsE (fun op h => Pipeline.sub_ucRefs op (opsE_sub op h)) opsE_fresh _) $$ [Hbd Hh]
  · isplitl [Hbd] <;> iassumption
  iintro ⟨Hbd, Hh⟩
  have hk8 := fun b hb => (opsE_keep _ b hb).trans (hk7 b hb)
  ihave Hlev := ((K (F := F)).ctx_levAts (EH := EH) (P := PP m) κ) $$ Hctx
  iapply (hreg 3 d _ W3 _ _)
  isplitr [Hbd Hh Hprng HO Hlev Hcg3 Htk3]
  swap
  · isplitl [Hbd]; · iexact Hbd
    isplitl [Hh]; · iexact Hh
    isplitl [Hprng]; · iexact Hprng
    isplitl [HO]; · iexact HO
    isplitl [Hlev]; · iexact Hlev
    isplitl [Hcg3]; · iexact Hcg3
    iexact Htk3
  iintro %V4 %W4 %hV3 %hW4 ⟨Hbd, Hh, Hprng, HO⟩
  have hk9 : ∀ b ∈ argRefs, V4 b = StableHlo.launchContents m d b := fun b hb => (hV3 b (hout 3 b hb)).trans (hk8 b hb)
  -- the last host line and the return
  rw [← bind_pure (StableHlo.seq (opsF (F := F)))]
  iapply (StableHlo.wp_seq 𝒱 none Set.univ d (Pipeline.ucRefs τ sig) _ opsF (fun op h => Pipeline.sub_ucRefs op (opsF_sub op h)) opsF_fresh _) $$ [Hbd Hh]
  · isplitl [Hbd] <;> iassumption
  iintro ⟨Hbd, Hh⟩
  have hk10 := fun b hb => (opsF_keep _ b hb).trans (hk9 b hb)
  rw [wp_pure]
  imodintro
  isplitl [HO Hrest]
  · iapply (Entails.of_eq (tcSt_one (F := F) d).symm)
    isplitl [HO]
    · iexists W4; isplitr
      · ipureintro; exact WBelow_step (WBelow_step (WBelow_step (WBelow_step hW0 hW1) hW2) hW3) hW4
      · iexact HO
    · iexact Hrest
  · unfold FIN
    iexists _; isplitr
    · ipureintro; exact hk10
    · iexact Hh

end Main

section Assembly
variable [FloatOps F] [∀ e, Nonempty (Elt F e)]
variable (m : (ℓ : Loc nD τ sig) → Buf (Elt F) ℓ) (ρ : Dev nD → PrngReg)

/-- At the end the argument arrays are read off the final memory: each still holds its launch contents. -/
theorem hfin (d : Dev nD) (s' : Phys nD τ sig (Elt F)) : iprop(FIN (F := F) m d ∗ SI s') ⊢ (⌜ArgsKept m d s'.mem⌝ : sProp 𝕄) := by
  unfold FIN
  iintro ⟨⟨%Vv, %hV, Hh⟩, HSI⟩
  iapply (args_read (Ix := HIx 1) (Name := ℕ) (U := UU) (Lvl := ℕ) m d Vv hV s')
  isplitl [Hh] <;> iassumption

/-- Every weakly fair execution of the program — @main on the TensorCore, the gather kernel's tasks on the vector subcores,
    the sequencers between them — terminates without a fault, the argument arrays unchanged. -/
theorem run_main (outDevRefs : Fin 4 → Finset (DevRef τ sig)) (hreg : ∀ p, RegStep (F := F) outDevRefs adm0 p)
    (hout : ∀ p, ∀ b ∈ argRefs, b ∉ outDevRefs p) (hpre : ∀ d, IdxOK d (fiOf m d)) :
    θ_run (Cert.Kernel.defs (F := F)) (Cert.Kernel.threads (F := F)) ⟨m, fun _ => 0, ρ⟩ (fun r => ∀ c : Dev nD, ArgsKept m c r.2) :=
  SparseCore.Cfg.θ_run_sc (K := K (F := F)) (D := D (F := F)) (𝒱 := 𝒱) (EH := EH) (P := PP m) facts v₀
    (fun q hq => match q with | 0 => nomatch hq)
    (fun q _ => match q with | 0 => tileObl (UU := UU) (fiOf m) (fbOf m) (fcOf m) facts hpre)
    (fun q _ => match q with | 0 => SparseCore.Cfg.VecSplit.of_plain (vecSplit (UU := UU) (fiOf m) (fbOf m) (fcOf m)))
    m ρ main (G (F := F)) (FIN (F := F) m) (u₀ (F := F)) (hu₀ m) (hmain m ρ outDevRefs hreg hout)
    (fun d s' => ArgsKept m d s'.mem) (hfin m) (fun r => ∀ c : Dev nD, ArgsKept m c r.2) (fun _ h => h)

end Assembly

end Cert.Proof.KernelSc

end
-- ==== Proof.FramesGlueBits.lean ====
/-
  The precondition puts the index list the first host line writes inside the two tables the SparseCore call gathers
  from: the glue between the decoded integer ranges and the call's own hypothesis on the index buffer.
-/
import proofs.«214388_g48842368090541_cont_8to1c4_19_37_alg».proof.Proof.MainFrameBits

noncomputable section

namespace Cert.Proof.KernelSc

open Cert.Kernel Cert.Kernel.Gen
open Idealize.ShloMosaic
open Idealize.SL.Sem
open Cert.Kernel.MainShape

/-- Under the precondition the index buffer after the first host line is in range on every device. -/
theorem idxOK_of_pre [Cert.Pre_input_domain.Facts] (m : (ℓ : Loc nD τ sig) → Buf (Elt Bits) ℓ) (h : Cert.Pre_Kernel m) (d : Dev nD) :
    IdxOK (F := Bits) d (fiOf m d) :=
  idx_ok_of_pre m h d

end Cert.Proof.KernelSc

end
-- ==== Proof.RegionStepBits.lean ====
import proofs.«214388_g48842368090541_cont_8to1c4_19_37_alg».proof.Proof.RegionDataBits
import Idealize.ShloMosaic.Lib.SparseCore.Launch
import Idealize.ShloMosaic.Lib.Pipeline.Regions
import Idealize.ShloMosaic.Lib.Pipeline.Kit
import Idealize.ShloMosaic.Lib.Pipeline.Frame

noncomputable section

namespace Cert.Kernel

open Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section GenericStep

open Idealize.ShloMosaic.Pipeline in
/-- A kernel region entered from @main inside a SparseCore launch, over ABSTRACT pipelines: on the TensorCore thread of
    device `d`, under the launch's extended body table, @main's call of pipeline `p`'s region followed by any
    continuation runs from the region record's entry state, the level facts and the pipeline's launch ghost state,
    provided the continuation runs from the record's exit state — the region rule under the table of the program's own
    labels, lifted to the extended table (a call of a label becomes a call of its image; every other effect is the same). -/
theorem region_lift
    {nD : Nat} {τ : Topo} {sig : RefSig} {Val : EltTy → Type} {Λ₀ : Labels} {P : Type} [Fintype P] {Q : Nat}
    {Name : Type} [DecidableEq Name] [Infinite Name] {U : Type} [URA U] [∀ e, Nonempty (Val e)]
    (pcs : P → Pipeline.PCfg sig Λ₀ Val) (a : (p : P) → (pcs p).Adm)
    (rdats : (p : P) → (c : Dev nD) → Pipeline.RDat τ Val (SparseCore.Cfg.HIx Q) Name U ℕ (Pipeline.pin pcs a p) c)
    (phinj : Function.Injective (Pipeline.cellOf (nD := nD) (τ := τ) (Pipeline.pin pcs a)))
    (EP : Emb (Rounds.URounds (GSem nD τ sig) Unit) (MT nD τ sig (SparseCore.Cfg.HIx Q) Val Name U ℕ))
    [EP.LandsIn (upEmb : UEmb _ (MT nD τ sig (SparseCore.Cfg.HIx Q) Val Name U ℕ))]
    (defs₀ : Defs nD τ sig Val Λ₀) (𝒱₀ : Variants)
    (K : SparseCore.Cfg τ sig (Pipeline.Sig Λ₀ P fun p => (pcs p).Adm) Q)
    {p : P} (R : Pipeline.RDat.RegionSeg pcs a rdats (none : SparseCore.Cfg.HIx Q) defs₀ 𝒱₀ K.L (K.lev (nD := nD)) p) (d : Dev nD)
    {α : Type} (k : PUnit → Prog (TpuEff nD τ sig Val (SparseCore.Sig (Pipeline.Sig Λ₀ P fun p => (pcs p).Adm) Q) .tc) α)
    (Qp : α → sProp (MT nD τ sig (SparseCore.Cfg.HIx Q) Val Name U ℕ)) :
    iprop((iprop(boundary (d.tc : Thread nD τ) ∗ R.post d) -∗
            wp frame (wpE (K.defs (Pipeline.defs pcs defs₀)) 𝒱₀.lift (d.tc : Thread nD τ) none) Set.univ (k ⟨⟩) Qp)
        ∗ boundary (d.tc : Thread nD τ) ∗ R.pre d ∗ levAts K.L (K.lev (nD := nD))
        ∗ Pipeline.cellsGhost (Pipeline.pin pcs a) EP p d ∗ Pipeline.toksInit (Pipeline.pin pcs a) EP p d)
      ⊢ wp frame (wpE (K.defs (Pipeline.defs pcs defs₀)) 𝒱₀.lift (d.tc : Thread nD τ) none) Set.univ
          (Prog.lift (.customCall (SparseCore.inner (Pipeline.entry p)) ()) >>= k) Qp := by
  have hwp := R.wp pcs a rdats (none : SparseCore.Cfg.HIx Q) phinj EP defs₀ 𝒱₀ K.L (K.lev (nD := nD)) d none (fun u h => nomatch h)
    (fun u => .ret u)
    (fun x => wp frame (wpE (K.defs (Pipeline.defs pcs defs₀)) 𝒱₀.lift (d.tc : Thread nD τ) none) Set.univ (k x) Qp)
  have hlift := K.wp_liftProg (Pipeline.defs pcs defs₀) 𝒱₀.lift (d.tc : Thread nD τ) Set.univ none
    (Prog.op (.customCall (Pipeline.entry p) ()) fun u => .ret u)
    (fun x => wp frame (wpE (K.defs (Pipeline.defs pcs defs₀)) 𝒱₀.lift (d.tc : Thread nD τ) none) Set.univ (k x) Qp)
  rw [wp_bind]
  refine BIBase.Entails.trans ?_ hlift
  refine BIBase.Entails.trans ?_ hwp
  iintro ⟨Hk, Hb, Hpre, Hlev, Hg, Ht⟩
  isplitl [Hk]
  · iintro H; iapply (le_wp_ret _ _); iapply Hk; iexact H
  isplitl [Hb]; · iexact Hb
  isplitl [Hpre]; · iexact Hpre
  isplitl [Hlev]; · iexact Hlev
  isplitl [Hg] <;> iassumption

end GenericStep

/-- A dependent function patched along an injective family of points: given a value at each point `f w` and a
    function everywhere, there is a function that takes the given values on the family and agrees with the old one off it. -/
theorem exists_patch {ι : Type} {β : Type} (f : ι → β) (hinj : Function.Injective f) (T : β → Type)
    (Fs : (w : ι) → T (f w)) (V : (b : β) → T b) :
    ∃ V' : (b : β) → T b, (∀ w, V' (f w) = Fs w) ∧ ∀ b, (∀ w, f w ≠ b) → V' b = V b := by
  classical
  refine ⟨fun b => if h : ∃ w, f w = b then h.choose_spec ▸ Fs h.choose else V b, fun w => ?_, fun b hb => ?_⟩
  · have h : ∃ w', f w' = f w := ⟨w, rfl⟩
    simp only [dif_pos h]
    have hw : h.choose = w := hinj h.choose_spec
    have key : ∀ (w' : ι) (e : f w' = f w), w' = w → (e ▸ Fs w' : T (f w)) = Fs w := by
      intro w' e hw'; subst hw'; rfl
    exact key _ h.choose_spec hw
  · exact dif_neg fun ⟨w, e⟩ => hb w e

/-- The launch facts of the four pipelines, by pipeline. -/
theorem launchAll : ∀ p : Fin 4, Pipeline.LaunchFacts (nD := nD) (τ := τ) cfgs p
  | ⟨0, _⟩ => launch1
  | ⟨1, _⟩ => launch2
  | ⟨2, _⟩ => launch3
  | ⟨3, _⟩ => launch4

/-- The device buffers pipeline `p` writes: the arrays of its output windows. -/
def outDevRefs (p : Fin 4) : Finset (DevRef τ sig) :=
  (Finset.univ.filter fun w : Fin (cfgs p).W => ((cfgs p).win w).isOut = true).image
    fun w => Proc.devRef (τ := τ) .tc (Pipeline.arrRef (cfgs p).spec w)

section Generic

variable {Ix : Type} [DecidableEq Ix] {Name : Type} [DecidableEq Name] {U : Type} [URA U] {Lvl : Type}

/-- The value-free proof data of pipeline `p` on core `c`, its arrays' entry contents read off a valuation `V`. -/
abbrev rdAt (V : Valuation τ sig (Elt F)) (B : Set (SemLoc sig × Ix)) (p : Fin 4) (c : Dev nD) :
    Pipeline.RDat τ (Elt F) Ix Name U Lvl (pcfg (F := F) p) c :=
  rdOf p c (fun w => V (Proc.devRef (τ := τ) .tc (Pipeline.arrRef (pcfg (F := F) p).spec w))) B

/-- EXIT, the buffers' part: pipeline `p`'s arrays after its write-backs, each at some contents it may then hold, and
    the unscoped buffers that are no array of it at a valuation `V`, are all the unscoped buffers held at a valuation
    that agrees with `V` off the OUTPUT windows' arrays — an input's array is never written, an output's holds what
    nothing names. -/
theorem arraysAt_join [∀ e, Nonempty (Elt F e)] (p : Fin 4) (c : Dev nD) (V : Valuation τ sig (Elt F)) (B : Set (SemLoc sig × Ix)) (n : Nat) :
    iprop((rdAt (Name := Name) (U := U) (Lvl := Lvl) V B p c).arraysAt n
        ∗ Pipeline.unscopedRest (pcfg (F := F) p).spec c (fun b => V (Proc.devRef (τ := τ) .tc b)))
      ⊢ (iprop(∃ V' : Valuation τ sig (Elt F), ⌜∀ b, b ∉ outDevRefs p → V' b = V b⌝
          ∗ StableHlo.held (c.tc : Thread nD τ) (Pipeline.ucRefs τ sig) V') : sProp (MT nD τ sig Ix (Elt F) Name U Lvl)) := by
  classical
  have hw := (launchAll p).toP (Val := Elt F)
  have h1 : (rdAt (Name := Name) (U := U) (Lvl := Lvl) V B p c).arraysAt n
      ⊢ iprop(∃ Fs : (w : Fin (pcfg (F := F) p).W) → Buf (Elt F) (((pcfg (F := F) p).win w).arr.view.loc (c.tc : Thread nD τ)),
          ⌜∀ w, (rdAt (Name := Name) (U := U) (Lvl := Lvl) V B p c).ArrAt w n (Fs w)⌝
            ∗ (rdAt (Name := Name) (U := U) (Lvl := Lvl) V B p c).arrays Fs) := by
    unfold Pipeline.RDat.arraysAt Pipeline.RDat.arrays
    refine (BI.bigSep_exists_pi Finset.univ _).trans ?_
    iintro ⟨%Fs, H⟩
    iexists Fs
    ihave H' := (BI.bigSep_pure_sep Finset.univ _ _) $$ H
    icases H' with ⟨%hF, H⟩
    isplitr; · ipureintro; exact fun w => hF w (Finset.mem_univ _)
    iexact H
  iintro ⟨Ha, Hr⟩
  ihave Ha' := h1 $$ Ha
  icases Ha' with ⟨%Fs, %hFs, Harr⟩
  have hinj : Function.Injective fun w => Proc.devRef (τ := τ) .tc (Pipeline.arrRef (pcfg (F := F) p).spec w) :=
    fun w w' e => hw.win.arr_inj (Proc.devRef_injective _ e)
  obtain ⟨V', hV'a, hV'r⟩ := exists_patch (fun w => Proc.devRef (τ := τ) .tc (Pipeline.arrRef (pcfg (F := F) p).spec w)) hinj
    (fun b => b.ty.Contents (Elt F)) Fs V
  iexists V'
  isplitr
  · ipureintro
    intro b hb
    by_cases h : ∃ w, Proc.devRef (τ := τ) .tc (Pipeline.arrRef (pcfg (F := F) p).spec w) = b
    · obtain ⟨w, rfl⟩ := h
      have hin : ((pcfg (F := F) p).win w).isOut = false := by
        cases ho : ((pcfg (F := F) p).win w).isOut
        · rfl
        · exact absurd (Finset.mem_image.mpr ⟨w, Finset.mem_filter.mpr ⟨Finset.mem_univ _, ho⟩, rfl⟩) hb
      have hF := hFs w
      rw [(rdAt (Name := Name) (U := U) (Lvl := Lvl) V B p c).ArrAt_in w hin n] at hF
      exact (hV'a w).trans hF
    · exact hV'r b fun w e => h ⟨w, e⟩
  · have e1 := Pipeline.RDat.arrays_eq (pcfgs (F := F)) adm0 (rdAt (Name := Name) (U := U) (Lvl := Lvl) V B) p c hw.arr_whole
      (fun w => rdOf_share p c _ B w) Fs
    have e2 : (bigSep Finset.univ fun w : Fin (pcfg (F := F) p).W =>
          (((c.tc : Thread nD τ).loc (Pipeline.arrRef (pcfg (F := F) p).spec w)) ↦{fullShare} V' (Proc.devRef (τ := τ) .tc (Pipeline.arrRef (pcfg (F := F) p).spec w))
            : sProp (MT nD τ sig Ix (Elt F) Name U Lvl)))
        = bigSep Finset.univ fun w : Fin (pcfg (F := F) p).W =>
          (((c.tc : Thread nD τ).loc (Pipeline.arrRef (pcfg (F := F) p).spec w)) ↦{fullShare} Fs w : sProp (MT nD τ sig Ix (Elt F) Name U Lvl)) :=
      BI.bigSep_congr fun w _ => by rw [hV'a w]
    have e3 : (Pipeline.unscopedRest (pcfg (F := F) p).spec c (fun b => V' (Proc.devRef (τ := τ) .tc b)) : sProp (MT nD τ sig Ix (Elt F) Name U Lvl))
        = Pipeline.unscopedRest (pcfg (F := F) p).spec c (fun b => V (Proc.devRef (τ := τ) .tc b)) := by
      unfold Pipeline.unscopedRest
      exact BI.bigSep_congr fun b hb => by
        dsimp only
        rw [hV'r _ fun w e => (Finset.mem_sdiff.mp hb).2 (Finset.mem_image.mpr ⟨w, Finset.mem_univ _, Proc.devRef_injective _ e⟩)]
    rw [← Pipeline.unscopedBufs_held c V', Pipeline.unscopedBufs_split (Pipeline.pin (pcfgs (F := F)) adm0) p hw.win.arr_unscoped hw.win.arr_inj c, e2, ← e1, e3]
    isplitl [Harr] <;> iassumption

end Generic

section Step

variable [FloatOps F] {UU : Type} [URA UU]

local notation "𝕄" => MT nD τ sig (SparseCore.Cfg.HIx 1) (Elt F) ℕ UU ℕ

/-- What the TensorCore thread holds of its unscoped buffers, generator register and waits when region `p` is entered
    at valuation `V` with recorded pairs `W`, -/
def regionPre (V : Valuation τ sig (Elt F)) (W : Waits sig (SparseCore.Cfg.HIx 1)) (c : Dev nD) : sProp 𝕄 :=
  iprop(StableHlo.held (c.tc : Thread nD τ) (Pipeline.ucRefs τ sig) V ∗ (∃ r, prngReg c r)
    ∗ owes (c.tc : Thread nD τ) (0 : CellTallies nD τ sig (SparseCore.Cfg.HIx 1)) W)

/-- and when it is left: the buffers at a valuation that agrees with `V` off the pipeline's output arrays, the register
    at some state, nothing owed, the recorded pairs those of `W` and pairs at the index `none`. -/
def regionPost (p : Fin 4) (V : Valuation τ sig (Elt F)) (W : Waits sig (SparseCore.Cfg.HIx 1)) (c : Dev nD) : sProp 𝕄 :=
  iprop(∃ V' : Valuation τ sig (Elt F), ⌜∀ b, b ∉ outDevRefs p → V' b = V b⌝
    ∗ StableHlo.held (c.tc : Thread nD τ) (Pipeline.ucRefs τ sig) V' ∗ (∃ r, prngReg c r)
    ∗ ∃ W' : Waits sig (SparseCore.Cfg.HIx 1), ⌜∀ q ∈ W', q ∈ W ∨ q.2 = none⌝
      ∗ owes (c.tc : Thread nD τ) (0 : CellTallies nD τ sig (SparseCore.Cfg.HIx 1)) W')

/-- Region `p` as the region rule's record, over the value-free data: no semaphore of the kernel's own, nothing owed
    (so no wait evidence is needed), the generator register through the invariant, the other unscoped buffers past
    the region. -/
def regionSeg [∀ e, Nonempty (Elt F e)] (p : Fin 4)
    (hbody : ∀ (c : Dev nD) A B, (rdOf (Ix := SparseCore.Cfg.HIx 1) (Name := ℕ) (U := UU) (Lvl := ℕ) (F := F) p c A B).BodyObligation
      (defs₀ (F := F)) Variants.none (none : SparseCore.Cfg.HIx 1) Set.univ)
    (V : Valuation τ sig (Elt F)) (W : Waits sig (SparseCore.Cfg.HIx 1)) :
    Pipeline.RDat.RegionSeg (pcfgs (F := F)) adm0 (rdAt (Name := ℕ) (U := UU) (Lvl := ℕ) V (recOf W)) (none : SparseCore.Cfg.HIx 1)
      (defs₀ (F := F)) Variants.none (sc (F := F)).L ((sc (F := F)).lev (nD := nD)) p where
  win := ((launchAll p).toP (Val := Elt F)).win.to₀
  block_pos := ((launchAll p).toP (Val := Elt F)).block_pos
  stage_whole := ((launchAll p).toP (Val := Elt F)).stage_whole
  K := PEmpty
  osem := fun k => k.elim
  ho := Pipeline.OwnSemFacts.none _
  hbody := fun c => hbody c _ _
  hwaits := fun c => Pipeline.RDat.hwaits_of_owed_zero (pcfgs (F := F)) adm0 _ _ _ _ p (fun _ _ => rfl) c
  pre := regionPre V W
  post := regionPost p V W
  X := fun c => iprop(∃ r, prngReg c r)
  Y := fun c => iprop(∃ r, prngReg c r)
  Z := fun c => Pipeline.unscopedRest (pcfg (F := F) p).spec c (fun b => V (Proc.devRef (τ := τ) .tc b))
  hentry := fun c => by
    have h := Pipeline.RDat.arrays_of_unscopedBufs (pcfgs (F := F)) adm0 (rdAt (Name := ℕ) (U := UU) (Lvl := ℕ) V (recOf W)) (p := p)
      ((launchAll p).toP (Val := Elt F)).win ((launchAll p).toP (Val := Elt F)).arr_whole c (fun w => rdOf_share p c _ _ w)
      (fun b => V (Proc.devRef (τ := τ) .tc b)) (fun w => rfl)
    unfold regionPre
    rw [← Pipeline.unscopedBufs_held c V]
    iintro ⟨⟨Hub, Hp, HW⟩, -, -⟩
    imodintro
    ihave H := h $$ Hub
    icases H with ⟨Harr, Hrest⟩
    isplitl [Harr]; · iexact Harr
    isplitr
    · unfold Pipeline.prefHeld
      rw [show (Finset.univ : Finset (Fin ((pcfgs (F := F) p).pre.K))) = ∅ from rfl, BI.bigSep_empty]
      iempintro
    isplitl [HW]
    · iexists W; isplitr; · ipureintro; exact fun q hq => Or.inl (Or.inl (Finset.mem_coe.mp hq))
      iexact HW
    isplitl [Hp]; · iexact Hp
    iexact Hrest
  hin := fun c => by
    show _ ⊢ iprop(Pipeline.scopedRest (pcfg (F := F) p).spec c ∗ ∃ r, prngReg c r)
    iintro ⟨HX, -, HR⟩
    isplitl [HR]; · iexact HR
    iexact HX
  hout := fun c => by
    show iprop(Pipeline.scopedRest (pcfg (F := F) p).spec c ∗ ∃ r, prngReg c r) ⊢ _
    rw [Pipeline.ownSems0_none]
    iintro ⟨HR, HP⟩
    isplitl [HP]; · iexact HP
    isplitr; · iempintro
    iexact HR
  hexit := fun c => by
    unfold regionPost
    iintro ⟨Ha, ⟨%W', %hW', Ho⟩, HY, HZ⟩
    imodintro
    ihave H := (arraysAt_join (Name := ℕ) (U := UU) (Lvl := ℕ) p c V (recOf W) _) $$ [Ha HZ]
    · isplitl [Ha] <;> iassumption
    icases H with ⟨%V', %hV', Hh⟩
    iexists V'
    isplitr; · ipureintro; exact hV'
    isplitl [Hh]; · iexact Hh
    isplitl [HY]; · iexact HY
    iexists W'
    isplitr
    · ipureintro
      intro q hq
      rcases hW' (Finset.mem_coe.mpr hq) with h | ⟨w, s, rfl⟩
      · exact h
      · exact Or.inr rfl
    iexact Ho

set_option maxHeartbeats 1000000 in
/-- THE REGION STEP inside the SparseCore launch's obligation for @main. On the TensorCore thread of device `d`, under
    the launch's extended body table, @main's call of pipeline `p`'s region followed by any continuation `k` runs,
    from the thread's boundary holdings, every unscoped buffer held at a valuation `V`, the generator register at some
    state, the thread owing nothing with recorded pairs `W`, the level facts and the pipeline's launch ghost state,
    provided the continuation runs from the same holdings at ANY valuation that agrees with `V` off the pipeline's
    output arrays and any recorded pairs among `W`'s and pairs at the index `none`. The body obligation is asked of the
    value-free data at any entry contents and any bound. -/
theorem region_step [∀ e, Nonempty (Elt F e)]
    (EP : Emb (Rounds.URounds (GSem nD τ sig) Unit) 𝕄) [EP.LandsIn (upEmb : UEmb _ 𝕄)] (p : Fin 4)
    (hbody : ∀ (c : Dev nD) A B, (rdOf (Ix := SparseCore.Cfg.HIx 1) (Name := ℕ) (U := UU) (Lvl := ℕ) (F := F) p c A B).BodyObligation
      (defs₀ (F := F)) Variants.none (none : SparseCore.Cfg.HIx 1) Set.univ)
    (d : Dev nD) (V : Valuation τ sig (Elt F)) (W : Waits sig (SparseCore.Cfg.HIx 1)) {α : Type}
    (k : PUnit → Prog (TpuEff nD τ sig (Elt F) (SparseCore.Sig (Pipeline.Sig Λ₀ (Fin 4) fun p => (pcfgs (F := F) p).Adm) 1) .tc) α)
    (Q : α → sProp 𝕄) :
    iprop((∀ (V' : Valuation τ sig (Elt F)) (W' : Waits sig (SparseCore.Cfg.HIx 1)),
            ⌜∀ b, b ∉ outDevRefs p → V' b = V b⌝ -∗ ⌜∀ q ∈ W', q ∈ W ∨ q.2 = none⌝ -∗
            iprop(boundary (SparseCore.T d : Thread nD τ) ∗ StableHlo.held (SparseCore.T d : Thread nD τ) (Pipeline.ucRefs τ sig) V' ∗ (∃ r, prngReg d r)
              ∗ owes (SparseCore.T d : Thread nD τ) (0 : CellTallies nD τ sig (SparseCore.Cfg.HIx 1)) W') -∗
            wp frame (wpE ((sc (F := F)).defs (Pipeline.defs (pcfgs (F := F)) (defs₀ (F := F)))) Variants.none.lift (SparseCore.T d : Thread nD τ) none) Set.univ (k ⟨⟩) Q)
        ∗ boundary (SparseCore.T d : Thread nD τ) ∗ StableHlo.held (SparseCore.T d : Thread nD τ) (Pipeline.ucRefs τ sig) V ∗ (∃ r, prngReg d r)
        ∗ owes (SparseCore.T d : Thread nD τ) (0 : CellTallies nD τ sig (SparseCore.Cfg.HIx 1)) W
        ∗ levAts (sc (F := F)).L ((sc (F := F)).lev (nD := nD))
        ∗ Pipeline.cellsGhost (Pipeline.pin (pcfgs (F := F)) adm0) EP p d ∗ Pipeline.toksInit (Pipeline.pin (pcfgs (F := F)) adm0) EP p d)
      ⊢ wp frame (wpE ((sc (F := F)).defs (Pipeline.defs (pcfgs (F := F)) (defs₀ (F := F)))) Variants.none.lift (SparseCore.T d : Thread nD τ) none) Set.univ
          (Prog.lift (.customCall (SparseCore.inner (Pipeline.entry p)) ()) >>= k) Q := by
  have key := region_lift (pcfgs (F := F)) adm0 (rdAt (Name := ℕ) (U := UU) (Lvl := ℕ) V (recOf W))
    (((launchAll p).toP (Val := Elt F)).cellOf_inj adm0) EP (defs₀ (F := F)) Variants.none (sc (F := F))
    (regionSeg p hbody V W) d k Q
  refine BIBase.Entails.trans ?_ key
  iintro ⟨Hk, Hb, Hh, Hp, Ho, Hlev, Hg, Ht⟩
  isplitl [Hk]
  · iintro ⟨Hb, Hpost⟩
    ihave Hpost' := (show (regionSeg p hbody V W).post d ⊢ regionPost p V W d from .rfl) $$ Hpost
    unfold regionPost
    icases Hpost' with ⟨%V', %hV', Hh, Hp, ⟨%W', %hW', Ho⟩⟩
    ispecialize Hk $$ %V' %W' %hV' %hW'
    iapply Hk
    isplitl [Hb]; · iexact Hb
    isplitl [Hh]; · iexact Hh
    isplitl [Hp]; · iexact Hp
    iexact Ho
  isplitl [Hb]; · iexact Hb
  isplitl [Hh Hp Ho]
  · iapply (show regionPre V W d ⊢ (regionSeg p hbody V W).pre d from .rfl)
    unfold regionPre
    isplitl [Hh]; · iexact Hh
    isplitl [Hp]; · iexact Hp
    iexact Ho
  isplitl [Hlev]; · iexact Hlev
  isplitl [Hg] <;> iassumption

end Step

end Cert.Kernel

end
-- ==== Proof.BodyRunK1Bits.lean ====
/-
  The whole-body run of the TensorCore kernel body `cc1__k1` from arbitrary staging contents: every memref operand —
  input, output and scratch alike — is handed over whole at contents nothing names and handed back whole at contents
  nothing names. One theorem per case of the body's single conditional on the grid coordinate (taken at the first
  point of the grid, where the accumulators are reset; not taken elsewhere). The body is a straight line of whole-buffer
  loads and covering stores, so the run is symbolic execution of its skeleton; the values stored are never looked at.
-/
import proofs.«214388_g48842368090541_cont_8to1c4_19_37_alg».proof.Proof.Gen.Kernel.Skeleton
import proofs.«214388_g48842368090541_cont_8to1c4_19_37_alg».proof.Proof.Gen.Kernel.Launch
import proofs.«214388_g48842368090541_cont_8to1c4_19_37_alg».proof.Proof.Gen.Kernel.Points
import Idealize.ShloMosaic.Lib.Tactic

-- membership in a rectangle of production extents: the elaborator's structural look recurses once per coordinate of
-- the long axes
set_option maxRecDepth 16384

noncomputable section

namespace Cert.Kernel.BodyRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The condition of the body's one `scf.if`, from the grid coordinate: the printed scalar chain
    (`cmpi eq` against zero, widened, `cmpi ne` against zero) at the coordinate's word. -/
abbrev cond1_0 (i : grid1.Coords) : Prop :=
  Scalar.cmpi .ne (Scalar.extui (Scalar.cmpi .eq (BitVec.ofNat 32 (i 0).val) 0#32) : BitVec 32) 0#32 = 1#1

/-- It holds at the grid's first point and nowhere else — decided over the grid. -/
theorem hcond1_0 : ∀ t : Fin cfg1.N, cond1_0 (grid1.coords t) ↔ t.val = 0 :=
  (by decide +kernel : ∀ t : Fin grid1.N, cond1_0 (grid1.coords t) ↔ t.val = 0)

-- (the run's proof term is large: checking it walks past the default budget)
set_option maxHeartbeats 1000000 in
/-- The body's triple when the conditional is TAKEN (the grid's first point): every operand whole at arbitrary contents before and after. -/
theorem kernelRun1_A (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x19 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S64x1024 .bf16) (harg7 : arg7.IsWhole) (arg8 : Memref sig .tc .vmem S128x1024 .bf16) (harg8 : arg8.IsWhole) (arg9 : Memref sig .tc .vmem S1024x128 .bf16) (harg9 : arg9.IsWhole) (arg10 : Memref sig .tc .vmem S19x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S1024x256 .bf16) (harg14 : arg14.IsWhole) (arg15 : Memref sig .tc .vmem S1x1024 .f32) (harg15 : arg15.IsWhole) (arg16 : Memref sig .tc .vmem S1x1024 .f32) (harg16 : arg16.IsWhole) (hc : cond1_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kp ⟨⟩))
        ⊢ wp frame (wpE (defs₀ (F := F)) Variants.none c none) E (cc1__k1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc1__k1_eq_skeleton]; unfold cc1__k1_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

-- (the run's proof term is large: checking it walks past the default budget)
set_option maxHeartbeats 1000000 in
/-- The body's triple when the conditional is NOT taken: every operand whole at arbitrary contents before and after. -/
theorem kernelRun1_B (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x19 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S64x1024 .bf16) (harg7 : arg7.IsWhole) (arg8 : Memref sig .tc .vmem S128x1024 .bf16) (harg8 : arg8.IsWhole) (arg9 : Memref sig .tc .vmem S1024x128 .bf16) (harg9 : arg9.IsWhole) (arg10 : Memref sig .tc .vmem S19x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S1024x256 .bf16) (harg14 : arg14.IsWhole) (arg15 : Memref sig .tc .vmem S1x1024 .f32) (harg15 : arg15.IsWhole) (arg16 : Memref sig .tc .vmem S1x1024 .f32) (harg16 : arg16.IsWhole) (hc : ¬cond1_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kp ⟨⟩))
        ⊢ wp frame (wpE (defs₀ (F := F)) Variants.none c none) E (cc1__k1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc1__k1_eq_skeleton]; unfold cc1__k1_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

-- (the run's proof term is large: checking it walks past the default budget)
set_option maxHeartbeats 1000000 in
/-- The body's triple with the conditional left UNDECIDED: its else-region is empty and it returns nothing, so the run takes it both ways and joins — every operand whole at arbitrary contents before and after, at any point of the grid. -/
theorem kernelRun1 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x19 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S64x1024 .bf16) (harg7 : arg7.IsWhole) (arg8 : Memref sig .tc .vmem S128x1024 .bf16) (harg8 : arg8.IsWhole) (arg9 : Memref sig .tc .vmem S1024x128 .bf16) (harg9 : arg9.IsWhole) (arg10 : Memref sig .tc .vmem S19x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S1024x256 .bf16) (harg14 : arg14.IsWhole) (arg15 : Memref sig .tc .vmem S1x1024 .f32) (harg15 : arg15.IsWhole) (arg16 : Memref sig .tc .vmem S1x1024 .f32) (harg16 : arg16.IsWhole) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kp ⟨⟩))
        ⊢ wp frame (wpE (defs₀ (F := F)) Variants.none c none) E (cc1__k1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc1__k1_eq_skeleton]; unfold cc1__k1_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.Kernel.BodyRun

end
-- ==== Proof.BodyRunK2Bits.lean ====
/-
  The whole-body run of the TensorCore kernel body `cc2__k2` from arbitrary staging contents: every memref operand —
  input, output and scratch alike — is handed over whole at contents nothing names and handed back whole at contents
  nothing names. One theorem per case of the body's single conditional on the grid coordinate (taken at the first
  point of the grid, where the accumulators are reset; not taken elsewhere). The body is a straight line of whole-buffer
  loads and covering stores, so the run is symbolic execution of its skeleton; the values stored are never looked at.
-/
import proofs.«214388_g48842368090541_cont_8to1c4_19_37_alg».proof.Proof.Gen.Kernel.Skeleton
import proofs.«214388_g48842368090541_cont_8to1c4_19_37_alg».proof.Proof.Gen.Kernel.Launch
import proofs.«214388_g48842368090541_cont_8to1c4_19_37_alg».proof.Proof.Gen.Kernel.Points
import Idealize.ShloMosaic.Lib.Tactic

-- membership in a rectangle of production extents: the elaborator's structural look recurses once per coordinate of
-- the long axes
set_option maxRecDepth 16384

noncomputable section

namespace Cert.Kernel.BodyRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The condition of the body's one `scf.if`, from the grid coordinate: the printed scalar chain
    (`cmpi eq` against zero, widened, `cmpi ne` against zero) at the coordinate's word. -/
abbrev cond2_0 (i : grid2.Coords) : Prop :=
  Scalar.cmpi .ne (Scalar.extui (Scalar.cmpi .eq (BitVec.ofNat 32 (i 0).val) 0#32) : BitVec 32) 0#32 = 1#1

/-- It holds at the grid's first point and nowhere else — decided over the grid. -/
theorem hcond2_0 : ∀ t : Fin cfg2.N, cond2_0 (grid2.coords t) ↔ t.val = 0 :=
  (by decide +kernel : ∀ t : Fin grid2.N, cond2_0 (grid2.coords t) ↔ t.val = 0)

-- (the run's proof term is large: checking it walks past the default budget)
set_option maxHeartbeats 1000000 in
/-- The body's triple when the conditional is TAKEN (the grid's first point): every operand whole at arbitrary contents before and after. -/
theorem kernelRun2_A (c : Dev nD) (i : grid2.Coords) (arg1 : Memref sig .tc .vmem S1024x256 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .bf16) (harg14 : arg14.IsWhole) (hc : cond2_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ Kp ⟨⟩))
        ⊢ wp frame (wpE (defs₀ (F := F)) Variants.none c none) E (cc2__k2 i arg1 harg1 arg2 harg2 arg3 harg3 arg4 harg4 arg5 harg5 arg6 harg6 arg7 harg7 arg8 harg8 arg9 harg9 arg10 harg10 arg11 harg11 arg12 harg12 arg13 harg13 arg14 harg14) Kp := by
    intro E Kp
    simp only [cc2__k2_eq_skeleton]; unfold cc2__k2_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

-- (the run's proof term is large: checking it walks past the default budget)
set_option maxHeartbeats 1000000 in
/-- The body's triple when the conditional is NOT taken: every operand whole at arbitrary contents before and after. -/
theorem kernelRun2_B (c : Dev nD) (i : grid2.Coords) (arg1 : Memref sig .tc .vmem S1024x256 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .bf16) (harg14 : arg14.IsWhole) (hc : ¬cond2_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ Kp ⟨⟩))
        ⊢ wp frame (wpE (defs₀ (F := F)) Variants.none c none) E (cc2__k2 i arg1 harg1 arg2 harg2 arg3 harg3 arg4 harg4 arg5 harg5 arg6 harg6 arg7 harg7 arg8 harg8 arg9 harg9 arg10 harg10 arg11 harg11 arg12 harg12 arg13 harg13 arg14 harg14) Kp := by
    intro E Kp
    simp only [cc2__k2_eq_skeleton]; unfold cc2__k2_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

-- (the run's proof term is large: checking it walks past the default budget)
set_option maxHeartbeats 1000000 in
/-- The body's triple with the conditional left UNDECIDED: its else-region is empty and it returns nothing, so the run takes it both ways and joins — every operand whole at arbitrary contents before and after, at any point of the grid. -/
theorem kernelRun2 (c : Dev nD) (i : grid2.Coords) (arg1 : Memref sig .tc .vmem S1024x256 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .bf16) (harg14 : arg14.IsWhole) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ Kp ⟨⟩))
        ⊢ wp frame (wpE (defs₀ (F := F)) Variants.none c none) E (cc2__k2 i arg1 harg1 arg2 harg2 arg3 harg3 arg4 harg4 arg5 harg5 arg6 harg6 arg7 harg7 arg8 harg8 arg9 harg9 arg10 harg10 arg11 harg11 arg12 harg12 arg13 harg13 arg14 harg14) Kp := by
    intro E Kp
    simp only [cc2__k2_eq_skeleton]; unfold cc2__k2_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Kernel.BodyRun

end
-- ==== Proof.BodyRunK3Bits.lean ====
import proofs.«214388_g48842368090541_cont_8to1c4_19_37_alg».proof.Proof.Gen.Kernel.Launch
import proofs.«214388_g48842368090541_cont_8to1c4_19_37_alg».proof.Proof.Gen.Kernel.Skeleton
import proofs.«214388_g48842368090541_cont_8to1c4_19_37_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.BodyRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The condition of the third body's one conditional, from the grid coordinate: the printed scalar chain
    (`i 0` compared with zero, the bit widened to a word, the word compared with zero) substituted. -/
abbrev cond3_0 (i : grid3.Coords) : Prop :=
  Scalar.cmpi .ne (Scalar.extui (Scalar.cmpi .eq (BitVec.ofNat 32 (i 0).val) 0#32)) 0#32 = 1#1

/-- The conditional is taken exactly where the grid coordinate is zero — decided over the grid's coordinates. -/
theorem cond3_0_iff : ∀ i : grid3.Coords, cond3_0 i ↔ (i 0).val = 0 := by decide +kernel

/-- Over the grid's points in order: taken at the first point only — decided over the grid. -/
theorem hcond3_0 : ∀ t : Fin cfg3.N, cond3_0 (grid3.coords t) ↔ t.val = 0 :=
  (by decide +kernel : ∀ t : Fin grid3.N, cond3_0 (grid3.coords t) ↔ t.val = 0)

set_option maxHeartbeats 1000000 in
/-- The third TensorCore body from arbitrary staging contents, at a point where its conditional is TAKEN (the
    first grid point): each of its sixteen whole memrefs (ten inputs, four outputs, two scratch buffers) is owned at the
    full share at some contents nothing names; the body — the guarded region's casts of the two weight matrices into the
    scratch buffers and zeroing of the two accumulators, then the loads, the stores of the product's tile and of the row
    sums, and the two accumulations — runs to the continuation and hands every memref back owned at the full share, again
    at contents nothing names. -/
theorem kernelRun3_A (c : Dev nD) (i : grid3.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x1 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1024x512 .bf16) (harg16 : arg16.IsWhole) (hc : cond3_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kp ⟨⟩))
        ⊢ wp frame (wpE (defs₀ (F := F)) Variants.none c none) E (cc3__k3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc3__k3_eq_skeleton]; unfold cc3__k3_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

set_option maxHeartbeats 1000000 in
/-- The same run at a point where the conditional is NOT taken (every later grid point): the guarded region is
    skipped; everything else as in the taken case. -/
theorem kernelRun3_B (c : Dev nD) (i : grid3.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x1 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1024x512 .bf16) (harg16 : arg16.IsWhole) (hc : ¬cond3_0 i) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kp ⟨⟩))
        ⊢ wp frame (wpE (defs₀ (F := F)) Variants.none c none) E (cc3__k3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc3__k3_eq_skeleton]; unfold cc3__k3_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    sl_exec (disch := first | exact hc)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.Kernel.BodyRun

end
-- ==== Proof.BodyRunK4Bits.lean ====
import proofs.«214388_g48842368090541_cont_8to1c4_19_37_alg».proof.Proof.Gen.Kernel.Launch
import proofs.«214388_g48842368090541_cont_8to1c4_19_37_alg».proof.Proof.Gen.Kernel.Skeleton
import proofs.«214388_g48842368090541_cont_8to1c4_19_37_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.BodyRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- The fourth TensorCore body from arbitrary staging contents: each of its nine whole memrefs is owned at the
    full share at some contents nothing names; the body (seven loads of the statistics, scale, shift and weights, the
    load of the tile and of the partial sums, one covering store of the result) runs to the continuation and hands
    every memref back owned at the full share, again at contents nothing names. -/
theorem kernelRun4_A (c : Dev nD) (i : grid4.Coords) (arg1 : Memref sig .tc .vmem S2048x512 .bf16) (harg1 : arg1.IsWhole) (arg2 : Memref sig .tc .vmem S2048x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S2048x1 .f32) (harg9 : arg9.IsWhole) :
    ∀ (E : Set Name) (Kp : PUnit → sProp 𝕄),
      iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
          ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ Kp ⟨⟩))
        ⊢ wp frame (wpE (defs₀ (F := F)) Variants.none c none) E (cc4__k4 i arg1 harg1 arg2 harg2 arg3 harg3 arg4 harg4 arg5 harg5 arg6 harg6 arg7 harg7 arg8 harg8 arg9 harg9) Kp := by
    intro E Kp
    simp only [cc4__k4_eq_skeleton]; unfold cc4__k4_skel
    unfold owns
    iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.Kernel.BodyRun

end
-- ==== Proof.BodyOblBits.lean ====
/-
  The body obligations of the four TensorCore pipelines in the relational form whose every relation is `True`: at every
  grid point, from the pipeline's invariant (the scoped buffers no window stages, each whole at some contents, and the
  generator register), what the core owes, and every window's current staging buffer at whatever it is handed, the kernel
  body runs to the same invariant, the same owes term and every current staging buffer at some contents. Each follows from
  the body's whole-body run from arbitrary contents: the windows are conjoined one by one, a call's own scratch buffers are
  split out of the scoped rest for the run and put back after it.
-/
import proofs.«214388_g48842368090541_cont_8to1c4_19_37_alg».proof.Proof.BodyRunK1Bits
import proofs.«214388_g48842368090541_cont_8to1c4_19_37_alg».proof.Proof.BodyRunK2Bits
import proofs.«214388_g48842368090541_cont_8to1c4_19_37_alg».proof.Proof.BodyRunK3Bits
import proofs.«214388_g48842368090541_cont_8to1c4_19_37_alg».proof.Proof.BodyRunK4Bits
import proofs.«214388_g48842368090541_cont_8to1c4_19_37_alg».proof.Proof.RegionDataBits
import Idealize.ShloMosaic.Lib.Pipeline.Kit

set_option maxRecDepth 16384

noncomputable section

namespace Cert.Kernel.BodyRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1200000 in
/-- The body obligation of pipeline 0 at a generic point, in the relational form whose every relation is `True`: from the
    invariant (the scoped buffers no window stages, each whole at some contents, and the generator register), what the core
    owes within its bound, and every window's current staging buffer at the contents `Y w` it is handed, the kernel body at
    the point runs to the same invariant, the same owes term, and every current staging buffer at some contents. The
    windows are conjoined one by one, the body is the printed kernel on the current staging memrefs, and the whole-body run from
    arbitrary contents applies; the invariant's rest and the owes term pass through untouched. -/
theorem bodyObl_1 (c : Dev nD) (ι : Ix) (O : CellTallies nD τ sig Ix) (B : Set (SemLoc sig × Ix)) (t : Fin cfg1.N)
    (Y : (w : Fin cfg1.W) → (cfg1.win w).block.Idx → Elt F (cfg1.win w).elt) :
    (iprop(iprop(Pipeline.scopedRest (Ix := Ix) (Name := Name) (U := U) (Lvl := Lvl) (Val := Elt F) cfg1.spec c ∗ ∃ r, prngReg c r) ∗ Pipeline.owesWithin c O B
        ∗ bigSep Finset.univ fun w : Fin cfg1.W => owns (c : Thread nD τ) ((cfg1.win w).stage (cfg1.slots t w)) fullShare (Y w))
      ⊢ wp frame (wpE (defs₀ (F := F)) Variants.none c none) Set.univ (defs₀ .tc cfg1.body (cfg1.bodyArgs t (cfg1.slots t))) fun _ =>
          iprop(iprop(Pipeline.scopedRest (Ix := Ix) (Name := Name) (U := U) (Lvl := Lvl) (Val := Elt F) cfg1.spec c ∗ ∃ r, prngReg c r) ∗ Pipeline.owesWithin c O B
            ∗ bigSep Finset.univ fun w : Fin cfg1.W => iprop(∃ X, ⌜True⌝ ∗ owns (c : Thread nD τ) ((cfg1.win w).stage (cfg1.slots t w)) fullShare X)) : Prop) := by
    rw [bigSep_W1, bigSep_W1]
    rw [show (defs₀ (F := F) .tc cfg1.body (cfg1.bodyArgs t (cfg1.slots t))) = bodyAt1 (F := F) t from rfl]
    iintro ⟨HΦ, Ho, H0, H1, H2, H3, H4, H5, H6, H7, H8, H9, H10, H11, H12, H13, H14, H15⟩
    iapply ((kernelRun1 c (grid1.coords t) _ _ _ _ _ _ _ _ _ _ _ _ _ _ _ _ _ _ _ _ _ _ _ _ _ _ _ _ _ _ _ _) Set.univ _)
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩⟩
    isplitl [HΦ]; · iexact HΦ
    isplitl [Ho]; · iexact Ho
    isplitl [H0]
    · iexists X0; isplitr
      · ipureintro; trivial
      · iexact H0
    isplitl [H1]
    · iexists X1; isplitr
      · ipureintro; trivial
      · iexact H1
    isplitl [H2]
    · iexists X2; isplitr
      · ipureintro; trivial
      · iexact H2
    isplitl [H3]
    · iexists X3; isplitr
      · ipureintro; trivial
      · iexact H3
    isplitl [H4]
    · iexists X4; isplitr
      · ipureintro; trivial
      · iexact H4
    isplitl [H5]
    · iexists X5; isplitr
      · ipureintro; trivial
      · iexact H5
    isplitl [H6]
    · iexists X6; isplitr
      · ipureintro; trivial
      · iexact H6
    isplitl [H7]
    · iexists X7; isplitr
      · ipureintro; trivial
      · iexact H7
    isplitl [H8]
    · iexists X8; isplitr
      · ipureintro; trivial
      · iexact H8
    isplitl [H9]
    · iexists X9; isplitr
      · ipureintro; trivial
      · iexact H9
    isplitl [H10]
    · iexists X10; isplitr
      · ipureintro; trivial
      · iexact H10
    isplitl [H11]
    · iexists X11; isplitr
      · ipureintro; trivial
      · iexact H11
    isplitl [H12]
    · iexists X12; isplitr
      · ipureintro; trivial
      · iexact H12
    isplitl [H13]
    · iexists X13; isplitr
      · ipureintro; trivial
      · iexact H13
    isplitl [H14]
    · iexists X14; isplitr
      · ipureintro; trivial
      · iexact H14
    iexists X15; isplitr
    · ipureintro; trivial
    · iexact H15

set_option maxHeartbeats 1200000 in
/-- The body obligation of pipeline 1 at a generic point, in the relational form whose every relation is `True`: from the
    invariant (the scoped buffers no window stages, each whole at some contents, and the generator register), what the core
    owes within its bound, and every window's current staging buffer at the contents `Y w` it is handed, the kernel body at
    the point runs to the same invariant, the same owes term, and every current staging buffer at some contents. The
    windows are conjoined one by one, the body is the printed kernel on the current staging memrefs and the call's own scratch
    (split out of the scoped rest, whole at some contents, and put back after the run), and the whole-body run from
    arbitrary contents applies; the invariant's rest and the owes term pass through untouched. -/
theorem bodyObl_2 (c : Dev nD) (ι : Ix) (O : CellTallies nD τ sig Ix) (B : Set (SemLoc sig × Ix)) (t : Fin cfg2.N)
    (Y : (w : Fin cfg2.W) → (cfg2.win w).block.Idx → Elt F (cfg2.win w).elt) :
    (iprop(iprop(Pipeline.scopedRest (Ix := Ix) (Name := Name) (U := U) (Lvl := Lvl) (Val := Elt F) cfg2.spec c ∗ ∃ r, prngReg c r) ∗ Pipeline.owesWithin c O B
        ∗ bigSep Finset.univ fun w : Fin cfg2.W => owns (c : Thread nD τ) ((cfg2.win w).stage (cfg2.slots t w)) fullShare (Y w))
      ⊢ wp frame (wpE (defs₀ (F := F)) Variants.none c none) Set.univ (defs₀ .tc cfg2.body (cfg2.bodyArgs t (cfg2.slots t))) fun _ =>
          iprop(iprop(Pipeline.scopedRest (Ix := Ix) (Name := Name) (U := U) (Lvl := Lvl) (Val := Elt F) cfg2.spec c ∗ ∃ r, prngReg c r) ∗ Pipeline.owesWithin c O B
            ∗ bigSep Finset.univ fun w : Fin cfg2.W => iprop(∃ X, ⌜True⌝ ∗ owns (c : Thread nD τ) ((cfg2.win w).stage (cfg2.slots t w)) fullShare X)) : Prop) := by
    rw [bigSep_W2, bigSep_W2]
    rw [show (defs₀ (F := F) .tc cfg2.body (cfg2.bodyArgs t (cfg2.slots t))) = bodyAt2 (F := F) t from rfl]
    rw [scopedRest2_split]
    iintro ⟨⟨⟨⟨%z0, S0⟩, Hrest⟩, Hp⟩, Ho, H0, H1, H2, H3, H4, H5, H6, H7, H8, H9, H10, H11, H12⟩
    iapply ((kernelRun2 c (grid2.coords t) _ _ _ _ _ _ _ _ _ _ _ _ _ _ _ _ _ _ _ _ _ _ _ _ _ _ _ _) Set.univ _)
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [S0]; · iexists _; rw [owns_whole]; iexact S0
    iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%Z0, S0⟩⟩
    isplitl [Hrest Hp S0]
    · isplitr [Hp]; swap; · iexact Hp
      isplitr [Hrest]; swap; · iexact Hrest
      iexists Z0; rw [← owns_whole]; iexact S0
    isplitl [Ho]; · iexact Ho
    isplitl [H0]
    · iexists X0; isplitr
      · ipureintro; trivial
      · iexact H0
    isplitl [H1]
    · iexists X1; isplitr
      · ipureintro; trivial
      · iexact H1
    isplitl [H2]
    · iexists X2; isplitr
      · ipureintro; trivial
      · iexact H2
    isplitl [H3]
    · iexists X3; isplitr
      · ipureintro; trivial
      · iexact H3
    isplitl [H4]
    · iexists X4; isplitr
      · ipureintro; trivial
      · iexact H4
    isplitl [H5]
    · iexists X5; isplitr
      · ipureintro; trivial
      · iexact H5
    isplitl [H6]
    · iexists X6; isplitr
      · ipureintro; trivial
      · iexact H6
    isplitl [H7]
    · iexists X7; isplitr
      · ipureintro; trivial
      · iexact H7
    isplitl [H8]
    · iexists X8; isplitr
      · ipureintro; trivial
      · iexact H8
    isplitl [H9]
    · iexists X9; isplitr
      · ipureintro; trivial
      · iexact H9
    isplitl [H10]
    · iexists X10; isplitr
      · ipureintro; trivial
      · iexact H10
    isplitl [H11]
    · iexists X11; isplitr
      · ipureintro; trivial
      · iexact H11
    iexists X12; isplitr
    · ipureintro; trivial
    · iexact H12

set_option maxHeartbeats 1200000 in
/-- The body obligation of pipeline 2 at a generic point, in the relational form whose every relation is `True`: from the
    invariant (the scoped buffers no window stages, each whole at some contents, and the generator register), what the core
    owes within its bound, and every window's current staging buffer at the contents `Y w` it is handed, the kernel body at
    the point runs to the same invariant, the same owes term, and every current staging buffer at some contents. The
    windows are conjoined one by one, the body is the printed kernel on the current staging memrefs and the call's own scratch
    (split out of the scoped rest, whole at some contents, and put back after the run), and the whole-body run from
    arbitrary contents applies; the invariant's rest and the owes term pass through untouched. -/
theorem bodyObl_3 (c : Dev nD) (ι : Ix) (O : CellTallies nD τ sig Ix) (B : Set (SemLoc sig × Ix)) (t : Fin cfg3.N)
    (Y : (w : Fin cfg3.W) → (cfg3.win w).block.Idx → Elt F (cfg3.win w).elt) :
    (iprop(iprop(Pipeline.scopedRest (Ix := Ix) (Name := Name) (U := U) (Lvl := Lvl) (Val := Elt F) cfg3.spec c ∗ ∃ r, prngReg c r) ∗ Pipeline.owesWithin c O B
        ∗ bigSep Finset.univ fun w : Fin cfg3.W => owns (c : Thread nD τ) ((cfg3.win w).stage (cfg3.slots t w)) fullShare (Y w))
      ⊢ wp frame (wpE (defs₀ (F := F)) Variants.none c none) Set.univ (defs₀ .tc cfg3.body (cfg3.bodyArgs t (cfg3.slots t))) fun _ =>
          iprop(iprop(Pipeline.scopedRest (Ix := Ix) (Name := Name) (U := U) (Lvl := Lvl) (Val := Elt F) cfg3.spec c ∗ ∃ r, prngReg c r) ∗ Pipeline.owesWithin c O B
            ∗ bigSep Finset.univ fun w : Fin cfg3.W => iprop(∃ X, ⌜True⌝ ∗ owns (c : Thread nD τ) ((cfg3.win w).stage (cfg3.slots t w)) fullShare X)) : Prop) := by
    rw [bigSep_W3, bigSep_W3]
    rw [show (defs₀ (F := F) .tc cfg3.body (cfg3.bodyArgs t (cfg3.slots t))) = bodyAt3 (F := F) t from rfl]
    rw [scopedRest3_split]
    iintro ⟨⟨⟨⟨⟨%z0, S0⟩, ⟨%z1, S1⟩⟩, Hrest⟩, Hp⟩, Ho, H0, H1, H2, H3, H4, H5, H6, H7, H8, H9, H10, H11, H12, H13⟩
    by_cases hc : cond3_0 (grid3.coords t)
    · -- the conditional taken
      iapply ((kernelRun3_A c (grid3.coords t) _ _ _ _ _ _ _ _ _ _ _ _ _ _ _ _ _ _ _ _ _ _ _ _ _ _ _ _ _ _ _ _ hc) Set.univ _)
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [S0]; · iexists _; rw [owns_whole]; iexact S0
      isplitl [S1]; · iexists _; rw [owns_whole]; iexact S1
      iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%Z0, S0⟩, ⟨%Z1, S1⟩⟩
      isplitl [Hrest Hp S0 S1]
      · isplitr [Hp]; swap; · iexact Hp
        isplitr [Hrest]; swap; · iexact Hrest
        isplitl [S0]; · iexists Z0; rw [← owns_whole]; iexact S0
        iexists Z1; rw [← owns_whole]; iexact S1
      isplitl [Ho]; · iexact Ho
      isplitl [H0]
      · iexists X0; isplitr
        · ipureintro; trivial
        · iexact H0
      isplitl [H1]
      · iexists X1; isplitr
        · ipureintro; trivial
        · iexact H1
      isplitl [H2]
      · iexists X2; isplitr
        · ipureintro; trivial
        · iexact H2
      isplitl [H3]
      · iexists X3; isplitr
        · ipureintro; trivial
        · iexact H3
      isplitl [H4]
      · iexists X4; isplitr
        · ipureintro; trivial
        · iexact H4
      isplitl [H5]
      · iexists X5; isplitr
        · ipureintro; trivial
        · iexact H5
      isplitl [H6]
      · iexists X6; isplitr
        · ipureintro; trivial
        · iexact H6
      isplitl [H7]
      · iexists X7; isplitr
        · ipureintro; trivial
        · iexact H7
      isplitl [H8]
      · iexists X8; isplitr
        · ipureintro; trivial
        · iexact H8
      isplitl [H9]
      · iexists X9; isplitr
        · ipureintro; trivial
        · iexact H9
      isplitl [H10]
      · iexists X10; isplitr
        · ipureintro; trivial
        · iexact H10
      isplitl [H11]
      · iexists X11; isplitr
        · ipureintro; trivial
        · iexact H11
      isplitl [H12]
      · iexists X12; isplitr
        · ipureintro; trivial
        · iexact H12
      iexists X13; isplitr
      · ipureintro; trivial
      · iexact H13
    · -- the conditional not taken
      iapply ((kernelRun3_B c (grid3.coords t) _ _ _ _ _ _ _ _ _ _ _ _ _ _ _ _ _ _ _ _ _ _ _ _ _ _ _ _ _ _ _ _ hc) Set.univ _)
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [S0]; · iexists _; rw [owns_whole]; iexact S0
      isplitl [S1]; · iexists _; rw [owns_whole]; iexact S1
      iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%Z0, S0⟩, ⟨%Z1, S1⟩⟩
      isplitl [Hrest Hp S0 S1]
      · isplitr [Hp]; swap; · iexact Hp
        isplitr [Hrest]; swap; · iexact Hrest
        isplitl [S0]; · iexists Z0; rw [← owns_whole]; iexact S0
        iexists Z1; rw [← owns_whole]; iexact S1
      isplitl [Ho]; · iexact Ho
      isplitl [H0]
      · iexists X0; isplitr
        · ipureintro; trivial
        · iexact H0
      isplitl [H1]
      · iexists X1; isplitr
        · ipureintro; trivial
        · iexact H1
      isplitl [H2]
      · iexists X2; isplitr
        · ipureintro; trivial
        · iexact H2
      isplitl [H3]
      · iexists X3; isplitr
        · ipureintro; trivial
        · iexact H3
      isplitl [H4]
      · iexists X4; isplitr
        · ipureintro; trivial
        · iexact H4
      isplitl [H5]
      · iexists X5; isplitr
        · ipureintro; trivial
        · iexact H5
      isplitl [H6]
      · iexists X6; isplitr
        · ipureintro; trivial
        · iexact H6
      isplitl [H7]
      · iexists X7; isplitr
        · ipureintro; trivial
        · iexact H7
      isplitl [H8]
      · iexists X8; isplitr
        · ipureintro; trivial
        · iexact H8
      isplitl [H9]
      · iexists X9; isplitr
        · ipureintro; trivial
        · iexact H9
      isplitl [H10]
      · iexists X10; isplitr
        · ipureintro; trivial
        · iexact H10
      isplitl [H11]
      · iexists X11; isplitr
        · ipureintro; trivial
        · iexact H11
      isplitl [H12]
      · iexists X12; isplitr
        · ipureintro; trivial
        · iexact H12
      iexists X13; isplitr
      · ipureintro; trivial
      · iexact H13

set_option maxHeartbeats 1200000 in
/-- The body obligation of pipeline 3 at a generic point, in the relational form whose every relation is `True`: from the
    invariant (the scoped buffers no window stages, each whole at some contents, and the generator register), what the core
    owes within its bound, and every window's current staging buffer at the contents `Y w` it is handed, the kernel body at
    the point runs to the same invariant, the same owes term, and every current staging buffer at some contents. The
    windows are conjoined one by one, the body is the printed kernel on the current staging memrefs, and the whole-body run from
    arbitrary contents applies; the invariant's rest and the owes term pass through untouched. -/
theorem bodyObl_4 (c : Dev nD) (ι : Ix) (O : CellTallies nD τ sig Ix) (B : Set (SemLoc sig × Ix)) (t : Fin cfg4.N)
    (Y : (w : Fin cfg4.W) → (cfg4.win w).block.Idx → Elt F (cfg4.win w).elt) :
    (iprop(iprop(Pipeline.scopedRest (Ix := Ix) (Name := Name) (U := U) (Lvl := Lvl) (Val := Elt F) cfg4.spec c ∗ ∃ r, prngReg c r) ∗ Pipeline.owesWithin c O B
        ∗ bigSep Finset.univ fun w : Fin cfg4.W => owns (c : Thread nD τ) ((cfg4.win w).stage (cfg4.slots t w)) fullShare (Y w))
      ⊢ wp frame (wpE (defs₀ (F := F)) Variants.none c none) Set.univ (defs₀ .tc cfg4.body (cfg4.bodyArgs t (cfg4.slots t))) fun _ =>
          iprop(iprop(Pipeline.scopedRest (Ix := Ix) (Name := Name) (U := U) (Lvl := Lvl) (Val := Elt F) cfg4.spec c ∗ ∃ r, prngReg c r) ∗ Pipeline.owesWithin c O B
            ∗ bigSep Finset.univ fun w : Fin cfg4.W => iprop(∃ X, ⌜True⌝ ∗ owns (c : Thread nD τ) ((cfg4.win w).stage (cfg4.slots t w)) fullShare X)) : Prop) := by
    rw [bigSep_W4, bigSep_W4]
    rw [show (defs₀ (F := F) .tc cfg4.body (cfg4.bodyArgs t (cfg4.slots t))) = bodyAt4 (F := F) t from rfl]
    iintro ⟨HΦ, Ho, H0, H1, H2, H3, H4, H5, H6, H7, H8⟩
    iapply ((kernelRun4_A c (grid4.coords t) _ _ _ _ _ _ _ _ _ _ _ _ _ _ _ _ _ _) Set.univ _)
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iintro ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩⟩
    isplitl [HΦ]; · iexact HΦ
    isplitl [Ho]; · iexact Ho
    isplitl [H0]
    · iexists X0; isplitr
      · ipureintro; trivial
      · iexact H0
    isplitl [H1]
    · iexists X1; isplitr
      · ipureintro; trivial
      · iexact H1
    isplitl [H2]
    · iexists X2; isplitr
      · ipureintro; trivial
      · iexact H2
    isplitl [H3]
    · iexists X3; isplitr
      · ipureintro; trivial
      · iexact H3
    isplitl [H4]
    · iexists X4; isplitr
      · ipureintro; trivial
      · iexact H4
    isplitl [H5]
    · iexists X5; isplitr
      · ipureintro; trivial
      · iexact H5
    isplitl [H6]
    · iexists X6; isplitr
      · ipureintro; trivial
      · iexact H6
    isplitl [H7]
    · iexists X7; isplitr
      · ipureintro; trivial
      · iexact H7
    iexists X8; isplitr
    · ipureintro; trivial
    · iexact H8

/-! ## The library's obligation at the relational data of the region -/

/-- The library's body obligation of pipeline 0 at the relational data that say nothing of any value: the obligation
    above at what those data owe (nothing) within their bound (the recorded set and the loop's own wait pairs). -/
theorem bodyObligation_1 (c : Dev nD) (ι : Ix)
    (A : (w : Fin (pcfg (F := F) 0).W) → Buf (Elt F) (((pcfg (F := F) 0).win w).arr.view.loc (c.tc : Thread nD τ)))
    (B : Set (SemLoc sig × Ix)) :
    (rdOf (Ix := Ix) (Name := Name) (U := U) (Lvl := Lvl) (F := F) 0 c A B).BodyObligation (defs₀ (F := F)) Variants.none ι Set.univ :=
  fun t Y _ => bodyObl_1 c ι 0 (B ∪ (pcfg (F := F) 0).waitPairs ι) t Y

/-- The library's body obligation of pipeline 1 at the relational data that say nothing of any value: the obligation
    above at what those data owe (nothing) within their bound (the recorded set and the loop's own wait pairs). -/
theorem bodyObligation_2 (c : Dev nD) (ι : Ix)
    (A : (w : Fin (pcfg (F := F) 1).W) → Buf (Elt F) (((pcfg (F := F) 1).win w).arr.view.loc (c.tc : Thread nD τ)))
    (B : Set (SemLoc sig × Ix)) :
    (rdOf (Ix := Ix) (Name := Name) (U := U) (Lvl := Lvl) (F := F) 1 c A B).BodyObligation (defs₀ (F := F)) Variants.none ι Set.univ :=
  fun t Y _ => bodyObl_2 c ι 0 (B ∪ (pcfg (F := F) 1).waitPairs ι) t Y

/-- The library's body obligation of pipeline 2 at the relational data that say nothing of any value: the obligation
    above at what those data owe (nothing) within their bound (the recorded set and the loop's own wait pairs). -/
theorem bodyObligation_3 (c : Dev nD) (ι : Ix)
    (A : (w : Fin (pcfg (F := F) 2).W) → Buf (Elt F) (((pcfg (F := F) 2).win w).arr.view.loc (c.tc : Thread nD τ)))
    (B : Set (SemLoc sig × Ix)) :
    (rdOf (Ix := Ix) (Name := Name) (U := U) (Lvl := Lvl) (F := F) 2 c A B).BodyObligation (defs₀ (F := F)) Variants.none ι Set.univ :=
  fun t Y _ => bodyObl_3 c ι 0 (B ∪ (pcfg (F := F) 2).waitPairs ι) t Y

/-- The library's body obligation of pipeline 3 at the relational data that say nothing of any value: the obligation
    above at what those data owe (nothing) within their bound (the recorded set and the loop's own wait pairs). -/
theorem bodyObligation_4 (c : Dev nD) (ι : Ix)
    (A : (w : Fin (pcfg (F := F) 3).W) → Buf (Elt F) (((pcfg (F := F) 3).win w).arr.view.loc (c.tc : Thread nD τ)))
    (B : Set (SemLoc sig × Ix)) :
    (rdOf (Ix := Ix) (Name := Name) (U := U) (Lvl := Lvl) (F := F) 3 c A B).BodyObligation (defs₀ (F := F)) Variants.none ι Set.univ :=
  fun t Y _ => bodyObl_4 c ι 0 (B ∪ (pcfg (F := F) 3).waitPairs ι) t Y

end Cert.Kernel.BodyRun

end
-- ==== Proof.FramesBits.lean ====
import proofs.«214388_g48842368090541_cont_8to1c4_19_37_alg».proof.Proof.MainFrameBits
import proofs.«214388_g48842368090541_cont_8to1c4_19_37_alg».proof.Proof.FramesGlueBits
import proofs.«214388_g48842368090541_cont_8to1c4_19_37_alg».proof.Proof.RegionStepBits
import proofs.«214388_g48842368090541_cont_8to1c4_19_37_alg».proof.Proof.BodyOblBits

noncomputable section

namespace Cert.Proof.KernelSc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Cert.Kernel.MainShape

variable {F : FTy → Type} [FloatOps F] [∀ e, Nonempty (Elt F e)]

/-- The four pallas_calls' bodies run from any staging contents: the relational proof data's obligation, pipeline by pipeline. -/
theorem hbodyAll : ∀ (p : Fin 4) (c : Dev nD) A B,
    (rdOf (Ix := HIx 1) (Name := ℕ) (U := UU) (Lvl := ℕ) (F := F) p c A B).BodyObligation (defs₀ (F := F)) Variants.none (none : HIx 1) Set.univ
  | ⟨0, _⟩ => fun c A B => Cert.Kernel.BodyRun.bodyObligation_1 c none A B
  | ⟨1, _⟩ => fun c A B => Cert.Kernel.BodyRun.bodyObligation_2 c none A B
  | ⟨2, _⟩ => fun c A B => Cert.Kernel.BodyRun.bodyObligation_3 c none A B
  | ⟨3, _⟩ => fun c A B => Cert.Kernel.BodyRun.bodyObligation_4 c none A B

/-- Each pallas_call, as @main's proof uses it. -/
theorem regStep (p : Fin 4) : RegStep (F := F) Cert.Kernel.outDevRefs adm0 p :=
  fun d Vv W _ k Q => Cert.Kernel.region_step (UU := UU) EP p (hbodyAll p) d Vv W k Q

omit [FloatOps F] [∀ e, Nonempty (Elt F e)] in
/-- No argument array is a result array of a pallas_call. -/
theorem arg_not_out (p : Fin 4) : ∀ b ∈ (argRefs : Finset (DevRef τ sig)), b ∉ Cert.Kernel.outDevRefs p := fun b hb hmem => by
  obtain ⟨w, hw, rfl⟩ := Finset.mem_image.mp hmem
  exact out_not_arg p w (Finset.mem_filter.mp hw).2 hb

end Cert.Proof.KernelSc

namespace Cert.Proof.Parts

open Idealize.ShloMosaic Idealize.SL.Sem

/-- The kernel's frame, on words: under the precondition every weakly fair execution of all its threads terminates without
    a fault and leaves the argument arrays unchanged. -/
theorem frame_k [Cert.Pre_input_domain.Facts] [Cert.Kernel.Facts] : Cert.frame_Kernel := fun m ρ hpre =>
  Cert.Proof.KernelSc.run_main (F := Bits) m ρ Cert.Kernel.outDevRefs Cert.Proof.KernelSc.regStep
    Cert.Proof.KernelSc.arg_not_out (Cert.Proof.KernelSc.idxOK_of_pre m hpre)

end Cert.Proof.Parts

end
-- ==== Proof.MainValIdeal.lean ====
import proofs.«214388_g48842368090541_cont_8to1c4_19_37_alg».proof.Proof.MainFrameIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.MainShape

variable {F : FTy → Type}

local notation "𝕄" => MT nD τ sig (HIx 1) (Elt F) ℕ UU ℕ

section Val
variable [FloatOps F] [∀ e, Nonempty (Elt F e)]
variable (m : (ℓ : Loc nD τ sig) → Buf (Elt F) ℓ) (ρ : Dev nD → PrngReg)

/-- A pallas_call region with its results named: the continuation gets the buffers at the one valuation `regAfter p Vv`. -/
def RegStepVal (regAfter : Fin 4 → Valuation τ sig (Elt F) → Valuation τ sig (Elt F)) (p : Fin 4) : Prop :=
  ∀ (d : Dev nD) (Vv : Valuation τ sig (Elt F)) (W : Waits sig (HIx 1)) {α : Type}
    (k : PUnit → Prog (TpuEff nD τ sig (Elt F) (SparseCore.Sig (Pipeline.Sig Λ₀ (Fin 4) fun p => (pcfgs (F := F) p).Adm) 1) .tc) α) (Q : α → sProp 𝕄),
    iprop((∀ W', ⌜∀ q ∈ W', q ∈ W ∨ q.2 = none⌝ -∗
            (boundary (T d) ∗ StableHlo.held (T d) (Pipeline.ucRefs τ sig) (regAfter p Vv) ∗ (∃ r, prngReg d r) ∗ owes (T d) 0 W') -∗
            wp frame (wpE ((K (F := F)).defs (D (F := F))) 𝒱 (T d) none) Set.univ (k ⟨⟩) Q)
        ∗ boundary (T d) ∗ StableHlo.held (T d) (Pipeline.ucRefs τ sig) Vv ∗ (∃ r, prngReg d r) ∗ owes (T d) 0 W
        ∗ levAts (K (F := F)).L (K (F := F)).lev
        ∗ Pipeline.cellsGhost (Pipeline.pin (pcfgs (F := F)) adm0) EP p d ∗ Pipeline.toksInit (Pipeline.pin (pcfgs (F := F)) adm0) EP p d)
      ⊢ wp frame (wpE ((K (F := F)).defs (D (F := F))) 𝒱 (T d) none) Set.univ
          (Prog.lift (.customCall (SparseCore.inner (Pipeline.entry p)) ()) >>= k) Q

variable (regAfter : Fin 4 → Valuation τ sig (Elt F) → Valuation τ sig (Elt F))
variable (Gu : (d : Dev nD) → Buf (Elt F) (uoLoc d)) (Gm : (d : Dev nD) → Buf (Elt F) (moLoc d)) (Gc : (d : Dev nD) → Buf (Elt F) (coLoc d))

/-- The buffers' contents at the end of @main, as one term of the launch contents: the host stretches' operations, the
    gathered arrays, and each pallas_call's results in turn. -/
def VEnd (d : Dev nD) : Valuation τ sig (Elt F) :=
  StableHlo.after (opsF (F := F)) (regAfter 3 (StableHlo.after (opsE (F := F)) (regAfter 2 (StableHlo.after (opsD (F := F)) (regAfter 1
    (StableHlo.after (opsC (F := F)) (regAfter 0 (StableHlo.after (opsB (F := F)) (scAfter (VA m d) d (Gu d) (Gm d) (Gc d))))))))))

def FINVal (d : Dev nD) : sProp 𝕄 := StableHlo.held (T d) (Pipeline.ucRefs τ sig) (VEnd (F := F) m regAfter Gu Gm Gc d)

set_option maxHeartbeats 1600000 in
theorem hmainVal (Pv : (K (F := F)).Pay (nD := nD) (Val := Elt F) (Name := ℕ) (U := UU))
    (hsc : ∀ (κ : GSem nD τ sig → ℕ) (d : Dev nD) (Φ : PUnit → sProp 𝕄),
      iprop((K (F := F)).ctx EH Pv κ ∗ (K (F := F)).tcSt EH d 0 ∗ StableHlo.held (T d) (Pipeline.ucRefs τ sig) (VA m d)
          ∗ (((K (F := F)).tcSt EH d 1 ∗ StableHlo.held (T d) (Pipeline.ucRefs τ sig) (scAfter (VA m d) d (Gu d) (Gm d) (Gc d))) -∗ Φ ⟨⟩))
        ⊢ wp frame (wpE ((K (F := F)).defs (D (F := F))) 𝒱 (T d) none) Set.univ ((K (F := F)).run d 0) Φ)
    (hreg : ∀ p, RegStepVal (F := F) regAfter p)
    (κ : GSem nD τ sig → ℕ) (d : Dev nD) :
    iprop((K (F := F)).ctx EH Pv κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FINVal (F := F) m regAfter Gu Gm Gc d) := by
  rw [main_shape]
  unfold SparseCore.Cfg.tcRes
  iintro ⟨#Hctx, Hst, ⟨Hbd, Hbufs, -, Hprng⟩, HG⟩
  ihave Hh := (Entails.of_eq (unscopedBufs_launch (Ix' := HIx 1) (Name' := ℕ) (U' := UU) (Lvl' := ℕ) m d)) $$ Hbufs
  ihave HG' := (Entails.of_eq (G_eq (F := F) d)) $$ HG
  icases HG' with ⟨⟨Hcg0, Htk0⟩, ⟨Hcg1, Htk1⟩, ⟨Hcg2, Htk2⟩, ⟨Hcg3, Htk3⟩⟩
  iapply (StableHlo.wp_seq 𝒱 none Set.univ d (Pipeline.ucRefs τ sig) _ opsA (fun op h => Pipeline.sub_ucRefs op (opsA_sub op h)) opsA_fresh _) $$ [Hbd Hh]
  · isplitl [Hbd] <;> iassumption
  iintro ⟨Hbd, Hh⟩
  rw [wp_bind]
  iapply (hsc κ d _)
  isplitr; · iexact Hctx
  isplitl [Hst]; · iexact Hst
  isplitl [Hh]; · iexact Hh
  iintro ⟨Hst, Hh⟩
  ihave Hst' := (Entails.of_eq (tcSt_one (F := F) d)) $$ Hst
  icases Hst' with ⟨⟨%W0, %hW0, HO⟩, Hrest⟩
  iapply (StableHlo.wp_seq 𝒱 none Set.univ d (Pipeline.ucRefs τ sig) _ opsB (fun op h => Pipeline.sub_ucRefs op (opsB_sub op h)) opsB_fresh _) $$ [Hbd Hh]
  · isplitl [Hbd] <;> iassumption
  iintro ⟨Hbd, Hh⟩
  ihave Hprng := (show (prngReg d (ρ d) : sProp 𝕄) ⊢ iprop(∃ r, prngReg d r) from exists_intro (Φ := fun r => (prngReg d r : sProp 𝕄)) (ρ d)) $$ Hprng
  ihave Hlev := ((K (F := F)).ctx_levAts (EH := EH) (P := Pv) κ) $$ Hctx
  iapply (hreg 0 d _ W0 _ _)
  isplitr [Hbd Hh Hprng HO Hlev Hcg0 Htk0]
  swap
  · isplitl [Hbd]; · iexact Hbd
    isplitl [Hh]; · iexact Hh
    isplitl [Hprng]; · iexact Hprng
    isplitl [HO]; · iexact HO
    isplitl [Hlev]; · iexact Hlev
    isplitl [Hcg0]; · iexact Hcg0
    iexact Htk0
  iintro %W1 %hW1 ⟨Hbd, Hh, Hprng, HO⟩
  iapply (StableHlo.wp_seq 𝒱 none Set.univ d (Pipeline.ucRefs τ sig) _ opsC (fun op h => Pipeline.sub_ucRefs op (opsC_sub op h)) opsC_fresh _) $$ [Hbd Hh]
  · isplitl [Hbd] <;> iassumption
  iintro ⟨Hbd, Hh⟩
  ihave Hlev := ((K (F := F)).ctx_levAts (EH := EH) (P := Pv) κ) $$ Hctx
  iapply (hreg 1 d _ W1 _ _)
  isplitr [Hbd Hh Hprng HO Hlev Hcg1 Htk1]
  swap
  · isplitl [Hbd]; · iexact Hbd
    isplitl [Hh]; · iexact Hh
    isplitl [Hprng]; · iexact Hprng
    isplitl [HO]; · iexact HO
    isplitl [Hlev]; · iexact Hlev
    isplitl [Hcg1]; · iexact Hcg1
    iexact Htk1
  iintro %W2 %hW2 ⟨Hbd, Hh, Hprng, HO⟩
  iapply (StableHlo.wp_seq 𝒱 none Set.univ d (Pipeline.ucRefs τ sig) _ opsD (fun op h => Pipeline.sub_ucRefs op (opsD_sub op h)) opsD_fresh _) $$ [Hbd Hh]
  · isplitl [Hbd] <;> iassumption
  iintro ⟨Hbd, Hh⟩
  ihave Hlev := ((K (F := F)).ctx_levAts (EH := EH) (P := Pv) κ) $$ Hctx
  iapply (hreg 2 d _ W2 _ _)
  isplitr [Hbd Hh Hprng HO Hlev Hcg2 Htk2]
  swap
  · isplitl [Hbd]; · iexact Hbd
    isplitl [Hh]; · iexact Hh
    isplitl [Hprng]; · iexact Hprng
    isplitl [HO]; · iexact HO
    isplitl [Hlev]; · iexact Hlev
    isplitl [Hcg2]; · iexact Hcg2
    iexact Htk2
  iintro %W3 %hW3 ⟨Hbd, Hh, Hprng, HO⟩
  iapply (StableHlo.wp_seq 𝒱 none Set.univ d (Pipeline.ucRefs τ sig) _ opsE (fun op h => Pipeline.sub_ucRefs op (opsE_sub op h)) opsE_fresh _) $$ [Hbd Hh]
  · isplitl [Hbd] <;> iassumption
  iintro ⟨Hbd, Hh⟩
  ihave Hlev := ((K (F := F)).ctx_levAts (EH := EH) (P := Pv) κ) $$ Hctx
  iapply (hreg 3 d _ W3 _ _)
  isplitr [Hbd Hh Hprng HO Hlev Hcg3 Htk3]
  swap
  · isplitl [Hbd]; · iexact Hbd
    isplitl [Hh]; · iexact Hh
    isplitl [Hprng]; · iexact Hprng
    isplitl [HO]; · iexact HO
    isplitl [Hlev]; · iexact Hlev
    isplitl [Hcg3]; · iexact Hcg3
    iexact Htk3
  iintro %W4 %hW4 ⟨Hbd, Hh, Hprng, HO⟩
  rw [← bind_pure (StableHlo.seq (opsF (F := F)))]
  iapply (StableHlo.wp_seq 𝒱 none Set.univ d (Pipeline.ucRefs τ sig) _ opsF (fun op h => Pipeline.sub_ucRefs op (opsF_sub op h)) opsF_fresh _) $$ [Hbd Hh]
  · isplitl [Hbd] <;> iassumption
  iintro ⟨Hbd, Hh⟩
  rw [wp_pure]
  imodintro
  isplitl [HO Hrest]
  · iapply (Entails.of_eq (tcSt_one (F := F) d).symm)
    isplitl [HO]
    · iexists W4; isplitr
      · ipureintro; exact WBelow_step (WBelow_step (WBelow_step (WBelow_step hW0 hW1) hW2) hW3) hW4
      · iexact HO
    · iexact Hrest
  · unfold FINVal VEnd
    iexact Hh

end Val

end Cert.Proof.KernelIdealSc

end
-- ==== Proof.RunValIdeal.lean ====
import proofs.«214388_g48842368090541_cont_8to1c4_19_37_alg».proof.Proof.MainValIdeal
import proofs.«214388_g48842368090541_cont_8to1c4_19_37_alg».proof.Proof.FramesIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.MainShape

variable {F : FTy → Type}

local notation "𝕄" => MT nD τ sig (HIx 1) (Elt F) ℕ UU ℕ

section RunVal
variable [FloatOps F] [∀ e, Nonempty (Elt F e)]
variable (m : (ℓ : Loc nD τ sig) → Buf (Elt F) ℓ) (ρ : Dev nD → PrngReg)
variable (regAfter : Fin 4 → Valuation τ sig (Elt F) → Valuation τ sig (Elt F))
variable (Gu : (d : Dev nD) → Buf (Elt F) (uoLoc d)) (Gm : (d : Dev nD) → Buf (Elt F) (moLoc d)) (Gc : (d : Dev nD) → Buf (Elt F) (coLoc d))

/-- The argument arrays are the launch contents in the final valuation: no host line, no gather and no pallas_call writes one. -/
theorem VEnd_args (hkeep : ∀ (p : Fin 4) (Vv : Valuation τ sig (Elt F)) (b : DevRef τ sig), b ∉ Cert.KernelIdeal.outDevRefs p → regAfter p Vv b = Vv b) (d : Dev nD) :
    ∀ b ∈ (argRefs : Finset (DevRef τ sig)), VEnd (F := F) m regAfter Gu Gm Gc d b = StableHlo.launchContents m d b := by
  intro b hb
  unfold VEnd
  rw [opsF_keep _ b hb, hkeep 3 _ b (arg_not_out 3 b hb), opsE_keep _ b hb, hkeep 2 _ b (arg_not_out 2 b hb), opsD_keep _ b hb,
    hkeep 1 _ b (arg_not_out 1 b hb), opsC_keep _ b hb, hkeep 0 _ b (arg_not_out 0 b hb), opsB_keep _ b hb,
    scAfter_of_ne _ _ _ _ _ b (fun e => scOut_not_arg b (by rw [e]; decide) hb) (fun e => scOut_not_arg b (by rw [e]; decide) hb)
      (fun e => scOut_not_arg b (by rw [e]; decide) hb)]
  exact opsA_keep _ b hb

/-- What the final memory says: the result array holds the final valuation's, the argument arrays their launch contents. -/
theorem hfinVal (hkeep : ∀ (p : Fin 4) (Vv : Valuation τ sig (Elt F)) (b : DevRef τ sig), b ∉ Cert.KernelIdeal.outDevRefs p → regAfter p Vv b = Vv b)
    (d : Dev nD) (s' : Phys nD τ sig (Elt F)) :
    iprop(FINVal (F := F) m regAfter Gu Gm Gc d ∗ SI s')
      ⊢ (⌜s'.mem.mem ((SparseCore.T d).loc main_v101) = VEnd (F := F) m regAfter Gu Gm Gc d (Proc.devRef .tc main_v101) ∧ ArgsKept m d s'.mem⌝ : sProp 𝕄) := by
  unfold FINVal
  iintro ⟨Hh, HSI⟩
  ihave H := (persistent_entails_right (args_read (Ix := HIx 1) (Name := ℕ) (U := UU) (Lvl := ℕ) m d (VEnd (F := F) m regAfter Gu Gm Gc d)
    (VEnd_args m regAfter Gu Gm Gc hkeep d) s')) $$ [Hh HSI]
  · isplitl [Hh] <;> iassumption
  icases H with ⟨%h2, Hh, HSI⟩
  ihave Hh := (show (StableHlo.held (T d) (Pipeline.ucRefs τ sig) (VEnd (F := F) m regAfter Gu Gm Gc d) : sProp 𝕄)
      ⊢ bigSep (Pipeline.ucRefs τ sig) fun b => ((((d, b) : Loc nD τ sig)) ↦{fullShare} VEnd (F := F) m regAfter Gu Gm Gc d b) from .rfl) $$ Hh
  ihave H1 := (pointsTo_read_all (Pipeline.ucRefs τ sig) (fun b => ((d, b) : Loc nD τ sig)) (VEnd (F := F) m regAfter Gu Gm Gc d) s') $$ [Hh HSI]
  · isplitl [Hh] <;> iassumption
  icases H1 with ⟨%h1, -⟩
  ipureintro
  exact ⟨h1 (Proc.devRef .tc main_v101) (by decide), h2⟩

/-- Every weakly fair execution of the program terminates without a fault, the result array at the final valuation's,
    the argument arrays unchanged — from the gather call and the four pallas_calls with their results named. -/
theorem run_main_val (Pv : (K (F := F)).Pay (nD := nD) (Val := Elt F) (Name := ℕ) (U := UU)) [Pv.IsStorable] (hheld : Pv.held = ∅)
    (htile : (K (F := F)).TileObl (D (F := F)) 𝒱 Pv v₀ 0) (hvec : (K (F := F)).VecSplit Pv 0)
    (hu : iprop(ownU (u₀ (F := F)) ∗ Pv.oxCred ∗ (K (F := F)).freeSems0) ⊢ |={Set.univ}=> iprop(BI.own (EH (initOf (K (F := F)).hsCells (K (F := F)).hsToks))
      ∗ bigSep Finset.univ (G (F := F)) ∗ bigSep Finset.univ fun thr : Thread nD τ => bigSep Finset.univ fun q : Fin 1 => Pv.x q thr))
    (hsc : ∀ (κ : GSem nD τ sig → ℕ) (d : Dev nD) (Φ : PUnit → sProp 𝕄),
      iprop((K (F := F)).ctx EH Pv κ ∗ (K (F := F)).tcSt EH d 0 ∗ StableHlo.held (T d) (Pipeline.ucRefs τ sig) (VA m d)
          ∗ (((K (F := F)).tcSt EH d 1 ∗ StableHlo.held (T d) (Pipeline.ucRefs τ sig) (scAfter (VA m d) d (Gu d) (Gm d) (Gc d))) -∗ Φ ⟨⟩))
        ⊢ wp frame (wpE ((K (F := F)).defs (D (F := F))) 𝒱 (T d) none) Set.univ ((K (F := F)).run d 0) Φ)
    (hreg : ∀ p, RegStepVal (F := F) regAfter p)
    (hkeep : ∀ (p : Fin 4) (Vv : Valuation τ sig (Elt F)) (b : DevRef τ sig), b ∉ Cert.KernelIdeal.outDevRefs p → regAfter p Vv b = Vv b) :
    θ_run (Cert.KernelIdeal.defs (F := F)) (Cert.KernelIdeal.threads (F := F)) ⟨m, fun _ => 0, ρ⟩
      (fun r => ∀ c : Dev nD, r.2.mem ((SparseCore.T c).loc main_v101) = VEnd (F := F) m regAfter Gu Gm Gc c (Proc.devRef .tc main_v101) ∧ ArgsKept m c r.2) :=
  SparseCore.Cfg.θ_run_sc (K := K (F := F)) (D := D (F := F)) (𝒱 := 𝒱) (EH := EH) (P := Pv) facts v₀
    (fun q hq => match q with | 0 => nomatch hq)
    (fun q _ => match q with | 0 => htile)
    (fun q _ => match q with | 0 => hvec)
    m ρ main (G (F := F)) (FINVal (F := F) m regAfter Gu Gm Gc) (u₀ (F := F)) hu (hmainVal m ρ regAfter Gu Gm Gc Pv hsc hreg)
    (fun d s' => s'.mem.mem ((SparseCore.T d).loc main_v101) = VEnd (F := F) m regAfter Gu Gm Gc d (Proc.devRef .tc main_v101) ∧ ArgsKept m d s'.mem)
    (hfinVal m regAfter Gu Gm Gc hkeep) _ (fun _ h => h) (hheld := hheld)

end RunVal

end Cert.Proof.KernelIdealSc

end
-- ==== Proof.GatherValTaskIdeal.lean ====
import proofs.«214388_g48842368090541_cont_8to1c4_19_37_alg».proof.Proof.GatherTaskIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 1) (Elt F) ℕ UU ℕ

local notation "idxV" => (Memref.whole Cert.KernelIdeal.main_v6_scv : Memref Cert.KernelIdeal.sig Kind.scVector Space.hbm Cert.KernelIdeal.S49152 EltTy.i32)
local notation "bigV" => (Memref.whole Cert.KernelIdeal.main_v7_scv : Memref Cert.KernelIdeal.sig Kind.scVector Space.hbm Cert.KernelIdeal.S100000x128 EltTy.f32)
local notation "comboV" => (Memref.whole Cert.KernelIdeal.main_v35_scv : Memref Cert.KernelIdeal.sig Kind.scVector Space.hbm Cert.KernelIdeal.S1024x128 EltTy.f32)
local notation "uoV" => (Memref.whole Cert.KernelIdeal.main_v36_0_scv : Memref Cert.KernelIdeal.sig Kind.scVector Space.hbm Cert.KernelIdeal.S16384x128 EltTy.f32)
local notation "moV" => (Memref.whole Cert.KernelIdeal.main_v36_1_scv : Memref Cert.KernelIdeal.sig Kind.scVector Space.hbm Cert.KernelIdeal.S16384x128 EltTy.f32)
local notation "coV" => (Memref.whole Cert.KernelIdeal.main_v36_2_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

/-! ## The gathered arrays, as whole-array functions of the list's and a table's contents -/

/-- A table of N rows of 128 words. -/
abbrev Tbl (N : Nat) : Shape := ⟨2, ![N, 128]⟩

/-- Entry 16384·third + r of the index list, as an index of it. -/
def thirdIx (third : Fin 3) (r : Fin 16384) : S49152.Idx := fun a =>
  ⟨16384 * third.val + r.val, by
    have h3 := third.isLt; have hr := r.isLt
    have ha : a = 0 := Subsingleton.elim _ _
    subst ha; show _ < 49152; omega⟩

theorem thirdIx_val (third : Fin 3) (r : Fin 16384) : ((thirdIx third r) 0).val = 16384 * third.val + r.val := rfl

/-- The row of a table of N rows that entry 16384·third + r of the list names (row 0 where the entry names none). -/
def rowOfList {N : Nat} (hz : 0 < N) (fi : S49152.Idx → Elt F .i32) (third : Fin 3) (r : Fin 16384) : Fin N :=
  if h : (fi (thirdIx third r)).toNat < N then ⟨_, h⟩ else ⟨0, hz⟩

/-- A third of the list gathered out of a table: row r of the result is the table's row that entry
    16384·third + r of the list names, column by column. -/
def gatherOf {N : Nat} (hz : 0 < N) (tbl : (Tbl N).Idx → Elt F .f32) (fi : S49152.Idx → Elt F .i32) (third : Fin 3) :
    S16384x128.Idx → Elt F .f32 :=
  fun y => tbl ((Shape.Gathers.rank2 N 16384 128).idx (rowOfList hz fi third) y)

/-- The gathered array at an index: the table at any index whose row is the list's entry and whose column is the index's. -/
theorem gatherOf_apply {N : Nat} (hz : 0 < N) (tbl : (Tbl N).Idx → Elt F .f32) (fi : S49152.Idx → Elt F .i32) (third : Fin 3)
    (y : S16384x128.Idx) (j : (Tbl N).Idx) (hrow : (j 0).val = (fi (thirdIx third (y 0))).toNat) (hcol : (j 1).val = (y 1).val) :
    gatherOf hz tbl fi third y = tbl j := by
  unfold gatherOf
  refine congrArg tbl (funext fun b => Fin.ext ?_)
  match b with
  | ⟨0, hb⟩ =>
    refine (congrArg Fin.val (Shape.Gathers.idx_axis (Shape.Gathers.rank2 N 16384 128) (rowOfList hz fi third) y)).trans ?_
    have h : (fi (thirdIx third (y 0))).toNat < N := lt_of_eq_of_lt hrow.symm (j 0).isLt
    exact (congrArg Fin.val (dif_pos h : rowOfList hz fi third (y 0) = ⟨_, h⟩)).trans hrow.symm
  | ⟨1, hb⟩ =>
    refine (Shape.Gathers.idx_of_ne (Shape.Gathers.rank2 N 16384 128) (rowOfList hz fi third) y ⟨1, hb⟩ Nat.one_ne_zero).trans ?_
    exact hcol.symm

/-- Entry k of a list of 512 words in row-major order is its entry k. -/
theorem rowMajor_symm_one (k : Fin S512.numel) : ((S512.rowMajor.symm k) 0).val = k.val := by
  have h := Shape.rowMajor_val_one (d := ![512]) (S512.rowMajor.symm k)
  rw [Equiv.apply_symm_apply] at h
  exact h.symm

/-- What a gather of 512 rows delivers, read against the whole gathered array: the stretch of the list the
    offsets were fetched from starts at entry 16384·third + base, the rows land at rows base … of the result. -/
theorem payload_eq {N : Nat} (hz : 0 < N) (hg : (Tbl N).Gathers 0 S512x128) (g tbl : (Tbl N).Idx → Elt F .f32) (hgt : ∀ j, g j = tbl j)
    (idx : S512.Idx → Elt F .i32) (hn : S512.numel = S512x128.size hg.axis') (hin : ∀ x, (idx x).toNat < (Tbl N).size hg.axis)
    (fi : S49152.Idx → Elt F .i32) (third : Fin 3) (base : Nat)
    (emb : S512.Idx → S49152.Idx) (hidx : ∀ x, idx x = fi (emb x)) (hemb : ∀ x, ((emb x) 0).val = 16384 * third.val + base + (x 0).val)
    (x : S512x128.Idx) (y : S16384x128.Idx) (hy0 : (y 0).val = base + (x 0).val) (hy1 : (y 1).val = (x 1).val) :
    SparseCore.gatherPayload hg g (SparseCore.rows idx hn hin) x = gatherOf hz tbl fi third y := by
  unfold SparseCore.gatherPayload
  refine (hgt _).trans (gatherOf_apply hz tbl fi third y _ ?_ ?_).symm
  · refine (congrArg Fin.val (Shape.Gathers.idx_axis hg (SparseCore.rows idx hn hin) x)).trans ?_
    show (idx (S512.rowMajor.symm ((x hg.axis').cast hn.symm))).toNat = _
    have e : emb (S512.rowMajor.symm ((x hg.axis').cast hn.symm)) = thirdIx third (y 0) := by
      funext a
      apply Fin.ext
      have ha : a = 0 := Subsingleton.elim _ _
      subst ha
      refine (hemb _).trans ?_
      refine (congrArg (fun t => 16384 * third.val + base + t) (rowMajor_symm_one _)).trans ?_
      show 16384 * third.val + base + (x 0).val = 16384 * third.val + (y 0).val
      omega
    exact (congrArg BitVec.toNat (hidx _)).trans (congrArg (fun j => (fi j).toNat) e)
  · refine (Shape.Gathers.idx_of_ne hg (SparseCore.rows idx hn hin) x 1 Nat.one_ne_zero).trans ?_
    exact hy1.symm

/-- A block written whole with a payload that reads as an array holds that array, on the block. -/
theorem writes_whole_eq {κ : Kind} {sp : Space} (v : View sig κ sp S512x128 .f32) (f G : v.ty.Contents (Elt F)) (w : S512x128.Idx → Elt F .f32)
    (h : ∀ x, w x = v.read (Elt F) G x) : ∀ i ∈ v.set, v.writes (Elt F) f [⟨Rect.whole S512x128, w⟩] i = G i := by
  intro i hi
  obtain ⟨x, -, rfl⟩ := Finset.mem_map.mp hi
  have h1 := View.read_writes_cons_emb v f (Rect.whole S512x128) w [] x
  rw [Rect.emb_whole_apply, h x, View.read_apply, View.read_apply] at h1
  exact (cast_inj _).mp h1

theorem pos100000 : 0 < 100000 := by decide
theorem pos1024 : 0 < 1024 := by decide

/-- The three results of the kernel, whole: the first and the second third of the list gathered out of the table of
    100000 rows, the last third out of the table of 1024 rows. -/
abbrev uoOf (d : Dev nD) (fi : Buf (Elt F) (idxLoc d)) (fb : Buf (Elt F) (bigLoc d)) : Buf (Elt F) (uoLoc d) := gatherOf pos100000 fb fi 0
abbrev moOf (d : Dev nD) (fi : Buf (Elt F) (idxLoc d)) (fb : Buf (Elt F) (bigLoc d)) : Buf (Elt F) (moLoc d) := gatherOf pos100000 fb fi 1
abbrev coOf (d : Dev nD) (fi : Buf (Elt F) (idxLoc d)) (fc : Buf (Elt F) (comboLoc d)) : Buf (Elt F) (coLoc d) := gatherOf pos1024 fc fi 2

section Reads
variable [FloatOps F] (d : Dev nD) (L : grid0.Coords)

omit [CountersIn UU] [FloatOps F] in
/-- The row scratch, written whole, reads as what was written. -/
theorem read_rV_write (fr : Buf (Elt F) ((V d (cV L) (jV L)).loc cc0_scratch1)) (G : S512x128.Idx → Elt F .f32) :
    (rV).view.read (Elt F) (View.write (Elt F) (rV).view fr G Finset.univ) = G := by
  rw [View.write_whole_univ]
  simp only [Memref.view_whole, View.read_whole]

omit [CountersIn UU] [FloatOps F] in
/-- A table held whole reads, through the slice that is all of it, as itself. -/
theorem read_big (fb : Buf (Elt F) (bigLoc d)) (j : S100000x128.Idx) :
    ((bigV).slice (Rect.unit (s := S100000x128) ![0, 0] S100000x128.size inb_S100000x128_S100000x128_0_0) (fun _ => rfl)).view.read (Elt F) fb j = fb j := by
  refine (View.read_apply _ _).trans ((cast_eq _ _).trans (congrArg fb ?_))
  funext a; apply Fin.ext
  show (![0, 0] : Fin 2 → Nat) a + 1 * (j a).val = (j a).val
  match a with
  | ⟨0, _⟩ => simp
  | ⟨1, _⟩ => simp
omit [CountersIn UU] [FloatOps F] in
theorem read_combo (fc : Buf (Elt F) (comboLoc d)) (j : S1024x128.Idx) :
    ((comboV).slice (Rect.unit (s := S1024x128) ![0, 0] S1024x128.size inb_S1024x128_S1024x128_0_0) (fun _ => rfl)).view.read (Elt F) fc j = fc j := by
  refine (View.read_apply _ _).trans ((cast_eq _ _).trans (congrArg fc ?_))
  funext a; apply Fin.ext
  show (![0, 0] : Fin 2 → Nat) a + 1 * (j a).val = (j a).val
  match a with
  | ⟨0, _⟩ => simp
  | ⟨1, _⟩ => simp

omit [CountersIn UU] in
theorem hemb1 (x : S512.Idx) : (((idxRowK1 L).view.emb x) 0).val = 16384 * (0 : Fin 3).val + (1024 * (L 1).val + 512 * (L 0).val) + (x 0).val := by
  rw [emb1]; show _ = 16384 * 0 + _ + _; omega
omit [CountersIn UU] in
theorem hemb2 (x : S512.Idx) : (((idxRowK2 L).view.emb x) 0).val = 16384 * (1 : Fin 3).val + (1024 * (L 1).val + 512 * (L 0).val) + (x 0).val := by
  rw [emb2]; show _ = 16384 * 1 + _ + _; omega
omit [CountersIn UU] in
theorem hemb3 (x : S512.Idx) : (((idxRowK3 L).view.emb x) 0).val = 16384 * (2 : Fin 3).val + (1024 * (L 1).val + 512 * (L 0).val) + (x 0).val := by
  rw [emb3]; show _ = 16384 * 2 + _ + _; omega

omit [CountersIn UU] in
theorem uo_emb0 (x : S512x128.Idx) : (((uoRowK L).view.emb x) 0).val = 1024 * (L 1).val + 512 * (L 0).val + (x 0).val := by
  show (k0_off2 L) 0 + 1 * (x 0).val = _
  rw [k0_off2_eq]; simp
omit [CountersIn UU] in
theorem uo_emb1 (x : S512x128.Idx) : (((uoRowK L).view.emb x) 1).val = (x 1).val := by
  show (k0_off2 L) 1 + 1 * (x 1).val = _
  rw [k0_off2_eq]; simp

omit [CountersIn UU] in
/-- What the row scratch holds after a gather, copied out to the task's block, reads as the gathered array on the block. -/
theorem uo_block {N : Nat} (hz : 0 < N) (hg : (Tbl N).Gathers 0 S512x128) (g tbl : (Tbl N).Idx → Elt F .f32) (hgt : ∀ j, g j = tbl j)
    (idx : S512.Idx → Elt F .i32) (hn : S512.numel = S512x128.size hg.axis') (hin : ∀ x, (idx x).toNat < (Tbl N).size hg.axis)
    (fi : S49152.Idx → Elt F .i32) (third : Fin 3)
    (emb : S512.Idx → S49152.Idx) (hidx : ∀ x, idx x = fi (emb x))
    (hemb : ∀ x, ((emb x) 0).val = 16384 * third.val + (1024 * (L 1).val + 512 * (L 0).val) + (x 0).val)
    (FR : Buf (Elt F) ((V d (cV L) (jV L)).loc cc0_scratch1)) (x : S512x128.Idx) :
    (rV).view.read (Elt F) (View.write (Elt F) (rV).view FR (SparseCore.gatherPayload hg g (SparseCore.rows idx hn hin)) Finset.univ) x
      = (uoRowK L).view.read (Elt F) (gatherOf hz tbl fi third) x := by
  rw [read_rV_write d L]
  refine (payload_eq hz hg g tbl hgt idx hn hin fi third _ emb hidx hemb x ((uoRowK L).view.emb x) (uo_emb0 L x) (uo_emb1 L x)).trans ?_
  exact ((View.read_apply _ _).trans (cast_eq _ _)).symm

omit [CountersIn UU] in
theorem mo_emb0 (x : S512x128.Idx) : (((moRowK L).view.emb x) 0).val = 1024 * (L 1).val + 512 * (L 0).val + (x 0).val := by
  show (k0_off2 L) 0 + 1 * (x 0).val = _
  rw [k0_off2_eq]; simp
omit [CountersIn UU] in
theorem mo_emb1 (x : S512x128.Idx) : (((moRowK L).view.emb x) 1).val = (x 1).val := by
  show (k0_off2 L) 1 + 1 * (x 1).val = _
  rw [k0_off2_eq]; simp

omit [CountersIn UU] in
/-- What the row scratch holds after a gather, copied out to the task's block, reads as the gathered array on the block. -/
theorem mo_block {N : Nat} (hz : 0 < N) (hg : (Tbl N).Gathers 0 S512x128) (g tbl : (Tbl N).Idx → Elt F .f32) (hgt : ∀ j, g j = tbl j)
    (idx : S512.Idx → Elt F .i32) (hn : S512.numel = S512x128.size hg.axis') (hin : ∀ x, (idx x).toNat < (Tbl N).size hg.axis)
    (fi : S49152.Idx → Elt F .i32) (third : Fin 3)
    (emb : S512.Idx → S49152.Idx) (hidx : ∀ x, idx x = fi (emb x))
    (hemb : ∀ x, ((emb x) 0).val = 16384 * third.val + (1024 * (L 1).val + 512 * (L 0).val) + (x 0).val)
    (FR : Buf (Elt F) ((V d (cV L) (jV L)).loc cc0_scratch1)) (x : S512x128.Idx) :
    (rV).view.read (Elt F) (View.write (Elt F) (rV).view FR (SparseCore.gatherPayload hg g (SparseCore.rows idx hn hin)) Finset.univ) x
      = (moRowK L).view.read (Elt F) (gatherOf hz tbl fi third) x := by
  rw [read_rV_write d L]
  refine (payload_eq hz hg g tbl hgt idx hn hin fi third _ emb hidx hemb x ((moRowK L).view.emb x) (mo_emb0 L x) (mo_emb1 L x)).trans ?_
  exact ((View.read_apply _ _).trans (cast_eq _ _)).symm

omit [CountersIn UU] in
theorem co_emb0 (x : S512x128.Idx) : (((coRowK L).view.emb x) 0).val = 1024 * (L 1).val + 512 * (L 0).val + (x 0).val := by
  show (k0_off2 L) 0 + 1 * (x 0).val = _
  rw [k0_off2_eq]; simp
omit [CountersIn UU] in
theorem co_emb1 (x : S512x128.Idx) : (((coRowK L).view.emb x) 1).val = (x 1).val := by
  show (k0_off2 L) 1 + 1 * (x 1).val = _
  rw [k0_off2_eq]; simp

omit [CountersIn UU] in
/-- What the row scratch holds after a gather, copied out to the task's block, reads as the gathered array on the block. -/
theorem co_block {N : Nat} (hz : 0 < N) (hg : (Tbl N).Gathers 0 S512x128) (g tbl : (Tbl N).Idx → Elt F .f32) (hgt : ∀ j, g j = tbl j)
    (idx : S512.Idx → Elt F .i32) (hn : S512.numel = S512x128.size hg.axis') (hin : ∀ x, (idx x).toNat < (Tbl N).size hg.axis)
    (fi : S49152.Idx → Elt F .i32) (third : Fin 3)
    (emb : S512.Idx → S49152.Idx) (hidx : ∀ x, idx x = fi (emb x))
    (hemb : ∀ x, ((emb x) 0).val = 16384 * third.val + (1024 * (L 1).val + 512 * (L 0).val) + (x 0).val)
    (FR : Buf (Elt F) ((V d (cV L) (jV L)).loc cc0_scratch1)) (x : S512x128.Idx) :
    (rV).view.read (Elt F) (View.write (Elt F) (rV).view FR (SparseCore.gatherPayload hg g (SparseCore.rows idx hn hin)) Finset.univ) x
      = (coRowK L).view.read (Elt F) (gatherOf hz tbl fi third) x := by
  rw [read_rV_write d L]
  refine (payload_eq hz hg g tbl hgt idx hn hin fi third _ emb hidx hemb x ((coRowK L).view.emb x) (co_emb0 L x) (co_emb1 L x)).trans ?_
  exact ((View.read_apply _ _).trans (cast_eq _ _)).symm

end Reads

section TileVal
variable [FloatOps F] (d : Dev nD) (L : grid0.Coords)

/-- What a task holds when it is done: its read shares of the list and of the two tables, and its block of each
    result at the gathered array. -/
abbrev tileOperandsVal (qi qb qc : PosShare TreeShare) (fi : Buf (Elt F) (idxLoc d)) (fb : Buf (Elt F) (bigLoc d)) (fc : Buf (Elt F) (comboLoc d)) : sProp 𝕄 :=
  iprop((idxLoc d ↦{qi} fi) ∗ (bigLoc d ↦{qb} fb) ∗ (comboLoc d ↦{qc} fc)
    ∗ (uoLoc d ↦[(uoRowK L).view.set]{fullShare} uoOf d fi fb) ∗ (moLoc d ↦[(moRowK L).view.set]{fullShare} moOf d fi fb)
    ∗ (coLoc d ↦[(coRowK L).view.set]{fullShare} coOf d fi fc))

set_option maxHeartbeats 4000000 in
/-- The task's run, with what it leaves in its three blocks: the gathered arrays. -/
theorem tile_bodyVal [Infinite ℕ] [(countersEmb : UEmb Counters 𝕄).LandsIn (upEmb : UEmb _ 𝕄)] (hF : (K (F := F)).Facts)
    (qi qb qc : PosShare TreeShare) (fi : Buf (Elt F) (idxLoc d)) (fb : Buf (Elt F) (bigLoc d)) (fc : Buf (Elt F) (comboLoc d))
    (hpre : IdxOK d fi)
    (O : CellTallies nD τ sig (HIx 1)) (W : Waits sig (HIx 1)) (hO : ∀ g, O g none = 0) :
    iprop(levAts (K (F := F)).L (K (F := F)).lev ∗ emp
        ∗ tileOperands (UU := UU) d L qi qb qc fi fb fc
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L idxV (Memref.isWhole_whole _) bigV (Memref.isWhole_whole _) comboV (Memref.isWhole_whole _)
            uoV (Memref.isWhole_whole _) moV (Memref.isWhole_whole _) coV (Memref.isWhole_whole _)
            sV (Memref.isWhole_whole _) rV (Memref.isWhole_whole _) cc0_scratch2 cc0_scoped0 cc0_scoped1 cc0_scoped2 cc0_scoped3 cc0_scoped4 cc0_scoped5)
          fun _ => iprop(tileOperandsVal (UU := UU) d L qi qb qc fi fb fc
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold tileOperands
  iintro ⟨#Hlv, -, ⟨Hi, Hb, Hc, ⟨%fu, Hu⟩, ⟨%fm, Hm⟩, ⟨%fco, Hco⟩⟩, ⟨⟨%fs, Hs⟩, ⟨%fr, Hr⟩, Hbufs⟩, ⟨⟨Hsem, HsA, HsB, HsC, HsD, HsE, HsF⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (idxLoc d ↦{qi} fi : sProp 𝕄) = (idxV).view.loc (V d (cV L) (jV L)) ↦{qi} fi from rfl)) $$ Hi
  ihave Hb' := (Entails.of_eq (show (bigLoc d ↦{qb} fb : sProp 𝕄) = (bigV).view.loc (V d (cV L) (jV L)) ↦{qb} fb from rfl)) $$ Hb
  ihave Hc' := (Entails.of_eq (show (comboLoc d ↦{qc} fc : sProp 𝕄) = (comboV).view.loc (V d (cV L) (jV L)) ↦{qc} fc from rfl)) $$ Hc
  ihave Hu' := (Entails.of_eq (show (uoLoc d ↦[(uoRowK L).view.set]{fullShare} fu : sProp 𝕄) = (uoRowK L).view.loc (V d (cV L) (jV L)) ↦[(uoRowK L).view.set]{fullShare} fu from rfl)) $$ Hu
  ihave Hm' := (Entails.of_eq (show (moLoc d ↦[(moRowK L).view.set]{fullShare} fm : sProp 𝕄) = (moRowK L).view.loc (V d (cV L) (jV L)) ↦[(moRowK L).view.set]{fullShare} fm from rfl)) $$ Hm
  ihave Hco' := (Entails.of_eq (show (coLoc d ↦[(coRowK L).view.set]{fullShare} fco : sProp 𝕄) = (coRowK L).view.loc (V d (cV L) (jV L)) ↦[(coRowK L).view.set]{fullShare} fco from rfl)) $$ Hco
  ihave Hs' := (Entails.of_eq (show ((V d (cV L) (jV L)).loc cc0_scratch0 ↦{fullShare} fs : sProp 𝕄) = (sV).view.loc (V d (cV L) (jV L)) ↦{fullShare} fs from rfl)) $$ Hs
  ihave Hr' := (Entails.of_eq (show ((V d (cV L) (jV L)).loc cc0_scratch1 ↦{fullShare} fr : sProp 𝕄) = (rV).view.loc (V d (cV L) (jV L)) ↦{fullShare} fr from rfl)) $$ Hr
  have hN1 : ∀ h : S100000x128.Gathers 0 S512x128, ∑ j, ((rV).slice (S512x128.rowRect h.axis' j) (S512x128.stride_rowRect h.axis' j)).view.dmaCredit
      = (rV).view.dmaCredit := by decide
  have hN3 : ∀ h : S1024x128.Gathers 0 S512x128, ∑ j, ((rV).slice (S512x128.rowRect h.axis' j) (S512x128.stride_rowRect h.axis' j)).view.dmaCredit
      = (rV).view.dmaCredit := by decide
  sl_exec
  -- the first gather: rows of the wide table named by the first stretch of the list, then out to the first result
  ihave Hts := (pointsTo_split_subset (q := qb) (f := fb) (S := Finset.univ) (Finset.subset_univ ((bigV).slice (Rect.unit (s := S100000x128) ![0, 0] S100000x128.size inb_S100000x128_S100000x128_0_0) (fun _ => rfl)).view.set)).1 $$ Hb'
  icases Hts with ⟨Hts, Htr⟩
  ihave Hr'' := (Entails.of_eq (pts_rV_set (F := F) (UU := UU) d L _)) $$ Hr'
  ihave Hs'' := (Entails.of_eq (pts_sV_set (F := F) (UU := UU) d L _)) $$ Hs'
  iapply (SparseCore.wp_indirectGatherLocal countersEmb 𝒱₀ (V d (cV L) (jV L)) none (hg := gathers_S100000x128_S512x128) (default : HIx 1)
      (rV).view.dmaCredit (hN1 _) (by decide) (inb1 d L fi hpre _ _ rfl)) $$ [Hts Hr'' Hs'' Hsem]
  · isplitl [Hts]; · iexact Hts
    isplitl [Hr'']; · iexact Hr''
    isplitl [Hs'']; · iexact Hs''
    iexact Hsem
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, Hsem, HO⟩
  ihave Hb' := (pointsTo_split_subset (q := qb) (f := fb) (S := Finset.univ) (Finset.subset_univ ((bigV).slice (Rect.unit (s := S100000x128) ![0, 0] S100000x128.size inb_S100000x128_S100000x128_0_0) (fun _ => rfl)).view.set)).2 $$ [Hts Htr]; · isplitl [Hts] <;> iassumption
  ihave Hr' := (Entails.of_eq (pts_rV_set (F := F) (UU := UU) d L _).symm) $$ Hr'
  ihave Hs' := (Entails.of_eq (pts_sV_set (F := F) (UU := UU) d L _).symm) $$ Hs'
  sl_exec
  -- the second gather: rows of the wide table named by the second stretch, then out to the second result
  ihave Hts := (pointsTo_split_subset (q := qb) (f := fb) (S := Finset.univ) (Finset.subset_univ ((bigV).slice (Rect.unit (s := S100000x128) ![0, 0] S100000x128.size inb_S100000x128_S100000x128_0_0) (fun _ => rfl)).view.set)).1 $$ Hb'
  icases Hts with ⟨Hts, Htr⟩
  ihave Hr'' := (Entails.of_eq (pts_rV_set (F := F) (UU := UU) d L _)) $$ Hr'
  ihave Hs'' := (Entails.of_eq (pts_sV_set (F := F) (UU := UU) d L _)) $$ Hs'
  iapply (SparseCore.wp_indirectGatherLocal countersEmb 𝒱₀ (V d (cV L) (jV L)) none (hg := gathers_S100000x128_S512x128) (default : HIx 1)
      (rV).view.dmaCredit (hN1 _) (by decide) (inb2 d L fi hpre _ _ rfl)) $$ [Hts Hr'' Hs'' Hsem]
  · isplitl [Hts]; · iexact Hts
    isplitl [Hr'']; · iexact Hr''
    isplitl [Hs'']; · iexact Hs''
    iexact Hsem
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, Hsem, HO⟩
  ihave Hb' := (pointsTo_split_subset (q := qb) (f := fb) (S := Finset.univ) (Finset.subset_univ ((bigV).slice (Rect.unit (s := S100000x128) ![0, 0] S100000x128.size inb_S100000x128_S100000x128_0_0) (fun _ => rfl)).view.set)).2 $$ [Hts Htr]; · isplitl [Hts] <;> iassumption
  ihave Hr' := (Entails.of_eq (pts_rV_set (F := F) (UU := UU) d L _).symm) $$ Hr'
  ihave Hs' := (Entails.of_eq (pts_sV_set (F := F) (UU := UU) d L _).symm) $$ Hs'
  sl_exec
  -- the third gather: rows of the small table named by the third stretch, then out to the third result
  ihave Hts := (pointsTo_split_subset (q := qc) (f := fc) (S := Finset.univ) (Finset.subset_univ ((comboV).slice (Rect.unit (s := S1024x128) ![0, 0] S1024x128.size inb_S1024x128_S1024x128_0_0) (fun _ => rfl)).view.set)).1 $$ Hc'
  icases Hts with ⟨Hts, Htr⟩
  ihave Hr'' := (Entails.of_eq (pts_rV_set (F := F) (UU := UU) d L _)) $$ Hr'
  ihave Hs'' := (Entails.of_eq (pts_sV_set (F := F) (UU := UU) d L _)) $$ Hs'
  iapply (SparseCore.wp_indirectGatherLocal countersEmb 𝒱₀ (V d (cV L) (jV L)) none (hg := gathers_S1024x128_S512x128) (default : HIx 1)
      (rV).view.dmaCredit (hN3 _) (by decide) (inb3 d L fi hpre _ _ rfl)) $$ [Hts Hr'' Hs'' Hsem]
  · isplitl [Hts]; · iexact Hts
    isplitl [Hr'']; · iexact Hr''
    isplitl [Hs'']; · iexact Hs''
    iexact Hsem
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, Hsem, HO⟩
  ihave Hc' := (pointsTo_split_subset (q := qc) (f := fc) (S := Finset.univ) (Finset.subset_univ ((comboV).slice (Rect.unit (s := S1024x128) ![0, 0] S1024x128.size inb_S1024x128_S1024x128_0_0) (fun _ => rfl)).view.set)).2 $$ [Hts Htr]; · isplitl [Hts] <;> iassumption
  ihave Hr' := (Entails.of_eq (pts_rV_set (F := F) (UU := UU) d L _).symm) $$ Hr'
  ihave Hs' := (Entails.of_eq (pts_sV_set (F := F) (UU := UU) d L _).symm) $$ Hs'
  sl_exec
  -- what the three copies out left in the blocks, read against the whole gathered arrays
  have hU : ∀ i ∈ (uoRowK L).view.set,
      ((uoRowK L).view.writes (Elt F) fu [⟨Rect.whole S512x128, tile_bodyVal.sl.dma0_1 d L fi fb hpre fs fr⟩]) i = gatherOf pos100000 fb fi 0 i := by
    refine writes_whole_eq (uoRowK L).view fu (gatherOf pos100000 fb fi 0) _ fun x => ?_
    unfold tile_bodyVal.sl.dma0_1
    refine uo_block d L pos100000 gathers_S100000x128_S512x128 _ fb (read_big d fb) _ _ _ fi 0 (fun x => (idxRowK1 L).view.emb x) ?_ (hemb1 L) _ x
    intro x'
    exact read_fetched d L _ _ fi _ _ rfl x'
  have hM : ∀ i ∈ (moRowK L).view.set,
      ((moRowK L).view.writes (Elt F) fm [⟨Rect.whole S512x128, tile_bodyVal.sl.dma0_3 d L fi fb hpre fs fr⟩]) i = gatherOf pos100000 fb fi 1 i := by
    refine writes_whole_eq (moRowK L).view fm (gatherOf pos100000 fb fi 1) _ fun x => ?_
    unfold tile_bodyVal.sl.dma0_3
    refine mo_block d L pos100000 gathers_S100000x128_S512x128 _ fb (read_big d fb) _ _ _ fi 1 (fun x => (idxRowK2 L).view.emb x) ?_ (hemb2 L) _ x
    intro x'
    exact read_fetched d L _ _ fi _ _ rfl x'
  have hC : ∀ i ∈ (coRowK L).view.set,
      ((coRowK L).view.writes (Elt F) fco [⟨Rect.whole S512x128, tile_bodyVal.sl.dma0_5 d L fi fb fc hpre fs fr⟩]) i = gatherOf pos1024 fc fi 2 i := by
    refine writes_whole_eq (coRowK L).view fco (gatherOf pos1024 fc fi 2) _ fun x => ?_
    unfold tile_bodyVal.sl.dma0_5
    refine co_block d L pos1024 gathers_S1024x128_S512x128 _ fc (read_combo d fc) _ _ _ fi 2 (fun x => (idxRowK3 L).view.emb x) ?_ (hemb3 L) _ x
    intro x'
    exact read_fetched d L _ _ fi _ _ rfl x'
  ihave Hu'' := (Entails.of_eq (pointsTo_congr (ℓ := uoLoc d) (q := fullShare) hU)) $$ Hu'
  ihave Hm'' := (Entails.of_eq (pointsTo_congr (ℓ := moLoc d) (q := fullShare) hM)) $$ Hm'
  ihave Hco'' := (Entails.of_eq (pointsTo_congr (ℓ := coLoc d) (q := fullShare) hC)) $$ Hco'
  sl_step
  isplitl [Hi' Hb' Hc' Hu'' Hm'' Hco'']
  · isplitl [Hi']; · iexact Hi'
    isplitl [Hb']; · iexact Hb'
    isplitl [Hc']; · iexact Hc'
    isplitl [Hu'']; · iexact Hu''
    isplitl [Hm'']; · iexact Hm''
    iexact Hco''
  isplitl [Hs' Hr' Hbufs]
  · isplitl [Hs']; · iexists _; iexact Hs'
    isplitl [Hr']; · iexists _; iexact Hr'
    iexact Hbufs
  isplitl [Hsem HsA HsB HsC HsD HsE HsF Hsems]
  · isplitl [Hsem HsA HsB HsC HsD HsE HsF]
    · isplitl [Hsem]; · iexact Hsem
      isplitl [HsA]; · iexact HsA
      isplitl [HsB]; · iexact HsB
      isplitl [HsC]; · iexact HsC
      isplitl [HsD]; · iexact HsD
      isplitl [HsE]; · iexact HsE
      iexact HsF
    iexact Hsems
  iexists _; isplitr
  swap; · iexact HO
  ipureintro; intro p hp
  repeat (rcases Finset.mem_insert.mp hp with hp | hp; · exact .inr (hp ▸ rfl))
  exact .inl hp

end TileVal

end Cert.Proof.KernelIdealSc
end
-- ==== Proof.GatherValLaunchIdeal.lean ====
import proofs.«214388_g48842368090541_cont_8to1c4_19_37_alg».proof.Proof.GatherValTaskIdeal
import proofs.«214388_g48842368090541_cont_8to1c4_19_37_alg».proof.Proof.GatherSplitIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 1) (Elt F) ℕ UU ℕ

local notation "idxV" => (Memref.whole Cert.KernelIdeal.main_v6_scv : Memref Cert.KernelIdeal.sig Kind.scVector Space.hbm Cert.KernelIdeal.S49152 EltTy.i32)
local notation "bigV" => (Memref.whole Cert.KernelIdeal.main_v7_scv : Memref Cert.KernelIdeal.sig Kind.scVector Space.hbm Cert.KernelIdeal.S100000x128 EltTy.f32)
local notation "comboV" => (Memref.whole Cert.KernelIdeal.main_v35_scv : Memref Cert.KernelIdeal.sig Kind.scVector Space.hbm Cert.KernelIdeal.S1024x128 EltTy.f32)
local notation "uoV" => (Memref.whole Cert.KernelIdeal.main_v36_0_scv : Memref Cert.KernelIdeal.sig Kind.scVector Space.hbm Cert.KernelIdeal.S16384x128 EltTy.f32)
local notation "moV" => (Memref.whole Cert.KernelIdeal.main_v36_1_scv : Memref Cert.KernelIdeal.sig Kind.scVector Space.hbm Cert.KernelIdeal.S16384x128 EltTy.f32)
local notation "coV" => (Memref.whole Cert.KernelIdeal.main_v36_2_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

/-! ## What the call's handshakes carry, with the values

A task is handed its operands as before (its blocks of the three results at whatever they hold); what it hands
back has the blocks at the gathered arrays. A SparseCore's start carries its sixteen tasks' operands at once,
its end their results. -/

section PayVal
variable [FloatOps F]
variable (fi : (d : Dev nD) → Buf (Elt F) (idxLoc d)) (fb : (d : Dev nD) → Buf (Elt F) (bigLoc d)) (fc : (d : Dev nD) → Buf (Elt F) (comboLoc d))

/-- What task (c, i) hands back: its read shares, and its blocks at the gathered arrays. -/
abbrev tdOfVal (d : Dev nD) (c : Fin ((K (F := F)).nCore 0)) (i : Fin ((K (F := F)).nSub 0)) : sProp 𝕄 :=
  tileOperandsVal (UU := UU) d (Lof c i) (shr c i) (shr c i) (shr c i) (fi d) (fb d) (fc d)

def PVal : (K (F := F)).Pay (nD := nD) (Val := Elt F) (Name := ℕ) (U := UU) where
  st := fun q d c => match q with | 0 => bigSep Finset.univ fun i => goOf (UU := UU) fi fb fc d c i
  dn := fun q d c => match q with | 0 => bigSep Finset.univ fun i => tdOfVal (UU := UU) fi fb fc d c i
  go := fun q d c i => match q with | 0 => goOf (UU := UU) fi fb fc d c i
  td := fun q d c i => match q with | 0 => tdOfVal (UU := UU) fi fb fc d c i
  x := fun _ _ => iprop(emp)

set_option synthInstance.maxHeartbeats 2000000 in
set_option maxHeartbeats 2000000 in
instance PVal_storable : (PVal (UU := UU) fi fb fc).IsStorable where
  st q d c := match q with
    | 0 => (inferInstance : BI.Storable (upEmb : UEmb _ 𝕄) (bigSep Finset.univ fun i => goOf (UU := UU) fi fb fc d c i))
  dn q d c := match q with
    | 0 => (inferInstance : BI.Storable (upEmb : UEmb _ 𝕄) (bigSep Finset.univ fun i => tdOfVal (UU := UU) fi fb fc d c i))
  go q d c i := match q with
    | 0 => (inferInstance : BI.Storable (upEmb : UEmb _ 𝕄) (goOf (UU := UU) fi fb fc d c i))
  td q d c i := match q with
    | 0 => (inferInstance : BI.Storable (upEmb : UEmb _ 𝕄) (tdOfVal (UU := UU) fi fb fc d c i))

/-- A SparseCore's operands are its tasks' operands, and its results theirs. -/
theorem vecSplitVal : (K (F := F)).VecSplit' (PVal (UU := UU) fi fb fc) 0 := by
  intro d c
  show (bigSep Finset.univ fun i => goOf (UU := UU) fi fb fc d c i) ⊢ |={Set.univ}=> iprop(
      (bigSep Finset.univ fun i => goOf (UU := UU) fi fb fc d c i)
      ∗ ((bigSep Finset.univ fun i => tdOfVal (UU := UU) fi fb fc d c i) -∗ (bigSep Finset.univ fun i => tdOfVal (UU := UU) fi fb fc d c i)))
  iintro H; imodintro
  isplitl [H]; · iexact H
  iintro H; iexact H

end PayVal

/-! ## The task's obligation, with the values -/

section OblVal
variable [FloatOps F]
variable (fi : (d : Dev nD) → Buf (Elt F) (idxLoc d)) (fb : (d : Dev nD) → Buf (Elt F) (bigLoc d)) (fc : (d : Dev nD) → Buf (Elt F) (comboLoc d))

set_option maxRecDepth 16384 in
theorem tileOblVal [(countersEmb : UEmb Counters 𝕄).LandsIn (upEmb : UEmb _ 𝕄)] (hF : (K (F := F)).Facts) (hpre : ∀ d, IdxOK d (fi d)) :
    (K (F := F)).TileObl (D (F := F)) 𝒱 (PVal (UU := UU) fi fb fc) v₀ 0 := by
  intro d c i O W hO _ _
  simp only [show (PVal (UU := UU) fi fb fc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_bodyVal d (coordsV ⟨_, hci.1⟩ ⟨_, hci.2⟩) hF (shr c i) (shr c i) (shr c i) (fi d) (fb d) (fc d) (hpre d) O W hO).trans (wp_mono frame _ _ fun _ => obl_post)

end OblVal

/-! ## The thirty-two blocks, with the values

Every task's block of a result holds the one whole gathered array, restricted to the block: the blocks are pairwise
disjoint and cover the result, so together they are the result held whole at that array. -/

section TasksVal
variable [FloatOps F]
variable (fi : (d : Dev nD) → Buf (Elt F) (idxLoc d)) (fb : (d : Dev nD) → Buf (Elt F) (bigLoc d)) (fc : (d : Dev nD) → Buf (Elt F) (comboLoc d))

/-- What the call gives back to the TensorCore on one device: the index list and the two tables whole, and the three
    results whole at the gathered arrays. -/
abbrev wholeOperandsVal (d : Dev nD) : sProp 𝕄 :=
  iprop((idxLoc d ↦{fullShare} fi d) ∗ (bigLoc d ↦{fullShare} fb d) ∗ (comboLoc d ↦{fullShare} fc d)
    ∗ (uoLoc d ↦{fullShare} uoOf d (fi d) (fb d)) ∗ (moLoc d ↦{fullShare} moOf d (fi d) (fb d)) ∗ (coLoc d ↦{fullShare} coOf d (fi d) (fc d)))

omit [CountersIn UU] in
theorem tasksVal_eq (d : Dev nD) :
    (bigSep Finset.univ fun ci : TaskIx (F := F) => tdOfVal (UU := UU) fi fb fc d ci.1 ci.2)
      = iprop((bigSep Finset.univ fun ci : TaskIx (F := F) => idxLoc d ↦{shr ci.1 ci.2} fi d)
        ∗ (bigSep Finset.univ fun ci : TaskIx (F := F) => bigLoc d ↦{shr ci.1 ci.2} fb d)
        ∗ (bigSep Finset.univ fun ci : TaskIx (F := F) => comboLoc d ↦{shr ci.1 ci.2} fc d)
        ∗ (bigSep Finset.univ fun ci : TaskIx (F := F) => uoLoc d ↦[rowSet (Lci ci)]{fullShare} uoOf d (fi d) (fb d))
        ∗ (bigSep Finset.univ fun ci : TaskIx (F := F) => moLoc d ↦[rowSet (Lci ci)]{fullShare} moOf d (fi d) (fb d))
        ∗ (bigSep Finset.univ fun ci : TaskIx (F := F) => coLoc d ↦[rowSet (Lci ci)]{fullShare} coOf d (fi d) (fc d))) := by
  rw [← bigSep_sep', ← bigSep_sep', ← bigSep_sep', ← bigSep_sep', ← bigSep_sep']
  refine bigSep_congr fun ci _ => ?_
  unfold tdOfVal tileOperandsVal
  rw [rowSet_mo, rowSet_co]

omit [CountersIn UU] in
theorem stVal_eq (d : Dev nD) :
    (bigSep Finset.univ fun c : Fin ((K (F := F)).nCore 0) => (PVal (UU := UU) fi fb fc).st 0 d c)
      = bigSep Finset.univ fun ci : TaskIx (F := F) => goOf (UU := UU) fi fb fc d ci.1 ci.2 :=
  (bigSep_univ_prod (fun ci : TaskIx (F := F) => goOf (UU := UU) fi fb fc d ci.1 ci.2)).symm
omit [CountersIn UU] in
theorem dnVal_eq (d : Dev nD) :
    (bigSep Finset.univ fun c : Fin ((K (F := F)).nCore 0) => (PVal (UU := UU) fi fb fc).dn 0 d c)
      = bigSep Finset.univ fun ci : TaskIx (F := F) => tdOfVal (UU := UU) fi fb fc d ci.1 ci.2 :=
  (bigSep_univ_prod (fun ci : TaskIx (F := F) => tdOfVal (UU := UU) fi fb fc d ci.1 ci.2)).symm

omit [CountersIn UU] in
/-- The whole operands are the tasks' operands (the results at whatever they hold), -/
theorem toTasksVal (d : Dev nD) :
    wholeOperands (UU := UU) fi fb fc d ⊢ bigSep Finset.univ fun c : Fin ((K (F := F)).nCore 0) => (PVal (UU := UU) fi fb fc).st 0 d c :=
  toTasks (UU := UU) fi fb fc d

omit [CountersIn UU] in
/-- and what the tasks hand back is the operands whole again, each result whole at its gathered array. -/
theorem fromTasksVal (d : Dev nD) :
    (bigSep Finset.univ fun c : Fin ((K (F := F)).nCore 0) => (PVal (UU := UU) fi fb fc).dn 0 d c) ⊢ wholeOperandsVal (UU := UU) fi fb fc d := by
  rw [dnVal_eq, tasksVal_eq, ← shares_eq, ← shares_eq, ← shares_eq,
    ← uo_blocks d (uoOf d (fi d) (fb d)), ← mo_blocks d (moOf d (fi d) (fb d)), ← co_blocks d (coOf d (fi d) (fc d))]

end TasksVal

end Cert.Proof.KernelIdealSc
end
-- ==== Proof.GatherValCallIdeal.lean ====
import proofs.«214388_g48842368090541_cont_8to1c4_19_37_alg».proof.Proof.GatherValLaunchIdeal
import proofs.«214388_g48842368090541_cont_8to1c4_19_37_alg».proof.Proof.ScCallIdeal
import proofs.«214388_g48842368090541_cont_8to1c4_19_37_alg».proof.Proof.LaunchElemIdeal

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The SparseCore call, with the values -/

section MainVal
variable [FloatOps F] [∀ e, Nonempty (Elt F e)]
variable (m : (ℓ : Loc nD τ sig) → Buf (Elt F) ℓ) (ρ : Dev nD → PrngReg)

open Cert.KernelIdeal.MainShape

abbrev PPVal : (K (F := F)).Pay (nD := nD) (Val := Elt F) (Name := ℕ) (U := UU) := PVal (UU := UU) (fiOf m) (fbOf m) (fcOf m)

/-- The SparseCore call on the TensorCore of d: it takes the index list, the two tables and the three results out of the
    unscoped buffers, and brings them back, the results at the gathered arrays. -/
theorem sc_stepVal (κ : GSem nD τ sig → ℕ) (d : Dev nD) (Φ : PUnit → sProp 𝕄) :
    iprop((K (F := F)).ctx EH (PPVal m) κ ∗ (K (F := F)).tcSt EH d 0 ∗ StableHlo.held (T d) (Pipeline.ucRefs τ sig) (VA m d)
        ∗ (((K (F := F)).tcSt EH d 1 ∗ StableHlo.held (T d) (Pipeline.ucRefs τ sig)
              (scAfter (VA m d) d (uoOf d (fiOf m d) (fbOf m d)) (moOf d (fiOf m d) (fbOf m d)) (coOf d (fiOf m d) (fcOf m d)))) -∗ Φ ⟨⟩))
      ⊢ wp frame (wpE ((K (F := F)).defs (D (F := F))) 𝒱 (T d) none) Set.univ ((K (F := F)).run d 0) Φ := by
  iintro ⟨#Hctx, Hst, Hh, Hk⟩
  ihave Hs := (Entails.of_eq (StableHlo.held_sub_split (T d) scRefs_sub (VA m d))) $$ Hh
  icases Hs with ⟨H6, Hrest⟩
  ihave H6' := (Entails.of_eq (held_sc d (VA m d))) $$ H6
  icases H6' with ⟨Hi, Hb, Hc, Hu, Hm, Hco⟩
  iapply ((K (F := F)).wp_run (D (F := F)) 𝒱 (EH := EH) (P := PPVal m) κ d 0) $$ [Hst Hi Hb Hc Hu Hm Hco Hrest Hk]
  isplitr; · iexact Hctx
  isplitl [Hst]; · iexact Hst
  isplitl [Hi Hb Hc Hu Hm Hco]
  · iapply (toTasksVal (UU := UU) (fiOf m) (fbOf m) (fcOf m) d)
    isplitl [Hi]; · iexact Hi
    isplitl [Hb]; · iexact Hb
    isplitl [Hc]; · iexact Hc
    isplitl [Hu]; · iexists _; iexact Hu
    isplitl [Hm]; · iexists _; iexact Hm
    iexists _; iexact Hco
  iintro ⟨Hst, Hdn⟩
  ihave Hw := (fromTasksVal (UU := UU) (fiOf m) (fbOf m) (fcOf m) d) $$ Hdn
  icases Hw with ⟨Hi, Hb, Hc, Hu, Hm, Hco⟩
  iapply Hk
  isplitl [Hst]; · iexact Hst
  iapply (Entails.of_eq (StableHlo.held_sub_split (T d) scRefs_sub
    (scAfter (VA m d) d (uoOf d (fiOf m d) (fbOf m d)) (moOf d (fiOf m d) (fbOf m d)) (coOf d (fiOf m d) (fcOf m d)))).symm)
  isplitl [Hi Hb Hc Hu Hm Hco]
  · iapply (Entails.of_eq (held_sc d (scAfter (VA m d) d (uoOf d (fiOf m d) (fbOf m d)) (moOf d (fiOf m d) (fbOf m d)) (coOf d (fiOf m d) (fcOf m d)))).symm)
    rw [scAfter_uo, scAfter_mo, scAfter_co, scAfter_of_ne _ _ _ _ _ (Proc.devRef .tc main_v6) (by decide) (by decide) (by decide),
      scAfter_of_ne _ _ _ _ _ (Proc.devRef .tc main_v7) (by decide) (by decide) (by decide),
      scAfter_of_ne _ _ _ _ _ (Proc.devRef .tc main_v35) (by decide) (by decide) (by decide)]
    isplitl [Hi]; · iexact Hi
    isplitl [Hb]; · iexact Hb
    isplitl [Hc]; · iexact Hc
    isplitl [Hu]; · iexact Hu
    isplitl [Hm]; · iexact Hm
    iexact Hco
  · iapply (Entails.of_eq (StableHlo.held_congr (T d) (fun b hb => (scAfter_of_ne (VA m d) d
      (uoOf d (fiOf m d) (fbOf m d)) (moOf d (fiOf m d) (fbOf m d)) (coOf d (fiOf m d) (fcOf m d)) b
      (fun e => (Finset.mem_sdiff.mp hb).2 (e ▸ (by decide : Proc.devRef .tc main_v36_0 ∈ (scRefs : Finset (DevRef τ sig)))))
      (fun e => (Finset.mem_sdiff.mp hb).2 (e ▸ (by decide : Proc.devRef .tc main_v36_1 ∈ (scRefs : Finset (DevRef τ sig)))))
      (fun e => (Finset.mem_sdiff.mp hb).2 (e ▸ (by decide : Proc.devRef .tc main_v36_2 ∈ (scRefs : Finset (DevRef τ sig)))))).symm)))
    iexact Hrest

/-- The payload holds none of the sequencers' cells at the launch. -/
theorem PPVal_held : (PPVal (F := F) m).held = ∅ := rfl

/-- The tasks' split, the sequencer's buffers set aside. -/
theorem vecSplitVal' : (K (F := F)).VecSplit (PPVal (F := F) m) 0 :=
  SparseCore.Cfg.VecSplit.of_plain (vecSplitVal (UU := UU) (fiOf m) (fbOf m) (fcOf m))

/-- From the launch element, for the payload that names the gathered arrays: the handshakes' element as the SparseCore
    launch wants it, every device's share of the pipelines' ghost state, and the payload's per-thread family, which is
    emp. The element splits along its two products; the pipelines' half funds the cells' ghost state and the duty
    tokens, which are then regrouped per device. -/
theorem hu₀Val : iprop(ownU (u₀ (F := F)) ∗ (PVal (UU := UU) (fiOf m) (fbOf m) (fcOf m)).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PVal (UU := UU) (fiOf m) (fbOf m) (fcOf m)).x q thr) := by
  unfold u₀
  iintro ⟨Hu, -, -⟩
  ihave H := (ownU_pair (initOf (K (F := F)).hsCells (K (F := F)).hsToks)
    (initOf (Pipeline.cells (Pipeline.pin (pcfgs (F := F)) adm0) hinj) (Pipeline.launchToks (Pipeline.pin (pcfgs (F := F)) adm0) hinj), (1 : Counters))) $$ Hu
  icases H with ⟨HH, HR⟩
  ihave H2 := (own_pair_emb embR
    (initOf (Pipeline.cells (Pipeline.pin (pcfgs (F := F)) adm0) hinj) (Pipeline.launchToks (Pipeline.pin (pcfgs (F := F)) adm0) hinj)) (1 : Counters)) $$ HR
  icases H2 with ⟨HP, -⟩
  imod (Pipeline.fund_ghost (Pipeline.pin (pcfgs (F := F)) adm0) EP hinj) $$ HP with ⟨Hg, Ht⟩
  imodintro
  isplitl [HH]; · iexact HH
  isplitl [Hg Ht]
  · unfold G
    simp only [bigSep_sep']
    isplitl [Hg]; · iexact Hg
    iexact Ht
  rw [show (bigSep Finset.univ fun thr : Thread nD τ => bigSep Finset.univ fun q : Fin 1 => (PVal (UU := UU) (fiOf (F := F) m) (fbOf m) (fcOf m)).x q thr)
      = bigSep Finset.univ fun _ => iprop(emp) from bigSep_congr fun _ _ => bigSep_univ_of_subsingleton (0 : Fin 1), bigSep_emp' (F := F)]
  iempintro

end MainVal

end Cert.Proof.KernelIdealSc
end
-- ==== Proof.RegionValK1Ideal.lean ====
import proofs.«214388_g48842368090541_cont_8to1c4_19_37_alg».proof.Proof.BodyRunK1Ideal
import proofs.«214388_g48842368090541_cont_8to1c4_19_37_alg».proof.Proof.Gen.KernelIdeal.Launch
import proofs.«214388_g48842368090541_cont_8to1c4_19_37_alg».proof.Proof.Gen.KernelIdeal.Skeleton
import proofs.«214388_g48842368090541_cont_8to1c4_19_37_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-- The zero offset of a two-axis rectangle, as a constant function. -/
theorem hz2k1 : (![0, 0] : Fin 2 → Nat) = fun _ => 0 := funext fun a => by fin_cases a <;> rfl

/-- What the first body leaves in its per-point output block, from the blocks it reads: the two gathered halves (the
    low 64 columns of `x1`, the high 64 columns of `x2`), the third gathered tile `x3`, the genre block `x4`, rating
    and implicit columns `x5 x6`, and the weight operands `x7 … x12` — the body's arithmetic as one pure term. -/
def x16of (x1 x2 x3 : Vec F S1024x128 .f32) (x4 : Vec F S1024x19 .f32) (x5 x6 : Vec F S1024x1 .f32) (x7 : Vec F S64x1024 .bf16) (x8 : Vec F S128x1024 .bf16) (x9 : Vec F S1024x128 .bf16) (x10 : Vec F S19x128 .f32) (x11 x12 : Vec F S1x128 .f32) :=
  k1_pay1 (k1_pay7 x4 x10 x11) (k1_pay8 (View.ld x1 (Rect.unit (s := S1024x128) ![0, 0] S1024x64.size inb_S1024x128_S1024x64_0_0))) (k1_pay9 x4 x10 x11 (View.ld x1 (Rect.unit (s := S1024x128) ![0, 0] S1024x64.size inb_S1024x128_S1024x64_0_0)) x7 x8 x9 x12) (k1_pay11 x5) (k1_pay12 x5) (k1_pay13 x6) (Scalar.ofBits .f32 0x00000000#32) x3 (View.ld x2 (Rect.unit (s := S1024x128) ![0, 64] S1024x64.size inb_S1024x128_S1024x64_0_64))

/-- One accumulation step of the column sums: the accumulator `a` plus the column sums of the tile's product with
    the weight block `x13`. -/
def s1step (x1 x2 x3 : Vec F S1024x128 .f32) (x4 : Vec F S1024x19 .f32) (x5 x6 : Vec F S1024x1 .f32) (x7 : Vec F S64x1024 .bf16) (x8 : Vec F S128x1024 .bf16) (x9 : Vec F S1024x128 .bf16) (x10 : Vec F S19x128 .f32) (x11 x12 : Vec F S1x128 .f32) (x13 : Vec F S256x1024 .bf16) (a : Vec F S1x1024 .f32) :=
  k1_pay5 (k1_pay7 x4 x10 x11) (k1_pay8 (View.ld x1 (Rect.unit (s := S1024x128) ![0, 0] S1024x64.size inb_S1024x128_S1024x64_0_0))) (k1_pay9 x4 x10 x11 (View.ld x1 (Rect.unit (s := S1024x128) ![0, 0] S1024x64.size inb_S1024x128_S1024x64_0_0)) x7 x8 x9 x12) (k1_pay11 x5) (k1_pay12 x5) (k1_pay13 x6) (Scalar.ofBits .f32 0x00000000#32) x3 (View.ld x2 (Rect.unit (s := S1024x128) ![0, 64] S1024x64.size inb_S1024x128_S1024x64_0_64)) x13 a

/-- One accumulation step of the column sums of squares. -/
def q1step (x1 x2 x3 : Vec F S1024x128 .f32) (x4 : Vec F S1024x19 .f32) (x5 x6 : Vec F S1024x1 .f32) (x7 : Vec F S64x1024 .bf16) (x8 : Vec F S128x1024 .bf16) (x9 : Vec F S1024x128 .bf16) (x10 : Vec F S19x128 .f32) (x11 x12 : Vec F S1x128 .f32) (x13 : Vec F S256x1024 .bf16) (a : Vec F S1x1024 .f32) :=
  k1_pay6 (k1_pay7 x4 x10 x11) (k1_pay8 (View.ld x1 (Rect.unit (s := S1024x128) ![0, 0] S1024x64.size inb_S1024x128_S1024x64_0_0))) (k1_pay9 x4 x10 x11 (View.ld x1 (Rect.unit (s := S1024x128) ![0, 0] S1024x64.size inb_S1024x128_S1024x64_0_0)) x7 x8 x9 x12) (k1_pay11 x5) (k1_pay12 x5) (k1_pay13 x6) (Scalar.ofBits .f32 0x00000000#32) x3 (View.ld x2 (Rect.unit (s := S1024x128) ![0, 64] S1024x64.size inb_S1024x128_S1024x64_0_64)) x13 a

set_option maxHeartbeats 2000000 in
/-- The first body at the grid's first point (the reset taken), on whole staging memrefs — the thirteen inputs' at
    read contents, the three outputs' at anything — runs to the continuation holding the inputs' as they were, the
    per-point output's at `x16of` of the inputs' and the two accumulators' at one step over the zero word. -/
theorem sound_k1_A (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x19 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S64x1024 .bf16) (harg7 : arg7.IsWhole) (arg8 : Memref sig .tc .vmem S128x1024 .bf16) (harg8 : arg8.IsWhole) (arg9 : Memref sig .tc .vmem S1024x128 .bf16) (harg9 : arg9.IsWhole) (arg10 : Memref sig .tc .vmem S19x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S1024x256 .bf16) (harg14 : arg14.IsWhole) (arg15 : Memref sig .tc .vmem S1x1024 .f32) (harg15 : arg15.IsWhole) (arg16 : Memref sig .tc .vmem S1x1024 .f32) (harg16 : arg16.IsWhole) (hc : BodyRun.cond1_0 i)
    (x1 x2 x3 : Vec F S1024x128 .f32) (x4 : Vec F S1024x19 .f32) (x5 x6 : Vec F S1024x1 .f32) (x7 : Vec F S64x1024 .bf16) (x8 : Vec F S128x1024 .bf16) (x9 : Vec F S1024x128 .bf16) (x10 : Vec F S19x128 .f32) (x11 x12 : Vec F S1x128 .f32) (x13 : Vec F S256x1024 .bf16) :
    ∀ (E : Set Name) (Kp : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d)
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (x16of x1 x2 x3 x4 x5 x6 x7 x8 x9 x10 x11 x12) ∗ owns (c : Thread nD τ) arg15 fullShare (s1step x1 x2 x3 x4 x5 x6 x7 x8 x9 x10 x11 x12 x13 k1_pay3) ∗ owns (c : Thread nD τ) arg16 fullShare (q1step x1 x2 x3 x4 x5 x6 x7 x8 x9 x10 x11 x12 x13 k1_pay4)) -∗ Kp ⟨⟩))
        ⊢ wp frame (wpE (defs₀ (F := F)) Variants.none c none) E (cc1__k1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc1__k1_eq_skeleton]; unfold cc1__k1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
    subst hf1 hf2 hf3 hf4 hf5 hf6 hf7 hf8 hf9 hf10 hf11 hf12 hf13
    sl_exec (disch := first | exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists _; isplitr; swap; · iexact H14
      ipureintro
      sl_unfold_run_names
      rw [View.read_writes_eq_canon _ _ _ (by intro y; refine ⟨_, List.mem_cons.mpr (Or.inl rfl), ?_⟩; dsimp only; exact View.mem_set_unit_zero hz2k1 _ y), View.canon_unit_zero hz2k1]
      unfold x16of
      simp only [View.readAt_eq_ld, View.ld_unit_zero (S := S1024x128) hz2k1, View.ld_unit_zero (S := S1024x19) hz2k1, View.ld_unit_zero (S := S1024x1) hz2k1, View.ld_unit_zero (S := S64x1024) hz2k1, View.ld_unit_zero (S := S128x1024) hz2k1, View.ld_unit_zero (S := S19x128) hz2k1, View.ld_unit_zero (S := S1x128) hz2k1, View.ld_unit_zero (S := S256x1024) hz2k1, View.ld_unit_zero (S := S1024x256) hz2k1, View.ld_unit_zero (S := S1x1024) hz2k1]
    isplitl [H15]
    · iexists _; isplitr; swap; · iexact H15
      ipureintro
      sl_unfold_run_names
      rw [View.read_writes_eq_canon _ _ _ (by intro y; refine ⟨_, List.mem_cons.mpr (Or.inl rfl), ?_⟩; dsimp only; exact View.mem_set_unit_zero hz2k1 _ y), View.canon_cons_unit_zero hz2k1, View.readCov_unit_zero _ hz2k1]
      unfold s1step
      simp only [View.readAt_eq_ld, View.ld_unit_zero (S := S1024x128) hz2k1, View.ld_unit_zero (S := S1024x19) hz2k1, View.ld_unit_zero (S := S1024x1) hz2k1, View.ld_unit_zero (S := S64x1024) hz2k1, View.ld_unit_zero (S := S128x1024) hz2k1, View.ld_unit_zero (S := S19x128) hz2k1, View.ld_unit_zero (S := S1x128) hz2k1, View.ld_unit_zero (S := S256x1024) hz2k1, View.ld_unit_zero (S := S1024x256) hz2k1, View.ld_unit_zero (S := S1x1024) hz2k1]
    iexists _; isplitr; swap; · iexact H16
    ipureintro
    sl_unfold_run_names
    rw [View.read_writes_eq_canon _ _ _ (by intro y; refine ⟨_, List.mem_cons.mpr (Or.inl rfl), ?_⟩; dsimp only; exact View.mem_set_unit_zero hz2k1 _ y), View.canon_cons_unit_zero hz2k1, View.readCov_unit_zero _ hz2k1]
    unfold q1step
    simp only [View.readAt_eq_ld, View.ld_unit_zero (S := S1024x128) hz2k1, View.ld_unit_zero (S := S1024x19) hz2k1, View.ld_unit_zero (S := S1024x1) hz2k1, View.ld_unit_zero (S := S64x1024) hz2k1, View.ld_unit_zero (S := S128x1024) hz2k1, View.ld_unit_zero (S := S19x128) hz2k1, View.ld_unit_zero (S := S1x128) hz2k1, View.ld_unit_zero (S := S256x1024) hz2k1, View.ld_unit_zero (S := S1024x256) hz2k1, View.ld_unit_zero (S := S1x1024) hz2k1]

set_option maxHeartbeats 2000000 in
/-- The first body at a later point (the reset not taken): the accumulators' staging memrefs at read contents
    `a15 a16` are handed back at one step over those. -/
theorem sound_k1_B (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x19 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S64x1024 .bf16) (harg7 : arg7.IsWhole) (arg8 : Memref sig .tc .vmem S128x1024 .bf16) (harg8 : arg8.IsWhole) (arg9 : Memref sig .tc .vmem S1024x128 .bf16) (harg9 : arg9.IsWhole) (arg10 : Memref sig .tc .vmem S19x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x1024 .bf16) (harg13 : arg13.IsWhole) (arg14 : Memref sig .tc .vmem S1024x256 .bf16) (harg14 : arg14.IsWhole) (arg15 : Memref sig .tc .vmem S1x1024 .f32) (harg15 : arg15.IsWhole) (arg16 : Memref sig .tc .vmem S1x1024 .f32) (harg16 : arg16.IsWhole) (hc : ¬BodyRun.cond1_0 i)
    (x1 x2 x3 : Vec F S1024x128 .f32) (x4 : Vec F S1024x19 .f32) (x5 x6 : Vec F S1024x1 .f32) (x7 : Vec F S64x1024 .bf16) (x8 : Vec F S128x1024 .bf16) (x9 : Vec F S1024x128 .bf16) (x10 : Vec F S19x128 .f32) (x11 x12 : Vec F S1x128 .f32) (x13 : Vec F S256x1024 .bf16) (a15 a16 : Vec F S1x1024 .f32) :
    ∀ (E : Set Name) (Kp : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare a15 ∗ owns (c : Thread nD τ) arg16 fullShare a16
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (x16of x1 x2 x3 x4 x5 x6 x7 x8 x9 x10 x11 x12) ∗ owns (c : Thread nD τ) arg15 fullShare (s1step x1 x2 x3 x4 x5 x6 x7 x8 x9 x10 x11 x12 x13 a15) ∗ owns (c : Thread nD τ) arg16 fullShare (q1step x1 x2 x3 x4 x5 x6 x7 x8 x9 x10 x11 x12 x13 a16)) -∗ Kp ⟨⟩))
        ⊢ wp frame (wpE (defs₀ (F := F)) Variants.none c none) E (cc1__k1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc1__k1_eq_skeleton]; unfold cc1__k1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, Hk⟩
    subst hf1 hf2 hf3 hf4 hf5 hf6 hf7 hf8 hf9 hf10 hf11 hf12 hf13 hf15 hf16
    sl_exec (disch := first | exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists _; isplitr; swap; · iexact H14
      ipureintro
      sl_unfold_run_names
      rw [View.read_writes_eq_canon _ _ _ (by intro y; refine ⟨_, List.mem_cons.mpr (Or.inl rfl), ?_⟩; dsimp only; exact View.mem_set_unit_zero hz2k1 _ y), View.canon_unit_zero hz2k1]
      unfold x16of
      simp only [View.readAt_eq_ld, View.ld_unit_zero (S := S1024x128) hz2k1, View.ld_unit_zero (S := S1024x19) hz2k1, View.ld_unit_zero (S := S1024x1) hz2k1, View.ld_unit_zero (S := S64x1024) hz2k1, View.ld_unit_zero (S := S128x1024) hz2k1, View.ld_unit_zero (S := S19x128) hz2k1, View.ld_unit_zero (S := S1x128) hz2k1, View.ld_unit_zero (S := S256x1024) hz2k1, View.ld_unit_zero (S := S1024x256) hz2k1, View.ld_unit_zero (S := S1x1024) hz2k1]
    isplitl [H15]
    · iexists _; isplitr; swap; · iexact H15
      ipureintro
      sl_unfold_run_names
      rw [View.read_writes_eq_canon _ _ _ (by intro y; refine ⟨_, List.mem_cons.mpr (Or.inl rfl), ?_⟩; dsimp only; exact View.mem_set_unit_zero hz2k1 _ y), View.canon_unit_zero hz2k1]
      unfold s1step
      simp only [View.readAt_eq_ld, View.ld_unit_zero (S := S1024x128) hz2k1, View.ld_unit_zero (S := S1024x19) hz2k1, View.ld_unit_zero (S := S1024x1) hz2k1, View.ld_unit_zero (S := S64x1024) hz2k1, View.ld_unit_zero (S := S128x1024) hz2k1, View.ld_unit_zero (S := S19x128) hz2k1, View.ld_unit_zero (S := S1x128) hz2k1, View.ld_unit_zero (S := S256x1024) hz2k1, View.ld_unit_zero (S := S1024x256) hz2k1, View.ld_unit_zero (S := S1x1024) hz2k1]
    iexists _; isplitr; swap; · iexact H16
    ipureintro
    sl_unfold_run_names
    rw [View.read_writes_eq_canon _ _ _ (by intro y; refine ⟨_, List.mem_cons.mpr (Or.inl rfl), ?_⟩; dsimp only; exact View.mem_set_unit_zero hz2k1 _ y), View.canon_unit_zero hz2k1]
    unfold q1step
    simp only [View.readAt_eq_ld, View.ld_unit_zero (S := S1024x128) hz2k1, View.ld_unit_zero (S := S1024x19) hz2k1, View.ld_unit_zero (S := S1024x1) hz2k1, View.ld_unit_zero (S := S64x1024) hz2k1, View.ld_unit_zero (S := S128x1024) hz2k1, View.ld_unit_zero (S := S19x128) hz2k1, View.ld_unit_zero (S := S1x128) hz2k1, View.ld_unit_zero (S := S256x1024) hz2k1, View.ld_unit_zero (S := S1024x256) hz2k1, View.ld_unit_zero (S := S1x1024) hz2k1]

end Cert.KernelIdeal.RegionVal

end
-- ==== Proof.RegionValK1DatIdeal.lean ====
import proofs.«214388_g48842368090541_cont_8to1c4_19_37_alg».proof.Proof.RegionValK1Ideal
import proofs.«214388_g48842368090541_cont_8to1c4_19_37_alg».proof.Proof.Gen.KernelIdeal.Launch
import proofs.«214388_g48842368090541_cont_8to1c4_19_37_alg».proof.Proof.Gen.KernelIdeal.Skeleton
import proofs.«214388_g48842368090541_cont_8to1c4_19_37_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## The exact proof data of the first pipeline over a valuation -/

/-- A valuation read at a TensorCore reference of core `c`. -/
abbrev Vc1 (V : Valuation τ sig (Elt F)) (c : Dev nD) (b : Ref sig .tc) : Buf (Elt F) ((c.tc : Thread nD τ).loc b) :=
  V (Proc.devRef (τ := τ) .tc b)

/-- Window `w`'s block at point `t`, read off its array at the valuation. -/
def iblk1 (V : Valuation τ sig (Elt F)) (w : Fin cfg1.W) (t : Fin cfg1.N) :
    ((cfg1.win w).xblock (cfg1.grid.coords t)).Idx → Elt F (cfg1.win w).elt :=
  ((cfg1.win w).blk t).view.read (Elt F) (V (Proc.devRef (τ := τ) .tc (Pipeline.arrRef spec1 w)))

theorem before1_0_of {c : Dev nD} (V : Valuation τ sig (Elt F)) (dat : Dat τ (Elt F) Ix Name U Lvl cfg1 c) (hA : dat.A 0 = Vc1 V c (Pipeline.arrRef spec1 0))
    (hafter : ∀ t, dat.after 0 t = iblk1 V 0 t) (t : Fin cfg1.N) (d) : dat.before 0 t d = iblk1 V 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (V : Valuation τ sig (Elt F)) (dat : Dat τ (Elt F) Ix Name U Lvl cfg1 c) (hA : dat.A 1 = Vc1 V c (Pipeline.arrRef spec1 1))
    (hafter : ∀ t, dat.after 1 t = iblk1 V 1 t) (t : Fin cfg1.N) (d) : dat.before 1 t d = iblk1 V 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (V : Valuation τ sig (Elt F)) (dat : Dat τ (Elt F) Ix Name U Lvl cfg1 c) (hA : dat.A 2 = Vc1 V c (Pipeline.arrRef spec1 2))
    (hafter : ∀ t, dat.after 2 t = iblk1 V 2 t) (t : Fin cfg1.N) (d) : dat.before 2 t d = iblk1 V 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (V : Valuation τ sig (Elt F)) (dat : Dat τ (Elt F) Ix Name U Lvl cfg1 c) (hA : dat.A 3 = Vc1 V c (Pipeline.arrRef spec1 3))
    (hafter : ∀ t, dat.after 3 t = iblk1 V 3 t) (t : Fin cfg1.N) (d) : dat.before 3 t d = iblk1 V 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (V : Valuation τ sig (Elt F)) (dat : Dat τ (Elt F) Ix Name U Lvl cfg1 c) (hA : dat.A 4 = Vc1 V c (Pipeline.arrRef spec1 4))
    (hafter : ∀ t, dat.after 4 t = iblk1 V 4 t) (t : Fin cfg1.N) (d) : dat.before 4 t d = iblk1 V 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (V : Valuation τ sig (Elt F)) (dat : Dat τ (Elt F) Ix Name U Lvl cfg1 c) (hA : dat.A 5 = Vc1 V c (Pipeline.arrRef spec1 5))
    (hafter : ∀ t, dat.after 5 t = iblk1 V 5 t) (t : Fin cfg1.N) (d) : dat.before 5 t d = iblk1 V 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (V : Valuation τ sig (Elt F)) (dat : Dat τ (Elt F) Ix Name U Lvl cfg1 c) (hA : dat.A 6 = Vc1 V c (Pipeline.arrRef spec1 6))
    (hafter : ∀ t, dat.after 6 t = iblk1 V 6 t) (t : Fin cfg1.N) (d) : dat.before 6 t d = iblk1 V 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (V : Valuation τ sig (Elt F)) (dat : Dat τ (Elt F) Ix Name U Lvl cfg1 c) (hA : dat.A 7 = Vc1 V c (Pipeline.arrRef spec1 7))
    (hafter : ∀ t, dat.after 7 t = iblk1 V 7 t) (t : Fin cfg1.N) (d) : dat.before 7 t d = iblk1 V 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (V : Valuation τ sig (Elt F)) (dat : Dat τ (Elt F) Ix Name U Lvl cfg1 c) (hA : dat.A 8 = Vc1 V c (Pipeline.arrRef spec1 8))
    (hafter : ∀ t, dat.after 8 t = iblk1 V 8 t) (t : Fin cfg1.N) (d) : dat.before 8 t d = iblk1 V 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (V : Valuation τ sig (Elt F)) (dat : Dat τ (Elt F) Ix Name U Lvl cfg1 c) (hA : dat.A 9 = Vc1 V c (Pipeline.arrRef spec1 9))
    (hafter : ∀ t, dat.after 9 t = iblk1 V 9 t) (t : Fin cfg1.N) (d) : dat.before 9 t d = iblk1 V 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (V : Valuation τ sig (Elt F)) (dat : Dat τ (Elt F) Ix Name U Lvl cfg1 c) (hA : dat.A 10 = Vc1 V c (Pipeline.arrRef spec1 10))
    (hafter : ∀ t, dat.after 10 t = iblk1 V 10 t) (t : Fin cfg1.N) (d) : dat.before 10 t d = iblk1 V 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (V : Valuation τ sig (Elt F)) (dat : Dat τ (Elt F) Ix Name U Lvl cfg1 c) (hA : dat.A 11 = Vc1 V c (Pipeline.arrRef spec1 11))
    (hafter : ∀ t, dat.after 11 t = iblk1 V 11 t) (t : Fin cfg1.N) (d) : dat.before 11 t d = iblk1 V 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (V : Valuation τ sig (Elt F)) (dat : Dat τ (Elt F) Ix Name U Lvl cfg1 c) (hA : dat.A 12 = Vc1 V c (Pipeline.arrRef spec1 12))
    (hafter : ∀ t, dat.after 12 t = iblk1 V 12 t) (t : Fin cfg1.N) (d) : dat.before 12 t d = iblk1 V 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- The per-point output block at point `t`: the body's term of the point's input blocks. -/
def x16At (V : Valuation τ sig (Elt F)) (t : Fin cfg1.N) : Vec F S1024x256 .bf16 :=
  x16of (iblk1 V 0 t) (iblk1 V 1 t) (iblk1 V 2 t) (iblk1 V 3 t) (iblk1 V 4 t) (iblk1 V 5 t) (iblk1 V 6 t) (iblk1 V 7 t) (iblk1 V 8 t) (iblk1 V 9 t) (iblk1 V 10 t) (iblk1 V 11 t)

/-- THE ACCUMULATION of the column sums: after point `n` the accumulator holds one step, at the point's input blocks,
    over the zero word at the first point and over what the point before left elsewhere. -/
def s1At (V : Valuation τ sig (Elt F)) : (n : ℕ) → n < cfg1.N → Vec F S1x1024 .f32
  | 0, hn => s1step (iblk1 V 0 ⟨0, hn⟩) (iblk1 V 1 ⟨0, hn⟩) (iblk1 V 2 ⟨0, hn⟩) (iblk1 V 3 ⟨0, hn⟩) (iblk1 V 4 ⟨0, hn⟩) (iblk1 V 5 ⟨0, hn⟩) (iblk1 V 6 ⟨0, hn⟩) (iblk1 V 7 ⟨0, hn⟩) (iblk1 V 8 ⟨0, hn⟩) (iblk1 V 9 ⟨0, hn⟩) (iblk1 V 10 ⟨0, hn⟩) (iblk1 V 11 ⟨0, hn⟩) (iblk1 V 12 ⟨0, hn⟩) k1_pay3
  | n + 1, hn => s1step (iblk1 V 0 ⟨n + 1, hn⟩) (iblk1 V 1 ⟨n + 1, hn⟩) (iblk1 V 2 ⟨n + 1, hn⟩) (iblk1 V 3 ⟨n + 1, hn⟩) (iblk1 V 4 ⟨n + 1, hn⟩) (iblk1 V 5 ⟨n + 1, hn⟩) (iblk1 V 6 ⟨n + 1, hn⟩) (iblk1 V 7 ⟨n + 1, hn⟩) (iblk1 V 8 ⟨n + 1, hn⟩) (iblk1 V 9 ⟨n + 1, hn⟩) (iblk1 V 10 ⟨n + 1, hn⟩) (iblk1 V 11 ⟨n + 1, hn⟩) (iblk1 V 12 ⟨n + 1, hn⟩) (s1At V n (Nat.lt_of_succ_lt hn))

/-- The accumulation of the column sums of squares. -/
def q1At (V : Valuation τ sig (Elt F)) : (n : ℕ) → n < cfg1.N → Vec F S1x1024 .f32
  | 0, hn => q1step (iblk1 V 0 ⟨0, hn⟩) (iblk1 V 1 ⟨0, hn⟩) (iblk1 V 2 ⟨0, hn⟩) (iblk1 V 3 ⟨0, hn⟩) (iblk1 V 4 ⟨0, hn⟩) (iblk1 V 5 ⟨0, hn⟩) (iblk1 V 6 ⟨0, hn⟩) (iblk1 V 7 ⟨0, hn⟩) (iblk1 V 8 ⟨0, hn⟩) (iblk1 V 9 ⟨0, hn⟩) (iblk1 V 10 ⟨0, hn⟩) (iblk1 V 11 ⟨0, hn⟩) (iblk1 V 12 ⟨0, hn⟩) k1_pay4
  | n + 1, hn => q1step (iblk1 V 0 ⟨n + 1, hn⟩) (iblk1 V 1 ⟨n + 1, hn⟩) (iblk1 V 2 ⟨n + 1, hn⟩) (iblk1 V 3 ⟨n + 1, hn⟩) (iblk1 V 4 ⟨n + 1, hn⟩) (iblk1 V 5 ⟨n + 1, hn⟩) (iblk1 V 6 ⟨n + 1, hn⟩) (iblk1 V 7 ⟨n + 1, hn⟩) (iblk1 V 8 ⟨n + 1, hn⟩) (iblk1 V 9 ⟨n + 1, hn⟩) (iblk1 V 10 ⟨n + 1, hn⟩) (iblk1 V 11 ⟨n + 1, hn⟩) (iblk1 V 12 ⟨n + 1, hn⟩) (q1At V n (Nat.lt_of_succ_lt hn))

theorem s1At_A (V : Valuation τ sig (Elt F)) (t : Fin cfg1.N) (h0 : t.val = 0) :
    s1At V t.val t.isLt = s1step (iblk1 V 0 t) (iblk1 V 1 t) (iblk1 V 2 t) (iblk1 V 3 t) (iblk1 V 4 t) (iblk1 V 5 t) (iblk1 V 6 t) (iblk1 V 7 t) (iblk1 V 8 t) (iblk1 V 9 t) (iblk1 V 10 t) (iblk1 V 11 t) (iblk1 V 12 t) k1_pay3 := by
  obtain ⟨n, hn⟩ := t
  cases n with
  | zero => rfl
  | succ n => exact absurd h0 (Nat.succ_ne_zero n)

theorem s1At_B (V : Valuation τ sig (Elt F)) (t : Fin cfg1.N) (h0 : t.val ≠ 0) :
    s1At V t.val t.isLt = s1step (iblk1 V 0 t) (iblk1 V 1 t) (iblk1 V 2 t) (iblk1 V 3 t) (iblk1 V 4 t) (iblk1 V 5 t) (iblk1 V 6 t) (iblk1 V 7 t) (iblk1 V 8 t) (iblk1 V 9 t) (iblk1 V 10 t) (iblk1 V 11 t) (iblk1 V 12 t) (s1At V (t.val - 1) (Nat.lt_of_le_of_lt (Nat.sub_le _ _) t.isLt)) := by
  obtain ⟨n, hn⟩ := t
  cases n with
  | zero => exact absurd rfl h0
  | succ n => rfl

theorem q1At_A (V : Valuation τ sig (Elt F)) (t : Fin cfg1.N) (h0 : t.val = 0) :
    q1At V t.val t.isLt = q1step (iblk1 V 0 t) (iblk1 V 1 t) (iblk1 V 2 t) (iblk1 V 3 t) (iblk1 V 4 t) (iblk1 V 5 t) (iblk1 V 6 t) (iblk1 V 7 t) (iblk1 V 8 t) (iblk1 V 9 t) (iblk1 V 10 t) (iblk1 V 11 t) (iblk1 V 12 t) k1_pay4 := by
  obtain ⟨n, hn⟩ := t
  cases n with
  | zero => rfl
  | succ n => exact absurd h0 (Nat.succ_ne_zero n)

theorem q1At_B (V : Valuation τ sig (Elt F)) (t : Fin cfg1.N) (h0 : t.val ≠ 0) :
    q1At V t.val t.isLt = q1step (iblk1 V 0 t) (iblk1 V 1 t) (iblk1 V 2 t) (iblk1 V 3 t) (iblk1 V 4 t) (iblk1 V 5 t) (iblk1 V 6 t) (iblk1 V 7 t) (iblk1 V 8 t) (iblk1 V 9 t) (iblk1 V 10 t) (iblk1 V 11 t) (iblk1 V 12 t) (q1At V (t.val - 1) (Nat.lt_of_le_of_lt (Nat.sub_le _ _) t.isLt)) := by
  obtain ⟨n, hn⟩ := t
  cases n with
  | zero => exact absurd rfl h0
  | succ n => rfl

/-- The exact data: the arrays as the valuation has them; after the body at point `t` each input's buffer at its block,
    the per-point output's at the body's term of the input blocks and the accumulators' at the accumulation up to `t`;
    the invariant the scoped buffers no window stages and the generator register; nothing owed; full shares; the
    recorded pairs within `B`. -/
def dat1 (V : Valuation τ sig (Elt F)) (B : Set (SemLoc sig × Ix)) (c : Dev nD) : Dat τ (Elt F) Ix Name U Lvl cfg1 c where
  A w := Vc1 V c (Pipeline.arrRef spec1 w)
  after w t := match w with
    | ⟨0, _⟩ => iblk1 V 0 t
    | ⟨1, _⟩ => iblk1 V 1 t
    | ⟨2, _⟩ => iblk1 V 2 t
    | ⟨3, _⟩ => iblk1 V 3 t
    | ⟨4, _⟩ => iblk1 V 4 t
    | ⟨5, _⟩ => iblk1 V 5 t
    | ⟨6, _⟩ => iblk1 V 6 t
    | ⟨7, _⟩ => iblk1 V 7 t
    | ⟨8, _⟩ => iblk1 V 8 t
    | ⟨9, _⟩ => iblk1 V 9 t
    | ⟨10, _⟩ => iblk1 V 10 t
    | ⟨11, _⟩ => iblk1 V 11 t
    | ⟨12, _⟩ => iblk1 V 12 t
    | ⟨13, _⟩ => x16At V t
    | ⟨14, _⟩ => s1At V t.val t.isLt
    | ⟨15, _⟩ => q1At V t.val t.isLt
    | ⟨_ + 16, h⟩ => absurd h (Nat.not_lt.2 (Nat.le_add_left _ _))
  Φ _ := iprop(Pipeline.scopedRest spec1 c ∗ ∃ r, prngReg c r)
  q _ := fullShare
  owed _ := 0
  recorded _ := B

theorem A1_eq (V : Valuation τ sig (Elt F)) (B : Set (SemLoc sig × Ix)) (c : Dev nD) (w : Fin cfg1.W) :
    (dat1 (Name := Name) (U := U) (Lvl := Lvl) V B c).A w = Vc1 V c (Pipeline.arrRef spec1 w) := by dsimp only [dat1]

theorem after1_0 (V : Valuation τ sig (Elt F)) (B : Set (SemLoc sig × Ix)) (c : Dev nD) (t : Fin cfg1.N) : (dat1 (Name := Name) (U := U) (Lvl := Lvl) V B c).after 0 t = iblk1 V 0 t := by dsimp only [dat1]
theorem after1_1 (V : Valuation τ sig (Elt F)) (B : Set (SemLoc sig × Ix)) (c : Dev nD) (t : Fin cfg1.N) : (dat1 (Name := Name) (U := U) (Lvl := Lvl) V B c).after 1 t = iblk1 V 1 t := by dsimp only [dat1]
theorem after1_2 (V : Valuation τ sig (Elt F)) (B : Set (SemLoc sig × Ix)) (c : Dev nD) (t : Fin cfg1.N) : (dat1 (Name := Name) (U := U) (Lvl := Lvl) V B c).after 2 t = iblk1 V 2 t := by dsimp only [dat1]
theorem after1_3 (V : Valuation τ sig (Elt F)) (B : Set (SemLoc sig × Ix)) (c : Dev nD) (t : Fin cfg1.N) : (dat1 (Name := Name) (U := U) (Lvl := Lvl) V B c).after 3 t = iblk1 V 3 t := by dsimp only [dat1]
theorem after1_4 (V : Valuation τ sig (Elt F)) (B : Set (SemLoc sig × Ix)) (c : Dev nD) (t : Fin cfg1.N) : (dat1 (Name := Name) (U := U) (Lvl := Lvl) V B c).after 4 t = iblk1 V 4 t := by dsimp only [dat1]
theorem after1_5 (V : Valuation τ sig (Elt F)) (B : Set (SemLoc sig × Ix)) (c : Dev nD) (t : Fin cfg1.N) : (dat1 (Name := Name) (U := U) (Lvl := Lvl) V B c).after 5 t = iblk1 V 5 t := by dsimp only [dat1]
theorem after1_6 (V : Valuation τ sig (Elt F)) (B : Set (SemLoc sig × Ix)) (c : Dev nD) (t : Fin cfg1.N) : (dat1 (Name := Name) (U := U) (Lvl := Lvl) V B c).after 6 t = iblk1 V 6 t := by dsimp only [dat1]
theorem after1_7 (V : Valuation τ sig (Elt F)) (B : Set (SemLoc sig × Ix)) (c : Dev nD) (t : Fin cfg1.N) : (dat1 (Name := Name) (U := U) (Lvl := Lvl) V B c).after 7 t = iblk1 V 7 t := by dsimp only [dat1]
theorem after1_8 (V : Valuation τ sig (Elt F)) (B : Set (SemLoc sig × Ix)) (c : Dev nD) (t : Fin cfg1.N) : (dat1 (Name := Name) (U := U) (Lvl := Lvl) V B c).after 8 t = iblk1 V 8 t := by dsimp only [dat1]
theorem after1_9 (V : Valuation τ sig (Elt F)) (B : Set (SemLoc sig × Ix)) (c : Dev nD) (t : Fin cfg1.N) : (dat1 (Name := Name) (U := U) (Lvl := Lvl) V B c).after 9 t = iblk1 V 9 t := by dsimp only [dat1]
theorem after1_10 (V : Valuation τ sig (Elt F)) (B : Set (SemLoc sig × Ix)) (c : Dev nD) (t : Fin cfg1.N) : (dat1 (Name := Name) (U := U) (Lvl := Lvl) V B c).after 10 t = iblk1 V 10 t := by dsimp only [dat1]
theorem after1_11 (V : Valuation τ sig (Elt F)) (B : Set (SemLoc sig × Ix)) (c : Dev nD) (t : Fin cfg1.N) : (dat1 (Name := Name) (U := U) (Lvl := Lvl) V B c).after 11 t = iblk1 V 11 t := by dsimp only [dat1]
theorem after1_12 (V : Valuation τ sig (Elt F)) (B : Set (SemLoc sig × Ix)) (c : Dev nD) (t : Fin cfg1.N) : (dat1 (Name := Name) (U := U) (Lvl := Lvl) V B c).after 12 t = iblk1 V 12 t := by dsimp only [dat1]
theorem after1_13 (V : Valuation τ sig (Elt F)) (B : Set (SemLoc sig × Ix)) (c : Dev nD) (t : Fin cfg1.N) : (dat1 (Name := Name) (U := U) (Lvl := Lvl) V B c).after 13 t = x16At V t := by dsimp only [dat1]
theorem after1_14 (V : Valuation τ sig (Elt F)) (B : Set (SemLoc sig × Ix)) (c : Dev nD) (t : Fin cfg1.N) : (dat1 (Name := Name) (U := U) (Lvl := Lvl) V B c).after 14 t = s1At V t.val t.isLt := by dsimp only [dat1]
theorem after1_15 (V : Valuation τ sig (Elt F)) (B : Set (SemLoc sig × Ix)) (c : Dev nD) (t : Fin cfg1.N) : (dat1 (Name := Name) (U := U) (Lvl := Lvl) V B c).after 15 t = q1At V t.val t.isLt := by dsimp only [dat1]

theorem before1_0 (V : Valuation τ sig (Elt F)) (B : Set (SemLoc sig × Ix)) (c : Dev nD) (t : Fin cfg1.N) (d) : (dat1 (Name := Name) (U := U) (Lvl := Lvl) V B c).before 0 t d = iblk1 V 0 t :=
  before1_0_of V (dat1 V B c) (A1_eq V B c 0) (after1_0 V B c) t d
theorem before1_1 (V : Valuation τ sig (Elt F)) (B : Set (SemLoc sig × Ix)) (c : Dev nD) (t : Fin cfg1.N) (d) : (dat1 (Name := Name) (U := U) (Lvl := Lvl) V B c).before 1 t d = iblk1 V 1 t :=
  before1_1_of V (dat1 V B c) (A1_eq V B c 1) (after1_1 V B c) t d
theorem before1_2 (V : Valuation τ sig (Elt F)) (B : Set (SemLoc sig × Ix)) (c : Dev nD) (t : Fin cfg1.N) (d) : (dat1 (Name := Name) (U := U) (Lvl := Lvl) V B c).before 2 t d = iblk1 V 2 t :=
  before1_2_of V (dat1 V B c) (A1_eq V B c 2) (after1_2 V B c) t d
theorem before1_3 (V : Valuation τ sig (Elt F)) (B : Set (SemLoc sig × Ix)) (c : Dev nD) (t : Fin cfg1.N) (d) : (dat1 (Name := Name) (U := U) (Lvl := Lvl) V B c).before 3 t d = iblk1 V 3 t :=
  before1_3_of V (dat1 V B c) (A1_eq V B c 3) (after1_3 V B c) t d
theorem before1_4 (V : Valuation τ sig (Elt F)) (B : Set (SemLoc sig × Ix)) (c : Dev nD) (t : Fin cfg1.N) (d) : (dat1 (Name := Name) (U := U) (Lvl := Lvl) V B c).before 4 t d = iblk1 V 4 t :=
  before1_4_of V (dat1 V B c) (A1_eq V B c 4) (after1_4 V B c) t d
theorem before1_5 (V : Valuation τ sig (Elt F)) (B : Set (SemLoc sig × Ix)) (c : Dev nD) (t : Fin cfg1.N) (d) : (dat1 (Name := Name) (U := U) (Lvl := Lvl) V B c).before 5 t d = iblk1 V 5 t :=
  before1_5_of V (dat1 V B c) (A1_eq V B c 5) (after1_5 V B c) t d
theorem before1_6 (V : Valuation τ sig (Elt F)) (B : Set (SemLoc sig × Ix)) (c : Dev nD) (t : Fin cfg1.N) (d) : (dat1 (Name := Name) (U := U) (Lvl := Lvl) V B c).before 6 t d = iblk1 V 6 t :=
  before1_6_of V (dat1 V B c) (A1_eq V B c 6) (after1_6 V B c) t d
theorem before1_7 (V : Valuation τ sig (Elt F)) (B : Set (SemLoc sig × Ix)) (c : Dev nD) (t : Fin cfg1.N) (d) : (dat1 (Name := Name) (U := U) (Lvl := Lvl) V B c).before 7 t d = iblk1 V 7 t :=
  before1_7_of V (dat1 V B c) (A1_eq V B c 7) (after1_7 V B c) t d
theorem before1_8 (V : Valuation τ sig (Elt F)) (B : Set (SemLoc sig × Ix)) (c : Dev nD) (t : Fin cfg1.N) (d) : (dat1 (Name := Name) (U := U) (Lvl := Lvl) V B c).before 8 t d = iblk1 V 8 t :=
  before1_8_of V (dat1 V B c) (A1_eq V B c 8) (after1_8 V B c) t d
theorem before1_9 (V : Valuation τ sig (Elt F)) (B : Set (SemLoc sig × Ix)) (c : Dev nD) (t : Fin cfg1.N) (d) : (dat1 (Name := Name) (U := U) (Lvl := Lvl) V B c).before 9 t d = iblk1 V 9 t :=
  before1_9_of V (dat1 V B c) (A1_eq V B c 9) (after1_9 V B c) t d
theorem before1_10 (V : Valuation τ sig (Elt F)) (B : Set (SemLoc sig × Ix)) (c : Dev nD) (t : Fin cfg1.N) (d) : (dat1 (Name := Name) (U := U) (Lvl := Lvl) V B c).before 10 t d = iblk1 V 10 t :=
  before1_10_of V (dat1 V B c) (A1_eq V B c 10) (after1_10 V B c) t d
theorem before1_11 (V : Valuation τ sig (Elt F)) (B : Set (SemLoc sig × Ix)) (c : Dev nD) (t : Fin cfg1.N) (d) : (dat1 (Name := Name) (U := U) (Lvl := Lvl) V B c).before 11 t d = iblk1 V 11 t :=
  before1_11_of V (dat1 V B c) (A1_eq V B c 11) (after1_11 V B c) t d
theorem before1_12 (V : Valuation τ sig (Elt F)) (B : Set (SemLoc sig × Ix)) (c : Dev nD) (t : Fin cfg1.N) (d) : (dat1 (Name := Name) (U := U) (Lvl := Lvl) V B c).before 12 t d = iblk1 V 12 t :=
  before1_12_of V (dat1 V B c) (A1_eq V B c 12) (after1_12 V B c) t d

/-- After the first point an accumulator's staging buffer holds what the body left at the point before: the buffer is
    written back at the last point only, the window is live and uncut. -/
theorem before1_14_B (V : Valuation τ sig (Elt F)) (B : Set (SemLoc sig × Ix)) (c : Dev nD) (t : Fin cfg1.N) (h0 : t.val ≠ 0) (d) :
    (dat1 (Name := Name) (U := U) (Lvl := Lvl) V B c).before 14 t d = s1At V (t.val - 1) (Nat.lt_of_le_of_lt (Nat.sub_le _ _) t.isLt) := by
  have hN : t.val < 16 := lt_of_lt_of_eq t.isLt (show cfg1.N = 16 from N_1)
  rw [Dat.before_out_kept _ 14 rfl t h0 (Bool.eq_false_iff.mpr fun h => by have := (flush1_14 _).mp h; dsimp only at this; omega)
    (fun _ => rfl) (fun _ _ => rfl)]
  dsimp only [dat1]

theorem before1_15_B (V : Valuation τ sig (Elt F)) (B : Set (SemLoc sig × Ix)) (c : Dev nD) (t : Fin cfg1.N) (h0 : t.val ≠ 0) (d) :
    (dat1 (Name := Name) (U := U) (Lvl := Lvl) V B c).before 15 t d = q1At V (t.val - 1) (Nat.lt_of_le_of_lt (Nat.sub_le _ _) t.isLt) := by
  have hN : t.val < 16 := lt_of_lt_of_eq t.isLt (show cfg1.N = 16 from N_1)
  rw [Dat.before_out_kept _ 15 rfl t h0 (Bool.eq_false_iff.mpr fun h => by have := (flush1_15 _).mp h; dsimp only at this; omega)
    (fun _ => rfl) (fun _ _ => rfl)]
  dsimp only [dat1]

/-- What the body is called with at point `t`, the windows one by one, -/
def bodyPre1 (V : Valuation τ sig (Elt F)) (B : Set (SemLoc sig × Ix)) (ι : Ix) (c : Dev nD) (t : Fin cfg1.N) : sProp 𝕄 :=
  iprop((dat1 (Name := Name) (U := U) (Lvl := Lvl) V B c).Φ t.castSucc ∗ (dat1 (Name := Name) (U := U) (Lvl := Lvl) V B c).owesAt ι t.castSucc
    ∗ (∃ d, owns (c : Thread nD τ) (st1_0 t) fullShare ((dat1 (Name := Name) (U := U) (Lvl := Lvl) V B c).before 0 t d))
    ∗ (∃ d, owns (c : Thread nD τ) (st1_1 t) fullShare ((dat1 (Name := Name) (U := U) (Lvl := Lvl) V B c).before 1 t d))
    ∗ (∃ d, owns (c : Thread nD τ) (st1_2 t) fullShare ((dat1 (Name := Name) (U := U) (Lvl := Lvl) V B c).before 2 t d))
    ∗ (∃ d, owns (c : Thread nD τ) (st1_3 t) fullShare ((dat1 (Name := Name) (U := U) (Lvl := Lvl) V B c).before 3 t d))
    ∗ (∃ d, owns (c : Thread nD τ) (st1_4 t) fullShare ((dat1 (Name := Name) (U := U) (Lvl := Lvl) V B c).before 4 t d))
    ∗ (∃ d, owns (c : Thread nD τ) (st1_5 t) fullShare ((dat1 (Name := Name) (U := U) (Lvl := Lvl) V B c).before 5 t d))
    ∗ (∃ d, owns (c : Thread nD τ) (st1_6 t) fullShare ((dat1 (Name := Name) (U := U) (Lvl := Lvl) V B c).before 6 t d))
    ∗ (∃ d, owns (c : Thread nD τ) (st1_7 t) fullShare ((dat1 (Name := Name) (U := U) (Lvl := Lvl) V B c).before 7 t d))
    ∗ (∃ d, owns (c : Thread nD τ) (st1_8 t) fullShare ((dat1 (Name := Name) (U := U) (Lvl := Lvl) V B c).before 8 t d))
    ∗ (∃ d, owns (c : Thread nD τ) (st1_9 t) fullShare ((dat1 (Name := Name) (U := U) (Lvl := Lvl) V B c).before 9 t d))
    ∗ (∃ d, owns (c : Thread nD τ) (st1_10 t) fullShare ((dat1 (Name := Name) (U := U) (Lvl := Lvl) V B c).before 10 t d))
    ∗ (∃ d, owns (c : Thread nD τ) (st1_11 t) fullShare ((dat1 (Name := Name) (U := U) (Lvl := Lvl) V B c).before 11 t d))
    ∗ (∃ d, owns (c : Thread nD τ) (st1_12 t) fullShare ((dat1 (Name := Name) (U := U) (Lvl := Lvl) V B c).before 12 t d))
    ∗ (∃ d, owns (c : Thread nD τ) (st1_13 t) fullShare ((dat1 (Name := Name) (U := U) (Lvl := Lvl) V B c).before 13 t d))
    ∗ (∃ d, owns (c : Thread nD τ) (st1_14 t) fullShare ((dat1 (Name := Name) (U := U) (Lvl := Lvl) V B c).before 14 t d))
    ∗ (∃ d, owns (c : Thread nD τ) (st1_15 t) fullShare ((dat1 (Name := Name) (U := U) (Lvl := Lvl) V B c).before 15 t d)))

/-- and what it returns. -/
def bodyPost1 (V : Valuation τ sig (Elt F)) (B : Set (SemLoc sig × Ix)) (ι : Ix) (c : Dev nD) (t : Fin cfg1.N) : sProp 𝕄 :=
  iprop((dat1 (Name := Name) (U := U) (Lvl := Lvl) V B c).Φ t.succ ∗ (dat1 (Name := Name) (U := U) (Lvl := Lvl) V B c).owesAt ι t.succ
    ∗ owns (c : Thread nD τ) (st1_0 t) fullShare ((dat1 (Name := Name) (U := U) (Lvl := Lvl) V B c).after 0 t)
    ∗ owns (c : Thread nD τ) (st1_1 t) fullShare ((dat1 (Name := Name) (U := U) (Lvl := Lvl) V B c).after 1 t)
    ∗ owns (c : Thread nD τ) (st1_2 t) fullShare ((dat1 (Name := Name) (U := U) (Lvl := Lvl) V B c).after 2 t)
    ∗ owns (c : Thread nD τ) (st1_3 t) fullShare ((dat1 (Name := Name) (U := U) (Lvl := Lvl) V B c).after 3 t)
    ∗ owns (c : Thread nD τ) (st1_4 t) fullShare ((dat1 (Name := Name) (U := U) (Lvl := Lvl) V B c).after 4 t)
    ∗ owns (c : Thread nD τ) (st1_5 t) fullShare ((dat1 (Name := Name) (U := U) (Lvl := Lvl) V B c).after 5 t)
    ∗ owns (c : Thread nD τ) (st1_6 t) fullShare ((dat1 (Name := Name) (U := U) (Lvl := Lvl) V B c).after 6 t)
    ∗ owns (c : Thread nD τ) (st1_7 t) fullShare ((dat1 (Name := Name) (U := U) (Lvl := Lvl) V B c).after 7 t)
    ∗ owns (c : Thread nD τ) (st1_8 t) fullShare ((dat1 (Name := Name) (U := U) (Lvl := Lvl) V B c).after 8 t)
    ∗ owns (c : Thread nD τ) (st1_9 t) fullShare ((dat1 (Name := Name) (U := U) (Lvl := Lvl) V B c).after 9 t)
    ∗ owns (c : Thread nD τ) (st1_10 t) fullShare ((dat1 (Name := Name) (U := U) (Lvl := Lvl) V B c).after 10 t)
    ∗ owns (c : Thread nD τ) (st1_11 t) fullShare ((dat1 (Name := Name) (U := U) (Lvl := Lvl) V B c).after 11 t)
    ∗ owns (c : Thread nD τ) (st1_12 t) fullShare ((dat1 (Name := Name) (U := U) (Lvl := Lvl) V B c).after 12 t)
    ∗ owns (c : Thread nD τ) (st1_13 t) fullShare ((dat1 (Name := Name) (U := U) (Lvl := Lvl) V B c).after 13 t)
    ∗ owns (c : Thread nD τ) (st1_14 t) fullShare ((dat1 (Name := Name) (U := U) (Lvl := Lvl) V B c).after 14 t)
    ∗ owns (c : Thread nD τ) (st1_15 t) fullShare ((dat1 (Name := Name) (U := U) (Lvl := Lvl) V B c).after 15 t))

set_option maxHeartbeats 2000000 in
/-- The body at any point: the inputs' memrefs hold their blocks; at the first point the reset is taken and the
    accumulators start from the zero word, elsewhere they hold what the point before left; so the valued run of the
    point's case applies; the invariant and the core's waits pass through unread. -/
theorem sound_body1 (V : Valuation τ sig (Elt F)) (B : Set (SemLoc sig × Ix)) (ι : Ix) (c : Dev nD) (t : Fin cfg1.N) :
    bodyPre1 (Name := Name) (U := U) (Lvl := Lvl) V B ι c t
      ⊢ wp frame (wpE (defs₀ (F := F)) Variants.none c none) Set.univ (bodyAt1 t) (fun _ => bodyPost1 (Name := Name) (U := U) (Lvl := Lvl) V B ι c t) := by
  unfold bodyPre1 bodyPost1 bodyAt1
  simp only [before1_0, before1_1, before1_2, before1_3, before1_4, before1_5, before1_6, before1_7, before1_8, before1_9, before1_10, before1_11, before1_12]
  rw [show (dat1 (Name := Name) (U := U) (Lvl := Lvl) V B c).Φ t.succ = (dat1 (Name := Name) (U := U) (Lvl := Lvl) V B c).Φ t.castSucc from rfl,
    show (dat1 (Name := Name) (U := U) (Lvl := Lvl) V B c).owesAt ι t.succ = (dat1 (Name := Name) (U := U) (Lvl := Lvl) V B c).owesAt ι t.castSucc from rfl,
    after1_0, after1_1, after1_2, after1_3, after1_4, after1_5, after1_6, after1_7, after1_8, after1_9, after1_10, after1_11, after1_12, after1_13, after1_14, after1_15]
  unfold x16At
  by_cases h0 : t.val = 0
  · rw [s1At_A V t h0, q1At_A V t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_k1_A c (grid1.coords t) _ _ _ _ _ _ _ _ _ _ _ _ _ _ _ _ _ _ _ _ _ _ _ _ _ _ _ _ _ _ _ _ ((BodyRun.hcond1_0 t).mpr h0) (iblk1 V 0 t) (iblk1 V 1 t) (iblk1 V 2 t) (iblk1 V 3 t) (iblk1 V 4 t) (iblk1 V 5 t) (iblk1 V 6 t) (iblk1 V 7 t) (iblk1 V 8 t) (iblk1 V 9 t) (iblk1 V 10 t) (iblk1 V 11 t) (iblk1 V 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    iintro ⟨H0, H1, H2, H3, H4, H5, H6, H7, H8, H9, H10, H11, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [s1At_B V t h0, q1At_B V t h0]
    simp only [before1_14_B V B c t h0, before1_15_B V B c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_k1_B c (grid1.coords t) _ _ _ _ _ _ _ _ _ _ _ _ _ _ _ _ _ _ _ _ _ _ _ _ _ _ _ _ _ _ _ _ (fun h => h0 ((BodyRun.hcond1_0 t).mp h)) (iblk1 V 0 t) (iblk1 V 1 t) (iblk1 V 2 t) (iblk1 V 3 t) (iblk1 V 4 t) (iblk1 V 5 t) (iblk1 V 6 t) (iblk1 V 7 t) (iblk1 V 8 t) (iblk1 V 9 t) (iblk1 V 10 t) (iblk1 V 11 t) (iblk1 V 12 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [H15]; · iexact H15
    iintro ⟨H0, H1, H2, H3, H4, H5, H6, H7, H8, H9, H10, H11, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The library's body obligation for the exact data, at every point. -/
theorem body_obligation1 (V : Valuation τ sig (Elt F)) (B : Set (SemLoc sig × Ix)) (ι : Ix) (c : Dev nD) :
    BodyObligation (dat1 (Name := Name) (U := U) (Lvl := Lvl) V B c) (defs₀ (F := F)) Variants.none ι Set.univ := fun t => by
  rw [bigSep_W1, bigSep_W1]
  exact sound_body1 V B ι c t

end Cert.KernelIdeal.RegionVal

end
-- ==== Proof.RegionValK1StepIdeal.lean ====
import proofs.«214388_g48842368090541_cont_8to1c4_19_37_alg».proof.Proof.RegionValK1DatIdeal
import proofs.«214388_g48842368090541_cont_8to1c4_19_37_alg».proof.Proof.RegionStepIdeal
import proofs.«214388_g48842368090541_cont_8to1c4_19_37_alg».proof.Proof.Gen.KernelIdeal.Launch
import proofs.«214388_g48842368090541_cont_8to1c4_19_37_alg».proof.Proof.Gen.KernelIdeal.Skeleton
import proofs.«214388_g48842368090541_cont_8to1c4_19_37_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## From blocks to the arrays: the three output arrays after the region -/

/-- The per-point output window's printed index map, decided over the grid: along the rows the block index is the grid
    point, along the columns it is zero. -/
theorem idx_facts13 : ∀ t : Fin cfg1.N, win1_13.index t (0 : Fin 2) = t.val ∧ win1_13.index t (1 : Fin 2) = 0 :=
  (by decide +kernel : ∀ t : Fin grid1.N, win1_13.index t (0 : Fin 2) = t.val ∧ win1_13.index t (1 : Fin 2) = 0)

/-- The grid point whose block holds row `i 0` of the per-point output: blocks are 1024 rows. -/
def tOf1 (i : S16384x256.Idx) : Fin cfg1.N :=
  ⟨(i 0).val / 1024, by have h : (i 0).val < 16384 := (i 0).isLt; show (i 0).val / 1024 < grid1.N; rw [N_1]; omega⟩

/-- The place of index `i` inside its block. -/
def locOf1 (i : S16384x256.Idx) : S1024x256.Idx := fun a =>
  match a with
  | ⟨0, _⟩ => ⟨(i 0).val % 1024, Nat.mod_lt _ (by decide)⟩
  | ⟨1, _⟩ => ⟨(i 1).val, (i 1).isLt⟩

/-- WHAT THE PER-POINT OUTPUT ARRAY HOLDS AFTER THE REGION, as one function of the valuation: at row `i 0` the body's
    term, on the blocks of the grid point that holds the row, at the index's place in the block. -/
def g13 (V : Valuation τ sig (Elt F)) : S16384x256.Idx → Elt F .bf16 := fun i =>
  x16At V (tOf1 i) (locOf1 i)

/-- What point `t` writes back is block `t` of `g13`. -/
theorem flushed13_eq (V : Valuation τ sig (Elt F)) (B : Set (SemLoc sig × Ix)) (c : Dev nD) (t : Fin cfg1.N) :
    (dat1 (Name := Name) (U := U) (Lvl := Lvl) V B c).flushed 13 t = ((cfg1.win 13).blk t).view.read (Elt F) (g13 V) := by
  show (cfg1.win 13).cut (grid1.coords t) ((dat1 (Name := Name) (U := U) (Lvl := Lvl) V B c).after 13 t) = _
  rw [after1_13]
  obtain ⟨e0, e1⟩ := idx_facts13 t
  funext j
  show x16At V t j = g13 V (((cfg1.win 13).blk t).view.emb j)
  have hj0 : (j 0).val < 1024 := (j 0).isLt
  have hj1 : (j 1).val < 256 := (j 1).isLt
  have h0 : ((((cfg1.win 13).blk t).view.emb j) 0).val = win1_13.index t (0 : Fin 2) * 1024 + 1 * (j 0).val := rfl
  have h1 : ((((cfg1.win 13).blk t).view.emb j) 1).val = win1_13.index t (1 : Fin 2) * 256 + 1 * (j 1).val := rfl
  have ht : tOf1 (((cfg1.win 13).blk t).view.emb j) = t := by
    apply Fin.ext; show ((((cfg1.win 13).blk t).view.emb j) 0).val / 1024 = t.val; rw [h0]; omega
  have hl : locOf1 (((cfg1.win 13).blk t).view.emb j) = j := by
    funext a; apply Fin.ext
    match a with
    | ⟨0, _⟩ => show ((((cfg1.win 13).blk t).view.emb j) 0).val % 1024 = (j 0).val; rw [h0]; omega
    | ⟨1, _⟩ => show ((((cfg1.win 13).blk t).view.emb j) 1).val = (j 1).val; rw [h1]; omega
  unfold g13
  rw [ht, hl]

/-- An index of the per-point output array is in point `t`'s block iff each coordinate is in the block's range on its axis. -/
theorem mem_blk13 (t : Fin cfg1.N) (i : S16384x256.Idx) :
    i ∈ ((cfg1.win 13).blk t).view.set ↔ ∀ a : Fin 2, win1_13.index t a * S1024x256.size a ≤ (i a).val ∧ (i a).val < win1_13.index t a * S1024x256.size a + S1024x256.size a := by
  show i ∈ ((View.whole main_v87_0).slice (win1_13.rect t)).set ↔ _
  rw [View.set_slice_whole, Rect.mem_set_unit]
  exact Iff.rfl

/-- Every index of the per-point output array is in the block of the point `tOf1` names, which writes it back. -/
theorem cover13 (i : S16384x256.Idx) : ∃ t : Fin cfg1.N, (cfg1.win 13).flush t = true ∧ i ∈ ((cfg1.win 13).blk t).view.set := by
  refine ⟨tOf1 i, flush1_13 _, ?_⟩
  rw [mem_blk13]
  obtain ⟨e0, e1⟩ := idx_facts13 (tOf1 i)
  have hi0 : (i 0).val < 16384 := (i 0).isLt
  have hi1 : (i 1).val < 256 := (i 1).isLt
  have ht : (tOf1 i).val = (i 0).val / 1024 := rfl
  intro a
  match a with
  | ⟨0, _⟩ => show win1_13.index (tOf1 i) (0 : Fin 2) * 1024 ≤ (i 0).val ∧ (i 0).val < win1_13.index (tOf1 i) (0 : Fin 2) * 1024 + 1024; omega
  | ⟨1, _⟩ => show win1_13.index (tOf1 i) (1 : Fin 2) * 256 ≤ (i 1).val ∧ (i 1).val < win1_13.index (tOf1 i) (1 : Fin 2) * 256 + 256; omega

/-- THE PER-POINT OUTPUT ARRAY after the region's last write-back is `g13` of the valuation. -/
theorem final13 (V : Valuation τ sig (Elt F)) (B : Set (SemLoc sig × Ix)) (c : Dev nD) :
    (dat1 (Name := Name) (U := U) (Lvl := Lvl) V B c).arrAt 13 cfg1.N = g13 V :=
  (dat1 (Name := Name) (U := U) (Lvl := Lvl) V B c).arrAt_eq_of_cover 13 (g13 V) (fun t _ => flushed13_eq V B c t) cover13

/-- The grid's last point. -/
def t15 : Fin cfg1.N := ⟨15, by show 15 < grid1.N; rw [N_1]; decide⟩

/-- The column sums after the last point, -/
def s1Fin (V : Valuation τ sig (Elt F)) : Vec F S1x1024 .f32 := s1At V t15.val t15.isLt
/-- and the column sums of squares. -/
def q1Fin (V : Valuation τ sig (Elt F)) : Vec F S1x1024 .f32 := q1At V t15.val t15.isLt

/-- Accumulator window 14's printed index map, decided over the grid: block (0, 0) at every point. -/
theorem idx_facts14 : ∀ t : Fin cfg1.N, win1_14.index t (0 : Fin 2) = 0 ∧ win1_14.index t (1 : Fin 2) = 0 :=
  (by decide +kernel : ∀ t : Fin grid1.N, win1_14.index t (0 : Fin 2) = 0 ∧ win1_14.index t (1 : Fin 2) = 0)

/-- The one write-back of window 14, at the last point, writes the accumulation after the last point: the block is the array. -/
theorem flushed14_eq (V : Valuation τ sig (Elt F)) (B : Set (SemLoc sig × Ix)) (c : Dev nD) (t : Fin cfg1.N) (hf : (cfg1.win 14).flush t = true) :
    (dat1 (Name := Name) (U := U) (Lvl := Lvl) V B c).flushed 14 t = ((cfg1.win 14).blk t).view.read (Elt F) (s1Fin V) := by
  have hN : cfg1.N = 16 := N_1
  have h3 : t.val = 15 := by have := (flush1_14 t).mp hf; have := t.isLt; omega
  obtain rfl : t = t15 := Fin.ext h3
  show (cfg1.win 14).cut (grid1.coords t15) ((dat1 (Name := Name) (U := U) (Lvl := Lvl) V B c).after 14 t15) = _
  rw [after1_14]
  obtain ⟨e0, e1⟩ := idx_facts14 t15
  funext j
  show s1At V t15.val t15.isLt j = s1Fin V (((cfg1.win 14).blk t15).view.emb j)
  have hj0 : (j 0).val < 1 := (j 0).isLt
  have hj1 : (j 1).val < 1024 := (j 1).isLt
  have h0 : ((((cfg1.win 14).blk t15).view.emb j) 0).val = win1_14.index t15 (0 : Fin 2) * 1 + 1 * (j 0).val := rfl
  have h1 : ((((cfg1.win 14).blk t15).view.emb j) 1).val = win1_14.index t15 (1 : Fin 2) * 1024 + 1 * (j 1).val := rfl
  have he : ((cfg1.win 14).blk t15).view.emb j = j := by
    funext a; apply Fin.ext
    match a with
    | ⟨0, _⟩ => show ((((cfg1.win 14).blk t15).view.emb j) 0).val = (j 0).val; rw [h0]; omega
    | ⟨1, _⟩ => show ((((cfg1.win 14).blk t15).view.emb j) 1).val = (j 1).val; rw [h1]; omega
  rw [he]
  rfl

theorem mem_blk14 (t : Fin cfg1.N) (i : S1x1024.Idx) :
    i ∈ ((cfg1.win 14).blk t).view.set ↔ ∀ a : Fin 2, win1_14.index t a * S1x1024.size a ≤ (i a).val ∧ (i a).val < win1_14.index t a * S1x1024.size a + S1x1024.size a := by
  show i ∈ ((View.whole main_v87_1).slice (win1_14.rect t)).set ↔ _
  rw [View.set_slice_whole, Rect.mem_set_unit]
  exact Iff.rfl

theorem cover14 (i : S1x1024.Idx) : ∃ t : Fin cfg1.N, (cfg1.win 14).flush t = true ∧ i ∈ ((cfg1.win 14).blk t).view.set := by
  refine ⟨t15, (flush1_14 t15).mpr rfl, ?_⟩
  rw [mem_blk14]
  obtain ⟨e0, e1⟩ := idx_facts14 t15
  have hi0 : (i 0).val < 1 := (i 0).isLt
  have hi1 : (i 1).val < 1024 := (i 1).isLt
  intro a
  match a with
  | ⟨0, _⟩ => show win1_14.index t15 (0 : Fin 2) * 1 ≤ (i 0).val ∧ (i 0).val < win1_14.index t15 (0 : Fin 2) * 1 + 1; omega
  | ⟨1, _⟩ => show win1_14.index t15 (1 : Fin 2) * 1024 ≤ (i 1).val ∧ (i 1).val < win1_14.index t15 (1 : Fin 2) * 1024 + 1024; omega

/-- THE ACCUMULATOR ARRAY of window 14 after the region's last write-back: the accumulation after the last point. -/
theorem final14 (V : Valuation τ sig (Elt F)) (B : Set (SemLoc sig × Ix)) (c : Dev nD) :
    (dat1 (Name := Name) (U := U) (Lvl := Lvl) V B c).arrAt 14 cfg1.N = s1Fin V :=
  (dat1 (Name := Name) (U := U) (Lvl := Lvl) V B c).arrAt_eq_of_cover 14 (s1Fin V) (fun t hf => flushed14_eq V B c t hf) cover14

/-- Accumulator window 15's printed index map, decided over the grid: block (0, 0) at every point. -/
theorem idx_facts15 : ∀ t : Fin cfg1.N, win1_15.index t (0 : Fin 2) = 0 ∧ win1_15.index t (1 : Fin 2) = 0 :=
  (by decide +kernel : ∀ t : Fin grid1.N, win1_15.index t (0 : Fin 2) = 0 ∧ win1_15.index t (1 : Fin 2) = 0)

/-- The one write-back of window 15, at the last point, writes the accumulation after the last point: the block is the array. -/
theorem flushed15_eq (V : Valuation τ sig (Elt F)) (B : Set (SemLoc sig × Ix)) (c : Dev nD) (t : Fin cfg1.N) (hf : (cfg1.win 15).flush t = true) :
    (dat1 (Name := Name) (U := U) (Lvl := Lvl) V B c).flushed 15 t = ((cfg1.win 15).blk t).view.read (Elt F) (q1Fin V) := by
  have hN : cfg1.N = 16 := N_1
  have h3 : t.val = 15 := by have := (flush1_15 t).mp hf; have := t.isLt; omega
  obtain rfl : t = t15 := Fin.ext h3
  show (cfg1.win 15).cut (grid1.coords t15) ((dat1 (Name := Name) (U := U) (Lvl := Lvl) V B c).after 15 t15) = _
  rw [after1_15]
  obtain ⟨e0, e1⟩ := idx_facts15 t15
  funext j
  show q1At V t15.val t15.isLt j = q1Fin V (((cfg1.win 15).blk t15).view.emb j)
  have hj0 : (j 0).val < 1 := (j 0).isLt
  have hj1 : (j 1).val < 1024 := (j 1).isLt
  have h0 : ((((cfg1.win 15).blk t15).view.emb j) 0).val = win1_15.index t15 (0 : Fin 2) * 1 + 1 * (j 0).val := rfl
  have h1 : ((((cfg1.win 15).blk t15).view.emb j) 1).val = win1_15.index t15 (1 : Fin 2) * 1024 + 1 * (j 1).val := rfl
  have he : ((cfg1.win 15).blk t15).view.emb j = j := by
    funext a; apply Fin.ext
    match a with
    | ⟨0, _⟩ => show ((((cfg1.win 15).blk t15).view.emb j) 0).val = (j 0).val; rw [h0]; omega
    | ⟨1, _⟩ => show ((((cfg1.win 15).blk t15).view.emb j) 1).val = (j 1).val; rw [h1]; omega
  rw [he]
  rfl

theorem mem_blk15 (t : Fin cfg1.N) (i : S1x1024.Idx) :
    i ∈ ((cfg1.win 15).blk t).view.set ↔ ∀ a : Fin 2, win1_15.index t a * S1x1024.size a ≤ (i a).val ∧ (i a).val < win1_15.index t a * S1x1024.size a + S1x1024.size a := by
  show i ∈ ((View.whole main_v87_2).slice (win1_15.rect t)).set ↔ _
  rw [View.set_slice_whole, Rect.mem_set_unit]
  exact Iff.rfl

theorem cover15 (i : S1x1024.Idx) : ∃ t : Fin cfg1.N, (cfg1.win 15).flush t = true ∧ i ∈ ((cfg1.win 15).blk t).view.set := by
  refine ⟨t15, (flush1_15 t15).mpr rfl, ?_⟩
  rw [mem_blk15]
  obtain ⟨e0, e1⟩ := idx_facts15 t15
  have hi0 : (i 0).val < 1 := (i 0).isLt
  have hi1 : (i 1).val < 1024 := (i 1).isLt
  intro a
  match a with
  | ⟨0, _⟩ => show win1_15.index t15 (0 : Fin 2) * 1 ≤ (i 0).val ∧ (i 0).val < win1_15.index t15 (0 : Fin 2) * 1 + 1; omega
  | ⟨1, _⟩ => show win1_15.index t15 (1 : Fin 2) * 1024 ≤ (i 1).val ∧ (i 1).val < win1_15.index t15 (1 : Fin 2) * 1024 + 1024; omega

/-- THE ACCUMULATOR ARRAY of window 15 after the region's last write-back: the accumulation after the last point. -/
theorem final15 (V : Valuation τ sig (Elt F)) (B : Set (SemLoc sig × Ix)) (c : Dev nD) :
    (dat1 (Name := Name) (U := U) (Lvl := Lvl) V B c).arrAt 15 cfg1.N = q1Fin V :=
  (dat1 (Name := Name) (U := U) (Lvl := Lvl) V B c).arrAt_eq_of_cover 15 (q1Fin V) (fun t hf => flushed15_eq V B c t hf) cover15

/-! ## The region step with values -/

section StepVal

variable {UU : Type} [URA UU]

local notation "𝕄s" => MT nD τ sig (SparseCore.Cfg.HIx 1) (Elt F) ℕ UU ℕ

/-- THE VALUATION AFTER THE FIRST REGION: the valuation it was entered at, but for the three output arrays — the
    per-point output at `g13`, the accumulators at the accumulations after the last point. -/
def regAfter1 (V : Valuation τ sig (Elt F)) : Valuation τ sig (Elt F) :=
  Function.update (Function.update (Function.update V (Proc.devRef (τ := τ) .tc (Pipeline.arrRef spec1 13)) (g13 V))
    (Proc.devRef (τ := τ) .tc (Pipeline.arrRef spec1 14)) (s1Fin V)) (Proc.devRef (τ := τ) .tc (Pipeline.arrRef spec1 15)) (q1Fin V)

/-- The proof data by pipeline: the first pipeline's exact data read as relational data; value-free data elsewhere. -/
def rdVal1 (V : Valuation τ sig (Elt F)) (B : Set (SemLoc sig × SparseCore.Cfg.HIx 1)) :
    (p : Fin 4) → (c : Dev nD) → Pipeline.RDat τ (Elt F) (SparseCore.Cfg.HIx 1) ℕ UU ℕ (pcfg (F := F) p) c
  | ⟨0, _⟩, c => (dat1 V B c).toR
  | ⟨1, h⟩, c => rdAt V B ⟨1, h⟩ c
  | ⟨2, h⟩, c => rdAt V B ⟨2, h⟩ c
  | ⟨3, h⟩, c => rdAt V B ⟨3, h⟩ c

theorem rdVal1_zero (V : Valuation τ sig (Elt F)) (B : Set (SemLoc sig × SparseCore.Cfg.HIx 1)) (c : Dev nD) :
    rdVal1 (UU := UU) V B 0 c = (dat1 V B c).toR := rfl

/-- What the thread holds when the first region is left: every unscoped buffer at `regAfter1 V`, the generator
    register at some state, nothing owed, the recorded pairs those of `W` and pairs at the index `none`. -/
def regionPostVal1 (V : Valuation τ sig (Elt F)) (W : Waits sig (SparseCore.Cfg.HIx 1)) (c : Dev nD) : sProp 𝕄s :=
  iprop(StableHlo.held (c.tc : Thread nD τ) (Pipeline.ucRefs τ sig) (regAfter1 V) ∗ (∃ r, prngReg c r)
    ∗ ∃ W' : Waits sig (SparseCore.Cfg.HIx 1), ⌜∀ q ∈ W', q ∈ W ∨ q.2 = none⌝
      ∗ owes (c.tc : Thread nD τ) (0 : CellTallies nD τ sig (SparseCore.Cfg.HIx 1)) W')

/-- The relational data's arrays after the write-backs below `n` are the exact data's arrays at `arrAt · n`. -/
theorem arraysAt_toR1 {c : Dev nD} (dat : Dat τ (Elt F) (SparseCore.Cfg.HIx 1) ℕ UU ℕ cfg1 c) (n : Nat) :
    dat.toR.arraysAt n ⊢ dat.toR.arrays (fun w => dat.arrAt w n) := by
  have key : ∀ w : Fin cfg1.W,
      iprop(∃ G, ⌜dat.toR.ArrAt w n G⌝ ∗ ((cfg1.win w).arr.view.loc (c.tc : Thread nD τ) ↦[(cfg1.win w).arr.view.set]{dat.toR.share w} G))
        ⊢ (((cfg1.win w).arr.view.loc (c.tc : Thread nD τ) ↦[(cfg1.win w).arr.view.set]{dat.toR.share w} dat.arrAt w n) : sProp 𝕄s) := by
    intro w
    iintro ⟨%G, %hG, H⟩
    obtain rfl := (dat.toR_arrAt_iff w n G).mp hG
    iexact H
  unfold Pipeline.RDat.arraysAt Pipeline.RDat.arrays
  exact BI.bigSep_mono fun w _ => key w

/-- EXIT, the buffers' part: the exact data's arrays after the last write-back and the unscoped buffers that are no array
    of the pipeline at `V` are all the unscoped buffers held at `regAfter1 V`. -/
theorem arrays_join_val1 (V : Valuation τ sig (Elt F)) (B : Set (SemLoc sig × SparseCore.Cfg.HIx 1)) (c : Dev nD) :
    iprop((rdVal1 (UU := UU) V B 0 c).arraysAt cfg1.N
        ∗ Pipeline.unscopedRest (pcfg (F := F) 0).spec c (fun b => V (Proc.devRef (τ := τ) .tc b)))
      ⊢ (StableHlo.held (c.tc : Thread nD τ) (Pipeline.ucRefs τ sig) (regAfter1 V) : sProp 𝕄s) := by
  classical
  have hw := (launchAll 0).toP (Val := Elt F)
  have hshare : ∀ w, (rdVal1 (UU := UU) V B 0 c).share w = fullShare := fun w =>
    (dat1 (Name := ℕ) (U := UU) (Lvl := ℕ) V B c).share_full (fun _ => rfl) w
  have e1 := Pipeline.RDat.arrays_eq (pcfgs (F := F)) adm0 (rdVal1 (UU := UU) V B) 0 c hw.arr_whole hshare
    (fun w => (dat1 (Name := ℕ) (U := UU) (Lvl := ℕ) V B c).arrAt w cfg1.N)
  have hne : ∀ w w' : Fin 16, w ≠ w' → Proc.devRef (τ := τ) .tc (Pipeline.arrRef spec1 w) ≠ Proc.devRef (τ := τ) .tc (Pipeline.arrRef spec1 w') :=
    fun w w' h e => h (hw.win.arr_inj (Proc.devRef_injective _ e))
  have hval : ∀ w : Fin 16, regAfter1 V (Proc.devRef (τ := τ) .tc (Pipeline.arrRef spec1 w))
      = (dat1 (Name := ℕ) (U := UU) (Lvl := ℕ) V B c).arrAt w cfg1.N := by
    intro w
    by_cases h15 : w = 15
    · subst h15; exact (Function.update_self _ _ _).trans (final15 V B c).symm
    by_cases h14 : w = 14
    · subst h14
      exact (Function.update_of_ne (hne 14 15 (by decide)) _ _).trans ((Function.update_self _ _ _).trans (final14 V B c).symm)
    by_cases h13 : w = 13
    · subst h13
      exact (Function.update_of_ne (hne 13 15 (by decide)) _ _).trans ((Function.update_of_ne (hne 13 14 (by decide)) _ _).trans
        ((Function.update_self _ _ _).trans (final13 V B c).symm))
    · have hout : ∀ w : Fin 16, w ≠ 15 → w ≠ 14 → w ≠ 13 → (win1 w).isOut = false := by decide
      exact (Function.update_of_ne (hne w 15 h15) _ _).trans ((Function.update_of_ne (hne w 14 h14) _ _).trans
        ((Function.update_of_ne (hne w 13 h13) _ _).trans
          ((A1_eq V B c w).symm.trans ((dat1 (Name := ℕ) (U := UU) (Lvl := ℕ) V B c).arrAt_in w (hout w h15 h14 h13) _).symm)))
  have e2 : (bigSep Finset.univ fun w : Fin (pcfg (F := F) 0).W =>
          (((c.tc : Thread nD τ).loc (Pipeline.arrRef (pcfg (F := F) 0).spec w)) ↦{fullShare} regAfter1 V (Proc.devRef (τ := τ) .tc (Pipeline.arrRef (pcfg (F := F) 0).spec w)) : sProp 𝕄s))
        = bigSep Finset.univ fun w : Fin (pcfg (F := F) 0).W =>
          (((c.tc : Thread nD τ).loc (Pipeline.arrRef (pcfg (F := F) 0).spec w)) ↦{fullShare} (dat1 (Name := ℕ) (U := UU) (Lvl := ℕ) V B c).arrAt w cfg1.N : sProp 𝕄s) :=
    BI.bigSep_congr fun w _ => by
      rw [show regAfter1 V (Proc.devRef (τ := τ) .tc (Pipeline.arrRef (pcfg (F := F) 0).spec w))
        = (dat1 (Name := ℕ) (U := UU) (Lvl := ℕ) V B c).arrAt w cfg1.N from hval w]
  have e3 : (Pipeline.unscopedRest (pcfg (F := F) 0).spec c (fun b => regAfter1 V (Proc.devRef (τ := τ) .tc b)) : sProp 𝕄s)
        = Pipeline.unscopedRest (pcfg (F := F) 0).spec c (fun b => V (Proc.devRef (τ := τ) .tc b)) := by
    unfold Pipeline.unscopedRest
    exact BI.bigSep_congr fun b hb => by
      dsimp only
      unfold regAfter1
      rw [Function.update_of_ne fun e => (Finset.mem_sdiff.mp hb).2 (Finset.mem_image.mpr ⟨15, Finset.mem_univ _, (Proc.devRef_injective _ e).symm⟩),
        Function.update_of_ne fun e => (Finset.mem_sdiff.mp hb).2 (Finset.mem_image.mpr ⟨14, Finset.mem_univ _, (Proc.devRef_injective _ e).symm⟩),
        Function.update_of_ne fun e => (Finset.mem_sdiff.mp hb).2 (Finset.mem_image.mpr ⟨13, Finset.mem_univ _, (Proc.devRef_injective _ e).symm⟩)]
  rw [← Pipeline.unscopedBufs_held c (regAfter1 V), Pipeline.unscopedBufs_split (Pipeline.pin (pcfgs (F := F)) adm0) 0 hw.win.arr_unscoped hw.win.arr_inj c, e2, ← e1, e3]
  iintro ⟨Ha, Hr⟩
  isplitl [Ha]
  · iapply (arraysAt_toR1 (dat1 (Name := ℕ) (U := UU) (Lvl := ℕ) V B c) cfg1.N); iexact Ha
  iexact Hr

/-- The first region as the region rule's record over the exact data: entered as the value-free record is, left with
    every unscoped buffer at `regAfter1 V`. -/
def regionSegVal1 (V : Valuation τ sig (Elt F)) (W : Waits sig (SparseCore.Cfg.HIx 1)) :
    Pipeline.RDat.RegionSeg (pcfgs (F := F)) adm0 (rdVal1 (UU := UU) V (recOf W)) (none : SparseCore.Cfg.HIx 1)
      (defs₀ (F := F)) Variants.none (sc (F := F)).L ((sc (F := F)).lev (nD := nD)) (0 : Fin 4) where
  win := ((launchAll 0).toP (Val := Elt F)).win.to₀
  block_pos := ((launchAll 0).toP (Val := Elt F)).block_pos
  stage_whole := ((launchAll 0).toP (Val := Elt F)).stage_whole
  K := PEmpty
  osem := fun k => k.elim
  ho := Pipeline.OwnSemFacts.none _
  hbody := fun c => (body_obligation1 (Name := ℕ) (U := UU) (Lvl := ℕ) V (recOf W) none c).loose.toR
  hwaits := fun c => Pipeline.RDat.hwaits_of_owed_zero (pcfgs (F := F)) adm0 _ _ _ _ 0 (fun _ _ => rfl) c
  pre := regionPre V W
  post := regionPostVal1 V W
  X := fun c => iprop(∃ r, prngReg c r)
  Y := fun c => iprop(∃ r, prngReg c r)
  Z := fun c => Pipeline.unscopedRest (pcfg (F := F) 0).spec c (fun b => V (Proc.devRef (τ := τ) .tc b))
  hentry := fun c => by
    have h := Pipeline.RDat.arrays_of_unscopedBufs (pcfgs (F := F)) adm0 (rdVal1 (UU := UU) V (recOf W)) (p := 0)
      ((launchAll 0).toP (Val := Elt F)).win ((launchAll 0).toP (Val := Elt F)).arr_whole c
      (fun w => (dat1 (Name := ℕ) (U := UU) (Lvl := ℕ) V (recOf W) c).share_full (fun _ => rfl) w)
      (fun b => V (Proc.devRef (τ := τ) .tc b)) (fun w => rfl)
    unfold regionPre
    rw [← Pipeline.unscopedBufs_held c V]
    iintro ⟨⟨Hub, Hp, HW⟩, -, -⟩
    imodintro
    ihave H := h $$ Hub
    icases H with ⟨Harr, Hrest⟩
    isplitl [Harr]; · iexact Harr
    isplitr
    · unfold Pipeline.prefHeld
      rw [show (Finset.univ : Finset (Fin ((pcfgs (F := F) 0).pre.K))) = ∅ from rfl, BI.bigSep_empty]
      iempintro
    isplitl [HW]
    · iexists W; isplitr; · ipureintro; exact fun q hq => Or.inl (Or.inl (Finset.mem_coe.mp hq))
      iexact HW
    isplitl [Hp]; · iexact Hp
    iexact Hrest
  hin := fun c => by
    show _ ⊢ iprop(Pipeline.scopedRest spec1 c ∗ ∃ r, prngReg c r)
    iintro ⟨HX, -, HR⟩
    isplitl [HR]; · iexact HR
    iexact HX
  hout := fun c => by
    show iprop(Pipeline.scopedRest spec1 c ∗ ∃ r, prngReg c r) ⊢ _
    rw [Pipeline.ownSems0_none]
    iintro ⟨HR, HP⟩
    isplitl [HP]; · iexact HP
    isplitr; · iempintro
    iexact HR
  hexit := fun c => by
    unfold regionPostVal1
    iintro ⟨Ha, ⟨%W', %hW', Ho⟩, HY, HZ⟩
    imodintro
    isplitl [Ha HZ]
    · iapply (arrays_join_val1 (UU := UU) V (recOf W) c)
      isplitl [Ha] <;> iassumption
    isplitl [HY]; · iexact HY
    iexists W'
    isplitr
    · ipureintro
      intro q hq
      rcases hW' (Finset.mem_coe.mpr hq) with h | ⟨w, s, rfl⟩
      · exact h
      · exact Or.inr rfl
    iexact Ho

set_option maxHeartbeats 1000000 in
/-- THE FIRST REGION'S STEP WITH VALUES inside the SparseCore launch's obligation for @main: as the value-free step, but
    the continuation receives every unscoped buffer at the ONE valuation `regAfter1 V`. -/
theorem region_step_val1
    (EP : Emb (Rounds.URounds (GSem nD τ sig) Unit) 𝕄s) [EP.LandsIn (upEmb : UEmb _ 𝕄s)]
    (d : Dev nD) (V : Valuation τ sig (Elt F)) (W : Waits sig (SparseCore.Cfg.HIx 1)) {α : Type}
    (k : PUnit → Prog (TpuEff nD τ sig (Elt F) (SparseCore.Sig (Pipeline.Sig Λ₀ (Fin 4) fun p => (pcfgs (F := F) p).Adm) 1) .tc) α)
    (Q : α → sProp 𝕄s) :
    iprop((∀ (W' : Waits sig (SparseCore.Cfg.HIx 1)), ⌜∀ q ∈ W', q ∈ W ∨ q.2 = none⌝ -∗
            iprop(boundary (SparseCore.T d : Thread nD τ) ∗ StableHlo.held (SparseCore.T d : Thread nD τ) (Pipeline.ucRefs τ sig) (regAfter1 V) ∗ (∃ r, prngReg d r)
              ∗ owes (SparseCore.T d : Thread nD τ) (0 : CellTallies nD τ sig (SparseCore.Cfg.HIx 1)) W') -∗
            wp frame (wpE ((sc (F := F)).defs (Pipeline.defs (pcfgs (F := F)) (defs₀ (F := F)))) Variants.none.lift (SparseCore.T d : Thread nD τ) none) Set.univ (k ⟨⟩) Q)
        ∗ boundary (SparseCore.T d : Thread nD τ) ∗ StableHlo.held (SparseCore.T d : Thread nD τ) (Pipeline.ucRefs τ sig) V ∗ (∃ r, prngReg d r)
        ∗ owes (SparseCore.T d : Thread nD τ) (0 : CellTallies nD τ sig (SparseCore.Cfg.HIx 1)) W
        ∗ levAts (sc (F := F)).L ((sc (F := F)).lev (nD := nD))
        ∗ Pipeline.cellsGhost (Pipeline.pin (pcfgs (F := F)) adm0) EP 0 d ∗ Pipeline.toksInit (Pipeline.pin (pcfgs (F := F)) adm0) EP 0 d)
      ⊢ wp frame (wpE ((sc (F := F)).defs (Pipeline.defs (pcfgs (F := F)) (defs₀ (F := F)))) Variants.none.lift (SparseCore.T d : Thread nD τ) none) Set.univ
          (Prog.lift (.customCall (SparseCore.inner (Pipeline.entry (0 : Fin 4))) ()) >>= k) Q := by
  have key := region_lift (pcfgs (F := F)) adm0 (rdVal1 (UU := UU) V (recOf W))
    (((launchAll 0).toP (Val := Elt F)).cellOf_inj adm0) EP (defs₀ (F := F)) Variants.none (sc (F := F))
    (regionSegVal1 V W) d k Q
  refine BIBase.Entails.trans ?_ key
  iintro ⟨Hk, Hb, Hh, Hp, Ho, Hlev, Hg, Ht⟩
  isplitl [Hk]
  · iintro ⟨Hb, Hpost⟩
    ihave Hpost' := (show (regionSegVal1 (UU := UU) V W).post d ⊢ regionPostVal1 V W d from .rfl) $$ Hpost
    unfold regionPostVal1
    icases Hpost' with ⟨Hh, Hp, ⟨%W', %hW', Ho⟩⟩
    ispecialize Hk $$ %W' %hW'
    iapply Hk
    isplitl [Hb]; · iexact Hb
    isplitl [Hh]; · iexact Hh
    isplitl [Hp]; · iexact Hp
    iexact Ho
  isplitl [Hb]; · iexact Hb
  isplitl [Hh Hp Ho]
  · iapply (show regionPre V W d ⊢ (regionSegVal1 (UU := UU) V W).pre d from .rfl)
    unfold regionPre
    isplitl [Hh]; · iexact Hh
    isplitl [Hp]; · iexact Hp
    iexact Ho
  isplitl [Hlev]; · iexact Hlev
  isplitl [Hg] <;> iassumption

end StepVal

end Cert.KernelIdeal.RegionVal

end
-- ==== Proof.RefSpec.lean ====
/-
  What the reference computes, index by index, as a function of its 35 argument arrays at the ideal values (floats
  extended reals, operations exact). Five embedding rows are read at an index word: a negative word counts from the
  table's end, then it is read signed and clamped into the table. A dense layer is the sum over its inner axis of the
  products, plus the bias. The crossed feature is the dense layer of the outer product of the user row and the genre
  vector, flattened row-major. The nine feature blocks are laid side by side. A batch-norm block centres each column at
  its mean over the 16384 rows (the sum from the zero word, divided by the count word), divides by the square root of
  the column's variance (the sum of the centred squares from the zero word, divided by the count less the zero degrees
  of freedom) plus the epsilon word, scales, shifts and clips below at the zero word; the first and third blocks add a
  projection of their input, the second adds its input. The result is the last dense layer's one column.
-/
import Idealize.ShloMosaic.PureOps.Ideal
import Idealize.ShloMosaic.Lib.ValueIdx

noncomputable section

open scoped BigOperators

namespace Cert.Spec

open Idealize.ShloMosaic Idealize.ShloMosaic.ValueIdx

/-- A vector, a matrix and an index vector over literal extents, at the ideal values. -/
abbrev A1 (n : Nat) : Type := (⟨1, ![n]⟩ : Shape).Idx → EReal
abbrev A2 (m n : Nat) : Type := (⟨2, ![m, n]⟩ : Shape).Idx → EReal
abbrev I1 (n : Nat) : Type := (⟨1, ![n]⟩ : Shape).Idx → BitVec 32

/-! ## The literal words -/

/-- The f32 word of zero: every sum's initial value, and the floor of a rectifier. -/
def zero : EReal := Ideal.ofBits .f32 0x00000000#32
/-- The f32 word of 16384, the number of rows. -/
def count : EReal := Ideal.ofBits .f32 0x46800000#32
/-- The f32 word 0x3727C5AC (about 1e-5) added to a variance. -/
def eps : EReal := Ideal.ofBits .f32 0x3727C5AC#32
/-- The variance's degrees of freedom: the integer word 0 converted. -/
def ddof : EReal := FloatOps.sitofp (F := Ideal) .f32 (0#32 : BitVec 32)

/-! ## An embedding row -/

/-- An index word into a table of `N` rows, as the reference normalizes it: a negative word has `N` added. -/
def wrap (N : Nat) (w : BitVec 32) : BitVec 32 :=
  Scalar.select (IntOp.cmpi .slt w 0#32) (IntOp.addi w (BitVec.ofNat 32 N)) w

/-- The row the gather reads: the normalized word read signed and clamped into `[0, N - 1]`. -/
def row (N : Nat) (w : BitVec 32) : Nat := min (wrap N w).toInt.toNat (N - 1)

theorem row_lt {N : Nat} (hN : 0 < N) (w : BitVec 32) : row N w < N := by unfold row; omega

/-- Row `row N (idx b)` of the table, for every one of the 16384 index words. -/
def embed {N D : Nat} (hN : 0 < N) (tbl : A2 N D) (idx : I1 16384) : A2 16384 D :=
  fun i => tbl (ix2 ⟨row N (idx (ix1 (i 0))), row_lt hN _⟩ (i 1))

def u (embUser : A2 100000 64) (userId : I1 16384) : A2 16384 64 := embed (by decide) embUser userId
def ge (embGender : A2 4 8) (gender : I1 16384) : A2 16384 8 := embed (by decide) embGender gender
def ag (embAge : A2 8 8) (age : I1 16384) : A2 16384 8 := embed (by decide) embAge age
def oc (embOcc : A2 32 16) (occupation : I1 16384) : A2 16384 16 := embed (by decide) embOcc occupation
def mv (embMovie : A2 100000 64) (movieId : I1 16384) : A2 16384 64 := embed (by decide) embMovie movieId

/-! ## A dense layer -/

/-- `x W + b`: at (r, c) the sum over the inner axis of the products, plus the bias at c. -/
def dense {M K N : Nat} (x : A2 M K) (W : A2 K N) (b : A1 N) : A2 M N :=
  fun i => (∑ k : Fin K, x (ix2 (i 0) k) * W (ix2 k (i 1))) + b (ix1 (i 1))

/-- The genre vector. -/
def gv (genres : A2 16384 19) (gW : A2 19 32) (gb : A1 32) : A2 16384 32 := dense genres gW gb

/-- The outer product of a user row and a genre vector, flattened row-major: column `k` is entry (k / 32, k % 32). -/
def outer (u : A2 16384 64) (gv : A2 16384 32) : A2 16384 2048 :=
  fun i => u (ix2 (i 0) ⟨(i 1).val / 32, by have := idx2_lt1 i; omega⟩) * gv (ix2 (i 0) ⟨(i 1).val % 32, Nat.mod_lt _ (by decide)⟩)

/-- The crossed feature. -/
def cross (u : A2 16384 64) (gv : A2 16384 32) (ugW : A2 2048 32) (ugb : A1 32) : A2 16384 32 := dense (outer u gv) ugW ugb

/-! ## The feature row -/

/-- The nine blocks side by side: columns 0-63 user, 64-71 gender, 72-79 age, 80-95 occupation, 96-159 movie,
    160-191 genre vector, 192 rating, 193 implicit, 194-225 crossed feature. -/
def x (u : A2 16384 64) (ge ag : A2 16384 8) (oc : A2 16384 16) (mv : A2 16384 64) (gv : A2 16384 32)
    (rating implicit : A1 16384) (cross : A2 16384 32) : A2 16384 226 :=
  fun i =>
    if h : (i 1).val < 64 then u (ix2 (i 0) ⟨(i 1).val, h⟩)
    else if h : (i 1).val < 72 then ge (ix2 (i 0) ⟨(i 1).val - 64, by omega⟩)
    else if h : (i 1).val < 80 then ag (ix2 (i 0) ⟨(i 1).val - 72, by omega⟩)
    else if h : (i 1).val < 96 then oc (ix2 (i 0) ⟨(i 1).val - 80, by omega⟩)
    else if h : (i 1).val < 160 then mv (ix2 (i 0) ⟨(i 1).val - 96, by omega⟩)
    else if h : (i 1).val < 192 then gv (ix2 (i 0) ⟨(i 1).val - 160, by omega⟩)
    else if h : (i 1).val < 193 then rating (ix1 (i 0))
    else if h : (i 1).val < 194 then implicit (ix1 (i 0))
    else cross (ix2 (i 0) ⟨(i 1).val - 194, by have := idx2_lt1 i; omega⟩)

/-! ## A batch-norm block -/

/-- A column's mean over the rows: the sum from the zero word, divided by the count word. -/
def colMean {M N : Nat} (y : A2 M N) : A1 N :=
  fun j => Ideal.div (zero + ∑ b : Fin M, y (ix2 b (j 0))) count

/-- A column's variance: the sum of the centred squares from the zero word, divided by the count less the degrees of
    freedom (the reference guards this quotient by "count less degrees of freedom is positive", which holds). -/
def colVar {M N : Nat} (y : A2 M N) : A1 N :=
  fun j => Ideal.div
    (zero + ∑ b : Fin M, (y (ix2 b (j 0)) - colMean y (ix1 (j 0))) * (y (ix2 b (j 0)) - colMean y (ix1 (j 0))))
    (count - ddof)

/-- Normalize, scale, shift, clip below at zero. -/
def normRelu {M N : Nat} (y : A2 M N) (g beta : A1 N) : A2 M N :=
  fun i => max (Ideal.div (y i - colMean y (ix1 (i 1))) (Ideal.sqrt (colVar y (ix1 (i 1)) + eps)) * g (ix1 (i 1))
                + beta (ix1 (i 1))) zero

/-! ## The three blocks and the output -/

def y1 (x : A2 16384 226) (b1W : A2 226 1024) (b1b : A1 1024) : A2 16384 1024 := dense x b1W b1b
def mean1 (y1 : A2 16384 1024) : A1 1024 := colMean y1
def var1 (y1 : A2 16384 1024) : A1 1024 := colVar y1
/-- The first block: the normalized rectified layer plus a projection of the feature row. -/
def h1 (y1 : A2 16384 1024) (b1g b1beta : A1 1024) (x : A2 16384 226) (b1pW : A2 226 1024) (b1pb : A1 1024) : A2 16384 1024 :=
  fun i => normRelu y1 b1g b1beta i + dense x b1pW b1pb i

def y2 (h1 : A2 16384 1024) (b2W : A2 1024 1024) (b2b : A1 1024) : A2 16384 1024 := dense h1 b2W b2b
def mean2 (y2 : A2 16384 1024) : A1 1024 := colMean y2
def var2 (y2 : A2 16384 1024) : A1 1024 := colVar y2
/-- The second block: the normalized rectified layer plus its input. -/
def h2 (y2 : A2 16384 1024) (b2g b2beta : A1 1024) (h1 : A2 16384 1024) : A2 16384 1024 :=
  fun i => normRelu y2 b2g b2beta i + h1 i

def y3 (h2 : A2 16384 1024) (b3W : A2 1024 512) (b3b : A1 512) : A2 16384 512 := dense h2 b3W b3b
def mean3 (y3 : A2 16384 512) : A1 512 := colMean y3
def var3 (y3 : A2 16384 512) : A1 512 := colVar y3
/-- The third block: the normalized rectified layer plus a projection of its input. -/
def h3 (y3 : A2 16384 512) (b3g b3beta : A1 512) (h2 : A2 16384 1024) (b3pW : A2 1024 512) (b3pb : A1 512) : A2 16384 512 :=
  fun i => normRelu y3 b3g b3beta i + dense h2 b3pW b3pb i

/-- The last dense layer, one column. -/
def logits (h3 : A2 16384 512) (outW : A2 512 1) (outb : A1 1) : A2 16384 1 := dense h3 outW outb
/-- Its column as a vector. -/
def out (logits : A2 16384 1) : A1 16384 := fun j => logits (ix2 (j 0) 0)

/-- The feature row from the arguments. -/
def xOf (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) : A2 16384 226 :=
  x (u embUser userId) (ge embGender gender) (ag embAge age) (oc embOcc occupation) (mv embMovie movieId) (gv genres gW gb)
    rating implicit (cross (u embUser userId) (gv genres gW gb) ugW ugb)

/-- THE RESULT, from the 35 arguments in the program's order. -/
def refOut (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32)
    (b1W : A2 226 1024) (b1b b1g b1beta : A1 1024) (b1pW : A2 226 1024) (b1pb : A1 1024)
    (b2W : A2 1024 1024) (b2b b2g b2beta : A1 1024)
    (b3W : A2 1024 512) (b3b b3g b3beta : A1 512) (b3pW : A2 1024 512) (b3pb : A1 512)
    (outW : A2 512 1) (outb : A1 1) : A1 16384 :=
  let X := xOf userId gender age occupation movieId genres rating implicit embUser embGender embAge embOcc embMovie gW gb ugW ugb
  let H1 := h1 (y1 X b1W b1b) b1g b1beta X b1pW b1pb
  let H2 := h2 (y2 H1 b2W b2b) b2g b2beta H1
  let H3 := h3 (y3 H2 b3W b3b) b3g b3beta H2 b3pW b3pb
  out (logits H3 outW outb)

/-! ## Two facts about the literal words -/

/-- The degrees of freedom are zero. -/
theorem ddof_eq : ddof = 0 := by
  show (((0#32 : BitVec 32).toInt : ℝ) : EReal) = 0
  norm_num

end Cert.Spec

end
-- ==== Proof.KSpec.lean ====
/-
  What the kernel computes, stage by stage and index by index, as a function of its 35 argument arrays at the ideal values
  (floats extended reals, operations exact; a change of float format is the identity there, so none is written). The host
  prepares the gather tables, the index list, the reshaped, padded and permuted weights; a gather reads three 128-wide rows
  per example; the first region builds the 256-wide feature row and the first layer's column sums and sums of squares; each
  batch-norm block turns a column's sum and sum of squares into a scale and a shift; the second and third regions apply them,
  rectify, add the skip path and take the next layer with its column statistics; the last region applies the third block
  and the output layer. A matrix product is the accumulator word (zero) plus the sum over the inner axis of the products,
  as the matrix unit's operation reads; a column statistic is the word the first grid point stores (zero) plus the sum over
  all 16384 rows; a lane sum is the plain sum over the lanes.
-/
import proofs.«214388_g48842368090541_cont_8to1c4_19_37_alg».proof.Proof.RefSpec
import Idealize.ShloMosaic.PureOps.Ideal
import Idealize.ShloMosaic.Lib.ValueIdx

noncomputable section

open scoped BigOperators

namespace Cert.Spec

open Idealize.ShloMosaic Idealize.ShloMosaic.ValueIdx

/-! ## The literal words -/

/-- The f32 word of 2⁻¹⁴, the reciprocal of the number of rows. -/
def c14 : EReal := Ideal.ofBits .f32 0x38800000#32
/-- The f32 word of one: a selector matrix's entry. -/
def one : EReal := Ideal.ofBits .f32 0x3F800000#32

/-! ## What the host prepares -/

/-- The two big tables side by side: columns 0–63 the first, 64–127 the second. -/
def kBig (embUser embMovie : A2 100000 64) : A2 100000 128 :=
  fun i => if h : (i 1).val < 64 then embUser (ix2 (i 0) ⟨(i 1).val, h⟩)
    else embMovie (ix2 (i 0) ⟨(i 1).val - 64, by have := idx2_lt1 i; omega⟩)

/-- The three small tables combined over the packed index `g`: row `g / 256` of the first (8 columns), row `(g / 32) % 8`
    of the second (8 columns), row `g % 32` of the third (16 columns), then 96 zeros. -/
def kCombo (embGender : A2 4 8) (embAge : A2 8 8) (embOcc : A2 32 16) : A2 1024 128 :=
  fun i =>
    if h : (i 1).val < 8 then embGender (ix2 ⟨(i 0).val / 256, by have := idx2_lt0 i; omega⟩ ⟨(i 1).val, h⟩)
    else if h : (i 1).val < 16 then embAge (ix2 ⟨((i 0).val / 32) % 8, Nat.mod_lt _ (by decide)⟩ ⟨(i 1).val - 8, by omega⟩)
    else if h : (i 1).val < 32 then embOcc (ix2 ⟨(i 0).val % 32, Nat.mod_lt _ (by decide)⟩ ⟨(i 1).val - 16, by omega⟩)
    else zero

/-- The packed small index: gender · 256 + age · 32 + occupation, on 32-bit words. -/
def kPacked (gender age occupation : I1 16384) : I1 16384 :=
  fun i => IntOp.addi (IntOp.addi (IntOp.muli (gender i) 256#32) (IntOp.muli (age i) 32#32)) (occupation i)

/-- The index list: the user ids, then the movie ids, then the packed small indices. -/
def kIdx3 (userId movieId gender age occupation : I1 16384) : I1 49152 :=
  fun j =>
    if h : (j 0).val < 16384 then userId (ix1 ⟨(j 0).val, h⟩)
    else if h : (j 0).val < 32768 then movieId (ix1 ⟨(j 0).val - 16384, by omega⟩)
    else kPacked gender age occupation (ix1 ⟨(j 0).val - 32768, by have hj : (j 0).val < 49152 := (j 0).isLt; omega⟩)

/-- The 16384 words of the index list from word `off` on. -/
def kIdxSlice (idx3 : I1 49152) (off : Nat) (hoff : off + 16384 ≤ 49152) : I1 16384 :=
  fun b => idx3 (ix1 ⟨off + (b 0).val, by have hb : (b 0).val < 16384 := (b 0).isLt; omega⟩)

/-- The gather: row `idx b` (read unsigned, as it is: the precondition keeps it in range; zero off range) of the table. -/
def gatherRows {N : Nat} (tbl : A2 N 128) (idx : I1 16384) : A2 16384 128 :=
  fun i => if h : (idx (ix1 (i 0))).toNat < N then tbl (ix2 ⟨(idx (ix1 (i 0))).toNat, h⟩ (i 1)) else zero

def kU128 (big : A2 100000 128) (idx3 : I1 49152) : A2 16384 128 := gatherRows big (kIdxSlice idx3 0 (by decide))
def kM128 (big : A2 100000 128) (idx3 : I1 49152) : A2 16384 128 := gatherRows big (kIdxSlice idx3 16384 (by decide))
def kC128 (combo : A2 1024 128) (idx3 : I1 49152) : A2 16384 128 := gatherRows combo (kIdxSlice idx3 32768 (by decide))

/-- The cross weights reshaped to 64 rows of 1024: entry (i, c) is row `32 i + c / 32`, column `c % 32`. -/
def kT (ugW : A2 2048 32) : A2 64 1024 :=
  fun i => ugW (ix2 ⟨32 * (i 0).val + (i 1).val / 32, by have := idx2_lt0 i; have := idx2_lt1 i; omega⟩
    ⟨(i 1).val % 32, Nat.mod_lt _ (by decide)⟩)

/-- The first selector: row r selects column c when r is lane `32 + c / 32`. -/
def kQw : A2 128 1024 :=
  fun i => if 32 ≤ (i 0).val ∧ (i 0).val < 64 ∧ (i 0).val - 32 = (i 1).val / 32 then one else zero

/-- The second selector: column c lands on lane n when n is lane `64 + c % 32`. -/
def kPw : A2 1024 128 :=
  fun i => if 64 ≤ (i 1).val ∧ (i 1).val < 96 ∧ (i 0).val % 32 = (i 1).val - 64 then one else zero

/-- The genre weights at lanes 32–63 of 128, zero elsewhere. -/
def kGWw (gW : A2 19 32) : A2 19 128 :=
  fun i => if h : 32 ≤ (i 1).val ∧ (i 1).val < 64 then gW (ix2 (i 0) ⟨(i 1).val - 32, by omega⟩) else zero

/-- The genre bias at lanes 32–63 of a one-row 128-wide array. -/
def kGbw (gb : A1 32) : A2 1 128 :=
  fun i => if h : 32 ≤ (i 1).val ∧ (i 1).val < 64 then gb (ix1 ⟨(i 1).val - 32, by omega⟩) else zero

/-- The cross bias at lanes 64–95 of a one-row 128-wide array. -/
def kUgbw (ugb : A1 32) : A2 1 128 :=
  fun i => if h : 64 ≤ (i 1).val ∧ (i 1).val < 96 then ugb (ix1 ⟨(i 1).val - 64, by omega⟩) else zero

/-- The first layer's weight rows permuted to the 256-wide feature row's order: rows 0–63 stay; 64–127 are 96–159;
    128–159 are 64–95; 160–191 stay; 192–223 are 194–225; 224 and 225 are both row 192; 226 is row 193; 227–255 zero. -/
def kPermW (W : A2 226 1024) : A2 256 1024 :=
  fun i =>
    if h : (i 0).val < 64 then W (ix2 ⟨(i 0).val, by omega⟩ (i 1))
    else if h : (i 0).val < 128 then W (ix2 ⟨(i 0).val + 32, by omega⟩ (i 1))
    else if h : (i 0).val < 160 then W (ix2 ⟨(i 0).val - 64, by omega⟩ (i 1))
    else if h : (i 0).val < 192 then W (ix2 ⟨(i 0).val, by omega⟩ (i 1))
    else if h : (i 0).val < 224 then W (ix2 ⟨(i 0).val + 2, by omega⟩ (i 1))
    else if h : (i 0).val < 226 then W (ix2 ⟨192, by decide⟩ (i 1))
    else if h : (i 0).val < 227 then W (ix2 ⟨193, by decide⟩ (i 1))
    else zero

/-- The output weights as a vector. -/
def kOw (outW : A2 512 1) : A1 512 := fun k => outW (ix2 (k 0) 0)

/-! ## A matrix product and the column statistics -/

/-- The matrix unit's product: the accumulator word (zero) plus the sum over the inner axis of the products. -/
def kdot {M K N : Nat} (x : A2 M K) (W : A2 K N) : A2 M N :=
  fun i => zero + ∑ k : Fin K, x (ix2 (i 0) k) * W (ix2 k (i 1))

/-- A column's sum over the 16384 rows, from the zero the first grid point stores. -/
def kS {N : Nat} (y : A2 16384 N) : A1 N := fun j => zero + ∑ b : Fin 16384, y (ix2 b (j 0))

/-- A column's sum of squares (each value times itself) over the 16384 rows, from the zero the first grid point stores. -/
def kQ {N : Nat} (y : A2 16384 N) : A1 N := fun j => zero + ∑ b : Fin 16384, y (ix2 b (j 0)) * y (ix2 b (j 0))

/-! ## The first region -/

/-- The genre product, padded: lanes 32–63 of 128. -/
def kGvw (genres : A2 16384 19) (GWw : A2 19 128) (gbw : A2 1 128) : A2 16384 128 :=
  fun i => kdot genres GWw i + gbw (ix2 0 (i 1))

/-- The first 64 columns of the first gathered row. -/
def kUcols (u128 : A2 16384 128) : A2 16384 64 := fun i => u128 (ix2 (i 0) ⟨(i 1).val, by have := idx2_lt1 i; omega⟩)

def kTmp (ucols : A2 16384 64) (T : A2 64 1024) : A2 16384 1024 := kdot ucols T
def kGvr (gvw : A2 16384 128) (Qw : A2 128 1024) : A2 16384 1024 := kdot gvw Qw

/-- The cross term, padded: the elementwise product of the two against the second selector, plus the padded bias. -/
def kCrossW (tmp gvr : A2 16384 1024) (Pw : A2 1024 128) (ugbw : A2 1 128) : A2 16384 128 :=
  fun i => (zero + ∑ k : Fin 1024, (tmp (ix2 (i 0) k) * gvr (ix2 (i 0) k)) * Pw (ix2 k (i 1))) + ugbw (ix2 0 (i 1))

/-- The two scalars' block of 128 lanes: 96 zeros, the rating, the rating less itself, the implicit flag, 29 zeros. -/
def kRtBlock (rating implicit : A1 16384) : A2 16384 128 :=
  fun i =>
    if (i 1).val < 96 then zero
    else if (i 1).val = 96 then rating (ix1 (i 0))
    else if (i 1).val = 97 then rating (ix1 (i 0)) - rating (ix1 (i 0))
    else if (i 1).val = 98 then implicit (ix1 (i 0))
    else zero

/-- The third 128-lane register: the combined small embeddings, the genre product, the cross term and the scalars' block,
    added in that order. -/
def kReg1 (c128 gvw crossW rtblock : A2 16384 128) : A2 16384 128 :=
  fun i => ((c128 i + gvw i) + crossW i) + rtblock i

/-- The 256-wide feature row: columns 0–63 of the first gathered row, columns 64–127 of the second, the register. -/
def kX16 (u128 m128 reg1 : A2 16384 128) : A2 16384 256 :=
  fun i =>
    if h : (i 1).val < 64 then u128 (ix2 (i 0) ⟨(i 1).val, by omega⟩)
    else if h : (i 1).val < 128 then m128 (ix2 (i 0) ⟨(i 1).val, h⟩)
    else reg1 (ix2 (i 0) ⟨(i 1).val - 128, by have := idx2_lt1 i; omega⟩)

def kY1 (x16 : A2 16384 256) (W1b : A2 256 1024) : A2 16384 1024 := kdot x16 W1b
def kS1 (y1 : A2 16384 1024) : A1 1024 := kS y1
def kQ1 (y1 : A2 16384 1024) : A1 1024 := kQ y1

/-! ## A batch-norm block's scale and shift -/

def kMu {N : Nat} (s : A1 N) : A1 N := fun j => s j * c14
def kVar {N : Nat} (q mu : A1 N) : A1 N := fun j => q j * c14 - mu j * mu j
def kScale {N : Nat} (var g : A1 N) : A1 N := fun j => Ideal.rsqrt (var j + eps) * g j
def kShift {N : Nat} (beta mu scale : A1 N) : A1 N := fun j => beta j - mu j * scale j

/-- Scale, shift, clip below at zero. -/
def kNormRelu {M N : Nat} (y : A2 M N) (scale shift : A1 N) : A2 M N :=
  fun i => max (y i * scale (ix1 (i 1)) + shift (ix1 (i 1))) zero

/-! ## The second, third and fourth regions -/

def kY1p (x16 : A2 16384 256) (pW1b : A2 256 1024) (pb1 : A1 1024) : A2 16384 1024 :=
  fun i => kdot x16 pW1b i + pb1 (ix1 (i 1))
def kH1 (y1 : A2 16384 1024) (scale shift : A1 1024) (y1p : A2 16384 1024) : A2 16384 1024 :=
  fun i => kNormRelu y1 scale shift i + y1p i
def kY2 (h1 : A2 16384 1024) (b2W : A2 1024 1024) : A2 16384 1024 := kdot h1 b2W
def kS2 (y2 : A2 16384 1024) : A1 1024 := kS y2
def kQ2 (y2 : A2 16384 1024) : A1 1024 := kQ y2

def kH2 (y2 : A2 16384 1024) (scale shift : A1 1024) (h1 : A2 16384 1024) : A2 16384 1024 :=
  fun i => kNormRelu y2 scale shift i + h1 i
def kY3 (h2 : A2 16384 1024) (b3W : A2 1024 512) : A2 16384 512 := kdot h2 b3W
def kY3p (h2 : A2 16384 1024) (b3pW : A2 1024 512) (pb3 : A1 512) : A2 16384 512 :=
  fun i => kdot h2 b3pW i + pb3 (ix1 (i 1))
/-- The projection's share of the output: the lane sum (no initial word) of the projection times the output weights. -/
def kLo3 (y3p : A2 16384 512) (ow : A1 512) : A1 16384 := fun j => ∑ k : Fin 512, y3p (ix2 (j 0) k) * ow (ix1 k)
def kS3 (y3 : A2 16384 512) : A1 512 := kS y3
def kQ3 (y3 : A2 16384 512) : A1 512 := kQ y3

def kH3r (y3 : A2 16384 512) (scale shift : A1 512) : A2 16384 512 := kNormRelu y3 scale shift
/-- The output: the lane sum of the rectified block times the output weights, plus the projection's share, plus the bias. -/
def kOut (h3r : A2 16384 512) (ow : A1 512) (lo3 : A1 16384) (ob : A1 1) : A1 16384 :=
  fun j => ((∑ k : Fin 512, h3r (ix2 (j 0) k) * ow (ix1 k)) + lo3 j) + ob (ix1 0)

/-! ## The whole -/

/-- The 256-wide feature row from the arguments. -/
def kX16Of (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) : A2 16384 256 :=
  let idx3 := kIdx3 userId movieId gender age occupation
  let big := kBig embUser embMovie
  let u128 := kU128 big idx3
  let m128 := kM128 big idx3
  let c128 := kC128 (kCombo embGender embAge embOcc) idx3
  let gvw := kGvw genres (kGWw gW) (kGbw gb)
  let crossW := kCrossW (kTmp (kUcols u128) (kT ugW)) (kGvr gvw kQw) kPw (kUgbw ugb)
  kX16 u128 m128 (kReg1 c128 gvw crossW (kRtBlock rating implicit))

/-- THE KERNEL'S RESULT, from the 35 arguments in the program's order (the three layer biases before a batch norm are
    not read). -/
def kerOut (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32)
    (b1W : A2 226 1024) (b1b b1g b1beta : A1 1024) (b1pW : A2 226 1024) (b1pb : A1 1024)
    (b2W : A2 1024 1024) (b2b b2g b2beta : A1 1024)
    (b3W : A2 1024 512) (b3b b3g b3beta : A1 512) (b3pW : A2 1024 512) (b3pb : A1 512)
    (outW : A2 512 1) (outb : A1 1) : A1 16384 :=
  let X := kX16Of userId gender age occupation movieId genres rating implicit embUser embGender embAge embOcc embMovie gW gb ugW ugb
  let Y1 := kY1 X (kPermW b1W)
  let mu1 := kMu (kS1 Y1)
  let sc1 := kScale (kVar (kQ1 Y1) mu1) b1g
  let H1 := kH1 Y1 sc1 (kShift b1beta mu1 sc1) (kY1p X (kPermW b1pW) b1pb)
  let Y2 := kY2 H1 b2W
  let mu2 := kMu (kS2 Y2)
  let sc2 := kScale (kVar (kQ2 Y2) mu2) b2g
  let H2 := kH2 Y2 sc2 (kShift b2beta mu2 sc2) H1
  let Y3 := kY3 H2 b3W
  let mu3 := kMu (kS3 Y3)
  let sc3 := kScale (kVar (kQ3 Y3) mu3) b3g
  let ow := kOw outW
  kOut (kH3r Y3 sc3 (kShift b3beta mu3 sc3)) ow (kLo3 (kY3p H2 b3pW b3pb) ow) outb

/-! ## Facts about the literal words -/

theorem zero_eq : zero = 0 := by unfold zero; simp [Ideal.ofBits, Ideal.ieee]

end Cert.Spec

end
-- ==== Proof.RegionValK1IndexIdeal.lean ====
import proofs.«214388_g48842368090541_cont_8to1c4_19_37_alg».proof.Proof.Gen.KernelIdeal.Skeleton
import proofs.«214388_g48842368090541_cont_8to1c4_19_37_alg».proof.Proof.KSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionVal

open Cert.KernelIdeal Cert.KernelIdeal.Gen
open Idealize.ShloMosaic Idealize.ShloMosaic.ValueIdx

/-! ## The matrix unit's products of the first body, read at an index -/

/-- The matrix unit's product `[1024, 19] × [19, 128]` into the zero accumulator, at (r, c): the zero word plus the sum
    over the inner coordinate of the products. -/
theorem dot_19 {φ₁ φ₂ : FTy} (lhs : FVec Ideal S1024x19 φ₁) (rhs : FVec Ideal S19x128 φ₂) (r : Fin 1024) (c : Fin 128) :
    matmul dot_S1024x19_S19x128_S1024x128_1_0_0_1_n_n none lhs rhs (constant S1024x128 .f32 0x00000000#32) (ix2 r c)
      = Cert.Spec.zero + ∑ k : Fin 19, lhs (ix2 r k) * rhs (ix2 k c) := by
  have hr : (dot_S1024x19_S19x128_S1024x128_1_0_0_1_n_n).contr.rank = 1 := rfl
  have hs : (dot_S1024x19_S19x128_S1024x128_1_0_0_1_n_n).contr.size ⟨0, by omega⟩ = 19 := rfl
  refine (Ideal.matmul_apply dot_S1024x19_S19x128_S1024x128_1_0_0_1_n_n none lhs rhs _ (ix2 r c)).trans ?_
  refine congrArg₂ (· + ·) rfl ?_
  rw [← Equiv.sum_comp (contrEquiv1 dot_S1024x19_S19x128_S1024x128_1_0_0_1_n_n 19 hr hs).symm]
  refine Finset.sum_congr rfl fun k _ => ?_
  have hk := contrEquiv1_symm_val dot_S1024x19_S19x128_S1024x128_1_0_0_1_n_n 19 hr hs k
  congr 1
  · refine congrArg lhs (funext fun a => Fin.ext ?_)
    match a with
    | ⟨0, _⟩ => rfl
    | ⟨1, _⟩ => exact hk
  · refine congrArg rhs (funext fun a => Fin.ext ?_)
    match a with
    | ⟨0, _⟩ => exact hk
    | ⟨1, _⟩ => rfl

/-- The matrix unit's product `[1024, 64] × [64, 1024]` into the zero accumulator, at (r, c): the zero word plus the sum
    over the inner coordinate of the products. -/
theorem dot_64 {φ₁ φ₂ : FTy} (lhs : FVec Ideal S1024x64 φ₁) (rhs : FVec Ideal S64x1024 φ₂) (r : Fin 1024) (c : Fin 1024) :
    matmul dot_S1024x64_S64x1024_S1024x1024_1_0_0_1_n_n none lhs rhs (constant S1024x1024 .f32 0x00000000#32) (ix2 r c)
      = Cert.Spec.zero + ∑ k : Fin 64, lhs (ix2 r k) * rhs (ix2 k c) := by
  have hr : (dot_S1024x64_S64x1024_S1024x1024_1_0_0_1_n_n).contr.rank = 1 := rfl
  have hs : (dot_S1024x64_S64x1024_S1024x1024_1_0_0_1_n_n).contr.size ⟨0, by omega⟩ = 64 := rfl
  refine (Ideal.matmul_apply dot_S1024x64_S64x1024_S1024x1024_1_0_0_1_n_n none lhs rhs _ (ix2 r c)).trans ?_
  refine congrArg₂ (· + ·) rfl ?_
  rw [← Equiv.sum_comp (contrEquiv1 dot_S1024x64_S64x1024_S1024x1024_1_0_0_1_n_n 64 hr hs).symm]
  refine Finset.sum_congr rfl fun k _ => ?_
  have hk := contrEquiv1_symm_val dot_S1024x64_S64x1024_S1024x1024_1_0_0_1_n_n 64 hr hs k
  congr 1
  · refine congrArg lhs (funext fun a => Fin.ext ?_)
    match a with
    | ⟨0, _⟩ => rfl
    | ⟨1, _⟩ => exact hk
  · refine congrArg rhs (funext fun a => Fin.ext ?_)
    match a with
    | ⟨0, _⟩ => exact hk
    | ⟨1, _⟩ => rfl

/-- The matrix unit's product `[1024, 128] × [128, 1024]` into the zero accumulator, at (r, c): the zero word plus the sum
    over the inner coordinate of the products. -/
theorem dot_128 {φ₁ φ₂ : FTy} (lhs : FVec Ideal S1024x128 φ₁) (rhs : FVec Ideal S128x1024 φ₂) (r : Fin 1024) (c : Fin 1024) :
    matmul dot_S1024x128_S128x1024_S1024x1024_1_0_0_1_n_n none lhs rhs (constant S1024x1024 .f32 0x00000000#32) (ix2 r c)
      = Cert.Spec.zero + ∑ k : Fin 128, lhs (ix2 r k) * rhs (ix2 k c) := by
  have hr : (dot_S1024x128_S128x1024_S1024x1024_1_0_0_1_n_n).contr.rank = 1 := rfl
  have hs : (dot_S1024x128_S128x1024_S1024x1024_1_0_0_1_n_n).contr.size ⟨0, by omega⟩ = 128 := rfl
  refine (Ideal.matmul_apply dot_S1024x128_S128x1024_S1024x1024_1_0_0_1_n_n none lhs rhs _ (ix2 r c)).trans ?_
  refine congrArg₂ (· + ·) rfl ?_
  rw [← Equiv.sum_comp (contrEquiv1 dot_S1024x128_S128x1024_S1024x1024_1_0_0_1_n_n 128 hr hs).symm]
  refine Finset.sum_congr rfl fun k _ => ?_
  have hk := contrEquiv1_symm_val dot_S1024x128_S128x1024_S1024x1024_1_0_0_1_n_n 128 hr hs k
  congr 1
  · refine congrArg lhs (funext fun a => Fin.ext ?_)
    match a with
    | ⟨0, _⟩ => rfl
    | ⟨1, _⟩ => exact hk
  · refine congrArg rhs (funext fun a => Fin.ext ?_)
    match a with
    | ⟨0, _⟩ => exact hk
    | ⟨1, _⟩ => rfl

/-- The matrix unit's product `[1024, 1024] × [1024, 128]` into the zero accumulator, at (r, c): the zero word plus the sum
    over the inner coordinate of the products. -/
theorem dot_1024 {φ₁ φ₂ : FTy} (lhs : FVec Ideal S1024x1024 φ₁) (rhs : FVec Ideal S1024x128 φ₂) (r : Fin 1024) (c : Fin 128) :
    matmul dot_S1024x1024_S1024x128_S1024x128_1_0_0_1_n_n none lhs rhs (constant S1024x128 .f32 0x00000000#32) (ix2 r c)
      = Cert.Spec.zero + ∑ k : Fin 1024, lhs (ix2 r k) * rhs (ix2 k c) := by
  have hr : (dot_S1024x1024_S1024x128_S1024x128_1_0_0_1_n_n).contr.rank = 1 := rfl
  have hs : (dot_S1024x1024_S1024x128_S1024x128_1_0_0_1_n_n).contr.size ⟨0, by omega⟩ = 1024 := rfl
  refine (Ideal.matmul_apply dot_S1024x1024_S1024x128_S1024x128_1_0_0_1_n_n none lhs rhs _ (ix2 r c)).trans ?_
  refine congrArg₂ (· + ·) rfl ?_
  rw [← Equiv.sum_comp (contrEquiv1 dot_S1024x1024_S1024x128_S1024x128_1_0_0_1_n_n 1024 hr hs).symm]
  refine Finset.sum_congr rfl fun k _ => ?_
  have hk := contrEquiv1_symm_val dot_S1024x1024_S1024x128_S1024x128_1_0_0_1_n_n 1024 hr hs k
  congr 1
  · refine congrArg lhs (funext fun a => Fin.ext ?_)
    match a with
    | ⟨0, _⟩ => rfl
    | ⟨1, _⟩ => exact hk
  · refine congrArg rhs (funext fun a => Fin.ext ?_)
    match a with
    | ⟨0, _⟩ => exact hk
    | ⟨1, _⟩ => rfl

/-- The matrix unit's product `[1024, 256] × [256, 1024]` into the zero accumulator, at (r, c): the zero word plus the sum
    over the inner coordinate of the products. -/
theorem dot_256 {φ₁ φ₂ : FTy} (lhs : FVec Ideal S1024x256 φ₁) (rhs : FVec Ideal S256x1024 φ₂) (r : Fin 1024) (c : Fin 1024) :
    matmul dot_S1024x256_S256x1024_S1024x1024_1_0_0_1_n_n none lhs rhs (constant S1024x1024 .f32 0x00000000#32) (ix2 r c)
      = Cert.Spec.zero + ∑ k : Fin 256, lhs (ix2 r k) * rhs (ix2 k c) := by
  have hr : (dot_S1024x256_S256x1024_S1024x1024_1_0_0_1_n_n).contr.rank = 1 := rfl
  have hs : (dot_S1024x256_S256x1024_S1024x1024_1_0_0_1_n_n).contr.size ⟨0, by omega⟩ = 256 := rfl
  refine (Ideal.matmul_apply dot_S1024x256_S256x1024_S1024x1024_1_0_0_1_n_n none lhs rhs _ (ix2 r c)).trans ?_
  refine congrArg₂ (· + ·) rfl ?_
  rw [← Equiv.sum_comp (contrEquiv1 dot_S1024x256_S256x1024_S1024x1024_1_0_0_1_n_n 256 hr hs).symm]
  refine Finset.sum_congr rfl fun k _ => ?_
  have hk := contrEquiv1_symm_val dot_S1024x256_S256x1024_S1024x1024_1_0_0_1_n_n 256 hr hs k
  congr 1
  · refine congrArg lhs (funext fun a => Fin.ext ?_)
    match a with
    | ⟨0, _⟩ => rfl
    | ⟨1, _⟩ => exact hk
  · refine congrArg rhs (funext fun a => Fin.ext ?_)
    match a with
    | ⟨0, _⟩ => exact hk
    | ⟨1, _⟩ => rfl

/-! ## Layout operations of the first body, read at an index -/

section Layout
variable {α : Type}

/-- The sum over the 1024 rows of a column, at the ideal values. -/
theorem sum_col1024 (src : FVec Ideal S1024x1024 .f32) (h : S1024x1024.Reduces [0] S1024) (hφ : FKind.Formats .f32)
    (hacc : (0x00000000#32 : BitVec 32) = 0x00000000#32) (c : Fin 1024) :
    multiReduction .add [0] S1024 src 0x00000000#32 h hφ hacc (ix1 c) = ∑ r : Fin 1024, src (ix2 r c) := by
  refine (Ideal.multiReduction_add_single src 0x00000000#32 h hφ hacc (ix1 c)).trans ?_
  exact Finset.sum_congr rfl fun k _ => congrArg src (funext fun a => Fin.ext (by
    match a with
    | ⟨0, _⟩ => rfl
    | ⟨1, _⟩ => rfl))

end Layout

/-! ## The first body's arithmetic at an index -/

/-- The genre product of a tile, padded, at (r, l): the product with the padded genre weights plus the padded bias. -/
theorem pay7_apply (x4 : Vec Ideal S1024x19 .f32) (x10 : Vec Ideal S19x128 .f32) (x11 : Vec Ideal S1x128 .f32) (r : Fin 1024) (l : Fin 128) :
    k1_pay7 (F := Ideal) x4 x10 x11 (ix2 r l)
      = (Cert.Spec.zero + ∑ k : Fin 19, x4 (ix2 r k) * x10 (ix2 k l)) + x11 (ix2 (0 : Fin 1) l) := by
  unfold k1_pay7
  try dsimp only
  try simp only [shapeCast_self]
  refine (addf_apply _ _ (ix2 r l)).trans ?_
  exact congrArg₂ (· + ·) (dot_19 _ _ r l) (broadcastTo_1b_ab_apply _ _ r l)

set_option maxHeartbeats 1000000 in
/-- The cross term of a tile, padded, at (r, l). -/
theorem pay9_apply (x4 : Vec Ideal S1024x19 .f32) (x10 : Vec Ideal S19x128 .f32) (x11 : Vec Ideal S1x128 .f32)
    (x1lo : Vec Ideal S1024x64 .f32) (x7 : Vec Ideal S64x1024 .bf16) (x8 : Vec Ideal S128x1024 .bf16) (x9 : Vec Ideal S1024x128 .bf16)
    (x12 : Vec Ideal S1x128 .f32) (r : Fin 1024) (l : Fin 128) :
    k1_pay9 (F := Ideal) x4 x10 x11 x1lo x7 x8 x9 x12 (ix2 r l)
      = (Cert.Spec.zero + ∑ k : Fin 1024,
          ((Cert.Spec.zero + ∑ m : Fin 64, x1lo (ix2 r m) * x7 (ix2 m k))
            * (Cert.Spec.zero + ∑ m : Fin 128, k1_pay7 (F := Ideal) x4 x10 x11 (ix2 r m) * x8 (ix2 m k))) * x9 (ix2 k l))
        + x12 (ix2 (0 : Fin 1) l) := by
  unfold k1_pay9 k1_pay8
  try dsimp only
  try simp only [shapeCast_self]
  refine (addf_apply _ _ (ix2 r l)).trans ?_
  refine congrArg₂ (· + ·) ?_ (broadcastTo_1b_ab_apply _ _ r l)
  refine (dot_1024 _ _ r l).trans ?_
  refine congrArg₂ (· + ·) rfl (Finset.sum_congr rfl fun k _ => ?_)
  refine congrArg₂ (· * ·) ?_ rfl
  refine (truncf_apply (ψ := .bf16) _ bitsLt_bf16_f32 (ix2 r k)).trans ?_
  refine (mulf_apply _ _ (ix2 r k)).trans ?_
  exact congrArg₂ (· * ·) (dot_64 _ _ r k) (dot_128 _ _ r k)

/-- The three pieces of the feature row and the five of the scalars' block. -/
abbrev pieces3 (v9 v43 : FVec Ideal S1024x64 .f32) (v41 : FVec Ideal S1024x128 .f32) : List ((s : Shape) × (s.Idx → Ideal .f32)) :=
  [⟨S1024x64, v9⟩, ⟨S1024x64, v43⟩, ⟨S1024x128, v41⟩]
abbrev pieces5 (v34 : FVec Ideal S1024x96 .f32) (v30 v31 v33 : FVec Ideal S1024x1 .f32) (v35 : FVec Ideal S1024x29 .f32) :
    List ((s : Shape) × (s.Idx → Ideal .f32)) :=
  [⟨S1024x96, v34⟩, ⟨S1024x1, v30⟩, ⟨S1024x1, v31⟩, ⟨S1024x1, v33⟩, ⟨S1024x29, v35⟩]

set_option maxRecDepth 8192 in
/-- The scalars' block of a tile at (r, l): 96 lanes of the filler word, the three one-column blocks, 29 zero lanes. -/
theorem concat5_apply (v34 : FVec Ideal S1024x96 .f32) (v30 v31 v33 : FVec Ideal S1024x1 .f32) (v35 : FVec Ideal S1024x29 .f32)
    (h : Shape.Concatenates ((pieces5 v34 v30 v31 v33 v35).map (·.1)) S1024x128 1) (r : Fin 1024) (j : Fin 128) :
    concatenate S1024x128 1 (pieces5 v34 v30 v31 v33 v35) h (ix2 r j)
      = if h0 : j.val < 96 then v34 (ix2 r ⟨j.val, h0⟩)
        else if j.val = 96 then v30 (ix2 r (0 : Fin 1))
        else if j.val = 97 then v31 (ix2 r (0 : Fin 1))
        else if j.val = 98 then v33 (ix2 r (0 : Fin 1))
        else v35 (ix2 r ⟨j.val - 99, by have := j.isLt; omega⟩) := by
  have hj := j.isLt
  by_cases c0 : j.val < 96
  · rw [dif_pos c0]
    exact concatenate_apply_piece (t := S1024x128) (1 : Fin 2) (pieces5 v34 v30 v31 v33 v35) _ (ix2 r j) 0 (show 0 < 5 by omega) S1024x96 v34 rfl rfl 0 rfl (ix2 r (⟨j.val, c0⟩ : Fin 96)) (fun b hb => match b, hb with | ⟨0, _⟩, _ => rfl | ⟨1, _⟩, hb => absurd (Fin.ext rfl) hb) (by show 0 + j.val = j.val; omega)
  · rw [dif_neg c0]
    by_cases c1 : j.val = 96
    · rw [if_pos c1]
      refine (concatenate_apply_piece (t := S1024x128) (1 : Fin 2) (pieces5 v34 v30 v31 v33 v35) _ (ix2 r j) 1 (show 1 < 5 by omega) S1024x1 v30 rfl rfl 96 rfl (ix2 r (⟨j.val - 96, by omega⟩ : Fin 1)) (fun b hb => match b, hb with | ⟨0, _⟩, _ => rfl | ⟨1, _⟩, hb => absurd (Fin.ext rfl) hb) (by show 96 + (j.val - 96) = j.val; omega)).trans (congrArg v30 (funext fun a => Fin.ext ?_))
      match a with
      | ⟨0, _⟩ => rfl
      | ⟨1, _⟩ => show j.val - 96 = 0; omega
    · rw [if_neg c1]
      by_cases c2 : j.val = 97
      · rw [if_pos c2]
        refine (concatenate_apply_piece (t := S1024x128) (1 : Fin 2) (pieces5 v34 v30 v31 v33 v35) _ (ix2 r j) 2 (show 2 < 5 by omega) S1024x1 v31 rfl rfl 97 rfl (ix2 r (⟨j.val - 97, by omega⟩ : Fin 1)) (fun b hb => match b, hb with | ⟨0, _⟩, _ => rfl | ⟨1, _⟩, hb => absurd (Fin.ext rfl) hb) (by show 97 + (j.val - 97) = j.val; omega)).trans (congrArg v31 (funext fun a => Fin.ext ?_))
        match a with
        | ⟨0, _⟩ => rfl
        | ⟨1, _⟩ => show j.val - 97 = 0; omega
      · rw [if_neg c2]
        by_cases c3 : j.val = 98
        · rw [if_pos c3]
          refine (concatenate_apply_piece (t := S1024x128) (1 : Fin 2) (pieces5 v34 v30 v31 v33 v35) _ (ix2 r j) 3 (show 3 < 5 by omega) S1024x1 v33 rfl rfl 98 rfl (ix2 r (⟨j.val - 98, by omega⟩ : Fin 1)) (fun b hb => match b, hb with | ⟨0, _⟩, _ => rfl | ⟨1, _⟩, hb => absurd (Fin.ext rfl) hb) (by show 98 + (j.val - 98) = j.val; omega)).trans (congrArg v33 (funext fun a => Fin.ext ?_))
          match a with
          | ⟨0, _⟩ => rfl
          | ⟨1, _⟩ => show j.val - 98 = 0; omega
        · rw [if_neg c3]
          exact concatenate_apply_piece (t := S1024x128) (1 : Fin 2) (pieces5 v34 v30 v31 v33 v35) _ (ix2 r j) 4 (show 4 < 5 by omega) S1024x29 v35 rfl rfl 99 rfl (ix2 r (⟨j.val - 99, by omega⟩ : Fin 29)) (fun b hb => match b, hb with | ⟨0, _⟩, _ => rfl | ⟨1, _⟩, hb => absurd (Fin.ext rfl) hb) (by show 99 + (j.val - 99) = j.val; omega)

set_option maxRecDepth 8192 in
/-- The feature row of a tile at (r, j): the first 64 lanes the first piece, the next 64 the second, the last 128 the third. -/
theorem concat3_apply (v9 v43 : FVec Ideal S1024x64 .f32) (v41 : FVec Ideal S1024x128 .f32)
    (h : Shape.Concatenates ((pieces3 v9 v43 v41).map (·.1)) S1024x256 1) (r : Fin 1024) (j : Fin 256) :
    concatenate S1024x256 1 (pieces3 v9 v43 v41) h (ix2 r j)
      = if h0 : j.val < 64 then v9 (ix2 r ⟨j.val, h0⟩)
        else if h1 : j.val < 128 then v43 (ix2 r ⟨j.val - 64, by omega⟩)
        else v41 (ix2 r ⟨j.val - 128, by have := j.isLt; omega⟩) := by
  have hj := j.isLt
  by_cases c0 : j.val < 64
  · rw [dif_pos c0]
    exact concatenate_apply_piece (t := S1024x256) (1 : Fin 2) (pieces3 v9 v43 v41) _ (ix2 r j) 0 (show 0 < 3 by omega) S1024x64 v9 rfl rfl 0 rfl (ix2 r (⟨j.val, c0⟩ : Fin 64)) (fun b hb => match b, hb with | ⟨0, _⟩, _ => rfl | ⟨1, _⟩, hb => absurd (Fin.ext rfl) hb) (by show 0 + j.val = j.val; omega)
  · rw [dif_neg c0]
    by_cases c1 : j.val < 128
    · rw [dif_pos c1]
      exact concatenate_apply_piece (t := S1024x256) (1 : Fin 2) (pieces3 v9 v43 v41) _ (ix2 r j) 1 (show 1 < 3 by omega) S1024x64 v43 rfl rfl 64 rfl (ix2 r (⟨j.val - 64, by omega⟩ : Fin 64)) (fun b hb => match b, hb with | ⟨0, _⟩, _ => rfl | ⟨1, _⟩, hb => absurd (Fin.ext rfl) hb) (by show 64 + (j.val - 64) = j.val; omega)
    · rw [dif_neg c1]
      exact concatenate_apply_piece (t := S1024x256) (1 : Fin 2) (pieces3 v9 v43 v41) _ (ix2 r j) 2 (show 2 < 3 by omega) S1024x128 v41 rfl rfl 128 rfl (ix2 r (⟨j.val - 128, by omega⟩ : Fin 128)) (fun b hb => match b, hb with | ⟨0, _⟩, _ => rfl | ⟨1, _⟩, hb => absurd (Fin.ext rfl) hb) (by show 128 + (j.val - 128) = j.val; omega)

set_option maxHeartbeats 1000000 in
/-- THE FEATURE ROW OF A TILE at (r, j), at the ideal values, from the values the body's first part hands on. -/
theorem pay1_apply (v7 : FVec Ideal S1024x128 .f32) (v9 : FVec Ideal S1024x64 .f32) (v26 : FVec Ideal S1024x128 .f32) (v30 v31 v33 : FVec Ideal S1024x1 .f32) (cst : Ideal .f32) (v37 : Vec Ideal S1024x128 .f32) (v42 : Vec Ideal S1024x64 .f32) (r : Fin 1024) (j : Fin 256) :
    k1_pay1 (F := Ideal) v7 v9 v26 v30 v31 v33 cst v37 v42 (ix2 r j)
      = if h0 : j.val < 64 then v9 (ix2 r ⟨j.val, h0⟩)
        else if h1 : j.val < 128 then v42 (ix2 r ⟨j.val - 64, by omega⟩)
        else
          let l : Fin 128 := ⟨j.val - 128, by have := j.isLt; omega⟩
          ((v37 (ix2 r l) + v7 (ix2 r l)) + v26 (ix2 r l))
            + (if l.val < 96 then cst
               else if l.val = 96 then v30 (ix2 r (0 : Fin 1))
               else if l.val = 97 then v31 (ix2 r (0 : Fin 1))
               else if l.val = 98 then v33 (ix2 r (0 : Fin 1))
               else Cert.Spec.zero) := by
  unfold k1_pay1
  try dsimp only
  try simp only [shapeCast_self]
  refine (truncf_apply (ψ := .bf16) _ bitsLt_bf16_f32 (ix2 r j)).trans ?_
  refine (concat3_apply _ _ _ _ r j).trans ?_
  by_cases c0 : j.val < 64
  · rw [dif_pos c0, dif_pos c0]
  · rw [dif_neg c0, dif_neg c0]
    by_cases c1 : j.val < 128
    · rw [dif_pos c1, dif_pos c1]
      exact congrFun (shapeCast_self _ _) _
    · rw [dif_neg c1, dif_neg c1]
      try dsimp only
      refine (addf_apply _ _ _).trans ?_
      refine congrArg₂ (· + ·) ?_ ?_
      · refine (addf_apply _ _ _).trans ?_
        refine congrArg₂ (· + ·) ?_ rfl
        refine (addf_apply _ _ _).trans ?_
        exact congrArg₂ (· + ·) (congrFun (shapeCast_self _ _) _) rfl
      · refine (concat5_apply _ _ _ _ _ _ r _).trans ?_
        by_cases d0 : j.val - 128 < 96
        · rw [dif_pos d0, if_pos d0]; rfl
        · rw [dif_neg d0, if_neg d0]
          rfl

/-! ## The first layer of a tile and its column statistics, at an index -/

/-- The first layer of a tile at (r, c): the feature row's product with the weight block. -/
theorem pay2_apply (v7 : FVec Ideal S1024x128 .f32) (v9 : FVec Ideal S1024x64 .f32) (v26 : FVec Ideal S1024x128 .f32) (v30 v31 v33 : FVec Ideal S1024x1 .f32) (cst : Ideal .f32) (v37 : Vec Ideal S1024x128 .f32) (v42 : Vec Ideal S1024x64 .f32) (v47 : Vec Ideal S256x1024 .bf16) (r : Fin 1024) (c : Fin 1024) :
    k1_pay2 (F := Ideal) v7 v9 v26 v30 v31 v33 cst v37 v42 v47 (ix2 r c)
      = Cert.Spec.zero + ∑ k : Fin 256, k1_pay1 (F := Ideal) v7 v9 v26 v30 v31 v33 cst v37 v42 (ix2 r k) * v47 (ix2 k c) := by
  unfold k1_pay2
  try dsimp only
  refine (dot_256 _ _ r c).trans ?_
  refine congrArg₂ (· + ·) rfl (Finset.sum_congr rfl fun k _ => congrArg₂ (· * ·) rfl ?_)
  first | rfl | exact congrFun (shapeCast_self _ _) _

/-- One step of the column sums at column `c`: the accumulator plus the tile's column sum of the first layer. -/
theorem pay5_apply (v7 : FVec Ideal S1024x128 .f32) (v9 : FVec Ideal S1024x64 .f32) (v26 : FVec Ideal S1024x128 .f32) (v30 v31 v33 : FVec Ideal S1024x1 .f32) (cst : Ideal .f32) (v37 : Vec Ideal S1024x128 .f32) (v42 : Vec Ideal S1024x64 .f32) (v47 : Vec Ideal S256x1024 .bf16) (v53 : Vec Ideal S1x1024 .f32) (c : Fin 1024) :
    k1_pay5 (F := Ideal) v7 v9 v26 v30 v31 v33 cst v37 v42 v47 v53 (ix2 (0 : Fin 1) c)
      = v53 (ix2 (0 : Fin 1) c) + ∑ r : Fin 1024, k1_pay2 (F := Ideal) v7 v9 v26 v30 v31 v33 cst v37 v42 v47 (ix2 r c) := by
  unfold k1_pay5
  try dsimp only
  refine (addf_apply _ _ _).trans ?_
  refine congrArg₂ (· + ·) ?_ ?_
  · first | rfl | exact congrFun (shapeCast_self _ _) _
  · refine (shapeCast_a_1a_apply _ _ 0 c).trans ?_
    exact sum_col1024 _ _ _ _ c

/-- One step of the column sums of squares at column `c`. -/
theorem pay6_apply (v7 : FVec Ideal S1024x128 .f32) (v9 : FVec Ideal S1024x64 .f32) (v26 : FVec Ideal S1024x128 .f32) (v30 v31 v33 : FVec Ideal S1024x1 .f32) (cst : Ideal .f32) (v37 : Vec Ideal S1024x128 .f32) (v42 : Vec Ideal S1024x64 .f32) (v47 : Vec Ideal S256x1024 .bf16) (v59 : Vec Ideal S1x1024 .f32) (c : Fin 1024) :
    k1_pay6 (F := Ideal) v7 v9 v26 v30 v31 v33 cst v37 v42 v47 v59 (ix2 (0 : Fin 1) c)
      = v59 (ix2 (0 : Fin 1) c) + ∑ r : Fin 1024, k1_pay2 (F := Ideal) v7 v9 v26 v30 v31 v33 cst v37 v42 v47 (ix2 r c) * k1_pay2 (F := Ideal) v7 v9 v26 v30 v31 v33 cst v37 v42 v47 (ix2 r c) := by
  unfold k1_pay6
  try dsimp only
  refine (addf_apply _ _ _).trans ?_
  refine congrArg₂ (· + ·) ?_ ?_
  · first | rfl | exact congrFun (shapeCast_self _ _) _
  · refine (shapeCast_a_1a_apply _ _ 0 c).trans ?_
    refine (sum_col1024 _ _ _ _ c).trans ?_
    exact Finset.sum_congr rfl fun r _ => mulf_apply _ _ _

/-- The word the reset stores, at any column: zero. -/
theorem pay3_apply (c : Fin 1024) : k1_pay3 (F := Ideal) (ix2 (0 : Fin 1) c) = Cert.Spec.zero := rfl
theorem pay4_apply (c : Fin 1024) : k1_pay4 (F := Ideal) (ix2 (0 : Fin 1) c) = Cert.Spec.zero := rfl

end Cert.KernelIdeal.RegionVal

end
-- ==== Proof.KerRegionSpec.lean ====
/-
  What each of the four kernel launches leaves in its output arrays, as functions of the arrays it reads: the target
  statements of the launches' value lemmas, and the links of the kernel's value chain. A launch reads one-row arrays
  where the specification's stages take vectors; `row1` / `col1` read a one-row / one-column array as a vector and
  `asRow` / `asCol` lay a vector as one.
-/
import proofs.«214388_g48842368090541_cont_8to1c4_19_37_alg».proof.Proof.KSpec

noncomputable section

open scoped BigOperators

namespace Cert.Spec

open Idealize.ShloMosaic Idealize.ShloMosaic.ValueIdx

/-! ## Vectors as one-row and one-column arrays -/

def row1 {N : Nat} (r : A2 1 N) : A1 N := fun j => r (ix2 (0 : Fin 1) (j 0))
def col1 {M : Nat} (c : A2 M 1) : A1 M := fun j => c (ix2 (j 0) (0 : Fin 1))
def asRow {N : Nat} (v : A1 N) : A2 1 N := fun i => v (ix1 (i 1))
def asCol {M : Nat} (v : A1 M) : A2 M 1 := fun i => v (ix1 (i 0))

theorem row1_asRow {N : Nat} (v : A1 N) : row1 (asRow v) = v := funext fun j => congrArg v (eq_ix1 j).symm
theorem col1_asCol {M : Nat} (v : A1 M) : col1 (asCol v) = v := funext fun j => congrArg v (eq_ix1 j).symm

/-- A batch-norm block's scale and shift from its one-row statistics and parameters. -/
def bnScale {N : Nat} (s q g : A2 1 N) : A1 N := kScale (kVar (row1 q) (kMu (row1 s))) (row1 g)
def bnShift {N : Nat} (s q g beta : A2 1 N) : A1 N := kShift (row1 beta) (kMu (row1 s)) (bnScale s q g)

/-! ## The first launch: the feature row and the first layer's column statistics -/

/-- Output 0 (`main_v87_0`) from the three gathered arrays, the genres, the two scalars' columns and the prepared weights. -/
def r1X (u128 m128 c128 : A2 16384 128) (genres : A2 16384 19) (rt im : A2 16384 1) (T : A2 64 1024) (Qw : A2 128 1024)
    (Pw : A2 1024 128) (GWw : A2 19 128) (gbw ugbw : A2 1 128) : A2 16384 256 :=
  kX16 u128 m128 (kReg1 c128 (kGvw genres GWw gbw)
    (kCrossW (kTmp (kUcols u128) T) (kGvr (kGvw genres GWw gbw) Qw) Pw ugbw) (kRtBlock (col1 rt) (col1 im)))
/-- Outputs 1 and 2 (`main_v87_1`, `main_v87_2`): the first layer's column sums and sums of squares, as one row. -/
def r1S (x16 : A2 16384 256) (W1b : A2 256 1024) : A2 1 1024 := asRow (kS1 (kY1 x16 W1b))
def r1Q (x16 : A2 16384 256) (W1b : A2 256 1024) : A2 1 1024 := asRow (kQ1 (kY1 x16 W1b))

/-! ## The second launch -/

/-- Output 0 (`main_v91_0`): the first block's result. -/
def r2H1 (x16 : A2 16384 256) (s1 q1 g1 beta1 : A2 1 1024) (W1b pW1b : A2 256 1024) (pb1 : A2 1 1024) : A2 16384 1024 :=
  kH1 (kY1 x16 W1b) (bnScale s1 q1 g1) (bnShift s1 q1 g1 beta1) (kY1p x16 pW1b (row1 pb1))
/-- Output 1 (`main_v91_1`): the second layer; outputs 2 and 3: its column statistics. -/
def r2Y2 (h1 : A2 16384 1024) (b2W : A2 1024 1024) : A2 16384 1024 := kY2 h1 b2W
def r2S (y2 : A2 16384 1024) : A2 1 1024 := asRow (kS2 y2)
def r2Q (y2 : A2 16384 1024) : A2 1 1024 := asRow (kQ2 y2)

/-! ## The third launch -/

/-- The second block's result (not stored). -/
def r3H2 (h1 y2 : A2 16384 1024) (s2 q2 g2 beta2 : A2 1 1024) : A2 16384 1024 :=
  kH2 y2 (bnScale s2 q2 g2) (bnShift s2 q2 g2 beta2) h1
/-- Output 0 (`main_v96_0`): the third layer; output 1 (`main_v96_1`): the projection's share of the result, one column;
    outputs 2 and 3: the third layer's column statistics. -/
def r3Y3 (h2 : A2 16384 1024) (b3W : A2 1024 512) : A2 16384 512 := kY3 h2 b3W
def r3Lo (h2 : A2 16384 1024) (b3pW : A2 1024 512) (pb3 ow : A2 1 512) : A2 16384 1 :=
  asCol (kLo3 (kY3p h2 b3pW (row1 pb3)) (row1 ow))
def r3S (y3 : A2 16384 512) : A2 1 512 := asRow (kS3 y3)
def r3Q (y3 : A2 16384 512) : A2 1 512 := asRow (kQ3 y3)

/-! ## The fourth launch -/

/-- Its one output (`main_v100`): the result as one column. -/
def r4Out (y3 : A2 16384 512) (lo3 : A2 16384 1) (s3 q3 g3 beta3 ow : A2 1 512) (ob : A2 1 1) : A2 16384 1 :=
  asCol (kOut (kH3r y3 (bnScale s3 q3 g3) (bnShift s3 q3 g3 beta3)) (row1 ow) (col1 lo3) (row1 ob))

end Cert.Spec

end
-- ==== Proof.RegionValK1X16Ideal.lean ====
import proofs.«214388_g48842368090541_cont_8to1c4_19_37_alg».proof.Proof.RegionValK1StepIdeal
import proofs.«214388_g48842368090541_cont_8to1c4_19_37_alg».proof.Proof.RegionValK1IndexIdeal
import proofs.«214388_g48842368090541_cont_8to1c4_19_37_alg».proof.Proof.KerRegionSpec
import proofs.«214388_g48842368090541_cont_8to1c4_19_37_alg».proof.Proof.Gen.KernelIdeal.Launch
import proofs.«214388_g48842368090541_cont_8to1c4_19_37_alg».proof.Proof.Gen.KernelIdeal.Skeleton
import proofs.«214388_g48842368090541_cont_8to1c4_19_37_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

open scoped BigOperators

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {Ix : Type} [DecidableEq Ix] {Name : Type} [DecidableEq Name] {U : Type} [URA U] {Lvl : Type} [Preorder Lvl]

open Idealize.ShloMosaic.ValueIdx

/-! ## The valuation after the first region, array by array -/

section Keep
variable {F : FTy → Type} [FloatOps F] [∀ e, Nonempty (Elt F e)]

/-- The three output arrays of the first region are distinct buffers. -/
theorem ref1_ne (w w' : Fin 16) (h : w ≠ w') :
    Proc.devRef (τ := τ) .tc (Pipeline.arrRef spec1 w) ≠ Proc.devRef (τ := τ) .tc (Pipeline.arrRef spec1 w') :=
  fun e => h (((launchAll 0).toP (Val := Elt Ideal)).win.arr_inj (Proc.devRef_injective _ e))

/-- KEEP: off the three output arrays the valuation after the first region is the valuation it was entered at. -/
theorem regAfter1_keep (V : Valuation τ sig (Elt F)) (b : DevRef τ sig)
    (h13 : b ≠ Proc.devRef (τ := τ) .tc (Pipeline.arrRef spec1 13)) (h14 : b ≠ Proc.devRef (τ := τ) .tc (Pipeline.arrRef spec1 14))
    (h15 : b ≠ Proc.devRef (τ := τ) .tc (Pipeline.arrRef spec1 15)) : regAfter1 V b = V b := by
  unfold regAfter1
  rw [Function.update_of_ne h15, Function.update_of_ne h14, Function.update_of_ne h13]

/-- The same off the set of the pipeline's output arrays. -/
theorem regAfter1_keep' (V : Valuation τ sig (Elt F)) (b : DevRef τ sig) (hb : b ∉ outDevRefs 0) : regAfter1 V b = V b :=
  regAfter1_keep V b
    (fun e => hb (Finset.mem_image.mpr ⟨(13 : Fin 16), Finset.mem_filter.mpr ⟨Finset.mem_univ _, rfl⟩, e.symm⟩))
    (fun e => hb (Finset.mem_image.mpr ⟨(14 : Fin 16), Finset.mem_filter.mpr ⟨Finset.mem_univ _, rfl⟩, e.symm⟩))
    (fun e => hb (Finset.mem_image.mpr ⟨(15 : Fin 16), Finset.mem_filter.mpr ⟨Finset.mem_univ _, rfl⟩, e.symm⟩))

/-- The same for a reference off the list of the three output arrays. -/
theorem regAfter1_keep_ref (V : Valuation τ sig (Elt F)) (r : Ref sig .tc)
    (hr : r ∉ ([main_v87_0, main_v87_1, main_v87_2] : List (Ref sig .tc))) :
    regAfter1 V (Proc.devRef (τ := τ) .tc r) = V (Proc.devRef (τ := τ) .tc r) :=
  regAfter1_keep V _
    (fun e => hr (by rw [show r = main_v87_0 from Proc.devRef_injective _ e]; exact List.mem_cons.mpr (Or.inl rfl)))
    (fun e => hr (by rw [show r = main_v87_1 from Proc.devRef_injective _ e]; exact List.mem_cons.mpr (Or.inr (List.mem_cons.mpr (Or.inl rfl)))))
    (fun e => hr (by rw [show r = main_v87_2 from Proc.devRef_injective _ e]; exact List.mem_cons.mpr (Or.inr (List.mem_cons.mpr (Or.inr (List.mem_cons.mpr (Or.inl rfl)))))))

/-- The per-point output array after the region, -/
theorem regAfter1_13 (V : Valuation τ sig (Elt F)) : regAfter1 V (Proc.devRef (τ := τ) .tc (Pipeline.arrRef spec1 13)) = g13 V := by
  unfold regAfter1
  rw [Function.update_of_ne (ref1_ne 13 15 (by decide)), Function.update_of_ne (ref1_ne 13 14 (by decide)), Function.update_self]
/-- and the accumulator arrays. -/
theorem regAfter1_14 (V : Valuation τ sig (Elt F)) : regAfter1 V (Proc.devRef (τ := τ) .tc (Pipeline.arrRef spec1 14)) = s1Fin V := by
  unfold regAfter1
  rw [Function.update_of_ne (ref1_ne 14 15 (by decide)), Function.update_self]
theorem regAfter1_15 (V : Valuation τ sig (Elt F)) : regAfter1 V (Proc.devRef (τ := τ) .tc (Pipeline.arrRef spec1 15)) = q1Fin V := by
  unfold regAfter1
  rw [Function.update_self]

end Keep

/-! ## The input windows' blocks, read at an index -/

section Blocks
variable {F : FTy → Type} [FloatOps F]

theorem idx_in0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx_in1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx_in2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem idx_in3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)
theorem idx_in4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)
theorem idx_in5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)
theorem idx_in6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx_in7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx_in8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx_in9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)
theorem idx_in10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)
theorem idx_in11 : ∀ t : Fin cfg1.N, win1_11.index t (0 : Fin 2) = 0 ∧ win1_11.index t (1 : Fin 2) = 0 :=
  (by decide +kernel : ∀ t : Fin grid1.N, win1_11.index t (0 : Fin 2) = 0 ∧ win1_11.index t (1 : Fin 2) = 0)
theorem idx_in12 : ∀ t : Fin cfg1.N, win1_12.index t (0 : Fin 2) = 0 ∧ win1_12.index t (1 : Fin 2) = 0 :=
  (by decide +kernel : ∀ t : Fin grid1.N, win1_12.index t (0 : Fin 2) = 0 ∧ win1_12.index t (1 : Fin 2) = 0)

/-- The grid point of row `a` and the row's place in its tile. -/
def tOfR (a : Fin 16384) : Fin cfg1.N :=
  ⟨a.val / 1024, by have h := a.isLt; show a.val / 1024 < grid1.N; rw [N_1]; omega⟩
def rOf (a : Fin 16384) : Fin 1024 := ⟨a.val % 1024, Nat.mod_lt _ (by decide)⟩

/-- A row-tiled input's block at the row's grid point, at the row's place, is the array at the row. -/
theorem rowblk0 (V : Valuation τ sig (Elt F)) (a : Fin 16384) (k : Fin 128) :
    iblk1 V 0 (tOfR a) (ix2 (rOf a) k) = V (Proc.devRef (τ := τ) .tc main_v36_0) (ix2 a k) := by
  obtain ⟨e0, e1⟩ := idx_in0 (tOfR a)
  show V (Proc.devRef (τ := τ) .tc main_v36_0) (((cfg1.win 0).blk (tOfR a)).view.emb (ix2 (rOf a) k)) = _
  refine congrArg _ (funext fun x => Fin.ext ?_)
  have h0 : ((((cfg1.win 0).blk (tOfR a)).view.emb (ix2 (rOf a) k)) 0).val = win1_0.index (tOfR a) (0 : Fin 2) * 1024 + 1 * (rOf a).val := rfl
  have h1 : ((((cfg1.win 0).blk (tOfR a)).view.emb (ix2 (rOf a) k)) 1).val = win1_0.index (tOfR a) (1 : Fin 2) * 128 + 1 * k.val := rfl
  have ht : (tOfR a).val = a.val / 1024 := rfl
  have hr : (rOf a).val = a.val % 1024 := rfl
  match x with
  | ⟨0, _⟩ => show ((((cfg1.win 0).blk (tOfR a)).view.emb (ix2 (rOf a) k)) 0).val = a.val; rw [h0, e0, ht, hr]; omega
  | ⟨1, _⟩ => show ((((cfg1.win 0).blk (tOfR a)).view.emb (ix2 (rOf a) k)) 1).val = k.val; rw [h1, e1]; omega
/-- A row-tiled input's block at the row's grid point, at the row's place, is the array at the row. -/
theorem rowblk1 (V : Valuation τ sig (Elt F)) (a : Fin 16384) (k : Fin 128) :
    iblk1 V 1 (tOfR a) (ix2 (rOf a) k) = V (Proc.devRef (τ := τ) .tc main_v36_1) (ix2 a k) := by
  obtain ⟨e0, e1⟩ := idx_in1 (tOfR a)
  show V (Proc.devRef (τ := τ) .tc main_v36_1) (((cfg1.win 1).blk (tOfR a)).view.emb (ix2 (rOf a) k)) = _
  refine congrArg _ (funext fun x => Fin.ext ?_)
  have h0 : ((((cfg1.win 1).blk (tOfR a)).view.emb (ix2 (rOf a) k)) 0).val = win1_1.index (tOfR a) (0 : Fin 2) * 1024 + 1 * (rOf a).val := rfl
  have h1 : ((((cfg1.win 1).blk (tOfR a)).view.emb (ix2 (rOf a) k)) 1).val = win1_1.index (tOfR a) (1 : Fin 2) * 128 + 1 * k.val := rfl
  have ht : (tOfR a).val = a.val / 1024 := rfl
  have hr : (rOf a).val = a.val % 1024 := rfl
  match x with
  | ⟨0, _⟩ => show ((((cfg1.win 1).blk (tOfR a)).view.emb (ix2 (rOf a) k)) 0).val = a.val; rw [h0, e0, ht, hr]; omega
  | ⟨1, _⟩ => show ((((cfg1.win 1).blk (tOfR a)).view.emb (ix2 (rOf a) k)) 1).val = k.val; rw [h1, e1]; omega
/-- A row-tiled input's block at the row's grid point, at the row's place, is the array at the row. -/
theorem rowblk2 (V : Valuation τ sig (Elt F)) (a : Fin 16384) (k : Fin 128) :
    iblk1 V 2 (tOfR a) (ix2 (rOf a) k) = V (Proc.devRef (τ := τ) .tc main_v36_2) (ix2 a k) := by
  obtain ⟨e0, e1⟩ := idx_in2 (tOfR a)
  show V (Proc.devRef (τ := τ) .tc main_v36_2) (((cfg1.win 2).blk (tOfR a)).view.emb (ix2 (rOf a) k)) = _
  refine congrArg _ (funext fun x => Fin.ext ?_)
  have h0 : ((((cfg1.win 2).blk (tOfR a)).view.emb (ix2 (rOf a) k)) 0).val = win1_2.index (tOfR a) (0 : Fin 2) * 1024 + 1 * (rOf a).val := rfl
  have h1 : ((((cfg1.win 2).blk (tOfR a)).view.emb (ix2 (rOf a) k)) 1).val = win1_2.index (tOfR a) (1 : Fin 2) * 128 + 1 * k.val := rfl
  have ht : (tOfR a).val = a.val / 1024 := rfl
  have hr : (rOf a).val = a.val % 1024 := rfl
  match x with
  | ⟨0, _⟩ => show ((((cfg1.win 2).blk (tOfR a)).view.emb (ix2 (rOf a) k)) 0).val = a.val; rw [h0, e0, ht, hr]; omega
  | ⟨1, _⟩ => show ((((cfg1.win 2).blk (tOfR a)).view.emb (ix2 (rOf a) k)) 1).val = k.val; rw [h1, e1]; omega
/-- A row-tiled input's block at the row's grid point, at the row's place, is the array at the row. -/
theorem rowblk3 (V : Valuation τ sig (Elt F)) (a : Fin 16384) (k : Fin 19) :
    iblk1 V 3 (tOfR a) (ix2 (rOf a) k) = V (Proc.devRef (τ := τ) .tc main_arg5) (ix2 a k) := by
  obtain ⟨e0, e1⟩ := idx_in3 (tOfR a)
  show V (Proc.devRef (τ := τ) .tc main_arg5) (((cfg1.win 3).blk (tOfR a)).view.emb (ix2 (rOf a) k)) = _
  refine congrArg _ (funext fun x => Fin.ext ?_)
  have h0 : ((((cfg1.win 3).blk (tOfR a)).view.emb (ix2 (rOf a) k)) 0).val = win1_3.index (tOfR a) (0 : Fin 2) * 1024 + 1 * (rOf a).val := rfl
  have h1 : ((((cfg1.win 3).blk (tOfR a)).view.emb (ix2 (rOf a) k)) 1).val = win1_3.index (tOfR a) (1 : Fin 2) * 19 + 1 * k.val := rfl
  have ht : (tOfR a).val = a.val / 1024 := rfl
  have hr : (rOf a).val = a.val % 1024 := rfl
  match x with
  | ⟨0, _⟩ => show ((((cfg1.win 3).blk (tOfR a)).view.emb (ix2 (rOf a) k)) 0).val = a.val; rw [h0, e0, ht, hr]; omega
  | ⟨1, _⟩ => show ((((cfg1.win 3).blk (tOfR a)).view.emb (ix2 (rOf a) k)) 1).val = k.val; rw [h1, e1]; omega
/-- A row-tiled input's block at the row's grid point, at the row's place, is the array at the row. -/
theorem rowblk4 (V : Valuation τ sig (Elt F)) (a : Fin 16384) (k : Fin 1) :
    iblk1 V 4 (tOfR a) (ix2 (rOf a) k) = V (Proc.devRef (τ := τ) .tc main_v85) (ix2 a k) := by
  obtain ⟨e0, e1⟩ := idx_in4 (tOfR a)
  show V (Proc.devRef (τ := τ) .tc main_v85) (((cfg1.win 4).blk (tOfR a)).view.emb (ix2 (rOf a) k)) = _
  refine congrArg _ (funext fun x => Fin.ext ?_)
  have h0 : ((((cfg1.win 4).blk (tOfR a)).view.emb (ix2 (rOf a) k)) 0).val = win1_4.index (tOfR a) (0 : Fin 2) * 1024 + 1 * (rOf a).val := rfl
  have h1 : ((((cfg1.win 4).blk (tOfR a)).view.emb (ix2 (rOf a) k)) 1).val = win1_4.index (tOfR a) (1 : Fin 2) * 1 + 1 * k.val := rfl
  have ht : (tOfR a).val = a.val / 1024 := rfl
  have hr : (rOf a).val = a.val % 1024 := rfl
  match x with
  | ⟨0, _⟩ => show ((((cfg1.win 4).blk (tOfR a)).view.emb (ix2 (rOf a) k)) 0).val = a.val; rw [h0, e0, ht, hr]; omega
  | ⟨1, _⟩ => show ((((cfg1.win 4).blk (tOfR a)).view.emb (ix2 (rOf a) k)) 1).val = k.val; rw [h1, e1]; omega
/-- A row-tiled input's block at the row's grid point, at the row's place, is the array at the row. -/
theorem rowblk5 (V : Valuation τ sig (Elt F)) (a : Fin 16384) (k : Fin 1) :
    iblk1 V 5 (tOfR a) (ix2 (rOf a) k) = V (Proc.devRef (τ := τ) .tc main_v86) (ix2 a k) := by
  obtain ⟨e0, e1⟩ := idx_in5 (tOfR a)
  show V (Proc.devRef (τ := τ) .tc main_v86) (((cfg1.win 5).blk (tOfR a)).view.emb (ix2 (rOf a) k)) = _
  refine congrArg _ (funext fun x => Fin.ext ?_)
  have h0 : ((((cfg1.win 5).blk (tOfR a)).view.emb (ix2 (rOf a) k)) 0).val = win1_5.index (tOfR a) (0 : Fin 2) * 1024 + 1 * (rOf a).val := rfl
  have h1 : ((((cfg1.win 5).blk (tOfR a)).view.emb (ix2 (rOf a) k)) 1).val = win1_5.index (tOfR a) (1 : Fin 2) * 1 + 1 * k.val := rfl
  have ht : (tOfR a).val = a.val / 1024 := rfl
  have hr : (rOf a).val = a.val % 1024 := rfl
  match x with
  | ⟨0, _⟩ => show ((((cfg1.win 5).blk (tOfR a)).view.emb (ix2 (rOf a) k)) 0).val = a.val; rw [h0, e0, ht, hr]; omega
  | ⟨1, _⟩ => show ((((cfg1.win 5).blk (tOfR a)).view.emb (ix2 (rOf a) k)) 1).val = k.val; rw [h1, e1]; omega

/-- A constant-index input's block is the array. -/
theorem cstblk6 (V : Valuation τ sig (Elt F)) (t : Fin cfg1.N) (p : Fin 64) (k : Fin 1024) :
    iblk1 V 6 t (ix2 p k) = V (Proc.devRef (τ := τ) .tc main_v38) (ix2 p k) := by
  obtain ⟨e0, e1⟩ := idx_in6 t
  show V (Proc.devRef (τ := τ) .tc main_v38) (((cfg1.win 6).blk t).view.emb (ix2 p k)) = _
  refine congrArg _ (funext fun x => Fin.ext ?_)
  have h0 : ((((cfg1.win 6).blk t).view.emb (ix2 p k)) 0).val = win1_6.index t (0 : Fin 2) * 64 + 1 * p.val := rfl
  have h1 : ((((cfg1.win 6).blk t).view.emb (ix2 p k)) 1).val = win1_6.index t (1 : Fin 2) * 1024 + 1 * k.val := rfl
  match x with
  | ⟨0, _⟩ => show ((((cfg1.win 6).blk t).view.emb (ix2 p k)) 0).val = p.val; rw [h0, e0]; omega
  | ⟨1, _⟩ => show ((((cfg1.win 6).blk t).view.emb (ix2 p k)) 1).val = k.val; rw [h1, e1]; omega
/-- A constant-index input's block is the array. -/
theorem cstblk7 (V : Valuation τ sig (Elt F)) (t : Fin cfg1.N) (p : Fin 128) (k : Fin 1024) :
    iblk1 V 7 t (ix2 p k) = V (Proc.devRef (τ := τ) .tc main_v48) (ix2 p k) := by
  obtain ⟨e0, e1⟩ := idx_in7 t
  show V (Proc.devRef (τ := τ) .tc main_v48) (((cfg1.win 7).blk t).view.emb (ix2 p k)) = _
  refine congrArg _ (funext fun x => Fin.ext ?_)
  have h0 : ((((cfg1.win 7).blk t).view.emb (ix2 p k)) 0).val = win1_7.index t (0 : Fin 2) * 128 + 1 * p.val := rfl
  have h1 : ((((cfg1.win 7).blk t).view.emb (ix2 p k)) 1).val = win1_7.index t (1 : Fin 2) * 1024 + 1 * k.val := rfl
  match x with
  | ⟨0, _⟩ => show ((((cfg1.win 7).blk t).view.emb (ix2 p k)) 0).val = p.val; rw [h0, e0]; omega
  | ⟨1, _⟩ => show ((((cfg1.win 7).blk t).view.emb (ix2 p k)) 1).val = k.val; rw [h1, e1]; omega
/-- A constant-index input's block is the array. -/
theorem cstblk8 (V : Valuation τ sig (Elt F)) (t : Fin cfg1.N) (p : Fin 1024) (k : Fin 128) :
    iblk1 V 8 t (ix2 p k) = V (Proc.devRef (τ := τ) .tc main_v57) (ix2 p k) := by
  obtain ⟨e0, e1⟩ := idx_in8 t
  show V (Proc.devRef (τ := τ) .tc main_v57) (((cfg1.win 8).blk t).view.emb (ix2 p k)) = _
  refine congrArg _ (funext fun x => Fin.ext ?_)
  have h0 : ((((cfg1.win 8).blk t).view.emb (ix2 p k)) 0).val = win1_8.index t (0 : Fin 2) * 1024 + 1 * p.val := rfl
  have h1 : ((((cfg1.win 8).blk t).view.emb (ix2 p k)) 1).val = win1_8.index t (1 : Fin 2) * 128 + 1 * k.val := rfl
  match x with
  | ⟨0, _⟩ => show ((((cfg1.win 8).blk t).view.emb (ix2 p k)) 0).val = p.val; rw [h0, e0]; omega
  | ⟨1, _⟩ => show ((((cfg1.win 8).blk t).view.emb (ix2 p k)) 1).val = k.val; rw [h1, e1]; omega
/-- A constant-index input's block is the array. -/
theorem cstblk9 (V : Valuation τ sig (Elt F)) (t : Fin cfg1.N) (p : Fin 19) (k : Fin 128) :
    iblk1 V 9 t (ix2 p k) = V (Proc.devRef (τ := τ) .tc main_v58) (ix2 p k) := by
  obtain ⟨e0, e1⟩ := idx_in9 t
  show V (Proc.devRef (τ := τ) .tc main_v58) (((cfg1.win 9).blk t).view.emb (ix2 p k)) = _
  refine congrArg _ (funext fun x => Fin.ext ?_)
  have h0 : ((((cfg1.win 9).blk t).view.emb (ix2 p k)) 0).val = win1_9.index t (0 : Fin 2) * 19 + 1 * p.val := rfl
  have h1 : ((((cfg1.win 9).blk t).view.emb (ix2 p k)) 1).val = win1_9.index t (1 : Fin 2) * 128 + 1 * k.val := rfl
  match x with
  | ⟨0, _⟩ => show ((((cfg1.win 9).blk t).view.emb (ix2 p k)) 0).val = p.val; rw [h0, e0]; omega
  | ⟨1, _⟩ => show ((((cfg1.win 9).blk t).view.emb (ix2 p k)) 1).val = k.val; rw [h1, e1]; omega
/-- A constant-index input's block is the array. -/
theorem cstblk10 (V : Valuation τ sig (Elt F)) (t : Fin cfg1.N) (p : Fin 1) (k : Fin 128) :
    iblk1 V 10 t (ix2 p k) = V (Proc.devRef (τ := τ) .tc main_v60) (ix2 p k) := by
  obtain ⟨e0, e1⟩ := idx_in10 t
  show V (Proc.devRef (τ := τ) .tc main_v60) (((cfg1.win 10).blk t).view.emb (ix2 p k)) = _
  refine congrArg _ (funext fun x => Fin.ext ?_)
  have h0 : ((((cfg1.win 10).blk t).view.emb (ix2 p k)) 0).val = win1_10.index t (0 : Fin 2) * 1 + 1 * p.val := rfl
  have h1 : ((((cfg1.win 10).blk t).view.emb (ix2 p k)) 1).val = win1_10.index t (1 : Fin 2) * 128 + 1 * k.val := rfl
  match x with
  | ⟨0, _⟩ => show ((((cfg1.win 10).blk t).view.emb (ix2 p k)) 0).val = p.val; rw [h0, e0]; omega
  | ⟨1, _⟩ => show ((((cfg1.win 10).blk t).view.emb (ix2 p k)) 1).val = k.val; rw [h1, e1]; omega
/-- A constant-index input's block is the array. -/
theorem cstblk11 (V : Valuation τ sig (Elt F)) (t : Fin cfg1.N) (p : Fin 1) (k : Fin 128) :
    iblk1 V 11 t (ix2 p k) = V (Proc.devRef (τ := τ) .tc main_v62) (ix2 p k) := by
  obtain ⟨e0, e1⟩ := idx_in11 t
  show V (Proc.devRef (τ := τ) .tc main_v62) (((cfg1.win 11).blk t).view.emb (ix2 p k)) = _
  refine congrArg _ (funext fun x => Fin.ext ?_)
  have h0 : ((((cfg1.win 11).blk t).view.emb (ix2 p k)) 0).val = win1_11.index t (0 : Fin 2) * 1 + 1 * p.val := rfl
  have h1 : ((((cfg1.win 11).blk t).view.emb (ix2 p k)) 1).val = win1_11.index t (1 : Fin 2) * 128 + 1 * k.val := rfl
  match x with
  | ⟨0, _⟩ => show ((((cfg1.win 11).blk t).view.emb (ix2 p k)) 0).val = p.val; rw [h0, e0]; omega
  | ⟨1, _⟩ => show ((((cfg1.win 11).blk t).view.emb (ix2 p k)) 1).val = k.val; rw [h1, e1]; omega
/-- A constant-index input's block is the array. -/
theorem cstblk12 (V : Valuation τ sig (Elt F)) (t : Fin cfg1.N) (p : Fin 256) (k : Fin 1024) :
    iblk1 V 12 t (ix2 p k) = V (Proc.devRef (τ := τ) .tc main_v73) (ix2 p k) := by
  obtain ⟨e0, e1⟩ := idx_in12 t
  show V (Proc.devRef (τ := τ) .tc main_v73) (((cfg1.win 12).blk t).view.emb (ix2 p k)) = _
  refine congrArg _ (funext fun x => Fin.ext ?_)
  have h0 : ((((cfg1.win 12).blk t).view.emb (ix2 p k)) 0).val = win1_12.index t (0 : Fin 2) * 256 + 1 * p.val := rfl
  have h1 : ((((cfg1.win 12).blk t).view.emb (ix2 p k)) 1).val = win1_12.index t (1 : Fin 2) * 1024 + 1 * k.val := rfl
  match x with
  | ⟨0, _⟩ => show ((((cfg1.win 12).blk t).view.emb (ix2 p k)) 0).val = p.val; rw [h0, e0]; omega
  | ⟨1, _⟩ => show ((((cfg1.win 12).blk t).view.emb (ix2 p k)) 1).val = k.val; rw [h1, e1]; omega

end Blocks

/-! ## The per-point output array against the specification -/

/-- The low half of a tile through the body's load: lane `k` of the first 64. -/
theorem ld_lo (x1 : Vec Ideal S1024x128 .f32) (r : Fin 1024) (k : Fin 64) :
    View.ld x1 (Rect.unit (s := S1024x128) ![0, 0] S1024x64.size inb_S1024x128_S1024x64_0_0) (ix2 r k) = x1 (ix2 r ⟨k.val, by have := k.isLt; omega⟩) := by
  refine congrArg x1 (funext fun x => Fin.ext ?_)
  match x with
  | ⟨0, _⟩ => show 0 + 1 * r.val = r.val; omega
  | ⟨1, _⟩ => show 0 + 1 * k.val = k.val; omega

/-- The high half of a tile through the body's load: lane `64 + k`. -/
theorem ld_hi (x2 : Vec Ideal S1024x128 .f32) (r : Fin 1024) (k : Fin 64) :
    View.ld x2 (Rect.unit (s := S1024x128) ![0, 64] S1024x64.size inb_S1024x128_S1024x64_0_64) (ix2 r k) = x2 (ix2 r ⟨64 + k.val, by have := k.isLt; omega⟩) := by
  refine congrArg x2 (funext fun x => Fin.ext ?_)
  match x with
  | ⟨0, _⟩ => show 0 + 1 * r.val = r.val; omega
  | ⟨1, _⟩ => show 64 + 1 * k.val = 64 + k.val; omega

set_option maxHeartbeats 2000000 in
/-- THE PER-POINT OUTPUT ARRAY AFTER THE REGION, index by index, at the ideal values: the specification's feature row of
    the arrays the region reads. -/
theorem x16of_row (V : Valuation τ sig (Elt Ideal)) (a : Fin 16384) (b : Fin 256) :
    x16of (iblk1 V 0 (tOfR a)) (iblk1 V 1 (tOfR a)) (iblk1 V 2 (tOfR a)) (iblk1 V 3 (tOfR a)) (iblk1 V 4 (tOfR a)) (iblk1 V 5 (tOfR a)) (iblk1 V 6 (tOfR a)) (iblk1 V 7 (tOfR a)) (iblk1 V 8 (tOfR a)) (iblk1 V 9 (tOfR a)) (iblk1 V 10 (tOfR a)) (iblk1 V 11 (tOfR a)) (ix2 (rOf a) b) = Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62)) (ix2 a b) := by
  unfold x16of
  rw [pay1_apply]
  unfold Cert.Spec.r1X Cert.Spec.kX16
  show _ = (if h : b.val < 64 then _ else if h : b.val < 128 then _ else _)
  by_cases c0 : b.val < 64
  · rw [dif_pos c0, dif_pos c0]
    unfold k1_pay8
    refine (congrFun (shapeCast_self _ _) _).trans ?_
    exact (ld_lo _ (rOf a) ⟨b.val, c0⟩).trans (rowblk0 V a _)
  · rw [dif_neg c0, dif_neg c0]
    by_cases c1 : b.val < 128
    · rw [dif_pos c1, dif_pos c1]
      refine (ld_hi _ (rOf a) ⟨b.val - 64, by omega⟩).trans ?_
      refine (rowblk1 V a _).trans (congrArg _ (funext fun x => Fin.ext ?_))
      match x with
      | ⟨0, _⟩ => rfl
      | ⟨1, _⟩ => show 64 + (b.val - 64) = b.val; omega
    · rw [dif_neg c1, dif_neg c1]
      have hb := b.isLt
      unfold Cert.Spec.kReg1
      refine congrArg₂ (· + ·) (congrArg₂ (· + ·) (congrArg₂ (· + ·) (rowblk2 V a _) ?gv) ?cross) ?rt
      case gv =>
        refine (pay7_apply _ _ _ (rOf a) _).trans ?_
        unfold Cert.Spec.kGvw Cert.Spec.kdot
        refine congrArg₂ (· + ·) (congrArg₂ (· + ·) rfl (Finset.sum_congr rfl fun k _ => ?_)) (cstblk10 V _ 0 _)
        exact congrArg₂ (· * ·) (rowblk3 V a k) (cstblk9 V _ k _)
      case cross =>
        refine (pay9_apply _ _ _ _ _ _ _ _ (rOf a) _).trans ?_
        unfold Cert.Spec.kCrossW Cert.Spec.kTmp Cert.Spec.kGvr Cert.Spec.kdot Cert.Spec.kUcols Cert.Spec.kGvw Cert.Spec.kdot
        refine congrArg₂ (· + ·) (congrArg₂ (· + ·) rfl (Finset.sum_congr rfl fun k _ => ?_)) (cstblk11 V _ 0 _)
        refine congrArg₂ (· * ·) (congrArg₂ (· * ·) ?_ ?_) (cstblk8 V _ k _)
        · refine congrArg₂ (· + ·) rfl (Finset.sum_congr rfl fun m _ => ?_)
          refine congrArg₂ (· * ·) ?_ (cstblk6 V _ m k)
          exact (ld_lo _ (rOf a) m).trans (rowblk0 V a _)
        · refine congrArg₂ (· + ·) rfl (Finset.sum_congr rfl fun m _ => ?_)
          refine congrArg₂ (· * ·) ?_ (cstblk7 V _ m k)
          refine (pay7_apply _ _ _ (rOf a) m).trans ?_
          refine congrArg₂ (· + ·) (congrArg₂ (· + ·) rfl (Finset.sum_congr rfl fun k' _ => ?_)) (cstblk10 V _ 0 _)
          exact congrArg₂ (· * ·) (rowblk3 V a k') (cstblk9 V _ k' _)
      case rt =>
        unfold Cert.Spec.kRtBlock Cert.Spec.col1
        show (if b.val - 128 < 96 then _ else if b.val - 128 = 96 then _ else if b.val - 128 = 97 then _ else if b.val - 128 = 98 then _ else _)
          = (if b.val - 128 < 96 then _ else if b.val - 128 = 96 then _ else if b.val - 128 = 97 then _ else if b.val - 128 = 98 then _ else _)
        by_cases d0 : b.val - 128 < 96
        · rw [if_pos d0, if_pos d0]; rfl
        · rw [if_neg d0, if_neg d0]
          by_cases d1 : b.val - 128 = 96
          · rw [if_pos d1, if_pos d1]
            unfold k1_pay11 k1_pay10
            exact (congrFun (shapeCast_self _ _) _).trans (rowblk4 V a 0)
          · rw [if_neg d1, if_neg d1]
            by_cases d2 : b.val - 128 = 97
            · rw [if_pos d2, if_pos d2]
              unfold k1_pay12 k1_pay11 k1_pay10
              refine (subf_apply _ _ _).trans ?_
              exact congrArg₂ (· - ·) ((congrFun (shapeCast_self _ _) _).trans (rowblk4 V a 0)) ((congrFun (shapeCast_self _ _) _).trans (rowblk4 V a 0))
            · rw [if_neg d2, if_neg d2]
              by_cases d3 : b.val - 128 = 98
              · rw [if_pos d3, if_pos d3]
                unfold k1_pay13
                exact (congrFun (shapeCast_self _ _) _).trans (rowblk5 V a 0)
              · rw [if_neg d3, if_neg d3]

/-- The per-point output array after the region, index by index. -/
theorem g13_apply (V : Valuation τ sig (Elt Ideal)) (a : Fin 16384) (b : Fin 256) :
    g13 V (ix2 a b) = Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62)) (ix2 a b) := by
  have hloc : locOf1 (ix2 a b) = ix2 (rOf a) b := funext fun x => by
    match x with
    | ⟨0, _⟩ => rfl
    | ⟨1, _⟩ => rfl
  show x16of (iblk1 V 0 (tOfR a)) (iblk1 V 1 (tOfR a)) (iblk1 V 2 (tOfR a)) (iblk1 V 3 (tOfR a)) (iblk1 V 4 (tOfR a)) (iblk1 V 5 (tOfR a)) (iblk1 V 6 (tOfR a)) (iblk1 V 7 (tOfR a)) (iblk1 V 8 (tOfR a)) (iblk1 V 9 (tOfR a)) (iblk1 V 10 (tOfR a)) (iblk1 V 11 (tOfR a)) (locOf1 (ix2 a b)) = _
  rw [hloc]
  exact x16of_row V a b

/-- THE FIRST OUTPUT ARRAY of the first region at the valuation after it: the specification's feature row. -/
theorem regAfter1_x16 (V : Valuation τ sig (Elt Ideal)) :
    regAfter1 V (Proc.devRef (τ := τ) .tc main_v87_0) = Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62)) := by
  refine (regAfter1_13 V).trans (funext fun i => ?_)
  rw [eq_ix2 i]
  exact g13_apply V (i 0) (i 1)

end Cert.KernelIdeal.RegionVal

end
-- ==== Proof.RegionValK3IdealBase.lean ====
import proofs.«214388_g48842368090541_cont_8to1c4_19_37_alg».proof.Proof.Gen.KernelIdeal.Launch
import proofs.«214388_g48842368090541_cont_8to1c4_19_37_alg».proof.Proof.Gen.KernelIdeal.Skeleton
import proofs.«214388_g48842368090541_cont_8to1c4_19_37_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-- The zero offset of a two-axis rectangle, as a constant function. -/
theorem hz3 : (![0, 0] : Fin 2 → Nat) = fun _ => 0 := funext fun a => by fin_cases a <;> rfl

/-- A buffer whose LAST store went through the whole-shape rectangle at zero offsets reads as that store's payload,
    whatever the earlier stores and the prior contents were: the rectangle holds every index. -/
theorem read_writes_unit_cons {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.Mem.head _, View.mem_set_unit_zero h inb y⟩)).trans
    (View.canon_cons_unit_zero h inb w L)

/-- The condition of the third body's one conditional, from the grid coordinate: the printed scalar chain
    (the coordinate compared with zero, the bit widened to a word, the word compared with zero) substituted. -/
abbrev cond3 (i : grid3.Coords) : Prop :=
  Scalar.cmpi .ne (Scalar.extui (Scalar.cmpi .eq (BitVec.ofNat 32 (i 0).val) 0#32)) 0#32 = 1#1

/-- Over the grid's points in order: taken at the first point only — decided over the grid. -/
theorem hcond3 : ∀ t : Fin cfg3.N, cond3 (grid3.coords t) ↔ t.val = 0 :=
  (by decide +kernel : ∀ t : Fin grid3.N, cond3 (grid3.coords t) ↔ t.val = 0)

end Cert.KernelIdeal.RegionVal

end
-- ==== Proof.RegionValK2IdealRun.lean ====
import proofs.«214388_g48842368090541_cont_8to1c4_19_37_alg».proof.Proof.RegionValK3IdealBase
import proofs.«214388_g48842368090541_cont_8to1c4_19_37_alg».proof.Proof.BodyRunK2Ideal

set_option maxRecDepth 16384

noncomputable section

namespace Cert.KernelIdeal.RegionVal

open Cert.KernelIdeal Cert.KernelIdeal.Gen Cert.KernelIdeal.BodyRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## The second body's two runs with values -/

set_option maxHeartbeats 2000000 in
/-- The second body at a point where its conditional IS taken (the first grid point), on whole staging memrefs: the nine
    inputs' at read contents x1 … x9, the four outputs' and the scratch buffer's at anything. The guarded region casts the
    weight matrix x9 into the scratch buffer and zeroes the two accumulators; the rest of the body then reads them back. It
    runs to the continuation holding the inputs' as they were, the scratch buffer at the cast, the activation tile's buffer
    at the normalised, rectified and rounded tile, the product tile's at its truncated product with the cast, and each
    accumulator at the zero word plus the product tile's column sums (of the product, of its square). -/
theorem sound_k2_A (c : Dev nD) (i : grid2.Coords) (arg1 : Memref sig .tc .vmem S1024x256 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .bf16) (harg14 : arg14.IsWhole) (hc : cond2_0 i)
    (x1 : Vec F S1024x256 .bf16) (x2 : Vec F S1x1024 .f32) (x3 : Vec F S1x1024 .f32) (x4 : Vec F S1x1024 .f32) (x5 : Vec F S1x1024 .f32) (x6 : Vec F S256x1024 .bf16) (x7 : Vec F S256x1024 .bf16) (x8 : Vec F S1x1024 .f32) (x9 : Vec F S1024x1024 .f32) :
    ∀ (E : Set Name) (Kp : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k2_pay1 (k2_pay11 x2 x3 x4) (k2_pay12 x2 x3 x4 x5) (k2_pay14 x1 x6) (k2_pay15 x1 x7 x8)) ∗ owns (c : Thread nD τ) arg11 fullShare (k2_pay3 (k2_pay11 x2 x3 x4) (k2_pay12 x2 x3 x4 x5) (k2_pay14 x1 x6) (k2_pay15 x1 x7 x8) (k2_pay7 x9)) ∗ owns (c : Thread nD τ) arg12 fullShare (k2_pay5 (k2_pay11 x2 x3 x4) (k2_pay12 x2 x3 x4 x5) (k2_pay14 x1 x6) (k2_pay15 x1 x7 x8) (k2_pay7 x9) k2_pay8) ∗ owns (c : Thread nD τ) arg13 fullShare (k2_pay6 (k2_pay11 x2 x3 x4) (k2_pay12 x2 x3 x4 x5) (k2_pay14 x1 x6) (k2_pay15 x1 x7 x8) (k2_pay7 x9) k2_pay9) ∗ owns (c : Thread nD τ) arg14 fullShare (k2_pay7 x9)) -∗ Kp ⟨⟩))
        ⊢ wp frame (wpE (defs₀ (F := F)) Variants.none c none) E (cc2__k2 i arg1 harg1 arg2 harg2 arg3 harg3 arg4 harg4 arg5 harg5 arg6 harg6 arg7 harg7 arg8 harg8 arg9 harg9 arg10 harg10 arg11 harg11 arg12 harg12 arg13 harg13 arg14 harg14) Kp := by
    intro E Kp
    simp only [cc2__k2_eq_skeleton]; unfold cc2__k2_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    subst hf1 hf2 hf3 hf4 hf5 hf6 hf7 hf8 hf9
    sl_exec (disch := first | exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr; swap; · iexact H10
      ipureintro
      refine (read_writes_unit_cons _ _ hz3 _ _ _).trans ?_
      sl_unfold_run_names
      simp only [View.readAt_eq_ld, View.ld_unit_zero (S := S1024x256) hz3, View.ld_unit_zero (S := S1x1024) hz3, View.ld_unit_zero (S := S256x1024) hz3, View.ld_unit_zero (S := S1024x1024) hz3, View.readCov_unit_zero (S := S1024x1024) _ hz3, View.readCov_unit_zero (S := S1x1024) _ hz3]
    isplitl [H11]
    · iexists _; isplitr; swap; · iexact H11
      ipureintro
      refine (read_writes_unit_cons _ _ hz3 _ _ _).trans ?_
      sl_unfold_run_names
      simp only [View.readAt_eq_ld, View.ld_unit_zero (S := S1024x256) hz3, View.ld_unit_zero (S := S1x1024) hz3, View.ld_unit_zero (S := S256x1024) hz3, View.ld_unit_zero (S := S1024x1024) hz3, View.readCov_unit_zero (S := S1024x1024) _ hz3, View.readCov_unit_zero (S := S1x1024) _ hz3]
    isplitl [H12]
    · iexists _; isplitr; swap; · iexact H12
      ipureintro
      refine (read_writes_unit_cons _ _ hz3 _ _ _).trans ?_
      sl_unfold_run_names
      simp only [View.readAt_eq_ld, View.ld_unit_zero (S := S1024x256) hz3, View.ld_unit_zero (S := S1x1024) hz3, View.ld_unit_zero (S := S256x1024) hz3, View.ld_unit_zero (S := S1024x1024) hz3, View.readCov_unit_zero (S := S1024x1024) _ hz3, View.readCov_unit_zero (S := S1x1024) _ hz3]
    isplitl [H13]
    · iexists _; isplitr; swap; · iexact H13
      ipureintro
      refine (read_writes_unit_cons _ _ hz3 _ _ _).trans ?_
      sl_unfold_run_names
      simp only [View.readAt_eq_ld, View.ld_unit_zero (S := S1024x256) hz3, View.ld_unit_zero (S := S1x1024) hz3, View.ld_unit_zero (S := S256x1024) hz3, View.ld_unit_zero (S := S1024x1024) hz3, View.readCov_unit_zero (S := S1024x1024) _ hz3, View.readCov_unit_zero (S := S1x1024) _ hz3]
    iexists _; isplitr; swap; · iexact H14
    ipureintro
    refine (read_writes_unit_cons _ _ hz3 _ _ _).trans ?_
    sl_unfold_run_names
    simp only [View.readAt_eq_ld, View.ld_unit_zero (S := S1024x256) hz3, View.ld_unit_zero (S := S1x1024) hz3, View.ld_unit_zero (S := S256x1024) hz3, View.ld_unit_zero (S := S1024x1024) hz3, View.readCov_unit_zero (S := S1024x1024) _ hz3, View.readCov_unit_zero (S := S1x1024) _ hz3]

set_option maxHeartbeats 2000000 in
/-- The second body at a point where its conditional is NOT taken (every point after the first), on whole staging
    memrefs: the nine inputs' at read contents x1 … x9, the two accumulators' at their running contents a12 a13, the
    scratch buffer's at the weight copy s14 it carries, the two per-point outputs' at anything. It runs to the
    continuation holding the inputs' and the scratch buffer's as they were, the activation tile's buffer at the normalised,
    rectified and rounded tile, the product tile's at its truncated product with s14, and each accumulator at what it held
    plus the product tile's column sums (of the product, of its square). -/
theorem sound_k2_B (c : Dev nD) (i : grid2.Coords) (arg1 : Memref sig .tc .vmem S1024x256 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .bf16) (harg14 : arg14.IsWhole) (hc : ¬cond2_0 i)
    (x1 : Vec F S1024x256 .bf16) (x2 : Vec F S1x1024 .f32) (x3 : Vec F S1x1024 .f32) (x4 : Vec F S1x1024 .f32) (x5 : Vec F S1x1024 .f32) (x6 : Vec F S256x1024 .bf16) (x7 : Vec F S256x1024 .bf16) (x8 : Vec F S1x1024 .f32) (x9 : Vec F S1024x1024 .f32) (a12 : Vec F S1x1024 .f32) (a13 : Vec F S1x1024 .f32) (s14 : Vec F S1024x1024 .bf16) :
    ∀ (E : Set Name) (Kp : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare a12 ∗ owns (c : Thread nD τ) arg13 fullShare a13 ∗ owns (c : Thread nD τ) arg14 fullShare s14
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k2_pay1 (k2_pay11 x2 x3 x4) (k2_pay12 x2 x3 x4 x5) (k2_pay14 x1 x6) (k2_pay15 x1 x7 x8)) ∗ owns (c : Thread nD τ) arg11 fullShare (k2_pay3 (k2_pay11 x2 x3 x4) (k2_pay12 x2 x3 x4 x5) (k2_pay14 x1 x6) (k2_pay15 x1 x7 x8) s14) ∗ owns (c : Thread nD τ) arg12 fullShare (k2_pay5 (k2_pay11 x2 x3 x4) (k2_pay12 x2 x3 x4 x5) (k2_pay14 x1 x6) (k2_pay15 x1 x7 x8) s14 a12) ∗ owns (c : Thread nD τ) arg13 fullShare (k2_pay6 (k2_pay11 x2 x3 x4) (k2_pay12 x2 x3 x4 x5) (k2_pay14 x1 x6) (k2_pay15 x1 x7 x8) s14 a13) ∗ owns (c : Thread nD τ) arg14 fullShare s14) -∗ Kp ⟨⟩))
        ⊢ wp frame (wpE (defs₀ (F := F)) Variants.none c none) E (cc2__k2 i arg1 harg1 arg2 harg2 arg3 harg3 arg4 harg4 arg5 harg5 arg6 harg6 arg7 harg7 arg8 harg8 arg9 harg9 arg10 harg10 arg11 harg11 arg12 harg12 arg13 harg13 arg14 harg14) Kp := by
    intro E Kp
    simp only [cc2__k2_eq_skeleton]; unfold cc2__k2_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%f14, %hf14, H14⟩, Hk⟩
    subst hf1 hf2 hf3 hf4 hf5 hf6 hf7 hf8 hf9 hf12 hf13 hf14
    sl_exec (disch := first | exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr; swap; · iexact H10
      ipureintro
      refine (read_writes_unit_cons _ _ hz3 _ _ _).trans ?_
      sl_unfold_run_names
      simp only [View.readAt_eq_ld, View.ld_unit_zero (S := S1024x256) hz3, View.ld_unit_zero (S := S1x1024) hz3, View.ld_unit_zero (S := S256x1024) hz3, View.ld_unit_zero (S := S1024x1024) hz3, View.readCov_unit_zero (S := S1024x1024) _ hz3, View.readCov_unit_zero (S := S1x1024) _ hz3]
    isplitl [H11]
    · iexists _; isplitr; swap; · iexact H11
      ipureintro
      refine (read_writes_unit_cons _ _ hz3 _ _ _).trans ?_
      sl_unfold_run_names
      simp only [View.readAt_eq_ld, View.ld_unit_zero (S := S1024x256) hz3, View.ld_unit_zero (S := S1x1024) hz3, View.ld_unit_zero (S := S256x1024) hz3, View.ld_unit_zero (S := S1024x1024) hz3, View.readCov_unit_zero (S := S1024x1024) _ hz3, View.readCov_unit_zero (S := S1x1024) _ hz3]
    isplitl [H12]
    · iexists _; isplitr; swap; · iexact H12
      ipureintro
      refine (read_writes_unit_cons _ _ hz3 _ _ _).trans ?_
      sl_unfold_run_names
      simp only [View.readAt_eq_ld, View.ld_unit_zero (S := S1024x256) hz3, View.ld_unit_zero (S := S1x1024) hz3, View.ld_unit_zero (S := S256x1024) hz3, View.ld_unit_zero (S := S1024x1024) hz3, View.readCov_unit_zero (S := S1024x1024) _ hz3, View.readCov_unit_zero (S := S1x1024) _ hz3]
    isplitl [H13]
    · iexists _; isplitr; swap; · iexact H13
      ipureintro
      refine (read_writes_unit_cons _ _ hz3 _ _ _).trans ?_
      sl_unfold_run_names
      simp only [View.readAt_eq_ld, View.ld_unit_zero (S := S1024x256) hz3, View.ld_unit_zero (S := S1x1024) hz3, View.ld_unit_zero (S := S256x1024) hz3, View.ld_unit_zero (S := S1024x1024) hz3, View.readCov_unit_zero (S := S1024x1024) _ hz3, View.readCov_unit_zero (S := S1x1024) _ hz3]
    iexists f14; isplitr; · ipureintro; rfl
    iexact H14

end Cert.KernelIdeal.RegionVal

end
-- ==== Proof.RegionValK2IdealData.lean ====
import proofs.«214388_g48842368090541_cont_8to1c4_19_37_alg».proof.Proof.RegionValK2IdealRun

set_option maxRecDepth 16384

noncomputable section

namespace Cert.KernelIdeal.RegionVal

open Cert.KernelIdeal Cert.KernelIdeal.Gen Cert.KernelIdeal.BodyRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## The exact proof data of the second pipeline over a valuation -/

/-- A valuation read at a TensorCore reference of core c. -/
abbrev Vc2 (V : Valuation τ sig (Elt F)) (c : Dev nD) (b : Ref sig .tc) : Buf (Elt F) ((c.tc : Thread nD τ).loc b) :=
  V (Proc.devRef (τ := τ) .tc b)

/-- Window w's block at point t, read off its array at the valuation. -/
def iblk2 (V : Valuation τ sig (Elt F)) (w : Fin cfg2.W) (t : Fin cfg2.N) :
    ((cfg2.win w).xblock (cfg2.grid.coords t)).Idx → Elt F (cfg2.win w).elt :=
  ((cfg2.win w).blk t).view.read (Elt F) (V (Proc.devRef (τ := τ) .tc (Pipeline.arrRef spec2 w)))

theorem before2_0_of {c : Dev nD} (V : Valuation τ sig (Elt F)) (dat : Dat τ (Elt F) Ix Name U Lvl cfg2 c) (hA : dat.A 0 = Vc2 V c (Pipeline.arrRef spec2 0))
    (hafter : ∀ t, dat.after 0 t = iblk2 V 0 t) (t : Fin cfg2.N) (d) : dat.before 0 t d = iblk2 V 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (V : Valuation τ sig (Elt F)) (dat : Dat τ (Elt F) Ix Name U Lvl cfg2 c) (hA : dat.A 1 = Vc2 V c (Pipeline.arrRef spec2 1))
    (hafter : ∀ t, dat.after 1 t = iblk2 V 1 t) (t : Fin cfg2.N) (d) : dat.before 1 t d = iblk2 V 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (V : Valuation τ sig (Elt F)) (dat : Dat τ (Elt F) Ix Name U Lvl cfg2 c) (hA : dat.A 2 = Vc2 V c (Pipeline.arrRef spec2 2))
    (hafter : ∀ t, dat.after 2 t = iblk2 V 2 t) (t : Fin cfg2.N) (d) : dat.before 2 t d = iblk2 V 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (V : Valuation τ sig (Elt F)) (dat : Dat τ (Elt F) Ix Name U Lvl cfg2 c) (hA : dat.A 3 = Vc2 V c (Pipeline.arrRef spec2 3))
    (hafter : ∀ t, dat.after 3 t = iblk2 V 3 t) (t : Fin cfg2.N) (d) : dat.before 3 t d = iblk2 V 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (V : Valuation τ sig (Elt F)) (dat : Dat τ (Elt F) Ix Name U Lvl cfg2 c) (hA : dat.A 4 = Vc2 V c (Pipeline.arrRef spec2 4))
    (hafter : ∀ t, dat.after 4 t = iblk2 V 4 t) (t : Fin cfg2.N) (d) : dat.before 4 t d = iblk2 V 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (V : Valuation τ sig (Elt F)) (dat : Dat τ (Elt F) Ix Name U Lvl cfg2 c) (hA : dat.A 5 = Vc2 V c (Pipeline.arrRef spec2 5))
    (hafter : ∀ t, dat.after 5 t = iblk2 V 5 t) (t : Fin cfg2.N) (d) : dat.before 5 t d = iblk2 V 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (V : Valuation τ sig (Elt F)) (dat : Dat τ (Elt F) Ix Name U Lvl cfg2 c) (hA : dat.A 6 = Vc2 V c (Pipeline.arrRef spec2 6))
    (hafter : ∀ t, dat.after 6 t = iblk2 V 6 t) (t : Fin cfg2.N) (d) : dat.before 6 t d = iblk2 V 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (V : Valuation τ sig (Elt F)) (dat : Dat τ (Elt F) Ix Name U Lvl cfg2 c) (hA : dat.A 7 = Vc2 V c (Pipeline.arrRef spec2 7))
    (hafter : ∀ t, dat.after 7 t = iblk2 V 7 t) (t : Fin cfg2.N) (d) : dat.before 7 t d = iblk2 V 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (V : Valuation τ sig (Elt F)) (dat : Dat τ (Elt F) Ix Name U Lvl cfg2 c) (hA : dat.A 8 = Vc2 V c (Pipeline.arrRef spec2 8))
    (hafter : ∀ t, dat.after 8 t = iblk2 V 8 t) (t : Fin cfg2.N) (d) : dat.before 8 t d = iblk2 V 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The batch norm's scale at point t: from the previous layer's column sums, sums of squares and gain. -/
def v18_2 (V : Valuation τ sig (Elt F)) (t : Fin cfg2.N) : Vec F S1x1024 .f32 := k2_pay11 (iblk2 V 1 t) (iblk2 V 2 t) (iblk2 V 3 t)
/-- The batch norm's shift at point t. -/
def v22_2 (V : Valuation τ sig (Elt F)) (t : Fin cfg2.N) : Vec F S1x1024 .f32 := k2_pay12 (iblk2 V 1 t) (iblk2 V 2 t) (iblk2 V 3 t) (iblk2 V 4 t)
/-- The first layer's product tile at point t: the feature tile against the first weight block. -/
def v27_2 (V : Valuation τ sig (Elt F)) (t : Fin cfg2.N) : Vec F S1024x1024 .f32 := k2_pay14 (iblk2 V 0 t) (iblk2 V 5 t)
/-- The skip path's product tile at point t: the feature tile against the second weight block, the bias added. -/
def v34_2 (V : Valuation τ sig (Elt F)) (t : Fin cfg2.N) : Vec F S1024x1024 .f32 := k2_pay15 (iblk2 V 0 t) (iblk2 V 6 t) (iblk2 V 7 t)

/-- What the scratch buffer carries from the first point on: the bf16 copy of the second layer's weight block. -/
def sW2 (V : Valuation τ sig (Elt F)) : Vec F S1024x1024 .bf16 := k2_pay7 (iblk2 V 8 t2_0)

/-- THE FIRST ACCUMULATION. What the column-sum accumulator's staging buffer holds after the body at position n: the zero word plus the first tile's column sums, then what the point before left plus the tile's. -/
def accS2 (V : Valuation τ sig (Elt F)) : (n : ℕ) → n < cfg2.N → Vec F S1x1024 .f32
  | 0, h => k2_pay5 (v18_2 V ⟨0, h⟩) (v22_2 V ⟨0, h⟩) (v27_2 V ⟨0, h⟩) (v34_2 V ⟨0, h⟩) (sW2 V) k2_pay8
  | n + 1, h => k2_pay5 (v18_2 V ⟨n + 1, h⟩) (v22_2 V ⟨n + 1, h⟩) (v27_2 V ⟨n + 1, h⟩) (v34_2 V ⟨n + 1, h⟩) (sW2 V) (accS2 V n (Nat.lt_of_succ_lt h))

/-- At the first point: the zero word plus the tile's sums. -/
theorem accS2_first (V : Valuation τ sig (Elt F)) (t : Fin cfg2.N) (h0 : t.val = 0) :
    accS2 V t.val t.isLt = k2_pay5 (v18_2 V t) (v22_2 V t) (v27_2 V t) (v34_2 V t) (sW2 V) k2_pay8 := by
  obtain ⟨n, hn⟩ := t
  cases n with
  | zero => rfl
  | succ n => exact absurd h0 (Nat.succ_ne_zero n)

/-- At a later point: what the point before left plus the tile's sums. -/
theorem accS2_later (V : Valuation τ sig (Elt F)) (t : Fin cfg2.N) (h0 : t.val ≠ 0) :
    accS2 V t.val t.isLt = k2_pay5 (v18_2 V t) (v22_2 V t) (v27_2 V t) (v34_2 V t) (sW2 V) (accS2 V (t.val - 1) (Nat.lt_of_le_of_lt (Nat.sub_le _ _) t.isLt)) := by
  obtain ⟨n, hn⟩ := t
  cases n with
  | zero => exact absurd rfl h0
  | succ n => rfl

/-- THE SECOND ACCUMULATION, of the squares' column sums: the same recursion. -/
def accQ2 (V : Valuation τ sig (Elt F)) : (n : ℕ) → n < cfg2.N → Vec F S1x1024 .f32
  | 0, h => k2_pay6 (v18_2 V ⟨0, h⟩) (v22_2 V ⟨0, h⟩) (v27_2 V ⟨0, h⟩) (v34_2 V ⟨0, h⟩) (sW2 V) k2_pay9
  | n + 1, h => k2_pay6 (v18_2 V ⟨n + 1, h⟩) (v22_2 V ⟨n + 1, h⟩) (v27_2 V ⟨n + 1, h⟩) (v34_2 V ⟨n + 1, h⟩) (sW2 V) (accQ2 V n (Nat.lt_of_succ_lt h))

/-- At the first point: the zero word plus the tile's sums. -/
theorem accQ2_first (V : Valuation τ sig (Elt F)) (t : Fin cfg2.N) (h0 : t.val = 0) :
    accQ2 V t.val t.isLt = k2_pay6 (v18_2 V t) (v22_2 V t) (v27_2 V t) (v34_2 V t) (sW2 V) k2_pay9 := by
  obtain ⟨n, hn⟩ := t
  cases n with
  | zero => rfl
  | succ n => exact absurd h0 (Nat.succ_ne_zero n)

/-- At a later point: what the point before left plus the tile's sums. -/
theorem accQ2_later (V : Valuation τ sig (Elt F)) (t : Fin cfg2.N) (h0 : t.val ≠ 0) :
    accQ2 V t.val t.isLt = k2_pay6 (v18_2 V t) (v22_2 V t) (v27_2 V t) (v34_2 V t) (sW2 V) (accQ2 V (t.val - 1) (Nat.lt_of_le_of_lt (Nat.sub_le _ _) t.isLt)) := by
  obtain ⟨n, hn⟩ := t
  cases n with
  | zero => exact absurd rfl h0
  | succ n => rfl

/-- The invariant before position n: before the first point the scoped buffers no window stages, each whole at some
    contents, and the generator register; from then on the scratch buffer is held at the weight copy the first point
    wrote, the other scoped buffers as before. -/
def Φ2 (V : Valuation τ sig (Elt F)) (c : Dev nD) (n : Fin (cfg2.N + 1)) : sProp 𝕄 :=
  if n.val = 0 then iprop(Pipeline.scopedRest spec2 c ∗ ∃ r, prngReg c r)
  else iprop((owns (c : Thread nD τ) (Memref.whole cc2_scratch0) fullShare (sW2 V) ∗ Pipeline.scopedRestBut spec2 c [cc2_scratch0]) ∗ ∃ r, prngReg c r)

/-- The exact data: the arrays as the valuation has them; after the body at point t each input's buffer at its block,
    the activation tile's at the normalised, rectified and rounded tile, the product tile's at its truncated product with
    the weight copy, the accumulators' at the two accumulations; the invariant tracks the scratch buffer; nothing owed;
    full shares; the recorded pairs within B. -/
def dat2 (V : Valuation τ sig (Elt F)) (B : Set (SemLoc sig × Ix)) (c : Dev nD) : Dat τ (Elt F) Ix Name U Lvl cfg2 c where
  A w := Vc2 V c (Pipeline.arrRef spec2 w)
  after w t := match w with
    | ⟨0, _⟩ => iblk2 V 0 t
    | ⟨1, _⟩ => iblk2 V 1 t
    | ⟨2, _⟩ => iblk2 V 2 t
    | ⟨3, _⟩ => iblk2 V 3 t
    | ⟨4, _⟩ => iblk2 V 4 t
    | ⟨5, _⟩ => iblk2 V 5 t
    | ⟨6, _⟩ => iblk2 V 6 t
    | ⟨7, _⟩ => iblk2 V 7 t
    | ⟨8, _⟩ => iblk2 V 8 t
    | ⟨9, _⟩ => k2_pay1 (v18_2 V t) (v22_2 V t) (v27_2 V t) (v34_2 V t)
    | ⟨10, _⟩ => k2_pay3 (v18_2 V t) (v22_2 V t) (v27_2 V t) (v34_2 V t) (sW2 V)
    | ⟨11, _⟩ => accS2 V t.val t.isLt
    | ⟨12, _⟩ => accQ2 V t.val t.isLt
  Φ n := Φ2 V c n
  q _ := fullShare
  owed _ := 0
  recorded _ := B

theorem A2_eq (V : Valuation τ sig (Elt F)) (B : Set (SemLoc sig × Ix)) (c : Dev nD) (w : Fin cfg2.W) :
    (dat2 (Name := Name) (U := U) (Lvl := Lvl) V B c).A w = Vc2 V c (Pipeline.arrRef spec2 w) := by dsimp only [dat2]

theorem after2_0 (V : Valuation τ sig (Elt F)) (B : Set (SemLoc sig × Ix)) (c : Dev nD) (t : Fin cfg2.N) : (dat2 (Name := Name) (U := U) (Lvl := Lvl) V B c).after 0 t = iblk2 V 0 t := by dsimp only [dat2]
theorem after2_1 (V : Valuation τ sig (Elt F)) (B : Set (SemLoc sig × Ix)) (c : Dev nD) (t : Fin cfg2.N) : (dat2 (Name := Name) (U := U) (Lvl := Lvl) V B c).after 1 t = iblk2 V 1 t := by dsimp only [dat2]
theorem after2_2 (V : Valuation τ sig (Elt F)) (B : Set (SemLoc sig × Ix)) (c : Dev nD) (t : Fin cfg2.N) : (dat2 (Name := Name) (U := U) (Lvl := Lvl) V B c).after 2 t = iblk2 V 2 t := by dsimp only [dat2]
theorem after2_3 (V : Valuation τ sig (Elt F)) (B : Set (SemLoc sig × Ix)) (c : Dev nD) (t : Fin cfg2.N) : (dat2 (Name := Name) (U := U) (Lvl := Lvl) V B c).after 3 t = iblk2 V 3 t := by dsimp only [dat2]
theorem after2_4 (V : Valuation τ sig (Elt F)) (B : Set (SemLoc sig × Ix)) (c : Dev nD) (t : Fin cfg2.N) : (dat2 (Name := Name) (U := U) (Lvl := Lvl) V B c).after 4 t = iblk2 V 4 t := by dsimp only [dat2]
theorem after2_5 (V : Valuation τ sig (Elt F)) (B : Set (SemLoc sig × Ix)) (c : Dev nD) (t : Fin cfg2.N) : (dat2 (Name := Name) (U := U) (Lvl := Lvl) V B c).after 5 t = iblk2 V 5 t := by dsimp only [dat2]
theorem after2_6 (V : Valuation τ sig (Elt F)) (B : Set (SemLoc sig × Ix)) (c : Dev nD) (t : Fin cfg2.N) : (dat2 (Name := Name) (U := U) (Lvl := Lvl) V B c).after 6 t = iblk2 V 6 t := by dsimp only [dat2]
theorem after2_7 (V : Valuation τ sig (Elt F)) (B : Set (SemLoc sig × Ix)) (c : Dev nD) (t : Fin cfg2.N) : (dat2 (Name := Name) (U := U) (Lvl := Lvl) V B c).after 7 t = iblk2 V 7 t := by dsimp only [dat2]
theorem after2_8 (V : Valuation τ sig (Elt F)) (B : Set (SemLoc sig × Ix)) (c : Dev nD) (t : Fin cfg2.N) : (dat2 (Name := Name) (U := U) (Lvl := Lvl) V B c).after 8 t = iblk2 V 8 t := by dsimp only [dat2]
theorem after2_9 (V : Valuation τ sig (Elt F)) (B : Set (SemLoc sig × Ix)) (c : Dev nD) (t : Fin cfg2.N) : (dat2 (Name := Name) (U := U) (Lvl := Lvl) V B c).after 9 t = k2_pay1 (v18_2 V t) (v22_2 V t) (v27_2 V t) (v34_2 V t) := by dsimp only [dat2]
theorem after2_10 (V : Valuation τ sig (Elt F)) (B : Set (SemLoc sig × Ix)) (c : Dev nD) (t : Fin cfg2.N) : (dat2 (Name := Name) (U := U) (Lvl := Lvl) V B c).after 10 t = k2_pay3 (v18_2 V t) (v22_2 V t) (v27_2 V t) (v34_2 V t) (sW2 V) := by dsimp only [dat2]
theorem after2_11 (V : Valuation τ sig (Elt F)) (B : Set (SemLoc sig × Ix)) (c : Dev nD) (t : Fin cfg2.N) : (dat2 (Name := Name) (U := U) (Lvl := Lvl) V B c).after 11 t = accS2 V t.val t.isLt := by dsimp only [dat2]
theorem after2_12 (V : Valuation τ sig (Elt F)) (B : Set (SemLoc sig × Ix)) (c : Dev nD) (t : Fin cfg2.N) : (dat2 (Name := Name) (U := U) (Lvl := Lvl) V B c).after 12 t = accQ2 V t.val t.isLt := by dsimp only [dat2]

theorem before2_0 (V : Valuation τ sig (Elt F)) (B : Set (SemLoc sig × Ix)) (c : Dev nD) (t : Fin cfg2.N) (d) : (dat2 (Name := Name) (U := U) (Lvl := Lvl) V B c).before 0 t d = iblk2 V 0 t :=
  before2_0_of V (dat2 V B c) (A2_eq V B c 0) (after2_0 V B c) t d
theorem before2_1 (V : Valuation τ sig (Elt F)) (B : Set (SemLoc sig × Ix)) (c : Dev nD) (t : Fin cfg2.N) (d) : (dat2 (Name := Name) (U := U) (Lvl := Lvl) V B c).before 1 t d = iblk2 V 1 t :=
  before2_1_of V (dat2 V B c) (A2_eq V B c 1) (after2_1 V B c) t d
theorem before2_2 (V : Valuation τ sig (Elt F)) (B : Set (SemLoc sig × Ix)) (c : Dev nD) (t : Fin cfg2.N) (d) : (dat2 (Name := Name) (U := U) (Lvl := Lvl) V B c).before 2 t d = iblk2 V 2 t :=
  before2_2_of V (dat2 V B c) (A2_eq V B c 2) (after2_2 V B c) t d
theorem before2_3 (V : Valuation τ sig (Elt F)) (B : Set (SemLoc sig × Ix)) (c : Dev nD) (t : Fin cfg2.N) (d) : (dat2 (Name := Name) (U := U) (Lvl := Lvl) V B c).before 3 t d = iblk2 V 3 t :=
  before2_3_of V (dat2 V B c) (A2_eq V B c 3) (after2_3 V B c) t d
theorem before2_4 (V : Valuation τ sig (Elt F)) (B : Set (SemLoc sig × Ix)) (c : Dev nD) (t : Fin cfg2.N) (d) : (dat2 (Name := Name) (U := U) (Lvl := Lvl) V B c).before 4 t d = iblk2 V 4 t :=
  before2_4_of V (dat2 V B c) (A2_eq V B c 4) (after2_4 V B c) t d
theorem before2_5 (V : Valuation τ sig (Elt F)) (B : Set (SemLoc sig × Ix)) (c : Dev nD) (t : Fin cfg2.N) (d) : (dat2 (Name := Name) (U := U) (Lvl := Lvl) V B c).before 5 t d = iblk2 V 5 t :=
  before2_5_of V (dat2 V B c) (A2_eq V B c 5) (after2_5 V B c) t d
theorem before2_6 (V : Valuation τ sig (Elt F)) (B : Set (SemLoc sig × Ix)) (c : Dev nD) (t : Fin cfg2.N) (d) : (dat2 (Name := Name) (U := U) (Lvl := Lvl) V B c).before 6 t d = iblk2 V 6 t :=
  before2_6_of V (dat2 V B c) (A2_eq V B c 6) (after2_6 V B c) t d
theorem before2_7 (V : Valuation τ sig (Elt F)) (B : Set (SemLoc sig × Ix)) (c : Dev nD) (t : Fin cfg2.N) (d) : (dat2 (Name := Name) (U := U) (Lvl := Lvl) V B c).before 7 t d = iblk2 V 7 t :=
  before2_7_of V (dat2 V B c) (A2_eq V B c 7) (after2_7 V B c) t d
theorem before2_8 (V : Valuation τ sig (Elt F)) (B : Set (SemLoc sig × Ix)) (c : Dev nD) (t : Fin cfg2.N) (d) : (dat2 (Name := Name) (U := U) (Lvl := Lvl) V B c).before 8 t d = iblk2 V 8 t :=
  before2_8_of V (dat2 V B c) (A2_eq V B c 8) (after2_8 V B c) t d

/-- After the first point accumulator window 11's staging buffer holds what the body left at the point before: it is
    written back at the last point only, the window is live and uncut. -/
theorem before2_11_B (V : Valuation τ sig (Elt F)) (B : Set (SemLoc sig × Ix)) (c : Dev nD) (t : Fin cfg2.N) (h0 : t.val ≠ 0) (d) :
    (dat2 (Name := Name) (U := U) (Lvl := Lvl) V B c).before 11 t d = accS2 V (t.val - 1) (Nat.lt_of_le_of_lt (Nat.sub_le _ _) t.isLt) := by
  have hN : t.val < 16 := lt_of_lt_of_eq t.isLt (show cfg2.N = 16 from N_2)
  rw [Dat.before_out_kept _ 11 rfl t h0 (Bool.eq_false_iff.mpr fun h => by have := (flush2_11 _).mp h; dsimp only at this; omega)
    (fun _ => rfl) (fun _ _ => rfl)]
  dsimp only [dat2]
/-- After the first point accumulator window 12's staging buffer holds what the body left at the point before. -/
theorem before2_12_B (V : Valuation τ sig (Elt F)) (B : Set (SemLoc sig × Ix)) (c : Dev nD) (t : Fin cfg2.N) (h0 : t.val ≠ 0) (d) :
    (dat2 (Name := Name) (U := U) (Lvl := Lvl) V B c).before 12 t d = accQ2 V (t.val - 1) (Nat.lt_of_le_of_lt (Nat.sub_le _ _) t.isLt) := by
  have hN : t.val < 16 := lt_of_lt_of_eq t.isLt (show cfg2.N = 16 from N_2)
  rw [Dat.before_out_kept _ 12 rfl t h0 (Bool.eq_false_iff.mpr fun h => by have := (flush2_12 _).mp h; dsimp only at this; omega)
    (fun _ => rfl) (fun _ _ => rfl)]
  dsimp only [dat2]

/-- The invariant before the first point. -/
theorem Φ2_first (V : Valuation τ sig (Elt F)) (B : Set (SemLoc sig × Ix)) (c : Dev nD) (t : Fin cfg2.N) (h0 : t.val = 0) :
    (dat2 (Name := Name) (U := U) (Lvl := Lvl) V B c).Φ t.castSucc = iprop(Pipeline.scopedRest spec2 c ∗ ∃ r, prngReg c r) := by
  show Φ2 V c t.castSucc = _
  unfold Φ2
  exact if_pos h0

/-- The invariant before a later point. -/
theorem Φ2_later (V : Valuation τ sig (Elt F)) (B : Set (SemLoc sig × Ix)) (c : Dev nD) (t : Fin cfg2.N) (h0 : t.val ≠ 0) :
    (dat2 (Name := Name) (U := U) (Lvl := Lvl) V B c).Φ t.castSucc = iprop((owns (c : Thread nD τ) (Memref.whole cc2_scratch0) fullShare (sW2 V) ∗ Pipeline.scopedRestBut spec2 c [cc2_scratch0]) ∗ ∃ r, prngReg c r) := by
  show Φ2 V c t.castSucc = _
  unfold Φ2
  exact if_neg h0

/-- The invariant after any point. -/
theorem Φ2_succ (V : Valuation τ sig (Elt F)) (B : Set (SemLoc sig × Ix)) (c : Dev nD) (t : Fin cfg2.N) :
    (dat2 (Name := Name) (U := U) (Lvl := Lvl) V B c).Φ t.succ = iprop((owns (c : Thread nD τ) (Memref.whole cc2_scratch0) fullShare (sW2 V) ∗ Pipeline.scopedRestBut spec2 c [cc2_scratch0]) ∗ ∃ r, prngReg c r) := by
  show Φ2 V c t.succ = _
  unfold Φ2
  exact if_neg (Nat.succ_ne_zero t.val)

/-- What the body is called with at point t, the windows one by one, -/
def bodyPre2 (V : Valuation τ sig (Elt F)) (B : Set (SemLoc sig × Ix)) (ι : Ix) (c : Dev nD) (t : Fin cfg2.N) : sProp 𝕄 :=
  iprop((dat2 (Name := Name) (U := U) (Lvl := Lvl) V B c).Φ t.castSucc ∗ (dat2 (Name := Name) (U := U) (Lvl := Lvl) V B c).owesAt ι t.castSucc
    ∗ (∃ d, owns (c : Thread nD τ) (st2_0 t) fullShare ((dat2 (Name := Name) (U := U) (Lvl := Lvl) V B c).before 0 t d))
    ∗ (∃ d, owns (c : Thread nD τ) (st2_1 t) fullShare ((dat2 (Name := Name) (U := U) (Lvl := Lvl) V B c).before 1 t d))
    ∗ (∃ d, owns (c : Thread nD τ) (st2_2 t) fullShare ((dat2 (Name := Name) (U := U) (Lvl := Lvl) V B c).before 2 t d))
    ∗ (∃ d, owns (c : Thread nD τ) (st2_3 t) fullShare ((dat2 (Name := Name) (U := U) (Lvl := Lvl) V B c).before 3 t d))
    ∗ (∃ d, owns (c : Thread nD τ) (st2_4 t) fullShare ((dat2 (Name := Name) (U := U) (Lvl := Lvl) V B c).before 4 t d))
    ∗ (∃ d, owns (c : Thread nD τ) (st2_5 t) fullShare ((dat2 (Name := Name) (U := U) (Lvl := Lvl) V B c).before 5 t d))
    ∗ (∃ d, owns (c : Thread nD τ) (st2_6 t) fullShare ((dat2 (Name := Name) (U := U) (Lvl := Lvl) V B c).before 6 t d))
    ∗ (∃ d, owns (c : Thread nD τ) (st2_7 t) fullShare ((dat2 (Name := Name) (U := U) (Lvl := Lvl) V B c).before 7 t d))
    ∗ (∃ d, owns (c : Thread nD τ) (st2_8 t) fullShare ((dat2 (Name := Name) (U := U) (Lvl := Lvl) V B c).before 8 t d))
    ∗ (∃ d, owns (c : Thread nD τ) (st2_9 t) fullShare ((dat2 (Name := Name) (U := U) (Lvl := Lvl) V B c).before 9 t d))
    ∗ (∃ d, owns (c : Thread nD τ) (st2_10 t) fullShare ((dat2 (Name := Name) (U := U) (Lvl := Lvl) V B c).before 10 t d))
    ∗ (∃ d, owns (c : Thread nD τ) (st2_11 t) fullShare ((dat2 (Name := Name) (U := U) (Lvl := Lvl) V B c).before 11 t d))
    ∗ (∃ d, owns (c : Thread nD τ) (st2_12 t) fullShare ((dat2 (Name := Name) (U := U) (Lvl := Lvl) V B c).before 12 t d)))

/-- and what it returns. -/
def bodyPost2 (V : Valuation τ sig (Elt F)) (B : Set (SemLoc sig × Ix)) (ι : Ix) (c : Dev nD) (t : Fin cfg2.N) : sProp 𝕄 :=
  iprop((dat2 (Name := Name) (U := U) (Lvl := Lvl) V B c).Φ t.succ ∗ (dat2 (Name := Name) (U := U) (Lvl := Lvl) V B c).owesAt ι t.succ
    ∗ owns (c : Thread nD τ) (st2_0 t) fullShare ((dat2 (Name := Name) (U := U) (Lvl := Lvl) V B c).after 0 t)
    ∗ owns (c : Thread nD τ) (st2_1 t) fullShare ((dat2 (Name := Name) (U := U) (Lvl := Lvl) V B c).after 1 t)
    ∗ owns (c : Thread nD τ) (st2_2 t) fullShare ((dat2 (Name := Name) (U := U) (Lvl := Lvl) V B c).after 2 t)
    ∗ owns (c : Thread nD τ) (st2_3 t) fullShare ((dat2 (Name := Name) (U := U) (Lvl := Lvl) V B c).after 3 t)
    ∗ owns (c : Thread nD τ) (st2_4 t) fullShare ((dat2 (Name := Name) (U := U) (Lvl := Lvl) V B c).after 4 t)
    ∗ owns (c : Thread nD τ) (st2_5 t) fullShare ((dat2 (Name := Name) (U := U) (Lvl := Lvl) V B c).after 5 t)
    ∗ owns (c : Thread nD τ) (st2_6 t) fullShare ((dat2 (Name := Name) (U := U) (Lvl := Lvl) V B c).after 6 t)
    ∗ owns (c : Thread nD τ) (st2_7 t) fullShare ((dat2 (Name := Name) (U := U) (Lvl := Lvl) V B c).after 7 t)
    ∗ owns (c : Thread nD τ) (st2_8 t) fullShare ((dat2 (Name := Name) (U := U) (Lvl := Lvl) V B c).after 8 t)
    ∗ owns (c : Thread nD τ) (st2_9 t) fullShare ((dat2 (Name := Name) (U := U) (Lvl := Lvl) V B c).after 9 t)
    ∗ owns (c : Thread nD τ) (st2_10 t) fullShare ((dat2 (Name := Name) (U := U) (Lvl := Lvl) V B c).after 10 t)
    ∗ owns (c : Thread nD τ) (st2_11 t) fullShare ((dat2 (Name := Name) (U := U) (Lvl := Lvl) V B c).after 11 t)
    ∗ owns (c : Thread nD τ) (st2_12 t) fullShare ((dat2 (Name := Name) (U := U) (Lvl := Lvl) V B c).after 12 t))

set_option maxHeartbeats 2000000 in
/-- The body at any point. The inputs' memrefs hold their blocks. At the first point the conditional is taken: the scratch
    buffer comes out of the scoped rest at any contents and goes back into the invariant at the weight copy. At a later
    point it is not: the invariant hands the scratch buffer over at the weight copy, the accumulators' memrefs hold what
    the point before left. The core's waits pass through unread. -/
theorem sound_body2 (V : Valuation τ sig (Elt F)) (B : Set (SemLoc sig × Ix)) (ι : Ix) (c : Dev nD) (t : Fin cfg2.N) :
    bodyPre2 (Name := Name) (U := U) (Lvl := Lvl) V B ι c t
      ⊢ wp frame (wpE (defs₀ (F := F)) Variants.none c none) Set.univ (bodyAt2 t) (fun _ => bodyPost2 (Name := Name) (U := U) (Lvl := Lvl) V B ι c t) := by
  unfold bodyPre2 bodyPost2 bodyAt2
  simp only [before2_0, before2_1, before2_2, before2_3, before2_4, before2_5, before2_6, before2_7, before2_8]
  rw [show (dat2 (Name := Name) (U := U) (Lvl := Lvl) V B c).owesAt ι t.succ = (dat2 (Name := Name) (U := U) (Lvl := Lvl) V B c).owesAt ι t.castSucc from rfl,
    after2_0, after2_1, after2_2, after2_3, after2_4, after2_5, after2_6, after2_7, after2_8, after2_9, after2_10, after2_11, after2_12, Φ2_succ]
  by_cases h0 : t.val = 0
  · rw [Φ2_first V B c t h0, accS2_first V t h0, accQ2_first V t h0]
    have e0 : (t2_0 : Fin cfg2.N) = t := Fin.ext h0.symm
    unfold sW2 v18_2 v22_2 v27_2 v34_2
    rw [e0, scopedRest2_split]
    iintro ⟨⟨⟨⟨%z0, S0⟩, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_k2_A c (grid2.coords t) _ _ _ _ _ _ _ _ _ _ _ _ _ _ _ _ _ _ _ _ _ _ _ _ _ _ _ _ ((hcond2_0 t).mpr h0) (iblk2 V 0 t) (iblk2 V 1 t) (iblk2 V 2 t) (iblk2 V 3 t) (iblk2 V 4 t) (iblk2 V 5 t) (iblk2 V 6 t) (iblk2 V 7 t) (iblk2 V 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [S0]; · iexists _; rw [owns_whole]; iexact S0
    iintro ⟨H0, H1, H2, H3, H4, H5, H6, H7, H8, H9, H10, H11, H12, S0⟩
    isplitl [S0 Hrest Hp]
    · isplitr [Hp]; swap; · iexact Hp
      isplitl [S0]; · iexact S0
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [Φ2_later V B c t h0, accS2_later V t h0, accQ2_later V t h0]
    simp only [before2_11_B V B c t h0, before2_12_B V B c t h0]
    unfold v18_2 v22_2 v27_2 v34_2
    iintro ⟨⟨⟨S0, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound_k2_B c (grid2.coords t) _ _ _ _ _ _ _ _ _ _ _ _ _ _ _ _ _ _ _ _ _ _ _ _ _ _ _ _ (fun h => h0 ((hcond2_0 t).mp h)) (iblk2 V 0 t) (iblk2 V 1 t) (iblk2 V 2 t) (iblk2 V 3 t) (iblk2 V 4 t) (iblk2 V 5 t) (iblk2 V 6 t) (iblk2 V 7 t) (iblk2 V 8 t) (accS2 V (t.val - 1) (Nat.lt_of_le_of_lt (Nat.sub_le _ _) t.isLt)) (accQ2 V (t.val - 1) (Nat.lt_of_le_of_lt (Nat.sub_le _ _) t.isLt)) (sW2 V) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [S0]; · iexact S0
    iintro ⟨H0, H1, H2, H3, H4, H5, H6, H7, H8, H9, H10, H11, H12, S0⟩
    isplitl [S0 Hrest Hp]
    · isplitr [Hp]; swap; · iexact Hp
      isplitl [S0]; · iexact S0
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The library's body obligation for the exact data, at every point. -/
theorem body_obligation2 (V : Valuation τ sig (Elt F)) (B : Set (SemLoc sig × Ix)) (ι : Ix) (c : Dev nD) :
    BodyObligation (dat2 (Name := Name) (U := U) (Lvl := Lvl) V B c) (defs₀ (F := F)) Variants.none ι Set.univ := fun t => by
  rw [bigSep_W2, bigSep_W2]
  exact sound_body2 V B ι c t

end Cert.KernelIdeal.RegionVal

end
-- ==== Proof.RegionValK2IdealArr.lean ====
import proofs.«214388_g48842368090541_cont_8to1c4_19_37_alg».proof.Proof.RegionValK2IdealData

set_option maxRecDepth 16384

noncomputable section

namespace Cert.KernelIdeal.RegionVal

open Cert.KernelIdeal Cert.KernelIdeal.Gen Cert.KernelIdeal.BodyRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## From blocks to the arrays: the four output arrays after the region -/

/-- The grid point whose block holds row i 0: blocks are 1024 rows. -/
def tOfH (i : S16384x1024.Idx) : Fin cfg2.N :=
  ⟨(i 0).val / 1024, by have h : (i 0).val < 16384 := (i 0).isLt; show (i 0).val / 1024 < grid2.N; rw [N_2]; omega⟩

/-- The place of entry i inside its block. -/
def locOfH (i : S16384x1024.Idx) : S1024x1024.Idx := fun a =>
  match a with
  | ⟨0, _⟩ => ⟨(i 0).val % 1024, Nat.mod_lt _ (by decide)⟩
  | ⟨1, _⟩ => ⟨(i 1).val, (i 1).isLt⟩

/-- Output window 9's printed index map, decided over the grid: along the rows the block index is the grid point, along
    the columns it is zero. -/
theorem idx_facts2_9 : ∀ t : Fin cfg2.N, win2_9.index t (0 : Fin 2) = t.val ∧ win2_9.index t (1 : Fin 2) = 0 :=
  (by decide +kernel : ∀ t : Fin grid2.N, win2_9.index t (0 : Fin 2) = t.val ∧ win2_9.index t (1 : Fin 2) = 0)

/-- WHAT THE ACTIVATION ARRAY HOLDS AFTER THE REGION, as one function of the valuation: at row i 0 the tile of the point
    that holds the row, at the entry's place in the block. -/
def gH2 (V : Valuation τ sig (Elt F)) : S16384x1024.Idx → Elt F .bf16 := fun i =>
  k2_pay1 (v18_2 V (tOfH i)) (v22_2 V (tOfH i)) (v27_2 V (tOfH i)) (v34_2 V (tOfH i)) (locOfH i)

/-- What point t writes back of window 9 is block t of that function. -/
theorem flushed2_9_eq (V : Valuation τ sig (Elt F)) (B : Set (SemLoc sig × Ix)) (c : Dev nD) (t : Fin cfg2.N) :
    (dat2 (Name := Name) (U := U) (Lvl := Lvl) V B c).flushed 9 t = ((cfg2.win 9).blk t).view.read (Elt F) (gH2 V) := by
  show (cfg2.win 9).cut (grid2.coords t) ((dat2 (Name := Name) (U := U) (Lvl := Lvl) V B c).after 9 t) = _
  rw [after2_9]
  obtain ⟨e0, e1⟩ := idx_facts2_9 t
  funext j
  show k2_pay1 (v18_2 V t) (v22_2 V t) (v27_2 V t) (v34_2 V t) j = gH2 V (((cfg2.win 9).blk t).view.emb j)
  have hj0 : (j 0).val < 1024 := (j 0).isLt
  have hj1 : (j 1).val < 1024 := (j 1).isLt
  have h0 : ((((cfg2.win 9).blk t).view.emb j) 0).val = win2_9.index t (0 : Fin 2) * 1024 + 1 * (j 0).val := rfl
  have h1 : ((((cfg2.win 9).blk t).view.emb j) 1).val = win2_9.index t (1 : Fin 2) * 1024 + 1 * (j 1).val := rfl
  have ht : tOfH (((cfg2.win 9).blk t).view.emb j) = t := by
    apply Fin.ext; show ((((cfg2.win 9).blk t).view.emb j) 0).val / 1024 = t.val; rw [h0]; omega
  have hl : locOfH (((cfg2.win 9).blk t).view.emb j) = j := by
    funext a; apply Fin.ext
    match a with
    | ⟨0, _⟩ => show ((((cfg2.win 9).blk t).view.emb j) 0).val % 1024 = (j 0).val; rw [h0]; omega
    | ⟨1, _⟩ => show ((((cfg2.win 9).blk t).view.emb j) 1).val = (j 1).val; rw [h1]; omega
  unfold gH2
  rw [ht, hl]

/-- An index of the array is in point t's block iff each coordinate is in the block's range on its axis. -/
theorem mem_blk2_9 (t : Fin cfg2.N) (i : S16384x1024.Idx) :
    i ∈ ((cfg2.win 9).blk t).view.set ↔ ∀ a : Fin 2, win2_9.index t a * S1024x1024.size a ≤ (i a).val ∧ (i a).val < win2_9.index t a * S1024x1024.size a + S1024x1024.size a := by
  show i ∈ ((View.whole main_v91_0).slice (win2_9.rect t)).set ↔ _
  rw [View.set_slice_whole, Rect.mem_set_unit]
  exact Iff.rfl

/-- Every entry of the array is in the block of the point tOfH names, which writes it back. -/
theorem cover2_9 (i : S16384x1024.Idx) : ∃ t : Fin cfg2.N, (cfg2.win 9).flush t = true ∧ i ∈ ((cfg2.win 9).blk t).view.set := by
  refine ⟨tOfH i, flush2_9 _, ?_⟩
  rw [mem_blk2_9]
  obtain ⟨e0, e1⟩ := idx_facts2_9 (tOfH i)
  have hi0 : (i 0).val < 16384 := (i 0).isLt
  have hi1 : (i 1).val < 1024 := (i 1).isLt
  have ht : (tOfH i).val = (i 0).val / 1024 := rfl
  intro a
  match a with
  | ⟨0, _⟩ => show win2_9.index (tOfH i) (0 : Fin 2) * 1024 ≤ (i 0).val ∧ (i 0).val < win2_9.index (tOfH i) (0 : Fin 2) * 1024 + 1024; omega
  | ⟨1, _⟩ => show win2_9.index (tOfH i) (1 : Fin 2) * 1024 ≤ (i 1).val ∧ (i 1).val < win2_9.index (tOfH i) (1 : Fin 2) * 1024 + 1024; omega

/-- THE ARRAY after the region's last write-back is that function of the valuation. -/
theorem final2_9 (V : Valuation τ sig (Elt F)) (B : Set (SemLoc sig × Ix)) (c : Dev nD) :
    (dat2 (Name := Name) (U := U) (Lvl := Lvl) V B c).arrAt 9 cfg2.N = gH2 V :=
  (dat2 (Name := Name) (U := U) (Lvl := Lvl) V B c).arrAt_eq_of_cover 9 (gH2 V) (fun t _ => flushed2_9_eq V B c t) cover2_9

/-- Output window 10's printed index map, decided over the grid: along the rows the block index is the grid point, along
    the columns it is zero. -/
theorem idx_facts2_10 : ∀ t : Fin cfg2.N, win2_10.index t (0 : Fin 2) = t.val ∧ win2_10.index t (1 : Fin 2) = 0 :=
  (by decide +kernel : ∀ t : Fin grid2.N, win2_10.index t (0 : Fin 2) = t.val ∧ win2_10.index t (1 : Fin 2) = 0)

/-- WHAT THE PRODUCT ARRAY HOLDS AFTER THE REGION, as one function of the valuation: at row i 0 the tile of the point
    that holds the row, at the entry's place in the block. -/
def gY2 (V : Valuation τ sig (Elt F)) : S16384x1024.Idx → Elt F .bf16 := fun i =>
  k2_pay3 (v18_2 V (tOfH i)) (v22_2 V (tOfH i)) (v27_2 V (tOfH i)) (v34_2 V (tOfH i)) (sW2 V) (locOfH i)

/-- What point t writes back of window 10 is block t of that function. -/
theorem flushed2_10_eq (V : Valuation τ sig (Elt F)) (B : Set (SemLoc sig × Ix)) (c : Dev nD) (t : Fin cfg2.N) :
    (dat2 (Name := Name) (U := U) (Lvl := Lvl) V B c).flushed 10 t = ((cfg2.win 10).blk t).view.read (Elt F) (gY2 V) := by
  show (cfg2.win 10).cut (grid2.coords t) ((dat2 (Name := Name) (U := U) (Lvl := Lvl) V B c).after 10 t) = _
  rw [after2_10]
  obtain ⟨e0, e1⟩ := idx_facts2_10 t
  funext j
  show k2_pay3 (v18_2 V t) (v22_2 V t) (v27_2 V t) (v34_2 V t) (sW2 V) j = gY2 V (((cfg2.win 10).blk t).view.emb j)
  have hj0 : (j 0).val < 1024 := (j 0).isLt
  have hj1 : (j 1).val < 1024 := (j 1).isLt
  have h0 : ((((cfg2.win 10).blk t).view.emb j) 0).val = win2_10.index t (0 : Fin 2) * 1024 + 1 * (j 0).val := rfl
  have h1 : ((((cfg2.win 10).blk t).view.emb j) 1).val = win2_10.index t (1 : Fin 2) * 1024 + 1 * (j 1).val := rfl
  have ht : tOfH (((cfg2.win 10).blk t).view.emb j) = t := by
    apply Fin.ext; show ((((cfg2.win 10).blk t).view.emb j) 0).val / 1024 = t.val; rw [h0]; omega
  have hl : locOfH (((cfg2.win 10).blk t).view.emb j) = j := by
    funext a; apply Fin.ext
    match a with
    | ⟨0, _⟩ => show ((((cfg2.win 10).blk t).view.emb j) 0).val % 1024 = (j 0).val; rw [h0]; omega
    | ⟨1, _⟩ => show ((((cfg2.win 10).blk t).view.emb j) 1).val = (j 1).val; rw [h1]; omega
  unfold gY2
  rw [ht, hl]

/-- An index of the array is in point t's block iff each coordinate is in the block's range on its axis. -/
theorem mem_blk2_10 (t : Fin cfg2.N) (i : S16384x1024.Idx) :
    i ∈ ((cfg2.win 10).blk t).view.set ↔ ∀ a : Fin 2, win2_10.index t a * S1024x1024.size a ≤ (i a).val ∧ (i a).val < win2_10.index t a * S1024x1024.size a + S1024x1024.size a := by
  show i ∈ ((View.whole main_v91_1).slice (win2_10.rect t)).set ↔ _
  rw [View.set_slice_whole, Rect.mem_set_unit]
  exact Iff.rfl

/-- Every entry of the array is in the block of the point tOfH names, which writes it back. -/
theorem cover2_10 (i : S16384x1024.Idx) : ∃ t : Fin cfg2.N, (cfg2.win 10).flush t = true ∧ i ∈ ((cfg2.win 10).blk t).view.set := by
  refine ⟨tOfH i, flush2_10 _, ?_⟩
  rw [mem_blk2_10]
  obtain ⟨e0, e1⟩ := idx_facts2_10 (tOfH i)
  have hi0 : (i 0).val < 16384 := (i 0).isLt
  have hi1 : (i 1).val < 1024 := (i 1).isLt
  have ht : (tOfH i).val = (i 0).val / 1024 := rfl
  intro a
  match a with
  | ⟨0, _⟩ => show win2_10.index (tOfH i) (0 : Fin 2) * 1024 ≤ (i 0).val ∧ (i 0).val < win2_10.index (tOfH i) (0 : Fin 2) * 1024 + 1024; omega
  | ⟨1, _⟩ => show win2_10.index (tOfH i) (1 : Fin 2) * 1024 ≤ (i 1).val ∧ (i 1).val < win2_10.index (tOfH i) (1 : Fin 2) * 1024 + 1024; omega

/-- THE ARRAY after the region's last write-back is that function of the valuation. -/
theorem final2_10 (V : Valuation τ sig (Elt F)) (B : Set (SemLoc sig × Ix)) (c : Dev nD) :
    (dat2 (Name := Name) (U := U) (Lvl := Lvl) V B c).arrAt 10 cfg2.N = gY2 V :=
  (dat2 (Name := Name) (U := U) (Lvl := Lvl) V B c).arrAt_eq_of_cover 10 (gY2 V) (fun t _ => flushed2_10_eq V B c t) cover2_10

/-- Accumulator window 11's printed index map, decided over the grid: its one block never moves. -/
theorem idx_facts2_11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)

/-- WHAT THE ACCUMULATOR'S ARRAY HOLDS AFTER THE REGION: the accumulation after the last of the sixteen points. -/
def gS2 (V : Valuation τ sig (Elt F)) : S1x1024.Idx → Elt F .f32 :=
  accS2 V 15 (by rw [show cfg2.N = 16 from N_2]; decide)

/-- The accumulation at a position equal to fifteen is the one that function names. -/
theorem accS2_at15 (V : Valuation τ sig (Elt F)) (n : ℕ) (h : n < cfg2.N) (e : n = 15) : accS2 V n h = gS2 V := by
  subst e; rfl

/-- The one write-back of window 11, at the last point, writes the accumulation: the block is the whole array. -/
theorem flushed2_11_eq (V : Valuation τ sig (Elt F)) (B : Set (SemLoc sig × Ix)) (c : Dev nD) (t : Fin cfg2.N) (hf : (cfg2.win 11).flush t = true) :
    (dat2 (Name := Name) (U := U) (Lvl := Lvl) V B c).flushed 11 t = ((cfg2.win 11).blk t).view.read (Elt F) (gS2 V) := by
  have hN : t.val < 16 := lt_of_lt_of_eq t.isLt (show cfg2.N = 16 from N_2)
  have h15 : t.val = 15 := by have := (flush2_11 t).mp hf; omega
  show (cfg2.win 11).cut (grid2.coords t) ((dat2 (Name := Name) (U := U) (Lvl := Lvl) V B c).after 11 t) = _
  rw [after2_11, accS2_at15 V t.val t.isLt h15]
  obtain ⟨e0, e1⟩ := idx_facts2_11 t
  funext j
  show gS2 V j = gS2 V (((cfg2.win 11).blk t).view.emb j)
  have hj0 : (j 0).val < 1 := (j 0).isLt
  have hj1 : (j 1).val < 1024 := (j 1).isLt
  have h0 : ((((cfg2.win 11).blk t).view.emb j) 0).val = win2_11.index t (0 : Fin 2) * 1 + 1 * (j 0).val := rfl
  have h1 : ((((cfg2.win 11).blk t).view.emb j) 1).val = win2_11.index t (1 : Fin 2) * 1024 + 1 * (j 1).val := rfl
  congr 1
  funext a; apply Fin.ext
  match a with
  | ⟨0, _⟩ => show (j 0).val = ((((cfg2.win 11).blk t).view.emb j) 0).val; rw [h0]; omega
  | ⟨1, _⟩ => show (j 1).val = ((((cfg2.win 11).blk t).view.emb j) 1).val; rw [h1]; omega

/-- An index of the array is in point t's block iff each coordinate is in the block's range on its axis. -/
theorem mem_blk2_11 (t : Fin cfg2.N) (i : S1x1024.Idx) :
    i ∈ ((cfg2.win 11).blk t).view.set ↔ ∀ a : Fin 2, win2_11.index t a * S1x1024.size a ≤ (i a).val ∧ (i a).val < win2_11.index t a * S1x1024.size a + S1x1024.size a := by
  show i ∈ ((View.whole main_v91_2).slice (win2_11.rect t)).set ↔ _
  rw [View.set_slice_whole, Rect.mem_set_unit]
  exact Iff.rfl

/-- Every entry of the array is in the last point's block, which is written back. -/
theorem cover2_11 (i : S1x1024.Idx) : ∃ t : Fin cfg2.N, (cfg2.win 11).flush t = true ∧ i ∈ ((cfg2.win 11).blk t).view.set := by
  refine ⟨t2_15, (flush2_11 _).mpr rfl, ?_⟩
  rw [mem_blk2_11]
  obtain ⟨e0, e1⟩ := idx_facts2_11 t2_15
  have hi0 : (i 0).val < 1 := (i 0).isLt
  have hi1 : (i 1).val < 1024 := (i 1).isLt
  intro a
  match a with
  | ⟨0, _⟩ => show win2_11.index t2_15 (0 : Fin 2) * 1 ≤ (i 0).val ∧ (i 0).val < win2_11.index t2_15 (0 : Fin 2) * 1 + 1; omega
  | ⟨1, _⟩ => show win2_11.index t2_15 (1 : Fin 2) * 1024 ≤ (i 1).val ∧ (i 1).val < win2_11.index t2_15 (1 : Fin 2) * 1024 + 1024; omega

/-- THE ACCUMULATOR'S ARRAY after the region's one write-back is the last accumulation. -/
theorem final2_11 (V : Valuation τ sig (Elt F)) (B : Set (SemLoc sig × Ix)) (c : Dev nD) :
    (dat2 (Name := Name) (U := U) (Lvl := Lvl) V B c).arrAt 11 cfg2.N = gS2 V :=
  (dat2 (Name := Name) (U := U) (Lvl := Lvl) V B c).arrAt_eq_of_cover 11 (gS2 V) (flushed2_11_eq V B c) cover2_11

/-- Accumulator window 12's printed index map, decided over the grid: its one block never moves. -/
theorem idx_facts2_12 : ∀ t : Fin cfg2.N, win2_12.index t (0 : Fin 2) = 0 ∧ win2_12.index t (1 : Fin 2) = 0 :=
  (by decide +kernel : ∀ t : Fin grid2.N, win2_12.index t (0 : Fin 2) = 0 ∧ win2_12.index t (1 : Fin 2) = 0)

/-- WHAT THE ACCUMULATOR'S ARRAY HOLDS AFTER THE REGION: the accumulation after the last of the sixteen points. -/
def gQ2 (V : Valuation τ sig (Elt F)) : S1x1024.Idx → Elt F .f32 :=
  accQ2 V 15 (by rw [show cfg2.N = 16 from N_2]; decide)

/-- The accumulation at a position equal to fifteen is the one that function names. -/
theorem accQ2_at15 (V : Valuation τ sig (Elt F)) (n : ℕ) (h : n < cfg2.N) (e : n = 15) : accQ2 V n h = gQ2 V := by
  subst e; rfl

/-- The one write-back of window 12, at the last point, writes the accumulation: the block is the whole array. -/
theorem flushed2_12_eq (V : Valuation τ sig (Elt F)) (B : Set (SemLoc sig × Ix)) (c : Dev nD) (t : Fin cfg2.N) (hf : (cfg2.win 12).flush t = true) :
    (dat2 (Name := Name) (U := U) (Lvl := Lvl) V B c).flushed 12 t = ((cfg2.win 12).blk t).view.read (Elt F) (gQ2 V) := by
  have hN : t.val < 16 := lt_of_lt_of_eq t.isLt (show cfg2.N = 16 from N_2)
  have h15 : t.val = 15 := by have := (flush2_12 t).mp hf; omega
  show (cfg2.win 12).cut (grid2.coords t) ((dat2 (Name := Name) (U := U) (Lvl := Lvl) V B c).after 12 t) = _
  rw [after2_12, accQ2_at15 V t.val t.isLt h15]
  obtain ⟨e0, e1⟩ := idx_facts2_12 t
  funext j
  show gQ2 V j = gQ2 V (((cfg2.win 12).blk t).view.emb j)
  have hj0 : (j 0).val < 1 := (j 0).isLt
  have hj1 : (j 1).val < 1024 := (j 1).isLt
  have h0 : ((((cfg2.win 12).blk t).view.emb j) 0).val = win2_12.index t (0 : Fin 2) * 1 + 1 * (j 0).val := rfl
  have h1 : ((((cfg2.win 12).blk t).view.emb j) 1).val = win2_12.index t (1 : Fin 2) * 1024 + 1 * (j 1).val := rfl
  congr 1
  funext a; apply Fin.ext
  match a with
  | ⟨0, _⟩ => show (j 0).val = ((((cfg2.win 12).blk t).view.emb j) 0).val; rw [h0]; omega
  | ⟨1, _⟩ => show (j 1).val = ((((cfg2.win 12).blk t).view.emb j) 1).val; rw [h1]; omega

/-- An index of the array is in point t's block iff each coordinate is in the block's range on its axis. -/
theorem mem_blk2_12 (t : Fin cfg2.N) (i : S1x1024.Idx) :
    i ∈ ((cfg2.win 12).blk t).view.set ↔ ∀ a : Fin 2, win2_12.index t a * S1x1024.size a ≤ (i a).val ∧ (i a).val < win2_12.index t a * S1x1024.size a + S1x1024.size a := by
  show i ∈ ((View.whole main_v91_3).slice (win2_12.rect t)).set ↔ _
  rw [View.set_slice_whole, Rect.mem_set_unit]
  exact Iff.rfl

/-- Every entry of the array is in the last point's block, which is written back. -/
theorem cover2_12 (i : S1x1024.Idx) : ∃ t : Fin cfg2.N, (cfg2.win 12).flush t = true ∧ i ∈ ((cfg2.win 12).blk t).view.set := by
  refine ⟨t2_15, (flush2_12 _).mpr rfl, ?_⟩
  rw [mem_blk2_12]
  obtain ⟨e0, e1⟩ := idx_facts2_12 t2_15
  have hi0 : (i 0).val < 1 := (i 0).isLt
  have hi1 : (i 1).val < 1024 := (i 1).isLt
  intro a
  match a with
  | ⟨0, _⟩ => show win2_12.index t2_15 (0 : Fin 2) * 1 ≤ (i 0).val ∧ (i 0).val < win2_12.index t2_15 (0 : Fin 2) * 1 + 1; omega
  | ⟨1, _⟩ => show win2_12.index t2_15 (1 : Fin 2) * 1024 ≤ (i 1).val ∧ (i 1).val < win2_12.index t2_15 (1 : Fin 2) * 1024 + 1024; omega

/-- THE ACCUMULATOR'S ARRAY after the region's one write-back is the last accumulation. -/
theorem final2_12 (V : Valuation τ sig (Elt F)) (B : Set (SemLoc sig × Ix)) (c : Dev nD) :
    (dat2 (Name := Name) (U := U) (Lvl := Lvl) V B c).arrAt 12 cfg2.N = gQ2 V :=
  (dat2 (Name := Name) (U := U) (Lvl := Lvl) V B c).arrAt_eq_of_cover 12 (gQ2 V) (flushed2_12_eq V B c) cover2_12

end Cert.KernelIdeal.RegionVal

end
-- ==== Proof.RegionValK2IdealStep.lean ====
import proofs.«214388_g48842368090541_cont_8to1c4_19_37_alg».proof.Proof.RegionStepIdeal
import proofs.«214388_g48842368090541_cont_8to1c4_19_37_alg».proof.Proof.RegionValK2IdealArr

set_option maxRecDepth 16384

noncomputable section

namespace Cert.KernelIdeal.RegionVal

open Cert.KernelIdeal Cert.KernelIdeal.Gen Cert.KernelIdeal.BodyRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## The region step with values -/

section StepVal

variable {UU : Type} [URA UU]

local notation "𝕄s" => MT nD τ sig (SparseCore.Cfg.HIx 1) (Elt F) ℕ UU ℕ

/-- THE VALUATION AFTER THE SECOND REGION: the valuation it was entered at, but for the four output arrays: the
    activation array, the product array and the two accumulators' arrays, each at its function of the valuation. -/
def regAfter2 (V : Valuation τ sig (Elt F)) : Valuation τ sig (Elt F) :=
  Function.update (Function.update (Function.update (Function.update V
    (Proc.devRef (τ := τ) .tc (Pipeline.arrRef spec2 9)) (gH2 V)) (Proc.devRef (τ := τ) .tc (Pipeline.arrRef spec2 10)) (gY2 V)) (Proc.devRef (τ := τ) .tc (Pipeline.arrRef spec2 11)) (gS2 V)) (Proc.devRef (τ := τ) .tc (Pipeline.arrRef spec2 12)) (gQ2 V)

theorem regAfter2_9 (V : Valuation τ sig (Elt F)) : regAfter2 V (Proc.devRef (τ := τ) .tc (Pipeline.arrRef spec2 9)) = gH2 V := by
  unfold regAfter2
  rw [Function.update_of_ne (by decide), Function.update_of_ne (by decide), Function.update_of_ne (by decide), Function.update_self]
theorem regAfter2_10 (V : Valuation τ sig (Elt F)) : regAfter2 V (Proc.devRef (τ := τ) .tc (Pipeline.arrRef spec2 10)) = gY2 V := by
  unfold regAfter2
  rw [Function.update_of_ne (by decide), Function.update_of_ne (by decide), Function.update_self]
theorem regAfter2_11 (V : Valuation τ sig (Elt F)) : regAfter2 V (Proc.devRef (τ := τ) .tc (Pipeline.arrRef spec2 11)) = gS2 V := by
  unfold regAfter2
  rw [Function.update_of_ne (by decide), Function.update_self]
theorem regAfter2_12 (V : Valuation τ sig (Elt F)) : regAfter2 V (Proc.devRef (τ := τ) .tc (Pipeline.arrRef spec2 12)) = gQ2 V := by
  unfold regAfter2
  rw [Function.update_self]

/-- Off the four output arrays the valuation is unchanged. -/
theorem regAfter2_of_ne (V : Valuation τ sig (Elt F)) (b : DevRef τ sig)
    (h9 : b ≠ (Proc.devRef (τ := τ) .tc (Pipeline.arrRef spec2 9))) (h10 : b ≠ (Proc.devRef (τ := τ) .tc (Pipeline.arrRef spec2 10))) (h11 : b ≠ (Proc.devRef (τ := τ) .tc (Pipeline.arrRef spec2 11))) (h12 : b ≠ (Proc.devRef (τ := τ) .tc (Pipeline.arrRef spec2 12))) : regAfter2 V b = V b := by
  unfold regAfter2
  rw [Function.update_of_ne h12, Function.update_of_ne h11, Function.update_of_ne h10, Function.update_of_ne h9]

/-- The four output arrays are among the buffers the second pipeline writes. -/
theorem out2_mem : (Proc.devRef (τ := τ) .tc (Pipeline.arrRef spec2 9)) ∈ outDevRefs 1 ∧ (Proc.devRef (τ := τ) .tc (Pipeline.arrRef spec2 10)) ∈ outDevRefs 1 ∧ (Proc.devRef (τ := τ) .tc (Pipeline.arrRef spec2 11)) ∈ outDevRefs 1 ∧ (Proc.devRef (τ := τ) .tc (Pipeline.arrRef spec2 12)) ∈ outDevRefs 1 := by decide

/-- KEPT, by device buffer: a buffer the second pipeline does not write holds what it held. -/
theorem regAfter2_keep (V : Valuation τ sig (Elt F)) (b : DevRef τ sig) (hb : b ∉ Cert.KernelIdeal.outDevRefs 1) : regAfter2 V b = V b :=
  regAfter2_of_ne V b (fun e => hb (e ▸ out2_mem.1)) (fun e => hb (e ▸ out2_mem.2.1)) (fun e => hb (e ▸ out2_mem.2.2.1)) (fun e => hb (e ▸ out2_mem.2.2.2))

/-- KEPT, by TensorCore reference: a reference other than the four results' holds what it held. -/
theorem regAfter2_keep_ref (V : Valuation τ sig (Elt F)) (r : Ref sig .tc)
    (hr : r ∉ ([main_v91_0, main_v91_1, main_v91_2, main_v91_3] : List (Ref sig .tc))) :
    regAfter2 V (Proc.devRef (τ := τ) .tc r) = V (Proc.devRef (τ := τ) .tc r) :=
  regAfter2_of_ne V _
    (fun e => hr (by rw [Proc.devRef_injective _ e]; exact List.mem_cons_self))
    (fun e => hr (by rw [Proc.devRef_injective _ e]; exact List.mem_cons_of_mem _ List.mem_cons_self))
    (fun e => hr (by rw [Proc.devRef_injective _ e]; exact List.mem_cons_of_mem _ (List.mem_cons_of_mem _ List.mem_cons_self)))
    (fun e => hr (by rw [Proc.devRef_injective _ e]; exact List.mem_cons_of_mem _ (List.mem_cons_of_mem _ (List.mem_cons_of_mem _ List.mem_cons_self))))

/-- The proof data by pipeline: the second pipeline's exact data read as relational data; value-free data elsewhere. -/
def rdVal2 (V : Valuation τ sig (Elt F)) (B : Set (SemLoc sig × SparseCore.Cfg.HIx 1)) :
    (p : Fin 4) → (c : Dev nD) → Pipeline.RDat τ (Elt F) (SparseCore.Cfg.HIx 1) ℕ UU ℕ (pcfg (F := F) p) c
  | ⟨1, _⟩, c => (dat2 V B c).toR
  | ⟨0, h⟩, c => rdAt V B ⟨0, h⟩ c
  | ⟨2, h⟩, c => rdAt V B ⟨2, h⟩ c
  | ⟨3, h⟩, c => rdAt V B ⟨3, h⟩ c

theorem rdVal2_one (V : Valuation τ sig (Elt F)) (B : Set (SemLoc sig × SparseCore.Cfg.HIx 1)) (c : Dev nD) :
    rdVal2 (UU := UU) V B 1 c = (dat2 V B c).toR := rfl

/-- The invariant before the first point, at position zero. -/
theorem Φ2_zero (V : Valuation τ sig (Elt F)) (c : Dev nD) :
    (Φ2 V c (0 : Fin (cfg2.N + 1)) : sProp 𝕄s) = iprop(Pipeline.scopedRest spec2 c ∗ ∃ r, prngReg c r) := by
  unfold Φ2
  exact if_pos rfl

/-- The invariant after the last point. -/
theorem Φ2_last (V : Valuation τ sig (Elt F)) (c : Dev nD) :
    (Φ2 V c (Fin.last cfg2.N) : sProp 𝕄s) = iprop((owns (c : Thread nD τ) (Memref.whole cc2_scratch0) fullShare (sW2 V) ∗ Pipeline.scopedRestBut spec2 c [cc2_scratch0]) ∗ ∃ r, prngReg c r) := by
  unfold Φ2
  exact if_neg (by rw [Fin.val_last, show cfg2.N = 16 from N_2]; decide)

/-- What the thread holds when the second region is left: every unscoped buffer at `regAfter2 V`, the generator
    register at some state, nothing owed, the recorded pairs those of `W` and pairs at the index `none`. -/
def regionPostVal2 (V : Valuation τ sig (Elt F)) (W : Waits sig (SparseCore.Cfg.HIx 1)) (c : Dev nD) : sProp 𝕄s :=
  iprop(StableHlo.held (c.tc : Thread nD τ) (Pipeline.ucRefs τ sig) (regAfter2 V) ∗ (∃ r, prngReg c r)
    ∗ ∃ W' : Waits sig (SparseCore.Cfg.HIx 1), ⌜∀ q ∈ W', q ∈ W ∨ q.2 = none⌝
      ∗ owes (c.tc : Thread nD τ) (0 : CellTallies nD τ sig (SparseCore.Cfg.HIx 1)) W')

/-- The relational data's arrays after the write-backs below `n` are the exact data's arrays at `arrAt · n`. -/
theorem arraysAt_toR2 {c : Dev nD} (dat : Dat τ (Elt F) (SparseCore.Cfg.HIx 1) ℕ UU ℕ cfg2 c) (n : Nat) :
    dat.toR.arraysAt n ⊢ dat.toR.arrays (fun w => dat.arrAt w n) := by
  have key : ∀ w : Fin cfg2.W,
      iprop(∃ G, ⌜dat.toR.ArrAt w n G⌝ ∗ ((cfg2.win w).arr.view.loc (c.tc : Thread nD τ) ↦[(cfg2.win w).arr.view.set]{dat.toR.share w} G))
        ⊢ (((cfg2.win w).arr.view.loc (c.tc : Thread nD τ) ↦[(cfg2.win w).arr.view.set]{dat.toR.share w} dat.arrAt w n) : sProp 𝕄s) := by
    intro w
    iintro ⟨%G, %hG, H⟩
    obtain rfl := (dat.toR_arrAt_iff w n G).mp hG
    iexact H
  unfold Pipeline.RDat.arraysAt Pipeline.RDat.arrays
  exact BI.bigSep_mono fun w _ => key w

/-- EXIT, the buffers' part: the exact data's arrays after the last write-back and the unscoped buffers that are no array
    of the pipeline at V are all the unscoped buffers held at regAfter2 V. -/
theorem arrays_join_val2 (V : Valuation τ sig (Elt F)) (B : Set (SemLoc sig × SparseCore.Cfg.HIx 1)) (c : Dev nD) :
    iprop((rdVal2 (UU := UU) V B 1 c).arraysAt cfg2.N
        ∗ Pipeline.unscopedRest (pcfg (F := F) 1).spec c (fun b => V (Proc.devRef (τ := τ) .tc b)))
      ⊢ (StableHlo.held (c.tc : Thread nD τ) (Pipeline.ucRefs τ sig) (regAfter2 V) : sProp 𝕄s) := by
  classical
  have hw := (launchAll 1).toP (Val := Elt F)
  have hshare : ∀ w, (rdVal2 (UU := UU) V B 1 c).share w = fullShare := fun w =>
    (dat2 (Name := ℕ) (U := UU) (Lvl := ℕ) V B c).share_full (fun _ => rfl) w
  have e1 := Pipeline.RDat.arrays_eq (pcfgs (F := F)) adm0 (rdVal2 (UU := UU) V B) 1 c hw.arr_whole hshare
    (fun w => (dat2 (Name := ℕ) (U := UU) (Lvl := ℕ) V B c).arrAt w cfg2.N)
  have hne : ∀ w w' : Fin 13, w ≠ w' → Proc.devRef (τ := τ) .tc (Pipeline.arrRef spec2 w) ≠ Proc.devRef (τ := τ) .tc (Pipeline.arrRef spec2 w') :=
    fun w w' h e => h (hw.win.arr_inj (Proc.devRef_injective _ e))
  have hval : ∀ w : Fin 13, regAfter2 V (Proc.devRef (τ := τ) .tc (Pipeline.arrRef spec2 w))
      = (dat2 (Name := ℕ) (U := UU) (Lvl := ℕ) V B c).arrAt w cfg2.N := by
    intro w
    by_cases h9 : w = 9
    · subst h9; exact (regAfter2_9 V).trans (final2_9 V B c).symm
    by_cases h10 : w = 10
    · subst h10; exact (regAfter2_10 V).trans (final2_10 V B c).symm
    by_cases h11 : w = 11
    · subst h11; exact (regAfter2_11 V).trans (final2_11 V B c).symm
    by_cases h12 : w = 12
    · subst h12; exact (regAfter2_12 V).trans (final2_12 V B c).symm
    · have hout : ∀ w : Fin 13, w ≠ 9 → w ≠ 10 → w ≠ 11 → w ≠ 12 → (win2 w).isOut = false := by decide
      exact (regAfter2_of_ne V _ (hne w 9 h9) (hne w 10 h10) (hne w 11 h11) (hne w 12 h12)).trans
        ((A2_eq V B c w).symm.trans ((dat2 (Name := ℕ) (U := UU) (Lvl := ℕ) V B c).arrAt_in w (hout w h9 h10 h11 h12) _).symm)
  have e2 : (bigSep Finset.univ fun w : Fin (pcfg (F := F) 1).W =>
          (((c.tc : Thread nD τ).loc (Pipeline.arrRef (pcfg (F := F) 1).spec w)) ↦{fullShare} regAfter2 V (Proc.devRef (τ := τ) .tc (Pipeline.arrRef (pcfg (F := F) 1).spec w)) : sProp 𝕄s))
        = bigSep Finset.univ fun w : Fin (pcfg (F := F) 1).W =>
          (((c.tc : Thread nD τ).loc (Pipeline.arrRef (pcfg (F := F) 1).spec w)) ↦{fullShare} (dat2 (Name := ℕ) (U := UU) (Lvl := ℕ) V B c).arrAt w cfg2.N : sProp 𝕄s) :=
    BI.bigSep_congr fun w _ => by
      rw [show regAfter2 V (Proc.devRef (τ := τ) .tc (Pipeline.arrRef (pcfg (F := F) 1).spec w))
        = (dat2 (Name := ℕ) (U := UU) (Lvl := ℕ) V B c).arrAt w cfg2.N from hval w]
  have e3 : (Pipeline.unscopedRest (pcfg (F := F) 1).spec c (fun b => regAfter2 V (Proc.devRef (τ := τ) .tc b)) : sProp 𝕄s)
        = Pipeline.unscopedRest (pcfg (F := F) 1).spec c (fun b => V (Proc.devRef (τ := τ) .tc b)) := by
    unfold Pipeline.unscopedRest
    exact BI.bigSep_congr fun b hb => by
      dsimp only
      rw [regAfter2_of_ne V _
        (fun e => (Finset.mem_sdiff.mp hb).2 (Finset.mem_image.mpr ⟨9, Finset.mem_univ _, (Proc.devRef_injective _ e).symm⟩))
        (fun e => (Finset.mem_sdiff.mp hb).2 (Finset.mem_image.mpr ⟨10, Finset.mem_univ _, (Proc.devRef_injective _ e).symm⟩))
        (fun e => (Finset.mem_sdiff.mp hb).2 (Finset.mem_image.mpr ⟨11, Finset.mem_univ _, (Proc.devRef_injective _ e).symm⟩))
        (fun e => (Finset.mem_sdiff.mp hb).2 (Finset.mem_image.mpr ⟨12, Finset.mem_univ _, (Proc.devRef_injective _ e).symm⟩))]
  rw [← Pipeline.unscopedBufs_held c (regAfter2 V), Pipeline.unscopedBufs_split (Pipeline.pin (pcfgs (F := F)) adm0) 1 hw.win.arr_unscoped hw.win.arr_inj c, e2, ← e1, e3]
  iintro ⟨Ha, Hr⟩
  isplitl [Ha]
  · iapply (arraysAt_toR2 (dat2 (Name := ℕ) (U := UU) (Lvl := ℕ) V B c) cfg2.N); iexact Ha
  iexact Hr

/-- The second region as the region rule's record over the exact data: entered as the value-free record is, left with
    every unscoped buffer at `regAfter2 V`. -/
def regionSegVal2 (V : Valuation τ sig (Elt F)) (W : Waits sig (SparseCore.Cfg.HIx 1)) :
    Pipeline.RDat.RegionSeg (pcfgs (F := F)) adm0 (rdVal2 (UU := UU) V (recOf W)) (none : SparseCore.Cfg.HIx 1)
      (defs₀ (F := F)) Variants.none (sc (F := F)).L ((sc (F := F)).lev (nD := nD)) (1 : Fin 4) where
  win := ((launchAll 1).toP (Val := Elt F)).win.to₀
  block_pos := ((launchAll 1).toP (Val := Elt F)).block_pos
  stage_whole := ((launchAll 1).toP (Val := Elt F)).stage_whole
  K := PEmpty
  osem := fun k => k.elim
  ho := Pipeline.OwnSemFacts.none _
  hbody := fun c => (body_obligation2 (Name := ℕ) (U := UU) (Lvl := ℕ) V (recOf W) none c).loose.toR
  hwaits := fun c => Pipeline.RDat.hwaits_of_owed_zero (pcfgs (F := F)) adm0 _ _ _ _ 1 (fun _ _ => rfl) c
  pre := regionPre V W
  post := regionPostVal2 V W
  X := fun c => iprop(∃ r, prngReg c r)
  Y := fun c => iprop(∃ r, prngReg c r)
  Z := fun c => Pipeline.unscopedRest (pcfg (F := F) 1).spec c (fun b => V (Proc.devRef (τ := τ) .tc b))
  hentry := fun c => by
    have h := Pipeline.RDat.arrays_of_unscopedBufs (pcfgs (F := F)) adm0 (rdVal2 (UU := UU) V (recOf W)) (p := 1)
      ((launchAll 1).toP (Val := Elt F)).win ((launchAll 1).toP (Val := Elt F)).arr_whole c
      (fun w => (dat2 (Name := ℕ) (U := UU) (Lvl := ℕ) V (recOf W) c).share_full (fun _ => rfl) w)
      (fun b => V (Proc.devRef (τ := τ) .tc b)) (fun w => rfl)
    unfold regionPre
    rw [← Pipeline.unscopedBufs_held c V]
    iintro ⟨⟨Hub, Hp, HW⟩, -, -⟩
    imodintro
    ihave H := h $$ Hub
    icases H with ⟨Harr, Hrest⟩
    isplitl [Harr]; · iexact Harr
    isplitr
    · unfold Pipeline.prefHeld
      rw [show (Finset.univ : Finset (Fin ((pcfgs (F := F) 1).pre.K))) = ∅ from rfl, BI.bigSep_empty]
      iempintro
    isplitl [HW]
    · iexists W; isplitr; · ipureintro; exact fun q hq => Or.inl (Or.inl (Finset.mem_coe.mp hq))
      iexact HW
    isplitl [Hp]; · iexact Hp
    iexact Hrest
  hin := fun c => by
    show _ ⊢ (Φ2 V c (0 : Fin (cfg2.N + 1)) : sProp 𝕄s)
    rw [Φ2_zero]
    iintro ⟨HX, -, HR⟩
    isplitl [HR]; · iexact HR
    iexact HX
  hout := fun c => by
    show (Φ2 V c (Fin.last cfg2.N) : sProp 𝕄s) ⊢ _
    rw [Φ2_last, Pipeline.ownSems0_none]
    show _ ⊢ iprop((∃ r, prngReg c r) ∗ emp ∗ Pipeline.scopedRest spec2 c)
    rw [scopedRest2_split, owns_whole]
    iintro ⟨⟨S0, HR⟩, HP⟩
    isplitl [HP]; · iexact HP
    isplitr; · iempintro
    isplitl [S0]; · iexists _; iexact S0
    iexact HR
  hexit := fun c => by
    unfold regionPostVal2
    iintro ⟨Ha, ⟨%W', %hW', Ho⟩, HY, HZ⟩
    imodintro
    isplitl [Ha HZ]
    · iapply (arrays_join_val2 (UU := UU) V (recOf W) c)
      isplitl [Ha] <;> iassumption
    isplitl [HY]; · iexact HY
    iexists W'
    isplitr
    · ipureintro
      intro q hq
      rcases hW' (Finset.mem_coe.mpr hq) with h | ⟨w, s, rfl⟩
      · exact h
      · exact Or.inr rfl
    iexact Ho

set_option maxHeartbeats 1000000 in
/-- THE SECOND REGION'S STEP WITH VALUES inside the SparseCore launch's obligation for @main: as the value-free step, but
    the continuation receives every unscoped buffer at the ONE valuation `regAfter2 V`. -/
theorem region_step_val2
    (EP : Emb (Rounds.URounds (GSem nD τ sig) Unit) 𝕄s) [EP.LandsIn (upEmb : UEmb _ 𝕄s)]
    (d : Dev nD) (V : Valuation τ sig (Elt F)) (W : Waits sig (SparseCore.Cfg.HIx 1)) {α : Type}
    (k : PUnit → Prog (TpuEff nD τ sig (Elt F) (SparseCore.Sig (Pipeline.Sig Λ₀ (Fin 4) fun p => (pcfgs (F := F) p).Adm) 1) .tc) α)
    (Q : α → sProp 𝕄s) :
    iprop((∀ (W' : Waits sig (SparseCore.Cfg.HIx 1)), ⌜∀ q ∈ W', q ∈ W ∨ q.2 = none⌝ -∗
            iprop(boundary (SparseCore.T d : Thread nD τ) ∗ StableHlo.held (SparseCore.T d : Thread nD τ) (Pipeline.ucRefs τ sig) (regAfter2 V) ∗ (∃ r, prngReg d r)
              ∗ owes (SparseCore.T d : Thread nD τ) (0 : CellTallies nD τ sig (SparseCore.Cfg.HIx 1)) W') -∗
            wp frame (wpE ((sc (F := F)).defs (Pipeline.defs (pcfgs (F := F)) (defs₀ (F := F)))) Variants.none.lift (SparseCore.T d : Thread nD τ) none) Set.univ (k ⟨⟩) Q)
        ∗ boundary (SparseCore.T d : Thread nD τ) ∗ StableHlo.held (SparseCore.T d : Thread nD τ) (Pipeline.ucRefs τ sig) V ∗ (∃ r, prngReg d r)
        ∗ owes (SparseCore.T d : Thread nD τ) (0 : CellTallies nD τ sig (SparseCore.Cfg.HIx 1)) W
        ∗ levAts (sc (F := F)).L ((sc (F := F)).lev (nD := nD))
        ∗ Pipeline.cellsGhost (Pipeline.pin (pcfgs (F := F)) adm0) EP 1 d ∗ Pipeline.toksInit (Pipeline.pin (pcfgs (F := F)) adm0) EP 1 d)
      ⊢ wp frame (wpE ((sc (F := F)).defs (Pipeline.defs (pcfgs (F := F)) (defs₀ (F := F)))) Variants.none.lift (SparseCore.T d : Thread nD τ) none) Set.univ
          (Prog.lift (.customCall (SparseCore.inner (Pipeline.entry (1 : Fin 4))) ()) >>= k) Q := by
  have key := region_lift (pcfgs (F := F)) adm0 (rdVal2 (UU := UU) V (recOf W))
    (((launchAll 1).toP (Val := Elt F)).cellOf_inj adm0) EP (defs₀ (F := F)) Variants.none (sc (F := F))
    (regionSegVal2 V W) d k Q
  refine BIBase.Entails.trans ?_ key
  iintro ⟨Hk, Hb, Hh, Hp, Ho, Hlev, Hg, Ht⟩
  isplitl [Hk]
  · iintro ⟨Hb, Hpost⟩
    ihave Hpost' := (show (regionSegVal2 (UU := UU) V W).post d ⊢ regionPostVal2 V W d from .rfl) $$ Hpost
    unfold regionPostVal2
    icases Hpost' with ⟨Hh, Hp, ⟨%W', %hW', Ho⟩⟩
    ispecialize Hk $$ %W' %hW'
    iapply Hk
    isplitl [Hb]; · iexact Hb
    isplitl [Hh]; · iexact Hh
    isplitl [Hp]; · iexact Hp
    iexact Ho
  isplitl [Hb]; · iexact Hb
  isplitl [Hh Hp Ho]
  · iapply (show regionPre V W d ⊢ (regionSegVal2 (UU := UU) V W).pre d from .rfl)
    unfold regionPre
    isplitl [Hh]; · iexact Hh
    isplitl [Hp]; · iexact Hp
    iexact Ho
  isplitl [Hlev]; · iexact Hlev
  isplitl [Hg] <;> iassumption

end StepVal

end Cert.KernelIdeal.RegionVal

end
-- ==== Proof.RegionValK3IdealRunA.lean ====
import proofs.«214388_g48842368090541_cont_8to1c4_19_37_alg».proof.Proof.RegionValK3IdealBase
import proofs.«214388_g48842368090541_cont_8to1c4_19_37_alg».proof.Proof.BodyRunK3Ideal

set_option maxRecDepth 16384

noncomputable section

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

set_option maxHeartbeats 2000000 in
/-- The third body at a point where its conditional IS taken (the first grid point), on whole staging memrefs: the ten
    inputs' at read contents `x1 … x10`, the four outputs' and the two scratch buffers' at anything. The guarded region
    casts the two weight matrices `x7 x8` into the scratch buffers and zeroes the two accumulators; the rest of the body
    then reads them back. It runs to the continuation holding the inputs' as they were, the scratch buffers at the two
    casts, the product tile's buffer at the truncated product of the activation tile with the first cast, the row sums'
    buffer at the weighted row sums against the second, and each accumulator at the zero word plus the tile's column
    sums (of the product, of its square). -/
theorem sound_k3_A (c : Dev nD) (i : grid3.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x1 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1024x512 .bf16) (harg16 : arg16.IsWhole) (hc : cond3 i)
    (x1 : Vec F S1024x1024 .bf16) (x2 : Vec F S1024x1024 .bf16) (x3 : Vec F S1x1024 .f32) (x4 : Vec F S1x1024 .f32) (x5 : Vec F S1x1024 .f32) (x6 : Vec F S1x1024 .f32) (x7 : Vec F S1024x512 .f32) (x8 : Vec F S1024x512 .f32) (x9 : Vec F S1x512 .f32) (x10 : Vec F S1x512 .f32) :
    ∀ (E : Set Name) (Kp : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k3_pay2 (k3_pay11 x3 x4 x5 x6 x2 x1) (k3_pay7 x7)) ∗ owns (c : Thread nD τ) arg12 fullShare (k3_pay4 (k3_pay11 x3 x4 x5 x6 x2 x1) (k3_pay8 x8) x9 x10) ∗ owns (c : Thread nD τ) arg13 fullShare (k3_pay5 (k3_pay11 x3 x4 x5 x6 x2 x1) (k3_pay7 x7) k3_pay9) ∗ owns (c : Thread nD τ) arg14 fullShare (k3_pay6 (k3_pay11 x3 x4 x5 x6 x2 x1) (k3_pay7 x7) k3_pay10) ∗ owns (c : Thread nD τ) arg15 fullShare (k3_pay7 x7) ∗ owns (c : Thread nD τ) arg16 fullShare (k3_pay8 x8)) -∗ Kp ⟨⟩))
        ⊢ wp frame (wpE (defs₀ (F := F)) Variants.none c none) E (cc3__k3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc3__k3_eq_skeleton]; unfold cc3__k3_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    subst hf1 hf2 hf3 hf4 hf5 hf6 hf7 hf8 hf9 hf10
    sl_exec (disch := first | exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists _; isplitr; swap; · iexact H11
      ipureintro
      refine (read_writes_unit_cons _ _ hz3 _ _ _).trans ?_
      sl_unfold_run_names
      simp only [View.readAt_eq_ld, View.ld_unit_zero (S := S1024x1024) hz3, View.ld_unit_zero (S := S1x1024) hz3, View.ld_unit_zero (S := S1024x512) hz3, View.ld_unit_zero (S := S1x512) hz3, View.ld_unit_zero (S := S1024x1) hz3, View.readCov_unit_zero (S := S1024x512) _ hz3, View.readCov_unit_zero (S := S1x512) _ hz3]
    isplitl [H12]
    · iexists _; isplitr; swap; · iexact H12
      ipureintro
      refine (read_writes_unit_cons _ _ hz3 _ _ _).trans ?_
      sl_unfold_run_names
      simp only [View.readAt_eq_ld, View.ld_unit_zero (S := S1024x1024) hz3, View.ld_unit_zero (S := S1x1024) hz3, View.ld_unit_zero (S := S1024x512) hz3, View.ld_unit_zero (S := S1x512) hz3, View.ld_unit_zero (S := S1024x1) hz3, View.readCov_unit_zero (S := S1024x512) _ hz3, View.readCov_unit_zero (S := S1x512) _ hz3]
    isplitl [H13]
    · iexists _; isplitr; swap; · iexact H13
      ipureintro
      refine (read_writes_unit_cons _ _ hz3 _ _ _).trans ?_
      sl_unfold_run_names
      simp only [View.readAt_eq_ld, View.ld_unit_zero (S := S1024x1024) hz3, View.ld_unit_zero (S := S1x1024) hz3, View.ld_unit_zero (S := S1024x512) hz3, View.ld_unit_zero (S := S1x512) hz3, View.ld_unit_zero (S := S1024x1) hz3, View.readCov_unit_zero (S := S1024x512) _ hz3, View.readCov_unit_zero (S := S1x512) _ hz3]
    isplitl [H14]
    · iexists _; isplitr; swap; · iexact H14
      ipureintro
      refine (read_writes_unit_cons _ _ hz3 _ _ _).trans ?_
      sl_unfold_run_names
      simp only [View.readAt_eq_ld, View.ld_unit_zero (S := S1024x1024) hz3, View.ld_unit_zero (S := S1x1024) hz3, View.ld_unit_zero (S := S1024x512) hz3, View.ld_unit_zero (S := S1x512) hz3, View.ld_unit_zero (S := S1024x1) hz3, View.readCov_unit_zero (S := S1024x512) _ hz3, View.readCov_unit_zero (S := S1x512) _ hz3]
    isplitl [H15]
    · iexists _; isplitr; swap; · iexact H15
      ipureintro
      refine (read_writes_unit_cons _ _ hz3 _ _ _).trans ?_
      sl_unfold_run_names
      simp only [View.readAt_eq_ld, View.ld_unit_zero (S := S1024x1024) hz3, View.ld_unit_zero (S := S1x1024) hz3, View.ld_unit_zero (S := S1024x512) hz3, View.ld_unit_zero (S := S1x512) hz3, View.ld_unit_zero (S := S1024x1) hz3, View.readCov_unit_zero (S := S1024x512) _ hz3, View.readCov_unit_zero (S := S1x512) _ hz3]
    iexists _; isplitr; swap; · iexact H16
    ipureintro
    refine (read_writes_unit_cons _ _ hz3 _ _ _).trans ?_
    sl_unfold_run_names
    simp only [View.readAt_eq_ld, View.ld_unit_zero (S := S1024x1024) hz3, View.ld_unit_zero (S := S1x1024) hz3, View.ld_unit_zero (S := S1024x512) hz3, View.ld_unit_zero (S := S1x512) hz3, View.ld_unit_zero (S := S1024x1) hz3, View.readCov_unit_zero (S := S1024x512) _ hz3, View.readCov_unit_zero (S := S1x512) _ hz3]

end Cert.KernelIdeal.RegionVal

end
-- ==== Proof.RegionValK3IdealRunB.lean ====
import proofs.«214388_g48842368090541_cont_8to1c4_19_37_alg».proof.Proof.RegionValK3IdealRunA

set_option maxRecDepth 16384

noncomputable section

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

set_option maxHeartbeats 2000000 in
/-- The third body at a point where its conditional is NOT taken (every point after the first), on whole staging
    memrefs: the ten inputs' at read contents `x1 … x10`, the two accumulators' at their running contents `a13 a14`, the
    two scratch buffers' at the weight copies `s15 s16` they carry, the two per-point outputs' at anything. It runs to the
    continuation holding the inputs' and the scratch buffers' as they were, the product tile's buffer at the truncated
    product of the activation tile with `s15`, the row sums' buffer at the weighted row sums against `s16`, and each
    accumulator at what it held plus the tile's column sums (of the product, of its square). -/
theorem sound_k3_B (c : Dev nD) (i : grid3.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x1 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1024x512 .bf16) (harg15 : arg15.IsWhole) (arg16 : Memref sig .tc .vmem S1024x512 .bf16) (harg16 : arg16.IsWhole) (hc : ¬cond3 i)
    (x1 : Vec F S1024x1024 .bf16) (x2 : Vec F S1024x1024 .bf16) (x3 : Vec F S1x1024 .f32) (x4 : Vec F S1x1024 .f32) (x5 : Vec F S1x1024 .f32) (x6 : Vec F S1x1024 .f32) (x7 : Vec F S1024x512 .f32) (x8 : Vec F S1024x512 .f32) (x9 : Vec F S1x512 .f32) (x10 : Vec F S1x512 .f32) (a13 : Vec F S1x512 .f32) (a14 : Vec F S1x512 .f32) (s15 : Vec F S1024x512 .bf16) (s16 : Vec F S1024x512 .bf16) :
    ∀ (E : Set Name) (Kp : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare a13 ∗ owns (c : Thread nD τ) arg14 fullShare a14 ∗ owns (c : Thread nD τ) arg15 fullShare s15 ∗ owns (c : Thread nD τ) arg16 fullShare s16
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k3_pay2 (k3_pay11 x3 x4 x5 x6 x2 x1) s15) ∗ owns (c : Thread nD τ) arg12 fullShare (k3_pay4 (k3_pay11 x3 x4 x5 x6 x2 x1) s16 x9 x10) ∗ owns (c : Thread nD τ) arg13 fullShare (k3_pay5 (k3_pay11 x3 x4 x5 x6 x2 x1) s15 a13) ∗ owns (c : Thread nD τ) arg14 fullShare (k3_pay6 (k3_pay11 x3 x4 x5 x6 x2 x1) s15 a14) ∗ owns (c : Thread nD τ) arg15 fullShare s15 ∗ owns (c : Thread nD τ) arg16 fullShare s16) -∗ Kp ⟨⟩))
        ⊢ wp frame (wpE (defs₀ (F := F)) Variants.none c none) E (cc3__k3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
    intro E Kp
    simp only [cc3__k3_eq_skeleton]; unfold cc3__k3_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
    subst hf1 hf2 hf3 hf4 hf5 hf6 hf7 hf8 hf9 hf10 hf13 hf14 hf15 hf16
    sl_exec (disch := first | exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists _; isplitr; swap; · iexact H11
      ipureintro
      refine (read_writes_unit_cons _ _ hz3 _ _ _).trans ?_
      sl_unfold_run_names
      simp only [View.readAt_eq_ld, View.ld_unit_zero (S := S1024x1024) hz3, View.ld_unit_zero (S := S1x1024) hz3, View.ld_unit_zero (S := S1024x512) hz3, View.ld_unit_zero (S := S1x512) hz3, View.ld_unit_zero (S := S1024x1) hz3]
    isplitl [H12]
    · iexists _; isplitr; swap; · iexact H12
      ipureintro
      refine (read_writes_unit_cons _ _ hz3 _ _ _).trans ?_
      sl_unfold_run_names
      simp only [View.readAt_eq_ld, View.ld_unit_zero (S := S1024x1024) hz3, View.ld_unit_zero (S := S1x1024) hz3, View.ld_unit_zero (S := S1024x512) hz3, View.ld_unit_zero (S := S1x512) hz3, View.ld_unit_zero (S := S1024x1) hz3]
    isplitl [H13]
    · iexists _; isplitr; swap; · iexact H13
      ipureintro
      refine (read_writes_unit_cons _ _ hz3 _ _ _).trans ?_
      sl_unfold_run_names
      simp only [View.readAt_eq_ld, View.ld_unit_zero (S := S1024x1024) hz3, View.ld_unit_zero (S := S1x1024) hz3, View.ld_unit_zero (S := S1024x512) hz3, View.ld_unit_zero (S := S1x512) hz3, View.ld_unit_zero (S := S1024x1) hz3]
    isplitl [H14]
    · iexists _; isplitr; swap; · iexact H14
      ipureintro
      refine (read_writes_unit_cons _ _ hz3 _ _ _).trans ?_
      sl_unfold_run_names
      simp only [View.readAt_eq_ld, View.ld_unit_zero (S := S1024x1024) hz3, View.ld_unit_zero (S := S1x1024) hz3, View.ld_unit_zero (S := S1024x512) hz3, View.ld_unit_zero (S := S1x512) hz3, View.ld_unit_zero (S := S1024x1) hz3]
    isplitl [H15]
    · iexists f15; isplitr; · ipureintro; rfl
      iexact H15
    iexists f16; isplitr; · ipureintro; rfl
    iexact H16

end Cert.KernelIdeal.RegionVal

end
-- ==== Proof.RegionValK3IdealData.lean ====
import proofs.«214388_g48842368090541_cont_8to1c4_19_37_alg».proof.Proof.RegionValK3IdealRunB

set_option maxRecDepth 16384

noncomputable section

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## The exact proof data of the third pipeline over a valuation -/

/-- A valuation read at a TensorCore reference of core `c`. -/
abbrev Vc3 (V : Valuation τ sig (Elt F)) (c : Dev nD) (b : Ref sig .tc) : Buf (Elt F) ((c.tc : Thread nD τ).loc b) :=
  V (Proc.devRef (τ := τ) .tc b)

/-- Window `w`'s block at point `t`, read off its array at the valuation. -/
def iblk3 (V : Valuation τ sig (Elt F)) (w : Fin cfg3.W) (t : Fin cfg3.N) :
    ((cfg3.win w).xblock (cfg3.grid.coords t)).Idx → Elt F (cfg3.win w).elt :=
  ((cfg3.win w).blk t).view.read (Elt F) (V (Proc.devRef (τ := τ) .tc (Pipeline.arrRef spec3 w)))

theorem before3_0_of {c : Dev nD} (V : Valuation τ sig (Elt F)) (dat : Dat τ (Elt F) Ix Name U Lvl cfg3 c) (hA : dat.A 0 = Vc3 V c (Pipeline.arrRef spec3 0))
    (hafter : ∀ t, dat.after 0 t = iblk3 V 0 t) (t : Fin cfg3.N) (d) : dat.before 0 t d = iblk3 V 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (V : Valuation τ sig (Elt F)) (dat : Dat τ (Elt F) Ix Name U Lvl cfg3 c) (hA : dat.A 1 = Vc3 V c (Pipeline.arrRef spec3 1))
    (hafter : ∀ t, dat.after 1 t = iblk3 V 1 t) (t : Fin cfg3.N) (d) : dat.before 1 t d = iblk3 V 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (V : Valuation τ sig (Elt F)) (dat : Dat τ (Elt F) Ix Name U Lvl cfg3 c) (hA : dat.A 2 = Vc3 V c (Pipeline.arrRef spec3 2))
    (hafter : ∀ t, dat.after 2 t = iblk3 V 2 t) (t : Fin cfg3.N) (d) : dat.before 2 t d = iblk3 V 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (V : Valuation τ sig (Elt F)) (dat : Dat τ (Elt F) Ix Name U Lvl cfg3 c) (hA : dat.A 3 = Vc3 V c (Pipeline.arrRef spec3 3))
    (hafter : ∀ t, dat.after 3 t = iblk3 V 3 t) (t : Fin cfg3.N) (d) : dat.before 3 t d = iblk3 V 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (V : Valuation τ sig (Elt F)) (dat : Dat τ (Elt F) Ix Name U Lvl cfg3 c) (hA : dat.A 4 = Vc3 V c (Pipeline.arrRef spec3 4))
    (hafter : ∀ t, dat.after 4 t = iblk3 V 4 t) (t : Fin cfg3.N) (d) : dat.before 4 t d = iblk3 V 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (V : Valuation τ sig (Elt F)) (dat : Dat τ (Elt F) Ix Name U Lvl cfg3 c) (hA : dat.A 5 = Vc3 V c (Pipeline.arrRef spec3 5))
    (hafter : ∀ t, dat.after 5 t = iblk3 V 5 t) (t : Fin cfg3.N) (d) : dat.before 5 t d = iblk3 V 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (V : Valuation τ sig (Elt F)) (dat : Dat τ (Elt F) Ix Name U Lvl cfg3 c) (hA : dat.A 6 = Vc3 V c (Pipeline.arrRef spec3 6))
    (hafter : ∀ t, dat.after 6 t = iblk3 V 6 t) (t : Fin cfg3.N) (d) : dat.before 6 t d = iblk3 V 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (V : Valuation τ sig (Elt F)) (dat : Dat τ (Elt F) Ix Name U Lvl cfg3 c) (hA : dat.A 7 = Vc3 V c (Pipeline.arrRef spec3 7))
    (hafter : ∀ t, dat.after 7 t = iblk3 V 7 t) (t : Fin cfg3.N) (d) : dat.before 7 t d = iblk3 V 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (V : Valuation τ sig (Elt F)) (dat : Dat τ (Elt F) Ix Name U Lvl cfg3 c) (hA : dat.A 8 = Vc3 V c (Pipeline.arrRef spec3 8))
    (hafter : ∀ t, dat.after 8 t = iblk3 V 8 t) (t : Fin cfg3.N) (d) : dat.before 8 t d = iblk3 V 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (V : Valuation τ sig (Elt F)) (dat : Dat τ (Elt F) Ix Name U Lvl cfg3 c) (hA : dat.A 9 = Vc3 V c (Pipeline.arrRef spec3 9))
    (hafter : ∀ t, dat.after 9 t = iblk3 V 9 t) (t : Fin cfg3.N) (d) : dat.before 9 t d = iblk3 V 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- The activation tile at point `t`: the previous layer's tile scaled and shifted by the batch statistics, rectified, the
    residual tile added, rounded to bf16 — the body's arithmetic on the six blocks it reads. -/
def act3 (V : Valuation τ sig (Elt F)) (t : Fin cfg3.N) : Vec F S1024x1024 .bf16 :=
  k3_pay11 (iblk3 V 2 t) (iblk3 V 3 t) (iblk3 V 4 t) (iblk3 V 5 t) (iblk3 V 1 t) (iblk3 V 0 t)

/-- What the first scratch buffer carries from the first point on: the bf16 copy of the weight block. -/
def sW3 (V : Valuation τ sig (Elt F)) : Vec F S1024x512 .bf16 := k3_pay7 (iblk3 V 6 t3_0)

/-- What the second scratch buffer carries from the first point on: the bf16 copy of the second weight block. -/
def sPW3 (V : Valuation τ sig (Elt F)) : Vec F S1024x512 .bf16 := k3_pay8 (iblk3 V 7 t3_0)

/-- THE FIRST ACCUMULATION. What the column-sum accumulator's staging buffer holds after the body at position `n`: the zero word plus the first tile's column sums, then what the point before left plus the tile's. -/
def accS3 (V : Valuation τ sig (Elt F)) : (n : ℕ) → n < cfg3.N → Vec F S1x512 .f32
  | 0, h => k3_pay5 (act3 V ⟨0, h⟩) (sW3 V) k3_pay9
  | n + 1, h => k3_pay5 (act3 V ⟨n + 1, h⟩) (sW3 V) (accS3 V n (Nat.lt_of_succ_lt h))

/-- At the first point: the zero word plus the tile's sums. -/
theorem accS3_first (V : Valuation τ sig (Elt F)) (t : Fin cfg3.N) (h0 : t.val = 0) :
    accS3 V t.val t.isLt = k3_pay5 (act3 V t) (sW3 V) k3_pay9 := by
  obtain ⟨n, hn⟩ := t
  cases n with
  | zero => rfl
  | succ n => exact absurd h0 (Nat.succ_ne_zero n)

/-- At a later point: what the point before left plus the tile's sums. -/
theorem accS3_later (V : Valuation τ sig (Elt F)) (t : Fin cfg3.N) (h0 : t.val ≠ 0) :
    accS3 V t.val t.isLt = k3_pay5 (act3 V t) (sW3 V) (accS3 V (t.val - 1) (Nat.lt_of_le_of_lt (Nat.sub_le _ _) t.isLt)) := by
  obtain ⟨n, hn⟩ := t
  cases n with
  | zero => exact absurd rfl h0
  | succ n => rfl

/-- THE SECOND ACCUMULATION, of the squares' column sums: the same recursion. -/
def accQ3 (V : Valuation τ sig (Elt F)) : (n : ℕ) → n < cfg3.N → Vec F S1x512 .f32
  | 0, h => k3_pay6 (act3 V ⟨0, h⟩) (sW3 V) k3_pay10
  | n + 1, h => k3_pay6 (act3 V ⟨n + 1, h⟩) (sW3 V) (accQ3 V n (Nat.lt_of_succ_lt h))

/-- At the first point: the zero word plus the tile's sums. -/
theorem accQ3_first (V : Valuation τ sig (Elt F)) (t : Fin cfg3.N) (h0 : t.val = 0) :
    accQ3 V t.val t.isLt = k3_pay6 (act3 V t) (sW3 V) k3_pay10 := by
  obtain ⟨n, hn⟩ := t
  cases n with
  | zero => rfl
  | succ n => exact absurd h0 (Nat.succ_ne_zero n)

/-- At a later point: what the point before left plus the tile's sums. -/
theorem accQ3_later (V : Valuation τ sig (Elt F)) (t : Fin cfg3.N) (h0 : t.val ≠ 0) :
    accQ3 V t.val t.isLt = k3_pay6 (act3 V t) (sW3 V) (accQ3 V (t.val - 1) (Nat.lt_of_le_of_lt (Nat.sub_le _ _) t.isLt)) := by
  obtain ⟨n, hn⟩ := t
  cases n with
  | zero => exact absurd rfl h0
  | succ n => rfl

/-- The invariant before position `n`: before the first point the scoped buffers no window stages, each whole at some
    contents, and the generator register; from then on the two scratch buffers are held at the weight copies the first
    point wrote, the other scoped buffers as before. -/
def Φ3 (V : Valuation τ sig (Elt F)) (c : Dev nD) (n : Fin (cfg3.N + 1)) : sProp 𝕄 :=
  if n.val = 0 then iprop(Pipeline.scopedRest spec3 c ∗ ∃ r, prngReg c r)
  else iprop((owns (c : Thread nD τ) (Memref.whole cc3_scratch0) fullShare (sW3 V) ∗ owns (c : Thread nD τ) (Memref.whole cc3_scratch1) fullShare (sPW3 V)
        ∗ Pipeline.scopedRestBut spec3 c [cc3_scratch0, cc3_scratch1]) ∗ ∃ r, prngReg c r)

/-- The exact data: the arrays as the valuation has them; after the body at point `t` each input's buffer at its block,
    the product tile's at the truncated product of the activation tile with the first weight copy, the row sums' at the
    weighted row sums against the second, the accumulators' at the two accumulations; the invariant tracks the scratch
    buffers; nothing owed; full shares; the recorded pairs within `B`. -/
def dat3 (V : Valuation τ sig (Elt F)) (B : Set (SemLoc sig × Ix)) (c : Dev nD) : Dat τ (Elt F) Ix Name U Lvl cfg3 c where
  A w := Vc3 V c (Pipeline.arrRef spec3 w)
  after w t := match w with
    | ⟨0, _⟩ => iblk3 V 0 t
    | ⟨1, _⟩ => iblk3 V 1 t
    | ⟨2, _⟩ => iblk3 V 2 t
    | ⟨3, _⟩ => iblk3 V 3 t
    | ⟨4, _⟩ => iblk3 V 4 t
    | ⟨5, _⟩ => iblk3 V 5 t
    | ⟨6, _⟩ => iblk3 V 6 t
    | ⟨7, _⟩ => iblk3 V 7 t
    | ⟨8, _⟩ => iblk3 V 8 t
    | ⟨9, _⟩ => iblk3 V 9 t
    | ⟨10, _⟩ => k3_pay2 (act3 V t) (sW3 V)
    | ⟨11, _⟩ => k3_pay4 (act3 V t) (sPW3 V) (iblk3 V 8 t) (iblk3 V 9 t)
    | ⟨12, _⟩ => accS3 V t.val t.isLt
    | ⟨13, _⟩ => accQ3 V t.val t.isLt
  Φ n := Φ3 V c n
  q _ := fullShare
  owed _ := 0
  recorded _ := B

theorem A3_eq (V : Valuation τ sig (Elt F)) (B : Set (SemLoc sig × Ix)) (c : Dev nD) (w : Fin cfg3.W) :
    (dat3 (Name := Name) (U := U) (Lvl := Lvl) V B c).A w = Vc3 V c (Pipeline.arrRef spec3 w) := by dsimp only [dat3]

theorem after3_0 (V : Valuation τ sig (Elt F)) (B : Set (SemLoc sig × Ix)) (c : Dev nD) (t : Fin cfg3.N) : (dat3 (Name := Name) (U := U) (Lvl := Lvl) V B c).after 0 t = iblk3 V 0 t := by dsimp only [dat3]
theorem after3_1 (V : Valuation τ sig (Elt F)) (B : Set (SemLoc sig × Ix)) (c : Dev nD) (t : Fin cfg3.N) : (dat3 (Name := Name) (U := U) (Lvl := Lvl) V B c).after 1 t = iblk3 V 1 t := by dsimp only [dat3]
theorem after3_2 (V : Valuation τ sig (Elt F)) (B : Set (SemLoc sig × Ix)) (c : Dev nD) (t : Fin cfg3.N) : (dat3 (Name := Name) (U := U) (Lvl := Lvl) V B c).after 2 t = iblk3 V 2 t := by dsimp only [dat3]
theorem after3_3 (V : Valuation τ sig (Elt F)) (B : Set (SemLoc sig × Ix)) (c : Dev nD) (t : Fin cfg3.N) : (dat3 (Name := Name) (U := U) (Lvl := Lvl) V B c).after 3 t = iblk3 V 3 t := by dsimp only [dat3]
theorem after3_4 (V : Valuation τ sig (Elt F)) (B : Set (SemLoc sig × Ix)) (c : Dev nD) (t : Fin cfg3.N) : (dat3 (Name := Name) (U := U) (Lvl := Lvl) V B c).after 4 t = iblk3 V 4 t := by dsimp only [dat3]
theorem after3_5 (V : Valuation τ sig (Elt F)) (B : Set (SemLoc sig × Ix)) (c : Dev nD) (t : Fin cfg3.N) : (dat3 (Name := Name) (U := U) (Lvl := Lvl) V B c).after 5 t = iblk3 V 5 t := by dsimp only [dat3]
theorem after3_6 (V : Valuation τ sig (Elt F)) (B : Set (SemLoc sig × Ix)) (c : Dev nD) (t : Fin cfg3.N) : (dat3 (Name := Name) (U := U) (Lvl := Lvl) V B c).after 6 t = iblk3 V 6 t := by dsimp only [dat3]
theorem after3_7 (V : Valuation τ sig (Elt F)) (B : Set (SemLoc sig × Ix)) (c : Dev nD) (t : Fin cfg3.N) : (dat3 (Name := Name) (U := U) (Lvl := Lvl) V B c).after 7 t = iblk3 V 7 t := by dsimp only [dat3]
theorem after3_8 (V : Valuation τ sig (Elt F)) (B : Set (SemLoc sig × Ix)) (c : Dev nD) (t : Fin cfg3.N) : (dat3 (Name := Name) (U := U) (Lvl := Lvl) V B c).after 8 t = iblk3 V 8 t := by dsimp only [dat3]
theorem after3_9 (V : Valuation τ sig (Elt F)) (B : Set (SemLoc sig × Ix)) (c : Dev nD) (t : Fin cfg3.N) : (dat3 (Name := Name) (U := U) (Lvl := Lvl) V B c).after 9 t = iblk3 V 9 t := by dsimp only [dat3]
theorem after3_10 (V : Valuation τ sig (Elt F)) (B : Set (SemLoc sig × Ix)) (c : Dev nD) (t : Fin cfg3.N) : (dat3 (Name := Name) (U := U) (Lvl := Lvl) V B c).after 10 t = k3_pay2 (act3 V t) (sW3 V) := by dsimp only [dat3]
theorem after3_11 (V : Valuation τ sig (Elt F)) (B : Set (SemLoc sig × Ix)) (c : Dev nD) (t : Fin cfg3.N) : (dat3 (Name := Name) (U := U) (Lvl := Lvl) V B c).after 11 t = k3_pay4 (act3 V t) (sPW3 V) (iblk3 V 8 t) (iblk3 V 9 t) := by dsimp only [dat3]
theorem after3_12 (V : Valuation τ sig (Elt F)) (B : Set (SemLoc sig × Ix)) (c : Dev nD) (t : Fin cfg3.N) : (dat3 (Name := Name) (U := U) (Lvl := Lvl) V B c).after 12 t = accS3 V t.val t.isLt := by dsimp only [dat3]
theorem after3_13 (V : Valuation τ sig (Elt F)) (B : Set (SemLoc sig × Ix)) (c : Dev nD) (t : Fin cfg3.N) : (dat3 (Name := Name) (U := U) (Lvl := Lvl) V B c).after 13 t = accQ3 V t.val t.isLt := by dsimp only [dat3]

theorem before3_0 (V : Valuation τ sig (Elt F)) (B : Set (SemLoc sig × Ix)) (c : Dev nD) (t : Fin cfg3.N) (d) : (dat3 (Name := Name) (U := U) (Lvl := Lvl) V B c).before 0 t d = iblk3 V 0 t :=
  before3_0_of V (dat3 V B c) (A3_eq V B c 0) (after3_0 V B c) t d
theorem before3_1 (V : Valuation τ sig (Elt F)) (B : Set (SemLoc sig × Ix)) (c : Dev nD) (t : Fin cfg3.N) (d) : (dat3 (Name := Name) (U := U) (Lvl := Lvl) V B c).before 1 t d = iblk3 V 1 t :=
  before3_1_of V (dat3 V B c) (A3_eq V B c 1) (after3_1 V B c) t d
theorem before3_2 (V : Valuation τ sig (Elt F)) (B : Set (SemLoc sig × Ix)) (c : Dev nD) (t : Fin cfg3.N) (d) : (dat3 (Name := Name) (U := U) (Lvl := Lvl) V B c).before 2 t d = iblk3 V 2 t :=
  before3_2_of V (dat3 V B c) (A3_eq V B c 2) (after3_2 V B c) t d
theorem before3_3 (V : Valuation τ sig (Elt F)) (B : Set (SemLoc sig × Ix)) (c : Dev nD) (t : Fin cfg3.N) (d) : (dat3 (Name := Name) (U := U) (Lvl := Lvl) V B c).before 3 t d = iblk3 V 3 t :=
  before3_3_of V (dat3 V B c) (A3_eq V B c 3) (after3_3 V B c) t d
theorem before3_4 (V : Valuation τ sig (Elt F)) (B : Set (SemLoc sig × Ix)) (c : Dev nD) (t : Fin cfg3.N) (d) : (dat3 (Name := Name) (U := U) (Lvl := Lvl) V B c).before 4 t d = iblk3 V 4 t :=
  before3_4_of V (dat3 V B c) (A3_eq V B c 4) (after3_4 V B c) t d
theorem before3_5 (V : Valuation τ sig (Elt F)) (B : Set (SemLoc sig × Ix)) (c : Dev nD) (t : Fin cfg3.N) (d) : (dat3 (Name := Name) (U := U) (Lvl := Lvl) V B c).before 5 t d = iblk3 V 5 t :=
  before3_5_of V (dat3 V B c) (A3_eq V B c 5) (after3_5 V B c) t d
theorem before3_6 (V : Valuation τ sig (Elt F)) (B : Set (SemLoc sig × Ix)) (c : Dev nD) (t : Fin cfg3.N) (d) : (dat3 (Name := Name) (U := U) (Lvl := Lvl) V B c).before 6 t d = iblk3 V 6 t :=
  before3_6_of V (dat3 V B c) (A3_eq V B c 6) (after3_6 V B c) t d
theorem before3_7 (V : Valuation τ sig (Elt F)) (B : Set (SemLoc sig × Ix)) (c : Dev nD) (t : Fin cfg3.N) (d) : (dat3 (Name := Name) (U := U) (Lvl := Lvl) V B c).before 7 t d = iblk3 V 7 t :=
  before3_7_of V (dat3 V B c) (A3_eq V B c 7) (after3_7 V B c) t d
theorem before3_8 (V : Valuation τ sig (Elt F)) (B : Set (SemLoc sig × Ix)) (c : Dev nD) (t : Fin cfg3.N) (d) : (dat3 (Name := Name) (U := U) (Lvl := Lvl) V B c).before 8 t d = iblk3 V 8 t :=
  before3_8_of V (dat3 V B c) (A3_eq V B c 8) (after3_8 V B c) t d
theorem before3_9 (V : Valuation τ sig (Elt F)) (B : Set (SemLoc sig × Ix)) (c : Dev nD) (t : Fin cfg3.N) (d) : (dat3 (Name := Name) (U := U) (Lvl := Lvl) V B c).before 9 t d = iblk3 V 9 t :=
  before3_9_of V (dat3 V B c) (A3_eq V B c 9) (after3_9 V B c) t d

/-- After the first point accumulator window 12's staging buffer holds what the body left at the point before: it is
    written back at the last point only, the window is live and uncut. -/
theorem before3_12_B (V : Valuation τ sig (Elt F)) (B : Set (SemLoc sig × Ix)) (c : Dev nD) (t : Fin cfg3.N) (h0 : t.val ≠ 0) (d) :
    (dat3 (Name := Name) (U := U) (Lvl := Lvl) V B c).before 12 t d = accS3 V (t.val - 1) (Nat.lt_of_le_of_lt (Nat.sub_le _ _) t.isLt) := by
  have hN : t.val < 16 := lt_of_lt_of_eq t.isLt (show cfg3.N = 16 from N_3)
  rw [Dat.before_out_kept _ 12 rfl t h0 (Bool.eq_false_iff.mpr fun h => by have := (flush3_12 _).mp h; dsimp only at this; omega)
    (fun _ => rfl) (fun _ _ => rfl)]
  dsimp only [dat3]
/-- After the first point accumulator window 13's staging buffer holds what the body left at the point before: it is
    written back at the last point only, the window is live and uncut. -/
theorem before3_13_B (V : Valuation τ sig (Elt F)) (B : Set (SemLoc sig × Ix)) (c : Dev nD) (t : Fin cfg3.N) (h0 : t.val ≠ 0) (d) :
    (dat3 (Name := Name) (U := U) (Lvl := Lvl) V B c).before 13 t d = accQ3 V (t.val - 1) (Nat.lt_of_le_of_lt (Nat.sub_le _ _) t.isLt) := by
  have hN : t.val < 16 := lt_of_lt_of_eq t.isLt (show cfg3.N = 16 from N_3)
  rw [Dat.before_out_kept _ 13 rfl t h0 (Bool.eq_false_iff.mpr fun h => by have := (flush3_13 _).mp h; dsimp only at this; omega)
    (fun _ => rfl) (fun _ _ => rfl)]
  dsimp only [dat3]

/-- The invariant before the first point. -/
theorem Φ3_first (V : Valuation τ sig (Elt F)) (B : Set (SemLoc sig × Ix)) (c : Dev nD) (t : Fin cfg3.N) (h0 : t.val = 0) :
    (dat3 (Name := Name) (U := U) (Lvl := Lvl) V B c).Φ t.castSucc = iprop(Pipeline.scopedRest spec3 c ∗ ∃ r, prngReg c r) := by
  show Φ3 V c t.castSucc = _
  unfold Φ3
  exact if_pos h0

/-- The invariant before a later point. -/
theorem Φ3_later (V : Valuation τ sig (Elt F)) (B : Set (SemLoc sig × Ix)) (c : Dev nD) (t : Fin cfg3.N) (h0 : t.val ≠ 0) :
    (dat3 (Name := Name) (U := U) (Lvl := Lvl) V B c).Φ t.castSucc = iprop((owns (c : Thread nD τ) (Memref.whole cc3_scratch0) fullShare (sW3 V) ∗ owns (c : Thread nD τ) (Memref.whole cc3_scratch1) fullShare (sPW3 V)
        ∗ Pipeline.scopedRestBut spec3 c [cc3_scratch0, cc3_scratch1]) ∗ ∃ r, prngReg c r) := by
  show Φ3 V c t.castSucc = _
  unfold Φ3
  exact if_neg h0

/-- The invariant after any point. -/
theorem Φ3_succ (V : Valuation τ sig (Elt F)) (B : Set (SemLoc sig × Ix)) (c : Dev nD) (t : Fin cfg3.N) :
    (dat3 (Name := Name) (U := U) (Lvl := Lvl) V B c).Φ t.succ = iprop((owns (c : Thread nD τ) (Memref.whole cc3_scratch0) fullShare (sW3 V) ∗ owns (c : Thread nD τ) (Memref.whole cc3_scratch1) fullShare (sPW3 V)
        ∗ Pipeline.scopedRestBut spec3 c [cc3_scratch0, cc3_scratch1]) ∗ ∃ r, prngReg c r) := by
  show Φ3 V c t.succ = _
  unfold Φ3
  exact if_neg (Nat.succ_ne_zero t.val)

/-- What the body is called with at point `t`, the windows one by one, -/
def bodyPre3 (V : Valuation τ sig (Elt F)) (B : Set (SemLoc sig × Ix)) (ι : Ix) (c : Dev nD) (t : Fin cfg3.N) : sProp 𝕄 :=
  iprop((dat3 (Name := Name) (U := U) (Lvl := Lvl) V B c).Φ t.castSucc ∗ (dat3 (Name := Name) (U := U) (Lvl := Lvl) V B c).owesAt ι t.castSucc
    ∗ (∃ d, owns (c : Thread nD τ) (st3_0 t) fullShare ((dat3 (Name := Name) (U := U) (Lvl := Lvl) V B c).before 0 t d))
    ∗ (∃ d, owns (c : Thread nD τ) (st3_1 t) fullShare ((dat3 (Name := Name) (U := U) (Lvl := Lvl) V B c).before 1 t d))
    ∗ (∃ d, owns (c : Thread nD τ) (st3_2 t) fullShare ((dat3 (Name := Name) (U := U) (Lvl := Lvl) V B c).before 2 t d))
    ∗ (∃ d, owns (c : Thread nD τ) (st3_3 t) fullShare ((dat3 (Name := Name) (U := U) (Lvl := Lvl) V B c).before 3 t d))
    ∗ (∃ d, owns (c : Thread nD τ) (st3_4 t) fullShare ((dat3 (Name := Name) (U := U) (Lvl := Lvl) V B c).before 4 t d))
    ∗ (∃ d, owns (c : Thread nD τ) (st3_5 t) fullShare ((dat3 (Name := Name) (U := U) (Lvl := Lvl) V B c).before 5 t d))
    ∗ (∃ d, owns (c : Thread nD τ) (st3_6 t) fullShare ((dat3 (Name := Name) (U := U) (Lvl := Lvl) V B c).before 6 t d))
    ∗ (∃ d, owns (c : Thread nD τ) (st3_7 t) fullShare ((dat3 (Name := Name) (U := U) (Lvl := Lvl) V B c).before 7 t d))
    ∗ (∃ d, owns (c : Thread nD τ) (st3_8 t) fullShare ((dat3 (Name := Name) (U := U) (Lvl := Lvl) V B c).before 8 t d))
    ∗ (∃ d, owns (c : Thread nD τ) (st3_9 t) fullShare ((dat3 (Name := Name) (U := U) (Lvl := Lvl) V B c).before 9 t d))
    ∗ (∃ d, owns (c : Thread nD τ) (st3_10 t) fullShare ((dat3 (Name := Name) (U := U) (Lvl := Lvl) V B c).before 10 t d))
    ∗ (∃ d, owns (c : Thread nD τ) (st3_11 t) fullShare ((dat3 (Name := Name) (U := U) (Lvl := Lvl) V B c).before 11 t d))
    ∗ (∃ d, owns (c : Thread nD τ) (st3_12 t) fullShare ((dat3 (Name := Name) (U := U) (Lvl := Lvl) V B c).before 12 t d))
    ∗ (∃ d, owns (c : Thread nD τ) (st3_13 t) fullShare ((dat3 (Name := Name) (U := U) (Lvl := Lvl) V B c).before 13 t d)))

/-- and what it returns. -/
def bodyPost3 (V : Valuation τ sig (Elt F)) (B : Set (SemLoc sig × Ix)) (ι : Ix) (c : Dev nD) (t : Fin cfg3.N) : sProp 𝕄 :=
  iprop((dat3 (Name := Name) (U := U) (Lvl := Lvl) V B c).Φ t.succ ∗ (dat3 (Name := Name) (U := U) (Lvl := Lvl) V B c).owesAt ι t.succ
    ∗ owns (c : Thread nD τ) (st3_0 t) fullShare ((dat3 (Name := Name) (U := U) (Lvl := Lvl) V B c).after 0 t)
    ∗ owns (c : Thread nD τ) (st3_1 t) fullShare ((dat3 (Name := Name) (U := U) (Lvl := Lvl) V B c).after 1 t)
    ∗ owns (c : Thread nD τ) (st3_2 t) fullShare ((dat3 (Name := Name) (U := U) (Lvl := Lvl) V B c).after 2 t)
    ∗ owns (c : Thread nD τ) (st3_3 t) fullShare ((dat3 (Name := Name) (U := U) (Lvl := Lvl) V B c).after 3 t)
    ∗ owns (c : Thread nD τ) (st3_4 t) fullShare ((dat3 (Name := Name) (U := U) (Lvl := Lvl) V B c).after 4 t)
    ∗ owns (c : Thread nD τ) (st3_5 t) fullShare ((dat3 (Name := Name) (U := U) (Lvl := Lvl) V B c).after 5 t)
    ∗ owns (c : Thread nD τ) (st3_6 t) fullShare ((dat3 (Name := Name) (U := U) (Lvl := Lvl) V B c).after 6 t)
    ∗ owns (c : Thread nD τ) (st3_7 t) fullShare ((dat3 (Name := Name) (U := U) (Lvl := Lvl) V B c).after 7 t)
    ∗ owns (c : Thread nD τ) (st3_8 t) fullShare ((dat3 (Name := Name) (U := U) (Lvl := Lvl) V B c).after 8 t)
    ∗ owns (c : Thread nD τ) (st3_9 t) fullShare ((dat3 (Name := Name) (U := U) (Lvl := Lvl) V B c).after 9 t)
    ∗ owns (c : Thread nD τ) (st3_10 t) fullShare ((dat3 (Name := Name) (U := U) (Lvl := Lvl) V B c).after 10 t)
    ∗ owns (c : Thread nD τ) (st3_11 t) fullShare ((dat3 (Name := Name) (U := U) (Lvl := Lvl) V B c).after 11 t)
    ∗ owns (c : Thread nD τ) (st3_12 t) fullShare ((dat3 (Name := Name) (U := U) (Lvl := Lvl) V B c).after 12 t)
    ∗ owns (c : Thread nD τ) (st3_13 t) fullShare ((dat3 (Name := Name) (U := U) (Lvl := Lvl) V B c).after 13 t))

set_option maxHeartbeats 2000000 in
/-- The body at any point. The inputs' memrefs hold their blocks. At the first point the conditional is taken: the scratch
    buffers come out of the scoped rest at any contents and go back into the invariant at the weight copies. At a later
    point it is not: the invariant hands the scratch buffers over at the weight copies, the accumulators' memrefs hold what
    the point before left. The core's waits pass through unread. -/
theorem sound_body3 (V : Valuation τ sig (Elt F)) (B : Set (SemLoc sig × Ix)) (ι : Ix) (c : Dev nD) (t : Fin cfg3.N) :
    bodyPre3 (Name := Name) (U := U) (Lvl := Lvl) V B ι c t
      ⊢ wp frame (wpE (defs₀ (F := F)) Variants.none c none) Set.univ (bodyAt3 t) (fun _ => bodyPost3 (Name := Name) (U := U) (Lvl := Lvl) V B ι c t) := by
  unfold bodyPre3 bodyPost3 bodyAt3
  simp only [before3_0, before3_1, before3_2, before3_3, before3_4, before3_5, before3_6, before3_7, before3_8, before3_9]
  rw [show (dat3 (Name := Name) (U := U) (Lvl := Lvl) V B c).owesAt ι t.succ = (dat3 (Name := Name) (U := U) (Lvl := Lvl) V B c).owesAt ι t.castSucc from rfl,
    after3_0, after3_1, after3_2, after3_3, after3_4, after3_5, after3_6, after3_7, after3_8, after3_9, after3_10, after3_11, after3_12, after3_13, Φ3_succ]
  by_cases h0 : t.val = 0
  · rw [Φ3_first V B c t h0, accS3_first V t h0, accQ3_first V t h0]
    have e0 : (t3_0 : Fin cfg3.N) = t := Fin.ext h0.symm
    unfold sW3 sPW3 act3
    rw [e0, scopedRest3_split]
    iintro ⟨⟨⟨⟨⟨%z0, S0⟩, ⟨%z1, S1⟩⟩, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_k3_A c (grid3.coords t) _ _ _ _ _ _ _ _ _ _ _ _ _ _ _ _ _ _ _ _ _ _ _ _ _ _ _ _ _ _ _ _ ((hcond3 t).mpr h0) (iblk3 V 0 t) (iblk3 V 1 t) (iblk3 V 2 t) (iblk3 V 3 t) (iblk3 V 4 t) (iblk3 V 5 t) (iblk3 V 6 t) (iblk3 V 7 t) (iblk3 V 8 t) (iblk3 V 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [S0]; · iexists _; rw [owns_whole]; iexact S0
    isplitl [S1]; · iexists _; rw [owns_whole]; iexact S1
    iintro ⟨H0, H1, H2, H3, H4, H5, H6, H7, H8, H9, H10, H11, H12, H13, S0, S1⟩
    isplitl [S0 S1 Hrest Hp]
    · isplitr [Hp]; swap; · iexact Hp
      isplitl [S0]; · iexact S0
      isplitl [S1]; · iexact S1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [Φ3_later V B c t h0, accS3_later V t h0, accQ3_later V t h0]
    simp only [before3_12_B V B c t h0, before3_13_B V B c t h0]
    unfold act3
    iintro ⟨⟨⟨S0, S1, Hrest⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_k3_B c (grid3.coords t) _ _ _ _ _ _ _ _ _ _ _ _ _ _ _ _ _ _ _ _ _ _ _ _ _ _ _ _ _ _ _ _ (fun h => h0 ((hcond3 t).mp h)) (iblk3 V 0 t) (iblk3 V 1 t) (iblk3 V 2 t) (iblk3 V 3 t) (iblk3 V 4 t) (iblk3 V 5 t) (iblk3 V 6 t) (iblk3 V 7 t) (iblk3 V 8 t) (iblk3 V 9 t) (accS3 V (t.val - 1) (Nat.lt_of_le_of_lt (Nat.sub_le _ _) t.isLt)) (accQ3 V (t.val - 1) (Nat.lt_of_le_of_lt (Nat.sub_le _ _) t.isLt)) (sW3 V) (sPW3 V) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    isplitl [S0]; · iexact S0
    isplitl [S1]; · iexact S1
    iintro ⟨H0, H1, H2, H3, H4, H5, H6, H7, H8, H9, H10, H11, H12, H13, S0, S1⟩
    isplitl [S0 S1 Hrest Hp]
    · isplitr [Hp]; swap; · iexact Hp
      isplitl [S0]; · iexact S0
      isplitl [S1]; · iexact S1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The library's body obligation for the exact data, at every point. -/
theorem body_obligation3 (V : Valuation τ sig (Elt F)) (B : Set (SemLoc sig × Ix)) (ι : Ix) (c : Dev nD) :
    BodyObligation (dat3 (Name := Name) (U := U) (Lvl := Lvl) V B c) (defs₀ (F := F)) Variants.none ι Set.univ := fun t => by
  rw [bigSep_W3, bigSep_W3]
  exact sound_body3 V B ι c t

end Cert.KernelIdeal.RegionVal

end
-- ==== Proof.RegionValK3IdealArr.lean ====
import proofs.«214388_g48842368090541_cont_8to1c4_19_37_alg».proof.Proof.RegionValK3IdealData

set_option maxRecDepth 16384

noncomputable section

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## From blocks to the arrays: the four output arrays after the region -/

/-- Output window 10's printed index map, decided over the grid: along the rows the block index is the grid point, along
    the columns it is zero. -/
theorem idx_facts3_10 : ∀ t : Fin cfg3.N, win3_10.index t (0 : Fin 2) = t.val ∧ win3_10.index t (1 : Fin 2) = 0 :=
  (by decide +kernel : ∀ t : Fin grid3.N, win3_10.index t (0 : Fin 2) = t.val ∧ win3_10.index t (1 : Fin 2) = 0)

/-- The grid point whose block holds row `i 0`: blocks are 1024 rows. -/
def tOfY (i : S16384x512.Idx) : Fin cfg3.N :=
  ⟨(i 0).val / 1024, by have h : (i 0).val < 16384 := (i 0).isLt; show (i 0).val / 1024 < grid3.N; rw [N_3]; omega⟩

/-- The place of entry `i` inside its block. -/
def locOfY (i : S16384x512.Idx) : S1024x512.Idx := fun a =>
  match a with
  | ⟨0, _⟩ => ⟨(i 0).val % 1024, Nat.mod_lt _ (by decide)⟩
  | ⟨1, _⟩ => ⟨(i 1).val, (i 1).isLt⟩

/-- WHAT THE PRODUCT ARRAY HOLDS AFTER THE REGION, as one function of the valuation: at row `i 0` the truncated product
    of the activation tile of the point that holds the row with the weight copy, at the entry's place in the block. -/
def gY3 (V : Valuation τ sig (Elt F)) : S16384x512.Idx → Elt F .bf16 := fun i =>
  k3_pay2 (act3 V (tOfY i)) (sW3 V) (locOfY i)

/-- What point `t` writes back of window 10 is block `t` of that function. -/
theorem flushed3_10_eq (V : Valuation τ sig (Elt F)) (B : Set (SemLoc sig × Ix)) (c : Dev nD) (t : Fin cfg3.N) :
    (dat3 (Name := Name) (U := U) (Lvl := Lvl) V B c).flushed 10 t = ((cfg3.win 10).blk t).view.read (Elt F) (gY3 V) := by
  show (cfg3.win 10).cut (grid3.coords t) ((dat3 (Name := Name) (U := U) (Lvl := Lvl) V B c).after 10 t) = _
  rw [after3_10]
  obtain ⟨e0, e1⟩ := idx_facts3_10 t
  funext j
  show k3_pay2 (act3 V t) (sW3 V) j = gY3 V (((cfg3.win 10).blk t).view.emb j)
  have hj0 : (j 0).val < 1024 := (j 0).isLt
  have hj1 : (j 1).val < 512 := (j 1).isLt
  have h0 : ((((cfg3.win 10).blk t).view.emb j) 0).val = win3_10.index t (0 : Fin 2) * 1024 + 1 * (j 0).val := rfl
  have h1 : ((((cfg3.win 10).blk t).view.emb j) 1).val = win3_10.index t (1 : Fin 2) * 512 + 1 * (j 1).val := rfl
  have ht : tOfY (((cfg3.win 10).blk t).view.emb j) = t := by
    apply Fin.ext; show ((((cfg3.win 10).blk t).view.emb j) 0).val / 1024 = t.val; rw [h0]; omega
  have hl : locOfY (((cfg3.win 10).blk t).view.emb j) = j := by
    funext a; apply Fin.ext
    match a with
    | ⟨0, _⟩ => show ((((cfg3.win 10).blk t).view.emb j) 0).val % 1024 = (j 0).val; rw [h0]; omega
    | ⟨1, _⟩ => show ((((cfg3.win 10).blk t).view.emb j) 1).val = (j 1).val; rw [h1]; omega
  unfold gY3
  rw [ht, hl]

/-- An index of the array is in point `t`'s block iff each coordinate is in the block's range on its axis. -/
theorem mem_blk3_10 (t : Fin cfg3.N) (i : S16384x512.Idx) :
    i ∈ ((cfg3.win 10).blk t).view.set ↔ ∀ a : Fin 2, win3_10.index t a * S1024x512.size a ≤ (i a).val ∧ (i a).val < win3_10.index t a * S1024x512.size a + S1024x512.size a := by
  show i ∈ ((View.whole main_v96_0).slice (win3_10.rect t)).set ↔ _
  rw [View.set_slice_whole, Rect.mem_set_unit]
  exact Iff.rfl

/-- Every entry of the array is in the block of the point `tOfY` names, which writes it back. -/
theorem cover3_10 (i : S16384x512.Idx) : ∃ t : Fin cfg3.N, (cfg3.win 10).flush t = true ∧ i ∈ ((cfg3.win 10).blk t).view.set := by
  refine ⟨tOfY i, flush3_10 _, ?_⟩
  rw [mem_blk3_10]
  obtain ⟨e0, e1⟩ := idx_facts3_10 (tOfY i)
  have hi0 : (i 0).val < 16384 := (i 0).isLt
  have hi1 : (i 1).val < 512 := (i 1).isLt
  have ht : (tOfY i).val = (i 0).val / 1024 := rfl
  intro a
  match a with
  | ⟨0, _⟩ => show win3_10.index (tOfY i) (0 : Fin 2) * 1024 ≤ (i 0).val ∧ (i 0).val < win3_10.index (tOfY i) (0 : Fin 2) * 1024 + 1024; omega
  | ⟨1, _⟩ => show win3_10.index (tOfY i) (1 : Fin 2) * 512 ≤ (i 1).val ∧ (i 1).val < win3_10.index (tOfY i) (1 : Fin 2) * 512 + 512; omega

/-- THE ARRAY after the region's last write-back is that function of the valuation. -/
theorem final3_10 (V : Valuation τ sig (Elt F)) (B : Set (SemLoc sig × Ix)) (c : Dev nD) :
    (dat3 (Name := Name) (U := U) (Lvl := Lvl) V B c).arrAt 10 cfg3.N = gY3 V :=
  (dat3 (Name := Name) (U := U) (Lvl := Lvl) V B c).arrAt_eq_of_cover 10 (gY3 V) (fun t _ => flushed3_10_eq V B c t) cover3_10

/-- Output window 11's printed index map, decided over the grid: along the rows the block index is the grid point, along
    the columns it is zero. -/
theorem idx_facts3_11 : ∀ t : Fin cfg3.N, win3_11.index t (0 : Fin 2) = t.val ∧ win3_11.index t (1 : Fin 2) = 0 :=
  (by decide +kernel : ∀ t : Fin grid3.N, win3_11.index t (0 : Fin 2) = t.val ∧ win3_11.index t (1 : Fin 2) = 0)

/-- The grid point whose block holds row `i 0`: blocks are 1024 rows. -/
def tOfLo (i : S16384x1.Idx) : Fin cfg3.N :=
  ⟨(i 0).val / 1024, by have h : (i 0).val < 16384 := (i 0).isLt; show (i 0).val / 1024 < grid3.N; rw [N_3]; omega⟩

/-- The place of entry `i` inside its block. -/
def locOfLo (i : S16384x1.Idx) : S1024x1.Idx := fun a =>
  match a with
  | ⟨0, _⟩ => ⟨(i 0).val % 1024, Nat.mod_lt _ (by decide)⟩
  | ⟨1, _⟩ => ⟨(i 1).val, (i 1).isLt⟩

/-- WHAT THE ROW-SUM ARRAY HOLDS AFTER THE REGION, as one function of the valuation: at row `i 0` the weighted row sum of
    the point that holds the row, at the row's place in the block. -/
def gLo3 (V : Valuation τ sig (Elt F)) : S16384x1.Idx → Elt F .f32 := fun i =>
  k3_pay4 (act3 V (tOfLo i)) (sPW3 V) (iblk3 V 8 (tOfLo i)) (iblk3 V 9 (tOfLo i)) (locOfLo i)

/-- What point `t` writes back of window 11 is block `t` of that function. -/
theorem flushed3_11_eq (V : Valuation τ sig (Elt F)) (B : Set (SemLoc sig × Ix)) (c : Dev nD) (t : Fin cfg3.N) :
    (dat3 (Name := Name) (U := U) (Lvl := Lvl) V B c).flushed 11 t = ((cfg3.win 11).blk t).view.read (Elt F) (gLo3 V) := by
  show (cfg3.win 11).cut (grid3.coords t) ((dat3 (Name := Name) (U := U) (Lvl := Lvl) V B c).after 11 t) = _
  rw [after3_11]
  obtain ⟨e0, e1⟩ := idx_facts3_11 t
  funext j
  show k3_pay4 (act3 V t) (sPW3 V) (iblk3 V 8 t) (iblk3 V 9 t) j = gLo3 V (((cfg3.win 11).blk t).view.emb j)
  have hj0 : (j 0).val < 1024 := (j 0).isLt
  have hj1 : (j 1).val < 1 := (j 1).isLt
  have h0 : ((((cfg3.win 11).blk t).view.emb j) 0).val = win3_11.index t (0 : Fin 2) * 1024 + 1 * (j 0).val := rfl
  have h1 : ((((cfg3.win 11).blk t).view.emb j) 1).val = win3_11.index t (1 : Fin 2) * 1 + 1 * (j 1).val := rfl
  have ht : tOfLo (((cfg3.win 11).blk t).view.emb j) = t := by
    apply Fin.ext; show ((((cfg3.win 11).blk t).view.emb j) 0).val / 1024 = t.val; rw [h0]; omega
  have hl : locOfLo (((cfg3.win 11).blk t).view.emb j) = j := by
    funext a; apply Fin.ext
    match a with
    | ⟨0, _⟩ => show ((((cfg3.win 11).blk t).view.emb j) 0).val % 1024 = (j 0).val; rw [h0]; omega
    | ⟨1, _⟩ => show ((((cfg3.win 11).blk t).view.emb j) 1).val = (j 1).val; rw [h1]; omega
  unfold gLo3
  rw [ht, hl]

/-- An index of the array is in point `t`'s block iff each coordinate is in the block's range on its axis. -/
theorem mem_blk3_11 (t : Fin cfg3.N) (i : S16384x1.Idx) :
    i ∈ ((cfg3.win 11).blk t).view.set ↔ ∀ a : Fin 2, win3_11.index t a * S1024x1.size a ≤ (i a).val ∧ (i a).val < win3_11.index t a * S1024x1.size a + S1024x1.size a := by
  show i ∈ ((View.whole main_v96_1).slice (win3_11.rect t)).set ↔ _
  rw [View.set_slice_whole, Rect.mem_set_unit]
  exact Iff.rfl

/-- Every entry of the array is in the block of the point `tOfLo` names, which writes it back. -/
theorem cover3_11 (i : S16384x1.Idx) : ∃ t : Fin cfg3.N, (cfg3.win 11).flush t = true ∧ i ∈ ((cfg3.win 11).blk t).view.set := by
  refine ⟨tOfLo i, flush3_11 _, ?_⟩
  rw [mem_blk3_11]
  obtain ⟨e0, e1⟩ := idx_facts3_11 (tOfLo i)
  have hi0 : (i 0).val < 16384 := (i 0).isLt
  have hi1 : (i 1).val < 1 := (i 1).isLt
  have ht : (tOfLo i).val = (i 0).val / 1024 := rfl
  intro a
  match a with
  | ⟨0, _⟩ => show win3_11.index (tOfLo i) (0 : Fin 2) * 1024 ≤ (i 0).val ∧ (i 0).val < win3_11.index (tOfLo i) (0 : Fin 2) * 1024 + 1024; omega
  | ⟨1, _⟩ => show win3_11.index (tOfLo i) (1 : Fin 2) * 1 ≤ (i 1).val ∧ (i 1).val < win3_11.index (tOfLo i) (1 : Fin 2) * 1 + 1; omega

/-- THE ARRAY after the region's last write-back is that function of the valuation. -/
theorem final3_11 (V : Valuation τ sig (Elt F)) (B : Set (SemLoc sig × Ix)) (c : Dev nD) :
    (dat3 (Name := Name) (U := U) (Lvl := Lvl) V B c).arrAt 11 cfg3.N = gLo3 V :=
  (dat3 (Name := Name) (U := U) (Lvl := Lvl) V B c).arrAt_eq_of_cover 11 (gLo3 V) (fun t _ => flushed3_11_eq V B c t) cover3_11

/-- Accumulator window 12's printed index map, decided over the grid: its one block never moves. -/
theorem idx_facts3_12 : ∀ t : Fin cfg3.N, win3_12.index t (0 : Fin 2) = 0 ∧ win3_12.index t (1 : Fin 2) = 0 :=
  (by decide +kernel : ∀ t : Fin grid3.N, win3_12.index t (0 : Fin 2) = 0 ∧ win3_12.index t (1 : Fin 2) = 0)

/-- WHAT THE ACCUMULATOR'S ARRAY HOLDS AFTER THE REGION: the accumulation after the last of the sixteen points. -/
def gS3 (V : Valuation τ sig (Elt F)) : S1x512.Idx → Elt F .f32 :=
  accS3 V 15 (by rw [show cfg3.N = 16 from N_3]; decide)

/-- The accumulation at a position equal to fifteen is the one `gS3` names. -/
theorem accS3_at15 (V : Valuation τ sig (Elt F)) (n : ℕ) (h : n < cfg3.N) (e : n = 15) : accS3 V n h = gS3 V := by
  subst e; rfl

/-- The one write-back of window 12, at the last point, writes the accumulation: the block is the whole array. -/
theorem flushed3_12_eq (V : Valuation τ sig (Elt F)) (B : Set (SemLoc sig × Ix)) (c : Dev nD) (t : Fin cfg3.N) (hf : (cfg3.win 12).flush t = true) :
    (dat3 (Name := Name) (U := U) (Lvl := Lvl) V B c).flushed 12 t = ((cfg3.win 12).blk t).view.read (Elt F) (gS3 V) := by
  have hN : t.val < 16 := lt_of_lt_of_eq t.isLt (show cfg3.N = 16 from N_3)
  have h15 : t.val = 15 := by have := (flush3_12 t).mp hf; omega
  show (cfg3.win 12).cut (grid3.coords t) ((dat3 (Name := Name) (U := U) (Lvl := Lvl) V B c).after 12 t) = _
  rw [after3_12, accS3_at15 V t.val t.isLt h15]
  obtain ⟨e0, e1⟩ := idx_facts3_12 t
  funext j
  show gS3 V j = gS3 V (((cfg3.win 12).blk t).view.emb j)
  have hj0 : (j 0).val < 1 := (j 0).isLt
  have hj1 : (j 1).val < 512 := (j 1).isLt
  have h0 : ((((cfg3.win 12).blk t).view.emb j) 0).val = win3_12.index t (0 : Fin 2) * 1 + 1 * (j 0).val := rfl
  have h1 : ((((cfg3.win 12).blk t).view.emb j) 1).val = win3_12.index t (1 : Fin 2) * 512 + 1 * (j 1).val := rfl
  congr 1
  funext a; apply Fin.ext
  match a with
  | ⟨0, _⟩ => show (j 0).val = ((((cfg3.win 12).blk t).view.emb j) 0).val; rw [h0]; omega
  | ⟨1, _⟩ => show (j 1).val = ((((cfg3.win 12).blk t).view.emb j) 1).val; rw [h1]; omega

/-- An index of the array is in point `t`'s block iff each coordinate is in the block's range on its axis. -/
theorem mem_blk3_12 (t : Fin cfg3.N) (i : S1x512.Idx) :
    i ∈ ((cfg3.win 12).blk t).view.set ↔ ∀ a : Fin 2, win3_12.index t a * S1x512.size a ≤ (i a).val ∧ (i a).val < win3_12.index t a * S1x512.size a + S1x512.size a := by
  show i ∈ ((View.whole main_v96_2).slice (win3_12.rect t)).set ↔ _
  rw [View.set_slice_whole, Rect.mem_set_unit]
  exact Iff.rfl

/-- Every entry of the array is in the last point's block, which is written back. -/
theorem cover3_12 (i : S1x512.Idx) : ∃ t : Fin cfg3.N, (cfg3.win 12).flush t = true ∧ i ∈ ((cfg3.win 12).blk t).view.set := by
  refine ⟨t3_15, (flush3_12 _).mpr rfl, ?_⟩
  rw [mem_blk3_12]
  obtain ⟨e0, e1⟩ := idx_facts3_12 t3_15
  have hi0 : (i 0).val < 1 := (i 0).isLt
  have hi1 : (i 1).val < 512 := (i 1).isLt
  intro a
  match a with
  | ⟨0, _⟩ => show win3_12.index t3_15 (0 : Fin 2) * 1 ≤ (i 0).val ∧ (i 0).val < win3_12.index t3_15 (0 : Fin 2) * 1 + 1; omega
  | ⟨1, _⟩ => show win3_12.index t3_15 (1 : Fin 2) * 512 ≤ (i 1).val ∧ (i 1).val < win3_12.index t3_15 (1 : Fin 2) * 512 + 512; omega

/-- THE ACCUMULATOR'S ARRAY after the region's one write-back is the last accumulation. -/
theorem final3_12 (V : Valuation τ sig (Elt F)) (B : Set (SemLoc sig × Ix)) (c : Dev nD) :
    (dat3 (Name := Name) (U := U) (Lvl := Lvl) V B c).arrAt 12 cfg3.N = gS3 V :=
  (dat3 (Name := Name) (U := U) (Lvl := Lvl) V B c).arrAt_eq_of_cover 12 (gS3 V) (flushed3_12_eq V B c) cover3_12

/-- Accumulator window 13's printed index map, decided over the grid: its one block never moves. -/
theorem idx_facts3_13 : ∀ t : Fin cfg3.N, win3_13.index t (0 : Fin 2) = 0 ∧ win3_13.index t (1 : Fin 2) = 0 :=
  (by decide +kernel : ∀ t : Fin grid3.N, win3_13.index t (0 : Fin 2) = 0 ∧ win3_13.index t (1 : Fin 2) = 0)

/-- WHAT THE ACCUMULATOR'S ARRAY HOLDS AFTER THE REGION: the accumulation after the last of the sixteen points. -/
def gQ3 (V : Valuation τ sig (Elt F)) : S1x512.Idx → Elt F .f32 :=
  accQ3 V 15 (by rw [show cfg3.N = 16 from N_3]; decide)

/-- The accumulation at a position equal to fifteen is the one `gQ3` names. -/
theorem accQ3_at15 (V : Valuation τ sig (Elt F)) (n : ℕ) (h : n < cfg3.N) (e : n = 15) : accQ3 V n h = gQ3 V := by
  subst e; rfl

/-- The one write-back of window 13, at the last point, writes the accumulation: the block is the whole array. -/
theorem flushed3_13_eq (V : Valuation τ sig (Elt F)) (B : Set (SemLoc sig × Ix)) (c : Dev nD) (t : Fin cfg3.N) (hf : (cfg3.win 13).flush t = true) :
    (dat3 (Name := Name) (U := U) (Lvl := Lvl) V B c).flushed 13 t = ((cfg3.win 13).blk t).view.read (Elt F) (gQ3 V) := by
  have hN : t.val < 16 := lt_of_lt_of_eq t.isLt (show cfg3.N = 16 from N_3)
  have h15 : t.val = 15 := by have := (flush3_13 t).mp hf; omega
  show (cfg3.win 13).cut (grid3.coords t) ((dat3 (Name := Name) (U := U) (Lvl := Lvl) V B c).after 13 t) = _
  rw [after3_13, accQ3_at15 V t.val t.isLt h15]
  obtain ⟨e0, e1⟩ := idx_facts3_13 t
  funext j
  show gQ3 V j = gQ3 V (((cfg3.win 13).blk t).view.emb j)
  have hj0 : (j 0).val < 1 := (j 0).isLt
  have hj1 : (j 1).val < 512 := (j 1).isLt
  have h0 : ((((cfg3.win 13).blk t).view.emb j) 0).val = win3_13.index t (0 : Fin 2) * 1 + 1 * (j 0).val := rfl
  have h1 : ((((cfg3.win 13).blk t).view.emb j) 1).val = win3_13.index t (1 : Fin 2) * 512 + 1 * (j 1).val := rfl
  congr 1
  funext a; apply Fin.ext
  match a with
  | ⟨0, _⟩ => show (j 0).val = ((((cfg3.win 13).blk t).view.emb j) 0).val; rw [h0]; omega
  | ⟨1, _⟩ => show (j 1).val = ((((cfg3.win 13).blk t).view.emb j) 1).val; rw [h1]; omega

/-- An index of the array is in point `t`'s block iff each coordinate is in the block's range on its axis. -/
theorem mem_blk3_13 (t : Fin cfg3.N) (i : S1x512.Idx) :
    i ∈ ((cfg3.win 13).blk t).view.set ↔ ∀ a : Fin 2, win3_13.index t a * S1x512.size a ≤ (i a).val ∧ (i a).val < win3_13.index t a * S1x512.size a + S1x512.size a := by
  show i ∈ ((View.whole main_v96_3).slice (win3_13.rect t)).set ↔ _
  rw [View.set_slice_whole, Rect.mem_set_unit]
  exact Iff.rfl

/-- Every entry of the array is in the last point's block, which is written back. -/
theorem cover3_13 (i : S1x512.Idx) : ∃ t : Fin cfg3.N, (cfg3.win 13).flush t = true ∧ i ∈ ((cfg3.win 13).blk t).view.set := by
  refine ⟨t3_15, (flush3_13 _).mpr rfl, ?_⟩
  rw [mem_blk3_13]
  obtain ⟨e0, e1⟩ := idx_facts3_13 t3_15
  have hi0 : (i 0).val < 1 := (i 0).isLt
  have hi1 : (i 1).val < 512 := (i 1).isLt
  intro a
  match a with
  | ⟨0, _⟩ => show win3_13.index t3_15 (0 : Fin 2) * 1 ≤ (i 0).val ∧ (i 0).val < win3_13.index t3_15 (0 : Fin 2) * 1 + 1; omega
  | ⟨1, _⟩ => show win3_13.index t3_15 (1 : Fin 2) * 512 ≤ (i 1).val ∧ (i 1).val < win3_13.index t3_15 (1 : Fin 2) * 512 + 512; omega

/-- THE ACCUMULATOR'S ARRAY after the region's one write-back is the last accumulation. -/
theorem final3_13 (V : Valuation τ sig (Elt F)) (B : Set (SemLoc sig × Ix)) (c : Dev nD) :
    (dat3 (Name := Name) (U := U) (Lvl := Lvl) V B c).arrAt 13 cfg3.N = gQ3 V :=
  (dat3 (Name := Name) (U := U) (Lvl := Lvl) V B c).arrAt_eq_of_cover 13 (gQ3 V) (flushed3_13_eq V B c) cover3_13

end Cert.KernelIdeal.RegionVal

end
-- ==== Proof.RegionValK3IdealStep.lean ====
import proofs.«214388_g48842368090541_cont_8to1c4_19_37_alg».proof.Proof.RegionValK3IdealArr
import proofs.«214388_g48842368090541_cont_8to1c4_19_37_alg».proof.Proof.RegionStepIdeal

set_option maxRecDepth 16384

noncomputable section

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## The region step with values -/

/-- The invariant at the first position. -/
theorem Φ3_zero (V : Valuation τ sig (Elt F)) (c : Dev nD) :
    (Φ3 (Ix := Ix) (Name := Name) (U := U) (Lvl := Lvl) V c 0 : sProp 𝕄) = iprop(Pipeline.scopedRest spec3 c ∗ ∃ r, prngReg c r) := by
  unfold Φ3
  exact if_pos (Fin.val_zero _)

/-- The invariant at the last position. -/
theorem Φ3_last (V : Valuation τ sig (Elt F)) (c : Dev nD) :
    (Φ3 (Ix := Ix) (Name := Name) (U := U) (Lvl := Lvl) V c (Fin.last cfg3.N) : sProp 𝕄) = iprop((owns (c : Thread nD τ) (Memref.whole cc3_scratch0) fullShare (sW3 V) ∗ owns (c : Thread nD τ) (Memref.whole cc3_scratch1) fullShare (sPW3 V)
        ∗ Pipeline.scopedRestBut spec3 c [cc3_scratch0, cc3_scratch1]) ∗ ∃ r, prngReg c r) := by
  unfold Φ3
  exact if_neg (by rw [Fin.val_last, show cfg3.N = 16 from N_3]; decide)

section StepVal

variable {UU : Type} [URA UU]

local notation "𝕄s" => MT nD τ sig (SparseCore.Cfg.HIx 1) (Elt F) ℕ UU ℕ

/-- THE VALUATION AFTER THE THIRD REGION: the valuation it was entered at, but for the four output arrays — the product
    array, the row-sum array and the two accumulators' arrays — which hold the closed forms of the blocks-to-array step. -/
def regAfter3 (V : Valuation τ sig (Elt F)) : Valuation τ sig (Elt F) :=
  Function.update (Function.update (Function.update (Function.update V
    (Proc.devRef (τ := τ) .tc (Pipeline.arrRef spec3 10)) (gY3 V))
    (Proc.devRef (τ := τ) .tc (Pipeline.arrRef spec3 11)) (gLo3 V))
    (Proc.devRef (τ := τ) .tc (Pipeline.arrRef spec3 12)) (gS3 V))
    (Proc.devRef (τ := τ) .tc (Pipeline.arrRef spec3 13)) (gQ3 V)

/-- Off the four output arrays the valuation after the region is the one it was entered at. -/
theorem regAfter3_keep (V : Valuation τ sig (Elt F)) (b : DevRef τ sig)
    (h10 : b ≠ (Proc.devRef (τ := τ) .tc (Pipeline.arrRef spec3 10))) (h11 : b ≠ (Proc.devRef (τ := τ) .tc (Pipeline.arrRef spec3 11))) (h12 : b ≠ (Proc.devRef (τ := τ) .tc (Pipeline.arrRef spec3 12))) (h13 : b ≠ (Proc.devRef (τ := τ) .tc (Pipeline.arrRef spec3 13))) :
    regAfter3 V b = V b := by
  unfold regAfter3
  rw [Function.update_of_ne h13, Function.update_of_ne h12, Function.update_of_ne h11, Function.update_of_ne h10]

/-- The same, off the image of the pipeline's output windows' arrays. -/
theorem regAfter3_keep_out (V : Valuation τ sig (Elt F)) (b : DevRef τ sig) (hb : b ∉ outDevRefs 2) :
    regAfter3 V b = V b := by
  have h : ∀ w : Fin 14, (win3 w).isOut = true → b ≠ Proc.devRef (τ := τ) .tc (Pipeline.arrRef spec3 w) := fun w hw e =>
    hb (Finset.mem_image.mpr ⟨w, Finset.mem_filter.mpr ⟨Finset.mem_univ _, hw⟩, e.symm⟩)
  exact regAfter3_keep V b (h 10 rfl) (h 11 rfl) (h 12 rfl) (h 13 rfl)

/-- The same, at a TensorCore buffer that is none of the four output arrays. -/
theorem regAfter3_keep_ref (V : Valuation τ sig (Elt F)) (r : Ref sig .tc)
    (hr : r ∉ ([main_v96_0, main_v96_1, main_v96_2, main_v96_3] : List (Ref sig .tc))) :
    regAfter3 V (Proc.devRef (τ := τ) .tc r) = V (Proc.devRef (τ := τ) .tc r) := by
  have h : ∀ r' : Ref sig .tc, r' ∈ ([main_v96_0, main_v96_1, main_v96_2, main_v96_3] : List (Ref sig .tc)) →
      Proc.devRef (τ := τ) .tc r ≠ Proc.devRef (τ := τ) .tc r' := fun r' hr' e => hr ((Proc.devRef_injective _ e) ▸ hr')
  exact regAfter3_keep V _ (h main_v96_0 (by simp)) (h main_v96_1 (by simp)) (h main_v96_2 (by simp)) (h main_v96_3 (by simp))

/-- The windows' arrays are distinct buffers. -/
theorem arr3_ne (w w' : Fin 14) (h : w ≠ w') :
    Proc.devRef (τ := τ) .tc (Pipeline.arrRef spec3 w) ≠ Proc.devRef (τ := τ) .tc (Pipeline.arrRef spec3 w') :=
  fun e => h (winFacts3.arr_inj (Proc.devRef_injective _ e))

/-- The valuation after the region at each of the four output arrays. -/
theorem regAfter3_13 (V : Valuation τ sig (Elt F)) : regAfter3 V (Proc.devRef (τ := τ) .tc (Pipeline.arrRef spec3 13)) = gQ3 V :=
  Function.update_self _ _ _
theorem regAfter3_12 (V : Valuation τ sig (Elt F)) : regAfter3 V (Proc.devRef (τ := τ) .tc (Pipeline.arrRef spec3 12)) = gS3 V :=
  (Function.update_of_ne (arr3_ne 12 13 (by decide)) _ _).trans (Function.update_self _ _ _)
theorem regAfter3_11 (V : Valuation τ sig (Elt F)) : regAfter3 V (Proc.devRef (τ := τ) .tc (Pipeline.arrRef spec3 11)) = gLo3 V :=
  (Function.update_of_ne (arr3_ne 11 13 (by decide)) _ _).trans ((Function.update_of_ne (arr3_ne 11 12 (by decide)) _ _).trans
    (Function.update_self _ _ _))
theorem regAfter3_10 (V : Valuation τ sig (Elt F)) : regAfter3 V (Proc.devRef (τ := τ) .tc (Pipeline.arrRef spec3 10)) = gY3 V :=
  (Function.update_of_ne (arr3_ne 10 13 (by decide)) _ _).trans ((Function.update_of_ne (arr3_ne 10 12 (by decide)) _ _).trans
    ((Function.update_of_ne (arr3_ne 10 11 (by decide)) _ _).trans (Function.update_self _ _ _)))

/-- The proof data by pipeline: the third pipeline's exact data read as relational data; value-free data elsewhere. -/
def rdVal3 (V : Valuation τ sig (Elt F)) (B : Set (SemLoc sig × SparseCore.Cfg.HIx 1)) :
    (p : Fin 4) → (c : Dev nD) → Pipeline.RDat τ (Elt F) (SparseCore.Cfg.HIx 1) ℕ UU ℕ (pcfg (F := F) p) c
  | ⟨2, _⟩, c => (dat3 V B c).toR
  | ⟨0, h⟩, c => rdAt V B ⟨0, h⟩ c
  | ⟨1, h⟩, c => rdAt V B ⟨1, h⟩ c
  | ⟨3, h⟩, c => rdAt V B ⟨3, h⟩ c

theorem rdVal3_two (V : Valuation τ sig (Elt F)) (B : Set (SemLoc sig × SparseCore.Cfg.HIx 1)) (c : Dev nD) :
    rdVal3 (UU := UU) V B 2 c = (dat3 V B c).toR := rfl

/-- What the thread holds when the third region is left: every unscoped buffer at `regAfter3 V`, the generator
    register at some state, nothing owed, the recorded pairs those of `W` and pairs at the index `none`. -/
def regionPostVal3 (V : Valuation τ sig (Elt F)) (W : Waits sig (SparseCore.Cfg.HIx 1)) (c : Dev nD) : sProp 𝕄s :=
  iprop(StableHlo.held (c.tc : Thread nD τ) (Pipeline.ucRefs τ sig) (regAfter3 V) ∗ (∃ r, prngReg c r)
    ∗ ∃ W' : Waits sig (SparseCore.Cfg.HIx 1), ⌜∀ q ∈ W', q ∈ W ∨ q.2 = none⌝
      ∗ owes (c.tc : Thread nD τ) (0 : CellTallies nD τ sig (SparseCore.Cfg.HIx 1)) W')

/-- The relational data's arrays after the write-backs below `n` are the exact data's arrays at `arrAt · n`. -/
theorem arraysAt_toR3 {c : Dev nD} (dat : Dat τ (Elt F) (SparseCore.Cfg.HIx 1) ℕ UU ℕ cfg3 c) (n : Nat) :
    dat.toR.arraysAt n ⊢ dat.toR.arrays (fun w => dat.arrAt w n) := by
  have key : ∀ w : Fin cfg3.W,
      iprop(∃ G, ⌜dat.toR.ArrAt w n G⌝ ∗ ((cfg3.win w).arr.view.loc (c.tc : Thread nD τ) ↦[(cfg3.win w).arr.view.set]{dat.toR.share w} G))
        ⊢ (((cfg3.win w).arr.view.loc (c.tc : Thread nD τ) ↦[(cfg3.win w).arr.view.set]{dat.toR.share w} dat.arrAt w n) : sProp 𝕄s) := by
    intro w
    iintro ⟨%G, %hG, H⟩
    obtain rfl := (dat.toR_arrAt_iff w n G).mp hG
    iexact H
  unfold Pipeline.RDat.arraysAt Pipeline.RDat.arrays
  exact BI.bigSep_mono fun w _ => key w

/-- EXIT, the buffers' part: the exact data's arrays after the last write-back and the unscoped buffers that are no array
    of the pipeline at `V` are all the unscoped buffers held at `regAfter3 V`. -/
theorem arrays_join_val3 (V : Valuation τ sig (Elt F)) (B : Set (SemLoc sig × SparseCore.Cfg.HIx 1)) (c : Dev nD) :
    iprop((rdVal3 (UU := UU) V B 2 c).arraysAt cfg3.N
        ∗ Pipeline.unscopedRest (pcfg (F := F) 2).spec c (fun b => V (Proc.devRef (τ := τ) .tc b)))
      ⊢ (StableHlo.held (c.tc : Thread nD τ) (Pipeline.ucRefs τ sig) (regAfter3 V) : sProp 𝕄s) := by
  classical
  have hw := (launchAll 2).toP (Val := Elt F)
  have hshare : ∀ w, (rdVal3 (UU := UU) V B 2 c).share w = fullShare := fun w =>
    (dat3 (Name := ℕ) (U := UU) (Lvl := ℕ) V B c).share_full (fun _ => rfl) w
  have e1 := Pipeline.RDat.arrays_eq (pcfgs (F := F)) adm0 (rdVal3 (UU := UU) V B) 2 c hw.arr_whole hshare
    (fun w => (dat3 (Name := ℕ) (U := UU) (Lvl := ℕ) V B c).arrAt w cfg3.N)
  have hinj : ∀ w w' : Fin 14, w ≠ w' → Proc.devRef (τ := τ) .tc (Pipeline.arrRef spec3 w) ≠ Proc.devRef (τ := τ) .tc (Pipeline.arrRef spec3 w') :=
    fun w w' h e => h (hw.win.arr_inj (Proc.devRef_injective _ e))
  have hval : ∀ w : Fin 14, regAfter3 V (Proc.devRef (τ := τ) .tc (Pipeline.arrRef spec3 w))
      = (dat3 (Name := ℕ) (U := UU) (Lvl := ℕ) V B c).arrAt w cfg3.N := by
    intro w
    by_cases h13 : w = 13
    · subst h13; exact (Function.update_self _ _ _).trans (final3_13 V B c).symm
    by_cases h12 : w = 12
    · subst h12
      exact ((Function.update_of_ne (hinj 12 13 (by decide)) _ _).trans (Function.update_self _ _ _)).trans (final3_12 V B c).symm
    by_cases h11 : w = 11
    · subst h11
      exact ((Function.update_of_ne (hinj 11 13 (by decide)) _ _).trans ((Function.update_of_ne (hinj 11 12 (by decide)) _ _).trans
        (Function.update_self _ _ _))).trans (final3_11 V B c).symm
    by_cases h10 : w = 10
    · subst h10
      exact ((Function.update_of_ne (hinj 10 13 (by decide)) _ _).trans ((Function.update_of_ne (hinj 10 12 (by decide)) _ _).trans
        ((Function.update_of_ne (hinj 10 11 (by decide)) _ _).trans (Function.update_self _ _ _)))).trans (final3_10 V B c).symm
    · have hout : ∀ w : Fin 14, w ≠ 10 → w ≠ 11 → w ≠ 12 → w ≠ 13 → (win3 w).isOut = false := by decide
      exact (regAfter3_keep V _ (hinj w 10 h10) (hinj w 11 h11) (hinj w 12 h12) (hinj w 13 h13)).trans
        ((A3_eq V B c w).symm.trans ((dat3 (Name := ℕ) (U := UU) (Lvl := ℕ) V B c).arrAt_in w (hout w h10 h11 h12 h13) _).symm)
  have e2 : (bigSep Finset.univ fun w : Fin (pcfg (F := F) 2).W =>
          (((c.tc : Thread nD τ).loc (Pipeline.arrRef (pcfg (F := F) 2).spec w)) ↦{fullShare} regAfter3 V (Proc.devRef (τ := τ) .tc (Pipeline.arrRef (pcfg (F := F) 2).spec w)) : sProp 𝕄s))
        = bigSep Finset.univ fun w : Fin (pcfg (F := F) 2).W =>
          (((c.tc : Thread nD τ).loc (Pipeline.arrRef (pcfg (F := F) 2).spec w)) ↦{fullShare} (dat3 (Name := ℕ) (U := UU) (Lvl := ℕ) V B c).arrAt w cfg3.N : sProp 𝕄s) :=
    BI.bigSep_congr fun w _ => by
      rw [show regAfter3 V (Proc.devRef (τ := τ) .tc (Pipeline.arrRef (pcfg (F := F) 2).spec w))
        = (dat3 (Name := ℕ) (U := UU) (Lvl := ℕ) V B c).arrAt w cfg3.N from hval w]
  have e3 : (Pipeline.unscopedRest (pcfg (F := F) 2).spec c (fun b => regAfter3 V (Proc.devRef (τ := τ) .tc b)) : sProp 𝕄s)
        = Pipeline.unscopedRest (pcfg (F := F) 2).spec c (fun b => V (Proc.devRef (τ := τ) .tc b)) := by
    unfold Pipeline.unscopedRest
    exact BI.bigSep_congr fun b hb => by
      dsimp only
      have hb' : ∀ k : Fin 14, Proc.devRef (τ := τ) .tc b ≠ Proc.devRef (τ := τ) .tc (Pipeline.arrRef spec3 k) :=
        fun k e => (Finset.mem_sdiff.mp hb).2 (Finset.mem_image.mpr ⟨k, Finset.mem_univ _, (Proc.devRef_injective _ e).symm⟩)
      rw [regAfter3_keep V _ (hb' 10) (hb' 11) (hb' 12) (hb' 13)]
  rw [← Pipeline.unscopedBufs_held c (regAfter3 V), Pipeline.unscopedBufs_split (Pipeline.pin (pcfgs (F := F)) adm0) 2 hw.win.arr_unscoped hw.win.arr_inj c, e2, ← e1, e3]
  iintro ⟨Ha, Hr⟩
  isplitl [Ha]
  · iapply (arraysAt_toR3 (dat3 (Name := ℕ) (U := UU) (Lvl := ℕ) V B c) cfg3.N); iexact Ha
  iexact Hr

/-- The third region as the region rule's record over the exact data: entered as the value-free record is, left with
    every unscoped buffer at `regAfter3 V`. The invariant takes the scoped rest in at the first position and gives it
    back at the last, the two scratch buffers forgotten again at whatever they hold. -/
def regionSegVal3 (V : Valuation τ sig (Elt F)) (W : Waits sig (SparseCore.Cfg.HIx 1)) :
    Pipeline.RDat.RegionSeg (pcfgs (F := F)) adm0 (rdVal3 (UU := UU) V (recOf W)) (none : SparseCore.Cfg.HIx 1)
      (defs₀ (F := F)) Variants.none (sc (F := F)).L ((sc (F := F)).lev (nD := nD)) (2 : Fin 4) where
  win := ((launchAll 2).toP (Val := Elt F)).win.to₀
  block_pos := ((launchAll 2).toP (Val := Elt F)).block_pos
  stage_whole := ((launchAll 2).toP (Val := Elt F)).stage_whole
  K := PEmpty
  osem := fun k => k.elim
  ho := Pipeline.OwnSemFacts.none _
  hbody := fun c => (body_obligation3 (Name := ℕ) (U := UU) (Lvl := ℕ) V (recOf W) none c).loose.toR
  hwaits := fun c => Pipeline.RDat.hwaits_of_owed_zero (pcfgs (F := F)) adm0 _ _ _ _ 2 (fun _ _ => rfl) c
  pre := regionPre V W
  post := regionPostVal3 V W
  X := fun c => iprop(∃ r, prngReg c r)
  Y := fun c => iprop(∃ r, prngReg c r)
  Z := fun c => Pipeline.unscopedRest (pcfg (F := F) 2).spec c (fun b => V (Proc.devRef (τ := τ) .tc b))
  hentry := fun c => by
    have h := Pipeline.RDat.arrays_of_unscopedBufs (pcfgs (F := F)) adm0 (rdVal3 (UU := UU) V (recOf W)) (p := 2)
      ((launchAll 2).toP (Val := Elt F)).win ((launchAll 2).toP (Val := Elt F)).arr_whole c
      (fun w => (dat3 (Name := ℕ) (U := UU) (Lvl := ℕ) V (recOf W) c).share_full (fun _ => rfl) w)
      (fun b => V (Proc.devRef (τ := τ) .tc b)) (fun w => rfl)
    unfold regionPre
    rw [← Pipeline.unscopedBufs_held c V]
    iintro ⟨⟨Hub, Hp, HW⟩, -, -⟩
    imodintro
    ihave H := h $$ Hub
    icases H with ⟨Harr, Hrest⟩
    isplitl [Harr]; · iexact Harr
    isplitr
    · unfold Pipeline.prefHeld
      rw [show (Finset.univ : Finset (Fin ((pcfgs (F := F) 2).pre.K))) = ∅ from rfl, BI.bigSep_empty]
      iempintro
    isplitl [HW]
    · iexists W; isplitr; · ipureintro; exact fun q hq => Or.inl (Or.inl (Finset.mem_coe.mp hq))
      iexact HW
    isplitl [Hp]; · iexact Hp
    iexact Hrest
  hin := fun c => by
    show _ ⊢ Φ3 V c 0
    rw [Φ3_zero]
    iintro ⟨HX, -, HR⟩
    isplitl [HR]; · iexact HR
    iexact HX
  hout := fun c => by
    show Φ3 V c (Fin.last cfg3.N) ⊢ _
    rw [Φ3_last, Pipeline.ownSems0_none]
    have e : (Pipeline.scopedRest (Pipeline.pin (pcfgs (F := F)) adm0 2).spec c : sProp 𝕄s) = Pipeline.scopedRest spec3 c := rfl
    rw [e, scopedRest3_split]
    iintro ⟨⟨S0, S1, HR⟩, HP⟩
    isplitl [HP]; · iexact HP
    isplitr; · iempintro
    isplitr [HR]; swap; · iexact HR
    isplitl [S0]
    · iexists (sW3 V); rw [← owns_whole]; iexact S0
    iexists (sPW3 V); rw [← owns_whole]; iexact S1
  hexit := fun c => by
    unfold regionPostVal3
    iintro ⟨Ha, ⟨%W', %hW', Ho⟩, HY, HZ⟩
    imodintro
    isplitl [Ha HZ]
    · iapply (arrays_join_val3 (UU := UU) V (recOf W) c)
      isplitl [Ha] <;> iassumption
    isplitl [HY]; · iexact HY
    iexists W'
    isplitr
    · ipureintro
      intro q hq
      rcases hW' (Finset.mem_coe.mpr hq) with h | ⟨w, s, rfl⟩
      · exact h
      · exact Or.inr rfl
    iexact Ho

set_option maxHeartbeats 1000000 in
/-- THE THIRD REGION'S STEP WITH VALUES inside the SparseCore launch's obligation for @main: as the value-free step, but
    the continuation receives every unscoped buffer at the ONE valuation `regAfter3 V`. -/
theorem region_step_val3
    (EP : Emb (Rounds.URounds (GSem nD τ sig) Unit) 𝕄s) [EP.LandsIn (upEmb : UEmb _ 𝕄s)]
    (d : Dev nD) (V : Valuation τ sig (Elt F)) (W : Waits sig (SparseCore.Cfg.HIx 1)) {α : Type}
    (k : PUnit → Prog (TpuEff nD τ sig (Elt F) (SparseCore.Sig (Pipeline.Sig Λ₀ (Fin 4) fun p => (pcfgs (F := F) p).Adm) 1) .tc) α)
    (Q : α → sProp 𝕄s) :
    iprop((∀ (W' : Waits sig (SparseCore.Cfg.HIx 1)), ⌜∀ q ∈ W', q ∈ W ∨ q.2 = none⌝ -∗
            iprop(boundary (SparseCore.T d : Thread nD τ) ∗ StableHlo.held (SparseCore.T d : Thread nD τ) (Pipeline.ucRefs τ sig) (regAfter3 V) ∗ (∃ r, prngReg d r)
              ∗ owes (SparseCore.T d : Thread nD τ) (0 : CellTallies nD τ sig (SparseCore.Cfg.HIx 1)) W') -∗
            wp frame (wpE ((sc (F := F)).defs (Pipeline.defs (pcfgs (F := F)) (defs₀ (F := F)))) Variants.none.lift (SparseCore.T d : Thread nD τ) none) Set.univ (k ⟨⟩) Q)
        ∗ boundary (SparseCore.T d : Thread nD τ) ∗ StableHlo.held (SparseCore.T d : Thread nD τ) (Pipeline.ucRefs τ sig) V ∗ (∃ r, prngReg d r)
        ∗ owes (SparseCore.T d : Thread nD τ) (0 : CellTallies nD τ sig (SparseCore.Cfg.HIx 1)) W
        ∗ levAts (sc (F := F)).L ((sc (F := F)).lev (nD := nD))
        ∗ Pipeline.cellsGhost (Pipeline.pin (pcfgs (F := F)) adm0) EP 2 d ∗ Pipeline.toksInit (Pipeline.pin (pcfgs (F := F)) adm0) EP 2 d)
      ⊢ wp frame (wpE ((sc (F := F)).defs (Pipeline.defs (pcfgs (F := F)) (defs₀ (F := F)))) Variants.none.lift (SparseCore.T d : Thread nD τ) none) Set.univ
          (Prog.lift (.customCall (SparseCore.inner (Pipeline.entry (2 : Fin 4))) ()) >>= k) Q := by
  have key := region_lift (pcfgs (F := F)) adm0 (rdVal3 (UU := UU) V (recOf W))
    (((launchAll 2).toP (Val := Elt F)).cellOf_inj adm0) EP (defs₀ (F := F)) Variants.none (sc (F := F))
    (regionSegVal3 V W) d k Q
  refine BIBase.Entails.trans ?_ key
  iintro ⟨Hk, Hb, Hh, Hp, Ho, Hlev, Hg, Ht⟩
  isplitl [Hk]
  · iintro ⟨Hb, Hpost⟩
    ihave Hpost' := (show (regionSegVal3 (UU := UU) V W).post d ⊢ regionPostVal3 V W d from .rfl) $$ Hpost
    unfold regionPostVal3
    icases Hpost' with ⟨Hh, Hp, ⟨%W', %hW', Ho⟩⟩
    ispecialize Hk $$ %W' %hW'
    iapply Hk
    isplitl [Hb]; · iexact Hb
    isplitl [Hh]; · iexact Hh
    isplitl [Hp]; · iexact Hp
    iexact Ho
  isplitl [Hb]; · iexact Hb
  isplitl [Hh Hp Ho]
  · iapply (show regionPre V W d ⊢ (regionSegVal3 (UU := UU) V W).pre d from .rfl)
    unfold regionPre
    isplitl [Hh]; · iexact Hh
    isplitl [Hp]; · iexact Hp
    iexact Ho
  isplitl [Hlev]; · iexact Hlev
  isplitl [Hg] <;> iassumption

end StepVal

end Cert.KernelIdeal.RegionVal

end
-- ==== Proof.RegionValK4Ideal.lean ====
import proofs.«214388_g48842368090541_cont_8to1c4_19_37_alg».proof.Proof.RegionStepIdeal
import proofs.«214388_g48842368090541_cont_8to1c4_19_37_alg».proof.Proof.Gen.KernelIdeal.Launch
import proofs.«214388_g48842368090541_cont_8to1c4_19_37_alg».proof.Proof.Gen.KernelIdeal.Skeleton
import proofs.«214388_g48842368090541_cont_8to1c4_19_37_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-- The zero offset of a two-axis rectangle, as a constant function. -/
theorem hz2 : (![0, 0] : Fin 2 → Nat) = fun _ => 0 := funext fun a => by fin_cases a <;> rfl

/-- What the fourth body leaves in its output block, from the blocks it reads: the body's arithmetic as one pure
    term — the tile of activations `x1`, the partial sums `x2`, the batch statistics `x3 x4`, scale and shift parameters
    `x5 x6`, the output weights `x7`, the output bias `x8`. -/
def out4 (x1 : Vec F S2048x512 .bf16) (x2 : Vec F S2048x1 .f32) (x3 x4 x5 x6 x7 : Vec F S1x512 .f32) (x8 : Vec F S1x1 .f32) :
    Vec F S2048x1 .f32 :=
  k4_pay1 (k4_pay2 x3 x4 x5 x6 x1 x7 x2) x8

set_option maxHeartbeats 1000000 in
/-- The fourth body on whole staging memrefs, the eight inputs' at read contents `x1 … x8` and the output's at anything,
    runs to the continuation holding the inputs' as they were and the output's at `out4` of the inputs': every load is
    of a whole buffer, the one store covers the output's. -/
theorem sound_k4 (c : Dev nD) (i : grid4.Coords) (arg1 : Memref sig .tc .vmem S2048x512 .bf16) (harg1 : arg1.IsWhole) (arg2 : Memref sig .tc .vmem S2048x1 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S2048x1 .f32) (harg9 : arg9.IsWhole)
    (x1 : Vec F S2048x512 .bf16) (x2 : Vec F S2048x1 .f32) (x3 : Vec F S1x512 .f32) (x4 : Vec F S1x512 .f32) (x5 : Vec F S1x512 .f32) (x6 : Vec F S1x512 .f32) (x7 : Vec F S1x512 .f32) (x8 : Vec F S1x1 .f32) :
    ∀ (E : Set Name) (Kp : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out4 x1 x2 x3 x4 x5 x6 x7 x8)) -∗ Kp ⟨⟩))
        ⊢ wp frame (wpE (defs₀ (F := F)) Variants.none c none) E (cc4__k4 i arg1 harg1 arg2 harg2 arg3 harg3 arg4 harg4 arg5 harg5 arg6 harg6 arg7 harg7 arg8 harg8 arg9 harg9) Kp := by
    intro E Kp
    simp only [cc4__k4_eq_skeleton]; unfold cc4__k4_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    subst hf1 hf2 hf3 hf4 hf5 hf6 hf7 hf8
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists _; isplitr; swap; · iexact H9
    ipureintro
    rw [View.read_writes_eq_canon _ _ _ (View.cover_of_tiled [⟨_, _⟩] S2048x1.size (by rfl)), View.canon_unit_zero hz2]
    sl_unfold_run_names
    unfold out4
    simp only [View.readAt_eq_ld, View.ld_unit_zero (S := S2048x512) hz2, View.ld_unit_zero (S := S2048x1) hz2,
      View.ld_unit_zero (S := S1x512) hz2, View.ld_unit_zero (S := S1x1) hz2]

/-! ## The exact proof data of the fourth pipeline over a valuation -/

/-- A valuation read at a TensorCore reference of core `c`. -/
abbrev Vc (V : Valuation τ sig (Elt F)) (c : Dev nD) (b : Ref sig .tc) : Buf (Elt F) ((c.tc : Thread nD τ).loc b) :=
  V (Proc.devRef (τ := τ) .tc b)

/-- Window `w`'s block at point `t`, read off its array at the valuation. -/
def iblk4 (V : Valuation τ sig (Elt F)) (w : Fin cfg4.W) (t : Fin cfg4.N) :
    ((cfg4.win w).xblock (cfg4.grid.coords t)).Idx → Elt F (cfg4.win w).elt :=
  ((cfg4.win w).blk t).view.read (Elt F) (V (Proc.devRef (τ := τ) .tc (Pipeline.arrRef spec4 w)))

theorem before4_0_of {c : Dev nD} (V : Valuation τ sig (Elt F)) (dat : Dat τ (Elt F) Ix Name U Lvl cfg4 c) (hA : dat.A 0 = Vc V c (Pipeline.arrRef spec4 0))
    (hafter : ∀ t, dat.after 0 t = iblk4 V 0 t) (t : Fin cfg4.N) (d) : dat.before 0 t d = iblk4 V 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (V : Valuation τ sig (Elt F)) (dat : Dat τ (Elt F) Ix Name U Lvl cfg4 c) (hA : dat.A 1 = Vc V c (Pipeline.arrRef spec4 1))
    (hafter : ∀ t, dat.after 1 t = iblk4 V 1 t) (t : Fin cfg4.N) (d) : dat.before 1 t d = iblk4 V 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (V : Valuation τ sig (Elt F)) (dat : Dat τ (Elt F) Ix Name U Lvl cfg4 c) (hA : dat.A 2 = Vc V c (Pipeline.arrRef spec4 2))
    (hafter : ∀ t, dat.after 2 t = iblk4 V 2 t) (t : Fin cfg4.N) (d) : dat.before 2 t d = iblk4 V 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (V : Valuation τ sig (Elt F)) (dat : Dat τ (Elt F) Ix Name U Lvl cfg4 c) (hA : dat.A 3 = Vc V c (Pipeline.arrRef spec4 3))
    (hafter : ∀ t, dat.after 3 t = iblk4 V 3 t) (t : Fin cfg4.N) (d) : dat.before 3 t d = iblk4 V 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (V : Valuation τ sig (Elt F)) (dat : Dat τ (Elt F) Ix Name U Lvl cfg4 c) (hA : dat.A 4 = Vc V c (Pipeline.arrRef spec4 4))
    (hafter : ∀ t, dat.after 4 t = iblk4 V 4 t) (t : Fin cfg4.N) (d) : dat.before 4 t d = iblk4 V 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (V : Valuation τ sig (Elt F)) (dat : Dat τ (Elt F) Ix Name U Lvl cfg4 c) (hA : dat.A 5 = Vc V c (Pipeline.arrRef spec4 5))
    (hafter : ∀ t, dat.after 5 t = iblk4 V 5 t) (t : Fin cfg4.N) (d) : dat.before 5 t d = iblk4 V 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (V : Valuation τ sig (Elt F)) (dat : Dat τ (Elt F) Ix Name U Lvl cfg4 c) (hA : dat.A 6 = Vc V c (Pipeline.arrRef spec4 6))
    (hafter : ∀ t, dat.after 6 t = iblk4 V 6 t) (t : Fin cfg4.N) (d) : dat.before 6 t d = iblk4 V 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (V : Valuation τ sig (Elt F)) (dat : Dat τ (Elt F) Ix Name U Lvl cfg4 c) (hA : dat.A 7 = Vc V c (Pipeline.arrRef spec4 7))
    (hafter : ∀ t, dat.after 7 t = iblk4 V 7 t) (t : Fin cfg4.N) (d) : dat.before 7 t d = iblk4 V 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- The exact data: the arrays as the valuation has them; after the body at point `t` each input's buffer at its block
    and the output's at the body's result of the input blocks; the invariant the scoped buffers no window stages and the
    generator register; nothing owed; full shares; the recorded pairs within `B`. -/
def dat4 (V : Valuation τ sig (Elt F)) (B : Set (SemLoc sig × Ix)) (c : Dev nD) : Dat τ (Elt F) Ix Name U Lvl cfg4 c where
  A w := Vc V c (Pipeline.arrRef spec4 w)
  after w t := match w with
    | ⟨0, _⟩ => iblk4 V 0 t
    | ⟨1, _⟩ => iblk4 V 1 t
    | ⟨2, _⟩ => iblk4 V 2 t
    | ⟨3, _⟩ => iblk4 V 3 t
    | ⟨4, _⟩ => iblk4 V 4 t
    | ⟨5, _⟩ => iblk4 V 5 t
    | ⟨6, _⟩ => iblk4 V 6 t
    | ⟨7, _⟩ => iblk4 V 7 t
    | ⟨8, _⟩ => out4 (iblk4 V 0 t) (iblk4 V 1 t) (iblk4 V 2 t) (iblk4 V 3 t) (iblk4 V 4 t) (iblk4 V 5 t) (iblk4 V 6 t) (iblk4 V 7 t)
  Φ _ := iprop(Pipeline.scopedRest spec4 c ∗ ∃ r, prngReg c r)
  q _ := fullShare
  owed _ := 0
  recorded _ := B

theorem A4_eq (V : Valuation τ sig (Elt F)) (B : Set (SemLoc sig × Ix)) (c : Dev nD) (w : Fin cfg4.W) :
    (dat4 (Name := Name) (U := U) (Lvl := Lvl) V B c).A w = Vc V c (Pipeline.arrRef spec4 w) := by dsimp only [dat4]

theorem after4_0 (V : Valuation τ sig (Elt F)) (B : Set (SemLoc sig × Ix)) (c : Dev nD) (t : Fin cfg4.N) : (dat4 (Name := Name) (U := U) (Lvl := Lvl) V B c).after 0 t = iblk4 V 0 t := by dsimp only [dat4]
theorem after4_1 (V : Valuation τ sig (Elt F)) (B : Set (SemLoc sig × Ix)) (c : Dev nD) (t : Fin cfg4.N) : (dat4 (Name := Name) (U := U) (Lvl := Lvl) V B c).after 1 t = iblk4 V 1 t := by dsimp only [dat4]
theorem after4_2 (V : Valuation τ sig (Elt F)) (B : Set (SemLoc sig × Ix)) (c : Dev nD) (t : Fin cfg4.N) : (dat4 (Name := Name) (U := U) (Lvl := Lvl) V B c).after 2 t = iblk4 V 2 t := by dsimp only [dat4]
theorem after4_3 (V : Valuation τ sig (Elt F)) (B : Set (SemLoc sig × Ix)) (c : Dev nD) (t : Fin cfg4.N) : (dat4 (Name := Name) (U := U) (Lvl := Lvl) V B c).after 3 t = iblk4 V 3 t := by dsimp only [dat4]
theorem after4_4 (V : Valuation τ sig (Elt F)) (B : Set (SemLoc sig × Ix)) (c : Dev nD) (t : Fin cfg4.N) : (dat4 (Name := Name) (U := U) (Lvl := Lvl) V B c).after 4 t = iblk4 V 4 t := by dsimp only [dat4]
theorem after4_5 (V : Valuation τ sig (Elt F)) (B : Set (SemLoc sig × Ix)) (c : Dev nD) (t : Fin cfg4.N) : (dat4 (Name := Name) (U := U) (Lvl := Lvl) V B c).after 5 t = iblk4 V 5 t := by dsimp only [dat4]
theorem after4_6 (V : Valuation τ sig (Elt F)) (B : Set (SemLoc sig × Ix)) (c : Dev nD) (t : Fin cfg4.N) : (dat4 (Name := Name) (U := U) (Lvl := Lvl) V B c).after 6 t = iblk4 V 6 t := by dsimp only [dat4]
theorem after4_7 (V : Valuation τ sig (Elt F)) (B : Set (SemLoc sig × Ix)) (c : Dev nD) (t : Fin cfg4.N) : (dat4 (Name := Name) (U := U) (Lvl := Lvl) V B c).after 7 t = iblk4 V 7 t := by dsimp only [dat4]
theorem after4_8 (V : Valuation τ sig (Elt F)) (B : Set (SemLoc sig × Ix)) (c : Dev nD) (t : Fin cfg4.N) : (dat4 (Name := Name) (U := U) (Lvl := Lvl) V B c).after 8 t = out4 (iblk4 V 0 t) (iblk4 V 1 t) (iblk4 V 2 t) (iblk4 V 3 t) (iblk4 V 4 t) (iblk4 V 5 t) (iblk4 V 6 t) (iblk4 V 7 t) := by dsimp only [dat4]

theorem before4_0 (V : Valuation τ sig (Elt F)) (B : Set (SemLoc sig × Ix)) (c : Dev nD) (t : Fin cfg4.N) (d) : (dat4 (Name := Name) (U := U) (Lvl := Lvl) V B c).before 0 t d = iblk4 V 0 t :=
  before4_0_of V (dat4 V B c) (A4_eq V B c 0) (after4_0 V B c) t d
theorem before4_1 (V : Valuation τ sig (Elt F)) (B : Set (SemLoc sig × Ix)) (c : Dev nD) (t : Fin cfg4.N) (d) : (dat4 (Name := Name) (U := U) (Lvl := Lvl) V B c).before 1 t d = iblk4 V 1 t :=
  before4_1_of V (dat4 V B c) (A4_eq V B c 1) (after4_1 V B c) t d
theorem before4_2 (V : Valuation τ sig (Elt F)) (B : Set (SemLoc sig × Ix)) (c : Dev nD) (t : Fin cfg4.N) (d) : (dat4 (Name := Name) (U := U) (Lvl := Lvl) V B c).before 2 t d = iblk4 V 2 t :=
  before4_2_of V (dat4 V B c) (A4_eq V B c 2) (after4_2 V B c) t d
theorem before4_3 (V : Valuation τ sig (Elt F)) (B : Set (SemLoc sig × Ix)) (c : Dev nD) (t : Fin cfg4.N) (d) : (dat4 (Name := Name) (U := U) (Lvl := Lvl) V B c).before 3 t d = iblk4 V 3 t :=
  before4_3_of V (dat4 V B c) (A4_eq V B c 3) (after4_3 V B c) t d
theorem before4_4 (V : Valuation τ sig (Elt F)) (B : Set (SemLoc sig × Ix)) (c : Dev nD) (t : Fin cfg4.N) (d) : (dat4 (Name := Name) (U := U) (Lvl := Lvl) V B c).before 4 t d = iblk4 V 4 t :=
  before4_4_of V (dat4 V B c) (A4_eq V B c 4) (after4_4 V B c) t d
theorem before4_5 (V : Valuation τ sig (Elt F)) (B : Set (SemLoc sig × Ix)) (c : Dev nD) (t : Fin cfg4.N) (d) : (dat4 (Name := Name) (U := U) (Lvl := Lvl) V B c).before 5 t d = iblk4 V 5 t :=
  before4_5_of V (dat4 V B c) (A4_eq V B c 5) (after4_5 V B c) t d
theorem before4_6 (V : Valuation τ sig (Elt F)) (B : Set (SemLoc sig × Ix)) (c : Dev nD) (t : Fin cfg4.N) (d) : (dat4 (Name := Name) (U := U) (Lvl := Lvl) V B c).before 6 t d = iblk4 V 6 t :=
  before4_6_of V (dat4 V B c) (A4_eq V B c 6) (after4_6 V B c) t d
theorem before4_7 (V : Valuation τ sig (Elt F)) (B : Set (SemLoc sig × Ix)) (c : Dev nD) (t : Fin cfg4.N) (d) : (dat4 (Name := Name) (U := U) (Lvl := Lvl) V B c).before 7 t d = iblk4 V 7 t :=
  before4_7_of V (dat4 V B c) (A4_eq V B c 7) (after4_7 V B c) t d

/-- What the body is called with at point `t`, the windows one by one, -/
def bodyPre4 (V : Valuation τ sig (Elt F)) (B : Set (SemLoc sig × Ix)) (ι : Ix) (c : Dev nD) (t : Fin cfg4.N) : sProp 𝕄 :=
  iprop((dat4 (Name := Name) (U := U) (Lvl := Lvl) V B c).Φ t.castSucc ∗ (dat4 (Name := Name) (U := U) (Lvl := Lvl) V B c).owesAt ι t.castSucc
    ∗ (∃ d, owns (c : Thread nD τ) (st4_0 t) fullShare ((dat4 (Name := Name) (U := U) (Lvl := Lvl) V B c).before 0 t d))
    ∗ (∃ d, owns (c : Thread nD τ) (st4_1 t) fullShare ((dat4 (Name := Name) (U := U) (Lvl := Lvl) V B c).before 1 t d))
    ∗ (∃ d, owns (c : Thread nD τ) (st4_2 t) fullShare ((dat4 (Name := Name) (U := U) (Lvl := Lvl) V B c).before 2 t d))
    ∗ (∃ d, owns (c : Thread nD τ) (st4_3 t) fullShare ((dat4 (Name := Name) (U := U) (Lvl := Lvl) V B c).before 3 t d))
    ∗ (∃ d, owns (c : Thread nD τ) (st4_4 t) fullShare ((dat4 (Name := Name) (U := U) (Lvl := Lvl) V B c).before 4 t d))
    ∗ (∃ d, owns (c : Thread nD τ) (st4_5 t) fullShare ((dat4 (Name := Name) (U := U) (Lvl := Lvl) V B c).before 5 t d))
    ∗ (∃ d, owns (c : Thread nD τ) (st4_6 t) fullShare ((dat4 (Name := Name) (U := U) (Lvl := Lvl) V B c).before 6 t d))
    ∗ (∃ d, owns (c : Thread nD τ) (st4_7 t) fullShare ((dat4 (Name := Name) (U := U) (Lvl := Lvl) V B c).before 7 t d))
    ∗ (∃ d, owns (c : Thread nD τ) (st4_8 t) fullShare ((dat4 (Name := Name) (U := U) (Lvl := Lvl) V B c).before 8 t d)))

/-- and what it returns. -/
def bodyPost4 (V : Valuation τ sig (Elt F)) (B : Set (SemLoc sig × Ix)) (ι : Ix) (c : Dev nD) (t : Fin cfg4.N) : sProp 𝕄 :=
  iprop((dat4 (Name := Name) (U := U) (Lvl := Lvl) V B c).Φ t.succ ∗ (dat4 (Name := Name) (U := U) (Lvl := Lvl) V B c).owesAt ι t.succ
    ∗ owns (c : Thread nD τ) (st4_0 t) fullShare ((dat4 (Name := Name) (U := U) (Lvl := Lvl) V B c).after 0 t)
    ∗ owns (c : Thread nD τ) (st4_1 t) fullShare ((dat4 (Name := Name) (U := U) (Lvl := Lvl) V B c).after 1 t)
    ∗ owns (c : Thread nD τ) (st4_2 t) fullShare ((dat4 (Name := Name) (U := U) (Lvl := Lvl) V B c).after 2 t)
    ∗ owns (c : Thread nD τ) (st4_3 t) fullShare ((dat4 (Name := Name) (U := U) (Lvl := Lvl) V B c).after 3 t)
    ∗ owns (c : Thread nD τ) (st4_4 t) fullShare ((dat4 (Name := Name) (U := U) (Lvl := Lvl) V B c).after 4 t)
    ∗ owns (c : Thread nD τ) (st4_5 t) fullShare ((dat4 (Name := Name) (U := U) (Lvl := Lvl) V B c).after 5 t)
    ∗ owns (c : Thread nD τ) (st4_6 t) fullShare ((dat4 (Name := Name) (U := U) (Lvl := Lvl) V B c).after 6 t)
    ∗ owns (c : Thread nD τ) (st4_7 t) fullShare ((dat4 (Name := Name) (U := U) (Lvl := Lvl) V B c).after 7 t)
    ∗ owns (c : Thread nD τ) (st4_8 t) fullShare ((dat4 (Name := Name) (U := U) (Lvl := Lvl) V B c).after 8 t))

set_option maxHeartbeats 1000000 in
/-- The body at any point: the inputs' memrefs hold their blocks, so the valued run applies; the invariant and the core's
    waits pass through unread. -/
theorem sound_body4 (V : Valuation τ sig (Elt F)) (B : Set (SemLoc sig × Ix)) (ι : Ix) (c : Dev nD) (t : Fin cfg4.N) :
    bodyPre4 (Name := Name) (U := U) (Lvl := Lvl) V B ι c t
      ⊢ wp frame (wpE (defs₀ (F := F)) Variants.none c none) Set.univ (bodyAt4 t) (fun _ => bodyPost4 (Name := Name) (U := U) (Lvl := Lvl) V B ι c t) := by
  unfold bodyPre4 bodyPost4 bodyAt4
  simp only [before4_0, before4_1, before4_2, before4_3, before4_4, before4_5, before4_6, before4_7]
  rw [show (dat4 (Name := Name) (U := U) (Lvl := Lvl) V B c).Φ t.succ = (dat4 (Name := Name) (U := U) (Lvl := Lvl) V B c).Φ t.castSucc from rfl,
    show (dat4 (Name := Name) (U := U) (Lvl := Lvl) V B c).owesAt ι t.succ = (dat4 (Name := Name) (U := U) (Lvl := Lvl) V B c).owesAt ι t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_k4 c (grid4.coords t) _ _ _ _ _ _ _ _ _ _ _ _ _ _ _ _ _ _ (iblk4 V 0 t) (iblk4 V 1 t) (iblk4 V 2 t) (iblk4 V 3 t) (iblk4 V 4 t) (iblk4 V 5 t) (iblk4 V 6 t) (iblk4 V 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for the exact data, at every point. -/
theorem body_obligation4 (V : Valuation τ sig (Elt F)) (B : Set (SemLoc sig × Ix)) (ι : Ix) (c : Dev nD) :
    BodyObligation (dat4 (Name := Name) (U := U) (Lvl := Lvl) V B c) (defs₀ (F := F)) Variants.none ι Set.univ := fun t => by
  rw [bigSep_W4, bigSep_W4]
  exact sound_body4 V B ι c t

/-! ## From blocks to the array: the output array after the region -/

/-- The output window's printed index map, decided over the grid: along the rows the block index is the grid point, along
    the one column it is zero. -/
theorem idx_facts8 : ∀ t : Fin cfg4.N, win4_8.index t (0 : Fin 2) = t.val ∧ win4_8.index t (1 : Fin 2) = 0 :=
  (by decide +kernel : ∀ t : Fin grid4.N, win4_8.index t (0 : Fin 2) = t.val ∧ win4_8.index t (1 : Fin 2) = 0)

/-- The grid point whose block holds row `i 0` of the output: blocks are 2048 rows. -/
def tOf (i : S16384x1.Idx) : Fin cfg4.N :=
  ⟨(i 0).val / 2048, by have h : (i 0).val < 16384 := (i 0).isLt; show (i 0).val / 2048 < grid4.N; rw [N_4]; omega⟩

/-- The place of row `i 0` inside its block. -/
def locOf (i : S16384x1.Idx) : S2048x1.Idx := fun a =>
  match a with
  | ⟨0, _⟩ => ⟨(i 0).val % 2048, Nat.mod_lt _ (by decide)⟩
  | ⟨1, _⟩ => ⟨0, (by decide : 0 < S2048x1.size (1 : Fin 2))⟩

/-- WHAT THE OUTPUT ARRAY HOLDS AFTER THE REGION, as one function of the valuation: at row `i 0` the body's result, on the
    blocks of the grid point that holds the row, at the row's place in the block. -/
def g4 (V : Valuation τ sig (Elt F)) : S16384x1.Idx → Elt F .f32 := fun i =>
  out4 (iblk4 V 0 (tOf i)) (iblk4 V 1 (tOf i)) (iblk4 V 2 (tOf i)) (iblk4 V 3 (tOf i)) (iblk4 V 4 (tOf i)) (iblk4 V 5 (tOf i)) (iblk4 V 6 (tOf i)) (iblk4 V 7 (tOf i)) (locOf i)

/-- What point `t` writes back is block `t` of `g4`. -/
theorem flushed8_eq (V : Valuation τ sig (Elt F)) (B : Set (SemLoc sig × Ix)) (c : Dev nD) (t : Fin cfg4.N) :
    (dat4 (Name := Name) (U := U) (Lvl := Lvl) V B c).flushed 8 t = ((cfg4.win 8).blk t).view.read (Elt F) (g4 V) := by
  show (cfg4.win 8).cut (grid4.coords t) ((dat4 (Name := Name) (U := U) (Lvl := Lvl) V B c).after 8 t) = _
  rw [after4_8]
  obtain ⟨e0, e1⟩ := idx_facts8 t
  funext j
  show out4 (iblk4 V 0 t) (iblk4 V 1 t) (iblk4 V 2 t) (iblk4 V 3 t) (iblk4 V 4 t) (iblk4 V 5 t) (iblk4 V 6 t) (iblk4 V 7 t) j = g4 V (((cfg4.win 8).blk t).view.emb j)
  have hj0 : (j 0).val < 2048 := (j 0).isLt
  have hj1 : (j 1).val < 1 := (j 1).isLt
  have h0 : ((((cfg4.win 8).blk t).view.emb j) 0).val = win4_8.index t (0 : Fin 2) * 2048 + 1 * (j 0).val := rfl
  have ht : tOf (((cfg4.win 8).blk t).view.emb j) = t := by
    apply Fin.ext; show ((((cfg4.win 8).blk t).view.emb j) 0).val / 2048 = t.val; rw [h0]; omega
  have hl : locOf (((cfg4.win 8).blk t).view.emb j) = j := by
    funext a; apply Fin.ext
    match a with
    | ⟨0, _⟩ => show ((((cfg4.win 8).blk t).view.emb j) 0).val % 2048 = (j 0).val; rw [h0]; omega
    | ⟨1, _⟩ => show 0 = (j 1).val; omega
  unfold g4
  rw [ht, hl]

/-- An index of the output array is in point `t`'s block iff each coordinate is in the block's range on its axis. -/
theorem mem_blk8 (t : Fin cfg4.N) (i : S16384x1.Idx) :
    i ∈ ((cfg4.win 8).blk t).view.set ↔ ∀ a : Fin 2, win4_8.index t a * S2048x1.size a ≤ (i a).val ∧ (i a).val < win4_8.index t a * S2048x1.size a + S2048x1.size a := by
  show i ∈ ((View.whole main_v100).slice (win4_8.rect t)).set ↔ _
  rw [View.set_slice_whole, Rect.mem_set_unit]
  exact Iff.rfl

/-- Every row of the output array is in the block of the point `tOf` names, which writes it back. -/
theorem cover8 (i : S16384x1.Idx) : ∃ t : Fin cfg4.N, (cfg4.win 8).flush t = true ∧ i ∈ ((cfg4.win 8).blk t).view.set := by
  refine ⟨tOf i, flush4_8 _, ?_⟩
  rw [mem_blk8]
  obtain ⟨e0, e1⟩ := idx_facts8 (tOf i)
  have hi0 : (i 0).val < 16384 := (i 0).isLt
  have hi1 : (i 1).val < 1 := (i 1).isLt
  have ht : (tOf i).val = (i 0).val / 2048 := rfl
  intro a
  match a with
  | ⟨0, _⟩ => show win4_8.index (tOf i) (0 : Fin 2) * 2048 ≤ (i 0).val ∧ (i 0).val < win4_8.index (tOf i) (0 : Fin 2) * 2048 + 2048; omega
  | ⟨1, _⟩ => show win4_8.index (tOf i) (1 : Fin 2) * 1 ≤ (i 1).val ∧ (i 1).val < win4_8.index (tOf i) (1 : Fin 2) * 1 + 1; omega

/-- THE OUTPUT ARRAY after the region's last write-back is `g4` of the valuation. -/
theorem final8 (V : Valuation τ sig (Elt F)) (B : Set (SemLoc sig × Ix)) (c : Dev nD) :
    (dat4 (Name := Name) (U := U) (Lvl := Lvl) V B c).arrAt 8 cfg4.N = g4 V :=
  (dat4 (Name := Name) (U := U) (Lvl := Lvl) V B c).arrAt_eq_of_cover 8 (g4 V) (fun t _ => flushed8_eq V B c t) cover8

/-! ## The region step with values -/

section StepVal

variable {UU : Type} [URA UU]

local notation "𝕄s" => MT nD τ sig (SparseCore.Cfg.HIx 1) (Elt F) ℕ UU ℕ

/-- THE VALUATION AFTER THE FOURTH REGION: the valuation it was entered at, but for the output array, which holds `g4`. -/
def regAfter4 (V : Valuation τ sig (Elt F)) : Valuation τ sig (Elt F) :=
  Function.update V (Proc.devRef (τ := τ) .tc (Pipeline.arrRef spec4 8)) (g4 V)

/-- The proof data by pipeline: the fourth pipeline's exact data read as relational data; value-free data elsewhere. -/
def rdVal (V : Valuation τ sig (Elt F)) (B : Set (SemLoc sig × SparseCore.Cfg.HIx 1)) :
    (p : Fin 4) → (c : Dev nD) → Pipeline.RDat τ (Elt F) (SparseCore.Cfg.HIx 1) ℕ UU ℕ (pcfg (F := F) p) c
  | ⟨3, _⟩, c => (dat4 V B c).toR
  | ⟨0, h⟩, c => rdAt V B ⟨0, h⟩ c
  | ⟨1, h⟩, c => rdAt V B ⟨1, h⟩ c
  | ⟨2, h⟩, c => rdAt V B ⟨2, h⟩ c

theorem rdVal_three (V : Valuation τ sig (Elt F)) (B : Set (SemLoc sig × SparseCore.Cfg.HIx 1)) (c : Dev nD) :
    rdVal (UU := UU) V B 3 c = (dat4 V B c).toR := rfl

/-- What the thread holds when the fourth region is left: every unscoped buffer at `regAfter4 V`, the generator
    register at some state, nothing owed, the recorded pairs those of `W` and pairs at the index `none`. -/
def regionPostVal4 (V : Valuation τ sig (Elt F)) (W : Waits sig (SparseCore.Cfg.HIx 1)) (c : Dev nD) : sProp 𝕄s :=
  iprop(StableHlo.held (c.tc : Thread nD τ) (Pipeline.ucRefs τ sig) (regAfter4 V) ∗ (∃ r, prngReg c r)
    ∗ ∃ W' : Waits sig (SparseCore.Cfg.HIx 1), ⌜∀ q ∈ W', q ∈ W ∨ q.2 = none⌝
      ∗ owes (c.tc : Thread nD τ) (0 : CellTallies nD τ sig (SparseCore.Cfg.HIx 1)) W')

/-- The relational data's arrays after the write-backs below `n` are the exact data's arrays at `arrAt · n`. -/
theorem arraysAt_toR {c : Dev nD} (dat : Dat τ (Elt F) (SparseCore.Cfg.HIx 1) ℕ UU ℕ cfg4 c) (n : Nat) :
    dat.toR.arraysAt n ⊢ dat.toR.arrays (fun w => dat.arrAt w n) := by
  have key : ∀ w : Fin cfg4.W,
      iprop(∃ G, ⌜dat.toR.ArrAt w n G⌝ ∗ ((cfg4.win w).arr.view.loc (c.tc : Thread nD τ) ↦[(cfg4.win w).arr.view.set]{dat.toR.share w} G))
        ⊢ (((cfg4.win w).arr.view.loc (c.tc : Thread nD τ) ↦[(cfg4.win w).arr.view.set]{dat.toR.share w} dat.arrAt w n) : sProp 𝕄s) := by
    intro w
    iintro ⟨%G, %hG, H⟩
    obtain rfl := (dat.toR_arrAt_iff w n G).mp hG
    iexact H
  unfold Pipeline.RDat.arraysAt Pipeline.RDat.arrays
  exact BI.bigSep_mono fun w _ => key w

/-- EXIT, the buffers' part: the exact data's arrays after the last write-back and the unscoped buffers that are no array
    of the pipeline at `V` are all the unscoped buffers held at `regAfter4 V`. -/
theorem arrays_join_val (V : Valuation τ sig (Elt F)) (B : Set (SemLoc sig × SparseCore.Cfg.HIx 1)) (c : Dev nD) :
    iprop((rdVal (UU := UU) V B 3 c).arraysAt cfg4.N
        ∗ Pipeline.unscopedRest (pcfg (F := F) 3).spec c (fun b => V (Proc.devRef (τ := τ) .tc b)))
      ⊢ (StableHlo.held (c.tc : Thread nD τ) (Pipeline.ucRefs τ sig) (regAfter4 V) : sProp 𝕄s) := by
  classical
  have hw := (launchAll 3).toP (Val := Elt F)
  have hshare : ∀ w, (rdVal (UU := UU) V B 3 c).share w = fullShare := fun w =>
    (dat4 (Name := ℕ) (U := UU) (Lvl := ℕ) V B c).share_full (fun _ => rfl) w
  have e1 := Pipeline.RDat.arrays_eq (pcfgs (F := F)) adm0 (rdVal (UU := UU) V B) 3 c hw.arr_whole hshare
    (fun w => (dat4 (Name := ℕ) (U := UU) (Lvl := ℕ) V B c).arrAt w cfg4.N)
  have hne : ∀ w : Fin 9, w ≠ 8 → Proc.devRef (τ := τ) .tc (Pipeline.arrRef spec4 w) ≠ Proc.devRef (τ := τ) .tc (Pipeline.arrRef spec4 8) :=
    fun w h e => h (hw.win.arr_inj (Proc.devRef_injective _ e))
  have hval : ∀ w : Fin 9, regAfter4 V (Proc.devRef (τ := τ) .tc (Pipeline.arrRef spec4 w))
      = (dat4 (Name := ℕ) (U := UU) (Lvl := ℕ) V B c).arrAt w cfg4.N := by
    intro w
    by_cases h8 : w = 8
    · subst h8; exact (Function.update_self _ _ _).trans (final8 V B c).symm
    · have hout : ∀ w : Fin 9, w ≠ 8 → (win4 w).isOut = false := by decide
      exact (Function.update_of_ne (hne w h8) _ _).trans
        ((A4_eq V B c w).symm.trans ((dat4 (Name := ℕ) (U := UU) (Lvl := ℕ) V B c).arrAt_in w (hout w h8) _).symm)
  have e2 : (bigSep Finset.univ fun w : Fin (pcfg (F := F) 3).W =>
          (((c.tc : Thread nD τ).loc (Pipeline.arrRef (pcfg (F := F) 3).spec w)) ↦{fullShare} regAfter4 V (Proc.devRef (τ := τ) .tc (Pipeline.arrRef (pcfg (F := F) 3).spec w)) : sProp 𝕄s))
        = bigSep Finset.univ fun w : Fin (pcfg (F := F) 3).W =>
          (((c.tc : Thread nD τ).loc (Pipeline.arrRef (pcfg (F := F) 3).spec w)) ↦{fullShare} (dat4 (Name := ℕ) (U := UU) (Lvl := ℕ) V B c).arrAt w cfg4.N : sProp 𝕄s) :=
    BI.bigSep_congr fun w _ => by
      rw [show regAfter4 V (Proc.devRef (τ := τ) .tc (Pipeline.arrRef (pcfg (F := F) 3).spec w))
        = (dat4 (Name := ℕ) (U := UU) (Lvl := ℕ) V B c).arrAt w cfg4.N from hval w]
  have e3 : (Pipeline.unscopedRest (pcfg (F := F) 3).spec c (fun b => regAfter4 V (Proc.devRef (τ := τ) .tc b)) : sProp 𝕄s)
        = Pipeline.unscopedRest (pcfg (F := F) 3).spec c (fun b => V (Proc.devRef (τ := τ) .tc b)) := by
    unfold Pipeline.unscopedRest
    exact BI.bigSep_congr fun b hb => by
      dsimp only
      unfold regAfter4
      rw [Function.update_of_ne fun e => (Finset.mem_sdiff.mp hb).2 (Finset.mem_image.mpr ⟨8, Finset.mem_univ _, (Proc.devRef_injective _ e).symm⟩)]
  rw [← Pipeline.unscopedBufs_held c (regAfter4 V), Pipeline.unscopedBufs_split (Pipeline.pin (pcfgs (F := F)) adm0) 3 hw.win.arr_unscoped hw.win.arr_inj c, e2, ← e1, e3]
  iintro ⟨Ha, Hr⟩
  isplitl [Ha]
  · iapply (arraysAt_toR (dat4 (Name := ℕ) (U := UU) (Lvl := ℕ) V B c) cfg4.N); iexact Ha
  iexact Hr

/-- The fourth region as the region rule's record over the exact data: entered as the value-free record is, left with
    every unscoped buffer at `regAfter4 V`. -/
def regionSegVal4 (V : Valuation τ sig (Elt F)) (W : Waits sig (SparseCore.Cfg.HIx 1)) :
    Pipeline.RDat.RegionSeg (pcfgs (F := F)) adm0 (rdVal (UU := UU) V (recOf W)) (none : SparseCore.Cfg.HIx 1)
      (defs₀ (F := F)) Variants.none (sc (F := F)).L ((sc (F := F)).lev (nD := nD)) (3 : Fin 4) where
  win := ((launchAll 3).toP (Val := Elt F)).win.to₀
  block_pos := ((launchAll 3).toP (Val := Elt F)).block_pos
  stage_whole := ((launchAll 3).toP (Val := Elt F)).stage_whole
  K := PEmpty
  osem := fun k => k.elim
  ho := Pipeline.OwnSemFacts.none _
  hbody := fun c => (body_obligation4 (Name := ℕ) (U := UU) (Lvl := ℕ) V (recOf W) none c).loose.toR
  hwaits := fun c => Pipeline.RDat.hwaits_of_owed_zero (pcfgs (F := F)) adm0 _ _ _ _ 3 (fun _ _ => rfl) c
  pre := regionPre V W
  post := regionPostVal4 V W
  X := fun c => iprop(∃ r, prngReg c r)
  Y := fun c => iprop(∃ r, prngReg c r)
  Z := fun c => Pipeline.unscopedRest (pcfg (F := F) 3).spec c (fun b => V (Proc.devRef (τ := τ) .tc b))
  hentry := fun c => by
    have h := Pipeline.RDat.arrays_of_unscopedBufs (pcfgs (F := F)) adm0 (rdVal (UU := UU) V (recOf W)) (p := 3)
      ((launchAll 3).toP (Val := Elt F)).win ((launchAll 3).toP (Val := Elt F)).arr_whole c
      (fun w => (dat4 (Name := ℕ) (U := UU) (Lvl := ℕ) V (recOf W) c).share_full (fun _ => rfl) w)
      (fun b => V (Proc.devRef (τ := τ) .tc b)) (fun w => rfl)
    unfold regionPre
    rw [← Pipeline.unscopedBufs_held c V]
    iintro ⟨⟨Hub, Hp, HW⟩, -, -⟩
    imodintro
    ihave H := h $$ Hub
    icases H with ⟨Harr, Hrest⟩
    isplitl [Harr]; · iexact Harr
    isplitr
    · unfold Pipeline.prefHeld
      rw [show (Finset.univ : Finset (Fin ((pcfgs (F := F) 3).pre.K))) = ∅ from rfl, BI.bigSep_empty]
      iempintro
    isplitl [HW]
    · iexists W; isplitr; · ipureintro; exact fun q hq => Or.inl (Or.inl (Finset.mem_coe.mp hq))
      iexact HW
    isplitl [Hp]; · iexact Hp
    iexact Hrest
  hin := fun c => by
    show _ ⊢ iprop(Pipeline.scopedRest spec4 c ∗ ∃ r, prngReg c r)
    iintro ⟨HX, -, HR⟩
    isplitl [HR]; · iexact HR
    iexact HX
  hout := fun c => by
    show iprop(Pipeline.scopedRest spec4 c ∗ ∃ r, prngReg c r) ⊢ _
    rw [Pipeline.ownSems0_none]
    iintro ⟨HR, HP⟩
    isplitl [HP]; · iexact HP
    isplitr; · iempintro
    iexact HR
  hexit := fun c => by
    unfold regionPostVal4
    iintro ⟨Ha, ⟨%W', %hW', Ho⟩, HY, HZ⟩
    imodintro
    isplitl [Ha HZ]
    · iapply (arrays_join_val (UU := UU) V (recOf W) c)
      isplitl [Ha] <;> iassumption
    isplitl [HY]; · iexact HY
    iexists W'
    isplitr
    · ipureintro
      intro q hq
      rcases hW' (Finset.mem_coe.mpr hq) with h | ⟨w, s, rfl⟩
      · exact h
      · exact Or.inr rfl
    iexact Ho

set_option maxHeartbeats 1000000 in
/-- THE FOURTH REGION'S STEP WITH VALUES inside the SparseCore launch's obligation for @main: as the value-free step, but
    the continuation receives every unscoped buffer at the ONE valuation `regAfter4 V`. -/
theorem region_step_val4
    (EP : Emb (Rounds.URounds (GSem nD τ sig) Unit) 𝕄s) [EP.LandsIn (upEmb : UEmb _ 𝕄s)]
    (d : Dev nD) (V : Valuation τ sig (Elt F)) (W : Waits sig (SparseCore.Cfg.HIx 1)) {α : Type}
    (k : PUnit → Prog (TpuEff nD τ sig (Elt F) (SparseCore.Sig (Pipeline.Sig Λ₀ (Fin 4) fun p => (pcfgs (F := F) p).Adm) 1) .tc) α)
    (Q : α → sProp 𝕄s) :
    iprop((∀ (W' : Waits sig (SparseCore.Cfg.HIx 1)), ⌜∀ q ∈ W', q ∈ W ∨ q.2 = none⌝ -∗
            iprop(boundary (SparseCore.T d : Thread nD τ) ∗ StableHlo.held (SparseCore.T d : Thread nD τ) (Pipeline.ucRefs τ sig) (regAfter4 V) ∗ (∃ r, prngReg d r)
              ∗ owes (SparseCore.T d : Thread nD τ) (0 : CellTallies nD τ sig (SparseCore.Cfg.HIx 1)) W') -∗
            wp frame (wpE ((sc (F := F)).defs (Pipeline.defs (pcfgs (F := F)) (defs₀ (F := F)))) Variants.none.lift (SparseCore.T d : Thread nD τ) none) Set.univ (k ⟨⟩) Q)
        ∗ boundary (SparseCore.T d : Thread nD τ) ∗ StableHlo.held (SparseCore.T d : Thread nD τ) (Pipeline.ucRefs τ sig) V ∗ (∃ r, prngReg d r)
        ∗ owes (SparseCore.T d : Thread nD τ) (0 : CellTallies nD τ sig (SparseCore.Cfg.HIx 1)) W
        ∗ levAts (sc (F := F)).L ((sc (F := F)).lev (nD := nD))
        ∗ Pipeline.cellsGhost (Pipeline.pin (pcfgs (F := F)) adm0) EP 3 d ∗ Pipeline.toksInit (Pipeline.pin (pcfgs (F := F)) adm0) EP 3 d)
      ⊢ wp frame (wpE ((sc (F := F)).defs (Pipeline.defs (pcfgs (F := F)) (defs₀ (F := F)))) Variants.none.lift (SparseCore.T d : Thread nD τ) none) Set.univ
          (Prog.lift (.customCall (SparseCore.inner (Pipeline.entry (3 : Fin 4))) ()) >>= k) Q := by
  have key := region_lift (pcfgs (F := F)) adm0 (rdVal (UU := UU) V (recOf W))
    (((launchAll 3).toP (Val := Elt F)).cellOf_inj adm0) EP (defs₀ (F := F)) Variants.none (sc (F := F))
    (regionSegVal4 V W) d k Q
  refine BIBase.Entails.trans ?_ key
  iintro ⟨Hk, Hb, Hh, Hp, Ho, Hlev, Hg, Ht⟩
  isplitl [Hk]
  · iintro ⟨Hb, Hpost⟩
    ihave Hpost' := (show (regionSegVal4 (UU := UU) V W).post d ⊢ regionPostVal4 V W d from .rfl) $$ Hpost
    unfold regionPostVal4
    icases Hpost' with ⟨Hh, Hp, ⟨%W', %hW', Ho⟩⟩
    ispecialize Hk $$ %W' %hW'
    iapply Hk
    isplitl [Hb]; · iexact Hb
    isplitl [Hh]; · iexact Hh
    isplitl [Hp]; · iexact Hp
    iexact Ho
  isplitl [Hb]; · iexact Hb
  isplitl [Hh Hp Ho]
  · iapply (show regionPre V W d ⊢ (regionSegVal4 (UU := UU) V W).pre d from .rfl)
    unfold regionPre
    isplitl [Hh]; · iexact Hh
    isplitl [Hp]; · iexact Hp
    iexact Ho
  isplitl [Hlev]; · iexact Hlev
  isplitl [Hg] <;> iassumption

end StepVal

end Cert.KernelIdeal.RegionVal

end
-- ==== Proof.RegionValK4IndexIdeal.lean ====
import proofs.«214388_g48842368090541_cont_8to1c4_19_37_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionVal

open Cert.KernelIdeal Cert.KernelIdeal.Gen
open Idealize.ShloMosaic Idealize.ShloMosaic.ValueIdx

/-! ## Layout operations of the fourth body, read at an index -/

section Layout
variable {α : Type}

/-- A row vector broadcast down 2048 rows reads its column. -/
theorem k4_bcast_row512 (v : S1x512.Idx → α) (h : S1x512.Broadcasts S2048x512) (r : Fin 2048) (k : Fin 512) :
    broadcastTo S2048x512 v h (ix2 r k) = v (ix2 0 k) :=
  broadcastTo_apply v h (ix2 r k) (ix2 0 k) fun a => by match a with | ⟨0, _⟩ => rfl | ⟨1, _⟩ => rfl

/-- The one-element array broadcast down 2048 rows reads its element. -/
theorem k4_bcast_one (v : S1x1.Idx → α) (h : S1x1.Broadcasts S2048x1) (r : Fin 2048) :
    broadcastTo S2048x1 v h (ix2 r 0) = v (ix2 0 0) :=
  broadcastTo_apply v h (ix2 r 0) (ix2 0 0) fun a => by match a with | ⟨0, _⟩ => rfl | ⟨1, _⟩ => rfl

/-- A vector of 2048 entries viewed as a column reads its entry. -/
theorem k4_cast_col (v : S2048.Idx → α) (h : S2048.ShapeCasts S2048x1) (r : Fin 2048) :
    shapeCast S2048x1 v h (ix2 r 0) = v (ix1 r) :=
  shapeCast_apply v h (ix2 r 0) (ix1 r) (by
    rw [Shape.rowMajor_val_one, Shape.rowMajor_val_two]; show r.val = r.val * 1 + 0; omega)

end Layout

/-- The sum over the 512 lanes of a row, at the ideal values. -/
theorem k4_sum_row (src : FVec Ideal S2048x512 .f32) (h : S2048x512.Reduces [1] S2048) (hφ : FKind.Formats .f32)
    (hacc : (0x00000000#32 : BitVec 32) = 0x00000000#32) (r : Fin 2048) :
    multiReduction .add [1] S2048 src 0x00000000#32 h hφ hacc (ix1 r) = ∑ k : Fin 512, src (ix2 r k) := by
  refine (Ideal.multiReduction_add_single src 0x00000000#32 h hφ hacc (ix1 r)).trans ?_
  exact Finset.sum_congr rfl fun k _ => congrArg src (funext fun a => Fin.ext (by
    match a with
    | ⟨0, _⟩ => rfl
    | ⟨1, _⟩ => rfl))

/-! ## The fourth body's arithmetic at an index -/

/-- The f32 word of 2⁻¹⁴ (the reciprocal of the number of rows), of the variance's epsilon, and of zero. -/
def k4_w14 : EReal := Ideal.ofBits .f32 0x38800000#32
def k4_wEps : EReal := Ideal.ofBits .f32 0x3727C5AC#32
def k4_wZero : EReal := Ideal.ofBits .f32 0x00000000#32

/-- Column `k`'s mean, variance, scale and shift from the column sums `s`, sums of squares `q`, and the block's
    parameters `g`, `be`, as the body computes them. -/
def mu4 (s : Vec Ideal S1x512 .f32) (k : Fin 512) : EReal := s (ix2 0 k) * k4_w14
def scale4 (s q g : Vec Ideal S1x512 .f32) (k : Fin 512) : EReal :=
  Ideal.rsqrt ((q (ix2 0 k) * k4_w14 - mu4 s k * mu4 s k) + k4_wEps) * g (ix2 0 k)
def shift4 (s q g be : Vec Ideal S1x512 .f32) (k : Fin 512) : EReal := be (ix2 0 k) - mu4 s k * scale4 s q g k

set_option maxHeartbeats 1000000 in
/-- THE FOURTH BODY AT A ROW, at the ideal values: the lane sum of the rectified, normalized activations times the
    output weights, plus the projection's share, plus the bias. -/
theorem k4pay_apply (x1 : Vec Ideal S2048x512 .bf16) (x2 : Vec Ideal S2048x1 .f32) (x3 x4 x5 x6 x7 : Vec Ideal S1x512 .f32)
    (x8 : Vec Ideal S1x1 .f32) (r : Fin 2048) :
    k4_pay1 (F := Ideal) (k4_pay2 x3 x4 x5 x6 x1 x7 x2) x8 (ix2 r 0)
      = ((∑ k : Fin 512, max (x1 (ix2 r k) * scale4 x3 x4 x5 k + shift4 x3 x4 x5 x6 k) k4_wZero * x7 (ix2 0 k)) + x2 (ix2 r 0))
          + x8 (ix2 0 0) := by
  unfold k4_pay1 k4_pay2
  dsimp only
  simp only [shapeCast_self]
  refine (addf_apply _ _ (ix2 r 0)).trans ?_
  refine congrArg₂ (· + ·) ?_ (k4_bcast_one _ _ r)
  refine (addf_apply _ _ (ix2 r 0)).trans ?_
  refine congrArg₂ (· + ·) ?_ rfl
  refine (k4_cast_col _ _ r).trans ?_
  refine (k4_sum_row _ _ _ _ r).trans ?_
  refine Finset.sum_congr rfl fun k _ => ?_
  refine (mulf_apply _ _ (ix2 r k)).trans ?_
  refine congrArg₂ (· * ·) ?_ (k4_bcast_row512 _ _ r k)
  refine (maximumf_apply _ _ (ix2 r k)).trans ?_
  refine congrArg₂ max ?_ rfl
  refine (addf_apply _ _ (ix2 r k)).trans ?_
  refine congrArg₂ (· + ·) ?_ (k4_bcast_row512 _ _ r k)
  refine (mulf_apply _ _ (ix2 r k)).trans ?_
  exact congrArg₂ (· * ·) rfl (k4_bcast_row512 _ _ r k)

end Cert.KernelIdeal.RegionVal

end
-- ==== Proof.RegionValK4SpecIdeal.lean ====
import proofs.«214388_g48842368090541_cont_8to1c4_19_37_alg».proof.Proof.RegionValK4Ideal
import proofs.«214388_g48842368090541_cont_8to1c4_19_37_alg».proof.Proof.RegionValK4IndexIdeal
import proofs.«214388_g48842368090541_cont_8to1c4_19_37_alg».proof.Proof.KerRegionSpec

set_option maxRecDepth 16384

noncomputable section

open scoped BigOperators

namespace Cert.KernelIdeal.RegionVal

open Cert.KernelIdeal Cert.KernelIdeal.Gen
open Idealize.ShloMosaic Idealize.ShloMosaic.TcCoe Idealize.ShloMosaic.ValueIdx

/-! ## The windows' arrays at the ideal values, and the specification's operands read off them -/

section Bridge

variable (V : Valuation τ sig (Elt Ideal))

/-- The arrays of the fourth pipeline's input windows, read off a valuation: the activations (16384 × 512), the
    projection's share (a column), the column sums and sums of squares, the block's two parameters, the output weights
    (rows of 512), the output bias (one element). -/
noncomputable def a0 : S16384x512.Idx → EReal := V (Proc.devRef (τ := τ) .tc (Pipeline.arrRef spec4 0))
noncomputable def a1 : S16384x1.Idx → EReal := V (Proc.devRef (τ := τ) .tc (Pipeline.arrRef spec4 1))
noncomputable def a2 : S1x512.Idx → EReal := V (Proc.devRef (τ := τ) .tc (Pipeline.arrRef spec4 2))
noncomputable def a3 : S1x512.Idx → EReal := V (Proc.devRef (τ := τ) .tc (Pipeline.arrRef spec4 3))
noncomputable def a4 : S1x512.Idx → EReal := V (Proc.devRef (τ := τ) .tc (Pipeline.arrRef spec4 4))
noncomputable def a5 : S1x512.Idx → EReal := V (Proc.devRef (τ := τ) .tc (Pipeline.arrRef spec4 5))
noncomputable def a6 : S1x512.Idx → EReal := V (Proc.devRef (τ := τ) .tc (Pipeline.arrRef spec4 6))
noncomputable def a7 : S1x1.Idx → EReal := V (Proc.devRef (τ := τ) .tc (Pipeline.arrRef spec4 7))

/-- The input windows' printed index maps, decided over the grid: the two row-blocked windows move with the grid point,
    the six constant windows stay at block zero. -/
theorem idx_facts_in : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0) :=
  (by decide +kernel : ∀ t : Fin grid4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0))

/-- The activations' block at the point holding row `i 0`, read at the row's place, is the array's row. -/
theorem read0 (i : S16384x1.Idx) (k : Fin 512) :
    iblk4 V 0 (tOf i) (ix2 ⟨(i 0).val % 2048, Nat.mod_lt _ (by decide)⟩ k) = a0 V (ix2 (i 0) k) := by
  obtain ⟨⟨e0, e1⟩, -, -, -, -, -, -, -⟩ := idx_facts_in (tOf i)
  have ht : (tOf i).val = (i 0).val / 2048 := rfl
  show a0 V (((cfg4.win 0).blk (tOf i)).view.emb (ix2 ⟨(i 0).val % 2048, Nat.mod_lt _ (by decide)⟩ k)) = a0 V (ix2 (i 0) k)
  refine congrArg (a0 V) (funext fun a => Fin.ext ?_)
  match a with
  | ⟨0, _⟩ => show win4_0.index (tOf i) (0 : Fin 2) * 2048 + 1 * ((i 0).val % 2048) = (i 0).val; omega
  | ⟨1, _⟩ => show win4_0.index (tOf i) (1 : Fin 2) * 512 + 1 * k.val = k.val; omega

/-- Likewise the projection's share. -/
theorem read1 (i : S16384x1.Idx) :
    iblk4 V 1 (tOf i) (ix2 ⟨(i 0).val % 2048, Nat.mod_lt _ (by decide)⟩ 0) = a1 V (ix2 (i 0) 0) := by
  obtain ⟨-, ⟨e0, e1⟩, -, -, -, -, -, -⟩ := idx_facts_in (tOf i)
  have ht : (tOf i).val = (i 0).val / 2048 := rfl
  show a1 V (((cfg4.win 1).blk (tOf i)).view.emb (ix2 ⟨(i 0).val % 2048, Nat.mod_lt _ (by decide)⟩ 0)) = a1 V (ix2 (i 0) 0)
  refine congrArg (a1 V) (funext fun a => Fin.ext ?_)
  match a with
  | ⟨0, _⟩ => show win4_1.index (tOf i) (0 : Fin 2) * 2048 + 1 * ((i 0).val % 2048) = (i 0).val; omega
  | ⟨1, _⟩ => show win4_1.index (tOf i) (1 : Fin 2) * 1 + 1 * 0 = 0; omega

/-- A constant window's block is its whole array at every point. -/
theorem read2 (t : Fin cfg4.N) (k : Fin 512) : iblk4 V 2 t (ix2 0 k) = a2 V (ix2 0 k) := by
  obtain ⟨-, -, ⟨e0, e1⟩, -, -, -, -, -⟩ := idx_facts_in t
  show a2 V (((cfg4.win 2).blk t).view.emb (ix2 0 k)) = a2 V (ix2 0 k)
  refine congrArg (a2 V) (funext fun a => Fin.ext ?_)
  match a with
  | ⟨0, _⟩ => show win4_2.index t (0 : Fin 2) * 1 + 1 * 0 = 0; omega
  | ⟨1, _⟩ => show win4_2.index t (1 : Fin 2) * 512 + 1 * k.val = k.val; omega
theorem read3 (t : Fin cfg4.N) (k : Fin 512) : iblk4 V 3 t (ix2 0 k) = a3 V (ix2 0 k) := by
  obtain ⟨-, -, -, ⟨e0, e1⟩, -, -, -, -⟩ := idx_facts_in t
  show a3 V (((cfg4.win 3).blk t).view.emb (ix2 0 k)) = a3 V (ix2 0 k)
  refine congrArg (a3 V) (funext fun a => Fin.ext ?_)
  match a with
  | ⟨0, _⟩ => show win4_3.index t (0 : Fin 2) * 1 + 1 * 0 = 0; omega
  | ⟨1, _⟩ => show win4_3.index t (1 : Fin 2) * 512 + 1 * k.val = k.val; omega
theorem read4 (t : Fin cfg4.N) (k : Fin 512) : iblk4 V 4 t (ix2 0 k) = a4 V (ix2 0 k) := by
  obtain ⟨-, -, -, -, ⟨e0, e1⟩, -, -, -⟩ := idx_facts_in t
  show a4 V (((cfg4.win 4).blk t).view.emb (ix2 0 k)) = a4 V (ix2 0 k)
  refine congrArg (a4 V) (funext fun a => Fin.ext ?_)
  match a with
  | ⟨0, _⟩ => show win4_4.index t (0 : Fin 2) * 1 + 1 * 0 = 0; omega
  | ⟨1, _⟩ => show win4_4.index t (1 : Fin 2) * 512 + 1 * k.val = k.val; omega
theorem read5 (t : Fin cfg4.N) (k : Fin 512) : iblk4 V 5 t (ix2 0 k) = a5 V (ix2 0 k) := by
  obtain ⟨-, -, -, -, -, ⟨e0, e1⟩, -, -⟩ := idx_facts_in t
  show a5 V (((cfg4.win 5).blk t).view.emb (ix2 0 k)) = a5 V (ix2 0 k)
  refine congrArg (a5 V) (funext fun a => Fin.ext ?_)
  match a with
  | ⟨0, _⟩ => show win4_5.index t (0 : Fin 2) * 1 + 1 * 0 = 0; omega
  | ⟨1, _⟩ => show win4_5.index t (1 : Fin 2) * 512 + 1 * k.val = k.val; omega
theorem read6 (t : Fin cfg4.N) (k : Fin 512) : iblk4 V 6 t (ix2 0 k) = a6 V (ix2 0 k) := by
  obtain ⟨-, -, -, -, -, -, ⟨e0, e1⟩, -⟩ := idx_facts_in t
  show a6 V (((cfg4.win 6).blk t).view.emb (ix2 0 k)) = a6 V (ix2 0 k)
  refine congrArg (a6 V) (funext fun a => Fin.ext ?_)
  match a with
  | ⟨0, _⟩ => show win4_6.index t (0 : Fin 2) * 1 + 1 * 0 = 0; omega
  | ⟨1, _⟩ => show win4_6.index t (1 : Fin 2) * 512 + 1 * k.val = k.val; omega
theorem read7 (t : Fin cfg4.N) : iblk4 V 7 t (ix2 0 0) = a7 V (ix2 0 0) := by
  obtain ⟨-, -, -, -, -, -, -, ⟨e0, e1⟩⟩ := idx_facts_in t
  show a7 V (((cfg4.win 7).blk t).view.emb (ix2 0 0)) = a7 V (ix2 0 0)
  refine congrArg (a7 V) (funext fun a => Fin.ext ?_)
  match a with
  | ⟨0, _⟩ => show win4_7.index t (0 : Fin 2) * 1 + 1 * 0 = 0; omega
  | ⟨1, _⟩ => show win4_7.index t (1 : Fin 2) * 1 + 1 * 0 = 0; omega

set_option maxHeartbeats 400000 in
/-- THE FOURTH REGION'S OUTPUT, index by index, at the ideal values: the output array holds the specification's output
    stage of the arrays the region reads, laid as one column. -/
theorem g4_eq (i : S16384x1.Idx) :
    g4 V i = Cert.Spec.r4Out (a0 V) (a1 V) (a2 V) (a3 V) (a4 V) (a5 V) (a6 V) (a7 V) i := by
  have hl : locOf i = ix2 ⟨(i 0).val % 2048, Nat.mod_lt _ (by decide)⟩ (0 : Fin 1) :=
    funext fun a => by match a with | ⟨0, _⟩ => rfl | ⟨1, _⟩ => rfl
  unfold g4 out4
  rw [hl]
  refine (k4pay_apply _ _ _ _ _ _ _ _ _).trans ?_
  simp only [shift4, scale4, mu4, read0 V i, read1 V i, read2 V, read3 V, read4 V, read5 V, read6 V, read7 V]
  unfold Cert.Spec.r4Out Cert.Spec.asCol Cert.Spec.kOut
  refine congrArg₂ (· + ·) (congrArg₂ (· + ·) (Finset.sum_congr rfl fun k _ => ?_) ?_) ?_
  · simp only [Cert.Spec.kH3r, Cert.Spec.kNormRelu, Cert.Spec.bnScale, Cert.Spec.bnShift, Cert.Spec.kScale, Cert.Spec.kShift,
      Cert.Spec.kVar, Cert.Spec.kMu, Cert.Spec.row1, k4_w14, k4_wEps, k4_wZero, Cert.Spec.c14, Cert.Spec.eps, Cert.Spec.zero]
  · rfl
  · rfl

/-- The valuation after the fourth region, at the output array: the specification's fourth-launch function of the
    eight arrays the launch reads. -/
theorem regAfter4_out :
    regAfter4 V (Proc.devRef (τ := τ) .tc main_v100)
      = Cert.Spec.r4Out (V (Proc.devRef (τ := τ) .tc main_v96_0)) (V (Proc.devRef (τ := τ) .tc main_v96_1))
          (V (Proc.devRef (τ := τ) .tc main_v96_2)) (V (Proc.devRef (τ := τ) .tc main_v96_3))
          (V (Proc.devRef (τ := τ) .tc main_v97)) (V (Proc.devRef (τ := τ) .tc main_v98))
          (V (Proc.devRef (τ := τ) .tc main_v92)) (V (Proc.devRef (τ := τ) .tc main_v99)) := by
  show Function.update V (Proc.devRef (τ := τ) .tc (Pipeline.arrRef spec4 8)) (g4 V) (Proc.devRef (τ := τ) .tc (Pipeline.arrRef spec4 8)) = _
  rw [Function.update_self]
  exact funext fun i => g4_eq V i

/-- Off the output array the valuation is kept. -/
theorem regAfter4_keep (b : DevRef τ sig) (hb : b ≠ Proc.devRef (τ := τ) .tc main_v100) : regAfter4 V b = V b :=
  Function.update_of_ne hb _ _

end Bridge

/-! ## What the fourth region keeps -/

section Keep

variable {F : FTy → Type} [FloatOps F] [∀ e, Nonempty (Elt F e)]

/-- Off the fourth pipeline's output arrays the valuation after the region is the valuation it was entered at. -/
theorem regAfter4_keep_out (V : Valuation τ sig (Elt F)) (b : DevRef τ sig) (hb : b ∉ outDevRefs 3) : regAfter4 V b = V b := by
  have hmem : Proc.devRef (τ := τ) .tc (Pipeline.arrRef spec4 8) ∈ outDevRefs 3 :=
    Finset.mem_image.mpr ⟨(8 : Fin 9), Finset.mem_filter.mpr ⟨Finset.mem_univ _, rfl⟩, rfl⟩
  have hne : b ≠ Proc.devRef (τ := τ) .tc (Pipeline.arrRef spec4 8) := fun e => hb (e ▸ hmem)
  exact Function.update_of_ne hne _ _

/-- The same, over TensorCore references: every reference but the output array's keeps its contents. -/
theorem regAfter4_keep_ref (V : Valuation τ sig (Elt F)) (r : Ref sig .tc) (hr : r ∉ ([main_v100] : List (Ref sig .tc))) :
    regAfter4 V (Proc.devRef (τ := τ) .tc r) = V (Proc.devRef (τ := τ) .tc r) :=
  Function.update_of_ne (fun e : Proc.devRef (τ := τ) .tc r = Proc.devRef (τ := τ) .tc (Pipeline.arrRef spec4 8) =>
    hr (List.mem_singleton.mpr (Proc.devRef_injective _ e))) _ _

end Keep

end Cert.KernelIdeal.RegionVal

end
-- ==== Proof.KernelRunValIdeal.lean ====
import proofs.«214388_g48842368090541_cont_8to1c4_19_37_alg».proof.Proof.RunValIdeal
import proofs.«214388_g48842368090541_cont_8to1c4_19_37_alg».proof.Proof.GatherValCallIdeal
import proofs.«214388_g48842368090541_cont_8to1c4_19_37_alg».proof.Proof.RegionValK1X16Ideal
import proofs.«214388_g48842368090541_cont_8to1c4_19_37_alg».proof.Proof.RegionValK2IdealStep
import proofs.«214388_g48842368090541_cont_8to1c4_19_37_alg».proof.Proof.RegionValK3IdealStep
import proofs.«214388_g48842368090541_cont_8to1c4_19_37_alg».proof.Proof.RegionValK4SpecIdeal

noncomputable section

namespace Cert.Proof.KernelIdealSc

open Cert.KernelIdeal Cert.KernelIdeal.Gen Cert.KernelIdeal.RegionVal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Cert.KernelIdeal.MainShape

/-- The four pallas_calls' results, call by call: what each leaves in the unscoped buffers. -/
def regAfterAll : Fin 4 → Valuation τ sig (Elt Ideal) → Valuation τ sig (Elt Ideal)
  | ⟨0, _⟩ => regAfter1
  | ⟨1, _⟩ => regAfter2
  | ⟨2, _⟩ => regAfter3
  | ⟨3, _⟩ => regAfter4

theorem hregAll : ∀ p, RegStepVal (F := Ideal) regAfterAll p
  | ⟨0, _⟩ => fun d Vv W _ k Q => region_step_val1 (UU := UU) EP d Vv W k Q
  | ⟨1, _⟩ => fun d Vv W _ k Q => region_step_val2 (UU := UU) EP d Vv W k Q
  | ⟨2, _⟩ => fun d Vv W _ k Q => region_step_val3 (UU := UU) EP d Vv W k Q
  | ⟨3, _⟩ => fun d Vv W _ k Q => region_step_val4 (UU := UU) EP d Vv W k Q

theorem hkeepAll : ∀ (p : Fin 4) (Vv : Valuation τ sig (Elt Ideal)) (b : DevRef τ sig), b ∉ Cert.KernelIdeal.outDevRefs p → regAfterAll p Vv b = Vv b
  | ⟨0, _⟩ => fun Vv b hb => regAfter1_keep' Vv b hb
  | ⟨1, _⟩ => fun Vv b hb => regAfter2_keep Vv b hb
  | ⟨2, _⟩ => fun Vv b hb => regAfter3_keep_out Vv b hb
  | ⟨3, _⟩ => fun Vv b hb => regAfter4_keep_out Vv b hb

/-- The idealized kernel's run with its result named. -/
theorem kernel_run [Cert.Pre_input_domain.Facts] (m : (ℓ : Loc nD τ sig) → Buf (Elt Ideal) ℓ) (ρ : Dev nD → PrngReg) (hpre : Cert.Pre_KernelIdeal m) :
    θ_run (Cert.KernelIdeal.defs (F := Ideal)) (Cert.KernelIdeal.threads (F := Ideal)) ⟨m, fun _ => 0, ρ⟩
      (fun r => ∀ c : Dev nD, r.2.mem ((SparseCore.T c).loc main_v101)
          = VEnd (F := Ideal) m regAfterAll (fun d => uoOf d (fiOf m d) (fbOf m d)) (fun d => moOf d (fiOf m d) (fbOf m d)) (fun d => coOf d (fiOf m d) (fcOf m d)) c (Proc.devRef .tc main_v101)
        ∧ ArgsKept m c r.2) :=
  run_main_val (F := Ideal) m ρ regAfterAll _ _ _ (PPVal m) (PPVal_held m)
    (tileOblVal (UU := UU) (fiOf m) (fbOf m) (fcOf m) facts (idxOK_of_pre m hpre)) (vecSplitVal' m) (hu₀Val m) (sc_stepVal m) hregAll hkeepAll

end Cert.Proof.KernelIdealSc

end
-- ==== Proof.KerChainA.lean ====
/-
  The kernel program's host lines A as values. Every operation of a line writes one buffer from buffers written
  before it in the line or held when the line starts, so each buffer a later call reads ends the line at a term of the
  contents the line started from: the operation's function at the values of the buffers it reads. One definition per
  buffer in those buffers' cones; the line, cut in short windows, is read off window by window against them.
-/
import proofs.«214388_g48842368090541_cont_8to1c4_19_37_alg».proof.Proof.MainKeepIdeal

noncomputable section

namespace Cert.KernelIdeal.KerValue

open Cert.KernelIdeal Cert.KernelIdeal.Gen Cert.KernelIdeal.MainShape Idealize.ShloMosaic Idealize.ShloMosaic.TcCoe Idealize.SL.Sem Idealize.ShloMosaic.StableHlo

variable {F : FTy → Type} [FloatOps F]

/-- Reads of operations' results by rewriting, one at a time: what a buffer holds after an operation that writes it, or
    that does not (the references told apart by computation). For reads that sit inside a dependent pair, where the
    simplifier's congruence does not reach. -/
macro "reads_rwA" : tactic =>
  `(tactic| repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-! ## Line A -/

abbrev kwA_0 : List (HloOp τ sig (Elt F)) :=
  [ StableHlo.nullary main_c (constantI S_ 32 256#32),
    StableHlo.unary main_c main_v0 (broadcastInDim S16384 ![] bcast_S_S16384 : (⟨S_, .i32⟩ : BufTy).Contents (Elt F) → (⟨S16384, .i32⟩ : BufTy).Contents (Elt F)),
    StableHlo.binary main_arg1 main_v0 main_v1 (muli : (⟨S16384, .i32⟩ : BufTy).Contents (Elt F) → (⟨S16384, .i32⟩ : BufTy).Contents (Elt F) → (⟨S16384, .i32⟩ : BufTy).Contents (Elt F)),
    StableHlo.nullary main_c_0 (constantI S_ 32 32#32),
    StableHlo.unary main_c_0 main_v2 (broadcastInDim S16384 ![] bcast_S_S16384 : (⟨S_, .i32⟩ : BufTy).Contents (Elt F) → (⟨S16384, .i32⟩ : BufTy).Contents (Elt F)),
    StableHlo.binary main_arg2 main_v2 main_v3 (muli : (⟨S16384, .i32⟩ : BufTy).Contents (Elt F) → (⟨S16384, .i32⟩ : BufTy).Contents (Elt F) → (⟨S16384, .i32⟩ : BufTy).Contents (Elt F)),
    StableHlo.binary main_v1 main_v3 main_v4 (addi : (⟨S16384, .i32⟩ : BufTy).Contents (Elt F) → (⟨S16384, .i32⟩ : BufTy).Contents (Elt F) → (⟨S16384, .i32⟩ : BufTy).Contents (Elt F)),
    StableHlo.binary main_v4 main_arg3 main_v5 (addi : (⟨S16384, .i32⟩ : BufTy).Contents (Elt F) → (⟨S16384, .i32⟩ : BufTy).Contents (Elt F) → (⟨S16384, .i32⟩ : BufTy).Contents (Elt F)),
    StableHlo.nary ![main_arg0, main_arg4, main_v5] main_v6 (fun u => concatenate S49152 0 [⟨S16384, u 0⟩, ⟨S16384, u 1⟩, ⟨S16384, u 2⟩] concatenates_S16384_S16384_S16384_S49152_d0),
    StableHlo.binary main_arg8 main_arg12 main_v7 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.nullary main_v8 (iotaInDim S1024 32 0) ]
abbrev kwA_0_W : List (Ref sig .tc) := [main_c, main_v0, main_v1, main_c_0, main_v2, main_v3, main_v4, main_v5, main_v6, main_v7, main_v8]
set_option maxRecDepth 8192 in
theorem kwA_0_writes : (kwA_0 : List (HloOp τ sig (Elt F))).Forall fun op => op.writes ⊆ (kwA_0_W.map (Proc.devRef (τ := τ) .tc)).toFinset :=
  ⟨writes_sub_of_mem main_c rfl (by decide), writes_sub_of_mem main_v0 rfl (by decide), writes_sub_of_mem main_v1 rfl (by decide),
    writes_sub_of_mem main_c_0 rfl (by decide), writes_sub_of_mem main_v2 rfl (by decide), writes_sub_of_mem main_v3 rfl (by decide),
    writes_sub_of_mem main_v4 rfl (by decide), writes_sub_of_mem main_v5 rfl (by decide), writes_sub_of_mem main_v6 rfl (by decide),
    writes_sub_of_mem main_v7 rfl (by decide), writes_sub_of_mem main_v8 rfl (by decide)⟩
abbrev kwA_1 : List (HloOp τ sig (Elt F)) :=
  [ StableHlo.nullary main_c_1 (constantI S_ 32 256#32),
    StableHlo.TRef.unary (.of main_c_1 : StableHlo.TRef sig ⟨S_, .i32⟩) main_call0.v0 id,
    StableHlo.TRef.unary main_call0.v0 main_call0.v1 (broadcastInDim S1024 ![] bcast_S_S1024),
    StableHlo.TRef.binary (.of main_v8 : StableHlo.TRef sig ⟨S1024, .i32⟩) main_call0.v1 main_call0.v2 Host.divsi,
    StableHlo.TRef.unary (.of main_v8 : StableHlo.TRef sig ⟨S1024, .i32⟩) main_call0.v3 signi,
    StableHlo.TRef.unary main_call0.v0 main_call0.v4 signi,
    StableHlo.TRef.unary main_call0.v4 main_call0.v5 (broadcastInDim S1024 ![] bcast_S_S1024),
    StableHlo.TRef.binary main_call0.v3 main_call0.v5 main_call0.v6 (cmpi .ne),
    StableHlo.TRef.unary main_call0.v0 main_call0.v7 (broadcastInDim S1024 ![] bcast_S_S1024),
    StableHlo.TRef.binary (.of main_v8 : StableHlo.TRef sig ⟨S1024, .i32⟩) main_call0.v7 main_call0.v8 Host.remsi,
    StableHlo.TRef.nullary main_call0.c (constantI S_ 32 0#32) ]
abbrev kwA_1_W : List (Ref sig .tc) := [main_c_1, main_call0_v0, main_call0_v1, main_call0_v2, main_call0_v3, main_call0_v4, main_call0_v5, main_call0_v6, main_call0_v7, main_call0_v8, main_call0_c]
set_option maxRecDepth 8192 in
theorem kwA_1_writes : (kwA_1 : List (HloOp τ sig (Elt F))).Forall fun op => op.writes ⊆ (kwA_1_W.map (Proc.devRef (τ := τ) .tc)).toFinset :=
  ⟨writes_sub_of_mem main_c_1 rfl (by decide), writes_sub_of_mem main_call0_v0 rfl (by decide), writes_sub_of_mem main_call0_v1 rfl (by decide),
    writes_sub_of_mem main_call0_v2 rfl (by decide), writes_sub_of_mem main_call0_v3 rfl (by decide), writes_sub_of_mem main_call0_v4 rfl (by decide),
    writes_sub_of_mem main_call0_v5 rfl (by decide), writes_sub_of_mem main_call0_v6 rfl (by decide), writes_sub_of_mem main_call0_v7 rfl (by decide),
    writes_sub_of_mem main_call0_v8 rfl (by decide), writes_sub_of_mem main_call0_c rfl (by decide)⟩
abbrev kwA_2 : List (HloOp τ sig (Elt F)) :=
  [ StableHlo.TRef.unary main_call0.c main_call0.v9 (broadcastInDim S1024 ![] bcast_S_S1024),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S1024 ![] bcast_S_S1024),
    StableHlo.TRef.binary main_call0.v2 main_call0.v12 main_call0.v13 subi,
    StableHlo.TRef.ternary main_call0.v11 main_call0.v13 main_call0.v2 main_call0.call0.v0 select,
    StableHlo.nullary main_c_2 (constantI S_ 32 0#32),
    StableHlo.unary main_c_2 main_v10 (broadcastInDim S1024 ![] bcast_S_S1024 : (⟨S_, .i32⟩ : BufTy).Contents (Elt F) → (⟨S1024, .i32⟩ : BufTy).Contents (Elt F)),
    StableHlo.binary main_v9 main_v10 main_v11 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 4#32) ]
abbrev kwA_2_W : List (Ref sig .tc) := [main_call0_v9, main_call0_v10, main_call0_v11, main_call0_c_0, main_call0_v12, main_call0_v13, main_v9, main_c_2, main_v10, main_v11, main_c_3]
set_option maxRecDepth 8192 in
theorem kwA_2_writes : (kwA_2 : List (HloOp τ sig (Elt F))).Forall fun op => op.writes ⊆ (kwA_2_W.map (Proc.devRef (τ := τ) .tc)).toFinset :=
  ⟨writes_sub_of_mem main_call0_v9 rfl (by decide), writes_sub_of_mem main_call0_v10 rfl (by decide), writes_sub_of_mem main_call0_v11 rfl (by decide),
    writes_sub_of_mem main_call0_c_0 rfl (by decide), writes_sub_of_mem main_call0_v12 rfl (by decide), writes_sub_of_mem main_call0_v13 rfl (by decide),
    writes_sub_of_mem main_v9 rfl (by decide), writes_sub_of_mem main_c_2 rfl (by decide), writes_sub_of_mem main_v10 rfl (by decide),
    writes_sub_of_mem main_v11 rfl (by decide), writes_sub_of_mem main_c_3 rfl (by decide)⟩
abbrev kwA_3 : List (HloOp τ sig (Elt F)) :=
  [ StableHlo.unary main_c_3 main_v12 (broadcastInDim S1024 ![] bcast_S_S1024 : (⟨S_, .i32⟩ : BufTy).Contents (Elt F) → (⟨S1024, .i32⟩ : BufTy).Contents (Elt F)),
    StableHlo.binary main_v9 main_v12 main_v13 (addi : (⟨S1024, .i32⟩ : BufTy).Contents (Elt F) → (⟨S1024, .i32⟩ : BufTy).Contents (Elt F) → (⟨S1024, .i32⟩ : BufTy).Contents (Elt F)),
    StableHlo.ternary main_v11 main_v13 main_v9 main_v14 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v14 main_v15 (broadcastInDim S1024x1 ![0] bcast_S1024_S1024x1_0 : (⟨S1024, .i32⟩ : BufTy).Contents (Elt F) → (⟨S1024x1, .i32⟩ : BufTy).Contents (Elt F)),
    StableHlo.binary main_arg9 main_v15 main_v16 ((fun x i => Host.gather gather_S4x8_S1024x1_S1024x8_1_0_n_n_0_1_18 x i) : (⟨S4x8, .f32⟩ : BufTy).Contents (Elt F) → (⟨S1024x1, .i32⟩ : BufTy).Contents (Elt F) → (⟨S1024x8, .f32⟩ : BufTy).Contents (Elt F)),
    StableHlo.nullary main_c_4 (constantI S_ 32 32#32),
    StableHlo.TRef.unary (.of main_c_4 : StableHlo.TRef sig ⟨S_, .i32⟩) main_call1.v0 id,
    StableHlo.TRef.unary main_call1.v0 main_call1.v1 (broadcastInDim S1024 ![] bcast_S_S1024),
    StableHlo.TRef.binary (.of main_v8 : StableHlo.TRef sig ⟨S1024, .i32⟩) main_call1.v1 main_call1.v2 Host.divsi,
    StableHlo.TRef.unary (.of main_v8 : StableHlo.TRef sig ⟨S1024, .i32⟩) main_call1.v3 signi,
    StableHlo.TRef.unary main_call1.v0 main_call1.v4 signi ]
abbrev kwA_3_W : List (Ref sig .tc) := [main_v12, main_v13, main_v14, main_v15, main_v16, main_c_4, main_call1_v0, main_call1_v1, main_call1_v2, main_call1_v3, main_call1_v4]
set_option maxRecDepth 8192 in
theorem kwA_3_writes : (kwA_3 : List (HloOp τ sig (Elt F))).Forall fun op => op.writes ⊆ (kwA_3_W.map (Proc.devRef (τ := τ) .tc)).toFinset :=
  ⟨writes_sub_of_mem main_v12 rfl (by decide), writes_sub_of_mem main_v13 rfl (by decide), writes_sub_of_mem main_v14 rfl (by decide),
    writes_sub_of_mem main_v15 rfl (by decide), writes_sub_of_mem main_v16 rfl (by decide), writes_sub_of_mem main_c_4 rfl (by decide),
    writes_sub_of_mem main_call1_v0 rfl (by decide), writes_sub_of_mem main_call1_v1 rfl (by decide), writes_sub_of_mem main_call1_v2 rfl (by decide),
    writes_sub_of_mem main_call1_v3 rfl (by decide), writes_sub_of_mem main_call1_v4 rfl (by decide)⟩
abbrev kwA_4 : List (HloOp τ sig (Elt F)) :=
  [ StableHlo.TRef.unary main_call1.v4 main_call1.v5 (broadcastInDim S1024 ![] bcast_S_S1024),
    StableHlo.TRef.binary main_call1.v3 main_call1.v5 main_call1.v6 (cmpi .ne),
    StableHlo.TRef.unary main_call1.v0 main_call1.v7 (broadcastInDim S1024 ![] bcast_S_S1024),
    StableHlo.TRef.binary (.of main_v8 : StableHlo.TRef sig ⟨S1024, .i32⟩) main_call1.v7 main_call1.v8 Host.remsi,
    StableHlo.TRef.nullary main_call1.c (constantI S_ 32 0#32),
    StableHlo.TRef.unary main_call1.c main_call1.v9 (broadcastInDim S1024 ![] bcast_S_S1024),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S1024 ![] bcast_S_S1024),
    StableHlo.TRef.binary main_call1.v2 main_call1.v12 main_call1.v13 subi ]
abbrev kwA_4_W : List (Ref sig .tc) := [main_call1_v5, main_call1_v6, main_call1_v7, main_call1_v8, main_call1_c, main_call1_v9, main_call1_v10, main_call1_v11, main_call1_c_0, main_call1_v12, main_call1_v13]
set_option maxRecDepth 8192 in
theorem kwA_4_writes : (kwA_4 : List (HloOp τ sig (Elt F))).Forall fun op => op.writes ⊆ (kwA_4_W.map (Proc.devRef (τ := τ) .tc)).toFinset :=
  ⟨writes_sub_of_mem main_call1_v5 rfl (by decide), writes_sub_of_mem main_call1_v6 rfl (by decide), writes_sub_of_mem main_call1_v7 rfl (by decide),
    writes_sub_of_mem main_call1_v8 rfl (by decide), writes_sub_of_mem main_call1_c rfl (by decide), writes_sub_of_mem main_call1_v9 rfl (by decide),
    writes_sub_of_mem main_call1_v10 rfl (by decide), writes_sub_of_mem main_call1_v11 rfl (by decide), writes_sub_of_mem main_call1_c_0 rfl (by decide),
    writes_sub_of_mem main_call1_v12 rfl (by decide), writes_sub_of_mem main_call1_v13 rfl (by decide)⟩
abbrev kwA_5 : List (HloOp τ sig (Elt F)) :=
  [ StableHlo.TRef.ternary main_call1.v11 main_call1.v13 main_call1.v2 main_call1.call0.v0 select,
    StableHlo.nullary main_c_5 (constantI S_ 32 8#32),
    StableHlo.TRef.unary (.of main_c_5 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S1024 ![] bcast_S_S1024),
    StableHlo.TRef.binary (.of main_v17 : StableHlo.TRef sig ⟨S1024, .i32⟩) main_call2.v3 main_call2.v4 Host.remsi,
    StableHlo.TRef.nullary main_call2.c_1 (constantI S_ 32 0#32),
    StableHlo.TRef.unary main_call2.c_1 main_call2.v5 (broadcastInDim S1024 ![] bcast_S_S1024) ]
abbrev kwA_5_W : List (Ref sig .tc) := [main_v17, main_c_5, main_call2_v0, main_call2_c, main_call2_v1, main_call2_c_0, main_call2_v2, main_call2_v3, main_call2_v4, main_call2_c_1, main_call2_v5]
set_option maxRecDepth 8192 in
theorem kwA_5_writes : (kwA_5 : List (HloOp τ sig (Elt F))).Forall fun op => op.writes ⊆ (kwA_5_W.map (Proc.devRef (τ := τ) .tc)).toFinset :=
  ⟨writes_sub_of_mem main_v17 rfl (by decide), writes_sub_of_mem main_c_5 rfl (by decide), writes_sub_of_mem main_call2_v0 rfl (by decide),
    writes_sub_of_mem main_call2_c rfl (by decide), writes_sub_of_mem main_call2_v1 rfl (by decide), writes_sub_of_mem main_call2_c_0 rfl (by decide),
    writes_sub_of_mem main_call2_v2 rfl (by decide), writes_sub_of_mem main_call2_v3 rfl (by decide), writes_sub_of_mem main_call2_v4 rfl (by decide),
    writes_sub_of_mem main_call2_c_1 rfl (by decide), writes_sub_of_mem main_call2_v5 rfl (by decide)⟩
abbrev kwA_6 : List (HloOp τ sig (Elt F)) :=
  [ StableHlo.TRef.binary main_call2.v4 main_call2.v5 main_call2.v6 (cmpi .ne),
    StableHlo.TRef.nullary main_call2.c_2 (constantI S_ 32 0#32),
    StableHlo.TRef.unary main_call2.c_2 main_call2.v7 (broadcastInDim S1024 ![] bcast_S_S1024),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S1024 ![] bcast_S_S1024),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S1024 ![] bcast_S_S1024),
    StableHlo.TRef.binary main_call2.v4 main_call2.v13 main_call2.v14 addi ]
abbrev kwA_6_W : List (Ref sig .tc) := [main_call2_v6, main_call2_c_2, main_call2_v7, main_call2_v8, main_call2_c_3, main_call2_v9, main_call2_v10, main_call2_v11, main_call2_v12, main_call2_v13, main_call2_v14]
set_option maxRecDepth 8192 in
theorem kwA_6_writes : (kwA_6 : List (HloOp τ sig (Elt F))).Forall fun op => op.writes ⊆ (kwA_6_W.map (Proc.devRef (τ := τ) .tc)).toFinset :=
  ⟨writes_sub_of_mem main_call2_v6 rfl (by decide), writes_sub_of_mem main_call2_c_2 rfl (by decide), writes_sub_of_mem main_call2_v7 rfl (by decide),
    writes_sub_of_mem main_call2_v8 rfl (by decide), writes_sub_of_mem main_call2_c_3 rfl (by decide), writes_sub_of_mem main_call2_v9 rfl (by decide),
    writes_sub_of_mem main_call2_v10 rfl (by decide), writes_sub_of_mem main_call2_v11 rfl (by decide), writes_sub_of_mem main_call2_v12 rfl (by decide),
    writes_sub_of_mem main_call2_v13 rfl (by decide), writes_sub_of_mem main_call2_v14 rfl (by decide)⟩
abbrev kwA_7 : List (HloOp τ sig (Elt F)) :=
  [ StableHlo.TRef.ternary main_call2.v12 main_call2.v14 main_call2.v4 main_call2.v15 select,
    StableHlo.nullary main_c_6 (constantI S_ 32 0#32),
    StableHlo.unary main_c_6 main_v19 (broadcastInDim S1024 ![] bcast_S_S1024 : (⟨S_, .i32⟩ : BufTy).Contents (Elt F) → (⟨S1024, .i32⟩ : BufTy).Contents (Elt F)),
    StableHlo.binary main_v18 main_v19 main_v20 (cmpi .slt : (⟨S1024, .i32⟩ : BufTy).Contents (Elt F) → (⟨S1024, .i32⟩ : BufTy).Contents (Elt F) → (⟨S1024, .i1⟩ : BufTy).Contents (Elt F)),
    StableHlo.nullary main_c_7 (constantI S_ 32 8#32),
    StableHlo.unary main_c_7 main_v21 (broadcastInDim S1024 ![] bcast_S_S1024 : (⟨S_, .i32⟩ : BufTy).Contents (Elt F) → (⟨S1024, .i32⟩ : BufTy).Contents (Elt F)),
    StableHlo.binary main_v18 main_v21 main_v22 (addi : (⟨S1024, .i32⟩ : BufTy).Contents (Elt F) → (⟨S1024, .i32⟩ : BufTy).Contents (Elt F) → (⟨S1024, .i32⟩ : BufTy).Contents (Elt F)),
    StableHlo.ternary main_v20 main_v22 main_v18 main_v23 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v23 main_v24 (broadcastInDim S1024x1 ![0] bcast_S1024_S1024x1_0 : (⟨S1024, .i32⟩ : BufTy).Contents (Elt F) → (⟨S1024x1, .i32⟩ : BufTy).Contents (Elt F)),
    StableHlo.binary main_arg10 main_v24 main_v25 ((fun x i => Host.gather gather_S8x8_S1024x1_S1024x8_1_0_n_n_0_1_18 x i) : (⟨S8x8, .f32⟩ : BufTy).Contents (Elt F) → (⟨S1024x1, .i32⟩ : BufTy).Contents (Elt F) → (⟨S1024x8, .f32⟩ : BufTy).Contents (Elt F)),
    StableHlo.nullary main_c_8 (constantI S_ 32 32#32) ]
abbrev kwA_7_W : List (Ref sig .tc) := [main_v18, main_c_6, main_v19, main_v20, main_c_7, main_v21, main_v22, main_v23, main_v24, main_v25, main_c_8]
set_option maxRecDepth 8192 in
theorem kwA_7_writes : (kwA_7 : List (HloOp τ sig (Elt F))).Forall fun op => op.writes ⊆ (kwA_7_W.map (Proc.devRef (τ := τ) .tc)).toFinset :=
  ⟨writes_sub_of_mem main_v18 rfl (by decide), writes_sub_of_mem main_c_6 rfl (by decide), writes_sub_of_mem main_v19 rfl (by decide),
    writes_sub_of_mem main_v20 rfl (by decide), writes_sub_of_mem main_c_7 rfl (by decide), writes_sub_of_mem main_v21 rfl (by decide),
    writes_sub_of_mem main_v22 rfl (by decide), writes_sub_of_mem main_v23 rfl (by decide), writes_sub_of_mem main_v24 rfl (by decide),
    writes_sub_of_mem main_v25 rfl (by decide), writes_sub_of_mem main_c_8 rfl (by decide)⟩
abbrev kwA_8 : List (HloOp τ sig (Elt F)) :=
  [ StableHlo.TRef.unary (.of main_c_8 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S1024 ![] bcast_S_S1024),
    StableHlo.TRef.binary (.of main_v8 : StableHlo.TRef sig ⟨S1024, .i32⟩) main_call3.v3 main_call3.v4 Host.remsi,
    StableHlo.TRef.nullary main_call3.c_1 (constantI S_ 32 0#32),
    StableHlo.TRef.unary main_call3.c_1 main_call3.v5 (broadcastInDim S1024 ![] bcast_S_S1024),
    StableHlo.TRef.binary main_call3.v4 main_call3.v5 main_call3.v6 (cmpi .ne),
    StableHlo.TRef.nullary main_call3.c_2 (constantI S_ 32 0#32) ]
abbrev kwA_8_W : List (Ref sig .tc) := [main_call3_v0, main_call3_c, main_call3_v1, main_call3_c_0, main_call3_v2, main_call3_v3, main_call3_v4, main_call3_c_1, main_call3_v5, main_call3_v6, main_call3_c_2]
set_option maxRecDepth 8192 in
theorem kwA_8_writes : (kwA_8 : List (HloOp τ sig (Elt F))).Forall fun op => op.writes ⊆ (kwA_8_W.map (Proc.devRef (τ := τ) .tc)).toFinset :=
  ⟨writes_sub_of_mem main_call3_v0 rfl (by decide), writes_sub_of_mem main_call3_c rfl (by decide), writes_sub_of_mem main_call3_v1 rfl (by decide),
    writes_sub_of_mem main_call3_c_0 rfl (by decide), writes_sub_of_mem main_call3_v2 rfl (by decide), writes_sub_of_mem main_call3_v3 rfl (by decide),
    writes_sub_of_mem main_call3_v4 rfl (by decide), writes_sub_of_mem main_call3_c_1 rfl (by decide), writes_sub_of_mem main_call3_v5 rfl (by decide),
    writes_sub_of_mem main_call3_v6 rfl (by decide), writes_sub_of_mem main_call3_c_2 rfl (by decide)⟩
abbrev kwA_9 : List (HloOp τ sig (Elt F)) :=
  [ StableHlo.TRef.unary main_call3.c_2 main_call3.v7 (broadcastInDim S1024 ![] bcast_S_S1024),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S1024 ![] bcast_S_S1024),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S1024 ![] bcast_S_S1024),
    StableHlo.TRef.binary main_call3.v4 main_call3.v13 main_call3.v14 addi,
    StableHlo.TRef.ternary main_call3.v12 main_call3.v14 main_call3.v4 main_call3.v15 select,
    StableHlo.nullary main_c_9 (constantI S_ 32 0#32) ]
abbrev kwA_9_W : List (Ref sig .tc) := [main_call3_v7, main_call3_v8, main_call3_c_3, main_call3_v9, main_call3_v10, main_call3_v11, main_call3_v12, main_call3_v13, main_call3_v14, main_v26, main_c_9]
set_option maxRecDepth 8192 in
theorem kwA_9_writes : (kwA_9 : List (HloOp τ sig (Elt F))).Forall fun op => op.writes ⊆ (kwA_9_W.map (Proc.devRef (τ := τ) .tc)).toFinset :=
  ⟨writes_sub_of_mem main_call3_v7 rfl (by decide), writes_sub_of_mem main_call3_v8 rfl (by decide), writes_sub_of_mem main_call3_c_3 rfl (by decide),
    writes_sub_of_mem main_call3_v9 rfl (by decide), writes_sub_of_mem main_call3_v10 rfl (by decide), writes_sub_of_mem main_call3_v11 rfl (by decide),
    writes_sub_of_mem main_call3_v12 rfl (by decide), writes_sub_of_mem main_call3_v13 rfl (by decide), writes_sub_of_mem main_call3_v14 rfl (by decide),
    writes_sub_of_mem main_v26 rfl (by decide), writes_sub_of_mem main_c_9 rfl (by decide)⟩
abbrev kwA_10 : List (HloOp τ sig (Elt F)) :=
  [ StableHlo.unary main_c_9 main_v27 (broadcastInDim S1024 ![] bcast_S_S1024 : (⟨S_, .i32⟩ : BufTy).Contents (Elt F) → (⟨S1024, .i32⟩ : BufTy).Contents (Elt F)),
    StableHlo.binary main_v26 main_v27 main_v28 (cmpi .slt : (⟨S1024, .i32⟩ : BufTy).Contents (Elt F) → (⟨S1024, .i32⟩ : BufTy).Contents (Elt F) → (⟨S1024, .i1⟩ : BufTy).Contents (Elt F)),
    StableHlo.nullary main_c_10 (constantI S_ 32 32#32),
    StableHlo.unary main_c_10 main_v29 (broadcastInDim S1024 ![] bcast_S_S1024 : (⟨S_, .i32⟩ : BufTy).Contents (Elt F) → (⟨S1024, .i32⟩ : BufTy).Contents (Elt F)),
    StableHlo.binary main_v26 main_v29 main_v30 (addi : (⟨S1024, .i32⟩ : BufTy).Contents (Elt F) → (⟨S1024, .i32⟩ : BufTy).Contents (Elt F) → (⟨S1024, .i32⟩ : BufTy).Contents (Elt F)),
    StableHlo.ternary main_v28 main_v30 main_v26 main_v31 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v31 main_v32 (broadcastInDim S1024x1 ![0] bcast_S1024_S1024x1_0 : (⟨S1024, .i32⟩ : BufTy).Contents (Elt F) → (⟨S1024x1, .i32⟩ : BufTy).Contents (Elt F)),
    StableHlo.binary main_arg11 main_v32 main_v33 ((fun x i => Host.gather gather_S32x16_S1024x1_S1024x16_1_0_n_n_0_1_116 x i) : (⟨S32x16, .f32⟩ : BufTy).Contents (Elt F) → (⟨S1024x1, .i32⟩ : BufTy).Contents (Elt F) → (⟨S1024x16, .f32⟩ : BufTy).Contents (Elt F)),
    StableHlo.nullary main_cst (constant S_ .f32 0x00000000#32),
    StableHlo.unary main_cst main_v34 (broadcastInDim S1024x96 ![] bcast_S_S1024x96 : (⟨S_, .f32⟩ : BufTy).Contents (Elt F) → (⟨S1024x96, .f32⟩ : BufTy).Contents (Elt F)),
    StableHlo.nary ![main_v16, main_v25, main_v33, main_v34] main_v35 (fun u => concatenate S1024x128 1 [⟨S1024x8, u 0⟩, ⟨S1024x8, u 1⟩, ⟨S1024x16, u 2⟩, ⟨S1024x96, u 3⟩] concatenates_S1024x8_S1024x8_S1024x16_S1024x96_S1024x128_d1) ]
abbrev kwA_10_W : List (Ref sig .tc) := [main_v27, main_v28, main_c_10, main_v29, main_v30, main_v31, main_v32, main_v33, main_cst, main_v34, main_v35]
set_option maxRecDepth 8192 in
theorem kwA_10_writes : (kwA_10 : List (HloOp τ sig (Elt F))).Forall fun op => op.writes ⊆ (kwA_10_W.map (Proc.devRef (τ := τ) .tc)).toFinset :=
  ⟨writes_sub_of_mem main_v27 rfl (by decide), writes_sub_of_mem main_v28 rfl (by decide), writes_sub_of_mem main_c_10 rfl (by decide),
    writes_sub_of_mem main_v29 rfl (by decide), writes_sub_of_mem main_v30 rfl (by decide), writes_sub_of_mem main_v31 rfl (by decide),
    writes_sub_of_mem main_v32 rfl (by decide), writes_sub_of_mem main_v33 rfl (by decide), writes_sub_of_mem main_cst rfl (by decide),
    writes_sub_of_mem main_v34 rfl (by decide), writes_sub_of_mem main_v35 rfl (by decide)⟩
def kx_main_c (V : Valuation τ sig (Elt F)) : (⟨S_, .i32⟩ : BufTy).Contents (Elt F) :=
  (constantI S_ 32 256#32)
def kx_main_v0 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (kx_main_c V)
def kx_main_v1 (V : Valuation τ sig (Elt F)) : (⟨S16384, .i32⟩ : BufTy).Contents (Elt F) :=
  (muli : (⟨S16384, .i32⟩ : BufTy).Contents (Elt F) → (⟨S16384, .i32⟩ : BufTy).Contents (Elt F) → (⟨S16384, .i32⟩ : BufTy).Contents (Elt F)) (V (Proc.devRef .tc main_arg1)) (kx_main_v0 V)
def kx_main_c_0 (V : Valuation τ sig (Elt F)) : (⟨S_, .i32⟩ : BufTy).Contents (Elt F) :=
  (constantI S_ 32 32#32)
def kx_main_v2 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (kx_main_c_0 V)
def kx_main_v3 (V : Valuation τ sig (Elt F)) : (⟨S16384, .i32⟩ : BufTy).Contents (Elt F) :=
  (muli : (⟨S16384, .i32⟩ : BufTy).Contents (Elt F) → (⟨S16384, .i32⟩ : BufTy).Contents (Elt F) → (⟨S16384, .i32⟩ : BufTy).Contents (Elt F)) (V (Proc.devRef .tc main_arg2)) (kx_main_v2 V)
def kx_main_v4 (V : Valuation τ sig (Elt F)) : (⟨S16384, .i32⟩ : BufTy).Contents (Elt F) :=
  (addi : (⟨S16384, .i32⟩ : BufTy).Contents (Elt F) → (⟨S16384, .i32⟩ : BufTy).Contents (Elt F) → (⟨S16384, .i32⟩ : BufTy).Contents (Elt F)) (kx_main_v1 V) (kx_main_v3 V)
def kx_main_v5 (V : Valuation τ sig (Elt F)) : (⟨S16384, .i32⟩ : BufTy).Contents (Elt F) :=
  (addi : (⟨S16384, .i32⟩ : BufTy).Contents (Elt F) → (⟨S16384, .i32⟩ : BufTy).Contents (Elt F) → (⟨S16384, .i32⟩ : BufTy).Contents (Elt F)) (kx_main_v4 V) (V (Proc.devRef .tc main_arg3))
def kx_main_v6 (V : Valuation τ sig (Elt F)) : (⟨S49152, .i32⟩ : BufTy).Contents (Elt F) :=
  concatenate S49152 0 [⟨S16384, V (Proc.devRef .tc main_arg0)⟩, ⟨S16384, V (Proc.devRef .tc main_arg4)⟩, ⟨S16384, kx_main_v5 V⟩] concatenates_S16384_S16384_S16384_S49152_d0
def kx_main_v7 (V : Valuation τ sig (Elt F)) : (⟨S100000x128, .f32⟩ : BufTy).Contents (Elt F) :=
  ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) (V (Proc.devRef .tc main_arg8)) (V (Proc.devRef .tc main_arg12))
def kx_main_v8 (V : Valuation τ sig (Elt F)) : (⟨S1024, .i32⟩ : BufTy).Contents (Elt F) :=
  (iotaInDim S1024 32 0)
def kx_main_c_1 (V : Valuation τ sig (Elt F)) : (⟨S_, .i32⟩ : BufTy).Contents (Elt F) :=
  (constantI S_ 32 256#32)
def kx_main_call0_v0 (V : Valuation τ sig (Elt F)) : (⟨S_, .i32⟩ : BufTy).Contents (Elt F) :=
  id (kx_main_c_1 V)
def kx_main_call0_v1 (V : Valuation τ sig (Elt F)) : (⟨S1024, .i32⟩ : BufTy).Contents (Elt F) :=
  (broadcastInDim S1024 ![] bcast_S_S1024) (kx_main_call0_v0 V)
def kx_main_call0_v2 (V : Valuation τ sig (Elt F)) : (⟨S1024, .i32⟩ : BufTy).Contents (Elt F) :=
  Host.divsi (kx_main_v8 V) (kx_main_call0_v1 V)
def kx_main_call0_v3 (V : Valuation τ sig (Elt F)) : (⟨S1024, .i32⟩ : BufTy).Contents (Elt F) :=
  signi (kx_main_v8 V)
def kx_main_call0_v4 (V : Valuation τ sig (Elt F)) : (⟨S_, .i32⟩ : BufTy).Contents (Elt F) :=
  signi (kx_main_call0_v0 V)
def kx_main_call0_v5 (V : Valuation τ sig (Elt F)) : (⟨S1024, .i32⟩ : BufTy).Contents (Elt F) :=
  (broadcastInDim S1024 ![] bcast_S_S1024) (kx_main_call0_v4 V)
def kx_main_call0_v6 (V : Valuation τ sig (Elt F)) : (⟨S1024, .i1⟩ : BufTy).Contents (Elt F) :=
  (cmpi .ne) (kx_main_call0_v3 V) (kx_main_call0_v5 V)
def kx_main_call0_v7 (V : Valuation τ sig (Elt F)) : (⟨S1024, .i32⟩ : BufTy).Contents (Elt F) :=
  (broadcastInDim S1024 ![] bcast_S_S1024) (kx_main_call0_v0 V)
def kx_main_call0_v8 (V : Valuation τ sig (Elt F)) : (⟨S1024, .i32⟩ : BufTy).Contents (Elt F) :=
  Host.remsi (kx_main_v8 V) (kx_main_call0_v7 V)
def kx_main_call0_c (V : Valuation τ sig (Elt F)) : (⟨S_, .i32⟩ : BufTy).Contents (Elt F) :=
  (constantI S_ 32 0#32)
def kx_main_call0_v9 (V : Valuation τ sig (Elt F)) : (⟨S1024, .i32⟩ : BufTy).Contents (Elt F) :=
  (broadcastInDim S1024 ![] bcast_S_S1024) (kx_main_call0_c V)
def kx_main_call0_v10 (V : Valuation τ sig (Elt F)) : (⟨S1024, .i1⟩ : BufTy).Contents (Elt F) :=
  (cmpi .ne) (kx_main_call0_v8 V) (kx_main_call0_v9 V)
def kx_main_call0_v11 (V : Valuation τ sig (Elt F)) : (⟨S1024, .i1⟩ : BufTy).Contents (Elt F) :=
  andi (kx_main_call0_v6 V) (kx_main_call0_v10 V)
def kx_main_call0_c_0 (V : Valuation τ sig (Elt F)) : (⟨S_, .i32⟩ : BufTy).Contents (Elt F) :=
  (constantI S_ 32 1#32)
def kx_main_call0_v12 (V : Valuation τ sig (Elt F)) : (⟨S1024, .i32⟩ : BufTy).Contents (Elt F) :=
  (broadcastInDim S1024 ![] bcast_S_S1024) (kx_main_call0_c_0 V)
def kx_main_call0_v13 (V : Valuation τ sig (Elt F)) : (⟨S1024, .i32⟩ : BufTy).Contents (Elt F) :=
  subi (kx_main_call0_v2 V) (kx_main_call0_v12 V)
def kx_main_v9 (V : Valuation τ sig (Elt F)) : (⟨S1024, .i32⟩ : BufTy).Contents (Elt F) :=
  select (kx_main_call0_v11 V) (kx_main_call0_v13 V) (kx_main_call0_v2 V)
def kx_main_c_2 (V : Valuation τ sig (Elt F)) : (⟨S_, .i32⟩ : BufTy).Contents (Elt F) :=
  (constantI S_ 32 0#32)
def kx_main_v10 (V : Valuation τ sig (Elt F)) : (⟨S1024, .i32⟩ : BufTy).Contents (Elt F) :=
  (broadcastInDim S1024 ![] bcast_S_S1024 : (⟨S_, .i32⟩ : BufTy).Contents (Elt F) → (⟨S1024, .i32⟩ : BufTy).Contents (Elt F)) (kx_main_c_2 V)
def kx_main_v11 (V : Valuation τ sig (Elt F)) : (⟨S1024, .i1⟩ : BufTy).Contents (Elt F) :=
  (cmpi .slt : (⟨S1024, .i32⟩ : BufTy).Contents (Elt F) → (⟨S1024, .i32⟩ : BufTy).Contents (Elt F) → (⟨S1024, .i1⟩ : BufTy).Contents (Elt F)) (kx_main_v9 V) (kx_main_v10 V)
def kx_main_c_3 (V : Valuation τ sig (Elt F)) : (⟨S_, .i32⟩ : BufTy).Contents (Elt F) :=
  (constantI S_ 32 4#32)
def kx_main_v12 (V : Valuation τ sig (Elt F)) : (⟨S1024, .i32⟩ : BufTy).Contents (Elt F) :=
  (broadcastInDim S1024 ![] bcast_S_S1024 : (⟨S_, .i32⟩ : BufTy).Contents (Elt F) → (⟨S1024, .i32⟩ : BufTy).Contents (Elt F)) (kx_main_c_3 V)
def kx_main_v13 (V : Valuation τ sig (Elt F)) : (⟨S1024, .i32⟩ : BufTy).Contents (Elt F) :=
  (addi : (⟨S1024, .i32⟩ : BufTy).Contents (Elt F) → (⟨S1024, .i32⟩ : BufTy).Contents (Elt F) → (⟨S1024, .i32⟩ : BufTy).Contents (Elt F)) (kx_main_v9 V) (kx_main_v12 V)
def kx_main_v14 (V : Valuation τ sig (Elt F)) : (⟨S1024, .i32⟩ : BufTy).Contents (Elt F) :=
  (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (kx_main_v11 V) (kx_main_v13 V) (kx_main_v9 V)
def kx_main_v15 (V : Valuation τ sig (Elt F)) : (⟨S1024x1, .i32⟩ : BufTy).Contents (Elt F) :=
  (broadcastInDim S1024x1 ![0] bcast_S1024_S1024x1_0 : (⟨S1024, .i32⟩ : BufTy).Contents (Elt F) → (⟨S1024x1, .i32⟩ : BufTy).Contents (Elt F)) (kx_main_v14 V)
def kx_main_v16 (V : Valuation τ sig (Elt F)) : (⟨S1024x8, .f32⟩ : BufTy).Contents (Elt F) :=
  ((fun x i => Host.gather gather_S4x8_S1024x1_S1024x8_1_0_n_n_0_1_18 x i) : (⟨S4x8, .f32⟩ : BufTy).Contents (Elt F) → (⟨S1024x1, .i32⟩ : BufTy).Contents (Elt F) → (⟨S1024x8, .f32⟩ : BufTy).Contents (Elt F)) (V (Proc.devRef .tc main_arg9)) (kx_main_v15 V)
def kx_main_c_4 (V : Valuation τ sig (Elt F)) : (⟨S_, .i32⟩ : BufTy).Contents (Elt F) :=
  (constantI S_ 32 32#32)
def kx_main_call1_v0 (V : Valuation τ sig (Elt F)) : (⟨S_, .i32⟩ : BufTy).Contents (Elt F) :=
  id (kx_main_c_4 V)
def kx_main_call1_v1 (V : Valuation τ sig (Elt F)) : (⟨S1024, .i32⟩ : BufTy).Contents (Elt F) :=
  (broadcastInDim S1024 ![] bcast_S_S1024) (kx_main_call1_v0 V)
def kx_main_call1_v2 (V : Valuation τ sig (Elt F)) : (⟨S1024, .i32⟩ : BufTy).Contents (Elt F) :=
  Host.divsi (kx_main_v8 V) (kx_main_call1_v1 V)
def kx_main_call1_v3 (V : Valuation τ sig (Elt F)) : (⟨S1024, .i32⟩ : BufTy).Contents (Elt F) :=
  signi (kx_main_v8 V)
def kx_main_call1_v4 (V : Valuation τ sig (Elt F)) : (⟨S_, .i32⟩ : BufTy).Contents (Elt F) :=
  signi (kx_main_call1_v0 V)
def kx_main_call1_v5 (V : Valuation τ sig (Elt F)) : (⟨S1024, .i32⟩ : BufTy).Contents (Elt F) :=
  (broadcastInDim S1024 ![] bcast_S_S1024) (kx_main_call1_v4 V)
def kx_main_call1_v6 (V : Valuation τ sig (Elt F)) : (⟨S1024, .i1⟩ : BufTy).Contents (Elt F) :=
  (cmpi .ne) (kx_main_call1_v3 V) (kx_main_call1_v5 V)
def kx_main_call1_v7 (V : Valuation τ sig (Elt F)) : (⟨S1024, .i32⟩ : BufTy).Contents (Elt F) :=
  (broadcastInDim S1024 ![] bcast_S_S1024) (kx_main_call1_v0 V)
def kx_main_call1_v8 (V : Valuation τ sig (Elt F)) : (⟨S1024, .i32⟩ : BufTy).Contents (Elt F) :=
  Host.remsi (kx_main_v8 V) (kx_main_call1_v7 V)
def kx_main_call1_c (V : Valuation τ sig (Elt F)) : (⟨S_, .i32⟩ : BufTy).Contents (Elt F) :=
  (constantI S_ 32 0#32)
def kx_main_call1_v9 (V : Valuation τ sig (Elt F)) : (⟨S1024, .i32⟩ : BufTy).Contents (Elt F) :=
  (broadcastInDim S1024 ![] bcast_S_S1024) (kx_main_call1_c V)
def kx_main_call1_v10 (V : Valuation τ sig (Elt F)) : (⟨S1024, .i1⟩ : BufTy).Contents (Elt F) :=
  (cmpi .ne) (kx_main_call1_v8 V) (kx_main_call1_v9 V)
def kx_main_call1_v11 (V : Valuation τ sig (Elt F)) : (⟨S1024, .i1⟩ : BufTy).Contents (Elt F) :=
  andi (kx_main_call1_v6 V) (kx_main_call1_v10 V)
def kx_main_call1_c_0 (V : Valuation τ sig (Elt F)) : (⟨S_, .i32⟩ : BufTy).Contents (Elt F) :=
  (constantI S_ 32 1#32)
def kx_main_call1_v12 (V : Valuation τ sig (Elt F)) : (⟨S1024, .i32⟩ : BufTy).Contents (Elt F) :=
  (broadcastInDim S1024 ![] bcast_S_S1024) (kx_main_call1_c_0 V)
def kx_main_call1_v13 (V : Valuation τ sig (Elt F)) : (⟨S1024, .i32⟩ : BufTy).Contents (Elt F) :=
  subi (kx_main_call1_v2 V) (kx_main_call1_v12 V)
def kx_main_v17 (V : Valuation τ sig (Elt F)) : (⟨S1024, .i32⟩ : BufTy).Contents (Elt F) :=
  select (kx_main_call1_v11 V) (kx_main_call1_v13 V) (kx_main_call1_v2 V)
def kx_main_c_5 (V : Valuation τ sig (Elt F)) : (⟨S_, .i32⟩ : BufTy).Contents (Elt F) :=
  (constantI S_ 32 8#32)
def kx_main_call2_v0 (V : Valuation τ sig (Elt F)) : (⟨S_, .i32⟩ : BufTy).Contents (Elt F) :=
  id (kx_main_c_5 V)
def kx_main_call2_c (V : Valuation τ sig (Elt F)) : (⟨S_, .i32⟩ : BufTy).Contents (Elt F) :=
  (constantI S_ 32 0#32)
def kx_main_call2_v1 (V : Valuation τ sig (Elt F)) : (⟨S_, .i1⟩ : BufTy).Contents (Elt F) :=
  (cmpi .eq) (kx_main_call2_v0 V) (kx_main_call2_c V)
def kx_main_call2_c_0 (V : Valuation τ sig (Elt F)) : (⟨S_, .i32⟩ : BufTy).Contents (Elt F) :=
  (constantI S_ 32 1#32)
def kx_main_call2_v2 (V : Valuation τ sig (Elt F)) : (⟨S_, .i32⟩ : BufTy).Contents (Elt F) :=
  select (kx_main_call2_v1 V) (kx_main_call2_c_0 V) (kx_main_call2_v0 V)
def kx_main_call2_v3 (V : Valuation τ sig (Elt F)) : (⟨S1024, .i32⟩ : BufTy).Contents (Elt F) :=
  (broadcastInDim S1024 ![] bcast_S_S1024) (kx_main_call2_v2 V)
def kx_main_call2_v4 (V : Valuation τ sig (Elt F)) : (⟨S1024, .i32⟩ : BufTy).Contents (Elt F) :=
  Host.remsi (kx_main_v17 V) (kx_main_call2_v3 V)
def kx_main_call2_c_1 (V : Valuation τ sig (Elt F)) : (⟨S_, .i32⟩ : BufTy).Contents (Elt F) :=
  (constantI S_ 32 0#32)
def kx_main_call2_v5 (V : Valuation τ sig (Elt F)) : (⟨S1024, .i32⟩ : BufTy).Contents (Elt F) :=
  (broadcastInDim S1024 ![] bcast_S_S1024) (kx_main_call2_c_1 V)
def kx_main_call2_v6 (V : Valuation τ sig (Elt F)) : (⟨S1024, .i1⟩ : BufTy).Contents (Elt F) :=
  (cmpi .ne) (kx_main_call2_v4 V) (kx_main_call2_v5 V)
def kx_main_call2_c_2 (V : Valuation τ sig (Elt F)) : (⟨S_, .i32⟩ : BufTy).Contents (Elt F) :=
  (constantI S_ 32 0#32)
def kx_main_call2_v7 (V : Valuation τ sig (Elt F)) : (⟨S1024, .i32⟩ : BufTy).Contents (Elt F) :=
  (broadcastInDim S1024 ![] bcast_S_S1024) (kx_main_call2_c_2 V)
def kx_main_call2_v8 (V : Valuation τ sig (Elt F)) : (⟨S1024, .i1⟩ : BufTy).Contents (Elt F) :=
  (cmpi .slt) (kx_main_call2_v4 V) (kx_main_call2_v7 V)
def kx_main_call2_c_3 (V : Valuation τ sig (Elt F)) : (⟨S_, .i32⟩ : BufTy).Contents (Elt F) :=
  (constantI S_ 32 0#32)
def kx_main_call2_v9 (V : Valuation τ sig (Elt F)) : (⟨S_, .i1⟩ : BufTy).Contents (Elt F) :=
  (cmpi .slt) (kx_main_call2_v2 V) (kx_main_call2_c_3 V)
def kx_main_call2_v10 (V : Valuation τ sig (Elt F)) : (⟨S1024, .i1⟩ : BufTy).Contents (Elt F) :=
  (broadcastInDim S1024 ![] bcast_S_S1024) (kx_main_call2_v9 V)
def kx_main_call2_v11 (V : Valuation τ sig (Elt F)) : (⟨S1024, .i1⟩ : BufTy).Contents (Elt F) :=
  (cmpi .ne) (kx_main_call2_v8 V) (kx_main_call2_v10 V)
def kx_main_call2_v12 (V : Valuation τ sig (Elt F)) : (⟨S1024, .i1⟩ : BufTy).Contents (Elt F) :=
  andi (kx_main_call2_v11 V) (kx_main_call2_v6 V)
def kx_main_call2_v13 (V : Valuation τ sig (Elt F)) : (⟨S1024, .i32⟩ : BufTy).Contents (Elt F) :=
  (broadcastInDim S1024 ![] bcast_S_S1024) (kx_main_call2_v2 V)
def kx_main_call2_v14 (V : Valuation τ sig (Elt F)) : (⟨S1024, .i32⟩ : BufTy).Contents (Elt F) :=
  addi (kx_main_call2_v4 V) (kx_main_call2_v13 V)
def kx_main_v18 (V : Valuation τ sig (Elt F)) : (⟨S1024, .i32⟩ : BufTy).Contents (Elt F) :=
  select (kx_main_call2_v12 V) (kx_main_call2_v14 V) (kx_main_call2_v4 V)
def kx_main_c_6 (V : Valuation τ sig (Elt F)) : (⟨S_, .i32⟩ : BufTy).Contents (Elt F) :=
  (constantI S_ 32 0#32)
def kx_main_v19 (V : Valuation τ sig (Elt F)) : (⟨S1024, .i32⟩ : BufTy).Contents (Elt F) :=
  (broadcastInDim S1024 ![] bcast_S_S1024 : (⟨S_, .i32⟩ : BufTy).Contents (Elt F) → (⟨S1024, .i32⟩ : BufTy).Contents (Elt F)) (kx_main_c_6 V)
def kx_main_v20 (V : Valuation τ sig (Elt F)) : (⟨S1024, .i1⟩ : BufTy).Contents (Elt F) :=
  (cmpi .slt : (⟨S1024, .i32⟩ : BufTy).Contents (Elt F) → (⟨S1024, .i32⟩ : BufTy).Contents (Elt F) → (⟨S1024, .i1⟩ : BufTy).Contents (Elt F)) (kx_main_v18 V) (kx_main_v19 V)
def kx_main_c_7 (V : Valuation τ sig (Elt F)) : (⟨S_, .i32⟩ : BufTy).Contents (Elt F) :=
  (constantI S_ 32 8#32)
def kx_main_v21 (V : Valuation τ sig (Elt F)) : (⟨S1024, .i32⟩ : BufTy).Contents (Elt F) :=
  (broadcastInDim S1024 ![] bcast_S_S1024 : (⟨S_, .i32⟩ : BufTy).Contents (Elt F) → (⟨S1024, .i32⟩ : BufTy).Contents (Elt F)) (kx_main_c_7 V)
def kx_main_v22 (V : Valuation τ sig (Elt F)) : (⟨S1024, .i32⟩ : BufTy).Contents (Elt F) :=
  (addi : (⟨S1024, .i32⟩ : BufTy).Contents (Elt F) → (⟨S1024, .i32⟩ : BufTy).Contents (Elt F) → (⟨S1024, .i32⟩ : BufTy).Contents (Elt F)) (kx_main_v18 V) (kx_main_v21 V)
def kx_main_v23 (V : Valuation τ sig (Elt F)) : (⟨S1024, .i32⟩ : BufTy).Contents (Elt F) :=
  (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (kx_main_v20 V) (kx_main_v22 V) (kx_main_v18 V)
def kx_main_v24 (V : Valuation τ sig (Elt F)) : (⟨S1024x1, .i32⟩ : BufTy).Contents (Elt F) :=
  (broadcastInDim S1024x1 ![0] bcast_S1024_S1024x1_0 : (⟨S1024, .i32⟩ : BufTy).Contents (Elt F) → (⟨S1024x1, .i32⟩ : BufTy).Contents (Elt F)) (kx_main_v23 V)
def kx_main_v25 (V : Valuation τ sig (Elt F)) : (⟨S1024x8, .f32⟩ : BufTy).Contents (Elt F) :=
  ((fun x i => Host.gather gather_S8x8_S1024x1_S1024x8_1_0_n_n_0_1_18 x i) : (⟨S8x8, .f32⟩ : BufTy).Contents (Elt F) → (⟨S1024x1, .i32⟩ : BufTy).Contents (Elt F) → (⟨S1024x8, .f32⟩ : BufTy).Contents (Elt F)) (V (Proc.devRef .tc main_arg10)) (kx_main_v24 V)
def kx_main_c_8 (V : Valuation τ sig (Elt F)) : (⟨S_, .i32⟩ : BufTy).Contents (Elt F) :=
  (constantI S_ 32 32#32)
def kx_main_call3_v0 (V : Valuation τ sig (Elt F)) : (⟨S_, .i32⟩ : BufTy).Contents (Elt F) :=
  id (kx_main_c_8 V)
def kx_main_call3_c (V : Valuation τ sig (Elt F)) : (⟨S_, .i32⟩ : BufTy).Contents (Elt F) :=
  (constantI S_ 32 0#32)
def kx_main_call3_v1 (V : Valuation τ sig (Elt F)) : (⟨S_, .i1⟩ : BufTy).Contents (Elt F) :=
  (cmpi .eq) (kx_main_call3_v0 V) (kx_main_call3_c V)
def kx_main_call3_c_0 (V : Valuation τ sig (Elt F)) : (⟨S_, .i32⟩ : BufTy).Contents (Elt F) :=
  (constantI S_ 32 1#32)
def kx_main_call3_v2 (V : Valuation τ sig (Elt F)) : (⟨S_, .i32⟩ : BufTy).Contents (Elt F) :=
  select (kx_main_call3_v1 V) (kx_main_call3_c_0 V) (kx_main_call3_v0 V)
def kx_main_call3_v3 (V : Valuation τ sig (Elt F)) : (⟨S1024, .i32⟩ : BufTy).Contents (Elt F) :=
  (broadcastInDim S1024 ![] bcast_S_S1024) (kx_main_call3_v2 V)
def kx_main_call3_v4 (V : Valuation τ sig (Elt F)) : (⟨S1024, .i32⟩ : BufTy).Contents (Elt F) :=
  Host.remsi (kx_main_v8 V) (kx_main_call3_v3 V)
def kx_main_call3_c_1 (V : Valuation τ sig (Elt F)) : (⟨S_, .i32⟩ : BufTy).Contents (Elt F) :=
  (constantI S_ 32 0#32)
def kx_main_call3_v5 (V : Valuation τ sig (Elt F)) : (⟨S1024, .i32⟩ : BufTy).Contents (Elt F) :=
  (broadcastInDim S1024 ![] bcast_S_S1024) (kx_main_call3_c_1 V)
def kx_main_call3_v6 (V : Valuation τ sig (Elt F)) : (⟨S1024, .i1⟩ : BufTy).Contents (Elt F) :=
  (cmpi .ne) (kx_main_call3_v4 V) (kx_main_call3_v5 V)
def kx_main_call3_c_2 (V : Valuation τ sig (Elt F)) : (⟨S_, .i32⟩ : BufTy).Contents (Elt F) :=
  (constantI S_ 32 0#32)
def kx_main_call3_v7 (V : Valuation τ sig (Elt F)) : (⟨S1024, .i32⟩ : BufTy).Contents (Elt F) :=
  (broadcastInDim S1024 ![] bcast_S_S1024) (kx_main_call3_c_2 V)
def kx_main_call3_v8 (V : Valuation τ sig (Elt F)) : (⟨S1024, .i1⟩ : BufTy).Contents (Elt F) :=
  (cmpi .slt) (kx_main_call3_v4 V) (kx_main_call3_v7 V)
def kx_main_call3_c_3 (V : Valuation τ sig (Elt F)) : (⟨S_, .i32⟩ : BufTy).Contents (Elt F) :=
  (constantI S_ 32 0#32)
def kx_main_call3_v9 (V : Valuation τ sig (Elt F)) : (⟨S_, .i1⟩ : BufTy).Contents (Elt F) :=
  (cmpi .slt) (kx_main_call3_v2 V) (kx_main_call3_c_3 V)
def kx_main_call3_v10 (V : Valuation τ sig (Elt F)) : (⟨S1024, .i1⟩ : BufTy).Contents (Elt F) :=
  (broadcastInDim S1024 ![] bcast_S_S1024) (kx_main_call3_v9 V)
def kx_main_call3_v11 (V : Valuation τ sig (Elt F)) : (⟨S1024, .i1⟩ : BufTy).Contents (Elt F) :=
  (cmpi .ne) (kx_main_call3_v8 V) (kx_main_call3_v10 V)
def kx_main_call3_v12 (V : Valuation τ sig (Elt F)) : (⟨S1024, .i1⟩ : BufTy).Contents (Elt F) :=
  andi (kx_main_call3_v11 V) (kx_main_call3_v6 V)
def kx_main_call3_v13 (V : Valuation τ sig (Elt F)) : (⟨S1024, .i32⟩ : BufTy).Contents (Elt F) :=
  (broadcastInDim S1024 ![] bcast_S_S1024) (kx_main_call3_v2 V)
def kx_main_call3_v14 (V : Valuation τ sig (Elt F)) : (⟨S1024, .i32⟩ : BufTy).Contents (Elt F) :=
  addi (kx_main_call3_v4 V) (kx_main_call3_v13 V)
def kx_main_v26 (V : Valuation τ sig (Elt F)) : (⟨S1024, .i32⟩ : BufTy).Contents (Elt F) :=
  select (kx_main_call3_v12 V) (kx_main_call3_v14 V) (kx_main_call3_v4 V)
def kx_main_c_9 (V : Valuation τ sig (Elt F)) : (⟨S_, .i32⟩ : BufTy).Contents (Elt F) :=
  (constantI S_ 32 0#32)
def kx_main_v27 (V : Valuation τ sig (Elt F)) : (⟨S1024, .i32⟩ : BufTy).Contents (Elt F) :=
  (broadcastInDim S1024 ![] bcast_S_S1024 : (⟨S_, .i32⟩ : BufTy).Contents (Elt F) → (⟨S1024, .i32⟩ : BufTy).Contents (Elt F)) (kx_main_c_9 V)
def kx_main_v28 (V : Valuation τ sig (Elt F)) : (⟨S1024, .i1⟩ : BufTy).Contents (Elt F) :=
  (cmpi .slt : (⟨S1024, .i32⟩ : BufTy).Contents (Elt F) → (⟨S1024, .i32⟩ : BufTy).Contents (Elt F) → (⟨S1024, .i1⟩ : BufTy).Contents (Elt F)) (kx_main_v26 V) (kx_main_v27 V)
def kx_main_c_10 (V : Valuation τ sig (Elt F)) : (⟨S_, .i32⟩ : BufTy).Contents (Elt F) :=
  (constantI S_ 32 32#32)
def kx_main_v29 (V : Valuation τ sig (Elt F)) : (⟨S1024, .i32⟩ : BufTy).Contents (Elt F) :=
  (broadcastInDim S1024 ![] bcast_S_S1024 : (⟨S_, .i32⟩ : BufTy).Contents (Elt F) → (⟨S1024, .i32⟩ : BufTy).Contents (Elt F)) (kx_main_c_10 V)
def kx_main_v30 (V : Valuation τ sig (Elt F)) : (⟨S1024, .i32⟩ : BufTy).Contents (Elt F) :=
  (addi : (⟨S1024, .i32⟩ : BufTy).Contents (Elt F) → (⟨S1024, .i32⟩ : BufTy).Contents (Elt F) → (⟨S1024, .i32⟩ : BufTy).Contents (Elt F)) (kx_main_v26 V) (kx_main_v29 V)
def kx_main_v31 (V : Valuation τ sig (Elt F)) : (⟨S1024, .i32⟩ : BufTy).Contents (Elt F) :=
  (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) (kx_main_v28 V) (kx_main_v30 V) (kx_main_v26 V)
def kx_main_v32 (V : Valuation τ sig (Elt F)) : (⟨S1024x1, .i32⟩ : BufTy).Contents (Elt F) :=
  (broadcastInDim S1024x1 ![0] bcast_S1024_S1024x1_0 : (⟨S1024, .i32⟩ : BufTy).Contents (Elt F) → (⟨S1024x1, .i32⟩ : BufTy).Contents (Elt F)) (kx_main_v31 V)
def kx_main_v33 (V : Valuation τ sig (Elt F)) : (⟨S1024x16, .f32⟩ : BufTy).Contents (Elt F) :=
  ((fun x i => Host.gather gather_S32x16_S1024x1_S1024x16_1_0_n_n_0_1_116 x i) : (⟨S32x16, .f32⟩ : BufTy).Contents (Elt F) → (⟨S1024x1, .i32⟩ : BufTy).Contents (Elt F) → (⟨S1024x16, .f32⟩ : BufTy).Contents (Elt F)) (V (Proc.devRef .tc main_arg11)) (kx_main_v32 V)
def kx_main_cst (V : Valuation τ sig (Elt F)) : (⟨S_, .f32⟩ : BufTy).Contents (Elt F) :=
  (constant S_ .f32 0x00000000#32)
def kx_main_v34 (V : Valuation τ sig (Elt F)) : (⟨S1024x96, .f32⟩ : BufTy).Contents (Elt F) :=
  (broadcastInDim S1024x96 ![] bcast_S_S1024x96 : (⟨S_, .f32⟩ : BufTy).Contents (Elt F) → (⟨S1024x96, .f32⟩ : BufTy).Contents (Elt F)) (kx_main_cst V)
def kx_main_v35 (V : Valuation τ sig (Elt F)) : (⟨S1024x128, .f32⟩ : BufTy).Contents (Elt F) :=
  concatenate S1024x128 1 [⟨S1024x8, kx_main_v16 V⟩, ⟨S1024x8, kx_main_v25 V⟩, ⟨S1024x16, kx_main_v33 V⟩, ⟨S1024x96, kx_main_v34 V⟩] concatenates_S1024x8_S1024x8_S1024x16_S1024x96_S1024x128_d1
def valA0 (V : Valuation τ sig (Elt F)) : Valuation τ sig (Elt F) := V
theorem valA0_main_arg1 (V : Valuation τ sig (Elt F)) : valA0 V (no_index (Proc.devRef .tc main_arg1)) = V (Proc.devRef .tc main_arg1) := rfl
theorem valA0_main_arg2 (V : Valuation τ sig (Elt F)) : valA0 V (no_index (Proc.devRef .tc main_arg2)) = V (Proc.devRef .tc main_arg2) := rfl
theorem valA0_main_arg3 (V : Valuation τ sig (Elt F)) : valA0 V (no_index (Proc.devRef .tc main_arg3)) = V (Proc.devRef .tc main_arg3) := rfl
theorem valA0_main_arg0 (V : Valuation τ sig (Elt F)) : valA0 V (no_index (Proc.devRef .tc main_arg0)) = V (Proc.devRef .tc main_arg0) := rfl
theorem valA0_main_arg4 (V : Valuation τ sig (Elt F)) : valA0 V (no_index (Proc.devRef .tc main_arg4)) = V (Proc.devRef .tc main_arg4) := rfl
theorem valA0_main_arg8 (V : Valuation τ sig (Elt F)) : valA0 V (no_index (Proc.devRef .tc main_arg8)) = V (Proc.devRef .tc main_arg8) := rfl
theorem valA0_main_arg12 (V : Valuation τ sig (Elt F)) : valA0 V (no_index (Proc.devRef .tc main_arg12)) = V (Proc.devRef .tc main_arg12) := rfl
theorem valA0_main_arg9 (V : Valuation τ sig (Elt F)) : valA0 V (no_index (Proc.devRef .tc main_arg9)) = V (Proc.devRef .tc main_arg9) := rfl
theorem valA0_main_arg10 (V : Valuation τ sig (Elt F)) : valA0 V (no_index (Proc.devRef .tc main_arg10)) = V (Proc.devRef .tc main_arg10) := rfl
theorem valA0_main_arg11 (V : Valuation τ sig (Elt F)) : valA0 V (no_index (Proc.devRef .tc main_arg11)) = V (Proc.devRef .tc main_arg11) := rfl

def valA1 (V : Valuation τ sig (Elt F)) : Valuation τ sig (Elt F) := after kwA_0 (valA0 V)
theorem valA1_keep (V : Valuation τ sig (Elt F)) (r : Ref sig .tc) (h : r ∉ kwA_0_W) :
    valA1 V (Proc.devRef .tc r) = valA0 V (Proc.devRef .tc r) :=
  after_of_writes_sub kwA_0 _ kwA_0_writes h
theorem valA1_main_arg9 (V : Valuation τ sig (Elt F)) : valA1 V (no_index (Proc.devRef .tc main_arg9)) = V (Proc.devRef .tc main_arg9) :=
  (valA1_keep V main_arg9 (by decide)).trans (valA0_main_arg9 V)
theorem valA1_main_arg10 (V : Valuation τ sig (Elt F)) : valA1 V (no_index (Proc.devRef .tc main_arg10)) = V (Proc.devRef .tc main_arg10) :=
  (valA1_keep V main_arg10 (by decide)).trans (valA0_main_arg10 V)
theorem valA1_main_arg11 (V : Valuation τ sig (Elt F)) : valA1 V (no_index (Proc.devRef .tc main_arg11)) = V (Proc.devRef .tc main_arg11) :=
  (valA1_keep V main_arg11 (by decide)).trans (valA0_main_arg11 V)
set_option maxRecDepth 8192 in
set_option maxHeartbeats 2000000 in
theorem valA1_main_v6 (V : Valuation τ sig (Elt F)) : valA1 V (no_index (Proc.devRef .tc main_v6)) = kx_main_v6 V := by
  unfold valA1
  simp only [kwA_0]
  after_results_simp
  try dsimp only [Matrix.cons_val]
  try reads_rwA
  try simp only [valA0_main_arg3, valA0_main_arg2, valA0_main_arg1, valA0_main_arg4, valA0_main_arg0]
  try rw [valA0_main_arg3]
  try rw [valA0_main_arg2]
  try rw [valA0_main_arg1]
  try rw [valA0_main_arg4]
  try rw [valA0_main_arg0]
  rfl
set_option maxRecDepth 8192 in
set_option maxHeartbeats 2000000 in
theorem valA1_main_v7 (V : Valuation τ sig (Elt F)) : valA1 V (no_index (Proc.devRef .tc main_v7)) = kx_main_v7 V := by
  unfold valA1
  simp only [kwA_0]
  after_results_simp
  try dsimp only [Matrix.cons_val]
  try reads_rwA
  try simp only [valA0_main_arg12, valA0_main_arg8]
  try rw [valA0_main_arg12]
  try rw [valA0_main_arg8]
  rfl
set_option maxRecDepth 8192 in
set_option maxHeartbeats 2000000 in
theorem valA1_main_v8 (V : Valuation τ sig (Elt F)) : valA1 V (no_index (Proc.devRef .tc main_v8)) = kx_main_v8 V := by
  unfold valA1
  simp only [kwA_0]
  after_results_simp
  try dsimp only [Matrix.cons_val]
  try reads_rwA
  rfl

def valA2 (V : Valuation τ sig (Elt F)) : Valuation τ sig (Elt F) := after kwA_1 (valA1 V)
theorem valA2_keep (V : Valuation τ sig (Elt F)) (r : Ref sig .tc) (h : r ∉ kwA_1_W) :
    valA2 V (Proc.devRef .tc r) = valA1 V (Proc.devRef .tc r) :=
  after_of_writes_sub kwA_1 _ kwA_1_writes h
theorem valA2_main_arg9 (V : Valuation τ sig (Elt F)) : valA2 V (no_index (Proc.devRef .tc main_arg9)) = V (Proc.devRef .tc main_arg9) :=
  (valA2_keep V main_arg9 (by decide)).trans (valA1_main_arg9 V)
theorem valA2_main_arg10 (V : Valuation τ sig (Elt F)) : valA2 V (no_index (Proc.devRef .tc main_arg10)) = V (Proc.devRef .tc main_arg10) :=
  (valA2_keep V main_arg10 (by decide)).trans (valA1_main_arg10 V)
theorem valA2_main_arg11 (V : Valuation τ sig (Elt F)) : valA2 V (no_index (Proc.devRef .tc main_arg11)) = V (Proc.devRef .tc main_arg11) :=
  (valA2_keep V main_arg11 (by decide)).trans (valA1_main_arg11 V)
theorem valA2_main_v6 (V : Valuation τ sig (Elt F)) : valA2 V (no_index (Proc.devRef .tc main_v6)) = kx_main_v6 V :=
  (valA2_keep V main_v6 (by decide)).trans (valA1_main_v6 V)
theorem valA2_main_v7 (V : Valuation τ sig (Elt F)) : valA2 V (no_index (Proc.devRef .tc main_v7)) = kx_main_v7 V :=
  (valA2_keep V main_v7 (by decide)).trans (valA1_main_v7 V)
theorem valA2_main_v8 (V : Valuation τ sig (Elt F)) : valA2 V (no_index (Proc.devRef .tc main_v8)) = kx_main_v8 V :=
  (valA2_keep V main_v8 (by decide)).trans (valA1_main_v8 V)
set_option maxRecDepth 8192 in
set_option maxHeartbeats 2000000 in
theorem valA2_main_call0_v2 (V : Valuation τ sig (Elt F)) : valA2 V (no_index (Proc.devRef .tc main_call0_v2)) = kx_main_call0_v2 V := by
  unfold valA2
  simp only [kwA_1]
  after_results_simp
  simp only [valA1_main_v8]
  rfl
set_option maxRecDepth 8192 in
set_option maxHeartbeats 2000000 in
theorem valA2_main_call0_v6 (V : Valuation τ sig (Elt F)) : valA2 V (no_index (Proc.devRef .tc main_call0_v6)) = kx_main_call0_v6 V := by
  unfold valA2
  simp only [kwA_1]
  after_results_simp
  simp only [valA1_main_v8]
  rfl
set_option maxRecDepth 8192 in
set_option maxHeartbeats 2000000 in
theorem valA2_main_call0_v8 (V : Valuation τ sig (Elt F)) : valA2 V (no_index (Proc.devRef .tc main_call0_v8)) = kx_main_call0_v8 V := by
  unfold valA2
  simp only [kwA_1]
  after_results_simp
  simp only [valA1_main_v8]
  rfl
set_option maxRecDepth 8192 in
set_option maxHeartbeats 2000000 in
theorem valA2_main_call0_c (V : Valuation τ sig (Elt F)) : valA2 V (no_index (Proc.devRef .tc main_call0_c)) = kx_main_call0_c V := by
  unfold valA2
  simp only [kwA_1]
  after_results_simp
  rfl

def valA3 (V : Valuation τ sig (Elt F)) : Valuation τ sig (Elt F) := after kwA_2 (valA2 V)
theorem valA3_keep (V : Valuation τ sig (Elt F)) (r : Ref sig .tc) (h : r ∉ kwA_2_W) :
    valA3 V (Proc.devRef .tc r) = valA2 V (Proc.devRef .tc r) :=
  after_of_writes_sub kwA_2 _ kwA_2_writes h
theorem valA3_main_arg9 (V : Valuation τ sig (Elt F)) : valA3 V (no_index (Proc.devRef .tc main_arg9)) = V (Proc.devRef .tc main_arg9) :=
  (valA3_keep V main_arg9 (by decide)).trans (valA2_main_arg9 V)
theorem valA3_main_arg10 (V : Valuation τ sig (Elt F)) : valA3 V (no_index (Proc.devRef .tc main_arg10)) = V (Proc.devRef .tc main_arg10) :=
  (valA3_keep V main_arg10 (by decide)).trans (valA2_main_arg10 V)
theorem valA3_main_arg11 (V : Valuation τ sig (Elt F)) : valA3 V (no_index (Proc.devRef .tc main_arg11)) = V (Proc.devRef .tc main_arg11) :=
  (valA3_keep V main_arg11 (by decide)).trans (valA2_main_arg11 V)
theorem valA3_main_v6 (V : Valuation τ sig (Elt F)) : valA3 V (no_index (Proc.devRef .tc main_v6)) = kx_main_v6 V :=
  (valA3_keep V main_v6 (by decide)).trans (valA2_main_v6 V)
theorem valA3_main_v7 (V : Valuation τ sig (Elt F)) : valA3 V (no_index (Proc.devRef .tc main_v7)) = kx_main_v7 V :=
  (valA3_keep V main_v7 (by decide)).trans (valA2_main_v7 V)
theorem valA3_main_v8 (V : Valuation τ sig (Elt F)) : valA3 V (no_index (Proc.devRef .tc main_v8)) = kx_main_v8 V :=
  (valA3_keep V main_v8 (by decide)).trans (valA2_main_v8 V)
set_option maxRecDepth 8192 in
set_option maxHeartbeats 2000000 in
theorem valA3_main_v9 (V : Valuation τ sig (Elt F)) : valA3 V (no_index (Proc.devRef .tc main_v9)) = kx_main_v9 V := by
  unfold valA3
  simp only [kwA_2]
  after_results_simp
  simp only [valA2_main_call0_v2, valA2_main_call0_c, valA2_main_call0_v8, valA2_main_call0_v6]
  rfl
set_option maxRecDepth 8192 in
set_option maxHeartbeats 2000000 in
theorem valA3_main_v11 (V : Valuation τ sig (Elt F)) : valA3 V (no_index (Proc.devRef .tc main_v11)) = kx_main_v11 V := by
  unfold valA3
  simp only [kwA_2]
  after_results_simp
  simp only [valA2_main_call0_v2, valA2_main_call0_c, valA2_main_call0_v8, valA2_main_call0_v6]
  rfl
set_option maxRecDepth 8192 in
set_option maxHeartbeats 2000000 in
theorem valA3_main_c_3 (V : Valuation τ sig (Elt F)) : valA3 V (no_index (Proc.devRef .tc main_c_3)) = kx_main_c_3 V := by
  unfold valA3
  simp only [kwA_2]
  after_results_simp
  rfl

def valA4 (V : Valuation τ sig (Elt F)) : Valuation τ sig (Elt F) := after kwA_3 (valA3 V)
theorem valA4_keep (V : Valuation τ sig (Elt F)) (r : Ref sig .tc) (h : r ∉ kwA_3_W) :
    valA4 V (Proc.devRef .tc r) = valA3 V (Proc.devRef .tc r) :=
  after_of_writes_sub kwA_3 _ kwA_3_writes h
theorem valA4_main_arg10 (V : Valuation τ sig (Elt F)) : valA4 V (no_index (Proc.devRef .tc main_arg10)) = V (Proc.devRef .tc main_arg10) :=
  (valA4_keep V main_arg10 (by decide)).trans (valA3_main_arg10 V)
theorem valA4_main_arg11 (V : Valuation τ sig (Elt F)) : valA4 V (no_index (Proc.devRef .tc main_arg11)) = V (Proc.devRef .tc main_arg11) :=
  (valA4_keep V main_arg11 (by decide)).trans (valA3_main_arg11 V)
theorem valA4_main_v6 (V : Valuation τ sig (Elt F)) : valA4 V (no_index (Proc.devRef .tc main_v6)) = kx_main_v6 V :=
  (valA4_keep V main_v6 (by decide)).trans (valA3_main_v6 V)
theorem valA4_main_v7 (V : Valuation τ sig (Elt F)) : valA4 V (no_index (Proc.devRef .tc main_v7)) = kx_main_v7 V :=
  (valA4_keep V main_v7 (by decide)).trans (valA3_main_v7 V)
theorem valA4_main_v8 (V : Valuation τ sig (Elt F)) : valA4 V (no_index (Proc.devRef .tc main_v8)) = kx_main_v8 V :=
  (valA4_keep V main_v8 (by decide)).trans (valA3_main_v8 V)
set_option maxRecDepth 8192 in
set_option maxHeartbeats 2000000 in
theorem valA4_main_v16 (V : Valuation τ sig (Elt F)) : valA4 V (no_index (Proc.devRef .tc main_v16)) = kx_main_v16 V := by
  unfold valA4
  simp only [kwA_3]
  after_results_simp
  simp only [valA3_main_v9, valA3_main_c_3, valA3_main_v11, valA3_main_arg9]
  rfl
set_option maxRecDepth 8192 in
set_option maxHeartbeats 2000000 in
theorem valA4_main_call1_v0 (V : Valuation τ sig (Elt F)) : valA4 V (no_index (Proc.devRef .tc main_call1_v0)) = kx_main_call1_v0 V := by
  unfold valA4
  simp only [kwA_3]
  after_results_simp
  rfl
set_option maxRecDepth 8192 in
set_option maxHeartbeats 2000000 in
theorem valA4_main_call1_v2 (V : Valuation τ sig (Elt F)) : valA4 V (no_index (Proc.devRef .tc main_call1_v2)) = kx_main_call1_v2 V := by
  unfold valA4
  simp only [kwA_3]
  after_results_simp
  simp only [valA3_main_v8]
  rfl
set_option maxRecDepth 8192 in
set_option maxHeartbeats 2000000 in
theorem valA4_main_call1_v3 (V : Valuation τ sig (Elt F)) : valA4 V (no_index (Proc.devRef .tc main_call1_v3)) = kx_main_call1_v3 V := by
  unfold valA4
  simp only [kwA_3]
  after_results_simp
  simp only [valA3_main_v8]
  rfl
set_option maxRecDepth 8192 in
set_option maxHeartbeats 2000000 in
theorem valA4_main_call1_v4 (V : Valuation τ sig (Elt F)) : valA4 V (no_index (Proc.devRef .tc main_call1_v4)) = kx_main_call1_v4 V := by
  unfold valA4
  simp only [kwA_3]
  after_results_simp
  rfl

def valA5 (V : Valuation τ sig (Elt F)) : Valuation τ sig (Elt F) := after kwA_4 (valA4 V)
theorem valA5_keep (V : Valuation τ sig (Elt F)) (r : Ref sig .tc) (h : r ∉ kwA_4_W) :
    valA5 V (Proc.devRef .tc r) = valA4 V (Proc.devRef .tc r) :=
  after_of_writes_sub kwA_4 _ kwA_4_writes h
theorem valA5_main_arg10 (V : Valuation τ sig (Elt F)) : valA5 V (no_index (Proc.devRef .tc main_arg10)) = V (Proc.devRef .tc main_arg10) :=
  (valA5_keep V main_arg10 (by decide)).trans (valA4_main_arg10 V)
theorem valA5_main_arg11 (V : Valuation τ sig (Elt F)) : valA5 V (no_index (Proc.devRef .tc main_arg11)) = V (Proc.devRef .tc main_arg11) :=
  (valA5_keep V main_arg11 (by decide)).trans (valA4_main_arg11 V)
theorem valA5_main_v6 (V : Valuation τ sig (Elt F)) : valA5 V (no_index (Proc.devRef .tc main_v6)) = kx_main_v6 V :=
  (valA5_keep V main_v6 (by decide)).trans (valA4_main_v6 V)
theorem valA5_main_v7 (V : Valuation τ sig (Elt F)) : valA5 V (no_index (Proc.devRef .tc main_v7)) = kx_main_v7 V :=
  (valA5_keep V main_v7 (by decide)).trans (valA4_main_v7 V)
theorem valA5_main_v8 (V : Valuation τ sig (Elt F)) : valA5 V (no_index (Proc.devRef .tc main_v8)) = kx_main_v8 V :=
  (valA5_keep V main_v8 (by decide)).trans (valA4_main_v8 V)
theorem valA5_main_v16 (V : Valuation τ sig (Elt F)) : valA5 V (no_index (Proc.devRef .tc main_v16)) = kx_main_v16 V :=
  (valA5_keep V main_v16 (by decide)).trans (valA4_main_v16 V)
theorem valA5_main_call1_v2 (V : Valuation τ sig (Elt F)) : valA5 V (no_index (Proc.devRef .tc main_call1_v2)) = kx_main_call1_v2 V :=
  (valA5_keep V main_call1_v2 (by decide)).trans (valA4_main_call1_v2 V)
set_option maxRecDepth 8192 in
set_option maxHeartbeats 2000000 in
theorem valA5_main_call1_v11 (V : Valuation τ sig (Elt F)) : valA5 V (no_index (Proc.devRef .tc main_call1_v11)) = kx_main_call1_v11 V := by
  unfold valA5
  simp only [kwA_4]
  after_results_simp
  simp only [valA4_main_call1_v0, valA4_main_v8, valA4_main_call1_v4, valA4_main_call1_v3]
  rfl
set_option maxRecDepth 8192 in
set_option maxHeartbeats 2000000 in
theorem valA5_main_call1_v13 (V : Valuation τ sig (Elt F)) : valA5 V (no_index (Proc.devRef .tc main_call1_v13)) = kx_main_call1_v13 V := by
  unfold valA5
  simp only [kwA_4]
  after_results_simp
  simp only [valA4_main_call1_v2]
  rfl

def valA6 (V : Valuation τ sig (Elt F)) : Valuation τ sig (Elt F) := after kwA_5 (valA5 V)
theorem valA6_keep (V : Valuation τ sig (Elt F)) (r : Ref sig .tc) (h : r ∉ kwA_5_W) :
    valA6 V (Proc.devRef .tc r) = valA5 V (Proc.devRef .tc r) :=
  after_of_writes_sub kwA_5 _ kwA_5_writes h
theorem valA6_main_arg10 (V : Valuation τ sig (Elt F)) : valA6 V (no_index (Proc.devRef .tc main_arg10)) = V (Proc.devRef .tc main_arg10) :=
  (valA6_keep V main_arg10 (by decide)).trans (valA5_main_arg10 V)
theorem valA6_main_arg11 (V : Valuation τ sig (Elt F)) : valA6 V (no_index (Proc.devRef .tc main_arg11)) = V (Proc.devRef .tc main_arg11) :=
  (valA6_keep V main_arg11 (by decide)).trans (valA5_main_arg11 V)
theorem valA6_main_v6 (V : Valuation τ sig (Elt F)) : valA6 V (no_index (Proc.devRef .tc main_v6)) = kx_main_v6 V :=
  (valA6_keep V main_v6 (by decide)).trans (valA5_main_v6 V)
theorem valA6_main_v7 (V : Valuation τ sig (Elt F)) : valA6 V (no_index (Proc.devRef .tc main_v7)) = kx_main_v7 V :=
  (valA6_keep V main_v7 (by decide)).trans (valA5_main_v7 V)
theorem valA6_main_v8 (V : Valuation τ sig (Elt F)) : valA6 V (no_index (Proc.devRef .tc main_v8)) = kx_main_v8 V :=
  (valA6_keep V main_v8 (by decide)).trans (valA5_main_v8 V)
theorem valA6_main_v16 (V : Valuation τ sig (Elt F)) : valA6 V (no_index (Proc.devRef .tc main_v16)) = kx_main_v16 V :=
  (valA6_keep V main_v16 (by decide)).trans (valA5_main_v16 V)
set_option maxRecDepth 8192 in
set_option maxHeartbeats 2000000 in
theorem valA6_main_call2_v2 (V : Valuation τ sig (Elt F)) : valA6 V (no_index (Proc.devRef .tc main_call2_v2)) = kx_main_call2_v2 V := by
  unfold valA6
  simp only [kwA_5]
  after_results_simp
  rfl
set_option maxRecDepth 8192 in
set_option maxHeartbeats 2000000 in
theorem valA6_main_call2_v4 (V : Valuation τ sig (Elt F)) : valA6 V (no_index (Proc.devRef .tc main_call2_v4)) = kx_main_call2_v4 V := by
  unfold valA6
  simp only [kwA_5]
  after_results_simp
  simp only [valA5_main_call1_v2, valA5_main_call1_v13, valA5_main_call1_v11]
  rfl
set_option maxRecDepth 8192 in
set_option maxHeartbeats 2000000 in
theorem valA6_main_call2_v5 (V : Valuation τ sig (Elt F)) : valA6 V (no_index (Proc.devRef .tc main_call2_v5)) = kx_main_call2_v5 V := by
  unfold valA6
  simp only [kwA_5]
  after_results_simp
  rfl

def valA7 (V : Valuation τ sig (Elt F)) : Valuation τ sig (Elt F) := after kwA_6 (valA6 V)
theorem valA7_keep (V : Valuation τ sig (Elt F)) (r : Ref sig .tc) (h : r ∉ kwA_6_W) :
    valA7 V (Proc.devRef .tc r) = valA6 V (Proc.devRef .tc r) :=
  after_of_writes_sub kwA_6 _ kwA_6_writes h
theorem valA7_main_arg10 (V : Valuation τ sig (Elt F)) : valA7 V (no_index (Proc.devRef .tc main_arg10)) = V (Proc.devRef .tc main_arg10) :=
  (valA7_keep V main_arg10 (by decide)).trans (valA6_main_arg10 V)
theorem valA7_main_arg11 (V : Valuation τ sig (Elt F)) : valA7 V (no_index (Proc.devRef .tc main_arg11)) = V (Proc.devRef .tc main_arg11) :=
  (valA7_keep V main_arg11 (by decide)).trans (valA6_main_arg11 V)
theorem valA7_main_v6 (V : Valuation τ sig (Elt F)) : valA7 V (no_index (Proc.devRef .tc main_v6)) = kx_main_v6 V :=
  (valA7_keep V main_v6 (by decide)).trans (valA6_main_v6 V)
theorem valA7_main_v7 (V : Valuation τ sig (Elt F)) : valA7 V (no_index (Proc.devRef .tc main_v7)) = kx_main_v7 V :=
  (valA7_keep V main_v7 (by decide)).trans (valA6_main_v7 V)
theorem valA7_main_v8 (V : Valuation τ sig (Elt F)) : valA7 V (no_index (Proc.devRef .tc main_v8)) = kx_main_v8 V :=
  (valA7_keep V main_v8 (by decide)).trans (valA6_main_v8 V)
theorem valA7_main_v16 (V : Valuation τ sig (Elt F)) : valA7 V (no_index (Proc.devRef .tc main_v16)) = kx_main_v16 V :=
  (valA7_keep V main_v16 (by decide)).trans (valA6_main_v16 V)
theorem valA7_main_call2_v4 (V : Valuation τ sig (Elt F)) : valA7 V (no_index (Proc.devRef .tc main_call2_v4)) = kx_main_call2_v4 V :=
  (valA7_keep V main_call2_v4 (by decide)).trans (valA6_main_call2_v4 V)
set_option maxRecDepth 8192 in
set_option maxHeartbeats 2000000 in
theorem valA7_main_call2_v12 (V : Valuation τ sig (Elt F)) : valA7 V (no_index (Proc.devRef .tc main_call2_v12)) = kx_main_call2_v12 V := by
  unfold valA7
  simp only [kwA_6]
  after_results_simp
  simp only [valA6_main_call2_v5, valA6_main_call2_v4, valA6_main_call2_v2]
  rfl
set_option maxRecDepth 8192 in
set_option maxHeartbeats 2000000 in
theorem valA7_main_call2_v14 (V : Valuation τ sig (Elt F)) : valA7 V (no_index (Proc.devRef .tc main_call2_v14)) = kx_main_call2_v14 V := by
  unfold valA7
  simp only [kwA_6]
  after_results_simp
  simp only [valA6_main_call2_v2, valA6_main_call2_v4]
  rfl

def valA8 (V : Valuation τ sig (Elt F)) : Valuation τ sig (Elt F) := after kwA_7 (valA7 V)
theorem valA8_keep (V : Valuation τ sig (Elt F)) (r : Ref sig .tc) (h : r ∉ kwA_7_W) :
    valA8 V (Proc.devRef .tc r) = valA7 V (Proc.devRef .tc r) :=
  after_of_writes_sub kwA_7 _ kwA_7_writes h
theorem valA8_main_arg11 (V : Valuation τ sig (Elt F)) : valA8 V (no_index (Proc.devRef .tc main_arg11)) = V (Proc.devRef .tc main_arg11) :=
  (valA8_keep V main_arg11 (by decide)).trans (valA7_main_arg11 V)
theorem valA8_main_v6 (V : Valuation τ sig (Elt F)) : valA8 V (no_index (Proc.devRef .tc main_v6)) = kx_main_v6 V :=
  (valA8_keep V main_v6 (by decide)).trans (valA7_main_v6 V)
theorem valA8_main_v7 (V : Valuation τ sig (Elt F)) : valA8 V (no_index (Proc.devRef .tc main_v7)) = kx_main_v7 V :=
  (valA8_keep V main_v7 (by decide)).trans (valA7_main_v7 V)
theorem valA8_main_v8 (V : Valuation τ sig (Elt F)) : valA8 V (no_index (Proc.devRef .tc main_v8)) = kx_main_v8 V :=
  (valA8_keep V main_v8 (by decide)).trans (valA7_main_v8 V)
theorem valA8_main_v16 (V : Valuation τ sig (Elt F)) : valA8 V (no_index (Proc.devRef .tc main_v16)) = kx_main_v16 V :=
  (valA8_keep V main_v16 (by decide)).trans (valA7_main_v16 V)
set_option maxRecDepth 8192 in
set_option maxHeartbeats 2000000 in
theorem valA8_main_v25 (V : Valuation τ sig (Elt F)) : valA8 V (no_index (Proc.devRef .tc main_v25)) = kx_main_v25 V := by
  unfold valA8
  simp only [kwA_7]
  after_results_simp
  simp only [valA7_main_call2_v4, valA7_main_call2_v14, valA7_main_call2_v12, valA7_main_arg10]
  rfl
set_option maxRecDepth 8192 in
set_option maxHeartbeats 2000000 in
theorem valA8_main_c_8 (V : Valuation τ sig (Elt F)) : valA8 V (no_index (Proc.devRef .tc main_c_8)) = kx_main_c_8 V := by
  unfold valA8
  simp only [kwA_7]
  after_results_simp
  rfl

def valA9 (V : Valuation τ sig (Elt F)) : Valuation τ sig (Elt F) := after kwA_8 (valA8 V)
theorem valA9_keep (V : Valuation τ sig (Elt F)) (r : Ref sig .tc) (h : r ∉ kwA_8_W) :
    valA9 V (Proc.devRef .tc r) = valA8 V (Proc.devRef .tc r) :=
  after_of_writes_sub kwA_8 _ kwA_8_writes h
theorem valA9_main_arg11 (V : Valuation τ sig (Elt F)) : valA9 V (no_index (Proc.devRef .tc main_arg11)) = V (Proc.devRef .tc main_arg11) :=
  (valA9_keep V main_arg11 (by decide)).trans (valA8_main_arg11 V)
theorem valA9_main_v6 (V : Valuation τ sig (Elt F)) : valA9 V (no_index (Proc.devRef .tc main_v6)) = kx_main_v6 V :=
  (valA9_keep V main_v6 (by decide)).trans (valA8_main_v6 V)
theorem valA9_main_v7 (V : Valuation τ sig (Elt F)) : valA9 V (no_index (Proc.devRef .tc main_v7)) = kx_main_v7 V :=
  (valA9_keep V main_v7 (by decide)).trans (valA8_main_v7 V)
theorem valA9_main_v16 (V : Valuation τ sig (Elt F)) : valA9 V (no_index (Proc.devRef .tc main_v16)) = kx_main_v16 V :=
  (valA9_keep V main_v16 (by decide)).trans (valA8_main_v16 V)
theorem valA9_main_v25 (V : Valuation τ sig (Elt F)) : valA9 V (no_index (Proc.devRef .tc main_v25)) = kx_main_v25 V :=
  (valA9_keep V main_v25 (by decide)).trans (valA8_main_v25 V)
set_option maxRecDepth 8192 in
set_option maxHeartbeats 2000000 in
theorem valA9_main_call3_v2 (V : Valuation τ sig (Elt F)) : valA9 V (no_index (Proc.devRef .tc main_call3_v2)) = kx_main_call3_v2 V := by
  unfold valA9
  simp only [kwA_8]
  after_results_simp
  simp only [valA8_main_c_8]
  rfl
set_option maxRecDepth 8192 in
set_option maxHeartbeats 2000000 in
theorem valA9_main_call3_v4 (V : Valuation τ sig (Elt F)) : valA9 V (no_index (Proc.devRef .tc main_call3_v4)) = kx_main_call3_v4 V := by
  unfold valA9
  simp only [kwA_8]
  after_results_simp
  simp only [valA8_main_c_8, valA8_main_v8]
  rfl
set_option maxRecDepth 8192 in
set_option maxHeartbeats 2000000 in
theorem valA9_main_call3_v6 (V : Valuation τ sig (Elt F)) : valA9 V (no_index (Proc.devRef .tc main_call3_v6)) = kx_main_call3_v6 V := by
  unfold valA9
  simp only [kwA_8]
  after_results_simp
  simp only [valA8_main_c_8, valA8_main_v8]
  rfl
set_option maxRecDepth 8192 in
set_option maxHeartbeats 2000000 in
theorem valA9_main_call3_c_2 (V : Valuation τ sig (Elt F)) : valA9 V (no_index (Proc.devRef .tc main_call3_c_2)) = kx_main_call3_c_2 V := by
  unfold valA9
  simp only [kwA_8]
  after_results_simp
  rfl

def valA10 (V : Valuation τ sig (Elt F)) : Valuation τ sig (Elt F) := after kwA_9 (valA9 V)
theorem valA10_keep (V : Valuation τ sig (Elt F)) (r : Ref sig .tc) (h : r ∉ kwA_9_W) :
    valA10 V (Proc.devRef .tc r) = valA9 V (Proc.devRef .tc r) :=
  after_of_writes_sub kwA_9 _ kwA_9_writes h
theorem valA10_main_arg11 (V : Valuation τ sig (Elt F)) : valA10 V (no_index (Proc.devRef .tc main_arg11)) = V (Proc.devRef .tc main_arg11) :=
  (valA10_keep V main_arg11 (by decide)).trans (valA9_main_arg11 V)
theorem valA10_main_v6 (V : Valuation τ sig (Elt F)) : valA10 V (no_index (Proc.devRef .tc main_v6)) = kx_main_v6 V :=
  (valA10_keep V main_v6 (by decide)).trans (valA9_main_v6 V)
theorem valA10_main_v7 (V : Valuation τ sig (Elt F)) : valA10 V (no_index (Proc.devRef .tc main_v7)) = kx_main_v7 V :=
  (valA10_keep V main_v7 (by decide)).trans (valA9_main_v7 V)
theorem valA10_main_v16 (V : Valuation τ sig (Elt F)) : valA10 V (no_index (Proc.devRef .tc main_v16)) = kx_main_v16 V :=
  (valA10_keep V main_v16 (by decide)).trans (valA9_main_v16 V)
theorem valA10_main_v25 (V : Valuation τ sig (Elt F)) : valA10 V (no_index (Proc.devRef .tc main_v25)) = kx_main_v25 V :=
  (valA10_keep V main_v25 (by decide)).trans (valA9_main_v25 V)
set_option maxRecDepth 8192 in
set_option maxHeartbeats 2000000 in
theorem valA10_main_v26 (V : Valuation τ sig (Elt F)) : valA10 V (no_index (Proc.devRef .tc main_v26)) = kx_main_v26 V := by
  unfold valA10
  simp only [kwA_9]
  after_results_simp
  simp only [valA9_main_call3_v4, valA9_main_call3_v2, valA9_main_call3_v6, valA9_main_call3_c_2]
  rfl
set_option maxRecDepth 8192 in
set_option maxHeartbeats 2000000 in
theorem valA10_main_c_9 (V : Valuation τ sig (Elt F)) : valA10 V (no_index (Proc.devRef .tc main_c_9)) = kx_main_c_9 V := by
  unfold valA10
  simp only [kwA_9]
  after_results_simp
  rfl

def valA11 (V : Valuation τ sig (Elt F)) : Valuation τ sig (Elt F) := after kwA_10 (valA10 V)
theorem valA11_keep (V : Valuation τ sig (Elt F)) (r : Ref sig .tc) (h : r ∉ kwA_10_W) :
    valA11 V (Proc.devRef .tc r) = valA10 V (Proc.devRef .tc r) :=
  after_of_writes_sub kwA_10 _ kwA_10_writes h
theorem valA11_main_v6 (V : Valuation τ sig (Elt F)) : valA11 V (no_index (Proc.devRef .tc main_v6)) = kx_main_v6 V :=
  (valA11_keep V main_v6 (by decide)).trans (valA10_main_v6 V)
theorem valA11_main_v7 (V : Valuation τ sig (Elt F)) : valA11 V (no_index (Proc.devRef .tc main_v7)) = kx_main_v7 V :=
  (valA11_keep V main_v7 (by decide)).trans (valA10_main_v7 V)
set_option maxRecDepth 8192 in
set_option maxHeartbeats 2000000 in
theorem valA11_main_v35 (V : Valuation τ sig (Elt F)) : valA11 V (no_index (Proc.devRef .tc main_v35)) = kx_main_v35 V := by
  unfold valA11
  simp only [kwA_10]
  after_results_simp
  try dsimp only [Matrix.cons_val]
  try reads_rwA
  try simp only [valA10_main_v26, valA10_main_c_9, valA10_main_arg11, valA10_main_v25, valA10_main_v16]
  try rw [valA10_main_v26]
  try rw [valA10_main_c_9]
  try rw [valA10_main_arg11]
  try rw [valA10_main_v25]
  try rw [valA10_main_v16]
  rfl

/-- Line A is its windows end to end, and its fold is the windows' folds in order. -/
theorem after_opsA_eq (V : Valuation τ sig (Elt F)) : after opsA V = valA11 V := by
  rw [show (opsA : List (HloOp τ sig (Elt F))) = kwA_0 ++ (kwA_1 ++ (kwA_2 ++ (kwA_3 ++ (kwA_4 ++ (kwA_5 ++ (kwA_6 ++ (kwA_7 ++ (kwA_8 ++ (kwA_9 ++ (kwA_10)))))))))) from rfl, after_append', after_append', after_append', after_append', after_append', after_append', after_append', after_append', after_append', after_append']
  rfl
/-- What line A leaves in `main_v6`. -/
theorem opsA_main_v6 (V : Valuation τ sig (Elt F)) : after opsA V (Proc.devRef .tc main_v6) = kx_main_v6 V := by
  rw [after_opsA_eq]
  exact valA11_main_v6 V
/-- What line A leaves in `main_v7`. -/
theorem opsA_main_v7 (V : Valuation τ sig (Elt F)) : after opsA V (Proc.devRef .tc main_v7) = kx_main_v7 V := by
  rw [after_opsA_eq]
  exact valA11_main_v7 V
/-- What line A leaves in `main_v35`. -/
theorem opsA_main_v35 (V : Valuation τ sig (Elt F)) : after opsA V (Proc.devRef .tc main_v35) = kx_main_v35 V := by
  rw [after_opsA_eq]
  exact valA11_main_v35 V

end Cert.KernelIdeal.KerValue

end
-- ==== Proof.KerChainB.lean ====
/-
  The kernel program's host lines B as values. Every operation of a line writes one buffer from buffers written
  before it in the line or held when the line starts, so each buffer a later call reads ends the line at a term of the
  contents the line started from: the operation's function at the values of the buffers it reads. One definition per
  buffer in those buffers' cones; the line, cut in short windows, is read off window by window against them.
-/
import proofs.«214388_g48842368090541_cont_8to1c4_19_37_alg».proof.Proof.MainKeepIdeal

noncomputable section

namespace Cert.KernelIdeal.KerValue

open Cert.KernelIdeal Cert.KernelIdeal.Gen Cert.KernelIdeal.MainShape Idealize.ShloMosaic Idealize.ShloMosaic.TcCoe Idealize.SL.Sem Idealize.ShloMosaic.StableHlo

variable {F : FTy → Type} [FloatOps F]

/-- Reads of operations' results by rewriting, one at a time: what a buffer holds after an operation that writes it, or
    that does not (the references told apart by computation). For reads that sit inside a dependent pair, where the
    simplifier's congruence does not reach. -/
macro "reads_rwB" : tactic =>
  `(tactic| repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-! ## Line B -/

abbrev kwB_0 : List (HloOp τ sig (Elt F)) :=
  [ StableHlo.reshape main_arg15 main_v37 rfl shapeCasts_S2048x32_S64x1024,
    StableHlo.unary main_v37 main_v38 ((truncf .bf16 · bitsLt_bf16_f32) : (⟨S64x1024, .f32⟩ : BufTy).Contents (Elt F) → (⟨S64x1024, .bf16⟩ : BufTy).Contents (Elt F)),
    StableHlo.nullary main_v39 (iotaInDim S1024 32 0),
    StableHlo.nullary main_v40 (iotaInDim S32 32 0),
    StableHlo.unary main_v40 main_v41 (broadcastInDim S32x1 ![0] bcast_S32_S32x1_0 : (⟨S32, .i32⟩ : BufTy).Contents (Elt F) → (⟨S32x1, .i32⟩ : BufTy).Contents (Elt F)),
    StableHlo.unary main_v39 main_v42 (broadcastInDim S1x1024 ![1] bcast_S1024_S1x1024_1 : (⟨S1024, .i32⟩ : BufTy).Contents (Elt F) → (⟨S1x1024, .i32⟩ : BufTy).Contents (Elt F)),
    StableHlo.nullary main_c_11 (constantI S_ 32 32#32),
    StableHlo.TRef.unary (.of main_c_11 : StableHlo.TRef sig ⟨S_, .i32⟩) main_call4.v0 id,
    StableHlo.TRef.unary main_call4.v0 main_call4.v1 (broadcastInDim S1x1024 ![] bcast_S_S1x1024),
    StableHlo.TRef.binary (.of main_v42 : StableHlo.TRef sig ⟨S1x1024, .i32⟩) main_call4.v1 main_call4.v2 Host.divsi,
    StableHlo.TRef.unary (.of main_v42 : StableHlo.TRef sig ⟨S1x1024, .i32⟩) main_call4.v3 signi,
    StableHlo.TRef.unary main_call4.v0 main_call4.v4 signi ]
abbrev kwB_0_W : List (Ref sig .tc) := [main_v37, main_v38, main_v39, main_v40, main_v41, main_v42, main_c_11, main_call4_v0, main_call4_v1, main_call4_v2, main_call4_v3, main_call4_v4]
set_option maxRecDepth 8192 in
theorem kwB_0_writes : (kwB_0 : List (HloOp τ sig (Elt F))).Forall fun op => op.writes ⊆ (kwB_0_W.map (Proc.devRef (τ := τ) .tc)).toFinset :=
  ⟨writes_sub_of_mem main_v37 rfl (by decide), writes_sub_of_mem main_v38 rfl (by decide), writes_sub_of_mem main_v39 rfl (by decide),
    writes_sub_of_mem main_v40 rfl (by decide), writes_sub_of_mem main_v41 rfl (by decide), writes_sub_of_mem main_v42 rfl (by decide),
    writes_sub_of_mem main_c_11 rfl (by decide), writes_sub_of_mem main_call4_v0 rfl (by decide), writes_sub_of_mem main_call4_v1 rfl (by decide),
    writes_sub_of_mem main_call4_v2 rfl (by decide), writes_sub_of_mem main_call4_v3 rfl (by decide), writes_sub_of_mem main_call4_v4 rfl (by decide)⟩
abbrev kwB_1 : List (HloOp τ sig (Elt F)) :=
  [ StableHlo.TRef.unary main_call4.v4 main_call4.v5 (broadcastInDim S1x1024 ![] bcast_S_S1x1024),
    StableHlo.TRef.binary main_call4.v3 main_call4.v5 main_call4.v6 (cmpi .ne),
    StableHlo.TRef.unary main_call4.v0 main_call4.v7 (broadcastInDim S1x1024 ![] bcast_S_S1x1024),
    StableHlo.TRef.binary (.of main_v42 : StableHlo.TRef sig ⟨S1x1024, .i32⟩) main_call4.v7 main_call4.v8 Host.remsi,
    StableHlo.TRef.nullary main_call4.c (constantI S_ 32 0#32),
    StableHlo.TRef.unary main_call4.c main_call4.v9 (broadcastInDim S1x1024 ![] bcast_S_S1x1024),
    StableHlo.TRef.binary main_call4.v8 main_call4.v9 main_call4.v10 (cmpi .ne),
    StableHlo.TRef.binary main_call4.v6 main_call4.v10 main_call4.v11 andi,
    StableHlo.TRef.nullary main_call4.c_0 (constantI S_ 32 1#32),
    StableHlo.TRef.unary main_call4.c_0 main_call4.v12 (broadcastInDim S1x1024 ![] bcast_S_S1x1024),
    StableHlo.TRef.binary main_call4.v2 main_call4.v12 main_call4.v13 subi,
    StableHlo.TRef.ternary main_call4.v11 main_call4.v13 main_call4.v2 main_call4.call0.v0 select ]
abbrev kwB_1_W : List (Ref sig .tc) := [main_call4_v5, main_call4_v6, main_call4_v7, main_call4_v8, main_call4_c, main_call4_v9, main_call4_v10, main_call4_v11, main_call4_c_0, main_call4_v12, main_call4_v13, main_v43]
set_option maxRecDepth 8192 in
theorem kwB_1_writes : (kwB_1 : List (HloOp τ sig (Elt F))).Forall fun op => op.writes ⊆ (kwB_1_W.map (Proc.devRef (τ := τ) .tc)).toFinset :=
  ⟨writes_sub_of_mem main_call4_v5 rfl (by decide), writes_sub_of_mem main_call4_v6 rfl (by decide), writes_sub_of_mem main_call4_v7 rfl (by decide),
    writes_sub_of_mem main_call4_v8 rfl (by decide), writes_sub_of_mem main_call4_c rfl (by decide), writes_sub_of_mem main_call4_v9 rfl (by decide),
    writes_sub_of_mem main_call4_v10 rfl (by decide), writes_sub_of_mem main_call4_v11 rfl (by decide), writes_sub_of_mem main_call4_c_0 rfl (by decide),
    writes_sub_of_mem main_call4_v12 rfl (by decide), writes_sub_of_mem main_call4_v13 rfl (by decide), writes_sub_of_mem main_v43 rfl (by decide)⟩
abbrev kwB_2 : List (HloOp τ sig (Elt F)) :=
  [ StableHlo.unary main_v41 main_v44 (broadcastInDim S32x1024 ![0, 1] bcast_S32x1_S32x1024_0_1 : (⟨S32x1, .i32⟩ : BufTy).Contents (Elt F) → (⟨S32x1024, .i32⟩ : BufTy).Contents (Elt F)),
    StableHlo.unary main_v43 main_v45 (broadcastInDim S32x1024 ![0, 1] bcast_S1x1024_S32x1024_0_1 : (⟨S1x1024, .i32⟩ : BufTy).Contents (Elt F) → (⟨S32x1024, .i32⟩ : BufTy).Contents (Elt F)),
    StableHlo.binary main_v44 main_v45 main_v46 (cmpi .eq : (⟨S32x1024, .i32⟩ : BufTy).Contents (Elt F) → (⟨S32x1024, .i32⟩ : BufTy).Contents (Elt F) → (⟨S32x1024, .i1⟩ : BufTy).Contents (Elt F)),
    StableHlo.unary main_v46 main_v47 (uitofp .bf16 : (⟨S32x1024, .i1⟩ : BufTy).Contents (Elt F) → (⟨S32x1024, .bf16⟩ : BufTy).Contents (Elt F)),
    StableHlo.nullary main_c_12 (constantI S_ 32 0#32),
    StableHlo.TRef.unary (.of main_c_12 : StableHlo.TRef sig ⟨S_, .i32⟩) main_call5.v0 (sitofp .bf16),
    StableHlo.TRef.binary (.of main_v47 : StableHlo.TRef sig ⟨S32x1024, .bf16⟩) main_call5.v0 main_call5.v1 (fun x v => pad S128x1024 ![32, 0] ![64, 0] ![0, 0] x v pads_S32x1024_S128x1024_32640_000 h_S_),
    StableHlo.unary main_v39 main_v49 (broadcastInDim S1024x1 ![0] bcast_S1024_S1024x1_0 : (⟨S1024, .i32⟩ : BufTy).Contents (Elt F) → (⟨S1024x1, .i32⟩ : BufTy).Contents (Elt F)),
    StableHlo.nullary main_c_13 (constantI S_ 32 32#32),
    StableHlo.TRef.unary (.of main_c_13 : StableHlo.TRef sig ⟨S_, .i32⟩) main_call6.v0 id,
    StableHlo.TRef.nullary main_call6.c (constantI S_ 32 0#32),
    StableHlo.TRef.binary main_call6.v0 main_call6.c main_call6.v1 (cmpi .eq) ]
abbrev kwB_2_W : List (Ref sig .tc) := [main_v44, main_v45, main_v46, main_v47, main_c_12, main_call5_v0, main_v48, main_v49, main_c_13, main_call6_v0, main_call6_c, main_call6_v1]
set_option maxRecDepth 8192 in
theorem kwB_2_writes : (kwB_2 : List (HloOp τ sig (Elt F))).Forall fun op => op.writes ⊆ (kwB_2_W.map (Proc.devRef (τ := τ) .tc)).toFinset :=
  ⟨writes_sub_of_mem main_v44 rfl (by decide), writes_sub_of_mem main_v45 rfl (by decide), writes_sub_of_mem main_v46 rfl (by decide),
    writes_sub_of_mem main_v47 rfl (by decide), writes_sub_of_mem main_c_12 rfl (by decide), writes_sub_of_mem main_call5_v0 rfl (by decide),
    writes_sub_of_mem main_v48 rfl (by decide), writes_sub_of_mem main_v49 rfl (by decide), writes_sub_of_mem main_c_13 rfl (by decide),
    writes_sub_of_mem main_call6_v0 rfl (by decide), writes_sub_of_mem main_call6_c rfl (by decide), writes_sub_of_mem main_call6_v1 rfl (by decide)⟩
abbrev kwB_3 : List (HloOp τ sig (Elt F)) :=
  [ StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S1024x1 ![] bcast_S_S1024x1),
    StableHlo.TRef.binary (.of main_v49 : StableHlo.TRef sig ⟨S1024x1, .i32⟩) main_call6.v3 main_call6.v4 Host.remsi,
    StableHlo.TRef.nullary main_call6.c_1 (constantI S_ 32 0#32),
    StableHlo.TRef.unary main_call6.c_1 main_call6.v5 (broadcastInDim S1024x1 ![] bcast_S_S1024x1),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S1024x1 ![] bcast_S_S1024x1),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt) ]
abbrev kwB_3_W : List (Ref sig .tc) := [main_call6_c_0, main_call6_v2, main_call6_v3, main_call6_v4, main_call6_c_1, main_call6_v5, main_call6_v6, main_call6_c_2, main_call6_v7, main_call6_v8, main_call6_c_3, main_call6_v9]
set_option maxRecDepth 8192 in
theorem kwB_3_writes : (kwB_3 : List (HloOp τ sig (Elt F))).Forall fun op => op.writes ⊆ (kwB_3_W.map (Proc.devRef (τ := τ) .tc)).toFinset :=
  ⟨writes_sub_of_mem main_call6_c_0 rfl (by decide), writes_sub_of_mem main_call6_v2 rfl (by decide), writes_sub_of_mem main_call6_v3 rfl (by decide),
    writes_sub_of_mem main_call6_v4 rfl (by decide), writes_sub_of_mem main_call6_c_1 rfl (by decide), writes_sub_of_mem main_call6_v5 rfl (by decide),
    writes_sub_of_mem main_call6_v6 rfl (by decide), writes_sub_of_mem main_call6_c_2 rfl (by decide), writes_sub_of_mem main_call6_v7 rfl (by decide),
    writes_sub_of_mem main_call6_v8 rfl (by decide), writes_sub_of_mem main_call6_c_3 rfl (by decide), writes_sub_of_mem main_call6_v9 rfl (by decide)⟩
abbrev kwB_4 : List (HloOp τ sig (Elt F)) :=
  [ StableHlo.TRef.unary main_call6.v9 main_call6.v10 (broadcastInDim S1024x1 ![] bcast_S_S1024x1),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S1024x1 ![] bcast_S_S1024x1),
    StableHlo.TRef.binary main_call6.v4 main_call6.v13 main_call6.v14 addi,
    StableHlo.TRef.ternary main_call6.v12 main_call6.v14 main_call6.v4 main_call6.v15 select,
    StableHlo.nullary main_v51 (iotaInDim S32 32 0),
    StableHlo.unary main_v51 main_v52 (broadcastInDim S1x32 ![1] bcast_S32_S1x32_1 : (⟨S32, .i32⟩ : BufTy).Contents (Elt F) → (⟨S1x32, .i32⟩ : BufTy).Contents (Elt F)),
    StableHlo.unary main_v50 main_v53 (broadcastInDim S1024x32 ![0, 1] bcast_S1024x1_S1024x32_0_1 : (⟨S1024x1, .i32⟩ : BufTy).Contents (Elt F) → (⟨S1024x32, .i32⟩ : BufTy).Contents (Elt F)),
    StableHlo.unary main_v52 main_v54 (broadcastInDim S1024x32 ![0, 1] bcast_S1x32_S1024x32_0_1 : (⟨S1x32, .i32⟩ : BufTy).Contents (Elt F) → (⟨S1024x32, .i32⟩ : BufTy).Contents (Elt F)),
    StableHlo.binary main_v53 main_v54 main_v55 (cmpi .eq : (⟨S1024x32, .i32⟩ : BufTy).Contents (Elt F) → (⟨S1024x32, .i32⟩ : BufTy).Contents (Elt F) → (⟨S1024x32, .i1⟩ : BufTy).Contents (Elt F)),
    StableHlo.unary main_v55 main_v56 (uitofp .bf16 : (⟨S1024x32, .i1⟩ : BufTy).Contents (Elt F) → (⟨S1024x32, .bf16⟩ : BufTy).Contents (Elt F)) ]
abbrev kwB_4_W : List (Ref sig .tc) := [main_call6_v10, main_call6_v11, main_call6_v12, main_call6_v13, main_call6_v14, main_v50, main_v51, main_v52, main_v53, main_v54, main_v55, main_v56]
set_option maxRecDepth 8192 in
theorem kwB_4_writes : (kwB_4 : List (HloOp τ sig (Elt F))).Forall fun op => op.writes ⊆ (kwB_4_W.map (Proc.devRef (τ := τ) .tc)).toFinset :=
  ⟨writes_sub_of_mem main_call6_v10 rfl (by decide), writes_sub_of_mem main_call6_v11 rfl (by decide), writes_sub_of_mem main_call6_v12 rfl (by decide),
    writes_sub_of_mem main_call6_v13 rfl (by decide), writes_sub_of_mem main_call6_v14 rfl (by decide), writes_sub_of_mem main_v50 rfl (by decide),
    writes_sub_of_mem main_v51 rfl (by decide), writes_sub_of_mem main_v52 rfl (by decide), writes_sub_of_mem main_v53 rfl (by decide),
    writes_sub_of_mem main_v54 rfl (by decide), writes_sub_of_mem main_v55 rfl (by decide), writes_sub_of_mem main_v56 rfl (by decide)⟩
abbrev kwB_5 : List (HloOp τ sig (Elt F)) :=
  [ StableHlo.nullary main_c_14 (constantI S_ 32 0#32),
    StableHlo.TRef.unary (.of main_c_14 : StableHlo.TRef sig ⟨S_, .i32⟩) main_call7.v0 (sitofp .bf16),
    StableHlo.TRef.binary (.of main_v56 : StableHlo.TRef sig ⟨S1024x32, .bf16⟩) main_call7.v0 main_call7.v1 (fun x v => pad S1024x128 ![0, 64] ![0, 32] ![0, 0] x v pads_S1024x32_S1024x128_000_64320 h_S_),
    StableHlo.nullary main_c_15 (constantI S_ 32 0#32),
    StableHlo.TRef.unary (.of main_c_15 : StableHlo.TRef sig ⟨S_, .i32⟩) main_call8.v0 (sitofp .f32),
    StableHlo.TRef.binary (.of main_arg13 : StableHlo.TRef sig ⟨S19x32, .f32⟩) main_call8.v0 main_call8.v1 (fun x v => pad S19x128 ![0, 32] ![0, 64] ![0, 0] x v pads_S19x32_S19x128_000_32640 h_S_),
    StableHlo.unary main_arg14 main_v59 (broadcastInDim S1x32 ![1] bcast_S32_S1x32_1 : (⟨S32, .f32⟩ : BufTy).Contents (Elt F) → (⟨S1x32, .f32⟩ : BufTy).Contents (Elt F)),
    StableHlo.nullary main_c_16 (constantI S_ 32 0#32),
    StableHlo.TRef.unary (.of main_c_16 : StableHlo.TRef sig ⟨S_, .i32⟩) main_call9.v0 (sitofp .f32),
    StableHlo.TRef.binary (.of main_v59 : StableHlo.TRef sig ⟨S1x32, .f32⟩) main_call9.v0 main_call9.v1 (fun x v => pad S1x128 ![0, 32] ![0, 64] ![0, 0] x v pads_S1x32_S1x128_000_32640 h_S_),
    StableHlo.unary main_arg16 main_v61 (broadcastInDim S1x32 ![1] bcast_S32_S1x32_1 : (⟨S32, .f32⟩ : BufTy).Contents (Elt F) → (⟨S1x32, .f32⟩ : BufTy).Contents (Elt F)),
    StableHlo.nullary main_c_17 (constantI S_ 32 0#32) ]
abbrev kwB_5_W : List (Ref sig .tc) := [main_c_14, main_call7_v0, main_v57, main_c_15, main_call8_v0, main_v58, main_v59, main_c_16, main_call9_v0, main_v60, main_v61, main_c_17]
set_option maxRecDepth 8192 in
theorem kwB_5_writes : (kwB_5 : List (HloOp τ sig (Elt F))).Forall fun op => op.writes ⊆ (kwB_5_W.map (Proc.devRef (τ := τ) .tc)).toFinset :=
  ⟨writes_sub_of_mem main_c_14 rfl (by decide), writes_sub_of_mem main_call7_v0 rfl (by decide), writes_sub_of_mem main_v57 rfl (by decide),
    writes_sub_of_mem main_c_15 rfl (by decide), writes_sub_of_mem main_call8_v0 rfl (by decide), writes_sub_of_mem main_v58 rfl (by decide),
    writes_sub_of_mem main_v59 rfl (by decide), writes_sub_of_mem main_c_16 rfl (by decide), writes_sub_of_mem main_call9_v0 rfl (by decide),
    writes_sub_of_mem main_v60 rfl (by decide), writes_sub_of_mem main_v61 rfl (by decide), writes_sub_of_mem main_c_17 rfl (by decide)⟩
abbrev kwB_6 : List (HloOp τ sig (Elt F)) :=
  [ StableHlo.TRef.unary (.of main_c_17 : StableHlo.TRef sig ⟨S_, .i32⟩) main_call10.v0 (sitofp .f32),
    StableHlo.TRef.binary (.of main_v61 : StableHlo.TRef sig ⟨S1x32, .f32⟩) main_call10.v0 main_call10.v1 (fun x v => pad S1x128 ![0, 64] ![0, 32] ![0, 0] x v pads_S1x32_S1x128_000_64320 h_S_),
    StableHlo.unary main_arg17 main_v63 ((extractStridedSlice S64x1024 ![0, 0] · slices_S226x1024_S64x1024_0_0) : (⟨S226x1024, .f32⟩ : BufTy).Contents (Elt F) → (⟨S64x1024, .f32⟩ : BufTy).Contents (Elt F)),
    StableHlo.unary main_arg17 main_v64 ((extractStridedSlice S64x1024 ![96, 0] · slices_S226x1024_S64x1024_96_0) : (⟨S226x1024, .f32⟩ : BufTy).Contents (Elt F) → (⟨S64x1024, .f32⟩ : BufTy).Contents (Elt F)),
    StableHlo.unary main_arg17 main_v65 ((extractStridedSlice S32x1024 ![64, 0] · slices_S226x1024_S32x1024_64_0) : (⟨S226x1024, .f32⟩ : BufTy).Contents (Elt F) → (⟨S32x1024, .f32⟩ : BufTy).Contents (Elt F)),
    StableHlo.unary main_arg17 main_v66 ((extractStridedSlice S32x1024 ![160, 0] · slices_S226x1024_S32x1024_160_0) : (⟨S226x1024, .f32⟩ : BufTy).Contents (Elt F) → (⟨S32x1024, .f32⟩ : BufTy).Contents (Elt F)),
    StableHlo.unary main_arg17 main_v67 ((extractStridedSlice S32x1024 ![194, 0] · slices_S226x1024_S32x1024_194_0) : (⟨S226x1024, .f32⟩ : BufTy).Contents (Elt F) → (⟨S32x1024, .f32⟩ : BufTy).Contents (Elt F)),
    StableHlo.unary main_arg17 main_v68 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg17 main_v69 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg17 main_v70 ((extractStridedSlice S1x1024 ![193, 0] · slices_S226x1024_S1x1024_193_0) : (⟨S226x1024, .f32⟩ : BufTy).Contents (Elt F) → (⟨S1x1024, .f32⟩ : BufTy).Contents (Elt F)),
    StableHlo.nullary main_cst_18 (constant S_ .f32 0x00000000#32),
    StableHlo.unary main_cst_18 main_v71 (broadcastInDim S29x1024 ![] bcast_S_S29x1024 : (⟨S_, .f32⟩ : BufTy).Contents (Elt F) → (⟨S29x1024, .f32⟩ : BufTy).Contents (Elt F)) ]
abbrev kwB_6_W : List (Ref sig .tc) := [main_call10_v0, main_v62, main_v63, main_v64, main_v65, main_v66, main_v67, main_v68, main_v69, main_v70, main_cst_18, main_v71]
set_option maxRecDepth 8192 in
theorem kwB_6_writes : (kwB_6 : List (HloOp τ sig (Elt F))).Forall fun op => op.writes ⊆ (kwB_6_W.map (Proc.devRef (τ := τ) .tc)).toFinset :=
  ⟨writes_sub_of_mem main_call10_v0 rfl (by decide), writes_sub_of_mem main_v62 rfl (by decide), writes_sub_of_mem main_v63 rfl (by decide),
    writes_sub_of_mem main_v64 rfl (by decide), writes_sub_of_mem main_v65 rfl (by decide), writes_sub_of_mem main_v66 rfl (by decide),
    writes_sub_of_mem main_v67 rfl (by decide), writes_sub_of_mem main_v68 rfl (by decide), writes_sub_of_mem main_v69 rfl (by decide),
    writes_sub_of_mem main_v70 rfl (by decide), writes_sub_of_mem main_cst_18 rfl (by decide), writes_sub_of_mem main_v71 rfl (by decide)⟩
abbrev kwB_7 : List (HloOp τ sig (Elt F)) :=
  [ StableHlo.nary ![main_v63, main_v64, main_v65, main_v66, main_v67, main_v68, main_v69, main_v70, main_v71] main_v72 (fun u => concatenate S256x1024 0 [⟨S64x1024, u 0⟩, ⟨S64x1024, u 1⟩, ⟨S32x1024, u 2⟩, ⟨S32x1024, u 3⟩, ⟨S32x1024, u 4⟩, ⟨S1x1024, u 5⟩, ⟨S1x1024, u 6⟩, ⟨S1x1024, u 7⟩, ⟨S29x1024, u 8⟩] concatenates_S64x1024_S64x1024_S32x1024_S32x1024_S32x1024_S1x1024_S1x1024_S1x1024_S29x1024_S256x1024_d0),
    StableHlo.unary main_v72 main_v73 ((truncf .bf16 · bitsLt_bf16_f32) : (⟨S256x1024, .f32⟩ : BufTy).Contents (Elt F) → (⟨S256x1024, .bf16⟩ : BufTy).Contents (Elt F)),
    StableHlo.unary main_arg21 main_v74 ((extractStridedSlice S64x1024 ![0, 0] · slices_S226x1024_S64x1024_0_0) : (⟨S226x1024, .f32⟩ : BufTy).Contents (Elt F) → (⟨S64x1024, .f32⟩ : BufTy).Contents (Elt F)),
    StableHlo.unary main_arg21 main_v75 ((extractStridedSlice S64x1024 ![96, 0] · slices_S226x1024_S64x1024_96_0) : (⟨S226x1024, .f32⟩ : BufTy).Contents (Elt F) → (⟨S64x1024, .f32⟩ : BufTy).Contents (Elt F)),
    StableHlo.unary main_arg21 main_v76 ((extractStridedSlice S32x1024 ![64, 0] · slices_S226x1024_S32x1024_64_0) : (⟨S226x1024, .f32⟩ : BufTy).Contents (Elt F) → (⟨S32x1024, .f32⟩ : BufTy).Contents (Elt F)),
    StableHlo.unary main_arg21 main_v77 ((extractStridedSlice S32x1024 ![160, 0] · slices_S226x1024_S32x1024_160_0) : (⟨S226x1024, .f32⟩ : BufTy).Contents (Elt F) → (⟨S32x1024, .f32⟩ : BufTy).Contents (Elt F)),
    StableHlo.unary main_arg21 main_v78 ((extractStridedSlice S32x1024 ![194, 0] · slices_S226x1024_S32x1024_194_0) : (⟨S226x1024, .f32⟩ : BufTy).Contents (Elt F) → (⟨S32x1024, .f32⟩ : BufTy).Contents (Elt F)),
    StableHlo.unary main_arg21 main_v79 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg21 main_v80 ((extractStridedSlice S1x1024 ![192, 0] · slices_S226x1024_S1x1024_192_0) : (⟨S226x1024, .f32⟩ : BufTy).Contents (Elt F) → (⟨S1x1024, .f32⟩ : BufTy).Contents (Elt F)),
    StableHlo.unary main_arg21 main_v81 ((extractStridedSlice S1x1024 ![193, 0] · slices_S226x1024_S1x1024_193_0) : (⟨S226x1024, .f32⟩ : BufTy).Contents (Elt F) → (⟨S1x1024, .f32⟩ : BufTy).Contents (Elt F)),
    StableHlo.nullary main_cst_19 (constant S_ .f32 0x00000000#32),
    StableHlo.unary main_cst_19 main_v82 (broadcastInDim S29x1024 ![] bcast_S_S29x1024 : (⟨S_, .f32⟩ : BufTy).Contents (Elt F) → (⟨S29x1024, .f32⟩ : BufTy).Contents (Elt F)) ]
abbrev kwB_7_W : List (Ref sig .tc) := [main_v72, main_v73, main_v74, main_v75, main_v76, main_v77, main_v78, main_v79, main_v80, main_v81, main_cst_19, main_v82]
set_option maxRecDepth 8192 in
theorem kwB_7_writes : (kwB_7 : List (HloOp τ sig (Elt F))).Forall fun op => op.writes ⊆ (kwB_7_W.map (Proc.devRef (τ := τ) .tc)).toFinset :=
  ⟨writes_sub_of_mem main_v72 rfl (by decide), writes_sub_of_mem main_v73 rfl (by decide), writes_sub_of_mem main_v74 rfl (by decide),
    writes_sub_of_mem main_v75 rfl (by decide), writes_sub_of_mem main_v76 rfl (by decide), writes_sub_of_mem main_v77 rfl (by decide),
    writes_sub_of_mem main_v78 rfl (by decide), writes_sub_of_mem main_v79 rfl (by decide), writes_sub_of_mem main_v80 rfl (by decide),
    writes_sub_of_mem main_v81 rfl (by decide), writes_sub_of_mem main_cst_19 rfl (by decide), writes_sub_of_mem main_v82 rfl (by decide)⟩
abbrev kwB_8 : List (HloOp τ sig (Elt F)) :=
  [ StableHlo.nary ![main_v74, main_v75, main_v76, main_v77, main_v78, main_v79, main_v80, main_v81, main_v82] main_v83 (fun u => concatenate S256x1024 0 [⟨S64x1024, u 0⟩, ⟨S64x1024, u 1⟩, ⟨S32x1024, u 2⟩, ⟨S32x1024, u 3⟩, ⟨S32x1024, u 4⟩, ⟨S1x1024, u 5⟩, ⟨S1x1024, u 6⟩, ⟨S1x1024, u 7⟩, ⟨S29x1024, u 8⟩] concatenates_S64x1024_S64x1024_S32x1024_S32x1024_S32x1024_S1x1024_S1x1024_S1x1024_S29x1024_S256x1024_d0),
    StableHlo.unary main_v83 main_v84 ((truncf .bf16 · bitsLt_bf16_f32) : (⟨S256x1024, .f32⟩ : BufTy).Contents (Elt F) → (⟨S256x1024, .bf16⟩ : BufTy).Contents (Elt F)),
    StableHlo.unary main_arg6 main_v85 (broadcastInDim S16384x1 ![0] bcast_S16384_S16384x1_0 : (⟨S16384, .f32⟩ : BufTy).Contents (Elt F) → (⟨S16384x1, .f32⟩ : BufTy).Contents (Elt F)),
    StableHlo.unary main_arg7 main_v86 (broadcastInDim S16384x1 ![0] bcast_S16384_S16384x1_0 : (⟨S16384, .f32⟩ : BufTy).Contents (Elt F) → (⟨S16384x1, .f32⟩ : BufTy).Contents (Elt F)) ]
abbrev kwB_8_W : List (Ref sig .tc) := [main_v83, main_v84, main_v85, main_v86]
set_option maxRecDepth 8192 in
theorem kwB_8_writes : (kwB_8 : List (HloOp τ sig (Elt F))).Forall fun op => op.writes ⊆ (kwB_8_W.map (Proc.devRef (τ := τ) .tc)).toFinset :=
  ⟨writes_sub_of_mem main_v83 rfl (by decide), writes_sub_of_mem main_v84 rfl (by decide), writes_sub_of_mem main_v85 rfl (by decide),
    writes_sub_of_mem main_v86 rfl (by decide)⟩
def kx_main_v37 (V : Valuation τ sig (Elt F)) : (⟨S64x1024, .f32⟩ : BufTy).Contents (Elt F) :=
  shapeCast S64x1024 (V (Proc.devRef .tc main_arg15)) shapeCasts_S2048x32_S64x1024
def kx_main_v38 (V : Valuation τ sig (Elt F)) : (⟨S64x1024, .bf16⟩ : BufTy).Contents (Elt F) :=
  ((truncf .bf16 · bitsLt_bf16_f32) : (⟨S64x1024, .f32⟩ : BufTy).Contents (Elt F) → (⟨S64x1024, .bf16⟩ : BufTy).Contents (Elt F)) (kx_main_v37 V)
def kx_main_v39 (V : Valuation τ sig (Elt F)) : (⟨S1024, .i32⟩ : BufTy).Contents (Elt F) :=
  (iotaInDim S1024 32 0)
def kx_main_v40 (V : Valuation τ sig (Elt F)) : (⟨S32, .i32⟩ : BufTy).Contents (Elt F) :=
  (iotaInDim S32 32 0)
def kx_main_v41 (V : Valuation τ sig (Elt F)) : (⟨S32x1, .i32⟩ : BufTy).Contents (Elt F) :=
  (broadcastInDim S32x1 ![0] bcast_S32_S32x1_0 : (⟨S32, .i32⟩ : BufTy).Contents (Elt F) → (⟨S32x1, .i32⟩ : BufTy).Contents (Elt F)) (kx_main_v40 V)
def kx_main_v42 (V : Valuation τ sig (Elt F)) : (⟨S1x1024, .i32⟩ : BufTy).Contents (Elt F) :=
  (broadcastInDim S1x1024 ![1] bcast_S1024_S1x1024_1 : (⟨S1024, .i32⟩ : BufTy).Contents (Elt F) → (⟨S1x1024, .i32⟩ : BufTy).Contents (Elt F)) (kx_main_v39 V)
def kx_main_c_11 (V : Valuation τ sig (Elt F)) : (⟨S_, .i32⟩ : BufTy).Contents (Elt F) :=
  (constantI S_ 32 32#32)
def kx_main_call4_v0 (V : Valuation τ sig (Elt F)) : (⟨S_, .i32⟩ : BufTy).Contents (Elt F) :=
  id (kx_main_c_11 V)
def kx_main_call4_v1 (V : Valuation τ sig (Elt F)) : (⟨S1x1024, .i32⟩ : BufTy).Contents (Elt F) :=
  (broadcastInDim S1x1024 ![] bcast_S_S1x1024) (kx_main_call4_v0 V)
def kx_main_call4_v2 (V : Valuation τ sig (Elt F)) : (⟨S1x1024, .i32⟩ : BufTy).Contents (Elt F) :=
  Host.divsi (kx_main_v42 V) (kx_main_call4_v1 V)
def kx_main_call4_v3 (V : Valuation τ sig (Elt F)) : (⟨S1x1024, .i32⟩ : BufTy).Contents (Elt F) :=
  signi (kx_main_v42 V)
def kx_main_call4_v4 (V : Valuation τ sig (Elt F)) : (⟨S_, .i32⟩ : BufTy).Contents (Elt F) :=
  signi (kx_main_call4_v0 V)
def kx_main_call4_v5 (V : Valuation τ sig (Elt F)) : (⟨S1x1024, .i32⟩ : BufTy).Contents (Elt F) :=
  (broadcastInDim S1x1024 ![] bcast_S_S1x1024) (kx_main_call4_v4 V)
def kx_main_call4_v6 (V : Valuation τ sig (Elt F)) : (⟨S1x1024, .i1⟩ : BufTy).Contents (Elt F) :=
  (cmpi .ne) (kx_main_call4_v3 V) (kx_main_call4_v5 V)
def kx_main_call4_v7 (V : Valuation τ sig (Elt F)) : (⟨S1x1024, .i32⟩ : BufTy).Contents (Elt F) :=
  (broadcastInDim S1x1024 ![] bcast_S_S1x1024) (kx_main_call4_v0 V)
def kx_main_call4_v8 (V : Valuation τ sig (Elt F)) : (⟨S1x1024, .i32⟩ : BufTy).Contents (Elt F) :=
  Host.remsi (kx_main_v42 V) (kx_main_call4_v7 V)
def kx_main_call4_c (V : Valuation τ sig (Elt F)) : (⟨S_, .i32⟩ : BufTy).Contents (Elt F) :=
  (constantI S_ 32 0#32)
def kx_main_call4_v9 (V : Valuation τ sig (Elt F)) : (⟨S1x1024, .i32⟩ : BufTy).Contents (Elt F) :=
  (broadcastInDim S1x1024 ![] bcast_S_S1x1024) (kx_main_call4_c V)
def kx_main_call4_v10 (V : Valuation τ sig (Elt F)) : (⟨S1x1024, .i1⟩ : BufTy).Contents (Elt F) :=
  (cmpi .ne) (kx_main_call4_v8 V) (kx_main_call4_v9 V)
def kx_main_call4_v11 (V : Valuation τ sig (Elt F)) : (⟨S1x1024, .i1⟩ : BufTy).Contents (Elt F) :=
  andi (kx_main_call4_v6 V) (kx_main_call4_v10 V)
def kx_main_call4_c_0 (V : Valuation τ sig (Elt F)) : (⟨S_, .i32⟩ : BufTy).Contents (Elt F) :=
  (constantI S_ 32 1#32)
def kx_main_call4_v12 (V : Valuation τ sig (Elt F)) : (⟨S1x1024, .i32⟩ : BufTy).Contents (Elt F) :=
  (broadcastInDim S1x1024 ![] bcast_S_S1x1024) (kx_main_call4_c_0 V)
def kx_main_call4_v13 (V : Valuation τ sig (Elt F)) : (⟨S1x1024, .i32⟩ : BufTy).Contents (Elt F) :=
  subi (kx_main_call4_v2 V) (kx_main_call4_v12 V)
def kx_main_v43 (V : Valuation τ sig (Elt F)) : (⟨S1x1024, .i32⟩ : BufTy).Contents (Elt F) :=
  select (kx_main_call4_v11 V) (kx_main_call4_v13 V) (kx_main_call4_v2 V)
def kx_main_v44 (V : Valuation τ sig (Elt F)) : (⟨S32x1024, .i32⟩ : BufTy).Contents (Elt F) :=
  (broadcastInDim S32x1024 ![0, 1] bcast_S32x1_S32x1024_0_1 : (⟨S32x1, .i32⟩ : BufTy).Contents (Elt F) → (⟨S32x1024, .i32⟩ : BufTy).Contents (Elt F)) (kx_main_v41 V)
def kx_main_v45 (V : Valuation τ sig (Elt F)) : (⟨S32x1024, .i32⟩ : BufTy).Contents (Elt F) :=
  (broadcastInDim S32x1024 ![0, 1] bcast_S1x1024_S32x1024_0_1 : (⟨S1x1024, .i32⟩ : BufTy).Contents (Elt F) → (⟨S32x1024, .i32⟩ : BufTy).Contents (Elt F)) (kx_main_v43 V)
def kx_main_v46 (V : Valuation τ sig (Elt F)) : (⟨S32x1024, .i1⟩ : BufTy).Contents (Elt F) :=
  (cmpi .eq : (⟨S32x1024, .i32⟩ : BufTy).Contents (Elt F) → (⟨S32x1024, .i32⟩ : BufTy).Contents (Elt F) → (⟨S32x1024, .i1⟩ : BufTy).Contents (Elt F)) (kx_main_v44 V) (kx_main_v45 V)
def kx_main_v47 (V : Valuation τ sig (Elt F)) : (⟨S32x1024, .bf16⟩ : BufTy).Contents (Elt F) :=
  (uitofp .bf16 : (⟨S32x1024, .i1⟩ : BufTy).Contents (Elt F) → (⟨S32x1024, .bf16⟩ : BufTy).Contents (Elt F)) (kx_main_v46 V)
def kx_main_c_12 (V : Valuation τ sig (Elt F)) : (⟨S_, .i32⟩ : BufTy).Contents (Elt F) :=
  (constantI S_ 32 0#32)
def kx_main_call5_v0 (V : Valuation τ sig (Elt F)) : (⟨S_, .bf16⟩ : BufTy).Contents (Elt F) :=
  (sitofp .bf16) (kx_main_c_12 V)
def kx_main_v48 (V : Valuation τ sig (Elt F)) : (⟨S128x1024, .bf16⟩ : BufTy).Contents (Elt F) :=
  (fun x v => pad S128x1024 ![32, 0] ![64, 0] ![0, 0] x v pads_S32x1024_S128x1024_32640_000 h_S_) (kx_main_v47 V) (kx_main_call5_v0 V)
def kx_main_v49 (V : Valuation τ sig (Elt F)) : (⟨S1024x1, .i32⟩ : BufTy).Contents (Elt F) :=
  (broadcastInDim S1024x1 ![0] bcast_S1024_S1024x1_0 : (⟨S1024, .i32⟩ : BufTy).Contents (Elt F) → (⟨S1024x1, .i32⟩ : BufTy).Contents (Elt F)) (kx_main_v39 V)
def kx_main_c_13 (V : Valuation τ sig (Elt F)) : (⟨S_, .i32⟩ : BufTy).Contents (Elt F) :=
  (constantI S_ 32 32#32)
def kx_main_call6_v0 (V : Valuation τ sig (Elt F)) : (⟨S_, .i32⟩ : BufTy).Contents (Elt F) :=
  id (kx_main_c_13 V)
def kx_main_call6_c (V : Valuation τ sig (Elt F)) : (⟨S_, .i32⟩ : BufTy).Contents (Elt F) :=
  (constantI S_ 32 0#32)
def kx_main_call6_v1 (V : Valuation τ sig (Elt F)) : (⟨S_, .i1⟩ : BufTy).Contents (Elt F) :=
  (cmpi .eq) (kx_main_call6_v0 V) (kx_main_call6_c V)
def kx_main_call6_c_0 (V : Valuation τ sig (Elt F)) : (⟨S_, .i32⟩ : BufTy).Contents (Elt F) :=
  (constantI S_ 32 1#32)
def kx_main_call6_v2 (V : Valuation τ sig (Elt F)) : (⟨S_, .i32⟩ : BufTy).Contents (Elt F) :=
  select (kx_main_call6_v1 V) (kx_main_call6_c_0 V) (kx_main_call6_v0 V)
def kx_main_call6_v3 (V : Valuation τ sig (Elt F)) : (⟨S1024x1, .i32⟩ : BufTy).Contents (Elt F) :=
  (broadcastInDim S1024x1 ![] bcast_S_S1024x1) (kx_main_call6_v2 V)
def kx_main_call6_v4 (V : Valuation τ sig (Elt F)) : (⟨S1024x1, .i32⟩ : BufTy).Contents (Elt F) :=
  Host.remsi (kx_main_v49 V) (kx_main_call6_v3 V)
def kx_main_call6_c_1 (V : Valuation τ sig (Elt F)) : (⟨S_, .i32⟩ : BufTy).Contents (Elt F) :=
  (constantI S_ 32 0#32)
def kx_main_call6_v5 (V : Valuation τ sig (Elt F)) : (⟨S1024x1, .i32⟩ : BufTy).Contents (Elt F) :=
  (broadcastInDim S1024x1 ![] bcast_S_S1024x1) (kx_main_call6_c_1 V)
def kx_main_call6_v6 (V : Valuation τ sig (Elt F)) : (⟨S1024x1, .i1⟩ : BufTy).Contents (Elt F) :=
  (cmpi .ne) (kx_main_call6_v4 V) (kx_main_call6_v5 V)
def kx_main_call6_c_2 (V : Valuation τ sig (Elt F)) : (⟨S_, .i32⟩ : BufTy).Contents (Elt F) :=
  (constantI S_ 32 0#32)
def kx_main_call6_v7 (V : Valuation τ sig (Elt F)) : (⟨S1024x1, .i32⟩ : BufTy).Contents (Elt F) :=
  (broadcastInDim S1024x1 ![] bcast_S_S1024x1) (kx_main_call6_c_2 V)
def kx_main_call6_v8 (V : Valuation τ sig (Elt F)) : (⟨S1024x1, .i1⟩ : BufTy).Contents (Elt F) :=
  (cmpi .slt) (kx_main_call6_v4 V) (kx_main_call6_v7 V)
def kx_main_call6_c_3 (V : Valuation τ sig (Elt F)) : (⟨S_, .i32⟩ : BufTy).Contents (Elt F) :=
  (constantI S_ 32 0#32)
def kx_main_call6_v9 (V : Valuation τ sig (Elt F)) : (⟨S_, .i1⟩ : BufTy).Contents (Elt F) :=
  (cmpi .slt) (kx_main_call6_v2 V) (kx_main_call6_c_3 V)
def kx_main_call6_v10 (V : Valuation τ sig (Elt F)) : (⟨S1024x1, .i1⟩ : BufTy).Contents (Elt F) :=
  (broadcastInDim S1024x1 ![] bcast_S_S1024x1) (kx_main_call6_v9 V)
def kx_main_call6_v11 (V : Valuation τ sig (Elt F)) : (⟨S1024x1, .i1⟩ : BufTy).Contents (Elt F) :=
  (cmpi .ne) (kx_main_call6_v8 V) (kx_main_call6_v10 V)
def kx_main_call6_v12 (V : Valuation τ sig (Elt F)) : (⟨S1024x1, .i1⟩ : BufTy).Contents (Elt F) :=
  andi (kx_main_call6_v11 V) (kx_main_call6_v6 V)
def kx_main_call6_v13 (V : Valuation τ sig (Elt F)) : (⟨S1024x1, .i32⟩ : BufTy).Contents (Elt F) :=
  (broadcastInDim S1024x1 ![] bcast_S_S1024x1) (kx_main_call6_v2 V)
def kx_main_call6_v14 (V : Valuation τ sig (Elt F)) : (⟨S1024x1, .i32⟩ : BufTy).Contents (Elt F) :=
  addi (kx_main_call6_v4 V) (kx_main_call6_v13 V)
def kx_main_v50 (V : Valuation τ sig (Elt F)) : (⟨S1024x1, .i32⟩ : BufTy).Contents (Elt F) :=
  select (kx_main_call6_v12 V) (kx_main_call6_v14 V) (kx_main_call6_v4 V)
def kx_main_v51 (V : Valuation τ sig (Elt F)) : (⟨S32, .i32⟩ : BufTy).Contents (Elt F) :=
  (iotaInDim S32 32 0)
def kx_main_v52 (V : Valuation τ sig (Elt F)) : (⟨S1x32, .i32⟩ : BufTy).Contents (Elt F) :=
  (broadcastInDim S1x32 ![1] bcast_S32_S1x32_1 : (⟨S32, .i32⟩ : BufTy).Contents (Elt F) → (⟨S1x32, .i32⟩ : BufTy).Contents (Elt F)) (kx_main_v51 V)
def kx_main_v53 (V : Valuation τ sig (Elt F)) : (⟨S1024x32, .i32⟩ : BufTy).Contents (Elt F) :=
  (broadcastInDim S1024x32 ![0, 1] bcast_S1024x1_S1024x32_0_1 : (⟨S1024x1, .i32⟩ : BufTy).Contents (Elt F) → (⟨S1024x32, .i32⟩ : BufTy).Contents (Elt F)) (kx_main_v50 V)
def kx_main_v54 (V : Valuation τ sig (Elt F)) : (⟨S1024x32, .i32⟩ : BufTy).Contents (Elt F) :=
  (broadcastInDim S1024x32 ![0, 1] bcast_S1x32_S1024x32_0_1 : (⟨S1x32, .i32⟩ : BufTy).Contents (Elt F) → (⟨S1024x32, .i32⟩ : BufTy).Contents (Elt F)) (kx_main_v52 V)
def kx_main_v55 (V : Valuation τ sig (Elt F)) : (⟨S1024x32, .i1⟩ : BufTy).Contents (Elt F) :=
  (cmpi .eq : (⟨S1024x32, .i32⟩ : BufTy).Contents (Elt F) → (⟨S1024x32, .i32⟩ : BufTy).Contents (Elt F) → (⟨S1024x32, .i1⟩ : BufTy).Contents (Elt F)) (kx_main_v53 V) (kx_main_v54 V)
def kx_main_v56 (V : Valuation τ sig (Elt F)) : (⟨S1024x32, .bf16⟩ : BufTy).Contents (Elt F) :=
  (uitofp .bf16 : (⟨S1024x32, .i1⟩ : BufTy).Contents (Elt F) → (⟨S1024x32, .bf16⟩ : BufTy).Contents (Elt F)) (kx_main_v55 V)
def kx_main_c_14 (V : Valuation τ sig (Elt F)) : (⟨S_, .i32⟩ : BufTy).Contents (Elt F) :=
  (constantI S_ 32 0#32)
def kx_main_call7_v0 (V : Valuation τ sig (Elt F)) : (⟨S_, .bf16⟩ : BufTy).Contents (Elt F) :=
  (sitofp .bf16) (kx_main_c_14 V)
def kx_main_v57 (V : Valuation τ sig (Elt F)) : (⟨S1024x128, .bf16⟩ : BufTy).Contents (Elt F) :=
  (fun x v => pad S1024x128 ![0, 64] ![0, 32] ![0, 0] x v pads_S1024x32_S1024x128_000_64320 h_S_) (kx_main_v56 V) (kx_main_call7_v0 V)
def kx_main_c_15 (V : Valuation τ sig (Elt F)) : (⟨S_, .i32⟩ : BufTy).Contents (Elt F) :=
  (constantI S_ 32 0#32)
def kx_main_call8_v0 (V : Valuation τ sig (Elt F)) : (⟨S_, .f32⟩ : BufTy).Contents (Elt F) :=
  (sitofp .f32) (kx_main_c_15 V)
def kx_main_v58 (V : Valuation τ sig (Elt F)) : (⟨S19x128, .f32⟩ : BufTy).Contents (Elt F) :=
  (fun x v => pad S19x128 ![0, 32] ![0, 64] ![0, 0] x v pads_S19x32_S19x128_000_32640 h_S_) (V (Proc.devRef .tc main_arg13)) (kx_main_call8_v0 V)
def kx_main_v59 (V : Valuation τ sig (Elt F)) : (⟨S1x32, .f32⟩ : BufTy).Contents (Elt F) :=
  (broadcastInDim S1x32 ![1] bcast_S32_S1x32_1 : (⟨S32, .f32⟩ : BufTy).Contents (Elt F) → (⟨S1x32, .f32⟩ : BufTy).Contents (Elt F)) (V (Proc.devRef .tc main_arg14))
def kx_main_c_16 (V : Valuation τ sig (Elt F)) : (⟨S_, .i32⟩ : BufTy).Contents (Elt F) :=
  (constantI S_ 32 0#32)
def kx_main_call9_v0 (V : Valuation τ sig (Elt F)) : (⟨S_, .f32⟩ : BufTy).Contents (Elt F) :=
  (sitofp .f32) (kx_main_c_16 V)
def kx_main_v60 (V : Valuation τ sig (Elt F)) : (⟨S1x128, .f32⟩ : BufTy).Contents (Elt F) :=
  (fun x v => pad S1x128 ![0, 32] ![0, 64] ![0, 0] x v pads_S1x32_S1x128_000_32640 h_S_) (kx_main_v59 V) (kx_main_call9_v0 V)
def kx_main_v61 (V : Valuation τ sig (Elt F)) : (⟨S1x32, .f32⟩ : BufTy).Contents (Elt F) :=
  (broadcastInDim S1x32 ![1] bcast_S32_S1x32_1 : (⟨S32, .f32⟩ : BufTy).Contents (Elt F) → (⟨S1x32, .f32⟩ : BufTy).Contents (Elt F)) (V (Proc.devRef .tc main_arg16))
def kx_main_c_17 (V : Valuation τ sig (Elt F)) : (⟨S_, .i32⟩ : BufTy).Contents (Elt F) :=
  (constantI S_ 32 0#32)
def kx_main_call10_v0 (V : Valuation τ sig (Elt F)) : (⟨S_, .f32⟩ : BufTy).Contents (Elt F) :=
  (sitofp .f32) (kx_main_c_17 V)
def kx_main_v62 (V : Valuation τ sig (Elt F)) : (⟨S1x128, .f32⟩ : BufTy).Contents (Elt F) :=
  (fun x v => pad S1x128 ![0, 64] ![0, 32] ![0, 0] x v pads_S1x32_S1x128_000_64320 h_S_) (kx_main_v61 V) (kx_main_call10_v0 V)
def kx_main_v63 (V : Valuation τ sig (Elt F)) : (⟨S64x1024, .f32⟩ : BufTy).Contents (Elt F) :=
  ((extractStridedSlice S64x1024 ![0, 0] · slices_S226x1024_S64x1024_0_0) : (⟨S226x1024, .f32⟩ : BufTy).Contents (Elt F) → (⟨S64x1024, .f32⟩ : BufTy).Contents (Elt F)) (V (Proc.devRef .tc main_arg17))
def kx_main_v64 (V : Valuation τ sig (Elt F)) : (⟨S64x1024, .f32⟩ : BufTy).Contents (Elt F) :=
  ((extractStridedSlice S64x1024 ![96, 0] · slices_S226x1024_S64x1024_96_0) : (⟨S226x1024, .f32⟩ : BufTy).Contents (Elt F) → (⟨S64x1024, .f32⟩ : BufTy).Contents (Elt F)) (V (Proc.devRef .tc main_arg17))
def kx_main_v65 (V : Valuation τ sig (Elt F)) : (⟨S32x1024, .f32⟩ : BufTy).Contents (Elt F) :=
  ((extractStridedSlice S32x1024 ![64, 0] · slices_S226x1024_S32x1024_64_0) : (⟨S226x1024, .f32⟩ : BufTy).Contents (Elt F) → (⟨S32x1024, .f32⟩ : BufTy).Contents (Elt F)) (V (Proc.devRef .tc main_arg17))
def kx_main_v66 (V : Valuation τ sig (Elt F)) : (⟨S32x1024, .f32⟩ : BufTy).Contents (Elt F) :=
  ((extractStridedSlice S32x1024 ![160, 0] · slices_S226x1024_S32x1024_160_0) : (⟨S226x1024, .f32⟩ : BufTy).Contents (Elt F) → (⟨S32x1024, .f32⟩ : BufTy).Contents (Elt F)) (V (Proc.devRef .tc main_arg17))
def kx_main_v67 (V : Valuation τ sig (Elt F)) : (⟨S32x1024, .f32⟩ : BufTy).Contents (Elt F) :=
  ((extractStridedSlice S32x1024 ![194, 0] · slices_S226x1024_S32x1024_194_0) : (⟨S226x1024, .f32⟩ : BufTy).Contents (Elt F) → (⟨S32x1024, .f32⟩ : BufTy).Contents (Elt F)) (V (Proc.devRef .tc main_arg17))
def kx_main_v68 (V : Valuation τ sig (Elt F)) : (⟨S1x1024, .f32⟩ : BufTy).Contents (Elt F) :=
  ((extractStridedSlice S1x1024 ![192, 0] · slices_S226x1024_S1x1024_192_0) : (⟨S226x1024, .f32⟩ : BufTy).Contents (Elt F) → (⟨S1x1024, .f32⟩ : BufTy).Contents (Elt F)) (V (Proc.devRef .tc main_arg17))
def kx_main_v69 (V : Valuation τ sig (Elt F)) : (⟨S1x1024, .f32⟩ : BufTy).Contents (Elt F) :=
  ((extractStridedSlice S1x1024 ![192, 0] · slices_S226x1024_S1x1024_192_0) : (⟨S226x1024, .f32⟩ : BufTy).Contents (Elt F) → (⟨S1x1024, .f32⟩ : BufTy).Contents (Elt F)) (V (Proc.devRef .tc main_arg17))
def kx_main_v70 (V : Valuation τ sig (Elt F)) : (⟨S1x1024, .f32⟩ : BufTy).Contents (Elt F) :=
  ((extractStridedSlice S1x1024 ![193, 0] · slices_S226x1024_S1x1024_193_0) : (⟨S226x1024, .f32⟩ : BufTy).Contents (Elt F) → (⟨S1x1024, .f32⟩ : BufTy).Contents (Elt F)) (V (Proc.devRef .tc main_arg17))
def kx_main_cst_18 (V : Valuation τ sig (Elt F)) : (⟨S_, .f32⟩ : BufTy).Contents (Elt F) :=
  (constant S_ .f32 0x00000000#32)
def kx_main_v71 (V : Valuation τ sig (Elt F)) : (⟨S29x1024, .f32⟩ : BufTy).Contents (Elt F) :=
  (broadcastInDim S29x1024 ![] bcast_S_S29x1024 : (⟨S_, .f32⟩ : BufTy).Contents (Elt F) → (⟨S29x1024, .f32⟩ : BufTy).Contents (Elt F)) (kx_main_cst_18 V)
def kx_main_v72 (V : Valuation τ sig (Elt F)) : (⟨S256x1024, .f32⟩ : BufTy).Contents (Elt F) :=
  concatenate S256x1024 0 [⟨S64x1024, kx_main_v63 V⟩, ⟨S64x1024, kx_main_v64 V⟩, ⟨S32x1024, kx_main_v65 V⟩, ⟨S32x1024, kx_main_v66 V⟩, ⟨S32x1024, kx_main_v67 V⟩, ⟨S1x1024, kx_main_v68 V⟩, ⟨S1x1024, kx_main_v69 V⟩, ⟨S1x1024, kx_main_v70 V⟩, ⟨S29x1024, kx_main_v71 V⟩] concatenates_S64x1024_S64x1024_S32x1024_S32x1024_S32x1024_S1x1024_S1x1024_S1x1024_S29x1024_S256x1024_d0
def kx_main_v73 (V : Valuation τ sig (Elt F)) : (⟨S256x1024, .bf16⟩ : BufTy).Contents (Elt F) :=
  ((truncf .bf16 · bitsLt_bf16_f32) : (⟨S256x1024, .f32⟩ : BufTy).Contents (Elt F) → (⟨S256x1024, .bf16⟩ : BufTy).Contents (Elt F)) (kx_main_v72 V)
def kx_main_v74 (V : Valuation τ sig (Elt F)) : (⟨S64x1024, .f32⟩ : BufTy).Contents (Elt F) :=
  ((extractStridedSlice S64x1024 ![0, 0] · slices_S226x1024_S64x1024_0_0) : (⟨S226x1024, .f32⟩ : BufTy).Contents (Elt F) → (⟨S64x1024, .f32⟩ : BufTy).Contents (Elt F)) (V (Proc.devRef .tc main_arg21))
def kx_main_v75 (V : Valuation τ sig (Elt F)) : (⟨S64x1024, .f32⟩ : BufTy).Contents (Elt F) :=
  ((extractStridedSlice S64x1024 ![96, 0] · slices_S226x1024_S64x1024_96_0) : (⟨S226x1024, .f32⟩ : BufTy).Contents (Elt F) → (⟨S64x1024, .f32⟩ : BufTy).Contents (Elt F)) (V (Proc.devRef .tc main_arg21))
def kx_main_v76 (V : Valuation τ sig (Elt F)) : (⟨S32x1024, .f32⟩ : BufTy).Contents (Elt F) :=
  ((extractStridedSlice S32x1024 ![64, 0] · slices_S226x1024_S32x1024_64_0) : (⟨S226x1024, .f32⟩ : BufTy).Contents (Elt F) → (⟨S32x1024, .f32⟩ : BufTy).Contents (Elt F)) (V (Proc.devRef .tc main_arg21))
def kx_main_v77 (V : Valuation τ sig (Elt F)) : (⟨S32x1024, .f32⟩ : BufTy).Contents (Elt F) :=
  ((extractStridedSlice S32x1024 ![160, 0] · slices_S226x1024_S32x1024_160_0) : (⟨S226x1024, .f32⟩ : BufTy).Contents (Elt F) → (⟨S32x1024, .f32⟩ : BufTy).Contents (Elt F)) (V (Proc.devRef .tc main_arg21))
def kx_main_v78 (V : Valuation τ sig (Elt F)) : (⟨S32x1024, .f32⟩ : BufTy).Contents (Elt F) :=
  ((extractStridedSlice S32x1024 ![194, 0] · slices_S226x1024_S32x1024_194_0) : (⟨S226x1024, .f32⟩ : BufTy).Contents (Elt F) → (⟨S32x1024, .f32⟩ : BufTy).Contents (Elt F)) (V (Proc.devRef .tc main_arg21))
def kx_main_v79 (V : Valuation τ sig (Elt F)) : (⟨S1x1024, .f32⟩ : BufTy).Contents (Elt F) :=
  ((extractStridedSlice S1x1024 ![192, 0] · slices_S226x1024_S1x1024_192_0) : (⟨S226x1024, .f32⟩ : BufTy).Contents (Elt F) → (⟨S1x1024, .f32⟩ : BufTy).Contents (Elt F)) (V (Proc.devRef .tc main_arg21))
def kx_main_v80 (V : Valuation τ sig (Elt F)) : (⟨S1x1024, .f32⟩ : BufTy).Contents (Elt F) :=
  ((extractStridedSlice S1x1024 ![192, 0] · slices_S226x1024_S1x1024_192_0) : (⟨S226x1024, .f32⟩ : BufTy).Contents (Elt F) → (⟨S1x1024, .f32⟩ : BufTy).Contents (Elt F)) (V (Proc.devRef .tc main_arg21))
def kx_main_v81 (V : Valuation τ sig (Elt F)) : (⟨S1x1024, .f32⟩ : BufTy).Contents (Elt F) :=
  ((extractStridedSlice S1x1024 ![193, 0] · slices_S226x1024_S1x1024_193_0) : (⟨S226x1024, .f32⟩ : BufTy).Contents (Elt F) → (⟨S1x1024, .f32⟩ : BufTy).Contents (Elt F)) (V (Proc.devRef .tc main_arg21))
def kx_main_cst_19 (V : Valuation τ sig (Elt F)) : (⟨S_, .f32⟩ : BufTy).Contents (Elt F) :=
  (constant S_ .f32 0x00000000#32)
def kx_main_v82 (V : Valuation τ sig (Elt F)) : (⟨S29x1024, .f32⟩ : BufTy).Contents (Elt F) :=
  (broadcastInDim S29x1024 ![] bcast_S_S29x1024 : (⟨S_, .f32⟩ : BufTy).Contents (Elt F) → (⟨S29x1024, .f32⟩ : BufTy).Contents (Elt F)) (kx_main_cst_19 V)
def kx_main_v83 (V : Valuation τ sig (Elt F)) : (⟨S256x1024, .f32⟩ : BufTy).Contents (Elt F) :=
  concatenate S256x1024 0 [⟨S64x1024, kx_main_v74 V⟩, ⟨S64x1024, kx_main_v75 V⟩, ⟨S32x1024, kx_main_v76 V⟩, ⟨S32x1024, kx_main_v77 V⟩, ⟨S32x1024, kx_main_v78 V⟩, ⟨S1x1024, kx_main_v79 V⟩, ⟨S1x1024, kx_main_v80 V⟩, ⟨S1x1024, kx_main_v81 V⟩, ⟨S29x1024, kx_main_v82 V⟩] concatenates_S64x1024_S64x1024_S32x1024_S32x1024_S32x1024_S1x1024_S1x1024_S1x1024_S29x1024_S256x1024_d0
def kx_main_v84 (V : Valuation τ sig (Elt F)) : (⟨S256x1024, .bf16⟩ : BufTy).Contents (Elt F) :=
  ((truncf .bf16 · bitsLt_bf16_f32) : (⟨S256x1024, .f32⟩ : BufTy).Contents (Elt F) → (⟨S256x1024, .bf16⟩ : BufTy).Contents (Elt F)) (kx_main_v83 V)
def kx_main_v85 (V : Valuation τ sig (Elt F)) : (⟨S16384x1, .f32⟩ : BufTy).Contents (Elt F) :=
  (broadcastInDim S16384x1 ![0] bcast_S16384_S16384x1_0 : (⟨S16384, .f32⟩ : BufTy).Contents (Elt F) → (⟨S16384x1, .f32⟩ : BufTy).Contents (Elt F)) (V (Proc.devRef .tc main_arg6))
def kx_main_v86 (V : Valuation τ sig (Elt F)) : (⟨S16384x1, .f32⟩ : BufTy).Contents (Elt F) :=
  (broadcastInDim S16384x1 ![0] bcast_S16384_S16384x1_0 : (⟨S16384, .f32⟩ : BufTy).Contents (Elt F) → (⟨S16384x1, .f32⟩ : BufTy).Contents (Elt F)) (V (Proc.devRef .tc main_arg7))
def valB0 (V : Valuation τ sig (Elt F)) : Valuation τ sig (Elt F) := V
theorem valB0_main_arg15 (V : Valuation τ sig (Elt F)) : valB0 V (no_index (Proc.devRef .tc main_arg15)) = V (Proc.devRef .tc main_arg15) := rfl
theorem valB0_main_arg13 (V : Valuation τ sig (Elt F)) : valB0 V (no_index (Proc.devRef .tc main_arg13)) = V (Proc.devRef .tc main_arg13) := rfl
theorem valB0_main_arg14 (V : Valuation τ sig (Elt F)) : valB0 V (no_index (Proc.devRef .tc main_arg14)) = V (Proc.devRef .tc main_arg14) := rfl
theorem valB0_main_arg16 (V : Valuation τ sig (Elt F)) : valB0 V (no_index (Proc.devRef .tc main_arg16)) = V (Proc.devRef .tc main_arg16) := rfl
theorem valB0_main_arg17 (V : Valuation τ sig (Elt F)) : valB0 V (no_index (Proc.devRef .tc main_arg17)) = V (Proc.devRef .tc main_arg17) := rfl
theorem valB0_main_arg21 (V : Valuation τ sig (Elt F)) : valB0 V (no_index (Proc.devRef .tc main_arg21)) = V (Proc.devRef .tc main_arg21) := rfl
theorem valB0_main_arg6 (V : Valuation τ sig (Elt F)) : valB0 V (no_index (Proc.devRef .tc main_arg6)) = V (Proc.devRef .tc main_arg6) := rfl
theorem valB0_main_arg7 (V : Valuation τ sig (Elt F)) : valB0 V (no_index (Proc.devRef .tc main_arg7)) = V (Proc.devRef .tc main_arg7) := rfl

def valB1 (V : Valuation τ sig (Elt F)) : Valuation τ sig (Elt F) := after kwB_0 (valB0 V)
theorem valB1_keep (V : Valuation τ sig (Elt F)) (r : Ref sig .tc) (h : r ∉ kwB_0_W) :
    valB1 V (Proc.devRef .tc r) = valB0 V (Proc.devRef .tc r) :=
  after_of_writes_sub kwB_0 _ kwB_0_writes h
theorem valB1_main_arg13 (V : Valuation τ sig (Elt F)) : valB1 V (no_index (Proc.devRef .tc main_arg13)) = V (Proc.devRef .tc main_arg13) :=
  (valB1_keep V main_arg13 (by decide)).trans (valB0_main_arg13 V)
theorem valB1_main_arg14 (V : Valuation τ sig (Elt F)) : valB1 V (no_index (Proc.devRef .tc main_arg14)) = V (Proc.devRef .tc main_arg14) :=
  (valB1_keep V main_arg14 (by decide)).trans (valB0_main_arg14 V)
theorem valB1_main_arg16 (V : Valuation τ sig (Elt F)) : valB1 V (no_index (Proc.devRef .tc main_arg16)) = V (Proc.devRef .tc main_arg16) :=
  (valB1_keep V main_arg16 (by decide)).trans (valB0_main_arg16 V)
theorem valB1_main_arg17 (V : Valuation τ sig (Elt F)) : valB1 V (no_index (Proc.devRef .tc main_arg17)) = V (Proc.devRef .tc main_arg17) :=
  (valB1_keep V main_arg17 (by decide)).trans (valB0_main_arg17 V)
theorem valB1_main_arg21 (V : Valuation τ sig (Elt F)) : valB1 V (no_index (Proc.devRef .tc main_arg21)) = V (Proc.devRef .tc main_arg21) :=
  (valB1_keep V main_arg21 (by decide)).trans (valB0_main_arg21 V)
theorem valB1_main_arg6 (V : Valuation τ sig (Elt F)) : valB1 V (no_index (Proc.devRef .tc main_arg6)) = V (Proc.devRef .tc main_arg6) :=
  (valB1_keep V main_arg6 (by decide)).trans (valB0_main_arg6 V)
theorem valB1_main_arg7 (V : Valuation τ sig (Elt F)) : valB1 V (no_index (Proc.devRef .tc main_arg7)) = V (Proc.devRef .tc main_arg7) :=
  (valB1_keep V main_arg7 (by decide)).trans (valB0_main_arg7 V)
set_option maxRecDepth 8192 in
set_option maxHeartbeats 2000000 in
theorem valB1_main_v38 (V : Valuation τ sig (Elt F)) : valB1 V (no_index (Proc.devRef .tc main_v38)) = kx_main_v38 V := by
  unfold valB1
  simp only [kwB_0]
  after_results_simp
  simp only [valB0_main_arg15]
  rfl
set_option maxRecDepth 8192 in
set_option maxHeartbeats 2000000 in
theorem valB1_main_v39 (V : Valuation τ sig (Elt F)) : valB1 V (no_index (Proc.devRef .tc main_v39)) = kx_main_v39 V := by
  unfold valB1
  simp only [kwB_0]
  after_results_simp
  rfl
set_option maxRecDepth 8192 in
set_option maxHeartbeats 2000000 in
theorem valB1_main_v41 (V : Valuation τ sig (Elt F)) : valB1 V (no_index (Proc.devRef .tc main_v41)) = kx_main_v41 V := by
  unfold valB1
  simp only [kwB_0]
  after_results_simp
  rfl
set_option maxRecDepth 8192 in
set_option maxHeartbeats 2000000 in
theorem valB1_main_v42 (V : Valuation τ sig (Elt F)) : valB1 V (no_index (Proc.devRef .tc main_v42)) = kx_main_v42 V := by
  unfold valB1
  simp only [kwB_0]
  after_results_simp
  rfl
set_option maxRecDepth 8192 in
set_option maxHeartbeats 2000000 in
theorem valB1_main_call4_v0 (V : Valuation τ sig (Elt F)) : valB1 V (no_index (Proc.devRef .tc main_call4_v0)) = kx_main_call4_v0 V := by
  unfold valB1
  simp only [kwB_0]
  after_results_simp
  rfl
set_option maxRecDepth 8192 in
set_option maxHeartbeats 2000000 in
theorem valB1_main_call4_v2 (V : Valuation τ sig (Elt F)) : valB1 V (no_index (Proc.devRef .tc main_call4_v2)) = kx_main_call4_v2 V := by
  unfold valB1
  simp only [kwB_0]
  after_results_simp
  rfl
set_option maxRecDepth 8192 in
set_option maxHeartbeats 2000000 in
theorem valB1_main_call4_v3 (V : Valuation τ sig (Elt F)) : valB1 V (no_index (Proc.devRef .tc main_call4_v3)) = kx_main_call4_v3 V := by
  unfold valB1
  simp only [kwB_0]
  after_results_simp
  rfl
set_option maxRecDepth 8192 in
set_option maxHeartbeats 2000000 in
theorem valB1_main_call4_v4 (V : Valuation τ sig (Elt F)) : valB1 V (no_index (Proc.devRef .tc main_call4_v4)) = kx_main_call4_v4 V := by
  unfold valB1
  simp only [kwB_0]
  after_results_simp
  rfl

def valB2 (V : Valuation τ sig (Elt F)) : Valuation τ sig (Elt F) := after kwB_1 (valB1 V)
theorem valB2_keep (V : Valuation τ sig (Elt F)) (r : Ref sig .tc) (h : r ∉ kwB_1_W) :
    valB2 V (Proc.devRef .tc r) = valB1 V (Proc.devRef .tc r) :=
  after_of_writes_sub kwB_1 _ kwB_1_writes h
theorem valB2_main_arg13 (V : Valuation τ sig (Elt F)) : valB2 V (no_index (Proc.devRef .tc main_arg13)) = V (Proc.devRef .tc main_arg13) :=
  (valB2_keep V main_arg13 (by decide)).trans (valB1_main_arg13 V)
theorem valB2_main_arg14 (V : Valuation τ sig (Elt F)) : valB2 V (no_index (Proc.devRef .tc main_arg14)) = V (Proc.devRef .tc main_arg14) :=
  (valB2_keep V main_arg14 (by decide)).trans (valB1_main_arg14 V)
theorem valB2_main_arg16 (V : Valuation τ sig (Elt F)) : valB2 V (no_index (Proc.devRef .tc main_arg16)) = V (Proc.devRef .tc main_arg16) :=
  (valB2_keep V main_arg16 (by decide)).trans (valB1_main_arg16 V)
theorem valB2_main_arg17 (V : Valuation τ sig (Elt F)) : valB2 V (no_index (Proc.devRef .tc main_arg17)) = V (Proc.devRef .tc main_arg17) :=
  (valB2_keep V main_arg17 (by decide)).trans (valB1_main_arg17 V)
theorem valB2_main_arg21 (V : Valuation τ sig (Elt F)) : valB2 V (no_index (Proc.devRef .tc main_arg21)) = V (Proc.devRef .tc main_arg21) :=
  (valB2_keep V main_arg21 (by decide)).trans (valB1_main_arg21 V)
theorem valB2_main_arg6 (V : Valuation τ sig (Elt F)) : valB2 V (no_index (Proc.devRef .tc main_arg6)) = V (Proc.devRef .tc main_arg6) :=
  (valB2_keep V main_arg6 (by decide)).trans (valB1_main_arg6 V)
theorem valB2_main_arg7 (V : Valuation τ sig (Elt F)) : valB2 V (no_index (Proc.devRef .tc main_arg7)) = V (Proc.devRef .tc main_arg7) :=
  (valB2_keep V main_arg7 (by decide)).trans (valB1_main_arg7 V)
theorem valB2_main_v38 (V : Valuation τ sig (Elt F)) : valB2 V (no_index (Proc.devRef .tc main_v38)) = kx_main_v38 V :=
  (valB2_keep V main_v38 (by decide)).trans (valB1_main_v38 V)
theorem valB2_main_v39 (V : Valuation τ sig (Elt F)) : valB2 V (no_index (Proc.devRef .tc main_v39)) = kx_main_v39 V :=
  (valB2_keep V main_v39 (by decide)).trans (valB1_main_v39 V)
theorem valB2_main_v41 (V : Valuation τ sig (Elt F)) : valB2 V (no_index (Proc.devRef .tc main_v41)) = kx_main_v41 V :=
  (valB2_keep V main_v41 (by decide)).trans (valB1_main_v41 V)
set_option maxRecDepth 8192 in
set_option maxHeartbeats 2000000 in
theorem valB2_main_v43 (V : Valuation τ sig (Elt F)) : valB2 V (no_index (Proc.devRef .tc main_v43)) = kx_main_v43 V := by
  unfold valB2
  simp only [kwB_1]
  after_results_simp
  simp only [valB1_main_call4_v2, valB1_main_call4_v0, valB1_main_v42, valB1_main_call4_v4, valB1_main_call4_v3]
  rfl

def valB3 (V : Valuation τ sig (Elt F)) : Valuation τ sig (Elt F) := after kwB_2 (valB2 V)
theorem valB3_keep (V : Valuation τ sig (Elt F)) (r : Ref sig .tc) (h : r ∉ kwB_2_W) :
    valB3 V (Proc.devRef .tc r) = valB2 V (Proc.devRef .tc r) :=
  after_of_writes_sub kwB_2 _ kwB_2_writes h
theorem valB3_main_arg13 (V : Valuation τ sig (Elt F)) : valB3 V (no_index (Proc.devRef .tc main_arg13)) = V (Proc.devRef .tc main_arg13) :=
  (valB3_keep V main_arg13 (by decide)).trans (valB2_main_arg13 V)
theorem valB3_main_arg14 (V : Valuation τ sig (Elt F)) : valB3 V (no_index (Proc.devRef .tc main_arg14)) = V (Proc.devRef .tc main_arg14) :=
  (valB3_keep V main_arg14 (by decide)).trans (valB2_main_arg14 V)
theorem valB3_main_arg16 (V : Valuation τ sig (Elt F)) : valB3 V (no_index (Proc.devRef .tc main_arg16)) = V (Proc.devRef .tc main_arg16) :=
  (valB3_keep V main_arg16 (by decide)).trans (valB2_main_arg16 V)
theorem valB3_main_arg17 (V : Valuation τ sig (Elt F)) : valB3 V (no_index (Proc.devRef .tc main_arg17)) = V (Proc.devRef .tc main_arg17) :=
  (valB3_keep V main_arg17 (by decide)).trans (valB2_main_arg17 V)
theorem valB3_main_arg21 (V : Valuation τ sig (Elt F)) : valB3 V (no_index (Proc.devRef .tc main_arg21)) = V (Proc.devRef .tc main_arg21) :=
  (valB3_keep V main_arg21 (by decide)).trans (valB2_main_arg21 V)
theorem valB3_main_arg6 (V : Valuation τ sig (Elt F)) : valB3 V (no_index (Proc.devRef .tc main_arg6)) = V (Proc.devRef .tc main_arg6) :=
  (valB3_keep V main_arg6 (by decide)).trans (valB2_main_arg6 V)
theorem valB3_main_arg7 (V : Valuation τ sig (Elt F)) : valB3 V (no_index (Proc.devRef .tc main_arg7)) = V (Proc.devRef .tc main_arg7) :=
  (valB3_keep V main_arg7 (by decide)).trans (valB2_main_arg7 V)
theorem valB3_main_v38 (V : Valuation τ sig (Elt F)) : valB3 V (no_index (Proc.devRef .tc main_v38)) = kx_main_v38 V :=
  (valB3_keep V main_v38 (by decide)).trans (valB2_main_v38 V)
set_option maxRecDepth 8192 in
set_option maxHeartbeats 2000000 in
theorem valB3_main_v48 (V : Valuation τ sig (Elt F)) : valB3 V (no_index (Proc.devRef .tc main_v48)) = kx_main_v48 V := by
  unfold valB3
  simp only [kwB_2]
  after_results_simp
  simp only [valB2_main_v43, valB2_main_v41]
  rfl
set_option maxRecDepth 8192 in
set_option maxHeartbeats 2000000 in
theorem valB3_main_v49 (V : Valuation τ sig (Elt F)) : valB3 V (no_index (Proc.devRef .tc main_v49)) = kx_main_v49 V := by
  unfold valB3
  simp only [kwB_2]
  after_results_simp
  simp only [valB2_main_v39]
  rfl
set_option maxRecDepth 8192 in
set_option maxHeartbeats 2000000 in
theorem valB3_main_call6_v0 (V : Valuation τ sig (Elt F)) : valB3 V (no_index (Proc.devRef .tc main_call6_v0)) = kx_main_call6_v0 V := by
  unfold valB3
  simp only [kwB_2]
  after_results_simp
  rfl
set_option maxRecDepth 8192 in
set_option maxHeartbeats 2000000 in
theorem valB3_main_call6_v1 (V : Valuation τ sig (Elt F)) : valB3 V (no_index (Proc.devRef .tc main_call6_v1)) = kx_main_call6_v1 V := by
  unfold valB3
  simp only [kwB_2]
  after_results_simp
  rfl

def valB4 (V : Valuation τ sig (Elt F)) : Valuation τ sig (Elt F) := after kwB_3 (valB3 V)
theorem valB4_keep (V : Valuation τ sig (Elt F)) (r : Ref sig .tc) (h : r ∉ kwB_3_W) :
    valB4 V (Proc.devRef .tc r) = valB3 V (Proc.devRef .tc r) :=
  after_of_writes_sub kwB_3 _ kwB_3_writes h
theorem valB4_main_arg13 (V : Valuation τ sig (Elt F)) : valB4 V (no_index (Proc.devRef .tc main_arg13)) = V (Proc.devRef .tc main_arg13) :=
  (valB4_keep V main_arg13 (by decide)).trans (valB3_main_arg13 V)
theorem valB4_main_arg14 (V : Valuation τ sig (Elt F)) : valB4 V (no_index (Proc.devRef .tc main_arg14)) = V (Proc.devRef .tc main_arg14) :=
  (valB4_keep V main_arg14 (by decide)).trans (valB3_main_arg14 V)
theorem valB4_main_arg16 (V : Valuation τ sig (Elt F)) : valB4 V (no_index (Proc.devRef .tc main_arg16)) = V (Proc.devRef .tc main_arg16) :=
  (valB4_keep V main_arg16 (by decide)).trans (valB3_main_arg16 V)
theorem valB4_main_arg17 (V : Valuation τ sig (Elt F)) : valB4 V (no_index (Proc.devRef .tc main_arg17)) = V (Proc.devRef .tc main_arg17) :=
  (valB4_keep V main_arg17 (by decide)).trans (valB3_main_arg17 V)
theorem valB4_main_arg21 (V : Valuation τ sig (Elt F)) : valB4 V (no_index (Proc.devRef .tc main_arg21)) = V (Proc.devRef .tc main_arg21) :=
  (valB4_keep V main_arg21 (by decide)).trans (valB3_main_arg21 V)
theorem valB4_main_arg6 (V : Valuation τ sig (Elt F)) : valB4 V (no_index (Proc.devRef .tc main_arg6)) = V (Proc.devRef .tc main_arg6) :=
  (valB4_keep V main_arg6 (by decide)).trans (valB3_main_arg6 V)
theorem valB4_main_arg7 (V : Valuation τ sig (Elt F)) : valB4 V (no_index (Proc.devRef .tc main_arg7)) = V (Proc.devRef .tc main_arg7) :=
  (valB4_keep V main_arg7 (by decide)).trans (valB3_main_arg7 V)
theorem valB4_main_v38 (V : Valuation τ sig (Elt F)) : valB4 V (no_index (Proc.devRef .tc main_v38)) = kx_main_v38 V :=
  (valB4_keep V main_v38 (by decide)).trans (valB3_main_v38 V)
theorem valB4_main_v48 (V : Valuation τ sig (Elt F)) : valB4 V (no_index (Proc.devRef .tc main_v48)) = kx_main_v48 V :=
  (valB4_keep V main_v48 (by decide)).trans (valB3_main_v48 V)
set_option maxRecDepth 8192 in
set_option maxHeartbeats 2000000 in
theorem valB4_main_call6_v2 (V : Valuation τ sig (Elt F)) : valB4 V (no_index (Proc.devRef .tc main_call6_v2)) = kx_main_call6_v2 V := by
  unfold valB4
  simp only [kwB_3]
  after_results_simp
  simp only [valB3_main_call6_v0, valB3_main_call6_v1]
  rfl
set_option maxRecDepth 8192 in
set_option maxHeartbeats 2000000 in
theorem valB4_main_call6_v4 (V : Valuation τ sig (Elt F)) : valB4 V (no_index (Proc.devRef .tc main_call6_v4)) = kx_main_call6_v4 V := by
  unfold valB4
  simp only [kwB_3]
  after_results_simp
  simp only [valB3_main_call6_v0, valB3_main_call6_v1, valB3_main_v49]
  rfl
set_option maxRecDepth 8192 in
set_option maxHeartbeats 2000000 in
theorem valB4_main_call6_v6 (V : Valuation τ sig (Elt F)) : valB4 V (no_index (Proc.devRef .tc main_call6_v6)) = kx_main_call6_v6 V := by
  unfold valB4
  simp only [kwB_3]
  after_results_simp
  simp only [valB3_main_call6_v0, valB3_main_call6_v1, valB3_main_v49]
  rfl
set_option maxRecDepth 8192 in
set_option maxHeartbeats 2000000 in
theorem valB4_main_call6_v8 (V : Valuation τ sig (Elt F)) : valB4 V (no_index (Proc.devRef .tc main_call6_v8)) = kx_main_call6_v8 V := by
  unfold valB4
  simp only [kwB_3]
  after_results_simp
  simp only [valB3_main_call6_v0, valB3_main_call6_v1, valB3_main_v49]
  rfl
set_option maxRecDepth 8192 in
set_option maxHeartbeats 2000000 in
theorem valB4_main_call6_v9 (V : Valuation τ sig (Elt F)) : valB4 V (no_index (Proc.devRef .tc main_call6_v9)) = kx_main_call6_v9 V := by
  unfold valB4
  simp only [kwB_3]
  after_results_simp
  simp only [valB3_main_call6_v0, valB3_main_call6_v1]
  rfl

def valB5 (V : Valuation τ sig (Elt F)) : Valuation τ sig (Elt F) := after kwB_4 (valB4 V)
theorem valB5_keep (V : Valuation τ sig (Elt F)) (r : Ref sig .tc) (h : r ∉ kwB_4_W) :
    valB5 V (Proc.devRef .tc r) = valB4 V (Proc.devRef .tc r) :=
  after_of_writes_sub kwB_4 _ kwB_4_writes h
theorem valB5_main_arg13 (V : Valuation τ sig (Elt F)) : valB5 V (no_index (Proc.devRef .tc main_arg13)) = V (Proc.devRef .tc main_arg13) :=
  (valB5_keep V main_arg13 (by decide)).trans (valB4_main_arg13 V)
theorem valB5_main_arg14 (V : Valuation τ sig (Elt F)) : valB5 V (no_index (Proc.devRef .tc main_arg14)) = V (Proc.devRef .tc main_arg14) :=
  (valB5_keep V main_arg14 (by decide)).trans (valB4_main_arg14 V)
theorem valB5_main_arg16 (V : Valuation τ sig (Elt F)) : valB5 V (no_index (Proc.devRef .tc main_arg16)) = V (Proc.devRef .tc main_arg16) :=
  (valB5_keep V main_arg16 (by decide)).trans (valB4_main_arg16 V)
theorem valB5_main_arg17 (V : Valuation τ sig (Elt F)) : valB5 V (no_index (Proc.devRef .tc main_arg17)) = V (Proc.devRef .tc main_arg17) :=
  (valB5_keep V main_arg17 (by decide)).trans (valB4_main_arg17 V)
theorem valB5_main_arg21 (V : Valuation τ sig (Elt F)) : valB5 V (no_index (Proc.devRef .tc main_arg21)) = V (Proc.devRef .tc main_arg21) :=
  (valB5_keep V main_arg21 (by decide)).trans (valB4_main_arg21 V)
theorem valB5_main_arg6 (V : Valuation τ sig (Elt F)) : valB5 V (no_index (Proc.devRef .tc main_arg6)) = V (Proc.devRef .tc main_arg6) :=
  (valB5_keep V main_arg6 (by decide)).trans (valB4_main_arg6 V)
theorem valB5_main_arg7 (V : Valuation τ sig (Elt F)) : valB5 V (no_index (Proc.devRef .tc main_arg7)) = V (Proc.devRef .tc main_arg7) :=
  (valB5_keep V main_arg7 (by decide)).trans (valB4_main_arg7 V)
theorem valB5_main_v38 (V : Valuation τ sig (Elt F)) : valB5 V (no_index (Proc.devRef .tc main_v38)) = kx_main_v38 V :=
  (valB5_keep V main_v38 (by decide)).trans (valB4_main_v38 V)
theorem valB5_main_v48 (V : Valuation τ sig (Elt F)) : valB5 V (no_index (Proc.devRef .tc main_v48)) = kx_main_v48 V :=
  (valB5_keep V main_v48 (by decide)).trans (valB4_main_v48 V)
set_option maxRecDepth 8192 in
set_option maxHeartbeats 2000000 in
theorem valB5_main_v56 (V : Valuation τ sig (Elt F)) : valB5 V (no_index (Proc.devRef .tc main_v56)) = kx_main_v56 V := by
  unfold valB5
  simp only [kwB_4]
  after_results_simp
  simp only [valB4_main_call6_v4, valB4_main_call6_v2, valB4_main_call6_v6, valB4_main_call6_v9, valB4_main_call6_v8]
  rfl

def valB6 (V : Valuation τ sig (Elt F)) : Valuation τ sig (Elt F) := after kwB_5 (valB5 V)
theorem valB6_keep (V : Valuation τ sig (Elt F)) (r : Ref sig .tc) (h : r ∉ kwB_5_W) :
    valB6 V (Proc.devRef .tc r) = valB5 V (Proc.devRef .tc r) :=
  after_of_writes_sub kwB_5 _ kwB_5_writes h
theorem valB6_main_arg17 (V : Valuation τ sig (Elt F)) : valB6 V (no_index (Proc.devRef .tc main_arg17)) = V (Proc.devRef .tc main_arg17) :=
  (valB6_keep V main_arg17 (by decide)).trans (valB5_main_arg17 V)
theorem valB6_main_arg21 (V : Valuation τ sig (Elt F)) : valB6 V (no_index (Proc.devRef .tc main_arg21)) = V (Proc.devRef .tc main_arg21) :=
  (valB6_keep V main_arg21 (by decide)).trans (valB5_main_arg21 V)
theorem valB6_main_arg6 (V : Valuation τ sig (Elt F)) : valB6 V (no_index (Proc.devRef .tc main_arg6)) = V (Proc.devRef .tc main_arg6) :=
  (valB6_keep V main_arg6 (by decide)).trans (valB5_main_arg6 V)
theorem valB6_main_arg7 (V : Valuation τ sig (Elt F)) : valB6 V (no_index (Proc.devRef .tc main_arg7)) = V (Proc.devRef .tc main_arg7) :=
  (valB6_keep V main_arg7 (by decide)).trans (valB5_main_arg7 V)
theorem valB6_main_v38 (V : Valuation τ sig (Elt F)) : valB6 V (no_index (Proc.devRef .tc main_v38)) = kx_main_v38 V :=
  (valB6_keep V main_v38 (by decide)).trans (valB5_main_v38 V)
theorem valB6_main_v48 (V : Valuation τ sig (Elt F)) : valB6 V (no_index (Proc.devRef .tc main_v48)) = kx_main_v48 V :=
  (valB6_keep V main_v48 (by decide)).trans (valB5_main_v48 V)
set_option maxRecDepth 8192 in
set_option maxHeartbeats 2000000 in
theorem valB6_main_v57 (V : Valuation τ sig (Elt F)) : valB6 V (no_index (Proc.devRef .tc main_v57)) = kx_main_v57 V := by
  unfold valB6
  simp only [kwB_5]
  after_results_simp
  simp only [valB5_main_v56]
  rfl
set_option maxRecDepth 8192 in
set_option maxHeartbeats 2000000 in
theorem valB6_main_v58 (V : Valuation τ sig (Elt F)) : valB6 V (no_index (Proc.devRef .tc main_v58)) = kx_main_v58 V := by
  unfold valB6
  simp only [kwB_5]
  after_results_simp
  simp only [valB5_main_arg13]
  rfl
set_option maxRecDepth 8192 in
set_option maxHeartbeats 2000000 in
theorem valB6_main_v60 (V : Valuation τ sig (Elt F)) : valB6 V (no_index (Proc.devRef .tc main_v60)) = kx_main_v60 V := by
  unfold valB6
  simp only [kwB_5]
  after_results_simp
  simp only [valB5_main_arg14]
  rfl
set_option maxRecDepth 8192 in
set_option maxHeartbeats 2000000 in
theorem valB6_main_v61 (V : Valuation τ sig (Elt F)) : valB6 V (no_index (Proc.devRef .tc main_v61)) = kx_main_v61 V := by
  unfold valB6
  simp only [kwB_5]
  after_results_simp
  simp only [valB5_main_arg16]
  rfl
set_option maxRecDepth 8192 in
set_option maxHeartbeats 2000000 in
theorem valB6_main_c_17 (V : Valuation τ sig (Elt F)) : valB6 V (no_index (Proc.devRef .tc main_c_17)) = kx_main_c_17 V := by
  unfold valB6
  simp only [kwB_5]
  after_results_simp
  rfl

def valB7 (V : Valuation τ sig (Elt F)) : Valuation τ sig (Elt F) := after kwB_6 (valB6 V)
theorem valB7_keep (V : Valuation τ sig (Elt F)) (r : Ref sig .tc) (h : r ∉ kwB_6_W) :
    valB7 V (Proc.devRef .tc r) = valB6 V (Proc.devRef .tc r) :=
  after_of_writes_sub kwB_6 _ kwB_6_writes h
theorem valB7_main_arg21 (V : Valuation τ sig (Elt F)) : valB7 V (no_index (Proc.devRef .tc main_arg21)) = V (Proc.devRef .tc main_arg21) :=
  (valB7_keep V main_arg21 (by decide)).trans (valB6_main_arg21 V)
theorem valB7_main_arg6 (V : Valuation τ sig (Elt F)) : valB7 V (no_index (Proc.devRef .tc main_arg6)) = V (Proc.devRef .tc main_arg6) :=
  (valB7_keep V main_arg6 (by decide)).trans (valB6_main_arg6 V)
theorem valB7_main_arg7 (V : Valuation τ sig (Elt F)) : valB7 V (no_index (Proc.devRef .tc main_arg7)) = V (Proc.devRef .tc main_arg7) :=
  (valB7_keep V main_arg7 (by decide)).trans (valB6_main_arg7 V)
theorem valB7_main_v38 (V : Valuation τ sig (Elt F)) : valB7 V (no_index (Proc.devRef .tc main_v38)) = kx_main_v38 V :=
  (valB7_keep V main_v38 (by decide)).trans (valB6_main_v38 V)
theorem valB7_main_v48 (V : Valuation τ sig (Elt F)) : valB7 V (no_index (Proc.devRef .tc main_v48)) = kx_main_v48 V :=
  (valB7_keep V main_v48 (by decide)).trans (valB6_main_v48 V)
theorem valB7_main_v57 (V : Valuation τ sig (Elt F)) : valB7 V (no_index (Proc.devRef .tc main_v57)) = kx_main_v57 V :=
  (valB7_keep V main_v57 (by decide)).trans (valB6_main_v57 V)
theorem valB7_main_v58 (V : Valuation τ sig (Elt F)) : valB7 V (no_index (Proc.devRef .tc main_v58)) = kx_main_v58 V :=
  (valB7_keep V main_v58 (by decide)).trans (valB6_main_v58 V)
theorem valB7_main_v60 (V : Valuation τ sig (Elt F)) : valB7 V (no_index (Proc.devRef .tc main_v60)) = kx_main_v60 V :=
  (valB7_keep V main_v60 (by decide)).trans (valB6_main_v60 V)
set_option maxRecDepth 8192 in
set_option maxHeartbeats 2000000 in
theorem valB7_main_v62 (V : Valuation τ sig (Elt F)) : valB7 V (no_index (Proc.devRef .tc main_v62)) = kx_main_v62 V := by
  unfold valB7
  simp only [kwB_6]
  after_results_simp
  simp only [valB6_main_c_17, valB6_main_v61]
  rfl
set_option maxRecDepth 8192 in
set_option maxHeartbeats 2000000 in
theorem valB7_main_v63 (V : Valuation τ sig (Elt F)) : valB7 V (no_index (Proc.devRef .tc main_v63)) = kx_main_v63 V := by
  unfold valB7
  simp only [kwB_6]
  after_results_simp
  simp only [valB6_main_arg17]
  rfl
set_option maxRecDepth 8192 in
set_option maxHeartbeats 2000000 in
theorem valB7_main_v64 (V : Valuation τ sig (Elt F)) : valB7 V (no_index (Proc.devRef .tc main_v64)) = kx_main_v64 V := by
  unfold valB7
  simp only [kwB_6]
  after_results_simp
  simp only [valB6_main_arg17]
  rfl
set_option maxRecDepth 8192 in
set_option maxHeartbeats 2000000 in
theorem valB7_main_v65 (V : Valuation τ sig (Elt F)) : valB7 V (no_index (Proc.devRef .tc main_v65)) = kx_main_v65 V := by
  unfold valB7
  simp only [kwB_6]
  after_results_simp
  simp only [valB6_main_arg17]
  rfl
set_option maxRecDepth 8192 in
set_option maxHeartbeats 2000000 in
theorem valB7_main_v66 (V : Valuation τ sig (Elt F)) : valB7 V (no_index (Proc.devRef .tc main_v66)) = kx_main_v66 V := by
  unfold valB7
  simp only [kwB_6]
  after_results_simp
  simp only [valB6_main_arg17]
  rfl
set_option maxRecDepth 8192 in
set_option maxHeartbeats 2000000 in
theorem valB7_main_v67 (V : Valuation τ sig (Elt F)) : valB7 V (no_index (Proc.devRef .tc main_v67)) = kx_main_v67 V := by
  unfold valB7
  simp only [kwB_6]
  after_results_simp
  simp only [valB6_main_arg17]
  rfl
set_option maxRecDepth 8192 in
set_option maxHeartbeats 2000000 in
theorem valB7_main_v68 (V : Valuation τ sig (Elt F)) : valB7 V (no_index (Proc.devRef .tc main_v68)) = kx_main_v68 V := by
  unfold valB7
  simp only [kwB_6]
  after_results_simp
  simp only [valB6_main_arg17]
  rfl
set_option maxRecDepth 8192 in
set_option maxHeartbeats 2000000 in
theorem valB7_main_v69 (V : Valuation τ sig (Elt F)) : valB7 V (no_index (Proc.devRef .tc main_v69)) = kx_main_v69 V := by
  unfold valB7
  simp only [kwB_6]
  after_results_simp
  simp only [valB6_main_arg17]
  rfl
set_option maxRecDepth 8192 in
set_option maxHeartbeats 2000000 in
theorem valB7_main_v70 (V : Valuation τ sig (Elt F)) : valB7 V (no_index (Proc.devRef .tc main_v70)) = kx_main_v70 V := by
  unfold valB7
  simp only [kwB_6]
  after_results_simp
  simp only [valB6_main_arg17]
  rfl
set_option maxRecDepth 8192 in
set_option maxHeartbeats 2000000 in
theorem valB7_main_v71 (V : Valuation τ sig (Elt F)) : valB7 V (no_index (Proc.devRef .tc main_v71)) = kx_main_v71 V := by
  unfold valB7
  simp only [kwB_6]
  after_results_simp
  rfl

def valB8 (V : Valuation τ sig (Elt F)) : Valuation τ sig (Elt F) := after kwB_7 (valB7 V)
theorem valB8_keep (V : Valuation τ sig (Elt F)) (r : Ref sig .tc) (h : r ∉ kwB_7_W) :
    valB8 V (Proc.devRef .tc r) = valB7 V (Proc.devRef .tc r) :=
  after_of_writes_sub kwB_7 _ kwB_7_writes h
theorem valB8_main_arg6 (V : Valuation τ sig (Elt F)) : valB8 V (no_index (Proc.devRef .tc main_arg6)) = V (Proc.devRef .tc main_arg6) :=
  (valB8_keep V main_arg6 (by decide)).trans (valB7_main_arg6 V)
theorem valB8_main_arg7 (V : Valuation τ sig (Elt F)) : valB8 V (no_index (Proc.devRef .tc main_arg7)) = V (Proc.devRef .tc main_arg7) :=
  (valB8_keep V main_arg7 (by decide)).trans (valB7_main_arg7 V)
theorem valB8_main_v38 (V : Valuation τ sig (Elt F)) : valB8 V (no_index (Proc.devRef .tc main_v38)) = kx_main_v38 V :=
  (valB8_keep V main_v38 (by decide)).trans (valB7_main_v38 V)
theorem valB8_main_v48 (V : Valuation τ sig (Elt F)) : valB8 V (no_index (Proc.devRef .tc main_v48)) = kx_main_v48 V :=
  (valB8_keep V main_v48 (by decide)).trans (valB7_main_v48 V)
theorem valB8_main_v57 (V : Valuation τ sig (Elt F)) : valB8 V (no_index (Proc.devRef .tc main_v57)) = kx_main_v57 V :=
  (valB8_keep V main_v57 (by decide)).trans (valB7_main_v57 V)
theorem valB8_main_v58 (V : Valuation τ sig (Elt F)) : valB8 V (no_index (Proc.devRef .tc main_v58)) = kx_main_v58 V :=
  (valB8_keep V main_v58 (by decide)).trans (valB7_main_v58 V)
theorem valB8_main_v60 (V : Valuation τ sig (Elt F)) : valB8 V (no_index (Proc.devRef .tc main_v60)) = kx_main_v60 V :=
  (valB8_keep V main_v60 (by decide)).trans (valB7_main_v60 V)
theorem valB8_main_v62 (V : Valuation τ sig (Elt F)) : valB8 V (no_index (Proc.devRef .tc main_v62)) = kx_main_v62 V :=
  (valB8_keep V main_v62 (by decide)).trans (valB7_main_v62 V)
set_option maxRecDepth 8192 in
set_option maxHeartbeats 2000000 in
theorem valB8_main_v73 (V : Valuation τ sig (Elt F)) : valB8 V (no_index (Proc.devRef .tc main_v73)) = kx_main_v73 V := by
  unfold valB8
  simp only [kwB_7]
  after_results_simp
  try dsimp only [Matrix.cons_val]
  try reads_rwB
  try simp only [valB7_main_v71, valB7_main_v70, valB7_main_v69, valB7_main_v68, valB7_main_v67, valB7_main_v66, valB7_main_v65, valB7_main_v64, valB7_main_v63]
  try rw [valB7_main_v71]
  try rw [valB7_main_v70]
  try rw [valB7_main_v69]
  try rw [valB7_main_v68]
  try rw [valB7_main_v67]
  try rw [valB7_main_v66]
  try rw [valB7_main_v65]
  try rw [valB7_main_v64]
  try rw [valB7_main_v63]
  rfl
set_option maxRecDepth 8192 in
set_option maxHeartbeats 2000000 in
theorem valB8_main_v74 (V : Valuation τ sig (Elt F)) : valB8 V (no_index (Proc.devRef .tc main_v74)) = kx_main_v74 V := by
  unfold valB8
  simp only [kwB_7]
  after_results_simp
  try dsimp only [Matrix.cons_val]
  try reads_rwB
  try simp only [valB7_main_arg21]
  try rw [valB7_main_arg21]
  rfl
set_option maxRecDepth 8192 in
set_option maxHeartbeats 2000000 in
theorem valB8_main_v75 (V : Valuation τ sig (Elt F)) : valB8 V (no_index (Proc.devRef .tc main_v75)) = kx_main_v75 V := by
  unfold valB8
  simp only [kwB_7]
  after_results_simp
  try dsimp only [Matrix.cons_val]
  try reads_rwB
  try simp only [valB7_main_arg21]
  try rw [valB7_main_arg21]
  rfl
set_option maxRecDepth 8192 in
set_option maxHeartbeats 2000000 in
theorem valB8_main_v76 (V : Valuation τ sig (Elt F)) : valB8 V (no_index (Proc.devRef .tc main_v76)) = kx_main_v76 V := by
  unfold valB8
  simp only [kwB_7]
  after_results_simp
  try dsimp only [Matrix.cons_val]
  try reads_rwB
  try simp only [valB7_main_arg21]
  try rw [valB7_main_arg21]
  rfl
set_option maxRecDepth 8192 in
set_option maxHeartbeats 2000000 in
theorem valB8_main_v77 (V : Valuation τ sig (Elt F)) : valB8 V (no_index (Proc.devRef .tc main_v77)) = kx_main_v77 V := by
  unfold valB8
  simp only [kwB_7]
  after_results_simp
  try dsimp only [Matrix.cons_val]
  try reads_rwB
  try simp only [valB7_main_arg21]
  try rw [valB7_main_arg21]
  rfl
set_option maxRecDepth 8192 in
set_option maxHeartbeats 2000000 in
theorem valB8_main_v78 (V : Valuation τ sig (Elt F)) : valB8 V (no_index (Proc.devRef .tc main_v78)) = kx_main_v78 V := by
  unfold valB8
  simp only [kwB_7]
  after_results_simp
  try dsimp only [Matrix.cons_val]
  try reads_rwB
  try simp only [valB7_main_arg21]
  try rw [valB7_main_arg21]
  rfl
set_option maxRecDepth 8192 in
set_option maxHeartbeats 2000000 in
theorem valB8_main_v79 (V : Valuation τ sig (Elt F)) : valB8 V (no_index (Proc.devRef .tc main_v79)) = kx_main_v79 V := by
  unfold valB8
  simp only [kwB_7]
  after_results_simp
  try dsimp only [Matrix.cons_val]
  try reads_rwB
  try simp only [valB7_main_arg21]
  try rw [valB7_main_arg21]
  rfl
set_option maxRecDepth 8192 in
set_option maxHeartbeats 2000000 in
theorem valB8_main_v80 (V : Valuation τ sig (Elt F)) : valB8 V (no_index (Proc.devRef .tc main_v80)) = kx_main_v80 V := by
  unfold valB8
  simp only [kwB_7]
  after_results_simp
  try dsimp only [Matrix.cons_val]
  try reads_rwB
  try simp only [valB7_main_arg21]
  try rw [valB7_main_arg21]
  rfl
set_option maxRecDepth 8192 in
set_option maxHeartbeats 2000000 in
theorem valB8_main_v81 (V : Valuation τ sig (Elt F)) : valB8 V (no_index (Proc.devRef .tc main_v81)) = kx_main_v81 V := by
  unfold valB8
  simp only [kwB_7]
  after_results_simp
  try dsimp only [Matrix.cons_val]
  try reads_rwB
  try simp only [valB7_main_arg21]
  try rw [valB7_main_arg21]
  rfl
set_option maxRecDepth 8192 in
set_option maxHeartbeats 2000000 in
theorem valB8_main_v82 (V : Valuation τ sig (Elt F)) : valB8 V (no_index (Proc.devRef .tc main_v82)) = kx_main_v82 V := by
  unfold valB8
  simp only [kwB_7]
  after_results_simp
  try dsimp only [Matrix.cons_val]
  try reads_rwB
  rfl

def valB9 (V : Valuation τ sig (Elt F)) : Valuation τ sig (Elt F) := after kwB_8 (valB8 V)
theorem valB9_keep (V : Valuation τ sig (Elt F)) (r : Ref sig .tc) (h : r ∉ kwB_8_W) :
    valB9 V (Proc.devRef .tc r) = valB8 V (Proc.devRef .tc r) :=
  after_of_writes_sub kwB_8 _ kwB_8_writes h
theorem valB9_main_v38 (V : Valuation τ sig (Elt F)) : valB9 V (no_index (Proc.devRef .tc main_v38)) = kx_main_v38 V :=
  (valB9_keep V main_v38 (by decide)).trans (valB8_main_v38 V)
theorem valB9_main_v48 (V : Valuation τ sig (Elt F)) : valB9 V (no_index (Proc.devRef .tc main_v48)) = kx_main_v48 V :=
  (valB9_keep V main_v48 (by decide)).trans (valB8_main_v48 V)
theorem valB9_main_v57 (V : Valuation τ sig (Elt F)) : valB9 V (no_index (Proc.devRef .tc main_v57)) = kx_main_v57 V :=
  (valB9_keep V main_v57 (by decide)).trans (valB8_main_v57 V)
theorem valB9_main_v58 (V : Valuation τ sig (Elt F)) : valB9 V (no_index (Proc.devRef .tc main_v58)) = kx_main_v58 V :=
  (valB9_keep V main_v58 (by decide)).trans (valB8_main_v58 V)
theorem valB9_main_v60 (V : Valuation τ sig (Elt F)) : valB9 V (no_index (Proc.devRef .tc main_v60)) = kx_main_v60 V :=
  (valB9_keep V main_v60 (by decide)).trans (valB8_main_v60 V)
theorem valB9_main_v62 (V : Valuation τ sig (Elt F)) : valB9 V (no_index (Proc.devRef .tc main_v62)) = kx_main_v62 V :=
  (valB9_keep V main_v62 (by decide)).trans (valB8_main_v62 V)
theorem valB9_main_v73 (V : Valuation τ sig (Elt F)) : valB9 V (no_index (Proc.devRef .tc main_v73)) = kx_main_v73 V :=
  (valB9_keep V main_v73 (by decide)).trans (valB8_main_v73 V)
set_option maxRecDepth 8192 in
set_option maxHeartbeats 2000000 in
theorem valB9_main_v84 (V : Valuation τ sig (Elt F)) : valB9 V (no_index (Proc.devRef .tc main_v84)) = kx_main_v84 V := by
  unfold valB9
  simp only [kwB_8]
  after_results_simp
  try dsimp only [Matrix.cons_val]
  try reads_rwB
  try simp only [valB8_main_v82, valB8_main_v81, valB8_main_v80, valB8_main_v79, valB8_main_v78, valB8_main_v77, valB8_main_v76, valB8_main_v75, valB8_main_v74]
  try rw [valB8_main_v82]
  try rw [valB8_main_v81]
  try rw [valB8_main_v80]
  try rw [valB8_main_v79]
  try rw [valB8_main_v78]
  try rw [valB8_main_v77]
  try rw [valB8_main_v76]
  try rw [valB8_main_v75]
  try rw [valB8_main_v74]
  rfl
set_option maxRecDepth 8192 in
set_option maxHeartbeats 2000000 in
theorem valB9_main_v85 (V : Valuation τ sig (Elt F)) : valB9 V (no_index (Proc.devRef .tc main_v85)) = kx_main_v85 V := by
  unfold valB9
  simp only [kwB_8]
  after_results_simp
  try dsimp only [Matrix.cons_val]
  try reads_rwB
  try simp only [valB8_main_arg6]
  try rw [valB8_main_arg6]
  rfl
set_option maxRecDepth 8192 in
set_option maxHeartbeats 2000000 in
theorem valB9_main_v86 (V : Valuation τ sig (Elt F)) : valB9 V (no_index (Proc.devRef .tc main_v86)) = kx_main_v86 V := by
  unfold valB9
  simp only [kwB_8]
  after_results_simp
  try dsimp only [Matrix.cons_val]
  try reads_rwB
  try simp only [valB8_main_arg7]
  try rw [valB8_main_arg7]
  rfl

/-- Line B is its windows end to end, and its fold is the windows' folds in order. -/
theorem after_opsB_eq (V : Valuation τ sig (Elt F)) : after opsB V = valB9 V := by
  rw [show (opsB : List (HloOp τ sig (Elt F))) = kwB_0 ++ (kwB_1 ++ (kwB_2 ++ (kwB_3 ++ (kwB_4 ++ (kwB_5 ++ (kwB_6 ++ (kwB_7 ++ (kwB_8)))))))) from rfl, after_append', after_append', after_append', after_append', after_append', after_append', after_append', after_append']
  rfl
/-- What line B leaves in `main_v85`. -/
theorem opsB_main_v85 (V : Valuation τ sig (Elt F)) : after opsB V (Proc.devRef .tc main_v85) = kx_main_v85 V := by
  rw [after_opsB_eq]
  exact valB9_main_v85 V
/-- What line B leaves in `main_v86`. -/
theorem opsB_main_v86 (V : Valuation τ sig (Elt F)) : after opsB V (Proc.devRef .tc main_v86) = kx_main_v86 V := by
  rw [after_opsB_eq]
  exact valB9_main_v86 V
/-- What line B leaves in `main_v38`. -/
theorem opsB_main_v38 (V : Valuation τ sig (Elt F)) : after opsB V (Proc.devRef .tc main_v38) = kx_main_v38 V := by
  rw [after_opsB_eq]
  exact valB9_main_v38 V
/-- What line B leaves in `main_v48`. -/
theorem opsB_main_v48 (V : Valuation τ sig (Elt F)) : after opsB V (Proc.devRef .tc main_v48) = kx_main_v48 V := by
  rw [after_opsB_eq]
  exact valB9_main_v48 V
/-- What line B leaves in `main_v57`. -/
theorem opsB_main_v57 (V : Valuation τ sig (Elt F)) : after opsB V (Proc.devRef .tc main_v57) = kx_main_v57 V := by
  rw [after_opsB_eq]
  exact valB9_main_v57 V
/-- What line B leaves in `main_v58`. -/
theorem opsB_main_v58 (V : Valuation τ sig (Elt F)) : after opsB V (Proc.devRef .tc main_v58) = kx_main_v58 V := by
  rw [after_opsB_eq]
  exact valB9_main_v58 V
/-- What line B leaves in `main_v60`. -/
theorem opsB_main_v60 (V : Valuation τ sig (Elt F)) : after opsB V (Proc.devRef .tc main_v60) = kx_main_v60 V := by
  rw [after_opsB_eq]
  exact valB9_main_v60 V
/-- What line B leaves in `main_v62`. -/
theorem opsB_main_v62 (V : Valuation τ sig (Elt F)) : after opsB V (Proc.devRef .tc main_v62) = kx_main_v62 V := by
  rw [after_opsB_eq]
  exact valB9_main_v62 V
/-- What line B leaves in `main_v73`. -/
theorem opsB_main_v73 (V : Valuation τ sig (Elt F)) : after opsB V (Proc.devRef .tc main_v73) = kx_main_v73 V := by
  rw [after_opsB_eq]
  exact valB9_main_v73 V
/-- What line B leaves in `main_v84`. -/
theorem opsB_main_v84 (V : Valuation τ sig (Elt F)) : after opsB V (Proc.devRef .tc main_v84) = kx_main_v84 V := by
  rw [after_opsB_eq]
  exact valB9_main_v84 V

end Cert.KernelIdeal.KerValue

end
-- ==== Proof.KerChainC.lean ====
/-
  The kernel program's host lines C, D, E, F as values. Every operation of a line writes one buffer from buffers written
  before it in the line or held when the line starts, so each buffer a later call reads ends the line at a term of the
  contents the line started from: the operation's function at the values of the buffers it reads. One definition per
  buffer in those buffers' cones; the line, cut in short windows, is read off window by window against them.
-/
import proofs.«214388_g48842368090541_cont_8to1c4_19_37_alg».proof.Proof.MainKeepIdeal

noncomputable section

namespace Cert.KernelIdeal.KerValue

open Cert.KernelIdeal Cert.KernelIdeal.Gen Cert.KernelIdeal.MainShape Idealize.ShloMosaic Idealize.ShloMosaic.TcCoe Idealize.SL.Sem Idealize.ShloMosaic.StableHlo

variable {F : FTy → Type} [FloatOps F]

/-- Reads of operations' results by rewriting, one at a time: what a buffer holds after an operation that writes it, or
    that does not (the references told apart by computation). For reads that sit inside a dependent pair, where the
    simplifier's congruence does not reach. -/
macro "reads_rwC" : tactic =>
  `(tactic| repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-! ## Line C -/

abbrev kwC_0 : List (HloOp τ sig (Elt F)) :=
  [ StableHlo.reshape main_arg19 main_v88 rfl shapeCasts_S1024_S1x1024,
    StableHlo.reshape main_arg20 main_v89 rfl shapeCasts_S1024_S1x1024,
    StableHlo.reshape main_arg22 main_v90 rfl shapeCasts_S1024_S1x1024 ]
abbrev kwC_0_W : List (Ref sig .tc) := [main_v88, main_v89, main_v90]
set_option maxRecDepth 8192 in
theorem kwC_0_writes : (kwC_0 : List (HloOp τ sig (Elt F))).Forall fun op => op.writes ⊆ (kwC_0_W.map (Proc.devRef (τ := τ) .tc)).toFinset :=
  ⟨writes_sub_of_mem main_v88 rfl (by decide), writes_sub_of_mem main_v89 rfl (by decide), writes_sub_of_mem main_v90 rfl (by decide)⟩
def kx_main_v88 (V : Valuation τ sig (Elt F)) : (⟨S1x1024, .f32⟩ : BufTy).Contents (Elt F) :=
  shapeCast S1x1024 (V (Proc.devRef .tc main_arg19)) shapeCasts_S1024_S1x1024
def kx_main_v89 (V : Valuation τ sig (Elt F)) : (⟨S1x1024, .f32⟩ : BufTy).Contents (Elt F) :=
  shapeCast S1x1024 (V (Proc.devRef .tc main_arg20)) shapeCasts_S1024_S1x1024
def kx_main_v90 (V : Valuation τ sig (Elt F)) : (⟨S1x1024, .f32⟩ : BufTy).Contents (Elt F) :=
  shapeCast S1x1024 (V (Proc.devRef .tc main_arg22)) shapeCasts_S1024_S1x1024
def valC0 (V : Valuation τ sig (Elt F)) : Valuation τ sig (Elt F) := V
theorem valC0_main_arg19 (V : Valuation τ sig (Elt F)) : valC0 V (no_index (Proc.devRef .tc main_arg19)) = V (Proc.devRef .tc main_arg19) := rfl
theorem valC0_main_arg20 (V : Valuation τ sig (Elt F)) : valC0 V (no_index (Proc.devRef .tc main_arg20)) = V (Proc.devRef .tc main_arg20) := rfl
theorem valC0_main_arg22 (V : Valuation τ sig (Elt F)) : valC0 V (no_index (Proc.devRef .tc main_arg22)) = V (Proc.devRef .tc main_arg22) := rfl

def valC1 (V : Valuation τ sig (Elt F)) : Valuation τ sig (Elt F) := after kwC_0 (valC0 V)
theorem valC1_keep (V : Valuation τ sig (Elt F)) (r : Ref sig .tc) (h : r ∉ kwC_0_W) :
    valC1 V (Proc.devRef .tc r) = valC0 V (Proc.devRef .tc r) :=
  after_of_writes_sub kwC_0 _ kwC_0_writes h
set_option maxRecDepth 8192 in
set_option maxHeartbeats 2000000 in
theorem valC1_main_v88 (V : Valuation τ sig (Elt F)) : valC1 V (no_index (Proc.devRef .tc main_v88)) = kx_main_v88 V := by
  unfold valC1
  simp only [kwC_0]
  after_results_simp
  simp only [valC0_main_arg19]
  rfl
set_option maxRecDepth 8192 in
set_option maxHeartbeats 2000000 in
theorem valC1_main_v89 (V : Valuation τ sig (Elt F)) : valC1 V (no_index (Proc.devRef .tc main_v89)) = kx_main_v89 V := by
  unfold valC1
  simp only [kwC_0]
  after_results_simp
  simp only [valC0_main_arg20]
  rfl
set_option maxRecDepth 8192 in
set_option maxHeartbeats 2000000 in
theorem valC1_main_v90 (V : Valuation τ sig (Elt F)) : valC1 V (no_index (Proc.devRef .tc main_v90)) = kx_main_v90 V := by
  unfold valC1
  simp only [kwC_0]
  after_results_simp
  simp only [valC0_main_arg22]
  rfl

/-- Line C is its windows end to end, and its fold is the windows' folds in order. -/
theorem after_opsC_eq (V : Valuation τ sig (Elt F)) : after opsC V = valC1 V := by
  rfl
/-- What line C leaves in `main_v88`. -/
theorem opsC_main_v88 (V : Valuation τ sig (Elt F)) : after opsC V (Proc.devRef .tc main_v88) = kx_main_v88 V := by
  rw [after_opsC_eq]
  exact valC1_main_v88 V
/-- What line C leaves in `main_v89`. -/
theorem opsC_main_v89 (V : Valuation τ sig (Elt F)) : after opsC V (Proc.devRef .tc main_v89) = kx_main_v89 V := by
  rw [after_opsC_eq]
  exact valC1_main_v89 V
/-- What line C leaves in `main_v90`. -/
theorem opsC_main_v90 (V : Valuation τ sig (Elt F)) : after opsC V (Proc.devRef .tc main_v90) = kx_main_v90 V := by
  rw [after_opsC_eq]
  exact valC1_main_v90 V

/-! ## Line D -/

abbrev kwD_0 : List (HloOp τ sig (Elt F)) :=
  [ StableHlo.reshape main_arg33 main_v92 rfl shapeCasts_S512x1_S1x512,
    StableHlo.reshape main_arg25 main_v93 rfl shapeCasts_S1024_S1x1024,
    StableHlo.reshape main_arg26 main_v94 rfl shapeCasts_S1024_S1x1024,
    StableHlo.reshape main_arg32 main_v95 rfl shapeCasts_S512_S1x512 ]
abbrev kwD_0_W : List (Ref sig .tc) := [main_v92, main_v93, main_v94, main_v95]
set_option maxRecDepth 8192 in
theorem kwD_0_writes : (kwD_0 : List (HloOp τ sig (Elt F))).Forall fun op => op.writes ⊆ (kwD_0_W.map (Proc.devRef (τ := τ) .tc)).toFinset :=
  ⟨writes_sub_of_mem main_v92 rfl (by decide), writes_sub_of_mem main_v93 rfl (by decide), writes_sub_of_mem main_v94 rfl (by decide),
    writes_sub_of_mem main_v95 rfl (by decide)⟩
def kx_main_v92 (V : Valuation τ sig (Elt F)) : (⟨S1x512, .f32⟩ : BufTy).Contents (Elt F) :=
  shapeCast S1x512 (V (Proc.devRef .tc main_arg33)) shapeCasts_S512x1_S1x512
def kx_main_v93 (V : Valuation τ sig (Elt F)) : (⟨S1x1024, .f32⟩ : BufTy).Contents (Elt F) :=
  shapeCast S1x1024 (V (Proc.devRef .tc main_arg25)) shapeCasts_S1024_S1x1024
def kx_main_v94 (V : Valuation τ sig (Elt F)) : (⟨S1x1024, .f32⟩ : BufTy).Contents (Elt F) :=
  shapeCast S1x1024 (V (Proc.devRef .tc main_arg26)) shapeCasts_S1024_S1x1024
def kx_main_v95 (V : Valuation τ sig (Elt F)) : (⟨S1x512, .f32⟩ : BufTy).Contents (Elt F) :=
  shapeCast S1x512 (V (Proc.devRef .tc main_arg32)) shapeCasts_S512_S1x512
def valD0 (V : Valuation τ sig (Elt F)) : Valuation τ sig (Elt F) := V
theorem valD0_main_arg33 (V : Valuation τ sig (Elt F)) : valD0 V (no_index (Proc.devRef .tc main_arg33)) = V (Proc.devRef .tc main_arg33) := rfl
theorem valD0_main_arg25 (V : Valuation τ sig (Elt F)) : valD0 V (no_index (Proc.devRef .tc main_arg25)) = V (Proc.devRef .tc main_arg25) := rfl
theorem valD0_main_arg26 (V : Valuation τ sig (Elt F)) : valD0 V (no_index (Proc.devRef .tc main_arg26)) = V (Proc.devRef .tc main_arg26) := rfl
theorem valD0_main_arg32 (V : Valuation τ sig (Elt F)) : valD0 V (no_index (Proc.devRef .tc main_arg32)) = V (Proc.devRef .tc main_arg32) := rfl

def valD1 (V : Valuation τ sig (Elt F)) : Valuation τ sig (Elt F) := after kwD_0 (valD0 V)
theorem valD1_keep (V : Valuation τ sig (Elt F)) (r : Ref sig .tc) (h : r ∉ kwD_0_W) :
    valD1 V (Proc.devRef .tc r) = valD0 V (Proc.devRef .tc r) :=
  after_of_writes_sub kwD_0 _ kwD_0_writes h
set_option maxRecDepth 8192 in
set_option maxHeartbeats 2000000 in
theorem valD1_main_v92 (V : Valuation τ sig (Elt F)) : valD1 V (no_index (Proc.devRef .tc main_v92)) = kx_main_v92 V := by
  unfold valD1
  simp only [kwD_0]
  after_results_simp
  simp only [valD0_main_arg33]
  rfl
set_option maxRecDepth 8192 in
set_option maxHeartbeats 2000000 in
theorem valD1_main_v93 (V : Valuation τ sig (Elt F)) : valD1 V (no_index (Proc.devRef .tc main_v93)) = kx_main_v93 V := by
  unfold valD1
  simp only [kwD_0]
  after_results_simp
  simp only [valD0_main_arg25]
  rfl
set_option maxRecDepth 8192 in
set_option maxHeartbeats 2000000 in
theorem valD1_main_v94 (V : Valuation τ sig (Elt F)) : valD1 V (no_index (Proc.devRef .tc main_v94)) = kx_main_v94 V := by
  unfold valD1
  simp only [kwD_0]
  after_results_simp
  simp only [valD0_main_arg26]
  rfl
set_option maxRecDepth 8192 in
set_option maxHeartbeats 2000000 in
theorem valD1_main_v95 (V : Valuation τ sig (Elt F)) : valD1 V (no_index (Proc.devRef .tc main_v95)) = kx_main_v95 V := by
  unfold valD1
  simp only [kwD_0]
  after_results_simp
  simp only [valD0_main_arg32]
  rfl

/-- Line D is its windows end to end, and its fold is the windows' folds in order. -/
theorem after_opsD_eq (V : Valuation τ sig (Elt F)) : after opsD V = valD1 V := by
  rfl
/-- What line D leaves in `main_v92`. -/
theorem opsD_main_v92 (V : Valuation τ sig (Elt F)) : after opsD V (Proc.devRef .tc main_v92) = kx_main_v92 V := by
  rw [after_opsD_eq]
  exact valD1_main_v92 V
/-- What line D leaves in `main_v93`. -/
theorem opsD_main_v93 (V : Valuation τ sig (Elt F)) : after opsD V (Proc.devRef .tc main_v93) = kx_main_v93 V := by
  rw [after_opsD_eq]
  exact valD1_main_v93 V
/-- What line D leaves in `main_v94`. -/
theorem opsD_main_v94 (V : Valuation τ sig (Elt F)) : after opsD V (Proc.devRef .tc main_v94) = kx_main_v94 V := by
  rw [after_opsD_eq]
  exact valD1_main_v94 V
/-- What line D leaves in `main_v95`. -/
theorem opsD_main_v95 (V : Valuation τ sig (Elt F)) : after opsD V (Proc.devRef .tc main_v95) = kx_main_v95 V := by
  rw [after_opsD_eq]
  exact valD1_main_v95 V

/-! ## Line E -/

abbrev kwE_0 : List (HloOp τ sig (Elt F)) :=
  [ StableHlo.reshape main_arg29 main_v97 rfl shapeCasts_S512_S1x512,
    StableHlo.reshape main_arg30 main_v98 rfl shapeCasts_S512_S1x512,
    StableHlo.reshape main_arg34 main_v99 rfl shapeCasts_S1_S1x1 ]
abbrev kwE_0_W : List (Ref sig .tc) := [main_v97, main_v98, main_v99]
set_option maxRecDepth 8192 in
theorem kwE_0_writes : (kwE_0 : List (HloOp τ sig (Elt F))).Forall fun op => op.writes ⊆ (kwE_0_W.map (Proc.devRef (τ := τ) .tc)).toFinset :=
  ⟨writes_sub_of_mem main_v97 rfl (by decide), writes_sub_of_mem main_v98 rfl (by decide), writes_sub_of_mem main_v99 rfl (by decide)⟩
def kx_main_v97 (V : Valuation τ sig (Elt F)) : (⟨S1x512, .f32⟩ : BufTy).Contents (Elt F) :=
  shapeCast S1x512 (V (Proc.devRef .tc main_arg29)) shapeCasts_S512_S1x512
def kx_main_v98 (V : Valuation τ sig (Elt F)) : (⟨S1x512, .f32⟩ : BufTy).Contents (Elt F) :=
  shapeCast S1x512 (V (Proc.devRef .tc main_arg30)) shapeCasts_S512_S1x512
def kx_main_v99 (V : Valuation τ sig (Elt F)) : (⟨S1x1, .f32⟩ : BufTy).Contents (Elt F) :=
  shapeCast S1x1 (V (Proc.devRef .tc main_arg34)) shapeCasts_S1_S1x1
def valE0 (V : Valuation τ sig (Elt F)) : Valuation τ sig (Elt F) := V
theorem valE0_main_arg29 (V : Valuation τ sig (Elt F)) : valE0 V (no_index (Proc.devRef .tc main_arg29)) = V (Proc.devRef .tc main_arg29) := rfl
theorem valE0_main_arg30 (V : Valuation τ sig (Elt F)) : valE0 V (no_index (Proc.devRef .tc main_arg30)) = V (Proc.devRef .tc main_arg30) := rfl
theorem valE0_main_arg34 (V : Valuation τ sig (Elt F)) : valE0 V (no_index (Proc.devRef .tc main_arg34)) = V (Proc.devRef .tc main_arg34) := rfl

def valE1 (V : Valuation τ sig (Elt F)) : Valuation τ sig (Elt F) := after kwE_0 (valE0 V)
theorem valE1_keep (V : Valuation τ sig (Elt F)) (r : Ref sig .tc) (h : r ∉ kwE_0_W) :
    valE1 V (Proc.devRef .tc r) = valE0 V (Proc.devRef .tc r) :=
  after_of_writes_sub kwE_0 _ kwE_0_writes h
set_option maxRecDepth 8192 in
set_option maxHeartbeats 2000000 in
theorem valE1_main_v97 (V : Valuation τ sig (Elt F)) : valE1 V (no_index (Proc.devRef .tc main_v97)) = kx_main_v97 V := by
  unfold valE1
  simp only [kwE_0]
  after_results_simp
  simp only [valE0_main_arg29]
  rfl
set_option maxRecDepth 8192 in
set_option maxHeartbeats 2000000 in
theorem valE1_main_v98 (V : Valuation τ sig (Elt F)) : valE1 V (no_index (Proc.devRef .tc main_v98)) = kx_main_v98 V := by
  unfold valE1
  simp only [kwE_0]
  after_results_simp
  simp only [valE0_main_arg30]
  rfl
set_option maxRecDepth 8192 in
set_option maxHeartbeats 2000000 in
theorem valE1_main_v99 (V : Valuation τ sig (Elt F)) : valE1 V (no_index (Proc.devRef .tc main_v99)) = kx_main_v99 V := by
  unfold valE1
  simp only [kwE_0]
  after_results_simp
  simp only [valE0_main_arg34]
  rfl

/-- Line E is its windows end to end, and its fold is the windows' folds in order. -/
theorem after_opsE_eq (V : Valuation τ sig (Elt F)) : after opsE V = valE1 V := by
  rfl
/-- What line E leaves in `main_v97`. -/
theorem opsE_main_v97 (V : Valuation τ sig (Elt F)) : after opsE V (Proc.devRef .tc main_v97) = kx_main_v97 V := by
  rw [after_opsE_eq]
  exact valE1_main_v97 V
/-- What line E leaves in `main_v98`. -/
theorem opsE_main_v98 (V : Valuation τ sig (Elt F)) : after opsE V (Proc.devRef .tc main_v98) = kx_main_v98 V := by
  rw [after_opsE_eq]
  exact valE1_main_v98 V
/-- What line E leaves in `main_v99`. -/
theorem opsE_main_v99 (V : Valuation τ sig (Elt F)) : after opsE V (Proc.devRef .tc main_v99) = kx_main_v99 V := by
  rw [after_opsE_eq]
  exact valE1_main_v99 V

/-! ## Line F -/

abbrev kwF_0 : List (HloOp τ sig (Elt F)) :=
  [ StableHlo.reshape main_v100 main_v101 rfl shapeCasts_S16384x1_S16384 ]
abbrev kwF_0_W : List (Ref sig .tc) := [main_v101]
set_option maxRecDepth 8192 in
theorem kwF_0_writes : (kwF_0 : List (HloOp τ sig (Elt F))).Forall fun op => op.writes ⊆ (kwF_0_W.map (Proc.devRef (τ := τ) .tc)).toFinset :=
  writes_sub_of_mem main_v101 rfl (by decide)
def kx_main_v101 (V : Valuation τ sig (Elt F)) : (⟨S16384, .f32⟩ : BufTy).Contents (Elt F) :=
  shapeCast S16384 (V (Proc.devRef .tc main_v100)) shapeCasts_S16384x1_S16384
def valF0 (V : Valuation τ sig (Elt F)) : Valuation τ sig (Elt F) := V
theorem valF0_main_v100 (V : Valuation τ sig (Elt F)) : valF0 V (no_index (Proc.devRef .tc main_v100)) = V (Proc.devRef .tc main_v100) := rfl

def valF1 (V : Valuation τ sig (Elt F)) : Valuation τ sig (Elt F) := after kwF_0 (valF0 V)
theorem valF1_keep (V : Valuation τ sig (Elt F)) (r : Ref sig .tc) (h : r ∉ kwF_0_W) :
    valF1 V (Proc.devRef .tc r) = valF0 V (Proc.devRef .tc r) :=
  after_of_writes_sub kwF_0 _ kwF_0_writes h
set_option maxRecDepth 8192 in
set_option maxHeartbeats 2000000 in
theorem valF1_main_v101 (V : Valuation τ sig (Elt F)) : valF1 V (no_index (Proc.devRef .tc main_v101)) = kx_main_v101 V := by
  unfold valF1
  simp only [kwF_0]
  after_results_simp
  simp only [valF0_main_v100]
  rfl

/-- Line F is its windows end to end, and its fold is the windows' folds in order. -/
theorem after_opsF_eq (V : Valuation τ sig (Elt F)) : after opsF V = valF1 V := by
  rfl
/-- What line F leaves in `main_v101`. -/
theorem opsF_main_v101 (V : Valuation τ sig (Elt F)) : after opsF V (Proc.devRef .tc main_v101) = kx_main_v101 V := by
  rw [after_opsF_eq]
  exact valF1_main_v101 V

end Cert.KernelIdeal.KerValue

end
-- ==== Proof.RefOps.lean ====
/-
  The reference's host operations read at an index, at the ideal values and over any extents: a bias broadcast along
  the rows, a plain matrix product as the sum over its inner axis, a column sum, a table row gathered at an index word,
  the two reshapes and the nine-block concatenation. Each is one library reading (a broadcast at an index, the
  contraction re-indexed by its one coordinate, the one-axis reduction as a sum over that axis, the gather's start
  index, a concatenation's piece) at these operations' dimension numbers.
-/
import proofs.«214388_g48842368090541_cont_8to1c4_19_37_alg».proof.Proof.RefSpec
import Idealize.ShloMosaic.Lib.IdealHost
import Idealize.ShloMosaic.Lib.Pipeline.Value

noncomputable section

open scoped BigOperators

namespace Cert.Spec

open Idealize.ShloMosaic Idealize.ShloMosaic.ValueIdx

/-! ## Broadcasts at an index -/

section Bcast
variable {α : Type}

/-- A vector as one row: `[N] → [1, N]` along axis 1. -/
theorem bcast_row_apply {N : Nat} (h : (⟨1, ![N]⟩ : Shape).BroadcastsInDim ⟨2, ![1, N]⟩ ![1]) (x : (⟨1, ![N]⟩ : Shape).Idx → α)
    (j : (⟨2, ![1, N]⟩ : Shape).Idx) : broadcastInDim ⟨2, ![1, N]⟩ ![1] h x j = x (ix1 (j 1)) := by
  refine broadcastInDim_apply _ h x j (ix1 (j 1)) fun a => ?_
  obtain rfl : a = 0 := Subsingleton.elim _ _
  show (j 1).val = if N = 1 then 0 else (j 1).val
  have := idx2_lt1 j
  split <;> omega

/-- One row over all rows: `[1, N] → [M, N]`. -/
theorem bcast_rows_apply {M N : Nat} (h : (⟨2, ![1, N]⟩ : Shape).BroadcastsInDim ⟨2, ![M, N]⟩ ![0, 1])
    (x : (⟨2, ![1, N]⟩ : Shape).Idx → α) (j : (⟨2, ![M, N]⟩ : Shape).Idx) :
    broadcastInDim ⟨2, ![M, N]⟩ ![0, 1] h x j = x (ix2 (0 : Fin 1) (j 1)) := by
  refine broadcastInDim_apply _ h x j (ix2 (0 : Fin 1) (j 1)) fun a => ?_
  match a with
  | ⟨0, _⟩ => show (0 : Nat) = if (1 : Nat) = 1 then 0 else (j 0).val; simp
  | ⟨1, _⟩ =>
    show (j 1).val = if N = 1 then 0 else (j 1).val
    have := idx2_lt1 j
    split <;> omega

/-- A vector as one column: `[M] → [M, 1]` along axis 0. -/
theorem bcast_col_apply {M : Nat} (h : (⟨1, ![M]⟩ : Shape).BroadcastsInDim ⟨2, ![M, 1]⟩ ![0]) (x : (⟨1, ![M]⟩ : Shape).Idx → α)
    (j : (⟨2, ![M, 1]⟩ : Shape).Idx) : broadcastInDim ⟨2, ![M, 1]⟩ ![0] h x j = x (ix1 (j 0)) := by
  refine broadcastInDim_apply _ h x j (ix1 (j 0)) fun a => ?_
  obtain rfl : a = 0 := Subsingleton.elim _ _
  show (j 0).val = if M = 1 then 0 else (j 0).val
  have := idx2_lt0 j
  split <;> omega

end Bcast

/-! ## A plain matrix product at an index -/

/-- `[M, K] × [K, N]` contracted on the inner axis, at (r, c): the sum over the inner coordinate of the products. -/
theorem dot_plain_apply (M K N : Nat) (x : FVec Ideal ⟨2, ![M, K]⟩ .f32) (W : FVec Ideal ⟨2, ![K, N]⟩ .f32)
    (i : (⟨2, ![M, N]⟩ : Shape).Idx) :
    (Host.dotGeneral (DotDims.plain M K N) none x W : FVec Ideal ⟨2, ![M, N]⟩ .f32) i
      = ∑ k : Fin K, x (ix2 (i 0) k) * W (ix2 k (i 1)) := by
  simp only [Host.dotGeneral]
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  congr 1
  · refine congrArg x (funext fun a => Fin.ext ?_)
    match a with
    | ⟨0, _⟩ => rfl
    | ⟨1, _⟩ => exact hk
  · refine congrArg W (funext fun a => Fin.ext ?_)
    match a with
    | ⟨0, _⟩ => exact hk
    | ⟨1, _⟩ => rfl

/-! ## A column sum at an index -/

/-- `[M, N]` reduced with `add` over axis 0 from an initial scalar, at column c: the scalar plus the sum down the column. -/
theorem reduce0_apply {M N : Nat} (h' : (⟨2, ![M, N]⟩ : Shape).ReducesTo [0] ⟨1, ![N]⟩)
    (h : (⟨2, ![M, N]⟩ : Shape).Reduces [0] ⟨1, ![N]⟩) (hu : 0 < (⟨0, ![]⟩ : Shape).numel)
    (x : FVec Ideal ⟨2, ![M, N]⟩ .f32) (init : FVec Ideal ⟨0, ![]⟩ .f32) (j : (⟨1, ![N]⟩ : Shape).Idx) :
    Host.reduceAdd x init h' hu j = init ix0 + ∑ b : Fin M, x (ix2 b (j 0)) := by
  rw [hostReduceAdd_apply, Ideal.hostReduceAdd_single h' h]
  congr 1
  · exact congrArg init (funext fun a => a.elim0)
  · refine Finset.sum_congr rfl fun b _ => congrArg x (funext fun c => Fin.ext ?_)
    match c with
    | ⟨0, _⟩ => rfl
    | ⟨1, _⟩ => rfl

/-! ## A table row gathered at an index word -/

section Gather
variable {α : Type}

/-- The dimension numbers of `table[idx]` for a table `[N, D]` and a column `[R, 1]` of index words: whole rows
    (the row axis collapsed, the start index on it), result `[R, D]`. -/
abbrev rowDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE GATHER READ AT (r, c): the table at the row the index word `idx[r, 0]` names (read signed, clamped into
    `[0, N - 1]`) and column c. -/
theorem gather_row_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N R D wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (rowDims N R D wf).start y idx 0 + (rowDims N R D wf).batchCoord y 0 + (rowDims N R D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R D wf).startIndexMap from List.mem_singleton.mpr rfl)]
    have hsi : (rowDims N R D wf).siIdx y ⟨List.idxOf (0 : Fin 2) (rowDims N R D wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowDims N R D wf).start y idx 1 + (rowDims N R D wf).batchCoord y 1 + (rowDims N R D wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    rfl

end Gather

/-! ## The two reshapes at an index -/

section Reshape
variable {α : Type}

/-- One column as a vector: `[a, 1] → [a]`. -/
theorem shapeCast_col_apply {a : Nat} (x : (⟨2, ![a, 1]⟩ : Shape).Idx → α) (h : (⟨2, ![a, 1]⟩ : Shape).ShapeCasts ⟨1, ![a]⟩)
    (j : (⟨1, ![a]⟩ : Shape).Idx) : shapeCast ⟨1, ![a]⟩ x h j = x (ix2 (j 0) (0 : Fin 1)) :=
  shapeCast_apply x h _ _ (by
    rw [Shape.rowMajor_val_two, Shape.rowMajor_val_one]
    show (j 0).val * 1 + 0 = (j 0).val
    omega)

/-- The outer product flattened: `[16384, 64, 32] → [16384, 2048]`, column k is entry (k / 32, k % 32). -/
theorem shapeCast_outer_apply (x : (⟨3, ![16384, 64, 32]⟩ : Shape).Idx → α)
    (h : (⟨3, ![16384, 64, 32]⟩ : Shape).ShapeCasts ⟨2, ![16384, 2048]⟩) (j : (⟨2, ![16384, 2048]⟩ : Shape).Idx) :
    shapeCast ⟨2, ![16384, 2048]⟩ x h j
      = x (ix3 (j 0) (⟨(j 1).val / 32, by have := idx2_lt1 j; omega⟩ : Fin 64) (⟨(j 1).val % 32, Nat.mod_lt _ (by decide)⟩ : Fin 32)) :=
  shapeCast_apply x h _ _ (by
    rw [Shape.rowMajor_val_three, Shape.rowMajor_val_two]
    show ((j 0).val * 64 + (j 1).val / 32) * 32 + (j 1).val % 32 = (j 0).val * 2048 + (j 1).val
    have := Nat.div_add_mod (j 1).val 32
    omega)

end Reshape

/-! ## The outer product's broadcasts at an index -/

section Bcast3
variable {α : Type}

/-- `[16384, 64] → [16384, 64, 1]` along axes 0, 1. -/
theorem bcast_u1_apply (h : (⟨2, ![16384, 64]⟩ : Shape).BroadcastsInDim ⟨3, ![16384, 64, 1]⟩ ![0, 1])
    (x : (⟨2, ![16384, 64]⟩ : Shape).Idx → α) (j : (⟨3, ![16384, 64, 1]⟩ : Shape).Idx) :
    broadcastInDim ⟨3, ![16384, 64, 1]⟩ ![0, 1] h x j = x (ix2 (j 0) (j 1)) := by
  refine broadcastInDim_apply _ h x j (ix2 (j 0) (j 1)) fun a => ?_
  match a with
  | ⟨0, _⟩ => show (j 0).val = if (16384 : Nat) = 1 then 0 else (j 0).val; simp
  | ⟨1, _⟩ => show (j 1).val = if (64 : Nat) = 1 then 0 else (j 1).val; simp

/-- `[16384, 32] → [16384, 1, 32]` along axes 0, 2. -/
theorem bcast_g1_apply (h : (⟨2, ![16384, 32]⟩ : Shape).BroadcastsInDim ⟨3, ![16384, 1, 32]⟩ ![0, 2])
    (x : (⟨2, ![16384, 32]⟩ : Shape).Idx → α) (j : (⟨3, ![16384, 1, 32]⟩ : Shape).Idx) :
    broadcastInDim ⟨3, ![16384, 1, 32]⟩ ![0, 2] h x j = x (ix2 (j 0) (j 2)) := by
  refine broadcastInDim_apply _ h x j (ix2 (j 0) (j 2)) fun a => ?_
  match a with
  | ⟨0, _⟩ => show (j 0).val = if (16384 : Nat) = 1 then 0 else (j 0).val; simp
  | ⟨1, _⟩ => show (j 2).val = if (32 : Nat) = 1 then 0 else (j 2).val; simp

/-- `[16384, 64, 1] → [16384, 64, 32]`: the unit axis spread. -/
theorem bcast_u2_apply (h : (⟨3, ![16384, 64, 1]⟩ : Shape).BroadcastsInDim ⟨3, ![16384, 64, 32]⟩ ![0, 1, 2])
    (x : (⟨3, ![16384, 64, 1]⟩ : Shape).Idx → α) (j : (⟨3, ![16384, 64, 32]⟩ : Shape).Idx) :
    broadcastInDim ⟨3, ![16384, 64, 32]⟩ ![0, 1, 2] h x j = x (ix3 (j 0) (j 1) (0 : Fin 1)) := by
  refine broadcastInDim_apply _ h x j (ix3 (j 0) (j 1) (0 : Fin 1)) fun a => ?_
  match a with
  | ⟨0, _⟩ => show (j 0).val = if (16384 : Nat) = 1 then 0 else (j 0).val; simp
  | ⟨1, _⟩ => show (j 1).val = if (64 : Nat) = 1 then 0 else (j 1).val; simp
  | ⟨2, _⟩ => show (0 : Nat) = if (1 : Nat) = 1 then 0 else (j 2).val; simp

/-- `[16384, 1, 32] → [16384, 64, 32]`: the unit axis spread. -/
theorem bcast_g2_apply (h : (⟨3, ![16384, 1, 32]⟩ : Shape).BroadcastsInDim ⟨3, ![16384, 64, 32]⟩ ![0, 1, 2])
    (x : (⟨3, ![16384, 1, 32]⟩ : Shape).Idx → α) (j : (⟨3, ![16384, 64, 32]⟩ : Shape).Idx) :
    broadcastInDim ⟨3, ![16384, 64, 32]⟩ ![0, 1, 2] h x j = x (ix3 (j 0) (0 : Fin 1) (j 2)) := by
  refine broadcastInDim_apply _ h x j (ix3 (j 0) (0 : Fin 1) (j 2)) fun a => ?_
  match a with
  | ⟨0, _⟩ => show (j 0).val = if (16384 : Nat) = 1 then 0 else (j 0).val; simp
  | ⟨1, _⟩ => show (0 : Nat) = if (1 : Nat) = 1 then 0 else (j 1).val; simp
  | ⟨2, _⟩ => show (j 2).val = if (32 : Nat) = 1 then 0 else (j 2).val; simp

end Bcast3

/-! ## The host's square root at an index -/

theorem hostSqrt_apply {s : Shape} (a : FVec Ideal s .f32) (i : s.Idx) : Host.sqrt a i = Ideal.sqrt (a i) := rfl

/-! ## The nine blocks side by side, at an index -/

/-- The pieces of the feature row. -/
abbrev xPieces (u : A2 16384 64) (ge ag : A2 16384 8) (oc : A2 16384 16) (mv : A2 16384 64) (gv : A2 16384 32)
    (rt im : A2 16384 1) (cr : A2 16384 32) : List ((s : Shape) × (s.Idx → EReal)) :=
  [⟨(⟨2, ![16384, 64]⟩ : Shape), u⟩, ⟨(⟨2, ![16384, 8]⟩ : Shape), ge⟩, ⟨(⟨2, ![16384, 8]⟩ : Shape), ag⟩, ⟨(⟨2, ![16384, 16]⟩ : Shape), oc⟩, ⟨(⟨2, ![16384, 64]⟩ : Shape), mv⟩, ⟨(⟨2, ![16384, 32]⟩ : Shape), gv⟩, ⟨(⟨2, ![16384, 1]⟩ : Shape), rt⟩, ⟨(⟨2, ![16384, 1]⟩ : Shape), im⟩, ⟨(⟨2, ![16384, 32]⟩ : Shape), cr⟩]

set_option maxRecDepth 8192 in
/-- The concatenation read at (r, c): the block whose column range holds c, at c less the range's start. The rating and
    implicit blocks enter as one-column arrays. -/
theorem concat9_apply (u : A2 16384 64) (ge ag : A2 16384 8) (oc : A2 16384 16) (mv : A2 16384 64) (gv : A2 16384 32)
    (rt im : A2 16384 1) (cr : A2 16384 32)
    (h : Shape.Concatenates ((xPieces u ge ag oc mv gv rt im cr).map (·.1)) ⟨2, ![16384, 226]⟩ 1)
    (j : (⟨2, ![16384, 226]⟩ : Shape).Idx) :
    concatenate ⟨2, ![16384, 226]⟩ 1 (xPieces u ge ag oc mv gv rt im cr) h j
      = x u ge ag oc mv gv (fun i => rt (ix2 (i 0) (0 : Fin 1))) (fun i => im (ix2 (i 0) (0 : Fin 1))) cr j := by
  have hj := idx2_lt1 j
  unfold x
  by_cases c0 : (j 1).val < 64
  · rw [dif_pos c0]
    exact concatenate_apply_piece (t := ⟨2, ![16384, 226]⟩) (1 : Fin 2) (xPieces u ge ag oc mv gv rt im cr) h j
        0 (show 0 < 9 by omega) (⟨2, ![16384, 64]⟩ : Shape) u rfl rfl 0 rfl (ix2 (j 0) (⟨(j 1).val, by omega⟩ : Fin 64))
        (fun b hb => match b, hb with | ⟨0, _⟩, _ => rfl | ⟨1, _⟩, hb => absurd (Fin.ext rfl) hb) (by show 0 + ((j 1).val) = (j 1).val; omega)
  · rw [dif_neg c0]
    by_cases c1 : (j 1).val < 72
    · rw [dif_pos c1]
      exact concatenate_apply_piece (t := ⟨2, ![16384, 226]⟩) (1 : Fin 2) (xPieces u ge ag oc mv gv rt im cr) h j
          1 (show 1 < 9 by omega) (⟨2, ![16384, 8]⟩ : Shape) ge rfl rfl 64 rfl (ix2 (j 0) (⟨(j 1).val - 64, by omega⟩ : Fin 8))
          (fun b hb => match b, hb with | ⟨0, _⟩, _ => rfl | ⟨1, _⟩, hb => absurd (Fin.ext rfl) hb) (by show 64 + ((j 1).val - 64) = (j 1).val; omega)
    · rw [dif_neg c1]
      by_cases c2 : (j 1).val < 80
      · rw [dif_pos c2]
        exact concatenate_apply_piece (t := ⟨2, ![16384, 226]⟩) (1 : Fin 2) (xPieces u ge ag oc mv gv rt im cr) h j
            2 (show 2 < 9 by omega) (⟨2, ![16384, 8]⟩ : Shape) ag rfl rfl 72 rfl (ix2 (j 0) (⟨(j 1).val - 72, by omega⟩ : Fin 8))
            (fun b hb => match b, hb with | ⟨0, _⟩, _ => rfl | ⟨1, _⟩, hb => absurd (Fin.ext rfl) hb) (by show 72 + ((j 1).val - 72) = (j 1).val; omega)
      · rw [dif_neg c2]
        by_cases c3 : (j 1).val < 96
        · rw [dif_pos c3]
          exact concatenate_apply_piece (t := ⟨2, ![16384, 226]⟩) (1 : Fin 2) (xPieces u ge ag oc mv gv rt im cr) h j
              3 (show 3 < 9 by omega) (⟨2, ![16384, 16]⟩ : Shape) oc rfl rfl 80 rfl (ix2 (j 0) (⟨(j 1).val - 80, by omega⟩ : Fin 16))
              (fun b hb => match b, hb with | ⟨0, _⟩, _ => rfl | ⟨1, _⟩, hb => absurd (Fin.ext rfl) hb) (by show 80 + ((j 1).val - 80) = (j 1).val; omega)
        · rw [dif_neg c3]
          by_cases c4 : (j 1).val < 160
          · rw [dif_pos c4]
            exact concatenate_apply_piece (t := ⟨2, ![16384, 226]⟩) (1 : Fin 2) (xPieces u ge ag oc mv gv rt im cr) h j
                4 (show 4 < 9 by omega) (⟨2, ![16384, 64]⟩ : Shape) mv rfl rfl 96 rfl (ix2 (j 0) (⟨(j 1).val - 96, by omega⟩ : Fin 64))
                (fun b hb => match b, hb with | ⟨0, _⟩, _ => rfl | ⟨1, _⟩, hb => absurd (Fin.ext rfl) hb) (by show 96 + ((j 1).val - 96) = (j 1).val; omega)
          · rw [dif_neg c4]
            by_cases c5 : (j 1).val < 192
            · rw [dif_pos c5]
              exact concatenate_apply_piece (t := ⟨2, ![16384, 226]⟩) (1 : Fin 2) (xPieces u ge ag oc mv gv rt im cr) h j
                  5 (show 5 < 9 by omega) (⟨2, ![16384, 32]⟩ : Shape) gv rfl rfl 160 rfl (ix2 (j 0) (⟨(j 1).val - 160, by omega⟩ : Fin 32))
                  (fun b hb => match b, hb with | ⟨0, _⟩, _ => rfl | ⟨1, _⟩, hb => absurd (Fin.ext rfl) hb) (by show 160 + ((j 1).val - 160) = (j 1).val; omega)
            · rw [dif_neg c5]
              by_cases c6 : (j 1).val < 193
              · rw [dif_pos c6]
                refine (concatenate_apply_piece (t := ⟨2, ![16384, 226]⟩) (1 : Fin 2) (xPieces u ge ag oc mv gv rt im cr) h j
                    6 (show 6 < 9 by omega) (⟨2, ![16384, 1]⟩ : Shape) rt rfl rfl 192 rfl (ix2 (j 0) (⟨(j 1).val - 192, by omega⟩ : Fin 1))
                    (fun b hb => match b, hb with | ⟨0, _⟩, _ => rfl | ⟨1, _⟩, hb => absurd (Fin.ext rfl) hb) (by show 192 + ((j 1).val - 192) = (j 1).val; omega)).trans (congrArg rt (funext fun a => Fin.ext ?_))
                match a with
                | ⟨0, _⟩ => rfl
                | ⟨1, _⟩ => show (j 1).val - 192 = 0; omega
              · rw [dif_neg c6]
                by_cases c7 : (j 1).val < 194
                · rw [dif_pos c7]
                  refine (concatenate_apply_piece (t := ⟨2, ![16384, 226]⟩) (1 : Fin 2) (xPieces u ge ag oc mv gv rt im cr) h j
                      7 (show 7 < 9 by omega) (⟨2, ![16384, 1]⟩ : Shape) im rfl rfl 193 rfl (ix2 (j 0) (⟨(j 1).val - 193, by omega⟩ : Fin 1))
                      (fun b hb => match b, hb with | ⟨0, _⟩, _ => rfl | ⟨1, _⟩, hb => absurd (Fin.ext rfl) hb) (by show 193 + ((j 1).val - 193) = (j 1).val; omega)).trans (congrArg im (funext fun a => Fin.ext ?_))
                  match a with
                  | ⟨0, _⟩ => rfl
                  | ⟨1, _⟩ => show (j 1).val - 193 = 0; omega
                · rw [dif_neg c7]
                  exact concatenate_apply_piece (t := ⟨2, ![16384, 226]⟩) (1 : Fin 2) (xPieces u ge ag oc mv gv rt im cr) h j
                        8 (show 8 < 9 by omega) (⟨2, ![16384, 32]⟩ : Shape) cr rfl rfl 194 rfl (ix2 (j 0) (⟨(j 1).val - 194, by omega⟩ : Fin 32))
                        (fun b hb => match b, hb with | ⟨0, _⟩, _ => rfl | ⟨1, _⟩, hb => absurd (Fin.ext rfl) hb) (by show 194 + ((j 1).val - 194) = (j 1).val; omega)
/-! ## The literal words' values, and the variance's guard -/

/-- The count word is 16384. -/
theorem count_eq : count = ((16384 : ℝ) : EReal) := by
  simp [count, Ideal.ofBits, Ideal.ieee, -EReal.coe_mul]; norm_num

/-- The zero word is zero. -/
theorem zero_word_eq : zero = 0 := Ideal.ofBits_zero_f32

/-- The reference's guard on the variance's quotient holds: the count less the degrees of freedom is positive. -/
theorem guard_eq : FloatOps.cmpf (F := Ideal) (φ := .f32) .ogt (count - ddof) zero = 1#1 := by
  show Ideal.cmp .ogt (count - ddof) zero = 1#1
  rw [zero_word_eq, ddof_eq, count_eq]
  unfold Ideal.cmp
  have h : (0 : EReal) < ((16384 : ℝ) : EReal) - 0 := by
    rw [sub_zero]; exact_mod_cast (by norm_num : (0 : ℝ) < 16384)
  simp [h]

/-! ## The program's patterns, over any arrays -/

section Patterns
variable {M K N : Nat}

/-- A dense layer as the program spells it: the plain product plus the bias broadcast to a row and down the rows. -/
theorem dense_eq (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1]) :
    addf (Host.dotGeneral (DotDims.plain M K N) none x W)
        (broadcastInDim ⟨2, ![M, N]⟩ ![0, 1] h2 (broadcastInDim ⟨2, ![1, N]⟩ ![1] h1 b)) = dense x W b := by
  funext i
  rw [addf_apply, dot_plain_apply, bcast_rows_apply, bcast_row_apply]
  rfl

/-- A column mean as the program spells it: the column sum from the zero word over the count word broadcast. -/
theorem colMean_eq (y : FVec Ideal ⟨2, ![M, N]⟩ .f32) (h' : (⟨2, ![M, N]⟩ : Shape).ReducesTo [0] ⟨1, ![N]⟩)
    (h : (⟨2, ![M, N]⟩ : Shape).Reduces [0] ⟨1, ![N]⟩) (hu : 0 < (⟨0, ![]⟩ : Shape).numel)
    (hb : (⟨0, ![]⟩ : Shape).BroadcastsInDim ⟨1, ![N]⟩ ![]) :
    Host.divf (Host.reduceAdd y (constant ⟨0, ![]⟩ .f32 0x00000000#32) h' hu)
        (broadcastInDim ⟨1, ![N]⟩ ![] hb (constant ⟨0, ![]⟩ .f32 0x46800000#32)) = colMean y := by
  funext j
  rw [hostDivf_apply, reduce0_apply h' h, broadcastInDim_scalar_apply, constant_apply, constant_apply]
  rfl

/-- The centred array as the variance function spells it: the mean taken through a one-row array and broadcast back. -/
theorem centred_apply (y : FVec Ideal ⟨2, ![M, N]⟩ .f32) (h' : (⟨2, ![M, N]⟩ : Shape).ReducesTo [0] ⟨1, ![N]⟩)
    (h : (⟨2, ![M, N]⟩ : Shape).Reduces [0] ⟨1, ![N]⟩) (hu : 0 < (⟨0, ![]⟩ : Shape).numel)
    (h1 : (⟨1, ![N]⟩ : Shape).BroadcastsInDim ⟨2, ![1, N]⟩ ![1]) (hs : (⟨0, ![]⟩ : Shape).BroadcastsInDim ⟨2, ![1, N]⟩ ![])
    (h2 : (⟨2, ![1, N]⟩ : Shape).BroadcastsInDim ⟨2, ![M, N]⟩ ![0, 1]) (i : (⟨2, ![M, N]⟩ : Shape).Idx) :
    subf y (broadcastInDim ⟨2, ![M, N]⟩ ![0, 1] h2
        (Host.divf (broadcastInDim ⟨2, ![1, N]⟩ ![1] h1 (Host.reduceAdd y (constant ⟨0, ![]⟩ .f32 0x00000000#32) h' hu))
          (broadcastInDim ⟨2, ![1, N]⟩ ![] hs (constant ⟨0, ![]⟩ .f32 0x46800000#32)))) i
      = y i - colMean y (ix1 (i 1)) := by
  rw [subf_apply, bcast_rows_apply, hostDivf_apply, bcast_row_apply, reduce0_apply h' h, broadcastInDim_scalar_apply,
    constant_apply, constant_apply]
  rfl

/-- A column variance as the variance function spells it, its guard decided. -/
theorem colVar_eq (y : FVec Ideal ⟨2, ![M, N]⟩ .f32) (h' : (⟨2, ![M, N]⟩ : Shape).ReducesTo [0] ⟨1, ![N]⟩)
    (h : (⟨2, ![M, N]⟩ : Shape).Reduces [0] ⟨1, ![N]⟩) (hu : 0 < (⟨0, ![]⟩ : Shape).numel)
    (h1 : (⟨1, ![N]⟩ : Shape).BroadcastsInDim ⟨2, ![1, N]⟩ ![1]) (hs : (⟨0, ![]⟩ : Shape).BroadcastsInDim ⟨2, ![1, N]⟩ ![])
    (h2 : (⟨2, ![1, N]⟩ : Shape).BroadcastsInDim ⟨2, ![M, N]⟩ ![0, 1]) (hb : (⟨0, ![]⟩ : Shape).BroadcastsInDim ⟨1, ![N]⟩ ![])
    (D : FVec Ideal ⟨2, ![M, N]⟩ .f32)
    (hD : D = subf y (broadcastInDim ⟨2, ![M, N]⟩ ![0, 1] h2
        (Host.divf (broadcastInDim ⟨2, ![1, N]⟩ ![1] h1 (Host.reduceAdd y (constant ⟨0, ![]⟩ .f32 0x00000000#32) h' hu))
          (broadcastInDim ⟨2, ![1, N]⟩ ![] hs (constant ⟨0, ![]⟩ .f32 0x46800000#32))))) :
    select (broadcastInDim ⟨1, ![N]⟩ ![] hb
          (cmpf .ogt (subf (constant ⟨0, ![]⟩ .f32 0x46800000#32) (sitofp .f32 (constantI ⟨0, ![]⟩ 32 0#32) : FVec Ideal ⟨0, ![]⟩ .f32))
            (constant ⟨0, ![]⟩ .f32 0x00000000#32)))
        (Host.divf (Host.reduceAdd (mulf D D) (constant ⟨0, ![]⟩ .f32 0x00000000#32) h' hu)
          (broadcastInDim ⟨1, ![N]⟩ ![] hb
            (subf (constant ⟨0, ![]⟩ .f32 0x46800000#32) (sitofp .f32 (constantI ⟨0, ![]⟩ 32 0#32) : FVec Ideal ⟨0, ![]⟩ .f32))))
        (broadcastInDim ⟨1, ![N]⟩ ![] hb (id (constant ⟨0, ![]⟩ .f32 0x7FC00000#32)))
      = colVar y := by
  funext j
  have hg : (cmpf .ogt (subf (constant ⟨0, ![]⟩ .f32 0x46800000#32) (sitofp .f32 (constantI ⟨0, ![]⟩ 32 0#32) : FVec Ideal ⟨0, ![]⟩ .f32))
      (constant ⟨0, ![]⟩ .f32 0x00000000#32) : IVec ⟨0, ![]⟩ 1) ix0 = 1#1 := guard_eq
  rw [select_apply, broadcastInDim_scalar_apply, hg, select_one, hostDivf_apply, reduce0_apply h' h, broadcastInDim_scalar_apply,
    constant_apply]
  subst hD
  simp only [mulf_apply, centred_apply y h' h hu h1 hs h2]
  rfl

/-- Normalize, scale, shift and clip as the program spells them, given the mean and the variance. -/
theorem normRelu_eq (y : FVec Ideal ⟨2, ![M, N]⟩ .f32) (g beta mean var : FVec Ideal ⟨1, ![N]⟩ .f32)
    (hm : mean = colMean y) (hv : var = colVar y)
    (h1 : (⟨1, ![N]⟩ : Shape).BroadcastsInDim ⟨2, ![1, N]⟩ ![1]) (h2 : (⟨2, ![1, N]⟩ : Shape).BroadcastsInDim ⟨2, ![M, N]⟩ ![0, 1])
    (hb : (⟨0, ![]⟩ : Shape).BroadcastsInDim ⟨1, ![N]⟩ ![]) (hz : (⟨0, ![]⟩ : Shape).BroadcastsInDim ⟨2, ![M, N]⟩ ![]) :
    maximumf
        (addf
          (mulf
            (Host.divf (subf y (broadcastInDim ⟨2, ![M, N]⟩ ![0, 1] h2 (broadcastInDim ⟨2, ![1, N]⟩ ![1] h1 mean)))
              (broadcastInDim ⟨2, ![M, N]⟩ ![0, 1] h2 (broadcastInDim ⟨2, ![1, N]⟩ ![1] h1
                (Host.sqrt (addf var (broadcastInDim ⟨1, ![N]⟩ ![] hb (constant ⟨0, ![]⟩ .f32 0x3727C5AC#32)))))))
            (broadcastInDim ⟨2, ![M, N]⟩ ![0, 1] h2 (broadcastInDim ⟨2, ![1, N]⟩ ![1] h1 g)))
          (broadcastInDim ⟨2, ![M, N]⟩ ![0, 1] h2 (broadcastInDim ⟨2, ![1, N]⟩ ![1] h1 beta)))
        (broadcastInDim ⟨2, ![M, N]⟩ ![] hz (constant ⟨0, ![]⟩ .f32 0x00000000#32))
      = normRelu y g beta := by
  funext i
  subst hm hv
  rw [maximumf_apply, addf_apply, mulf_apply, hostDivf_apply, subf_apply]
  repeat rw [bcast_rows_apply]
  repeat rw [bcast_row_apply]
  rw [hostSqrt_apply, addf_apply]
  repeat rw [broadcastInDim_scalar_apply]
  repeat rw [constant_apply]
  rfl

end Patterns

/-! ## An embedding as the program spells it -/

/-- The index words normalized (a negative word has the table's height added), laid as a column, and the table's rows
    gathered at them. -/
theorem embed_eq {N D : Nat} (hN : 0 < N)
    (wf : GatherDims.WF ⟨2, ![N, D]⟩ ⟨2, ![16384, 1]⟩ ⟨2, ![16384, D]⟩ [1] [0] [] [0] [] 1 ![1, D])
    (tbl : FVec Ideal ⟨2, ![N, D]⟩ .f32) (idx : IVec ⟨1, ![16384]⟩ 32)
    (h0 : (⟨0, ![]⟩ : Shape).BroadcastsInDim ⟨1, ![16384]⟩ ![])
    (hc : (⟨1, ![16384]⟩ : Shape).BroadcastsInDim ⟨2, ![16384, 1]⟩ ![0]) :
    Host.gather (rowDims N 16384 D wf) tbl
        (broadcastInDim ⟨2, ![16384, 1]⟩ ![0] hc
          (select (cmpi .slt idx (broadcastInDim ⟨1, ![16384]⟩ ![] h0 (constantI ⟨0, ![]⟩ 32 0#32)))
            (addi idx (broadcastInDim ⟨1, ![16384]⟩ ![] h0 (constantI ⟨0, ![]⟩ 32 (BitVec.ofNat 32 N)))) idx))
      = embed hN tbl idx := by
  funext i
  rw [gather_row_apply hN]
  have e : (broadcastInDim ⟨2, ![16384, 1]⟩ ![0] hc
          (select (cmpi .slt idx (broadcastInDim ⟨1, ![16384]⟩ ![] h0 (constantI ⟨0, ![]⟩ 32 0#32)))
            (addi idx (broadcastInDim ⟨1, ![16384]⟩ ![] h0 (constantI ⟨0, ![]⟩ 32 (BitVec.ofNat 32 N)))) idx)
          : IVec ⟨2, ![16384, 1]⟩ 32) (ix2 (i 0) (0 : Fin 1)) = wrap N (idx (ix1 (i 0))) := by
    rw [bcast_col_apply, select_apply]
    simp only [cmpi, addi, broadcastInDim_scalar_apply, constantI]
    rfl
  unfold embed row
  refine congrArg tbl (funext fun a => Fin.ext ?_)
  match a with
  | ⟨0, _⟩ =>
    show min _ (N - 1) = min _ (N - 1)
    rw [e]
  | ⟨1, _⟩ => rfl

end Cert.Spec

end
-- ==== Proof.KerStages.lean ====
/-
  The kernel's host lines read at an index: what each buffer a later call reads holds, as the specification's host
  function of the argument arrays. A reshape keeps the row-major position; a vector as a column or a row reads the
  vector; the two big tables side by side and the index list are concatenations read piece by piece; a padded array reads
  its operand inside the padding and the padding word outside; the permuted weights are nine row ranges of the weights
  laid end to end. At the ideal values a change of float format is the identity.
-/
import proofs.«214388_g48842368090541_cont_8to1c4_19_37_alg».proof.Proof.KerChainA
import proofs.«214388_g48842368090541_cont_8to1c4_19_37_alg».proof.Proof.KerChainB
import proofs.«214388_g48842368090541_cont_8to1c4_19_37_alg».proof.Proof.KerChainC
import proofs.«214388_g48842368090541_cont_8to1c4_19_37_alg».proof.Proof.KerRegionSpec
import proofs.«214388_g48842368090541_cont_8to1c4_19_37_alg».proof.Proof.RefOps
import proofs.«214388_g48842368090541_cont_8to1c4_19_37_alg».proof.Proof.KSpec
import Idealize.ShloMosaic.Lib.ValueLayout
import Idealize.ShloMosaic.Lib.KernelVsHost

noncomputable section

open scoped BigOperators

namespace Cert.KernelIdeal.KerValue

open Cert.KernelIdeal Cert.KernelIdeal.Gen Cert.KernelIdeal.MainShape Idealize.ShloMosaic Idealize.ShloMosaic.TcCoe Idealize.SL.Sem Idealize.ShloMosaic.StableHlo
open Idealize.ShloMosaic.ValueIdx

variable {F : FTy → Type} [FloatOps F]

/-- `v88`: argument 19 as one row. -/
theorem stK_v88 (V : Valuation τ sig (Elt F)) (i : (⟨2, ![1, 1024]⟩ : Shape).Idx) :
    kx_main_v88 V i = V (Proc.devRef .tc main_arg19) (ix1 (i 1)) := by
  unfold kx_main_v88
  rw [eq_ix2 i]
  exact shapeCast_a_1a_apply _ _ _ _

/-- `v89`: argument 20 as one row. -/
theorem stK_v89 (V : Valuation τ sig (Elt F)) (i : (⟨2, ![1, 1024]⟩ : Shape).Idx) :
    kx_main_v89 V i = V (Proc.devRef .tc main_arg20) (ix1 (i 1)) := by
  unfold kx_main_v89
  rw [eq_ix2 i]
  exact shapeCast_a_1a_apply _ _ _ _

/-- `v90`: argument 22 as one row. -/
theorem stK_v90 (V : Valuation τ sig (Elt F)) (i : (⟨2, ![1, 1024]⟩ : Shape).Idx) :
    kx_main_v90 V i = V (Proc.devRef .tc main_arg22) (ix1 (i 1)) := by
  unfold kx_main_v90
  rw [eq_ix2 i]
  exact shapeCast_a_1a_apply _ _ _ _

/-- One column as one row: `[a, 1] → [1, a]`. -/
theorem shapeCast_colrow_apply {α : Type} {a : Nat} (x : (⟨2, ![a, 1]⟩ : Shape).Idx → α)
    (h : (⟨2, ![a, 1]⟩ : Shape).ShapeCasts ⟨2, ![1, a]⟩) (i : (⟨2, ![1, a]⟩ : Shape).Idx) :
    shapeCast ⟨2, ![1, a]⟩ x h i = x (ix2 (i 1) (0 : Fin 1)) :=
  shapeCast_apply x h _ _ (by
    rw [Shape.rowMajor_val_two, Shape.rowMajor_val_two]
    have h0 : (i 0).val = 0 := by have := idx2_lt0 i; omega
    show (i 1).val * 1 + 0 = (i 0).val * a + (i 1).val
    rw [h0]; omega)

/-- `v92`: the output weights' one column as one row. -/
theorem stK_v92 (V : Valuation τ sig (Elt F)) (i : (⟨2, ![1, 512]⟩ : Shape).Idx) :
    kx_main_v92 V i = V (Proc.devRef .tc main_arg33) (ix2 (i 1) (0 : Fin 1)) := by
  unfold kx_main_v92
  exact shapeCast_colrow_apply _ _ _

/-- `v93`: argument 25 as one row. -/
theorem stK_v93 (V : Valuation τ sig (Elt F)) (i : (⟨2, ![1, 1024]⟩ : Shape).Idx) :
    kx_main_v93 V i = V (Proc.devRef .tc main_arg25) (ix1 (i 1)) := by
  unfold kx_main_v93
  rw [eq_ix2 i]
  exact shapeCast_a_1a_apply _ _ _ _

/-- `v94`: argument 26 as one row. -/
theorem stK_v94 (V : Valuation τ sig (Elt F)) (i : (⟨2, ![1, 1024]⟩ : Shape).Idx) :
    kx_main_v94 V i = V (Proc.devRef .tc main_arg26) (ix1 (i 1)) := by
  unfold kx_main_v94
  rw [eq_ix2 i]
  exact shapeCast_a_1a_apply _ _ _ _

/-- `v95`: argument 32 as one row. -/
theorem stK_v95 (V : Valuation τ sig (Elt F)) (i : (⟨2, ![1, 512]⟩ : Shape).Idx) :
    kx_main_v95 V i = V (Proc.devRef .tc main_arg32) (ix1 (i 1)) := by
  unfold kx_main_v95
  rw [eq_ix2 i]
  exact shapeCast_a_1a_apply _ _ _ _

/-- `v97`: argument 29 as one row. -/
theorem stK_v97 (V : Valuation τ sig (Elt F)) (i : (⟨2, ![1, 512]⟩ : Shape).Idx) :
    kx_main_v97 V i = V (Proc.devRef .tc main_arg29) (ix1 (i 1)) := by
  unfold kx_main_v97
  rw [eq_ix2 i]
  exact shapeCast_a_1a_apply _ _ _ _

/-- `v98`: argument 30 as one row. -/
theorem stK_v98 (V : Valuation τ sig (Elt F)) (i : (⟨2, ![1, 512]⟩ : Shape).Idx) :
    kx_main_v98 V i = V (Proc.devRef .tc main_arg30) (ix1 (i 1)) := by
  unfold kx_main_v98
  rw [eq_ix2 i]
  exact shapeCast_a_1a_apply _ _ _ _

/-- `v99`: the output bias as a one by one array. -/
theorem stK_v99 (V : Valuation τ sig (Elt F)) (i : (⟨2, ![1, 1]⟩ : Shape).Idx) :
    kx_main_v99 V i = V (Proc.devRef .tc main_arg34) (ix1 (i 1)) := by
  unfold kx_main_v99
  rw [eq_ix2 i]
  exact shapeCast_a_1a_apply _ _ _ _

/-- `v101`: the last launch's one column as a vector. -/
theorem stK_v101 (V : Valuation τ sig (Elt F)) (j : (⟨1, ![16384]⟩ : Shape).Idx) :
    kx_main_v101 V j = V (Proc.devRef .tc main_v100) (ix2 (j 0) (0 : Fin 1)) := by
  unfold kx_main_v101
  exact Cert.Spec.shapeCast_col_apply _ _ _

/-- `v85`: the rating as one column. -/
theorem stK_v85 (V : Valuation τ sig (Elt F)) (i : (⟨2, ![16384, 1]⟩ : Shape).Idx) :
    kx_main_v85 V i = V (Proc.devRef .tc main_arg6) (ix1 (i 0)) := by
  unfold kx_main_v85
  exact Cert.Spec.bcast_col_apply _ _ _

/-- `v86`: the implicit flag as one column. -/
theorem stK_v86 (V : Valuation τ sig (Elt F)) (i : (⟨2, ![16384, 1]⟩ : Shape).Idx) :
    kx_main_v86 V i = V (Proc.devRef .tc main_arg7) (ix1 (i 0)) := by
  unfold kx_main_v86
  exact Cert.Spec.bcast_col_apply _ _ _

/-- `[2048, 32] → [64, 1024]`: entry (i, c) is row `32 i + c / 32`, column `c % 32`. -/
theorem shapeCast_kT_apply {α : Type} (x : (⟨2, ![2048, 32]⟩ : Shape).Idx → α)
    (h : (⟨2, ![2048, 32]⟩ : Shape).ShapeCasts ⟨2, ![64, 1024]⟩) (i : (⟨2, ![64, 1024]⟩ : Shape).Idx) :
    shapeCast ⟨2, ![64, 1024]⟩ x h i
      = x (ix2 (⟨32 * (i 0).val + (i 1).val / 32, by have := idx2_lt0 i; have := idx2_lt1 i; omega⟩ : Fin 2048)
          (⟨(i 1).val % 32, Nat.mod_lt _ (by decide)⟩ : Fin 32)) :=
  shapeCast_apply x h _ _ (by
    rw [Shape.rowMajor_val_two, Shape.rowMajor_val_two]
    show (32 * (i 0).val + (i 1).val / 32) * 32 + (i 1).val % 32 = (i 0).val * 1024 + (i 1).val
    have := Nat.div_add_mod (i 1).val 32
    omega)

/-- `v38`: the cross weights reshaped (the change of float format is the identity at the ideal values). -/
theorem stK_v38 (V : Valuation τ sig (Elt Ideal)) : kx_main_v38 V = Cert.Spec.kT (V (Proc.devRef .tc main_arg15)) := by
  funext i
  unfold kx_main_v38 kx_main_v37
  unfold Cert.Spec.kT
  exact shapeCast_kT_apply _ _ i

/-- `v7`: the two big tables side by side. -/
theorem stK_v7 (V : Valuation τ sig (Elt Ideal)) :
    kx_main_v7 V = Cert.Spec.kBig (V (Proc.devRef .tc main_arg8)) (V (Proc.devRef .tc main_arg12)) := by
  funext i
  have hi := idx2_lt1 i
  unfold kx_main_v7
  unfold Cert.Spec.kBig
  by_cases h : (i 1).val < 64
  · rw [dif_pos h]
    exact concatenate_pair_apply_left (t := ⟨2, ![100000, 128]⟩) (s₁ := ⟨2, ![100000, 64]⟩) (s₂ := ⟨2, ![100000, 64]⟩) (1 : Fin 2) _ _ _ i rfl (ix2 (i 0) (⟨(i 1).val, h⟩ : Fin 64))
      (fun b => match b with | ⟨0, _⟩ => rfl | ⟨1, _⟩ => rfl)
  · rw [dif_neg h]
    exact concatenate_pair_apply_right (t := ⟨2, ![100000, 128]⟩) (s₁ := ⟨2, ![100000, 64]⟩) (s₂ := ⟨2, ![100000, 64]⟩) (1 : Fin 2) _ _ _ i rfl rfl
      (ix2 (i 0) (⟨(i 1).val - 64, by omega⟩ : Fin 64))
      (fun b hb => match b, hb with | ⟨0, _⟩, _ => rfl | ⟨1, _⟩, hb => absurd (Fin.ext rfl) hb)
      (by show (i 1).val - 64 + 64 = (i 1).val; omega)

/-- The first line's index list is the term of MainShape. -/
theorem kx_v6_idxTerm (V : Valuation τ sig (Elt F)) :
    kx_main_v6 V = idxTerm (V (Proc.devRef .tc main_arg0) : IVec S16384 32) (V (Proc.devRef .tc main_arg4) : IVec S16384 32)
      (V (Proc.devRef .tc main_arg1) : IVec S16384 32) (V (Proc.devRef .tc main_arg2) : IVec S16384 32)
      (V (Proc.devRef .tc main_arg3) : IVec S16384 32) := by
  unfold kx_main_v6 kx_main_v5 kx_main_v4 kx_main_v3 kx_main_v2 kx_main_c_0 kx_main_v1 kx_main_v0 kx_main_c
  rfl

/-- `v6`: the index list. -/
theorem stK_v6 (V : Valuation τ sig (Elt F)) :
    kx_main_v6 V = Cert.Spec.kIdx3 (V (Proc.devRef .tc main_arg0)) (V (Proc.devRef .tc main_arg4))
      (V (Proc.devRef .tc main_arg1)) (V (Proc.devRef .tc main_arg2)) (V (Proc.devRef .tc main_arg3)) := by
  rw [kx_v6_idxTerm]
  funext j
  have hj : (j 0).val < 49152 := (j 0).isLt
  unfold Cert.Spec.kIdx3
  by_cases h0 : (j 0).val < 16384
  · rw [dif_pos h0, idxTerm_piece0 _ _ _ _ _ j h0]
    rfl
  · rw [dif_neg h0]
    by_cases h1 : (j 0).val < 32768
    · rw [dif_pos h1, idxTerm_piece1 _ _ _ _ _ j (by omega) (by omega)]
      rfl
    · rw [dif_neg h1, idxTerm_piece2 _ _ _ _ _ j (by omega) (by omega)]
      unfold packed Cert.Spec.kPacked
      simp only [addi, muli, broadcastInDim, constantI]
      rfl

/-! ## The same, as whole arrays (the forms the value chain composes) -/

theorem kxF_v101 (V : Valuation τ sig (Elt Ideal)) : kx_main_v101 V = Cert.Spec.col1 (V (Proc.devRef .tc main_v100)) :=
  funext fun j => stK_v101 V j
theorem kxE_v97 (V : Valuation τ sig (Elt Ideal)) : kx_main_v97 V = Cert.Spec.asRow (V (Proc.devRef .tc main_arg29)) := funext fun i => stK_v97 V i
theorem kxE_v98 (V : Valuation τ sig (Elt Ideal)) : kx_main_v98 V = Cert.Spec.asRow (V (Proc.devRef .tc main_arg30)) := funext fun i => stK_v98 V i
theorem kxE_v99 (V : Valuation τ sig (Elt Ideal)) : kx_main_v99 V = Cert.Spec.asRow (V (Proc.devRef .tc main_arg34)) := funext fun i => stK_v99 V i
theorem kxD_v92 (V : Valuation τ sig (Elt Ideal)) : kx_main_v92 V = Cert.Spec.asRow (Cert.Spec.kOw (V (Proc.devRef .tc main_arg33))) :=
  funext fun i => stK_v92 V i
theorem kxD_v93 (V : Valuation τ sig (Elt Ideal)) : kx_main_v93 V = Cert.Spec.asRow (V (Proc.devRef .tc main_arg25)) := funext fun i => stK_v93 V i
theorem kxD_v94 (V : Valuation τ sig (Elt Ideal)) : kx_main_v94 V = Cert.Spec.asRow (V (Proc.devRef .tc main_arg26)) := funext fun i => stK_v94 V i
theorem kxD_v95 (V : Valuation τ sig (Elt Ideal)) : kx_main_v95 V = Cert.Spec.asRow (V (Proc.devRef .tc main_arg32)) := funext fun i => stK_v95 V i
theorem kxC_v88 (V : Valuation τ sig (Elt Ideal)) : kx_main_v88 V = Cert.Spec.asRow (V (Proc.devRef .tc main_arg19)) := funext fun i => stK_v88 V i
theorem kxC_v89 (V : Valuation τ sig (Elt Ideal)) : kx_main_v89 V = Cert.Spec.asRow (V (Proc.devRef .tc main_arg20)) := funext fun i => stK_v89 V i
theorem kxC_v90 (V : Valuation τ sig (Elt Ideal)) : kx_main_v90 V = Cert.Spec.asRow (V (Proc.devRef .tc main_arg22)) := funext fun i => stK_v90 V i
theorem kxB_v85 (V : Valuation τ sig (Elt Ideal)) : kx_main_v85 V = Cert.Spec.asCol (V (Proc.devRef .tc main_arg6)) := funext fun i => stK_v85 V i
theorem kxB_v86 (V : Valuation τ sig (Elt Ideal)) : kx_main_v86 V = Cert.Spec.asCol (V (Proc.devRef .tc main_arg7)) := funext fun i => stK_v86 V i

end Cert.KernelIdeal.KerValue

end
-- ==== Proof.KerCompose.lean ====
/-
  The kernel's result buffer as the specification's kernel result: the final valuation read from the outside in. The
  last host line reads the fourth launch's column; each launch's outputs are its closed form of the arrays it reads;
  each of those is either what the host line before wrote (a reshape, a broadcast, a padded or permuted weight array,
  an index list or table) or was left alone by the host line and is the output of the launch before — down to the
  SparseCore call's three gathered arrays and the launch contents of the 35 arguments. The launches' closed forms and
  what they leave alone, the SparseCore call's results and the host equations not proved here enter as hypotheses.
-/
import proofs.«214388_g48842368090541_cont_8to1c4_19_37_alg».proof.Proof.MainValIdeal
import proofs.«214388_g48842368090541_cont_8to1c4_19_37_alg».proof.Proof.KerStages

noncomputable section

namespace Cert.Proof.KernelIdealSc

open Cert.KernelIdeal Cert.KernelIdeal.Gen Cert.KernelIdeal.MainShape Cert.KernelIdeal.KerValue
open Idealize.ShloMosaic Idealize.ShloMosaic.TcCoe Idealize.SL.Sem Idealize.ShloMosaic.StableHlo

/-- The SparseCore call's three result buffers hold what it wrote. -/
theorem scAfter_v36_2 (V : Valuation τ sig (Elt Ideal)) (d : Dev nD) (fu fm fco) : scAfter V d fu fm fco (Proc.devRef .tc main_v36_2) = fco := by
  unfold scAfter; rw [Function.update_self]
theorem scAfter_v36_1 (V : Valuation τ sig (Elt Ideal)) (d : Dev nD) (fu fm fco) : scAfter V d fu fm fco (Proc.devRef .tc main_v36_1) = fm := by
  unfold scAfter; rw [Function.update_of_ne (devRef_ne_of_ne (by decide)), Function.update_self]
theorem scAfter_v36_0 (V : Valuation τ sig (Elt Ideal)) (d : Dev nD) (fu fm fco) : scAfter V d fu fm fco (Proc.devRef .tc main_v36_0) = fu := by
  unfold scAfter; rw [Function.update_of_ne (devRef_ne_of_ne (by decide)), Function.update_of_ne (devRef_ne_of_ne (by decide)), Function.update_self]

set_option maxRecDepth 16384 in
set_option maxHeartbeats 4000000 in
/-- THE KERNEL'S VALUE CHAIN over its links. -/
theorem kernel_value_of (m : (ℓ : Loc nD τ sig) → Buf (Elt Ideal) ℓ) (c : Dev nD)
    (regAfter : Fin 4 → Valuation τ sig (Elt Ideal) → Valuation τ sig (Elt Ideal))
    (Gu : (d : Dev nD) → Buf (Elt Ideal) (uoLoc d)) (Gm : (d : Dev nD) → Buf (Elt Ideal) (moLoc d)) (Gc : (d : Dev nD) → Buf (Elt Ideal) (coLoc d))
    (hGu : Gu c = Cert.Spec.kU128 (VA m c (Proc.devRef .tc main_v7)) (VA m c (Proc.devRef .tc main_v6)))
    (hGm : Gm c = Cert.Spec.kM128 (VA m c (Proc.devRef .tc main_v7)) (VA m c (Proc.devRef .tc main_v6)))
    (hGc : Gc c = Cert.Spec.kC128 (VA m c (Proc.devRef .tc main_v35)) (VA m c (Proc.devRef .tc main_v6)))
    (hK1x : ∀ V : Valuation τ sig (Elt Ideal), regAfter 0 V (Proc.devRef .tc main_v87_0) = Cert.Spec.r1X (V (Proc.devRef .tc main_v36_0)) (V (Proc.devRef .tc main_v36_1)) (V (Proc.devRef .tc main_v36_2)) (V (Proc.devRef .tc main_arg5)) (V (Proc.devRef .tc main_v85)) (V (Proc.devRef .tc main_v86)) (V (Proc.devRef .tc main_v38)) (V (Proc.devRef .tc main_v48)) (V (Proc.devRef .tc main_v57)) (V (Proc.devRef .tc main_v58)) (V (Proc.devRef .tc main_v60)) (V (Proc.devRef .tc main_v62)))
    (hK1s : ∀ V : Valuation τ sig (Elt Ideal), regAfter 0 V (Proc.devRef .tc main_v87_1) = Cert.Spec.r1S (Cert.Spec.r1X (V (Proc.devRef .tc main_v36_0)) (V (Proc.devRef .tc main_v36_1)) (V (Proc.devRef .tc main_v36_2)) (V (Proc.devRef .tc main_arg5)) (V (Proc.devRef .tc main_v85)) (V (Proc.devRef .tc main_v86)) (V (Proc.devRef .tc main_v38)) (V (Proc.devRef .tc main_v48)) (V (Proc.devRef .tc main_v57)) (V (Proc.devRef .tc main_v58)) (V (Proc.devRef .tc main_v60)) (V (Proc.devRef .tc main_v62))) (V (Proc.devRef .tc main_v73)))
    (hK1q : ∀ V : Valuation τ sig (Elt Ideal), regAfter 0 V (Proc.devRef .tc main_v87_2) = Cert.Spec.r1Q (Cert.Spec.r1X (V (Proc.devRef .tc main_v36_0)) (V (Proc.devRef .tc main_v36_1)) (V (Proc.devRef .tc main_v36_2)) (V (Proc.devRef .tc main_arg5)) (V (Proc.devRef .tc main_v85)) (V (Proc.devRef .tc main_v86)) (V (Proc.devRef .tc main_v38)) (V (Proc.devRef .tc main_v48)) (V (Proc.devRef .tc main_v57)) (V (Proc.devRef .tc main_v58)) (V (Proc.devRef .tc main_v60)) (V (Proc.devRef .tc main_v62))) (V (Proc.devRef .tc main_v73)))
    (hkeep0 : ∀ (V : Valuation τ sig (Elt Ideal)) (r : Ref sig .tc), r ∉ ([main_v87_0, main_v87_1, main_v87_2] : List (Ref sig .tc)) → regAfter 0 V (Proc.devRef .tc r) = V (Proc.devRef .tc r))
    (hK2h : ∀ V : Valuation τ sig (Elt Ideal), regAfter 1 V (Proc.devRef .tc main_v91_0) = Cert.Spec.r2H1 (V (Proc.devRef .tc main_v87_0)) (V (Proc.devRef .tc main_v87_1)) (V (Proc.devRef .tc main_v87_2)) (V (Proc.devRef .tc main_v88)) (V (Proc.devRef .tc main_v89)) (V (Proc.devRef .tc main_v73)) (V (Proc.devRef .tc main_v84)) (V (Proc.devRef .tc main_v90)))
    (hK2y : ∀ V : Valuation τ sig (Elt Ideal), regAfter 1 V (Proc.devRef .tc main_v91_1) = Cert.Spec.r2Y2 (Cert.Spec.r2H1 (V (Proc.devRef .tc main_v87_0)) (V (Proc.devRef .tc main_v87_1)) (V (Proc.devRef .tc main_v87_2)) (V (Proc.devRef .tc main_v88)) (V (Proc.devRef .tc main_v89)) (V (Proc.devRef .tc main_v73)) (V (Proc.devRef .tc main_v84)) (V (Proc.devRef .tc main_v90))) (V (Proc.devRef .tc main_arg23)))
    (hK2s : ∀ V : Valuation τ sig (Elt Ideal), regAfter 1 V (Proc.devRef .tc main_v91_2) = Cert.Spec.r2S (Cert.Spec.r2Y2 (Cert.Spec.r2H1 (V (Proc.devRef .tc main_v87_0)) (V (Proc.devRef .tc main_v87_1)) (V (Proc.devRef .tc main_v87_2)) (V (Proc.devRef .tc main_v88)) (V (Proc.devRef .tc main_v89)) (V (Proc.devRef .tc main_v73)) (V (Proc.devRef .tc main_v84)) (V (Proc.devRef .tc main_v90))) (V (Proc.devRef .tc main_arg23))))
    (hK2q : ∀ V : Valuation τ sig (Elt Ideal), regAfter 1 V (Proc.devRef .tc main_v91_3) = Cert.Spec.r2Q (Cert.Spec.r2Y2 (Cert.Spec.r2H1 (V (Proc.devRef .tc main_v87_0)) (V (Proc.devRef .tc main_v87_1)) (V (Proc.devRef .tc main_v87_2)) (V (Proc.devRef .tc main_v88)) (V (Proc.devRef .tc main_v89)) (V (Proc.devRef .tc main_v73)) (V (Proc.devRef .tc main_v84)) (V (Proc.devRef .tc main_v90))) (V (Proc.devRef .tc main_arg23))))
    (hkeep1 : ∀ (V : Valuation τ sig (Elt Ideal)) (r : Ref sig .tc), r ∉ ([main_v91_0, main_v91_1, main_v91_2, main_v91_3] : List (Ref sig .tc)) → regAfter 1 V (Proc.devRef .tc r) = V (Proc.devRef .tc r))
    (hK3y : ∀ V : Valuation τ sig (Elt Ideal), regAfter 2 V (Proc.devRef .tc main_v96_0) = Cert.Spec.r3Y3 (Cert.Spec.r3H2 (V (Proc.devRef .tc main_v91_0)) (V (Proc.devRef .tc main_v91_1)) (V (Proc.devRef .tc main_v91_2)) (V (Proc.devRef .tc main_v91_3)) (V (Proc.devRef .tc main_v93)) (V (Proc.devRef .tc main_v94))) (V (Proc.devRef .tc main_arg27)))
    (hK3l : ∀ V : Valuation τ sig (Elt Ideal), regAfter 2 V (Proc.devRef .tc main_v96_1) = Cert.Spec.r3Lo (Cert.Spec.r3H2 (V (Proc.devRef .tc main_v91_0)) (V (Proc.devRef .tc main_v91_1)) (V (Proc.devRef .tc main_v91_2)) (V (Proc.devRef .tc main_v91_3)) (V (Proc.devRef .tc main_v93)) (V (Proc.devRef .tc main_v94))) (V (Proc.devRef .tc main_arg31)) (V (Proc.devRef .tc main_v95)) (V (Proc.devRef .tc main_v92)))
    (hK3s : ∀ V : Valuation τ sig (Elt Ideal), regAfter 2 V (Proc.devRef .tc main_v96_2) = Cert.Spec.r3S (Cert.Spec.r3Y3 (Cert.Spec.r3H2 (V (Proc.devRef .tc main_v91_0)) (V (Proc.devRef .tc main_v91_1)) (V (Proc.devRef .tc main_v91_2)) (V (Proc.devRef .tc main_v91_3)) (V (Proc.devRef .tc main_v93)) (V (Proc.devRef .tc main_v94))) (V (Proc.devRef .tc main_arg27))))
    (hK3q : ∀ V : Valuation τ sig (Elt Ideal), regAfter 2 V (Proc.devRef .tc main_v96_3) = Cert.Spec.r3Q (Cert.Spec.r3Y3 (Cert.Spec.r3H2 (V (Proc.devRef .tc main_v91_0)) (V (Proc.devRef .tc main_v91_1)) (V (Proc.devRef .tc main_v91_2)) (V (Proc.devRef .tc main_v91_3)) (V (Proc.devRef .tc main_v93)) (V (Proc.devRef .tc main_v94))) (V (Proc.devRef .tc main_arg27))))
    (hkeep2 : ∀ (V : Valuation τ sig (Elt Ideal)) (r : Ref sig .tc), r ∉ ([main_v96_0, main_v96_1, main_v96_2, main_v96_3] : List (Ref sig .tc)) → regAfter 2 V (Proc.devRef .tc r) = V (Proc.devRef .tc r))
    (hK4 : ∀ V : Valuation τ sig (Elt Ideal), regAfter 3 V (Proc.devRef .tc main_v100) = Cert.Spec.r4Out (V (Proc.devRef .tc main_v96_0)) (V (Proc.devRef .tc main_v96_1)) (V (Proc.devRef .tc main_v96_2)) (V (Proc.devRef .tc main_v96_3)) (V (Proc.devRef .tc main_v97)) (V (Proc.devRef .tc main_v98)) (V (Proc.devRef .tc main_v92)) (V (Proc.devRef .tc main_v99)))
    (hkeep3 : ∀ (V : Valuation τ sig (Elt Ideal)) (r : Ref sig .tc), r ∉ ([main_v100] : List (Ref sig .tc)) → regAfter 3 V (Proc.devRef .tc r) = V (Proc.devRef .tc r))
    (hCombo : ∀ V : Valuation τ sig (Elt Ideal), kx_main_v35 V = Cert.Spec.kCombo (V (Proc.devRef .tc main_arg9)) (V (Proc.devRef .tc main_arg10)) (V (Proc.devRef .tc main_arg11)))
    (hQw : ∀ V : Valuation τ sig (Elt Ideal), kx_main_v48 V = Cert.Spec.kQw)
    (hPw : ∀ V : Valuation τ sig (Elt Ideal), kx_main_v57 V = Cert.Spec.kPw)
    (hGWw : ∀ V : Valuation τ sig (Elt Ideal), kx_main_v58 V = Cert.Spec.kGWw (V (Proc.devRef .tc main_arg13)))
    (hGbw : ∀ V : Valuation τ sig (Elt Ideal), kx_main_v60 V = Cert.Spec.kGbw (V (Proc.devRef .tc main_arg14)))
    (hUgbw : ∀ V : Valuation τ sig (Elt Ideal), kx_main_v62 V = Cert.Spec.kUgbw (V (Proc.devRef .tc main_arg16)))
    (hW1 : ∀ V : Valuation τ sig (Elt Ideal), kx_main_v73 V = Cert.Spec.kPermW (V (Proc.devRef .tc main_arg17)))
    (hpW1 : ∀ V : Valuation τ sig (Elt Ideal), kx_main_v84 V = Cert.Spec.kPermW (V (Proc.devRef .tc main_arg21))) :
    VEnd (F := Ideal) m regAfter Gu Gm Gc c (Proc.devRef .tc main_v101)
      = Cert.Spec.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) := by
  unfold VEnd
  rw [opsF_main_v101, kxF_v101, hK4]
  rw [after_opsE_keep _ main_v96_0 (by decide), after_opsE_keep _ main_v96_1 (by decide), after_opsE_keep _ main_v96_2 (by decide), after_opsE_keep _ main_v96_3 (by decide), after_opsE_keep _ main_v92 (by decide)]
  rw [opsE_main_v97, opsE_main_v98, opsE_main_v99, kxE_v97, kxE_v98, kxE_v99]
  rw [hK3y, hK3l, hK3s, hK3q]
  rw [hkeep2 _ main_v92 (by decide), hkeep2 _ main_arg29 (by decide), hkeep2 _ main_arg30 (by decide), hkeep2 _ main_arg34 (by decide)]
  rw [after_opsD_keep _ main_v91_0 (by decide), after_opsD_keep _ main_v91_1 (by decide), after_opsD_keep _ main_v91_2 (by decide), after_opsD_keep _ main_v91_3 (by decide), after_opsD_keep _ main_arg27 (by decide), after_opsD_keep _ main_arg31 (by decide), after_opsD_keep _ main_arg29 (by decide), after_opsD_keep _ main_arg30 (by decide), after_opsD_keep _ main_arg34 (by decide)]
  rw [opsD_main_v92, opsD_main_v93, opsD_main_v94, opsD_main_v95, kxD_v92, kxD_v93, kxD_v94, kxD_v95]
  rw [hK2h, hK2y, hK2s, hK2q]
  rw [hkeep1 _ main_arg33 (by decide), hkeep1 _ main_arg25 (by decide), hkeep1 _ main_arg26 (by decide), hkeep1 _ main_arg32 (by decide), hkeep1 _ main_arg27 (by decide), hkeep1 _ main_arg31 (by decide), hkeep1 _ main_arg29 (by decide), hkeep1 _ main_arg30 (by decide), hkeep1 _ main_arg34 (by decide)]
  rw [after_opsC_keep _ main_v87_0 (by decide), after_opsC_keep _ main_v87_1 (by decide), after_opsC_keep _ main_v87_2 (by decide), after_opsC_keep _ main_v73 (by decide), after_opsC_keep _ main_v84 (by decide), after_opsC_keep _ main_arg23 (by decide), after_opsC_keep _ main_arg33 (by decide), after_opsC_keep _ main_arg25 (by decide), after_opsC_keep _ main_arg26 (by decide), after_opsC_keep _ main_arg32 (by decide), after_opsC_keep _ main_arg27 (by decide), after_opsC_keep _ main_arg31 (by decide), after_opsC_keep _ main_arg29 (by decide), after_opsC_keep _ main_arg30 (by decide), after_opsC_keep _ main_arg34 (by decide)]
  rw [opsC_main_v88, opsC_main_v89, opsC_main_v90, kxC_v88, kxC_v89, kxC_v90]
  rw [hK1x, hK1s, hK1q]
  rw [hkeep0 _ main_v73 (by decide), hkeep0 _ main_v84 (by decide), hkeep0 _ main_arg19 (by decide), hkeep0 _ main_arg20 (by decide), hkeep0 _ main_arg22 (by decide), hkeep0 _ main_arg23 (by decide), hkeep0 _ main_arg33 (by decide), hkeep0 _ main_arg25 (by decide), hkeep0 _ main_arg26 (by decide), hkeep0 _ main_arg32 (by decide), hkeep0 _ main_arg27 (by decide), hkeep0 _ main_arg31 (by decide), hkeep0 _ main_arg29 (by decide), hkeep0 _ main_arg30 (by decide), hkeep0 _ main_arg34 (by decide)]
  rw [after_opsB_keep _ main_v36_0 (by decide), after_opsB_keep _ main_v36_1 (by decide), after_opsB_keep _ main_v36_2 (by decide), after_opsB_keep _ main_arg5 (by decide), after_opsB_keep _ main_arg19 (by decide), after_opsB_keep _ main_arg20 (by decide), after_opsB_keep _ main_arg22 (by decide), after_opsB_keep _ main_arg23 (by decide), after_opsB_keep _ main_arg33 (by decide), after_opsB_keep _ main_arg25 (by decide), after_opsB_keep _ main_arg26 (by decide), after_opsB_keep _ main_arg32 (by decide), after_opsB_keep _ main_arg27 (by decide), after_opsB_keep _ main_arg31 (by decide), after_opsB_keep _ main_arg29 (by decide), after_opsB_keep _ main_arg30 (by decide), after_opsB_keep _ main_arg34 (by decide)]
  rw [opsB_main_v85, opsB_main_v86, opsB_main_v38, opsB_main_v48, opsB_main_v57, opsB_main_v58, opsB_main_v60, opsB_main_v62, opsB_main_v73, opsB_main_v84]
  rw [kxB_v85, kxB_v86, stK_v38, hQw, hPw, hGWw, hGbw, hUgbw, hW1, hpW1]
  rw [scAfter_v36_0, scAfter_v36_1, scAfter_v36_2]
  rw [scAfter_of_ne _ _ _ _ _ (Proc.devRef .tc main_arg5) (devRef_ne_of_ne (by decide)) (devRef_ne_of_ne (by decide)) (devRef_ne_of_ne (by decide)),
    scAfter_of_ne _ _ _ _ _ (Proc.devRef .tc main_arg6) (devRef_ne_of_ne (by decide)) (devRef_ne_of_ne (by decide)) (devRef_ne_of_ne (by decide)),
    scAfter_of_ne _ _ _ _ _ (Proc.devRef .tc main_arg7) (devRef_ne_of_ne (by decide)) (devRef_ne_of_ne (by decide)) (devRef_ne_of_ne (by decide)),
    scAfter_of_ne _ _ _ _ _ (Proc.devRef .tc main_arg15) (devRef_ne_of_ne (by decide)) (devRef_ne_of_ne (by decide)) (devRef_ne_of_ne (by decide)),
    scAfter_of_ne _ _ _ _ _ (Proc.devRef .tc main_arg13) (devRef_ne_of_ne (by decide)) (devRef_ne_of_ne (by decide)) (devRef_ne_of_ne (by decide)),
    scAfter_of_ne _ _ _ _ _ (Proc.devRef .tc main_arg14) (devRef_ne_of_ne (by decide)) (devRef_ne_of_ne (by decide)) (devRef_ne_of_ne (by decide)),
    scAfter_of_ne _ _ _ _ _ (Proc.devRef .tc main_arg16) (devRef_ne_of_ne (by decide)) (devRef_ne_of_ne (by decide)) (devRef_ne_of_ne (by decide)),
    scAfter_of_ne _ _ _ _ _ (Proc.devRef .tc main_arg17) (devRef_ne_of_ne (by decide)) (devRef_ne_of_ne (by decide)) (devRef_ne_of_ne (by decide)),
    scAfter_of_ne _ _ _ _ _ (Proc.devRef .tc main_arg21) (devRef_ne_of_ne (by decide)) (devRef_ne_of_ne (by decide)) (devRef_ne_of_ne (by decide)),
    scAfter_of_ne _ _ _ _ _ (Proc.devRef .tc main_arg19) (devRef_ne_of_ne (by decide)) (devRef_ne_of_ne (by decide)) (devRef_ne_of_ne (by decide)),
    scAfter_of_ne _ _ _ _ _ (Proc.devRef .tc main_arg20) (devRef_ne_of_ne (by decide)) (devRef_ne_of_ne (by decide)) (devRef_ne_of_ne (by decide)),
    scAfter_of_ne _ _ _ _ _ (Proc.devRef .tc main_arg22) (devRef_ne_of_ne (by decide)) (devRef_ne_of_ne (by decide)) (devRef_ne_of_ne (by decide)),
    scAfter_of_ne _ _ _ _ _ (Proc.devRef .tc main_arg23) (devRef_ne_of_ne (by decide)) (devRef_ne_of_ne (by decide)) (devRef_ne_of_ne (by decide)),
    scAfter_of_ne _ _ _ _ _ (Proc.devRef .tc main_arg33) (devRef_ne_of_ne (by decide)) (devRef_ne_of_ne (by decide)) (devRef_ne_of_ne (by decide)),
    scAfter_of_ne _ _ _ _ _ (Proc.devRef .tc main_arg25) (devRef_ne_of_ne (by decide)) (devRef_ne_of_ne (by decide)) (devRef_ne_of_ne (by decide)),
    scAfter_of_ne _ _ _ _ _ (Proc.devRef .tc main_arg26) (devRef_ne_of_ne (by decide)) (devRef_ne_of_ne (by decide)) (devRef_ne_of_ne (by decide)),
    scAfter_of_ne _ _ _ _ _ (Proc.devRef .tc main_arg32) (devRef_ne_of_ne (by decide)) (devRef_ne_of_ne (by decide)) (devRef_ne_of_ne (by decide)),
    scAfter_of_ne _ _ _ _ _ (Proc.devRef .tc main_arg27) (devRef_ne_of_ne (by decide)) (devRef_ne_of_ne (by decide)) (devRef_ne_of_ne (by decide)),
    scAfter_of_ne _ _ _ _ _ (Proc.devRef .tc main_arg31) (devRef_ne_of_ne (by decide)) (devRef_ne_of_ne (by decide)) (devRef_ne_of_ne (by decide)),
    scAfter_of_ne _ _ _ _ _ (Proc.devRef .tc main_arg29) (devRef_ne_of_ne (by decide)) (devRef_ne_of_ne (by decide)) (devRef_ne_of_ne (by decide)),
    scAfter_of_ne _ _ _ _ _ (Proc.devRef .tc main_arg30) (devRef_ne_of_ne (by decide)) (devRef_ne_of_ne (by decide)) (devRef_ne_of_ne (by decide)),
    scAfter_of_ne _ _ _ _ _ (Proc.devRef .tc main_arg34) (devRef_ne_of_ne (by decide)) (devRef_ne_of_ne (by decide)) (devRef_ne_of_ne (by decide))]
  rw [hGu, hGm, hGc]
  unfold VA
  rw [opsA_main_v6, opsA_main_v7, opsA_main_v35, stK_v6, stK_v7, hCombo]
  rw [after_opsA_keep _ main_arg5 (by decide), after_opsA_keep _ main_arg6 (by decide), after_opsA_keep _ main_arg7 (by decide), after_opsA_keep _ main_arg15 (by decide), after_opsA_keep _ main_arg13 (by decide), after_opsA_keep _ main_arg14 (by decide), after_opsA_keep _ main_arg16 (by decide), after_opsA_keep _ main_arg17 (by decide), after_opsA_keep _ main_arg21 (by decide), after_opsA_keep _ main_arg19 (by decide), after_opsA_keep _ main_arg20 (by decide), after_opsA_keep _ main_arg22 (by decide), after_opsA_keep _ main_arg23 (by decide), after_opsA_keep _ main_arg33 (by decide), after_opsA_keep _ main_arg25 (by decide), after_opsA_keep _ main_arg26 (by decide), after_opsA_keep _ main_arg32 (by decide), after_opsA_keep _ main_arg27 (by decide), after_opsA_keep _ main_arg31 (by decide), after_opsA_keep _ main_arg29 (by decide), after_opsA_keep _ main_arg30 (by decide), after_opsA_keep _ main_arg34 (by decide)]
  simp only [Cert.Spec.r4Out, Cert.Spec.r3Y3, Cert.Spec.r3Lo, Cert.Spec.r3S, Cert.Spec.r3Q, Cert.Spec.r3H2, Cert.Spec.r2H1,
    Cert.Spec.r2Y2, Cert.Spec.r2S, Cert.Spec.r2Q, Cert.Spec.r1X, Cert.Spec.r1S, Cert.Spec.r1Q, Cert.Spec.bnScale, Cert.Spec.bnShift,
    Cert.Spec.row1_asRow, Cert.Spec.col1_asCol]
  rfl

end Cert.Proof.KernelIdealSc

end
-- ==== Proof.KerStagesB2.lean ====
/-
  The kernel's host lines read at an index: what each buffer a later call reads holds, as the specification's host
  function of the argument arrays. A reshape keeps the row-major position; a vector as a column or a row reads the
  vector; the two big tables side by side and the index list are concatenations read piece by piece; a padded array reads
  its operand inside the padding and the padding word outside; the permuted weights are nine row ranges of the weights
  laid end to end. At the ideal values a change of float format is the identity.
-/
import proofs.«214388_g48842368090541_cont_8to1c4_19_37_alg».proof.Proof.KerChainB
import proofs.«214388_g48842368090541_cont_8to1c4_19_37_alg».proof.Proof.KerRegionSpec
import proofs.«214388_g48842368090541_cont_8to1c4_19_37_alg».proof.Proof.RefOps
import proofs.«214388_g48842368090541_cont_8to1c4_19_37_alg».proof.Proof.KSpec
import Idealize.ShloMosaic.Lib.ValueLayout
import Idealize.ShloMosaic.Lib.KernelVsHost

noncomputable section

open scoped BigOperators

namespace Cert.KernelIdeal.KerValue

open Cert.KernelIdeal Cert.KernelIdeal.Gen Cert.KernelIdeal.MainShape Idealize.ShloMosaic Idealize.ShloMosaic.TcCoe Idealize.SL.Sem Idealize.ShloMosaic.StableHlo
open Idealize.ShloMosaic.ValueIdx

variable {F : FTy → Type} [FloatOps F]

/-! ## A rank-2 array padded along its lanes, at an index -/

/-- `[R, Wd]` padded to `[R, T]` with `lo` lanes before and `hi` after: the operand at lane `c - lo` inside the
    operand's span, the padding word outside. -/
theorem pad_lanes_apply {α : Type} {R Wd T : Nat} (lo hi : Nat) (x : (⟨2, ![R, Wd]⟩ : Shape).Idx → α)
    (v : (⟨0, ![]⟩ : Shape).Idx → α)
    (h : (⟨2, ![R, Wd]⟩ : Shape).Pads ![0, lo] ![0, hi] ![0, 0] ⟨2, ![R, T]⟩) (hu : 0 < (⟨0, ![]⟩ : Shape).numel)
    (i : (⟨2, ![R, T]⟩ : Shape).Idx) :
    pad ⟨2, ![R, T]⟩ ![0, lo] ![0, hi] ![0, 0] x v h hu i
      = if hc : lo ≤ (i 1).val ∧ (i 1).val < lo + Wd then x (ix2 (i 0) (⟨(i 1).val - lo, by omega⟩ : Fin Wd)) else v ix0 := by
  by_cases hc : lo ≤ (i 1).val ∧ (i 1).val < lo + Wd
  · rw [dif_pos hc]
    exact pad_apply_of_inside (s := ⟨2, ![R, Wd]⟩) (t := ⟨2, ![R, T]⟩) ![0, lo] ![0, hi] ![0, 0] x v h hu i
      (ix2 (i 0) (⟨(i 1).val - lo, by omega⟩ : Fin Wd)) (fun a => match a with
        | ⟨0, _⟩ => (show (i 0).val = 0 + (i 0).val * (0 + 1) by omega)
        | ⟨1, _⟩ => (show (i 1).val = lo + ((i 1).val - lo) * (0 + 1) by omega))
  · rw [dif_neg hc]
    rw [pad_apply_of_not_inside (s := ⟨2, ![R, Wd]⟩) (t := ⟨2, ![R, T]⟩) ![0, lo] ![0, hi] ![0, 0] x v h hu i (1 : Fin 2) (by
      show ¬(lo ≤ (i 1).val ∧ ((i 1).val - lo) % (0 + 1) = 0 ∧ ((i 1).val - lo) / (0 + 1) < Wd)
      intro hh
      exact hc ⟨hh.1, by have := hh.2.2; rw [Nat.zero_add, Nat.div_one] at this; omega⟩)]
    exact congrArg v (funext fun a => a.elim0)

/-- The padding word of the three padded weight arrays is zero. -/
theorem padWord_eq : (sitofp .f32 (constantI S_ 32 0#32) : FVec Ideal S_ .f32) ix0 = Cert.Spec.zero := by
  show (((0#32 : BitVec 32).toInt : ℝ) : EReal) = Cert.Spec.zero
  rw [Cert.Spec.zero_eq]
  norm_num

/-- `v58`: the genre weights at lanes 32–63 of 128. -/
theorem stK_v58 (V : Valuation τ sig (Elt Ideal)) : kx_main_v58 V = Cert.Spec.kGWw (V (Proc.devRef .tc main_arg13)) := by
  funext i
  have hi := idx2_lt1 i
  unfold kx_main_v58 kx_main_call8_v0 kx_main_c_15
  show pad (s := ⟨2, ![19, 32]⟩) (⟨2, ![19, 128]⟩ : Shape) ![0, 32] ![0, 64] ![0, 0] _ _ _ _ i = _
  rw [pad_lanes_apply]
  unfold Cert.Spec.kGWw
  by_cases h : 32 ≤ (i 1).val ∧ (i 1).val < 64
  · rw [dif_pos h, dif_pos (by omega)]
  · rw [dif_neg h, dif_neg (by omega)]
    exact padWord_eq

/-- `v60`: the genre bias at lanes 32–63 of a one-row 128-wide array. -/
theorem stK_v60 (V : Valuation τ sig (Elt Ideal)) : kx_main_v60 V = Cert.Spec.kGbw (V (Proc.devRef .tc main_arg14)) := by
  funext i
  have hi := idx2_lt1 i
  unfold kx_main_v60 kx_main_call9_v0 kx_main_c_16 kx_main_v59
  show pad (s := ⟨2, ![1, 32]⟩) (⟨2, ![1, 128]⟩ : Shape) ![0, 32] ![0, 64] ![0, 0] _ _ _ _ i = _
  rw [pad_lanes_apply]
  unfold Cert.Spec.kGbw
  by_cases h : 32 ≤ (i 1).val ∧ (i 1).val < 64
  · rw [dif_pos h, dif_pos (by omega)]
    exact Cert.Spec.bcast_row_apply _ _ _
  · rw [dif_neg h, dif_neg (by omega)]
    exact padWord_eq

/-- `v62`: the cross bias at lanes 64–95 of a one-row 128-wide array. -/
theorem stK_v62 (V : Valuation τ sig (Elt Ideal)) : kx_main_v62 V = Cert.Spec.kUgbw (V (Proc.devRef .tc main_arg16)) := by
  funext i
  have hi := idx2_lt1 i
  unfold kx_main_v62 kx_main_call10_v0 kx_main_c_17 kx_main_v61
  show pad (s := ⟨2, ![1, 32]⟩) (⟨2, ![1, 128]⟩ : Shape) ![0, 64] ![0, 32] ![0, 0] _ _ _ _ i = _
  rw [pad_lanes_apply]
  unfold Cert.Spec.kUgbw
  by_cases h : 64 ≤ (i 1).val ∧ (i 1).val < 96
  · rw [dif_pos h, dif_pos (by omega)]
    exact Cert.Spec.bcast_row_apply _ _ _
  · rw [dif_neg h, dif_neg (by omega)]
    exact padWord_eq

/-! ## The permuted weights -/

set_option maxRecDepth 8192 in
/-- `v73`: argument 17's rows permuted to the 256-wide feature row's order (the change of float format is the
    identity at the ideal values): nine row ranges laid end to end. -/
theorem stK_v73 (V : Valuation τ sig (Elt Ideal)) : kx_main_v73 V = Cert.Spec.kPermW (V (Proc.devRef .tc main_arg17)) := by
  funext i
  have hi := idx2_lt0 i
  unfold kx_main_v73
  show kx_main_v72 V i = _
  unfold kx_main_v72
  unfold Cert.Spec.kPermW
  by_cases c0 : (i 0).val < 64
  · refine (concatenate_apply_piece (t := ⟨2, ![256, 1024]⟩) (0 : Fin 2) [⟨(⟨2, ![64, 1024]⟩ : Shape), kx_main_v63 V⟩, ⟨(⟨2, ![64, 1024]⟩ : Shape), kx_main_v64 V⟩, ⟨(⟨2, ![32, 1024]⟩ : Shape), kx_main_v65 V⟩, ⟨(⟨2, ![32, 1024]⟩ : Shape), kx_main_v66 V⟩, ⟨(⟨2, ![32, 1024]⟩ : Shape), kx_main_v67 V⟩, ⟨(⟨2, ![1, 1024]⟩ : Shape), kx_main_v68 V⟩, ⟨(⟨2, ![1, 1024]⟩ : Shape), kx_main_v69 V⟩, ⟨(⟨2, ![1, 1024]⟩ : Shape), kx_main_v70 V⟩, ⟨(⟨2, ![29, 1024]⟩ : Shape), kx_main_v71 V⟩] _ i 0 (show 0 < 9 by omega)
        (⟨2, ![64, 1024]⟩ : Shape) (kx_main_v63 V) rfl rfl 0 rfl (ix2 (⟨(i 0).val - 0, by omega⟩ : Fin 64) (i 1))
        (fun b hb => match b, hb with | ⟨0, _⟩, hb => absurd (Fin.ext rfl) hb | ⟨1, _⟩, _ => rfl) (by show 0 + ((i 0).val - 0) = (i 0).val; omega)).trans ?_
    rw [dif_pos (show (i 0).val < 64 by omega)]
    unfold kx_main_v63
    exact extractStridedSlice_apply (s := ⟨2, ![226, 1024]⟩) (t := (⟨2, ![64, 1024]⟩ : Shape)) ![0, 0] _ _ _ _ (fun a => match a with
      | ⟨0, _⟩ => (show ((i 0).val : Nat) = 0 + ((i 0).val - 0) by omega)
      | ⟨1, _⟩ => (show (i 1).val = 0 + (i 1).val by omega))
  · skip
    by_cases c1 : (i 0).val < 128
    · refine (concatenate_apply_piece (t := ⟨2, ![256, 1024]⟩) (0 : Fin 2) [⟨(⟨2, ![64, 1024]⟩ : Shape), kx_main_v63 V⟩, ⟨(⟨2, ![64, 1024]⟩ : Shape), kx_main_v64 V⟩, ⟨(⟨2, ![32, 1024]⟩ : Shape), kx_main_v65 V⟩, ⟨(⟨2, ![32, 1024]⟩ : Shape), kx_main_v66 V⟩, ⟨(⟨2, ![32, 1024]⟩ : Shape), kx_main_v67 V⟩, ⟨(⟨2, ![1, 1024]⟩ : Shape), kx_main_v68 V⟩, ⟨(⟨2, ![1, 1024]⟩ : Shape), kx_main_v69 V⟩, ⟨(⟨2, ![1, 1024]⟩ : Shape), kx_main_v70 V⟩, ⟨(⟨2, ![29, 1024]⟩ : Shape), kx_main_v71 V⟩] _ i 1 (show 1 < 9 by omega)
          (⟨2, ![64, 1024]⟩ : Shape) (kx_main_v64 V) rfl rfl 64 rfl (ix2 (⟨(i 0).val - 64, by omega⟩ : Fin 64) (i 1))
          (fun b hb => match b, hb with | ⟨0, _⟩, hb => absurd (Fin.ext rfl) hb | ⟨1, _⟩, _ => rfl) (by show 64 + ((i 0).val - 64) = (i 0).val; omega)).trans ?_
      rw [dif_neg (show ¬(i 0).val < 64 by omega), dif_pos (show (i 0).val < 128 by omega)]
      unfold kx_main_v64
      exact extractStridedSlice_apply (s := ⟨2, ![226, 1024]⟩) (t := (⟨2, ![64, 1024]⟩ : Shape)) ![96, 0] _ _ _ _ (fun a => match a with
        | ⟨0, _⟩ => (show ((i 0).val + 32 : Nat) = 96 + ((i 0).val - 64) by omega)
        | ⟨1, _⟩ => (show (i 1).val = 0 + (i 1).val by omega))
    · skip
      by_cases c2 : (i 0).val < 160
      · refine (concatenate_apply_piece (t := ⟨2, ![256, 1024]⟩) (0 : Fin 2) [⟨(⟨2, ![64, 1024]⟩ : Shape), kx_main_v63 V⟩, ⟨(⟨2, ![64, 1024]⟩ : Shape), kx_main_v64 V⟩, ⟨(⟨2, ![32, 1024]⟩ : Shape), kx_main_v65 V⟩, ⟨(⟨2, ![32, 1024]⟩ : Shape), kx_main_v66 V⟩, ⟨(⟨2, ![32, 1024]⟩ : Shape), kx_main_v67 V⟩, ⟨(⟨2, ![1, 1024]⟩ : Shape), kx_main_v68 V⟩, ⟨(⟨2, ![1, 1024]⟩ : Shape), kx_main_v69 V⟩, ⟨(⟨2, ![1, 1024]⟩ : Shape), kx_main_v70 V⟩, ⟨(⟨2, ![29, 1024]⟩ : Shape), kx_main_v71 V⟩] _ i 2 (show 2 < 9 by omega)
            (⟨2, ![32, 1024]⟩ : Shape) (kx_main_v65 V) rfl rfl 128 rfl (ix2 (⟨(i 0).val - 128, by omega⟩ : Fin 32) (i 1))
            (fun b hb => match b, hb with | ⟨0, _⟩, hb => absurd (Fin.ext rfl) hb | ⟨1, _⟩, _ => rfl) (by show 128 + ((i 0).val - 128) = (i 0).val; omega)).trans ?_
        rw [dif_neg (show ¬(i 0).val < 64 by omega), dif_neg (show ¬(i 0).val < 128 by omega), dif_pos (show (i 0).val < 160 by omega)]
        unfold kx_main_v65
        exact extractStridedSlice_apply (s := ⟨2, ![226, 1024]⟩) (t := (⟨2, ![32, 1024]⟩ : Shape)) ![64, 0] _ _ _ _ (fun a => match a with
          | ⟨0, _⟩ => (show ((i 0).val - 64 : Nat) = 64 + ((i 0).val - 128) by omega)
          | ⟨1, _⟩ => (show (i 1).val = 0 + (i 1).val by omega))
      · skip
        by_cases c3 : (i 0).val < 192
        · refine (concatenate_apply_piece (t := ⟨2, ![256, 1024]⟩) (0 : Fin 2) [⟨(⟨2, ![64, 1024]⟩ : Shape), kx_main_v63 V⟩, ⟨(⟨2, ![64, 1024]⟩ : Shape), kx_main_v64 V⟩, ⟨(⟨2, ![32, 1024]⟩ : Shape), kx_main_v65 V⟩, ⟨(⟨2, ![32, 1024]⟩ : Shape), kx_main_v66 V⟩, ⟨(⟨2, ![32, 1024]⟩ : Shape), kx_main_v67 V⟩, ⟨(⟨2, ![1, 1024]⟩ : Shape), kx_main_v68 V⟩, ⟨(⟨2, ![1, 1024]⟩ : Shape), kx_main_v69 V⟩, ⟨(⟨2, ![1, 1024]⟩ : Shape), kx_main_v70 V⟩, ⟨(⟨2, ![29, 1024]⟩ : Shape), kx_main_v71 V⟩] _ i 3 (show 3 < 9 by omega)
              (⟨2, ![32, 1024]⟩ : Shape) (kx_main_v66 V) rfl rfl 160 rfl (ix2 (⟨(i 0).val - 160, by omega⟩ : Fin 32) (i 1))
              (fun b hb => match b, hb with | ⟨0, _⟩, hb => absurd (Fin.ext rfl) hb | ⟨1, _⟩, _ => rfl) (by show 160 + ((i 0).val - 160) = (i 0).val; omega)).trans ?_
          rw [dif_neg (show ¬(i 0).val < 64 by omega), dif_neg (show ¬(i 0).val < 128 by omega), dif_neg (show ¬(i 0).val < 160 by omega), dif_pos (show (i 0).val < 192 by omega)]
          unfold kx_main_v66
          exact extractStridedSlice_apply (s := ⟨2, ![226, 1024]⟩) (t := (⟨2, ![32, 1024]⟩ : Shape)) ![160, 0] _ _ _ _ (fun a => match a with
            | ⟨0, _⟩ => (show ((i 0).val : Nat) = 160 + ((i 0).val - 160) by omega)
            | ⟨1, _⟩ => (show (i 1).val = 0 + (i 1).val by omega))
        · skip
          by_cases c4 : (i 0).val < 224
          · refine (concatenate_apply_piece (t := ⟨2, ![256, 1024]⟩) (0 : Fin 2) [⟨(⟨2, ![64, 1024]⟩ : Shape), kx_main_v63 V⟩, ⟨(⟨2, ![64, 1024]⟩ : Shape), kx_main_v64 V⟩, ⟨(⟨2, ![32, 1024]⟩ : Shape), kx_main_v65 V⟩, ⟨(⟨2, ![32, 1024]⟩ : Shape), kx_main_v66 V⟩, ⟨(⟨2, ![32, 1024]⟩ : Shape), kx_main_v67 V⟩, ⟨(⟨2, ![1, 1024]⟩ : Shape), kx_main_v68 V⟩, ⟨(⟨2, ![1, 1024]⟩ : Shape), kx_main_v69 V⟩, ⟨(⟨2, ![1, 1024]⟩ : Shape), kx_main_v70 V⟩, ⟨(⟨2, ![29, 1024]⟩ : Shape), kx_main_v71 V⟩] _ i 4 (show 4 < 9 by omega)
                (⟨2, ![32, 1024]⟩ : Shape) (kx_main_v67 V) rfl rfl 192 rfl (ix2 (⟨(i 0).val - 192, by omega⟩ : Fin 32) (i 1))
                (fun b hb => match b, hb with | ⟨0, _⟩, hb => absurd (Fin.ext rfl) hb | ⟨1, _⟩, _ => rfl) (by show 192 + ((i 0).val - 192) = (i 0).val; omega)).trans ?_
            rw [dif_neg (show ¬(i 0).val < 64 by omega), dif_neg (show ¬(i 0).val < 128 by omega), dif_neg (show ¬(i 0).val < 160 by omega), dif_neg (show ¬(i 0).val < 192 by omega), dif_pos (show (i 0).val < 224 by omega)]
            unfold kx_main_v67
            exact extractStridedSlice_apply (s := ⟨2, ![226, 1024]⟩) (t := (⟨2, ![32, 1024]⟩ : Shape)) ![194, 0] _ _ _ _ (fun a => match a with
              | ⟨0, _⟩ => (show ((i 0).val + 2 : Nat) = 194 + ((i 0).val - 192) by omega)
              | ⟨1, _⟩ => (show (i 1).val = 0 + (i 1).val by omega))
          · skip
            by_cases c5 : (i 0).val < 225
            · refine (concatenate_apply_piece (t := ⟨2, ![256, 1024]⟩) (0 : Fin 2) [⟨(⟨2, ![64, 1024]⟩ : Shape), kx_main_v63 V⟩, ⟨(⟨2, ![64, 1024]⟩ : Shape), kx_main_v64 V⟩, ⟨(⟨2, ![32, 1024]⟩ : Shape), kx_main_v65 V⟩, ⟨(⟨2, ![32, 1024]⟩ : Shape), kx_main_v66 V⟩, ⟨(⟨2, ![32, 1024]⟩ : Shape), kx_main_v67 V⟩, ⟨(⟨2, ![1, 1024]⟩ : Shape), kx_main_v68 V⟩, ⟨(⟨2, ![1, 1024]⟩ : Shape), kx_main_v69 V⟩, ⟨(⟨2, ![1, 1024]⟩ : Shape), kx_main_v70 V⟩, ⟨(⟨2, ![29, 1024]⟩ : Shape), kx_main_v71 V⟩] _ i 5 (show 5 < 9 by omega)
                  (⟨2, ![1, 1024]⟩ : Shape) (kx_main_v68 V) rfl rfl 224 rfl (ix2 (⟨(i 0).val - 224, by omega⟩ : Fin 1) (i 1))
                  (fun b hb => match b, hb with | ⟨0, _⟩, hb => absurd (Fin.ext rfl) hb | ⟨1, _⟩, _ => rfl) (by show 224 + ((i 0).val - 224) = (i 0).val; omega)).trans ?_
              rw [dif_neg (show ¬(i 0).val < 64 by omega), dif_neg (show ¬(i 0).val < 128 by omega), dif_neg (show ¬(i 0).val < 160 by omega), dif_neg (show ¬(i 0).val < 192 by omega), dif_neg (show ¬(i 0).val < 224 by omega), dif_pos (show (i 0).val < 226 by omega)]
              unfold kx_main_v68
              exact extractStridedSlice_apply (s := ⟨2, ![226, 1024]⟩) (t := (⟨2, ![1, 1024]⟩ : Shape)) ![192, 0] _ _ _ _ (fun a => match a with
                | ⟨0, _⟩ => (show (192 : Nat) = 192 + ((i 0).val - 224) by omega)
                | ⟨1, _⟩ => (show (i 1).val = 0 + (i 1).val by omega))
            · skip
              by_cases c6 : (i 0).val < 226
              · refine (concatenate_apply_piece (t := ⟨2, ![256, 1024]⟩) (0 : Fin 2) [⟨(⟨2, ![64, 1024]⟩ : Shape), kx_main_v63 V⟩, ⟨(⟨2, ![64, 1024]⟩ : Shape), kx_main_v64 V⟩, ⟨(⟨2, ![32, 1024]⟩ : Shape), kx_main_v65 V⟩, ⟨(⟨2, ![32, 1024]⟩ : Shape), kx_main_v66 V⟩, ⟨(⟨2, ![32, 1024]⟩ : Shape), kx_main_v67 V⟩, ⟨(⟨2, ![1, 1024]⟩ : Shape), kx_main_v68 V⟩, ⟨(⟨2, ![1, 1024]⟩ : Shape), kx_main_v69 V⟩, ⟨(⟨2, ![1, 1024]⟩ : Shape), kx_main_v70 V⟩, ⟨(⟨2, ![29, 1024]⟩ : Shape), kx_main_v71 V⟩] _ i 6 (show 6 < 9 by omega)
                    (⟨2, ![1, 1024]⟩ : Shape) (kx_main_v69 V) rfl rfl 225 rfl (ix2 (⟨(i 0).val - 225, by omega⟩ : Fin 1) (i 1))
                    (fun b hb => match b, hb with | ⟨0, _⟩, hb => absurd (Fin.ext rfl) hb | ⟨1, _⟩, _ => rfl) (by show 225 + ((i 0).val - 225) = (i 0).val; omega)).trans ?_
                rw [dif_neg (show ¬(i 0).val < 64 by omega), dif_neg (show ¬(i 0).val < 128 by omega), dif_neg (show ¬(i 0).val < 160 by omega), dif_neg (show ¬(i 0).val < 192 by omega), dif_neg (show ¬(i 0).val < 224 by omega), dif_pos (show (i 0).val < 226 by omega)]
                unfold kx_main_v69
                exact extractStridedSlice_apply (s := ⟨2, ![226, 1024]⟩) (t := (⟨2, ![1, 1024]⟩ : Shape)) ![192, 0] _ _ _ _ (fun a => match a with
                  | ⟨0, _⟩ => (show (192 : Nat) = 192 + ((i 0).val - 225) by omega)
                  | ⟨1, _⟩ => (show (i 1).val = 0 + (i 1).val by omega))
              · skip
                by_cases c7 : (i 0).val < 227
                · refine (concatenate_apply_piece (t := ⟨2, ![256, 1024]⟩) (0 : Fin 2) [⟨(⟨2, ![64, 1024]⟩ : Shape), kx_main_v63 V⟩, ⟨(⟨2, ![64, 1024]⟩ : Shape), kx_main_v64 V⟩, ⟨(⟨2, ![32, 1024]⟩ : Shape), kx_main_v65 V⟩, ⟨(⟨2, ![32, 1024]⟩ : Shape), kx_main_v66 V⟩, ⟨(⟨2, ![32, 1024]⟩ : Shape), kx_main_v67 V⟩, ⟨(⟨2, ![1, 1024]⟩ : Shape), kx_main_v68 V⟩, ⟨(⟨2, ![1, 1024]⟩ : Shape), kx_main_v69 V⟩, ⟨(⟨2, ![1, 1024]⟩ : Shape), kx_main_v70 V⟩, ⟨(⟨2, ![29, 1024]⟩ : Shape), kx_main_v71 V⟩] _ i 7 (show 7 < 9 by omega)
                      (⟨2, ![1, 1024]⟩ : Shape) (kx_main_v70 V) rfl rfl 226 rfl (ix2 (⟨(i 0).val - 226, by omega⟩ : Fin 1) (i 1))
                      (fun b hb => match b, hb with | ⟨0, _⟩, hb => absurd (Fin.ext rfl) hb | ⟨1, _⟩, _ => rfl) (by show 226 + ((i 0).val - 226) = (i 0).val; omega)).trans ?_
                  rw [dif_neg (show ¬(i 0).val < 64 by omega), dif_neg (show ¬(i 0).val < 128 by omega), dif_neg (show ¬(i 0).val < 160 by omega), dif_neg (show ¬(i 0).val < 192 by omega), dif_neg (show ¬(i 0).val < 224 by omega), dif_neg (show ¬(i 0).val < 226 by omega), dif_pos (show (i 0).val < 227 by omega)]
                  unfold kx_main_v70
                  exact extractStridedSlice_apply (s := ⟨2, ![226, 1024]⟩) (t := (⟨2, ![1, 1024]⟩ : Shape)) ![193, 0] _ _ _ _ (fun a => match a with
                    | ⟨0, _⟩ => (show (193 : Nat) = 193 + ((i 0).val - 226) by omega)
                    | ⟨1, _⟩ => (show (i 1).val = 0 + (i 1).val by omega))
                · skip
                  refine (concatenate_apply_piece (t := ⟨2, ![256, 1024]⟩) (0 : Fin 2) [⟨(⟨2, ![64, 1024]⟩ : Shape), kx_main_v63 V⟩, ⟨(⟨2, ![64, 1024]⟩ : Shape), kx_main_v64 V⟩, ⟨(⟨2, ![32, 1024]⟩ : Shape), kx_main_v65 V⟩, ⟨(⟨2, ![32, 1024]⟩ : Shape), kx_main_v66 V⟩, ⟨(⟨2, ![32, 1024]⟩ : Shape), kx_main_v67 V⟩, ⟨(⟨2, ![1, 1024]⟩ : Shape), kx_main_v68 V⟩, ⟨(⟨2, ![1, 1024]⟩ : Shape), kx_main_v69 V⟩, ⟨(⟨2, ![1, 1024]⟩ : Shape), kx_main_v70 V⟩, ⟨(⟨2, ![29, 1024]⟩ : Shape), kx_main_v71 V⟩] _ i 8 (show 8 < 9 by omega)
                      (⟨2, ![29, 1024]⟩ : Shape) (kx_main_v71 V) rfl rfl 227 rfl (ix2 (⟨(i 0).val - 227, by omega⟩ : Fin 29) (i 1))
                      (fun b hb => match b, hb with | ⟨0, _⟩, hb => absurd (Fin.ext rfl) hb | ⟨1, _⟩, _ => rfl) (by show 227 + ((i 0).val - 227) = (i 0).val; omega)).trans ?_
                  rw [dif_neg (show ¬(i 0).val < 64 by omega), dif_neg (show ¬(i 0).val < 128 by omega), dif_neg (show ¬(i 0).val < 160 by omega), dif_neg (show ¬(i 0).val < 192 by omega), dif_neg (show ¬(i 0).val < 224 by omega), dif_neg (show ¬(i 0).val < 226 by omega), dif_neg (show ¬(i 0).val < 227 by omega)]
                  unfold kx_main_v71 kx_main_cst_18
                  rfl

set_option maxRecDepth 8192 in
/-- `v84`: argument 21's rows permuted to the 256-wide feature row's order (the change of float format is the
    identity at the ideal values): nine row ranges laid end to end. -/
theorem stK_v84 (V : Valuation τ sig (Elt Ideal)) : kx_main_v84 V = Cert.Spec.kPermW (V (Proc.devRef .tc main_arg21)) := by
  funext i
  have hi := idx2_lt0 i
  unfold kx_main_v84
  show kx_main_v83 V i = _
  unfold kx_main_v83
  unfold Cert.Spec.kPermW
  by_cases c0 : (i 0).val < 64
  · refine (concatenate_apply_piece (t := ⟨2, ![256, 1024]⟩) (0 : Fin 2) [⟨(⟨2, ![64, 1024]⟩ : Shape), kx_main_v74 V⟩, ⟨(⟨2, ![64, 1024]⟩ : Shape), kx_main_v75 V⟩, ⟨(⟨2, ![32, 1024]⟩ : Shape), kx_main_v76 V⟩, ⟨(⟨2, ![32, 1024]⟩ : Shape), kx_main_v77 V⟩, ⟨(⟨2, ![32, 1024]⟩ : Shape), kx_main_v78 V⟩, ⟨(⟨2, ![1, 1024]⟩ : Shape), kx_main_v79 V⟩, ⟨(⟨2, ![1, 1024]⟩ : Shape), kx_main_v80 V⟩, ⟨(⟨2, ![1, 1024]⟩ : Shape), kx_main_v81 V⟩, ⟨(⟨2, ![29, 1024]⟩ : Shape), kx_main_v82 V⟩] _ i 0 (show 0 < 9 by omega)
        (⟨2, ![64, 1024]⟩ : Shape) (kx_main_v74 V) rfl rfl 0 rfl (ix2 (⟨(i 0).val - 0, by omega⟩ : Fin 64) (i 1))
        (fun b hb => match b, hb with | ⟨0, _⟩, hb => absurd (Fin.ext rfl) hb | ⟨1, _⟩, _ => rfl) (by show 0 + ((i 0).val - 0) = (i 0).val; omega)).trans ?_
    rw [dif_pos (show (i 0).val < 64 by omega)]
    unfold kx_main_v74
    exact extractStridedSlice_apply (s := ⟨2, ![226, 1024]⟩) (t := (⟨2, ![64, 1024]⟩ : Shape)) ![0, 0] _ _ _ _ (fun a => match a with
      | ⟨0, _⟩ => (show ((i 0).val : Nat) = 0 + ((i 0).val - 0) by omega)
      | ⟨1, _⟩ => (show (i 1).val = 0 + (i 1).val by omega))
  · skip
    by_cases c1 : (i 0).val < 128
    · refine (concatenate_apply_piece (t := ⟨2, ![256, 1024]⟩) (0 : Fin 2) [⟨(⟨2, ![64, 1024]⟩ : Shape), kx_main_v74 V⟩, ⟨(⟨2, ![64, 1024]⟩ : Shape), kx_main_v75 V⟩, ⟨(⟨2, ![32, 1024]⟩ : Shape), kx_main_v76 V⟩, ⟨(⟨2, ![32, 1024]⟩ : Shape), kx_main_v77 V⟩, ⟨(⟨2, ![32, 1024]⟩ : Shape), kx_main_v78 V⟩, ⟨(⟨2, ![1, 1024]⟩ : Shape), kx_main_v79 V⟩, ⟨(⟨2, ![1, 1024]⟩ : Shape), kx_main_v80 V⟩, ⟨(⟨2, ![1, 1024]⟩ : Shape), kx_main_v81 V⟩, ⟨(⟨2, ![29, 1024]⟩ : Shape), kx_main_v82 V⟩] _ i 1 (show 1 < 9 by omega)
          (⟨2, ![64, 1024]⟩ : Shape) (kx_main_v75 V) rfl rfl 64 rfl (ix2 (⟨(i 0).val - 64, by omega⟩ : Fin 64) (i 1))
          (fun b hb => match b, hb with | ⟨0, _⟩, hb => absurd (Fin.ext rfl) hb | ⟨1, _⟩, _ => rfl) (by show 64 + ((i 0).val - 64) = (i 0).val; omega)).trans ?_
      rw [dif_neg (show ¬(i 0).val < 64 by omega), dif_pos (show (i 0).val < 128 by omega)]
      unfold kx_main_v75
      exact extractStridedSlice_apply (s := ⟨2, ![226, 1024]⟩) (t := (⟨2, ![64, 1024]⟩ : Shape)) ![96, 0] _ _ _ _ (fun a => match a with
        | ⟨0, _⟩ => (show ((i 0).val + 32 : Nat) = 96 + ((i 0).val - 64) by omega)
        | ⟨1, _⟩ => (show (i 1).val = 0 + (i 1).val by omega))
    · skip
      by_cases c2 : (i 0).val < 160
      · refine (concatenate_apply_piece (t := ⟨2, ![256, 1024]⟩) (0 : Fin 2) [⟨(⟨2, ![64, 1024]⟩ : Shape), kx_main_v74 V⟩, ⟨(⟨2, ![64, 1024]⟩ : Shape), kx_main_v75 V⟩, ⟨(⟨2, ![32, 1024]⟩ : Shape), kx_main_v76 V⟩, ⟨(⟨2, ![32, 1024]⟩ : Shape), kx_main_v77 V⟩, ⟨(⟨2, ![32, 1024]⟩ : Shape), kx_main_v78 V⟩, ⟨(⟨2, ![1, 1024]⟩ : Shape), kx_main_v79 V⟩, ⟨(⟨2, ![1, 1024]⟩ : Shape), kx_main_v80 V⟩, ⟨(⟨2, ![1, 1024]⟩ : Shape), kx_main_v81 V⟩, ⟨(⟨2, ![29, 1024]⟩ : Shape), kx_main_v82 V⟩] _ i 2 (show 2 < 9 by omega)
            (⟨2, ![32, 1024]⟩ : Shape) (kx_main_v76 V) rfl rfl 128 rfl (ix2 (⟨(i 0).val - 128, by omega⟩ : Fin 32) (i 1))
            (fun b hb => match b, hb with | ⟨0, _⟩, hb => absurd (Fin.ext rfl) hb | ⟨1, _⟩, _ => rfl) (by show 128 + ((i 0).val - 128) = (i 0).val; omega)).trans ?_
        rw [dif_neg (show ¬(i 0).val < 64 by omega), dif_neg (show ¬(i 0).val < 128 by omega), dif_pos (show (i 0).val < 160 by omega)]
        unfold kx_main_v76
        exact extractStridedSlice_apply (s := ⟨2, ![226, 1024]⟩) (t := (⟨2, ![32, 1024]⟩ : Shape)) ![64, 0] _ _ _ _ (fun a => match a with
          | ⟨0, _⟩ => (show ((i 0).val - 64 : Nat) = 64 + ((i 0).val - 128) by omega)
          | ⟨1, _⟩ => (show (i 1).val = 0 + (i 1).val by omega))
      · skip
        by_cases c3 : (i 0).val < 192
        · refine (concatenate_apply_piece (t := ⟨2, ![256, 1024]⟩) (0 : Fin 2) [⟨(⟨2, ![64, 1024]⟩ : Shape), kx_main_v74 V⟩, ⟨(⟨2, ![64, 1024]⟩ : Shape), kx_main_v75 V⟩, ⟨(⟨2, ![32, 1024]⟩ : Shape), kx_main_v76 V⟩, ⟨(⟨2, ![32, 1024]⟩ : Shape), kx_main_v77 V⟩, ⟨(⟨2, ![32, 1024]⟩ : Shape), kx_main_v78 V⟩, ⟨(⟨2, ![1, 1024]⟩ : Shape), kx_main_v79 V⟩, ⟨(⟨2, ![1, 1024]⟩ : Shape), kx_main_v80 V⟩, ⟨(⟨2, ![1, 1024]⟩ : Shape), kx_main_v81 V⟩, ⟨(⟨2, ![29, 1024]⟩ : Shape), kx_main_v82 V⟩] _ i 3 (show 3 < 9 by omega)
              (⟨2, ![32, 1024]⟩ : Shape) (kx_main_v77 V) rfl rfl 160 rfl (ix2 (⟨(i 0).val - 160, by omega⟩ : Fin 32) (i 1))
              (fun b hb => match b, hb with | ⟨0, _⟩, hb => absurd (Fin.ext rfl) hb | ⟨1, _⟩, _ => rfl) (by show 160 + ((i 0).val - 160) = (i 0).val; omega)).trans ?_
          rw [dif_neg (show ¬(i 0).val < 64 by omega), dif_neg (show ¬(i 0).val < 128 by omega), dif_neg (show ¬(i 0).val < 160 by omega), dif_pos (show (i 0).val < 192 by omega)]
          unfold kx_main_v77
          exact extractStridedSlice_apply (s := ⟨2, ![226, 1024]⟩) (t := (⟨2, ![32, 1024]⟩ : Shape)) ![160, 0] _ _ _ _ (fun a => match a with
            | ⟨0, _⟩ => (show ((i 0).val : Nat) = 160 + ((i 0).val - 160) by omega)
            | ⟨1, _⟩ => (show (i 1).val = 0 + (i 1).val by omega))
        · skip
          by_cases c4 : (i 0).val < 224
          · refine (concatenate_apply_piece (t := ⟨2, ![256, 1024]⟩) (0 : Fin 2) [⟨(⟨2, ![64, 1024]⟩ : Shape), kx_main_v74 V⟩, ⟨(⟨2, ![64, 1024]⟩ : Shape), kx_main_v75 V⟩, ⟨(⟨2, ![32, 1024]⟩ : Shape), kx_main_v76 V⟩, ⟨(⟨2, ![32, 1024]⟩ : Shape), kx_main_v77 V⟩, ⟨(⟨2, ![32, 1024]⟩ : Shape), kx_main_v78 V⟩, ⟨(⟨2, ![1, 1024]⟩ : Shape), kx_main_v79 V⟩, ⟨(⟨2, ![1, 1024]⟩ : Shape), kx_main_v80 V⟩, ⟨(⟨2, ![1, 1024]⟩ : Shape), kx_main_v81 V⟩, ⟨(⟨2, ![29, 1024]⟩ : Shape), kx_main_v82 V⟩] _ i 4 (show 4 < 9 by omega)
                (⟨2, ![32, 1024]⟩ : Shape) (kx_main_v78 V) rfl rfl 192 rfl (ix2 (⟨(i 0).val - 192, by omega⟩ : Fin 32) (i 1))
                (fun b hb => match b, hb with | ⟨0, _⟩, hb => absurd (Fin.ext rfl) hb | ⟨1, _⟩, _ => rfl) (by show 192 + ((i 0).val - 192) = (i 0).val; omega)).trans ?_
            rw [dif_neg (show ¬(i 0).val < 64 by omega), dif_neg (show ¬(i 0).val < 128 by omega), dif_neg (show ¬(i 0).val < 160 by omega), dif_neg (show ¬(i 0).val < 192 by omega), dif_pos (show (i 0).val < 224 by omega)]
            unfold kx_main_v78
            exact extractStridedSlice_apply (s := ⟨2, ![226, 1024]⟩) (t := (⟨2, ![32, 1024]⟩ : Shape)) ![194, 0] _ _ _ _ (fun a => match a with
              | ⟨0, _⟩ => (show ((i 0).val + 2 : Nat) = 194 + ((i 0).val - 192) by omega)
              | ⟨1, _⟩ => (show (i 1).val = 0 + (i 1).val by omega))
          · skip
            by_cases c5 : (i 0).val < 225
            · refine (concatenate_apply_piece (t := ⟨2, ![256, 1024]⟩) (0 : Fin 2) [⟨(⟨2, ![64, 1024]⟩ : Shape), kx_main_v74 V⟩, ⟨(⟨2, ![64, 1024]⟩ : Shape), kx_main_v75 V⟩, ⟨(⟨2, ![32, 1024]⟩ : Shape), kx_main_v76 V⟩, ⟨(⟨2, ![32, 1024]⟩ : Shape), kx_main_v77 V⟩, ⟨(⟨2, ![32, 1024]⟩ : Shape), kx_main_v78 V⟩, ⟨(⟨2, ![1, 1024]⟩ : Shape), kx_main_v79 V⟩, ⟨(⟨2, ![1, 1024]⟩ : Shape), kx_main_v80 V⟩, ⟨(⟨2, ![1, 1024]⟩ : Shape), kx_main_v81 V⟩, ⟨(⟨2, ![29, 1024]⟩ : Shape), kx_main_v82 V⟩] _ i 5 (show 5 < 9 by omega)
                  (⟨2, ![1, 1024]⟩ : Shape) (kx_main_v79 V) rfl rfl 224 rfl (ix2 (⟨(i 0).val - 224, by omega⟩ : Fin 1) (i 1))
                  (fun b hb => match b, hb with | ⟨0, _⟩, hb => absurd (Fin.ext rfl) hb | ⟨1, _⟩, _ => rfl) (by show 224 + ((i 0).val - 224) = (i 0).val; omega)).trans ?_
              rw [dif_neg (show ¬(i 0).val < 64 by omega), dif_neg (show ¬(i 0).val < 128 by omega), dif_neg (show ¬(i 0).val < 160 by omega), dif_neg (show ¬(i 0).val < 192 by omega), dif_neg (show ¬(i 0).val < 224 by omega), dif_pos (show (i 0).val < 226 by omega)]
              unfold kx_main_v79
              exact extractStridedSlice_apply (s := ⟨2, ![226, 1024]⟩) (t := (⟨2, ![1, 1024]⟩ : Shape)) ![192, 0] _ _ _ _ (fun a => match a with
                | ⟨0, _⟩ => (show (192 : Nat) = 192 + ((i 0).val - 224) by omega)
                | ⟨1, _⟩ => (show (i 1).val = 0 + (i 1).val by omega))
            · skip
              by_cases c6 : (i 0).val < 226
              · refine (concatenate_apply_piece (t := ⟨2, ![256, 1024]⟩) (0 : Fin 2) [⟨(⟨2, ![64, 1024]⟩ : Shape), kx_main_v74 V⟩, ⟨(⟨2, ![64, 1024]⟩ : Shape), kx_main_v75 V⟩, ⟨(⟨2, ![32, 1024]⟩ : Shape), kx_main_v76 V⟩, ⟨(⟨2, ![32, 1024]⟩ : Shape), kx_main_v77 V⟩, ⟨(⟨2, ![32, 1024]⟩ : Shape), kx_main_v78 V⟩, ⟨(⟨2, ![1, 1024]⟩ : Shape), kx_main_v79 V⟩, ⟨(⟨2, ![1, 1024]⟩ : Shape), kx_main_v80 V⟩, ⟨(⟨2, ![1, 1024]⟩ : Shape), kx_main_v81 V⟩, ⟨(⟨2, ![29, 1024]⟩ : Shape), kx_main_v82 V⟩] _ i 6 (show 6 < 9 by omega)
                    (⟨2, ![1, 1024]⟩ : Shape) (kx_main_v80 V) rfl rfl 225 rfl (ix2 (⟨(i 0).val - 225, by omega⟩ : Fin 1) (i 1))
                    (fun b hb => match b, hb with | ⟨0, _⟩, hb => absurd (Fin.ext rfl) hb | ⟨1, _⟩, _ => rfl) (by show 225 + ((i 0).val - 225) = (i 0).val; omega)).trans ?_
                rw [dif_neg (show ¬(i 0).val < 64 by omega), dif_neg (show ¬(i 0).val < 128 by omega), dif_neg (show ¬(i 0).val < 160 by omega), dif_neg (show ¬(i 0).val < 192 by omega), dif_neg (show ¬(i 0).val < 224 by omega), dif_pos (show (i 0).val < 226 by omega)]
                unfold kx_main_v80
                exact extractStridedSlice_apply (s := ⟨2, ![226, 1024]⟩) (t := (⟨2, ![1, 1024]⟩ : Shape)) ![192, 0] _ _ _ _ (fun a => match a with
                  | ⟨0, _⟩ => (show (192 : Nat) = 192 + ((i 0).val - 225) by omega)
                  | ⟨1, _⟩ => (show (i 1).val = 0 + (i 1).val by omega))
              · skip
                by_cases c7 : (i 0).val < 227
                · refine (concatenate_apply_piece (t := ⟨2, ![256, 1024]⟩) (0 : Fin 2) [⟨(⟨2, ![64, 1024]⟩ : Shape), kx_main_v74 V⟩, ⟨(⟨2, ![64, 1024]⟩ : Shape), kx_main_v75 V⟩, ⟨(⟨2, ![32, 1024]⟩ : Shape), kx_main_v76 V⟩, ⟨(⟨2, ![32, 1024]⟩ : Shape), kx_main_v77 V⟩, ⟨(⟨2, ![32, 1024]⟩ : Shape), kx_main_v78 V⟩, ⟨(⟨2, ![1, 1024]⟩ : Shape), kx_main_v79 V⟩, ⟨(⟨2, ![1, 1024]⟩ : Shape), kx_main_v80 V⟩, ⟨(⟨2, ![1, 1024]⟩ : Shape), kx_main_v81 V⟩, ⟨(⟨2, ![29, 1024]⟩ : Shape), kx_main_v82 V⟩] _ i 7 (show 7 < 9 by omega)
                      (⟨2, ![1, 1024]⟩ : Shape) (kx_main_v81 V) rfl rfl 226 rfl (ix2 (⟨(i 0).val - 226, by omega⟩ : Fin 1) (i 1))
                      (fun b hb => match b, hb with | ⟨0, _⟩, hb => absurd (Fin.ext rfl) hb | ⟨1, _⟩, _ => rfl) (by show 226 + ((i 0).val - 226) = (i 0).val; omega)).trans ?_
                  rw [dif_neg (show ¬(i 0).val < 64 by omega), dif_neg (show ¬(i 0).val < 128 by omega), dif_neg (show ¬(i 0).val < 160 by omega), dif_neg (show ¬(i 0).val < 192 by omega), dif_neg (show ¬(i 0).val < 224 by omega), dif_neg (show ¬(i 0).val < 226 by omega), dif_pos (show (i 0).val < 227 by omega)]
                  unfold kx_main_v81
                  exact extractStridedSlice_apply (s := ⟨2, ![226, 1024]⟩) (t := (⟨2, ![1, 1024]⟩ : Shape)) ![193, 0] _ _ _ _ (fun a => match a with
                    | ⟨0, _⟩ => (show (193 : Nat) = 193 + ((i 0).val - 226) by omega)
                    | ⟨1, _⟩ => (show (i 1).val = 0 + (i 1).val by omega))
                · skip
                  refine (concatenate_apply_piece (t := ⟨2, ![256, 1024]⟩) (0 : Fin 2) [⟨(⟨2, ![64, 1024]⟩ : Shape), kx_main_v74 V⟩, ⟨(⟨2, ![64, 1024]⟩ : Shape), kx_main_v75 V⟩, ⟨(⟨2, ![32, 1024]⟩ : Shape), kx_main_v76 V⟩, ⟨(⟨2, ![32, 1024]⟩ : Shape), kx_main_v77 V⟩, ⟨(⟨2, ![32, 1024]⟩ : Shape), kx_main_v78 V⟩, ⟨(⟨2, ![1, 1024]⟩ : Shape), kx_main_v79 V⟩, ⟨(⟨2, ![1, 1024]⟩ : Shape), kx_main_v80 V⟩, ⟨(⟨2, ![1, 1024]⟩ : Shape), kx_main_v81 V⟩, ⟨(⟨2, ![29, 1024]⟩ : Shape), kx_main_v82 V⟩] _ i 8 (show 8 < 9 by omega)
                      (⟨2, ![29, 1024]⟩ : Shape) (kx_main_v82 V) rfl rfl 227 rfl (ix2 (⟨(i 0).val - 227, by omega⟩ : Fin 29) (i 1))
                      (fun b hb => match b, hb with | ⟨0, _⟩, hb => absurd (Fin.ext rfl) hb | ⟨1, _⟩, _ => rfl) (by show 227 + ((i 0).val - 227) = (i 0).val; omega)).trans ?_
                  rw [dif_neg (show ¬(i 0).val < 64 by omega), dif_neg (show ¬(i 0).val < 128 by omega), dif_neg (show ¬(i 0).val < 160 by omega), dif_neg (show ¬(i 0).val < 192 by omega), dif_neg (show ¬(i 0).val < 224 by omega), dif_neg (show ¬(i 0).val < 226 by omega), dif_neg (show ¬(i 0).val < 227 by omega)]
                  unfold kx_main_v82 kx_main_cst_19
                  rfl

end Cert.KernelIdeal.KerValue

end
-- ==== Proof.KerSelectors.lean ====
/-
  The kernel program's three selector tables as values: the two 0/1 selection matrices the host builds from index
  ramps (a ramp's floor quotient or remainder by 32 compared with another ramp, converted, zero-padded) and the table of
  the three small embeddings combined over the packed index, read index by index against their specifications.
-/
import proofs.«214388_g48842368090541_cont_8to1c4_19_37_alg».proof.Proof.KerChainA
import proofs.«214388_g48842368090541_cont_8to1c4_19_37_alg».proof.Proof.KerChainB
import proofs.«214388_g48842368090541_cont_8to1c4_19_37_alg».proof.Proof.KSpec
import proofs.«214388_g48842368090541_cont_8to1c4_19_37_alg».proof.Proof.RefOps
import Idealize.ShloMosaic.Lib.Tactic
import Idealize.ShloMosaic.Lib.KernelVsHost
import Idealize.ShloMosaic.Lib.IdealHost

noncomputable section

namespace Cert.KernelIdeal.KerValue

open Cert.KernelIdeal Cert.KernelIdeal.Gen Cert.KernelIdeal.MainShape Idealize.ShloMosaic Idealize.ShloMosaic.TcCoe Idealize.SL.Sem Idealize.ShloMosaic.StableHlo
open Idealize.ShloMosaic.ValueIdx Idealize.ShloMosaic.Tactic

/-! ## The two 0/1 selection matrices -/

set_option maxRecDepth 100000 in
/-- The row ramp broadcast over the 32 × 1024 table reads the row, whatever the column: decided by evaluation. -/
theorem t44 (V : Valuation τ sig (Elt Ideal)) (c : Fin 1024) : ∀ r : Fin 32, kx_main_v44 V (ix2 r c) = BitVec.ofNat 32 r.val :=
  of_decide_eq_true (by sl_kernel_rfl)

set_option maxRecDepth 100000 in
/-- The 1024-ramp's floor quotient by 32 broadcast over the table reads the column's quotient, whatever the row. -/
theorem t45 (V : Valuation τ sig (Elt Ideal)) (r : Fin 32) : ∀ c : Fin 1024, kx_main_v45 V (ix2 r c) = BitVec.ofNat 32 (c.val / 32) :=
  of_decide_eq_true (by sl_kernel_rfl)

set_option maxRecDepth 100000 in
/-- The 1024-ramp's remainder by 32 broadcast over the 1024 × 32 table reads the row's remainder, whatever the column. -/
theorem t53 (V : Valuation τ sig (Elt Ideal)) (o : Fin 32) : ∀ c : Fin 1024, kx_main_v53 V (ix2 c o) = BitVec.ofNat 32 (c.val % 32) :=
  of_decide_eq_true (by sl_kernel_rfl)

set_option maxRecDepth 100000 in
/-- The 32-ramp broadcast over the 1024 × 32 table reads the column, whatever the row. -/
theorem t54 (V : Valuation τ sig (Elt Ideal)) (c : Fin 1024) : ∀ o : Fin 32, kx_main_v54 V (ix2 c o) = BitVec.ofNat 32 o.val :=
  of_decide_eq_true (by sl_kernel_rfl)

/-- Two small naturals as 32-bit words are equal exactly when they are. -/
theorem ofNat_eq_iff {a b : Nat} (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

/-- The converted comparison of two small naturals as words, at the ideal values: one where they are equal, zero elsewhere. -/
theorem uitofp_cmpi_eq {a b : Nat} (ha : a < 2 ^ 32) (hb : b < 2 ^ 32) :
    FloatOps.uitofp (F := Ideal) .bf16 (IntOp.cmpi .eq (BitVec.ofNat 32 a) (BitVec.ofNat 32 b)) = if a = b then Cert.Spec.one else Cert.Spec.zero := by
  have hone : Cert.Spec.one = ((1 : ℝ) : EReal) := by unfold Cert.Spec.one; simp [Ideal.ofBits, Ideal.ieee, -EReal.coe_mul]; norm_num
  show (((IntOp.cmpi .eq (BitVec.ofNat 32 a) (BitVec.ofNat 32 b)).toNat : ℝ) : EReal) = _
  by_cases h : a = b
  · subst h; rw [if_pos rfl, hone]; simp [IntOp.cmpi]
  · rw [if_neg h, Cert.Spec.zero_eq]
    have : BitVec.ofNat 32 a ≠ BitVec.ofNat 32 b := fun e => h ((ofNat_eq_iff ha hb).mp e)
    simp [IntOp.cmpi, this]

set_option maxRecDepth 16384 in
/-- THE FIRST SELECTOR: the padded, converted comparison of the row ramp with the column ramp's quotient by 32 is the 0/1
    matrix that selects, on rows 32–63, the columns whose quotient is the row less 32. -/
theorem kx_main_v48_eq (V : Valuation τ sig (Elt Ideal)) : kx_main_v48 V = Cert.Spec.kQw := by
  funext i
  have h0 : (i 0).val < 128 := (i 0).isLt
  have h1 : (i 1).val < 1024 := (i 1).isLt
  unfold kx_main_v48 Cert.Spec.kQw
  by_cases hin : 32 ≤ (i 0).val ∧ (i 0).val < 64
  · have hk := pad_apply_of_inside (t := S128x1024) ![32, 0] ![64, 0] ![0, 0] (kx_main_v47 V) (kx_main_call5_v0 V)
      pads_S32x1024_S128x1024_32640_000 h_S_ i (ix2 ⟨(i 0).val - 32, by omega⟩ ⟨(i 1).val, h1⟩)
      (fun a => by fin_cases a <;> simp <;> omega)
    show pad S128x1024 ![32, 0] ![64, 0] ![0, 0] (kx_main_v47 V) (kx_main_call5_v0 V) pads_S32x1024_S128x1024_32640_000 h_S_ i = _
    rw [hk]
    show FloatOps.uitofp (F := Ideal) .bf16 (IntOp.cmpi .eq (kx_main_v44 V (ix2 ⟨(i 0).val - 32, by omega⟩ ⟨(i 1).val, h1⟩))
      (kx_main_v45 V (ix2 ⟨(i 0).val - 32, by omega⟩ ⟨(i 1).val, h1⟩))) = _
    rw [t44 V _ _, t45 V _ _, uitofp_cmpi_eq (by simp; omega) (by simp; omega)]
    by_cases he : (i 0).val - 32 = (i 1).val / 32
    · rw [if_pos he, if_pos ⟨hin.1, hin.2, he⟩]
    · rw [if_neg he, if_neg (fun hh => he hh.2.2)]
  · have hk := pad_apply_of_not_inside (t := S128x1024) ![32, 0] ![64, 0] ![0, 0] (kx_main_v47 V) (kx_main_call5_v0 V)
      pads_S32x1024_S128x1024_32640_000 h_S_ i 0 (by
        intro hh
        apply hin
        have ha := hh.1; have hc := hh.2.2
        simp at ha hc
        exact ⟨ha, by omega⟩)
    show pad S128x1024 ![32, 0] ![64, 0] ![0, 0] (kx_main_v47 V) (kx_main_call5_v0 V) pads_S32x1024_S128x1024_32640_000 h_S_ i = _
    rw [hk, if_neg (fun hh => hin ⟨hh.1, hh.2.1⟩)]
    show (((0#32 : BitVec 32).toInt : ℝ) : EReal) = _
    rw [Cert.Spec.zero_eq]; norm_num

set_option maxRecDepth 16384 in
/-- THE SECOND SELECTOR: the padded, converted comparison of the row ramp's remainder by 32 with the column ramp is the 0/1
    matrix that sends, on lanes 64–95, each row to the lane 64 plus its remainder. -/
theorem kx_main_v57_eq (V : Valuation τ sig (Elt Ideal)) : kx_main_v57 V = Cert.Spec.kPw := by
  funext i
  have h0 : (i 0).val < 1024 := (i 0).isLt
  have h1 : (i 1).val < 128 := (i 1).isLt
  unfold kx_main_v57 Cert.Spec.kPw
  by_cases hin : 64 ≤ (i 1).val ∧ (i 1).val < 96
  · have hk := pad_apply_of_inside (t := S1024x128) ![0, 64] ![0, 32] ![0, 0] (kx_main_v56 V) (kx_main_call7_v0 V)
      pads_S1024x32_S1024x128_000_64320 h_S_ i (ix2 ⟨(i 0).val, h0⟩ ⟨(i 1).val - 64, by omega⟩)
      (fun a => by fin_cases a <;> simp <;> omega)
    show pad S1024x128 ![0, 64] ![0, 32] ![0, 0] (kx_main_v56 V) (kx_main_call7_v0 V) pads_S1024x32_S1024x128_000_64320 h_S_ i = _
    rw [hk]
    show FloatOps.uitofp (F := Ideal) .bf16 (IntOp.cmpi .eq (kx_main_v53 V (ix2 ⟨(i 0).val, h0⟩ ⟨(i 1).val - 64, by omega⟩))
      (kx_main_v54 V (ix2 ⟨(i 0).val, h0⟩ ⟨(i 1).val - 64, by omega⟩))) = _
    rw [t53 V _ _, t54 V _ _, uitofp_cmpi_eq (by simp; omega) (by simp; omega)]
    by_cases he : (i 0).val % 32 = (i 1).val - 64
    · rw [if_pos he, if_pos ⟨hin.1, hin.2, he⟩]
    · rw [if_neg he, if_neg (fun hh => he hh.2.2)]
  · have hk := pad_apply_of_not_inside (t := S1024x128) ![0, 64] ![0, 32] ![0, 0] (kx_main_v56 V) (kx_main_call7_v0 V)
      pads_S1024x32_S1024x128_000_64320 h_S_ i 1 (by
        intro hh
        apply hin
        have ha := hh.1; have hc := hh.2.2
        simp at ha hc
        exact ⟨ha, by omega⟩)
    show pad S1024x128 ![0, 64] ![0, 32] ![0, 0] (kx_main_v56 V) (kx_main_call7_v0 V) pads_S1024x32_S1024x128_000_64320 h_S_ i = _
    rw [hk, if_neg (fun hh => hin ⟨hh.1, hh.2.1⟩)]
    show (((0#32 : BitVec 32).toInt : ℝ) : EReal) = _
    rw [Cert.Spec.zero_eq]; norm_num

/-! ## The combined small-embedding table -/

set_option maxRecDepth 100000 in
theorem t15 (V : Valuation τ sig (Elt Ideal)) : ∀ g : Fin 1024, kx_main_v15 V (ix2 g 0) = BitVec.ofNat 32 (g.val / 256) :=
  of_decide_eq_true (by sl_kernel_rfl)
set_option maxRecDepth 100000 in
theorem t24 (V : Valuation τ sig (Elt Ideal)) : ∀ g : Fin 1024, kx_main_v24 V (ix2 g 0) = BitVec.ofNat 32 ((g.val / 32) % 8) :=
  of_decide_eq_true (by sl_kernel_rfl)
set_option maxRecDepth 100000 in
theorem t32 (V : Valuation τ sig (Elt Ideal)) : ∀ g : Fin 1024, kx_main_v32 V (ix2 g 0) = BitVec.ofNat 32 (g.val % 32) :=
  of_decide_eq_true (by sl_kernel_rfl)

/-- A small natural as a word, read signed, is itself. -/
theorem toInt_toNat_ofNat {n : Nat} (h : n < 2 ^ 31) : (BitVec.ofNat 32 n).toInt.toNat = n := by
  have h1 : (BitVec.ofNat 32 n).toNat = n := by rw [BitVec.toNat_ofNat]; omega
  rw [BitVec.toInt_eq_toNat_cond, h1]; split <;> omega

/-- The four pieces of the combined table. -/
abbrev pieces35 (V : Valuation τ sig (Elt Ideal)) : List ((s : Shape) × (s.Idx → EReal)) :=
  [⟨S1024x8, kx_main_v16 V⟩, ⟨S1024x8, kx_main_v25 V⟩, ⟨S1024x16, kx_main_v33 V⟩, ⟨S1024x96, kx_main_v34 V⟩]

set_option maxRecDepth 16384 in
/-- THE COMBINED TABLE: the three gathers at the packed index's quotient and remainders, side by side, then zeros. -/
theorem kx_main_v35_eq (V : Valuation τ sig (Elt Ideal)) :
    kx_main_v35 V = Cert.Spec.kCombo (V (Proc.devRef .tc main_arg9)) (V (Proc.devRef .tc main_arg10)) (V (Proc.devRef .tc main_arg11)) := by
  funext i
  have h0 : (i 0).val < 1024 := (i 0).isLt
  have h1 : (i 1).val < 128 := (i 1).isLt
  unfold kx_main_v35 Cert.Spec.kCombo
  by_cases c1 : (i 1).val < 8
  · rw [dif_pos c1]
    rw [concatenate_apply_piece (t := S1024x128) (1 : Fin 2) (pieces35 V) concatenates_S1024x8_S1024x8_S1024x16_S1024x96_S1024x128_d1 i
      0 (by show 0 < 4; omega) S1024x8 (kx_main_v16 V) rfl rfl 0 rfl (ix2 ⟨(i 0).val, h0⟩ ⟨(i 1).val, c1⟩)
      (fun b hb => match b, hb with | ⟨0, _⟩, _ => rfl | ⟨1, _⟩, hb => absurd rfl hb) (by show 0 + (i 1).val = (i 1).val; omega)]
    show Host.gather (Cert.Spec.rowDims 4 1024 8 gather_S4x8_S1024x1_S1024x8_1_0_n_n_0_1_18_wf) (V (Proc.devRef .tc main_arg9)) (kx_main_v15 V) _ = _
    rw [Cert.Spec.gather_row_apply (by decide)]
    congr 2
    refine Fin.ext ?_
    show min (kx_main_v15 V (ix2 ⟨(i 0).val, h0⟩ 0)).toInt.toNat (4 - 1) = (i 0).val / 256
    rw [t15 V _, toInt_toNat_ofNat (by omega)]
    show min ((i 0).val / 256) (4 - 1) = (i 0).val / 256
    omega
  by_cases c2 : (i 1).val < 16
  · rw [dif_neg c1, dif_pos c2]
    rw [concatenate_apply_piece (t := S1024x128) (1 : Fin 2) (pieces35 V) concatenates_S1024x8_S1024x8_S1024x16_S1024x96_S1024x128_d1 i
      1 (by show 1 < 4; omega) S1024x8 (kx_main_v25 V) rfl rfl 8 rfl (ix2 ⟨(i 0).val, h0⟩ ⟨(i 1).val - 8, by omega⟩)
      (fun b hb => match b, hb with | ⟨0, _⟩, _ => rfl | ⟨1, _⟩, hb => absurd rfl hb) (by show 8 + ((i 1).val - 8) = (i 1).val; omega)]
    show Host.gather (Cert.Spec.rowDims 8 1024 8 gather_S8x8_S1024x1_S1024x8_1_0_n_n_0_1_18_wf) (V (Proc.devRef .tc main_arg10)) (kx_main_v24 V) _ = _
    rw [Cert.Spec.gather_row_apply (by decide)]
    congr 2
    refine Fin.ext ?_
    show min (kx_main_v24 V (ix2 ⟨(i 0).val, h0⟩ 0)).toInt.toNat (8 - 1) = ((i 0).val / 32) % 8
    rw [t24 V _, toInt_toNat_ofNat (by omega)]
    show min (((i 0).val / 32) % 8) (8 - 1) = ((i 0).val / 32) % 8
    omega
  by_cases c3 : (i 1).val < 32
  · rw [dif_neg c1, dif_neg c2, dif_pos c3]
    rw [concatenate_apply_piece (t := S1024x128) (1 : Fin 2) (pieces35 V) concatenates_S1024x8_S1024x8_S1024x16_S1024x96_S1024x128_d1 i
      2 (by show 2 < 4; omega) S1024x16 (kx_main_v33 V) rfl rfl 16 rfl (ix2 ⟨(i 0).val, h0⟩ ⟨(i 1).val - 16, by omega⟩)
      (fun b hb => match b, hb with | ⟨0, _⟩, _ => rfl | ⟨1, _⟩, hb => absurd rfl hb) (by show 16 + ((i 1).val - 16) = (i 1).val; omega)]
    show Host.gather (Cert.Spec.rowDims 32 1024 16 gather_S32x16_S1024x1_S1024x16_1_0_n_n_0_1_116_wf) (V (Proc.devRef .tc main_arg11)) (kx_main_v32 V) _ = _
    rw [Cert.Spec.gather_row_apply (by decide)]
    congr 2
    refine Fin.ext ?_
    show min (kx_main_v32 V (ix2 ⟨(i 0).val, h0⟩ 0)).toInt.toNat (32 - 1) = (i 0).val % 32
    rw [t32 V _, toInt_toNat_ofNat (by omega)]
    show min ((i 0).val % 32) (32 - 1) = (i 0).val % 32
    omega
  · rw [dif_neg c1, dif_neg c2, dif_neg c3]
    rw [concatenate_apply_piece (t := S1024x128) (1 : Fin 2) (pieces35 V) concatenates_S1024x8_S1024x8_S1024x16_S1024x96_S1024x128_d1 i
      3 (by show 3 < 4; omega) S1024x96 (kx_main_v34 V) rfl rfl 32 rfl (ix2 ⟨(i 0).val, h0⟩ ⟨(i 1).val - 32, by omega⟩)
      (fun b hb => match b, hb with | ⟨0, _⟩, _ => rfl | ⟨1, _⟩, hb => absurd rfl hb) (by show 32 + ((i 1).val - 32) = (i 1).val; omega)]
    rfl

end Cert.KernelIdeal.KerValue
end
-- ==== Proof.GatherValSpecIdeal.lean ====
import proofs.«214388_g48842368090541_cont_8to1c4_19_37_alg».proof.Proof.GatherValTaskIdeal
import proofs.«214388_g48842368090541_cont_8to1c4_19_37_alg».proof.Proof.KSpec

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

/-! ## The gathered arrays are the specification's gathers

At the ideal values the array that a third of the list gathers out of a table is the specification's gather of the
table by that third of the list: both read, at row b and column c, the table at the row that entry off + b of the list
names, column c; they differ only in what they say where an entry names no row, which the list's range excludes. -/

theorem gatherOf_spec {N : Nat} (hz : 0 < N) (tbl : Cert.Spec.A2 N 128) (idx3 : Cert.Spec.I1 49152) (third : Fin 3)
    (off : Nat) (hoff : off + 16384 ≤ 49152) (hoff3 : off = 16384 * third.val)
    (hin : ∀ j : S49152.Idx, off ≤ (j 0).val → (j 0).val < off + 16384 → (idx3 j).toNat < N) :
    gatherOf (F := Ideal) hz tbl idx3 third = Cert.Spec.gatherRows tbl (Cert.Spec.kIdxSlice idx3 off hoff) := by
  funext y
  have hy : (y 0).val < 16384 := (y 0).isLt
  have e : Cert.Spec.kIdxSlice idx3 off hoff (ix1 (n := 16384) (y 0)) = idx3 (thirdIx third (y 0)) := by
    unfold Cert.Spec.kIdxSlice
    refine congrArg idx3 (funext fun a => Fin.ext ?_)
    have ha : a = 0 := Subsingleton.elim _ _
    subst ha
    show off + (y 0).val = 16384 * third.val + (y 0).val
    omega
  have h : (Cert.Spec.kIdxSlice idx3 off hoff (ix1 (n := 16384) (y 0))).toNat < N := by
    refine lt_of_eq_of_lt (congrArg BitVec.toNat e) (hin _ ?_ ?_)
    · show off ≤ 16384 * third.val + (y 0).val
      omega
    · show 16384 * third.val + (y 0).val < off + 16384
      omega
  have hrow : (Cert.Spec.kIdxSlice idx3 off hoff (ix1 (n := 16384) (y 0))).toNat = (idx3 (thirdIx third (y 0))).toNat := congrArg BitVec.toNat e
  have h1 : gatherOf (F := Ideal) hz tbl idx3 third y = tbl (ix2 ⟨_, h⟩ (y 1)) :=
    gatherOf_apply (F := Ideal) hz tbl idx3 third y (ix2 ⟨_, h⟩ (y 1)) hrow rfl
  have h2 : Cert.Spec.gatherRows tbl (Cert.Spec.kIdxSlice idx3 off hoff) y = tbl (ix2 ⟨_, h⟩ (y 1)) := dif_pos h
  exact h1.trans h2.symm

section AtIdeal
variable (d : Dev nD) (fi : Buf (Elt Ideal) (idxLoc d)) (fb : Buf (Elt Ideal) (bigLoc d)) (fc : Buf (Elt Ideal) (comboLoc d))

/-- The first result is the specification's gather of the wide table by the first third of the list, -/
theorem uoOf_spec (hpre : IdxOK (F := Ideal) d fi) : uoOf d fi fb = Cert.Spec.kU128 fb fi := by
  unfold uoOf Cert.Spec.kU128
  exact gatherOf_spec pos100000 fb fi 0 0 (by decide) rfl (fun j _ h => hpre.1 j (by omega))

/-- the second its gather by the second third, -/
theorem moOf_spec (hpre : IdxOK (F := Ideal) d fi) : moOf d fi fb = Cert.Spec.kM128 fb fi := by
  unfold moOf Cert.Spec.kM128
  exact gatherOf_spec pos100000 fb fi 1 16384 (by decide) rfl (fun j _ h => hpre.1 j (by omega))

/-- the third the gather of the small table by the last third. -/
theorem coOf_spec (hpre : IdxOK (F := Ideal) d fi) : coOf d fi fc = Cert.Spec.kC128 fc fi := by
  unfold coOf Cert.Spec.kC128
  exact gatherOf_spec pos1024 fc fi 2 32768 (by decide) rfl (fun j h _ => hpre.2 j h)

end AtIdeal

end Cert.Proof.KernelIdealSc
end
-- ==== Proof.KerCompose3.lean ====
/-
  The kernel's value chain under the precondition: the SparseCore call's three results are the three gathers of the
  specification, because the precondition keeps the index list the first host line writes inside the two tables. What
  remains as hypotheses are the four launches' closed forms and what they leave alone.
-/
import proofs.«214388_g48842368090541_cont_8to1c4_19_37_alg».proof.Proof.KerCompose
import proofs.«214388_g48842368090541_cont_8to1c4_19_37_alg».proof.Proof.KerStagesB2
import proofs.«214388_g48842368090541_cont_8to1c4_19_37_alg».proof.Proof.KerSelectors
import proofs.«214388_g48842368090541_cont_8to1c4_19_37_alg».proof.Proof.GatherValSpecIdeal
import proofs.«214388_g48842368090541_cont_8to1c4_19_37_alg».proof.Proof.FramesGlueIdeal

noncomputable section

namespace Cert.Proof.KernelIdealSc

open Cert.KernelIdeal Cert.KernelIdeal.Gen Cert.KernelIdeal.MainShape Cert.KernelIdeal.KerValue
open Idealize.ShloMosaic Idealize.ShloMosaic.TcCoe Idealize.SL.Sem Idealize.ShloMosaic.StableHlo

/-- THE KERNEL'S VALUE CHAIN under the precondition, over the four launches' links only. -/
theorem kernel_value_of_pre [Cert.Pre_input_domain.Facts] (m : (ℓ : Loc nD τ sig) → Buf (Elt Ideal) ℓ) (h : Cert.Pre_KernelIdeal m) (c : Dev nD)
    (regAfter : Fin 4 → Valuation τ sig (Elt Ideal) → Valuation τ sig (Elt Ideal))
    (hK1x : ∀ V : Valuation τ sig (Elt Ideal), regAfter 0 V (Proc.devRef .tc main_v87_0) = Cert.Spec.r1X (V (Proc.devRef .tc main_v36_0)) (V (Proc.devRef .tc main_v36_1)) (V (Proc.devRef .tc main_v36_2)) (V (Proc.devRef .tc main_arg5)) (V (Proc.devRef .tc main_v85)) (V (Proc.devRef .tc main_v86)) (V (Proc.devRef .tc main_v38)) (V (Proc.devRef .tc main_v48)) (V (Proc.devRef .tc main_v57)) (V (Proc.devRef .tc main_v58)) (V (Proc.devRef .tc main_v60)) (V (Proc.devRef .tc main_v62)))
    (hK1s : ∀ V : Valuation τ sig (Elt Ideal), regAfter 0 V (Proc.devRef .tc main_v87_1) = Cert.Spec.r1S (Cert.Spec.r1X (V (Proc.devRef .tc main_v36_0)) (V (Proc.devRef .tc main_v36_1)) (V (Proc.devRef .tc main_v36_2)) (V (Proc.devRef .tc main_arg5)) (V (Proc.devRef .tc main_v85)) (V (Proc.devRef .tc main_v86)) (V (Proc.devRef .tc main_v38)) (V (Proc.devRef .tc main_v48)) (V (Proc.devRef .tc main_v57)) (V (Proc.devRef .tc main_v58)) (V (Proc.devRef .tc main_v60)) (V (Proc.devRef .tc main_v62))) (V (Proc.devRef .tc main_v73)))
    (hK1q : ∀ V : Valuation τ sig (Elt Ideal), regAfter 0 V (Proc.devRef .tc main_v87_2) = Cert.Spec.r1Q (Cert.Spec.r1X (V (Proc.devRef .tc main_v36_0)) (V (Proc.devRef .tc main_v36_1)) (V (Proc.devRef .tc main_v36_2)) (V (Proc.devRef .tc main_arg5)) (V (Proc.devRef .tc main_v85)) (V (Proc.devRef .tc main_v86)) (V (Proc.devRef .tc main_v38)) (V (Proc.devRef .tc main_v48)) (V (Proc.devRef .tc main_v57)) (V (Proc.devRef .tc main_v58)) (V (Proc.devRef .tc main_v60)) (V (Proc.devRef .tc main_v62))) (V (Proc.devRef .tc main_v73)))
    (hkeep0 : ∀ (V : Valuation τ sig (Elt Ideal)) (r : Ref sig .tc), r ∉ ([main_v87_0, main_v87_1, main_v87_2] : List (Ref sig .tc)) → regAfter 0 V (Proc.devRef .tc r) = V (Proc.devRef .tc r))
    (hK2h : ∀ V : Valuation τ sig (Elt Ideal), regAfter 1 V (Proc.devRef .tc main_v91_0) = Cert.Spec.r2H1 (V (Proc.devRef .tc main_v87_0)) (V (Proc.devRef .tc main_v87_1)) (V (Proc.devRef .tc main_v87_2)) (V (Proc.devRef .tc main_v88)) (V (Proc.devRef .tc main_v89)) (V (Proc.devRef .tc main_v73)) (V (Proc.devRef .tc main_v84)) (V (Proc.devRef .tc main_v90)))
    (hK2y : ∀ V : Valuation τ sig (Elt Ideal), regAfter 1 V (Proc.devRef .tc main_v91_1) = Cert.Spec.r2Y2 (Cert.Spec.r2H1 (V (Proc.devRef .tc main_v87_0)) (V (Proc.devRef .tc main_v87_1)) (V (Proc.devRef .tc main_v87_2)) (V (Proc.devRef .tc main_v88)) (V (Proc.devRef .tc main_v89)) (V (Proc.devRef .tc main_v73)) (V (Proc.devRef .tc main_v84)) (V (Proc.devRef .tc main_v90))) (V (Proc.devRef .tc main_arg23)))
    (hK2s : ∀ V : Valuation τ sig (Elt Ideal), regAfter 1 V (Proc.devRef .tc main_v91_2) = Cert.Spec.r2S (Cert.Spec.r2Y2 (Cert.Spec.r2H1 (V (Proc.devRef .tc main_v87_0)) (V (Proc.devRef .tc main_v87_1)) (V (Proc.devRef .tc main_v87_2)) (V (Proc.devRef .tc main_v88)) (V (Proc.devRef .tc main_v89)) (V (Proc.devRef .tc main_v73)) (V (Proc.devRef .tc main_v84)) (V (Proc.devRef .tc main_v90))) (V (Proc.devRef .tc main_arg23))))
    (hK2q : ∀ V : Valuation τ sig (Elt Ideal), regAfter 1 V (Proc.devRef .tc main_v91_3) = Cert.Spec.r2Q (Cert.Spec.r2Y2 (Cert.Spec.r2H1 (V (Proc.devRef .tc main_v87_0)) (V (Proc.devRef .tc main_v87_1)) (V (Proc.devRef .tc main_v87_2)) (V (Proc.devRef .tc main_v88)) (V (Proc.devRef .tc main_v89)) (V (Proc.devRef .tc main_v73)) (V (Proc.devRef .tc main_v84)) (V (Proc.devRef .tc main_v90))) (V (Proc.devRef .tc main_arg23))))
    (hkeep1 : ∀ (V : Valuation τ sig (Elt Ideal)) (r : Ref sig .tc), r ∉ ([main_v91_0, main_v91_1, main_v91_2, main_v91_3] : List (Ref sig .tc)) → regAfter 1 V (Proc.devRef .tc r) = V (Proc.devRef .tc r))
    (hK3y : ∀ V : Valuation τ sig (Elt Ideal), regAfter 2 V (Proc.devRef .tc main_v96_0) = Cert.Spec.r3Y3 (Cert.Spec.r3H2 (V (Proc.devRef .tc main_v91_0)) (V (Proc.devRef .tc main_v91_1)) (V (Proc.devRef .tc main_v91_2)) (V (Proc.devRef .tc main_v91_3)) (V (Proc.devRef .tc main_v93)) (V (Proc.devRef .tc main_v94))) (V (Proc.devRef .tc main_arg27)))
    (hK3l : ∀ V : Valuation τ sig (Elt Ideal), regAfter 2 V (Proc.devRef .tc main_v96_1) = Cert.Spec.r3Lo (Cert.Spec.r3H2 (V (Proc.devRef .tc main_v91_0)) (V (Proc.devRef .tc main_v91_1)) (V (Proc.devRef .tc main_v91_2)) (V (Proc.devRef .tc main_v91_3)) (V (Proc.devRef .tc main_v93)) (V (Proc.devRef .tc main_v94))) (V (Proc.devRef .tc main_arg31)) (V (Proc.devRef .tc main_v95)) (V (Proc.devRef .tc main_v92)))
    (hK3s : ∀ V : Valuation τ sig (Elt Ideal), regAfter 2 V (Proc.devRef .tc main_v96_2) = Cert.Spec.r3S (Cert.Spec.r3Y3 (Cert.Spec.r3H2 (V (Proc.devRef .tc main_v91_0)) (V (Proc.devRef .tc main_v91_1)) (V (Proc.devRef .tc main_v91_2)) (V (Proc.devRef .tc main_v91_3)) (V (Proc.devRef .tc main_v93)) (V (Proc.devRef .tc main_v94))) (V (Proc.devRef .tc main_arg27))))
    (hK3q : ∀ V : Valuation τ sig (Elt Ideal), regAfter 2 V (Proc.devRef .tc main_v96_3) = Cert.Spec.r3Q (Cert.Spec.r3Y3 (Cert.Spec.r3H2 (V (Proc.devRef .tc main_v91_0)) (V (Proc.devRef .tc main_v91_1)) (V (Proc.devRef .tc main_v91_2)) (V (Proc.devRef .tc main_v91_3)) (V (Proc.devRef .tc main_v93)) (V (Proc.devRef .tc main_v94))) (V (Proc.devRef .tc main_arg27))))
    (hkeep2 : ∀ (V : Valuation τ sig (Elt Ideal)) (r : Ref sig .tc), r ∉ ([main_v96_0, main_v96_1, main_v96_2, main_v96_3] : List (Ref sig .tc)) → regAfter 2 V (Proc.devRef .tc r) = V (Proc.devRef .tc r))
    (hK4 : ∀ V : Valuation τ sig (Elt Ideal), regAfter 3 V (Proc.devRef .tc main_v100) = Cert.Spec.r4Out (V (Proc.devRef .tc main_v96_0)) (V (Proc.devRef .tc main_v96_1)) (V (Proc.devRef .tc main_v96_2)) (V (Proc.devRef .tc main_v96_3)) (V (Proc.devRef .tc main_v97)) (V (Proc.devRef .tc main_v98)) (V (Proc.devRef .tc main_v92)) (V (Proc.devRef .tc main_v99)))
    (hkeep3 : ∀ (V : Valuation τ sig (Elt Ideal)) (r : Ref sig .tc), r ∉ ([main_v100] : List (Ref sig .tc)) → regAfter 3 V (Proc.devRef .tc r) = V (Proc.devRef .tc r)) :
    VEnd (F := Ideal) m regAfter (fun d => uoOf d (fiOf m d) (fbOf m d)) (fun d => moOf d (fiOf m d) (fbOf m d))
        (fun d => coOf d (fiOf m d) (fcOf m d)) c (Proc.devRef .tc main_v101)
      = Cert.Spec.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) :=
  kernel_value_of m c regAfter _ _ _ (uoOf_spec c (fiOf m c) (fbOf m c) (idxOK_of_pre m h c)) (moOf_spec c (fiOf m c) (fbOf m c) (idxOK_of_pre m h c)) (coOf_spec c (fiOf m c) (fcOf m c) (idxOK_of_pre m h c)) hK1x hK1s hK1q hkeep0 hK2h hK2y hK2s hK2q hkeep1 hK3y hK3l hK3s hK3q hkeep2 hK4 hkeep3 kx_main_v35_eq kx_main_v48_eq kx_main_v57_eq stK_v58 stK_v60 stK_v62 stK_v73 stK_v84

end Cert.Proof.KernelIdealSc

end
-- ==== Proof.RegionValK1AccIdeal.lean ====
import proofs.«214388_g48842368090541_cont_8to1c4_19_37_alg».proof.Proof.RegionValK1X16Ideal
import proofs.«214388_g48842368090541_cont_8to1c4_19_37_alg».proof.Proof.Gen.KernelIdeal.Launch
import proofs.«214388_g48842368090541_cont_8to1c4_19_37_alg».proof.Proof.Gen.KernelIdeal.Skeleton
import proofs.«214388_g48842368090541_cont_8to1c4_19_37_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

open scoped BigOperators

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {Ix : Type} [DecidableEq Ix] {Name : Type} [DecidableEq Name] {U : Type} [URA U] {Lvl : Type} [Preorder Lvl]

open Idealize.ShloMosaic.ValueIdx

/-! ## The first layer of a tile against the specification -/

/-- The feature row of tile `t` at its row `r` is the specification's feature row at row `1024 t + r`. -/
theorem x16of_tile (V : Valuation τ sig (Elt Ideal)) (t : Fin cfg1.N) (r : Fin 1024) (k : Fin 256) (h : 1024 * t.val + r.val < 16384) :
    k1_pay1 (F := Ideal) (k1_pay7 (iblk1 V 3 t) (iblk1 V 9 t) (iblk1 V 10 t)) (k1_pay8 (View.ld (iblk1 V 0 t) (Rect.unit (s := S1024x128) ![0, 0] S1024x64.size inb_S1024x128_S1024x64_0_0))) (k1_pay9 (iblk1 V 3 t) (iblk1 V 9 t) (iblk1 V 10 t) (View.ld (iblk1 V 0 t) (Rect.unit (s := S1024x128) ![0, 0] S1024x64.size inb_S1024x128_S1024x64_0_0)) (iblk1 V 6 t) (iblk1 V 7 t) (iblk1 V 8 t) (iblk1 V 11 t)) (k1_pay11 (iblk1 V 4 t)) (k1_pay12 (iblk1 V 4 t)) (k1_pay13 (iblk1 V 5 t)) (Scalar.ofBits .f32 0x00000000#32) (iblk1 V 2 t) (View.ld (iblk1 V 1 t) (Rect.unit (s := S1024x128) ![0, 64] S1024x64.size inb_S1024x128_S1024x64_0_64)) (ix2 r k) = (Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62))) (ix2 ⟨1024 * t.val + r.val, h⟩ k) := by
  have hr' := r.isLt
  have ht : tOfR ⟨1024 * t.val + r.val, h⟩ = t := Fin.ext (by show (1024 * t.val + r.val) / 1024 = t.val; omega)
  have hr : rOf ⟨1024 * t.val + r.val, h⟩ = r := Fin.ext (by show (1024 * t.val + r.val) % 1024 = r.val; omega)
  have key := x16of_row V ⟨1024 * t.val + r.val, h⟩ k
  rw [ht, hr] at key
  unfold x16of at key
  exact key

/-- The first layer of tile `t` at (r, c) is the specification's first layer at row `1024 t + r`. -/
theorem pay2_tile (V : Valuation τ sig (Elt Ideal)) (t : Fin cfg1.N) (r : Fin 1024) (c : Fin 1024) (h : 1024 * t.val + r.val < 16384) :
    k1_pay2 (F := Ideal) (k1_pay7 (iblk1 V 3 t) (iblk1 V 9 t) (iblk1 V 10 t)) (k1_pay8 (View.ld (iblk1 V 0 t) (Rect.unit (s := S1024x128) ![0, 0] S1024x64.size inb_S1024x128_S1024x64_0_0))) (k1_pay9 (iblk1 V 3 t) (iblk1 V 9 t) (iblk1 V 10 t) (View.ld (iblk1 V 0 t) (Rect.unit (s := S1024x128) ![0, 0] S1024x64.size inb_S1024x128_S1024x64_0_0)) (iblk1 V 6 t) (iblk1 V 7 t) (iblk1 V 8 t) (iblk1 V 11 t)) (k1_pay11 (iblk1 V 4 t)) (k1_pay12 (iblk1 V 4 t)) (k1_pay13 (iblk1 V 5 t)) (Scalar.ofBits .f32 0x00000000#32) (iblk1 V 2 t) (View.ld (iblk1 V 1 t) (Rect.unit (s := S1024x128) ![0, 64] S1024x64.size inb_S1024x128_S1024x64_0_64)) (iblk1 V 12 t) (ix2 r c)
      = Cert.Spec.kY1 (Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62))) (V (Proc.devRef (τ := τ) .tc main_v73)) (ix2 ⟨1024 * t.val + r.val, h⟩ c) := by
  rw [pay2_apply]
  unfold Cert.Spec.kY1 Cert.Spec.kdot
  refine congrArg₂ (· + ·) rfl (Finset.sum_congr rfl fun k _ => ?_)
  exact congrArg₂ (· * ·) (x16of_tile V t r k h) (cstblk12 V t k c)

/-- The first layer at row `m` (a natural) and column `c`, and its square; zero past the rows. -/
def yN (V : Valuation τ sig (Elt Ideal)) (c : Fin 1024) (m : ℕ) : EReal :=
  if h : m < 16384 then Cert.Spec.kY1 (Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62))) (V (Proc.devRef (τ := τ) .tc main_v73)) (ix2 ⟨m, h⟩ c) else 0
def qN (V : Valuation τ sig (Elt Ideal)) (c : Fin 1024) (m : ℕ) : EReal :=
  if h : m < 16384 then Cert.Spec.kY1 (Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62))) (V (Proc.devRef (τ := τ) .tc main_v73)) (ix2 ⟨m, h⟩ c) * Cert.Spec.kY1 (Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62))) (V (Proc.devRef (τ := τ) .tc main_v73)) (ix2 ⟨m, h⟩ c) else 0

/-- A tile's column sum of the first layer: the sum over the tile's 1024 rows. -/
theorem tile_sum (V : Valuation τ sig (Elt Ideal)) (t : Fin cfg1.N) (c : Fin 1024) :
    ∑ r : Fin 1024, k1_pay2 (F := Ideal) (k1_pay7 (iblk1 V 3 t) (iblk1 V 9 t) (iblk1 V 10 t)) (k1_pay8 (View.ld (iblk1 V 0 t) (Rect.unit (s := S1024x128) ![0, 0] S1024x64.size inb_S1024x128_S1024x64_0_0))) (k1_pay9 (iblk1 V 3 t) (iblk1 V 9 t) (iblk1 V 10 t) (View.ld (iblk1 V 0 t) (Rect.unit (s := S1024x128) ![0, 0] S1024x64.size inb_S1024x128_S1024x64_0_0)) (iblk1 V 6 t) (iblk1 V 7 t) (iblk1 V 8 t) (iblk1 V 11 t)) (k1_pay11 (iblk1 V 4 t)) (k1_pay12 (iblk1 V 4 t)) (k1_pay13 (iblk1 V 5 t)) (Scalar.ofBits .f32 0x00000000#32) (iblk1 V 2 t) (View.ld (iblk1 V 1 t) (Rect.unit (s := S1024x128) ![0, 64] S1024x64.size inb_S1024x128_S1024x64_0_64)) (iblk1 V 12 t) (ix2 r c)
      = ∑ m ∈ Finset.range 1024, yN V c (1024 * t.val + m) := by
  have hN : t.val < 16 := lt_of_lt_of_eq t.isLt (show cfg1.N = 16 from N_1)
  rw [Finset.sum_range]
  refine Finset.sum_congr rfl fun r _ => ?_
  have hr := r.isLt
  have hlt : 1024 * t.val + r.val < 16384 := by omega
  rw [pay2_tile V t r c hlt]
  unfold yN
  rw [dif_pos hlt]

theorem tile_sumQ (V : Valuation τ sig (Elt Ideal)) (t : Fin cfg1.N) (c : Fin 1024) :
    ∑ r : Fin 1024, k1_pay2 (F := Ideal) (k1_pay7 (iblk1 V 3 t) (iblk1 V 9 t) (iblk1 V 10 t)) (k1_pay8 (View.ld (iblk1 V 0 t) (Rect.unit (s := S1024x128) ![0, 0] S1024x64.size inb_S1024x128_S1024x64_0_0))) (k1_pay9 (iblk1 V 3 t) (iblk1 V 9 t) (iblk1 V 10 t) (View.ld (iblk1 V 0 t) (Rect.unit (s := S1024x128) ![0, 0] S1024x64.size inb_S1024x128_S1024x64_0_0)) (iblk1 V 6 t) (iblk1 V 7 t) (iblk1 V 8 t) (iblk1 V 11 t)) (k1_pay11 (iblk1 V 4 t)) (k1_pay12 (iblk1 V 4 t)) (k1_pay13 (iblk1 V 5 t)) (Scalar.ofBits .f32 0x00000000#32) (iblk1 V 2 t) (View.ld (iblk1 V 1 t) (Rect.unit (s := S1024x128) ![0, 64] S1024x64.size inb_S1024x128_S1024x64_0_64)) (iblk1 V 12 t) (ix2 r c) * k1_pay2 (F := Ideal) (k1_pay7 (iblk1 V 3 t) (iblk1 V 9 t) (iblk1 V 10 t)) (k1_pay8 (View.ld (iblk1 V 0 t) (Rect.unit (s := S1024x128) ![0, 0] S1024x64.size inb_S1024x128_S1024x64_0_0))) (k1_pay9 (iblk1 V 3 t) (iblk1 V 9 t) (iblk1 V 10 t) (View.ld (iblk1 V 0 t) (Rect.unit (s := S1024x128) ![0, 0] S1024x64.size inb_S1024x128_S1024x64_0_0)) (iblk1 V 6 t) (iblk1 V 7 t) (iblk1 V 8 t) (iblk1 V 11 t)) (k1_pay11 (iblk1 V 4 t)) (k1_pay12 (iblk1 V 4 t)) (k1_pay13 (iblk1 V 5 t)) (Scalar.ofBits .f32 0x00000000#32) (iblk1 V 2 t) (View.ld (iblk1 V 1 t) (Rect.unit (s := S1024x128) ![0, 64] S1024x64.size inb_S1024x128_S1024x64_0_64)) (iblk1 V 12 t) (ix2 r c)
      = ∑ m ∈ Finset.range 1024, qN V c (1024 * t.val + m) := by
  have hN : t.val < 16 := lt_of_lt_of_eq t.isLt (show cfg1.N = 16 from N_1)
  rw [Finset.sum_range]
  refine Finset.sum_congr rfl fun r _ => ?_
  have hr := r.isLt
  have hlt : 1024 * t.val + r.val < 16384 := by omega
  rw [pay2_tile V t r c hlt]
  unfold qN
  rw [dif_pos hlt]

/-! ## The accumulators against the specification -/

/-- The accumulation after point `n`, at column `c`: the zero word plus the sum over the rows of the tiles up to `n`. -/
theorem s1At_apply (V : Valuation τ sig (Elt Ideal)) (c : Fin 1024) : ∀ (n : ℕ) (hn : n < cfg1.N),
    s1At V n hn (ix2 (0 : Fin 1) c) = Cert.Spec.zero + ∑ m ∈ Finset.range (1024 * (n + 1)), yN V c m
  | 0, hn => by
    show s1step (iblk1 V 0 ⟨0, hn⟩) (iblk1 V 1 ⟨0, hn⟩) (iblk1 V 2 ⟨0, hn⟩) (iblk1 V 3 ⟨0, hn⟩) (iblk1 V 4 ⟨0, hn⟩) (iblk1 V 5 ⟨0, hn⟩) (iblk1 V 6 ⟨0, hn⟩) (iblk1 V 7 ⟨0, hn⟩) (iblk1 V 8 ⟨0, hn⟩) (iblk1 V 9 ⟨0, hn⟩) (iblk1 V 10 ⟨0, hn⟩) (iblk1 V 11 ⟨0, hn⟩) (iblk1 V 12 ⟨0, hn⟩) (k1_pay3 (F := Ideal)) (ix2 (0 : Fin 1) c) = _
    unfold s1step
    rw [pay5_apply, pay3_apply]
    refine (congrArg₂ (· + ·) rfl (tile_sum V ⟨0, hn⟩ c)).trans ?_
    refine congrArg₂ (· + ·) rfl (Finset.sum_congr rfl fun m _ => ?_)
    exact congrArg (yN V c) (by show 1024 * 0 + m = m; omega)
  | n + 1, hn => by
    show s1step (iblk1 V 0 ⟨n + 1, hn⟩) (iblk1 V 1 ⟨n + 1, hn⟩) (iblk1 V 2 ⟨n + 1, hn⟩) (iblk1 V 3 ⟨n + 1, hn⟩) (iblk1 V 4 ⟨n + 1, hn⟩) (iblk1 V 5 ⟨n + 1, hn⟩) (iblk1 V 6 ⟨n + 1, hn⟩) (iblk1 V 7 ⟨n + 1, hn⟩) (iblk1 V 8 ⟨n + 1, hn⟩) (iblk1 V 9 ⟨n + 1, hn⟩) (iblk1 V 10 ⟨n + 1, hn⟩) (iblk1 V 11 ⟨n + 1, hn⟩) (iblk1 V 12 ⟨n + 1, hn⟩) (s1At V n (Nat.lt_of_succ_lt hn)) (ix2 (0 : Fin 1) c) = _
    unfold s1step
    rw [pay5_apply, s1At_apply V c n (Nat.lt_of_succ_lt hn)]
    refine (congrArg₂ (· + ·) rfl (tile_sum V ⟨n + 1, hn⟩ c)).trans ?_
    rw [add_assoc]
    refine congrArg₂ (· + ·) rfl ?_
    have e : 1024 * (n + 1 + 1) = 1024 * (n + 1) + 1024 := by omega
    rw [e, Finset.sum_range_add]
    try rfl

/-- The accumulation after point `n`, at column `c`: the zero word plus the sum over the rows of the tiles up to `n`. -/
theorem q1At_apply (V : Valuation τ sig (Elt Ideal)) (c : Fin 1024) : ∀ (n : ℕ) (hn : n < cfg1.N),
    q1At V n hn (ix2 (0 : Fin 1) c) = Cert.Spec.zero + ∑ m ∈ Finset.range (1024 * (n + 1)), qN V c m
  | 0, hn => by
    show q1step (iblk1 V 0 ⟨0, hn⟩) (iblk1 V 1 ⟨0, hn⟩) (iblk1 V 2 ⟨0, hn⟩) (iblk1 V 3 ⟨0, hn⟩) (iblk1 V 4 ⟨0, hn⟩) (iblk1 V 5 ⟨0, hn⟩) (iblk1 V 6 ⟨0, hn⟩) (iblk1 V 7 ⟨0, hn⟩) (iblk1 V 8 ⟨0, hn⟩) (iblk1 V 9 ⟨0, hn⟩) (iblk1 V 10 ⟨0, hn⟩) (iblk1 V 11 ⟨0, hn⟩) (iblk1 V 12 ⟨0, hn⟩) (k1_pay4 (F := Ideal)) (ix2 (0 : Fin 1) c) = _
    unfold q1step
    rw [pay6_apply, pay4_apply]
    refine (congrArg₂ (· + ·) rfl (tile_sumQ V ⟨0, hn⟩ c)).trans ?_
    refine congrArg₂ (· + ·) rfl (Finset.sum_congr rfl fun m _ => ?_)
    exact congrArg (qN V c) (by show 1024 * 0 + m = m; omega)
  | n + 1, hn => by
    show q1step (iblk1 V 0 ⟨n + 1, hn⟩) (iblk1 V 1 ⟨n + 1, hn⟩) (iblk1 V 2 ⟨n + 1, hn⟩) (iblk1 V 3 ⟨n + 1, hn⟩) (iblk1 V 4 ⟨n + 1, hn⟩) (iblk1 V 5 ⟨n + 1, hn⟩) (iblk1 V 6 ⟨n + 1, hn⟩) (iblk1 V 7 ⟨n + 1, hn⟩) (iblk1 V 8 ⟨n + 1, hn⟩) (iblk1 V 9 ⟨n + 1, hn⟩) (iblk1 V 10 ⟨n + 1, hn⟩) (iblk1 V 11 ⟨n + 1, hn⟩) (iblk1 V 12 ⟨n + 1, hn⟩) (q1At V n (Nat.lt_of_succ_lt hn)) (ix2 (0 : Fin 1) c) = _
    unfold q1step
    rw [pay6_apply, q1At_apply V c n (Nat.lt_of_succ_lt hn)]
    refine (congrArg₂ (· + ·) rfl (tile_sumQ V ⟨n + 1, hn⟩ c)).trans ?_
    rw [add_assoc]
    refine congrArg₂ (· + ·) rfl ?_
    have e : 1024 * (n + 1 + 1) = 1024 * (n + 1) + 1024 := by omega
    rw [e, Finset.sum_range_add]
    try rfl

/-- THE SECOND OUTPUT ARRAY of the first region at the valuation after it: the first layer's column sums, as one row. -/
theorem regAfter1_s1 (V : Valuation τ sig (Elt Ideal)) :
    regAfter1 V (Proc.devRef (τ := τ) .tc main_v87_1) = Cert.Spec.r1S (Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62))) (V (Proc.devRef (τ := τ) .tc main_v73)) := by
  refine (regAfter1_14 V).trans (funext fun (i : (⟨2, ![1, 1024]⟩ : Shape).Idx) => ?_)
  have h0 : (i 0).val = 0 := by have := idx2_lt0 i; omega
  have hi : i = ix2 (0 : Fin 1) (i 1) := by
    refine (eq_ix2 i).trans ?_
    exact congrArg (fun a => ix2 a (i 1)) (Fin.ext h0)
  rw [hi]
  unfold s1Fin
  refine (s1At_apply V (i 1) t15.val t15.isLt).trans ?_
  unfold Cert.Spec.r1S Cert.Spec.asRow Cert.Spec.kS1 Cert.Spec.kS
  refine congrArg₂ (· + ·) rfl ?_
  show ∑ m ∈ Finset.range (1024 * (15 + 1)), yN V (i 1) m = ∑ b : Fin 16384, Cert.Spec.kY1 (Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62))) (V (Proc.devRef (τ := τ) .tc main_v73)) (ix2 b (i 1))
  rw [show 1024 * (15 + 1) = 16384 from rfl, Finset.sum_range]
  exact Finset.sum_congr rfl fun b _ => dif_pos b.isLt

/-- THE THIRD OUTPUT ARRAY of the first region at the valuation after it: the first layer's column sums of squares. -/
theorem regAfter1_q1 (V : Valuation τ sig (Elt Ideal)) :
    regAfter1 V (Proc.devRef (τ := τ) .tc main_v87_2) = Cert.Spec.r1Q (Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62))) (V (Proc.devRef (τ := τ) .tc main_v73)) := by
  refine (regAfter1_15 V).trans (funext fun (i : (⟨2, ![1, 1024]⟩ : Shape).Idx) => ?_)
  have h0 : (i 0).val = 0 := by have := idx2_lt0 i; omega
  have hi : i = ix2 (0 : Fin 1) (i 1) := by
    refine (eq_ix2 i).trans ?_
    exact congrArg (fun a => ix2 a (i 1)) (Fin.ext h0)
  rw [hi]
  unfold q1Fin
  refine (q1At_apply V (i 1) t15.val t15.isLt).trans ?_
  unfold Cert.Spec.r1Q Cert.Spec.asRow Cert.Spec.kQ1 Cert.Spec.kQ
  refine congrArg₂ (· + ·) rfl ?_
  show ∑ m ∈ Finset.range (1024 * (15 + 1)), qN V (i 1) m = ∑ b : Fin 16384, Cert.Spec.kY1 (Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62))) (V (Proc.devRef (τ := τ) .tc main_v73)) (ix2 b (i 1)) * Cert.Spec.kY1 (Cert.Spec.r1X (V (Proc.devRef (τ := τ) .tc main_v36_0)) (V (Proc.devRef (τ := τ) .tc main_v36_1)) (V (Proc.devRef (τ := τ) .tc main_v36_2)) (V (Proc.devRef (τ := τ) .tc main_arg5)) (V (Proc.devRef (τ := τ) .tc main_v85)) (V (Proc.devRef (τ := τ) .tc main_v86)) (V (Proc.devRef (τ := τ) .tc main_v38)) (V (Proc.devRef (τ := τ) .tc main_v48)) (V (Proc.devRef (τ := τ) .tc main_v57)) (V (Proc.devRef (τ := τ) .tc main_v58)) (V (Proc.devRef (τ := τ) .tc main_v60)) (V (Proc.devRef (τ := τ) .tc main_v62))) (V (Proc.devRef (τ := τ) .tc main_v73)) (ix2 b (i 1))
  rw [show 1024 * (15 + 1) = 16384 from rfl, Finset.sum_range]
  exact Finset.sum_congr rfl fun b _ => dif_pos b.isLt

end Cert.KernelIdeal.RegionVal

end
-- ==== Proof.RegionValK2IdealClosed.lean ====
import proofs.«214388_g48842368090541_cont_8to1c4_19_37_alg».proof.Proof.RegionValK2IdealStep

set_option maxRecDepth 16384

noncomputable section

namespace Cert.KernelIdeal.RegionVal

open Cert.KernelIdeal Cert.KernelIdeal.Gen Cert.KernelIdeal.BodyRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## The valuation after the second region, at the four results' references -/

section AtRefs
variable {UU : Type} [URA UU]
/-- The valuation after the region at the four results' references. -/
theorem regAfter2_v91_0 (V : Valuation τ sig (Elt F)) : regAfter2 V (Proc.devRef (τ := τ) .tc main_v91_0) = gH2 V := regAfter2_9 V
theorem regAfter2_v91_1 (V : Valuation τ sig (Elt F)) : regAfter2 V (Proc.devRef (τ := τ) .tc main_v91_1) = gY2 V := regAfter2_10 V
theorem regAfter2_v91_2 (V : Valuation τ sig (Elt F)) : regAfter2 V (Proc.devRef (τ := τ) .tc main_v91_2) = gS2 V := regAfter2_11 V
theorem regAfter2_v91_3 (V : Valuation τ sig (Elt F)) : regAfter2 V (Proc.devRef (τ := τ) .tc main_v91_3) = gQ2 V := regAfter2_12 V
end AtRefs

end Cert.KernelIdeal.RegionVal

end
-- ==== Proof.RegionValK2IndexIdeal.lean ====
import proofs.«214388_g48842368090541_cont_8to1c4_19_37_alg».proof.Proof.Gen.KernelIdeal.Skeleton
import proofs.«214388_g48842368090541_cont_8to1c4_19_37_alg».proof.Proof.KSpec
import proofs.«214388_g48842368090541_cont_8to1c4_19_37_alg».proof.Proof.KerRegionSpec
import proofs.«214388_g48842368090541_cont_8to1c4_19_37_alg».proof.Proof.RegionValK1IndexIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionVal

open Cert.KernelIdeal Cert.KernelIdeal.Gen
open Idealize.ShloMosaic Idealize.ShloMosaic.ValueIdx

/-! ## The second body's square matrix product, read at an index -/

/-- The matrix unit's product `[1024, 1024] × [1024, 1024]` into the zero accumulator, at (r, c): the zero word plus the sum
    over the inner coordinate of the products. -/
theorem dot_1024sq {φ₁ φ₂ : FTy} (lhs : FVec Ideal S1024x1024 φ₁) (rhs : FVec Ideal S1024x1024 φ₂) (r : Fin 1024) (c : Fin 1024) :
    matmul dot_S1024x1024_S1024x1024_S1024x1024_1_0_0_1_n_n none lhs rhs (constant S1024x1024 .f32 0x00000000#32) (ix2 r c)
      = Cert.Spec.zero + ∑ k : Fin 1024, lhs (ix2 r k) * rhs (ix2 k c) := by
  have hr : (dot_S1024x1024_S1024x1024_S1024x1024_1_0_0_1_n_n).contr.rank = 1 := rfl
  have hs : (dot_S1024x1024_S1024x1024_S1024x1024_1_0_0_1_n_n).contr.size ⟨0, by omega⟩ = 1024 := rfl
  refine (Ideal.matmul_apply dot_S1024x1024_S1024x1024_S1024x1024_1_0_0_1_n_n none lhs rhs _ (ix2 r c)).trans ?_
  refine congrArg₂ (· + ·) rfl ?_
  rw [← Equiv.sum_comp (contrEquiv1 dot_S1024x1024_S1024x1024_S1024x1024_1_0_0_1_n_n 1024 hr hs).symm]
  refine Finset.sum_congr rfl fun k _ => ?_
  have hk := contrEquiv1_symm_val dot_S1024x1024_S1024x1024_S1024x1024_1_0_0_1_n_n 1024 hr hs k
  congr 1
  · refine congrArg lhs (funext fun a => Fin.ext ?_)
    match a with
    | ⟨0, _⟩ => rfl
    | ⟨1, _⟩ => exact hk
  · refine congrArg rhs (funext fun a => Fin.ext ?_)
    match a with
    | ⟨0, _⟩ => exact hk
    | ⟨1, _⟩ => rfl

/-! ## The batch norm's rows at a column -/

/-- The column's mean: the column sum times the reciprocal of the number of rows. -/
theorem k2pay10_apply (s : Vec Ideal S1x1024 .f32) (c : Fin 1024) :
    k2_pay10 (F := Ideal) s (ix2 (0 : Fin 1) c) = s (ix2 (0 : Fin 1) c) * Cert.Spec.c14 := by
  unfold k2_pay10
  refine (mulf_apply _ _ _).trans ?_
  exact congrArg₂ (· * ·) (congrFun (shapeCast_self _ _) _) rfl

/-- The scale row at a column: the specification's scale of the column statistics and the gain. -/
theorem k2pay11_apply (s q g : Vec Ideal S1x1024 .f32) (c : Fin 1024) :
    k2_pay11 (F := Ideal) s q g (ix2 (0 : Fin 1) c) = Cert.Spec.bnScale s q g (ix1 c) := by
  unfold k2_pay11
  unfold Cert.Spec.bnScale Cert.Spec.kScale Cert.Spec.kVar Cert.Spec.kMu Cert.Spec.row1
  refine (mulf_apply _ _ _).trans ?_
  refine congrArg₂ (· * ·) ?_ (congrFun (shapeCast_self _ _) _)
  refine congrArg Ideal.rsqrt ?_
  refine (addf_apply _ _ _).trans ?_
  refine congrArg₂ (· + ·) ?_ rfl
  refine (subf_apply _ _ _).trans ?_
  refine congrArg₂ (· - ·) ?_ ?_
  · refine (mulf_apply _ _ _).trans ?_
    exact congrArg₂ (· * ·) (congrFun (shapeCast_self _ _) _) rfl
  · refine (mulf_apply _ _ _).trans ?_
    exact congrArg₂ (· * ·) (k2pay10_apply s c) (k2pay10_apply s c)

/-- The shift row at a column: the specification's shift. -/
theorem k2pay12_apply (s q g beta : Vec Ideal S1x1024 .f32) (c : Fin 1024) :
    k2_pay12 (F := Ideal) s q g beta (ix2 (0 : Fin 1) c) = Cert.Spec.bnShift s q g beta (ix1 c) := by
  unfold k2_pay12
  unfold Cert.Spec.bnShift Cert.Spec.kShift Cert.Spec.kMu Cert.Spec.row1
  refine (subf_apply _ _ _).trans ?_
  refine congrArg₂ (· - ·) (congrFun (shapeCast_self _ _) _) ?_
  refine (mulf_apply _ _ _).trans ?_
  exact congrArg₂ (· * ·) (k2pay10_apply s c) (k2pay11_apply s q g c)

/-! ## The two 256-deep products of a tile -/

/-- The first layer's product of a tile at (r, c). -/
theorem k2pay14_apply (x : Vec Ideal S1024x256 .bf16) (W : Vec Ideal S256x1024 .bf16) (r c : Fin 1024) :
    k2_pay14 (F := Ideal) x W (ix2 r c) = Cert.Spec.zero + ∑ k : Fin 256, x (ix2 r k) * W (ix2 k c) := by
  unfold k2_pay14 k2_pay13
  refine (dot_256 _ _ r c).trans ?_
  refine congrArg₂ (· + ·) rfl (Finset.sum_congr rfl fun k _ => ?_)
  exact congrArg₂ (· * ·) (congrFun (shapeCast_self _ _) _) (congrFun (shapeCast_self _ _) _)

/-- The skip path's product of a tile at (r, c), the bias added. -/
theorem k2pay15_apply (x : Vec Ideal S1024x256 .bf16) (W : Vec Ideal S256x1024 .bf16) (pb : Vec Ideal S1x1024 .f32) (r c : Fin 1024) :
    k2_pay15 (F := Ideal) x W pb (ix2 r c)
      = (Cert.Spec.zero + ∑ k : Fin 256, x (ix2 r k) * W (ix2 k c)) + pb (ix2 (0 : Fin 1) c) := by
  unfold k2_pay15 k2_pay13
  refine (addf_apply _ _ _).trans ?_
  refine congrArg₂ (· + ·) ?_ ?_
  · refine (dot_256 _ _ r c).trans ?_
    refine congrArg₂ (· + ·) rfl (Finset.sum_congr rfl fun k _ => ?_)
    exact congrArg₂ (· * ·) (congrFun (shapeCast_self _ _) _) (congrFun (shapeCast_self _ _) _)
  · refine (broadcastTo_1b_ab_apply _ _ r c).trans ?_
    exact congrFun (shapeCast_self _ _) _

/-! ## The block's result, the second layer and its column statistics -/

/-- The first block's result of a tile at (r, c): scale, shift, clip below at zero, add the skip path. -/
theorem k2pay1_apply (v18 v22 : FVec Ideal S1x1024 .f32) (v27 v34 : FVec Ideal S1024x1024 .f32) (r c : Fin 1024) :
    k2_pay1 (F := Ideal) v18 v22 v27 v34 (ix2 r c)
      = max (v27 (ix2 r c) * v18 (ix2 (0 : Fin 1) c) + v22 (ix2 (0 : Fin 1) c)) Cert.Spec.zero + v34 (ix2 r c) := by
  unfold k2_pay1
  refine (truncf_apply (ψ := .bf16) _ bitsLt_bf16_f32 _).trans ?_
  refine (addf_apply _ _ _).trans ?_
  refine congrArg₂ (· + ·) ?_ rfl
  refine (maximumf_apply _ _ _).trans ?_
  refine congrArg₂ max ?_ rfl
  refine (addf_apply _ _ _).trans ?_
  refine congrArg₂ (· + ·) ?_ (broadcastTo_1b_ab_apply _ _ r c)
  refine (mulf_apply _ _ _).trans ?_
  exact congrArg₂ (· * ·) rfl (broadcastTo_1b_ab_apply _ _ r c)

/-- The second layer of a tile at (r, c): the block's result against the weight copy. -/
theorem k2pay2_apply (v18 v22 : FVec Ideal S1x1024 .f32) (v27 v34 : FVec Ideal S1024x1024 .f32) (v44 : Vec Ideal S1024x1024 .bf16) (r c : Fin 1024) :
    k2_pay2 (F := Ideal) v18 v22 v27 v34 v44 (ix2 r c)
      = Cert.Spec.zero + ∑ k : Fin 1024, k2_pay1 (F := Ideal) v18 v22 v27 v34 (ix2 r k) * v44 (ix2 k c) := by
  unfold k2_pay2
  exact dot_1024sq _ _ r c

/-- The stored second layer is the product (the change of format is the identity at the ideal values). -/
theorem k2pay3_apply (v18 v22 : FVec Ideal S1x1024 .f32) (v27 v34 : FVec Ideal S1024x1024 .f32) (v44 : Vec Ideal S1024x1024 .bf16) (r c : Fin 1024) :
    k2_pay3 (F := Ideal) v18 v22 v27 v34 v44 (ix2 r c) = k2_pay2 (F := Ideal) v18 v22 v27 v34 v44 (ix2 r c) := by
  unfold k2_pay3
  exact truncf_apply (ψ := .bf16) _ bitsLt_bf16_f32 _

/-- One step of the column sums at column `c`. -/
theorem k2pay5_apply (v18 v22 : FVec Ideal S1x1024 .f32) (v27 v34 : FVec Ideal S1024x1024 .f32) (v44 : Vec Ideal S1024x1024 .bf16)
    (v49 : Vec Ideal S1x1024 .f32) (c : Fin 1024) :
    k2_pay5 (F := Ideal) v18 v22 v27 v34 v44 v49 (ix2 (0 : Fin 1) c)
      = v49 (ix2 (0 : Fin 1) c) + ∑ r : Fin 1024, k2_pay2 (F := Ideal) v18 v22 v27 v34 v44 (ix2 r c) := by
  unfold k2_pay5 k2_pay4
  refine (addf_apply _ _ _).trans ?_
  refine congrArg₂ (· + ·) ?_ ?_
  · first | rfl | exact congrFun (shapeCast_self _ _) _
  · refine (shapeCast_a_1a_apply _ _ 0 c).trans ?_
    exact sum_col1024 _ _ _ _ c

/-- One step of the column sums of squares at column `c`. -/
theorem k2pay6_apply (v18 v22 : FVec Ideal S1x1024 .f32) (v27 v34 : FVec Ideal S1024x1024 .f32) (v44 : Vec Ideal S1024x1024 .bf16)
    (v55 : Vec Ideal S1x1024 .f32) (c : Fin 1024) :
    k2_pay6 (F := Ideal) v18 v22 v27 v34 v44 v55 (ix2 (0 : Fin 1) c)
      = v55 (ix2 (0 : Fin 1) c) + ∑ r : Fin 1024, k2_pay2 (F := Ideal) v18 v22 v27 v34 v44 (ix2 r c) * k2_pay2 (F := Ideal) v18 v22 v27 v34 v44 (ix2 r c) := by
  unfold k2_pay6 k2_pay4
  refine (addf_apply _ _ _).trans ?_
  refine congrArg₂ (· + ·) ?_ ?_
  · first | rfl | exact congrFun (shapeCast_self _ _) _
  · refine (shapeCast_a_1a_apply _ _ 0 c).trans ?_
    refine (sum_col1024 _ _ _ _ c).trans ?_
    exact Finset.sum_congr rfl fun r _ => mulf_apply _ _ _

/-- The weight copy is the weight block (the change of format is the identity at the ideal values). -/
theorem k2pay7_apply (v62 : Vec Ideal S1024x1024 .f32) (r c : Fin 1024) : k2_pay7 (F := Ideal) v62 (ix2 r c) = v62 (ix2 r c) := by
  unfold k2_pay7
  refine (congrFun (shapeCast_self _ _) _).trans ?_
  exact truncf_apply (ψ := .bf16) _ bitsLt_bf16_f32 _

/-- The words the reset stores: zero. -/
theorem k2pay8_apply (c : Fin 1024) : k2_pay8 (F := Ideal) (ix2 (0 : Fin 1) c) = Cert.Spec.zero := rfl
theorem k2pay9_apply (c : Fin 1024) : k2_pay9 (F := Ideal) (ix2 (0 : Fin 1) c) = Cert.Spec.zero := rfl

end Cert.KernelIdeal.RegionVal

end
-- ==== Proof.RegionValK2AccIdeal.lean ====
import proofs.«214388_g48842368090541_cont_8to1c4_19_37_alg».proof.Proof.RegionValK2IdealArr
import proofs.«214388_g48842368090541_cont_8to1c4_19_37_alg».proof.Proof.RegionValK2IndexIdeal
import proofs.«214388_g48842368090541_cont_8to1c4_19_37_alg».proof.Proof.KerRegionSpec
import proofs.«214388_g48842368090541_cont_8to1c4_19_37_alg».proof.Proof.Gen.KernelIdeal.Launch
import proofs.«214388_g48842368090541_cont_8to1c4_19_37_alg».proof.Proof.Gen.KernelIdeal.Skeleton
import proofs.«214388_g48842368090541_cont_8to1c4_19_37_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

open scoped BigOperators

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {Ix : Type} [DecidableEq Ix] {Name : Type} [DecidableEq Name] {U : Type} [URA U] {Lvl : Type} [Preorder Lvl]

open Idealize.ShloMosaic.ValueIdx

/-! ## The second region's input blocks, read at an index -/

theorem idx2_in0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_in1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2_in2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx2_in3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx2_in4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx2_in5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx2_in6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idx2_in7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
theorem idx2_in8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)

/-- The feature tile of point `t` at its row `r` is the feature array at row `1024 t + r`. -/
theorem rowblk2_0 (V : Valuation τ sig (Elt Ideal)) (t : Fin cfg2.N) (r : Fin 1024) (k : Fin 256) (h : 1024 * t.val + r.val < 16384) :
    iblk2 V 0 t (ix2 r k) = V (Proc.devRef (τ := τ) .tc main_v87_0) (ix2 ⟨1024 * t.val + r.val, h⟩ k) := by
  obtain ⟨e0, e1⟩ := idx2_in0 t
  show V (Proc.devRef (τ := τ) .tc main_v87_0) (((cfg2.win 0).blk t).view.emb (ix2 r k)) = _
  refine congrArg _ (funext fun x => Fin.ext ?_)
  have h0 : ((((cfg2.win 0).blk t).view.emb (ix2 r k)) 0).val = win2_0.index t (0 : Fin 2) * 1024 + 1 * r.val := rfl
  have h1 : ((((cfg2.win 0).blk t).view.emb (ix2 r k)) 1).val = win2_0.index t (1 : Fin 2) * 256 + 1 * k.val := rfl
  match x with
  | ⟨0, _⟩ => show ((((cfg2.win 0).blk t).view.emb (ix2 r k)) 0).val = 1024 * t.val + r.val; rw [h0, e0]; omega
  | ⟨1, _⟩ => show ((((cfg2.win 0).blk t).view.emb (ix2 r k)) 1).val = k.val; rw [h1, e1]; omega

/-- A constant-index input's block is the array. -/
theorem cstblk2_1 (V : Valuation τ sig (Elt Ideal)) (t : Fin cfg2.N) :
    (iblk2 V 1 t : Vec Ideal S1x1024 .f32) = V (Proc.devRef (τ := τ) .tc main_v87_1) := by
  funext j
  rw [eq_ix2 j]
  obtain ⟨e0, e1⟩ := idx2_in1 t
  show V (Proc.devRef (τ := τ) .tc main_v87_1) (((cfg2.win 1).blk t).view.emb (ix2 (j 0) (j 1))) = _
  refine congrArg _ (funext fun x => Fin.ext ?_)
  have h0 : ((((cfg2.win 1).blk t).view.emb (ix2 (j 0) (j 1))) 0).val = win2_1.index t (0 : Fin 2) * 1 + 1 * (j 0).val := rfl
  have h1 : ((((cfg2.win 1).blk t).view.emb (ix2 (j 0) (j 1))) 1).val = win2_1.index t (1 : Fin 2) * 1024 + 1 * (j 1).val := rfl
  match x with
  | ⟨0, _⟩ => show ((((cfg2.win 1).blk t).view.emb (ix2 (j 0) (j 1))) 0).val = (j 0).val; rw [h0, e0]; omega
  | ⟨1, _⟩ => show ((((cfg2.win 1).blk t).view.emb (ix2 (j 0) (j 1))) 1).val = (j 1).val; rw [h1, e1]; omega
/-- A constant-index input's block is the array. -/
theorem cstblk2_2 (V : Valuation τ sig (Elt Ideal)) (t : Fin cfg2.N) :
    (iblk2 V 2 t : Vec Ideal S1x1024 .f32) = V (Proc.devRef (τ := τ) .tc main_v87_2) := by
  funext j
  rw [eq_ix2 j]
  obtain ⟨e0, e1⟩ := idx2_in2 t
  show V (Proc.devRef (τ := τ) .tc main_v87_2) (((cfg2.win 2).blk t).view.emb (ix2 (j 0) (j 1))) = _
  refine congrArg _ (funext fun x => Fin.ext ?_)
  have h0 : ((((cfg2.win 2).blk t).view.emb (ix2 (j 0) (j 1))) 0).val = win2_2.index t (0 : Fin 2) * 1 + 1 * (j 0).val := rfl
  have h1 : ((((cfg2.win 2).blk t).view.emb (ix2 (j 0) (j 1))) 1).val = win2_2.index t (1 : Fin 2) * 1024 + 1 * (j 1).val := rfl
  match x with
  | ⟨0, _⟩ => show ((((cfg2.win 2).blk t).view.emb (ix2 (j 0) (j 1))) 0).val = (j 0).val; rw [h0, e0]; omega
  | ⟨1, _⟩ => show ((((cfg2.win 2).blk t).view.emb (ix2 (j 0) (j 1))) 1).val = (j 1).val; rw [h1, e1]; omega
/-- A constant-index input's block is the array. -/
theorem cstblk2_3 (V : Valuation τ sig (Elt Ideal)) (t : Fin cfg2.N) :
    (iblk2 V 3 t : Vec Ideal S1x1024 .f32) = V (Proc.devRef (τ := τ) .tc main_v88) := by
  funext j
  rw [eq_ix2 j]
  obtain ⟨e0, e1⟩ := idx2_in3 t
  show V (Proc.devRef (τ := τ) .tc main_v88) (((cfg2.win 3).blk t).view.emb (ix2 (j 0) (j 1))) = _
  refine congrArg _ (funext fun x => Fin.ext ?_)
  have h0 : ((((cfg2.win 3).blk t).view.emb (ix2 (j 0) (j 1))) 0).val = win2_3.index t (0 : Fin 2) * 1 + 1 * (j 0).val := rfl
  have h1 : ((((cfg2.win 3).blk t).view.emb (ix2 (j 0) (j 1))) 1).val = win2_3.index t (1 : Fin 2) * 1024 + 1 * (j 1).val := rfl
  match x with
  | ⟨0, _⟩ => show ((((cfg2.win 3).blk t).view.emb (ix2 (j 0) (j 1))) 0).val = (j 0).val; rw [h0, e0]; omega
  | ⟨1, _⟩ => show ((((cfg2.win 3).blk t).view.emb (ix2 (j 0) (j 1))) 1).val = (j 1).val; rw [h1, e1]; omega
/-- A constant-index input's block is the array. -/
theorem cstblk2_4 (V : Valuation τ sig (Elt Ideal)) (t : Fin cfg2.N) :
    (iblk2 V 4 t : Vec Ideal S1x1024 .f32) = V (Proc.devRef (τ := τ) .tc main_v89) := by
  funext j
  rw [eq_ix2 j]
  obtain ⟨e0, e1⟩ := idx2_in4 t
  show V (Proc.devRef (τ := τ) .tc main_v89) (((cfg2.win 4).blk t).view.emb (ix2 (j 0) (j 1))) = _
  refine congrArg _ (funext fun x => Fin.ext ?_)
  have h0 : ((((cfg2.win 4).blk t).view.emb (ix2 (j 0) (j 1))) 0).val = win2_4.index t (0 : Fin 2) * 1 + 1 * (j 0).val := rfl
  have h1 : ((((cfg2.win 4).blk t).view.emb (ix2 (j 0) (j 1))) 1).val = win2_4.index t (1 : Fin 2) * 1024 + 1 * (j 1).val := rfl
  match x with
  | ⟨0, _⟩ => show ((((cfg2.win 4).blk t).view.emb (ix2 (j 0) (j 1))) 0).val = (j 0).val; rw [h0, e0]; omega
  | ⟨1, _⟩ => show ((((cfg2.win 4).blk t).view.emb (ix2 (j 0) (j 1))) 1).val = (j 1).val; rw [h1, e1]; omega
/-- A constant-index input's block is the array. -/
theorem cstblk2_5 (V : Valuation τ sig (Elt Ideal)) (t : Fin cfg2.N) :
    (iblk2 V 5 t : Vec Ideal S256x1024 .bf16) = V (Proc.devRef (τ := τ) .tc main_v73) := by
  funext j
  rw [eq_ix2 j]
  obtain ⟨e0, e1⟩ := idx2_in5 t
  show V (Proc.devRef (τ := τ) .tc main_v73) (((cfg2.win 5).blk t).view.emb (ix2 (j 0) (j 1))) = _
  refine congrArg _ (funext fun x => Fin.ext ?_)
  have h0 : ((((cfg2.win 5).blk t).view.emb (ix2 (j 0) (j 1))) 0).val = win2_5.index t (0 : Fin 2) * 256 + 1 * (j 0).val := rfl
  have h1 : ((((cfg2.win 5).blk t).view.emb (ix2 (j 0) (j 1))) 1).val = win2_5.index t (1 : Fin 2) * 1024 + 1 * (j 1).val := rfl
  match x with
  | ⟨0, _⟩ => show ((((cfg2.win 5).blk t).view.emb (ix2 (j 0) (j 1))) 0).val = (j 0).val; rw [h0, e0]; omega
  | ⟨1, _⟩ => show ((((cfg2.win 5).blk t).view.emb (ix2 (j 0) (j 1))) 1).val = (j 1).val; rw [h1, e1]; omega
/-- A constant-index input's block is the array. -/
theorem cstblk2_6 (V : Valuation τ sig (Elt Ideal)) (t : Fin cfg2.N) :
    (iblk2 V 6 t : Vec Ideal S256x1024 .bf16) = V (Proc.devRef (τ := τ) .tc main_v84) := by
  funext j
  rw [eq_ix2 j]
  obtain ⟨e0, e1⟩ := idx2_in6 t
  show V (Proc.devRef (τ := τ) .tc main_v84) (((cfg2.win 6).blk t).view.emb (ix2 (j 0) (j 1))) = _
  refine congrArg _ (funext fun x => Fin.ext ?_)
  have h0 : ((((cfg2.win 6).blk t).view.emb (ix2 (j 0) (j 1))) 0).val = win2_6.index t (0 : Fin 2) * 256 + 1 * (j 0).val := rfl
  have h1 : ((((cfg2.win 6).blk t).view.emb (ix2 (j 0) (j 1))) 1).val = win2_6.index t (1 : Fin 2) * 1024 + 1 * (j 1).val := rfl
  match x with
  | ⟨0, _⟩ => show ((((cfg2.win 6).blk t).view.emb (ix2 (j 0) (j 1))) 0).val = (j 0).val; rw [h0, e0]; omega
  | ⟨1, _⟩ => show ((((cfg2.win 6).blk t).view.emb (ix2 (j 0) (j 1))) 1).val = (j 1).val; rw [h1, e1]; omega
/-- A constant-index input's block is the array. -/
theorem cstblk2_7 (V : Valuation τ sig (Elt Ideal)) (t : Fin cfg2.N) :
    (iblk2 V 7 t : Vec Ideal S1x1024 .f32) = V (Proc.devRef (τ := τ) .tc main_v90) := by
  funext j
  rw [eq_ix2 j]
  obtain ⟨e0, e1⟩ := idx2_in7 t
  show V (Proc.devRef (τ := τ) .tc main_v90) (((cfg2.win 7).blk t).view.emb (ix2 (j 0) (j 1))) = _
  refine congrArg _ (funext fun x => Fin.ext ?_)
  have h0 : ((((cfg2.win 7).blk t).view.emb (ix2 (j 0) (j 1))) 0).val = win2_7.index t (0 : Fin 2) * 1 + 1 * (j 0).val := rfl
  have h1 : ((((cfg2.win 7).blk t).view.emb (ix2 (j 0) (j 1))) 1).val = win2_7.index t (1 : Fin 2) * 1024 + 1 * (j 1).val := rfl
  match x with
  | ⟨0, _⟩ => show ((((cfg2.win 7).blk t).view.emb (ix2 (j 0) (j 1))) 0).val = (j 0).val; rw [h0, e0]; omega
  | ⟨1, _⟩ => show ((((cfg2.win 7).blk t).view.emb (ix2 (j 0) (j 1))) 1).val = (j 1).val; rw [h1, e1]; omega
/-- A constant-index input's block is the array. -/
theorem cstblk2_8 (V : Valuation τ sig (Elt Ideal)) (t : Fin cfg2.N) :
    (iblk2 V 8 t : Vec Ideal S1024x1024 .f32) = V (Proc.devRef (τ := τ) .tc main_arg23) := by
  funext j
  rw [eq_ix2 j]
  obtain ⟨e0, e1⟩ := idx2_in8 t
  show V (Proc.devRef (τ := τ) .tc main_arg23) (((cfg2.win 8).blk t).view.emb (ix2 (j 0) (j 1))) = _
  refine congrArg _ (funext fun x => Fin.ext ?_)
  have h0 : ((((cfg2.win 8).blk t).view.emb (ix2 (j 0) (j 1))) 0).val = win2_8.index t (0 : Fin 2) * 1024 + 1 * (j 0).val := rfl
  have h1 : ((((cfg2.win 8).blk t).view.emb (ix2 (j 0) (j 1))) 1).val = win2_8.index t (1 : Fin 2) * 1024 + 1 * (j 1).val := rfl
  match x with
  | ⟨0, _⟩ => show ((((cfg2.win 8).blk t).view.emb (ix2 (j 0) (j 1))) 0).val = (j 0).val; rw [h0, e0]; omega
  | ⟨1, _⟩ => show ((((cfg2.win 8).blk t).view.emb (ix2 (j 0) (j 1))) 1).val = (j 1).val; rw [h1, e1]; omega

/-! ## A tile of the second region against the specification -/

/-- The first block's result of tile `t` at its row `r` is the specification's at row `1024 t + r`. -/
theorem h1_tile (V : Valuation τ sig (Elt Ideal)) (t : Fin cfg2.N) (r k : Fin 1024) (h : 1024 * t.val + r.val < 16384) :
    k2_pay1 (F := Ideal) (v18_2 V t) (v22_2 V t) (v27_2 V t) (v34_2 V t) (ix2 r k) = (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (ix2 ⟨1024 * t.val + r.val, h⟩ k) := by
  rw [k2pay1_apply]
  unfold Cert.Spec.r2H1 Cert.Spec.kH1 Cert.Spec.kNormRelu
  unfold v18_2 v22_2 v27_2 v34_2
  rw [k2pay11_apply, k2pay12_apply, k2pay14_apply, k2pay15_apply]
  rw [cstblk2_1 V t, cstblk2_2 V t, cstblk2_3 V t, cstblk2_4 V t]
  refine congrArg₂ (· + ·) (congrArg₂ max (congrArg₂ (· + ·) (congrArg₂ (· * ·) ?_ rfl) rfl) rfl) ?_
  · unfold Cert.Spec.kY1 Cert.Spec.kdot
    refine congrArg₂ (· + ·) rfl (Finset.sum_congr rfl fun m _ => ?_)
    exact congrArg₂ (· * ·) (rowblk2_0 V t r m h) (congrFun (cstblk2_5 V t) _)
  · unfold Cert.Spec.kY1p Cert.Spec.kdot Cert.Spec.row1
    refine congrArg₂ (· + ·) (congrArg₂ (· + ·) rfl (Finset.sum_congr rfl fun m _ => ?_)) (congrFun (cstblk2_7 V t) _)
    exact congrArg₂ (· * ·) (rowblk2_0 V t r m h) (congrFun (cstblk2_6 V t) _)

/-- The second layer of tile `t` at (r, c) is the specification's at row `1024 t + r`. -/
theorem y2_tile (V : Valuation τ sig (Elt Ideal)) (t : Fin cfg2.N) (r c : Fin 1024) (h : 1024 * t.val + r.val < 16384) :
    k2_pay2 (F := Ideal) (v18_2 V t) (v22_2 V t) (v27_2 V t) (v34_2 V t) (sW2 V) (ix2 r c) = Cert.Spec.kY2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23)) (ix2 ⟨1024 * t.val + r.val, h⟩ c) := by
  rw [k2pay2_apply]
  unfold Cert.Spec.kY2 Cert.Spec.kdot
  refine congrArg₂ (· + ·) rfl (Finset.sum_congr rfl fun k _ => ?_)
  refine congrArg₂ (· * ·) (h1_tile V t r k h) ?_
  unfold sW2
  exact (k2pay7_apply _ k c).trans (congrFun (cstblk2_8 V t2_0) _)

/-- The second layer at row `m` (a natural) and column `c`, and its square; zero past the rows. -/
def yN2 (V : Valuation τ sig (Elt Ideal)) (c : Fin 1024) (m : ℕ) : EReal :=
  if h : m < 16384 then Cert.Spec.kY2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23)) (ix2 ⟨m, h⟩ c) else 0
def qN2 (V : Valuation τ sig (Elt Ideal)) (c : Fin 1024) (m : ℕ) : EReal :=
  if h : m < 16384 then Cert.Spec.kY2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23)) (ix2 ⟨m, h⟩ c) * Cert.Spec.kY2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23)) (ix2 ⟨m, h⟩ c) else 0

theorem tile_sum2 (V : Valuation τ sig (Elt Ideal)) (t : Fin cfg2.N) (c : Fin 1024) :
    ∑ r : Fin 1024, k2_pay2 (F := Ideal) (v18_2 V t) (v22_2 V t) (v27_2 V t) (v34_2 V t) (sW2 V) (ix2 r c) = ∑ m ∈ Finset.range 1024, yN2 V c (1024 * t.val + m) := by
  have hN : t.val < 16 := lt_of_lt_of_eq t.isLt (show cfg2.N = 16 from N_2)
  rw [Finset.sum_range]
  refine Finset.sum_congr rfl fun r _ => ?_
  have hr := r.isLt
  have hlt : 1024 * t.val + r.val < 16384 := by omega
  rw [y2_tile V t r c hlt]
  unfold yN2
  rw [dif_pos hlt]

theorem tile_sumQ2 (V : Valuation τ sig (Elt Ideal)) (t : Fin cfg2.N) (c : Fin 1024) :
    ∑ r : Fin 1024, k2_pay2 (F := Ideal) (v18_2 V t) (v22_2 V t) (v27_2 V t) (v34_2 V t) (sW2 V) (ix2 r c) * k2_pay2 (F := Ideal) (v18_2 V t) (v22_2 V t) (v27_2 V t) (v34_2 V t) (sW2 V) (ix2 r c)
      = ∑ m ∈ Finset.range 1024, qN2 V c (1024 * t.val + m) := by
  have hN : t.val < 16 := lt_of_lt_of_eq t.isLt (show cfg2.N = 16 from N_2)
  rw [Finset.sum_range]
  refine Finset.sum_congr rfl fun r _ => ?_
  have hr := r.isLt
  have hlt : 1024 * t.val + r.val < 16384 := by omega
  rw [y2_tile V t r c hlt]
  unfold qN2
  rw [dif_pos hlt]

/-! ## The accumulators against the specification -/

theorem accS2_apply (V : Valuation τ sig (Elt Ideal)) (c : Fin 1024) : ∀ (n : ℕ) (hn : n < cfg2.N),
    accS2 V n hn (ix2 (0 : Fin 1) c) = Cert.Spec.zero + ∑ m ∈ Finset.range (1024 * (n + 1)), yN2 V c m
  | 0, hn => by
    show k2_pay5 (v18_2 V ⟨0, hn⟩) (v22_2 V ⟨0, hn⟩) (v27_2 V ⟨0, hn⟩) (v34_2 V ⟨0, hn⟩) (sW2 V) (k2_pay8 (F := Ideal)) (ix2 (0 : Fin 1) c) = _
    rw [k2pay5_apply, k2pay8_apply]
    refine (congrArg₂ (· + ·) rfl (tile_sum2 V ⟨0, hn⟩ c)).trans ?_
    refine congrArg₂ (· + ·) rfl (Finset.sum_congr rfl fun m _ => ?_)
    exact congrArg (yN2 V c) (by show 1024 * 0 + m = m; omega)
  | n + 1, hn => by
    show k2_pay5 (v18_2 V ⟨n + 1, hn⟩) (v22_2 V ⟨n + 1, hn⟩) (v27_2 V ⟨n + 1, hn⟩) (v34_2 V ⟨n + 1, hn⟩) (sW2 V) (accS2 V n (Nat.lt_of_succ_lt hn)) (ix2 (0 : Fin 1) c) = _
    rw [k2pay5_apply, accS2_apply V c n (Nat.lt_of_succ_lt hn)]
    refine (congrArg₂ (· + ·) rfl (tile_sum2 V ⟨n + 1, hn⟩ c)).trans ?_
    rw [add_assoc]
    refine congrArg₂ (· + ·) rfl ?_
    have e : 1024 * (n + 1 + 1) = 1024 * (n + 1) + 1024 := by omega
    rw [e, Finset.sum_range_add]
    try rfl

theorem accQ2_apply (V : Valuation τ sig (Elt Ideal)) (c : Fin 1024) : ∀ (n : ℕ) (hn : n < cfg2.N),
    accQ2 V n hn (ix2 (0 : Fin 1) c) = Cert.Spec.zero + ∑ m ∈ Finset.range (1024 * (n + 1)), qN2 V c m
  | 0, hn => by
    show k2_pay6 (v18_2 V ⟨0, hn⟩) (v22_2 V ⟨0, hn⟩) (v27_2 V ⟨0, hn⟩) (v34_2 V ⟨0, hn⟩) (sW2 V) (k2_pay9 (F := Ideal)) (ix2 (0 : Fin 1) c) = _
    rw [k2pay6_apply, k2pay9_apply]
    refine (congrArg₂ (· + ·) rfl (tile_sumQ2 V ⟨0, hn⟩ c)).trans ?_
    refine congrArg₂ (· + ·) rfl (Finset.sum_congr rfl fun m _ => ?_)
    exact congrArg (qN2 V c) (by show 1024 * 0 + m = m; omega)
  | n + 1, hn => by
    show k2_pay6 (v18_2 V ⟨n + 1, hn⟩) (v22_2 V ⟨n + 1, hn⟩) (v27_2 V ⟨n + 1, hn⟩) (v34_2 V ⟨n + 1, hn⟩) (sW2 V) (accQ2 V n (Nat.lt_of_succ_lt hn)) (ix2 (0 : Fin 1) c) = _
    rw [k2pay6_apply, accQ2_apply V c n (Nat.lt_of_succ_lt hn)]
    refine (congrArg₂ (· + ·) rfl (tile_sumQ2 V ⟨n + 1, hn⟩ c)).trans ?_
    rw [add_assoc]
    refine congrArg₂ (· + ·) rfl ?_
    have e : 1024 * (n + 1 + 1) = 1024 * (n + 1) + 1024 := by omega
    rw [e, Finset.sum_range_add]
    try rfl

/-- THE COLUMN SUMS of the second layer after the region: the specification's, as one row. -/
theorem gS2_eq (V : Valuation τ sig (Elt Ideal)) : gS2 V = Cert.Spec.r2S (Cert.Spec.r2Y2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23))) := by
  refine funext fun (i : (⟨2, ![1, 1024]⟩ : Shape).Idx) => ?_
  have h0 : (i 0).val = 0 := by have := idx2_lt0 i; omega
  have hi : i = ix2 (0 : Fin 1) (i 1) := by
    refine (eq_ix2 i).trans ?_
    exact congrArg (fun a => ix2 a (i 1)) (Fin.ext h0)
  rw [hi]
  unfold gS2
  refine (accS2_apply V (i 1) 15 _).trans ?_
  unfold Cert.Spec.r2S Cert.Spec.asRow Cert.Spec.kS2 Cert.Spec.kS Cert.Spec.r2Y2
  refine congrArg₂ (· + ·) rfl ?_
  show ∑ m ∈ Finset.range (1024 * (15 + 1)), yN2 V (i 1) m = ∑ b : Fin 16384, Cert.Spec.kY2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23)) (ix2 b (i 1))
  rw [show 1024 * (15 + 1) = 16384 from rfl, Finset.sum_range]
  exact Finset.sum_congr rfl fun b _ => dif_pos b.isLt

/-- THE COLUMN SUMS OF SQUARES of the second layer after the region. -/
theorem gQ2_eq (V : Valuation τ sig (Elt Ideal)) : gQ2 V = Cert.Spec.r2Q (Cert.Spec.r2Y2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23))) := by
  refine funext fun (i : (⟨2, ![1, 1024]⟩ : Shape).Idx) => ?_
  have h0 : (i 0).val = 0 := by have := idx2_lt0 i; omega
  have hi : i = ix2 (0 : Fin 1) (i 1) := by
    refine (eq_ix2 i).trans ?_
    exact congrArg (fun a => ix2 a (i 1)) (Fin.ext h0)
  rw [hi]
  unfold gQ2
  refine (accQ2_apply V (i 1) 15 _).trans ?_
  unfold Cert.Spec.r2Q Cert.Spec.asRow Cert.Spec.kQ2 Cert.Spec.kQ Cert.Spec.r2Y2
  refine congrArg₂ (· + ·) rfl ?_
  show ∑ m ∈ Finset.range (1024 * (15 + 1)), qN2 V (i 1) m = ∑ b : Fin 16384, Cert.Spec.kY2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23)) (ix2 b (i 1)) * Cert.Spec.kY2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23)) (ix2 b (i 1))
  rw [show 1024 * (15 + 1) = 16384 from rfl, Finset.sum_range]
  exact Finset.sum_congr rfl fun b _ => dif_pos b.isLt

/-! ## The per-point output arrays against the specification -/

/-- THE ACTIVATION ARRAY after the region: the specification's first block result. -/
theorem gH2_eq (V : Valuation τ sig (Elt Ideal)) : gH2 V = (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) := by
  refine funext fun (i : (⟨2, ![16384, 1024]⟩ : Shape).Idx) => ?_
  have hi0 := idx2_lt0 i
  have hlt : 1024 * (tOfH i).val + (i 0).val % 1024 < 16384 := by show 1024 * ((i 0).val / 1024) + (i 0).val % 1024 < 16384; omega
  have hl : locOfH i = ix2 (⟨(i 0).val % 1024, Nat.mod_lt _ (by decide)⟩ : Fin 1024) (i 1) := funext fun x => by
    match x with
    | ⟨0, _⟩ => rfl
    | ⟨1, _⟩ => rfl
  show k2_pay1 (F := Ideal) (v18_2 V (tOfH i)) (v22_2 V (tOfH i)) (v27_2 V (tOfH i)) (v34_2 V (tOfH i)) (locOfH i) = _
  rw [hl]
  refine (h1_tile V (tOfH i) ⟨(i 0).val % 1024, Nat.mod_lt _ (by decide)⟩ (i 1) hlt).trans ?_
  refine congrArg _ ((eq_ix2 i).trans ?_).symm
  exact congrArg (fun a => ix2 a (i 1)) (Fin.ext (by show (i 0).val = 1024 * ((i 0).val / 1024) + (i 0).val % 1024; omega))

/-- THE SECOND LAYER'S ARRAY after the region: the specification's second layer. -/
theorem gY2_eq (V : Valuation τ sig (Elt Ideal)) : gY2 V = Cert.Spec.r2Y2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23)) := by
  refine funext fun (i : (⟨2, ![16384, 1024]⟩ : Shape).Idx) => ?_
  have hi0 := idx2_lt0 i
  have hlt : 1024 * (tOfH i).val + (i 0).val % 1024 < 16384 := by show 1024 * ((i 0).val / 1024) + (i 0).val % 1024 < 16384; omega
  have hl : locOfH i = ix2 (⟨(i 0).val % 1024, Nat.mod_lt _ (by decide)⟩ : Fin 1024) (i 1) := funext fun x => by
    match x with
    | ⟨0, _⟩ => rfl
    | ⟨1, _⟩ => rfl
  show k2_pay3 (F := Ideal) (v18_2 V (tOfH i)) (v22_2 V (tOfH i)) (v27_2 V (tOfH i)) (v34_2 V (tOfH i)) (sW2 V) (locOfH i) = _
  rw [hl]
  refine (k2pay3_apply _ _ _ _ _ ⟨(i 0).val % 1024, Nat.mod_lt _ (by decide)⟩ (i 1)).trans ?_
  refine (y2_tile V (tOfH i) ⟨(i 0).val % 1024, Nat.mod_lt _ (by decide)⟩ (i 1) hlt).trans ?_
  unfold Cert.Spec.r2Y2
  refine congrArg _ ((eq_ix2 i).trans ?_).symm
  exact congrArg (fun a => ix2 a (i 1)) (Fin.ext (by show (i 0).val = 1024 * ((i 0).val / 1024) + (i 0).val % 1024; omega))

end Cert.KernelIdeal.RegionVal

end
-- ==== Proof.RegionValK2SpecIdeal.lean ====
import proofs.«214388_g48842368090541_cont_8to1c4_19_37_alg».proof.Proof.RegionValK2IdealClosed
import proofs.«214388_g48842368090541_cont_8to1c4_19_37_alg».proof.Proof.RegionValK2AccIdeal

set_option maxRecDepth 16384

noncomputable section

namespace Cert.KernelIdeal.RegionVal

open Cert.KernelIdeal Cert.KernelIdeal.Gen Cert.KernelIdeal.BodyRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## What the second launch leaves in its four results, against the specification

At the ideal values the valuation after the second region holds, at the four results' references, the specification's
arrays of the arrays the launch reads: the first block's result, the second layer, and the second layer's column sums
and sums of squares. -/

/-- The activation array is the first block's result. -/
theorem regAfter2_h1 (V : Valuation τ sig (Elt Ideal)) :
    regAfter2 V (Proc.devRef (τ := τ) .tc main_v91_0) = Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90)) :=
  (regAfter2_v91_0 V).trans (gH2_eq V)

/-- The product array is the second layer of it. -/
theorem regAfter2_y2 (V : Valuation τ sig (Elt Ideal)) :
    regAfter2 V (Proc.devRef (τ := τ) .tc main_v91_1) = Cert.Spec.r2Y2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23)) :=
  (regAfter2_v91_1 V).trans (gY2_eq V)

/-- The first accumulator's array is the second layer's column sums, as one row. -/
theorem regAfter2_s2 (V : Valuation τ sig (Elt Ideal)) :
    regAfter2 V (Proc.devRef (τ := τ) .tc main_v91_2) = Cert.Spec.r2S (Cert.Spec.r2Y2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23))) :=
  (regAfter2_v91_2 V).trans (gS2_eq V)

/-- The second accumulator's array is the second layer's column sums of squares, as one row. -/
theorem regAfter2_q2 (V : Valuation τ sig (Elt Ideal)) :
    regAfter2 V (Proc.devRef (τ := τ) .tc main_v91_3) = Cert.Spec.r2Q (Cert.Spec.r2Y2 (Cert.Spec.r2H1 (V (Proc.devRef (τ := τ) .tc main_v87_0)) (V (Proc.devRef (τ := τ) .tc main_v87_1)) (V (Proc.devRef (τ := τ) .tc main_v87_2)) (V (Proc.devRef (τ := τ) .tc main_v88)) (V (Proc.devRef (τ := τ) .tc main_v89)) (V (Proc.devRef (τ := τ) .tc main_v73)) (V (Proc.devRef (τ := τ) .tc main_v84)) (V (Proc.devRef (τ := τ) .tc main_v90))) (V (Proc.devRef (τ := τ) .tc main_arg23))) :=
  (regAfter2_v91_3 V).trans (gQ2_eq V)

end Cert.KernelIdeal.RegionVal

end
-- ==== Proof.RegionValK3IdealIndex.lean ====
import proofs.«214388_g48842368090541_cont_8to1c4_19_37_alg».proof.Proof.Gen.KernelIdeal.Skeleton
import proofs.«214388_g48842368090541_cont_8to1c4_19_37_alg».proof.Proof.KerRegionSpec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionVal

open Cert.KernelIdeal Cert.KernelIdeal.Gen
open Idealize.ShloMosaic Idealize.ShloMosaic.ValueIdx

/-! ## Layout operations of the third body, read at an index -/

section Layout
variable {α : Type}

/-- A row vector of 1024 entries broadcast down 1024 rows reads its column. -/
theorem k3_bcast_row1024 (v : S1x1024.Idx → α) (h : S1x1024.Broadcasts S1024x1024) (r : Fin 1024) (k : Fin 1024) :
    broadcastTo S1024x1024 v h (ix2 r k) = v (ix2 0 k) :=
  broadcastTo_apply v h (ix2 r k) (ix2 0 k) fun a => by match a with | ⟨0, _⟩ => rfl | ⟨1, _⟩ => rfl

/-- A row vector of 512 entries broadcast down 1024 rows reads its column. -/
theorem k3_bcast_row512 (v : S1x512.Idx → α) (h : S1x512.Broadcasts S1024x512) (r : Fin 1024) (k : Fin 512) :
    broadcastTo S1024x512 v h (ix2 r k) = v (ix2 0 k) :=
  broadcastTo_apply v h (ix2 r k) (ix2 0 k) fun a => by match a with | ⟨0, _⟩ => rfl | ⟨1, _⟩ => rfl

/-- A vector of 1024 entries viewed as a column reads its entry. -/
theorem k3_cast_col (v : S1024.Idx → α) (h : S1024.ShapeCasts S1024x1) (r : Fin 1024) :
    shapeCast S1024x1 v h (ix2 r 0) = v (ix1 r) :=
  shapeCast_apply v h (ix2 r 0) (ix1 r) (by
    rw [Shape.rowMajor_val_one, Shape.rowMajor_val_two]; show r.val = r.val * 1 + 0; omega)

/-- A vector of 512 entries viewed as a row reads its entry. -/
theorem k3_cast_row (v : S512.Idx → α) (h : S512.ShapeCasts S1x512) (k : Fin 512) :
    shapeCast S1x512 v h (ix2 0 k) = v (ix1 k) :=
  shapeCast_apply v h (ix2 0 k) (ix1 k) (by
    rw [Shape.rowMajor_val_one, Shape.rowMajor_val_two]; show k.val = 0 * 512 + k.val; omega)

end Layout

/-- The sum over the 512 lanes of a row, at the ideal values. -/
theorem k3_sum_row (src : FVec Ideal S1024x512 .f32) (h : S1024x512.Reduces [1] S1024) (hφ : FKind.Formats .f32)
    (hacc : (0x00000000#32 : BitVec 32) = 0x00000000#32) (r : Fin 1024) :
    multiReduction .add [1] S1024 src 0x00000000#32 h hφ hacc (ix1 r) = ∑ k : Fin 512, src (ix2 r k) := by
  refine (Ideal.multiReduction_add_single src 0x00000000#32 h hφ hacc (ix1 r)).trans ?_
  exact Finset.sum_congr rfl fun k _ => congrArg src (funext fun a => Fin.ext (by
    match a with
    | ⟨0, _⟩ => rfl
    | ⟨1, _⟩ => rfl))

/-- The sum down the 1024 rows of a column, at the ideal values. -/
theorem k3_sum_col (src : FVec Ideal S1024x512 .f32) (h : S1024x512.Reduces [0] S512) (hφ : FKind.Formats .f32)
    (hacc : (0x00000000#32 : BitVec 32) = 0x00000000#32) (c : Fin 512) :
    multiReduction .add [0] S512 src 0x00000000#32 h hφ hacc (ix1 c) = ∑ r : Fin 1024, src (ix2 r c) := by
  refine (Ideal.multiReduction_add_single src 0x00000000#32 h hφ hacc (ix1 c)).trans ?_
  exact Finset.sum_congr rfl fun r _ => congrArg src (funext fun a => Fin.ext (by
    match a with
    | ⟨0, _⟩ => rfl
    | ⟨1, _⟩ => rfl))

/-- The matrix unit's product of a 1024×1024 tile with a 1024×512 block into the zero accumulator, at (r, c): the sum
    over the inner coordinate of the products. -/
theorem k3_matmul_apply (a : FVec Ideal S1024x1024 .bf16) (w : FVec Ideal S1024x512 .bf16) (r : Fin 1024) (c : Fin 512) :
    FloatOps.matmul dot_S1024x1024_S1024x512_S1024x512_1_0_0_1_n_n none a w (constant S1024x512 .f32 0x00000000#32) (ix2 r c)
      = ∑ k : Fin 1024, a (ix2 r k) * w (ix2 k c) := by
  refine (Ideal.matmul_constant_zero_apply dot_S1024x1024_S1024x512_S1024x512_1_0_0_1_n_n none a w (ix2 r c)).trans ?_
  have hr : (dot_S1024x1024_S1024x512_S1024x512_1_0_0_1_n_n).contr.rank = 1 := rfl
  have hs : (dot_S1024x1024_S1024x512_S1024x512_1_0_0_1_n_n).contr.size ⟨0, by omega⟩ = 1024 := rfl
  rw [← Equiv.sum_comp (contrEquiv1 dot_S1024x1024_S1024x512_S1024x512_1_0_0_1_n_n 1024 hr hs).symm]
  refine Finset.sum_congr rfl fun k _ => ?_
  have hk := contrEquiv1_symm_val dot_S1024x1024_S1024x512_S1024x512_1_0_0_1_n_n 1024 hr hs k
  congr 1
  · refine congrArg a (funext fun x => Fin.ext ?_)
    match x with
    | ⟨0, _⟩ => rfl
    | ⟨1, _⟩ => exact hk
  · refine congrArg w (funext fun x => Fin.ext ?_)
    match x with
    | ⟨0, _⟩ => exact hk
    | ⟨1, _⟩ => rfl

/-! ## The third body's arithmetic at an index -/

/-- The product tile before rounding, at (r, c). -/
theorem k3_pay1_apply (a : FVec Ideal S1024x1024 .bf16) (w : Vec Ideal S1024x512 .bf16) (r : Fin 1024) (c : Fin 512) :
    k3_pay1 (F := Ideal) a w (ix2 r c) = ∑ k : Fin 1024, a (ix2 r k) * w (ix2 k c) := by
  unfold k3_pay1
  exact k3_matmul_apply a w r c

/-- The stored product tile at (r, c): a change of float format is the identity at the ideal values. -/
theorem k3_pay2_apply (a : FVec Ideal S1024x1024 .bf16) (w : Vec Ideal S1024x512 .bf16) (r : Fin 1024) (c : Fin 512) :
    k3_pay2 (F := Ideal) a w (ix2 r c) = ∑ k : Fin 1024, a (ix2 r k) * w (ix2 k c) :=
  (show k3_pay2 (F := Ideal) a w (ix2 r c) = k3_pay1 (F := Ideal) a w (ix2 r c) from rfl).trans (k3_pay1_apply a w r c)

/-- The weighted row sum at row r: the lane sum of the second product plus its bias, times the output weights. -/
theorem k3_pay4_apply (a : FVec Ideal S1024x1024 .bf16) (w : Vec Ideal S1024x512 .bf16) (pb ow : Vec Ideal S1x512 .f32) (r : Fin 1024) :
    k3_pay4 (F := Ideal) a w pb ow (ix2 r 0)
      = ∑ c : Fin 512, ((∑ k : Fin 1024, a (ix2 r k) * w (ix2 k c)) + pb (ix2 0 c)) * ow (ix2 0 c) := by
  unfold k3_pay4
  try dsimp only
  simp only [shapeCast_self]
  refine (k3_cast_col _ _ r).trans ?_
  refine (k3_sum_row _ _ _ _ r).trans ?_
  refine Finset.sum_congr rfl fun c _ => ?_
  refine (mulf_apply _ _ (ix2 r c)).trans ?_
  refine congrArg₂ (· * ·) ?_ (k3_bcast_row512 _ _ r c)
  refine (addf_apply _ _ (ix2 r c)).trans ?_
  refine congrArg₂ (· + ·) ?_ (k3_bcast_row512 _ _ r c)
  exact k3_matmul_apply a w r c

/-- The first accumulator's new contents at column c: what it held plus the tile's column sum of the product. -/
theorem k3_pay5_apply (a : FVec Ideal S1024x1024 .bf16) (w : Vec Ideal S1024x512 .bf16) (acc : Vec Ideal S1x512 .f32) (c : Fin 512) :
    k3_pay5 (F := Ideal) a w acc (ix2 0 c)
      = acc (ix2 0 c) + ∑ r : Fin 1024, ∑ k : Fin 1024, a (ix2 r k) * w (ix2 k c) := by
  unfold k3_pay5 k3_pay3
  try dsimp only
  simp only [shapeCast_self]
  refine (addf_apply _ _ (ix2 0 c)).trans ?_
  refine congrArg₂ (· + ·) rfl ?_
  refine (k3_cast_row _ _ c).trans ?_
  refine (k3_sum_col _ _ _ _ c).trans ?_
  exact Finset.sum_congr rfl fun r _ => k3_pay1_apply a w r c

/-- The second accumulator's new contents at column c: what it held plus the tile's column sum of the product's square. -/
theorem k3_pay6_apply (a : FVec Ideal S1024x1024 .bf16) (w : Vec Ideal S1024x512 .bf16) (acc : Vec Ideal S1x512 .f32) (c : Fin 512) :
    k3_pay6 (F := Ideal) a w acc (ix2 0 c)
      = acc (ix2 0 c) + ∑ r : Fin 1024, (∑ k : Fin 1024, a (ix2 r k) * w (ix2 k c)) * (∑ k : Fin 1024, a (ix2 r k) * w (ix2 k c)) := by
  unfold k3_pay6 k3_pay3
  try dsimp only
  simp only [shapeCast_self]
  refine (addf_apply _ _ (ix2 0 c)).trans ?_
  refine congrArg₂ (· + ·) rfl ?_
  refine (k3_cast_row _ _ c).trans ?_
  refine (k3_sum_col _ _ _ _ c).trans ?_
  refine Finset.sum_congr rfl fun r _ => ?_
  refine (mulf_apply _ _ (ix2 r c)).trans ?_
  exact congrArg₂ (· * ·) (k3_pay1_apply a w r c) (k3_pay1_apply a w r c)

/-- The weight copies are the weights: rounding to bf16 is the identity at the ideal values. -/
theorem k3_pay7_eq (x : Vec Ideal S1024x512 .f32) : k3_pay7 (F := Ideal) x = x := by
  unfold k3_pay7
  try dsimp only
  simp only [shapeCast_self]
  rfl
theorem k3_pay8_eq (x : Vec Ideal S1024x512 .f32) : k3_pay8 (F := Ideal) x = x := by
  unfold k3_pay8
  try dsimp only
  simp only [shapeCast_self]
  rfl

/-- The word the first point stores in the accumulators is the specification's zero. -/
theorem k3_pay9_apply (i : S1x512.Idx) : k3_pay9 (F := Ideal) i = Cert.Spec.zero := rfl
theorem k3_pay10_apply (i : S1x512.Idx) : k3_pay10 (F := Ideal) i = Cert.Spec.zero := rfl

set_option maxHeartbeats 1000000 in
/-- THE ACTIVATION TILE AT (r, k), at the ideal values: the second layer's entry scaled and shifted by the batch-norm
    block's column scale and shift (from the column sums `s`, sums of squares `q` and the parameters `g`, `be`), clipped
    below at zero, plus the first block's entry. -/
theorem k3_pay11_apply (s q g be : Vec Ideal S1x1024 .f32) (y2 h1 : Vec Ideal S1024x1024 .bf16) (r k : Fin 1024) :
    k3_pay11 (F := Ideal) s q g be y2 h1 (ix2 r k)
      = max (y2 (ix2 r k) * Cert.Spec.bnScale s q g (ix1 k) + Cert.Spec.bnShift s q g be (ix1 k)) Cert.Spec.zero + h1 (ix2 r k) := by
  unfold k3_pay11
  try dsimp only
  simp only [shapeCast_self]
  refine (truncf_apply (ψ := .bf16) _ bitsLt_bf16_f32 (ix2 r k)).trans ?_
  refine (addf_apply _ _ (ix2 r k)).trans ?_
  refine congrArg₂ (· + ·) ?_ rfl
  refine (maximumf_apply _ _ (ix2 r k)).trans ?_
  refine congrArg₂ max ?_ rfl
  refine (addf_apply _ _ (ix2 r k)).trans ?_
  refine congrArg₂ (· + ·) ?_ ?_
  · refine (mulf_apply _ _ (ix2 r k)).trans ?_
    refine congrArg₂ (· * ·) rfl ?_
    refine (k3_bcast_row1024 _ _ r k).trans ?_
    rfl
  · refine (k3_bcast_row1024 _ _ r k).trans ?_
    rfl

end Cert.KernelIdeal.RegionVal

end
-- ==== Proof.RegionValK3IdealClosed.lean ====
import proofs.«214388_g48842368090541_cont_8to1c4_19_37_alg».proof.Proof.RegionValK3IdealStep
import proofs.«214388_g48842368090541_cont_8to1c4_19_37_alg».proof.Proof.RegionValK3IdealIndex

set_option maxRecDepth 16384

noncomputable section

open scoped BigOperators

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## The input windows' blocks read off their arrays -/

theorem idx_in3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx_in3_1 : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)
theorem idx_in3_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
theorem idx_in3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx_in3_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)
theorem idx_in3_5 : ∀ t : Fin cfg3.N, win3_5.index t (0 : Fin 2) = 0 ∧ win3_5.index t (1 : Fin 2) = 0 :=
  (by decide +kernel : ∀ t : Fin grid3.N, win3_5.index t (0 : Fin 2) = 0 ∧ win3_5.index t (1 : Fin 2) = 0)
theorem idx_in3_6 : ∀ t : Fin cfg3.N, win3_6.index t (0 : Fin 2) = 0 ∧ win3_6.index t (1 : Fin 2) = 0 :=
  (by decide +kernel : ∀ t : Fin grid3.N, win3_6.index t (0 : Fin 2) = 0 ∧ win3_6.index t (1 : Fin 2) = 0)
theorem idx_in3_7 : ∀ t : Fin cfg3.N, win3_7.index t (0 : Fin 2) = 0 ∧ win3_7.index t (1 : Fin 2) = 0 :=
  (by decide +kernel : ∀ t : Fin grid3.N, win3_7.index t (0 : Fin 2) = 0 ∧ win3_7.index t (1 : Fin 2) = 0)
theorem idx_in3_8 : ∀ t : Fin cfg3.N, win3_8.index t (0 : Fin 2) = 0 ∧ win3_8.index t (1 : Fin 2) = 0 :=
  (by decide +kernel : ∀ t : Fin grid3.N, win3_8.index t (0 : Fin 2) = 0 ∧ win3_8.index t (1 : Fin 2) = 0)
theorem idx_in3_9 : ∀ t : Fin cfg3.N, win3_9.index t (0 : Fin 2) = 0 ∧ win3_9.index t (1 : Fin 2) = 0 :=
  (by decide +kernel : ∀ t : Fin grid3.N, win3_9.index t (0 : Fin 2) = 0 ∧ win3_9.index t (1 : Fin 2) = 0)

/-- Window 0's block at point `t`, at its row `r`, is the array's row `1024 t + r`. -/
theorem iblk3_row_0 (V : Valuation τ sig (Elt F)) (t : Fin cfg3.N) (r k : Fin 1024) (R : Fin 16384) (hR : R.val = 1024 * t.val + r.val) :
    (iblk3 V 0 t : Vec F S1024x1024 .bf16) (ix2 r k) = (V (Proc.devRef (τ := τ) .tc main_v91_0) : Vec F S16384x1024 .bf16) (ix2 R k) := by
  obtain ⟨e0, e1⟩ := idx_in3_0 t
  show V (Proc.devRef (τ := τ) .tc main_v91_0) (((cfg3.win 0).blk t).view.emb (ix2 r k)) = V (Proc.devRef (τ := τ) .tc main_v91_0) (ix2 R k)
  have h0 : ((((cfg3.win 0).blk t).view.emb (ix2 r k)) 0).val = win3_0.index t (0 : Fin 2) * 1024 + 1 * r.val := rfl
  have h1 : ((((cfg3.win 0).blk t).view.emb (ix2 r k)) 1).val = win3_0.index t (1 : Fin 2) * 1024 + 1 * k.val := rfl
  congr 1
  funext a; apply Fin.ext
  match a with
  | ⟨0, _⟩ => show ((((cfg3.win 0).blk t).view.emb (ix2 r k)) 0).val = R.val; rw [h0, hR]; omega
  | ⟨1, _⟩ => show ((((cfg3.win 0).blk t).view.emb (ix2 r k)) 1).val = k.val; rw [h1]; omega

/-- Window 1's block at point `t`, at its row `r`, is the array's row `1024 t + r`. -/
theorem iblk3_row_1 (V : Valuation τ sig (Elt F)) (t : Fin cfg3.N) (r k : Fin 1024) (R : Fin 16384) (hR : R.val = 1024 * t.val + r.val) :
    (iblk3 V 1 t : Vec F S1024x1024 .bf16) (ix2 r k) = (V (Proc.devRef (τ := τ) .tc main_v91_1) : Vec F S16384x1024 .bf16) (ix2 R k) := by
  obtain ⟨e0, e1⟩ := idx_in3_1 t
  show V (Proc.devRef (τ := τ) .tc main_v91_1) (((cfg3.win 1).blk t).view.emb (ix2 r k)) = V (Proc.devRef (τ := τ) .tc main_v91_1) (ix2 R k)
  have h0 : ((((cfg3.win 1).blk t).view.emb (ix2 r k)) 0).val = win3_1.index t (0 : Fin 2) * 1024 + 1 * r.val := rfl
  have h1 : ((((cfg3.win 1).blk t).view.emb (ix2 r k)) 1).val = win3_1.index t (1 : Fin 2) * 1024 + 1 * k.val := rfl
  congr 1
  funext a; apply Fin.ext
  match a with
  | ⟨0, _⟩ => show ((((cfg3.win 1).blk t).view.emb (ix2 r k)) 0).val = R.val; rw [h0, hR]; omega
  | ⟨1, _⟩ => show ((((cfg3.win 1).blk t).view.emb (ix2 r k)) 1).val = k.val; rw [h1]; omega

/-- Window 2's one block is its whole array. -/
theorem iblk3_whole_2 (V : Valuation τ sig (Elt F)) (t : Fin cfg3.N) :
    (iblk3 V 2 t : Vec F S1x1024 .f32) = (V (Proc.devRef (τ := τ) .tc main_v91_2) : Vec F S1x1024 .f32) := by
  obtain ⟨e0, e1⟩ := idx_in3_2 t
  funext y
  show V (Proc.devRef (τ := τ) .tc main_v91_2) (((cfg3.win 2).blk t).view.emb y) = V (Proc.devRef (τ := τ) .tc main_v91_2) y
  have hy0 : (y 0).val < 1 := (y 0).isLt
  have hy1 : (y 1).val < 1024 := (y 1).isLt
  have h0 : ((((cfg3.win 2).blk t).view.emb y) 0).val = win3_2.index t (0 : Fin 2) * 1 + 1 * (y 0).val := rfl
  have h1 : ((((cfg3.win 2).blk t).view.emb y) 1).val = win3_2.index t (1 : Fin 2) * 1024 + 1 * (y 1).val := rfl
  congr 1
  funext a; apply Fin.ext
  match a with
  | ⟨0, _⟩ => show ((((cfg3.win 2).blk t).view.emb y) 0).val = (y 0).val; rw [h0]; omega
  | ⟨1, _⟩ => show ((((cfg3.win 2).blk t).view.emb y) 1).val = (y 1).val; rw [h1]; omega

/-- Window 3's one block is its whole array. -/
theorem iblk3_whole_3 (V : Valuation τ sig (Elt F)) (t : Fin cfg3.N) :
    (iblk3 V 3 t : Vec F S1x1024 .f32) = (V (Proc.devRef (τ := τ) .tc main_v91_3) : Vec F S1x1024 .f32) := by
  obtain ⟨e0, e1⟩ := idx_in3_3 t
  funext y
  show V (Proc.devRef (τ := τ) .tc main_v91_3) (((cfg3.win 3).blk t).view.emb y) = V (Proc.devRef (τ := τ) .tc main_v91_3) y
  have hy0 : (y 0).val < 1 := (y 0).isLt
  have hy1 : (y 1).val < 1024 := (y 1).isLt
  have h0 : ((((cfg3.win 3).blk t).view.emb y) 0).val = win3_3.index t (0 : Fin 2) * 1 + 1 * (y 0).val := rfl
  have h1 : ((((cfg3.win 3).blk t).view.emb y) 1).val = win3_3.index t (1 : Fin 2) * 1024 + 1 * (y 1).val := rfl
  congr 1
  funext a; apply Fin.ext
  match a with
  | ⟨0, _⟩ => show ((((cfg3.win 3).blk t).view.emb y) 0).val = (y 0).val; rw [h0]; omega
  | ⟨1, _⟩ => show ((((cfg3.win 3).blk t).view.emb y) 1).val = (y 1).val; rw [h1]; omega

/-- Window 4's one block is its whole array. -/
theorem iblk3_whole_4 (V : Valuation τ sig (Elt F)) (t : Fin cfg3.N) :
    (iblk3 V 4 t : Vec F S1x1024 .f32) = (V (Proc.devRef (τ := τ) .tc main_v93) : Vec F S1x1024 .f32) := by
  obtain ⟨e0, e1⟩ := idx_in3_4 t
  funext y
  show V (Proc.devRef (τ := τ) .tc main_v93) (((cfg3.win 4).blk t).view.emb y) = V (Proc.devRef (τ := τ) .tc main_v93) y
  have hy0 : (y 0).val < 1 := (y 0).isLt
  have hy1 : (y 1).val < 1024 := (y 1).isLt
  have h0 : ((((cfg3.win 4).blk t).view.emb y) 0).val = win3_4.index t (0 : Fin 2) * 1 + 1 * (y 0).val := rfl
  have h1 : ((((cfg3.win 4).blk t).view.emb y) 1).val = win3_4.index t (1 : Fin 2) * 1024 + 1 * (y 1).val := rfl
  congr 1
  funext a; apply Fin.ext
  match a with
  | ⟨0, _⟩ => show ((((cfg3.win 4).blk t).view.emb y) 0).val = (y 0).val; rw [h0]; omega
  | ⟨1, _⟩ => show ((((cfg3.win 4).blk t).view.emb y) 1).val = (y 1).val; rw [h1]; omega

/-- Window 5's one block is its whole array. -/
theorem iblk3_whole_5 (V : Valuation τ sig (Elt F)) (t : Fin cfg3.N) :
    (iblk3 V 5 t : Vec F S1x1024 .f32) = (V (Proc.devRef (τ := τ) .tc main_v94) : Vec F S1x1024 .f32) := by
  obtain ⟨e0, e1⟩ := idx_in3_5 t
  funext y
  show V (Proc.devRef (τ := τ) .tc main_v94) (((cfg3.win 5).blk t).view.emb y) = V (Proc.devRef (τ := τ) .tc main_v94) y
  have hy0 : (y 0).val < 1 := (y 0).isLt
  have hy1 : (y 1).val < 1024 := (y 1).isLt
  have h0 : ((((cfg3.win 5).blk t).view.emb y) 0).val = win3_5.index t (0 : Fin 2) * 1 + 1 * (y 0).val := rfl
  have h1 : ((((cfg3.win 5).blk t).view.emb y) 1).val = win3_5.index t (1 : Fin 2) * 1024 + 1 * (y 1).val := rfl
  congr 1
  funext a; apply Fin.ext
  match a with
  | ⟨0, _⟩ => show ((((cfg3.win 5).blk t).view.emb y) 0).val = (y 0).val; rw [h0]; omega
  | ⟨1, _⟩ => show ((((cfg3.win 5).blk t).view.emb y) 1).val = (y 1).val; rw [h1]; omega

/-- Window 6's one block is its whole array. -/
theorem iblk3_whole_6 (V : Valuation τ sig (Elt F)) (t : Fin cfg3.N) :
    (iblk3 V 6 t : Vec F S1024x512 .f32) = (V (Proc.devRef (τ := τ) .tc main_arg27) : Vec F S1024x512 .f32) := by
  obtain ⟨e0, e1⟩ := idx_in3_6 t
  funext y
  show V (Proc.devRef (τ := τ) .tc main_arg27) (((cfg3.win 6).blk t).view.emb y) = V (Proc.devRef (τ := τ) .tc main_arg27) y
  have hy0 : (y 0).val < 1024 := (y 0).isLt
  have hy1 : (y 1).val < 512 := (y 1).isLt
  have h0 : ((((cfg3.win 6).blk t).view.emb y) 0).val = win3_6.index t (0 : Fin 2) * 1024 + 1 * (y 0).val := rfl
  have h1 : ((((cfg3.win 6).blk t).view.emb y) 1).val = win3_6.index t (1 : Fin 2) * 512 + 1 * (y 1).val := rfl
  congr 1
  funext a; apply Fin.ext
  match a with
  | ⟨0, _⟩ => show ((((cfg3.win 6).blk t).view.emb y) 0).val = (y 0).val; rw [h0]; omega
  | ⟨1, _⟩ => show ((((cfg3.win 6).blk t).view.emb y) 1).val = (y 1).val; rw [h1]; omega

/-- Window 7's one block is its whole array. -/
theorem iblk3_whole_7 (V : Valuation τ sig (Elt F)) (t : Fin cfg3.N) :
    (iblk3 V 7 t : Vec F S1024x512 .f32) = (V (Proc.devRef (τ := τ) .tc main_arg31) : Vec F S1024x512 .f32) := by
  obtain ⟨e0, e1⟩ := idx_in3_7 t
  funext y
  show V (Proc.devRef (τ := τ) .tc main_arg31) (((cfg3.win 7).blk t).view.emb y) = V (Proc.devRef (τ := τ) .tc main_arg31) y
  have hy0 : (y 0).val < 1024 := (y 0).isLt
  have hy1 : (y 1).val < 512 := (y 1).isLt
  have h0 : ((((cfg3.win 7).blk t).view.emb y) 0).val = win3_7.index t (0 : Fin 2) * 1024 + 1 * (y 0).val := rfl
  have h1 : ((((cfg3.win 7).blk t).view.emb y) 1).val = win3_7.index t (1 : Fin 2) * 512 + 1 * (y 1).val := rfl
  congr 1
  funext a; apply Fin.ext
  match a with
  | ⟨0, _⟩ => show ((((cfg3.win 7).blk t).view.emb y) 0).val = (y 0).val; rw [h0]; omega
  | ⟨1, _⟩ => show ((((cfg3.win 7).blk t).view.emb y) 1).val = (y 1).val; rw [h1]; omega

/-- Window 8's one block is its whole array. -/
theorem iblk3_whole_8 (V : Valuation τ sig (Elt F)) (t : Fin cfg3.N) :
    (iblk3 V 8 t : Vec F S1x512 .f32) = (V (Proc.devRef (τ := τ) .tc main_v95) : Vec F S1x512 .f32) := by
  obtain ⟨e0, e1⟩ := idx_in3_8 t
  funext y
  show V (Proc.devRef (τ := τ) .tc main_v95) (((cfg3.win 8).blk t).view.emb y) = V (Proc.devRef (τ := τ) .tc main_v95) y
  have hy0 : (y 0).val < 1 := (y 0).isLt
  have hy1 : (y 1).val < 512 := (y 1).isLt
  have h0 : ((((cfg3.win 8).blk t).view.emb y) 0).val = win3_8.index t (0 : Fin 2) * 1 + 1 * (y 0).val := rfl
  have h1 : ((((cfg3.win 8).blk t).view.emb y) 1).val = win3_8.index t (1 : Fin 2) * 512 + 1 * (y 1).val := rfl
  congr 1
  funext a; apply Fin.ext
  match a with
  | ⟨0, _⟩ => show ((((cfg3.win 8).blk t).view.emb y) 0).val = (y 0).val; rw [h0]; omega
  | ⟨1, _⟩ => show ((((cfg3.win 8).blk t).view.emb y) 1).val = (y 1).val; rw [h1]; omega

/-- Window 9's one block is its whole array. -/
theorem iblk3_whole_9 (V : Valuation τ sig (Elt F)) (t : Fin cfg3.N) :
    (iblk3 V 9 t : Vec F S1x512 .f32) = (V (Proc.devRef (τ := τ) .tc main_v92) : Vec F S1x512 .f32) := by
  obtain ⟨e0, e1⟩ := idx_in3_9 t
  funext y
  show V (Proc.devRef (τ := τ) .tc main_v92) (((cfg3.win 9).blk t).view.emb y) = V (Proc.devRef (τ := τ) .tc main_v92) y
  have hy0 : (y 0).val < 1 := (y 0).isLt
  have hy1 : (y 1).val < 512 := (y 1).isLt
  have h0 : ((((cfg3.win 9).blk t).view.emb y) 0).val = win3_9.index t (0 : Fin 2) * 1 + 1 * (y 0).val := rfl
  have h1 : ((((cfg3.win 9).blk t).view.emb y) 1).val = win3_9.index t (1 : Fin 2) * 512 + 1 * (y 1).val := rfl
  congr 1
  funext a; apply Fin.ext
  match a with
  | ⟨0, _⟩ => show ((((cfg3.win 9).blk t).view.emb y) 0).val = (y 0).val; rw [h0]; omega
  | ⟨1, _⟩ => show ((((cfg3.win 9).blk t).view.emb y) 1).val = (y 1).val; rw [h1]; omega

/-! ## The closed forms of the four output arrays at the ideal values -/

section Closed

variable (V : Valuation τ sig (Elt Ideal))

/-- The second block's result as the specification states it, of the six arrays the third launch reads it from. -/
def h2Of (V : Valuation τ sig (Elt Ideal)) : Cert.Spec.A2 16384 1024 :=
  (Cert.Spec.r3H2 (V (Proc.devRef (τ := τ) .tc main_v91_0)) (V (Proc.devRef (τ := τ) .tc main_v91_1)) (V (Proc.devRef (τ := τ) .tc main_v91_2)) (V (Proc.devRef (τ := τ) .tc main_v91_3)) (V (Proc.devRef (τ := τ) .tc main_v93)) (V (Proc.devRef (τ := τ) .tc main_v94)))

/-- The activation tile at point `t`, row `r`, is row `1024 t + r` of the second block's result. -/
theorem act3_apply (t : Fin cfg3.N) (r k : Fin 1024) (R : Fin 16384) (hR : R.val = 1024 * t.val + r.val) :
    act3 V t (ix2 r k) = h2Of V (ix2 R k) := by
  unfold act3
  refine (k3_pay11_apply (iblk3 V 2 t) (iblk3 V 3 t) (iblk3 V 4 t) (iblk3 V 5 t) (iblk3 V 1 t) (iblk3 V 0 t) r k).trans ?_
  rw [iblk3_whole_2 V t, iblk3_whole_3 V t, iblk3_whole_4 V t, iblk3_whole_5 V t, iblk3_row_1 V t r k R hR, iblk3_row_0 V t r k R hR]
  rfl

/-- The first weight copy is the weight array. -/
theorem sW3_eq : sW3 V = (V (Proc.devRef (τ := τ) .tc main_arg27)) := by
  unfold sW3
  rw [k3_pay7_eq, iblk3_whole_6 V t3_0]

/-- The second weight copy is the second weight array. -/
theorem sPW3_eq : sPW3 V = (V (Proc.devRef (τ := τ) .tc main_arg31)) := by
  unfold sPW3
  rw [k3_pay8_eq, iblk3_whole_7 V t3_0]

/-- The row of the product array at (R, c): the inner sum of the second block's result against the weights. -/
theorem gY3_apply (R : Fin 16384) (c : Fin 512) :
    gY3 V (ix2 R c) = ∑ k : Fin 1024, h2Of V (ix2 R k) * (V (Proc.devRef (τ := τ) .tc main_arg27)) (ix2 k c) := by
  have hR : R.val < 16384 := R.isLt
  have hl : locOfY (ix2 R c : S16384x512.Idx) = ix2 (⟨R.val % 1024, Nat.mod_lt _ (by decide)⟩ : Fin 1024) c :=
    funext fun a => by match a with | ⟨0, _⟩ => rfl | ⟨1, _⟩ => rfl
  have ht : R.val = 1024 * (tOfY (ix2 R c : S16384x512.Idx)).val + R.val % 1024 := by
    show R.val = 1024 * (R.val / 1024) + R.val % 1024; omega
  unfold gY3
  rw [hl]
  refine (k3_pay2_apply (act3 V (tOfY (ix2 R c : S16384x512.Idx))) (sW3 V) _ c).trans ?_
  refine Finset.sum_congr rfl fun k _ => ?_
  rw [act3_apply V _ _ k R ht, sW3_eq V]

/-- THE PRODUCT ARRAY after the third region is the specification's third layer of the second block's result. -/
theorem closed3_y3 :
    regAfter3 V (Proc.devRef (τ := τ) .tc main_v96_0) = Cert.Spec.r3Y3 (Cert.Spec.r3H2 (V (Proc.devRef (τ := τ) .tc main_v91_0)) (V (Proc.devRef (τ := τ) .tc main_v91_1)) (V (Proc.devRef (τ := τ) .tc main_v91_2)) (V (Proc.devRef (τ := τ) .tc main_v91_3)) (V (Proc.devRef (τ := τ) .tc main_v93)) (V (Proc.devRef (τ := τ) .tc main_v94))) (V (Proc.devRef (τ := τ) .tc main_arg27)) := by
  refine (regAfter3_10 V).trans ?_
  funext i
  obtain ⟨R, c, rfl⟩ : ∃ (R : Fin 16384) (c : Fin 512), i = ix2 R c := ⟨i 0, i 1, eq_ix2 i⟩
  refine (gY3_apply V R c).trans ?_
  show _ = Cert.Spec.zero + ∑ k : Fin 1024, h2Of V (ix2 R k) * (V (Proc.devRef (τ := τ) .tc main_arg27)) (ix2 k c)
  rw [Cert.Spec.zero_eq, zero_add]

/-- The row-sum array at row R: the lane sum of the projection (the second product plus its bias) times the output weights. -/
theorem gLo3_apply (R : Fin 16384) :
    gLo3 V (ix2 R 0) = ∑ c : Fin 512, ((∑ k : Fin 1024, h2Of V (ix2 R k) * (V (Proc.devRef (τ := τ) .tc main_arg31)) (ix2 k c)) + (V (Proc.devRef (τ := τ) .tc main_v95)) (ix2 0 c)) * (V (Proc.devRef (τ := τ) .tc main_v92)) (ix2 0 c) := by
  have hR : R.val < 16384 := R.isLt
  have hl : locOfLo (ix2 R 0 : S16384x1.Idx) = ix2 (⟨R.val % 1024, Nat.mod_lt _ (by decide)⟩ : Fin 1024) 0 :=
    funext fun a => by match a with | ⟨0, _⟩ => rfl | ⟨1, _⟩ => rfl
  have ht : R.val = 1024 * (tOfLo (ix2 R 0 : S16384x1.Idx)).val + R.val % 1024 := by
    show R.val = 1024 * (R.val / 1024) + R.val % 1024; omega
  unfold gLo3
  rw [hl]
  refine (k3_pay4_apply (act3 V (tOfLo (ix2 R 0 : S16384x1.Idx))) (sPW3 V) (iblk3 V 8 (tOfLo (ix2 R 0 : S16384x1.Idx))) (iblk3 V 9 (tOfLo (ix2 R 0 : S16384x1.Idx))) _).trans ?_
  rw [iblk3_whole_8 V _, iblk3_whole_9 V _, sPW3_eq V]
  refine Finset.sum_congr rfl fun c _ => ?_
  refine congrArg₂ (· * ·) (congrArg₂ (· + ·) (Finset.sum_congr rfl fun k _ => ?_) rfl) rfl
  rw [act3_apply V _ _ k R ht]

/-- THE ROW-SUM ARRAY after the third region is the specification's projection share, as one column. -/
theorem closed3_lo3 :
    regAfter3 V (Proc.devRef (τ := τ) .tc main_v96_1) = Cert.Spec.r3Lo (Cert.Spec.r3H2 (V (Proc.devRef (τ := τ) .tc main_v91_0)) (V (Proc.devRef (τ := τ) .tc main_v91_1)) (V (Proc.devRef (τ := τ) .tc main_v91_2)) (V (Proc.devRef (τ := τ) .tc main_v91_3)) (V (Proc.devRef (τ := τ) .tc main_v93)) (V (Proc.devRef (τ := τ) .tc main_v94))) (V (Proc.devRef (τ := τ) .tc main_arg31)) (V (Proc.devRef (τ := τ) .tc main_v95)) (V (Proc.devRef (τ := τ) .tc main_v92)) := by
  refine (regAfter3_11 V).trans ?_
  funext i
  obtain ⟨R, z, rfl⟩ : ∃ (R : Fin 16384) (z : Fin 1), i = ix2 R z := ⟨i 0, i 1, eq_ix2 i⟩
  obtain rfl : z = 0 := Subsingleton.elim _ _
  refine (gLo3_apply V R).trans ?_
  show _ = ∑ c : Fin 512, ((Cert.Spec.zero + ∑ k : Fin 1024, h2Of V (ix2 R k) * (V (Proc.devRef (τ := τ) .tc main_arg31)) (ix2 k c)) + (V (Proc.devRef (τ := τ) .tc main_v95)) (ix2 0 c)) * (V (Proc.devRef (τ := τ) .tc main_v92)) (ix2 0 c)
  rw [Cert.Spec.zero_eq]
  simp only [zero_add]

end Closed

end Cert.KernelIdeal.RegionVal

end
-- ==== Proof.RegionValK3IdealClosedAcc.lean ====
import proofs.«214388_g48842368090541_cont_8to1c4_19_37_alg».proof.Proof.RegionValK3IdealClosed

set_option maxRecDepth 16384

noncomputable section

open scoped BigOperators

namespace Cert.KernelIdeal.RegionVal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [∀ e, Nonempty (Elt F e)]
variable {Ix : Type} [DecidableEq Ix] {Name : Type} [DecidableEq Name] {U : Type} [URA U] {Lvl : Type} [Preorder Lvl]

local notation "𝕄" => MT nD τ sig Ix (Elt F) Name U Lvl

/-! ## The accumulators' closed forms: the sums over all 16384 rows, tile by tile -/

/-- A sum over the first `1024 (n + 1)` naturals is the sum over the first `1024 n` plus the next tile's 1024 terms. -/
theorem k3_range_tile (f : ℕ → EReal) (n : ℕ) :
    ∑ b ∈ Finset.range (1024 * (n + 1)), f b = ∑ b ∈ Finset.range (1024 * n), f b + ∑ r : Fin 1024, f (1024 * n + r.val) := by
  rw [show 1024 * (n + 1) = 1024 * n + 1024 by ring, Finset.sum_range_add]
  exact congrArg₂ (· + ·) rfl (Finset.sum_range fun x => f (1024 * n + x))

section ClosedAcc

variable (V : Valuation τ sig (Elt Ideal))

/-- The specification's third layer of the second block's result, of the arrays the third launch reads. -/
def k3_y3Of (V : Valuation τ sig (Elt Ideal)) : Cert.Spec.A2 16384 512 :=
  Cert.Spec.r3Y3 (h2Of V) (V (Proc.devRef (τ := τ) .tc main_arg27))

/-- Its entry (R, c): the inner sum (the zero accumulator word adds nothing). -/
theorem k3_y3Of_apply (R : Fin 16384) (c : Fin 512) :
    k3_y3Of V (ix2 R c) = ∑ k : Fin 1024, h2Of V (ix2 R k) * (V (Proc.devRef (τ := τ) .tc main_arg27)) (ix2 k c) := by
  show Cert.Spec.zero + ∑ k : Fin 1024, h2Of V (ix2 R k) * (V (Proc.devRef (τ := τ) .tc main_arg27)) (ix2 k c) = _
  rw [Cert.Spec.zero_eq, zero_add]

/-- Column `c` of the third layer read at a natural row (zero off the array). -/
def k3_y3n (V : Valuation τ sig (Elt Ideal)) (c : Fin 512) (b : ℕ) : EReal :=
  if h : b < 16384 then k3_y3Of V (ix2 ⟨b, h⟩ c) else 0

/-- Its square, as the second accumulator adds it. -/
def k3_y3sq (V : Valuation τ sig (Elt Ideal)) (c : Fin 512) (b : ℕ) : EReal := k3_y3n V c b * k3_y3n V c b

/-- Point `t`'s tile of the product, at its row `r` and column `c`, is the third layer's row `1024 t + r`. -/
theorem k3_tile_entry (t : Fin cfg3.N) (r : Fin 1024) (c : Fin 512) :
    (∑ k : Fin 1024, act3 V t (ix2 r k) * sW3 V (ix2 k c)) = k3_y3n V c (1024 * t.val + r.val) := by
  have ht : t.val < 16 := lt_of_lt_of_eq t.isLt (show cfg3.N = 16 from N_3)
  have hb : 1024 * t.val + r.val < 16384 := by have := r.isLt; omega
  unfold k3_y3n
  rw [dif_pos hb, k3_y3Of_apply]
  refine Finset.sum_congr rfl fun k _ => ?_
  rw [act3_apply V t r k ⟨1024 * t.val + r.val, hb⟩ rfl, sW3_eq V]

/-- The tile's column sums, of the product and of its square. -/
theorem k3_tile_sumS (t : Fin cfg3.N) (c : Fin 512) :
    (∑ r : Fin 1024, ∑ k : Fin 1024, act3 V t (ix2 r k) * sW3 V (ix2 k c)) = ∑ r : Fin 1024, k3_y3n V c (1024 * t.val + r.val) :=
  Finset.sum_congr rfl fun r _ => k3_tile_entry V t r c
theorem k3_tile_sumQ (t : Fin cfg3.N) (c : Fin 512) :
    (∑ r : Fin 1024, (∑ k : Fin 1024, act3 V t (ix2 r k) * sW3 V (ix2 k c)) * (∑ k : Fin 1024, act3 V t (ix2 r k) * sW3 V (ix2 k c)))
      = ∑ r : Fin 1024, k3_y3sq V c (1024 * t.val + r.val) :=
  Finset.sum_congr rfl fun r _ => by unfold k3_y3sq; rw [k3_tile_entry V t r c]

/-- THE FIRST ACCUMULATION IN CLOSED FORM, by induction over the points: after point `n` the accumulator holds the zero word plus the sum of the third layer's column over the first `1024 (n + 1)` rows. Only the associativity of the sum is used. -/
theorem accS3_closed : ∀ (n : ℕ) (h : n < cfg3.N) (c : Fin 512),
    accS3 V n h (ix2 0 c) = Cert.Spec.zero + ∑ b ∈ Finset.range (1024 * (n + 1)), k3_y3n V c b
  | 0, h, c => by
    show k3_pay5 (F := Ideal) (act3 V ⟨0, h⟩) (sW3 V) (k3_pay9 (F := Ideal)) (ix2 0 c) = _
    refine (k3_pay5_apply (act3 V ⟨0, h⟩) (sW3 V) (k3_pay9 (F := Ideal)) c).trans ?_
    refine congrArg₂ (· + ·) (k3_pay9_apply _) ?_
    rw [k3_tile_sumS V ⟨0, h⟩ c, k3_range_tile (k3_y3n V c) 0]
    simp only [Nat.mul_zero, Finset.range_zero, Finset.sum_empty, zero_add, Nat.zero_add]
  | n + 1, h, c => by
    show k3_pay5 (F := Ideal) (act3 V ⟨n + 1, h⟩) (sW3 V) (accS3 V n (Nat.lt_of_succ_lt h)) (ix2 0 c) = _
    refine (k3_pay5_apply (act3 V ⟨n + 1, h⟩) (sW3 V) (accS3 V n (Nat.lt_of_succ_lt h)) c).trans ?_
    rw [accS3_closed n (Nat.lt_of_succ_lt h) c, k3_tile_sumS V ⟨n + 1, h⟩ c, k3_range_tile (k3_y3n V c) (n + 1), add_assoc]

/-- THE ACCUMULATOR'S ARRAY after the third region, in the specification's form. -/
theorem closed3_s3 :
    regAfter3 V (Proc.devRef (τ := τ) .tc main_v96_2) = Cert.Spec.r3S (Cert.Spec.r3Y3 (Cert.Spec.r3H2 (V (Proc.devRef (τ := τ) .tc main_v91_0)) (V (Proc.devRef (τ := τ) .tc main_v91_1)) (V (Proc.devRef (τ := τ) .tc main_v91_2)) (V (Proc.devRef (τ := τ) .tc main_v91_3)) (V (Proc.devRef (τ := τ) .tc main_v93)) (V (Proc.devRef (τ := τ) .tc main_v94))) (V (Proc.devRef (τ := τ) .tc main_arg27))) := by
  refine (regAfter3_12 V).trans ?_
  funext i
  obtain ⟨z, c, rfl⟩ : ∃ (z : Fin 1) (c : Fin 512), i = ix2 z c := ⟨i 0, i 1, eq_ix2 i⟩
  obtain rfl : z = 0 := Subsingleton.elim _ _
  show gS3 V (ix2 0 c) = Cert.Spec.zero + ∑ b : Fin 16384, (k3_y3Of V (ix2 b c))
  unfold gS3
  rw [accS3_closed V 15 _ c]
  refine congrArg₂ (· + ·) rfl ?_
  rw [show 1024 * (15 + 1) = 16384 from rfl, Finset.sum_range]
  refine Finset.sum_congr rfl fun b _ => ?_
  unfold k3_y3n
  rw [dif_pos b.isLt]

/-- THE SECOND ACCUMULATION IN CLOSED FORM: the same induction for the squares. -/
theorem accQ3_closed : ∀ (n : ℕ) (h : n < cfg3.N) (c : Fin 512),
    accQ3 V n h (ix2 0 c) = Cert.Spec.zero + ∑ b ∈ Finset.range (1024 * (n + 1)), k3_y3sq V c b
  | 0, h, c => by
    show k3_pay6 (F := Ideal) (act3 V ⟨0, h⟩) (sW3 V) (k3_pay10 (F := Ideal)) (ix2 0 c) = _
    refine (k3_pay6_apply (act3 V ⟨0, h⟩) (sW3 V) (k3_pay10 (F := Ideal)) c).trans ?_
    refine congrArg₂ (· + ·) (k3_pay10_apply _) ?_
    rw [k3_tile_sumQ V ⟨0, h⟩ c, k3_range_tile (k3_y3sq V c) 0]
    simp only [Nat.mul_zero, Finset.range_zero, Finset.sum_empty, zero_add, Nat.zero_add]
  | n + 1, h, c => by
    show k3_pay6 (F := Ideal) (act3 V ⟨n + 1, h⟩) (sW3 V) (accQ3 V n (Nat.lt_of_succ_lt h)) (ix2 0 c) = _
    refine (k3_pay6_apply (act3 V ⟨n + 1, h⟩) (sW3 V) (accQ3 V n (Nat.lt_of_succ_lt h)) c).trans ?_
    rw [accQ3_closed n (Nat.lt_of_succ_lt h) c, k3_tile_sumQ V ⟨n + 1, h⟩ c, k3_range_tile (k3_y3sq V c) (n + 1), add_assoc]

/-- THE ACCUMULATOR'S ARRAY after the third region, in the specification's form. -/
theorem closed3_q3 :
    regAfter3 V (Proc.devRef (τ := τ) .tc main_v96_3) = Cert.Spec.r3Q (Cert.Spec.r3Y3 (Cert.Spec.r3H2 (V (Proc.devRef (τ := τ) .tc main_v91_0)) (V (Proc.devRef (τ := τ) .tc main_v91_1)) (V (Proc.devRef (τ := τ) .tc main_v91_2)) (V (Proc.devRef (τ := τ) .tc main_v91_3)) (V (Proc.devRef (τ := τ) .tc main_v93)) (V (Proc.devRef (τ := τ) .tc main_v94))) (V (Proc.devRef (τ := τ) .tc main_arg27))) := by
  refine (regAfter3_13 V).trans ?_
  funext i
  obtain ⟨z, c, rfl⟩ : ∃ (z : Fin 1) (c : Fin 512), i = ix2 z c := ⟨i 0, i 1, eq_ix2 i⟩
  obtain rfl : z = 0 := Subsingleton.elim _ _
  show gQ3 V (ix2 0 c) = Cert.Spec.zero + ∑ b : Fin 16384, (k3_y3Of V (ix2 b c)) * (k3_y3Of V (ix2 b c))
  unfold gQ3
  rw [accQ3_closed V 15 _ c]
  refine congrArg₂ (· + ·) rfl ?_
  rw [show 1024 * (15 + 1) = 16384 from rfl, Finset.sum_range]
  refine Finset.sum_congr rfl fun b _ => ?_
  unfold k3_y3sq k3_y3n
  rw [dif_pos b.isLt]

end ClosedAcc

end Cert.KernelIdeal.RegionVal

end
-- ==== Proof.KerValueFinal.lean ====
/-
  The kernel's result buffer holds the specification's kernel result: the value chain at the four launches' own
  valuation maps. Each launch's outputs are its closed form of the arrays it reads and it leaves every other buffer
  alone; the SparseCore call's results are the specification's three gathers under the precondition; the host lines'
  buffers are the specification's host functions of the arguments.
-/
import proofs.«214388_g48842368090541_cont_8to1c4_19_37_alg».proof.Proof.KerCompose3
import proofs.«214388_g48842368090541_cont_8to1c4_19_37_alg».proof.Proof.KernelRunValIdeal
import proofs.«214388_g48842368090541_cont_8to1c4_19_37_alg».proof.Proof.RegionValK4SpecIdeal
import proofs.«214388_g48842368090541_cont_8to1c4_19_37_alg».proof.Proof.RegionValK1X16Ideal
import proofs.«214388_g48842368090541_cont_8to1c4_19_37_alg».proof.Proof.RegionValK1AccIdeal
import proofs.«214388_g48842368090541_cont_8to1c4_19_37_alg».proof.Proof.RegionValK2IdealStep
import proofs.«214388_g48842368090541_cont_8to1c4_19_37_alg».proof.Proof.RegionValK2SpecIdeal
import proofs.«214388_g48842368090541_cont_8to1c4_19_37_alg».proof.Proof.RegionValK3IdealStep
import proofs.«214388_g48842368090541_cont_8to1c4_19_37_alg».proof.Proof.RegionValK3IdealClosed
import proofs.«214388_g48842368090541_cont_8to1c4_19_37_alg».proof.Proof.RegionValK3IdealClosedAcc

noncomputable section

namespace Cert.Proof.KernelIdealSc

open Cert.KernelIdeal Cert.KernelIdeal.Gen Cert.KernelIdeal.MainShape Cert.KernelIdeal.KerValue Cert.KernelIdeal.RegionVal
open Idealize.ShloMosaic Idealize.ShloMosaic.TcCoe Idealize.SL.Sem Idealize.ShloMosaic.StableHlo

/-- THE KERNEL'S RESULT under the precondition. -/
theorem kernel_value_spec [Cert.Pre_input_domain.Facts] (m : (ℓ : Loc nD τ sig) → Buf (Elt Ideal) ℓ) (h : Cert.Pre_KernelIdeal m) (c : Dev nD) :
    VEnd (F := Ideal) m regAfterAll (fun d => uoOf d (fiOf m d) (fbOf m d)) (fun d => moOf d (fiOf m d) (fbOf m d))
        (fun d => coOf d (fiOf m d) (fcOf m d)) c (Proc.devRef .tc main_v101)
      = Cert.Spec.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) :=
  kernel_value_of_pre m h c regAfterAll
    (fun V => regAfter1_x16 V) (fun V => regAfter1_s1 V) (fun V => regAfter1_q1 V) (fun V r hr => regAfter1_keep_ref V r hr)
    (fun V => regAfter2_h1 V) (fun V => regAfter2_y2 V) (fun V => regAfter2_s2 V) (fun V => regAfter2_q2 V) (fun V r hr => regAfter2_keep_ref V r hr)
    (fun V => closed3_y3 V) (fun V => closed3_lo3 V) (fun V => closed3_s3 V) (fun V => closed3_q3 V) (fun V r hr => regAfter3_keep_ref V r hr)
    (fun V => regAfter4_out V) (fun V r hr => regAfter4_keep_ref V r hr)

end Cert.Proof.KernelIdealSc

end
-- ==== Proof.LibBatchNorm.lean ====
/-
  Batch normalisation over the extended reals, independent of any program. For a finite family of reals: how the mean and
  the centred second moment behave under a constant shift, the second moment as the mean of the squares less the square of
  the mean, and the agreement of two spellings of the normalised value — the textbook one (centre, divide by the square
  root of the variance plus a positive constant, scale, shift) and the folded one (a scale from the reciprocal square root,
  a shift from the mean and the scale, one multiply-add) — as computed with the extended reals' exact operations, their
  division, square root and reciprocal square root read as the ideal float operations read them. Every quantity is a
  coerced real, so no infinity arises: the variance plus the constant is positive, hence the root is a positive real.
-/
import Mathlib.Tactic
import Idealize.ShloMosaic.PureOps.Ideal

noncomputable section

namespace Cert.Lib

open Idealize.ShloMosaic
open scoped BigOperators

/-! ## Sums of coerced reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N : ℕ}

/-! ## Mean and centred second moment -/

/-- The mean of a finite family of reals. -/
def mean (y : Fin N → ℝ) : ℝ := (∑ i, y i) / N

/-- The centred second moment (the biased variance) of a finite family of reals. -/
def cvar (y : Fin N → ℝ) : ℝ := (∑ i, (y i - mean y) ^ 2) / N

/-- The sum is the count times the mean. -/
theorem sum_eq_mul_mean (hN : 0 < N) (y : Fin N → ℝ) : ∑ i, y i = N * mean y := by
  have hN' : (N : ℝ) ≠ 0 := by exact_mod_cast hN.ne'
  unfold mean; field_simp

/-- A constant shift moves the mean by the constant. -/
theorem mean_add_const (hN : 0 < N) (y : Fin N → ℝ) (b : ℝ) : mean (fun i => y i + b) = mean y + b := by
  have hN' : (N : ℝ) ≠ 0 := by exact_mod_cast hN.ne'
  unfold mean
  rw [Finset.sum_add_distrib, Finset.sum_const, Finset.card_univ, Fintype.card_fin, nsmul_eq_mul]
  field_simp

/-- A constant shift leaves the centred second moment alone: the bias before a batch normalisation cancels. -/
theorem cvar_add_const (hN : 0 < N) (y : Fin N → ℝ) (b : ℝ) : cvar (fun i => y i + b) = cvar y := by
  unfold cvar
  rw [mean_add_const hN]
  congr 1
  exact Finset.sum_congr rfl fun i _ => by ring

/-- The centred second moment is the mean of the squares less the square of the mean. -/
theorem cvar_eq (hN : 0 < N) (y : Fin N → ℝ) : cvar y = (∑ i, y i ^ 2) / N - mean y ^ 2 := by
  have hN' : (N : ℝ) ≠ 0 := by exact_mod_cast hN.ne'
  have hexp : ∀ i, (y i - mean y) ^ 2 = y i ^ 2 - 2 * mean y * y i + mean y ^ 2 := fun i => by ring
  have key : ∑ i, (y i - mean y) ^ 2 = ∑ i, y i ^ 2 - 2 * mean y * ∑ i, y i + N * mean y ^ 2 := by
    simp only [hexp, Finset.sum_add_distrib, Finset.sum_sub_distrib, ← Finset.mul_sum, Finset.sum_const, Finset.card_univ,
      Fintype.card_fin, nsmul_eq_mul]
  unfold cvar
  rw [key, sum_eq_mul_mean hN y]
  field_simp
  ring

/-- The same with the squares written as products, the way a kernel multiplies a value by itself. -/
theorem cvar_eq_mul (hN : 0 < N) (y : Fin N → ℝ) : cvar y = (∑ i, y i * y i) * (1 / (N : ℝ)) - mean y * mean y := by
  rw [cvar_eq hN]
  simp only [pow_two]
  ring

/-- The centred second moment is not negative. -/
theorem cvar_nonneg (y : Fin N → ℝ) : 0 ≤ cvar y :=
  div_nonneg (Finset.sum_nonneg fun i _ => sq_nonneg _) (Nat.cast_nonneg N)

/-- The mean of the squares less the square of the mean is not negative. -/
theorem mean_sq_sub_sq_mean_nonneg (hN : 0 < N) (y : Fin N → ℝ) : 0 ≤ (∑ i, y i ^ 2) / N - mean y ^ 2 :=
  cvar_eq hN y ▸ cvar_nonneg y

/-- The coercion commutes with `max`: it is monotone. -/
theorem coe_max (a b : ℝ) : ((max a b : ℝ) : EReal) = max (a : EReal) (b : EReal) :=
  EReal.coe_strictMono.monotone.map_max

/-! ## The normalised value, and its two spellings on the extended reals -/

/-- The batch-normalised value at index `i`: centred, divided by the root of the variance plus `ε`, scaled by `γ`,
    shifted by `β`. -/
def bnVal (y : Fin N → ℝ) (γ β ε : ℝ) (i : Fin N) : ℝ := (y i - mean y) * (Real.sqrt (cvar y + ε))⁻¹ * γ + β

/-- The variance plus a positive constant is positive, so its root is not zero. -/
theorem sqrt_cvar_add_ne_zero (y : Fin N → ℝ) {ε : ℝ} (hε : 0 < ε) : Real.sqrt (cvar y + ε) ≠ 0 :=
  (Real.sqrt_pos.mpr (add_pos_of_nonneg_of_pos (cvar_nonneg y) hε)).ne'

/-- The mean as a host computes it on the extended reals: the coerced sum divided by the coerced count. -/
theorem div_sum_eq_mean (hN : 0 < N) (y : Fin N → ℝ) : Ideal.div ((∑ j, y j : ℝ) : EReal) ((N : ℝ) : EReal) = ((mean y : ℝ) : EReal) := by
  have hN' : (N : ℝ) ≠ 0 := by exact_mod_cast hN.ne'
  rw [Ideal.div_coe hN', ← EReal.coe_mul]; congr 1; unfold mean; ring

/-- The variance as a host computes it on the extended reals: the coerced sum of the squared (as products) deviations from
    the mean, divided by the coerced count. -/
theorem div_sum_eq_cvar (hN : 0 < N) (y : Fin N → ℝ) :
    Ideal.div ((∑ j, (y j - mean y) * (y j - mean y) : ℝ) : EReal) ((N : ℝ) : EReal) = ((cvar y : ℝ) : EReal) := by
  have hN' : (N : ℝ) ≠ 0 := by exact_mod_cast hN.ne'
  rw [Ideal.div_coe hN', ← EReal.coe_mul]; congr 1; unfold cvar; simp only [pow_two]; ring

/-- THE TEXTBOOK SPELLING, on the shifted family `y + b`, with its own mean and variance: centre, divide by the root of the
    variance plus `ε`, scale, shift — on the extended reals, division and root as the ideal operations read them. It is the
    normalised value of the UNSHIFTED family: the shift cancels. -/
theorem bn_reference (hN : 0 < N) (y : Fin N → ℝ) (b γ β ε : ℝ) (hε : 0 < ε) (i : Fin N) :
    Ideal.div (((y i + b : ℝ) : EReal) - ((mean (fun j => y j + b) : ℝ) : EReal))
        (Ideal.sqrt (((cvar (fun j => y j + b) : ℝ) : EReal) + (ε : EReal))) * (γ : EReal) + (β : EReal)
      = ((bnVal y γ β ε i : ℝ) : EReal) := by
  have hv : 0 < cvar y + ε := add_pos_of_nonneg_of_pos (cvar_nonneg y) hε
  rw [mean_add_const hN, cvar_add_const hN, ← EReal.coe_add (cvar y) ε, Ideal.sqrt_coe, if_neg (not_lt.mpr hv.le),
    Ideal.div_coe (sqrt_cvar_add_ne_zero y hε)]
  unfold bnVal
  norm_cast
  rw [one_div]
  ring

/-- THE FOLDED SPELLING, on the unshifted family, from its sum and its sum of squares: the mean as the sum times `1/N`, the
    variance as the sum of squares times `1/N` less the mean times itself, a scale `rsqrt (variance + ε) · γ`, a shift
    `β - mean · scale`, and one multiply-add — on the extended reals, the reciprocal square root as the ideal operation
    reads it. -/
theorem bn_kernel (hN : 0 < N) (y : Fin N → ℝ) (γ β ε : ℝ) (hε : 0 < ε) (i : Fin N) :
    (y i : EReal) * (Ideal.rsqrt ((((∑ j, y j * y j : ℝ) : EReal) * ((1 / (N : ℝ) : ℝ) : EReal)
            - (((∑ j, y j : ℝ) : EReal) * ((1 / (N : ℝ) : ℝ) : EReal)) * (((∑ j, y j : ℝ) : EReal) * ((1 / (N : ℝ) : ℝ) : EReal)))
          + (ε : EReal)) * (γ : EReal))
        + ((β : EReal) - (((∑ j, y j : ℝ) : EReal) * ((1 / (N : ℝ) : ℝ) : EReal))
            * (Ideal.rsqrt ((((∑ j, y j * y j : ℝ) : EReal) * ((1 / (N : ℝ) : ℝ) : EReal)
                - (((∑ j, y j : ℝ) : EReal) * ((1 / (N : ℝ) : ℝ) : EReal)) * (((∑ j, y j : ℝ) : EReal) * ((1 / (N : ℝ) : ℝ) : EReal)))
              + (ε : EReal)) * (γ : EReal)))
      = ((bnVal y γ β ε i : ℝ) : EReal) := by
  have hv : 0 < cvar y + ε := add_pos_of_nonneg_of_pos (cvar_nonneg y) hε
  have hμ : ((∑ j, y j : ℝ) : EReal) * ((1 / (N : ℝ) : ℝ) : EReal) = ((mean y : ℝ) : EReal) := by
    rw [← EReal.coe_mul]; congr 1; unfold mean; ring
  have hvar : ((∑ j, y j * y j : ℝ) : EReal) * ((1 / (N : ℝ) : ℝ) : EReal) - ((mean y : ℝ) : EReal) * ((mean y : ℝ) : EReal)
      = ((cvar y : ℝ) : EReal) := by
    rw [← EReal.coe_mul, ← EReal.coe_mul, ← EReal.coe_sub, cvar_eq_mul hN]
  rw [hμ, hvar, ← EReal.coe_add (cvar y) ε, Ideal.rsqrt_coe, if_neg (not_lt.mpr hv.le), if_neg hv.ne']
  unfold bnVal
  norm_cast
  ring

/-- THE TWO SPELLINGS AGREE: the textbook one on the shifted family and the folded one on the unshifted family are one
    extended real. -/
theorem bn_agree (hN : 0 < N) (y : Fin N → ℝ) (b γ β ε : ℝ) (hε : 0 < ε) (i : Fin N) :
    Ideal.div (((y i + b : ℝ) : EReal) - ((mean (fun j => y j + b) : ℝ) : EReal))
        (Ideal.sqrt (((cvar (fun j => y j + b) : ℝ) : EReal) + (ε : EReal))) * (γ : EReal) + (β : EReal)
      = (y i : EReal) * (Ideal.rsqrt ((((∑ j, y j * y j : ℝ) : EReal) * ((1 / (N : ℝ) : ℝ) : EReal)
              - (((∑ j, y j : ℝ) : EReal) * ((1 / (N : ℝ) : ℝ) : EReal)) * (((∑ j, y j : ℝ) : EReal) * ((1 / (N : ℝ) : ℝ) : EReal)))
            + (ε : EReal)) * (γ : EReal))
          + ((β : EReal) - (((∑ j, y j : ℝ) : EReal) * ((1 / (N : ℝ) : ℝ) : EReal))
              * (Ideal.rsqrt ((((∑ j, y j * y j : ℝ) : EReal) * ((1 / (N : ℝ) : ℝ) : EReal)
                  - (((∑ j, y j : ℝ) : EReal) * ((1 / (N : ℝ) : ℝ) : EReal)) * (((∑ j, y j : ℝ) : EReal) * ((1 / (N : ℝ) : ℝ) : EReal)))
                + (ε : EReal)) * (γ : EReal))) :=
  (bn_reference hN y b γ β ε hε i).trans (bn_kernel hN y γ β ε hε i).symm

/-- … and so do they under the rectifier `max · 0`, which is then the coerced real rectified. -/
theorem bn_relu_reference (hN : 0 < N) (y : Fin N → ℝ) (b γ β ε : ℝ) (hε : 0 < ε) (i : Fin N) :
    max (Ideal.div (((y i + b : ℝ) : EReal) - ((mean (fun j => y j + b) : ℝ) : EReal))
        (Ideal.sqrt (((cvar (fun j => y j + b) : ℝ) : EReal) + (ε : EReal))) * (γ : EReal) + (β : EReal)) 0
      = ((max (bnVal y γ β ε i) 0 : ℝ) : EReal) := by
  rw [bn_reference hN y b γ β ε hε i, coe_max, EReal.coe_zero]

theorem bn_relu_kernel (hN : 0 < N) (y : Fin N → ℝ) (γ β ε : ℝ) (hε : 0 < ε) (i : Fin N) :
    max ((y i : EReal) * (Ideal.rsqrt ((((∑ j, y j * y j : ℝ) : EReal) * ((1 / (N : ℝ) : ℝ) : EReal)
            - (((∑ j, y j : ℝ) : EReal) * ((1 / (N : ℝ) : ℝ) : EReal)) * (((∑ j, y j : ℝ) : EReal) * ((1 / (N : ℝ) : ℝ) : EReal)))
          + (ε : EReal)) * (γ : EReal))
        + ((β : EReal) - (((∑ j, y j : ℝ) : EReal) * ((1 / (N : ℝ) : ℝ) : EReal))
            * (Ideal.rsqrt ((((∑ j, y j * y j : ℝ) : EReal) * ((1 / (N : ℝ) : ℝ) : EReal)
                - (((∑ j, y j : ℝ) : EReal) * ((1 / (N : ℝ) : ℝ) : EReal)) * (((∑ j, y j : ℝ) : EReal) * ((1 / (N : ℝ) : ℝ) : EReal)))
              + (ε : EReal)) * (γ : EReal)))) 0
      = ((max (bnVal y γ β ε i) 0 : ℝ) : EReal) := by
  rw [bn_kernel hN y γ β ε hε i, coe_max, EReal.coe_zero]

/-! ## A column split into a part and its remainder -/

/-- A finite value split into itself and the remainder `x - x`, each multiplied by one weight and the products added, is
    the value times the weight: the remainder is zero, and zero times any extended real is zero. -/
theorem split_remainder_mul (x : ℝ) (w : EReal) : (x : EReal) * w + ((x : EReal) - (x : EReal)) * w = (x : EReal) * w := by
  rw [← EReal.coe_sub, sub_self, EReal.coe_zero, zero_mul, add_zero]

end Cert.Lib

end
-- ==== Proof.LibMlpAlgebra.lean ====
/-
  Real algebra of the multi-layer network's index bookkeeping, independent of any program: a last layer applied to a sum of
  two rows; a first layer whose input row and weight rows are permuted (and one column split in two) the same way; and a
  bilinear cross term computed through three matrix products with reshaped and zero-padded selector matrices. Each identity
  is stated over finite families of reals, with its reading on the extended reals over coerced reals.
-/
import Mathlib.Tactic
import proofs.«214388_g48842368090541_cont_8to1c4_19_37_alg».proof.Proof.LibBatchNorm

noncomputable section

namespace Cert.Lib

open scoped BigOperators

/-! ## The cross term through three matrix products -/

/-- The cross term as the reference computes it: the outer product of a 64-vector and a 32-vector, flattened row-major
    (column `c` is entry `c / 32` of the first times entry `c % 32` of the second), against a 2048-row weight matrix. -/
def crossRef (u : Fin 64 → ℝ) (g : Fin 32 → ℝ) (W : Fin 2048 → Fin 32 → ℝ) (o : Fin 32) : ℝ :=
  ∑ c : Fin 2048, (u ⟨c.val / 32, by have := c.isLt; omega⟩ * g ⟨c.val % 32, Nat.mod_lt _ (by norm_num)⟩) * W c o

/-- The weight matrix reshaped to 64 rows of 1024: entry `(i, c')` is row `32 i + c' / 32`, column `c' % 32`. -/
def crossT (W : Fin 2048 → Fin 32 → ℝ) (i : Fin 64) (c' : Fin 1024) : ℝ :=
  W ⟨32 * i.val + c'.val / 32, by have := i.isLt; have := c'.isLt; omega⟩ ⟨c'.val % 32, Nat.mod_lt _ (by norm_num)⟩

/-- The first product: the 64-vector against the reshaped weights. -/
def crossTmp (u : Fin 64 → ℝ) (W : Fin 2048 → Fin 32 → ℝ) (c' : Fin 1024) : ℝ := ∑ i, u i * crossT W i c'

/-- The 32-vector placed at lanes 32–63 of a 128-wide row, zero elsewhere. -/
def padMid (g : Fin 32 → ℝ) (r : Fin 128) : ℝ := if h : 32 ≤ r.val ∧ r.val < 64 then g ⟨r.val - 32, by omega⟩ else 0

/-- The first selector: row `r` (of 128) selects column `c'` (of 1024) when `r` is lane `32 + c' / 32`. -/
def crossQ (r : Fin 128) (c' : Fin 1024) : ℝ := if 32 ≤ r.val ∧ r.val < 64 ∧ r.val - 32 = c'.val / 32 then 1 else 0

/-- The second product: the padded 32-vector against the first selector. -/
def crossGvr (g : Fin 32 → ℝ) (c' : Fin 1024) : ℝ := ∑ r : Fin 128, padMid g r * crossQ r c'

/-- The second selector: column `c'` (of 1024) lands on lane `n` (of 128) when `n` is lane `64 + c' % 32`. -/
def crossP (c' : Fin 1024) (n : Fin 128) : ℝ := if 64 ≤ n.val ∧ n.val < 96 ∧ c'.val % 32 = n.val - 64 then 1 else 0

/-- The third product: the elementwise product of the first two against the second selector. -/
def crossW (u : Fin 64 → ℝ) (g : Fin 32 → ℝ) (W : Fin 2048 → Fin 32 → ℝ) (n : Fin 128) : ℝ :=
  ∑ c' : Fin 1024, (crossTmp u W c' * crossGvr g c') * crossP c' n

/-- The second product repeats each entry of the 32-vector 32 times: column `c'` holds entry `c' / 32`. -/
theorem crossGvr_eq (g : Fin 32 → ℝ) (c' : Fin 1024) : crossGvr g c' = g ⟨c'.val / 32, by have := c'.isLt; omega⟩ := by
  have hc := c'.isLt
  unfold crossGvr
  rw [Finset.sum_eq_single (⟨32 + c'.val / 32, by omega⟩ : Fin 128)]
  · unfold padMid crossQ
    rw [dif_pos (by constructor <;> simp <;> omega), if_pos (by refine ⟨?_, ?_, ?_⟩ <;> simp <;> omega), mul_one]
    congr 1
    ext; simp
  · intro r _ hr
    unfold crossQ
    rw [if_neg, mul_zero]
    rintro ⟨h1, h2, h3⟩
    exact hr (Fin.ext (by simp; omega))
  · intro h; exact absurd (Finset.mem_univ _) h

/-- 1024 columns as 32 blocks of 32: the block and the place in it. -/
def split32 : Fin 1024 ≃ Fin 32 × Fin 32 where
  toFun c := (⟨c.val / 32, by have := c.isLt; omega⟩, ⟨c.val % 32, Nat.mod_lt _ (by norm_num)⟩)
  invFun p := ⟨32 * p.1.val + p.2.val, by have := p.1.isLt; have := p.2.isLt; omega⟩
  left_inv c := by ext; simp; omega
  right_inv p := by
    have h1 := p.1.isLt; have h2 := p.2.isLt
    ext <;> simp <;> omega

/-- 2048 columns as 64 blocks of 32. -/
def split64 : Fin 2048 ≃ Fin 64 × Fin 32 where
  toFun c := (⟨c.val / 32, by have := c.isLt; omega⟩, ⟨c.val % 32, Nat.mod_lt _ (by norm_num)⟩)
  invFun p := ⟨32 * p.1.val + p.2.val, by have := p.1.isLt; have := p.2.isLt; omega⟩
  left_inv c := by ext; simp; omega
  right_inv p := by
    have h1 := p.1.isLt; have h2 := p.2.isLt
    ext <;> simp <;> omega

/-- THE CROSS TERM: lane `64 + o` of the third product is the reference's cross term at `o`. -/
theorem crossW_eq (u : Fin 64 → ℝ) (g : Fin 32 → ℝ) (W : Fin 2048 → Fin 32 → ℝ) (o : Fin 32) :
    crossW u g W ⟨64 + o.val, by have := o.isLt; omega⟩ = crossRef u g W o := by
  have ho := o.isLt
  -- the kernel's side over blocks: only the place `o` of each block survives the second selector
  have hK : crossW u g W ⟨64 + o.val, by omega⟩ = ∑ j : Fin 32, ∑ i : Fin 64, (u i * g j) * W (split64.symm (i, j)) o := by
    unfold crossW
    rw [← split32.symm.sum_comp, Fintype.sum_prod_type]
    refine Finset.sum_congr rfl fun j _ => ?_
    have hj := j.isLt
    rw [Finset.sum_eq_single o]
    · rw [crossGvr_eq]
      unfold crossP crossTmp crossT
      rw [if_pos (by refine ⟨?_, ?_, ?_⟩ <;> simp [split32] <;> omega), mul_one, Finset.sum_mul]
      refine Finset.sum_congr rfl fun i _ => ?_
      have hi := i.isLt
      have e1 : (⟨(split32.symm (j, o)).val / 32, by have := (split32.symm (j, o)).isLt; omega⟩ : Fin 32) = j := by
        ext; simp [split32] <;> omega
      have e2 : (⟨32 * i.val + (split32.symm (j, o)).val / 32, by have := (split32.symm (j, o)).isLt; omega⟩ : Fin 2048) = split64.symm (i, j) := by
        ext; simp [split32, split64] <;> omega
      have e3 : (⟨(split32.symm (j, o)).val % 32, Nat.mod_lt _ (by norm_num)⟩ : Fin 32) = o := by
        ext; simp [split32] <;> omega
      rw [e1, e2, e3]
      ring
    · intro o' _ ho'
      unfold crossP
      rw [if_neg, mul_zero]
      rintro ⟨-, -, h3⟩
      have ho'' := o'.isLt
      exact ho' (Fin.ext (by simp [split32] at h3; omega))
    · intro h; exact absurd (Finset.mem_univ _) h
  -- the reference's side over blocks
  have hR : crossRef u g W o = ∑ i : Fin 64, ∑ j : Fin 32, (u i * g j) * W (split64.symm (i, j)) o := by
    unfold crossRef
    rw [← split64.symm.sum_comp, Fintype.sum_prod_type]
    refine Finset.sum_congr rfl fun i _ => Finset.sum_congr rfl fun j _ => ?_
    have hi := i.isLt; have hj := j.isLt
    have e1 : (⟨(split64.symm (i, j)).val / 32, by have := (split64.symm (i, j)).isLt; omega⟩ : Fin 64) = i := by
      ext; simp [split64] <;> omega
    have e2 : (⟨(split64.symm (i, j)).val % 32, Nat.mod_lt _ (by norm_num)⟩ : Fin 32) = j := by
      ext; simp [split64] <;> omega
    rw [e1, e2]
  rw [hK, hR, Finset.sum_comm]

/-- Off lanes 64–95 the third product is zero. -/
theorem crossW_zero (u : Fin 64 → ℝ) (g : Fin 32 → ℝ) (W : Fin 2048 → Fin 32 → ℝ) (n : Fin 128) (hn : ¬ (64 ≤ n.val ∧ n.val < 96)) :
    crossW u g W n = 0 := by
  unfold crossW
  refine Finset.sum_eq_zero fun c' _ => ?_
  unfold crossP
  rw [if_neg (fun h => hn ⟨h.1, h.2.1⟩), mul_zero]

/-- The three products on the extended reals, over coerced reals, are the coerced third product. -/
theorem crossW_coe (u : Fin 64 → ℝ) (g : Fin 32 → ℝ) (W : Fin 2048 → Fin 32 → ℝ) (n : Fin 128) :
    ∑ c' : Fin 1024, ((∑ i : Fin 64, (u i : EReal) * (crossT W i c' : EReal))
        * (∑ r : Fin 128, (padMid g r : EReal) * (crossQ r c' : EReal))) * (crossP c' n : EReal)
      = ((crossW u g W n : ℝ) : EReal) := by
  simp only [← EReal.coe_mul, ← coe_sum]
  rfl

/-- The reference's cross term on the extended reals, over coerced reals, is the coerced cross term. -/
theorem crossRef_coe (u : Fin 64 → ℝ) (g : Fin 32 → ℝ) (W : Fin 2048 → Fin 32 → ℝ) (o : Fin 32) :
    ∑ c : Fin 2048, ((u ⟨c.val / 32, by have := c.isLt; omega⟩ : EReal) * (g ⟨c.val % 32, Nat.mod_lt _ (by norm_num)⟩ : EReal)) * (W c o : EReal)
      = ((crossRef u g W o : ℝ) : EReal) := by
  simp only [← EReal.coe_mul, ← coe_sum]
  rfl

/-- THE CROSS TERM on the extended reals: lane `64 + o` of the three products is the reference's cross term at `o`. -/
theorem crossW_eq_coe (u : Fin 64 → ℝ) (g : Fin 32 → ℝ) (W : Fin 2048 → Fin 32 → ℝ) (o : Fin 32) :
    ∑ c' : Fin 1024, ((∑ i : Fin 64, (u i : EReal) * (crossT W i c' : EReal))
        * (∑ r : Fin 128, (padMid g r : EReal) * (crossQ r c' : EReal))) * (crossP c' ⟨64 + o.val, by have := o.isLt; omega⟩ : EReal)
      = ∑ c : Fin 2048, ((u ⟨c.val / 32, by have := c.isLt; omega⟩ : EReal) * (g ⟨c.val % 32, Nat.mod_lt _ (by norm_num)⟩ : EReal)) * (W c o : EReal) := by
  rw [crossW_coe, crossRef_coe, crossW_eq]

/-! ## The last layer on a sum of two rows -/

/-- A weight row applied to the sum of two rows, plus a bias: the two rows' products summed apart, then the bias. -/
theorem last_layer_split {n : ℕ} (r p w : Fin n → ℝ) (b : ℝ) :
    ∑ k, (r k + p k) * w k + b = (∑ k, r k * w k) + (∑ k, p k * w k) + b := by
  rw [← Finset.sum_add_distrib]
  congr 1
  exact Finset.sum_congr rfl fun k _ => by ring

/-- The same on the extended reals, over coerced reals. -/
theorem last_layer_split_coe {n : ℕ} (r p w : Fin n → ℝ) (b : ℝ) :
    (∑ k, ((r k : EReal) + (p k : EReal)) * (w k : EReal)) + (b : EReal)
      = ((∑ k, (r k : EReal) * (w k : EReal)) + (∑ k, (p k : EReal) * (w k : EReal))) + (b : EReal) := by
  simp only [← EReal.coe_add, ← EReal.coe_mul, ← coe_sum]
  rw [last_layer_split]

/-! ## The permuted first layer -/

/-- A finite family read at a natural index: zero outside its range. -/
def at0 {n : ℕ} (f : Fin n → ℝ) (k : ℕ) : ℝ := if h : k < n then f ⟨k, h⟩ else 0

theorem at0_val {n : ℕ} (f : Fin n → ℝ) (c : Fin n) : at0 f c.val = f c := by
  unfold at0; rw [dif_pos c.isLt]

/-- A sum over a finite family is the sum over the naturals below its size of the family read at a natural index. -/
theorem sum_eq_sum_range_at0 {n : ℕ} (f g : Fin n → ℝ) : ∑ c, f c * g c = ∑ k ∈ Finset.range n, at0 f k * at0 g k := by
  rw [← Fin.sum_univ_eq_sum_range (fun k => at0 f k * at0 g k) n]
  exact Finset.sum_congr rfl fun c _ => by rw [at0_val, at0_val]

/-- The column of the 226-wide row (embedding of the first kind 0–63, three small embeddings 64–95, embedding of the second
    kind 96–159, a 32-wide product 160–191, two scalars 192 and 193, a 32-wide cross term 194–225) that column `c'` of the
    256-wide permuted row carries: 0–63 stay; 64–127 carry 96–159; 128–159 carry 64–95; 160–191 stay; 192–223 carry
    194–225; 224 and 225 both carry 192 (the scalar split in two); 226 carries 193 (227–255 are padding, not read). -/
def permCol (c' : ℕ) : ℕ :=
  if c' < 64 then c' else if c' < 128 then c' + 32 else if c' < 160 then c' - 64 else if c' < 192 then c'
  else if c' < 224 then c' + 2 else if c' < 226 then 192 else 193

/-- The permuted weight column at a natural index: the weight of the carried column; zero on the padding. -/
def permWN (w : Fin 226 → ℝ) (c' : ℕ) : ℝ := if c' < 227 then at0 w (permCol c') else 0

/-- The permuted row at a natural index: the carried column's value, but `hi` at 224 and `lo` at 225 (the two parts the
    scalar of column 192 is split into); zero on the padding. -/
def permXN (x : Fin 226 → ℝ) (hi lo : ℝ) (c' : ℕ) : ℝ :=
  if c' = 224 then hi else if c' = 225 then lo else if c' < 227 then at0 x (permCol c') else 0

/-- The permuted weight column, as a family over the 256 columns. -/
def permW (w : Fin 226 → ℝ) (c' : Fin 256) : ℝ := permWN w c'.val

/-- The permuted row, as a family over the 256 columns. -/
def permX (x : Fin 226 → ℝ) (hi lo : ℝ) (c' : Fin 256) : ℝ := permXN x hi lo c'.val

/-- A sum over the 226 columns, cut into runs of 64, 32, 64, 32, 1, 1 and 32 consecutive columns. -/
theorem sum_range_226 (f : ℕ → ℝ) : ∑ k ∈ Finset.range 226, f k
    = (∑ k ∈ Finset.range 64, f k) + (∑ k ∈ Finset.range 32, f (64 + k)) + (∑ k ∈ Finset.range 64, f (64 + 32 + k))
      + (∑ k ∈ Finset.range 32, f (64 + 32 + 64 + k)) + f (64 + 32 + 64 + 32 + 0) + f (64 + 32 + 64 + 32 + 1 + 0)
      + ∑ k ∈ Finset.range 32, f (64 + 32 + 64 + 32 + 1 + 1 + k) := by
  rw [show (226 : ℕ) = 64 + 32 + 64 + 32 + 1 + 1 + 32 from rfl, Finset.sum_range_add, Finset.sum_range_add, Finset.sum_range_add,
    Finset.sum_range_add, Finset.sum_range_add, Finset.sum_range_add, Finset.sum_range_one, Finset.sum_range_one]

/-- A sum over the 256 columns, cut into runs of 64, 64, 32, 32, 32, 1, 1, 1 and 29 consecutive columns. -/
theorem sum_range_256 (f : ℕ → ℝ) : ∑ k ∈ Finset.range 256, f k
    = (∑ k ∈ Finset.range 64, f k) + (∑ k ∈ Finset.range 64, f (64 + k)) + (∑ k ∈ Finset.range 32, f (64 + 64 + k))
      + (∑ k ∈ Finset.range 32, f (64 + 64 + 32 + k)) + (∑ k ∈ Finset.range 32, f (64 + 64 + 32 + 32 + k))
      + f (64 + 64 + 32 + 32 + 32 + 0) + f (64 + 64 + 32 + 32 + 32 + 1 + 0) + f (64 + 64 + 32 + 32 + 32 + 1 + 1 + 0)
      + ∑ k ∈ Finset.range 29, f (64 + 64 + 32 + 32 + 32 + 1 + 1 + 1 + k) := by
  rw [show (256 : ℕ) = 64 + 64 + 32 + 32 + 32 + 1 + 1 + 1 + 29 from rfl, Finset.sum_range_add, Finset.sum_range_add, Finset.sum_range_add,
    Finset.sum_range_add, Finset.sum_range_add, Finset.sum_range_add, Finset.sum_range_add, Finset.sum_range_add,
    Finset.sum_range_one, Finset.sum_range_one, Finset.sum_range_one]

/-- THE PERMUTED FIRST LAYER: if the two parts add up to the scalar of column 192, the permuted row against the permuted
    weight column sums to the row against the weight column. Both sums are cut into the same runs of consecutive columns. -/
theorem perm_first_layer (x w : Fin 226 → ℝ) (hi lo : ℝ) (h : hi + lo = x ⟨192, by norm_num⟩) :
    ∑ c, x c * w c = ∑ c', permX x hi lo c' * permW w c' := by
  have hL : ∑ c, x c * w c = ∑ k ∈ Finset.range 226, at0 x k * at0 w k := sum_eq_sum_range_at0 x w
  have hR : ∑ c' : Fin 256, permX x hi lo c' * permW w c' = ∑ k ∈ Finset.range 256, permXN x hi lo k * permWN w k :=
    Fin.sum_univ_eq_sum_range (fun k => permXN x hi lo k * permWN w k) 256
  rw [hL, hR]
  rw [sum_range_226, sum_range_256]
  -- run by run
  have r0 : ∑ k ∈ Finset.range 64, permXN x hi lo k * permWN w k = ∑ k ∈ Finset.range 64, at0 x k * at0 w k :=
    Finset.sum_congr rfl fun k hk => by
      have hk' := Finset.mem_range.mp hk
      have e : permCol k = k := by unfold permCol; split_ifs <;> omega
      unfold permXN permWN; rw [if_neg (by omega), if_neg (by omega), if_pos (by omega), if_pos (by omega), e]
  have r1 : ∑ k ∈ Finset.range 64, permXN x hi lo (64 + k) * permWN w (64 + k)
      = ∑ k ∈ Finset.range 64, at0 x (64 + 32 + k) * at0 w (64 + 32 + k) :=
    Finset.sum_congr rfl fun k hk => by
      have hk' := Finset.mem_range.mp hk
      have e : permCol (64 + k) = 64 + 32 + k := by unfold permCol; split_ifs <;> omega
      unfold permXN permWN; rw [if_neg (by omega), if_neg (by omega), if_pos (by omega), if_pos (by omega), e]
  have r2 : ∑ k ∈ Finset.range 32, permXN x hi lo (64 + 64 + k) * permWN w (64 + 64 + k)
      = ∑ k ∈ Finset.range 32, at0 x (64 + k) * at0 w (64 + k) :=
    Finset.sum_congr rfl fun k hk => by
      have hk' := Finset.mem_range.mp hk
      have e : permCol (64 + 64 + k) = 64 + k := by unfold permCol; split_ifs <;> omega
      unfold permXN permWN; rw [if_neg (by omega), if_neg (by omega), if_pos (by omega), if_pos (by omega), e]
  have r3 : ∑ k ∈ Finset.range 32, permXN x hi lo (64 + 64 + 32 + k) * permWN w (64 + 64 + 32 + k)
      = ∑ k ∈ Finset.range 32, at0 x (64 + 32 + 64 + k) * at0 w (64 + 32 + 64 + k) :=
    Finset.sum_congr rfl fun k hk => by
      have hk' := Finset.mem_range.mp hk
      have e : permCol (64 + 64 + 32 + k) = 64 + 32 + 64 + k := by unfold permCol; split_ifs <;> omega
      unfold permXN permWN; rw [if_neg (by omega), if_neg (by omega), if_pos (by omega), if_pos (by omega), e]
  have r4 : ∑ k ∈ Finset.range 32, permXN x hi lo (64 + 64 + 32 + 32 + k) * permWN w (64 + 64 + 32 + 32 + k)
      = ∑ k ∈ Finset.range 32, at0 x (64 + 32 + 64 + 32 + 1 + 1 + k) * at0 w (64 + 32 + 64 + 32 + 1 + 1 + k) :=
    Finset.sum_congr rfl fun k hk => by
      have hk' := Finset.mem_range.mp hk
      have e : permCol (64 + 64 + 32 + 32 + k) = 64 + 32 + 64 + 32 + 1 + 1 + k := by unfold permCol; split_ifs <;> omega
      unfold permXN permWN; rw [if_neg (by omega), if_neg (by omega), if_pos (by omega), if_pos (by omega), e]
  have r5 : permXN x hi lo (64 + 64 + 32 + 32 + 32 + 0) * permWN w (64 + 64 + 32 + 32 + 32 + 0) = hi * at0 w (64 + 32 + 64 + 32 + 0) := by
    have e : permCol (64 + 64 + 32 + 32 + 32 + 0) = 64 + 32 + 64 + 32 + 0 := by unfold permCol; split_ifs <;> omega
    unfold permXN permWN; rw [if_pos (by norm_num), if_pos (by norm_num), e]
  have r6 : permXN x hi lo (64 + 64 + 32 + 32 + 32 + 1 + 0) * permWN w (64 + 64 + 32 + 32 + 32 + 1 + 0) = lo * at0 w (64 + 32 + 64 + 32 + 0) := by
    have e : permCol (64 + 64 + 32 + 32 + 32 + 1 + 0) = 64 + 32 + 64 + 32 + 0 := by unfold permCol; split_ifs <;> omega
    unfold permXN permWN; rw [if_neg (by norm_num), if_pos (by norm_num), if_pos (by norm_num), e]
  have r7 : permXN x hi lo (64 + 64 + 32 + 32 + 32 + 1 + 1 + 0) * permWN w (64 + 64 + 32 + 32 + 32 + 1 + 1 + 0)
      = at0 x (64 + 32 + 64 + 32 + 1 + 0) * at0 w (64 + 32 + 64 + 32 + 1 + 0) := by
    have e : permCol (64 + 64 + 32 + 32 + 32 + 1 + 1 + 0) = 64 + 32 + 64 + 32 + 1 + 0 := by unfold permCol; split_ifs <;> omega
    unfold permXN permWN; rw [if_neg (by norm_num), if_neg (by norm_num), if_pos (by norm_num), if_pos (by norm_num), e]
  have r8 : ∑ k ∈ Finset.range 29, permXN x hi lo (64 + 64 + 32 + 32 + 32 + 1 + 1 + 1 + k) * permWN w (64 + 64 + 32 + 32 + 32 + 1 + 1 + 1 + k) = 0 :=
    Finset.sum_eq_zero fun k hk => by
      unfold permXN permWN; rw [if_neg (by omega), if_neg (by omega), if_neg (by omega), if_neg (by omega), mul_zero]
  have hx : at0 x (64 + 32 + 64 + 32 + 0) = hi + lo := by
    rw [h]; unfold at0; rw [dif_pos (by norm_num)]
  rw [r0, r1, r2, r3, r4, r5, r6, r7, r8, hx]
  ring

/-- The same against a weight matrix, column by column. -/
theorem perm_first_layer_col {M : ℕ} (x : Fin 226 → ℝ) (W : Fin 226 → Fin M → ℝ) (hi lo : ℝ) (h : hi + lo = x ⟨192, by norm_num⟩) (n : Fin M) :
    ∑ c, x c * W c n = ∑ c', permX x hi lo c' * permW (fun c => W c n) c' :=
  perm_first_layer x (fun c => W c n) hi lo h

/-- On the extended reals, over coerced reals. -/
theorem perm_first_layer_coe (x w : Fin 226 → ℝ) (hi lo : ℝ) (h : hi + lo = x ⟨192, by norm_num⟩) :
    ∑ c, (x c : EReal) * (w c : EReal) = ∑ c', (permX x hi lo c' : EReal) * (permW w c' : EReal) := by
  simp only [← EReal.coe_mul, ← coe_sum]
  rw [perm_first_layer x w hi lo h]

end Cert.Lib

end
-- ==== Proof.BridgeBase.lean ====
/-
  The common ground of the kernel's and the reference's computations on the extended reals: the literal words as reals; the
  extended reals that are coerced reals, closed under the exact operations and finite sums; and ONE batch-norm block — the
  reference's (mean and variance by division, the root, the quotient) on a column shifted by a bias, against the kernel's
  (sum and sum of squares times the reciprocal count, the reciprocal root, one multiply-add) on the unshifted column — index
  by index, for columns whose entries are coerced reals.
-/
import proofs.«214388_g48842368090541_cont_8to1c4_19_37_alg».proof.Proof.KSpec
import proofs.«214388_g48842368090541_cont_8to1c4_19_37_alg».proof.Proof.LibBatchNorm
import proofs.«214388_g48842368090541_cont_8to1c4_19_37_alg».proof.Proof.LibMlpAlgebra

noncomputable section

open scoped BigOperators

namespace Cert.Spec

open Idealize.ShloMosaic Idealize.ShloMosaic.ValueIdx Cert.Lib

/-! ## The literal words -/

theorem kcount_eq : count = ((16384 : ℝ) : EReal) := by
  unfold count; simp [Ideal.ofBits, Ideal.ieee, -EReal.coe_mul]; norm_num
theorem c14_eq : c14 = ((1 / (16384 : ℝ) : ℝ) : EReal) := by
  unfold c14; simp [Ideal.ofBits, Ideal.ieee, -EReal.coe_mul]; norm_num
theorem one_eq : one = ((1 : ℝ) : EReal) := by
  unfold one; simp [Ideal.ofBits, Ideal.ieee, -EReal.coe_mul]; norm_num
/-- The epsilon word is a positive real. -/
theorem eps_pos : ∃ e : ℝ, 0 < e ∧ eps = (e : EReal) := by
  unfold eps; simp [Ideal.ofBits, Ideal.ieee, -EReal.coe_mul]

/-! ## Coerced reals -/

/-- An extended real that is a coerced real. -/
def IsR (x : EReal) : Prop := ∃ r : ℝ, x = (r : EReal)

theorem isR_coe (r : ℝ) : IsR (r : EReal) := ⟨r, rfl⟩
theorem isR_zero : IsR zero := ⟨0, by rw [zero_eq, EReal.coe_zero]⟩
theorem isR_zero' : IsR (0 : EReal) := ⟨0, EReal.coe_zero.symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  obtain ⟨a, rfl⟩ := hx; obtain ⟨b, rfl⟩ := hy; exact ⟨Max.max a b, (coe_max a b).symm⟩
theorem isR_sum {ι : Type} (s : Finset ι) (f : ι → EReal) (h : ∀ i ∈ s, IsR (f i)) : IsR (∑ i ∈ s, f i) := by
  classical
  induction s using Finset.induction_on with
  | empty => rw [Finset.sum_empty]; exact isR_zero'
  | insert a s ha ih =>
    rw [Finset.sum_insert ha]
    exact (h a (Finset.mem_insert_self a s)).add (ih fun i hi => h i (Finset.mem_insert_of_mem hi))

/-- A family of coerced reals is the coercion of a real family. -/
theorem exists_real {ι : Type} (f : ι → EReal) (h : ∀ i, IsR (f i)) : ∃ g : ι → ℝ, ∀ i, f i = (g i : EReal) :=
  ⟨fun i => (h i).choose, fun i => (h i).choose_spec⟩

/-- A matrix product of coerced reals is a coerced real. -/
theorem isR_kdot {M K N : Nat} (x : A2 M K) (W : A2 K N) (hx : ∀ i, IsR (x i)) (hW : ∀ i, IsR (W i)) (i) : IsR (kdot x W i) :=
  isR_zero.add (isR_sum _ _ fun k _ => (hx _).mul (hW _))

/-- So is the reference's dense layer. -/
theorem isR_dense {M K N : Nat} (x : A2 M K) (W : A2 K N) (b : A1 N) (hx : ∀ i, IsR (x i)) (hW : ∀ i, IsR (W i)) (hb : ∀ i, IsR (b i)) (i) :
    IsR (dense x W b i) :=
  (isR_sum _ _ fun k _ => (hx _).mul (hW _)).add (hb _)

/-- The kernel's product is the reference's dense layer less its bias. -/
theorem dense_eq_kdot_add {M K N : Nat} (x : A2 M K) (W : A2 K N) (b : A1 N) (i) : dense x W b i = kdot x W i + b (ix1 (i 1)) := by
  unfold dense kdot; rw [zero_eq, zero_add]

/-- The count and its reciprocal, with the count spelt as the cast of the natural number. -/
theorem kcount_eq' : count = (((16384 : ℕ) : ℝ) : EReal) := by rw [kcount_eq]; norm_num
theorem c14_eq' : c14 = ((1 / ((16384 : ℕ) : ℝ) : ℝ) : EReal) := by rw [c14_eq]; norm_num

/-! ## One batch-norm block -/

set_option maxRecDepth 8192 in
/-- ONE BLOCK, at row `b0` and column `n`. For a column array `Y` of coerced reals and a bias, scale and shift of coerced
    reals: the reference's normalise–scale–shift–rectify of the BIASED array is the kernel's multiply-add–rectify of the
    unbiased one under the scale and shift it derives from the column sums and sums of squares; and the common value is a
    coerced real. -/
theorem bn_block_at {N : Nat} (Y : A2 16384 N) (bias g beta : A1 N) (hY : ∀ i, IsR (Y i)) (hb : ∀ j, IsR (bias j))
    (hg : ∀ j, IsR (g j)) (hbeta : ∀ j, IsR (beta j)) (b0 : Fin 16384) (n : Fin N) :
    normRelu (fun i => Y i + bias (ix1 (i 1))) g beta (ix2 b0 n)
        = kNormRelu Y (kScale (kVar (kQ Y) (kMu (kS Y))) g) (kShift beta (kMu (kS Y)) (kScale (kVar (kQ Y) (kMu (kS Y))) g)) (ix2 b0 n)
      ∧ IsR (normRelu (fun i => Y i + bias (ix1 (i 1))) g beta (ix2 b0 n)) := by
  obtain ⟨y, hy⟩ : ∃ y : Fin 16384 → ℝ, ∀ b, Y (ix2 b n) = (y b : EReal) :=
    ⟨fun b => (hY (ix2 b n)).choose, fun b => (hY (ix2 b n)).choose_spec⟩
  obtain ⟨bn, hbn⟩ := hb (ix1 n)
  obtain ⟨gn, hgn⟩ := hg (ix1 n)
  obtain ⟨betan, hbetan⟩ := hbeta (ix1 n)
  obtain ⟨e, he, hee⟩ := eps_pos
  have hN : 0 < 16384 := by norm_num
  have hmean : colMean (fun i => Y i + bias (ix1 (i 1))) (ix1 n) = ((mean (fun b => y b + bn) : ℝ) : EReal) := by
    show Ideal.div (zero + ∑ b : Fin 16384, (Y (ix2 b n) + bias (ix1 n))) count = _
    rw [zero_eq, zero_add, kcount_eq', show (∑ b : Fin 16384, (Y (ix2 b n) + bias (ix1 n))) = ((∑ b : Fin 16384, (y b + bn) : ℝ) : EReal) from by
      rw [coe_sum]; exact Finset.sum_congr rfl fun b _ => by rw [hy, hbn, EReal.coe_add]]
    exact div_sum_eq_mean hN _
  have hvar : colVar (fun i => Y i + bias (ix1 (i 1))) (ix1 n) = ((cvar (fun b => y b + bn) : ℝ) : EReal) := by
    show Ideal.div (zero + ∑ b : Fin 16384, ((Y (ix2 b n) + bias (ix1 n)) - colMean (fun i => Y i + bias (ix1 (i 1))) (ix1 n))
        * ((Y (ix2 b n) + bias (ix1 n)) - colMean (fun i => Y i + bias (ix1 (i 1))) (ix1 n))) (count - ddof) = _
    rw [zero_eq, zero_add, kcount_eq', ddof_eq, sub_zero, hmean,
      show (∑ b : Fin 16384, ((Y (ix2 b n) + bias (ix1 n)) - ((mean (fun b => y b + bn) : ℝ) : EReal))
            * ((Y (ix2 b n) + bias (ix1 n)) - ((mean (fun b => y b + bn) : ℝ) : EReal)))
          = ((∑ b : Fin 16384, ((y b + bn) - mean (fun b => y b + bn)) * ((y b + bn) - mean (fun b => y b + bn)) : ℝ) : EReal) from by
        rw [coe_sum]; exact Finset.sum_congr rfl fun b _ => by rw [hy, hbn, ← EReal.coe_add, ← EReal.coe_sub, ← EReal.coe_mul]]
    exact div_sum_eq_cvar hN _
  have href : normRelu (fun i => Y i + bias (ix1 (i 1))) g beta (ix2 b0 n) = ((Max.max (bnVal y gn betan e b0) 0 : ℝ) : EReal) := by
    show Max.max (Ideal.div ((Y (ix2 b0 n) + bias (ix1 n)) - colMean (fun i => Y i + bias (ix1 (i 1))) (ix1 n))
        (Ideal.sqrt (colVar (fun i => Y i + bias (ix1 (i 1))) (ix1 n) + eps)) * g (ix1 n) + beta (ix1 n)) zero = _
    rw [hmean, hvar, hy, hbn, hgn, hbetan, zero_eq, hee, ← EReal.coe_add (y b0) bn]
    exact bn_relu_reference hN y bn gn betan e he b0
  have hS : kS Y (ix1 n) = ((∑ b, y b : ℝ) : EReal) := by
    show zero + ∑ b : Fin 16384, Y (ix2 b n) = _
    rw [zero_eq, zero_add, coe_sum]; exact Finset.sum_congr rfl fun b _ => hy b
  have hQ : kQ Y (ix1 n) = ((∑ b, y b * y b : ℝ) : EReal) := by
    show zero + ∑ b : Fin 16384, Y (ix2 b n) * Y (ix2 b n) = _
    rw [zero_eq, zero_add, coe_sum]; exact Finset.sum_congr rfl fun b _ => by rw [hy, ← EReal.coe_mul]
  have hker : kNormRelu Y (kScale (kVar (kQ Y) (kMu (kS Y))) g) (kShift beta (kMu (kS Y)) (kScale (kVar (kQ Y) (kMu (kS Y))) g)) (ix2 b0 n)
      = ((Max.max (bnVal y gn betan e b0) 0 : ℝ) : EReal) := by
    show Max.max (Y (ix2 b0 n) * (Ideal.rsqrt ((kQ Y (ix1 n) * c14 - (kS Y (ix1 n) * c14) * (kS Y (ix1 n) * c14)) + eps) * g (ix1 n))
        + (beta (ix1 n) - (kS Y (ix1 n) * c14) * (Ideal.rsqrt ((kQ Y (ix1 n) * c14 - (kS Y (ix1 n) * c14) * (kS Y (ix1 n) * c14)) + eps) * g (ix1 n)))) zero = _
    rw [hS, hQ, hy, hgn, hbetan, zero_eq, hee, c14_eq']
    exact bn_relu_kernel hN y gn betan e he b0
  exact ⟨href.trans hker.symm, href ▸ isR_coe _⟩

/-- ONE BLOCK, at any index. -/
theorem bn_block {N : Nat} (Y : A2 16384 N) (bias g beta : A1 N) (hY : ∀ i, IsR (Y i)) (hb : ∀ j, IsR (bias j))
    (hg : ∀ j, IsR (g j)) (hbeta : ∀ j, IsR (beta j)) (i : (⟨2, ![16384, N]⟩ : Shape).Idx) :
    normRelu (fun i => Y i + bias (ix1 (i 1))) g beta i
        = kNormRelu Y (kScale (kVar (kQ Y) (kMu (kS Y))) g) (kShift beta (kMu (kS Y)) (kScale (kVar (kQ Y) (kMu (kS Y))) g)) i
      ∧ IsR (normRelu (fun i => Y i + bias (ix1 (i 1))) g beta i) := by
  rw [eq_ix2 i]; exact bn_block_at Y bias g beta hY hb hg hbeta (i 0) (i 1)

end Cert.Spec

end
-- ==== Proof.BridgeLayers.lean ====
/-
  The second and third batch-norm blocks and the output layer, kernel against reference, from a common input array of
  coerced reals: a dense layer is the matrix product plus its bias, so the reference's block on the biased layer is the
  kernel's on the unbiased one; the skip path is added alike; the output layer of a sum of two arrays is the two lane sums
  added.
-/
import proofs.«214388_g48842368090541_cont_8to1c4_19_37_alg».proof.Proof.BridgeBase

noncomputable section

open scoped BigOperators

namespace Cert.Spec

open Idealize.ShloMosaic Idealize.ShloMosaic.ValueIdx Cert.Lib

/-- A dense layer is the matrix product plus the bias, as arrays. -/
theorem dense_eq_kdot {M K N : Nat} (x : A2 M K) (W : A2 K N) (b : A1 N) : dense x W b = fun i => kdot x W i + b (ix1 (i 1)) :=
  funext fun i => dense_eq_kdot_add x W b i

/-- A BLOCK WITH A SKIP PATH: the reference's normalised rectified dense layer plus a skip array is the kernel's
    scaled, shifted, rectified matrix product plus the same array; the value is a coerced real. -/
theorem block_skip {K N : Nat} (Hin : A2 16384 K) (W : A2 K N) (bias g beta : A1 N) (S : A2 16384 N)
    (hH : ∀ i, IsR (Hin i)) (hW : ∀ i, IsR (W i)) (hb : ∀ j, IsR (bias j)) (hg : ∀ j, IsR (g j)) (hbeta : ∀ j, IsR (beta j))
    (hS : ∀ i, IsR (S i)) (i : (⟨2, ![16384, N]⟩ : Shape).Idx) :
    normRelu (dense Hin W bias) g beta i + S i
        = kNormRelu (kdot Hin W) (kScale (kVar (kQ (kdot Hin W)) (kMu (kS (kdot Hin W)))) g)
            (kShift beta (kMu (kS (kdot Hin W))) (kScale (kVar (kQ (kdot Hin W)) (kMu (kS (kdot Hin W)))) g)) i + S i
      ∧ IsR (normRelu (dense Hin W bias) g beta i + S i) := by
  rw [dense_eq_kdot]
  obtain ⟨h1, h2⟩ := bn_block (kdot Hin W) bias g beta (isR_kdot Hin W hH hW) hb hg hbeta i
  exact ⟨by rw [h1], h2.add (hS i)⟩

/-- THE SECOND BLOCK, as arrays. -/
theorem layer2 (H1 : A2 16384 1024) (b2W : A2 1024 1024) (b2b b2g b2beta : A1 1024)
    (hH : ∀ i, IsR (H1 i)) (hW : ∀ i, IsR (b2W i)) (hb : ∀ j, IsR (b2b j)) (hg : ∀ j, IsR (b2g j)) (hbeta : ∀ j, IsR (b2beta j)) :
    h2 (y2 H1 b2W b2b) b2g b2beta H1
        = kH2 (kY2 H1 b2W) (kScale (kVar (kQ2 (kY2 H1 b2W)) (kMu (kS2 (kY2 H1 b2W)))) b2g)
            (kShift b2beta (kMu (kS2 (kY2 H1 b2W))) (kScale (kVar (kQ2 (kY2 H1 b2W)) (kMu (kS2 (kY2 H1 b2W)))) b2g)) H1
      ∧ ∀ i, IsR (h2 (y2 H1 b2W b2b) b2g b2beta H1 i) := by
  have h := fun i => block_skip H1 b2W b2b b2g b2beta H1 hH hW hb hg hbeta hH i
  exact ⟨funext fun i => (h i).1, fun i => (h i).2⟩

/-- THE THIRD BLOCK AND THE OUTPUT LAYER, as arrays: the reference's output layer on the block plus the projection is the
    kernel's two lane sums and the bias. -/
theorem layer3_out (H2 : A2 16384 1024) (b3W : A2 1024 512) (b3b b3g b3beta : A1 512) (b3pW : A2 1024 512) (b3pb : A1 512)
    (outW : A2 512 1) (outb : A1 1)
    (hH : ∀ i, IsR (H2 i)) (hW : ∀ i, IsR (b3W i)) (hb : ∀ j, IsR (b3b j)) (hg : ∀ j, IsR (b3g j)) (hbeta : ∀ j, IsR (b3beta j))
    (hpW : ∀ i, IsR (b3pW i)) (hpb : ∀ j, IsR (b3pb j)) (hoW : ∀ i, IsR (outW i)) (hob : ∀ j, IsR (outb j)) :
    out (logits (h3 (y3 H2 b3W b3b) b3g b3beta H2 b3pW b3pb) outW outb)
      = kOut (kH3r (kY3 H2 b3W) (kScale (kVar (kQ3 (kY3 H2 b3W)) (kMu (kS3 (kY3 H2 b3W)))) b3g)
            (kShift b3beta (kMu (kS3 (kY3 H2 b3W))) (kScale (kVar (kQ3 (kY3 H2 b3W)) (kMu (kS3 (kY3 H2 b3W)))) b3g)))
          (kOw outW) (kLo3 (kY3p H2 b3pW b3pb) (kOw outW)) outb := by
  funext j
  -- the block's values, row (j 0), as reals; equal on the two sides
  have hblk := fun k : Fin 512 => bn_block (kdot H2 b3W) b3b b3g b3beta (isR_kdot H2 b3W hH hW) hb hg hbeta (ix2 (j 0) k)
  obtain ⟨r, hr⟩ : ∃ r : Fin 512 → ℝ, ∀ k, normRelu (fun i => kdot H2 b3W i + b3b (ix1 (i 1))) b3g b3beta (ix2 (j 0) k) = (r k : EReal) :=
    ⟨fun k => (hblk k).2.choose, fun k => (hblk k).2.choose_spec⟩
  obtain ⟨p, hp⟩ : ∃ p : Fin 512 → ℝ, ∀ k, dense H2 b3pW b3pb (ix2 (j 0) k) = (p k : EReal) :=
    ⟨fun k => (isR_dense H2 b3pW b3pb hH hpW hpb (ix2 (j 0) k)).choose, fun k => (isR_dense H2 b3pW b3pb hH hpW hpb (ix2 (j 0) k)).choose_spec⟩
  obtain ⟨w, hw⟩ : ∃ w : Fin 512 → ℝ, ∀ k, outW (ix2 k 0) = (w k : EReal) :=
    ⟨fun k => (hoW (ix2 k 0)).choose, fun k => (hoW (ix2 k 0)).choose_spec⟩
  obtain ⟨ob, hob'⟩ := hob (ix1 0)
  have hL : out (logits (h3 (y3 H2 b3W b3b) b3g b3beta H2 b3pW b3pb) outW outb) j
      = (∑ k : Fin 512, ((r k : EReal) + (p k : EReal)) * (w k : EReal)) + (ob : EReal) := by
    show (∑ k : Fin 512, (normRelu (dense H2 b3W b3b) b3g b3beta (ix2 (j 0) k) + dense H2 b3pW b3pb (ix2 (j 0) k)) * outW (ix2 k 0))
        + outb (ix1 0) = _
    rw [dense_eq_kdot H2 b3W b3b, hob']
    congr 1
    exact Finset.sum_congr rfl fun k _ => by rw [hr, hp, hw]
  have hR : kOut (kH3r (kY3 H2 b3W) (kScale (kVar (kQ3 (kY3 H2 b3W)) (kMu (kS3 (kY3 H2 b3W)))) b3g)
            (kShift b3beta (kMu (kS3 (kY3 H2 b3W))) (kScale (kVar (kQ3 (kY3 H2 b3W)) (kMu (kS3 (kY3 H2 b3W)))) b3g)))
          (kOw outW) (kLo3 (kY3p H2 b3pW b3pb) (kOw outW)) outb j
      = ((∑ k : Fin 512, (r k : EReal) * (w k : EReal)) + (∑ k : Fin 512, (p k : EReal) * (w k : EReal))) + (ob : EReal) := by
    show ((∑ k : Fin 512, kNormRelu (kdot H2 b3W) (kScale (kVar (kQ (kdot H2 b3W)) (kMu (kS (kdot H2 b3W)))) b3g)
            (kShift b3beta (kMu (kS (kdot H2 b3W))) (kScale (kVar (kQ (kdot H2 b3W)) (kMu (kS (kdot H2 b3W)))) b3g)) (ix2 (j 0) k) * outW (ix2 k 0))
        + ∑ k : Fin 512, (kdot H2 b3pW (ix2 (j 0) k) + b3pb (ix1 k)) * outW (ix2 k 0)) + outb (ix1 0) = _
    rw [hob']
    congr 2
    · exact Finset.sum_congr rfl fun k _ => by rw [← (hblk k).1, hr, hw]
    · exact Finset.sum_congr rfl fun k _ => by rw [← hp, hw, dense_eq_kdot_add]
  rw [hL, hR]
  exact last_layer_split_coe r p w ob

end Cert.Spec

end
-- ==== Proof.BridgeTop.lean ====
/-
  The kernel's result is the reference's, from the first layer on: given that the kernel's 256-wide feature row against a
  permuted weight matrix is the reference's 226-wide row against the matrix (the feature rows' relation, proved apart), the
  first block with its projection, the second block with its skip path, the third block with its projection and the
  output layer agree stage by stage, every intermediate array being of coerced reals.
-/
import proofs.«214388_g48842368090541_cont_8to1c4_19_37_alg».proof.Proof.BridgeLayers

noncomputable section

open scoped BigOperators

namespace Cert.Spec

open Idealize.ShloMosaic Idealize.ShloMosaic.ValueIdx Cert.Lib

/-- THE FIRST BLOCK, as arrays, from the feature rows' relation: for a 226-wide array `X` of coerced reals and a 256-wide
    array `X16` whose product with a permuted weight matrix is `X`'s with the matrix. -/
theorem layer1 (X : A2 16384 226) (X16 : A2 16384 256) (b1W : A2 226 1024) (b1b b1g b1beta : A1 1024) (b1pW : A2 226 1024) (b1pb : A1 1024)
    (hX : ∀ i, IsR (X i))
    (hfeat : ∀ W : A2 226 1024, (∀ i, IsR (W i)) → kdot X16 (kPermW W) = kdot X W)
    (hW : ∀ i, IsR (b1W i)) (hb : ∀ j, IsR (b1b j)) (hg : ∀ j, IsR (b1g j)) (hbeta : ∀ j, IsR (b1beta j))
    (hpW : ∀ i, IsR (b1pW i)) (hpb : ∀ j, IsR (b1pb j)) :
    h1 (y1 X b1W b1b) b1g b1beta X b1pW b1pb
        = kH1 (kY1 X16 (kPermW b1W)) (kScale (kVar (kQ1 (kY1 X16 (kPermW b1W))) (kMu (kS1 (kY1 X16 (kPermW b1W))))) b1g)
            (kShift b1beta (kMu (kS1 (kY1 X16 (kPermW b1W)))) (kScale (kVar (kQ1 (kY1 X16 (kPermW b1W))) (kMu (kS1 (kY1 X16 (kPermW b1W))))) b1g))
            (kY1p X16 (kPermW b1pW) b1pb)
      ∧ ∀ i, IsR (h1 (y1 X b1W b1b) b1g b1beta X b1pW b1pb i) := by
  have e1 : kY1 X16 (kPermW b1W) = kdot X b1W := hfeat b1W hW
  have e2 : kY1p X16 (kPermW b1pW) b1pb = dense X b1pW b1pb := by
    funext i; unfold kY1p; rw [hfeat b1pW hpW, dense_eq_kdot_add]
  rw [e1, e2]
  have h := fun i => block_skip X b1W b1b b1g b1beta (dense X b1pW b1pb) hX hW hb hg hbeta (isR_dense X b1pW b1pb hX hpW hpb) i
  exact ⟨funext fun i => (h i).1, fun i => (h i).2⟩

/-- THE WHOLE, from the feature rows' relation. -/
theorem kerOut_eq_refOut_of_feat (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32)
    (b1W : A2 226 1024) (b1b b1g b1beta : A1 1024) (b1pW : A2 226 1024) (b1pb : A1 1024)
    (b2W : A2 1024 1024) (b2b b2g b2beta : A1 1024)
    (b3W : A2 1024 512) (b3b b3g b3beta : A1 512) (b3pW : A2 1024 512) (b3pb : A1 512)
    (outW : A2 512 1) (outb : A1 1)
    (hX : ∀ i, IsR (xOf userId gender age occupation movieId genres rating implicit embUser embGender embAge embOcc embMovie gW gb ugW ugb i))
    (hfeat : ∀ W : A2 226 1024, (∀ i, IsR (W i)) →
      kdot (kX16Of userId gender age occupation movieId genres rating implicit embUser embGender embAge embOcc embMovie gW gb ugW ugb) (kPermW W) = kdot (xOf userId gender age occupation movieId genres rating implicit embUser embGender embAge embOcc embMovie gW gb ugW ugb) W)
    (h1W : ∀ i, IsR (b1W i)) (h1b : ∀ j, IsR (b1b j)) (h1g : ∀ j, IsR (b1g j)) (h1beta : ∀ j, IsR (b1beta j))
    (h1pW : ∀ i, IsR (b1pW i)) (h1pb : ∀ j, IsR (b1pb j))
    (h2W : ∀ i, IsR (b2W i)) (h2b : ∀ j, IsR (b2b j)) (h2g : ∀ j, IsR (b2g j)) (h2beta : ∀ j, IsR (b2beta j))
    (h3W : ∀ i, IsR (b3W i)) (h3b : ∀ j, IsR (b3b j)) (h3g : ∀ j, IsR (b3g j)) (h3beta : ∀ j, IsR (b3beta j))
    (h3pW : ∀ i, IsR (b3pW i)) (h3pb : ∀ j, IsR (b3pb j)) (hoW : ∀ i, IsR (outW i)) (hob : ∀ j, IsR (outb j)) :
    kerOut userId gender age occupation movieId genres rating implicit embUser embGender embAge embOcc embMovie gW gb ugW ugb b1W b1b b1g b1beta b1pW b1pb b2W b2b b2g b2beta b3W b3b b3g b3beta b3pW b3pb outW outb = refOut userId gender age occupation movieId genres rating implicit embUser embGender embAge embOcc embMovie gW gb ugW ugb b1W b1b b1g b1beta b1pW b1pb b2W b2b b2g b2beta b3W b3b b3g b3beta b3pW b3pb outW outb := by
  unfold kerOut refOut
  simp only []
  obtain ⟨e1, f1⟩ := layer1 (xOf userId gender age occupation movieId genres rating implicit embUser embGender embAge embOcc embMovie gW gb ugW ugb) (kX16Of userId gender age occupation movieId genres rating implicit embUser embGender embAge embOcc embMovie gW gb ugW ugb) b1W b1b b1g b1beta b1pW b1pb hX hfeat h1W h1b h1g h1beta h1pW h1pb
  rw [← e1]
  obtain ⟨e2, f2⟩ := layer2 (h1 (y1 (xOf userId gender age occupation movieId genres rating implicit embUser embGender embAge embOcc embMovie gW gb ugW ugb) b1W b1b) b1g b1beta (xOf userId gender age occupation movieId genres rating implicit embUser embGender embAge embOcc embMovie gW gb ugW ugb) b1pW b1pb) b2W b2b b2g b2beta f1 h2W h2b h2g h2beta
  rw [← e2]
  exact (layer3_out _ b3W b3b b3g b3beta b3pW b3pb outW outb f2 h3W h3b h3g h3beta h3pW h3pb hoW hob).symm

end Cert.Spec

end
-- ==== Proof.BridgeFeat.lean ====
/-
  The feature rows: the kernel's 256-wide row is the reference's 226-wide row permuted (its scalar of column 192 split
  into itself and a zero remainder, the rest padded with zeros), and the permuted weight matrix carries the matrix's rows
  the same way; so the kernel's row against the permuted matrix is the reference's row against the matrix.
-/
import proofs.«214388_g48842368090541_cont_8to1c4_19_37_alg».proof.Proof.BridgeBase

noncomputable section

open scoped BigOperators

namespace Cert.Spec

open Idealize.ShloMosaic Idealize.ShloMosaic.ValueIdx Cert.Lib

/-! ## The permuted weights -/

/-- Column `n` of the permuted weight matrix is the permuted column `n` of the matrix, read as reals. -/
theorem kPermW_eq (W : A2 226 1024) (n : Fin 1024) (wr : Fin 226 → ℝ) (hw : ∀ c, W (ix2 c n) = (wr c : EReal)) (c' : Fin 256) :
    kPermW W (ix2 c' n) = ((permW wr c' : ℝ) : EReal) := by
  have hc' := c'.isLt
  by_cases h1 : c'.val < 64
  · have e : permW wr c' = wr ⟨c'.val, by omega⟩ := by
      unfold permW permWN
      rw [if_pos (by omega)]
      have hc : permCol c'.val = c'.val := by unfold permCol; split_ifs <;> omega
      rw [hc]; unfold at0; rw [dif_pos (by omega)]
    simp only [kPermW]
    rw [dif_pos h1, e]
    exact hw _
  by_cases h2 : c'.val < 128
  · have e : permW wr c' = wr ⟨c'.val + 32, by omega⟩ := by
      unfold permW permWN
      rw [if_pos (by omega)]
      have hc : permCol c'.val = c'.val + 32 := by unfold permCol; split_ifs <;> omega
      rw [hc]; unfold at0; rw [dif_pos (by omega)]
    simp only [kPermW]
    rw [dif_neg h1, dif_pos h2, e]
    exact hw _
  by_cases h3 : c'.val < 160
  · have e : permW wr c' = wr ⟨c'.val - 64, by omega⟩ := by
      unfold permW permWN
      rw [if_pos (by omega)]
      have hc : permCol c'.val = c'.val - 64 := by unfold permCol; split_ifs <;> omega
      rw [hc]; unfold at0; rw [dif_pos (by omega)]
    simp only [kPermW]
    rw [dif_neg h1, dif_neg h2, dif_pos h3, e]
    exact hw _
  by_cases h4 : c'.val < 192
  · have e : permW wr c' = wr ⟨c'.val, by omega⟩ := by
      unfold permW permWN
      rw [if_pos (by omega)]
      have hc : permCol c'.val = c'.val := by unfold permCol; split_ifs <;> omega
      rw [hc]; unfold at0; rw [dif_pos (by omega)]
    simp only [kPermW]
    rw [dif_neg h1, dif_neg h2, dif_neg h3, dif_pos h4, e]
    exact hw _
  by_cases h5 : c'.val < 224
  · have e : permW wr c' = wr ⟨c'.val + 2, by omega⟩ := by
      unfold permW permWN
      rw [if_pos (by omega)]
      have hc : permCol c'.val = c'.val + 2 := by unfold permCol; split_ifs <;> omega
      rw [hc]; unfold at0; rw [dif_pos (by omega)]
    simp only [kPermW]
    rw [dif_neg h1, dif_neg h2, dif_neg h3, dif_neg h4, dif_pos h5, e]
    exact hw _
  by_cases h6 : c'.val < 226
  · have e : permW wr c' = wr ⟨192, by omega⟩ := by
      unfold permW permWN
      rw [if_pos (by omega)]
      have hc : permCol c'.val = 192 := by unfold permCol; split_ifs <;> omega
      rw [hc]; unfold at0; rw [dif_pos (by omega)]
    simp only [kPermW]
    rw [dif_neg h1, dif_neg h2, dif_neg h3, dif_neg h4, dif_neg h5, dif_pos h6, e]
    exact hw _
  by_cases h7 : c'.val < 227
  · have e : permW wr c' = wr ⟨193, by omega⟩ := by
      unfold permW permWN
      rw [if_pos (by omega)]
      have hc : permCol c'.val = 193 := by unfold permCol; split_ifs <;> omega
      rw [hc]; unfold at0; rw [dif_pos (by omega)]
    simp only [kPermW]
    rw [dif_neg h1, dif_neg h2, dif_neg h3, dif_neg h4, dif_neg h5, dif_neg h6, dif_pos h7, e]
    exact hw _
  · have e : permW wr c' = 0 := by unfold permW permWN; rw [if_neg (by omega)]
    simp only [kPermW]
    rw [dif_neg h1, dif_neg h2, dif_neg h3, dif_neg h4, dif_neg h5, dif_neg h6, dif_neg h7, e, zero_eq, EReal.coe_zero]

/-- THE ROWS' RELATION GIVES THE PRODUCTS': if every row of the 256-wide array is the permuted row of the 226-wide array
    (read as reals, the scalar of column 192 split into itself and zero), the 256-wide array against a permuted weight
    matrix of coerced reals is the 226-wide array against the matrix. -/
theorem kdot_perm (X : A2 16384 226) (X16 : A2 16384 256)
    (hrow : ∀ b : Fin 16384, ∃ xr : Fin 226 → ℝ, (∀ c, X (ix2 b c) = (xr c : EReal))
      ∧ ∀ c', X16 (ix2 b c') = ((permX xr (xr ⟨192, by norm_num⟩) 0 c' : ℝ) : EReal))
    (W : A2 226 1024) (hW : ∀ i, IsR (W i)) : kdot X16 (kPermW W) = kdot X W := by
  funext i
  rw [eq_ix2 i]
  obtain ⟨xr, hx, hx16⟩ := hrow (i 0)
  obtain ⟨wr, hw⟩ : ∃ wr : Fin 226 → ℝ, ∀ c, W (ix2 c (i 1)) = (wr c : EReal) :=
    ⟨fun c => (hW (ix2 c (i 1))).choose, fun c => (hW (ix2 c (i 1))).choose_spec⟩
  show zero + ∑ c' : Fin 256, X16 (ix2 (i 0) c') * kPermW W (ix2 c' (i 1)) = zero + ∑ c : Fin 226, X (ix2 (i 0) c) * W (ix2 c (i 1))
  have hL : ∑ c' : Fin 256, X16 (ix2 (i 0) c') * kPermW W (ix2 c' (i 1))
      = ∑ c' : Fin 256, ((permX xr (xr ⟨192, by norm_num⟩) 0 c' : ℝ) : EReal) * ((permW wr c' : ℝ) : EReal) :=
    Finset.sum_congr rfl fun c' _ => by rw [hx16 c', kPermW_eq W (i 1) wr hw c']
  have hR : ∑ c : Fin 226, X (ix2 (i 0) c) * W (ix2 c (i 1)) = ∑ c : Fin 226, (xr c : EReal) * (wr c : EReal) :=
    Finset.sum_congr rfl fun c _ => by rw [hx c, hw c]
  rw [hL, hR, perm_first_layer_coe xr wr (xr ⟨192, by norm_num⟩) 0 (add_zero _)]

/-! ## Index words in range -/

/-- A word below the table's extent (itself below 2³¹) is not negative, so the reference's wrap-and-clamp reads it as it is. -/
theorem row_eq {N : Nat} (hN : N < 2 ^ 31) (w : BitVec 32) (hw : w.toNat < N) : row N w = w.toNat := by
  have hlt : w.toNat < 2 ^ 31 := lt_trans hw hN
  have hint : w.toInt = (w.toNat : Int) := by
    rw [BitVec.toInt_eq_toNat_cond]; split <;> omega
  have hslt : IntOp.cmpi .slt w 0#32 = 0#1 := by
    unfold IntOp.cmpi
    have : w.slt 0#32 = false := by
      rw [BitVec.slt, hint]; simp
    simp [this]
  unfold row wrap
  rw [hslt, select_zero, hint]
  omega

/-- The packed small index does not wrap: it is gender · 256 + age · 32 + occupation as naturals. -/
theorem packed_toNat (g a o : BitVec 32) (hg : g.toNat < 4) (ha : a.toNat < 8) (ho : o.toNat < 32) :
    (IntOp.addi (IntOp.addi (IntOp.muli g 256#32) (IntOp.muli a 32#32)) o).toNat = g.toNat * 256 + a.toNat * 32 + o.toNat := by
  simp only [IntOp.addi, IntOp.muli, BitVec.toNat_add, BitVec.toNat_mul, BitVec.toNat_ofNat]
  omega

/-- A rank-1 index from a coordinate given by its value. -/
theorem ix1_mk {n : Nat} (a : Fin n) (k : Nat) (h : k < n) (e : k = a.val) : (ix1 ⟨k, h⟩ : (⟨1, ![n]⟩ : Shape).Idx) = ix1 a := by
  subst e; rfl

section Idx
variable (userId movieId gender age occupation : I1 16384)

theorem idxU (b0 : Fin 16384) :
    kIdxSlice (kIdx3 userId movieId gender age occupation) 0 (by decide) (ix1 b0) = userId (ix1 b0) := by
  have hb := b0.isLt
  show kIdx3 userId movieId gender age occupation (ix1 ⟨0 + b0.val, by omega⟩) = _
  simp only [kIdx3]
  rw [dif_pos (show 0 + b0.val < 16384 by omega)]
  exact congrArg userId (ix1_mk b0 _ _ (by omega))

theorem idxM (b0 : Fin 16384) :
    kIdxSlice (kIdx3 userId movieId gender age occupation) 16384 (by decide) (ix1 b0) = movieId (ix1 b0) := by
  have hb := b0.isLt
  show kIdx3 userId movieId gender age occupation (ix1 ⟨16384 + b0.val, by omega⟩) = _
  simp only [kIdx3]
  rw [dif_neg (show ¬ 16384 + b0.val < 16384 by omega), dif_pos (show 16384 + b0.val < 32768 by omega)]
  exact congrArg movieId (ix1_mk b0 _ _ (by omega))

theorem idxC (b0 : Fin 16384) :
    kIdxSlice (kIdx3 userId movieId gender age occupation) 32768 (by decide) (ix1 b0) = kPacked gender age occupation (ix1 b0) := by
  have hb := b0.isLt
  show kIdx3 userId movieId gender age occupation (ix1 ⟨32768 + b0.val, by omega⟩) = _
  simp only [kIdx3]
  rw [dif_neg (show ¬ 32768 + b0.val < 16384 by omega), dif_neg (show ¬ 32768 + b0.val < 32768 by omega)]
  exact congrArg (kPacked gender age occupation) (ix1_mk b0 _ _ (by omega))

end Idx

/-! ## Gathers and embeddings at an index word in range -/

/-- The kernel's gather at an index word in range reads that row. -/
theorem gatherRows_eq {N : Nat} (tbl : A2 N 128) (idx : I1 16384) (b0 : Fin 16384) (c : Fin 128) (w : BitVec 32)
    (hw : idx (ix1 b0) = w) (h : w.toNat < N) : gatherRows tbl idx (ix2 b0 c) = tbl (ix2 ⟨w.toNat, h⟩ c) := by
  subst hw; simp only [gatherRows]; rw [dif_pos h]

/-- The reference's embedding at an index word in range reads that row. -/
theorem embed_at {N D : Nat} (hN : 0 < N) (hN' : N < 2 ^ 31) (tbl : A2 N D) (idx : I1 16384) (b0 : Fin 16384) (c : Fin D)
    (h : (idx (ix1 b0)).toNat < N) : embed hN tbl idx (ix2 b0 c) = tbl (ix2 ⟨(idx (ix1 b0)).toNat, h⟩ c) := by
  simp only [embed]
  congr 2
  exact Fin.ext (row_eq hN' _ h)

/-! ## The reference's feature row, column range by column range -/

theorem xref_u (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (b0 : Fin 16384) (c : Fin 226) (h : c.val < 64) :
    xOf userId gender age occupation movieId genres rating implicit embUser embGender embAge embOcc embMovie gW gb ugW ugb (ix2 b0 c) = embUser (ix2 ⟨(userId (ix1 b0)).toNat, huid _⟩ ⟨c.val, h⟩) := by
  simp only [xOf, x]; rw [dif_pos h]
  exact embed_at (by decide) (by norm_num) embUser userId b0 ⟨c.val, h⟩ (huid _)

theorem xref_ge (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (b0 : Fin 16384) (c : Fin 226) (h1 : 64 ≤ c.val) (h2 : c.val < 72) :
    xOf userId gender age occupation movieId genres rating implicit embUser embGender embAge embOcc embMovie gW gb ugW ugb (ix2 b0 c) = embGender (ix2 ⟨(gender (ix1 b0)).toNat, hgen _⟩ ⟨c.val - 64, by omega⟩) := by
  simp only [xOf, x]; rw [dif_neg (show ¬ c.val < 64 by omega), dif_pos h2]
  exact embed_at (by decide) (by norm_num) embGender gender b0 ⟨c.val - 64, by omega⟩ (hgen _)

theorem xref_ag (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (b0 : Fin 16384) (c : Fin 226) (h1 : 72 ≤ c.val) (h2 : c.val < 80) :
    xOf userId gender age occupation movieId genres rating implicit embUser embGender embAge embOcc embMovie gW gb ugW ugb (ix2 b0 c) = embAge (ix2 ⟨(age (ix1 b0)).toNat, hage _⟩ ⟨c.val - 72, by omega⟩) := by
  simp only [xOf, x]; rw [dif_neg (show ¬ c.val < 64 by omega), dif_neg (show ¬ c.val < 72 by omega), dif_pos h2]
  exact embed_at (by decide) (by norm_num) embAge age b0 ⟨c.val - 72, by omega⟩ (hage _)

theorem xref_oc (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (b0 : Fin 16384) (c : Fin 226) (h1 : 80 ≤ c.val) (h2 : c.val < 96) :
    xOf userId gender age occupation movieId genres rating implicit embUser embGender embAge embOcc embMovie gW gb ugW ugb (ix2 b0 c) = embOcc (ix2 ⟨(occupation (ix1 b0)).toNat, hocc _⟩ ⟨c.val - 80, by omega⟩) := by
  simp only [xOf, x]; rw [dif_neg (show ¬ c.val < 64 by omega), dif_neg (show ¬ c.val < 72 by omega), dif_neg (show ¬ c.val < 80 by omega), dif_pos h2]
  exact embed_at (by decide) (by norm_num) embOcc occupation b0 ⟨c.val - 80, by omega⟩ (hocc _)

theorem xref_mv (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (b0 : Fin 16384) (c : Fin 226) (h1 : 96 ≤ c.val) (h2 : c.val < 160) :
    xOf userId gender age occupation movieId genres rating implicit embUser embGender embAge embOcc embMovie gW gb ugW ugb (ix2 b0 c) = embMovie (ix2 ⟨(movieId (ix1 b0)).toNat, hmid _⟩ ⟨c.val - 96, by omega⟩) := by
  simp only [xOf, x]; rw [dif_neg (show ¬ c.val < 64 by omega), dif_neg (show ¬ c.val < 72 by omega), dif_neg (show ¬ c.val < 80 by omega), dif_neg (show ¬ c.val < 96 by omega), dif_pos h2]
  exact embed_at (by decide) (by norm_num) embMovie movieId b0 ⟨c.val - 96, by omega⟩ (hmid _)

theorem xref_gv (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (b0 : Fin 16384) (c : Fin 226) (h1 : 160 ≤ c.val) (h2 : c.val < 192) :
    xOf userId gender age occupation movieId genres rating implicit embUser embGender embAge embOcc embMovie gW gb ugW ugb (ix2 b0 c) = gv genres gW gb (ix2 b0 ⟨c.val - 160, by omega⟩) := by
  simp only [xOf, x]; rw [dif_neg (show ¬ c.val < 64 by omega), dif_neg (show ¬ c.val < 72 by omega), dif_neg (show ¬ c.val < 80 by omega), dif_neg (show ¬ c.val < 96 by omega), dif_neg (show ¬ c.val < 160 by omega), dif_pos h2]

theorem xref_rat (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (b0 : Fin 16384) (c : Fin 226) (h : c.val = 192) :
    xOf userId gender age occupation movieId genres rating implicit embUser embGender embAge embOcc embMovie gW gb ugW ugb (ix2 b0 c) = rating (ix1 b0) := by
  simp only [xOf, x]; rw [dif_neg (show ¬ c.val < 64 by omega), dif_neg (show ¬ c.val < 72 by omega), dif_neg (show ¬ c.val < 80 by omega), dif_neg (show ¬ c.val < 96 by omega), dif_neg (show ¬ c.val < 160 by omega), dif_neg (show ¬ c.val < 192 by omega), dif_pos (show c.val < 193 by omega)]

theorem xref_imp (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (b0 : Fin 16384) (c : Fin 226) (h : c.val = 193) :
    xOf userId gender age occupation movieId genres rating implicit embUser embGender embAge embOcc embMovie gW gb ugW ugb (ix2 b0 c) = implicit (ix1 b0) := by
  simp only [xOf, x]; rw [dif_neg (show ¬ c.val < 64 by omega), dif_neg (show ¬ c.val < 72 by omega), dif_neg (show ¬ c.val < 80 by omega), dif_neg (show ¬ c.val < 96 by omega), dif_neg (show ¬ c.val < 160 by omega), dif_neg (show ¬ c.val < 192 by omega), dif_neg (show ¬ c.val < 193 by omega), dif_pos (show c.val < 194 by omega)]

theorem xref_cross (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (b0 : Fin 16384) (c : Fin 226) (h : 194 ≤ c.val) :
    xOf userId gender age occupation movieId genres rating implicit embUser embGender embAge embOcc embMovie gW gb ugW ugb (ix2 b0 c) = cross (u embUser userId) (gv genres gW gb) ugW ugb (ix2 b0 ⟨c.val - 194, by have := c.isLt; omega⟩) := by
  simp only [xOf, x]; rw [dif_neg (show ¬ c.val < 64 by omega), dif_neg (show ¬ c.val < 72 by omega), dif_neg (show ¬ c.val < 80 by omega), dif_neg (show ¬ c.val < 96 by omega), dif_neg (show ¬ c.val < 160 by omega), dif_neg (show ¬ c.val < 192 by omega), dif_neg (show ¬ c.val < 193 by omega), dif_neg (show ¬ c.val < 194 by omega)]

/-! ## The kernel's feature row: the two gathered blocks -/

theorem k_u (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (b0 : Fin 16384) (c' : Fin 256) (h : c'.val < 64) :
    kX16Of userId gender age occupation movieId genres rating implicit embUser embGender embAge embOcc embMovie gW gb ugW ugb (ix2 b0 c') = embUser (ix2 ⟨(userId (ix1 b0)).toNat, huid _⟩ ⟨c'.val, h⟩) := by
  simp only [kX16Of, kX16]; rw [dif_pos h]
  rw [show kU128 (kBig embUser embMovie) (kIdx3 userId movieId gender age occupation) (ix2 b0 ⟨c'.val, by omega⟩)
      = kBig embUser embMovie (ix2 ⟨(userId (ix1 b0)).toNat, huid _⟩ ⟨c'.val, by omega⟩) from
    gatherRows_eq _ _ b0 ⟨c'.val, by omega⟩ _ (idxU userId movieId gender age occupation b0) (huid _)]
  simp only [kBig]; rw [dif_pos h]

theorem k_m (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (b0 : Fin 16384) (c' : Fin 256) (h1 : 64 ≤ c'.val) (h2 : c'.val < 128) :
    kX16Of userId gender age occupation movieId genres rating implicit embUser embGender embAge embOcc embMovie gW gb ugW ugb (ix2 b0 c') = embMovie (ix2 ⟨(movieId (ix1 b0)).toNat, hmid _⟩ ⟨c'.val - 64, by omega⟩) := by
  simp only [kX16Of, kX16]; rw [dif_neg (show ¬ c'.val < 64 by omega), dif_pos h2]
  rw [show kM128 (kBig embUser embMovie) (kIdx3 userId movieId gender age occupation) (ix2 b0 ⟨c'.val, h2⟩)
      = kBig embUser embMovie (ix2 ⟨(movieId (ix1 b0)).toNat, hmid _⟩ ⟨c'.val, h2⟩) from
    gatherRows_eq _ _ b0 ⟨c'.val, h2⟩ _ (idxM userId movieId gender age occupation b0) (hmid _)]
  simp only [kBig]; rw [dif_neg (show ¬ c'.val < 64 by omega)]

/-! ## The kernel's third register, lane by lane -/

theorem k_c128 (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (b0 : Fin 16384) (l : Fin 128) :
    kC128 (kCombo embGender embAge embOcc) (kIdx3 userId movieId gender age occupation) (ix2 b0 l)
      = if h : l.val < 8 then embGender (ix2 ⟨(gender (ix1 b0)).toNat, hgen _⟩ ⟨l.val, h⟩)
        else if h : l.val < 16 then embAge (ix2 ⟨(age (ix1 b0)).toNat, hage _⟩ ⟨l.val - 8, by omega⟩)
        else if h : l.val < 32 then embOcc (ix2 ⟨(occupation (ix1 b0)).toNat, hocc _⟩ ⟨l.val - 16, by omega⟩)
        else zero := by
  have hg := hgen (ix1 b0); have ha := hage (ix1 b0); have ho := hocc (ix1 b0)
  have hp : (kPacked gender age occupation (ix1 b0)).toNat
      = (gender (ix1 b0)).toNat * 256 + (age (ix1 b0)).toNat * 32 + (occupation (ix1 b0)).toNat :=
    packed_toNat _ _ _ hg ha ho
  have hlt : (kPacked gender age occupation (ix1 b0)).toNat < 1024 := by rw [hp]; omega
  have e1 : (kPacked gender age occupation (ix1 b0)).toNat / 256 = (gender (ix1 b0)).toNat := by rw [hp]; omega
  have e2 : ((kPacked gender age occupation (ix1 b0)).toNat / 32) % 8 = (age (ix1 b0)).toNat := by rw [hp]; omega
  have e3 : (kPacked gender age occupation (ix1 b0)).toNat % 32 = (occupation (ix1 b0)).toNat := by rw [hp]; omega
  rw [show kC128 (kCombo embGender embAge embOcc) (kIdx3 userId movieId gender age occupation) (ix2 b0 l)
      = kCombo embGender embAge embOcc (ix2 ⟨(kPacked gender age occupation (ix1 b0)).toNat, hlt⟩ l) from
    gatherRows_eq _ _ b0 l _ (idxC userId movieId gender age occupation b0) hlt]
  simp only [kCombo]
  by_cases h1 : l.val < 8
  · rw [dif_pos h1, dif_pos h1]; congr 2; exact Fin.ext e1
  by_cases h2 : l.val < 16
  · rw [dif_neg h1, dif_pos h2, dif_neg h1, dif_pos h2]; congr 2; exact Fin.ext e2
  by_cases h3 : l.val < 32
  · rw [dif_neg h1, dif_neg h2, dif_pos h3, dif_neg h1, dif_neg h2, dif_pos h3]; congr 2; exact Fin.ext e3
  · rw [dif_neg h1, dif_neg h2, dif_neg h3, dif_neg h1, dif_neg h2, dif_neg h3]

theorem k_gvw (genres : A2 16384 19) (gW : A2 19 32) (gb : A1 32) (b0 : Fin 16384) (l : Fin 128) :
    kGvw genres (kGWw gW) (kGbw gb) (ix2 b0 l)
      = if h : 32 ≤ l.val ∧ l.val < 64 then gv genres gW gb (ix2 b0 ⟨l.val - 32, by omega⟩) else 0 := by
  by_cases h : 32 ≤ l.val ∧ l.val < 64
  · rw [dif_pos h]
    simp only [kGvw, kdot, kGWw, kGbw, gv, dense]
    rw [dif_pos h, zero_eq, zero_add]
    congr 1
    exact Finset.sum_congr rfl fun k _ => by rw [dif_pos h]
  · rw [dif_neg h]
    simp only [kGvw, kdot, kGWw, kGbw]
    rw [dif_neg h, zero_eq, zero_add, add_zero]
    exact Finset.sum_eq_zero fun k _ => by rw [dif_neg h, mul_zero]

theorem k_cross_zero (tmp gvr : A2 16384 1024) (ugb : A1 32) (b0 : Fin 16384) (l : Fin 128) (h : ¬ (64 ≤ l.val ∧ l.val < 96)) :
    kCrossW tmp gvr kPw (kUgbw ugb) (ix2 b0 l) = 0 := by
  simp only [kCrossW, kPw, kUgbw]
  rw [dif_neg h, zero_eq, zero_add, add_zero]
  exact Finset.sum_eq_zero fun k _ => by rw [if_neg (fun hh => h ⟨hh.1, hh.2.1⟩), mul_zero]

set_option maxRecDepth 16384 in
theorem k_cross (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32)
    (hEU : ∀ i, IsR (embUser i)) (hgenres : ∀ i, IsR (genres i)) (hgW : ∀ i, IsR (gW i)) (hgb : ∀ j, IsR (gb j)) (hugW : ∀ i, IsR (ugW i))
    (b0 : Fin 16384) (l : Fin 128) (h : 64 ≤ l.val ∧ l.val < 96) :
    kCrossW (kTmp (kUcols (kU128 (kBig embUser embMovie) (kIdx3 userId movieId gender age occupation))) (kT ugW))
        (kGvr (kGvw genres (kGWw gW) (kGbw gb)) kQw) kPw (kUgbw ugb) (ix2 b0 l)
      = cross (u embUser userId) (gv genres gW gb) ugW ugb (ix2 b0 ⟨l.val - 64, by omega⟩) := by
  have hu_ref : ∀ i : Fin 64, u embUser userId (ix2 b0 i) = embUser (ix2 ⟨(userId (ix1 b0)).toNat, huid _⟩ i) :=
    fun i => embed_at (by decide) (by norm_num) embUser userId b0 i (huid _)
  have hu_k : ∀ i : Fin 64, kUcols (kU128 (kBig embUser embMovie) (kIdx3 userId movieId gender age occupation)) (ix2 b0 i)
      = embUser (ix2 ⟨(userId (ix1 b0)).toNat, huid _⟩ i) := fun i => by
    have hi := i.isLt
    simp only [kUcols]
    rw [show kU128 (kBig embUser embMovie) (kIdx3 userId movieId gender age occupation) (ix2 b0 ⟨i.val, by omega⟩)
        = kBig embUser embMovie (ix2 ⟨(userId (ix1 b0)).toNat, huid _⟩ ⟨i.val, by omega⟩) from
      gatherRows_eq _ _ b0 ⟨i.val, by omega⟩ _ (idxU userId movieId gender age occupation b0) (huid _)]
    simp only [kBig]; rw [dif_pos (show i.val < 64 from hi)]
  obtain ⟨ur, hur⟩ : ∃ ur : Fin 64 → ℝ, ∀ i, embUser (ix2 ⟨(userId (ix1 b0)).toNat, huid _⟩ i) = (ur i : EReal) :=
    ⟨fun i => (hEU (ix2 ⟨(userId (ix1 b0)).toNat, huid _⟩ i)).choose, fun i => (hEU (ix2 ⟨(userId (ix1 b0)).toNat, huid _⟩ i)).choose_spec⟩
  obtain ⟨gr, hgr⟩ : ∃ gr : Fin 32 → ℝ, ∀ j, gv genres gW gb (ix2 b0 j) = (gr j : EReal) :=
    ⟨fun j => (isR_dense genres gW gb hgenres hgW hgb (ix2 b0 j)).choose, fun j => (isR_dense genres gW gb hgenres hgW hgb (ix2 b0 j)).choose_spec⟩
  obtain ⟨Wr, hWr⟩ : ∃ Wr : Fin 2048 → Fin 32 → ℝ, ∀ c o, ugW (ix2 c o) = (Wr c o : EReal) :=
    ⟨fun c o => (hugW (ix2 c o)).choose, fun c o => (hugW (ix2 c o)).choose_spec⟩
  have hT : ∀ (i : Fin 64) (k : Fin 1024), kT ugW (ix2 i k) = ((crossT Wr i k : ℝ) : EReal) := fun i k => by
    simp only [kT, crossT]; exact hWr _ _
  have hTmp : ∀ k : Fin 1024, kTmp (kUcols (kU128 (kBig embUser embMovie) (kIdx3 userId movieId gender age occupation))) (kT ugW) (ix2 b0 k)
      = ∑ i : Fin 64, (ur i : EReal) * ((crossT Wr i k : ℝ) : EReal) := fun k => by
    simp only [kTmp, kdot]; rw [zero_eq, zero_add]
    exact Finset.sum_congr rfl fun i _ => by rw [hu_k, hur, hT]
  have hPad : ∀ r : Fin 128, kGvw genres (kGWw gW) (kGbw gb) (ix2 b0 r) = ((padMid gr r : ℝ) : EReal) := fun r => by
    rw [k_gvw]; unfold padMid
    by_cases hr : 32 ≤ r.val ∧ r.val < 64
    · rw [dif_pos hr, dif_pos hr, hgr]
    · rw [dif_neg hr, dif_neg hr, EReal.coe_zero]
  have hQ : ∀ (r : Fin 128) (k : Fin 1024), kQw (ix2 r k) = ((crossQ r k : ℝ) : EReal) := fun r k => by
    simp only [kQw, crossQ]
    by_cases hc : 32 ≤ r.val ∧ r.val < 64 ∧ r.val - 32 = k.val / 32
    · rw [if_pos hc, if_pos hc, one_eq]
    · rw [if_neg hc, if_neg hc, zero_eq, EReal.coe_zero]
  have hGvr : ∀ k : Fin 1024, kGvr (kGvw genres (kGWw gW) (kGbw gb)) kQw (ix2 b0 k)
      = ∑ r : Fin 128, ((padMid gr r : ℝ) : EReal) * ((crossQ r k : ℝ) : EReal) := fun k => by
    simp only [kGvr, kdot]; rw [zero_eq, zero_add]
    exact Finset.sum_congr rfl fun r _ => by rw [hPad, hQ]
  have hP : ∀ (k : Fin 1024) (n : Fin 128), kPw (ix2 k n) = ((crossP k n : ℝ) : EReal) := fun k n => by
    simp only [kPw, crossP]
    by_cases hc : 64 ≤ n.val ∧ n.val < 96 ∧ k.val % 32 = n.val - 64
    · rw [if_pos hc, if_pos hc, one_eq]
    · rw [if_neg hc, if_neg hc, zero_eq, EReal.coe_zero]
  have key := crossW_eq_coe ur gr Wr ⟨l.val - 64, by omega⟩
  rw [show (⟨64 + (⟨l.val - 64, by omega⟩ : Fin 32).val, by have := h.2; omega⟩ : Fin 128) = l from Fin.ext (by simp; omega)] at key
  simp only [kCrossW]
  rw [zero_eq, zero_add,
    show (∑ k : Fin 1024, (kTmp (kUcols (kU128 (kBig embUser embMovie) (kIdx3 userId movieId gender age occupation))) (kT ugW) (ix2 b0 k)
          * kGvr (kGvw genres (kGWw gW) (kGbw gb)) kQw (ix2 b0 k)) * kPw (ix2 k l))
        = ∑ k : Fin 1024, ((∑ i : Fin 64, (ur i : EReal) * ((crossT Wr i k : ℝ) : EReal))
          * (∑ r : Fin 128, ((padMid gr r : ℝ) : EReal) * ((crossQ r k : ℝ) : EReal))) * ((crossP k l : ℝ) : EReal) from
      Finset.sum_congr rfl fun k _ => by rw [hTmp, hGvr, hP], key]
  simp only [cross, dense, outer, kUgbw]
  rw [dif_pos h]
  refine congrArg₂ (· + ·) ?_ rfl
  exact (Finset.sum_congr rfl fun c _ => by rw [hu_ref, hur, hgr, hWr]).symm

/-! ## The whole feature row -/

/-- A user row's entries are coerced reals. -/
theorem isR_u (embUser : A2 100000 64) (userId : I1 16384) (huid : ∀ i, (userId i).toNat < 100000) (hEU : ∀ i, IsR (embUser i))
    (b0 : Fin 16384) (c : Fin 64) : IsR (u embUser userId (ix2 b0 c)) := by
  rw [show u embUser userId (ix2 b0 c) = embUser (ix2 ⟨(userId (ix1 b0)).toNat, huid _⟩ c) from
    embed_at (by decide) (by norm_num) embUser userId b0 c (huid _)]
  exact hEU _

/-- The reference's feature row is of coerced reals. -/
theorem isR_xOf_at (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (hgenres : ∀ i, IsR (genres i)) (hrat : ∀ j, IsR (rating j)) (himp : ∀ j, IsR (implicit j))
    (hEU : ∀ i, IsR (embUser i)) (hEG : ∀ i, IsR (embGender i)) (hEA : ∀ i, IsR (embAge i)) (hEO : ∀ i, IsR (embOcc i)) (hEM : ∀ i, IsR (embMovie i))
    (hgW : ∀ i, IsR (gW i)) (hgb : ∀ j, IsR (gb j)) (hugW : ∀ i, IsR (ugW i)) (hugb : ∀ j, IsR (ugb j)) (b0 : Fin 16384) (c : Fin 226) :
    IsR (xOf userId gender age occupation movieId genres rating implicit embUser embGender embAge embOcc embMovie gW gb ugW ugb (ix2 b0 c)) := by
  have hc := c.isLt
  by_cases h1 : c.val < 64
  · rw [xref_u userId gender age occupation movieId genres rating implicit embUser embGender embAge embOcc embMovie gW gb ugW ugb huid hmid hgen hage hocc b0 c h1]; exact hEU _
  by_cases h2 : c.val < 72
  · rw [xref_ge userId gender age occupation movieId genres rating implicit embUser embGender embAge embOcc embMovie gW gb ugW ugb huid hmid hgen hage hocc b0 c (by omega) h2]; exact hEG _
  by_cases h3 : c.val < 80
  · rw [xref_ag userId gender age occupation movieId genres rating implicit embUser embGender embAge embOcc embMovie gW gb ugW ugb huid hmid hgen hage hocc b0 c (by omega) h3]; exact hEA _
  by_cases h4 : c.val < 96
  · rw [xref_oc userId gender age occupation movieId genres rating implicit embUser embGender embAge embOcc embMovie gW gb ugW ugb huid hmid hgen hage hocc b0 c (by omega) h4]; exact hEO _
  by_cases h5 : c.val < 160
  · rw [xref_mv userId gender age occupation movieId genres rating implicit embUser embGender embAge embOcc embMovie gW gb ugW ugb huid hmid hgen hage hocc b0 c (by omega) h5]; exact hEM _
  by_cases h6 : c.val < 192
  · rw [xref_gv userId gender age occupation movieId genres rating implicit embUser embGender embAge embOcc embMovie gW gb ugW ugb b0 c (by omega) h6]; exact isR_dense genres gW gb hgenres hgW hgb _
  by_cases h7 : c.val = 192
  · rw [xref_rat userId gender age occupation movieId genres rating implicit embUser embGender embAge embOcc embMovie gW gb ugW ugb b0 c h7]; exact hrat _
  by_cases h8 : c.val = 193
  · rw [xref_imp userId gender age occupation movieId genres rating implicit embUser embGender embAge embOcc embMovie gW gb ugW ugb b0 c h8]; exact himp _
  · rw [xref_cross userId gender age occupation movieId genres rating implicit embUser embGender embAge embOcc embMovie gW gb ugW ugb b0 c (by omega)]
    refine isR_dense _ ugW ugb (fun j => ?_) hugW hugb _
    simp only [outer]
    exact (isR_u embUser userId huid hEU (j 0) _).mul (isR_dense genres gW gb hgenres hgW hgb _)

/-- The reference's feature row is of coerced reals, at any index. -/
theorem isR_xOf (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (hgenres : ∀ i, IsR (genres i)) (hrat : ∀ j, IsR (rating j)) (himp : ∀ j, IsR (implicit j))
    (hEU : ∀ i, IsR (embUser i)) (hEG : ∀ i, IsR (embGender i)) (hEA : ∀ i, IsR (embAge i)) (hEO : ∀ i, IsR (embOcc i)) (hEM : ∀ i, IsR (embMovie i))
    (hgW : ∀ i, IsR (gW i)) (hgb : ∀ j, IsR (gb j)) (hugW : ∀ i, IsR (ugW i)) (hugb : ∀ j, IsR (ugb j)) (i : (⟨2, ![16384, 226]⟩ : Shape).Idx) :
    IsR (xOf userId gender age occupation movieId genres rating implicit embUser embGender embAge embOcc embMovie gW gb ugW ugb i) := by
  rw [eq_ix2 i]
  exact isR_xOf_at userId gender age occupation movieId genres rating implicit embUser embGender embAge embOcc embMovie gW gb ugW ugb huid hmid hgen hage hocc hgenres hrat himp hEU hEG hEA hEO hEM hgW hgb hugW hugb (i 0) (i 1)

/-- Columns 128–255 of the kernel's row are the four 128-lane arrays added. -/
theorem k_reg (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (b0 : Fin 16384) (c' : Fin 256) (h : 128 ≤ c'.val) :
    kX16Of userId gender age occupation movieId genres rating implicit embUser embGender embAge embOcc embMovie gW gb ugW ugb (ix2 b0 c')
      = ((kC128 (kCombo embGender embAge embOcc) (kIdx3 userId movieId gender age occupation) (ix2 b0 ⟨c'.val - 128, by have := c'.isLt; omega⟩)
          + kGvw genres (kGWw gW) (kGbw gb) (ix2 b0 ⟨c'.val - 128, by have := c'.isLt; omega⟩))
          + kCrossW (kTmp (kUcols (kU128 (kBig embUser embMovie) (kIdx3 userId movieId gender age occupation))) (kT ugW))
              (kGvr (kGvw genres (kGWw gW) (kGbw gb)) kQw) kPw (kUgbw ugb) (ix2 b0 ⟨c'.val - 128, by have := c'.isLt; omega⟩))
        + kRtBlock rating implicit (ix2 b0 ⟨c'.val - 128, by have := c'.isLt; omega⟩) := by
  simp only [kX16Of, kX16, kReg1]
  rw [dif_neg (show ¬ c'.val < 64 by omega), dif_neg (show ¬ c'.val < 128 by omega)]

set_option maxRecDepth 8192 in
/-- EVERY ROW: the reference's row read as reals, and the kernel's row as its permutation (the scalar of column 192 split
    into itself and zero). -/
theorem feat_row (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32) (huid : ∀ i, (userId i).toNat < 100000) (hmid : ∀ i, (movieId i).toNat < 100000)
    (hgen : ∀ i, (gender i).toNat < 4) (hage : ∀ i, (age i).toNat < 8) (hocc : ∀ i, (occupation i).toNat < 32) (hgenres : ∀ i, IsR (genres i)) (hrat : ∀ j, IsR (rating j)) (himp : ∀ j, IsR (implicit j))
    (hEU : ∀ i, IsR (embUser i)) (hEG : ∀ i, IsR (embGender i)) (hEA : ∀ i, IsR (embAge i)) (hEO : ∀ i, IsR (embOcc i)) (hEM : ∀ i, IsR (embMovie i))
    (hgW : ∀ i, IsR (gW i)) (hgb : ∀ j, IsR (gb j)) (hugW : ∀ i, IsR (ugW i)) (hugb : ∀ j, IsR (ugb j)) (b0 : Fin 16384) :
    ∃ xr : Fin 226 → ℝ, (∀ c, xOf userId gender age occupation movieId genres rating implicit embUser embGender embAge embOcc embMovie gW gb ugW ugb (ix2 b0 c) = (xr c : EReal))
      ∧ ∀ c', kX16Of userId gender age occupation movieId genres rating implicit embUser embGender embAge embOcc embMovie gW gb ugW ugb (ix2 b0 c') = ((permX xr (xr ⟨192, by norm_num⟩) 0 c' : ℝ) : EReal) := by
  have hX := fun c : Fin 226 => isR_xOf_at userId gender age occupation movieId genres rating implicit embUser embGender embAge embOcc embMovie gW gb ugW ugb huid hmid hgen hage hocc hgenres hrat himp hEU hEG hEA hEO hEM hgW hgb hugW hugb b0 c
  refine ⟨fun c => (hX c).choose, fun c => (hX c).choose_spec, fun c' => ?_⟩
  generalize hxr : (fun c => (hX c).choose) = xr
  have hx : ∀ c, xOf userId gender age occupation movieId genres rating implicit embUser embGender embAge embOcc embMovie gW gb ugW ugb (ix2 b0 c) = (xr c : EReal) := fun c => by rw [← hxr]; exact (hX c).choose_spec
  have hc' := c'.isLt
  by_cases h1 : c'.val < 64
  ·
    have e : permX xr (xr ⟨192, by norm_num⟩) 0 c' = xr ⟨c'.val, by omega⟩ := by
      unfold permX permXN
      rw [if_neg (by omega), if_neg (by omega), if_pos (by omega)]
      have hc : permCol c'.val = c'.val := by unfold permCol; split_ifs <;> omega
      rw [hc]; unfold at0; rw [dif_pos (by omega)]
    rw [e, ← hx, k_u userId gender age occupation movieId genres rating implicit embUser embGender embAge embOcc embMovie gW gb ugW ugb huid hmid hgen hage hocc b0 c' h1, xref_u userId gender age occupation movieId genres rating implicit embUser embGender embAge embOcc embMovie gW gb ugW ugb huid hmid hgen hage hocc b0 ⟨c'.val, by omega⟩ h1]
  by_cases h2 : c'.val < 128
  ·
    have e : permX xr (xr ⟨192, by norm_num⟩) 0 c' = xr ⟨c'.val + 32, by omega⟩ := by
      unfold permX permXN
      rw [if_neg (by omega), if_neg (by omega), if_pos (by omega)]
      have hc : permCol c'.val = c'.val + 32 := by unfold permCol; split_ifs <;> omega
      rw [hc]; unfold at0; rw [dif_pos (by omega)]
    rw [e, ← hx, k_m userId gender age occupation movieId genres rating implicit embUser embGender embAge embOcc embMovie gW gb ugW ugb huid hmid hgen hage hocc b0 c' (by omega) h2,
      xref_mv userId gender age occupation movieId genres rating implicit embUser embGender embAge embOcc embMovie gW gb ugW ugb huid hmid hgen hage hocc b0 ⟨c'.val + 32, by omega⟩ (show 96 ≤ c'.val + 32 by omega) (show c'.val + 32 < 160 by omega)]
    congr 2
  -- the register's lanes
  have hG := k_gvw genres gW gb b0 ⟨c'.val - 128, by omega⟩
  have hC := k_c128 userId gender age occupation movieId genres rating implicit embUser embGender embAge embOcc embMovie gW gb ugW ugb huid hmid hgen hage hocc b0 ⟨c'.val - 128, by omega⟩
  rw [k_reg userId gender age occupation movieId genres rating implicit embUser embGender embAge embOcc embMovie gW gb ugW ugb b0 c' (by omega), hG, hC]
  simp only [kRtBlock]
  by_cases h3 : c'.val < 136
  · -- the first small embedding
    have e : permX xr (xr ⟨192, by norm_num⟩) 0 c' = xr ⟨c'.val - 64, by omega⟩ := by
      unfold permX permXN
      rw [if_neg (by omega), if_neg (by omega), if_pos (by omega)]
      have hc : permCol c'.val = c'.val - 64 := by unfold permCol; split_ifs <;> omega
      rw [hc]; unfold at0; rw [dif_pos (by omega)]
    rw [e, ← hx, xref_ge userId gender age occupation movieId genres rating implicit embUser embGender embAge embOcc embMovie gW gb ugW ugb huid hmid hgen hage hocc b0 ⟨c'.val - 64, by omega⟩ (show 64 ≤ c'.val - 64 by omega) (show c'.val - 64 < 72 by omega),
      k_cross_zero _ _ ugb b0 _ (show ¬ (64 ≤ c'.val - 128 ∧ c'.val - 128 < 96) by omega),
      dif_pos (show c'.val - 128 < 8 by omega), dif_neg (show ¬ (32 ≤ c'.val - 128 ∧ c'.val - 128 < 64) by omega),
      if_pos (show c'.val - 128 < 96 by omega), zero_eq, add_zero, add_zero, add_zero]
    congr 2
  by_cases h4 : c'.val < 144
  · -- the second
    have e : permX xr (xr ⟨192, by norm_num⟩) 0 c' = xr ⟨c'.val - 64, by omega⟩ := by
      unfold permX permXN
      rw [if_neg (by omega), if_neg (by omega), if_pos (by omega)]
      have hc : permCol c'.val = c'.val - 64 := by unfold permCol; split_ifs <;> omega
      rw [hc]; unfold at0; rw [dif_pos (by omega)]
    rw [e, ← hx, xref_ag userId gender age occupation movieId genres rating implicit embUser embGender embAge embOcc embMovie gW gb ugW ugb huid hmid hgen hage hocc b0 ⟨c'.val - 64, by omega⟩ (show 72 ≤ c'.val - 64 by omega) (show c'.val - 64 < 80 by omega),
      k_cross_zero _ _ ugb b0 _ (show ¬ (64 ≤ c'.val - 128 ∧ c'.val - 128 < 96) by omega),
      dif_neg (show ¬ c'.val - 128 < 8 by omega), dif_pos (show c'.val - 128 < 16 by omega),
      dif_neg (show ¬ (32 ≤ c'.val - 128 ∧ c'.val - 128 < 64) by omega),
      if_pos (show c'.val - 128 < 96 by omega), zero_eq, add_zero, add_zero, add_zero]
    congr 2
  by_cases h5 : c'.val < 160
  · -- the third
    have e : permX xr (xr ⟨192, by norm_num⟩) 0 c' = xr ⟨c'.val - 64, by omega⟩ := by
      unfold permX permXN
      rw [if_neg (by omega), if_neg (by omega), if_pos (by omega)]
      have hc : permCol c'.val = c'.val - 64 := by unfold permCol; split_ifs <;> omega
      rw [hc]; unfold at0; rw [dif_pos (by omega)]
    rw [e, ← hx, xref_oc userId gender age occupation movieId genres rating implicit embUser embGender embAge embOcc embMovie gW gb ugW ugb huid hmid hgen hage hocc b0 ⟨c'.val - 64, by omega⟩ (show 80 ≤ c'.val - 64 by omega) (show c'.val - 64 < 96 by omega),
      k_cross_zero _ _ ugb b0 _ (show ¬ (64 ≤ c'.val - 128 ∧ c'.val - 128 < 96) by omega),
      dif_neg (show ¬ c'.val - 128 < 8 by omega), dif_neg (show ¬ c'.val - 128 < 16 by omega), dif_pos (show c'.val - 128 < 32 by omega),
      dif_neg (show ¬ (32 ≤ c'.val - 128 ∧ c'.val - 128 < 64) by omega),
      if_pos (show c'.val - 128 < 96 by omega), zero_eq, add_zero, add_zero, add_zero]
    congr 2
  by_cases h6 : c'.val < 192
  · -- the genre product
    have e : permX xr (xr ⟨192, by norm_num⟩) 0 c' = xr ⟨c'.val, by omega⟩ := by
      unfold permX permXN
      rw [if_neg (by omega), if_neg (by omega), if_pos (by omega)]
      have hc : permCol c'.val = c'.val := by unfold permCol; split_ifs <;> omega
      rw [hc]; unfold at0; rw [dif_pos (by omega)]
    rw [e, ← hx, xref_gv userId gender age occupation movieId genres rating implicit embUser embGender embAge embOcc embMovie gW gb ugW ugb b0 ⟨c'.val, by omega⟩ (show 160 ≤ c'.val by omega) h6,
      k_cross_zero _ _ ugb b0 _ (show ¬ (64 ≤ c'.val - 128 ∧ c'.val - 128 < 96) by omega),
      dif_neg (show ¬ c'.val - 128 < 8 by omega), dif_neg (show ¬ c'.val - 128 < 16 by omega), dif_neg (show ¬ c'.val - 128 < 32 by omega),
      dif_pos (show 32 ≤ c'.val - 128 ∧ c'.val - 128 < 64 by omega),
      if_pos (show c'.val - 128 < 96 by omega), zero_eq, zero_add, add_zero, add_zero]
    congr 2
  by_cases h7 : c'.val < 224
  · -- the cross term
    have e : permX xr (xr ⟨192, by norm_num⟩) 0 c' = xr ⟨c'.val + 2, by omega⟩ := by
      unfold permX permXN
      rw [if_neg (by omega), if_neg (by omega), if_pos (by omega)]
      have hc : permCol c'.val = c'.val + 2 := by unfold permCol; split_ifs <;> omega
      rw [hc]; unfold at0; rw [dif_pos (by omega)]
    rw [e, ← hx, xref_cross userId gender age occupation movieId genres rating implicit embUser embGender embAge embOcc embMovie gW gb ugW ugb b0 ⟨c'.val + 2, by omega⟩ (show 194 ≤ c'.val + 2 by omega),
      k_cross userId gender age occupation movieId genres rating implicit embUser embGender embAge embOcc embMovie gW gb ugW ugb huid hmid hgen hage hocc hEU hgenres hgW hgb hugW b0 ⟨c'.val - 128, by omega⟩ (show 64 ≤ c'.val - 128 ∧ c'.val - 128 < 96 by omega),
      dif_neg (show ¬ c'.val - 128 < 8 by omega), dif_neg (show ¬ c'.val - 128 < 16 by omega), dif_neg (show ¬ c'.val - 128 < 32 by omega),
      dif_neg (show ¬ (32 ≤ c'.val - 128 ∧ c'.val - 128 < 64) by omega),
      if_pos (show c'.val - 128 < 96 by omega), zero_eq, zero_add, zero_add, add_zero]
    congr 2
  -- the scalars' lanes and the padding: the three arrays are zero there
  rw [k_cross_zero _ _ ugb b0 _ (show ¬ (64 ≤ c'.val - 128 ∧ c'.val - 128 < 96) by omega),
    dif_neg (show ¬ c'.val - 128 < 8 by omega), dif_neg (show ¬ c'.val - 128 < 16 by omega), dif_neg (show ¬ c'.val - 128 < 32 by omega),
    dif_neg (show ¬ (32 ≤ c'.val - 128 ∧ c'.val - 128 < 64) by omega),
    if_neg (show ¬ c'.val - 128 < 96 by omega), zero_eq, zero_add, zero_add, zero_add]
  by_cases h8 : c'.val = 224
  · have e : permX xr (xr ⟨192, by norm_num⟩) 0 c' = xr ⟨192, by norm_num⟩ := by unfold permX permXN; rw [if_pos h8]
    rw [e, ← hx, xref_rat userId gender age occupation movieId genres rating implicit embUser embGender embAge embOcc embMovie gW gb ugW ugb b0 ⟨192, by norm_num⟩ rfl, if_pos (show c'.val - 128 = 96 by omega)]
  by_cases h9 : c'.val = 225
  · have e : permX xr (xr ⟨192, by norm_num⟩) 0 c' = 0 := by unfold permX permXN; rw [if_neg h8, if_pos h9]
    obtain ⟨r, hr⟩ := hrat (ix1 b0)
    rw [e, if_neg (show ¬ c'.val - 128 = 96 by omega), if_pos (show c'.val - 128 = 97 by omega), hr, ← EReal.coe_sub, sub_self]
  by_cases h10 : c'.val = 226
  ·
    have e : permX xr (xr ⟨192, by norm_num⟩) 0 c' = xr ⟨193, by omega⟩ := by
      unfold permX permXN
      rw [if_neg (by omega), if_neg (by omega), if_pos (by omega)]
      have hc : permCol c'.val = 193 := by unfold permCol; split_ifs <;> omega
      rw [hc]; unfold at0; rw [dif_pos (by omega)]
    rw [e, ← hx, xref_imp userId gender age occupation movieId genres rating implicit embUser embGender embAge embOcc embMovie gW gb ugW ugb b0 ⟨193, by norm_num⟩ rfl, if_neg (show ¬ c'.val - 128 = 96 by omega),
      if_neg (show ¬ c'.val - 128 = 97 by omega), if_pos (show c'.val - 128 = 98 by omega)]
  · have e : permX xr (xr ⟨192, by norm_num⟩) 0 c' = 0 := by
      unfold permX permXN; rw [if_neg h8, if_neg h9, if_neg (by omega)]
    rw [e, if_neg (show ¬ c'.val - 128 = 96 by omega), if_neg (show ¬ c'.val - 128 = 97 by omega),
      if_neg (show ¬ c'.val - 128 = 98 by omega), EReal.coe_zero]

end Cert.Spec

end
-- ==== Proof.Bridge.lean ====
/-
  THE BRIDGE: for argument arrays whose float entries are coerced reals and whose index words lie in their tables' ranges,
  the kernel's result, stage by stage as the kernel computes it, is the reference's. The feature rows' relation feeds the
  first block; the blocks and the output layer follow from a common input of coerced reals.
-/
import proofs.«214388_g48842368090541_cont_8to1c4_19_37_alg».proof.Proof.BridgeTop
import proofs.«214388_g48842368090541_cont_8to1c4_19_37_alg».proof.Proof.BridgeFeat

noncomputable section

open scoped BigOperators

namespace Cert.Spec

open Idealize.ShloMosaic Idealize.ShloMosaic.ValueIdx Cert.Lib

/-- THE KERNEL'S RESULT IS THE REFERENCE'S, for argument arrays of coerced reals and index words in range (as unsigned
    words: below 100000 for the user and movie ids, 4 for the gender, 8 for the age, 32 for the occupation). -/
theorem kerOut_eq_refOut (userId gender age occupation movieId : I1 16384) (genres : A2 16384 19) (rating implicit : A1 16384)
    (embUser : A2 100000 64) (embGender : A2 4 8) (embAge : A2 8 8) (embOcc : A2 32 16) (embMovie : A2 100000 64)
    (gW : A2 19 32) (gb : A1 32) (ugW : A2 2048 32) (ugb : A1 32)
    (b1W : A2 226 1024) (b1b b1g b1beta : A1 1024) (b1pW : A2 226 1024) (b1pb : A1 1024)
    (b2W : A2 1024 1024) (b2b b2g b2beta : A1 1024)
    (b3W : A2 1024 512) (b3b b3g b3beta : A1 512) (b3pW : A2 1024 512) (b3pb : A1 512)
    (outW : A2 512 1) (outb : A1 1)
    (huid : ∀ i, (userId i).toNat < 100000) (hmid : ∀ i, (movieId i).toNat < 100000)
    (hgen : ∀ i, (gender i).toNat < 4) (hage : ∀ i, (age i).toNat < 8) (hocc : ∀ i, (occupation i).toNat < 32)
    (hgenres : ∀ i, IsR (genres i)) (hrat : ∀ j, IsR (rating j)) (himp : ∀ j, IsR (implicit j))
    (hEU : ∀ i, IsR (embUser i)) (hEG : ∀ i, IsR (embGender i)) (hEA : ∀ i, IsR (embAge i)) (hEO : ∀ i, IsR (embOcc i)) (hEM : ∀ i, IsR (embMovie i))
    (hgW : ∀ i, IsR (gW i)) (hgb : ∀ j, IsR (gb j)) (hugW : ∀ i, IsR (ugW i)) (hugb : ∀ j, IsR (ugb j))
    (h1W : ∀ i, IsR (b1W i)) (h1b : ∀ j, IsR (b1b j)) (h1g : ∀ j, IsR (b1g j)) (h1beta : ∀ j, IsR (b1beta j))
    (h1pW : ∀ i, IsR (b1pW i)) (h1pb : ∀ j, IsR (b1pb j))
    (h2W : ∀ i, IsR (b2W i)) (h2b : ∀ j, IsR (b2b j)) (h2g : ∀ j, IsR (b2g j)) (h2beta : ∀ j, IsR (b2beta j))
    (h3W : ∀ i, IsR (b3W i)) (h3b : ∀ j, IsR (b3b j)) (h3g : ∀ j, IsR (b3g j)) (h3beta : ∀ j, IsR (b3beta j))
    (h3pW : ∀ i, IsR (b3pW i)) (h3pb : ∀ j, IsR (b3pb j)) (hoW : ∀ i, IsR (outW i)) (hob : ∀ j, IsR (outb j)) :
    kerOut userId gender age occupation movieId genres rating implicit embUser embGender embAge embOcc embMovie gW gb ugW ugb b1W b1b b1g b1beta b1pW b1pb b2W b2b b2g b2beta b3W b3b b3g b3beta b3pW b3pb outW outb = refOut userId gender age occupation movieId genres rating implicit embUser embGender embAge embOcc embMovie gW gb ugW ugb b1W b1b b1g b1beta b1pW b1pb b2W b2b b2g b2beta b3W b3b b3g b3beta b3pW b3pb outW outb :=
  kerOut_eq_refOut_of_feat userId gender age occupation movieId genres rating implicit embUser embGender embAge embOcc embMovie gW gb ugW ugb b1W b1b b1g b1beta b1pW b1pb b2W b2b b2g b2beta b3W b3b b3g b3beta b3pW b3pb outW outb
    (isR_xOf userId gender age occupation movieId genres rating implicit embUser embGender embAge embOcc embMovie gW gb ugW ugb huid hmid hgen hage hocc hgenres hrat himp hEU hEG hEA hEO hEM hgW hgb hugW hugb)
    (fun W hW => kdot_perm _ _ (feat_row userId gender age occupation movieId genres rating implicit embUser embGender embAge embOcc embMovie gW gb ugW ugb huid hmid hgen hage hocc hgenres hrat himp hEU hEG hEA hEO hEM hgW hgb hugW hugb) W hW)
    h1W h1b h1g h1beta h1pW h1pb h2W h2b h2g h2beta h3W h3b h3g h3beta h3pW h3pb hoW hob

end Cert.Spec

end
-- ==== Proof.PreFacts.lean ====
/-
  From the precondition to the hypotheses of the bridge between the kernel's and the reference's computations: the
  precondition, all ones on every device, is a conjunction of thirty-five all-reductions; five bound the index arrays, thirty
  say that every float entry's absolute value is below the infinity, hence a coerced real. With them the kernel's
  computation of the argument arrays is the reference's.
-/
import proofs.«214388_g48842368090541_cont_8to1c4_19_37_alg».proof.Defs
import proofs.«214388_g48842368090541_cont_8to1c4_19_37_alg».proof.Proof.Gen.Pre_input_domain
import proofs.«214388_g48842368090541_cont_8to1c4_19_37_alg».proof.Proof.Bridge
import proofs.«214388_g48842368090541_cont_8to1c4_19_37_alg».proof.Proof.MainShapeIdeal
import Idealize.ShloMosaic.Lib.ReduceAll

noncomputable section

instance : Subsingleton Cert.Pre_input_domain.S_.Idx := ⟨fun _ _ => funext fun a => a.elim0⟩

namespace Cert.Proof.PreFacts

open Cert.KernelIdeal Cert.KernelIdeal.Gen Idealize.ShloMosaic Idealize.ShloMosaic.TcCoe Idealize.SL.Sem
open Cert.Spec

/-- An ideal value whose absolute value compares below the infinity word is a coerced real. -/
theorem isR_of_abs_lt_inf (x : EReal)
    (e : FloatOps.cmpf (F := Ideal) (φ := .f32) CmpFPredicate.olt (FloatOps.hostAbsf (F := Ideal) (φ := .f32) x) (FloatOps.ofBits (F := Ideal) .f32 2139095040#32) = 1#1) :
    IsR x := by
  have htop : Ideal.ofBits .f32 2139095040#32 = ⊤ := by simp [Ideal.ofBits, Ideal.ieee]
  have e2 : BitVec.ofBool (decide (max x (-x) < Ideal.ofBits .f32 2139095040#32)) = 1#1 := e
  rw [htop] at e2
  have hlt : max x (-x) < ⊤ := by
    by_contra hn
    rw [decide_eq_false hn] at e2
    exact absurd e2 (by decide)
  induction x using EReal.rec with
  | bot => exact absurd hlt (by simp)
  | top => exact absurd hlt (by simp)
  | coe r => exact ⟨r, rfl⟩

/-- The element fact from a float conjunct of the precondition: an all-reduction that is one met one at every index. -/
theorem isR_of_all {s : Shape} (x : FVec Ideal s .f32) (dims) (hb : Cert.Pre_input_domain.S_.BroadcastsInDim s dims)
    {axes : List (Fin s.rank)} (hr : s.ReducesTo axes Cert.Pre_input_domain.S_) (hu : 0 < Cert.Pre_input_domain.S_.numel)
    (j : Cert.Pre_input_domain.S_.Idx)
    (e : Host.reduce IntOp.andi (cmpf .olt (Host.absf x) (broadcastInDim s dims hb (constant Cert.Pre_input_domain.S_ .f32 0x7F800000#32)))
      (constantI Cert.Pre_input_domain.S_ 1 1#1) hr hu j = 1#1) (i : s.Idx) : IsR (x i) := by
  have e1 := Host.reduce_andi_all _ _ hr hu j e i
  simp only [cmpf, Host.absf, broadcastInDim, constant] at e1
  exact isR_of_abs_lt_inf _ e1

open Cert.Pre_input_domain in
set_option maxRecDepth 16384 in
set_option maxHeartbeats 1600000 in
/-- THE PRECONDITION'S FACTS, on every device: the five index arrays within their tables' ranges (as unsigned words), and every
    one of the thirty float argument arrays of coerced reals. The precondition is a conjunction, one `and` at a time, of
    all-reductions; the last five give the ranges, the first thirty say that each entry's absolute value compares below the
    infinity word. -/
theorem pre_facts [Cert.Pre_input_domain.Facts] (m : (ℓ : Loc nD τ sig) → Buf (Elt Ideal) ℓ) (h : Cert.Pre_KernelIdeal m) (c : Dev nD) :
    (∀ i, BitVec.toNat (((m ((c.tc : Thread nD τ).loc main_arg0)) : I1 16384) i) < 100000)
    ∧ (∀ i, BitVec.toNat (((m ((c.tc : Thread nD τ).loc main_arg4)) : I1 16384) i) < 100000)
    ∧ (∀ i, BitVec.toNat (((m ((c.tc : Thread nD τ).loc main_arg1)) : I1 16384) i) < 4)
    ∧ (∀ i, BitVec.toNat (((m ((c.tc : Thread nD τ).loc main_arg2)) : I1 16384) i) < 8)
    ∧ (∀ i, BitVec.toNat (((m ((c.tc : Thread nD τ).loc main_arg3)) : I1 16384) i) < 32)
    ∧ (∀ i, IsR (((m ((c.tc : Thread nD τ).loc main_arg5)) : A2 16384 19) i))
    ∧ (∀ i, IsR (((m ((c.tc : Thread nD τ).loc main_arg6)) : A1 16384) i))
    ∧ (∀ i, IsR (((m ((c.tc : Thread nD τ).loc main_arg7)) : A1 16384) i))
    ∧ (∀ i, IsR (((m ((c.tc : Thread nD τ).loc main_arg8)) : A2 100000 64) i))
    ∧ (∀ i, IsR (((m ((c.tc : Thread nD τ).loc main_arg9)) : A2 4 8) i))
    ∧ (∀ i, IsR (((m ((c.tc : Thread nD τ).loc main_arg10)) : A2 8 8) i))
    ∧ (∀ i, IsR (((m ((c.tc : Thread nD τ).loc main_arg11)) : A2 32 16) i))
    ∧ (∀ i, IsR (((m ((c.tc : Thread nD τ).loc main_arg12)) : A2 100000 64) i))
    ∧ (∀ i, IsR (((m ((c.tc : Thread nD τ).loc main_arg13)) : A2 19 32) i))
    ∧ (∀ i, IsR (((m ((c.tc : Thread nD τ).loc main_arg14)) : A1 32) i))
    ∧ (∀ i, IsR (((m ((c.tc : Thread nD τ).loc main_arg15)) : A2 2048 32) i))
    ∧ (∀ i, IsR (((m ((c.tc : Thread nD τ).loc main_arg16)) : A1 32) i))
    ∧ (∀ i, IsR (((m ((c.tc : Thread nD τ).loc main_arg17)) : A2 226 1024) i))
    ∧ (∀ i, IsR (((m ((c.tc : Thread nD τ).loc main_arg18)) : A1 1024) i))
    ∧ (∀ i, IsR (((m ((c.tc : Thread nD τ).loc main_arg19)) : A1 1024) i))
    ∧ (∀ i, IsR (((m ((c.tc : Thread nD τ).loc main_arg20)) : A1 1024) i))
    ∧ (∀ i, IsR (((m ((c.tc : Thread nD τ).loc main_arg21)) : A2 226 1024) i))
    ∧ (∀ i, IsR (((m ((c.tc : Thread nD τ).loc main_arg22)) : A1 1024) i))
    ∧ (∀ i, IsR (((m ((c.tc : Thread nD τ).loc main_arg23)) : A2 1024 1024) i))
    ∧ (∀ i, IsR (((m ((c.tc : Thread nD τ).loc main_arg24)) : A1 1024) i))
    ∧ (∀ i, IsR (((m ((c.tc : Thread nD τ).loc main_arg25)) : A1 1024) i))
    ∧ (∀ i, IsR (((m ((c.tc : Thread nD τ).loc main_arg26)) : A1 1024) i))
    ∧ (∀ i, IsR (((m ((c.tc : Thread nD τ).loc main_arg27)) : A2 1024 512) i))
    ∧ (∀ i, IsR (((m ((c.tc : Thread nD τ).loc main_arg28)) : A1 512) i))
    ∧ (∀ i, IsR (((m ((c.tc : Thread nD τ).loc main_arg29)) : A1 512) i))
    ∧ (∀ i, IsR (((m ((c.tc : Thread nD τ).loc main_arg30)) : A1 512) i))
    ∧ (∀ i, IsR (((m ((c.tc : Thread nD τ).loc main_arg31)) : A2 1024 512) i))
    ∧ (∀ i, IsR (((m ((c.tc : Thread nD τ).loc main_arg32)) : A1 512) i))
    ∧ (∀ i, IsR (((m ((c.tc : Thread nD τ).loc main_arg33)) : A2 512 1) i))
    ∧ (∀ i, IsR (((m ((c.tc : Thread nD τ).loc main_arg34)) : A1 1) i)) := by
  obtain ⟨b0, b4, b1, b2, b3⟩ := Cert.KernelIdeal.MainShape.bounds_of_pre m h c
  have e := congrFun (h c) (fun a => a.elim0)
  unfold Cert.Pre_input_domain.fn Cert.Pre_input_domain.fn_part1 Cert.Pre_input_domain.fn_part2 Cert.Pre_input_domain.fn_part3
    Cert.Pre_input_domain.fn_part4 Cert.Pre_input_domain.fn_part5 Cert.Pre_input_domain.fn_part6 Cert.Pre_input_domain.fn_part7
    Cert.Pre_input_domain.fn_part8 at e
  obtain ⟨h148, -⟩ := Cert.KernelIdeal.MainShape.part9_ranges _ _ _ _ _ _ _ e
  simp only [andi, IntOp.andi_eq_one] at h148
  obtain ⟨⟨⟨⟨⟨⟨⟨⟨⟨⟨⟨⟨⟨⟨⟨⟨⟨⟨⟨⟨⟨⟨⟨⟨⟨⟨⟨⟨⟨h5, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩, h30⟩, h31⟩, h32⟩, h33⟩, h34⟩ := h148
  exact ⟨b0, b4, b1, b2, b3, fun i => isR_of_all _ _ _ _ _ _ h5 i,
    fun i => isR_of_all _ _ _ _ _ _ h6 i,
    fun i => isR_of_all _ _ _ _ _ _ h7 i,
    fun i => isR_of_all _ _ _ _ _ _ h8 i,
    fun i => isR_of_all _ _ _ _ _ _ h9 i,
    fun i => isR_of_all _ _ _ _ _ _ h10 i,
    fun i => isR_of_all _ _ _ _ _ _ h11 i,
    fun i => isR_of_all _ _ _ _ _ _ h12 i,
    fun i => isR_of_all _ _ _ _ _ _ h13 i,
    fun i => isR_of_all _ _ _ _ _ _ h14 i,
    fun i => isR_of_all _ _ _ _ _ _ h15 i,
    fun i => isR_of_all _ _ _ _ _ _ h16 i,
    fun i => isR_of_all _ _ _ _ _ _ h17 i,
    fun i => isR_of_all _ _ _ _ _ _ h18 i,
    fun i => isR_of_all _ _ _ _ _ _ h19 i,
    fun i => isR_of_all _ _ _ _ _ _ h20 i,
    fun i => isR_of_all _ _ _ _ _ _ h21 i,
    fun i => isR_of_all _ _ _ _ _ _ h22 i,
    fun i => isR_of_all _ _ _ _ _ _ h23 i,
    fun i => isR_of_all _ _ _ _ _ _ h24 i,
    fun i => isR_of_all _ _ _ _ _ _ h25 i,
    fun i => isR_of_all _ _ _ _ _ _ h26 i,
    fun i => isR_of_all _ _ _ _ _ _ h27 i,
    fun i => isR_of_all _ _ _ _ _ _ h28 i,
    fun i => isR_of_all _ _ _ _ _ _ h29 i,
    fun i => isR_of_all _ _ _ _ _ _ h30 i,
    fun i => isR_of_all _ _ _ _ _ _ h31 i,
    fun i => isR_of_all _ _ _ _ _ _ h32 i,
    fun i => isR_of_all _ _ _ _ _ _ h33 i,
    fun i => isR_of_all _ _ _ _ _ _ h34 i⟩

set_option maxRecDepth 16384 in
/-- Under the precondition, on every device, the kernel's computation of the argument arrays is the reference's. -/
theorem spec_eq_of_pre [Cert.Pre_input_domain.Facts] (m : (ℓ : Loc nD τ sig) → Buf (Elt Ideal) ℓ) (h : Cert.Pre_KernelIdeal m) (c : Dev nD) :
    Cert.Spec.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) := by
  obtain ⟨huid, hmid, hgen, hage, hocc, f5, f6, f7, f8, f9, f10, f11, f12, f13, f14, f15, f16, f17, f18, f19, f20, f21, f22, f23, f24, f25, f26, f27, f28, f29, f30, f31, f32, f33, f34⟩ := pre_facts m h c
  exact Cert.Spec.kerOut_eq_refOut _ _ _ _ _ _ _ _ _ _ _ _ _ _ _ _ _ _ _ _ _ _ _ _ _ _ _ _ _ _ _ _ _ _ _ huid hmid hgen hage hocc f5 f6 f7 f8 f9 f10 f11 f12 f13 f14 f15 f16 f17 f18 f19 f20 f21 f22 f23 f24 f25 f26 f27 f28 f29 f30 f31 f32 f33 f34

end Cert.Proof.PreFacts
end
-- ==== Proof.RefChain.lean ====
/-
  The reference's result buffer as a value. Every operation writes one buffer from buffers written before it, so each
  buffer's final contents is a term of the launch contents: the operation's function at the values of the buffers it
  reads. One definition per buffer; the fold of the operations over any contents is read off window by window against
  them (inside a window by one rewriting pass, across windows by the earlier windows' lemmas), and the run's result
  buffer ends at the value of the last operation.
-/
import proofs.«214388_g48842368090541_cont_8to1c4_19_37_alg».proof.Proof.RefRun

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The value of every buffer, as a term of the launch contents

One definition per operation, in order: the operation's function applied to the values of the buffers it reads
(an argument array read at the launch contents `V`). `x_main_v139 V` is the result. -/

def x_main_c (V : Valuation τ sig (Elt F)) : (⟨S_, .i32⟩ : BufTy).Contents (Elt F) :=
  (constantI S_ 32 0#32)
def x_main_v0 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (x_main_c V)
def x_main_v1 (V : Valuation τ sig (Elt F)) : (⟨S16384, .i1⟩ : BufTy).Contents (Elt F) :=
  (cmpi .slt : (⟨S16384, .i32⟩ : BufTy).Contents (Elt F) → (⟨S16384, .i32⟩ : BufTy).Contents (Elt F) → (⟨S16384, .i1⟩ : BufTy).Contents (Elt F)) (V (Proc.devRef .tc main_arg0)) (x_main_v0 V)
def x_main_c_0 (V : Valuation τ sig (Elt F)) : (⟨S_, .i32⟩ : BufTy).Contents (Elt F) :=
  (constantI S_ 32 100000#32)
def x_main_v2 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (x_main_c_0 V)
def x_main_v3 (V : Valuation τ sig (Elt F)) : (⟨S16384, .i32⟩ : BufTy).Contents (Elt F) :=
  (addi : (⟨S16384, .i32⟩ : BufTy).Contents (Elt F) → (⟨S16384, .i32⟩ : BufTy).Contents (Elt F) → (⟨S16384, .i32⟩ : BufTy).Contents (Elt F)) (V (Proc.devRef .tc main_arg0)) (x_main_v2 V)
def x_main_v4 (V : Valuation τ sig (Elt F)) : (⟨S16384, .i32⟩ : BufTy).Contents (Elt F) :=
  (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (x_main_v1 V) (x_main_v3 V) (V (Proc.devRef .tc main_arg0))
def x_main_v5 (V : Valuation τ sig (Elt F)) : (⟨S16384x1, .i32⟩ : BufTy).Contents (Elt F) :=
  (broadcastInDim S16384x1 ![0] bcast_S16384_S16384x1_0 : (⟨S16384, .i32⟩ : BufTy).Contents (Elt F) → (⟨S16384x1, .i32⟩ : BufTy).Contents (Elt F)) (x_main_v4 V)
def x_main_v6 (V : Valuation τ sig (Elt F)) : (⟨S16384x64, .f32⟩ : BufTy).Contents (Elt F) :=
  ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)) (V (Proc.devRef .tc main_arg8)) (x_main_v5 V)
def x_main_c_1 (V : Valuation τ sig (Elt F)) : (⟨S_, .i32⟩ : BufTy).Contents (Elt F) :=
  (constantI S_ 32 0#32)
def x_main_v7 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (x_main_c_1 V)
def x_main_v8 (V : Valuation τ sig (Elt F)) : (⟨S16384, .i1⟩ : BufTy).Contents (Elt F) :=
  (cmpi .slt : (⟨S16384, .i32⟩ : BufTy).Contents (Elt F) → (⟨S16384, .i32⟩ : BufTy).Contents (Elt F) → (⟨S16384, .i1⟩ : BufTy).Contents (Elt F)) (V (Proc.devRef .tc main_arg1)) (x_main_v7 V)
def x_main_c_2 (V : Valuation τ sig (Elt F)) : (⟨S_, .i32⟩ : BufTy).Contents (Elt F) :=
  (constantI S_ 32 4#32)
def x_main_v9 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (x_main_c_2 V)
def x_main_v10 (V : Valuation τ sig (Elt F)) : (⟨S16384, .i32⟩ : BufTy).Contents (Elt F) :=
  (addi : (⟨S16384, .i32⟩ : BufTy).Contents (Elt F) → (⟨S16384, .i32⟩ : BufTy).Contents (Elt F) → (⟨S16384, .i32⟩ : BufTy).Contents (Elt F)) (V (Proc.devRef .tc main_arg1)) (x_main_v9 V)
def x_main_v11 (V : Valuation τ sig (Elt F)) : (⟨S16384, .i32⟩ : BufTy).Contents (Elt F) :=
  (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (x_main_v8 V) (x_main_v10 V) (V (Proc.devRef .tc main_arg1))
def x_main_v12 (V : Valuation τ sig (Elt F)) : (⟨S16384x1, .i32⟩ : BufTy).Contents (Elt F) :=
  (broadcastInDim S16384x1 ![0] bcast_S16384_S16384x1_0 : (⟨S16384, .i32⟩ : BufTy).Contents (Elt F) → (⟨S16384x1, .i32⟩ : BufTy).Contents (Elt F)) (x_main_v11 V)
def x_main_v13 (V : Valuation τ sig (Elt F)) : (⟨S16384x8, .f32⟩ : BufTy).Contents (Elt F) :=
  ((fun x i => Host.gather gather_S4x8_S16384x1_S16384x8_1_0_n_n_0_1_18 x i) : (⟨S4x8, .f32⟩ : BufTy).Contents (Elt F) → (⟨S16384x1, .i32⟩ : BufTy).Contents (Elt F) → (⟨S16384x8, .f32⟩ : BufTy).Contents (Elt F)) (V (Proc.devRef .tc main_arg9)) (x_main_v12 V)
def x_main_c_3 (V : Valuation τ sig (Elt F)) : (⟨S_, .i32⟩ : BufTy).Contents (Elt F) :=
  (constantI S_ 32 0#32)
def x_main_v14 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (x_main_c_3 V)
def x_main_v15 (V : Valuation τ sig (Elt F)) : (⟨S16384, .i1⟩ : BufTy).Contents (Elt F) :=
  (cmpi .slt : (⟨S16384, .i32⟩ : BufTy).Contents (Elt F) → (⟨S16384, .i32⟩ : BufTy).Contents (Elt F) → (⟨S16384, .i1⟩ : BufTy).Contents (Elt F)) (V (Proc.devRef .tc main_arg2)) (x_main_v14 V)
def x_main_c_4 (V : Valuation τ sig (Elt F)) : (⟨S_, .i32⟩ : BufTy).Contents (Elt F) :=
  (constantI S_ 32 8#32)
def x_main_v16 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (x_main_c_4 V)
def x_main_v17 (V : Valuation τ sig (Elt F)) : (⟨S16384, .i32⟩ : BufTy).Contents (Elt F) :=
  (addi : (⟨S16384, .i32⟩ : BufTy).Contents (Elt F) → (⟨S16384, .i32⟩ : BufTy).Contents (Elt F) → (⟨S16384, .i32⟩ : BufTy).Contents (Elt F)) (V (Proc.devRef .tc main_arg2)) (x_main_v16 V)
def x_main_v18 (V : Valuation τ sig (Elt F)) : (⟨S16384, .i32⟩ : BufTy).Contents (Elt F) :=
  (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (x_main_v15 V) (x_main_v17 V) (V (Proc.devRef .tc main_arg2))
def x_main_v19 (V : Valuation τ sig (Elt F)) : (⟨S16384x1, .i32⟩ : BufTy).Contents (Elt F) :=
  (broadcastInDim S16384x1 ![0] bcast_S16384_S16384x1_0 : (⟨S16384, .i32⟩ : BufTy).Contents (Elt F) → (⟨S16384x1, .i32⟩ : BufTy).Contents (Elt F)) (x_main_v18 V)
def x_main_v20 (V : Valuation τ sig (Elt F)) : (⟨S16384x8, .f32⟩ : BufTy).Contents (Elt F) :=
  ((fun x i => Host.gather gather_S8x8_S16384x1_S16384x8_1_0_n_n_0_1_18 x i) : (⟨S8x8, .f32⟩ : BufTy).Contents (Elt F) → (⟨S16384x1, .i32⟩ : BufTy).Contents (Elt F) → (⟨S16384x8, .f32⟩ : BufTy).Contents (Elt F)) (V (Proc.devRef .tc main_arg10)) (x_main_v19 V)
def x_main_c_5 (V : Valuation τ sig (Elt F)) : (⟨S_, .i32⟩ : BufTy).Contents (Elt F) :=
  (constantI S_ 32 0#32)
def x_main_v21 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (x_main_c_5 V)
def x_main_v22 (V : Valuation τ sig (Elt F)) : (⟨S16384, .i1⟩ : BufTy).Contents (Elt F) :=
  (cmpi .slt : (⟨S16384, .i32⟩ : BufTy).Contents (Elt F) → (⟨S16384, .i32⟩ : BufTy).Contents (Elt F) → (⟨S16384, .i1⟩ : BufTy).Contents (Elt F)) (V (Proc.devRef .tc main_arg3)) (x_main_v21 V)
def x_main_c_6 (V : Valuation τ sig (Elt F)) : (⟨S_, .i32⟩ : BufTy).Contents (Elt F) :=
  (constantI S_ 32 32#32)
def x_main_v23 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (x_main_c_6 V)
def x_main_v24 (V : Valuation τ sig (Elt F)) : (⟨S16384, .i32⟩ : BufTy).Contents (Elt F) :=
  (addi : (⟨S16384, .i32⟩ : BufTy).Contents (Elt F) → (⟨S16384, .i32⟩ : BufTy).Contents (Elt F) → (⟨S16384, .i32⟩ : BufTy).Contents (Elt F)) (V (Proc.devRef .tc main_arg3)) (x_main_v23 V)
def x_main_v25 (V : Valuation τ sig (Elt F)) : (⟨S16384, .i32⟩ : BufTy).Contents (Elt F) :=
  (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (x_main_v22 V) (x_main_v24 V) (V (Proc.devRef .tc main_arg3))
def x_main_v26 (V : Valuation τ sig (Elt F)) : (⟨S16384x1, .i32⟩ : BufTy).Contents (Elt F) :=
  (broadcastInDim S16384x1 ![0] bcast_S16384_S16384x1_0 : (⟨S16384, .i32⟩ : BufTy).Contents (Elt F) → (⟨S16384x1, .i32⟩ : BufTy).Contents (Elt F)) (x_main_v25 V)
def x_main_v27 (V : Valuation τ sig (Elt F)) : (⟨S16384x16, .f32⟩ : BufTy).Contents (Elt F) :=
  ((fun x i => Host.gather gather_S32x16_S16384x1_S16384x16_1_0_n_n_0_1_116 x i) : (⟨S32x16, .f32⟩ : BufTy).Contents (Elt F) → (⟨S16384x1, .i32⟩ : BufTy).Contents (Elt F) → (⟨S16384x16, .f32⟩ : BufTy).Contents (Elt F)) (V (Proc.devRef .tc main_arg11)) (x_main_v26 V)
def x_main_c_7 (V : Valuation τ sig (Elt F)) : (⟨S_, .i32⟩ : BufTy).Contents (Elt F) :=
  (constantI S_ 32 0#32)
def x_main_v28 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (x_main_c_7 V)
def x_main_v29 (V : Valuation τ sig (Elt F)) : (⟨S16384, .i1⟩ : BufTy).Contents (Elt F) :=
  (cmpi .slt : (⟨S16384, .i32⟩ : BufTy).Contents (Elt F) → (⟨S16384, .i32⟩ : BufTy).Contents (Elt F) → (⟨S16384, .i1⟩ : BufTy).Contents (Elt F)) (V (Proc.devRef .tc main_arg4)) (x_main_v28 V)
def x_main_c_8 (V : Valuation τ sig (Elt F)) : (⟨S_, .i32⟩ : BufTy).Contents (Elt F) :=
  (constantI S_ 32 100000#32)
def x_main_v30 (V : Valuation τ sig (Elt F)) : (⟨S16384, .i32⟩ : BufTy).Contents (Elt F) :=
  (broadcastInDim S16384 ![] bcast_S_S16384 : (⟨S_, .i32⟩ : BufTy).Contents (Elt F) → (⟨S16384, .i32⟩ : BufTy).Contents (Elt F)) (x_main_c_8 V)
def x_main_v31 (V : Valuation τ sig (Elt F)) : (⟨S16384, .i32⟩ : BufTy).Contents (Elt F) :=
  (addi : (⟨S16384, .i32⟩ : BufTy).Contents (Elt F) → (⟨S16384, .i32⟩ : BufTy).Contents (Elt F) → (⟨S16384, .i32⟩ : BufTy).Contents (Elt F)) (V (Proc.devRef .tc main_arg4)) (x_main_v30 V)
def x_main_v32 (V : Valuation τ sig (Elt F)) : (⟨S16384, .i32⟩ : BufTy).Contents (Elt F) :=
  (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (x_main_v29 V) (x_main_v31 V) (V (Proc.devRef .tc main_arg4))
def x_main_v33 (V : Valuation τ sig (Elt F)) : (⟨S16384x1, .i32⟩ : BufTy).Contents (Elt F) :=
  (broadcastInDim S16384x1 ![0] bcast_S16384_S16384x1_0 : (⟨S16384, .i32⟩ : BufTy).Contents (Elt F) → (⟨S16384x1, .i32⟩ : BufTy).Contents (Elt F)) (x_main_v32 V)
def x_main_v34 (V : Valuation τ sig (Elt F)) : (⟨S16384x64, .f32⟩ : BufTy).Contents (Elt F) :=
  ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)) (V (Proc.devRef .tc main_arg12)) (x_main_v33 V)
def x_main_v35 (V : Valuation τ sig (Elt F)) : (⟨S16384x32, .f32⟩ : BufTy).Contents (Elt F) :=
  ((fun l r => Host.dotGeneral dot_S16384x19_S19x32_S16384x32_1_0_0_1_n_n none l r) : (⟨S16384x19, .f32⟩ : BufTy).Contents (Elt F) → (⟨S19x32, .f32⟩ : BufTy).Contents (Elt F) → (⟨S16384x32, .f32⟩ : BufTy).Contents (Elt F)) (V (Proc.devRef .tc main_arg5)) (V (Proc.devRef .tc main_arg13))
def x_main_v36 (V : Valuation τ sig (Elt F)) : (⟨S1x32, .f32⟩ : BufTy).Contents (Elt F) :=
  (broadcastInDim S1x32 ![1] bcast_S32_S1x32_1 : (⟨S32, .f32⟩ : BufTy).Contents (Elt F) → (⟨S1x32, .f32⟩ : BufTy).Contents (Elt F)) (V (Proc.devRef .tc main_arg14))
def x_main_v37 (V : Valuation τ sig (Elt F)) : (⟨S16384x32, .f32⟩ : BufTy).Contents (Elt F) :=
  (broadcastInDim S16384x32 ![0, 1] bcast_S1x32_S16384x32_0_1 : (⟨S1x32, .f32⟩ : BufTy).Contents (Elt F) → (⟨S16384x32, .f32⟩ : BufTy).Contents (Elt F)) (x_main_v36 V)
def x_main_v38 (V : Valuation τ sig (Elt F)) : (⟨S16384x32, .f32⟩ : BufTy).Contents (Elt F) :=
  (addf : (⟨S16384x32, .f32⟩ : BufTy).Contents (Elt F) → (⟨S16384x32, .f32⟩ : BufTy).Contents (Elt F) → (⟨S16384x32, .f32⟩ : BufTy).Contents (Elt F)) (x_main_v35 V) (x_main_v37 V)
def x_main_v39 (V : Valuation τ sig (Elt F)) : (⟨S16384x64x1, .f32⟩ : BufTy).Contents (Elt F) :=
  (broadcastInDim S16384x64x1 ![0, 1] bcast_S16384x64_S16384x64x1_0_1 : (⟨S16384x64, .f32⟩ : BufTy).Contents (Elt F) → (⟨S16384x64x1, .f32⟩ : BufTy).Contents (Elt F)) (x_main_v6 V)
def x_main_v40 (V : Valuation τ sig (Elt F)) : (⟨S16384x1x32, .f32⟩ : BufTy).Contents (Elt F) :=
  (broadcastInDim S16384x1x32 ![0, 2] bcast_S16384x32_S16384x1x32_0_2 : (⟨S16384x32, .f32⟩ : BufTy).Contents (Elt F) → (⟨S16384x1x32, .f32⟩ : BufTy).Contents (Elt F)) (x_main_v38 V)
def x_main_v41 (V : Valuation τ sig (Elt F)) : (⟨S16384x64x32, .f32⟩ : BufTy).Contents (Elt F) :=
  (broadcastInDim S16384x64x32 ![0, 1, 2] bcast_S16384x64x1_S16384x64x32_0_1_2 : (⟨S16384x64x1, .f32⟩ : BufTy).Contents (Elt F) → (⟨S16384x64x32, .f32⟩ : BufTy).Contents (Elt F)) (x_main_v39 V)
def x_main_v42 (V : Valuation τ sig (Elt F)) : (⟨S16384x64x32, .f32⟩ : BufTy).Contents (Elt F) :=
  (broadcastInDim S16384x64x32 ![0, 1, 2] bcast_S16384x1x32_S16384x64x32_0_1_2 : (⟨S16384x1x32, .f32⟩ : BufTy).Contents (Elt F) → (⟨S16384x64x32, .f32⟩ : BufTy).Contents (Elt F)) (x_main_v40 V)
def x_main_v43 (V : Valuation τ sig (Elt F)) : (⟨S16384x64x32, .f32⟩ : BufTy).Contents (Elt F) :=
  (mulf : (⟨S16384x64x32, .f32⟩ : BufTy).Contents (Elt F) → (⟨S16384x64x32, .f32⟩ : BufTy).Contents (Elt F) → (⟨S16384x64x32, .f32⟩ : BufTy).Contents (Elt F)) (x_main_v41 V) (x_main_v42 V)
def x_main_v44 (V : Valuation τ sig (Elt F)) : (⟨S16384x2048, .f32⟩ : BufTy).Contents (Elt F) :=
  shapeCast S16384x2048 (x_main_v43 V) shapeCasts_S16384x64x32_S16384x2048
def x_main_v45 (V : Valuation τ sig (Elt F)) : (⟨S16384x32, .f32⟩ : BufTy).Contents (Elt F) :=
  ((fun l r => Host.dotGeneral dot_S16384x2048_S2048x32_S16384x32_1_0_0_1_n_n none l r) : (⟨S16384x2048, .f32⟩ : BufTy).Contents (Elt F) → (⟨S2048x32, .f32⟩ : BufTy).Contents (Elt F) → (⟨S16384x32, .f32⟩ : BufTy).Contents (Elt F)) (x_main_v44 V) (V (Proc.devRef .tc main_arg15))
def x_main_v46 (V : Valuation τ sig (Elt F)) : (⟨S1x32, .f32⟩ : BufTy).Contents (Elt F) :=
  (broadcastInDim S1x32 ![1] bcast_S32_S1x32_1 : (⟨S32, .f32⟩ : BufTy).Contents (Elt F) → (⟨S1x32, .f32⟩ : BufTy).Contents (Elt F)) (V (Proc.devRef .tc main_arg16))
def x_main_v47 (V : Valuation τ sig (Elt F)) : (⟨S16384x32, .f32⟩ : BufTy).Contents (Elt F) :=
  (broadcastInDim S16384x32 ![0, 1] bcast_S1x32_S16384x32_0_1 : (⟨S1x32, .f32⟩ : BufTy).Contents (Elt F) → (⟨S16384x32, .f32⟩ : BufTy).Contents (Elt F)) (x_main_v46 V)
def x_main_v48 (V : Valuation τ sig (Elt F)) : (⟨S16384x32, .f32⟩ : BufTy).Contents (Elt F) :=
  (addf : (⟨S16384x32, .f32⟩ : BufTy).Contents (Elt F) → (⟨S16384x32, .f32⟩ : BufTy).Contents (Elt F) → (⟨S16384x32, .f32⟩ : BufTy).Contents (Elt F)) (x_main_v45 V) (x_main_v47 V)
def x_main_v49 (V : Valuation τ sig (Elt F)) : (⟨S16384x1, .f32⟩ : BufTy).Contents (Elt F) :=
  (broadcastInDim S16384x1 ![0] bcast_S16384_S16384x1_0 : (⟨S16384, .f32⟩ : BufTy).Contents (Elt F) → (⟨S16384x1, .f32⟩ : BufTy).Contents (Elt F)) (V (Proc.devRef .tc main_arg6))
def x_main_v50 (V : Valuation τ sig (Elt F)) : (⟨S16384x1, .f32⟩ : BufTy).Contents (Elt F) :=
  (broadcastInDim S16384x1 ![0] bcast_S16384_S16384x1_0 : (⟨S16384, .f32⟩ : BufTy).Contents (Elt F) → (⟨S16384x1, .f32⟩ : BufTy).Contents (Elt F)) (V (Proc.devRef .tc main_arg7))
def x_main_v51 (V : Valuation τ sig (Elt F)) : (⟨S16384x226, .f32⟩ : BufTy).Contents (Elt F) :=
  concatenate S16384x226 1 [⟨S16384x64, x_main_v6 V⟩, ⟨S16384x8, x_main_v13 V⟩, ⟨S16384x8, x_main_v20 V⟩, ⟨S16384x16, x_main_v27 V⟩, ⟨S16384x64, x_main_v34 V⟩, ⟨S16384x32, x_main_v38 V⟩, ⟨S16384x1, x_main_v49 V⟩, ⟨S16384x1, x_main_v50 V⟩, ⟨S16384x32, x_main_v48 V⟩] concatenates_S16384x64_S16384x8_S16384x8_S16384x16_S16384x64_S16384x32_S16384x1_S16384x1_S16384x32_S16384x226_d1
def x_main_v52 (V : Valuation τ sig (Elt F)) : (⟨S16384x1024, .f32⟩ : BufTy).Contents (Elt F) :=
  ((fun l r => Host.dotGeneral dot_S16384x226_S226x1024_S16384x1024_1_0_0_1_n_n none l r) : (⟨S16384x226, .f32⟩ : BufTy).Contents (Elt F) → (⟨S226x1024, .f32⟩ : BufTy).Contents (Elt F) → (⟨S16384x1024, .f32⟩ : BufTy).Contents (Elt F)) (x_main_v51 V) (V (Proc.devRef .tc main_arg17))
def x_main_v53 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (V (Proc.devRef .tc main_arg18))
def x_main_v54 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v53 V)
def x_main_v55 (V : Valuation τ sig (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (x_main_v52 V) (x_main_v54 V)
def x_main_cst (V : Valuation τ sig (Elt F)) : (⟨S_, .f32⟩ : BufTy).Contents (Elt F) :=
  (constant S_ .f32 0x00000000#32)
def x_main_v56 (V : Valuation τ sig (Elt F)) : (⟨S1024, .f32⟩ : BufTy).Contents (Elt F) :=
  ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)) (x_main_v55 V) (x_main_cst V)
def x_main_cst_9 (V : Valuation τ sig (Elt F)) : (⟨S_, .f32⟩ : BufTy).Contents (Elt F) :=
  (constant S_ .f32 0x46800000#32)
def x_main_v57 (V : Valuation τ sig (Elt F)) : (⟨S1024, .f32⟩ : BufTy).Contents (Elt F) :=
  (broadcastInDim S1024 ![] bcast_S_S1024 : (⟨S_, .f32⟩ : BufTy).Contents (Elt F) → (⟨S1024, .f32⟩ : BufTy).Contents (Elt F)) (x_main_cst_9 V)
def x_main_v58 (V : Valuation τ sig (Elt F)) : (⟨S1024, .f32⟩ : BufTy).Contents (Elt F) :=
  (Host.divf : (⟨S1024, .f32⟩ : BufTy).Contents (Elt F) → (⟨S1024, .f32⟩ : BufTy).Contents (Elt F) → (⟨S1024, .f32⟩ : BufTy).Contents (Elt F)) (x_main_v56 V) (x_main_v57 V)
def x_main_c_10 (V : Valuation τ sig (Elt F)) : (⟨S_, .i32⟩ : BufTy).Contents (Elt F) :=
  (constantI S_ 32 0#32)
def x_main_call0_cst (V : Valuation τ sig (Elt F)) : (⟨S_, .f32⟩ : BufTy).Contents (Elt F) :=
  (constant S_ .f32 0x00000000#32)
def x_main_call0_v0 (V : Valuation τ sig (Elt F)) : (⟨S1024, .f32⟩ : BufTy).Contents (Elt F) :=
  (fun x v => Host.reduceAdd x v reducesTo_S16384x1024_S1024_d0 h_S_) (x_main_v55 V) (x_main_call0_cst V)
def x_main_call0_v1 (V : Valuation τ sig (Elt F)) : (⟨S1x1024, .f32⟩ : BufTy).Contents (Elt F) :=
  (broadcastInDim S1x1024 ![1] bcast_S1024_S1x1024_1) (x_main_call0_v0 V)
def x_main_call0_cst_0 (V : Valuation τ sig (Elt F)) : (⟨S_, .f32⟩ : BufTy).Contents (Elt F) :=
  (constant S_ .f32 0x46800000#32)
def x_main_call0_v2 (V : Valuation τ sig (Elt F)) : (⟨S1x1024, .f32⟩ : BufTy).Contents (Elt F) :=
  (broadcastInDim S1x1024 ![] bcast_S_S1x1024) (x_main_call0_cst_0 V)
def x_main_call0_v3 (V : Valuation τ sig (Elt F)) : (⟨S1x1024, .f32⟩ : BufTy).Contents (Elt F) :=
  Host.divf (x_main_call0_v1 V) (x_main_call0_v2 V)
def x_main_call0_v4 (V : Valuation τ sig (Elt F)) : (⟨S16384x1024, .f32⟩ : BufTy).Contents (Elt F) :=
  (broadcastInDim S16384x1024 ![0, 1] bcast_S1x1024_S16384x1024_0_1) (x_main_call0_v3 V)
def x_main_call0_v5 (V : Valuation τ sig (Elt F)) : (⟨S16384x1024, .f32⟩ : BufTy).Contents (Elt F) :=
  subf (x_main_v55 V) (x_main_call0_v4 V)
def x_main_call0_v6 (V : Valuation τ sig (Elt F)) : (⟨S16384x1024, .f32⟩ : BufTy).Contents (Elt F) :=
  mulf (x_main_call0_v5 V) (x_main_call0_v5 V)
def x_main_call0_v7 (V : Valuation τ sig (Elt F)) : (⟨S_, .f32⟩ : BufTy).Contents (Elt F) :=
  (sitofp .f32) (x_main_c_10 V)
def x_main_call0_cst_1 (V : Valuation τ sig (Elt F)) : (⟨S_, .f32⟩ : BufTy).Contents (Elt F) :=
  (constant S_ .f32 0x46800000#32)
def x_main_call0_v8 (V : Valuation τ sig (Elt F)) : (⟨S_, .f32⟩ : BufTy).Contents (Elt F) :=
  subf (x_main_call0_cst_1 V) (x_main_call0_v7 V)
def x_main_call0_cst_2 (V : Valuation τ sig (Elt F)) : (⟨S_, .f32⟩ : BufTy).Contents (Elt F) :=
  (constant S_ .f32 0x00000000#32)
def x_main_call0_v9 (V : Valuation τ sig (Elt F)) : (⟨S1024, .f32⟩ : BufTy).Contents (Elt F) :=
  (fun x v => Host.reduceAdd x v reducesTo_S16384x1024_S1024_d0 h_S_) (x_main_call0_v6 V) (x_main_call0_cst_2 V)
def x_main_call0_v10 (V : Valuation τ sig (Elt F)) : (⟨S1024, .f32⟩ : BufTy).Contents (Elt F) :=
  (broadcastInDim S1024 ![] bcast_S_S1024) (x_main_call0_v8 V)
def x_main_call0_v11 (V : Valuation τ sig (Elt F)) : (⟨S1024, .f32⟩ : BufTy).Contents (Elt F) :=
  Host.divf (x_main_call0_v9 V) (x_main_call0_v10 V)
def x_main_call0_cst_3 (V : Valuation τ sig (Elt F)) : (⟨S_, .f32⟩ : BufTy).Contents (Elt F) :=
  (constant S_ .f32 0x00000000#32)
def x_main_call0_v12 (V : Valuation τ sig (Elt F)) : (⟨S_, .i1⟩ : BufTy).Contents (Elt F) :=
  (cmpf .ogt) (x_main_call0_v8 V) (x_main_call0_cst_3 V)
def x_main_call0_cst_4 (V : Valuation τ sig (Elt F)) : (⟨S_, .f32⟩ : BufTy).Contents (Elt F) :=
  (constant S_ .f32 0x7FC00000#32)
def x_main_call0_call0_v0 (V : Valuation τ sig (Elt F)) : (⟨S_, .f32⟩ : BufTy).Contents (Elt F) :=
  id (x_main_call0_cst_4 V)
def x_main_call0_call0_v1 (V : Valuation τ sig (Elt F)) : (⟨S1024, .f32⟩ : BufTy).Contents (Elt F) :=
  (broadcastInDim S1024 ![] bcast_S_S1024) (x_main_call0_call0_v0 V)
def x_main_v59 (V : Valuation τ sig (Elt F)) : (⟨S1024, .f32⟩ : BufTy).Contents (Elt F) :=
  (fun p a b => select (broadcastInDim S1024 ![] bcast_S_S1024 p) a b) (x_main_call0_v12 V) (x_main_call0_v11 V) (x_main_call0_call0_v1 V)
def x_main_v60 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (x_main_v58 V)
def x_main_v61 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v60 V)
def x_main_v62 (V : Valuation τ sig (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (x_main_v55 V) (x_main_v61 V)
def x_main_cst_11 (V : Valuation τ sig (Elt F)) : (⟨S_, .f32⟩ : BufTy).Contents (Elt F) :=
  (constant S_ .f32 0x3727C5AC#32)
def x_main_v63 (V : Valuation τ sig (Elt F)) : (⟨S1024, .f32⟩ : BufTy).Contents (Elt F) :=
  (broadcastInDim S1024 ![] bcast_S_S1024 : (⟨S_, .f32⟩ : BufTy).Contents (Elt F) → (⟨S1024, .f32⟩ : BufTy).Contents (Elt F)) (x_main_cst_11 V)
def x_main_v64 (V : Valuation τ sig (Elt F)) : (⟨S1024, .f32⟩ : BufTy).Contents (Elt F) :=
  (addf : (⟨S1024, .f32⟩ : BufTy).Contents (Elt F) → (⟨S1024, .f32⟩ : BufTy).Contents (Elt F) → (⟨S1024, .f32⟩ : BufTy).Contents (Elt F)) (x_main_v59 V) (x_main_v63 V)
def x_main_v65 (V : Valuation τ sig (Elt F)) : (⟨S1024, .f32⟩ : BufTy).Contents (Elt F) :=
  (Host.sqrt : (⟨S1024, .f32⟩ : BufTy).Contents (Elt F) → (⟨S1024, .f32⟩ : BufTy).Contents (Elt F)) (x_main_v64 V)
def x_main_v66 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (x_main_v65 V)
def x_main_v67 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v66 V)
def x_main_v68 (V : Valuation τ sig (Elt F)) : (⟨S16384x1024, .f32⟩ : BufTy).Contents (Elt F) :=
  (Host.divf : (⟨S16384x1024, .f32⟩ : BufTy).Contents (Elt F) → (⟨S16384x1024, .f32⟩ : BufTy).Contents (Elt F) → (⟨S16384x1024, .f32⟩ : BufTy).Contents (Elt F)) (x_main_v62 V) (x_main_v67 V)
def x_main_v69 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (V (Proc.devRef .tc main_arg19))
def x_main_v70 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v69 V)
def x_main_v71 (V : Valuation τ sig (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (x_main_v68 V) (x_main_v70 V)
def x_main_v72 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (V (Proc.devRef .tc main_arg20))
def x_main_v73 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v72 V)
def x_main_v74 (V : Valuation τ sig (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (x_main_v71 V) (x_main_v73 V)
def x_main_call1_cst (V : Valuation τ sig (Elt F)) : (⟨S_, .f32⟩ : BufTy).Contents (Elt F) :=
  (constant S_ .f32 0x00000000#32)
def x_main_call1_v0 (V : Valuation τ sig (Elt F)) : (⟨S16384x1024, .f32⟩ : BufTy).Contents (Elt F) :=
  (broadcastInDim S16384x1024 ![] bcast_S_S16384x1024) (x_main_call1_cst V)
def x_main_v75 (V : Valuation τ sig (Elt F)) : (⟨S16384x1024, .f32⟩ : BufTy).Contents (Elt F) :=
  maximumf (x_main_v74 V) (x_main_call1_v0 V)
def x_main_v76 (V : Valuation τ sig (Elt F)) : (⟨S16384x1024, .f32⟩ : BufTy).Contents (Elt F) :=
  ((fun l r => Host.dotGeneral dot_S16384x226_S226x1024_S16384x1024_1_0_0_1_n_n none l r) : (⟨S16384x226, .f32⟩ : BufTy).Contents (Elt F) → (⟨S226x1024, .f32⟩ : BufTy).Contents (Elt F) → (⟨S16384x1024, .f32⟩ : BufTy).Contents (Elt F)) (x_main_v51 V) (V (Proc.devRef .tc main_arg21))
def x_main_v77 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (V (Proc.devRef .tc main_arg22))
def x_main_v78 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v77 V)
def x_main_v79 (V : Valuation τ sig (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (x_main_v76 V) (x_main_v78 V)
def x_main_v80 (V : Valuation τ sig (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (x_main_v75 V) (x_main_v79 V)
def x_main_v81 (V : Valuation τ sig (Elt F)) : (⟨S16384x1024, .f32⟩ : BufTy).Contents (Elt F) :=
  ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)) (x_main_v80 V) (V (Proc.devRef .tc main_arg23))
def x_main_v82 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (V (Proc.devRef .tc main_arg24))
def x_main_v83 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v82 V)
def x_main_v84 (V : Valuation τ sig (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (x_main_v81 V) (x_main_v83 V)
def x_main_cst_12 (V : Valuation τ sig (Elt F)) : (⟨S_, .f32⟩ : BufTy).Contents (Elt F) :=
  (constant S_ .f32 0x00000000#32)
def x_main_v85 (V : Valuation τ sig (Elt F)) : (⟨S1024, .f32⟩ : BufTy).Contents (Elt F) :=
  ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)) (x_main_v84 V) (x_main_cst_12 V)
def x_main_cst_13 (V : Valuation τ sig (Elt F)) : (⟨S_, .f32⟩ : BufTy).Contents (Elt F) :=
  (constant S_ .f32 0x46800000#32)
def x_main_v86 (V : Valuation τ sig (Elt F)) : (⟨S1024, .f32⟩ : BufTy).Contents (Elt F) :=
  (broadcastInDim S1024 ![] bcast_S_S1024 : (⟨S_, .f32⟩ : BufTy).Contents (Elt F) → (⟨S1024, .f32⟩ : BufTy).Contents (Elt F)) (x_main_cst_13 V)
def x_main_v87 (V : Valuation τ sig (Elt F)) : (⟨S1024, .f32⟩ : BufTy).Contents (Elt F) :=
  (Host.divf : (⟨S1024, .f32⟩ : BufTy).Contents (Elt F) → (⟨S1024, .f32⟩ : BufTy).Contents (Elt F) → (⟨S1024, .f32⟩ : BufTy).Contents (Elt F)) (x_main_v85 V) (x_main_v86 V)
def x_main_c_14 (V : Valuation τ sig (Elt F)) : (⟨S_, .i32⟩ : BufTy).Contents (Elt F) :=
  (constantI S_ 32 0#32)
def x_main_call2_cst (V : Valuation τ sig (Elt F)) : (⟨S_, .f32⟩ : BufTy).Contents (Elt F) :=
  (constant S_ .f32 0x00000000#32)
def x_main_call2_v0 (V : Valuation τ sig (Elt F)) : (⟨S1024, .f32⟩ : BufTy).Contents (Elt F) :=
  (fun x v => Host.reduceAdd x v reducesTo_S16384x1024_S1024_d0 h_S_) (x_main_v84 V) (x_main_call2_cst V)
def x_main_call2_v1 (V : Valuation τ sig (Elt F)) : (⟨S1x1024, .f32⟩ : BufTy).Contents (Elt F) :=
  (broadcastInDim S1x1024 ![1] bcast_S1024_S1x1024_1) (x_main_call2_v0 V)
def x_main_call2_cst_0 (V : Valuation τ sig (Elt F)) : (⟨S_, .f32⟩ : BufTy).Contents (Elt F) :=
  (constant S_ .f32 0x46800000#32)
def x_main_call2_v2 (V : Valuation τ sig (Elt F)) : (⟨S1x1024, .f32⟩ : BufTy).Contents (Elt F) :=
  (broadcastInDim S1x1024 ![] bcast_S_S1x1024) (x_main_call2_cst_0 V)
def x_main_call2_v3 (V : Valuation τ sig (Elt F)) : (⟨S1x1024, .f32⟩ : BufTy).Contents (Elt F) :=
  Host.divf (x_main_call2_v1 V) (x_main_call2_v2 V)
def x_main_call2_v4 (V : Valuation τ sig (Elt F)) : (⟨S16384x1024, .f32⟩ : BufTy).Contents (Elt F) :=
  (broadcastInDim S16384x1024 ![0, 1] bcast_S1x1024_S16384x1024_0_1) (x_main_call2_v3 V)
def x_main_call2_v5 (V : Valuation τ sig (Elt F)) : (⟨S16384x1024, .f32⟩ : BufTy).Contents (Elt F) :=
  subf (x_main_v84 V) (x_main_call2_v4 V)
def x_main_call2_v6 (V : Valuation τ sig (Elt F)) : (⟨S16384x1024, .f32⟩ : BufTy).Contents (Elt F) :=
  mulf (x_main_call2_v5 V) (x_main_call2_v5 V)
def x_main_call2_v7 (V : Valuation τ sig (Elt F)) : (⟨S_, .f32⟩ : BufTy).Contents (Elt F) :=
  (sitofp .f32) (x_main_c_14 V)
def x_main_call2_cst_1 (V : Valuation τ sig (Elt F)) : (⟨S_, .f32⟩ : BufTy).Contents (Elt F) :=
  (constant S_ .f32 0x46800000#32)
def x_main_call2_v8 (V : Valuation τ sig (Elt F)) : (⟨S_, .f32⟩ : BufTy).Contents (Elt F) :=
  subf (x_main_call2_cst_1 V) (x_main_call2_v7 V)
def x_main_call2_cst_2 (V : Valuation τ sig (Elt F)) : (⟨S_, .f32⟩ : BufTy).Contents (Elt F) :=
  (constant S_ .f32 0x00000000#32)
def x_main_call2_v9 (V : Valuation τ sig (Elt F)) : (⟨S1024, .f32⟩ : BufTy).Contents (Elt F) :=
  (fun x v => Host.reduceAdd x v reducesTo_S16384x1024_S1024_d0 h_S_) (x_main_call2_v6 V) (x_main_call2_cst_2 V)
def x_main_call2_v10 (V : Valuation τ sig (Elt F)) : (⟨S1024, .f32⟩ : BufTy).Contents (Elt F) :=
  (broadcastInDim S1024 ![] bcast_S_S1024) (x_main_call2_v8 V)
def x_main_call2_v11 (V : Valuation τ sig (Elt F)) : (⟨S1024, .f32⟩ : BufTy).Contents (Elt F) :=
  Host.divf (x_main_call2_v9 V) (x_main_call2_v10 V)
def x_main_call2_cst_3 (V : Valuation τ sig (Elt F)) : (⟨S_, .f32⟩ : BufTy).Contents (Elt F) :=
  (constant S_ .f32 0x00000000#32)
def x_main_call2_v12 (V : Valuation τ sig (Elt F)) : (⟨S_, .i1⟩ : BufTy).Contents (Elt F) :=
  (cmpf .ogt) (x_main_call2_v8 V) (x_main_call2_cst_3 V)
def x_main_call2_cst_4 (V : Valuation τ sig (Elt F)) : (⟨S_, .f32⟩ : BufTy).Contents (Elt F) :=
  (constant S_ .f32 0x7FC00000#32)
def x_main_call2_call0_v0 (V : Valuation τ sig (Elt F)) : (⟨S_, .f32⟩ : BufTy).Contents (Elt F) :=
  id (x_main_call2_cst_4 V)
def x_main_call2_call0_v1 (V : Valuation τ sig (Elt F)) : (⟨S1024, .f32⟩ : BufTy).Contents (Elt F) :=
  (broadcastInDim S1024 ![] bcast_S_S1024) (x_main_call2_call0_v0 V)
def x_main_v88 (V : Valuation τ sig (Elt F)) : (⟨S1024, .f32⟩ : BufTy).Contents (Elt F) :=
  (fun p a b => select (broadcastInDim S1024 ![] bcast_S_S1024 p) a b) (x_main_call2_v12 V) (x_main_call2_v11 V) (x_main_call2_call0_v1 V)
def x_main_v89 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (x_main_v87 V)
def x_main_v90 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v89 V)
def x_main_v91 (V : Valuation τ sig (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (x_main_v84 V) (x_main_v90 V)
def x_main_cst_15 (V : Valuation τ sig (Elt F)) : (⟨S_, .f32⟩ : BufTy).Contents (Elt F) :=
  (constant S_ .f32 0x3727C5AC#32)
def x_main_v92 (V : Valuation τ sig (Elt F)) : (⟨S1024, .f32⟩ : BufTy).Contents (Elt F) :=
  (broadcastInDim S1024 ![] bcast_S_S1024 : (⟨S_, .f32⟩ : BufTy).Contents (Elt F) → (⟨S1024, .f32⟩ : BufTy).Contents (Elt F)) (x_main_cst_15 V)
def x_main_v93 (V : Valuation τ sig (Elt F)) : (⟨S1024, .f32⟩ : BufTy).Contents (Elt F) :=
  (addf : (⟨S1024, .f32⟩ : BufTy).Contents (Elt F) → (⟨S1024, .f32⟩ : BufTy).Contents (Elt F) → (⟨S1024, .f32⟩ : BufTy).Contents (Elt F)) (x_main_v88 V) (x_main_v92 V)
def x_main_v94 (V : Valuation τ sig (Elt F)) : (⟨S1024, .f32⟩ : BufTy).Contents (Elt F) :=
  (Host.sqrt : (⟨S1024, .f32⟩ : BufTy).Contents (Elt F) → (⟨S1024, .f32⟩ : BufTy).Contents (Elt F)) (x_main_v93 V)
def x_main_v95 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (x_main_v94 V)
def x_main_v96 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v95 V)
def x_main_v97 (V : Valuation τ sig (Elt F)) : (⟨S16384x1024, .f32⟩ : BufTy).Contents (Elt F) :=
  (Host.divf : (⟨S16384x1024, .f32⟩ : BufTy).Contents (Elt F) → (⟨S16384x1024, .f32⟩ : BufTy).Contents (Elt F) → (⟨S16384x1024, .f32⟩ : BufTy).Contents (Elt F)) (x_main_v91 V) (x_main_v96 V)
def x_main_v98 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (V (Proc.devRef .tc main_arg25))
def x_main_v99 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v98 V)
def x_main_v100 (V : Valuation τ sig (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (x_main_v97 V) (x_main_v99 V)
def x_main_v101 (V : Valuation τ sig (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (V (Proc.devRef .tc main_arg26))
def x_main_v102 (V : Valuation τ sig (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (x_main_v101 V)
def x_main_v103 (V : Valuation τ sig (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (x_main_v100 V) (x_main_v102 V)
def x_main_call3_cst (V : Valuation τ sig (Elt F)) : (⟨S_, .f32⟩ : BufTy).Contents (Elt F) :=
  (constant S_ .f32 0x00000000#32)
def x_main_call3_v0 (V : Valuation τ sig (Elt F)) : (⟨S16384x1024, .f32⟩ : BufTy).Contents (Elt F) :=
  (broadcastInDim S16384x1024 ![] bcast_S_S16384x1024) (x_main_call3_cst V)
def x_main_v104 (V : Valuation τ sig (Elt F)) : (⟨S16384x1024, .f32⟩ : BufTy).Contents (Elt F) :=
  maximumf (x_main_v103 V) (x_main_call3_v0 V)
def x_main_v105 (V : Valuation τ sig (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (x_main_v104 V) (x_main_v80 V)
def x_main_v106 (V : Valuation τ sig (Elt F)) : (⟨S16384x512, .f32⟩ : BufTy).Contents (Elt F) :=
  ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)) (x_main_v105 V) (V (Proc.devRef .tc main_arg27))
def x_main_v107 (V : Valuation τ sig (Elt F)) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) (V (Proc.devRef .tc main_arg28))
def x_main_v108 (V : Valuation τ sig (Elt F)) : (⟨S16384x512, .f32⟩ : BufTy).Contents (Elt F) :=
  (broadcastInDim S16384x512 ![0, 1] bcast_S1x512_S16384x512_0_1 : (⟨S1x512, .f32⟩ : BufTy).Contents (Elt F) → (⟨S16384x512, .f32⟩ : BufTy).Contents (Elt F)) (x_main_v107 V)
def x_main_v109 (V : Valuation τ sig (Elt F)) : (⟨S16384x512, .f32⟩ : BufTy).Contents (Elt F) :=
  (addf : (⟨S16384x512, .f32⟩ : BufTy).Contents (Elt F) → (⟨S16384x512, .f32⟩ : BufTy).Contents (Elt F) → (⟨S16384x512, .f32⟩ : BufTy).Contents (Elt F)) (x_main_v106 V) (x_main_v108 V)
def x_main_cst_16 (V : Valuation τ sig (Elt F)) : (⟨S_, .f32⟩ : BufTy).Contents (Elt F) :=
  (constant S_ .f32 0x00000000#32)
def x_main_v110 (V : Valuation τ sig (Elt F)) : (⟨S512, .f32⟩ : BufTy).Contents (Elt F) :=
  ((fun x v => Host.reduceAdd x v reducesTo_S16384x512_S512_d0 h_S_) : (⟨S16384x512, .f32⟩ : BufTy).Contents (Elt F) → (⟨S_, .f32⟩ : BufTy).Contents (Elt F) → (⟨S512, .f32⟩ : BufTy).Contents (Elt F)) (x_main_v109 V) (x_main_cst_16 V)
def x_main_cst_17 (V : Valuation τ sig (Elt F)) : (⟨S_, .f32⟩ : BufTy).Contents (Elt F) :=
  (constant S_ .f32 0x46800000#32)
def x_main_v111 (V : Valuation τ sig (Elt F)) : (⟨S512, .f32⟩ : BufTy).Contents (Elt F) :=
  (broadcastInDim S512 ![] bcast_S_S512 : (⟨S_, .f32⟩ : BufTy).Contents (Elt F) → (⟨S512, .f32⟩ : BufTy).Contents (Elt F)) (x_main_cst_17 V)
def x_main_v112 (V : Valuation τ sig (Elt F)) : (⟨S512, .f32⟩ : BufTy).Contents (Elt F) :=
  (Host.divf : (⟨S512, .f32⟩ : BufTy).Contents (Elt F) → (⟨S512, .f32⟩ : BufTy).Contents (Elt F) → (⟨S512, .f32⟩ : BufTy).Contents (Elt F)) (x_main_v110 V) (x_main_v111 V)
def x_main_c_18 (V : Valuation τ sig (Elt F)) : (⟨S_, .i32⟩ : BufTy).Contents (Elt F) :=
  (constantI S_ 32 0#32)
def x_main_call4_cst (V : Valuation τ sig (Elt F)) : (⟨S_, .f32⟩ : BufTy).Contents (Elt F) :=
  (constant S_ .f32 0x00000000#32)
def x_main_call4_v0 (V : Valuation τ sig (Elt F)) : (⟨S512, .f32⟩ : BufTy).Contents (Elt F) :=
  (fun x v => Host.reduceAdd x v reducesTo_S16384x512_S512_d0 h_S_) (x_main_v109 V) (x_main_call4_cst V)
def x_main_call4_v1 (V : Valuation τ sig (Elt F)) : (⟨S1x512, .f32⟩ : BufTy).Contents (Elt F) :=
  (broadcastInDim S1x512 ![1] bcast_S512_S1x512_1) (x_main_call4_v0 V)
def x_main_call4_cst_0 (V : Valuation τ sig (Elt F)) : (⟨S_, .f32⟩ : BufTy).Contents (Elt F) :=
  (constant S_ .f32 0x46800000#32)
def x_main_call4_v2 (V : Valuation τ sig (Elt F)) : (⟨S1x512, .f32⟩ : BufTy).Contents (Elt F) :=
  (broadcastInDim S1x512 ![] bcast_S_S1x512) (x_main_call4_cst_0 V)
def x_main_call4_v3 (V : Valuation τ sig (Elt F)) : (⟨S1x512, .f32⟩ : BufTy).Contents (Elt F) :=
  Host.divf (x_main_call4_v1 V) (x_main_call4_v2 V)
def x_main_call4_v4 (V : Valuation τ sig (Elt F)) : (⟨S16384x512, .f32⟩ : BufTy).Contents (Elt F) :=
  (broadcastInDim S16384x512 ![0, 1] bcast_S1x512_S16384x512_0_1) (x_main_call4_v3 V)
def x_main_call4_v5 (V : Valuation τ sig (Elt F)) : (⟨S16384x512, .f32⟩ : BufTy).Contents (Elt F) :=
  subf (x_main_v109 V) (x_main_call4_v4 V)
def x_main_call4_v6 (V : Valuation τ sig (Elt F)) : (⟨S16384x512, .f32⟩ : BufTy).Contents (Elt F) :=
  mulf (x_main_call4_v5 V) (x_main_call4_v5 V)
def x_main_call4_v7 (V : Valuation τ sig (Elt F)) : (⟨S_, .f32⟩ : BufTy).Contents (Elt F) :=
  (sitofp .f32) (x_main_c_18 V)
def x_main_call4_cst_1 (V : Valuation τ sig (Elt F)) : (⟨S_, .f32⟩ : BufTy).Contents (Elt F) :=
  (constant S_ .f32 0x46800000#32)
def x_main_call4_v8 (V : Valuation τ sig (Elt F)) : (⟨S_, .f32⟩ : BufTy).Contents (Elt F) :=
  subf (x_main_call4_cst_1 V) (x_main_call4_v7 V)
def x_main_call4_cst_2 (V : Valuation τ sig (Elt F)) : (⟨S_, .f32⟩ : BufTy).Contents (Elt F) :=
  (constant S_ .f32 0x00000000#32)
def x_main_call4_v9 (V : Valuation τ sig (Elt F)) : (⟨S512, .f32⟩ : BufTy).Contents (Elt F) :=
  (fun x v => Host.reduceAdd x v reducesTo_S16384x512_S512_d0 h_S_) (x_main_call4_v6 V) (x_main_call4_cst_2 V)
def x_main_call4_v10 (V : Valuation τ sig (Elt F)) : (⟨S512, .f32⟩ : BufTy).Contents (Elt F) :=
  (broadcastInDim S512 ![] bcast_S_S512) (x_main_call4_v8 V)
def x_main_call4_v11 (V : Valuation τ sig (Elt F)) : (⟨S512, .f32⟩ : BufTy).Contents (Elt F) :=
  Host.divf (x_main_call4_v9 V) (x_main_call4_v10 V)
def x_main_call4_cst_3 (V : Valuation τ sig (Elt F)) : (⟨S_, .f32⟩ : BufTy).Contents (Elt F) :=
  (constant S_ .f32 0x00000000#32)
def x_main_call4_v12 (V : Valuation τ sig (Elt F)) : (⟨S_, .i1⟩ : BufTy).Contents (Elt F) :=
  (cmpf .ogt) (x_main_call4_v8 V) (x_main_call4_cst_3 V)
def x_main_call4_cst_4 (V : Valuation τ sig (Elt F)) : (⟨S_, .f32⟩ : BufTy).Contents (Elt F) :=
  (constant S_ .f32 0x7FC00000#32)
def x_main_call4_call0_v0 (V : Valuation τ sig (Elt F)) : (⟨S_, .f32⟩ : BufTy).Contents (Elt F) :=
  id (x_main_call4_cst_4 V)
def x_main_call4_call0_v1 (V : Valuation τ sig (Elt F)) : (⟨S512, .f32⟩ : BufTy).Contents (Elt F) :=
  (broadcastInDim S512 ![] bcast_S_S512) (x_main_call4_call0_v0 V)
def x_main_v113 (V : Valuation τ sig (Elt F)) : (⟨S512, .f32⟩ : BufTy).Contents (Elt F) :=
  (fun p a b => select (broadcastInDim S512 ![] bcast_S_S512 p) a b) (x_main_call4_v12 V) (x_main_call4_v11 V) (x_main_call4_call0_v1 V)
def x_main_v114 (V : Valuation τ sig (Elt F)) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) (x_main_v112 V)
def x_main_v115 (V : Valuation τ sig (Elt F)) : (⟨S16384x512, .f32⟩ : BufTy).Contents (Elt F) :=
  (broadcastInDim S16384x512 ![0, 1] bcast_S1x512_S16384x512_0_1 : (⟨S1x512, .f32⟩ : BufTy).Contents (Elt F) → (⟨S16384x512, .f32⟩ : BufTy).Contents (Elt F)) (x_main_v114 V)
def x_main_v116 (V : Valuation τ sig (Elt F)) : (⟨S16384x512, .f32⟩ : BufTy).Contents (Elt F) :=
  (subf : (⟨S16384x512, .f32⟩ : BufTy).Contents (Elt F) → (⟨S16384x512, .f32⟩ : BufTy).Contents (Elt F) → (⟨S16384x512, .f32⟩ : BufTy).Contents (Elt F)) (x_main_v109 V) (x_main_v115 V)
def x_main_cst_19 (V : Valuation τ sig (Elt F)) : (⟨S_, .f32⟩ : BufTy).Contents (Elt F) :=
  (constant S_ .f32 0x3727C5AC#32)
def x_main_v117 (V : Valuation τ sig (Elt F)) : (⟨S512, .f32⟩ : BufTy).Contents (Elt F) :=
  (broadcastInDim S512 ![] bcast_S_S512 : (⟨S_, .f32⟩ : BufTy).Contents (Elt F) → (⟨S512, .f32⟩ : BufTy).Contents (Elt F)) (x_main_cst_19 V)
def x_main_v118 (V : Valuation τ sig (Elt F)) : (⟨S512, .f32⟩ : BufTy).Contents (Elt F) :=
  (addf : (⟨S512, .f32⟩ : BufTy).Contents (Elt F) → (⟨S512, .f32⟩ : BufTy).Contents (Elt F) → (⟨S512, .f32⟩ : BufTy).Contents (Elt F)) (x_main_v113 V) (x_main_v117 V)
def x_main_v119 (V : Valuation τ sig (Elt F)) : (⟨S512, .f32⟩ : BufTy).Contents (Elt F) :=
  (Host.sqrt : (⟨S512, .f32⟩ : BufTy).Contents (Elt F) → (⟨S512, .f32⟩ : BufTy).Contents (Elt F)) (x_main_v118 V)
def x_main_v120 (V : Valuation τ sig (Elt F)) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) (x_main_v119 V)
def x_main_v121 (V : Valuation τ sig (Elt F)) : (⟨S16384x512, .f32⟩ : BufTy).Contents (Elt F) :=
  (broadcastInDim S16384x512 ![0, 1] bcast_S1x512_S16384x512_0_1 : (⟨S1x512, .f32⟩ : BufTy).Contents (Elt F) → (⟨S16384x512, .f32⟩ : BufTy).Contents (Elt F)) (x_main_v120 V)
def x_main_v122 (V : Valuation τ sig (Elt F)) : (⟨S16384x512, .f32⟩ : BufTy).Contents (Elt F) :=
  (Host.divf : (⟨S16384x512, .f32⟩ : BufTy).Contents (Elt F) → (⟨S16384x512, .f32⟩ : BufTy).Contents (Elt F) → (⟨S16384x512, .f32⟩ : BufTy).Contents (Elt F)) (x_main_v116 V) (x_main_v121 V)
def x_main_v123 (V : Valuation τ sig (Elt F)) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) (V (Proc.devRef .tc main_arg29))
def x_main_v124 (V : Valuation τ sig (Elt F)) : (⟨S16384x512, .f32⟩ : BufTy).Contents (Elt F) :=
  (broadcastInDim S16384x512 ![0, 1] bcast_S1x512_S16384x512_0_1 : (⟨S1x512, .f32⟩ : BufTy).Contents (Elt F) → (⟨S16384x512, .f32⟩ : BufTy).Contents (Elt F)) (x_main_v123 V)
def x_main_v125 (V : Valuation τ sig (Elt F)) : (⟨S16384x512, .f32⟩ : BufTy).Contents (Elt F) :=
  (mulf : (⟨S16384x512, .f32⟩ : BufTy).Contents (Elt F) → (⟨S16384x512, .f32⟩ : BufTy).Contents (Elt F) → (⟨S16384x512, .f32⟩ : BufTy).Contents (Elt F)) (x_main_v122 V) (x_main_v124 V)
def x_main_v126 (V : Valuation τ sig (Elt F)) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) (V (Proc.devRef .tc main_arg30))
def x_main_v127 (V : Valuation τ sig (Elt F)) : (⟨S16384x512, .f32⟩ : BufTy).Contents (Elt F) :=
  (broadcastInDim S16384x512 ![0, 1] bcast_S1x512_S16384x512_0_1 : (⟨S1x512, .f32⟩ : BufTy).Contents (Elt F) → (⟨S16384x512, .f32⟩ : BufTy).Contents (Elt F)) (x_main_v126 V)
def x_main_v128 (V : Valuation τ sig (Elt F)) : (⟨S16384x512, .f32⟩ : BufTy).Contents (Elt F) :=
  (addf : (⟨S16384x512, .f32⟩ : BufTy).Contents (Elt F) → (⟨S16384x512, .f32⟩ : BufTy).Contents (Elt F) → (⟨S16384x512, .f32⟩ : BufTy).Contents (Elt F)) (x_main_v125 V) (x_main_v127 V)
def x_main_call5_cst (V : Valuation τ sig (Elt F)) : (⟨S_, .f32⟩ : BufTy).Contents (Elt F) :=
  (constant S_ .f32 0x00000000#32)
def x_main_call5_v0 (V : Valuation τ sig (Elt F)) : (⟨S16384x512, .f32⟩ : BufTy).Contents (Elt F) :=
  (broadcastInDim S16384x512 ![] bcast_S_S16384x512) (x_main_call5_cst V)
def x_main_v129 (V : Valuation τ sig (Elt F)) : (⟨S16384x512, .f32⟩ : BufTy).Contents (Elt F) :=
  maximumf (x_main_v128 V) (x_main_call5_v0 V)
def x_main_v130 (V : Valuation τ sig (Elt F)) : (⟨S16384x512, .f32⟩ : BufTy).Contents (Elt F) :=
  ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)) (x_main_v105 V) (V (Proc.devRef .tc main_arg31))
def x_main_v131 (V : Valuation τ sig (Elt F)) : (⟨S1x512, .f32⟩ : BufTy).Contents (Elt F) :=
  (broadcastInDim S1x512 ![1] bcast_S512_S1x512_1 : (⟨S512, .f32⟩ : BufTy).Contents (Elt F) → (⟨S1x512, .f32⟩ : BufTy).Contents (Elt F)) (V (Proc.devRef .tc main_arg32))
def x_main_v132 (V : Valuation τ sig (Elt F)) : (⟨S16384x512, .f32⟩ : BufTy).Contents (Elt F) :=
  (broadcastInDim S16384x512 ![0, 1] bcast_S1x512_S16384x512_0_1 : (⟨S1x512, .f32⟩ : BufTy).Contents (Elt F) → (⟨S16384x512, .f32⟩ : BufTy).Contents (Elt F)) (x_main_v131 V)
def x_main_v133 (V : Valuation τ sig (Elt F)) : (⟨S16384x512, .f32⟩ : BufTy).Contents (Elt F) :=
  (addf : (⟨S16384x512, .f32⟩ : BufTy).Contents (Elt F) → (⟨S16384x512, .f32⟩ : BufTy).Contents (Elt F) → (⟨S16384x512, .f32⟩ : BufTy).Contents (Elt F)) (x_main_v130 V) (x_main_v132 V)
def x_main_v134 (V : Valuation τ sig (Elt F)) : (⟨S16384x512, .f32⟩ : BufTy).Contents (Elt F) :=
  (addf : (⟨S16384x512, .f32⟩ : BufTy).Contents (Elt F) → (⟨S16384x512, .f32⟩ : BufTy).Contents (Elt F) → (⟨S16384x512, .f32⟩ : BufTy).Contents (Elt F)) (x_main_v129 V) (x_main_v133 V)
def x_main_v135 (V : Valuation τ sig (Elt F)) : (⟨S16384x1, .f32⟩ : BufTy).Contents (Elt F) :=
  ((fun l r => Host.dotGeneral dot_S16384x512_S512x1_S16384x1_1_0_0_1_n_n none l r) : (⟨S16384x512, .f32⟩ : BufTy).Contents (Elt F) → (⟨S512x1, .f32⟩ : BufTy).Contents (Elt F) → (⟨S16384x1, .f32⟩ : BufTy).Contents (Elt F)) (x_main_v134 V) (V (Proc.devRef .tc main_arg33))
def x_main_v136 (V : Valuation τ sig (Elt F)) : (⟨S1x1, .f32⟩ : BufTy).Contents (Elt F) :=
  (broadcastInDim S1x1 ![1] bcast_S1_S1x1_1 : (⟨S1, .f32⟩ : BufTy).Contents (Elt F) → (⟨S1x1, .f32⟩ : BufTy).Contents (Elt F)) (V (Proc.devRef .tc main_arg34))
def x_main_v137 (V : Valuation τ sig (Elt F)) : (⟨S16384x1, .f32⟩ : BufTy).Contents (Elt F) :=
  (broadcastInDim S16384x1 ![0, 1] bcast_S1x1_S16384x1_0_1 : (⟨S1x1, .f32⟩ : BufTy).Contents (Elt F) → (⟨S16384x1, .f32⟩ : BufTy).Contents (Elt F)) (x_main_v136 V)
def x_main_v138 (V : Valuation τ sig (Elt F)) : (⟨S16384x1, .f32⟩ : BufTy).Contents (Elt F) :=
  (addf : (⟨S16384x1, .f32⟩ : BufTy).Contents (Elt F) → (⟨S16384x1, .f32⟩ : BufTy).Contents (Elt F) → (⟨S16384x1, .f32⟩ : BufTy).Contents (Elt F)) (x_main_v135 V) (x_main_v137 V)
def x_main_v139 (V : Valuation τ sig (Elt F)) : (⟨S16384, .f32⟩ : BufTy).Contents (Elt F) :=
  shapeCast S16384 (x_main_v138 V) shapeCasts_S16384x1_S16384

/-! ## The fold read window by window

`valK V` is the contents after the first K windows from contents `V`; for every buffer written by then and read later
(and for the argument arrays still to be read) a lemma gives it its value. Inside a window the operations' results are
read off by one rewriting pass; a buffer of an earlier window is read by that window's lemma. -/

/-- Reads of operations' results by rewriting, one at a time: what a buffer holds after an operation that writes it, or
    that does not (the references told apart by computation). For reads that sit inside a dependent pair, where the
    simplifier's congruence does not reach. -/
macro "reads_rw" : tactic =>
  `(tactic| repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

def val0 (V : Valuation τ sig (Elt F)) : Valuation τ sig (Elt F) := V
theorem val0_main_arg0 (V : Valuation τ sig (Elt F)) : val0 V (no_index (Proc.devRef .tc main_arg0)) = V (Proc.devRef .tc main_arg0) := rfl
theorem val0_main_arg8 (V : Valuation τ sig (Elt F)) : val0 V (no_index (Proc.devRef .tc main_arg8)) = V (Proc.devRef .tc main_arg8) := rfl
theorem val0_main_arg1 (V : Valuation τ sig (Elt F)) : val0 V (no_index (Proc.devRef .tc main_arg1)) = V (Proc.devRef .tc main_arg1) := rfl
theorem val0_main_arg9 (V : Valuation τ sig (Elt F)) : val0 V (no_index (Proc.devRef .tc main_arg9)) = V (Proc.devRef .tc main_arg9) := rfl
theorem val0_main_arg2 (V : Valuation τ sig (Elt F)) : val0 V (no_index (Proc.devRef .tc main_arg2)) = V (Proc.devRef .tc main_arg2) := rfl
theorem val0_main_arg10 (V : Valuation τ sig (Elt F)) : val0 V (no_index (Proc.devRef .tc main_arg10)) = V (Proc.devRef .tc main_arg10) := rfl
theorem val0_main_arg3 (V : Valuation τ sig (Elt F)) : val0 V (no_index (Proc.devRef .tc main_arg3)) = V (Proc.devRef .tc main_arg3) := rfl
theorem val0_main_arg11 (V : Valuation τ sig (Elt F)) : val0 V (no_index (Proc.devRef .tc main_arg11)) = V (Proc.devRef .tc main_arg11) := rfl
theorem val0_main_arg4 (V : Valuation τ sig (Elt F)) : val0 V (no_index (Proc.devRef .tc main_arg4)) = V (Proc.devRef .tc main_arg4) := rfl
theorem val0_main_arg12 (V : Valuation τ sig (Elt F)) : val0 V (no_index (Proc.devRef .tc main_arg12)) = V (Proc.devRef .tc main_arg12) := rfl
theorem val0_main_arg5 (V : Valuation τ sig (Elt F)) : val0 V (no_index (Proc.devRef .tc main_arg5)) = V (Proc.devRef .tc main_arg5) := rfl
theorem val0_main_arg13 (V : Valuation τ sig (Elt F)) : val0 V (no_index (Proc.devRef .tc main_arg13)) = V (Proc.devRef .tc main_arg13) := rfl
theorem val0_main_arg14 (V : Valuation τ sig (Elt F)) : val0 V (no_index (Proc.devRef .tc main_arg14)) = V (Proc.devRef .tc main_arg14) := rfl
theorem val0_main_arg15 (V : Valuation τ sig (Elt F)) : val0 V (no_index (Proc.devRef .tc main_arg15)) = V (Proc.devRef .tc main_arg15) := rfl
theorem val0_main_arg16 (V : Valuation τ sig (Elt F)) : val0 V (no_index (Proc.devRef .tc main_arg16)) = V (Proc.devRef .tc main_arg16) := rfl
theorem val0_main_arg6 (V : Valuation τ sig (Elt F)) : val0 V (no_index (Proc.devRef .tc main_arg6)) = V (Proc.devRef .tc main_arg6) := rfl
theorem val0_main_arg7 (V : Valuation τ sig (Elt F)) : val0 V (no_index (Proc.devRef .tc main_arg7)) = V (Proc.devRef .tc main_arg7) := rfl
theorem val0_main_arg17 (V : Valuation τ sig (Elt F)) : val0 V (no_index (Proc.devRef .tc main_arg17)) = V (Proc.devRef .tc main_arg17) := rfl
theorem val0_main_arg18 (V : Valuation τ sig (Elt F)) : val0 V (no_index (Proc.devRef .tc main_arg18)) = V (Proc.devRef .tc main_arg18) := rfl
theorem val0_main_arg19 (V : Valuation τ sig (Elt F)) : val0 V (no_index (Proc.devRef .tc main_arg19)) = V (Proc.devRef .tc main_arg19) := rfl
theorem val0_main_arg20 (V : Valuation τ sig (Elt F)) : val0 V (no_index (Proc.devRef .tc main_arg20)) = V (Proc.devRef .tc main_arg20) := rfl
theorem val0_main_arg21 (V : Valuation τ sig (Elt F)) : val0 V (no_index (Proc.devRef .tc main_arg21)) = V (Proc.devRef .tc main_arg21) := rfl
theorem val0_main_arg22 (V : Valuation τ sig (Elt F)) : val0 V (no_index (Proc.devRef .tc main_arg22)) = V (Proc.devRef .tc main_arg22) := rfl
theorem val0_main_arg23 (V : Valuation τ sig (Elt F)) : val0 V (no_index (Proc.devRef .tc main_arg23)) = V (Proc.devRef .tc main_arg23) := rfl
theorem val0_main_arg24 (V : Valuation τ sig (Elt F)) : val0 V (no_index (Proc.devRef .tc main_arg24)) = V (Proc.devRef .tc main_arg24) := rfl
theorem val0_main_arg25 (V : Valuation τ sig (Elt F)) : val0 V (no_index (Proc.devRef .tc main_arg25)) = V (Proc.devRef .tc main_arg25) := rfl
theorem val0_main_arg26 (V : Valuation τ sig (Elt F)) : val0 V (no_index (Proc.devRef .tc main_arg26)) = V (Proc.devRef .tc main_arg26) := rfl
theorem val0_main_arg27 (V : Valuation τ sig (Elt F)) : val0 V (no_index (Proc.devRef .tc main_arg27)) = V (Proc.devRef .tc main_arg27) := rfl
theorem val0_main_arg28 (V : Valuation τ sig (Elt F)) : val0 V (no_index (Proc.devRef .tc main_arg28)) = V (Proc.devRef .tc main_arg28) := rfl
theorem val0_main_arg29 (V : Valuation τ sig (Elt F)) : val0 V (no_index (Proc.devRef .tc main_arg29)) = V (Proc.devRef .tc main_arg29) := rfl
theorem val0_main_arg30 (V : Valuation τ sig (Elt F)) : val0 V (no_index (Proc.devRef .tc main_arg30)) = V (Proc.devRef .tc main_arg30) := rfl
theorem val0_main_arg31 (V : Valuation τ sig (Elt F)) : val0 V (no_index (Proc.devRef .tc main_arg31)) = V (Proc.devRef .tc main_arg31) := rfl
theorem val0_main_arg32 (V : Valuation τ sig (Elt F)) : val0 V (no_index (Proc.devRef .tc main_arg32)) = V (Proc.devRef .tc main_arg32) := rfl
theorem val0_main_arg33 (V : Valuation τ sig (Elt F)) : val0 V (no_index (Proc.devRef .tc main_arg33)) = V (Proc.devRef .tc main_arg33) := rfl
theorem val0_main_arg34 (V : Valuation τ sig (Elt F)) : val0 V (no_index (Proc.devRef .tc main_arg34)) = V (Proc.devRef .tc main_arg34) := rfl

/-- The contents after the first 1 window. -/
def val1 (V : Valuation τ sig (Elt F)) : Valuation τ sig (Elt F) := after w0 (val0 V)
theorem val1_keep (V : Valuation τ sig (Elt F)) (r : Ref sig .tc) (h : r ∉ w0_W) :
    val1 V (Proc.devRef .tc r) = val0 V (Proc.devRef .tc r) :=
  after_of_writes_sub w0 _ w0_writes h
theorem val1_main_arg3 (V : Valuation τ sig (Elt F)) : val1 V (no_index (Proc.devRef .tc main_arg3)) = V (Proc.devRef .tc main_arg3) :=
  (val1_keep V main_arg3 (by decide)).trans (val0_main_arg3 V)
theorem val1_main_arg11 (V : Valuation τ sig (Elt F)) : val1 V (no_index (Proc.devRef .tc main_arg11)) = V (Proc.devRef .tc main_arg11) :=
  (val1_keep V main_arg11 (by decide)).trans (val0_main_arg11 V)
theorem val1_main_arg4 (V : Valuation τ sig (Elt F)) : val1 V (no_index (Proc.devRef .tc main_arg4)) = V (Proc.devRef .tc main_arg4) :=
  (val1_keep V main_arg4 (by decide)).trans (val0_main_arg4 V)
theorem val1_main_arg12 (V : Valuation τ sig (Elt F)) : val1 V (no_index (Proc.devRef .tc main_arg12)) = V (Proc.devRef .tc main_arg12) :=
  (val1_keep V main_arg12 (by decide)).trans (val0_main_arg12 V)
theorem val1_main_arg5 (V : Valuation τ sig (Elt F)) : val1 V (no_index (Proc.devRef .tc main_arg5)) = V (Proc.devRef .tc main_arg5) :=
  (val1_keep V main_arg5 (by decide)).trans (val0_main_arg5 V)
theorem val1_main_arg13 (V : Valuation τ sig (Elt F)) : val1 V (no_index (Proc.devRef .tc main_arg13)) = V (Proc.devRef .tc main_arg13) :=
  (val1_keep V main_arg13 (by decide)).trans (val0_main_arg13 V)
theorem val1_main_arg14 (V : Valuation τ sig (Elt F)) : val1 V (no_index (Proc.devRef .tc main_arg14)) = V (Proc.devRef .tc main_arg14) :=
  (val1_keep V main_arg14 (by decide)).trans (val0_main_arg14 V)
theorem val1_main_arg15 (V : Valuation τ sig (Elt F)) : val1 V (no_index (Proc.devRef .tc main_arg15)) = V (Proc.devRef .tc main_arg15) :=
  (val1_keep V main_arg15 (by decide)).trans (val0_main_arg15 V)
theorem val1_main_arg16 (V : Valuation τ sig (Elt F)) : val1 V (no_index (Proc.devRef .tc main_arg16)) = V (Proc.devRef .tc main_arg16) :=
  (val1_keep V main_arg16 (by decide)).trans (val0_main_arg16 V)
theorem val1_main_arg6 (V : Valuation τ sig (Elt F)) : val1 V (no_index (Proc.devRef .tc main_arg6)) = V (Proc.devRef .tc main_arg6) :=
  (val1_keep V main_arg6 (by decide)).trans (val0_main_arg6 V)
theorem val1_main_arg7 (V : Valuation τ sig (Elt F)) : val1 V (no_index (Proc.devRef .tc main_arg7)) = V (Proc.devRef .tc main_arg7) :=
  (val1_keep V main_arg7 (by decide)).trans (val0_main_arg7 V)
theorem val1_main_arg17 (V : Valuation τ sig (Elt F)) : val1 V (no_index (Proc.devRef .tc main_arg17)) = V (Proc.devRef .tc main_arg17) :=
  (val1_keep V main_arg17 (by decide)).trans (val0_main_arg17 V)
theorem val1_main_arg18 (V : Valuation τ sig (Elt F)) : val1 V (no_index (Proc.devRef .tc main_arg18)) = V (Proc.devRef .tc main_arg18) :=
  (val1_keep V main_arg18 (by decide)).trans (val0_main_arg18 V)
theorem val1_main_arg19 (V : Valuation τ sig (Elt F)) : val1 V (no_index (Proc.devRef .tc main_arg19)) = V (Proc.devRef .tc main_arg19) :=
  (val1_keep V main_arg19 (by decide)).trans (val0_main_arg19 V)
theorem val1_main_arg20 (V : Valuation τ sig (Elt F)) : val1 V (no_index (Proc.devRef .tc main_arg20)) = V (Proc.devRef .tc main_arg20) :=
  (val1_keep V main_arg20 (by decide)).trans (val0_main_arg20 V)
theorem val1_main_arg21 (V : Valuation τ sig (Elt F)) : val1 V (no_index (Proc.devRef .tc main_arg21)) = V (Proc.devRef .tc main_arg21) :=
  (val1_keep V main_arg21 (by decide)).trans (val0_main_arg21 V)
theorem val1_main_arg22 (V : Valuation τ sig (Elt F)) : val1 V (no_index (Proc.devRef .tc main_arg22)) = V (Proc.devRef .tc main_arg22) :=
  (val1_keep V main_arg22 (by decide)).trans (val0_main_arg22 V)
theorem val1_main_arg23 (V : Valuation τ sig (Elt F)) : val1 V (no_index (Proc.devRef .tc main_arg23)) = V (Proc.devRef .tc main_arg23) :=
  (val1_keep V main_arg23 (by decide)).trans (val0_main_arg23 V)
theorem val1_main_arg24 (V : Valuation τ sig (Elt F)) : val1 V (no_index (Proc.devRef .tc main_arg24)) = V (Proc.devRef .tc main_arg24) :=
  (val1_keep V main_arg24 (by decide)).trans (val0_main_arg24 V)
theorem val1_main_arg25 (V : Valuation τ sig (Elt F)) : val1 V (no_index (Proc.devRef .tc main_arg25)) = V (Proc.devRef .tc main_arg25) :=
  (val1_keep V main_arg25 (by decide)).trans (val0_main_arg25 V)
theorem val1_main_arg26 (V : Valuation τ sig (Elt F)) : val1 V (no_index (Proc.devRef .tc main_arg26)) = V (Proc.devRef .tc main_arg26) :=
  (val1_keep V main_arg26 (by decide)).trans (val0_main_arg26 V)
theorem val1_main_arg27 (V : Valuation τ sig (Elt F)) : val1 V (no_index (Proc.devRef .tc main_arg27)) = V (Proc.devRef .tc main_arg27) :=
  (val1_keep V main_arg27 (by decide)).trans (val0_main_arg27 V)
theorem val1_main_arg28 (V : Valuation τ sig (Elt F)) : val1 V (no_index (Proc.devRef .tc main_arg28)) = V (Proc.devRef .tc main_arg28) :=
  (val1_keep V main_arg28 (by decide)).trans (val0_main_arg28 V)
theorem val1_main_arg29 (V : Valuation τ sig (Elt F)) : val1 V (no_index (Proc.devRef .tc main_arg29)) = V (Proc.devRef .tc main_arg29) :=
  (val1_keep V main_arg29 (by decide)).trans (val0_main_arg29 V)
theorem val1_main_arg30 (V : Valuation τ sig (Elt F)) : val1 V (no_index (Proc.devRef .tc main_arg30)) = V (Proc.devRef .tc main_arg30) :=
  (val1_keep V main_arg30 (by decide)).trans (val0_main_arg30 V)
theorem val1_main_arg31 (V : Valuation τ sig (Elt F)) : val1 V (no_index (Proc.devRef .tc main_arg31)) = V (Proc.devRef .tc main_arg31) :=
  (val1_keep V main_arg31 (by decide)).trans (val0_main_arg31 V)
theorem val1_main_arg32 (V : Valuation τ sig (Elt F)) : val1 V (no_index (Proc.devRef .tc main_arg32)) = V (Proc.devRef .tc main_arg32) :=
  (val1_keep V main_arg32 (by decide)).trans (val0_main_arg32 V)
theorem val1_main_arg33 (V : Valuation τ sig (Elt F)) : val1 V (no_index (Proc.devRef .tc main_arg33)) = V (Proc.devRef .tc main_arg33) :=
  (val1_keep V main_arg33 (by decide)).trans (val0_main_arg33 V)
theorem val1_main_arg34 (V : Valuation τ sig (Elt F)) : val1 V (no_index (Proc.devRef .tc main_arg34)) = V (Proc.devRef .tc main_arg34) :=
  (val1_keep V main_arg34 (by decide)).trans (val0_main_arg34 V)
set_option maxRecDepth 8192 in
set_option maxHeartbeats 2000000 in
theorem val1_main_v6 (V : Valuation τ sig (Elt F)) : val1 V (no_index (Proc.devRef .tc main_v6)) = x_main_v6 V := by
  unfold val1
  simp only [w0]
  after_results_simp
  simp only [val0_main_arg0, val0_main_arg8]
  rfl
set_option maxRecDepth 8192 in
set_option maxHeartbeats 2000000 in
theorem val1_main_v13 (V : Valuation τ sig (Elt F)) : val1 V (no_index (Proc.devRef .tc main_v13)) = x_main_v13 V := by
  unfold val1
  simp only [w0]
  after_results_simp
  simp only [val0_main_arg1, val0_main_arg9]
  rfl
set_option maxRecDepth 8192 in
set_option maxHeartbeats 2000000 in
theorem val1_main_v20 (V : Valuation τ sig (Elt F)) : val1 V (no_index (Proc.devRef .tc main_v20)) = x_main_v20 V := by
  unfold val1
  simp only [w0]
  after_results_simp
  simp only [val0_main_arg2, val0_main_arg10]
  rfl
set_option maxRecDepth 8192 in
set_option maxHeartbeats 2000000 in
theorem val1_main_v22 (V : Valuation τ sig (Elt F)) : val1 V (no_index (Proc.devRef .tc main_v22)) = x_main_v22 V := by
  unfold val1
  simp only [w0]
  after_results_simp
  simp only [val0_main_arg3]
  rfl

/-- The contents after the first 2 windows. -/
def val2 (V : Valuation τ sig (Elt F)) : Valuation τ sig (Elt F) := after w1 (val1 V)
theorem val2_keep (V : Valuation τ sig (Elt F)) (r : Ref sig .tc) (h : r ∉ w1_W) :
    val2 V (Proc.devRef .tc r) = val1 V (Proc.devRef .tc r) :=
  after_of_writes_sub w1 _ w1_writes h
theorem val2_main_arg7 (V : Valuation τ sig (Elt F)) : val2 V (no_index (Proc.devRef .tc main_arg7)) = V (Proc.devRef .tc main_arg7) :=
  (val2_keep V main_arg7 (by decide)).trans (val1_main_arg7 V)
theorem val2_main_arg17 (V : Valuation τ sig (Elt F)) : val2 V (no_index (Proc.devRef .tc main_arg17)) = V (Proc.devRef .tc main_arg17) :=
  (val2_keep V main_arg17 (by decide)).trans (val1_main_arg17 V)
theorem val2_main_arg18 (V : Valuation τ sig (Elt F)) : val2 V (no_index (Proc.devRef .tc main_arg18)) = V (Proc.devRef .tc main_arg18) :=
  (val2_keep V main_arg18 (by decide)).trans (val1_main_arg18 V)
theorem val2_main_arg19 (V : Valuation τ sig (Elt F)) : val2 V (no_index (Proc.devRef .tc main_arg19)) = V (Proc.devRef .tc main_arg19) :=
  (val2_keep V main_arg19 (by decide)).trans (val1_main_arg19 V)
theorem val2_main_arg20 (V : Valuation τ sig (Elt F)) : val2 V (no_index (Proc.devRef .tc main_arg20)) = V (Proc.devRef .tc main_arg20) :=
  (val2_keep V main_arg20 (by decide)).trans (val1_main_arg20 V)
theorem val2_main_arg21 (V : Valuation τ sig (Elt F)) : val2 V (no_index (Proc.devRef .tc main_arg21)) = V (Proc.devRef .tc main_arg21) :=
  (val2_keep V main_arg21 (by decide)).trans (val1_main_arg21 V)
theorem val2_main_arg22 (V : Valuation τ sig (Elt F)) : val2 V (no_index (Proc.devRef .tc main_arg22)) = V (Proc.devRef .tc main_arg22) :=
  (val2_keep V main_arg22 (by decide)).trans (val1_main_arg22 V)
theorem val2_main_arg23 (V : Valuation τ sig (Elt F)) : val2 V (no_index (Proc.devRef .tc main_arg23)) = V (Proc.devRef .tc main_arg23) :=
  (val2_keep V main_arg23 (by decide)).trans (val1_main_arg23 V)
theorem val2_main_arg24 (V : Valuation τ sig (Elt F)) : val2 V (no_index (Proc.devRef .tc main_arg24)) = V (Proc.devRef .tc main_arg24) :=
  (val2_keep V main_arg24 (by decide)).trans (val1_main_arg24 V)
theorem val2_main_arg25 (V : Valuation τ sig (Elt F)) : val2 V (no_index (Proc.devRef .tc main_arg25)) = V (Proc.devRef .tc main_arg25) :=
  (val2_keep V main_arg25 (by decide)).trans (val1_main_arg25 V)
theorem val2_main_arg26 (V : Valuation τ sig (Elt F)) : val2 V (no_index (Proc.devRef .tc main_arg26)) = V (Proc.devRef .tc main_arg26) :=
  (val2_keep V main_arg26 (by decide)).trans (val1_main_arg26 V)
theorem val2_main_arg27 (V : Valuation τ sig (Elt F)) : val2 V (no_index (Proc.devRef .tc main_arg27)) = V (Proc.devRef .tc main_arg27) :=
  (val2_keep V main_arg27 (by decide)).trans (val1_main_arg27 V)
theorem val2_main_arg28 (V : Valuation τ sig (Elt F)) : val2 V (no_index (Proc.devRef .tc main_arg28)) = V (Proc.devRef .tc main_arg28) :=
  (val2_keep V main_arg28 (by decide)).trans (val1_main_arg28 V)
theorem val2_main_arg29 (V : Valuation τ sig (Elt F)) : val2 V (no_index (Proc.devRef .tc main_arg29)) = V (Proc.devRef .tc main_arg29) :=
  (val2_keep V main_arg29 (by decide)).trans (val1_main_arg29 V)
theorem val2_main_arg30 (V : Valuation τ sig (Elt F)) : val2 V (no_index (Proc.devRef .tc main_arg30)) = V (Proc.devRef .tc main_arg30) :=
  (val2_keep V main_arg30 (by decide)).trans (val1_main_arg30 V)
theorem val2_main_arg31 (V : Valuation τ sig (Elt F)) : val2 V (no_index (Proc.devRef .tc main_arg31)) = V (Proc.devRef .tc main_arg31) :=
  (val2_keep V main_arg31 (by decide)).trans (val1_main_arg31 V)
theorem val2_main_arg32 (V : Valuation τ sig (Elt F)) : val2 V (no_index (Proc.devRef .tc main_arg32)) = V (Proc.devRef .tc main_arg32) :=
  (val2_keep V main_arg32 (by decide)).trans (val1_main_arg32 V)
theorem val2_main_arg33 (V : Valuation τ sig (Elt F)) : val2 V (no_index (Proc.devRef .tc main_arg33)) = V (Proc.devRef .tc main_arg33) :=
  (val2_keep V main_arg33 (by decide)).trans (val1_main_arg33 V)
theorem val2_main_arg34 (V : Valuation τ sig (Elt F)) : val2 V (no_index (Proc.devRef .tc main_arg34)) = V (Proc.devRef .tc main_arg34) :=
  (val2_keep V main_arg34 (by decide)).trans (val1_main_arg34 V)
theorem val2_main_v6 (V : Valuation τ sig (Elt F)) : val2 V (no_index (Proc.devRef .tc main_v6)) = x_main_v6 V :=
  (val2_keep V main_v6 (by decide)).trans (val1_main_v6 V)
theorem val2_main_v13 (V : Valuation τ sig (Elt F)) : val2 V (no_index (Proc.devRef .tc main_v13)) = x_main_v13 V :=
  (val2_keep V main_v13 (by decide)).trans (val1_main_v13 V)
theorem val2_main_v20 (V : Valuation τ sig (Elt F)) : val2 V (no_index (Proc.devRef .tc main_v20)) = x_main_v20 V :=
  (val2_keep V main_v20 (by decide)).trans (val1_main_v20 V)
set_option maxRecDepth 8192 in
set_option maxHeartbeats 2000000 in
theorem val2_main_v27 (V : Valuation τ sig (Elt F)) : val2 V (no_index (Proc.devRef .tc main_v27)) = x_main_v27 V := by
  unfold val2
  simp only [w1]
  after_results_simp
  simp only [val1_main_arg3, val1_main_v22, val1_main_arg11]
  rfl
set_option maxRecDepth 8192 in
set_option maxHeartbeats 2000000 in
theorem val2_main_v34 (V : Valuation τ sig (Elt F)) : val2 V (no_index (Proc.devRef .tc main_v34)) = x_main_v34 V := by
  unfold val2
  simp only [w1]
  after_results_simp
  simp only [val1_main_arg4, val1_main_arg12]
  rfl
set_option maxRecDepth 8192 in
set_option maxHeartbeats 2000000 in
theorem val2_main_v38 (V : Valuation τ sig (Elt F)) : val2 V (no_index (Proc.devRef .tc main_v38)) = x_main_v38 V := by
  unfold val2
  simp only [w1]
  after_results_simp
  simp only [val1_main_arg14, val1_main_arg13, val1_main_arg5]
  rfl
set_option maxRecDepth 8192 in
set_option maxHeartbeats 2000000 in
theorem val2_main_v48 (V : Valuation τ sig (Elt F)) : val2 V (no_index (Proc.devRef .tc main_v48)) = x_main_v48 V := by
  unfold val2
  simp only [w1]
  after_results_simp
  simp only [val1_main_arg16, val1_main_arg15, val1_main_arg14, val1_main_arg13, val1_main_arg5, val1_main_v6]
  rfl
set_option maxRecDepth 8192 in
set_option maxHeartbeats 2000000 in
theorem val2_main_v49 (V : Valuation τ sig (Elt F)) : val2 V (no_index (Proc.devRef .tc main_v49)) = x_main_v49 V := by
  unfold val2
  simp only [w1]
  after_results_simp
  simp only [val1_main_arg6]
  rfl

/-- The contents after the first 3 windows. -/
def val3 (V : Valuation τ sig (Elt F)) : Valuation τ sig (Elt F) := after w2 (val2 V)
theorem val3_keep (V : Valuation τ sig (Elt F)) (r : Ref sig .tc) (h : r ∉ w2_W) :
    val3 V (Proc.devRef .tc r) = val2 V (Proc.devRef .tc r) :=
  after_of_writes_sub w2 _ w2_writes h
theorem val3_main_arg19 (V : Valuation τ sig (Elt F)) : val3 V (no_index (Proc.devRef .tc main_arg19)) = V (Proc.devRef .tc main_arg19) :=
  (val3_keep V main_arg19 (by decide)).trans (val2_main_arg19 V)
theorem val3_main_arg20 (V : Valuation τ sig (Elt F)) : val3 V (no_index (Proc.devRef .tc main_arg20)) = V (Proc.devRef .tc main_arg20) :=
  (val3_keep V main_arg20 (by decide)).trans (val2_main_arg20 V)
theorem val3_main_arg21 (V : Valuation τ sig (Elt F)) : val3 V (no_index (Proc.devRef .tc main_arg21)) = V (Proc.devRef .tc main_arg21) :=
  (val3_keep V main_arg21 (by decide)).trans (val2_main_arg21 V)
theorem val3_main_arg22 (V : Valuation τ sig (Elt F)) : val3 V (no_index (Proc.devRef .tc main_arg22)) = V (Proc.devRef .tc main_arg22) :=
  (val3_keep V main_arg22 (by decide)).trans (val2_main_arg22 V)
theorem val3_main_arg23 (V : Valuation τ sig (Elt F)) : val3 V (no_index (Proc.devRef .tc main_arg23)) = V (Proc.devRef .tc main_arg23) :=
  (val3_keep V main_arg23 (by decide)).trans (val2_main_arg23 V)
theorem val3_main_arg24 (V : Valuation τ sig (Elt F)) : val3 V (no_index (Proc.devRef .tc main_arg24)) = V (Proc.devRef .tc main_arg24) :=
  (val3_keep V main_arg24 (by decide)).trans (val2_main_arg24 V)
theorem val3_main_arg25 (V : Valuation τ sig (Elt F)) : val3 V (no_index (Proc.devRef .tc main_arg25)) = V (Proc.devRef .tc main_arg25) :=
  (val3_keep V main_arg25 (by decide)).trans (val2_main_arg25 V)
theorem val3_main_arg26 (V : Valuation τ sig (Elt F)) : val3 V (no_index (Proc.devRef .tc main_arg26)) = V (Proc.devRef .tc main_arg26) :=
  (val3_keep V main_arg26 (by decide)).trans (val2_main_arg26 V)
theorem val3_main_arg27 (V : Valuation τ sig (Elt F)) : val3 V (no_index (Proc.devRef .tc main_arg27)) = V (Proc.devRef .tc main_arg27) :=
  (val3_keep V main_arg27 (by decide)).trans (val2_main_arg27 V)
theorem val3_main_arg28 (V : Valuation τ sig (Elt F)) : val3 V (no_index (Proc.devRef .tc main_arg28)) = V (Proc.devRef .tc main_arg28) :=
  (val3_keep V main_arg28 (by decide)).trans (val2_main_arg28 V)
theorem val3_main_arg29 (V : Valuation τ sig (Elt F)) : val3 V (no_index (Proc.devRef .tc main_arg29)) = V (Proc.devRef .tc main_arg29) :=
  (val3_keep V main_arg29 (by decide)).trans (val2_main_arg29 V)
theorem val3_main_arg30 (V : Valuation τ sig (Elt F)) : val3 V (no_index (Proc.devRef .tc main_arg30)) = V (Proc.devRef .tc main_arg30) :=
  (val3_keep V main_arg30 (by decide)).trans (val2_main_arg30 V)
theorem val3_main_arg31 (V : Valuation τ sig (Elt F)) : val3 V (no_index (Proc.devRef .tc main_arg31)) = V (Proc.devRef .tc main_arg31) :=
  (val3_keep V main_arg31 (by decide)).trans (val2_main_arg31 V)
theorem val3_main_arg32 (V : Valuation τ sig (Elt F)) : val3 V (no_index (Proc.devRef .tc main_arg32)) = V (Proc.devRef .tc main_arg32) :=
  (val3_keep V main_arg32 (by decide)).trans (val2_main_arg32 V)
theorem val3_main_arg33 (V : Valuation τ sig (Elt F)) : val3 V (no_index (Proc.devRef .tc main_arg33)) = V (Proc.devRef .tc main_arg33) :=
  (val3_keep V main_arg33 (by decide)).trans (val2_main_arg33 V)
theorem val3_main_arg34 (V : Valuation τ sig (Elt F)) : val3 V (no_index (Proc.devRef .tc main_arg34)) = V (Proc.devRef .tc main_arg34) :=
  (val3_keep V main_arg34 (by decide)).trans (val2_main_arg34 V)
set_option maxRecDepth 8192 in
set_option maxHeartbeats 2000000 in
theorem val3_main_v51 (V : Valuation τ sig (Elt F)) : val3 V (no_index (Proc.devRef .tc main_v51)) = x_main_v51 V := by
  unfold val3
  simp only [w2]
  after_results_simp
  try dsimp only [Matrix.cons_val]
  try reads_rw
  try simp only [val2_main_v48, val2_main_arg7, val2_main_v49, val2_main_v38, val2_main_v34, val2_main_v27, val2_main_v20, val2_main_v13, val2_main_v6]
  try rw [val2_main_v48]
  try rw [val2_main_arg7]
  try rw [val2_main_v49]
  try rw [val2_main_v38]
  try rw [val2_main_v34]
  try rw [val2_main_v27]
  try rw [val2_main_v20]
  try rw [val2_main_v13]
  try rw [val2_main_v6]
  rfl
set_option maxRecDepth 8192 in
set_option maxHeartbeats 2000000 in
theorem val3_main_v55 (V : Valuation τ sig (Elt F)) : val3 V (no_index (Proc.devRef .tc main_v55)) = x_main_v55 V := by
  unfold val3
  simp only [w2]
  after_results_simp
  try dsimp only [Matrix.cons_val]
  try reads_rw
  try simp only [val2_main_arg18, val2_main_arg17, val2_main_v48, val2_main_arg7, val2_main_v49, val2_main_v38, val2_main_v34, val2_main_v27, val2_main_v20, val2_main_v13, val2_main_v6]
  try rw [val2_main_arg18]
  try rw [val2_main_arg17]
  try rw [val2_main_v48]
  try rw [val2_main_arg7]
  try rw [val2_main_v49]
  try rw [val2_main_v38]
  try rw [val2_main_v34]
  try rw [val2_main_v27]
  try rw [val2_main_v20]
  try rw [val2_main_v13]
  try rw [val2_main_v6]
  rfl
set_option maxRecDepth 8192 in
set_option maxHeartbeats 2000000 in
theorem val3_main_v59 (V : Valuation τ sig (Elt F)) : val3 V (no_index (Proc.devRef .tc main_v59)) = x_main_v59 V := by
  unfold val3
  simp only [w2]
  after_results_simp
  try dsimp only [Matrix.cons_val]
  try reads_rw
  try simp only [val2_main_arg18, val2_main_arg17, val2_main_v48, val2_main_arg7, val2_main_v49, val2_main_v38, val2_main_v34, val2_main_v27, val2_main_v20, val2_main_v13, val2_main_v6]
  try rw [val2_main_arg18]
  try rw [val2_main_arg17]
  try rw [val2_main_v48]
  try rw [val2_main_arg7]
  try rw [val2_main_v49]
  try rw [val2_main_v38]
  try rw [val2_main_v34]
  try rw [val2_main_v27]
  try rw [val2_main_v20]
  try rw [val2_main_v13]
  try rw [val2_main_v6]
  rfl
set_option maxRecDepth 8192 in
set_option maxHeartbeats 2000000 in
theorem val3_main_v60 (V : Valuation τ sig (Elt F)) : val3 V (no_index (Proc.devRef .tc main_v60)) = x_main_v60 V := by
  unfold val3
  simp only [w2]
  after_results_simp
  try dsimp only [Matrix.cons_val]
  try reads_rw
  try simp only [val2_main_arg18, val2_main_arg17, val2_main_v48, val2_main_arg7, val2_main_v49, val2_main_v38, val2_main_v34, val2_main_v27, val2_main_v20, val2_main_v13, val2_main_v6]
  try rw [val2_main_arg18]
  try rw [val2_main_arg17]
  try rw [val2_main_v48]
  try rw [val2_main_arg7]
  try rw [val2_main_v49]
  try rw [val2_main_v38]
  try rw [val2_main_v34]
  try rw [val2_main_v27]
  try rw [val2_main_v20]
  try rw [val2_main_v13]
  try rw [val2_main_v6]
  rfl

/-- The contents after the first 4 windows. -/
def val4 (V : Valuation τ sig (Elt F)) : Valuation τ sig (Elt F) := after w3 (val3 V)
theorem val4_keep (V : Valuation τ sig (Elt F)) (r : Ref sig .tc) (h : r ∉ w3_W) :
    val4 V (Proc.devRef .tc r) = val3 V (Proc.devRef .tc r) :=
  after_of_writes_sub w3 _ w3_writes h
theorem val4_main_arg25 (V : Valuation τ sig (Elt F)) : val4 V (no_index (Proc.devRef .tc main_arg25)) = V (Proc.devRef .tc main_arg25) :=
  (val4_keep V main_arg25 (by decide)).trans (val3_main_arg25 V)
theorem val4_main_arg26 (V : Valuation τ sig (Elt F)) : val4 V (no_index (Proc.devRef .tc main_arg26)) = V (Proc.devRef .tc main_arg26) :=
  (val4_keep V main_arg26 (by decide)).trans (val3_main_arg26 V)
theorem val4_main_arg27 (V : Valuation τ sig (Elt F)) : val4 V (no_index (Proc.devRef .tc main_arg27)) = V (Proc.devRef .tc main_arg27) :=
  (val4_keep V main_arg27 (by decide)).trans (val3_main_arg27 V)
theorem val4_main_arg28 (V : Valuation τ sig (Elt F)) : val4 V (no_index (Proc.devRef .tc main_arg28)) = V (Proc.devRef .tc main_arg28) :=
  (val4_keep V main_arg28 (by decide)).trans (val3_main_arg28 V)
theorem val4_main_arg29 (V : Valuation τ sig (Elt F)) : val4 V (no_index (Proc.devRef .tc main_arg29)) = V (Proc.devRef .tc main_arg29) :=
  (val4_keep V main_arg29 (by decide)).trans (val3_main_arg29 V)
theorem val4_main_arg30 (V : Valuation τ sig (Elt F)) : val4 V (no_index (Proc.devRef .tc main_arg30)) = V (Proc.devRef .tc main_arg30) :=
  (val4_keep V main_arg30 (by decide)).trans (val3_main_arg30 V)
theorem val4_main_arg31 (V : Valuation τ sig (Elt F)) : val4 V (no_index (Proc.devRef .tc main_arg31)) = V (Proc.devRef .tc main_arg31) :=
  (val4_keep V main_arg31 (by decide)).trans (val3_main_arg31 V)
theorem val4_main_arg32 (V : Valuation τ sig (Elt F)) : val4 V (no_index (Proc.devRef .tc main_arg32)) = V (Proc.devRef .tc main_arg32) :=
  (val4_keep V main_arg32 (by decide)).trans (val3_main_arg32 V)
theorem val4_main_arg33 (V : Valuation τ sig (Elt F)) : val4 V (no_index (Proc.devRef .tc main_arg33)) = V (Proc.devRef .tc main_arg33) :=
  (val4_keep V main_arg33 (by decide)).trans (val3_main_arg33 V)
theorem val4_main_arg34 (V : Valuation τ sig (Elt F)) : val4 V (no_index (Proc.devRef .tc main_arg34)) = V (Proc.devRef .tc main_arg34) :=
  (val4_keep V main_arg34 (by decide)).trans (val3_main_arg34 V)
set_option maxRecDepth 8192 in
set_option maxHeartbeats 2000000 in
theorem val4_main_v80 (V : Valuation τ sig (Elt F)) : val4 V (no_index (Proc.devRef .tc main_v80)) = x_main_v80 V := by
  unfold val4
  simp only [w3]
  after_results_simp
  simp only [val3_main_arg22, val3_main_arg21, val3_main_v51, val3_main_arg20, val3_main_arg19, val3_main_v59, val3_main_v60, val3_main_v55]
  rfl
set_option maxRecDepth 8192 in
set_option maxHeartbeats 2000000 in
theorem val4_main_v84 (V : Valuation τ sig (Elt F)) : val4 V (no_index (Proc.devRef .tc main_v84)) = x_main_v84 V := by
  unfold val4
  simp only [w3]
  after_results_simp
  simp only [val3_main_arg24, val3_main_arg23, val3_main_arg22, val3_main_arg21, val3_main_v51, val3_main_arg20, val3_main_arg19, val3_main_v59, val3_main_v60, val3_main_v55]
  rfl
set_option maxRecDepth 8192 in
set_option maxHeartbeats 2000000 in
theorem val4_main_v87 (V : Valuation τ sig (Elt F)) : val4 V (no_index (Proc.devRef .tc main_v87)) = x_main_v87 V := by
  unfold val4
  simp only [w3]
  after_results_simp
  simp only [val3_main_arg24, val3_main_arg23, val3_main_arg22, val3_main_arg21, val3_main_v51, val3_main_arg20, val3_main_arg19, val3_main_v59, val3_main_v60, val3_main_v55]
  rfl
set_option maxRecDepth 8192 in
set_option maxHeartbeats 2000000 in
theorem val4_main_c_14 (V : Valuation τ sig (Elt F)) : val4 V (no_index (Proc.devRef .tc main_c_14)) = x_main_c_14 V := by
  unfold val4
  simp only [w3]
  after_results_simp
  rfl
set_option maxRecDepth 8192 in
set_option maxHeartbeats 2000000 in
theorem val4_main_call2_v0 (V : Valuation τ sig (Elt F)) : val4 V (no_index (Proc.devRef .tc main_call2_v0)) = x_main_call2_v0 V := by
  unfold val4
  simp only [w3]
  after_results_simp
  simp only [val3_main_arg24, val3_main_arg23, val3_main_arg22, val3_main_arg21, val3_main_v51, val3_main_arg20, val3_main_arg19, val3_main_v59, val3_main_v60, val3_main_v55]
  rfl

/-- The contents after the first 5 windows. -/
def val5 (V : Valuation τ sig (Elt F)) : Valuation τ sig (Elt F) := after w4 (val4 V)
theorem val5_keep (V : Valuation τ sig (Elt F)) (r : Ref sig .tc) (h : r ∉ w4_W) :
    val5 V (Proc.devRef .tc r) = val4 V (Proc.devRef .tc r) :=
  after_of_writes_sub w4 _ w4_writes h
theorem val5_main_arg27 (V : Valuation τ sig (Elt F)) : val5 V (no_index (Proc.devRef .tc main_arg27)) = V (Proc.devRef .tc main_arg27) :=
  (val5_keep V main_arg27 (by decide)).trans (val4_main_arg27 V)
theorem val5_main_arg28 (V : Valuation τ sig (Elt F)) : val5 V (no_index (Proc.devRef .tc main_arg28)) = V (Proc.devRef .tc main_arg28) :=
  (val5_keep V main_arg28 (by decide)).trans (val4_main_arg28 V)
theorem val5_main_arg29 (V : Valuation τ sig (Elt F)) : val5 V (no_index (Proc.devRef .tc main_arg29)) = V (Proc.devRef .tc main_arg29) :=
  (val5_keep V main_arg29 (by decide)).trans (val4_main_arg29 V)
theorem val5_main_arg30 (V : Valuation τ sig (Elt F)) : val5 V (no_index (Proc.devRef .tc main_arg30)) = V (Proc.devRef .tc main_arg30) :=
  (val5_keep V main_arg30 (by decide)).trans (val4_main_arg30 V)
theorem val5_main_arg31 (V : Valuation τ sig (Elt F)) : val5 V (no_index (Proc.devRef .tc main_arg31)) = V (Proc.devRef .tc main_arg31) :=
  (val5_keep V main_arg31 (by decide)).trans (val4_main_arg31 V)
theorem val5_main_arg32 (V : Valuation τ sig (Elt F)) : val5 V (no_index (Proc.devRef .tc main_arg32)) = V (Proc.devRef .tc main_arg32) :=
  (val5_keep V main_arg32 (by decide)).trans (val4_main_arg32 V)
theorem val5_main_arg33 (V : Valuation τ sig (Elt F)) : val5 V (no_index (Proc.devRef .tc main_arg33)) = V (Proc.devRef .tc main_arg33) :=
  (val5_keep V main_arg33 (by decide)).trans (val4_main_arg33 V)
theorem val5_main_arg34 (V : Valuation τ sig (Elt F)) : val5 V (no_index (Proc.devRef .tc main_arg34)) = V (Proc.devRef .tc main_arg34) :=
  (val5_keep V main_arg34 (by decide)).trans (val4_main_arg34 V)
theorem val5_main_v80 (V : Valuation τ sig (Elt F)) : val5 V (no_index (Proc.devRef .tc main_v80)) = x_main_v80 V :=
  (val5_keep V main_v80 (by decide)).trans (val4_main_v80 V)
set_option maxRecDepth 8192 in
set_option maxHeartbeats 2000000 in
theorem val5_main_v100 (V : Valuation τ sig (Elt F)) : val5 V (no_index (Proc.devRef .tc main_v100)) = x_main_v100 V := by
  unfold val5
  simp only [w4]
  after_results_simp
  simp only [val4_main_arg25, val4_main_c_14, val4_main_call2_v0, val4_main_v84, val4_main_v87]
  rfl
set_option maxRecDepth 8192 in
set_option maxHeartbeats 2000000 in
theorem val5_main_v101 (V : Valuation τ sig (Elt F)) : val5 V (no_index (Proc.devRef .tc main_v101)) = x_main_v101 V := by
  unfold val5
  simp only [w4]
  after_results_simp
  simp only [val4_main_arg26]
  rfl

/-- The contents after the first 6 windows. -/
def val6 (V : Valuation τ sig (Elt F)) : Valuation τ sig (Elt F) := after w5 (val5 V)
theorem val6_keep (V : Valuation τ sig (Elt F)) (r : Ref sig .tc) (h : r ∉ w5_W) :
    val6 V (Proc.devRef .tc r) = val5 V (Proc.devRef .tc r) :=
  after_of_writes_sub w5 _ w5_writes h
theorem val6_main_arg29 (V : Valuation τ sig (Elt F)) : val6 V (no_index (Proc.devRef .tc main_arg29)) = V (Proc.devRef .tc main_arg29) :=
  (val6_keep V main_arg29 (by decide)).trans (val5_main_arg29 V)
theorem val6_main_arg30 (V : Valuation τ sig (Elt F)) : val6 V (no_index (Proc.devRef .tc main_arg30)) = V (Proc.devRef .tc main_arg30) :=
  (val6_keep V main_arg30 (by decide)).trans (val5_main_arg30 V)
theorem val6_main_arg31 (V : Valuation τ sig (Elt F)) : val6 V (no_index (Proc.devRef .tc main_arg31)) = V (Proc.devRef .tc main_arg31) :=
  (val6_keep V main_arg31 (by decide)).trans (val5_main_arg31 V)
theorem val6_main_arg32 (V : Valuation τ sig (Elt F)) : val6 V (no_index (Proc.devRef .tc main_arg32)) = V (Proc.devRef .tc main_arg32) :=
  (val6_keep V main_arg32 (by decide)).trans (val5_main_arg32 V)
theorem val6_main_arg33 (V : Valuation τ sig (Elt F)) : val6 V (no_index (Proc.devRef .tc main_arg33)) = V (Proc.devRef .tc main_arg33) :=
  (val6_keep V main_arg33 (by decide)).trans (val5_main_arg33 V)
theorem val6_main_arg34 (V : Valuation τ sig (Elt F)) : val6 V (no_index (Proc.devRef .tc main_arg34)) = V (Proc.devRef .tc main_arg34) :=
  (val6_keep V main_arg34 (by decide)).trans (val5_main_arg34 V)
set_option maxRecDepth 8192 in
set_option maxHeartbeats 2000000 in
theorem val6_main_v105 (V : Valuation τ sig (Elt F)) : val6 V (no_index (Proc.devRef .tc main_v105)) = x_main_v105 V := by
  unfold val6
  simp only [w5]
  after_results_simp
  simp only [val5_main_v80, val5_main_v101, val5_main_v100]
  rfl
set_option maxRecDepth 8192 in
set_option maxHeartbeats 2000000 in
theorem val6_main_v109 (V : Valuation τ sig (Elt F)) : val6 V (no_index (Proc.devRef .tc main_v109)) = x_main_v109 V := by
  unfold val6
  simp only [w5]
  after_results_simp
  simp only [val5_main_arg28, val5_main_arg27, val5_main_v80, val5_main_v101, val5_main_v100]
  rfl
set_option maxRecDepth 8192 in
set_option maxHeartbeats 2000000 in
theorem val6_main_v112 (V : Valuation τ sig (Elt F)) : val6 V (no_index (Proc.devRef .tc main_v112)) = x_main_v112 V := by
  unfold val6
  simp only [w5]
  after_results_simp
  simp only [val5_main_arg28, val5_main_arg27, val5_main_v80, val5_main_v101, val5_main_v100]
  rfl
set_option maxRecDepth 8192 in
set_option maxHeartbeats 2000000 in
theorem val6_main_call4_v11 (V : Valuation τ sig (Elt F)) : val6 V (no_index (Proc.devRef .tc main_call4_v11)) = x_main_call4_v11 V := by
  unfold val6
  simp only [w5]
  after_results_simp
  simp only [val5_main_arg28, val5_main_arg27, val5_main_v80, val5_main_v101, val5_main_v100]
  rfl
set_option maxRecDepth 8192 in
set_option maxHeartbeats 2000000 in
theorem val6_main_call4_v12 (V : Valuation τ sig (Elt F)) : val6 V (no_index (Proc.devRef .tc main_call4_v12)) = x_main_call4_v12 V := by
  unfold val6
  simp only [w5]
  after_results_simp
  rfl

/-- The contents after the first 7 windows. -/
def val7 (V : Valuation τ sig (Elt F)) : Valuation τ sig (Elt F) := after w6 (val6 V)
theorem val7_keep (V : Valuation τ sig (Elt F)) (r : Ref sig .tc) (h : r ∉ w6_W) :
    val7 V (Proc.devRef .tc r) = val6 V (Proc.devRef .tc r) :=
  after_of_writes_sub w6 _ w6_writes h
set_option maxRecDepth 8192 in
set_option maxHeartbeats 2000000 in
theorem val7_main_v139 (V : Valuation τ sig (Elt F)) : val7 V (no_index (Proc.devRef .tc main_v139)) = x_main_v139 V := by
  unfold val7
  simp only [w6]
  after_results_simp
  simp only [val6_main_arg34, val6_main_arg33, val6_main_arg32, val6_main_arg31, val6_main_v105, val6_main_arg30, val6_main_arg29, val6_main_call4_v11, val6_main_call4_v12, val6_main_v112, val6_main_v109]
  rfl

/-- The fold of all the operations leaves the result buffer at the last operation's value. -/
theorem after_ops_result (V : Valuation τ sig (Elt F)) :
    after ops V (Proc.devRef .tc main_v139) = x_main_v139 V := by
  rw [after_ops]
  exact val7_main_v139 V

/-- On every device, for any float values, from any memory with zero counters: every weakly fair execution of the entry
    function terminates, without fault, with the result buffer at the value of the last operation over the launch
    contents and the 35 argument arrays unchanged. -/
theorem run_chain (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v139) = x_main_v139 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun _ h c => ⟨(h c).1.trans (after_ops_result _), (h c).2⟩) (RefRun.run m ρ)

end Cert.ReferenceIdeal.RefValue

end
-- ==== Proof.RefValue.lean ====
/-
  The reference's buffer values are the specification's stages. Each stage's buffer value unfolds, back to the stages
  before it, to one of the program's patterns over those stages' arrays — an embedding, a dense layer, the outer
  product flattened, the nine blocks side by side, a column mean, a column variance, normalize-and-clip, a sum of two
  stages, the last column — and the pattern is the specification's stage by the readings of the operations at an index.
-/
import proofs.«214388_g48842368090541_cont_8to1c4_19_37_alg».proof.Proof.RefChain
import proofs.«214388_g48842368090541_cont_8to1c4_19_37_alg».proof.Proof.RefOps

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx

set_option maxRecDepth 8192 in
theorem st_u (V : Valuation τ sig (Elt Ideal)) : x_main_v6 V = Cert.Spec.u (V (Proc.devRef .tc main_arg8)) (V (Proc.devRef .tc main_arg0)) := by
  unfold x_main_v6 x_main_v5 x_main_v4 x_main_v3 x_main_v2 x_main_c_0 x_main_v1 x_main_v0 x_main_c
  exact Cert.Spec.embed_eq (by decide) _ _ _ _ _

set_option maxRecDepth 8192 in
theorem st_ge (V : Valuation τ sig (Elt Ideal)) : x_main_v13 V = Cert.Spec.ge (V (Proc.devRef .tc main_arg9)) (V (Proc.devRef .tc main_arg1)) := by
  unfold x_main_v13 x_main_v12 x_main_v11 x_main_v10 x_main_v9 x_main_c_2 x_main_v8 x_main_v7 x_main_c_1
  exact Cert.Spec.embed_eq (by decide) _ _ _ _ _

set_option maxRecDepth 8192 in
theorem st_ag (V : Valuation τ sig (Elt Ideal)) : x_main_v20 V = Cert.Spec.ag (V (Proc.devRef .tc main_arg10)) (V (Proc.devRef .tc main_arg2)) := by
  unfold x_main_v20 x_main_v19 x_main_v18 x_main_v17 x_main_v16 x_main_c_4 x_main_v15 x_main_v14 x_main_c_3
  exact Cert.Spec.embed_eq (by decide) _ _ _ _ _

set_option maxRecDepth 8192 in
theorem st_oc (V : Valuation τ sig (Elt Ideal)) : x_main_v27 V = Cert.Spec.oc (V (Proc.devRef .tc main_arg11)) (V (Proc.devRef .tc main_arg3)) := by
  unfold x_main_v27 x_main_v26 x_main_v25 x_main_v24 x_main_v23 x_main_c_6 x_main_v22 x_main_v21 x_main_c_5
  exact Cert.Spec.embed_eq (by decide) _ _ _ _ _

set_option maxRecDepth 8192 in
theorem st_mv (V : Valuation τ sig (Elt Ideal)) : x_main_v34 V = Cert.Spec.mv (V (Proc.devRef .tc main_arg12)) (V (Proc.devRef .tc main_arg4)) := by
  unfold x_main_v34 x_main_v33 x_main_v32 x_main_v31 x_main_v30 x_main_c_8 x_main_v29 x_main_v28 x_main_c_7
  exact Cert.Spec.embed_eq (by decide) _ _ _ _ _

set_option maxRecDepth 8192 in
theorem st_gv (V : Valuation τ sig (Elt Ideal)) : x_main_v38 V = Cert.Spec.gv (V (Proc.devRef .tc main_arg5)) (V (Proc.devRef .tc main_arg13)) (V (Proc.devRef .tc main_arg14)) := by
  unfold x_main_v38 x_main_v37 x_main_v36 x_main_v35
  exact Cert.Spec.dense_eq _ _ _ _ _

set_option maxRecDepth 8192 in
theorem st_outer (V : Valuation τ sig (Elt Ideal)) : x_main_v44 V = Cert.Spec.outer (x_main_v6 V) (x_main_v38 V) := by
  funext i
  unfold x_main_v44 x_main_v43 x_main_v42 x_main_v40 x_main_v41 x_main_v39
  rw [Cert.Spec.shapeCast_outer_apply, mulf_apply, Cert.Spec.bcast_u2_apply, Cert.Spec.bcast_u1_apply, Cert.Spec.bcast_g2_apply, Cert.Spec.bcast_g1_apply]
  rfl

set_option maxRecDepth 8192 in
theorem st_cross (V : Valuation τ sig (Elt Ideal)) : x_main_v48 V = Cert.Spec.cross (x_main_v6 V) (x_main_v38 V) (V (Proc.devRef .tc main_arg15)) (V (Proc.devRef .tc main_arg16)) := by
  unfold x_main_v48 x_main_v47 x_main_v46 x_main_v45
  unfold Cert.Spec.cross
  rw [← st_outer V]
  exact Cert.Spec.dense_eq _ _ _ _ _

set_option maxRecDepth 8192 in
theorem st_x (V : Valuation τ sig (Elt Ideal)) : x_main_v51 V = Cert.Spec.x (x_main_v6 V) (x_main_v13 V) (x_main_v20 V) (x_main_v27 V) (x_main_v34 V) (x_main_v38 V) (V (Proc.devRef .tc main_arg6)) (V (Proc.devRef .tc main_arg7)) (x_main_v48 V) := by
  have hr : (fun i : (⟨1, ![16384]⟩ : Shape).Idx => (x_main_v49 V) (ix2 (i 0) (0 : Fin 1))) = (V (Proc.devRef .tc main_arg6)) := by
    funext i; unfold x_main_v49; rw [Cert.Spec.bcast_col_apply]; exact congrArg _ (eq_ix1 i).symm
  have hi : (fun i : (⟨1, ![16384]⟩ : Shape).Idx => (x_main_v50 V) (ix2 (i 0) (0 : Fin 1))) = (V (Proc.devRef .tc main_arg7)) := by
    funext i; unfold x_main_v50; rw [Cert.Spec.bcast_col_apply]; exact congrArg _ (eq_ix1 i).symm
  funext j
  unfold x_main_v51
  rw [← hr, ← hi]
  exact Cert.Spec.concat9_apply _ _ _ _ _ _ _ _ _ _ j

set_option maxRecDepth 8192 in
theorem st_y1 (V : Valuation τ sig (Elt Ideal)) : x_main_v55 V = Cert.Spec.y1 (x_main_v51 V) (V (Proc.devRef .tc main_arg17)) (V (Proc.devRef .tc main_arg18)) := by
  unfold x_main_v55 x_main_v54 x_main_v53 x_main_v52
  exact Cert.Spec.dense_eq _ _ _ _ _

set_option maxRecDepth 8192 in
theorem st_mean1 (V : Valuation τ sig (Elt Ideal)) : x_main_v58 V = Cert.Spec.colMean (x_main_v55 V) := by
  unfold x_main_v58 x_main_v57 x_main_cst_9 x_main_v56 x_main_cst
  exact Cert.Spec.colMean_eq _ _ (by decide) _ _

set_option maxRecDepth 8192 in
theorem st_var1 (V : Valuation τ sig (Elt Ideal)) : x_main_v59 V = Cert.Spec.colVar (x_main_v55 V) := by
  unfold x_main_v59 x_main_call0_call0_v1 x_main_call0_call0_v0 x_main_call0_cst_4 x_main_call0_v11 x_main_call0_v10 x_main_call0_v8 x_main_call0_v7 x_main_c_10 x_main_call0_cst_1 x_main_call0_v9 x_main_call0_cst_2 x_main_call0_v6 x_main_call0_v5 x_main_call0_v4 x_main_call0_v3 x_main_call0_v2 x_main_call0_cst_0 x_main_call0_v1 x_main_call0_v0 x_main_call0_cst x_main_call0_v12 x_main_call0_cst_3
  exact Cert.Spec.colVar_eq _ _ (by decide) _ _ _ _ _ _ rfl

set_option maxRecDepth 8192 in
theorem st_nr1 (V : Valuation τ sig (Elt Ideal)) : x_main_v75 V = Cert.Spec.normRelu (x_main_v55 V) (V (Proc.devRef .tc main_arg19)) (V (Proc.devRef .tc main_arg20)) := by
  unfold x_main_v75 x_main_call1_v0 x_main_call1_cst x_main_v74 x_main_v73 x_main_v72 x_main_v71 x_main_v70 x_main_v69 x_main_v68 x_main_v67 x_main_v66 x_main_v65 x_main_v64 x_main_v63 x_main_cst_11 x_main_v62 x_main_v61 x_main_v60
  exact Cert.Spec.normRelu_eq _ _ _ _ _ (st_mean1 V) (st_var1 V) _ _ _ _

set_option maxRecDepth 8192 in
theorem st_p1 (V : Valuation τ sig (Elt Ideal)) : x_main_v79 V = Cert.Spec.dense (x_main_v51 V) (V (Proc.devRef .tc main_arg21)) (V (Proc.devRef .tc main_arg22)) := by
  unfold x_main_v79 x_main_v78 x_main_v77 x_main_v76
  exact Cert.Spec.dense_eq _ _ _ _ _

set_option maxRecDepth 8192 in
theorem st_h1 (V : Valuation τ sig (Elt Ideal)) : x_main_v80 V = Cert.Spec.h1 (x_main_v55 V) (V (Proc.devRef .tc main_arg19)) (V (Proc.devRef .tc main_arg20)) (x_main_v51 V) (V (Proc.devRef .tc main_arg21)) (V (Proc.devRef .tc main_arg22)) := by
  unfold x_main_v80
  rw [st_nr1 V, st_p1 V]
  rfl

set_option maxRecDepth 8192 in
theorem st_y2 (V : Valuation τ sig (Elt Ideal)) : x_main_v84 V = Cert.Spec.y2 (x_main_v80 V) (V (Proc.devRef .tc main_arg23)) (V (Proc.devRef .tc main_arg24)) := by
  unfold x_main_v84 x_main_v83 x_main_v82 x_main_v81
  exact Cert.Spec.dense_eq _ _ _ _ _

set_option maxRecDepth 8192 in
theorem st_mean2 (V : Valuation τ sig (Elt Ideal)) : x_main_v87 V = Cert.Spec.colMean (x_main_v84 V) := by
  unfold x_main_v87 x_main_v86 x_main_cst_13 x_main_v85 x_main_cst_12
  exact Cert.Spec.colMean_eq _ _ (by decide) _ _

set_option maxRecDepth 8192 in
theorem st_var2 (V : Valuation τ sig (Elt Ideal)) : x_main_v88 V = Cert.Spec.colVar (x_main_v84 V) := by
  unfold x_main_v88 x_main_call2_call0_v1 x_main_call2_call0_v0 x_main_call2_cst_4 x_main_call2_v11 x_main_call2_v10 x_main_call2_v8 x_main_call2_v7 x_main_c_14 x_main_call2_cst_1 x_main_call2_v9 x_main_call2_cst_2 x_main_call2_v6 x_main_call2_v5 x_main_call2_v4 x_main_call2_v3 x_main_call2_v2 x_main_call2_cst_0 x_main_call2_v1 x_main_call2_v0 x_main_call2_cst x_main_call2_v12 x_main_call2_cst_3
  exact Cert.Spec.colVar_eq _ _ (by decide) _ _ _ _ _ _ rfl

set_option maxRecDepth 8192 in
theorem st_nr2 (V : Valuation τ sig (Elt Ideal)) : x_main_v104 V = Cert.Spec.normRelu (x_main_v84 V) (V (Proc.devRef .tc main_arg25)) (V (Proc.devRef .tc main_arg26)) := by
  unfold x_main_v104 x_main_call3_v0 x_main_call3_cst x_main_v103 x_main_v102 x_main_v101 x_main_v100 x_main_v99 x_main_v98 x_main_v97 x_main_v96 x_main_v95 x_main_v94 x_main_v93 x_main_v92 x_main_cst_15 x_main_v91 x_main_v90 x_main_v89
  exact Cert.Spec.normRelu_eq _ _ _ _ _ (st_mean2 V) (st_var2 V) _ _ _ _

set_option maxRecDepth 8192 in
theorem st_h2 (V : Valuation τ sig (Elt Ideal)) : x_main_v105 V = Cert.Spec.h2 (x_main_v84 V) (V (Proc.devRef .tc main_arg25)) (V (Proc.devRef .tc main_arg26)) (x_main_v80 V) := by
  unfold x_main_v105
  rw [st_nr2 V]
  rfl

set_option maxRecDepth 8192 in
theorem st_y3 (V : Valuation τ sig (Elt Ideal)) : x_main_v109 V = Cert.Spec.y3 (x_main_v105 V) (V (Proc.devRef .tc main_arg27)) (V (Proc.devRef .tc main_arg28)) := by
  unfold x_main_v109 x_main_v108 x_main_v107 x_main_v106
  exact Cert.Spec.dense_eq _ _ _ _ _

set_option maxRecDepth 8192 in
theorem st_mean3 (V : Valuation τ sig (Elt Ideal)) : x_main_v112 V = Cert.Spec.colMean (x_main_v109 V) := by
  unfold x_main_v112 x_main_v111 x_main_cst_17 x_main_v110 x_main_cst_16
  exact Cert.Spec.colMean_eq _ _ (by decide) _ _

set_option maxRecDepth 8192 in
theorem st_var3 (V : Valuation τ sig (Elt Ideal)) : x_main_v113 V = Cert.Spec.colVar (x_main_v109 V) := by
  unfold x_main_v113 x_main_call4_call0_v1 x_main_call4_call0_v0 x_main_call4_cst_4 x_main_call4_v11 x_main_call4_v10 x_main_call4_v8 x_main_call4_v7 x_main_c_18 x_main_call4_cst_1 x_main_call4_v9 x_main_call4_cst_2 x_main_call4_v6 x_main_call4_v5 x_main_call4_v4 x_main_call4_v3 x_main_call4_v2 x_main_call4_cst_0 x_main_call4_v1 x_main_call4_v0 x_main_call4_cst x_main_call4_v12 x_main_call4_cst_3
  exact Cert.Spec.colVar_eq _ _ (by decide) _ _ _ _ _ _ rfl

set_option maxRecDepth 8192 in
theorem st_nr3 (V : Valuation τ sig (Elt Ideal)) : x_main_v129 V = Cert.Spec.normRelu (x_main_v109 V) (V (Proc.devRef .tc main_arg29)) (V (Proc.devRef .tc main_arg30)) := by
  unfold x_main_v129 x_main_call5_v0 x_main_call5_cst x_main_v128 x_main_v127 x_main_v126 x_main_v125 x_main_v124 x_main_v123 x_main_v122 x_main_v121 x_main_v120 x_main_v119 x_main_v118 x_main_v117 x_main_cst_19 x_main_v116 x_main_v115 x_main_v114
  exact Cert.Spec.normRelu_eq _ _ _ _ _ (st_mean3 V) (st_var3 V) _ _ _ _

set_option maxRecDepth 8192 in
theorem st_p3 (V : Valuation τ sig (Elt Ideal)) : x_main_v133 V = Cert.Spec.dense (x_main_v105 V) (V (Proc.devRef .tc main_arg31)) (V (Proc.devRef .tc main_arg32)) := by
  unfold x_main_v133 x_main_v132 x_main_v131 x_main_v130
  exact Cert.Spec.dense_eq _ _ _ _ _

set_option maxRecDepth 8192 in
theorem st_h3 (V : Valuation τ sig (Elt Ideal)) : x_main_v134 V = Cert.Spec.h3 (x_main_v109 V) (V (Proc.devRef .tc main_arg29)) (V (Proc.devRef .tc main_arg30)) (x_main_v105 V) (V (Proc.devRef .tc main_arg31)) (V (Proc.devRef .tc main_arg32)) := by
  unfold x_main_v134
  rw [st_nr3 V, st_p3 V]
  rfl

set_option maxRecDepth 8192 in
theorem st_logits (V : Valuation τ sig (Elt Ideal)) : x_main_v138 V = Cert.Spec.logits (x_main_v134 V) (V (Proc.devRef .tc main_arg33)) (V (Proc.devRef .tc main_arg34)) := by
  unfold x_main_v138 x_main_v137 x_main_v136 x_main_v135
  exact Cert.Spec.dense_eq _ _ _ _ _

set_option maxRecDepth 8192 in
theorem st_out (V : Valuation τ sig (Elt Ideal)) : x_main_v139 V = Cert.Spec.out (x_main_v138 V) := by
  funext j
  unfold x_main_v139
  rw [Cert.Spec.shapeCast_col_apply]
  rfl

/-! ## The result buffer's value is the specification's result -/

set_option maxRecDepth 16384 in
set_option maxHeartbeats 4000000 in
/-- The last operation's value is the specification's result at the 35 argument arrays: the stages composed. -/
theorem value_eq (V : Valuation τ sig (Elt Ideal)) :
    x_main_v139 V = Cert.Spec.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) (V (Proc.devRef .tc main_arg31)) (V (Proc.devRef .tc main_arg32)) (V (Proc.devRef .tc main_arg33)) (V (Proc.devRef .tc main_arg34)) := by
  rw [st_out V, st_logits V, st_h3 V, st_y3 V, st_h2 V, st_y2 V, st_h1 V, st_y1 V, st_x V, st_cross V,
    st_u V, st_ge V, st_ag V, st_oc V, st_mv V, st_gv V]
  rfl

/-- On every device, from any memory with zero counters, at the ideal values: every weakly fair execution of the
    reference terminates, without fault, with the result buffer at the specification's result of the 35 argument
    arrays' launch contents, and the argument arrays unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v139) = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)) :=
  (θ_run defs _ _).mono (fun _ h c => ⟨(h c).1.trans (value_eq (launchContents m c)), (h c).2⟩) (run_chain m ρ)

end Cert.ReferenceIdeal.RefValue

end
-- ==== Proof.AlgebraicIdeal.lean ====
import proofs.«214388_g48842368090541_cont_8to1c4_19_37_alg».proof.Proof.RunValIdeal
import proofs.«214388_g48842368090541_cont_8to1c4_19_37_alg».proof.Proof.RefValue

noncomputable section

namespace Cert.Proof.Parts

open Idealize.ShloMosaic Idealize.SL.Sem
open Cert.Proof.KernelIdealSc

/-- The two results agree once the kernel's run names its result and that term is the reference's function of the
    arguments: the reference's run ends at that function of its own arguments, which are the kernel's. -/
theorem algebraic_of [Cert.KernelIdeal.Facts] [Cert.ReferenceIdeal.Facts] [Cert.Pre_input_domain.Facts]
    (vEnd : ((ℓ : Loc Cert.KernelIdeal.nD Cert.KernelIdeal.τ Cert.KernelIdeal.sig) → Buf (Elt Ideal) ℓ) → (c : Dev Cert.KernelIdeal.nD) →
      Buf (Elt Ideal) ((c.tc : Thread Cert.KernelIdeal.nD Cert.KernelIdeal.τ).loc Cert.KernelIdeal.main_v101))
    (hrun : ∀ (m : (ℓ : Loc Cert.KernelIdeal.nD Cert.KernelIdeal.τ Cert.KernelIdeal.sig) → Buf (Elt Ideal) ℓ) (ρ : Dev Cert.KernelIdeal.nD → PrngReg),
      Cert.Pre_KernelIdeal m →
      θ_run (Cert.KernelIdeal.defs (F := Ideal)) (Cert.KernelIdeal.threads (F := Ideal)) ⟨m, fun _ => 0, ρ⟩
        (fun r => ∀ c : Dev Cert.KernelIdeal.nD, r.2.mem ((c.tc : Thread Cert.KernelIdeal.nD Cert.KernelIdeal.τ).loc Cert.KernelIdeal.main_v101) = vEnd m c
          ∧ Cert.KernelIdeal.MainShape.ArgsKept m c r.2))
    (hval : ∀ (m : (ℓ : Loc Cert.KernelIdeal.nD Cert.KernelIdeal.τ Cert.KernelIdeal.sig) → Buf (Elt Ideal) ℓ), Cert.Pre_KernelIdeal m →
      ∀ c : Dev Cert.KernelIdeal.nD, vEnd m c = Cert.Spec.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) :
    Cert.algebraic_KernelIdeal_ReferenceIdeal := by
  intro m g m' g' hpre hagree
  refine ⟨vEnd m, hrun m g hpre, ?_⟩
  refine (θ_run Cert.ReferenceIdeal.defs _ _).mono (fun _ h c => ⟨(h c).1.trans ?_, (h c).2⟩) (Cert.ReferenceIdeal.RefValue.run_spec m' g')
  obtain ⟨h0, h1, h2, h3, h4, h5, h6, h7, h8, h9, h10, h11, h12, h13, h14, h15, h16, h17, h18, h19, h20, h21, h22, h23, h24, h25, h26, h27, h28, h29, h30, h31, h32, h33, h34⟩ := hagree c
  rw [h0, h1, h2, h3, h4, h5, h6, h7, h8, h9, h10, h11, h12, h13, h14, h15, h16, h17, h18, h19, h20, h21, h22, h23, h24, h25, h26, h27, h28, h29, h30, h31, h32, h33, h34]
  exact (hval m hpre c).symm

end Cert.Proof.Parts

end
-- ==== Proof.AlgebraicFinalIdeal.lean ====
import proofs.«214388_g48842368090541_cont_8to1c4_19_37_alg».proof.Proof.KernelRunValIdeal
import proofs.«214388_g48842368090541_cont_8to1c4_19_37_alg».proof.Proof.KerValueFinal
import proofs.«214388_g48842368090541_cont_8to1c4_19_37_alg».proof.Proof.PreFacts
import proofs.«214388_g48842368090541_cont_8to1c4_19_37_alg».proof.Proof.AlgebraicIdeal

noncomputable section

namespace Cert.Proof.Parts

open Idealize.ShloMosaic Idealize.SL.Sem
open Cert.KernelIdeal Cert.Proof.KernelIdealSc

/-- The idealized kernel and the reference compute the same result on the extended reals: the kernel's run ends with its
    result array at the composition of its host lines, its gathers and its four pallas_calls' results; that composition is
    the kernel's stage-by-stage specification, which the precondition's finiteness and index ranges make equal to the
    reference's; and the reference's run ends at the reference's specification of the same arguments. -/
theorem algebraic [Cert.KernelIdeal.Facts] [Cert.ReferenceIdeal.Facts] [Cert.Pre_input_domain.Facts] :
    Cert.algebraic_KernelIdeal_ReferenceIdeal :=
  algebraic_of
    (fun m c => VEnd (F := Ideal) m regAfterAll (fun d => uoOf d (fiOf m d) (fbOf m d)) (fun d => moOf d (fiOf m d) (fbOf m d))
      (fun d => coOf d (fiOf m d) (fcOf m d)) c (Proc.devRef .tc main_v101))
    (fun m ρ h => kernel_run m ρ h)
    (fun m h c => (kernel_value_spec m h c).trans (Cert.Proof.PreFacts.spec_eq_of_pre m h c))

end Cert.Proof.Parts

end
-- ==== Proof.lean ====
/-
  The certificate of a recommender tower: a SparseCore kernel that gathers, for 16384 examples, the user's and the movie's
  rows of a 100000 x 128 table and one row of a 1024 x 128 table of combined gender / age / occupation embeddings (each of
  the 32 vector subcores serves 512 examples: three fetches of 512 indices, three indexed gathers, three copies out),
  followed by four TensorCore kernels that run a three-block residual MLP with batch normalisation over the 16384 rows
  (each block's column sums and sums of squares accumulated over the grid, normalised in the next kernel), against the
  plain jnp model.

  Proved here: the whole claim. Both kernels' frames (the word-level program and its idealization: every weakly fair execution of the
  TensorCore, the two sequencers and the 32 vector subcores terminates without a fault and leaves the 35 argument
  arrays unchanged — the index ranges of the precondition are what make the three gathers name rows), the reference's
  frame (its host program run operation by operation), and that the idealization only drops three bf16 round trips.
  The equality of the two results on the extended reals: the kernel's run ends with its result at the composition of
  its host lines, its gathers and its four kernels' results, each read index by index; that composition is a stage-by-stage
  specification which, for finite inputs in the precondition's ranges, equals the reference's (batch-norm biases cancel;
  E[y²] − E[y]² is the centred second moment; x · (rsqrt(v + ε) · γ) + (β − μ · rsqrt(v + ε) · γ) is
  ((x − μ) / sqrt(v + ε)) · γ + β; the cross term is the outer product through two 0/1 selection matrices; the first layer's
  rows are permuted with its weights); and the reference's run ends at the reference's specification.
-/
import proofs.«214388_g48842368090541_cont_8to1c4_19_37_alg».proof.Defs
import proofs.«214388_g48842368090541_cont_8to1c4_19_37_alg».proof.Proof.Gen.Kernel
import proofs.«214388_g48842368090541_cont_8to1c4_19_37_alg».proof.Proof.Gen.Kernel.Skeleton
import proofs.«214388_g48842368090541_cont_8to1c4_19_37_alg».proof.Proof.Gen.Kernel.Launch
import proofs.«214388_g48842368090541_cont_8to1c4_19_37_alg».proof.Proof.Gen.Kernel.Regions
import proofs.«214388_g48842368090541_cont_8to1c4_19_37_alg».proof.Proof.Gen.Kernel.Points
import proofs.«214388_g48842368090541_cont_8to1c4_19_37_alg».proof.Proof.Gen.KernelIdeal
import proofs.«214388_g48842368090541_cont_8to1c4_19_37_alg».proof.Proof.Gen.KernelIdeal.Skeleton
import proofs.«214388_g48842368090541_cont_8to1c4_19_37_alg».proof.Proof.Gen.KernelIdeal.Launch
import proofs.«214388_g48842368090541_cont_8to1c4_19_37_alg».proof.Proof.Gen.KernelIdeal.Regions
import proofs.«214388_g48842368090541_cont_8to1c4_19_37_alg».proof.Proof.Gen.KernelIdeal.Points
import proofs.«214388_g48842368090541_cont_8to1c4_19_37_alg».proof.Proof.Gen.ReferenceIdeal
import proofs.«214388_g48842368090541_cont_8to1c4_19_37_alg».proof.Proof.Gen.Pre_input_domain
import proofs.«214388_g48842368090541_cont_8to1c4_19_37_alg».proof.Proof.Preserves
import proofs.«214388_g48842368090541_cont_8to1c4_19_37_alg».proof.Proof.RefRun
import proofs.«214388_g48842368090541_cont_8to1c4_19_37_alg».proof.Proof.FramesIdeal
import proofs.«214388_g48842368090541_cont_8to1c4_19_37_alg».proof.Proof.FramesBits
import proofs.«214388_g48842368090541_cont_8to1c4_19_37_alg».proof.Proof.AlgebraicFinalIdeal
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Cert.Proof.Parts.frame_k, Cert.Proof.Parts.frame_ki, Cert.ReferenceIdeal.RefRun.frame_ri, Cert.Proof.Parts.preserves, Cert.Proof.Parts.algebraic⟩

end Cert.Proof

end
